-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x17x2 : Shape := ⟨3, ![16384, 17, 2]⟩
abbrev S16384x17 : Shape := ⟨2, ![16384, 17]⟩
abbrev S16384x14x2 : Shape := ⟨3, ![16384, 14, 2]⟩
abbrev S16384x14 : Shape := ⟨2, ![16384, 14]⟩
abbrev S_ : Shape := ⟨0, ![]⟩

class Facts : Prop where
  bcast_S_S16384x17x2 : S_.BroadcastsInDim S16384x17x2 (![] : Fin 0 → Fin S16384x17x2.rank)
  reducesTo_S16384x17x2_S_d0_1_2 : S16384x17x2.ReducesTo [0, 1, 2] S_
  h_S_ : 0 < S_.numel
  bcast_S_S16384x17 : S_.BroadcastsInDim S16384x17 (![] : Fin 0 → Fin S16384x17.rank)
  reducesTo_S16384x17_S_d0_1 : S16384x17.ReducesTo [0, 1] S_
  bcast_S_S16384x14x2 : S_.BroadcastsInDim S16384x14x2 (![] : Fin 0 → Fin S16384x14x2.rank)
  reducesTo_S16384x14x2_S_d0_1_2 : S16384x14x2.ReducesTo [0, 1, 2] S_
  bcast_S_S16384x14 : S_.BroadcastsInDim S16384x14 (![] : Fin 0 → Fin S16384x14.rank)
  reducesTo_S16384x14_S_d0_1 : S16384x14.ReducesTo [0, 1] S_

variable [Facts]

def fn_part1 {F : FTy → Type} [FloatOps F] (main_v13 : IVec S_ 1) (main_v16 : IVec S16384x14 1) : IVec S_ 1 :=
  let main_c_5 : IVec S_ 1 := constantI S_ 1 1#1
  let main_v17 : IVec S_ 1 := (fun x v => Host.reduce IntOp.andi x v reducesTo_S16384x14_S_d0_1 h_S_) main_v16 main_c_5
  let main_v18 : IVec S_ 1 := andi main_v13 main_v17
  main_v18

def fn {F : FTy → Type} [FloatOps F] (main_arg0 : FVec F S16384x17x2 .f32) (main_arg1 : FVec F S16384x17 .f32) (main_arg2 : FVec F S16384x14x2 .f32) (main_arg3 : FVec F S16384x14 .f32) : IVec S_ 1 :=
  let main_v0 : FVec F S16384x17x2 .f32 := Host.absf main_arg0
  let main_cst : FVec F S_ .f32 := constant S_ .f32 0x7F800000#32
  let main_v1 : FVec F S16384x17x2 .f32 := broadcastInDim S16384x17x2 ![] bcast_S_S16384x17x2 main_cst
  let main_v2 : IVec S16384x17x2 1 := cmpf .olt main_v0 main_v1
  let main_c : IVec S_ 1 := constantI S_ 1 1#1
  let main_v3 : IVec S_ 1 := (fun x v => Host.reduce IntOp.andi x v reducesTo_S16384x17x2_S_d0_1_2 h_S_) main_v2 main_c
  let main_v4 : FVec F S16384x17 .f32 := Host.absf main_arg1
  let main_cst_0 : FVec F S_ .f32 := constant S_ .f32 0x7F800000#32
  let main_v5 : FVec F S16384x17 .f32 := broadcastInDim S16384x17 ![] bcast_S_S16384x17 main_cst_0
  let main_v6 : IVec S16384x17 1 := cmpf .olt main_v4 main_v5
  let main_c_1 : IVec S_ 1 := constantI S_ 1 1#1
  let main_v7 : IVec S_ 1 := (fun x v => Host.reduce IntOp.andi x v reducesTo_S16384x17_S_d0_1 h_S_) main_v6 main_c_1
  let main_v8 : IVec S_ 1 := andi main_v3 main_v7
  let main_v9 : FVec F S16384x14x2 .f32 := Host.absf main_arg2
  let main_cst_2 : FVec F S_ .f32 := constant S_ .f32 0x7F800000#32
  let main_v10 : FVec F S16384x14x2 .f32 := broadcastInDim S16384x14x2 ![] bcast_S_S16384x14x2 main_cst_2
  let main_v11 : IVec S16384x14x2 1 := cmpf .olt main_v9 main_v10
  let main_c_3 : IVec S_ 1 := constantI S_ 1 1#1
  let main_v12 : IVec S_ 1 := (fun x v => Host.reduce IntOp.andi x v reducesTo_S16384x14x2_S_d0_1_2 h_S_) main_v11 main_c_3
  let main_v13 : IVec S_ 1 := andi main_v8 main_v12
  let main_v14 : FVec F S16384x14 .f32 := Host.absf main_arg3
  let main_cst_4 : FVec F S_ .f32 := constant S_ .f32 0x7F800000#32
  let main_v15 : FVec F S16384x14 .f32 := broadcastInDim S16384x14 ![] bcast_S_S16384x14 main_cst_4
  let main_v16 : IVec S16384x14 1 := cmpf .olt main_v14 main_v15
  fn_part1 (F := F) main_v13 main_v16
-- ==== Kernel.lean ====
abbrev S16384x17x2 : Shape := ⟨3, ![16384, 17, 2]⟩
abbrev S16384x17 : Shape := ⟨2, ![16384, 17]⟩
abbrev S16384x14x2 : Shape := ⟨3, ![16384, 14, 2]⟩
abbrev S16384x14 : Shape := ⟨2, ![16384, 14]⟩
abbrev S17x16384x2 : Shape := ⟨3, ![17, 16384, 2]⟩
abbrev S17x128x128x2 : Shape := ⟨4, ![17, 128, 128, 2]⟩
abbrev S17x128x2x128 : Shape := ⟨4, ![17, 128, 2, 128]⟩
abbrev S14x16384x2 : Shape := ⟨3, ![14, 16384, 2]⟩
abbrev S14x128x128x2 : Shape := ⟨4, ![14, 128, 128, 2]⟩
abbrev S14x128x2x128 : Shape := ⟨4, ![14, 128, 2, 128]⟩
abbrev S17x16384 : Shape := ⟨2, ![17, 16384]⟩
abbrev S17x128x128 : Shape := ⟨3, ![17, 128, 128]⟩
abbrev S14x16384 : Shape := ⟨2, ![14, 16384]⟩
abbrev S14x128x128 : Shape := ⟨3, ![14, 128, 128]⟩
abbrev S9x2x128x8x128 : Shape := ⟨5, ![9, 2, 128, 8, 128]⟩
abbrev S128x128 : Shape := ⟨2, ![128, 128]⟩
abbrev S_ : Shape := ⟨0, ![]⟩
abbrev S1x128x1x128 : Shape := ⟨4, ![1, 128, 1, 128]⟩
abbrev S1x128x128 : Shape := ⟨3, ![1, 128, 128]⟩
abbrev S1x1x128x1x128 : Shape := ⟨5, ![1, 1, 128, 1, 128]⟩
abbrev S128x128x2x8x9 : Shape := ⟨5, ![128, 128, 2, 8, 9]⟩
abbrev S16384x16x9 : Shape := ⟨3, ![16384, 16, 9]⟩
abbrev S16384x14x9 : Shape := ⟨3, ![16384, 14, 9]⟩

abbrev nBuf : Table → Nat
  | .hbm => 18
  | .local .scVector .vmem => 3
  | _ => 0

abbrev bufTy : (tb : Table) → Fin (nBuf tb) → BufTy
  | .hbm, ⟨0, _⟩ => ⟨S16384x17x2, .f32⟩
  | .hbm, ⟨1, _⟩ => ⟨S16384x17, .f32⟩
  | .hbm, ⟨2, _⟩ => ⟨S16384x14x2, .f32⟩
  | .hbm, ⟨3, _⟩ => ⟨S16384x14, .f32⟩
  | .hbm, ⟨4, _⟩ => ⟨S17x16384x2, .f32⟩
  | .hbm, ⟨5, _⟩ => ⟨S17x128x128x2, .f32⟩
  | .hbm, ⟨6, _⟩ => ⟨S17x128x2x128, .f32⟩
  | .hbm, ⟨7, _⟩ => ⟨S14x16384x2, .f32⟩
  | .hbm, ⟨8, _⟩ => ⟨S14x128x128x2, .f32⟩
  | .hbm, ⟨9, _⟩ => ⟨S14x128x2x128, .f32⟩
  | .hbm, ⟨10, _⟩ => ⟨S17x16384, .f32⟩
  | .hbm, ⟨11, _⟩ => ⟨S17x128x128, .f32⟩
  | .hbm, ⟨12, _⟩ => ⟨S14x16384, .f32⟩
  | .hbm, ⟨13, _⟩ => ⟨S14x128x128, .f32⟩
  | .hbm, ⟨14, _⟩ => ⟨S9x2x128x8x128, .f32⟩
  | .hbm, ⟨15, _⟩ => ⟨S128x128x2x8x9, .f32⟩
  | .hbm, ⟨16, _⟩ => ⟨S16384x16x9, .f32⟩
  | .hbm, ⟨17, _⟩ => ⟨S16384x14x9, .f32⟩
  | .local .scVector .vmem, ⟨0, _⟩ => ⟨S128x128, .f32⟩
  | .local .scVector .vmem, ⟨1, _⟩ => ⟨S128x128, .f32⟩
  | .local .scVector .vmem, ⟨2, _⟩ => ⟨S128x128, .f32⟩
  | _, _ => ⟨S16384x17x2, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 6 → Bool
  | ⟨0, _⟩ => false
  | ⟨1, _⟩ => false
  | ⟨2, _⟩ => false
  | ⟨3, _⟩ => false
  | ⟨4, _⟩ => false
  | ⟨5, _⟩ => false
  | _ => false

abbrev sig : RefSig :=
  ofTables nBuf rfl bufTy 4 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v2_scv : Ref sig .scVector := ⟨.hbm, 6, rfl⟩
abbrev main_v7_scv : Ref sig .scVector := ⟨.hbm, 11, rfl⟩
abbrev main_v5_scv : Ref sig .scVector := ⟨.hbm, 9, rfl⟩
abbrev main_v9_scv : Ref sig .scVector := ⟨.hbm, 13, rfl⟩
abbrev main_v10_scv : Ref sig .scVector := ⟨.hbm, 14, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  transposes_S16384x17x2_S17x16384x2_1_0_2 : S16384x17x2.Transposes [1, 0, 2] S17x16384x2
  shapeCasts_S17x16384x2_S17x128x128x2 : S17x16384x2.ShapeCasts S17x128x128x2
  transposes_S17x128x128x2_S17x128x2x128_0_1_3_2 : S17x128x128x2.Transposes [0, 1, 3, 2] S17x128x2x128
  transposes_S16384x14x2_S14x16384x2_1_0_2 : S16384x14x2.Transposes [1, 0, 2] S14x16384x2
  shapeCasts_S14x16384x2_S14x128x128x2 : S14x16384x2.ShapeCasts S14x128x128x2
  transposes_S14x128x128x2_S14x128x2x128_0_1_3_2 : S14x128x128x2.Transposes [0, 1, 3, 2] S14x128x2x128
  transposes_S16384x17_S17x16384_1_0 : S16384x17.Transposes [1, 0] S17x16384
  shapeCasts_S17x16384_S17x128x128 : S17x16384.ShapeCasts S17x128x128
  transposes_S16384x14_S14x16384_1_0 : S16384x14.Transposes [1, 0] S14x16384
  shapeCasts_S14x16384_S14x128x128 : S14x16384.ShapeCasts S14x128x128
  inb_S17x128x2x128_S1x128x1x128_5_0_0_0 : ∀ a, (![5, 0, 0, 0] : Fin 4 → Nat) a + S1x128x1x128.size a ≤ S17x128x2x128.size a
  squeezes_S1x128x1x128_S128x128 : S1x128x1x128.Squeezes S128x128
  inb_S17x128x2x128_S1x128x1x128_5_0_1_0 : ∀ a, (![5, 0, 1, 0] : Fin 4 → Nat) a + S1x128x1x128.size a ≤ S17x128x2x128.size a
  inb_S17x128x128_S1x128x128_5_0_0 : ∀ a, (![5, 0, 0] : Fin 3 → Nat) a + S1x128x128.size a ≤ S17x128x128.size a
  squeezes_S1x128x128_S128x128 : S1x128x128.Squeezes S128x128
  inb_S17x128x2x128_S1x128x1x128_6_0_0_0 : ∀ a, (![6, 0, 0, 0] : Fin 4 → Nat) a + S1x128x1x128.size a ≤ S17x128x2x128.size a
  inb_S17x128x2x128_S1x128x1x128_6_0_1_0 : ∀ a, (![6, 0, 1, 0] : Fin 4 → Nat) a + S1x128x1x128.size a ≤ S17x128x2x128.size a
  inb_S17x128x128_S1x128x128_6_0_0 : ∀ a, (![6, 0, 0] : Fin 3 → Nat) a + S1x128x128.size a ≤ S17x128x128.size a
  inb_S17x128x2x128_S1x128x1x128_11_0_0_0 : ∀ a, (![11, 0, 0, 0] : Fin 4 → Nat) a + S1x128x1x128.size a ≤ S17x128x2x128.size a
  inb_S17x128x2x128_S1x128x1x128_11_0_1_0 : ∀ a, (![11, 0, 1, 0] : Fin 4 → Nat) a + S1x128x1x128.size a ≤ S17x128x2x128.size a
  inb_S17x128x128_S1x128x128_11_0_0 : ∀ a, (![11, 0, 0] : Fin 3 → Nat) a + S1x128x128.size a ≤ S17x128x128.size a
  inb_S17x128x2x128_S1x128x1x128_12_0_0_0 : ∀ a, (![12, 0, 0, 0] : Fin 4 → Nat) a + S1x128x1x128.size a ≤ S17x128x2x128.size a
  inb_S17x128x2x128_S1x128x1x128_12_0_1_0 : ∀ a, (![12, 0, 1, 0] : Fin 4 → Nat) a + S1x128x1x128.size a ≤ S17x128x2x128.size a
  inb_S17x128x128_S1x128x128_12_0_0 : ∀ a, (![12, 0, 0] : Fin 3 → Nat) a + S1x128x128.size a ≤ S17x128x128.size a
  inb_S17x128x2x128_S1x128x1x128_7_0_0_0 : ∀ a, (![7, 0, 0, 0] : Fin 4 → Nat) a + S1x128x1x128.size a ≤ S17x128x2x128.size a
  inb_S17x128x2x128_S1x128x1x128_7_0_1_0 : ∀ a, (![7, 0, 1, 0] : Fin 4 → Nat) a + S1x128x1x128.size a ≤ S17x128x2x128.size a
  inb_S17x128x128_S1x128x128_7_0_0 : ∀ a, (![7, 0, 0] : Fin 3 → Nat) a + S1x128x128.size a ≤ S17x128x128.size a
  inb_S17x128x2x128_S1x128x1x128_8_0_0_0 : ∀ a, (![8, 0, 0, 0] : Fin 4 → Nat) a + S1x128x1x128.size a ≤ S17x128x2x128.size a
  inb_S17x128x2x128_S1x128x1x128_8_0_1_0 : ∀ a, (![8, 0, 1, 0] : Fin 4 → Nat) a + S1x128x1x128.size a ≤ S17x128x2x128.size a
  inb_S17x128x128_S1x128x128_8_0_0 : ∀ a, (![8, 0, 0] : Fin 3 → Nat) a + S1x128x128.size a ≤ S17x128x128.size a
  inb_S17x128x2x128_S1x128x1x128_13_0_0_0 : ∀ a, (![13, 0, 0, 0] : Fin 4 → Nat) a + S1x128x1x128.size a ≤ S17x128x2x128.size a
  inb_S17x128x2x128_S1x128x1x128_13_0_1_0 : ∀ a, (![13, 0, 1, 0] : Fin 4 → Nat) a + S1x128x1x128.size a ≤ S17x128x2x128.size a
  inb_S17x128x128_S1x128x128_13_0_0 : ∀ a, (![13, 0, 0] : Fin 3 → Nat) a + S1x128x128.size a ≤ S17x128x128.size a
  inb_S17x128x2x128_S1x128x1x128_14_0_0_0 : ∀ a, (![14, 0, 0, 0] : Fin 4 → Nat) a + S1x128x1x128.size a ≤ S17x128x2x128.size a
  inb_S17x128x2x128_S1x128x1x128_14_0_1_0 : ∀ a, (![14, 0, 1, 0] : Fin 4 → Nat) a + S1x128x1x128.size a ≤ S17x128x2x128.size a
  inb_S17x128x128_S1x128x128_14_0_0 : ∀ a, (![14, 0, 0] : Fin 3 → Nat) a + S1x128x128.size a ≤ S17x128x128.size a
  inb_S17x128x2x128_S1x128x1x128_0_0_0_0 : ∀ a, (![0, 0, 0, 0] : Fin 4 → Nat) a + S1x128x1x128.size a ≤ S17x128x2x128.size a
  inb_S17x128x2x128_S1x128x1x128_0_0_1_0 : ∀ a, (![0, 0, 1, 0] : Fin 4 → Nat) a + S1x128x1x128.size a ≤ S17x128x2x128.size a
  inb_S17x128x128_S1x128x128_0_0_0 : ∀ a, (![0, 0, 0] : Fin 3 → Nat) a + S1x128x128.size a ≤ S17x128x128.size a
  inb_S14x128x2x128_S1x128x1x128_0_0_0_0 : ∀ a, (![0, 0, 0, 0] : Fin 4 → Nat) a + S1x128x1x128.size a ≤ S14x128x2x128.size a
  inb_S14x128x2x128_S1x128x1x128_0_0_1_0 : ∀ a, (![0, 0, 1, 0] : Fin 4 → Nat) a + S1x128x1x128.size a ≤ S14x128x2x128.size a
  inb_S14x128x128_S1x128x128_0_0_0 : ∀ a, (![0, 0, 0] : Fin 3 → Nat) a + S1x128x128.size a ≤ S14x128x128.size a
  inb_S14x128x2x128_S1x128x1x128_1_0_0_0 : ∀ a, (![1, 0, 0, 0] : Fin 4 → Nat) a + S1x128x1x128.size a ≤ S14x128x2x128.size a
  inb_S14x128x2x128_S1x128x1x128_1_0_1_0 : ∀ a, (![1, 0, 1, 0] : Fin 4 → Nat) a + S1x128x1x128.size a ≤ S14x128x2x128.size a
  inb_S14x128x2x128_S1x128x1x128_8_0_0_0 : ∀ a, (![8, 0, 0, 0] : Fin 4 → Nat) a + S1x128x1x128.size a ≤ S14x128x2x128.size a
  inb_S14x128x2x128_S1x128x1x128_8_0_1_0 : ∀ a, (![8, 0, 1, 0] : Fin 4 → Nat) a + S1x128x1x128.size a ≤ S14x128x2x128.size a
  inb_S14x128x128_S1x128x128_8_0_0 : ∀ a, (![8, 0, 0] : Fin 3 → Nat) a + S1x128x128.size a ≤ S14x128x128.size a
  inb_S14x128x2x128_S1x128x1x128_9_0_0_0 : ∀ a, (![9, 0, 0, 0] : Fin 4 → Nat) a + S1x128x1x128.size a ≤ S14x128x2x128.size a
  inb_S14x128x2x128_S1x128x1x128_9_0_1_0 : ∀ a, (![9, 0, 1, 0] : Fin 4 → Nat) a + S1x128x1x128.size a ≤ S14x128x2x128.size a
  inb_S14x128x128_S1x128x128_9_0_0 : ∀ a, (![9, 0, 0] : Fin 3 → Nat) a + S1x128x128.size a ≤ S14x128x128.size a
  inb_S17x128x2x128_S1x128x1x128_15_0_1_0 : ∀ a, (![15, 0, 1, 0] : Fin 4 → Nat) a + S1x128x1x128.size a ≤ S17x128x2x128.size a
  inb_S17x128x128_S1x128x128_15_0_0 : ∀ a, (![15, 0, 0] : Fin 3 → Nat) a + S1x128x128.size a ≤ S17x128x128.size a
  inb_S14x128x2x128_S1x128x1x128_6_0_0_0 : ∀ a, (![6, 0, 0, 0] : Fin 4 → Nat) a + S1x128x1x128.size a ≤ S14x128x2x128.size a
  inb_S14x128x2x128_S1x128x1x128_6_0_1_0 : ∀ a, (![6, 0, 1, 0] : Fin 4 → Nat) a + S1x128x1x128.size a ≤ S14x128x2x128.size a
  inb_S14x128x128_S1x128x128_6_0_0 : ∀ a, (![6, 0, 0] : Fin 3 → Nat) a + S1x128x128.size a ≤ S14x128x128.size a
  inb_S14x128x2x128_S1x128x1x128_7_0_0_0 : ∀ a, (![7, 0, 0, 0] : Fin 4 → Nat) a + S1x128x1x128.size a ≤ S14x128x2x128.size a
  inb_S14x128x2x128_S1x128x1x128_2_0_1_0 : ∀ a, (![2, 0, 1, 0] : Fin 4 → Nat) a + S1x128x1x128.size a ≤ S14x128x2x128.size a
  inb_S14x128x128_S1x128x128_2_0_0 : ∀ a, (![2, 0, 0] : Fin 3 → Nat) a + S1x128x128.size a ≤ S14x128x128.size a
  inb_S14x128x2x128_S1x128x1x128_3_0_0_0 : ∀ a, (![3, 0, 0, 0] : Fin 4 → Nat) a + S1x128x1x128.size a ≤ S14x128x2x128.size a
  inb_S14x128x2x128_S1x128x1x128_3_0_1_0 : ∀ a, (![3, 0, 1, 0] : Fin 4 → Nat) a + S1x128x1x128.size a ≤ S14x128x2x128.size a
  inb_S14x128x128_S1x128x128_3_0_0 : ∀ a, (![3, 0, 0] : Fin 3 → Nat) a + S1x128x128.size a ≤ S14x128x128.size a
  inb_S17x128x2x128_S1x128x1x128_10_0_0_0 : ∀ a, (![10, 0, 0, 0] : Fin 4 → Nat) a + S1x128x1x128.size a ≤ S17x128x2x128.size a
  inb_S17x128x2x128_S1x128x1x128_10_0_1_0 : ∀ a, (![10, 0, 1, 0] : Fin 4 → Nat) a + S1x128x1x128.size a ≤ S17x128x2x128.size a
  inb_S17x128x128_S1x128x128_10_0_0 : ∀ a, (![10, 0, 0] : Fin 3 → Nat) a + S1x128x128.size a ≤ S17x128x128.size a
  inb_S14x128x2x128_S1x128x1x128_4_0_0_0 : ∀ a, (![4, 0, 0, 0] : Fin 4 → Nat) a + S1x128x1x128.size a ≤ S14x128x2x128.size a
  inb_S14x128x2x128_S1x128x1x128_4_0_1_0 : ∀ a, (![4, 0, 1, 0] : Fin 4 → Nat) a + S1x128x1x128.size a ≤ S14x128x2x128.size a
  inb_S14x128x128_S1x128x128_4_0_0 : ∀ a, (![4, 0, 0] : Fin 3 → Nat) a + S1x128x128.size a ≤ S14x128x128.size a
  inb_S14x128x2x128_S1x128x1x128_5_0_0_0 : ∀ a, (![5, 0, 0, 0] : Fin 4 → Nat) a + S1x128x1x128.size a ≤ S14x128x2x128.size a
  inb_S14x128x2x128_S1x128x1x128_5_0_1_0 : ∀ a, (![5, 0, 1, 0] : Fin 4 → Nat) a + S1x128x1x128.size a ≤ S14x128x2x128.size a
  inb_S14x128x128_S1x128x128_5_0_0 : ∀ a, (![5, 0, 0] : Fin 3 → Nat) a + S1x128x128.size a ≤ S14x128x128.size a
  inb_S17x128x2x128_S1x128x1x128_15_0_0_0 : ∀ a, (![15, 0, 0, 0] : Fin 4 → Nat) a + S1x128x1x128.size a ≤ S17x128x2x128.size a
  inb_S14x128x128_S1x128x128_1_0_0 : ∀ a, (![1, 0, 0] : Fin 3 → Nat) a + S1x128x128.size a ≤ S14x128x128.size a
  inb_S17x128x2x128_S1x128x1x128_9_0_0_0 : ∀ a, (![9, 0, 0, 0] : Fin 4 → Nat) a + S1x128x1x128.size a ≤ S17x128x2x128.size a
  inb_S17x128x2x128_S1x128x1x128_9_0_1_0 : ∀ a, (![9, 0, 1, 0] : Fin 4 → Nat) a + S1x128x1x128.size a ≤ S17x128x2x128.size a
  inb_S17x128x128_S1x128x128_9_0_0 : ∀ a, (![9, 0, 0] : Fin 3 → Nat) a + S1x128x128.size a ≤ S17x128x128.size a
  inb_S14x128x2x128_S1x128x1x128_2_0_0_0 : ∀ a, (![2, 0, 0, 0] : Fin 4 → Nat) a + S1x128x1x128.size a ≤ S14x128x2x128.size a
  inb_S14x128x2x128_S1x128x1x128_10_0_0_0 : ∀ a, (![10, 0, 0, 0] : Fin 4 → Nat) a + S1x128x1x128.size a ≤ S14x128x2x128.size a
  inb_S14x128x2x128_S1x128x1x128_10_0_1_0 : ∀ a, (![10, 0, 1, 0] : Fin 4 → Nat) a + S1x128x1x128.size a ≤ S14x128x2x128.size a
  inb_S14x128x128_S1x128x128_10_0_0 : ∀ a, (![10, 0, 0] : Fin 3 → Nat) a + S1x128x128.size a ≤ S14x128x128.size a
  inb_S14x128x2x128_S1x128x1x128_11_0_0_0 : ∀ a, (![11, 0, 0, 0] : Fin 4 → Nat) a + S1x128x1x128.size a ≤ S14x128x2x128.size a
  inb_S14x128x2x128_S1x128x1x128_11_0_1_0 : ∀ a, (![11, 0, 1, 0] : Fin 4 → Nat) a + S1x128x1x128.size a ≤ S14x128x2x128.size a
  inb_S14x128x128_S1x128x128_11_0_0 : ∀ a, (![11, 0, 0] : Fin 3 → Nat) a + S1x128x128.size a ≤ S14x128x128.size a
  inb_S14x128x2x128_S1x128x1x128_12_0_0_0 : ∀ a, (![12, 0, 0, 0] : Fin 4 → Nat) a + S1x128x1x128.size a ≤ S14x128x2x128.size a
  inb_S14x128x2x128_S1x128x1x128_12_0_1_0 : ∀ a, (![12, 0, 1, 0] : Fin 4 → Nat) a + S1x128x1x128.size a ≤ S14x128x2x128.size a
  inb_S14x128x128_S1x128x128_12_0_0 : ∀ a, (![12, 0, 0] : Fin 3 → Nat) a + S1x128x128.size a ≤ S14x128x128.size a
  inb_S14x128x2x128_S1x128x1x128_13_0_0_0 : ∀ a, (![13, 0, 0, 0] : Fin 4 → Nat) a + S1x128x1x128.size a ≤ S14x128x2x128.size a
  inb_S14x128x2x128_S1x128x1x128_13_0_1_0 : ∀ a, (![13, 0, 1, 0] : Fin 4 → Nat) a + S1x128x1x128.size a ≤ S14x128x2x128.size a
  inb_S14x128x128_S1x128x128_13_0_0 : ∀ a, (![13, 0, 0] : Fin 3 → Nat) a + S1x128x128.size a ≤ S14x128x128.size a
  inb_S14x128x2x128_S1x128x1x128_7_0_1_0 : ∀ a, (![7, 0, 1, 0] : Fin 4 → Nat) a + S1x128x1x128.size a ≤ S14x128x2x128.size a
  inb_S14x128x128_S1x128x128_7_0_0 : ∀ a, (![7, 0, 0] : Fin 3 → Nat) a + S1x128x128.size a ≤ S14x128x128.size a
  inb_S17x128x2x128_S1x128x1x128_16_0_0_0 : ∀ a, (![16, 0, 0, 0] : Fin 4 → Nat) a + S1x128x1x128.size a ≤ S17x128x2x128.size a
  inb_S17x128x2x128_S1x128x1x128_16_0_1_0 : ∀ a, (![16, 0, 1, 0] : Fin 4 → Nat) a + S1x128x1x128.size a ≤ S17x128x2x128.size a
  inb_S17x128x128_S1x128x128_16_0_0 : ∀ a, (![16, 0, 0] : Fin 3 → Nat) a + S1x128x128.size a ≤ S17x128x128.size a
  inb_S9x2x128x8x128_S1x1x128x1x128_3_0_0_0_0 : ∀ a, (![3, 0, 0, 0, 0] : Fin 5 → Nat) a + S1x1x128x1x128.size a ≤ S9x2x128x8x128.size a
  squeezes_S1x1x128x1x128_S128x128 : S1x1x128x1x128.Squeezes S128x128
  inb_S9x2x128x8x128_S1x1x128x1x128_3_1_0_0_0 : ∀ a, (![3, 1, 0, 0, 0] : Fin 5 → Nat) a + S1x1x128x1x128.size a ≤ S9x2x128x8x128.size a
  inb_S9x2x128x8x128_S1x1x128x1x128_3_1_0_2_0 : ∀ a, (![3, 1, 0, 2, 0] : Fin 5 → Nat) a + S1x1x128x1x128.size a ≤ S9x2x128x8x128.size a
  inb_S9x2x128x8x128_S1x1x128x1x128_5_1_0_4_0 : ∀ a, (![5, 1, 0, 4, 0] : Fin 5 → Nat) a + S1x1x128x1x128.size a ≤ S9x2x128x8x128.size a
  inb_S9x2x128x8x128_S1x1x128x1x128_4_0_0_0_0 : ∀ a, (![4, 0, 0, 0, 0] : Fin 5 → Nat) a + S1x1x128x1x128.size a ≤ S9x2x128x8x128.size a
  inb_S9x2x128x8x128_S1x1x128x1x128_4_1_0_0_0 : ∀ a, (![4, 1, 0, 0, 0] : Fin 5 → Nat) a + S1x1x128x1x128.size a ≤ S9x2x128x8x128.size a
  inb_S9x2x128x8x128_S1x1x128x1x128_4_1_0_2_0 : ∀ a, (![4, 1, 0, 2, 0] : Fin 5 → Nat) a + S1x1x128x1x128.size a ≤ S9x2x128x8x128.size a
  inb_S9x2x128x8x128_S1x1x128x1x128_6_1_0_4_0 : ∀ a, (![6, 1, 0, 4, 0] : Fin 5 → Nat) a + S1x1x128x1x128.size a ≤ S9x2x128x8x128.size a
  inb_S9x2x128x8x128_S1x1x128x1x128_7_0_0_0_0 : ∀ a, (![7, 0, 0, 0, 0] : Fin 5 → Nat) a + S1x1x128x1x128.size a ≤ S9x2x128x8x128.size a
  inb_S9x2x128x8x128_S1x1x128x1x128_7_1_0_0_0 : ∀ a, (![7, 1, 0, 0, 0] : Fin 5 → Nat) a + S1x1x128x1x128.size a ≤ S9x2x128x8x128.size a
  inb_S9x2x128x8x128_S1x1x128x1x128_7_1_0_2_0 : ∀ a, (![7, 1, 0, 2, 0] : Fin 5 → Nat) a + S1x1x128x1x128.size a ≤ S9x2x128x8x128.size a
  inb_S9x2x128x8x128_S1x1x128x1x128_8_1_0_4_0 : ∀ a, (![8, 1, 0, 4, 0] : Fin 5 → Nat) a + S1x1x128x1x128.size a ≤ S9x2x128x8x128.size a
  inb_S9x2x128x8x128_S1x1x128x1x128_3_0_0_2_0 : ∀ a, (![3, 0, 0, 2, 0] : Fin 5 → Nat) a + S1x1x128x1x128.size a ≤ S9x2x128x8x128.size a
  inb_S9x2x128x8x128_S1x1x128x1x128_5_1_0_0_0 : ∀ a, (![5, 1, 0, 0, 0] : Fin 5 → Nat) a + S1x1x128x1x128.size a ≤ S9x2x128x8x128.size a
  inb_S9x2x128x8x128_S1x1x128x1x128_3_1_0_3_0 : ∀ a, (![3, 1, 0, 3, 0] : Fin 5 → Nat) a + S1x1x128x1x128.size a ≤ S9x2x128x8x128.size a
  inb_S9x2x128x8x128_S1x1x128x1x128_5_1_0_5_0 : ∀ a, (![5, 1, 0, 5, 0] : Fin 5 → Nat) a + S1x1x128x1x128.size a ≤ S9x2x128x8x128.size a
  inb_S9x2x128x8x128_S1x1x128x1x128_4_0_0_2_0 : ∀ a, (![4, 0, 0, 2, 0] : Fin 5 → Nat) a + S1x1x128x1x128.size a ≤ S9x2x128x8x128.size a
  inb_S9x2x128x8x128_S1x1x128x1x128_6_1_0_0_0 : ∀ a, (![6, 1, 0, 0, 0] : Fin 5 → Nat) a + S1x1x128x1x128.size a ≤ S9x2x128x8x128.size a
  inb_S9x2x128x8x128_S1x1x128x1x128_4_1_0_3_0 : ∀ a, (![4, 1, 0, 3, 0] : Fin 5 → Nat) a + S1x1x128x1x128.size a ≤ S9x2x128x8x128.size a
  inb_S9x2x128x8x128_S1x1x128x1x128_6_1_0_5_0 : ∀ a, (![6, 1, 0, 5, 0] : Fin 5 → Nat) a + S1x1x128x1x128.size a ≤ S9x2x128x8x128.size a
  inb_S9x2x128x8x128_S1x1x128x1x128_7_0_0_2_0 : ∀ a, (![7, 0, 0, 2, 0] : Fin 5 → Nat) a + S1x1x128x1x128.size a ≤ S9x2x128x8x128.size a
  inb_S9x2x128x8x128_S1x1x128x1x128_8_1_0_0_0 : ∀ a, (![8, 1, 0, 0, 0] : Fin 5 → Nat) a + S1x1x128x1x128.size a ≤ S9x2x128x8x128.size a
  inb_S9x2x128x8x128_S1x1x128x1x128_7_1_0_3_0 : ∀ a, (![7, 1, 0, 3, 0] : Fin 5 → Nat) a + S1x1x128x1x128.size a ≤ S9x2x128x8x128.size a
  inb_S9x2x128x8x128_S1x1x128x1x128_8_1_0_5_0 : ∀ a, (![8, 1, 0, 5, 0] : Fin 5 → Nat) a + S1x1x128x1x128.size a ≤ S9x2x128x8x128.size a
  inb_S9x2x128x8x128_S1x1x128x1x128_3_0_0_4_0 : ∀ a, (![3, 0, 0, 4, 0] : Fin 5 → Nat) a + S1x1x128x1x128.size a ≤ S9x2x128x8x128.size a
  inb_S9x2x128x8x128_S1x1x128x1x128_3_1_0_1_0 : ∀ a, (![3, 1, 0, 1, 0] : Fin 5 → Nat) a + S1x1x128x1x128.size a ≤ S9x2x128x8x128.size a
  inb_S9x2x128x8x128_S1x1x128x1x128_5_1_0_2_0 : ∀ a, (![5, 1, 0, 2, 0] : Fin 5 → Nat) a + S1x1x128x1x128.size a ≤ S9x2x128x8x128.size a
  inb_S9x2x128x8x128_S1x1x128x1x128_4_0_0_4_0 : ∀ a, (![4, 0, 0, 4, 0] : Fin 5 → Nat) a + S1x1x128x1x128.size a ≤ S9x2x128x8x128.size a
  inb_S9x2x128x8x128_S1x1x128x1x128_4_1_0_1_0 : ∀ a, (![4, 1, 0, 1, 0] : Fin 5 → Nat) a + S1x1x128x1x128.size a ≤ S9x2x128x8x128.size a
  inb_S9x2x128x8x128_S1x1x128x1x128_6_1_0_2_0 : ∀ a, (![6, 1, 0, 2, 0] : Fin 5 → Nat) a + S1x1x128x1x128.size a ≤ S9x2x128x8x128.size a
  inb_S9x2x128x8x128_S1x1x128x1x128_7_0_0_4_0 : ∀ a, (![7, 0, 0, 4, 0] : Fin 5 → Nat) a + S1x1x128x1x128.size a ≤ S9x2x128x8x128.size a
  inb_S9x2x128x8x128_S1x1x128x1x128_7_1_0_1_0 : ∀ a, (![7, 1, 0, 1, 0] : Fin 5 → Nat) a + S1x1x128x1x128.size a ≤ S9x2x128x8x128.size a
  inb_S9x2x128x8x128_S1x1x128x1x128_8_1_0_2_0 : ∀ a, (![8, 1, 0, 2, 0] : Fin 5 → Nat) a + S1x1x128x1x128.size a ≤ S9x2x128x8x128.size a
  inb_S9x2x128x8x128_S1x1x128x1x128_3_0_0_6_0 : ∀ a, (![3, 0, 0, 6, 0] : Fin 5 → Nat) a + S1x1x128x1x128.size a ≤ S9x2x128x8x128.size a
  inb_S9x2x128x8x128_S1x1x128x1x128_5_1_0_1_0 : ∀ a, (![5, 1, 0, 1, 0] : Fin 5 → Nat) a + S1x1x128x1x128.size a ≤ S9x2x128x8x128.size a
  inb_S9x2x128x8x128_S1x1x128x1x128_5_1_0_3_0 : ∀ a, (![5, 1, 0, 3, 0] : Fin 5 → Nat) a + S1x1x128x1x128.size a ≤ S9x2x128x8x128.size a
  inb_S9x2x128x8x128_S1x1x128x1x128_4_0_0_6_0 : ∀ a, (![4, 0, 0, 6, 0] : Fin 5 → Nat) a + S1x1x128x1x128.size a ≤ S9x2x128x8x128.size a
  inb_S9x2x128x8x128_S1x1x128x1x128_6_1_0_1_0 : ∀ a, (![6, 1, 0, 1, 0] : Fin 5 → Nat) a + S1x1x128x1x128.size a ≤ S9x2x128x8x128.size a
  inb_S9x2x128x8x128_S1x1x128x1x128_6_1_0_3_0 : ∀ a, (![6, 1, 0, 3, 0] : Fin 5 → Nat) a + S1x1x128x1x128.size a ≤ S9x2x128x8x128.size a
  inb_S9x2x128x8x128_S1x1x128x1x128_7_0_0_6_0 : ∀ a, (![7, 0, 0, 6, 0] : Fin 5 → Nat) a + S1x1x128x1x128.size a ≤ S9x2x128x8x128.size a
  inb_S9x2x128x8x128_S1x1x128x1x128_8_1_0_1_0 : ∀ a, (![8, 1, 0, 1, 0] : Fin 5 → Nat) a + S1x1x128x1x128.size a ≤ S9x2x128x8x128.size a
  inb_S9x2x128x8x128_S1x1x128x1x128_8_1_0_3_0 : ∀ a, (![8, 1, 0, 3, 0] : Fin 5 → Nat) a + S1x1x128x1x128.size a ≤ S9x2x128x8x128.size a
  inb_S9x2x128x8x128_S1x1x128x1x128_5_0_0_0_0 : ∀ a, (![5, 0, 0, 0, 0] : Fin 5 → Nat) a + S1x1x128x1x128.size a ≤ S9x2x128x8x128.size a
  inb_S9x2x128x8x128_S1x1x128x1x128_3_0_0_1_0 : ∀ a, (![3, 0, 0, 1, 0] : Fin 5 → Nat) a + S1x1x128x1x128.size a ≤ S9x2x128x8x128.size a
  inb_S9x2x128x8x128_S1x1x128x1x128_6_0_0_0_0 : ∀ a, (![6, 0, 0, 0, 0] : Fin 5 → Nat) a + S1x1x128x1x128.size a ≤ S9x2x128x8x128.size a
  inb_S9x2x128x8x128_S1x1x128x1x128_4_0_0_1_0 : ∀ a, (![4, 0, 0, 1, 0] : Fin 5 → Nat) a + S1x1x128x1x128.size a ≤ S9x2x128x8x128.size a
  inb_S9x2x128x8x128_S1x1x128x1x128_8_0_0_0_0 : ∀ a, (![8, 0, 0, 0, 0] : Fin 5 → Nat) a + S1x1x128x1x128.size a ≤ S9x2x128x8x128.size a
  inb_S9x2x128x8x128_S1x1x128x1x128_7_0_0_1_0 : ∀ a, (![7, 0, 0, 1, 0] : Fin 5 → Nat) a + S1x1x128x1x128.size a ≤ S9x2x128x8x128.size a
  inb_S9x2x128x8x128_S1x1x128x1x128_5_0_0_2_0 : ∀ a, (![5, 0, 0, 2, 0] : Fin 5 → Nat) a + S1x1x128x1x128.size a ≤ S9x2x128x8x128.size a
  inb_S9x2x128x8x128_S1x1x128x1x128_3_0_0_3_0 : ∀ a, (![3, 0, 0, 3, 0] : Fin 5 → Nat) a + S1x1x128x1x128.size a ≤ S9x2x128x8x128.size a
  inb_S9x2x128x8x128_S1x1x128x1x128_6_0_0_2_0 : ∀ a, (![6, 0, 0, 2, 0] : Fin 5 → Nat) a + S1x1x128x1x128.size a ≤ S9x2x128x8x128.size a
  inb_S9x2x128x8x128_S1x1x128x1x128_4_0_0_3_0 : ∀ a, (![4, 0, 0, 3, 0] : Fin 5 → Nat) a + S1x1x128x1x128.size a ≤ S9x2x128x8x128.size a
  inb_S9x2x128x8x128_S1x1x128x1x128_8_0_0_2_0 : ∀ a, (![8, 0, 0, 2, 0] : Fin 5 → Nat) a + S1x1x128x1x128.size a ≤ S9x2x128x8x128.size a
  inb_S9x2x128x8x128_S1x1x128x1x128_7_0_0_3_0 : ∀ a, (![7, 0, 0, 3, 0] : Fin 5 → Nat) a + S1x1x128x1x128.size a ≤ S9x2x128x8x128.size a
  inb_S9x2x128x8x128_S1x1x128x1x128_5_0_0_4_0 : ∀ a, (![5, 0, 0, 4, 0] : Fin 5 → Nat) a + S1x1x128x1x128.size a ≤ S9x2x128x8x128.size a
  inb_S9x2x128x8x128_S1x1x128x1x128_3_0_0_5_0 : ∀ a, (![3, 0, 0, 5, 0] : Fin 5 → Nat) a + S1x1x128x1x128.size a ≤ S9x2x128x8x128.size a
  inb_S9x2x128x8x128_S1x1x128x1x128_6_0_0_4_0 : ∀ a, (![6, 0, 0, 4, 0] : Fin 5 → Nat) a + S1x1x128x1x128.size a ≤ S9x2x128x8x128.size a
  inb_S9x2x128x8x128_S1x1x128x1x128_4_0_0_5_0 : ∀ a, (![4, 0, 0, 5, 0] : Fin 5 → Nat) a + S1x1x128x1x128.size a ≤ S9x2x128x8x128.size a
  inb_S9x2x128x8x128_S1x1x128x1x128_8_0_0_4_0 : ∀ a, (![8, 0, 0, 4, 0] : Fin 5 → Nat) a + S1x1x128x1x128.size a ≤ S9x2x128x8x128.size a
  inb_S9x2x128x8x128_S1x1x128x1x128_7_0_0_5_0 : ∀ a, (![7, 0, 0, 5, 0] : Fin 5 → Nat) a + S1x1x128x1x128.size a ≤ S9x2x128x8x128.size a
  inb_S9x2x128x8x128_S1x1x128x1x128_5_0_0_6_0 : ∀ a, (![5, 0, 0, 6, 0] : Fin 5 → Nat) a + S1x1x128x1x128.size a ≤ S9x2x128x8x128.size a
  inb_S9x2x128x8x128_S1x1x128x1x128_3_0_0_7_0 : ∀ a, (![3, 0, 0, 7, 0] : Fin 5 → Nat) a + S1x1x128x1x128.size a ≤ S9x2x128x8x128.size a
  inb_S9x2x128x8x128_S1x1x128x1x128_6_0_0_6_0 : ∀ a, (![6, 0, 0, 6, 0] : Fin 5 → Nat) a + S1x1x128x1x128.size a ≤ S9x2x128x8x128.size a
  inb_S9x2x128x8x128_S1x1x128x1x128_4_0_0_7_0 : ∀ a, (![4, 0, 0, 7, 0] : Fin 5 → Nat) a + S1x1x128x1x128.size a ≤ S9x2x128x8x128.size a
  inb_S9x2x128x8x128_S1x1x128x1x128_8_0_0_6_0 : ∀ a, (![8, 0, 0, 6, 0] : Fin 5 → Nat) a + S1x1x128x1x128.size a ≤ S9x2x128x8x128.size a
  inb_S9x2x128x8x128_S1x1x128x1x128_7_0_0_7_0 : ∀ a, (![7, 0, 0, 7, 0] : Fin 5 → Nat) a + S1x1x128x1x128.size a ≤ S9x2x128x8x128.size a
  inb_S9x2x128x8x128_S1x1x128x1x128_3_1_0_4_0 : ∀ a, (![3, 1, 0, 4, 0] : Fin 5 → Nat) a + S1x1x128x1x128.size a ≤ S9x2x128x8x128.size a
  inb_S9x2x128x8x128_S1x1x128x1x128_3_1_0_5_0 : ∀ a, (![3, 1, 0, 5, 0] : Fin 5 → Nat) a + S1x1x128x1x128.size a ≤ S9x2x128x8x128.size a
  inb_S9x2x128x8x128_S1x1x128x1x128_4_1_0_4_0 : ∀ a, (![4, 1, 0, 4, 0] : Fin 5 → Nat) a + S1x1x128x1x128.size a ≤ S9x2x128x8x128.size a
  inb_S9x2x128x8x128_S1x1x128x1x128_4_1_0_5_0 : ∀ a, (![4, 1, 0, 5, 0] : Fin 5 → Nat) a + S1x1x128x1x128.size a ≤ S9x2x128x8x128.size a
  inb_S9x2x128x8x128_S1x1x128x1x128_7_1_0_4_0 : ∀ a, (![7, 1, 0, 4, 0] : Fin 5 → Nat) a + S1x1x128x1x128.size a ≤ S9x2x128x8x128.size a
  inb_S9x2x128x8x128_S1x1x128x1x128_7_1_0_5_0 : ∀ a, (![7, 1, 0, 5, 0] : Fin 5 → Nat) a + S1x1x128x1x128.size a ≤ S9x2x128x8x128.size a
  inb_S9x2x128x8x128_S1x1x128x1x128_0_0_0_0_0 : ∀ a, (![0, 0, 0, 0, 0] : Fin 5 → Nat) a + S1x1x128x1x128.size a ≤ S9x2x128x8x128.size a
  inb_S9x2x128x8x128_S1x1x128x1x128_1_0_0_0_0 : ∀ a, (![1, 0, 0, 0, 0] : Fin 5 → Nat) a + S1x1x128x1x128.size a ≤ S9x2x128x8x128.size a
  inb_S9x2x128x8x128_S1x1x128x1x128_2_0_0_0_0 : ∀ a, (![2, 0, 0, 0, 0] : Fin 5 → Nat) a + S1x1x128x1x128.size a ≤ S9x2x128x8x128.size a
  inb_S9x2x128x8x128_S1x1x128x1x128_0_0_0_1_0 : ∀ a, (![0, 0, 0, 1, 0] : Fin 5 → Nat) a + S1x1x128x1x128.size a ≤ S9x2x128x8x128.size a
  inb_S9x2x128x8x128_S1x1x128x1x128_1_0_0_1_0 : ∀ a, (![1, 0, 0, 1, 0] : Fin 5 → Nat) a + S1x1x128x1x128.size a ≤ S9x2x128x8x128.size a
  inb_S9x2x128x8x128_S1x1x128x1x128_0_1_0_0_0 : ∀ a, (![0, 1, 0, 0, 0] : Fin 5 → Nat) a + S1x1x128x1x128.size a ≤ S9x2x128x8x128.size a
  inb_S9x2x128x8x128_S1x1x128x1x128_1_1_0_0_0 : ∀ a, (![1, 1, 0, 0, 0] : Fin 5 → Nat) a + S1x1x128x1x128.size a ≤ S9x2x128x8x128.size a
  inb_S9x2x128x8x128_S1x1x128x1x128_2_1_0_0_0 : ∀ a, (![2, 1, 0, 0, 0] : Fin 5 → Nat) a + S1x1x128x1x128.size a ≤ S9x2x128x8x128.size a
  inb_S9x2x128x8x128_S1x1x128x1x128_0_1_0_1_0 : ∀ a, (![0, 1, 0, 1, 0] : Fin 5 → Nat) a + S1x1x128x1x128.size a ≤ S9x2x128x8x128.size a
  inb_S9x2x128x8x128_S1x1x128x1x128_1_1_0_1_0 : ∀ a, (![1, 1, 0, 1, 0] : Fin 5 → Nat) a + S1x1x128x1x128.size a ≤ S9x2x128x8x128.size a
  inb_S9x2x128x8x128_S1x1x128x1x128_2_1_0_1_0 : ∀ a, (![2, 1, 0, 1, 0] : Fin 5 → Nat) a + S1x1x128x1x128.size a ≤ S9x2x128x8x128.size a
  inb_S9x2x128x8x128_S1x1x128x1x128_6_0_0_5_0 : ∀ a, (![6, 0, 0, 5, 0] : Fin 5 → Nat) a + S1x1x128x1x128.size a ≤ S9x2x128x8x128.size a
  inb_S9x2x128x8x128_S1x1x128x1x128_8_0_0_5_0 : ∀ a, (![8, 0, 0, 5, 0] : Fin 5 → Nat) a + S1x1x128x1x128.size a ≤ S9x2x128x8x128.size a
  inb_S9x2x128x8x128_S1x1x128x1x128_0_0_0_6_0 : ∀ a, (![0, 0, 0, 6, 0] : Fin 5 → Nat) a + S1x1x128x1x128.size a ≤ S9x2x128x8x128.size a
  inb_S9x2x128x8x128_S1x1x128x1x128_1_0_0_6_0 : ∀ a, (![1, 0, 0, 6, 0] : Fin 5 → Nat) a + S1x1x128x1x128.size a ≤ S9x2x128x8x128.size a
  inb_S9x2x128x8x128_S1x1x128x1x128_2_0_0_6_0 : ∀ a, (![2, 0, 0, 6, 0] : Fin 5 → Nat) a + S1x1x128x1x128.size a ≤ S9x2x128x8x128.size a
  inb_S9x2x128x8x128_S1x1x128x1x128_0_0_0_7_0 : ∀ a, (![0, 0, 0, 7, 0] : Fin 5 → Nat) a + S1x1x128x1x128.size a ≤ S9x2x128x8x128.size a
  inb_S9x2x128x8x128_S1x1x128x1x128_1_0_0_2_0 : ∀ a, (![1, 0, 0, 2, 0] : Fin 5 → Nat) a + S1x1x128x1x128.size a ≤ S9x2x128x8x128.size a
  inb_S9x2x128x8x128_S1x1x128x1x128_2_0_0_2_0 : ∀ a, (![2, 0, 0, 2, 0] : Fin 5 → Nat) a + S1x1x128x1x128.size a ≤ S9x2x128x8x128.size a
  inb_S9x2x128x8x128_S1x1x128x1x128_0_0_0_3_0 : ∀ a, (![0, 0, 0, 3, 0] : Fin 5 → Nat) a + S1x1x128x1x128.size a ≤ S9x2x128x8x128.size a
  inb_S9x2x128x8x128_S1x1x128x1x128_1_0_0_3_0 : ∀ a, (![1, 0, 0, 3, 0] : Fin 5 → Nat) a + S1x1x128x1x128.size a ≤ S9x2x128x8x128.size a
  inb_S9x2x128x8x128_S1x1x128x1x128_2_0_0_3_0 : ∀ a, (![2, 0, 0, 3, 0] : Fin 5 → Nat) a + S1x1x128x1x128.size a ≤ S9x2x128x8x128.size a
  inb_S9x2x128x8x128_S1x1x128x1x128_5_0_0_3_0 : ∀ a, (![5, 0, 0, 3, 0] : Fin 5 → Nat) a + S1x1x128x1x128.size a ≤ S9x2x128x8x128.size a
  inb_S9x2x128x8x128_S1x1x128x1x128_6_0_0_3_0 : ∀ a, (![6, 0, 0, 3, 0] : Fin 5 → Nat) a + S1x1x128x1x128.size a ≤ S9x2x128x8x128.size a
  inb_S9x2x128x8x128_S1x1x128x1x128_8_0_0_3_0 : ∀ a, (![8, 0, 0, 3, 0] : Fin 5 → Nat) a + S1x1x128x1x128.size a ≤ S9x2x128x8x128.size a
  inb_S9x2x128x8x128_S1x1x128x1x128_0_0_0_4_0 : ∀ a, (![0, 0, 0, 4, 0] : Fin 5 → Nat) a + S1x1x128x1x128.size a ≤ S9x2x128x8x128.size a
  inb_S9x2x128x8x128_S1x1x128x1x128_1_0_0_4_0 : ∀ a, (![1, 0, 0, 4, 0] : Fin 5 → Nat) a + S1x1x128x1x128.size a ≤ S9x2x128x8x128.size a
  inb_S9x2x128x8x128_S1x1x128x1x128_2_0_0_4_0 : ∀ a, (![2, 0, 0, 4, 0] : Fin 5 → Nat) a + S1x1x128x1x128.size a ≤ S9x2x128x8x128.size a
  inb_S9x2x128x8x128_S1x1x128x1x128_0_0_0_5_0 : ∀ a, (![0, 0, 0, 5, 0] : Fin 5 → Nat) a + S1x1x128x1x128.size a ≤ S9x2x128x8x128.size a
  inb_S9x2x128x8x128_S1x1x128x1x128_1_0_0_5_0 : ∀ a, (![1, 0, 0, 5, 0] : Fin 5 → Nat) a + S1x1x128x1x128.size a ≤ S9x2x128x8x128.size a
  inb_S9x2x128x8x128_S1x1x128x1x128_2_0_0_5_0 : ∀ a, (![2, 0, 0, 5, 0] : Fin 5 → Nat) a + S1x1x128x1x128.size a ≤ S9x2x128x8x128.size a
  inb_S9x2x128x8x128_S1x1x128x1x128_5_0_0_5_0 : ∀ a, (![5, 0, 0, 5, 0] : Fin 5 → Nat) a + S1x1x128x1x128.size a ≤ S9x2x128x8x128.size a
  inb_S9x2x128x8x128_S1x1x128x1x128_2_0_0_1_0 : ∀ a, (![2, 0, 0, 1, 0] : Fin 5 → Nat) a + S1x1x128x1x128.size a ≤ S9x2x128x8x128.size a
  inb_S9x2x128x8x128_S1x1x128x1x128_5_0_0_1_0 : ∀ a, (![5, 0, 0, 1, 0] : Fin 5 → Nat) a + S1x1x128x1x128.size a ≤ S9x2x128x8x128.size a
  inb_S9x2x128x8x128_S1x1x128x1x128_6_0_0_1_0 : ∀ a, (![6, 0, 0, 1, 0] : Fin 5 → Nat) a + S1x1x128x1x128.size a ≤ S9x2x128x8x128.size a
  inb_S9x2x128x8x128_S1x1x128x1x128_8_0_0_1_0 : ∀ a, (![8, 0, 0, 1, 0] : Fin 5 → Nat) a + S1x1x128x1x128.size a ≤ S9x2x128x8x128.size a
  inb_S9x2x128x8x128_S1x1x128x1x128_0_0_0_2_0 : ∀ a, (![0, 0, 0, 2, 0] : Fin 5 → Nat) a + S1x1x128x1x128.size a ≤ S9x2x128x8x128.size a
  inb_S9x2x128x8x128_S1x1x128x1x128_0_1_0_2_0 : ∀ a, (![0, 1, 0, 2, 0] : Fin 5 → Nat) a + S1x1x128x1x128.size a ≤ S9x2x128x8x128.size a
  inb_S9x2x128x8x128_S1x1x128x1x128_1_1_0_2_0 : ∀ a, (![1, 1, 0, 2, 0] : Fin 5 → Nat) a + S1x1x128x1x128.size a ≤ S9x2x128x8x128.size a
  inb_S9x2x128x8x128_S1x1x128x1x128_2_1_0_2_0 : ∀ a, (![2, 1, 0, 2, 0] : Fin 5 → Nat) a + S1x1x128x1x128.size a ≤ S9x2x128x8x128.size a
  inb_S9x2x128x8x128_S1x1x128x1x128_0_1_0_3_0 : ∀ a, (![0, 1, 0, 3, 0] : Fin 5 → Nat) a + S1x1x128x1x128.size a ≤ S9x2x128x8x128.size a
  inb_S9x2x128x8x128_S1x1x128x1x128_1_1_0_3_0 : ∀ a, (![1, 1, 0, 3, 0] : Fin 5 → Nat) a + S1x1x128x1x128.size a ≤ S9x2x128x8x128.size a
  inb_S9x2x128x8x128_S1x1x128x1x128_2_1_0_3_0 : ∀ a, (![2, 1, 0, 3, 0] : Fin 5 → Nat) a + S1x1x128x1x128.size a ≤ S9x2x128x8x128.size a
  inb_S9x2x128x8x128_S1x1x128x1x128_0_1_0_4_0 : ∀ a, (![0, 1, 0, 4, 0] : Fin 5 → Nat) a + S1x1x128x1x128.size a ≤ S9x2x128x8x128.size a
  inb_S9x2x128x8x128_S1x1x128x1x128_1_1_0_4_0 : ∀ a, (![1, 1, 0, 4, 0] : Fin 5 → Nat) a + S1x1x128x1x128.size a ≤ S9x2x128x8x128.size a
  inb_S9x2x128x8x128_S1x1x128x1x128_2_1_0_4_0 : ∀ a, (![2, 1, 0, 4, 0] : Fin 5 → Nat) a + S1x1x128x1x128.size a ≤ S9x2x128x8x128.size a
  inb_S9x2x128x8x128_S1x1x128x1x128_0_1_0_5_0 : ∀ a, (![0, 1, 0, 5, 0] : Fin 5 → Nat) a + S1x1x128x1x128.size a ≤ S9x2x128x8x128.size a
  inb_S9x2x128x8x128_S1x1x128x1x128_1_1_0_5_0 : ∀ a, (![1, 1, 0, 5, 0] : Fin 5 → Nat) a + S1x1x128x1x128.size a ≤ S9x2x128x8x128.size a
  inb_S9x2x128x8x128_S1x1x128x1x128_2_1_0_5_0 : ∀ a, (![2, 1, 0, 5, 0] : Fin 5 → Nat) a + S1x1x128x1x128.size a ≤ S9x2x128x8x128.size a
  inb_S9x2x128x8x128_S1x1x128x1x128_1_0_0_7_0 : ∀ a, (![1, 0, 0, 7, 0] : Fin 5 → Nat) a + S1x1x128x1x128.size a ≤ S9x2x128x8x128.size a
  inb_S9x2x128x8x128_S1x1x128x1x128_2_0_0_7_0 : ∀ a, (![2, 0, 0, 7, 0] : Fin 5 → Nat) a + S1x1x128x1x128.size a ≤ S9x2x128x8x128.size a
  inb_S9x2x128x8x128_S1x1x128x1x128_5_0_0_7_0 : ∀ a, (![5, 0, 0, 7, 0] : Fin 5 → Nat) a + S1x1x128x1x128.size a ≤ S9x2x128x8x128.size a
  inb_S9x2x128x8x128_S1x1x128x1x128_6_0_0_7_0 : ∀ a, (![6, 0, 0, 7, 0] : Fin 5 → Nat) a + S1x1x128x1x128.size a ≤ S9x2x128x8x128.size a
  inb_S9x2x128x8x128_S1x1x128x1x128_8_0_0_7_0 : ∀ a, (![8, 0, 0, 7, 0] : Fin 5 → Nat) a + S1x1x128x1x128.size a ≤ S9x2x128x8x128.size a
  transposes_S9x2x128x8x128_S128x128x2x8x9_2_4_1_3_0 : S9x2x128x8x128.Transposes [2, 4, 1, 3, 0] S128x128x2x8x9
  shapeCasts_S128x128x2x8x9_S16384x16x9 : S128x128x2x8x9.ShapeCasts S16384x16x9
  slices_S16384x16x9_S16384x14x9_0_0_0 : S16384x16x9.Slices ![0, 0, 0] S16384x14x9
  hcc0_scratch3 : 0 + S_.numel ≤ 6
  hcc0_scratch4 : 1 + S_.numel ≤ 6
  hcc0_scratch5 : 2 + S_.numel ≤ 6
  hcc0_scratch6 : 3 + S_.numel ≤ 6
  hcc0_scratch7 : 4 + S_.numel ≤ 6
  hcc0_scratch8 : 5 + S_.numel ≤ 6
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub

variable [Facts₀]

abbrev cc0_scratch3 : DmaSems sig S_ := SemArray.consecutive 0 S_ hcc0_scratch3
abbrev cc0_scratch4 : DmaSems sig S_ := SemArray.consecutive 1 S_ hcc0_scratch4
abbrev cc0_scratch5 : DmaSems sig S_ := SemArray.consecutive 2 S_ hcc0_scratch5
abbrev cc0_scratch6 : DmaSems sig S_ := SemArray.consecutive 3 S_ hcc0_scratch6
abbrev cc0_scratch7 : DmaSems sig S_ := SemArray.consecutive 4 S_ hcc0_scratch7
abbrev cc0_scratch8 : DmaSems sig S_ := SemArray.consecutive 5 S_ hcc0_scratch8

class Facts : Prop extends Facts₀ where

variable [Facts]
-- ==== ReferenceIdeal.lean ====
abbrev S16384x17x2 : Shape := ⟨3, ![16384, 17, 2]⟩
abbrev S16384x17 : Shape := ⟨2, ![16384, 17]⟩
abbrev S16384x14x2 : Shape := ⟨3, ![16384, 14, 2]⟩
abbrev S16384x14 : Shape := ⟨2, ![16384, 14]⟩
abbrev S14 : Shape := ⟨1, ![14]⟩
abbrev S_ : Shape := ⟨0, ![]⟩
abbrev S14x1 : Shape := ⟨2, ![14, 1]⟩
abbrev S1 : Shape := ⟨1, ![1]⟩
abbrev S1x1 : Shape := ⟨2, ![1, 1]⟩
abbrev S16384x14x1 : Shape := ⟨3, ![16384, 14, 1]⟩
abbrev S16384x14x9 : Shape := ⟨3, ![16384, 14, 9]⟩

abbrev nBuf : Space → Nat
  | .hbm => 102
  | .vmem => 0
  | .smem => 0
  | _ => 0

abbrev bufTy : (tb : Table) → Fin (tcTables nBuf tb) → BufTy
  | .hbm, ⟨0, _⟩ => ⟨S16384x17x2, .f32⟩
  | .hbm, ⟨1, _⟩ => ⟨S16384x17, .f32⟩
  | .hbm, ⟨2, _⟩ => ⟨S16384x14x2, .f32⟩
  | .hbm, ⟨3, _⟩ => ⟨S16384x14, .f32⟩
  | .hbm, ⟨4, _⟩ => ⟨S14, .i32⟩
  | .hbm, ⟨5, _⟩ => ⟨S14, .i32⟩
  | .hbm, ⟨6, _⟩ => ⟨S_, .i32⟩
  | .hbm, ⟨7, _⟩ => ⟨S14, .i32⟩
  | .hbm, ⟨8, _⟩ => ⟨S14, .i1⟩
  | .hbm, ⟨9, _⟩ => ⟨S_, .i32⟩
  | .hbm, ⟨10, _⟩ => ⟨S14, .i32⟩
  | .hbm, ⟨11, _⟩ => ⟨S14, .i32⟩
  | .hbm, ⟨12, _⟩ => ⟨S14, .i32⟩
  | .hbm, ⟨13, _⟩ => ⟨S14x1, .i32⟩
  | .hbm, ⟨14, _⟩ => ⟨S1, .i32⟩
  | .hbm, ⟨15, _⟩ => ⟨S_, .i32⟩
  | .hbm, ⟨16, _⟩ => ⟨S14x1, .i32⟩
  | .hbm, ⟨17, _⟩ => ⟨S14x1, .i1⟩
  | .hbm, ⟨18, _⟩ => ⟨S1x1, .i32⟩
  | .hbm, ⟨19, _⟩ => ⟨S14x1, .i32⟩
  | .hbm, ⟨20, _⟩ => ⟨S14x1, .i1⟩
  | .hbm, ⟨21, _⟩ => ⟨S14x1, .i1⟩
  | .hbm, ⟨22, _⟩ => ⟨S_, .i1⟩
  | .hbm, ⟨23, _⟩ => ⟨S14, .i1⟩
  | .hbm, ⟨24, _⟩ => ⟨S16384x14x2, .f32⟩
  | .hbm, ⟨25, _⟩ => ⟨S16384x14x2, .i1⟩
  | .hbm, ⟨26, _⟩ => ⟨S_, .f32⟩
  | .hbm, ⟨27, _⟩ => ⟨S16384x14x2, .f32⟩
  | .hbm, ⟨28, _⟩ => ⟨S16384x14x2, .f32⟩
  | .hbm, ⟨29, _⟩ => ⟨S_, .i32⟩
  | .hbm, ⟨30, _⟩ => ⟨S14, .i32⟩
  | .hbm, ⟨31, _⟩ => ⟨S14, .i1⟩
  | .hbm, ⟨32, _⟩ => ⟨S_, .i32⟩
  | .hbm, ⟨33, _⟩ => ⟨S14, .i32⟩
  | .hbm, ⟨34, _⟩ => ⟨S14, .i32⟩
  | .hbm, ⟨35, _⟩ => ⟨S14, .i32⟩
  | .hbm, ⟨36, _⟩ => ⟨S14x1, .i32⟩
  | .hbm, ⟨37, _⟩ => ⟨S1, .i32⟩
  | .hbm, ⟨38, _⟩ => ⟨S_, .i32⟩
  | .hbm, ⟨39, _⟩ => ⟨S14x1, .i32⟩
  | .hbm, ⟨40, _⟩ => ⟨S14x1, .i1⟩
  | .hbm, ⟨41, _⟩ => ⟨S1x1, .i32⟩
  | .hbm, ⟨42, _⟩ => ⟨S14x1, .i32⟩
  | .hbm, ⟨43, _⟩ => ⟨S14x1, .i1⟩
  | .hbm, ⟨44, _⟩ => ⟨S14x1, .i1⟩
  | .hbm, ⟨45, _⟩ => ⟨S_, .i1⟩
  | .hbm, ⟨46, _⟩ => ⟨S14, .i1⟩
  | .hbm, ⟨47, _⟩ => ⟨S16384x14x2, .f32⟩
  | .hbm, ⟨48, _⟩ => ⟨S16384x14x2, .i1⟩
  | .hbm, ⟨49, _⟩ => ⟨S_, .f32⟩
  | .hbm, ⟨50, _⟩ => ⟨S16384x14x2, .f32⟩
  | .hbm, ⟨51, _⟩ => ⟨S16384x14x2, .f32⟩
  | .hbm, ⟨52, _⟩ => ⟨S_, .i32⟩
  | .hbm, ⟨53, _⟩ => ⟨S14, .i32⟩
  | .hbm, ⟨54, _⟩ => ⟨S14, .i1⟩
  | .hbm, ⟨55, _⟩ => ⟨S_, .i32⟩
  | .hbm, ⟨56, _⟩ => ⟨S14, .i32⟩
  | .hbm, ⟨57, _⟩ => ⟨S14, .i32⟩
  | .hbm, ⟨58, _⟩ => ⟨S14, .i32⟩
  | .hbm, ⟨59, _⟩ => ⟨S14x1, .i32⟩
  | .hbm, ⟨60, _⟩ => ⟨S1, .i32⟩
  | .hbm, ⟨61, _⟩ => ⟨S_, .i32⟩
  | .hbm, ⟨62, _⟩ => ⟨S14x1, .i32⟩
  | .hbm, ⟨63, _⟩ => ⟨S14x1, .i1⟩
  | .hbm, ⟨64, _⟩ => ⟨S1x1, .i32⟩
  | .hbm, ⟨65, _⟩ => ⟨S14x1, .i32⟩
  | .hbm, ⟨66, _⟩ => ⟨S14x1, .i1⟩
  | .hbm, ⟨67, _⟩ => ⟨S14x1, .i1⟩
  | .hbm, ⟨68, _⟩ => ⟨S_, .i1⟩
  | .hbm, ⟨69, _⟩ => ⟨S14, .i1⟩
  | .hbm, ⟨70, _⟩ => ⟨S16384x14, .f32⟩
  | .hbm, ⟨71, _⟩ => ⟨S16384x14, .i1⟩
  | .hbm, ⟨72, _⟩ => ⟨S_, .f32⟩
  | .hbm, ⟨73, _⟩ => ⟨S16384x14, .f32⟩
  | .hbm, ⟨74, _⟩ => ⟨S16384x14, .f32⟩
  | .hbm, ⟨75, _⟩ => ⟨S_, .i32⟩
  | .hbm, ⟨76, _⟩ => ⟨S14, .i32⟩
  | .hbm, ⟨77, _⟩ => ⟨S14, .i1⟩
  | .hbm, ⟨78, _⟩ => ⟨S_, .i32⟩
  | .hbm, ⟨79, _⟩ => ⟨S14, .i32⟩
  | .hbm, ⟨80, _⟩ => ⟨S14, .i32⟩
  | .hbm, ⟨81, _⟩ => ⟨S14, .i32⟩
  | .hbm, ⟨82, _⟩ => ⟨S14x1, .i32⟩
  | .hbm, ⟨83, _⟩ => ⟨S1, .i32⟩
  | .hbm, ⟨84, _⟩ => ⟨S_, .i32⟩
  | .hbm, ⟨85, _⟩ => ⟨S14x1, .i32⟩
  | .hbm, ⟨86, _⟩ => ⟨S14x1, .i1⟩
  | .hbm, ⟨87, _⟩ => ⟨S1x1, .i32⟩
  | .hbm, ⟨88, _⟩ => ⟨S14x1, .i32⟩
  | .hbm, ⟨89, _⟩ => ⟨S14x1, .i1⟩
  | .hbm, ⟨90, _⟩ => ⟨S14x1, .i1⟩
  | .hbm, ⟨91, _⟩ => ⟨S_, .i1⟩
  | .hbm, ⟨92, _⟩ => ⟨S14, .i1⟩
  | .hbm, ⟨93, _⟩ => ⟨S16384x14, .f32⟩
  | .hbm, ⟨94, _⟩ => ⟨S16384x14, .i1⟩
  | .hbm, ⟨95, _⟩ => ⟨S_, .f32⟩
  | .hbm, ⟨96, _⟩ => ⟨S16384x14, .f32⟩
  | .hbm, ⟨97, _⟩ => ⟨S16384x14, .f32⟩
  | .hbm, ⟨98, _⟩ => ⟨S16384x14x1, .f32⟩
  | .hbm, ⟨99, _⟩ => ⟨S16384x14x1, .f32⟩
  | .hbm, ⟨100, _⟩ => ⟨S16384x14x1, .f32⟩
  | .hbm, ⟨101, _⟩ => ⟨S16384x14x9, .f32⟩
  | _, _ => ⟨S16384x17x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v0 : Ref sig .tc := ⟨.hbm, 28, rfl⟩
abbrev main_call1_c : Ref sig .tc := ⟨.hbm, 29, rfl⟩
abbrev main_call1_v0 : Ref sig .tc := ⟨.hbm, 30, rfl⟩
abbrev main_call1_v1 : Ref sig .tc := ⟨.hbm, 31, rfl⟩
abbrev main_call1_c_0 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_v5 : Ref sig .tc := ⟨.hbm, 36, rfl⟩
abbrev main_call1_c_1 : Ref sig .tc := ⟨.hbm, 37, rfl⟩
abbrev main_call1_c_2 : Ref sig .tc := ⟨.hbm, 38, rfl⟩
abbrev main_call1_v6 : Ref sig .tc := ⟨.hbm, 39, rfl⟩
abbrev main_call1_v7 : Ref sig .tc := ⟨.hbm, 40, rfl⟩
abbrev main_call1_v8 : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_call1_c_3 : Ref sig .tc := ⟨.hbm, 45, rfl⟩
abbrev main_call1_v12 : Ref sig .tc := ⟨.hbm, 46, rfl⟩
abbrev main_call1_v13 : Ref sig .tc := ⟨.hbm, 47, rfl⟩
abbrev main_call1_v14 : Ref sig .tc := ⟨.hbm, 48, rfl⟩
abbrev main_call1_cst : Ref sig .tc := ⟨.hbm, 49, rfl⟩
abbrev main_call1_v15 : Ref sig .tc := ⟨.hbm, 50, rfl⟩
abbrev main_v1 : Ref sig .tc := ⟨.hbm, 51, rfl⟩
abbrev main_call2_c : Ref sig .tc := ⟨.hbm, 52, rfl⟩
abbrev main_call2_v0 : Ref sig .tc := ⟨.hbm, 53, rfl⟩
abbrev main_call2_v1 : Ref sig .tc := ⟨.hbm, 54, rfl⟩
abbrev main_call2_c_0 : Ref sig .tc := ⟨.hbm, 55, rfl⟩
abbrev main_call2_v2 : Ref sig .tc := ⟨.hbm, 56, rfl⟩
abbrev main_call2_v3 : Ref sig .tc := ⟨.hbm, 57, rfl⟩
abbrev main_call2_v4 : Ref sig .tc := ⟨.hbm, 58, rfl⟩
abbrev main_call2_v5 : Ref sig .tc := ⟨.hbm, 59, rfl⟩
abbrev main_call2_c_1 : Ref sig .tc := ⟨.hbm, 60, rfl⟩
abbrev main_call2_c_2 : Ref sig .tc := ⟨.hbm, 61, rfl⟩
abbrev main_call2_v6 : Ref sig .tc := ⟨.hbm, 62, rfl⟩
abbrev main_call2_v7 : Ref sig .tc := ⟨.hbm, 63, rfl⟩
abbrev main_call2_v8 : Ref sig .tc := ⟨.hbm, 64, rfl⟩
abbrev main_call2_v9 : Ref sig .tc := ⟨.hbm, 65, rfl⟩
abbrev main_call2_v10 : Ref sig .tc := ⟨.hbm, 66, rfl⟩
abbrev main_call2_v11 : Ref sig .tc := ⟨.hbm, 67, rfl⟩
abbrev main_call2_c_3 : Ref sig .tc := ⟨.hbm, 68, rfl⟩
abbrev main_call2_v12 : Ref sig .tc := ⟨.hbm, 69, rfl⟩
abbrev main_call2_v13 : Ref sig .tc := ⟨.hbm, 70, rfl⟩
abbrev main_call2_v14 : Ref sig .tc := ⟨.hbm, 71, rfl⟩
abbrev main_call2_cst : Ref sig .tc := ⟨.hbm, 72, rfl⟩
abbrev main_call2_v15 : Ref sig .tc := ⟨.hbm, 73, rfl⟩
abbrev main_v2 : Ref sig .tc := ⟨.hbm, 74, rfl⟩
abbrev main_call3_c : Ref sig .tc := ⟨.hbm, 75, rfl⟩
abbrev main_call3_v0 : Ref sig .tc := ⟨.hbm, 76, rfl⟩
abbrev main_call3_v1 : Ref sig .tc := ⟨.hbm, 77, rfl⟩
abbrev main_call3_c_0 : Ref sig .tc := ⟨.hbm, 78, rfl⟩
abbrev main_call3_v2 : Ref sig .tc := ⟨.hbm, 79, rfl⟩
abbrev main_call3_v3 : Ref sig .tc := ⟨.hbm, 80, rfl⟩
abbrev main_call3_v4 : Ref sig .tc := ⟨.hbm, 81, rfl⟩
abbrev main_call3_v5 : Ref sig .tc := ⟨.hbm, 82, rfl⟩
abbrev main_call3_c_1 : Ref sig .tc := ⟨.hbm, 83, rfl⟩
abbrev main_call3_c_2 : Ref sig .tc := ⟨.hbm, 84, rfl⟩
abbrev main_call3_v6 : Ref sig .tc := ⟨.hbm, 85, rfl⟩
abbrev main_call3_v7 : Ref sig .tc := ⟨.hbm, 86, rfl⟩
abbrev main_call3_v8 : Ref sig .tc := ⟨.hbm, 87, rfl⟩
abbrev main_call3_v9 : Ref sig .tc := ⟨.hbm, 88, rfl⟩
abbrev main_call3_v10 : Ref sig .tc := ⟨.hbm, 89, rfl⟩
abbrev main_call3_v11 : Ref sig .tc := ⟨.hbm, 90, rfl⟩
abbrev main_call3_c_3 : Ref sig .tc := ⟨.hbm, 91, rfl⟩
abbrev main_call3_v12 : Ref sig .tc := ⟨.hbm, 92, rfl⟩
abbrev main_call3_v13 : Ref sig .tc := ⟨.hbm, 93, rfl⟩
abbrev main_call3_v14 : Ref sig .tc := ⟨.hbm, 94, rfl⟩
abbrev main_call3_cst : Ref sig .tc := ⟨.hbm, 95, rfl⟩
abbrev main_call3_v15 : Ref sig .tc := ⟨.hbm, 96, rfl⟩
abbrev main_v3 : Ref sig .tc := ⟨.hbm, 97, rfl⟩
abbrev main_v4 : Ref sig .tc := ⟨.hbm, 98, rfl⟩
abbrev main_v5 : Ref sig .tc := ⟨.hbm, 99, rfl⟩
abbrev main_v6 : Ref sig .tc := ⟨.hbm, 100, rfl⟩
abbrev main_v7 : Ref sig .tc := ⟨.hbm, 101, rfl⟩

abbrev nD : Nat := 1
abbrev τ : Topo := Topo.v7x

variable {F : FTy → Type} [FloatOps F]

class Facts₀ : Prop where
  bcast_S_S14 : S_.BroadcastsInDim S14 (![] : Fin 0 → Fin S14.rank)
  bcast_S14_S14x1_0 : S14.BroadcastsInDim S14x1 (![0] : Fin 1 → Fin S14x1.rank)
  bcast_S_S14x1 : S_.BroadcastsInDim S14x1 (![] : Fin 0 → Fin S14x1.rank)
  bcast_S1_S1x1_1 : S1.BroadcastsInDim S1x1 (![1] : Fin 1 → Fin S1x1.rank)
  bcast_S1x1_S14x1_0_1 : S1x1.BroadcastsInDim S14x1 (![0, 1] : Fin 2 → Fin S14x1.rank)
  reducesTo_S14x1_S14_d1 : S14x1.ReducesTo [1] S14
  h_S_ : 0 < S_.numel
  bcast_S14_S16384x14x2_1 : S14.BroadcastsInDim S16384x14x2 (![1] : Fin 1 → Fin S16384x14x2.rank)
  bcast_S_S16384x14x2 : S_.BroadcastsInDim S16384x14x2 (![] : Fin 0 → Fin S16384x14x2.rank)
  bcast_S14_S16384x14_1 : S14.BroadcastsInDim S16384x14 (![1] : Fin 1 → Fin S16384x14.rank)
  bcast_S_S16384x14 : S_.BroadcastsInDim S16384x14 (![] : Fin 0 → Fin S16384x14.rank)
  bcast_S16384x14_S16384x14x1_0_1 : S16384x14.BroadcastsInDim S16384x14x1 (![0, 1] : Fin 2 → Fin S16384x14x1.rank)
  concatenates_S16384x14x2_S16384x14x1_S16384x14x2_S16384x14x2_S16384x14x1_S16384x14x1_S16384x14x9_d2 : Shape.Concatenates [S16384x14x2, S16384x14x1, S16384x14x2, S16384x14x2, S16384x14x1, S16384x14x1] S16384x14x9 2
  gather_S16384x17x2_S14x1_S16384x14x2_02_1_n_n_1_1_1638412_wf : GatherDims.WF S16384x17x2 S14x1 S16384x14x2 [0, 2] [1] [] [1] [] 1 ![16384, 1, 2]
  gather_S16384x17_S14x1_S16384x14_0_1_n_n_1_1_163841_wf : GatherDims.WF S16384x17 S14x1 S16384x14 [0] [1] [] [1] [] 1 ![16384, 1]

variable [Facts₀]

def gather_S16384x17x2_S14x1_S16384x14x2_02_1_n_n_1_1_1638412 : GatherDims S16384x17x2 S14x1 S16384x14x2 where
  offsetDims := [0, 2]
  collapsedSliceDims := [1]
  operandBatchingDims := []
  startIndicesBatchingDims := []
  startIndexMap := [1]
  indexVectorDim := 1
  sliceSizes := ![16384, 1, 2]
  wf := gather_S16384x17x2_S14x1_S16384x14x2_02_1_n_n_1_1_1638412_wf
def gather_S16384x17_S14x1_S16384x14_0_1_n_n_1_1_163841 : GatherDims S16384x17 S14x1 S16384x14 where
  offsetDims := [0]
  collapsedSliceDims := [1]
  operandBatchingDims := []
  startIndicesBatchingDims := []
  startIndexMap := [1]
  indexVectorDim := 1
  sliceSizes := ![16384, 1]
  wf := gather_S16384x17_S14x1_S16384x14_0_1_n_n_1_1_163841_wf

class Facts : Prop extends Facts₀ where

variable [Facts]
-- ==== Proof.KICommon.lean ====
/-
  The vector-subcore program of `KernelIdeal` as its launch theorem sees it, and the vocabulary the per-tile proofs share:
  the thirty-two tiles' threads, the three staging buffers and six DMA semaphores each tile owns, and a slice of an HBM
  array held by exactly its own elements.
-/
import proofs.«210185_g18468359372994_cont_8to1_1390_15_alg».proof.Defs
import Idealize.ShloMosaic.Lib.SparseCore.Launch
import Idealize.ShloMosaic.Lib.StableHlo.Run
import Idealize.ShloMosaic.Lib.Pipeline.Kit
import Idealize.ShloMosaic.Lib.Batch
import Idealize.ShloMosaic.Lib.Tactic
import proofs.«210185_g18468359372994_cont_8to1_1390_15_alg».proof.Proof.Gen.KernelIdeal
import proofs.«210185_g18468359372994_cont_8to1_1390_15_alg».proof.Proof.Gen.KernelIdeal.Skeleton

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

abbrev EH : Emb UH (MT nD τ sig (HIx 1) (Elt F) ℕ UU ℕ) := embL

/-! ## A tile, its coordinates, its own storage -/

def coordsV (c : Fin (grid0.bound 0)) (s : Fin (grid0.bound 1)) : grid0.Coords :=
  fun | 0 => c | 1 => s | ⟨_ + 2, h⟩ => absurd h (Nat.not_lt.2 (Nat.le_add_left _ _))

abbrev cV (L : grid0.Coords) : Fin τ.nSC := (L 0).castLE hcore0
abbrev jV (L : grid0.Coords) : Fin τ.nSub := (L 1).castLE hsub0

/-- A slice of an HBM array (or a whole staging buffer), held by exactly the elements its view names. -/
abbrev heldOwn (thr : Thread nD τ) {sp : Space} {s : Shape} (M : Memref sig thr.2.kind sp s .f32)
    (f : Buf (Elt F) (M.view.loc thr)) : sProp (MT nD τ sig (HIx 1) (Elt F) ℕ UU ℕ) :=
  M.view.loc thr ↦[M.view.set]{fullShare} f

section Own

variable (d : Dev nD) (c : Fin τ.nSC) (i : Fin τ.nSub)

local notation "𝕄" => MT nD τ sig (HIx 1) (Elt F) ℕ UU ℕ

abbrev cell3 : GSem nD τ sig := (V d c i, .dma cc0_scratch3.sem)
abbrev cell4 : GSem nD τ sig := (V d c i, .dma cc0_scratch4.sem)
abbrev cell5 : GSem nD τ sig := (V d c i, .dma cc0_scratch5.sem)
abbrev cell6 : GSem nD τ sig := (V d c i, .dma cc0_scratch6.sem)
abbrev cell7 : GSem nD τ sig := (V d c i, .dma cc0_scratch7.sem)
abbrev cell8 : GSem nD τ sig := (V d c i, .dma cc0_scratch8.sem)

theorem cell_mem (sm : DmaSem sig) (h : (SemLoc.dma sm : SemLoc sig).isScoped .scVector = true) :
    ((V d c i, .dma sm) : GSem nD τ sig) ∈ ownCells (V d c i) :=
  (mem_ownCells (g := ((V d c i, .dma sm) : GSem nD τ sig))).mpr ⟨rfl, h⟩

theorem cell_ne {a b : DmaSem sig} (h : a ≠ b) : ((V d c i, .dma a) : GSem nD τ sig) ≠ (V d c i, .dma b) :=
  fun e => h (SemLoc.dma.inj (Prod.mk.inj e).2)

/-- The six DMA semaphores of the kernel are among the tile's own: they, at zero, and the rest. -/
theorem ownSems0_V :
    (ownSems0 (V d c i) : sProp 𝕄)
      = iprop(semVal (cell3 d c i) 0 ∗ semVal (cell4 d c i) 0 ∗ semVal (cell5 d c i) 0 ∗ semVal (cell6 d c i) 0 ∗ semVal (cell7 d c i) 0 ∗ semVal (cell8 d c i) 0
          ∗ bigSep ((((((((ownCells (V d c i)).erase (cell3 d c i)).erase (cell4 d c i)).erase (cell5 d c i)).erase (cell6 d c i)).erase (cell7 d c i)).erase (cell8 d c i)))
              fun g => semVal g 0) := by
  unfold SparseCore.Cfg.ownSems0
  have m3 := cell_mem d c i cc0_scratch3.sem (by decide)
  have m4 := cell_mem d c i cc0_scratch4.sem (by decide)
  have m5 := cell_mem d c i cc0_scratch5.sem (by decide)
  have m6 := cell_mem d c i cc0_scratch6.sem (by decide)
  have m7 := cell_mem d c i cc0_scratch7.sem (by decide)
  have m8 := cell_mem d c i cc0_scratch8.sem (by decide)
  rw [SparseCore.bigSep_erase' m3,
    SparseCore.bigSep_erase' (Finset.mem_erase.mpr ⟨cell_ne d c i (by decide), m4⟩),
    SparseCore.bigSep_erase' (Finset.mem_erase.mpr ⟨cell_ne d c i (by decide), Finset.mem_erase.mpr ⟨cell_ne d c i (by decide), m5⟩⟩),
    SparseCore.bigSep_erase' (Finset.mem_erase.mpr ⟨cell_ne d c i (by decide), Finset.mem_erase.mpr ⟨cell_ne d c i (by decide), Finset.mem_erase.mpr ⟨cell_ne d c i (by decide), m6⟩⟩⟩),
    SparseCore.bigSep_erase' (Finset.mem_erase.mpr ⟨cell_ne d c i (by decide), Finset.mem_erase.mpr ⟨cell_ne d c i (by decide), Finset.mem_erase.mpr ⟨cell_ne d c i (by decide),
      Finset.mem_erase.mpr ⟨cell_ne d c i (by decide), m7⟩⟩⟩⟩),
    SparseCore.bigSep_erase' (Finset.mem_erase.mpr ⟨cell_ne d c i (by decide), Finset.mem_erase.mpr ⟨cell_ne d c i (by decide), Finset.mem_erase.mpr ⟨cell_ne d c i (by decide),
      Finset.mem_erase.mpr ⟨cell_ne d c i (by decide), Finset.mem_erase.mpr ⟨cell_ne d c i (by decide), m8⟩⟩⟩⟩⟩)]

abbrev ref0 : DevRef τ sig := (Proc.scVector c i).devRef cc0_scratch0
abbrev ref1 : DevRef τ sig := (Proc.scVector c i).devRef cc0_scratch1
abbrev ref2 : DevRef τ sig := (Proc.scVector c i).devRef cc0_scratch2

/-- The three staging buffers are among the tile's own: they, at some contents, and the rest. -/
theorem ownBufs_V :
    (ownBufs (V d c i) : sProp 𝕄)
      = iprop((∃ f, (V d c i).loc cc0_scratch0 ↦{fullShare} f) ∗ (∃ f, (V d c i).loc cc0_scratch1 ↦{fullShare} f)
          ∗ (∃ f, (V d c i).loc cc0_scratch2 ↦{fullShare} f)
          ∗ bigSep ((((ownRefs (τ := τ) (.scVector c i)).erase (ref0 c i)).erase (ref1 c i)).erase (ref2 c i))
              fun b => iprop(∃ f, ((d, b) : Loc nD τ sig) ↦{fullShare} f)) := by
  unfold SparseCore.Cfg.ownBufs
  refine (SparseCore.bigSep_erase' (SparseCore.Cfg.mem_ownRefs_of_owner (p := Proc.scVector c i) (b := ref0 c i) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector c i) (b := ref1 c i) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector c i) (b := ref2 c i) rfl⟩⟩)]

end Own

end Cert.Proof.KI

end
-- ==== Proof.Spec.lean ====
/-
  What both programs compute, as one function of the four argument arrays: for every batch row `b`, limb `l` and
  feature `f`, the nine features of a limb are the two coordinates of its offset, its length, the two coordinates of the
  joint it starts at (its parent), the two coordinates of the joint it ends at (its child), and the visibilities of
  those two joints. Nothing is computed: every entry of the result is one entry of one argument.
-/
import Idealize.ShloMosaic.Lib.ValueIdx

namespace Cert.Spec

open Idealize.ShloMosaic Idealize.ShloMosaic.ValueIdx

/-- The joint each of the fourteen limbs starts at. -/
def parent : Fin 14 → Fin 17 := ![5, 7, 6, 8, 11, 13, 12, 14, 5, 11, 5, 6, 0, 0]
/-- The joint each of the fourteen limbs ends at. -/
def child : Fin 14 → Fin 17 := ![7, 9, 8, 10, 13, 15, 14, 16, 6, 12, 11, 12, 5, 6]

/-- Feature `f` of limb `l` in batch row `b`. -/
def feat {α : Type} (pose : (⟨3, ![16384, 17, 2]⟩ : Shape).Idx → α) (vis : (⟨2, ![16384, 17]⟩ : Shape).Idx → α)
    (delta : (⟨3, ![16384, 14, 2]⟩ : Shape).Idx → α) (len : (⟨2, ![16384, 14]⟩ : Shape).Idx → α)
    (b : Fin 16384) (l : Fin 14) (f : Fin 9) : α :=
  match f with
  | ⟨0, _⟩ => delta (ix3 b l (0 : Fin 2))
  | ⟨1, _⟩ => delta (ix3 b l (1 : Fin 2))
  | ⟨2, _⟩ => len (ix2 b l)
  | ⟨3, _⟩ => pose (ix3 b (parent l) (0 : Fin 2))
  | ⟨4, _⟩ => pose (ix3 b (parent l) (1 : Fin 2))
  | ⟨5, _⟩ => pose (ix3 b (child l) (0 : Fin 2))
  | ⟨6, _⟩ => pose (ix3 b (child l) (1 : Fin 2))
  | ⟨7, _⟩ => vis (ix2 b (parent l))
  | ⟨8, _⟩ => vis (ix2 b (child l))
  | ⟨n + 9, h⟩ => absurd h (by omega)

/-- The whole result array `[16384, 14, 9]`. -/
def G {α : Type} (pose : (⟨3, ![16384, 17, 2]⟩ : Shape).Idx → α) (vis : (⟨2, ![16384, 17]⟩ : Shape).Idx → α)
    (delta : (⟨3, ![16384, 14, 2]⟩ : Shape).Idx → α) (len : (⟨2, ![16384, 14]⟩ : Shape).Idx → α) :
    (⟨3, ![16384, 14, 9]⟩ : Shape).Idx → α :=
  fun i => feat pose vis delta len (i 0) (i 1) (i 2)

end Cert.Spec
-- ==== Proof.Layout.lean ====
/-
  The re-layouts around the kernel, as pure functions of arrays, and the array the kernel must leave behind.

  Before the kernel each argument is re-laid so that a batch row `b = 128 * t + q` becomes a tile `t` and a lane `q`:
  the joints' coordinates `[16384, 17, 2]` become `[17, 128, 2, 128]` (`poseV`), the limbs' offsets likewise
  (`deltaV`), the visibilities `[16384, 17]` become `[17, 128, 128]` (`visV`) and the lengths likewise (`lenV`).
  After it the kernel's array `[9, 2, 128, 8, 128]` — feature, limb / 8, tile, limb % 8, lane — is re-laid to
  `[16384, 16, 9]` and the two unused limb rows 14 and 15 are cut off (`resV`). `outV` is the kernel's array as it
  has to be for that result to be the specification's: feature `f` of limb `8 h + r` of batch row `128 t + q` at
  `(f, h, t, r, q)`, and whatever was there before on the two unused limb rows.
-/
import proofs.«210185_g18468359372994_cont_8to1_1390_15_alg».proof.Proof.Spec
import Idealize.ShloMosaic.Lib.Pipeline.Value

namespace Cert.Layout

open Idealize.ShloMosaic Idealize.ShloMosaic.ValueIdx

abbrev S16384x17x2 : Shape := ⟨3, ![16384, 17, 2]⟩
abbrev S16384x17 : Shape := ⟨2, ![16384, 17]⟩
abbrev S16384x14x2 : Shape := ⟨3, ![16384, 14, 2]⟩
abbrev S16384x14 : Shape := ⟨2, ![16384, 14]⟩
abbrev S17x16384x2 : Shape := ⟨3, ![17, 16384, 2]⟩
abbrev S17x128x128x2 : Shape := ⟨4, ![17, 128, 128, 2]⟩
abbrev S17x128x2x128 : Shape := ⟨4, ![17, 128, 2, 128]⟩
abbrev S14x16384x2 : Shape := ⟨3, ![14, 16384, 2]⟩
abbrev S14x128x128x2 : Shape := ⟨4, ![14, 128, 128, 2]⟩
abbrev S14x128x2x128 : Shape := ⟨4, ![14, 128, 2, 128]⟩
abbrev S17x16384 : Shape := ⟨2, ![17, 16384]⟩
abbrev S17x128x128 : Shape := ⟨3, ![17, 128, 128]⟩
abbrev S14x16384 : Shape := ⟨2, ![14, 16384]⟩
abbrev S14x128x128 : Shape := ⟨3, ![14, 128, 128]⟩
abbrev S9x2x128x8x128 : Shape := ⟨5, ![9, 2, 128, 8, 128]⟩
abbrev S128x128x2x8x9 : Shape := ⟨5, ![128, 128, 2, 8, 9]⟩
abbrev S16384x16x9 : Shape := ⟨3, ![16384, 16, 9]⟩
abbrev S16384x14x9 : Shape := ⟨3, ![16384, 14, 9]⟩

variable {α : Type}

/-- The joints' coordinates, re-laid to `[17, 128, 2, 128]`. -/
def poseV (pose : S16384x17x2.Idx → α) : S17x128x2x128.Idx → α :=
  transpose S17x128x2x128 [0, 1, 3, 2] (shapeCast S17x128x128x2 (transpose S17x16384x2 [1, 0, 2] pose (by decide)) (by decide)) (by decide)
/-- The limbs' offsets, re-laid to `[14, 128, 2, 128]`. -/
def deltaV (delta : S16384x14x2.Idx → α) : S14x128x2x128.Idx → α :=
  transpose S14x128x2x128 [0, 1, 3, 2] (shapeCast S14x128x128x2 (transpose S14x16384x2 [1, 0, 2] delta (by decide)) (by decide)) (by decide)
/-- The visibilities, re-laid to `[17, 128, 128]`. -/
def visV (vis : S16384x17.Idx → α) : S17x128x128.Idx → α :=
  shapeCast S17x128x128 (transpose S17x16384 [1, 0] vis (by decide)) (by decide)
/-- The limbs' lengths, re-laid to `[14, 128, 128]`. -/
def lenV (len : S16384x14.Idx → α) : S14x128x128.Idx → α :=
  shapeCast S14x128x128 (transpose S14x16384 [1, 0] len (by decide)) (by decide)
/-- The result read off the kernel's array. -/
def resV (out5 : S9x2x128x8x128.Idx → α) : S16384x14x9.Idx → α :=
  extractStridedSlice S16384x14x9 ![0, 0, 0] (shapeCast S16384x16x9 (transpose S128x128x2x8x9 [2, 4, 1, 3, 0] out5 (by decide)) (by decide)) (by decide)

/-- Batch row `128 t + q`. -/
def row (t q : Fin 128) : Fin 16384 := ⟨128 * t.val + q.val, by have := t.isLt; have := q.isLt; omega⟩

/-- The kernel's array as it has to end: feature `f` of limb `8 h + r` of batch row `128 t + q` at `(f, h, t, r, q)`;
    on the two unused limb rows, what was there before (`init`). -/
def outV (pose : S16384x17x2.Idx → α) (vis : S16384x17.Idx → α) (delta : S16384x14x2.Idx → α) (len : S16384x14.Idx → α)
    (init : S9x2x128x8x128.Idx → α) : S9x2x128x8x128.Idx → α :=
  fun i => if h : 8 * (i 1).val + (i 3).val < 14 then
      Cert.Spec.feat pose vis delta len (row (i 2) (i 4)) ⟨8 * (i 1).val + (i 3).val, h⟩ (i 0)
    else init i

end Cert.Layout
-- ==== Proof.KIRes.lean ====
/-
  What the kernel's thirty-two tiles are handed and hand back, as one table. Every tile copies a few whole
  `[128, 128]` slices — one joint coordinate, one visibility, one offset coordinate or one length, for all batch rows —
  from the re-laid arguments into its staging buffers and from there into the slices of the output array that need that
  slice: feature `f` of limb `8 h + r` is the output's slice `(f, h, ·, r, ·)`. The tables below say which source slices and
  which output slices tile `t` (subcore `t / 2` of core `t % 2`) moves; no slice belongs to two tiles.
-/
import proofs.«210185_g18468359372994_cont_8to1_1390_15_alg».proof.Proof.KICommon
import proofs.«210185_g18468359372994_cont_8to1_1390_15_alg».proof.Proof.Layout

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

/-! ## The arrays, as the TensorCore names them, and what they hold at the call -/

abbrev arg0L (d : Dev nD) : Loc nD τ sig := (SparseCore.T d).loc main_arg0
abbrev arg1L (d : Dev nD) : Loc nD τ sig := (SparseCore.T d).loc main_arg1
abbrev arg2L (d : Dev nD) : Loc nD τ sig := (SparseCore.T d).loc main_arg2
abbrev arg3L (d : Dev nD) : Loc nD τ sig := (SparseCore.T d).loc main_arg3
abbrev v2L (d : Dev nD) : Loc nD τ sig := (SparseCore.T d).loc main_v2
abbrev v7L (d : Dev nD) : Loc nD τ sig := (SparseCore.T d).loc main_v7
abbrev v5L (d : Dev nD) : Loc nD τ sig := (SparseCore.T d).loc main_v5
abbrev v9L (d : Dev nD) : Loc nD τ sig := (SparseCore.T d).loc main_v9
abbrev v10L (d : Dev nD) : Loc nD τ sig := (SparseCore.T d).loc main_v10
abbrev v13L (d : Dev nD) : Loc nD τ sig := (SparseCore.T d).loc main_v13

variable (m : (ℓ : Loc nD τ sig) → Buf (Elt F) ℓ)

/-- The joints' coordinates re-laid, as the kernel finds them. -/
def V2c (d : Dev nD) : Buf (Elt F) (v2L d) := Cert.Layout.poseV (m (arg0L d))
/-- The visibilities re-laid. -/
def V7c (d : Dev nD) : Buf (Elt F) (v7L d) := Cert.Layout.visV (m (arg1L d))
/-- The limbs' offsets re-laid. -/
def V5c (d : Dev nD) : Buf (Elt F) (v5L d) := Cert.Layout.deltaV (m (arg2L d))
/-- The limbs' lengths re-laid. -/
def V9c (d : Dev nD) : Buf (Elt F) (v9L d) := Cert.Layout.lenV (m (arg3L d))
/-- The output array as the kernel has to leave it. -/
def OUTc (d : Dev nD) : Buf (Elt F) (v10L d) :=
  Cert.Layout.outV (m (arg0L d)) (m (arg1L d)) (m (arg2L d)) (m (arg3L d)) (m (v10L d))

/-! ## The slices -/

theorem inb2 (j : Fin 17) (x : Fin 2) : ∀ a, (![j.val, 0, x.val, 0] : Fin 4 → Nat) a + S1x128x1x128.size a ≤ S17x128x2x128.size a := by
  have := j.isLt; have := x.isLt; intro a; fin_cases a <;> simp <;> omega
theorem inb7 (j : Fin 17) : ∀ a, (![j.val, 0, 0] : Fin 3 → Nat) a + S1x128x128.size a ≤ S17x128x128.size a := by
  have := j.isLt; intro a; fin_cases a <;> simp <;> omega
theorem inb5 (l : Fin 14) (x : Fin 2) : ∀ a, (![l.val, 0, x.val, 0] : Fin 4 → Nat) a + S1x128x1x128.size a ≤ S14x128x2x128.size a := by
  have := l.isLt; have := x.isLt; intro a; fin_cases a <;> simp <;> omega
theorem inb9 (l : Fin 14) : ∀ a, (![l.val, 0, 0] : Fin 3 → Nat) a + S1x128x128.size a ≤ S14x128x128.size a := by
  have := l.isLt; intro a; fin_cases a <;> simp <;> omega
theorem inb10 (f : Fin 9) (h : Fin 2) (r : Fin 8) : ∀ a, (![f.val, h.val, 0, r.val, 0] : Fin 5 → Nat) a + S1x1x128x1x128.size a ≤ S9x2x128x8x128.size a := by
  have := f.isLt; have := h.isLt; have := r.isLt; intro a; fin_cases a <;> simp <;> omega

/-- Slice `(j, ·, x, ·)` of the re-laid joints: coordinate `x` of joint `j`, all batch rows. -/
abbrev set2 (p : Fin 17 × Fin 2) : Finset S17x128x2x128.Idx :=
  (Rect.unit (s := S17x128x2x128) ![p.1.val, 0, p.2.val, 0] S1x128x1x128.size (inb2 p.1 p.2)).set
/-- Slice `(j, ·, ·)` of the re-laid visibilities. -/
abbrev set7 (j : Fin 17) : Finset S17x128x128.Idx :=
  (Rect.unit (s := S17x128x128) ![j.val, 0, 0] S1x128x128.size (inb7 j)).set
/-- Slice `(l, ·, x, ·)` of the re-laid offsets. -/
abbrev set5 (p : Fin 14 × Fin 2) : Finset S14x128x2x128.Idx :=
  (Rect.unit (s := S14x128x2x128) ![p.1.val, 0, p.2.val, 0] S1x128x1x128.size (inb5 p.1 p.2)).set
/-- Slice `(l, ·, ·)` of the re-laid lengths. -/
abbrev set9 (l : Fin 14) : Finset S14x128x128.Idx :=
  (Rect.unit (s := S14x128x128) ![l.val, 0, 0] S1x128x128.size (inb9 l)).set
/-- Slice `(f, h, ·, r, ·)` of the output array: feature `f` of limb `8 h + r`, all batch rows. -/
abbrev set10 (p : Fin 9 × Fin 2 × Fin 8) : Finset S9x2x128x8x128.Idx :=
  (Rect.unit (s := S9x2x128x8x128) ![p.1.val, p.2.1.val, 0, p.2.2.val, 0] S1x1x128x1x128.size (inb10 p.1 p.2.1 p.2.2)).set

/-- A source slice held at what the array holds at the call; an output slice before (`B0`) and after (`B1`). -/
def A2 (d : Dev nD) (p : Fin 17 × Fin 2) : sProp 𝕄 := v2L d ↦[set2 p]{fullShare} V2c m d
def A7 (d : Dev nD) (j : Fin 17) : sProp 𝕄 := v7L d ↦[set7 j]{fullShare} V7c m d
def A5 (d : Dev nD) (p : Fin 14 × Fin 2) : sProp 𝕄 := v5L d ↦[set5 p]{fullShare} V5c m d
def A9 (d : Dev nD) (l : Fin 14) : sProp 𝕄 := v9L d ↦[set9 l]{fullShare} V9c m d
def B0 (d : Dev nD) (p : Fin 9 × Fin 2 × Fin 8) : sProp 𝕄 := v10L d ↦[set10 p]{fullShare} m (v10L d)
def B1 (d : Dev nD) (p : Fin 9 × Fin 2 × Fin 8) : sProp 𝕄 := v10L d ↦[set10 p]{fullShare} OUTc m d

/-! ## Which tile moves which slices -/

def t2 : Fin 32 → Finset (Fin 17 × Fin 2)
  | ⟨0, _⟩ => {(5, 0)}
  | ⟨1, _⟩ => {(5, 1)}
  | ⟨2, _⟩ => ∅
  | ⟨3, _⟩ => {(6, 0)}
  | ⟨4, _⟩ => {(6, 1)}
  | ⟨5, _⟩ => ∅
  | ⟨6, _⟩ => {(11, 0), (15, 1)}
  | ⟨7, _⟩ => {(11, 1)}
  | ⟨8, _⟩ => ∅
  | ⟨9, _⟩ => {(12, 0)}
  | ⟨10, _⟩ => {(12, 1)}
  | ⟨11, _⟩ => ∅
  | ⟨12, _⟩ => {(7, 0)}
  | ⟨13, _⟩ => {(7, 1)}
  | ⟨14, _⟩ => ∅
  | ⟨15, _⟩ => {(8, 0)}
  | ⟨16, _⟩ => {(8, 1)}
  | ⟨17, _⟩ => {(10, 0)}
  | ⟨18, _⟩ => {(13, 0), (10, 1)}
  | ⟨19, _⟩ => {(13, 1)}
  | ⟨20, _⟩ => ∅
  | ⟨21, _⟩ => {(14, 0)}
  | ⟨22, _⟩ => {(14, 1)}
  | ⟨23, _⟩ => ∅
  | ⟨24, _⟩ => {(0, 0)}
  | ⟨25, _⟩ => {(0, 1)}
  | ⟨26, _⟩ => {(15, 0)}
  | ⟨27, _⟩ => ∅
  | ⟨28, _⟩ => {(9, 0)}
  | ⟨29, _⟩ => {(9, 1), (16, 0)}
  | ⟨30, _⟩ => {(16, 1)}
  | ⟨31, _⟩ => ∅
  | ⟨n + 32, h⟩ => absurd h (by omega)

def t7 : Fin 32 → Finset (Fin 17)
  | ⟨0, _⟩ => ∅
  | ⟨1, _⟩ => ∅
  | ⟨2, _⟩ => {5}
  | ⟨3, _⟩ => ∅
  | ⟨4, _⟩ => ∅
  | ⟨5, _⟩ => {6}
  | ⟨6, _⟩ => ∅
  | ⟨7, _⟩ => {15}
  | ⟨8, _⟩ => {11}
  | ⟨9, _⟩ => ∅
  | ⟨10, _⟩ => ∅
  | ⟨11, _⟩ => {12}
  | ⟨12, _⟩ => ∅
  | ⟨13, _⟩ => ∅
  | ⟨14, _⟩ => {7}
  | ⟨15, _⟩ => ∅
  | ⟨16, _⟩ => ∅
  | ⟨17, _⟩ => {8}
  | ⟨18, _⟩ => ∅
  | ⟨19, _⟩ => {10}
  | ⟨20, _⟩ => {13}
  | ⟨21, _⟩ => ∅
  | ⟨22, _⟩ => ∅
  | ⟨23, _⟩ => {14}
  | ⟨24, _⟩ => ∅
  | ⟨25, _⟩ => ∅
  | ⟨26, _⟩ => {0}
  | ⟨27, _⟩ => ∅
  | ⟨28, _⟩ => ∅
  | ⟨29, _⟩ => ∅
  | ⟨30, _⟩ => {9}
  | ⟨31, _⟩ => {16}
  | ⟨n + 32, h⟩ => absurd h (by omega)

def t5 : Fin 32 → Finset (Fin 14 × Fin 2)
  | ⟨0, _⟩ => {(8, 0)}
  | ⟨1, _⟩ => {(8, 1)}
  | ⟨2, _⟩ => ∅
  | ⟨3, _⟩ => {(9, 0)}
  | ⟨4, _⟩ => {(9, 1)}
  | ⟨5, _⟩ => ∅
  | ⟨6, _⟩ => ∅
  | ⟨7, _⟩ => ∅
  | ⟨8, _⟩ => {(6, 0)}
  | ⟨9, _⟩ => {(6, 1)}
  | ⟨10, _⟩ => ∅
  | ⟨11, _⟩ => {(7, 0)}
  | ⟨12, _⟩ => {(2, 1), (10, 0)}
  | ⟨13, _⟩ => {(10, 1)}
  | ⟨14, _⟩ => {(3, 0)}
  | ⟨15, _⟩ => {(3, 1), (11, 0)}
  | ⟨16, _⟩ => {(11, 1)}
  | ⟨17, _⟩ => ∅
  | ⟨18, _⟩ => {(12, 0)}
  | ⟨19, _⟩ => {(12, 1)}
  | ⟨20, _⟩ => {(4, 0)}
  | ⟨21, _⟩ => {(4, 1), (13, 0)}
  | ⟨22, _⟩ => {(13, 1)}
  | ⟨23, _⟩ => {(5, 0)}
  | ⟨24, _⟩ => {(5, 1)}
  | ⟨25, _⟩ => ∅
  | ⟨26, _⟩ => ∅
  | ⟨27, _⟩ => {(0, 0), (7, 1)}
  | ⟨28, _⟩ => {(0, 1)}
  | ⟨29, _⟩ => ∅
  | ⟨30, _⟩ => {(1, 0)}
  | ⟨31, _⟩ => {(1, 1), (2, 0)}
  | ⟨n + 32, h⟩ => absurd h (by omega)

def t9 : Fin 32 → Finset (Fin 14)
  | ⟨0, _⟩ => ∅
  | ⟨1, _⟩ => ∅
  | ⟨2, _⟩ => {8}
  | ⟨3, _⟩ => ∅
  | ⟨4, _⟩ => ∅
  | ⟨5, _⟩ => {9}
  | ⟨6, _⟩ => ∅
  | ⟨7, _⟩ => ∅
  | ⟨8, _⟩ => ∅
  | ⟨9, _⟩ => ∅
  | ⟨10, _⟩ => {6}
  | ⟨11, _⟩ => ∅
  | ⟨12, _⟩ => ∅
  | ⟨13, _⟩ => {2}
  | ⟨14, _⟩ => {10}
  | ⟨15, _⟩ => ∅
  | ⟨16, _⟩ => {3}
  | ⟨17, _⟩ => {11}
  | ⟨18, _⟩ => ∅
  | ⟨19, _⟩ => ∅
  | ⟨20, _⟩ => {12}
  | ⟨21, _⟩ => ∅
  | ⟨22, _⟩ => {4}
  | ⟨23, _⟩ => {13}
  | ⟨24, _⟩ => ∅
  | ⟨25, _⟩ => {5}
  | ⟨26, _⟩ => ∅
  | ⟨27, _⟩ => {1}
  | ⟨28, _⟩ => {7}
  | ⟨29, _⟩ => {0}
  | ⟨30, _⟩ => ∅
  | ⟨31, _⟩ => ∅
  | ⟨n + 32, h⟩ => absurd h (by omega)

def t10 : Fin 32 → Finset (Fin 9 × Fin 2 × Fin 8)
  | ⟨0, _⟩ => {(3, 0, 0), (3, 1, 0), (3, 1, 2), (5, 1, 4), (0, 1, 0)}
  | ⟨1, _⟩ => {(4, 0, 0), (4, 1, 0), (4, 1, 2), (6, 1, 4), (1, 1, 0)}
  | ⟨2, _⟩ => {(7, 0, 0), (7, 1, 0), (7, 1, 2), (8, 1, 4), (2, 1, 0)}
  | ⟨3, _⟩ => {(3, 0, 2), (5, 1, 0), (3, 1, 3), (5, 1, 5), (0, 1, 1)}
  | ⟨4, _⟩ => {(4, 0, 2), (6, 1, 0), (4, 1, 3), (6, 1, 5), (1, 1, 1)}
  | ⟨5, _⟩ => {(7, 0, 2), (8, 1, 0), (7, 1, 3), (8, 1, 5), (2, 1, 1)}
  | ⟨6, _⟩ => {(3, 0, 4), (3, 1, 1), (5, 1, 2), (6, 0, 5)}
  | ⟨7, _⟩ => {(4, 0, 4), (4, 1, 1), (6, 1, 2), (8, 0, 5)}
  | ⟨8, _⟩ => {(7, 0, 4), (7, 1, 1), (8, 1, 2), (0, 0, 6)}
  | ⟨9, _⟩ => {(3, 0, 6), (5, 1, 1), (5, 1, 3), (1, 0, 6)}
  | ⟨10, _⟩ => {(4, 0, 6), (6, 1, 1), (6, 1, 3), (2, 0, 6)}
  | ⟨11, _⟩ => {(7, 0, 6), (8, 1, 1), (8, 1, 3), (0, 0, 7)}
  | ⟨12, _⟩ => {(5, 0, 0), (3, 0, 1), (1, 0, 2), (0, 1, 2)}
  | ⟨13, _⟩ => {(6, 0, 0), (4, 0, 1), (2, 0, 2), (1, 1, 2)}
  | ⟨14, _⟩ => {(8, 0, 0), (7, 0, 1), (0, 0, 3), (2, 1, 2)}
  | ⟨15, _⟩ => {(5, 0, 2), (3, 0, 3), (1, 0, 3), (0, 1, 3)}
  | ⟨16, _⟩ => {(6, 0, 2), (4, 0, 3), (2, 0, 3), (1, 1, 3)}
  | ⟨17, _⟩ => {(8, 0, 2), (7, 0, 3), (5, 0, 3), (2, 1, 3)}
  | ⟨18, _⟩ => {(5, 0, 4), (3, 0, 5), (6, 0, 3), (0, 1, 4)}
  | ⟨19, _⟩ => {(6, 0, 4), (4, 0, 5), (8, 0, 3), (1, 1, 4)}
  | ⟨20, _⟩ => {(8, 0, 4), (7, 0, 5), (0, 0, 4), (2, 1, 4)}
  | ⟨21, _⟩ => {(5, 0, 6), (3, 0, 7), (1, 0, 4), (0, 1, 5)}
  | ⟨22, _⟩ => {(6, 0, 6), (4, 0, 7), (2, 0, 4), (1, 1, 5)}
  | ⟨23, _⟩ => {(8, 0, 6), (7, 0, 7), (0, 0, 5), (2, 1, 5)}
  | ⟨24, _⟩ => {(3, 1, 4), (3, 1, 5), (1, 0, 5)}
  | ⟨25, _⟩ => {(4, 1, 4), (4, 1, 5), (2, 0, 5)}
  | ⟨26, _⟩ => {(7, 1, 4), (7, 1, 5), (5, 0, 5)}
  | ⟨27, _⟩ => {(0, 0, 0), (2, 0, 1), (1, 0, 7)}
  | ⟨28, _⟩ => {(1, 0, 0), (5, 0, 1), (2, 0, 7)}
  | ⟨29, _⟩ => {(2, 0, 0), (6, 0, 1), (5, 0, 7)}
  | ⟨30, _⟩ => {(0, 0, 1), (8, 0, 1), (6, 0, 7)}
  | ⟨31, _⟩ => {(1, 0, 1), (0, 0, 2), (8, 0, 7)}
  | ⟨n + 32, h⟩ => absurd h (by omega)

/-- Tile number of subcore `i` of core `c`. -/
def tileIx (c : Fin 2) (i : Fin 16) : Fin 32 := ⟨2 * i.val + c.val, by omega⟩

/-- What tile `t` is handed: its source slices and its output slices as they stand. -/
def tileG (d : Dev nD) (t : Fin 32) : sProp 𝕄 :=
  iprop(bigSep (t2 t) (A2 m d) ∗ bigSep (t7 t) (A7 m d) ∗ bigSep (t5 t) (A5 m d) ∗ bigSep (t9 t) (A9 m d) ∗ bigSep (t10 t) (B0 m d))
/-- What tile `t` hands back: its source slices, and its output slices filled. -/
def tileT (d : Dev nD) (t : Fin 32) : sProp 𝕄 :=
  iprop(bigSep (t2 t) (A2 m d) ∗ bigSep (t7 t) (A7 m d) ∗ bigSep (t5 t) (A5 m d) ∗ bigSep (t9 t) (A9 m d) ∗ bigSep (t10 t) (B1 m d))
/-- The slices no tile moves: four joints nobody reads, and the output's limb rows 14 and 15. -/
def restG (d : Dev nD) : sProp 𝕄 :=
  iprop(bigSep (Finset.univ \ Finset.univ.biUnion t2) (A2 m d) ∗ bigSep (Finset.univ \ Finset.univ.biUnion t7) (A7 m d)
    ∗ bigSep (Finset.univ \ Finset.univ.biUnion t5) (A5 m d) ∗ bigSep (Finset.univ \ Finset.univ.biUnion t9) (A9 m d)
    ∗ bigSep (Finset.univ \ Finset.univ.biUnion t10) (B0 m d))

end Cert.Proof.KI

end
-- ==== Proof.LayoutLemmas.lean ====
/-
  The re-layouts read at one index: each re-laid argument at (joint or limb, tile, coordinate, lane) is the argument at
  batch row `128 * tile + lane`, and the result read off the kernel's array at (batch row, limb, feature) is that array
  at (feature, limb / 8, row / 128, limb % 8, row % 128). With the array the kernel must leave behind, the result is the
  specification's.
-/
import proofs.«210185_g18468359372994_cont_8to1_1390_15_alg».proof.Proof.Layout

namespace Cert.Layout

open Idealize.ShloMosaic Idealize.ShloMosaic.ValueIdx

variable {α : Type}

/-- The joints' coordinates re-laid, at joint `j`, tile `t`, coordinate `x`, lane `q`: coordinate `x` of joint `j` in
    batch row `128 t + q`. -/
theorem poseV_apply (pose : S16384x17x2.Idx → α) (j : Fin 17) (t : Fin 128) (x : Fin 2) (q : Fin 128) :
    poseV pose (ix4 j t x q) = pose (ix3 (row t q) j x) := by
  have hj := j.isLt
  have ht := t.isLt
  have hx := x.isLt
  have hq := q.isLt
  unfold poseV
  -- the transpose [0, 1, 3, 2]: [17, 128, 2, 128] at (j, t, x, q) reads [17, 128, 128, 2] at (j, t, q, x)
  refine (transpose_apply _ _ _ (ix4 j t x q) (ix4 j t q x)
    (fun b => match b with | ⟨0, _⟩ => rfl | ⟨1, _⟩ => rfl | ⟨2, _⟩ => rfl | ⟨3, _⟩ => rfl)).trans ?_
  -- the shape cast: [17, 128, 128, 2] at (j, t, q, x) reads [17, 16384, 2] at (j, 128 t + q, x)
  refine (shapeCast_apply _ _ (ix4 j t q x) (ix3 j (row t q) x)
    (by rw [Shape.rowMajor_val_three, Shape.rowMajor_val_four]
        show (j.val * 16384 + (128 * t.val + q.val)) * 2 + x.val = ((j.val * 128 + t.val) * 128 + q.val) * 2 + x.val
        omega)).trans ?_
  -- the transpose [1, 0, 2]: [17, 16384, 2] at (j, b, x) reads [16384, 17, 2] at (b, j, x)
  exact transpose_apply _ _ _ _ _ (fun b => match b with | ⟨0, _⟩ => rfl | ⟨1, _⟩ => rfl | ⟨2, _⟩ => rfl)

/-- The limbs' offsets re-laid, at limb `l`, tile `t`, coordinate `x`, lane `q`: coordinate `x` of limb `l`'s offset in
    batch row `128 t + q`. -/
theorem deltaV_apply (delta : S16384x14x2.Idx → α) (l : Fin 14) (t : Fin 128) (x : Fin 2) (q : Fin 128) :
    deltaV delta (ix4 l t x q) = delta (ix3 (row t q) l x) := by
  have hl := l.isLt
  have ht := t.isLt
  have hx := x.isLt
  have hq := q.isLt
  unfold deltaV
  -- the transpose [0, 1, 3, 2]: [14, 128, 2, 128] at (l, t, x, q) reads [14, 128, 128, 2] at (l, t, q, x)
  refine (transpose_apply _ _ _ (ix4 l t x q) (ix4 l t q x)
    (fun b => match b with | ⟨0, _⟩ => rfl | ⟨1, _⟩ => rfl | ⟨2, _⟩ => rfl | ⟨3, _⟩ => rfl)).trans ?_
  -- the shape cast: [14, 128, 128, 2] at (l, t, q, x) reads [14, 16384, 2] at (l, 128 t + q, x)
  refine (shapeCast_apply _ _ (ix4 l t q x) (ix3 l (row t q) x)
    (by rw [Shape.rowMajor_val_three, Shape.rowMajor_val_four]
        show (l.val * 16384 + (128 * t.val + q.val)) * 2 + x.val = ((l.val * 128 + t.val) * 128 + q.val) * 2 + x.val
        omega)).trans ?_
  -- the transpose [1, 0, 2]: [14, 16384, 2] at (l, b, x) reads [16384, 14, 2] at (b, l, x)
  exact transpose_apply _ _ _ _ _ (fun b => match b with | ⟨0, _⟩ => rfl | ⟨1, _⟩ => rfl | ⟨2, _⟩ => rfl)

/-- The visibilities re-laid, at joint `j`, tile `t`, lane `q`: the visibility of joint `j` in batch row `128 t + q`. -/
theorem visV_apply (vis : S16384x17.Idx → α) (j : Fin 17) (t q : Fin 128) : visV vis (ix3 j t q) = vis (ix2 (row t q) j) := by
  have hj := j.isLt
  have ht := t.isLt
  have hq := q.isLt
  unfold visV
  -- the shape cast: [17, 128, 128] at (j, t, q) reads [17, 16384] at (j, 128 t + q)
  refine (shapeCast_apply _ _ (ix3 j t q) (ix2 j (row t q))
    (by rw [Shape.rowMajor_val_two, Shape.rowMajor_val_three]
        show j.val * 16384 + (128 * t.val + q.val) = (j.val * 128 + t.val) * 128 + q.val
        omega)).trans ?_
  -- the transpose [1, 0]: [17, 16384] at (j, b) reads [16384, 17] at (b, j)
  exact transpose_apply _ _ _ _ _ (fun b => match b with | ⟨0, _⟩ => rfl | ⟨1, _⟩ => rfl)

/-- The limbs' lengths re-laid, at limb `l`, tile `t`, lane `q`: the length of limb `l` in batch row `128 t + q`. -/
theorem lenV_apply (len : S16384x14.Idx → α) (l : Fin 14) (t q : Fin 128) : lenV len (ix3 l t q) = len (ix2 (row t q) l) := by
  have hl := l.isLt
  have ht := t.isLt
  have hq := q.isLt
  unfold lenV
  -- the shape cast: [14, 128, 128] at (l, t, q) reads [14, 16384] at (l, 128 t + q)
  refine (shapeCast_apply _ _ (ix3 l t q) (ix2 l (row t q))
    (by rw [Shape.rowMajor_val_two, Shape.rowMajor_val_three]
        show l.val * 16384 + (128 * t.val + q.val) = (l.val * 128 + t.val) * 128 + q.val
        omega)).trans ?_
  -- the transpose [1, 0]: [14, 16384] at (l, b) reads [16384, 14] at (b, l)
  exact transpose_apply _ _ _ _ _ (fun b => match b with | ⟨0, _⟩ => rfl | ⟨1, _⟩ => rfl)

/-- The result read off the kernel's array, at batch row `b`, limb `l`, feature `f`: the array at feature `f`, limb
    half `l / 8`, tile `b / 128`, limb-in-half `l % 8`, lane `b % 128`. -/
theorem resV_apply (out5 : S9x2x128x8x128.Idx → α) (b : Fin 16384) (l : Fin 14) (f : Fin 9) :
    resV out5 (ix3 b l f) = out5 (ix5 f (⟨l.val / 8, by omega⟩ : Fin 2) (⟨b.val / 128, by omega⟩ : Fin 128) (⟨l.val % 8, by omega⟩ : Fin 8) (⟨b.val % 128, by omega⟩ : Fin 128)) := by
  have hb := b.isLt
  have hl := l.isLt
  have hf := f.isLt
  unfold resV
  -- the slice at (0, 0, 0): [16384, 14, 9] at (b, l, f) reads [16384, 16, 9] at (b, l, f)
  refine (extractStridedSlice_apply _ _ _ (ix3 b l f) (ix3 b (⟨l.val, by omega⟩ : Fin 16) f)
    (fun a => match a with
      | ⟨0, _⟩ => by show b.val = 0 + b.val; omega
      | ⟨1, _⟩ => by show l.val = 0 + l.val; omega
      | ⟨2, _⟩ => by show f.val = 0 + f.val; omega)).trans ?_
  -- the shape cast: [16384, 16, 9] at (b, l, f) reads [128, 128, 2, 8, 9] at (b / 128, b % 128, l / 8, l % 8, f)
  refine (shapeCast_apply _ _ (ix3 b (⟨l.val, by omega⟩ : Fin 16) f)
    (ix5 (⟨b.val / 128, by omega⟩ : Fin 128) (⟨b.val % 128, by omega⟩ : Fin 128) (⟨l.val / 8, by omega⟩ : Fin 2) (⟨l.val % 8, by omega⟩ : Fin 8) f)
    (by rw [Shape.rowMajor_val_five, Shape.rowMajor_val_three]
        show ((((b.val / 128) * 128 + b.val % 128) * 2 + l.val / 8) * 8 + l.val % 8) * 9 + f.val = (b.val * 16 + l.val) * 9 + f.val
        omega)).trans ?_
  -- the transpose [2, 4, 1, 3, 0]: [128, 128, 2, 8, 9] at (t, q, h, r, f) reads [9, 2, 128, 8, 128] at (f, h, t, r, q)
  exact transpose_apply _ _ _ _ _ (fun c => match c with | ⟨0, _⟩ => rfl | ⟨1, _⟩ => rfl | ⟨2, _⟩ => rfl | ⟨3, _⟩ => rfl | ⟨4, _⟩ => rfl)

/-- Read off the array the kernel must leave behind, the result is the specification's. -/
theorem resV_outV (pose : S16384x17x2.Idx → α) (vis : S16384x17.Idx → α) (delta : S16384x14x2.Idx → α) (len : S16384x14.Idx → α)
    (init : S9x2x128x8x128.Idx → α) : resV (outV pose vis delta len init) = Cert.Spec.G pose vis delta len := by
  funext i
  obtain ⟨b, l, f, rfl⟩ : ∃ (b : Fin 16384) (l : Fin 14) (f : Fin 9), i = ix3 b l f := ⟨i 0, i 1, i 2, eq_ix3 i⟩
  have hb := b.isLt
  have hl := l.isLt
  rw [resV_apply]
  have hlt : 8 * (l.val / 8) + l.val % 8 < 14 := by omega
  have hrow : row (⟨b.val / 128, by omega⟩ : Fin 128) (⟨b.val % 128, by omega⟩ : Fin 128) = b := Fin.ext (by show 128 * (b.val / 128) + b.val % 128 = b.val; omega)
  have hlimb : (⟨8 * (l.val / 8) + l.val % 8, hlt⟩ : Fin 14) = l := Fin.ext (by show 8 * (l.val / 8) + l.val % 8 = l.val; omega)
  show (if h : 8 * (l.val / 8) + l.val % 8 < 14 then
      Cert.Spec.feat pose vis delta len (row (⟨b.val / 128, by omega⟩ : Fin 128) (⟨b.val % 128, by omega⟩ : Fin 128)) ⟨8 * (l.val / 8) + l.val % 8, h⟩ f
    else init _) = Cert.Spec.feat pose vis delta len b l f
  rw [dif_pos hlt, hrow, hlimb]

end Cert.Layout
-- ==== Proof.KIRead.lean ====
/-
  Reading a `[128, 128]` slice of a re-laid array: the squeezed slice `(j, ·, x, ·)` read at `(t, q)` is the array at
  `(j, t, x, q)`, and likewise for the three- and five-axis arrays; a slice named by a tile's memref is the slice the
  table of tiles names; and a slice that a copy has filled holds what the copy carried.
-/
import proofs.«210185_g18468359372994_cont_8to1_1390_15_alg».proof.Proof.KIRes
import proofs.«210185_g18468359372994_cont_8to1_1390_15_alg».proof.Proof.LayoutLemmas
import Idealize.ShloMosaic.Lib.Exec

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

/-! ## A squeezed slice read at an index -/

/-- Slice `(j, ·, x, ·)` of `main_v2_scv`'s array read at `(t, q)`. -/
theorem read_v2 (j : Fin 17) (x : Fin 2) (inb : ∀ a, (![j.val, 0, x.val, 0] : Fin 4 → Nat) a + S1x128x1x128.size a ≤ S17x128x2x128.size a)
    (g : S17x128x2x128.Idx → Elt F .f32) (t q : Fin 128) :
    (((Memref.whole main_v2_scv).slice (Rect.unit (s := S17x128x2x128) ![j.val, 0, x.val, 0] S1x128x1x128.size inb) (fun _ => rfl)).squeeze S128x128 squeezes_S1x128x1x128_S128x128).view.read (Elt F) g (ix2 t q)
      = g (ix4 j t x q) := by
  show shapeCast (s := S1x128x1x128) S128x128 ((Memref.whole main_v2_scv).view.readAt (Elt F) (Rect.unit (s := S17x128x2x128) ![j.val, 0, x.val, 0] S1x128x1x128.size inb).toLoadRect g) (show S1x128x1x128.ShapeCasts S128x128 from by decide) (ix2 t q) = _
  refine (shapeCast_apply (s := S1x128x1x128) (t := S128x128) _ _ (ix2 t q) (ix4 (0 : Fin 1) t (0 : Fin 1) q) ?_).trans ?_
  · rw [Shape.rowMajor_val_four, Shape.rowMajor_val_two]; simp
  · show (Memref.whole main_v2_scv).view.read (Elt F) g ((Rect.unit (s := S17x128x2x128) ![j.val, 0, x.val, 0] S1x128x1x128.size inb).toLoadRect.idx (ix4 (0 : Fin 1) t (0 : Fin 1) q)) = _
    simp only [Memref.view_whole, View.read_whole]
    congr 1
    funext a
    apply Fin.ext
    rw [LoadRect.idx_apply]
    match a with
    | ⟨0, _⟩ => simp
    | ⟨1, _⟩ => simp
    | ⟨2, _⟩ => simp
    | ⟨3, _⟩ => simp

/-- Slice `(j, ·, x, ·)` of `main_v5_scv`'s array read at `(t, q)`. -/
theorem read_v5 (j : Fin 14) (x : Fin 2) (inb : ∀ a, (![j.val, 0, x.val, 0] : Fin 4 → Nat) a + S1x128x1x128.size a ≤ S14x128x2x128.size a)
    (g : S14x128x2x128.Idx → Elt F .f32) (t q : Fin 128) :
    (((Memref.whole main_v5_scv).slice (Rect.unit (s := S14x128x2x128) ![j.val, 0, x.val, 0] S1x128x1x128.size inb) (fun _ => rfl)).squeeze S128x128 squeezes_S1x128x1x128_S128x128).view.read (Elt F) g (ix2 t q)
      = g (ix4 j t x q) := by
  show shapeCast (s := S1x128x1x128) S128x128 ((Memref.whole main_v5_scv).view.readAt (Elt F) (Rect.unit (s := S14x128x2x128) ![j.val, 0, x.val, 0] S1x128x1x128.size inb).toLoadRect g) (show S1x128x1x128.ShapeCasts S128x128 from by decide) (ix2 t q) = _
  refine (shapeCast_apply (s := S1x128x1x128) (t := S128x128) _ _ (ix2 t q) (ix4 (0 : Fin 1) t (0 : Fin 1) q) ?_).trans ?_
  · rw [Shape.rowMajor_val_four, Shape.rowMajor_val_two]; simp
  · show (Memref.whole main_v5_scv).view.read (Elt F) g ((Rect.unit (s := S14x128x2x128) ![j.val, 0, x.val, 0] S1x128x1x128.size inb).toLoadRect.idx (ix4 (0 : Fin 1) t (0 : Fin 1) q)) = _
    simp only [Memref.view_whole, View.read_whole]
    congr 1
    funext a
    apply Fin.ext
    rw [LoadRect.idx_apply]
    match a with
    | ⟨0, _⟩ => simp
    | ⟨1, _⟩ => simp
    | ⟨2, _⟩ => simp
    | ⟨3, _⟩ => simp

/-- Slice `(j, ·, ·)` of `main_v7_scv`'s array read at `(t, q)`. -/
theorem read_v7 (j : Fin 17) (inb : ∀ a, (![j.val, 0, 0] : Fin 3 → Nat) a + S1x128x128.size a ≤ S17x128x128.size a)
    (g : S17x128x128.Idx → Elt F .f32) (t q : Fin 128) :
    (((Memref.whole main_v7_scv).slice (Rect.unit (s := S17x128x128) ![j.val, 0, 0] S1x128x128.size inb) (fun _ => rfl)).squeeze S128x128 squeezes_S1x128x128_S128x128).view.read (Elt F) g (ix2 t q)
      = g (ix3 j t q) := by
  show shapeCast (s := S1x128x128) S128x128 ((Memref.whole main_v7_scv).view.readAt (Elt F) (Rect.unit (s := S17x128x128) ![j.val, 0, 0] S1x128x128.size inb).toLoadRect g) (show S1x128x128.ShapeCasts S128x128 from by decide) (ix2 t q) = _
  refine (shapeCast_apply (s := S1x128x128) (t := S128x128) _ _ (ix2 t q) (ix3 (0 : Fin 1) t q) ?_).trans ?_
  · rw [Shape.rowMajor_val_three, Shape.rowMajor_val_two]; simp
  · show (Memref.whole main_v7_scv).view.read (Elt F) g ((Rect.unit (s := S17x128x128) ![j.val, 0, 0] S1x128x128.size inb).toLoadRect.idx (ix3 (0 : Fin 1) t q)) = _
    simp only [Memref.view_whole, View.read_whole]
    congr 1
    funext a
    apply Fin.ext
    rw [LoadRect.idx_apply]
    match a with
    | ⟨0, _⟩ => simp
    | ⟨1, _⟩ => simp
    | ⟨2, _⟩ => simp

/-- Slice `(j, ·, ·)` of `main_v9_scv`'s array read at `(t, q)`. -/
theorem read_v9 (j : Fin 14) (inb : ∀ a, (![j.val, 0, 0] : Fin 3 → Nat) a + S1x128x128.size a ≤ S14x128x128.size a)
    (g : S14x128x128.Idx → Elt F .f32) (t q : Fin 128) :
    (((Memref.whole main_v9_scv).slice (Rect.unit (s := S14x128x128) ![j.val, 0, 0] S1x128x128.size inb) (fun _ => rfl)).squeeze S128x128 squeezes_S1x128x128_S128x128).view.read (Elt F) g (ix2 t q)
      = g (ix3 j t q) := by
  show shapeCast (s := S1x128x128) S128x128 ((Memref.whole main_v9_scv).view.readAt (Elt F) (Rect.unit (s := S14x128x128) ![j.val, 0, 0] S1x128x128.size inb).toLoadRect g) (show S1x128x128.ShapeCasts S128x128 from by decide) (ix2 t q) = _
  refine (shapeCast_apply (s := S1x128x128) (t := S128x128) _ _ (ix2 t q) (ix3 (0 : Fin 1) t q) ?_).trans ?_
  · rw [Shape.rowMajor_val_three, Shape.rowMajor_val_two]; simp
  · show (Memref.whole main_v9_scv).view.read (Elt F) g ((Rect.unit (s := S14x128x128) ![j.val, 0, 0] S1x128x128.size inb).toLoadRect.idx (ix3 (0 : Fin 1) t q)) = _
    simp only [Memref.view_whole, View.read_whole]
    congr 1
    funext a
    apply Fin.ext
    rw [LoadRect.idx_apply]
    match a with
    | ⟨0, _⟩ => simp
    | ⟨1, _⟩ => simp
    | ⟨2, _⟩ => simp

/-- Slice `(f, h, ·, r, ·)` of the output array read at `(t, q)`. -/
theorem read_v10 (f : Fin 9) (h : Fin 2) (r : Fin 8) (inb : ∀ a, (![f.val, h.val, 0, r.val, 0] : Fin 5 → Nat) a + S1x1x128x1x128.size a ≤ S9x2x128x8x128.size a)
    (g : S9x2x128x8x128.Idx → Elt F .f32) (t q : Fin 128) :
    (((Memref.whole main_v10_scv).slice (Rect.unit (s := S9x2x128x8x128) ![f.val, h.val, 0, r.val, 0] S1x1x128x1x128.size inb) (fun _ => rfl)).squeeze S128x128 squeezes_S1x1x128x1x128_S128x128).view.read (Elt F) g (ix2 t q)
      = g (ix5 f h t r q) := by
  show shapeCast (s := S1x1x128x1x128) S128x128 ((Memref.whole main_v10_scv).view.readAt (Elt F) (Rect.unit (s := S9x2x128x8x128) ![f.val, h.val, 0, r.val, 0] S1x1x128x1x128.size inb).toLoadRect g) (show S1x1x128x1x128.ShapeCasts S128x128 from by decide) (ix2 t q) = _
  refine (shapeCast_apply (s := S1x1x128x1x128) (t := S128x128) _ _ (ix2 t q) (ix5 (0 : Fin 1) (0 : Fin 1) t (0 : Fin 1) q) ?_).trans ?_
  · rw [Shape.rowMajor_val_five, Shape.rowMajor_val_two]; simp
  · show (Memref.whole main_v10_scv).view.read (Elt F) g ((Rect.unit (s := S9x2x128x8x128) ![f.val, h.val, 0, r.val, 0] S1x1x128x1x128.size inb).toLoadRect.idx (ix5 (0 : Fin 1) (0 : Fin 1) t (0 : Fin 1) q)) = _
    simp only [Memref.view_whole, View.read_whole]
    congr 1
    funext a
    apply Fin.ext
    rw [LoadRect.idx_apply]
    match a with
    | ⟨0, _⟩ => simp
    | ⟨1, _⟩ => simp
    | ⟨2, _⟩ => simp
    | ⟨3, _⟩ => simp
    | ⟨4, _⟩ => simp

/-- The array the kernel has to leave, at a used slice: feature `f` of limb `8 h + r` of batch row `128 t + q`. -/
theorem outV_at {α : Type} (pose : Cert.Layout.S16384x17x2.Idx → α) (vis : Cert.Layout.S16384x17.Idx → α) (delta : Cert.Layout.S16384x14x2.Idx → α)
    (len : Cert.Layout.S16384x14.Idx → α) (init : Cert.Layout.S9x2x128x8x128.Idx → α) (f : Fin 9) (h : Fin 2) (t : Fin 128) (r : Fin 8) (q : Fin 128)
    (hl : 8 * h.val + r.val < 14) :
    Cert.Layout.outV pose vis delta len init (ix5 f h t r q) = Cert.Spec.feat pose vis delta len (Cert.Layout.row t q) ⟨8 * h.val + r.val, hl⟩ f := by
  unfold Cert.Layout.outV
  exact dif_pos hl

/-! ## A tile's memref and the table's slice -/

theorem set_v2 (j : Fin 17) (x : Fin 2) (inb : ∀ a, ((![j.val, 0, x.val, 0] : Fin 4 → Nat)) a + S1x128x1x128.size a ≤ S17x128x2x128.size a) :
    (((Memref.whole main_v2_scv).slice (Rect.unit (s := S17x128x2x128) ![j.val, 0, x.val, 0] S1x128x1x128.size inb) (fun _ => rfl)).squeeze S128x128 squeezes_S1x128x1x128_S128x128).view.set
      = (Rect.unit (s := S17x128x2x128) ![j.val, 0, x.val, 0] S1x128x1x128.size inb).set := by
  show (((Memref.whole main_v2_scv).view.slice (Rect.unit (s := S17x128x2x128) ![j.val, 0, x.val, 0] S1x128x1x128.size inb)).reshape S128x128 (squeezes_S1x128x1x128_S128x128).numel_eq).set = _
  rw [View.set_reshape]
  exact View.set_slice_whole _ _
/-- The slice as a tile's memref names it is the slice as the table names it. -/
theorem pts_v2 (d : Dev nD) (c : Fin τ.nSC) (i : Fin τ.nSub) (j : Fin 17) (x : Fin 2) (inb : ∀ a, ((![j.val, 0, x.val, 0] : Fin 4 → Nat)) a + S1x128x1x128.size a ≤ S17x128x2x128.size a) (g : Buf (Elt F) (v2L d)) :
    ((((Memref.whole main_v2_scv).slice (Rect.unit (s := S17x128x2x128) ![j.val, 0, x.val, 0] S1x128x1x128.size inb) (fun _ => rfl)).squeeze S128x128 squeezes_S1x128x1x128_S128x128).view.loc (V d c i)
        ↦[(((Memref.whole main_v2_scv).slice (Rect.unit (s := S17x128x2x128) ![j.val, 0, x.val, 0] S1x128x1x128.size inb) (fun _ => rfl)).squeeze S128x128 squeezes_S1x128x1x128_S128x128).view.set]{fullShare} g : sProp 𝕄)
      = (v2L d ↦[set2 (j, x)]{fullShare} g) := by
  rw [set_v2]

theorem set_v5 (j : Fin 14) (x : Fin 2) (inb : ∀ a, ((![j.val, 0, x.val, 0] : Fin 4 → Nat)) a + S1x128x1x128.size a ≤ S14x128x2x128.size a) :
    (((Memref.whole main_v5_scv).slice (Rect.unit (s := S14x128x2x128) ![j.val, 0, x.val, 0] S1x128x1x128.size inb) (fun _ => rfl)).squeeze S128x128 squeezes_S1x128x1x128_S128x128).view.set
      = (Rect.unit (s := S14x128x2x128) ![j.val, 0, x.val, 0] S1x128x1x128.size inb).set := by
  show (((Memref.whole main_v5_scv).view.slice (Rect.unit (s := S14x128x2x128) ![j.val, 0, x.val, 0] S1x128x1x128.size inb)).reshape S128x128 (squeezes_S1x128x1x128_S128x128).numel_eq).set = _
  rw [View.set_reshape]
  exact View.set_slice_whole _ _
/-- The slice as a tile's memref names it is the slice as the table names it. -/
theorem pts_v5 (d : Dev nD) (c : Fin τ.nSC) (i : Fin τ.nSub) (j : Fin 14) (x : Fin 2) (inb : ∀ a, ((![j.val, 0, x.val, 0] : Fin 4 → Nat)) a + S1x128x1x128.size a ≤ S14x128x2x128.size a) (g : Buf (Elt F) (v5L d)) :
    ((((Memref.whole main_v5_scv).slice (Rect.unit (s := S14x128x2x128) ![j.val, 0, x.val, 0] S1x128x1x128.size inb) (fun _ => rfl)).squeeze S128x128 squeezes_S1x128x1x128_S128x128).view.loc (V d c i)
        ↦[(((Memref.whole main_v5_scv).slice (Rect.unit (s := S14x128x2x128) ![j.val, 0, x.val, 0] S1x128x1x128.size inb) (fun _ => rfl)).squeeze S128x128 squeezes_S1x128x1x128_S128x128).view.set]{fullShare} g : sProp 𝕄)
      = (v5L d ↦[set5 (j, x)]{fullShare} g) := by
  rw [set_v5]

theorem set_v7 (j : Fin 17) (inb : ∀ a, ((![j.val, 0, 0] : Fin 3 → Nat)) a + S1x128x128.size a ≤ S17x128x128.size a) :
    (((Memref.whole main_v7_scv).slice (Rect.unit (s := S17x128x128) ![j.val, 0, 0] S1x128x128.size inb) (fun _ => rfl)).squeeze S128x128 squeezes_S1x128x128_S128x128).view.set
      = (Rect.unit (s := S17x128x128) ![j.val, 0, 0] S1x128x128.size inb).set := by
  show (((Memref.whole main_v7_scv).view.slice (Rect.unit (s := S17x128x128) ![j.val, 0, 0] S1x128x128.size inb)).reshape S128x128 (squeezes_S1x128x128_S128x128).numel_eq).set = _
  rw [View.set_reshape]
  exact View.set_slice_whole _ _
/-- The slice as a tile's memref names it is the slice as the table names it. -/
theorem pts_v7 (d : Dev nD) (c : Fin τ.nSC) (i : Fin τ.nSub) (j : Fin 17) (inb : ∀ a, ((![j.val, 0, 0] : Fin 3 → Nat)) a + S1x128x128.size a ≤ S17x128x128.size a) (g : Buf (Elt F) (v7L d)) :
    ((((Memref.whole main_v7_scv).slice (Rect.unit (s := S17x128x128) ![j.val, 0, 0] S1x128x128.size inb) (fun _ => rfl)).squeeze S128x128 squeezes_S1x128x128_S128x128).view.loc (V d c i)
        ↦[(((Memref.whole main_v7_scv).slice (Rect.unit (s := S17x128x128) ![j.val, 0, 0] S1x128x128.size inb) (fun _ => rfl)).squeeze S128x128 squeezes_S1x128x128_S128x128).view.set]{fullShare} g : sProp 𝕄)
      = (v7L d ↦[set7 j]{fullShare} g) := by
  rw [set_v7]

theorem set_v9 (j : Fin 14) (inb : ∀ a, ((![j.val, 0, 0] : Fin 3 → Nat)) a + S1x128x128.size a ≤ S14x128x128.size a) :
    (((Memref.whole main_v9_scv).slice (Rect.unit (s := S14x128x128) ![j.val, 0, 0] S1x128x128.size inb) (fun _ => rfl)).squeeze S128x128 squeezes_S1x128x128_S128x128).view.set
      = (Rect.unit (s := S14x128x128) ![j.val, 0, 0] S1x128x128.size inb).set := by
  show (((Memref.whole main_v9_scv).view.slice (Rect.unit (s := S14x128x128) ![j.val, 0, 0] S1x128x128.size inb)).reshape S128x128 (squeezes_S1x128x128_S128x128).numel_eq).set = _
  rw [View.set_reshape]
  exact View.set_slice_whole _ _
/-- The slice as a tile's memref names it is the slice as the table names it. -/
theorem pts_v9 (d : Dev nD) (c : Fin τ.nSC) (i : Fin τ.nSub) (j : Fin 14) (inb : ∀ a, ((![j.val, 0, 0] : Fin 3 → Nat)) a + S1x128x128.size a ≤ S14x128x128.size a) (g : Buf (Elt F) (v9L d)) :
    ((((Memref.whole main_v9_scv).slice (Rect.unit (s := S14x128x128) ![j.val, 0, 0] S1x128x128.size inb) (fun _ => rfl)).squeeze S128x128 squeezes_S1x128x128_S128x128).view.loc (V d c i)
        ↦[(((Memref.whole main_v9_scv).slice (Rect.unit (s := S14x128x128) ![j.val, 0, 0] S1x128x128.size inb) (fun _ => rfl)).squeeze S128x128 squeezes_S1x128x128_S128x128).view.set]{fullShare} g : sProp 𝕄)
      = (v9L d ↦[set9 j]{fullShare} g) := by
  rw [set_v9]

theorem set_v10 (f : Fin 9) (h : Fin 2) (r : Fin 8) (inb : ∀ a, ((![f.val, h.val, 0, r.val, 0] : Fin 5 → Nat)) a + S1x1x128x1x128.size a ≤ S9x2x128x8x128.size a) :
    (((Memref.whole main_v10_scv).slice (Rect.unit (s := S9x2x128x8x128) ![f.val, h.val, 0, r.val, 0] S1x1x128x1x128.size inb) (fun _ => rfl)).squeeze S128x128 squeezes_S1x1x128x1x128_S128x128).view.set
      = (Rect.unit (s := S9x2x128x8x128) ![f.val, h.val, 0, r.val, 0] S1x1x128x1x128.size inb).set := by
  show (((Memref.whole main_v10_scv).view.slice (Rect.unit (s := S9x2x128x8x128) ![f.val, h.val, 0, r.val, 0] S1x1x128x1x128.size inb)).reshape S128x128 (squeezes_S1x1x128x1x128_S128x128).numel_eq).set = _
  rw [View.set_reshape]
  exact View.set_slice_whole _ _
/-- The slice as a tile's memref names it is the slice as the table names it. -/
theorem pts_v10 (d : Dev nD) (c : Fin τ.nSC) (i : Fin τ.nSub) (f : Fin 9) (h : Fin 2) (r : Fin 8) (inb : ∀ a, ((![f.val, h.val, 0, r.val, 0] : Fin 5 → Nat)) a + S1x1x128x1x128.size a ≤ S9x2x128x8x128.size a) (g : Buf (Elt F) (v10L d)) :
    ((((Memref.whole main_v10_scv).slice (Rect.unit (s := S9x2x128x8x128) ![f.val, h.val, 0, r.val, 0] S1x1x128x1x128.size inb) (fun _ => rfl)).squeeze S128x128 squeezes_S1x1x128x1x128_S128x128).view.loc (V d c i)
        ↦[(((Memref.whole main_v10_scv).slice (Rect.unit (s := S9x2x128x8x128) ![f.val, h.val, 0, r.val, 0] S1x1x128x1x128.size inb) (fun _ => rfl)).squeeze S128x128 squeezes_S1x1x128x1x128_S128x128).view.set]{fullShare} g : sProp 𝕄)
      = (v10L d ↦[set10 (f, h, r)]{fullShare} g) := by
  rw [set_v10]

/-- A staging buffer as the tile's memref names it is the tile's own buffer. -/
theorem pts_b0 (d : Dev nD) (c : Fin τ.nSC) (i : Fin τ.nSub) (g : Buf (Elt F) ((V d c i).loc cc0_scratch0)) :
    (((Memref.whole cc0_scratch0 : Memref sig .scVector .vmem S128x128 .f32).view.loc (V d c i) ↦{fullShare} g : sProp 𝕄)) = ((V d c i).loc cc0_scratch0 ↦{fullShare} g) := rfl
theorem pts_b1 (d : Dev nD) (c : Fin τ.nSC) (i : Fin τ.nSub) (g : Buf (Elt F) ((V d c i).loc cc0_scratch1)) :
    (((Memref.whole cc0_scratch1 : Memref sig .scVector .vmem S128x128 .f32).view.loc (V d c i) ↦{fullShare} g : sProp 𝕄)) = ((V d c i).loc cc0_scratch1 ↦{fullShare} g) := rfl
theorem pts_b2 (d : Dev nD) (c : Fin τ.nSC) (i : Fin τ.nSub) (g : Buf (Elt F) ((V d c i).loc cc0_scratch2)) :
    (((Memref.whole cc0_scratch2 : Memref sig .scVector .vmem S128x128 .f32).view.loc (V d c i) ↦{fullShare} g : sProp 𝕄)) = ((V d c i).loc cc0_scratch2 ↦{fullShare} g) := rfl

/-! ## A slice a copy has filled -/

/-- A slice overwritten whole by what a copy carried holds, on its own elements, any contents that read back as the
    carried values. -/
theorem out_post_ent [∀ e, Nonempty (Elt F e)] (thr : Thread nD τ) (OUT : Memref sig thr.2.kind .hbm S128x128 .f32)
    (fo g : Buf (Elt F) (OUT.view.loc thr)) (pay : S128x128.Idx → Elt F .f32) (h : pay = OUT.view.read (Elt F) g) :
    (OUT.view.loc thr ↦[OUT.view.set]{fullShare} OUT.view.writes (Elt F) fo [⟨Rect.whole S128x128, pay⟩] : sProp 𝕄)
      ⊢ OUT.view.loc thr ↦[OUT.view.set]{fullShare} g := by
  refine Entails.of_eq ?_
  rw [Idealize.ShloMosaic.pointsTo_rep (Ix := HIx 1) (Name := ℕ) (U := UU) (Lvl := ℕ) thr OUT (OUT.view.writes (Elt F) fo _),
    Idealize.ShloMosaic.pointsTo_rep (Ix := HIx 1) (Name := ℕ) (U := UU) (Lvl := ℕ) thr OUT g, View.read_writes_whole, h]

end Cert.Proof.KI

end
-- ==== Proof.KITile0.lean ====
/-
  Tile 0 of the kernel (subcore 0 of core 0): one slice in (pose5.0), 4 out; one slice in (delta8.0), 1 out.
  Its whole body is run: every copy it does not own is skipped by the comparison of its number with the copy's owner;
  each incoming copy fills a staging buffer, each outgoing copy carries that buffer into one slice of the output array,
  and what each output slice then holds is the source slice the specification asks for there.
-/
import proofs.«210185_g18468359372994_cont_8to1_1390_15_alg».proof.Proof.KIRead

set_option maxHeartbeats 4000000
set_option quotPrecheck false

noncomputable section

namespace Cert.Proof.KI.Tile0

open Cert.KernelIdeal Cert.KernelIdeal.Gen
open Cert.Proof.KI
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
theorem cLt : 0 < grid0.bound 0 := by decide
theorem sLt : 0 < grid0.bound 1 := by decide
local notation "LL" => (coordsV (⟨0, cLt⟩ : Fin (grid0.bound 0)) (⟨0, sLt⟩ : Fin (grid0.bound 1)))
local notation "TH" d => V d (cV LL) (jV LL)
local notation "SRC0" => (((Memref.whole main_v2_scv).slice (Rect.unit (s := S17x128x2x128) ![5, 0, 0, 0] S1x128x1x128.size inb_S17x128x2x128_S1x128x1x128_5_0_0_0) (fun _ => rfl)).squeeze S128x128 squeezes_S1x128x1x128_S128x128 : Memref sig .scVector .hbm S128x128 .f32)
local notation "OUT0_0" => (((Memref.whole main_v10_scv).slice (Rect.unit (s := S9x2x128x8x128) ![3, 0, 0, 0, 0] S1x1x128x1x128.size inb_S9x2x128x8x128_S1x1x128x1x128_3_0_0_0_0) (fun _ => rfl)).squeeze S128x128 squeezes_S1x1x128x1x128_S128x128 : Memref sig .scVector .hbm S128x128 .f32)
local notation "OUT0_1" => (((Memref.whole main_v10_scv).slice (Rect.unit (s := S9x2x128x8x128) ![3, 1, 0, 0, 0] S1x1x128x1x128.size inb_S9x2x128x8x128_S1x1x128x1x128_3_1_0_0_0) (fun _ => rfl)).squeeze S128x128 squeezes_S1x1x128x1x128_S128x128 : Memref sig .scVector .hbm S128x128 .f32)
local notation "OUT0_2" => (((Memref.whole main_v10_scv).slice (Rect.unit (s := S9x2x128x8x128) ![3, 1, 0, 2, 0] S1x1x128x1x128.size inb_S9x2x128x8x128_S1x1x128x1x128_3_1_0_2_0) (fun _ => rfl)).squeeze S128x128 squeezes_S1x1x128x1x128_S128x128 : Memref sig .scVector .hbm S128x128 .f32)
local notation "OUT0_3" => (((Memref.whole main_v10_scv).slice (Rect.unit (s := S9x2x128x8x128) ![5, 1, 0, 4, 0] S1x1x128x1x128.size inb_S9x2x128x8x128_S1x1x128x1x128_5_1_0_4_0) (fun _ => rfl)).squeeze S128x128 squeezes_S1x1x128x1x128_S128x128 : Memref sig .scVector .hbm S128x128 .f32)
local notation "SRC1" => (((Memref.whole main_v5_scv).slice (Rect.unit (s := S14x128x2x128) ![8, 0, 0, 0] S1x128x1x128.size inb_S14x128x2x128_S1x128x1x128_8_0_0_0) (fun _ => rfl)).squeeze S128x128 squeezes_S1x128x1x128_S128x128 : Memref sig .scVector .hbm S128x128 .f32)
local notation "OUT1_0" => (((Memref.whole main_v10_scv).slice (Rect.unit (s := S9x2x128x8x128) ![0, 1, 0, 0, 0] S1x1x128x1x128.size inb_S9x2x128x8x128_S1x1x128x1x128_0_1_0_0_0) (fun _ => rfl)).squeeze S128x128 squeezes_S1x1x128x1x128_S128x128 : Memref sig .scVector .hbm S128x128 .f32)

/-! ## The tile's slices, as its memrefs name them -/

theorem open2 (m : (ℓ : Loc nD τ sig) → Buf (Elt F) ℓ) (d : Dev nD) :
    (bigSep (t2 (0 : Fin 32)) (A2 m d) : sProp 𝕄) = iprop(((SRC0).view.loc (TH d) ↦[(SRC0).view.set]{fullShare} V2c m d)) := by
  show bigSep ({((5 : Fin 17), (0 : Fin 2))} : Finset (Fin 17 × Fin 2)) (A2 m d) = _
  rw [bigSep_singleton]
  exact (pts_v2 d (cV LL) (jV LL) (5 : Fin 17) (0 : Fin 2) _ (V2c m d)).symm
theorem open5 (m : (ℓ : Loc nD τ sig) → Buf (Elt F) ℓ) (d : Dev nD) :
    (bigSep (t5 (0 : Fin 32)) (A5 m d) : sProp 𝕄) = iprop(((SRC1).view.loc (TH d) ↦[(SRC1).view.set]{fullShare} V5c m d)) := by
  show bigSep ({((8 : Fin 14), (0 : Fin 2))} : Finset (Fin 14 × Fin 2)) (A5 m d) = _
  rw [bigSep_singleton]
  exact (pts_v5 d (cV LL) (jV LL) (8 : Fin 14) (0 : Fin 2) _ (V5c m d)).symm
theorem open10 (m : (ℓ : Loc nD τ sig) → Buf (Elt F) ℓ) (d : Dev nD) :
    (bigSep (t10 (0 : Fin 32)) (B0 m d) : sProp 𝕄) = iprop(((OUT0_0).view.loc (TH d) ↦[(OUT0_0).view.set]{fullShare} m (v10L d)) ∗ ((OUT0_1).view.loc (TH d) ↦[(OUT0_1).view.set]{fullShare} m (v10L d)) ∗ ((OUT0_2).view.loc (TH d) ↦[(OUT0_2).view.set]{fullShare} m (v10L d)) ∗ ((OUT0_3).view.loc (TH d) ↦[(OUT0_3).view.set]{fullShare} m (v10L d)) ∗ ((OUT1_0).view.loc (TH d) ↦[(OUT1_0).view.set]{fullShare} m (v10L d))) := by
  show bigSep ({((3 : Fin 9), (0 : Fin 2), (0 : Fin 8)), ((3 : Fin 9), (1 : Fin 2), (0 : Fin 8)), ((3 : Fin 9), (1 : Fin 2), (2 : Fin 8)), ((5 : Fin 9), (1 : Fin 2), (4 : Fin 8)), ((0 : Fin 9), (1 : Fin 2), (0 : Fin 8))} : Finset (Fin 9 × Fin 2 × Fin 8)) (B0 m d) = _
  rw [SparseCore.bigSep_insert' (by decide), SparseCore.bigSep_insert' (by decide), SparseCore.bigSep_insert' (by decide), SparseCore.bigSep_insert' (by decide), bigSep_singleton]
  exact (congrArg₂ (fun a b : sProp 𝕄 => iprop(a ∗ b)) (pts_v10 d (cV LL) (jV LL) (3 : Fin 9) (0 : Fin 2) (0 : Fin 8) _ (m (v10L d))).symm (congrArg₂ (fun a b : sProp 𝕄 => iprop(a ∗ b)) (pts_v10 d (cV LL) (jV LL) (3 : Fin 9) (1 : Fin 2) (0 : Fin 8) _ (m (v10L d))).symm (congrArg₂ (fun a b : sProp 𝕄 => iprop(a ∗ b)) (pts_v10 d (cV LL) (jV LL) (3 : Fin 9) (1 : Fin 2) (2 : Fin 8) _ (m (v10L d))).symm (congrArg₂ (fun a b : sProp 𝕄 => iprop(a ∗ b)) (pts_v10 d (cV LL) (jV LL) (5 : Fin 9) (1 : Fin 2) (4 : Fin 8) _ (m (v10L d))).symm (pts_v10 d (cV LL) (jV LL) (0 : Fin 9) (1 : Fin 2) (0 : Fin 8) _ (m (v10L d))).symm))))
theorem close10 (m : (ℓ : Loc nD τ sig) → Buf (Elt F) ℓ) (d : Dev nD) :
    (bigSep (t10 (0 : Fin 32)) (B1 m d) : sProp 𝕄) = iprop(((OUT0_0).view.loc (TH d) ↦[(OUT0_0).view.set]{fullShare} OUTc m d) ∗ ((OUT0_1).view.loc (TH d) ↦[(OUT0_1).view.set]{fullShare} OUTc m d) ∗ ((OUT0_2).view.loc (TH d) ↦[(OUT0_2).view.set]{fullShare} OUTc m d) ∗ ((OUT0_3).view.loc (TH d) ↦[(OUT0_3).view.set]{fullShare} OUTc m d) ∗ ((OUT1_0).view.loc (TH d) ↦[(OUT1_0).view.set]{fullShare} OUTc m d)) := by
  show bigSep ({((3 : Fin 9), (0 : Fin 2), (0 : Fin 8)), ((3 : Fin 9), (1 : Fin 2), (0 : Fin 8)), ((3 : Fin 9), (1 : Fin 2), (2 : Fin 8)), ((5 : Fin 9), (1 : Fin 2), (4 : Fin 8)), ((0 : Fin 9), (1 : Fin 2), (0 : Fin 8))} : Finset (Fin 9 × Fin 2 × Fin 8)) (B1 m d) = _
  rw [SparseCore.bigSep_insert' (by decide), SparseCore.bigSep_insert' (by decide), SparseCore.bigSep_insert' (by decide), SparseCore.bigSep_insert' (by decide), bigSep_singleton]
  exact (congrArg₂ (fun a b : sProp 𝕄 => iprop(a ∗ b)) (pts_v10 d (cV LL) (jV LL) (3 : Fin 9) (0 : Fin 2) (0 : Fin 8) _ (OUTc m d)).symm (congrArg₂ (fun a b : sProp 𝕄 => iprop(a ∗ b)) (pts_v10 d (cV LL) (jV LL) (3 : Fin 9) (1 : Fin 2) (0 : Fin 8) _ (OUTc m d)).symm (congrArg₂ (fun a b : sProp 𝕄 => iprop(a ∗ b)) (pts_v10 d (cV LL) (jV LL) (3 : Fin 9) (1 : Fin 2) (2 : Fin 8) _ (OUTc m d)).symm (congrArg₂ (fun a b : sProp 𝕄 => iprop(a ∗ b)) (pts_v10 d (cV LL) (jV LL) (5 : Fin 9) (1 : Fin 2) (4 : Fin 8) _ (OUTc m d)).symm (pts_v10 d (cV LL) (jV LL) (0 : Fin 9) (1 : Fin 2) (0 : Fin 8) _ (OUTc m d)).symm))))

/-! ## What each output slice has to hold is what its source slice holds -/

theorem val0_0 (m : (ℓ : Loc nD τ sig) → Buf (Elt F) ℓ) (d : Dev nD) :
    (SRC0).view.read (Elt F) (V2c m d) = (OUT0_0).view.read (Elt F) (OUTc m d) := by
  funext y
  obtain ⟨t, q, rfl⟩ : ∃ (t q : Fin 128), y = ix2 t q := ⟨y 0, y 1, eq_ix2 y⟩
  refine (read_v2 (5 : Fin 17) (0 : Fin 2) _ _ t q).trans ((?_ : _ = _).trans (read_v10 (3 : Fin 9) (0 : Fin 2) (0 : Fin 8) _ _ t q).symm)
  unfold V2c OUTc
  rw [Cert.Layout.poseV_apply]
  refine Eq.trans ?_ (outV_at _ _ _ _ _ _ _ t _ q (show 8 * 0 + 0 < 14 by decide)).symm
  rfl
theorem val0_1 (m : (ℓ : Loc nD τ sig) → Buf (Elt F) ℓ) (d : Dev nD) :
    (SRC0).view.read (Elt F) (V2c m d) = (OUT0_1).view.read (Elt F) (OUTc m d) := by
  funext y
  obtain ⟨t, q, rfl⟩ : ∃ (t q : Fin 128), y = ix2 t q := ⟨y 0, y 1, eq_ix2 y⟩
  refine (read_v2 (5 : Fin 17) (0 : Fin 2) _ _ t q).trans ((?_ : _ = _).trans (read_v10 (3 : Fin 9) (1 : Fin 2) (0 : Fin 8) _ _ t q).symm)
  unfold V2c OUTc
  rw [Cert.Layout.poseV_apply]
  refine Eq.trans ?_ (outV_at _ _ _ _ _ _ _ t _ q (show 8 * 1 + 0 < 14 by decide)).symm
  rfl
theorem val0_2 (m : (ℓ : Loc nD τ sig) → Buf (Elt F) ℓ) (d : Dev nD) :
    (SRC0).view.read (Elt F) (V2c m d) = (OUT0_2).view.read (Elt F) (OUTc m d) := by
  funext y
  obtain ⟨t, q, rfl⟩ : ∃ (t q : Fin 128), y = ix2 t q := ⟨y 0, y 1, eq_ix2 y⟩
  refine (read_v2 (5 : Fin 17) (0 : Fin 2) _ _ t q).trans ((?_ : _ = _).trans (read_v10 (3 : Fin 9) (1 : Fin 2) (2 : Fin 8) _ _ t q).symm)
  unfold V2c OUTc
  rw [Cert.Layout.poseV_apply]
  refine Eq.trans ?_ (outV_at _ _ _ _ _ _ _ t _ q (show 8 * 1 + 2 < 14 by decide)).symm
  rfl
theorem val0_3 (m : (ℓ : Loc nD τ sig) → Buf (Elt F) ℓ) (d : Dev nD) :
    (SRC0).view.read (Elt F) (V2c m d) = (OUT0_3).view.read (Elt F) (OUTc m d) := by
  funext y
  obtain ⟨t, q, rfl⟩ : ∃ (t q : Fin 128), y = ix2 t q := ⟨y 0, y 1, eq_ix2 y⟩
  refine (read_v2 (5 : Fin 17) (0 : Fin 2) _ _ t q).trans ((?_ : _ = _).trans (read_v10 (5 : Fin 9) (1 : Fin 2) (4 : Fin 8) _ _ t q).symm)
  unfold V2c OUTc
  rw [Cert.Layout.poseV_apply]
  refine Eq.trans ?_ (outV_at _ _ _ _ _ _ _ t _ q (show 8 * 1 + 4 < 14 by decide)).symm
  rfl
theorem val1_0 (m : (ℓ : Loc nD τ sig) → Buf (Elt F) ℓ) (d : Dev nD) :
    (SRC1).view.read (Elt F) (V5c m d) = (OUT1_0).view.read (Elt F) (OUTc m d) := by
  funext y
  obtain ⟨t, q, rfl⟩ : ∃ (t q : Fin 128), y = ix2 t q := ⟨y 0, y 1, eq_ix2 y⟩
  refine (read_v5 (8 : Fin 14) (0 : Fin 2) _ _ t q).trans ((?_ : _ = _).trans (read_v10 (0 : Fin 9) (1 : Fin 2) (0 : Fin 8) _ _ t q).symm)
  unfold V5c OUTc
  rw [Cert.Layout.deltaV_apply]
  refine Eq.trans ?_ (outV_at _ _ _ _ _ _ _ t _ q (show 8 * 1 + 0 < 14 by decide)).symm
  rfl

/-! ## The run -/

open Lean Elab Tactic Meta in
/-- Unfold the names the symbolic run gave to the values its copies carry. -/
elab "unfold_carried" : tactic => do
  for _ in [0:6] do
    let g ← getMainGoal
    let t ← instantiateMVars (← g.getType)
    if (t.getUsedConstants.any fun n => n.components.any (· == `sl)) then
      let t' ← deltaExpand t (fun n => n.components.any (· == `sl))
      let g' ← g.change t' (checkDefEq := false)
      replaceMainGoal [g']

variable [FloatOps F] [∀ e, Nonempty (Elt F e)]

theorem run (m : (ℓ : Loc nD τ sig) → Buf (Elt F) ℓ) (d : Dev nD) (O : CellTallies nD τ sig (HIx 1)) (W : Waits sig (HIx 1)) (hO : ∀ g, O g none = 0) :
    (iprop(levAts (K (F := F)).L (K (F := F)).lev ∗ tileG m d (0 : Fin 32)
        ∗ scopedBufs (TH d) ∗ scopedSems0 (TH d) ∗ owes (TH d) O W) : sProp 𝕄)
      ⊢ wp frame (wpE (defs₀ (F := F)) 𝒱₀ (TH d) none) Set.univ
          (cc0_run LL (Memref.whole main_v2_scv) (Memref.isWhole_whole _) (Memref.whole main_v7_scv) (Memref.isWhole_whole _) (Memref.whole main_v5_scv) (Memref.isWhole_whole _) (Memref.whole main_v9_scv) (Memref.isWhole_whole _) (Memref.whole main_v10_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8)
          fun _ => iprop(tileT m d (0 : Fin 32) ∗ scopedBufs (TH d) ∗ scopedSems0 (TH d)
            ∗ ∃ W', ⌜∀ p ∈ W', p ∈ W ∨ p.2 = none⌝ ∗ owes (TH d) O W') := by
  rw [(K (F := F)).scopedBufs_V facts d (cV LL) (jV LL), SparseCore.Cfg.scopedSems0_V (Val := Elt F) d (cV LL) (jV LL), ownSems0_V, ownBufs_V]
  unfold tileG tileT
  iintro ⟨#Hlv, ⟨HF2, -, HF5, -, HF10⟩, ⟨⟨%fb0, Hb0⟩, ⟨%fb1, Hb1⟩, ⟨%fb2, Hb2⟩, Hbufs⟩, ⟨Hs3, Hs4, Hs5, Hs6, Hs7, Hs8, Hsems⟩, HO⟩
  ihave HF2' := (Entails.of_eq (open2 m d)) $$ HF2
  icases HF2' with HS0
  ihave HF5' := (Entails.of_eq (open5 m d)) $$ HF5
  icases HF5' with HS1
  ihave HF10' := (Entails.of_eq (open10 m d)) $$ HF10
  icases HF10' with ⟨HO0_0, HO0_1, HO0_2, HO0_3, HO1_0⟩
  ihave Hmw := ((K (F := F)).mayWaits_none (thr := TH d) hO) $$ Hlv
  ihave Hb0' := (Entails.of_eq (pts_b0 d (cV LL) (jV LL) _).symm) $$ Hb0
  ihave Hb1' := (Entails.of_eq (pts_b1 d (cV LL) (jV LL) _).symm) $$ Hb1
  ihave Hb2' := (Entails.of_eq (pts_b2 d (cV LL) (jV LL) _).symm) $$ Hb2
  have _plan : Transfers.BatchOf (TH d) (SemLoc.dma (sig := sig) cc0_scratch6.sem) 4 (windows := true) := trivial
  sl_unfold [cc0_run]
  sl_exec_parts (disch := decide)
  sl_step
  isplitl [HS0 HS1 HO0_0 HO0_1 HO0_2 HO0_3 HO1_0]
  · skip
    isplitl [HS0]
    · iapply (Entails.of_eq (open2 m d).symm)
      iexact HS0
    isplitr
    · rw [show t7 (0 : Fin 32) = ∅ from rfl, bigSep_empty]; iempintro
    isplitl [HS1]
    · iapply (Entails.of_eq (open5 m d).symm)
      iexact HS1
    isplitr
    · rw [show t9 (0 : Fin 32) = ∅ from rfl, bigSep_empty]; iempintro
    · iapply (Entails.of_eq (close10 m d).symm)
      isplitl [HO0_0]
      · iapply (out_post_ent (TH d) (OUT0_0) _ (OUTc m d) _ ?hv0_0) $$ HO0_0
        case hv0_0 => unfold_carried; simp only [ReadAs.apply_same, View.read_write_univ]; exact val0_0 m d
      isplitl [HO0_1]
      · iapply (out_post_ent (TH d) (OUT0_1) _ (OUTc m d) _ ?hv0_1) $$ HO0_1
        case hv0_1 => unfold_carried; simp only [ReadAs.apply_same, View.read_write_univ]; exact val0_1 m d
      isplitl [HO0_2]
      · iapply (out_post_ent (TH d) (OUT0_2) _ (OUTc m d) _ ?hv0_2) $$ HO0_2
        case hv0_2 => unfold_carried; simp only [ReadAs.apply_same, View.read_write_univ]; exact val0_2 m d
      isplitl [HO0_3]
      · iapply (out_post_ent (TH d) (OUT0_3) _ (OUTc m d) _ ?hv0_3) $$ HO0_3
        case hv0_3 => unfold_carried; simp only [ReadAs.apply_same, View.read_write_univ]; exact val0_3 m d
      iapply (out_post_ent (TH d) (OUT1_0) _ (OUTc m d) _ ?hv1_0) $$ HO1_0
      case hv1_0 => unfold_carried; simp only [ReadAs.apply_same, View.read_write_univ]; exact val1_0 m d

  isplitl [Hb0' Hb1' Hb2' Hbufs]
  · isplitl [Hb0']
    · iexists _; iapply (Entails.of_eq (pts_b0 d (cV LL) (jV LL) _)); iexact Hb0'
    isplitl [Hb1']
    · iexists _; iapply (Entails.of_eq (pts_b1 d (cV LL) (jV LL) _)); iexact Hb1'
    isplitl [Hb2']
    · iexists _; iapply (Entails.of_eq (pts_b2 d (cV LL) (jV LL) _)); iexact Hb2'
    iexact Hbufs
  isplitl [Hs3 Hs4 Hs5 Hs6 Hs7 Hs8 Hsems]
  · isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    iexact Hsems
  iexists _; isplitr
  rotate_left
  · iexact HO
  · ipureintro; intro p hp
    simp only [Finset.mem_insert] at hp
    rcases hp with rfl | rfl | rfl | rfl | rfl | rfl | rfl | hp <;> first | exact .inr rfl | exact .inl hp

end Cert.Proof.KI.Tile0

end
-- ==== Proof.KITile1.lean ====
/-
  Tile 1 of the kernel (subcore 0 of core 1): one slice in (pose5.1), 4 out; one slice in (delta8.1), 1 out.
  Its whole body is run: every copy it does not own is skipped by the comparison of its number with the copy's owner;
  each incoming copy fills a staging buffer, each outgoing copy carries that buffer into one slice of the output array,
  and what each output slice then holds is the source slice the specification asks for there.
-/
import proofs.«210185_g18468359372994_cont_8to1_1390_15_alg».proof.Proof.KIRead

set_option maxHeartbeats 4000000
set_option quotPrecheck false

noncomputable section

namespace Cert.Proof.KI.Tile1

open Cert.KernelIdeal Cert.KernelIdeal.Gen
open Cert.Proof.KI
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
theorem cLt : 1 < grid0.bound 0 := by decide
theorem sLt : 0 < grid0.bound 1 := by decide
local notation "LL" => (coordsV (⟨1, cLt⟩ : Fin (grid0.bound 0)) (⟨0, sLt⟩ : Fin (grid0.bound 1)))
local notation "TH" d => V d (cV LL) (jV LL)
local notation "SRC0" => (((Memref.whole main_v2_scv).slice (Rect.unit (s := S17x128x2x128) ![5, 0, 1, 0] S1x128x1x128.size inb_S17x128x2x128_S1x128x1x128_5_0_1_0) (fun _ => rfl)).squeeze S128x128 squeezes_S1x128x1x128_S128x128 : Memref sig .scVector .hbm S128x128 .f32)
local notation "OUT0_0" => (((Memref.whole main_v10_scv).slice (Rect.unit (s := S9x2x128x8x128) ![4, 0, 0, 0, 0] S1x1x128x1x128.size inb_S9x2x128x8x128_S1x1x128x1x128_4_0_0_0_0) (fun _ => rfl)).squeeze S128x128 squeezes_S1x1x128x1x128_S128x128 : Memref sig .scVector .hbm S128x128 .f32)
local notation "OUT0_1" => (((Memref.whole main_v10_scv).slice (Rect.unit (s := S9x2x128x8x128) ![4, 1, 0, 0, 0] S1x1x128x1x128.size inb_S9x2x128x8x128_S1x1x128x1x128_4_1_0_0_0) (fun _ => rfl)).squeeze S128x128 squeezes_S1x1x128x1x128_S128x128 : Memref sig .scVector .hbm S128x128 .f32)
local notation "OUT0_2" => (((Memref.whole main_v10_scv).slice (Rect.unit (s := S9x2x128x8x128) ![4, 1, 0, 2, 0] S1x1x128x1x128.size inb_S9x2x128x8x128_S1x1x128x1x128_4_1_0_2_0) (fun _ => rfl)).squeeze S128x128 squeezes_S1x1x128x1x128_S128x128 : Memref sig .scVector .hbm S128x128 .f32)
local notation "OUT0_3" => (((Memref.whole main_v10_scv).slice (Rect.unit (s := S9x2x128x8x128) ![6, 1, 0, 4, 0] S1x1x128x1x128.size inb_S9x2x128x8x128_S1x1x128x1x128_6_1_0_4_0) (fun _ => rfl)).squeeze S128x128 squeezes_S1x1x128x1x128_S128x128 : Memref sig .scVector .hbm S128x128 .f32)
local notation "SRC1" => (((Memref.whole main_v5_scv).slice (Rect.unit (s := S14x128x2x128) ![8, 0, 1, 0] S1x128x1x128.size inb_S14x128x2x128_S1x128x1x128_8_0_1_0) (fun _ => rfl)).squeeze S128x128 squeezes_S1x128x1x128_S128x128 : Memref sig .scVector .hbm S128x128 .f32)
local notation "OUT1_0" => (((Memref.whole main_v10_scv).slice (Rect.unit (s := S9x2x128x8x128) ![1, 1, 0, 0, 0] S1x1x128x1x128.size inb_S9x2x128x8x128_S1x1x128x1x128_1_1_0_0_0) (fun _ => rfl)).squeeze S128x128 squeezes_S1x1x128x1x128_S128x128 : Memref sig .scVector .hbm S128x128 .f32)

/-! ## The tile's slices, as its memrefs name them -/

theorem open2 (m : (ℓ : Loc nD τ sig) → Buf (Elt F) ℓ) (d : Dev nD) :
    (bigSep (t2 (1 : Fin 32)) (A2 m d) : sProp 𝕄) = iprop(((SRC0).view.loc (TH d) ↦[(SRC0).view.set]{fullShare} V2c m d)) := by
  show bigSep ({((5 : Fin 17), (1 : Fin 2))} : Finset (Fin 17 × Fin 2)) (A2 m d) = _
  rw [bigSep_singleton]
  exact (pts_v2 d (cV LL) (jV LL) (5 : Fin 17) (1 : Fin 2) _ (V2c m d)).symm
theorem open5 (m : (ℓ : Loc nD τ sig) → Buf (Elt F) ℓ) (d : Dev nD) :
    (bigSep (t5 (1 : Fin 32)) (A5 m d) : sProp 𝕄) = iprop(((SRC1).view.loc (TH d) ↦[(SRC1).view.set]{fullShare} V5c m d)) := by
  show bigSep ({((8 : Fin 14), (1 : Fin 2))} : Finset (Fin 14 × Fin 2)) (A5 m d) = _
  rw [bigSep_singleton]
  exact (pts_v5 d (cV LL) (jV LL) (8 : Fin 14) (1 : Fin 2) _ (V5c m d)).symm
theorem open10 (m : (ℓ : Loc nD τ sig) → Buf (Elt F) ℓ) (d : Dev nD) :
    (bigSep (t10 (1 : Fin 32)) (B0 m d) : sProp 𝕄) = iprop(((OUT0_0).view.loc (TH d) ↦[(OUT0_0).view.set]{fullShare} m (v10L d)) ∗ ((OUT0_1).view.loc (TH d) ↦[(OUT0_1).view.set]{fullShare} m (v10L d)) ∗ ((OUT0_2).view.loc (TH d) ↦[(OUT0_2).view.set]{fullShare} m (v10L d)) ∗ ((OUT0_3).view.loc (TH d) ↦[(OUT0_3).view.set]{fullShare} m (v10L d)) ∗ ((OUT1_0).view.loc (TH d) ↦[(OUT1_0).view.set]{fullShare} m (v10L d))) := by
  show bigSep ({((4 : Fin 9), (0 : Fin 2), (0 : Fin 8)), ((4 : Fin 9), (1 : Fin 2), (0 : Fin 8)), ((4 : Fin 9), (1 : Fin 2), (2 : Fin 8)), ((6 : Fin 9), (1 : Fin 2), (4 : Fin 8)), ((1 : Fin 9), (1 : Fin 2), (0 : Fin 8))} : Finset (Fin 9 × Fin 2 × Fin 8)) (B0 m d) = _
  rw [SparseCore.bigSep_insert' (by decide), SparseCore.bigSep_insert' (by decide), SparseCore.bigSep_insert' (by decide), SparseCore.bigSep_insert' (by decide), bigSep_singleton]
  exact (congrArg₂ (fun a b : sProp 𝕄 => iprop(a ∗ b)) (pts_v10 d (cV LL) (jV LL) (4 : Fin 9) (0 : Fin 2) (0 : Fin 8) _ (m (v10L d))).symm (congrArg₂ (fun a b : sProp 𝕄 => iprop(a ∗ b)) (pts_v10 d (cV LL) (jV LL) (4 : Fin 9) (1 : Fin 2) (0 : Fin 8) _ (m (v10L d))).symm (congrArg₂ (fun a b : sProp 𝕄 => iprop(a ∗ b)) (pts_v10 d (cV LL) (jV LL) (4 : Fin 9) (1 : Fin 2) (2 : Fin 8) _ (m (v10L d))).symm (congrArg₂ (fun a b : sProp 𝕄 => iprop(a ∗ b)) (pts_v10 d (cV LL) (jV LL) (6 : Fin 9) (1 : Fin 2) (4 : Fin 8) _ (m (v10L d))).symm (pts_v10 d (cV LL) (jV LL) (1 : Fin 9) (1 : Fin 2) (0 : Fin 8) _ (m (v10L d))).symm))))
theorem close10 (m : (ℓ : Loc nD τ sig) → Buf (Elt F) ℓ) (d : Dev nD) :
    (bigSep (t10 (1 : Fin 32)) (B1 m d) : sProp 𝕄) = iprop(((OUT0_0).view.loc (TH d) ↦[(OUT0_0).view.set]{fullShare} OUTc m d) ∗ ((OUT0_1).view.loc (TH d) ↦[(OUT0_1).view.set]{fullShare} OUTc m d) ∗ ((OUT0_2).view.loc (TH d) ↦[(OUT0_2).view.set]{fullShare} OUTc m d) ∗ ((OUT0_3).view.loc (TH d) ↦[(OUT0_3).view.set]{fullShare} OUTc m d) ∗ ((OUT1_0).view.loc (TH d) ↦[(OUT1_0).view.set]{fullShare} OUTc m d)) := by
  show bigSep ({((4 : Fin 9), (0 : Fin 2), (0 : Fin 8)), ((4 : Fin 9), (1 : Fin 2), (0 : Fin 8)), ((4 : Fin 9), (1 : Fin 2), (2 : Fin 8)), ((6 : Fin 9), (1 : Fin 2), (4 : Fin 8)), ((1 : Fin 9), (1 : Fin 2), (0 : Fin 8))} : Finset (Fin 9 × Fin 2 × Fin 8)) (B1 m d) = _
  rw [SparseCore.bigSep_insert' (by decide), SparseCore.bigSep_insert' (by decide), SparseCore.bigSep_insert' (by decide), SparseCore.bigSep_insert' (by decide), bigSep_singleton]
  exact (congrArg₂ (fun a b : sProp 𝕄 => iprop(a ∗ b)) (pts_v10 d (cV LL) (jV LL) (4 : Fin 9) (0 : Fin 2) (0 : Fin 8) _ (OUTc m d)).symm (congrArg₂ (fun a b : sProp 𝕄 => iprop(a ∗ b)) (pts_v10 d (cV LL) (jV LL) (4 : Fin 9) (1 : Fin 2) (0 : Fin 8) _ (OUTc m d)).symm (congrArg₂ (fun a b : sProp 𝕄 => iprop(a ∗ b)) (pts_v10 d (cV LL) (jV LL) (4 : Fin 9) (1 : Fin 2) (2 : Fin 8) _ (OUTc m d)).symm (congrArg₂ (fun a b : sProp 𝕄 => iprop(a ∗ b)) (pts_v10 d (cV LL) (jV LL) (6 : Fin 9) (1 : Fin 2) (4 : Fin 8) _ (OUTc m d)).symm (pts_v10 d (cV LL) (jV LL) (1 : Fin 9) (1 : Fin 2) (0 : Fin 8) _ (OUTc m d)).symm))))

/-! ## What each output slice has to hold is what its source slice holds -/

theorem val0_0 (m : (ℓ : Loc nD τ sig) → Buf (Elt F) ℓ) (d : Dev nD) :
    (SRC0).view.read (Elt F) (V2c m d) = (OUT0_0).view.read (Elt F) (OUTc m d) := by
  funext y
  obtain ⟨t, q, rfl⟩ : ∃ (t q : Fin 128), y = ix2 t q := ⟨y 0, y 1, eq_ix2 y⟩
  refine (read_v2 (5 : Fin 17) (1 : Fin 2) _ _ t q).trans ((?_ : _ = _).trans (read_v10 (4 : Fin 9) (0 : Fin 2) (0 : Fin 8) _ _ t q).symm)
  unfold V2c OUTc
  rw [Cert.Layout.poseV_apply]
  refine Eq.trans ?_ (outV_at _ _ _ _ _ _ _ t _ q (show 8 * 0 + 0 < 14 by decide)).symm
  rfl
theorem val0_1 (m : (ℓ : Loc nD τ sig) → Buf (Elt F) ℓ) (d : Dev nD) :
    (SRC0).view.read (Elt F) (V2c m d) = (OUT0_1).view.read (Elt F) (OUTc m d) := by
  funext y
  obtain ⟨t, q, rfl⟩ : ∃ (t q : Fin 128), y = ix2 t q := ⟨y 0, y 1, eq_ix2 y⟩
  refine (read_v2 (5 : Fin 17) (1 : Fin 2) _ _ t q).trans ((?_ : _ = _).trans (read_v10 (4 : Fin 9) (1 : Fin 2) (0 : Fin 8) _ _ t q).symm)
  unfold V2c OUTc
  rw [Cert.Layout.poseV_apply]
  refine Eq.trans ?_ (outV_at _ _ _ _ _ _ _ t _ q (show 8 * 1 + 0 < 14 by decide)).symm
  rfl
theorem val0_2 (m : (ℓ : Loc nD τ sig) → Buf (Elt F) ℓ) (d : Dev nD) :
    (SRC0).view.read (Elt F) (V2c m d) = (OUT0_2).view.read (Elt F) (OUTc m d) := by
  funext y
  obtain ⟨t, q, rfl⟩ : ∃ (t q : Fin 128), y = ix2 t q := ⟨y 0, y 1, eq_ix2 y⟩
  refine (read_v2 (5 : Fin 17) (1 : Fin 2) _ _ t q).trans ((?_ : _ = _).trans (read_v10 (4 : Fin 9) (1 : Fin 2) (2 : Fin 8) _ _ t q).symm)
  unfold V2c OUTc
  rw [Cert.Layout.poseV_apply]
  refine Eq.trans ?_ (outV_at _ _ _ _ _ _ _ t _ q (show 8 * 1 + 2 < 14 by decide)).symm
  rfl
theorem val0_3 (m : (ℓ : Loc nD τ sig) → Buf (Elt F) ℓ) (d : Dev nD) :
    (SRC0).view.read (Elt F) (V2c m d) = (OUT0_3).view.read (Elt F) (OUTc m d) := by
  funext y
  obtain ⟨t, q, rfl⟩ : ∃ (t q : Fin 128), y = ix2 t q := ⟨y 0, y 1, eq_ix2 y⟩
  refine (read_v2 (5 : Fin 17) (1 : Fin 2) _ _ t q).trans ((?_ : _ = _).trans (read_v10 (6 : Fin 9) (1 : Fin 2) (4 : Fin 8) _ _ t q).symm)
  unfold V2c OUTc
  rw [Cert.Layout.poseV_apply]
  refine Eq.trans ?_ (outV_at _ _ _ _ _ _ _ t _ q (show 8 * 1 + 4 < 14 by decide)).symm
  rfl
theorem val1_0 (m : (ℓ : Loc nD τ sig) → Buf (Elt F) ℓ) (d : Dev nD) :
    (SRC1).view.read (Elt F) (V5c m d) = (OUT1_0).view.read (Elt F) (OUTc m d) := by
  funext y
  obtain ⟨t, q, rfl⟩ : ∃ (t q : Fin 128), y = ix2 t q := ⟨y 0, y 1, eq_ix2 y⟩
  refine (read_v5 (8 : Fin 14) (1 : Fin 2) _ _ t q).trans ((?_ : _ = _).trans (read_v10 (1 : Fin 9) (1 : Fin 2) (0 : Fin 8) _ _ t q).symm)
  unfold V5c OUTc
  rw [Cert.Layout.deltaV_apply]
  refine Eq.trans ?_ (outV_at _ _ _ _ _ _ _ t _ q (show 8 * 1 + 0 < 14 by decide)).symm
  rfl

/-! ## The run -/

open Lean Elab Tactic Meta in
/-- Unfold the names the symbolic run gave to the values its copies carry. -/
elab "unfold_carried" : tactic => do
  for _ in [0:6] do
    let g ← getMainGoal
    let t ← instantiateMVars (← g.getType)
    if (t.getUsedConstants.any fun n => n.components.any (· == `sl)) then
      let t' ← deltaExpand t (fun n => n.components.any (· == `sl))
      let g' ← g.change t' (checkDefEq := false)
      replaceMainGoal [g']

variable [FloatOps F] [∀ e, Nonempty (Elt F e)]

theorem run (m : (ℓ : Loc nD τ sig) → Buf (Elt F) ℓ) (d : Dev nD) (O : CellTallies nD τ sig (HIx 1)) (W : Waits sig (HIx 1)) (hO : ∀ g, O g none = 0) :
    (iprop(levAts (K (F := F)).L (K (F := F)).lev ∗ tileG m d (1 : Fin 32)
        ∗ scopedBufs (TH d) ∗ scopedSems0 (TH d) ∗ owes (TH d) O W) : sProp 𝕄)
      ⊢ wp frame (wpE (defs₀ (F := F)) 𝒱₀ (TH d) none) Set.univ
          (cc0_run LL (Memref.whole main_v2_scv) (Memref.isWhole_whole _) (Memref.whole main_v7_scv) (Memref.isWhole_whole _) (Memref.whole main_v5_scv) (Memref.isWhole_whole _) (Memref.whole main_v9_scv) (Memref.isWhole_whole _) (Memref.whole main_v10_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8)
          fun _ => iprop(tileT m d (1 : Fin 32) ∗ scopedBufs (TH d) ∗ scopedSems0 (TH d)
            ∗ ∃ W', ⌜∀ p ∈ W', p ∈ W ∨ p.2 = none⌝ ∗ owes (TH d) O W') := by
  rw [(K (F := F)).scopedBufs_V facts d (cV LL) (jV LL), SparseCore.Cfg.scopedSems0_V (Val := Elt F) d (cV LL) (jV LL), ownSems0_V, ownBufs_V]
  unfold tileG tileT
  iintro ⟨#Hlv, ⟨HF2, -, HF5, -, HF10⟩, ⟨⟨%fb0, Hb0⟩, ⟨%fb1, Hb1⟩, ⟨%fb2, Hb2⟩, Hbufs⟩, ⟨Hs3, Hs4, Hs5, Hs6, Hs7, Hs8, Hsems⟩, HO⟩
  ihave HF2' := (Entails.of_eq (open2 m d)) $$ HF2
  icases HF2' with HS0
  ihave HF5' := (Entails.of_eq (open5 m d)) $$ HF5
  icases HF5' with HS1
  ihave HF10' := (Entails.of_eq (open10 m d)) $$ HF10
  icases HF10' with ⟨HO0_0, HO0_1, HO0_2, HO0_3, HO1_0⟩
  ihave Hmw := ((K (F := F)).mayWaits_none (thr := TH d) hO) $$ Hlv
  ihave Hb0' := (Entails.of_eq (pts_b0 d (cV LL) (jV LL) _).symm) $$ Hb0
  ihave Hb1' := (Entails.of_eq (pts_b1 d (cV LL) (jV LL) _).symm) $$ Hb1
  ihave Hb2' := (Entails.of_eq (pts_b2 d (cV LL) (jV LL) _).symm) $$ Hb2
  have _plan : Transfers.BatchOf (TH d) (SemLoc.dma (sig := sig) cc0_scratch6.sem) 4 (windows := true) := trivial
  sl_unfold [cc0_run]
  sl_exec_parts (disch := decide)
  sl_step
  isplitl [HS0 HS1 HO0_0 HO0_1 HO0_2 HO0_3 HO1_0]
  · skip
    isplitl [HS0]
    · iapply (Entails.of_eq (open2 m d).symm)
      iexact HS0
    isplitr
    · rw [show t7 (1 : Fin 32) = ∅ from rfl, bigSep_empty]; iempintro
    isplitl [HS1]
    · iapply (Entails.of_eq (open5 m d).symm)
      iexact HS1
    isplitr
    · rw [show t9 (1 : Fin 32) = ∅ from rfl, bigSep_empty]; iempintro
    · iapply (Entails.of_eq (close10 m d).symm)
      isplitl [HO0_0]
      · iapply (out_post_ent (TH d) (OUT0_0) _ (OUTc m d) _ ?hv0_0) $$ HO0_0
        case hv0_0 => unfold_carried; simp only [ReadAs.apply_same, View.read_write_univ]; exact val0_0 m d
      isplitl [HO0_1]
      · iapply (out_post_ent (TH d) (OUT0_1) _ (OUTc m d) _ ?hv0_1) $$ HO0_1
        case hv0_1 => unfold_carried; simp only [ReadAs.apply_same, View.read_write_univ]; exact val0_1 m d
      isplitl [HO0_2]
      · iapply (out_post_ent (TH d) (OUT0_2) _ (OUTc m d) _ ?hv0_2) $$ HO0_2
        case hv0_2 => unfold_carried; simp only [ReadAs.apply_same, View.read_write_univ]; exact val0_2 m d
      isplitl [HO0_3]
      · iapply (out_post_ent (TH d) (OUT0_3) _ (OUTc m d) _ ?hv0_3) $$ HO0_3
        case hv0_3 => unfold_carried; simp only [ReadAs.apply_same, View.read_write_univ]; exact val0_3 m d
      iapply (out_post_ent (TH d) (OUT1_0) _ (OUTc m d) _ ?hv1_0) $$ HO1_0
      case hv1_0 => unfold_carried; simp only [ReadAs.apply_same, View.read_write_univ]; exact val1_0 m d

  isplitl [Hb0' Hb1' Hb2' Hbufs]
  · isplitl [Hb0']
    · iexists _; iapply (Entails.of_eq (pts_b0 d (cV LL) (jV LL) _)); iexact Hb0'
    isplitl [Hb1']
    · iexists _; iapply (Entails.of_eq (pts_b1 d (cV LL) (jV LL) _)); iexact Hb1'
    isplitl [Hb2']
    · iexists _; iapply (Entails.of_eq (pts_b2 d (cV LL) (jV LL) _)); iexact Hb2'
    iexact Hbufs
  isplitl [Hs3 Hs4 Hs5 Hs6 Hs7 Hs8 Hsems]
  · isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    iexact Hsems
  iexists _; isplitr
  rotate_left
  · iexact HO
  · ipureintro; intro p hp
    simp only [Finset.mem_insert] at hp
    rcases hp with rfl | rfl | rfl | rfl | rfl | rfl | rfl | hp <;> first | exact .inr rfl | exact .inl hp

end Cert.Proof.KI.Tile1

end
-- ==== Proof.KITile2.lean ====
/-
  Tile 2 of the kernel (subcore 1 of core 0): one slice in (vis5), 4 out; one slice in (len8), 1 out.
  Its whole body is run: every copy it does not own is skipped by the comparison of its number with the copy's owner;
  each incoming copy fills a staging buffer, each outgoing copy carries that buffer into one slice of the output array,
  and what each output slice then holds is the source slice the specification asks for there.
-/
import proofs.«210185_g18468359372994_cont_8to1_1390_15_alg».proof.Proof.KIRead

set_option maxHeartbeats 4000000
set_option quotPrecheck false

noncomputable section

namespace Cert.Proof.KI.Tile2

open Cert.KernelIdeal Cert.KernelIdeal.Gen
open Cert.Proof.KI
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
theorem cLt : 0 < grid0.bound 0 := by decide
theorem sLt : 1 < grid0.bound 1 := by decide
local notation "LL" => (coordsV (⟨0, cLt⟩ : Fin (grid0.bound 0)) (⟨1, sLt⟩ : Fin (grid0.bound 1)))
local notation "TH" d => V d (cV LL) (jV LL)
local notation "SRC0" => (((Memref.whole main_v7_scv).slice (Rect.unit (s := S17x128x128) ![5, 0, 0] S1x128x128.size inb_S17x128x128_S1x128x128_5_0_0) (fun _ => rfl)).squeeze S128x128 squeezes_S1x128x128_S128x128 : Memref sig .scVector .hbm S128x128 .f32)
local notation "OUT0_0" => (((Memref.whole main_v10_scv).slice (Rect.unit (s := S9x2x128x8x128) ![7, 0, 0, 0, 0] S1x1x128x1x128.size inb_S9x2x128x8x128_S1x1x128x1x128_7_0_0_0_0) (fun _ => rfl)).squeeze S128x128 squeezes_S1x1x128x1x128_S128x128 : Memref sig .scVector .hbm S128x128 .f32)
local notation "OUT0_1" => (((Memref.whole main_v10_scv).slice (Rect.unit (s := S9x2x128x8x128) ![7, 1, 0, 0, 0] S1x1x128x1x128.size inb_S9x2x128x8x128_S1x1x128x1x128_7_1_0_0_0) (fun _ => rfl)).squeeze S128x128 squeezes_S1x1x128x1x128_S128x128 : Memref sig .scVector .hbm S128x128 .f32)
local notation "OUT0_2" => (((Memref.whole main_v10_scv).slice (Rect.unit (s := S9x2x128x8x128) ![7, 1, 0, 2, 0] S1x1x128x1x128.size inb_S9x2x128x8x128_S1x1x128x1x128_7_1_0_2_0) (fun _ => rfl)).squeeze S128x128 squeezes_S1x1x128x1x128_S128x128 : Memref sig .scVector .hbm S128x128 .f32)
local notation "OUT0_3" => (((Memref.whole main_v10_scv).slice (Rect.unit (s := S9x2x128x8x128) ![8, 1, 0, 4, 0] S1x1x128x1x128.size inb_S9x2x128x8x128_S1x1x128x1x128_8_1_0_4_0) (fun _ => rfl)).squeeze S128x128 squeezes_S1x1x128x1x128_S128x128 : Memref sig .scVector .hbm S128x128 .f32)
local notation "SRC1" => (((Memref.whole main_v9_scv).slice (Rect.unit (s := S14x128x128) ![8, 0, 0] S1x128x128.size inb_S14x128x128_S1x128x128_8_0_0) (fun _ => rfl)).squeeze S128x128 squeezes_S1x128x128_S128x128 : Memref sig .scVector .hbm S128x128 .f32)
local notation "OUT1_0" => (((Memref.whole main_v10_scv).slice (Rect.unit (s := S9x2x128x8x128) ![2, 1, 0, 0, 0] S1x1x128x1x128.size inb_S9x2x128x8x128_S1x1x128x1x128_2_1_0_0_0) (fun _ => rfl)).squeeze S128x128 squeezes_S1x1x128x1x128_S128x128 : Memref sig .scVector .hbm S128x128 .f32)

/-! ## The tile's slices, as its memrefs name them -/

theorem open7 (m : (ℓ : Loc nD τ sig) → Buf (Elt F) ℓ) (d : Dev nD) :
    (bigSep (t7 (2 : Fin 32)) (A7 m d) : sProp 𝕄) = iprop(((SRC0).view.loc (TH d) ↦[(SRC0).view.set]{fullShare} V7c m d)) := by
  show bigSep ({(5 : Fin 17)} : Finset (Fin 17)) (A7 m d) = _
  rw [bigSep_singleton]
  exact (pts_v7 d (cV LL) (jV LL) (5 : Fin 17) _ (V7c m d)).symm
theorem open9 (m : (ℓ : Loc nD τ sig) → Buf (Elt F) ℓ) (d : Dev nD) :
    (bigSep (t9 (2 : Fin 32)) (A9 m d) : sProp 𝕄) = iprop(((SRC1).view.loc (TH d) ↦[(SRC1).view.set]{fullShare} V9c m d)) := by
  show bigSep ({(8 : Fin 14)} : Finset (Fin 14)) (A9 m d) = _
  rw [bigSep_singleton]
  exact (pts_v9 d (cV LL) (jV LL) (8 : Fin 14) _ (V9c m d)).symm
theorem open10 (m : (ℓ : Loc nD τ sig) → Buf (Elt F) ℓ) (d : Dev nD) :
    (bigSep (t10 (2 : Fin 32)) (B0 m d) : sProp 𝕄) = iprop(((OUT0_0).view.loc (TH d) ↦[(OUT0_0).view.set]{fullShare} m (v10L d)) ∗ ((OUT0_1).view.loc (TH d) ↦[(OUT0_1).view.set]{fullShare} m (v10L d)) ∗ ((OUT0_2).view.loc (TH d) ↦[(OUT0_2).view.set]{fullShare} m (v10L d)) ∗ ((OUT0_3).view.loc (TH d) ↦[(OUT0_3).view.set]{fullShare} m (v10L d)) ∗ ((OUT1_0).view.loc (TH d) ↦[(OUT1_0).view.set]{fullShare} m (v10L d))) := by
  show bigSep ({((7 : Fin 9), (0 : Fin 2), (0 : Fin 8)), ((7 : Fin 9), (1 : Fin 2), (0 : Fin 8)), ((7 : Fin 9), (1 : Fin 2), (2 : Fin 8)), ((8 : Fin 9), (1 : Fin 2), (4 : Fin 8)), ((2 : Fin 9), (1 : Fin 2), (0 : Fin 8))} : Finset (Fin 9 × Fin 2 × Fin 8)) (B0 m d) = _
  rw [SparseCore.bigSep_insert' (by decide), SparseCore.bigSep_insert' (by decide), SparseCore.bigSep_insert' (by decide), SparseCore.bigSep_insert' (by decide), bigSep_singleton]
  exact (congrArg₂ (fun a b : sProp 𝕄 => iprop(a ∗ b)) (pts_v10 d (cV LL) (jV LL) (7 : Fin 9) (0 : Fin 2) (0 : Fin 8) _ (m (v10L d))).symm (congrArg₂ (fun a b : sProp 𝕄 => iprop(a ∗ b)) (pts_v10 d (cV LL) (jV LL) (7 : Fin 9) (1 : Fin 2) (0 : Fin 8) _ (m (v10L d))).symm (congrArg₂ (fun a b : sProp 𝕄 => iprop(a ∗ b)) (pts_v10 d (cV LL) (jV LL) (7 : Fin 9) (1 : Fin 2) (2 : Fin 8) _ (m (v10L d))).symm (congrArg₂ (fun a b : sProp 𝕄 => iprop(a ∗ b)) (pts_v10 d (cV LL) (jV LL) (8 : Fin 9) (1 : Fin 2) (4 : Fin 8) _ (m (v10L d))).symm (pts_v10 d (cV LL) (jV LL) (2 : Fin 9) (1 : Fin 2) (0 : Fin 8) _ (m (v10L d))).symm))))
theorem close10 (m : (ℓ : Loc nD τ sig) → Buf (Elt F) ℓ) (d : Dev nD) :
    (bigSep (t10 (2 : Fin 32)) (B1 m d) : sProp 𝕄) = iprop(((OUT0_0).view.loc (TH d) ↦[(OUT0_0).view.set]{fullShare} OUTc m d) ∗ ((OUT0_1).view.loc (TH d) ↦[(OUT0_1).view.set]{fullShare} OUTc m d) ∗ ((OUT0_2).view.loc (TH d) ↦[(OUT0_2).view.set]{fullShare} OUTc m d) ∗ ((OUT0_3).view.loc (TH d) ↦[(OUT0_3).view.set]{fullShare} OUTc m d) ∗ ((OUT1_0).view.loc (TH d) ↦[(OUT1_0).view.set]{fullShare} OUTc m d)) := by
  show bigSep ({((7 : Fin 9), (0 : Fin 2), (0 : Fin 8)), ((7 : Fin 9), (1 : Fin 2), (0 : Fin 8)), ((7 : Fin 9), (1 : Fin 2), (2 : Fin 8)), ((8 : Fin 9), (1 : Fin 2), (4 : Fin 8)), ((2 : Fin 9), (1 : Fin 2), (0 : Fin 8))} : Finset (Fin 9 × Fin 2 × Fin 8)) (B1 m d) = _
  rw [SparseCore.bigSep_insert' (by decide), SparseCore.bigSep_insert' (by decide), SparseCore.bigSep_insert' (by decide), SparseCore.bigSep_insert' (by decide), bigSep_singleton]
  exact (congrArg₂ (fun a b : sProp 𝕄 => iprop(a ∗ b)) (pts_v10 d (cV LL) (jV LL) (7 : Fin 9) (0 : Fin 2) (0 : Fin 8) _ (OUTc m d)).symm (congrArg₂ (fun a b : sProp 𝕄 => iprop(a ∗ b)) (pts_v10 d (cV LL) (jV LL) (7 : Fin 9) (1 : Fin 2) (0 : Fin 8) _ (OUTc m d)).symm (congrArg₂ (fun a b : sProp 𝕄 => iprop(a ∗ b)) (pts_v10 d (cV LL) (jV LL) (7 : Fin 9) (1 : Fin 2) (2 : Fin 8) _ (OUTc m d)).symm (congrArg₂ (fun a b : sProp 𝕄 => iprop(a ∗ b)) (pts_v10 d (cV LL) (jV LL) (8 : Fin 9) (1 : Fin 2) (4 : Fin 8) _ (OUTc m d)).symm (pts_v10 d (cV LL) (jV LL) (2 : Fin 9) (1 : Fin 2) (0 : Fin 8) _ (OUTc m d)).symm))))

/-! ## What each output slice has to hold is what its source slice holds -/

theorem val0_0 (m : (ℓ : Loc nD τ sig) → Buf (Elt F) ℓ) (d : Dev nD) :
    (SRC0).view.read (Elt F) (V7c m d) = (OUT0_0).view.read (Elt F) (OUTc m d) := by
  funext y
  obtain ⟨t, q, rfl⟩ : ∃ (t q : Fin 128), y = ix2 t q := ⟨y 0, y 1, eq_ix2 y⟩
  refine (read_v7 (5 : Fin 17) _ _ t q).trans ((?_ : _ = _).trans (read_v10 (7 : Fin 9) (0 : Fin 2) (0 : Fin 8) _ _ t q).symm)
  unfold V7c OUTc
  rw [Cert.Layout.visV_apply]
  refine Eq.trans ?_ (outV_at _ _ _ _ _ _ _ t _ q (show 8 * 0 + 0 < 14 by decide)).symm
  rfl
theorem val0_1 (m : (ℓ : Loc nD τ sig) → Buf (Elt F) ℓ) (d : Dev nD) :
    (SRC0).view.read (Elt F) (V7c m d) = (OUT0_1).view.read (Elt F) (OUTc m d) := by
  funext y
  obtain ⟨t, q, rfl⟩ : ∃ (t q : Fin 128), y = ix2 t q := ⟨y 0, y 1, eq_ix2 y⟩
  refine (read_v7 (5 : Fin 17) _ _ t q).trans ((?_ : _ = _).trans (read_v10 (7 : Fin 9) (1 : Fin 2) (0 : Fin 8) _ _ t q).symm)
  unfold V7c OUTc
  rw [Cert.Layout.visV_apply]
  refine Eq.trans ?_ (outV_at _ _ _ _ _ _ _ t _ q (show 8 * 1 + 0 < 14 by decide)).symm
  rfl
theorem val0_2 (m : (ℓ : Loc nD τ sig) → Buf (Elt F) ℓ) (d : Dev nD) :
    (SRC0).view.read (Elt F) (V7c m d) = (OUT0_2).view.read (Elt F) (OUTc m d) := by
  funext y
  obtain ⟨t, q, rfl⟩ : ∃ (t q : Fin 128), y = ix2 t q := ⟨y 0, y 1, eq_ix2 y⟩
  refine (read_v7 (5 : Fin 17) _ _ t q).trans ((?_ : _ = _).trans (read_v10 (7 : Fin 9) (1 : Fin 2) (2 : Fin 8) _ _ t q).symm)
  unfold V7c OUTc
  rw [Cert.Layout.visV_apply]
  refine Eq.trans ?_ (outV_at _ _ _ _ _ _ _ t _ q (show 8 * 1 + 2 < 14 by decide)).symm
  rfl
theorem val0_3 (m : (ℓ : Loc nD τ sig) → Buf (Elt F) ℓ) (d : Dev nD) :
    (SRC0).view.read (Elt F) (V7c m d) = (OUT0_3).view.read (Elt F) (OUTc m d) := by
  funext y
  obtain ⟨t, q, rfl⟩ : ∃ (t q : Fin 128), y = ix2 t q := ⟨y 0, y 1, eq_ix2 y⟩
  refine (read_v7 (5 : Fin 17) _ _ t q).trans ((?_ : _ = _).trans (read_v10 (8 : Fin 9) (1 : Fin 2) (4 : Fin 8) _ _ t q).symm)
  unfold V7c OUTc
  rw [Cert.Layout.visV_apply]
  refine Eq.trans ?_ (outV_at _ _ _ _ _ _ _ t _ q (show 8 * 1 + 4 < 14 by decide)).symm
  rfl
theorem val1_0 (m : (ℓ : Loc nD τ sig) → Buf (Elt F) ℓ) (d : Dev nD) :
    (SRC1).view.read (Elt F) (V9c m d) = (OUT1_0).view.read (Elt F) (OUTc m d) := by
  funext y
  obtain ⟨t, q, rfl⟩ : ∃ (t q : Fin 128), y = ix2 t q := ⟨y 0, y 1, eq_ix2 y⟩
  refine (read_v9 (8 : Fin 14) _ _ t q).trans ((?_ : _ = _).trans (read_v10 (2 : Fin 9) (1 : Fin 2) (0 : Fin 8) _ _ t q).symm)
  unfold V9c OUTc
  rw [Cert.Layout.lenV_apply]
  refine Eq.trans ?_ (outV_at _ _ _ _ _ _ _ t _ q (show 8 * 1 + 0 < 14 by decide)).symm
  rfl

/-! ## The run -/

open Lean Elab Tactic Meta in
/-- Unfold the names the symbolic run gave to the values its copies carry. -/
elab "unfold_carried" : tactic => do
  for _ in [0:6] do
    let g ← getMainGoal
    let t ← instantiateMVars (← g.getType)
    if (t.getUsedConstants.any fun n => n.components.any (· == `sl)) then
      let t' ← deltaExpand t (fun n => n.components.any (· == `sl))
      let g' ← g.change t' (checkDefEq := false)
      replaceMainGoal [g']

variable [FloatOps F] [∀ e, Nonempty (Elt F e)]

theorem run (m : (ℓ : Loc nD τ sig) → Buf (Elt F) ℓ) (d : Dev nD) (O : CellTallies nD τ sig (HIx 1)) (W : Waits sig (HIx 1)) (hO : ∀ g, O g none = 0) :
    (iprop(levAts (K (F := F)).L (K (F := F)).lev ∗ tileG m d (2 : Fin 32)
        ∗ scopedBufs (TH d) ∗ scopedSems0 (TH d) ∗ owes (TH d) O W) : sProp 𝕄)
      ⊢ wp frame (wpE (defs₀ (F := F)) 𝒱₀ (TH d) none) Set.univ
          (cc0_run LL (Memref.whole main_v2_scv) (Memref.isWhole_whole _) (Memref.whole main_v7_scv) (Memref.isWhole_whole _) (Memref.whole main_v5_scv) (Memref.isWhole_whole _) (Memref.whole main_v9_scv) (Memref.isWhole_whole _) (Memref.whole main_v10_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8)
          fun _ => iprop(tileT m d (2 : Fin 32) ∗ scopedBufs (TH d) ∗ scopedSems0 (TH d)
            ∗ ∃ W', ⌜∀ p ∈ W', p ∈ W ∨ p.2 = none⌝ ∗ owes (TH d) O W') := by
  rw [(K (F := F)).scopedBufs_V facts d (cV LL) (jV LL), SparseCore.Cfg.scopedSems0_V (Val := Elt F) d (cV LL) (jV LL), ownSems0_V, ownBufs_V]
  unfold tileG tileT
  iintro ⟨#Hlv, ⟨-, HF7, -, HF9, HF10⟩, ⟨⟨%fb0, Hb0⟩, ⟨%fb1, Hb1⟩, ⟨%fb2, Hb2⟩, Hbufs⟩, ⟨Hs3, Hs4, Hs5, Hs6, Hs7, Hs8, Hsems⟩, HO⟩
  ihave HF7' := (Entails.of_eq (open7 m d)) $$ HF7
  icases HF7' with HS0
  ihave HF9' := (Entails.of_eq (open9 m d)) $$ HF9
  icases HF9' with HS1
  ihave HF10' := (Entails.of_eq (open10 m d)) $$ HF10
  icases HF10' with ⟨HO0_0, HO0_1, HO0_2, HO0_3, HO1_0⟩
  ihave Hmw := ((K (F := F)).mayWaits_none (thr := TH d) hO) $$ Hlv
  ihave Hb0' := (Entails.of_eq (pts_b0 d (cV LL) (jV LL) _).symm) $$ Hb0
  ihave Hb1' := (Entails.of_eq (pts_b1 d (cV LL) (jV LL) _).symm) $$ Hb1
  ihave Hb2' := (Entails.of_eq (pts_b2 d (cV LL) (jV LL) _).symm) $$ Hb2
  have _plan : Transfers.BatchOf (TH d) (SemLoc.dma (sig := sig) cc0_scratch6.sem) 4 (windows := true) := trivial
  sl_unfold [cc0_run]
  sl_exec_parts (disch := decide)
  sl_step
  isplitl [HS0 HS1 HO0_0 HO0_1 HO0_2 HO0_3 HO1_0]
  · skip
    isplitr
    · rw [show t2 (2 : Fin 32) = ∅ from rfl, bigSep_empty]; iempintro
    isplitl [HS0]
    · iapply (Entails.of_eq (open7 m d).symm)
      iexact HS0
    isplitr
    · rw [show t5 (2 : Fin 32) = ∅ from rfl, bigSep_empty]; iempintro
    isplitl [HS1]
    · iapply (Entails.of_eq (open9 m d).symm)
      iexact HS1
    · iapply (Entails.of_eq (close10 m d).symm)
      isplitl [HO0_0]
      · iapply (out_post_ent (TH d) (OUT0_0) _ (OUTc m d) _ ?hv0_0) $$ HO0_0
        case hv0_0 => unfold_carried; simp only [ReadAs.apply_same, View.read_write_univ]; exact val0_0 m d
      isplitl [HO0_1]
      · iapply (out_post_ent (TH d) (OUT0_1) _ (OUTc m d) _ ?hv0_1) $$ HO0_1
        case hv0_1 => unfold_carried; simp only [ReadAs.apply_same, View.read_write_univ]; exact val0_1 m d
      isplitl [HO0_2]
      · iapply (out_post_ent (TH d) (OUT0_2) _ (OUTc m d) _ ?hv0_2) $$ HO0_2
        case hv0_2 => unfold_carried; simp only [ReadAs.apply_same, View.read_write_univ]; exact val0_2 m d
      isplitl [HO0_3]
      · iapply (out_post_ent (TH d) (OUT0_3) _ (OUTc m d) _ ?hv0_3) $$ HO0_3
        case hv0_3 => unfold_carried; simp only [ReadAs.apply_same, View.read_write_univ]; exact val0_3 m d
      iapply (out_post_ent (TH d) (OUT1_0) _ (OUTc m d) _ ?hv1_0) $$ HO1_0
      case hv1_0 => unfold_carried; simp only [ReadAs.apply_same, View.read_write_univ]; exact val1_0 m d

  isplitl [Hb0' Hb1' Hb2' Hbufs]
  · isplitl [Hb0']
    · iexists _; iapply (Entails.of_eq (pts_b0 d (cV LL) (jV LL) _)); iexact Hb0'
    isplitl [Hb1']
    · iexists _; iapply (Entails.of_eq (pts_b1 d (cV LL) (jV LL) _)); iexact Hb1'
    isplitl [Hb2']
    · iexists _; iapply (Entails.of_eq (pts_b2 d (cV LL) (jV LL) _)); iexact Hb2'
    iexact Hbufs
  isplitl [Hs3 Hs4 Hs5 Hs6 Hs7 Hs8 Hsems]
  · isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    iexact Hsems
  iexists _; isplitr
  rotate_left
  · iexact HO
  · ipureintro; intro p hp
    simp only [Finset.mem_insert] at hp
    rcases hp with rfl | rfl | rfl | rfl | rfl | rfl | rfl | hp <;> first | exact .inr rfl | exact .inl hp

end Cert.Proof.KI.Tile2

end
-- ==== Proof.KITile3.lean ====
/-
  Tile 3 of the kernel (subcore 1 of core 1): one slice in (pose6.0), 4 out; one slice in (delta9.0), 1 out.
  Its whole body is run: every copy it does not own is skipped by the comparison of its number with the copy's owner;
  each incoming copy fills a staging buffer, each outgoing copy carries that buffer into one slice of the output array,
  and what each output slice then holds is the source slice the specification asks for there.
-/
import proofs.«210185_g18468359372994_cont_8to1_1390_15_alg».proof.Proof.KIRead

set_option maxHeartbeats 4000000
set_option quotPrecheck false

noncomputable section

namespace Cert.Proof.KI.Tile3

open Cert.KernelIdeal Cert.KernelIdeal.Gen
open Cert.Proof.KI
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
theorem cLt : 1 < grid0.bound 0 := by decide
theorem sLt : 1 < grid0.bound 1 := by decide
local notation "LL" => (coordsV (⟨1, cLt⟩ : Fin (grid0.bound 0)) (⟨1, sLt⟩ : Fin (grid0.bound 1)))
local notation "TH" d => V d (cV LL) (jV LL)
local notation "SRC0" => (((Memref.whole main_v2_scv).slice (Rect.unit (s := S17x128x2x128) ![6, 0, 0, 0] S1x128x1x128.size inb_S17x128x2x128_S1x128x1x128_6_0_0_0) (fun _ => rfl)).squeeze S128x128 squeezes_S1x128x1x128_S128x128 : Memref sig .scVector .hbm S128x128 .f32)
local notation "OUT0_0" => (((Memref.whole main_v10_scv).slice (Rect.unit (s := S9x2x128x8x128) ![3, 0, 0, 2, 0] S1x1x128x1x128.size inb_S9x2x128x8x128_S1x1x128x1x128_3_0_0_2_0) (fun _ => rfl)).squeeze S128x128 squeezes_S1x1x128x1x128_S128x128 : Memref sig .scVector .hbm S128x128 .f32)
local notation "OUT0_1" => (((Memref.whole main_v10_scv).slice (Rect.unit (s := S9x2x128x8x128) ![5, 1, 0, 0, 0] S1x1x128x1x128.size inb_S9x2x128x8x128_S1x1x128x1x128_5_1_0_0_0) (fun _ => rfl)).squeeze S128x128 squeezes_S1x1x128x1x128_S128x128 : Memref sig .scVector .hbm S128x128 .f32)
local notation "OUT0_2" => (((Memref.whole main_v10_scv).slice (Rect.unit (s := S9x2x128x8x128) ![3, 1, 0, 3, 0] S1x1x128x1x128.size inb_S9x2x128x8x128_S1x1x128x1x128_3_1_0_3_0) (fun _ => rfl)).squeeze S128x128 squeezes_S1x1x128x1x128_S128x128 : Memref sig .scVector .hbm S128x128 .f32)
local notation "OUT0_3" => (((Memref.whole main_v10_scv).slice (Rect.unit (s := S9x2x128x8x128) ![5, 1, 0, 5, 0] S1x1x128x1x128.size inb_S9x2x128x8x128_S1x1x128x1x128_5_1_0_5_0) (fun _ => rfl)).squeeze S128x128 squeezes_S1x1x128x1x128_S128x128 : Memref sig .scVector .hbm S128x128 .f32)
local notation "SRC1" => (((Memref.whole main_v5_scv).slice (Rect.unit (s := S14x128x2x128) ![9, 0, 0, 0] S1x128x1x128.size inb_S14x128x2x128_S1x128x1x128_9_0_0_0) (fun _ => rfl)).squeeze S128x128 squeezes_S1x128x1x128_S128x128 : Memref sig .scVector .hbm S128x128 .f32)
local notation "OUT1_0" => (((Memref.whole main_v10_scv).slice (Rect.unit (s := S9x2x128x8x128) ![0, 1, 0, 1, 0] S1x1x128x1x128.size inb_S9x2x128x8x128_S1x1x128x1x128_0_1_0_1_0) (fun _ => rfl)).squeeze S128x128 squeezes_S1x1x128x1x128_S128x128 : Memref sig .scVector .hbm S128x128 .f32)

/-! ## The tile's slices, as its memrefs name them -/

theorem open2 (m : (ℓ : Loc nD τ sig) → Buf (Elt F) ℓ) (d : Dev nD) :
    (bigSep (t2 (3 : Fin 32)) (A2 m d) : sProp 𝕄) = iprop(((SRC0).view.loc (TH d) ↦[(SRC0).view.set]{fullShare} V2c m d)) := by
  show bigSep ({((6 : Fin 17), (0 : Fin 2))} : Finset (Fin 17 × Fin 2)) (A2 m d) = _
  rw [bigSep_singleton]
  exact (pts_v2 d (cV LL) (jV LL) (6 : Fin 17) (0 : Fin 2) _ (V2c m d)).symm
theorem open5 (m : (ℓ : Loc nD τ sig) → Buf (Elt F) ℓ) (d : Dev nD) :
    (bigSep (t5 (3 : Fin 32)) (A5 m d) : sProp 𝕄) = iprop(((SRC1).view.loc (TH d) ↦[(SRC1).view.set]{fullShare} V5c m d)) := by
  show bigSep ({((9 : Fin 14), (0 : Fin 2))} : Finset (Fin 14 × Fin 2)) (A5 m d) = _
  rw [bigSep_singleton]
  exact (pts_v5 d (cV LL) (jV LL) (9 : Fin 14) (0 : Fin 2) _ (V5c m d)).symm
theorem open10 (m : (ℓ : Loc nD τ sig) → Buf (Elt F) ℓ) (d : Dev nD) :
    (bigSep (t10 (3 : Fin 32)) (B0 m d) : sProp 𝕄) = iprop(((OUT0_0).view.loc (TH d) ↦[(OUT0_0).view.set]{fullShare} m (v10L d)) ∗ ((OUT0_1).view.loc (TH d) ↦[(OUT0_1).view.set]{fullShare} m (v10L d)) ∗ ((OUT0_2).view.loc (TH d) ↦[(OUT0_2).view.set]{fullShare} m (v10L d)) ∗ ((OUT0_3).view.loc (TH d) ↦[(OUT0_3).view.set]{fullShare} m (v10L d)) ∗ ((OUT1_0).view.loc (TH d) ↦[(OUT1_0).view.set]{fullShare} m (v10L d))) := by
  show bigSep ({((3 : Fin 9), (0 : Fin 2), (2 : Fin 8)), ((5 : Fin 9), (1 : Fin 2), (0 : Fin 8)), ((3 : Fin 9), (1 : Fin 2), (3 : Fin 8)), ((5 : Fin 9), (1 : Fin 2), (5 : Fin 8)), ((0 : Fin 9), (1 : Fin 2), (1 : Fin 8))} : Finset (Fin 9 × Fin 2 × Fin 8)) (B0 m d) = _
  rw [SparseCore.bigSep_insert' (by decide), SparseCore.bigSep_insert' (by decide), SparseCore.bigSep_insert' (by decide), SparseCore.bigSep_insert' (by decide), bigSep_singleton]
  exact (congrArg₂ (fun a b : sProp 𝕄 => iprop(a ∗ b)) (pts_v10 d (cV LL) (jV LL) (3 : Fin 9) (0 : Fin 2) (2 : Fin 8) _ (m (v10L d))).symm (congrArg₂ (fun a b : sProp 𝕄 => iprop(a ∗ b)) (pts_v10 d (cV LL) (jV LL) (5 : Fin 9) (1 : Fin 2) (0 : Fin 8) _ (m (v10L d))).symm (congrArg₂ (fun a b : sProp 𝕄 => iprop(a ∗ b)) (pts_v10 d (cV LL) (jV LL) (3 : Fin 9) (1 : Fin 2) (3 : Fin 8) _ (m (v10L d))).symm (congrArg₂ (fun a b : sProp 𝕄 => iprop(a ∗ b)) (pts_v10 d (cV LL) (jV LL) (5 : Fin 9) (1 : Fin 2) (5 : Fin 8) _ (m (v10L d))).symm (pts_v10 d (cV LL) (jV LL) (0 : Fin 9) (1 : Fin 2) (1 : Fin 8) _ (m (v10L d))).symm))))
theorem close10 (m : (ℓ : Loc nD τ sig) → Buf (Elt F) ℓ) (d : Dev nD) :
    (bigSep (t10 (3 : Fin 32)) (B1 m d) : sProp 𝕄) = iprop(((OUT0_0).view.loc (TH d) ↦[(OUT0_0).view.set]{fullShare} OUTc m d) ∗ ((OUT0_1).view.loc (TH d) ↦[(OUT0_1).view.set]{fullShare} OUTc m d) ∗ ((OUT0_2).view.loc (TH d) ↦[(OUT0_2).view.set]{fullShare} OUTc m d) ∗ ((OUT0_3).view.loc (TH d) ↦[(OUT0_3).view.set]{fullShare} OUTc m d) ∗ ((OUT1_0).view.loc (TH d) ↦[(OUT1_0).view.set]{fullShare} OUTc m d)) := by
  show bigSep ({((3 : Fin 9), (0 : Fin 2), (2 : Fin 8)), ((5 : Fin 9), (1 : Fin 2), (0 : Fin 8)), ((3 : Fin 9), (1 : Fin 2), (3 : Fin 8)), ((5 : Fin 9), (1 : Fin 2), (5 : Fin 8)), ((0 : Fin 9), (1 : Fin 2), (1 : Fin 8))} : Finset (Fin 9 × Fin 2 × Fin 8)) (B1 m d) = _
  rw [SparseCore.bigSep_insert' (by decide), SparseCore.bigSep_insert' (by decide), SparseCore.bigSep_insert' (by decide), SparseCore.bigSep_insert' (by decide), bigSep_singleton]
  exact (congrArg₂ (fun a b : sProp 𝕄 => iprop(a ∗ b)) (pts_v10 d (cV LL) (jV LL) (3 : Fin 9) (0 : Fin 2) (2 : Fin 8) _ (OUTc m d)).symm (congrArg₂ (fun a b : sProp 𝕄 => iprop(a ∗ b)) (pts_v10 d (cV LL) (jV LL) (5 : Fin 9) (1 : Fin 2) (0 : Fin 8) _ (OUTc m d)).symm (congrArg₂ (fun a b : sProp 𝕄 => iprop(a ∗ b)) (pts_v10 d (cV LL) (jV LL) (3 : Fin 9) (1 : Fin 2) (3 : Fin 8) _ (OUTc m d)).symm (congrArg₂ (fun a b : sProp 𝕄 => iprop(a ∗ b)) (pts_v10 d (cV LL) (jV LL) (5 : Fin 9) (1 : Fin 2) (5 : Fin 8) _ (OUTc m d)).symm (pts_v10 d (cV LL) (jV LL) (0 : Fin 9) (1 : Fin 2) (1 : Fin 8) _ (OUTc m d)).symm))))

/-! ## What each output slice has to hold is what its source slice holds -/

theorem val0_0 (m : (ℓ : Loc nD τ sig) → Buf (Elt F) ℓ) (d : Dev nD) :
    (SRC0).view.read (Elt F) (V2c m d) = (OUT0_0).view.read (Elt F) (OUTc m d) := by
  funext y
  obtain ⟨t, q, rfl⟩ : ∃ (t q : Fin 128), y = ix2 t q := ⟨y 0, y 1, eq_ix2 y⟩
  refine (read_v2 (6 : Fin 17) (0 : Fin 2) _ _ t q).trans ((?_ : _ = _).trans (read_v10 (3 : Fin 9) (0 : Fin 2) (2 : Fin 8) _ _ t q).symm)
  unfold V2c OUTc
  rw [Cert.Layout.poseV_apply]
  refine Eq.trans ?_ (outV_at _ _ _ _ _ _ _ t _ q (show 8 * 0 + 2 < 14 by decide)).symm
  rfl
theorem val0_1 (m : (ℓ : Loc nD τ sig) → Buf (Elt F) ℓ) (d : Dev nD) :
    (SRC0).view.read (Elt F) (V2c m d) = (OUT0_1).view.read (Elt F) (OUTc m d) := by
  funext y
  obtain ⟨t, q, rfl⟩ : ∃ (t q : Fin 128), y = ix2 t q := ⟨y 0, y 1, eq_ix2 y⟩
  refine (read_v2 (6 : Fin 17) (0 : Fin 2) _ _ t q).trans ((?_ : _ = _).trans (read_v10 (5 : Fin 9) (1 : Fin 2) (0 : Fin 8) _ _ t q).symm)
  unfold V2c OUTc
  rw [Cert.Layout.poseV_apply]
  refine Eq.trans ?_ (outV_at _ _ _ _ _ _ _ t _ q (show 8 * 1 + 0 < 14 by decide)).symm
  rfl
theorem val0_2 (m : (ℓ : Loc nD τ sig) → Buf (Elt F) ℓ) (d : Dev nD) :
    (SRC0).view.read (Elt F) (V2c m d) = (OUT0_2).view.read (Elt F) (OUTc m d) := by
  funext y
  obtain ⟨t, q, rfl⟩ : ∃ (t q : Fin 128), y = ix2 t q := ⟨y 0, y 1, eq_ix2 y⟩
  refine (read_v2 (6 : Fin 17) (0 : Fin 2) _ _ t q).trans ((?_ : _ = _).trans (read_v10 (3 : Fin 9) (1 : Fin 2) (3 : Fin 8) _ _ t q).symm)
  unfold V2c OUTc
  rw [Cert.Layout.poseV_apply]
  refine Eq.trans ?_ (outV_at _ _ _ _ _ _ _ t _ q (show 8 * 1 + 3 < 14 by decide)).symm
  rfl
theorem val0_3 (m : (ℓ : Loc nD τ sig) → Buf (Elt F) ℓ) (d : Dev nD) :
    (SRC0).view.read (Elt F) (V2c m d) = (OUT0_3).view.read (Elt F) (OUTc m d) := by
  funext y
  obtain ⟨t, q, rfl⟩ : ∃ (t q : Fin 128), y = ix2 t q := ⟨y 0, y 1, eq_ix2 y⟩
  refine (read_v2 (6 : Fin 17) (0 : Fin 2) _ _ t q).trans ((?_ : _ = _).trans (read_v10 (5 : Fin 9) (1 : Fin 2) (5 : Fin 8) _ _ t q).symm)
  unfold V2c OUTc
  rw [Cert.Layout.poseV_apply]
  refine Eq.trans ?_ (outV_at _ _ _ _ _ _ _ t _ q (show 8 * 1 + 5 < 14 by decide)).symm
  rfl
theorem val1_0 (m : (ℓ : Loc nD τ sig) → Buf (Elt F) ℓ) (d : Dev nD) :
    (SRC1).view.read (Elt F) (V5c m d) = (OUT1_0).view.read (Elt F) (OUTc m d) := by
  funext y
  obtain ⟨t, q, rfl⟩ : ∃ (t q : Fin 128), y = ix2 t q := ⟨y 0, y 1, eq_ix2 y⟩
  refine (read_v5 (9 : Fin 14) (0 : Fin 2) _ _ t q).trans ((?_ : _ = _).trans (read_v10 (0 : Fin 9) (1 : Fin 2) (1 : Fin 8) _ _ t q).symm)
  unfold V5c OUTc
  rw [Cert.Layout.deltaV_apply]
  refine Eq.trans ?_ (outV_at _ _ _ _ _ _ _ t _ q (show 8 * 1 + 1 < 14 by decide)).symm
  rfl

/-! ## The run -/

open Lean Elab Tactic Meta in
/-- Unfold the names the symbolic run gave to the values its copies carry. -/
elab "unfold_carried" : tactic => do
  for _ in [0:6] do
    let g ← getMainGoal
    let t ← instantiateMVars (← g.getType)
    if (t.getUsedConstants.any fun n => n.components.any (· == `sl)) then
      let t' ← deltaExpand t (fun n => n.components.any (· == `sl))
      let g' ← g.change t' (checkDefEq := false)
      replaceMainGoal [g']

variable [FloatOps F] [∀ e, Nonempty (Elt F e)]

theorem run (m : (ℓ : Loc nD τ sig) → Buf (Elt F) ℓ) (d : Dev nD) (O : CellTallies nD τ sig (HIx 1)) (W : Waits sig (HIx 1)) (hO : ∀ g, O g none = 0) :
    (iprop(levAts (K (F := F)).L (K (F := F)).lev ∗ tileG m d (3 : Fin 32)
        ∗ scopedBufs (TH d) ∗ scopedSems0 (TH d) ∗ owes (TH d) O W) : sProp 𝕄)
      ⊢ wp frame (wpE (defs₀ (F := F)) 𝒱₀ (TH d) none) Set.univ
          (cc0_run LL (Memref.whole main_v2_scv) (Memref.isWhole_whole _) (Memref.whole main_v7_scv) (Memref.isWhole_whole _) (Memref.whole main_v5_scv) (Memref.isWhole_whole _) (Memref.whole main_v9_scv) (Memref.isWhole_whole _) (Memref.whole main_v10_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8)
          fun _ => iprop(tileT m d (3 : Fin 32) ∗ scopedBufs (TH d) ∗ scopedSems0 (TH d)
            ∗ ∃ W', ⌜∀ p ∈ W', p ∈ W ∨ p.2 = none⌝ ∗ owes (TH d) O W') := by
  rw [(K (F := F)).scopedBufs_V facts d (cV LL) (jV LL), SparseCore.Cfg.scopedSems0_V (Val := Elt F) d (cV LL) (jV LL), ownSems0_V, ownBufs_V]
  unfold tileG tileT
  iintro ⟨#Hlv, ⟨HF2, -, HF5, -, HF10⟩, ⟨⟨%fb0, Hb0⟩, ⟨%fb1, Hb1⟩, ⟨%fb2, Hb2⟩, Hbufs⟩, ⟨Hs3, Hs4, Hs5, Hs6, Hs7, Hs8, Hsems⟩, HO⟩
  ihave HF2' := (Entails.of_eq (open2 m d)) $$ HF2
  icases HF2' with HS0
  ihave HF5' := (Entails.of_eq (open5 m d)) $$ HF5
  icases HF5' with HS1
  ihave HF10' := (Entails.of_eq (open10 m d)) $$ HF10
  icases HF10' with ⟨HO0_0, HO0_1, HO0_2, HO0_3, HO1_0⟩
  ihave Hmw := ((K (F := F)).mayWaits_none (thr := TH d) hO) $$ Hlv
  ihave Hb0' := (Entails.of_eq (pts_b0 d (cV LL) (jV LL) _).symm) $$ Hb0
  ihave Hb1' := (Entails.of_eq (pts_b1 d (cV LL) (jV LL) _).symm) $$ Hb1
  ihave Hb2' := (Entails.of_eq (pts_b2 d (cV LL) (jV LL) _).symm) $$ Hb2
  have _plan : Transfers.BatchOf (TH d) (SemLoc.dma (sig := sig) cc0_scratch6.sem) 4 (windows := true) := trivial
  sl_unfold [cc0_run]
  sl_exec_parts (disch := decide)
  sl_step
  isplitl [HS0 HS1 HO0_0 HO0_1 HO0_2 HO0_3 HO1_0]
  · skip
    isplitl [HS0]
    · iapply (Entails.of_eq (open2 m d).symm)
      iexact HS0
    isplitr
    · rw [show t7 (3 : Fin 32) = ∅ from rfl, bigSep_empty]; iempintro
    isplitl [HS1]
    · iapply (Entails.of_eq (open5 m d).symm)
      iexact HS1
    isplitr
    · rw [show t9 (3 : Fin 32) = ∅ from rfl, bigSep_empty]; iempintro
    · iapply (Entails.of_eq (close10 m d).symm)
      isplitl [HO0_0]
      · iapply (out_post_ent (TH d) (OUT0_0) _ (OUTc m d) _ ?hv0_0) $$ HO0_0
        case hv0_0 => unfold_carried; simp only [ReadAs.apply_same, View.read_write_univ]; exact val0_0 m d
      isplitl [HO0_1]
      · iapply (out_post_ent (TH d) (OUT0_1) _ (OUTc m d) _ ?hv0_1) $$ HO0_1
        case hv0_1 => unfold_carried; simp only [ReadAs.apply_same, View.read_write_univ]; exact val0_1 m d
      isplitl [HO0_2]
      · iapply (out_post_ent (TH d) (OUT0_2) _ (OUTc m d) _ ?hv0_2) $$ HO0_2
        case hv0_2 => unfold_carried; simp only [ReadAs.apply_same, View.read_write_univ]; exact val0_2 m d
      isplitl [HO0_3]
      · iapply (out_post_ent (TH d) (OUT0_3) _ (OUTc m d) _ ?hv0_3) $$ HO0_3
        case hv0_3 => unfold_carried; simp only [ReadAs.apply_same, View.read_write_univ]; exact val0_3 m d
      iapply (out_post_ent (TH d) (OUT1_0) _ (OUTc m d) _ ?hv1_0) $$ HO1_0
      case hv1_0 => unfold_carried; simp only [ReadAs.apply_same, View.read_write_univ]; exact val1_0 m d

  isplitl [Hb0' Hb1' Hb2' Hbufs]
  · isplitl [Hb0']
    · iexists _; iapply (Entails.of_eq (pts_b0 d (cV LL) (jV LL) _)); iexact Hb0'
    isplitl [Hb1']
    · iexists _; iapply (Entails.of_eq (pts_b1 d (cV LL) (jV LL) _)); iexact Hb1'
    isplitl [Hb2']
    · iexists _; iapply (Entails.of_eq (pts_b2 d (cV LL) (jV LL) _)); iexact Hb2'
    iexact Hbufs
  isplitl [Hs3 Hs4 Hs5 Hs6 Hs7 Hs8 Hsems]
  · isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    iexact Hsems
  iexists _; isplitr
  rotate_left
  · iexact HO
  · ipureintro; intro p hp
    simp only [Finset.mem_insert] at hp
    rcases hp with rfl | rfl | rfl | rfl | rfl | rfl | rfl | hp <;> first | exact .inr rfl | exact .inl hp

end Cert.Proof.KI.Tile3

end
-- ==== Proof.KITile4.lean ====
/-
  Tile 4 of the kernel (subcore 2 of core 0): one slice in (pose6.1), 4 out; one slice in (delta9.1), 1 out.
  Its whole body is run: every copy it does not own is skipped by the comparison of its number with the copy's owner;
  each incoming copy fills a staging buffer, each outgoing copy carries that buffer into one slice of the output array,
  and what each output slice then holds is the source slice the specification asks for there.
-/
import proofs.«210185_g18468359372994_cont_8to1_1390_15_alg».proof.Proof.KIRead

set_option maxHeartbeats 4000000
set_option quotPrecheck false

noncomputable section

namespace Cert.Proof.KI.Tile4

open Cert.KernelIdeal Cert.KernelIdeal.Gen
open Cert.Proof.KI
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
theorem cLt : 0 < grid0.bound 0 := by decide
theorem sLt : 2 < grid0.bound 1 := by decide
local notation "LL" => (coordsV (⟨0, cLt⟩ : Fin (grid0.bound 0)) (⟨2, sLt⟩ : Fin (grid0.bound 1)))
local notation "TH" d => V d (cV LL) (jV LL)
local notation "SRC0" => (((Memref.whole main_v2_scv).slice (Rect.unit (s := S17x128x2x128) ![6, 0, 1, 0] S1x128x1x128.size inb_S17x128x2x128_S1x128x1x128_6_0_1_0) (fun _ => rfl)).squeeze S128x128 squeezes_S1x128x1x128_S128x128 : Memref sig .scVector .hbm S128x128 .f32)
local notation "OUT0_0" => (((Memref.whole main_v10_scv).slice (Rect.unit (s := S9x2x128x8x128) ![4, 0, 0, 2, 0] S1x1x128x1x128.size inb_S9x2x128x8x128_S1x1x128x1x128_4_0_0_2_0) (fun _ => rfl)).squeeze S128x128 squeezes_S1x1x128x1x128_S128x128 : Memref sig .scVector .hbm S128x128 .f32)
local notation "OUT0_1" => (((Memref.whole main_v10_scv).slice (Rect.unit (s := S9x2x128x8x128) ![6, 1, 0, 0, 0] S1x1x128x1x128.size inb_S9x2x128x8x128_S1x1x128x1x128_6_1_0_0_0) (fun _ => rfl)).squeeze S128x128 squeezes_S1x1x128x1x128_S128x128 : Memref sig .scVector .hbm S128x128 .f32)
local notation "OUT0_2" => (((Memref.whole main_v10_scv).slice (Rect.unit (s := S9x2x128x8x128) ![4, 1, 0, 3, 0] S1x1x128x1x128.size inb_S9x2x128x8x128_S1x1x128x1x128_4_1_0_3_0) (fun _ => rfl)).squeeze S128x128 squeezes_S1x1x128x1x128_S128x128 : Memref sig .scVector .hbm S128x128 .f32)
local notation "OUT0_3" => (((Memref.whole main_v10_scv).slice (Rect.unit (s := S9x2x128x8x128) ![6, 1, 0, 5, 0] S1x1x128x1x128.size inb_S9x2x128x8x128_S1x1x128x1x128_6_1_0_5_0) (fun _ => rfl)).squeeze S128x128 squeezes_S1x1x128x1x128_S128x128 : Memref sig .scVector .hbm S128x128 .f32)
local notation "SRC1" => (((Memref.whole main_v5_scv).slice (Rect.unit (s := S14x128x2x128) ![9, 0, 1, 0] S1x128x1x128.size inb_S14x128x2x128_S1x128x1x128_9_0_1_0) (fun _ => rfl)).squeeze S128x128 squeezes_S1x128x1x128_S128x128 : Memref sig .scVector .hbm S128x128 .f32)
local notation "OUT1_0" => (((Memref.whole main_v10_scv).slice (Rect.unit (s := S9x2x128x8x128) ![1, 1, 0, 1, 0] S1x1x128x1x128.size inb_S9x2x128x8x128_S1x1x128x1x128_1_1_0_1_0) (fun _ => rfl)).squeeze S128x128 squeezes_S1x1x128x1x128_S128x128 : Memref sig .scVector .hbm S128x128 .f32)

/-! ## The tile's slices, as its memrefs name them -/

theorem open2 (m : (ℓ : Loc nD τ sig) → Buf (Elt F) ℓ) (d : Dev nD) :
    (bigSep (t2 (4 : Fin 32)) (A2 m d) : sProp 𝕄) = iprop(((SRC0).view.loc (TH d) ↦[(SRC0).view.set]{fullShare} V2c m d)) := by
  show bigSep ({((6 : Fin 17), (1 : Fin 2))} : Finset (Fin 17 × Fin 2)) (A2 m d) = _
  rw [bigSep_singleton]
  exact (pts_v2 d (cV LL) (jV LL) (6 : Fin 17) (1 : Fin 2) _ (V2c m d)).symm
theorem open5 (m : (ℓ : Loc nD τ sig) → Buf (Elt F) ℓ) (d : Dev nD) :
    (bigSep (t5 (4 : Fin 32)) (A5 m d) : sProp 𝕄) = iprop(((SRC1).view.loc (TH d) ↦[(SRC1).view.set]{fullShare} V5c m d)) := by
  show bigSep ({((9 : Fin 14), (1 : Fin 2))} : Finset (Fin 14 × Fin 2)) (A5 m d) = _
  rw [bigSep_singleton]
  exact (pts_v5 d (cV LL) (jV LL) (9 : Fin 14) (1 : Fin 2) _ (V5c m d)).symm
theorem open10 (m : (ℓ : Loc nD τ sig) → Buf (Elt F) ℓ) (d : Dev nD) :
    (bigSep (t10 (4 : Fin 32)) (B0 m d) : sProp 𝕄) = iprop(((OUT0_0).view.loc (TH d) ↦[(OUT0_0).view.set]{fullShare} m (v10L d)) ∗ ((OUT0_1).view.loc (TH d) ↦[(OUT0_1).view.set]{fullShare} m (v10L d)) ∗ ((OUT0_2).view.loc (TH d) ↦[(OUT0_2).view.set]{fullShare} m (v10L d)) ∗ ((OUT0_3).view.loc (TH d) ↦[(OUT0_3).view.set]{fullShare} m (v10L d)) ∗ ((OUT1_0).view.loc (TH d) ↦[(OUT1_0).view.set]{fullShare} m (v10L d))) := by
  show bigSep ({((4 : Fin 9), (0 : Fin 2), (2 : Fin 8)), ((6 : Fin 9), (1 : Fin 2), (0 : Fin 8)), ((4 : Fin 9), (1 : Fin 2), (3 : Fin 8)), ((6 : Fin 9), (1 : Fin 2), (5 : Fin 8)), ((1 : Fin 9), (1 : Fin 2), (1 : Fin 8))} : Finset (Fin 9 × Fin 2 × Fin 8)) (B0 m d) = _
  rw [SparseCore.bigSep_insert' (by decide), SparseCore.bigSep_insert' (by decide), SparseCore.bigSep_insert' (by decide), SparseCore.bigSep_insert' (by decide), bigSep_singleton]
  exact (congrArg₂ (fun a b : sProp 𝕄 => iprop(a ∗ b)) (pts_v10 d (cV LL) (jV LL) (4 : Fin 9) (0 : Fin 2) (2 : Fin 8) _ (m (v10L d))).symm (congrArg₂ (fun a b : sProp 𝕄 => iprop(a ∗ b)) (pts_v10 d (cV LL) (jV LL) (6 : Fin 9) (1 : Fin 2) (0 : Fin 8) _ (m (v10L d))).symm (congrArg₂ (fun a b : sProp 𝕄 => iprop(a ∗ b)) (pts_v10 d (cV LL) (jV LL) (4 : Fin 9) (1 : Fin 2) (3 : Fin 8) _ (m (v10L d))).symm (congrArg₂ (fun a b : sProp 𝕄 => iprop(a ∗ b)) (pts_v10 d (cV LL) (jV LL) (6 : Fin 9) (1 : Fin 2) (5 : Fin 8) _ (m (v10L d))).symm (pts_v10 d (cV LL) (jV LL) (1 : Fin 9) (1 : Fin 2) (1 : Fin 8) _ (m (v10L d))).symm))))
theorem close10 (m : (ℓ : Loc nD τ sig) → Buf (Elt F) ℓ) (d : Dev nD) :
    (bigSep (t10 (4 : Fin 32)) (B1 m d) : sProp 𝕄) = iprop(((OUT0_0).view.loc (TH d) ↦[(OUT0_0).view.set]{fullShare} OUTc m d) ∗ ((OUT0_1).view.loc (TH d) ↦[(OUT0_1).view.set]{fullShare} OUTc m d) ∗ ((OUT0_2).view.loc (TH d) ↦[(OUT0_2).view.set]{fullShare} OUTc m d) ∗ ((OUT0_3).view.loc (TH d) ↦[(OUT0_3).view.set]{fullShare} OUTc m d) ∗ ((OUT1_0).view.loc (TH d) ↦[(OUT1_0).view.set]{fullShare} OUTc m d)) := by
  show bigSep ({((4 : Fin 9), (0 : Fin 2), (2 : Fin 8)), ((6 : Fin 9), (1 : Fin 2), (0 : Fin 8)), ((4 : Fin 9), (1 : Fin 2), (3 : Fin 8)), ((6 : Fin 9), (1 : Fin 2), (5 : Fin 8)), ((1 : Fin 9), (1 : Fin 2), (1 : Fin 8))} : Finset (Fin 9 × Fin 2 × Fin 8)) (B1 m d) = _
  rw [SparseCore.bigSep_insert' (by decide), SparseCore.bigSep_insert' (by decide), SparseCore.bigSep_insert' (by decide), SparseCore.bigSep_insert' (by decide), bigSep_singleton]
  exact (congrArg₂ (fun a b : sProp 𝕄 => iprop(a ∗ b)) (pts_v10 d (cV LL) (jV LL) (4 : Fin 9) (0 : Fin 2) (2 : Fin 8) _ (OUTc m d)).symm (congrArg₂ (fun a b : sProp 𝕄 => iprop(a ∗ b)) (pts_v10 d (cV LL) (jV LL) (6 : Fin 9) (1 : Fin 2) (0 : Fin 8) _ (OUTc m d)).symm (congrArg₂ (fun a b : sProp 𝕄 => iprop(a ∗ b)) (pts_v10 d (cV LL) (jV LL) (4 : Fin 9) (1 : Fin 2) (3 : Fin 8) _ (OUTc m d)).symm (congrArg₂ (fun a b : sProp 𝕄 => iprop(a ∗ b)) (pts_v10 d (cV LL) (jV LL) (6 : Fin 9) (1 : Fin 2) (5 : Fin 8) _ (OUTc m d)).symm (pts_v10 d (cV LL) (jV LL) (1 : Fin 9) (1 : Fin 2) (1 : Fin 8) _ (OUTc m d)).symm))))

/-! ## What each output slice has to hold is what its source slice holds -/

theorem val0_0 (m : (ℓ : Loc nD τ sig) → Buf (Elt F) ℓ) (d : Dev nD) :
    (SRC0).view.read (Elt F) (V2c m d) = (OUT0_0).view.read (Elt F) (OUTc m d) := by
  funext y
  obtain ⟨t, q, rfl⟩ : ∃ (t q : Fin 128), y = ix2 t q := ⟨y 0, y 1, eq_ix2 y⟩
  refine (read_v2 (6 : Fin 17) (1 : Fin 2) _ _ t q).trans ((?_ : _ = _).trans (read_v10 (4 : Fin 9) (0 : Fin 2) (2 : Fin 8) _ _ t q).symm)
  unfold V2c OUTc
  rw [Cert.Layout.poseV_apply]
  refine Eq.trans ?_ (outV_at _ _ _ _ _ _ _ t _ q (show 8 * 0 + 2 < 14 by decide)).symm
  rfl
theorem val0_1 (m : (ℓ : Loc nD τ sig) → Buf (Elt F) ℓ) (d : Dev nD) :
    (SRC0).view.read (Elt F) (V2c m d) = (OUT0_1).view.read (Elt F) (OUTc m d) := by
  funext y
  obtain ⟨t, q, rfl⟩ : ∃ (t q : Fin 128), y = ix2 t q := ⟨y 0, y 1, eq_ix2 y⟩
  refine (read_v2 (6 : Fin 17) (1 : Fin 2) _ _ t q).trans ((?_ : _ = _).trans (read_v10 (6 : Fin 9) (1 : Fin 2) (0 : Fin 8) _ _ t q).symm)
  unfold V2c OUTc
  rw [Cert.Layout.poseV_apply]
  refine Eq.trans ?_ (outV_at _ _ _ _ _ _ _ t _ q (show 8 * 1 + 0 < 14 by decide)).symm
  rfl
theorem val0_2 (m : (ℓ : Loc nD τ sig) → Buf (Elt F) ℓ) (d : Dev nD) :
    (SRC0).view.read (Elt F) (V2c m d) = (OUT0_2).view.read (Elt F) (OUTc m d) := by
  funext y
  obtain ⟨t, q, rfl⟩ : ∃ (t q : Fin 128), y = ix2 t q := ⟨y 0, y 1, eq_ix2 y⟩
  refine (read_v2 (6 : Fin 17) (1 : Fin 2) _ _ t q).trans ((?_ : _ = _).trans (read_v10 (4 : Fin 9) (1 : Fin 2) (3 : Fin 8) _ _ t q).symm)
  unfold V2c OUTc
  rw [Cert.Layout.poseV_apply]
  refine Eq.trans ?_ (outV_at _ _ _ _ _ _ _ t _ q (show 8 * 1 + 3 < 14 by decide)).symm
  rfl
theorem val0_3 (m : (ℓ : Loc nD τ sig) → Buf (Elt F) ℓ) (d : Dev nD) :
    (SRC0).view.read (Elt F) (V2c m d) = (OUT0_3).view.read (Elt F) (OUTc m d) := by
  funext y
  obtain ⟨t, q, rfl⟩ : ∃ (t q : Fin 128), y = ix2 t q := ⟨y 0, y 1, eq_ix2 y⟩
  refine (read_v2 (6 : Fin 17) (1 : Fin 2) _ _ t q).trans ((?_ : _ = _).trans (read_v10 (6 : Fin 9) (1 : Fin 2) (5 : Fin 8) _ _ t q).symm)
  unfold V2c OUTc
  rw [Cert.Layout.poseV_apply]
  refine Eq.trans ?_ (outV_at _ _ _ _ _ _ _ t _ q (show 8 * 1 + 5 < 14 by decide)).symm
  rfl
theorem val1_0 (m : (ℓ : Loc nD τ sig) → Buf (Elt F) ℓ) (d : Dev nD) :
    (SRC1).view.read (Elt F) (V5c m d) = (OUT1_0).view.read (Elt F) (OUTc m d) := by
  funext y
  obtain ⟨t, q, rfl⟩ : ∃ (t q : Fin 128), y = ix2 t q := ⟨y 0, y 1, eq_ix2 y⟩
  refine (read_v5 (9 : Fin 14) (1 : Fin 2) _ _ t q).trans ((?_ : _ = _).trans (read_v10 (1 : Fin 9) (1 : Fin 2) (1 : Fin 8) _ _ t q).symm)
  unfold V5c OUTc
  rw [Cert.Layout.deltaV_apply]
  refine Eq.trans ?_ (outV_at _ _ _ _ _ _ _ t _ q (show 8 * 1 + 1 < 14 by decide)).symm
  rfl

/-! ## The run -/

open Lean Elab Tactic Meta in
/-- Unfold the names the symbolic run gave to the values its copies carry. -/
elab "unfold_carried" : tactic => do
  for _ in [0:6] do
    let g ← getMainGoal
    let t ← instantiateMVars (← g.getType)
    if (t.getUsedConstants.any fun n => n.components.any (· == `sl)) then
      let t' ← deltaExpand t (fun n => n.components.any (· == `sl))
      let g' ← g.change t' (checkDefEq := false)
      replaceMainGoal [g']

variable [FloatOps F] [∀ e, Nonempty (Elt F e)]

theorem run (m : (ℓ : Loc nD τ sig) → Buf (Elt F) ℓ) (d : Dev nD) (O : CellTallies nD τ sig (HIx 1)) (W : Waits sig (HIx 1)) (hO : ∀ g, O g none = 0) :
    (iprop(levAts (K (F := F)).L (K (F := F)).lev ∗ tileG m d (4 : Fin 32)
        ∗ scopedBufs (TH d) ∗ scopedSems0 (TH d) ∗ owes (TH d) O W) : sProp 𝕄)
      ⊢ wp frame (wpE (defs₀ (F := F)) 𝒱₀ (TH d) none) Set.univ
          (cc0_run LL (Memref.whole main_v2_scv) (Memref.isWhole_whole _) (Memref.whole main_v7_scv) (Memref.isWhole_whole _) (Memref.whole main_v5_scv) (Memref.isWhole_whole _) (Memref.whole main_v9_scv) (Memref.isWhole_whole _) (Memref.whole main_v10_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8)
          fun _ => iprop(tileT m d (4 : Fin 32) ∗ scopedBufs (TH d) ∗ scopedSems0 (TH d)
            ∗ ∃ W', ⌜∀ p ∈ W', p ∈ W ∨ p.2 = none⌝ ∗ owes (TH d) O W') := by
  rw [(K (F := F)).scopedBufs_V facts d (cV LL) (jV LL), SparseCore.Cfg.scopedSems0_V (Val := Elt F) d (cV LL) (jV LL), ownSems0_V, ownBufs_V]
  unfold tileG tileT
  iintro ⟨#Hlv, ⟨HF2, -, HF5, -, HF10⟩, ⟨⟨%fb0, Hb0⟩, ⟨%fb1, Hb1⟩, ⟨%fb2, Hb2⟩, Hbufs⟩, ⟨Hs3, Hs4, Hs5, Hs6, Hs7, Hs8, Hsems⟩, HO⟩
  ihave HF2' := (Entails.of_eq (open2 m d)) $$ HF2
  icases HF2' with HS0
  ihave HF5' := (Entails.of_eq (open5 m d)) $$ HF5
  icases HF5' with HS1
  ihave HF10' := (Entails.of_eq (open10 m d)) $$ HF10
  icases HF10' with ⟨HO0_0, HO0_1, HO0_2, HO0_3, HO1_0⟩
  ihave Hmw := ((K (F := F)).mayWaits_none (thr := TH d) hO) $$ Hlv
  ihave Hb0' := (Entails.of_eq (pts_b0 d (cV LL) (jV LL) _).symm) $$ Hb0
  ihave Hb1' := (Entails.of_eq (pts_b1 d (cV LL) (jV LL) _).symm) $$ Hb1
  ihave Hb2' := (Entails.of_eq (pts_b2 d (cV LL) (jV LL) _).symm) $$ Hb2
  have _plan : Transfers.BatchOf (TH d) (SemLoc.dma (sig := sig) cc0_scratch6.sem) 4 (windows := true) := trivial
  sl_unfold [cc0_run]
  sl_exec_parts (disch := decide)
  sl_step
  isplitl [HS0 HS1 HO0_0 HO0_1 HO0_2 HO0_3 HO1_0]
  · skip
    isplitl [HS0]
    · iapply (Entails.of_eq (open2 m d).symm)
      iexact HS0
    isplitr
    · rw [show t7 (4 : Fin 32) = ∅ from rfl, bigSep_empty]; iempintro
    isplitl [HS1]
    · iapply (Entails.of_eq (open5 m d).symm)
      iexact HS1
    isplitr
    · rw [show t9 (4 : Fin 32) = ∅ from rfl, bigSep_empty]; iempintro
    · iapply (Entails.of_eq (close10 m d).symm)
      isplitl [HO0_0]
      · iapply (out_post_ent (TH d) (OUT0_0) _ (OUTc m d) _ ?hv0_0) $$ HO0_0
        case hv0_0 => unfold_carried; simp only [ReadAs.apply_same, View.read_write_univ]; exact val0_0 m d
      isplitl [HO0_1]
      · iapply (out_post_ent (TH d) (OUT0_1) _ (OUTc m d) _ ?hv0_1) $$ HO0_1
        case hv0_1 => unfold_carried; simp only [ReadAs.apply_same, View.read_write_univ]; exact val0_1 m d
      isplitl [HO0_2]
      · iapply (out_post_ent (TH d) (OUT0_2) _ (OUTc m d) _ ?hv0_2) $$ HO0_2
        case hv0_2 => unfold_carried; simp only [ReadAs.apply_same, View.read_write_univ]; exact val0_2 m d
      isplitl [HO0_3]
      · iapply (out_post_ent (TH d) (OUT0_3) _ (OUTc m d) _ ?hv0_3) $$ HO0_3
        case hv0_3 => unfold_carried; simp only [ReadAs.apply_same, View.read_write_univ]; exact val0_3 m d
      iapply (out_post_ent (TH d) (OUT1_0) _ (OUTc m d) _ ?hv1_0) $$ HO1_0
      case hv1_0 => unfold_carried; simp only [ReadAs.apply_same, View.read_write_univ]; exact val1_0 m d

  isplitl [Hb0' Hb1' Hb2' Hbufs]
  · isplitl [Hb0']
    · iexists _; iapply (Entails.of_eq (pts_b0 d (cV LL) (jV LL) _)); iexact Hb0'
    isplitl [Hb1']
    · iexists _; iapply (Entails.of_eq (pts_b1 d (cV LL) (jV LL) _)); iexact Hb1'
    isplitl [Hb2']
    · iexists _; iapply (Entails.of_eq (pts_b2 d (cV LL) (jV LL) _)); iexact Hb2'
    iexact Hbufs
  isplitl [Hs3 Hs4 Hs5 Hs6 Hs7 Hs8 Hsems]
  · isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    iexact Hsems
  iexists _; isplitr
  rotate_left
  · iexact HO
  · ipureintro; intro p hp
    simp only [Finset.mem_insert] at hp
    rcases hp with rfl | rfl | rfl | rfl | rfl | rfl | rfl | hp <;> first | exact .inr rfl | exact .inl hp

end Cert.Proof.KI.Tile4

end
-- ==== Proof.KITile5.lean ====
/-
  Tile 5 of the kernel (subcore 2 of core 1): one slice in (vis6), 4 out; one slice in (len9), 1 out.
  Its whole body is run: every copy it does not own is skipped by the comparison of its number with the copy's owner;
  each incoming copy fills a staging buffer, each outgoing copy carries that buffer into one slice of the output array,
  and what each output slice then holds is the source slice the specification asks for there.
-/
import proofs.«210185_g18468359372994_cont_8to1_1390_15_alg».proof.Proof.KIRead

set_option maxHeartbeats 4000000
set_option quotPrecheck false

noncomputable section

namespace Cert.Proof.KI.Tile5

open Cert.KernelIdeal Cert.KernelIdeal.Gen
open Cert.Proof.KI
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
theorem cLt : 1 < grid0.bound 0 := by decide
theorem sLt : 2 < grid0.bound 1 := by decide
local notation "LL" => (coordsV (⟨1, cLt⟩ : Fin (grid0.bound 0)) (⟨2, sLt⟩ : Fin (grid0.bound 1)))
local notation "TH" d => V d (cV LL) (jV LL)
local notation "SRC0" => (((Memref.whole main_v7_scv).slice (Rect.unit (s := S17x128x128) ![6, 0, 0] S1x128x128.size inb_S17x128x128_S1x128x128_6_0_0) (fun _ => rfl)).squeeze S128x128 squeezes_S1x128x128_S128x128 : Memref sig .scVector .hbm S128x128 .f32)
local notation "OUT0_0" => (((Memref.whole main_v10_scv).slice (Rect.unit (s := S9x2x128x8x128) ![7, 0, 0, 2, 0] S1x1x128x1x128.size inb_S9x2x128x8x128_S1x1x128x1x128_7_0_0_2_0) (fun _ => rfl)).squeeze S128x128 squeezes_S1x1x128x1x128_S128x128 : Memref sig .scVector .hbm S128x128 .f32)
local notation "OUT0_1" => (((Memref.whole main_v10_scv).slice (Rect.unit (s := S9x2x128x8x128) ![8, 1, 0, 0, 0] S1x1x128x1x128.size inb_S9x2x128x8x128_S1x1x128x1x128_8_1_0_0_0) (fun _ => rfl)).squeeze S128x128 squeezes_S1x1x128x1x128_S128x128 : Memref sig .scVector .hbm S128x128 .f32)
local notation "OUT0_2" => (((Memref.whole main_v10_scv).slice (Rect.unit (s := S9x2x128x8x128) ![7, 1, 0, 3, 0] S1x1x128x1x128.size inb_S9x2x128x8x128_S1x1x128x1x128_7_1_0_3_0) (fun _ => rfl)).squeeze S128x128 squeezes_S1x1x128x1x128_S128x128 : Memref sig .scVector .hbm S128x128 .f32)
local notation "OUT0_3" => (((Memref.whole main_v10_scv).slice (Rect.unit (s := S9x2x128x8x128) ![8, 1, 0, 5, 0] S1x1x128x1x128.size inb_S9x2x128x8x128_S1x1x128x1x128_8_1_0_5_0) (fun _ => rfl)).squeeze S128x128 squeezes_S1x1x128x1x128_S128x128 : Memref sig .scVector .hbm S128x128 .f32)
local notation "SRC1" => (((Memref.whole main_v9_scv).slice (Rect.unit (s := S14x128x128) ![9, 0, 0] S1x128x128.size inb_S14x128x128_S1x128x128_9_0_0) (fun _ => rfl)).squeeze S128x128 squeezes_S1x128x128_S128x128 : Memref sig .scVector .hbm S128x128 .f32)
local notation "OUT1_0" => (((Memref.whole main_v10_scv).slice (Rect.unit (s := S9x2x128x8x128) ![2, 1, 0, 1, 0] S1x1x128x1x128.size inb_S9x2x128x8x128_S1x1x128x1x128_2_1_0_1_0) (fun _ => rfl)).squeeze S128x128 squeezes_S1x1x128x1x128_S128x128 : Memref sig .scVector .hbm S128x128 .f32)

/-! ## The tile's slices, as its memrefs name them -/

theorem open7 (m : (ℓ : Loc nD τ sig) → Buf (Elt F) ℓ) (d : Dev nD) :
    (bigSep (t7 (5 : Fin 32)) (A7 m d) : sProp 𝕄) = iprop(((SRC0).view.loc (TH d) ↦[(SRC0).view.set]{fullShare} V7c m d)) := by
  show bigSep ({(6 : Fin 17)} : Finset (Fin 17)) (A7 m d) = _
  rw [bigSep_singleton]
  exact (pts_v7 d (cV LL) (jV LL) (6 : Fin 17) _ (V7c m d)).symm
theorem open9 (m : (ℓ : Loc nD τ sig) → Buf (Elt F) ℓ) (d : Dev nD) :
    (bigSep (t9 (5 : Fin 32)) (A9 m d) : sProp 𝕄) = iprop(((SRC1).view.loc (TH d) ↦[(SRC1).view.set]{fullShare} V9c m d)) := by
  show bigSep ({(9 : Fin 14)} : Finset (Fin 14)) (A9 m d) = _
  rw [bigSep_singleton]
  exact (pts_v9 d (cV LL) (jV LL) (9 : Fin 14) _ (V9c m d)).symm
theorem open10 (m : (ℓ : Loc nD τ sig) → Buf (Elt F) ℓ) (d : Dev nD) :
    (bigSep (t10 (5 : Fin 32)) (B0 m d) : sProp 𝕄) = iprop(((OUT0_0).view.loc (TH d) ↦[(OUT0_0).view.set]{fullShare} m (v10L d)) ∗ ((OUT0_1).view.loc (TH d) ↦[(OUT0_1).view.set]{fullShare} m (v10L d)) ∗ ((OUT0_2).view.loc (TH d) ↦[(OUT0_2).view.set]{fullShare} m (v10L d)) ∗ ((OUT0_3).view.loc (TH d) ↦[(OUT0_3).view.set]{fullShare} m (v10L d)) ∗ ((OUT1_0).view.loc (TH d) ↦[(OUT1_0).view.set]{fullShare} m (v10L d))) := by
  show bigSep ({((7 : Fin 9), (0 : Fin 2), (2 : Fin 8)), ((8 : Fin 9), (1 : Fin 2), (0 : Fin 8)), ((7 : Fin 9), (1 : Fin 2), (3 : Fin 8)), ((8 : Fin 9), (1 : Fin 2), (5 : Fin 8)), ((2 : Fin 9), (1 : Fin 2), (1 : Fin 8))} : Finset (Fin 9 × Fin 2 × Fin 8)) (B0 m d) = _
  rw [SparseCore.bigSep_insert' (by decide), SparseCore.bigSep_insert' (by decide), SparseCore.bigSep_insert' (by decide), SparseCore.bigSep_insert' (by decide), bigSep_singleton]
  exact (congrArg₂ (fun a b : sProp 𝕄 => iprop(a ∗ b)) (pts_v10 d (cV LL) (jV LL) (7 : Fin 9) (0 : Fin 2) (2 : Fin 8) _ (m (v10L d))).symm (congrArg₂ (fun a b : sProp 𝕄 => iprop(a ∗ b)) (pts_v10 d (cV LL) (jV LL) (8 : Fin 9) (1 : Fin 2) (0 : Fin 8) _ (m (v10L d))).symm (congrArg₂ (fun a b : sProp 𝕄 => iprop(a ∗ b)) (pts_v10 d (cV LL) (jV LL) (7 : Fin 9) (1 : Fin 2) (3 : Fin 8) _ (m (v10L d))).symm (congrArg₂ (fun a b : sProp 𝕄 => iprop(a ∗ b)) (pts_v10 d (cV LL) (jV LL) (8 : Fin 9) (1 : Fin 2) (5 : Fin 8) _ (m (v10L d))).symm (pts_v10 d (cV LL) (jV LL) (2 : Fin 9) (1 : Fin 2) (1 : Fin 8) _ (m (v10L d))).symm))))
theorem close10 (m : (ℓ : Loc nD τ sig) → Buf (Elt F) ℓ) (d : Dev nD) :
    (bigSep (t10 (5 : Fin 32)) (B1 m d) : sProp 𝕄) = iprop(((OUT0_0).view.loc (TH d) ↦[(OUT0_0).view.set]{fullShare} OUTc m d) ∗ ((OUT0_1).view.loc (TH d) ↦[(OUT0_1).view.set]{fullShare} OUTc m d) ∗ ((OUT0_2).view.loc (TH d) ↦[(OUT0_2).view.set]{fullShare} OUTc m d) ∗ ((OUT0_3).view.loc (TH d) ↦[(OUT0_3).view.set]{fullShare} OUTc m d) ∗ ((OUT1_0).view.loc (TH d) ↦[(OUT1_0).view.set]{fullShare} OUTc m d)) := by
  show bigSep ({((7 : Fin 9), (0 : Fin 2), (2 : Fin 8)), ((8 : Fin 9), (1 : Fin 2), (0 : Fin 8)), ((7 : Fin 9), (1 : Fin 2), (3 : Fin 8)), ((8 : Fin 9), (1 : Fin 2), (5 : Fin 8)), ((2 : Fin 9), (1 : Fin 2), (1 : Fin 8))} : Finset (Fin 9 × Fin 2 × Fin 8)) (B1 m d) = _
  rw [SparseCore.bigSep_insert' (by decide), SparseCore.bigSep_insert' (by decide), SparseCore.bigSep_insert' (by decide), SparseCore.bigSep_insert' (by decide), bigSep_singleton]
  exact (congrArg₂ (fun a b : sProp 𝕄 => iprop(a ∗ b)) (pts_v10 d (cV LL) (jV LL) (7 : Fin 9) (0 : Fin 2) (2 : Fin 8) _ (OUTc m d)).symm (congrArg₂ (fun a b : sProp 𝕄 => iprop(a ∗ b)) (pts_v10 d (cV LL) (jV LL) (8 : Fin 9) (1 : Fin 2) (0 : Fin 8) _ (OUTc m d)).symm (congrArg₂ (fun a b : sProp 𝕄 => iprop(a ∗ b)) (pts_v10 d (cV LL) (jV LL) (7 : Fin 9) (1 : Fin 2) (3 : Fin 8) _ (OUTc m d)).symm (congrArg₂ (fun a b : sProp 𝕄 => iprop(a ∗ b)) (pts_v10 d (cV LL) (jV LL) (8 : Fin 9) (1 : Fin 2) (5 : Fin 8) _ (OUTc m d)).symm (pts_v10 d (cV LL) (jV LL) (2 : Fin 9) (1 : Fin 2) (1 : Fin 8) _ (OUTc m d)).symm))))

/-! ## What each output slice has to hold is what its source slice holds -/

theorem val0_0 (m : (ℓ : Loc nD τ sig) → Buf (Elt F) ℓ) (d : Dev nD) :
    (SRC0).view.read (Elt F) (V7c m d) = (OUT0_0).view.read (Elt F) (OUTc m d) := by
  funext y
  obtain ⟨t, q, rfl⟩ : ∃ (t q : Fin 128), y = ix2 t q := ⟨y 0, y 1, eq_ix2 y⟩
  refine (read_v7 (6 : Fin 17) _ _ t q).trans ((?_ : _ = _).trans (read_v10 (7 : Fin 9) (0 : Fin 2) (2 : Fin 8) _ _ t q).symm)
  unfold V7c OUTc
  rw [Cert.Layout.visV_apply]
  refine Eq.trans ?_ (outV_at _ _ _ _ _ _ _ t _ q (show 8 * 0 + 2 < 14 by decide)).symm
  rfl
theorem val0_1 (m : (ℓ : Loc nD τ sig) → Buf (Elt F) ℓ) (d : Dev nD) :
    (SRC0).view.read (Elt F) (V7c m d) = (OUT0_1).view.read (Elt F) (OUTc m d) := by
  funext y
  obtain ⟨t, q, rfl⟩ : ∃ (t q : Fin 128), y = ix2 t q := ⟨y 0, y 1, eq_ix2 y⟩
  refine (read_v7 (6 : Fin 17) _ _ t q).trans ((?_ : _ = _).trans (read_v10 (8 : Fin 9) (1 : Fin 2) (0 : Fin 8) _ _ t q).symm)
  unfold V7c OUTc
  rw [Cert.Layout.visV_apply]
  refine Eq.trans ?_ (outV_at _ _ _ _ _ _ _ t _ q (show 8 * 1 + 0 < 14 by decide)).symm
  rfl
theorem val0_2 (m : (ℓ : Loc nD τ sig) → Buf (Elt F) ℓ) (d : Dev nD) :
    (SRC0).view.read (Elt F) (V7c m d) = (OUT0_2).view.read (Elt F) (OUTc m d) := by
  funext y
  obtain ⟨t, q, rfl⟩ : ∃ (t q : Fin 128), y = ix2 t q := ⟨y 0, y 1, eq_ix2 y⟩
  refine (read_v7 (6 : Fin 17) _ _ t q).trans ((?_ : _ = _).trans (read_v10 (7 : Fin 9) (1 : Fin 2) (3 : Fin 8) _ _ t q).symm)
  unfold V7c OUTc
  rw [Cert.Layout.visV_apply]
  refine Eq.trans ?_ (outV_at _ _ _ _ _ _ _ t _ q (show 8 * 1 + 3 < 14 by decide)).symm
  rfl
theorem val0_3 (m : (ℓ : Loc nD τ sig) → Buf (Elt F) ℓ) (d : Dev nD) :
    (SRC0).view.read (Elt F) (V7c m d) = (OUT0_3).view.read (Elt F) (OUTc m d) := by
  funext y
  obtain ⟨t, q, rfl⟩ : ∃ (t q : Fin 128), y = ix2 t q := ⟨y 0, y 1, eq_ix2 y⟩
  refine (read_v7 (6 : Fin 17) _ _ t q).trans ((?_ : _ = _).trans (read_v10 (8 : Fin 9) (1 : Fin 2) (5 : Fin 8) _ _ t q).symm)
  unfold V7c OUTc
  rw [Cert.Layout.visV_apply]
  refine Eq.trans ?_ (outV_at _ _ _ _ _ _ _ t _ q (show 8 * 1 + 5 < 14 by decide)).symm
  rfl
theorem val1_0 (m : (ℓ : Loc nD τ sig) → Buf (Elt F) ℓ) (d : Dev nD) :
    (SRC1).view.read (Elt F) (V9c m d) = (OUT1_0).view.read (Elt F) (OUTc m d) := by
  funext y
  obtain ⟨t, q, rfl⟩ : ∃ (t q : Fin 128), y = ix2 t q := ⟨y 0, y 1, eq_ix2 y⟩
  refine (read_v9 (9 : Fin 14) _ _ t q).trans ((?_ : _ = _).trans (read_v10 (2 : Fin 9) (1 : Fin 2) (1 : Fin 8) _ _ t q).symm)
  unfold V9c OUTc
  rw [Cert.Layout.lenV_apply]
  refine Eq.trans ?_ (outV_at _ _ _ _ _ _ _ t _ q (show 8 * 1 + 1 < 14 by decide)).symm
  rfl

/-! ## The run -/

open Lean Elab Tactic Meta in
/-- Unfold the names the symbolic run gave to the values its copies carry. -/
elab "unfold_carried" : tactic => do
  for _ in [0:6] do
    let g ← getMainGoal
    let t ← instantiateMVars (← g.getType)
    if (t.getUsedConstants.any fun n => n.components.any (· == `sl)) then
      let t' ← deltaExpand t (fun n => n.components.any (· == `sl))
      let g' ← g.change t' (checkDefEq := false)
      replaceMainGoal [g']

variable [FloatOps F] [∀ e, Nonempty (Elt F e)]

theorem run (m : (ℓ : Loc nD τ sig) → Buf (Elt F) ℓ) (d : Dev nD) (O : CellTallies nD τ sig (HIx 1)) (W : Waits sig (HIx 1)) (hO : ∀ g, O g none = 0) :
    (iprop(levAts (K (F := F)).L (K (F := F)).lev ∗ tileG m d (5 : Fin 32)
        ∗ scopedBufs (TH d) ∗ scopedSems0 (TH d) ∗ owes (TH d) O W) : sProp 𝕄)
      ⊢ wp frame (wpE (defs₀ (F := F)) 𝒱₀ (TH d) none) Set.univ
          (cc0_run LL (Memref.whole main_v2_scv) (Memref.isWhole_whole _) (Memref.whole main_v7_scv) (Memref.isWhole_whole _) (Memref.whole main_v5_scv) (Memref.isWhole_whole _) (Memref.whole main_v9_scv) (Memref.isWhole_whole _) (Memref.whole main_v10_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8)
          fun _ => iprop(tileT m d (5 : Fin 32) ∗ scopedBufs (TH d) ∗ scopedSems0 (TH d)
            ∗ ∃ W', ⌜∀ p ∈ W', p ∈ W ∨ p.2 = none⌝ ∗ owes (TH d) O W') := by
  rw [(K (F := F)).scopedBufs_V facts d (cV LL) (jV LL), SparseCore.Cfg.scopedSems0_V (Val := Elt F) d (cV LL) (jV LL), ownSems0_V, ownBufs_V]
  unfold tileG tileT
  iintro ⟨#Hlv, ⟨-, HF7, -, HF9, HF10⟩, ⟨⟨%fb0, Hb0⟩, ⟨%fb1, Hb1⟩, ⟨%fb2, Hb2⟩, Hbufs⟩, ⟨Hs3, Hs4, Hs5, Hs6, Hs7, Hs8, Hsems⟩, HO⟩
  ihave HF7' := (Entails.of_eq (open7 m d)) $$ HF7
  icases HF7' with HS0
  ihave HF9' := (Entails.of_eq (open9 m d)) $$ HF9
  icases HF9' with HS1
  ihave HF10' := (Entails.of_eq (open10 m d)) $$ HF10
  icases HF10' with ⟨HO0_0, HO0_1, HO0_2, HO0_3, HO1_0⟩
  ihave Hmw := ((K (F := F)).mayWaits_none (thr := TH d) hO) $$ Hlv
  ihave Hb0' := (Entails.of_eq (pts_b0 d (cV LL) (jV LL) _).symm) $$ Hb0
  ihave Hb1' := (Entails.of_eq (pts_b1 d (cV LL) (jV LL) _).symm) $$ Hb1
  ihave Hb2' := (Entails.of_eq (pts_b2 d (cV LL) (jV LL) _).symm) $$ Hb2
  have _plan : Transfers.BatchOf (TH d) (SemLoc.dma (sig := sig) cc0_scratch6.sem) 4 (windows := true) := trivial
  sl_unfold [cc0_run]
  sl_exec_parts (disch := decide)
  sl_step
  isplitl [HS0 HS1 HO0_0 HO0_1 HO0_2 HO0_3 HO1_0]
  · skip
    isplitr
    · rw [show t2 (5 : Fin 32) = ∅ from rfl, bigSep_empty]; iempintro
    isplitl [HS0]
    · iapply (Entails.of_eq (open7 m d).symm)
      iexact HS0
    isplitr
    · rw [show t5 (5 : Fin 32) = ∅ from rfl, bigSep_empty]; iempintro
    isplitl [HS1]
    · iapply (Entails.of_eq (open9 m d).symm)
      iexact HS1
    · iapply (Entails.of_eq (close10 m d).symm)
      isplitl [HO0_0]
      · iapply (out_post_ent (TH d) (OUT0_0) _ (OUTc m d) _ ?hv0_0) $$ HO0_0
        case hv0_0 => unfold_carried; simp only [ReadAs.apply_same, View.read_write_univ]; exact val0_0 m d
      isplitl [HO0_1]
      · iapply (out_post_ent (TH d) (OUT0_1) _ (OUTc m d) _ ?hv0_1) $$ HO0_1
        case hv0_1 => unfold_carried; simp only [ReadAs.apply_same, View.read_write_univ]; exact val0_1 m d
      isplitl [HO0_2]
      · iapply (out_post_ent (TH d) (OUT0_2) _ (OUTc m d) _ ?hv0_2) $$ HO0_2
        case hv0_2 => unfold_carried; simp only [ReadAs.apply_same, View.read_write_univ]; exact val0_2 m d
      isplitl [HO0_3]
      · iapply (out_post_ent (TH d) (OUT0_3) _ (OUTc m d) _ ?hv0_3) $$ HO0_3
        case hv0_3 => unfold_carried; simp only [ReadAs.apply_same, View.read_write_univ]; exact val0_3 m d
      iapply (out_post_ent (TH d) (OUT1_0) _ (OUTc m d) _ ?hv1_0) $$ HO1_0
      case hv1_0 => unfold_carried; simp only [ReadAs.apply_same, View.read_write_univ]; exact val1_0 m d

  isplitl [Hb0' Hb1' Hb2' Hbufs]
  · isplitl [Hb0']
    · iexists _; iapply (Entails.of_eq (pts_b0 d (cV LL) (jV LL) _)); iexact Hb0'
    isplitl [Hb1']
    · iexists _; iapply (Entails.of_eq (pts_b1 d (cV LL) (jV LL) _)); iexact Hb1'
    isplitl [Hb2']
    · iexists _; iapply (Entails.of_eq (pts_b2 d (cV LL) (jV LL) _)); iexact Hb2'
    iexact Hbufs
  isplitl [Hs3 Hs4 Hs5 Hs6 Hs7 Hs8 Hsems]
  · isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    iexact Hsems
  iexists _; isplitr
  rotate_left
  · iexact HO
  · ipureintro; intro p hp
    simp only [Finset.mem_insert] at hp
    rcases hp with rfl | rfl | rfl | rfl | rfl | rfl | rfl | hp <;> first | exact .inr rfl | exact .inl hp

end Cert.Proof.KI.Tile5

end
-- ==== Proof.KITile6.lean ====
/-
  Tile 6 of the kernel (subcore 3 of core 0): one slice in (pose11.0), 3 out; one slice in (pose15.1), 1 out.
  Its whole body is run: every copy it does not own is skipped by the comparison of its number with the copy's owner;
  each incoming copy fills a staging buffer, each outgoing copy carries that buffer into one slice of the output array,
  and what each output slice then holds is the source slice the specification asks for there.
-/
import proofs.«210185_g18468359372994_cont_8to1_1390_15_alg».proof.Proof.KIRead

set_option maxHeartbeats 4000000
set_option quotPrecheck false

noncomputable section

namespace Cert.Proof.KI.Tile6

open Cert.KernelIdeal Cert.KernelIdeal.Gen
open Cert.Proof.KI
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
theorem cLt : 0 < grid0.bound 0 := by decide
theorem sLt : 3 < grid0.bound 1 := by decide
local notation "LL" => (coordsV (⟨0, cLt⟩ : Fin (grid0.bound 0)) (⟨3, sLt⟩ : Fin (grid0.bound 1)))
local notation "TH" d => V d (cV LL) (jV LL)
local notation "SRC0" => (((Memref.whole main_v2_scv).slice (Rect.unit (s := S17x128x2x128) ![11, 0, 0, 0] S1x128x1x128.size inb_S17x128x2x128_S1x128x1x128_11_0_0_0) (fun _ => rfl)).squeeze S128x128 squeezes_S1x128x1x128_S128x128 : Memref sig .scVector .hbm S128x128 .f32)
local notation "OUT0_0" => (((Memref.whole main_v10_scv).slice (Rect.unit (s := S9x2x128x8x128) ![3, 0, 0, 4, 0] S1x1x128x1x128.size inb_S9x2x128x8x128_S1x1x128x1x128_3_0_0_4_0) (fun _ => rfl)).squeeze S128x128 squeezes_S1x1x128x1x128_S128x128 : Memref sig .scVector .hbm S128x128 .f32)
local notation "OUT0_1" => (((Memref.whole main_v10_scv).slice (Rect.unit (s := S9x2x128x8x128) ![3, 1, 0, 1, 0] S1x1x128x1x128.size inb_S9x2x128x8x128_S1x1x128x1x128_3_1_0_1_0) (fun _ => rfl)).squeeze S128x128 squeezes_S1x1x128x1x128_S128x128 : Memref sig .scVector .hbm S128x128 .f32)
local notation "OUT0_2" => (((Memref.whole main_v10_scv).slice (Rect.unit (s := S9x2x128x8x128) ![5, 1, 0, 2, 0] S1x1x128x1x128.size inb_S9x2x128x8x128_S1x1x128x1x128_5_1_0_2_0) (fun _ => rfl)).squeeze S128x128 squeezes_S1x1x128x1x128_S128x128 : Memref sig .scVector .hbm S128x128 .f32)
local notation "SRC1" => (((Memref.whole main_v2_scv).slice (Rect.unit (s := S17x128x2x128) ![15, 0, 1, 0] S1x128x1x128.size inb_S17x128x2x128_S1x128x1x128_15_0_1_0) (fun _ => rfl)).squeeze S128x128 squeezes_S1x128x1x128_S128x128 : Memref sig .scVector .hbm S128x128 .f32)
local notation "OUT1_0" => (((Memref.whole main_v10_scv).slice (Rect.unit (s := S9x2x128x8x128) ![6, 0, 0, 5, 0] S1x1x128x1x128.size inb_S9x2x128x8x128_S1x1x128x1x128_6_0_0_5_0) (fun _ => rfl)).squeeze S128x128 squeezes_S1x1x128x1x128_S128x128 : Memref sig .scVector .hbm S128x128 .f32)

/-! ## The tile's slices, as its memrefs name them -/

theorem open2 (m : (ℓ : Loc nD τ sig) → Buf (Elt F) ℓ) (d : Dev nD) :
    (bigSep (t2 (6 : Fin 32)) (A2 m d) : sProp 𝕄) = iprop(((SRC0).view.loc (TH d) ↦[(SRC0).view.set]{fullShare} V2c m d) ∗ ((SRC1).view.loc (TH d) ↦[(SRC1).view.set]{fullShare} V2c m d)) := by
  show bigSep ({((11 : Fin 17), (0 : Fin 2)), ((15 : Fin 17), (1 : Fin 2))} : Finset (Fin 17 × Fin 2)) (A2 m d) = _
  rw [SparseCore.bigSep_insert' (by decide), bigSep_singleton]
  exact (congrArg₂ (fun a b : sProp 𝕄 => iprop(a ∗ b)) (pts_v2 d (cV LL) (jV LL) (11 : Fin 17) (0 : Fin 2) _ (V2c m d)).symm (pts_v2 d (cV LL) (jV LL) (15 : Fin 17) (1 : Fin 2) _ (V2c m d)).symm)
theorem open10 (m : (ℓ : Loc nD τ sig) → Buf (Elt F) ℓ) (d : Dev nD) :
    (bigSep (t10 (6 : Fin 32)) (B0 m d) : sProp 𝕄) = iprop(((OUT0_0).view.loc (TH d) ↦[(OUT0_0).view.set]{fullShare} m (v10L d)) ∗ ((OUT0_1).view.loc (TH d) ↦[(OUT0_1).view.set]{fullShare} m (v10L d)) ∗ ((OUT0_2).view.loc (TH d) ↦[(OUT0_2).view.set]{fullShare} m (v10L d)) ∗ ((OUT1_0).view.loc (TH d) ↦[(OUT1_0).view.set]{fullShare} m (v10L d))) := by
  show bigSep ({((3 : Fin 9), (0 : Fin 2), (4 : Fin 8)), ((3 : Fin 9), (1 : Fin 2), (1 : Fin 8)), ((5 : Fin 9), (1 : Fin 2), (2 : Fin 8)), ((6 : Fin 9), (0 : Fin 2), (5 : Fin 8))} : Finset (Fin 9 × Fin 2 × Fin 8)) (B0 m d) = _
  rw [SparseCore.bigSep_insert' (by decide), SparseCore.bigSep_insert' (by decide), SparseCore.bigSep_insert' (by decide), bigSep_singleton]
  exact (congrArg₂ (fun a b : sProp 𝕄 => iprop(a ∗ b)) (pts_v10 d (cV LL) (jV LL) (3 : Fin 9) (0 : Fin 2) (4 : Fin 8) _ (m (v10L d))).symm (congrArg₂ (fun a b : sProp 𝕄 => iprop(a ∗ b)) (pts_v10 d (cV LL) (jV LL) (3 : Fin 9) (1 : Fin 2) (1 : Fin 8) _ (m (v10L d))).symm (congrArg₂ (fun a b : sProp 𝕄 => iprop(a ∗ b)) (pts_v10 d (cV LL) (jV LL) (5 : Fin 9) (1 : Fin 2) (2 : Fin 8) _ (m (v10L d))).symm (pts_v10 d (cV LL) (jV LL) (6 : Fin 9) (0 : Fin 2) (5 : Fin 8) _ (m (v10L d))).symm)))
theorem close10 (m : (ℓ : Loc nD τ sig) → Buf (Elt F) ℓ) (d : Dev nD) :
    (bigSep (t10 (6 : Fin 32)) (B1 m d) : sProp 𝕄) = iprop(((OUT0_0).view.loc (TH d) ↦[(OUT0_0).view.set]{fullShare} OUTc m d) ∗ ((OUT0_1).view.loc (TH d) ↦[(OUT0_1).view.set]{fullShare} OUTc m d) ∗ ((OUT0_2).view.loc (TH d) ↦[(OUT0_2).view.set]{fullShare} OUTc m d) ∗ ((OUT1_0).view.loc (TH d) ↦[(OUT1_0).view.set]{fullShare} OUTc m d)) := by
  show bigSep ({((3 : Fin 9), (0 : Fin 2), (4 : Fin 8)), ((3 : Fin 9), (1 : Fin 2), (1 : Fin 8)), ((5 : Fin 9), (1 : Fin 2), (2 : Fin 8)), ((6 : Fin 9), (0 : Fin 2), (5 : Fin 8))} : Finset (Fin 9 × Fin 2 × Fin 8)) (B1 m d) = _
  rw [SparseCore.bigSep_insert' (by decide), SparseCore.bigSep_insert' (by decide), SparseCore.bigSep_insert' (by decide), bigSep_singleton]
  exact (congrArg₂ (fun a b : sProp 𝕄 => iprop(a ∗ b)) (pts_v10 d (cV LL) (jV LL) (3 : Fin 9) (0 : Fin 2) (4 : Fin 8) _ (OUTc m d)).symm (congrArg₂ (fun a b : sProp 𝕄 => iprop(a ∗ b)) (pts_v10 d (cV LL) (jV LL) (3 : Fin 9) (1 : Fin 2) (1 : Fin 8) _ (OUTc m d)).symm (congrArg₂ (fun a b : sProp 𝕄 => iprop(a ∗ b)) (pts_v10 d (cV LL) (jV LL) (5 : Fin 9) (1 : Fin 2) (2 : Fin 8) _ (OUTc m d)).symm (pts_v10 d (cV LL) (jV LL) (6 : Fin 9) (0 : Fin 2) (5 : Fin 8) _ (OUTc m d)).symm)))

/-! ## What each output slice has to hold is what its source slice holds -/

theorem val0_0 (m : (ℓ : Loc nD τ sig) → Buf (Elt F) ℓ) (d : Dev nD) :
    (SRC0).view.read (Elt F) (V2c m d) = (OUT0_0).view.read (Elt F) (OUTc m d) := by
  funext y
  obtain ⟨t, q, rfl⟩ : ∃ (t q : Fin 128), y = ix2 t q := ⟨y 0, y 1, eq_ix2 y⟩
  refine (read_v2 (11 : Fin 17) (0 : Fin 2) _ _ t q).trans ((?_ : _ = _).trans (read_v10 (3 : Fin 9) (0 : Fin 2) (4 : Fin 8) _ _ t q).symm)
  unfold V2c OUTc
  rw [Cert.Layout.poseV_apply]
  refine Eq.trans ?_ (outV_at _ _ _ _ _ _ _ t _ q (show 8 * 0 + 4 < 14 by decide)).symm
  rfl
theorem val0_1 (m : (ℓ : Loc nD τ sig) → Buf (Elt F) ℓ) (d : Dev nD) :
    (SRC0).view.read (Elt F) (V2c m d) = (OUT0_1).view.read (Elt F) (OUTc m d) := by
  funext y
  obtain ⟨t, q, rfl⟩ : ∃ (t q : Fin 128), y = ix2 t q := ⟨y 0, y 1, eq_ix2 y⟩
  refine (read_v2 (11 : Fin 17) (0 : Fin 2) _ _ t q).trans ((?_ : _ = _).trans (read_v10 (3 : Fin 9) (1 : Fin 2) (1 : Fin 8) _ _ t q).symm)
  unfold V2c OUTc
  rw [Cert.Layout.poseV_apply]
  refine Eq.trans ?_ (outV_at _ _ _ _ _ _ _ t _ q (show 8 * 1 + 1 < 14 by decide)).symm
  rfl
theorem val0_2 (m : (ℓ : Loc nD τ sig) → Buf (Elt F) ℓ) (d : Dev nD) :
    (SRC0).view.read (Elt F) (V2c m d) = (OUT0_2).view.read (Elt F) (OUTc m d) := by
  funext y
  obtain ⟨t, q, rfl⟩ : ∃ (t q : Fin 128), y = ix2 t q := ⟨y 0, y 1, eq_ix2 y⟩
  refine (read_v2 (11 : Fin 17) (0 : Fin 2) _ _ t q).trans ((?_ : _ = _).trans (read_v10 (5 : Fin 9) (1 : Fin 2) (2 : Fin 8) _ _ t q).symm)
  unfold V2c OUTc
  rw [Cert.Layout.poseV_apply]
  refine Eq.trans ?_ (outV_at _ _ _ _ _ _ _ t _ q (show 8 * 1 + 2 < 14 by decide)).symm
  rfl
theorem val1_0 (m : (ℓ : Loc nD τ sig) → Buf (Elt F) ℓ) (d : Dev nD) :
    (SRC1).view.read (Elt F) (V2c m d) = (OUT1_0).view.read (Elt F) (OUTc m d) := by
  funext y
  obtain ⟨t, q, rfl⟩ : ∃ (t q : Fin 128), y = ix2 t q := ⟨y 0, y 1, eq_ix2 y⟩
  refine (read_v2 (15 : Fin 17) (1 : Fin 2) _ _ t q).trans ((?_ : _ = _).trans (read_v10 (6 : Fin 9) (0 : Fin 2) (5 : Fin 8) _ _ t q).symm)
  unfold V2c OUTc
  rw [Cert.Layout.poseV_apply]
  refine Eq.trans ?_ (outV_at _ _ _ _ _ _ _ t _ q (show 8 * 0 + 5 < 14 by decide)).symm
  rfl

/-! ## The run -/

open Lean Elab Tactic Meta in
/-- Unfold the names the symbolic run gave to the values its copies carry. -/
elab "unfold_carried" : tactic => do
  for _ in [0:6] do
    let g ← getMainGoal
    let t ← instantiateMVars (← g.getType)
    if (t.getUsedConstants.any fun n => n.components.any (· == `sl)) then
      let t' ← deltaExpand t (fun n => n.components.any (· == `sl))
      let g' ← g.change t' (checkDefEq := false)
      replaceMainGoal [g']

variable [FloatOps F] [∀ e, Nonempty (Elt F e)]

theorem run (m : (ℓ : Loc nD τ sig) → Buf (Elt F) ℓ) (d : Dev nD) (O : CellTallies nD τ sig (HIx 1)) (W : Waits sig (HIx 1)) (hO : ∀ g, O g none = 0) :
    (iprop(levAts (K (F := F)).L (K (F := F)).lev ∗ tileG m d (6 : Fin 32)
        ∗ scopedBufs (TH d) ∗ scopedSems0 (TH d) ∗ owes (TH d) O W) : sProp 𝕄)
      ⊢ wp frame (wpE (defs₀ (F := F)) 𝒱₀ (TH d) none) Set.univ
          (cc0_run LL (Memref.whole main_v2_scv) (Memref.isWhole_whole _) (Memref.whole main_v7_scv) (Memref.isWhole_whole _) (Memref.whole main_v5_scv) (Memref.isWhole_whole _) (Memref.whole main_v9_scv) (Memref.isWhole_whole _) (Memref.whole main_v10_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8)
          fun _ => iprop(tileT m d (6 : Fin 32) ∗ scopedBufs (TH d) ∗ scopedSems0 (TH d)
            ∗ ∃ W', ⌜∀ p ∈ W', p ∈ W ∨ p.2 = none⌝ ∗ owes (TH d) O W') := by
  rw [(K (F := F)).scopedBufs_V facts d (cV LL) (jV LL), SparseCore.Cfg.scopedSems0_V (Val := Elt F) d (cV LL) (jV LL), ownSems0_V, ownBufs_V]
  unfold tileG tileT
  iintro ⟨#Hlv, ⟨HF2, -, -, -, HF10⟩, ⟨⟨%fb0, Hb0⟩, ⟨%fb1, Hb1⟩, ⟨%fb2, Hb2⟩, Hbufs⟩, ⟨Hs3, Hs4, Hs5, Hs6, Hs7, Hs8, Hsems⟩, HO⟩
  ihave HF2' := (Entails.of_eq (open2 m d)) $$ HF2
  icases HF2' with ⟨HS0, HS1⟩
  ihave HF10' := (Entails.of_eq (open10 m d)) $$ HF10
  icases HF10' with ⟨HO0_0, HO0_1, HO0_2, HO1_0⟩
  ihave Hmw := ((K (F := F)).mayWaits_none (thr := TH d) hO) $$ Hlv
  ihave Hb0' := (Entails.of_eq (pts_b0 d (cV LL) (jV LL) _).symm) $$ Hb0
  ihave Hb1' := (Entails.of_eq (pts_b1 d (cV LL) (jV LL) _).symm) $$ Hb1
  ihave Hb2' := (Entails.of_eq (pts_b2 d (cV LL) (jV LL) _).symm) $$ Hb2
  have _plan : Transfers.BatchOf (TH d) (SemLoc.dma (sig := sig) cc0_scratch6.sem) 3 (windows := true) := trivial
  sl_unfold [cc0_run]
  sl_exec_parts (disch := decide)
  sl_step
  isplitl [HS0 HS1 HO0_0 HO0_1 HO0_2 HO1_0]
  · skip
    isplitl [HS0 HS1]
    · iapply (Entails.of_eq (open2 m d).symm)
      isplitl [HS0]; · iexact HS0
      iexact HS1
    isplitr
    · rw [show t7 (6 : Fin 32) = ∅ from rfl, bigSep_empty]; iempintro
    isplitr
    · rw [show t5 (6 : Fin 32) = ∅ from rfl, bigSep_empty]; iempintro
    isplitr
    · rw [show t9 (6 : Fin 32) = ∅ from rfl, bigSep_empty]; iempintro
    · iapply (Entails.of_eq (close10 m d).symm)
      isplitl [HO0_0]
      · iapply (out_post_ent (TH d) (OUT0_0) _ (OUTc m d) _ ?hv0_0) $$ HO0_0
        case hv0_0 => unfold_carried; simp only [ReadAs.apply_same, View.read_write_univ]; exact val0_0 m d
      isplitl [HO0_1]
      · iapply (out_post_ent (TH d) (OUT0_1) _ (OUTc m d) _ ?hv0_1) $$ HO0_1
        case hv0_1 => unfold_carried; simp only [ReadAs.apply_same, View.read_write_univ]; exact val0_1 m d
      isplitl [HO0_2]
      · iapply (out_post_ent (TH d) (OUT0_2) _ (OUTc m d) _ ?hv0_2) $$ HO0_2
        case hv0_2 => unfold_carried; simp only [ReadAs.apply_same, View.read_write_univ]; exact val0_2 m d
      iapply (out_post_ent (TH d) (OUT1_0) _ (OUTc m d) _ ?hv1_0) $$ HO1_0
      case hv1_0 => unfold_carried; simp only [ReadAs.apply_same, View.read_write_univ]; exact val1_0 m d

  isplitl [Hb0' Hb1' Hb2' Hbufs]
  · isplitl [Hb0']
    · iexists _; iapply (Entails.of_eq (pts_b0 d (cV LL) (jV LL) _)); iexact Hb0'
    isplitl [Hb1']
    · iexists _; iapply (Entails.of_eq (pts_b1 d (cV LL) (jV LL) _)); iexact Hb1'
    isplitl [Hb2']
    · iexists _; iapply (Entails.of_eq (pts_b2 d (cV LL) (jV LL) _)); iexact Hb2'
    iexact Hbufs
  isplitl [Hs3 Hs4 Hs5 Hs6 Hs7 Hs8 Hsems]
  · isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    iexact Hsems
  iexists _; isplitr
  rotate_left
  · iexact HO
  · ipureintro; intro p hp
    simp only [Finset.mem_insert] at hp
    rcases hp with rfl | rfl | rfl | rfl | rfl | rfl | hp <;> first | exact .inr rfl | exact .inl hp

end Cert.Proof.KI.Tile6

end
-- ==== Proof.KITile7.lean ====
/-
  Tile 7 of the kernel (subcore 3 of core 1): one slice in (pose11.1), 3 out; one slice in (vis15), 1 out.
  Its whole body is run: every copy it does not own is skipped by the comparison of its number with the copy's owner;
  each incoming copy fills a staging buffer, each outgoing copy carries that buffer into one slice of the output array,
  and what each output slice then holds is the source slice the specification asks for there.
-/
import proofs.«210185_g18468359372994_cont_8to1_1390_15_alg».proof.Proof.KIRead

set_option maxHeartbeats 4000000
set_option quotPrecheck false

noncomputable section

namespace Cert.Proof.KI.Tile7

open Cert.KernelIdeal Cert.KernelIdeal.Gen
open Cert.Proof.KI
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
theorem cLt : 1 < grid0.bound 0 := by decide
theorem sLt : 3 < grid0.bound 1 := by decide
local notation "LL" => (coordsV (⟨1, cLt⟩ : Fin (grid0.bound 0)) (⟨3, sLt⟩ : Fin (grid0.bound 1)))
local notation "TH" d => V d (cV LL) (jV LL)
local notation "SRC0" => (((Memref.whole main_v2_scv).slice (Rect.unit (s := S17x128x2x128) ![11, 0, 1, 0] S1x128x1x128.size inb_S17x128x2x128_S1x128x1x128_11_0_1_0) (fun _ => rfl)).squeeze S128x128 squeezes_S1x128x1x128_S128x128 : Memref sig .scVector .hbm S128x128 .f32)
local notation "OUT0_0" => (((Memref.whole main_v10_scv).slice (Rect.unit (s := S9x2x128x8x128) ![4, 0, 0, 4, 0] S1x1x128x1x128.size inb_S9x2x128x8x128_S1x1x128x1x128_4_0_0_4_0) (fun _ => rfl)).squeeze S128x128 squeezes_S1x1x128x1x128_S128x128 : Memref sig .scVector .hbm S128x128 .f32)
local notation "OUT0_1" => (((Memref.whole main_v10_scv).slice (Rect.unit (s := S9x2x128x8x128) ![4, 1, 0, 1, 0] S1x1x128x1x128.size inb_S9x2x128x8x128_S1x1x128x1x128_4_1_0_1_0) (fun _ => rfl)).squeeze S128x128 squeezes_S1x1x128x1x128_S128x128 : Memref sig .scVector .hbm S128x128 .f32)
local notation "OUT0_2" => (((Memref.whole main_v10_scv).slice (Rect.unit (s := S9x2x128x8x128) ![6, 1, 0, 2, 0] S1x1x128x1x128.size inb_S9x2x128x8x128_S1x1x128x1x128_6_1_0_2_0) (fun _ => rfl)).squeeze S128x128 squeezes_S1x1x128x1x128_S128x128 : Memref sig .scVector .hbm S128x128 .f32)
local notation "SRC1" => (((Memref.whole main_v7_scv).slice (Rect.unit (s := S17x128x128) ![15, 0, 0] S1x128x128.size inb_S17x128x128_S1x128x128_15_0_0) (fun _ => rfl)).squeeze S128x128 squeezes_S1x128x128_S128x128 : Memref sig .scVector .hbm S128x128 .f32)
local notation "OUT1_0" => (((Memref.whole main_v10_scv).slice (Rect.unit (s := S9x2x128x8x128) ![8, 0, 0, 5, 0] S1x1x128x1x128.size inb_S9x2x128x8x128_S1x1x128x1x128_8_0_0_5_0) (fun _ => rfl)).squeeze S128x128 squeezes_S1x1x128x1x128_S128x128 : Memref sig .scVector .hbm S128x128 .f32)

/-! ## The tile's slices, as its memrefs name them -/

theorem open2 (m : (ℓ : Loc nD τ sig) → Buf (Elt F) ℓ) (d : Dev nD) :
    (bigSep (t2 (7 : Fin 32)) (A2 m d) : sProp 𝕄) = iprop(((SRC0).view.loc (TH d) ↦[(SRC0).view.set]{fullShare} V2c m d)) := by
  show bigSep ({((11 : Fin 17), (1 : Fin 2))} : Finset (Fin 17 × Fin 2)) (A2 m d) = _
  rw [bigSep_singleton]
  exact (pts_v2 d (cV LL) (jV LL) (11 : Fin 17) (1 : Fin 2) _ (V2c m d)).symm
theorem open7 (m : (ℓ : Loc nD τ sig) → Buf (Elt F) ℓ) (d : Dev nD) :
    (bigSep (t7 (7 : Fin 32)) (A7 m d) : sProp 𝕄) = iprop(((SRC1).view.loc (TH d) ↦[(SRC1).view.set]{fullShare} V7c m d)) := by
  show bigSep ({(15 : Fin 17)} : Finset (Fin 17)) (A7 m d) = _
  rw [bigSep_singleton]
  exact (pts_v7 d (cV LL) (jV LL) (15 : Fin 17) _ (V7c m d)).symm
theorem open10 (m : (ℓ : Loc nD τ sig) → Buf (Elt F) ℓ) (d : Dev nD) :
    (bigSep (t10 (7 : Fin 32)) (B0 m d) : sProp 𝕄) = iprop(((OUT0_0).view.loc (TH d) ↦[(OUT0_0).view.set]{fullShare} m (v10L d)) ∗ ((OUT0_1).view.loc (TH d) ↦[(OUT0_1).view.set]{fullShare} m (v10L d)) ∗ ((OUT0_2).view.loc (TH d) ↦[(OUT0_2).view.set]{fullShare} m (v10L d)) ∗ ((OUT1_0).view.loc (TH d) ↦[(OUT1_0).view.set]{fullShare} m (v10L d))) := by
  show bigSep ({((4 : Fin 9), (0 : Fin 2), (4 : Fin 8)), ((4 : Fin 9), (1 : Fin 2), (1 : Fin 8)), ((6 : Fin 9), (1 : Fin 2), (2 : Fin 8)), ((8 : Fin 9), (0 : Fin 2), (5 : Fin 8))} : Finset (Fin 9 × Fin 2 × Fin 8)) (B0 m d) = _
  rw [SparseCore.bigSep_insert' (by decide), SparseCore.bigSep_insert' (by decide), SparseCore.bigSep_insert' (by decide), bigSep_singleton]
  exact (congrArg₂ (fun a b : sProp 𝕄 => iprop(a ∗ b)) (pts_v10 d (cV LL) (jV LL) (4 : Fin 9) (0 : Fin 2) (4 : Fin 8) _ (m (v10L d))).symm (congrArg₂ (fun a b : sProp 𝕄 => iprop(a ∗ b)) (pts_v10 d (cV LL) (jV LL) (4 : Fin 9) (1 : Fin 2) (1 : Fin 8) _ (m (v10L d))).symm (congrArg₂ (fun a b : sProp 𝕄 => iprop(a ∗ b)) (pts_v10 d (cV LL) (jV LL) (6 : Fin 9) (1 : Fin 2) (2 : Fin 8) _ (m (v10L d))).symm (pts_v10 d (cV LL) (jV LL) (8 : Fin 9) (0 : Fin 2) (5 : Fin 8) _ (m (v10L d))).symm)))
theorem close10 (m : (ℓ : Loc nD τ sig) → Buf (Elt F) ℓ) (d : Dev nD) :
    (bigSep (t10 (7 : Fin 32)) (B1 m d) : sProp 𝕄) = iprop(((OUT0_0).view.loc (TH d) ↦[(OUT0_0).view.set]{fullShare} OUTc m d) ∗ ((OUT0_1).view.loc (TH d) ↦[(OUT0_1).view.set]{fullShare} OUTc m d) ∗ ((OUT0_2).view.loc (TH d) ↦[(OUT0_2).view.set]{fullShare} OUTc m d) ∗ ((OUT1_0).view.loc (TH d) ↦[(OUT1_0).view.set]{fullShare} OUTc m d)) := by
  show bigSep ({((4 : Fin 9), (0 : Fin 2), (4 : Fin 8)), ((4 : Fin 9), (1 : Fin 2), (1 : Fin 8)), ((6 : Fin 9), (1 : Fin 2), (2 : Fin 8)), ((8 : Fin 9), (0 : Fin 2), (5 : Fin 8))} : Finset (Fin 9 × Fin 2 × Fin 8)) (B1 m d) = _
  rw [SparseCore.bigSep_insert' (by decide), SparseCore.bigSep_insert' (by decide), SparseCore.bigSep_insert' (by decide), bigSep_singleton]
  exact (congrArg₂ (fun a b : sProp 𝕄 => iprop(a ∗ b)) (pts_v10 d (cV LL) (jV LL) (4 : Fin 9) (0 : Fin 2) (4 : Fin 8) _ (OUTc m d)).symm (congrArg₂ (fun a b : sProp 𝕄 => iprop(a ∗ b)) (pts_v10 d (cV LL) (jV LL) (4 : Fin 9) (1 : Fin 2) (1 : Fin 8) _ (OUTc m d)).symm (congrArg₂ (fun a b : sProp 𝕄 => iprop(a ∗ b)) (pts_v10 d (cV LL) (jV LL) (6 : Fin 9) (1 : Fin 2) (2 : Fin 8) _ (OUTc m d)).symm (pts_v10 d (cV LL) (jV LL) (8 : Fin 9) (0 : Fin 2) (5 : Fin 8) _ (OUTc m d)).symm)))

/-! ## What each output slice has to hold is what its source slice holds -/

theorem val0_0 (m : (ℓ : Loc nD τ sig) → Buf (Elt F) ℓ) (d : Dev nD) :
    (SRC0).view.read (Elt F) (V2c m d) = (OUT0_0).view.read (Elt F) (OUTc m d) := by
  funext y
  obtain ⟨t, q, rfl⟩ : ∃ (t q : Fin 128), y = ix2 t q := ⟨y 0, y 1, eq_ix2 y⟩
  refine (read_v2 (11 : Fin 17) (1 : Fin 2) _ _ t q).trans ((?_ : _ = _).trans (read_v10 (4 : Fin 9) (0 : Fin 2) (4 : Fin 8) _ _ t q).symm)
  unfold V2c OUTc
  rw [Cert.Layout.poseV_apply]
  refine Eq.trans ?_ (outV_at _ _ _ _ _ _ _ t _ q (show 8 * 0 + 4 < 14 by decide)).symm
  rfl
theorem val0_1 (m : (ℓ : Loc nD τ sig) → Buf (Elt F) ℓ) (d : Dev nD) :
    (SRC0).view.read (Elt F) (V2c m d) = (OUT0_1).view.read (Elt F) (OUTc m d) := by
  funext y
  obtain ⟨t, q, rfl⟩ : ∃ (t q : Fin 128), y = ix2 t q := ⟨y 0, y 1, eq_ix2 y⟩
  refine (read_v2 (11 : Fin 17) (1 : Fin 2) _ _ t q).trans ((?_ : _ = _).trans (read_v10 (4 : Fin 9) (1 : Fin 2) (1 : Fin 8) _ _ t q).symm)
  unfold V2c OUTc
  rw [Cert.Layout.poseV_apply]
  refine Eq.trans ?_ (outV_at _ _ _ _ _ _ _ t _ q (show 8 * 1 + 1 < 14 by decide)).symm
  rfl
theorem val0_2 (m : (ℓ : Loc nD τ sig) → Buf (Elt F) ℓ) (d : Dev nD) :
    (SRC0).view.read (Elt F) (V2c m d) = (OUT0_2).view.read (Elt F) (OUTc m d) := by
  funext y
  obtain ⟨t, q, rfl⟩ : ∃ (t q : Fin 128), y = ix2 t q := ⟨y 0, y 1, eq_ix2 y⟩
  refine (read_v2 (11 : Fin 17) (1 : Fin 2) _ _ t q).trans ((?_ : _ = _).trans (read_v10 (6 : Fin 9) (1 : Fin 2) (2 : Fin 8) _ _ t q).symm)
  unfold V2c OUTc
  rw [Cert.Layout.poseV_apply]
  refine Eq.trans ?_ (outV_at _ _ _ _ _ _ _ t _ q (show 8 * 1 + 2 < 14 by decide)).symm
  rfl
theorem val1_0 (m : (ℓ : Loc nD τ sig) → Buf (Elt F) ℓ) (d : Dev nD) :
    (SRC1).view.read (Elt F) (V7c m d) = (OUT1_0).view.read (Elt F) (OUTc m d) := by
  funext y
  obtain ⟨t, q, rfl⟩ : ∃ (t q : Fin 128), y = ix2 t q := ⟨y 0, y 1, eq_ix2 y⟩
  refine (read_v7 (15 : Fin 17) _ _ t q).trans ((?_ : _ = _).trans (read_v10 (8 : Fin 9) (0 : Fin 2) (5 : Fin 8) _ _ t q).symm)
  unfold V7c OUTc
  rw [Cert.Layout.visV_apply]
  refine Eq.trans ?_ (outV_at _ _ _ _ _ _ _ t _ q (show 8 * 0 + 5 < 14 by decide)).symm
  rfl

/-! ## The run -/

open Lean Elab Tactic Meta in
/-- Unfold the names the symbolic run gave to the values its copies carry. -/
elab "unfold_carried" : tactic => do
  for _ in [0:6] do
    let g ← getMainGoal
    let t ← instantiateMVars (← g.getType)
    if (t.getUsedConstants.any fun n => n.components.any (· == `sl)) then
      let t' ← deltaExpand t (fun n => n.components.any (· == `sl))
      let g' ← g.change t' (checkDefEq := false)
      replaceMainGoal [g']

variable [FloatOps F] [∀ e, Nonempty (Elt F e)]

theorem run (m : (ℓ : Loc nD τ sig) → Buf (Elt F) ℓ) (d : Dev nD) (O : CellTallies nD τ sig (HIx 1)) (W : Waits sig (HIx 1)) (hO : ∀ g, O g none = 0) :
    (iprop(levAts (K (F := F)).L (K (F := F)).lev ∗ tileG m d (7 : Fin 32)
        ∗ scopedBufs (TH d) ∗ scopedSems0 (TH d) ∗ owes (TH d) O W) : sProp 𝕄)
      ⊢ wp frame (wpE (defs₀ (F := F)) 𝒱₀ (TH d) none) Set.univ
          (cc0_run LL (Memref.whole main_v2_scv) (Memref.isWhole_whole _) (Memref.whole main_v7_scv) (Memref.isWhole_whole _) (Memref.whole main_v5_scv) (Memref.isWhole_whole _) (Memref.whole main_v9_scv) (Memref.isWhole_whole _) (Memref.whole main_v10_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8)
          fun _ => iprop(tileT m d (7 : Fin 32) ∗ scopedBufs (TH d) ∗ scopedSems0 (TH d)
            ∗ ∃ W', ⌜∀ p ∈ W', p ∈ W ∨ p.2 = none⌝ ∗ owes (TH d) O W') := by
  rw [(K (F := F)).scopedBufs_V facts d (cV LL) (jV LL), SparseCore.Cfg.scopedSems0_V (Val := Elt F) d (cV LL) (jV LL), ownSems0_V, ownBufs_V]
  unfold tileG tileT
  iintro ⟨#Hlv, ⟨HF2, HF7, -, -, HF10⟩, ⟨⟨%fb0, Hb0⟩, ⟨%fb1, Hb1⟩, ⟨%fb2, Hb2⟩, Hbufs⟩, ⟨Hs3, Hs4, Hs5, Hs6, Hs7, Hs8, Hsems⟩, HO⟩
  ihave HF2' := (Entails.of_eq (open2 m d)) $$ HF2
  icases HF2' with HS0
  ihave HF7' := (Entails.of_eq (open7 m d)) $$ HF7
  icases HF7' with HS1
  ihave HF10' := (Entails.of_eq (open10 m d)) $$ HF10
  icases HF10' with ⟨HO0_0, HO0_1, HO0_2, HO1_0⟩
  ihave Hmw := ((K (F := F)).mayWaits_none (thr := TH d) hO) $$ Hlv
  ihave Hb0' := (Entails.of_eq (pts_b0 d (cV LL) (jV LL) _).symm) $$ Hb0
  ihave Hb1' := (Entails.of_eq (pts_b1 d (cV LL) (jV LL) _).symm) $$ Hb1
  ihave Hb2' := (Entails.of_eq (pts_b2 d (cV LL) (jV LL) _).symm) $$ Hb2
  have _plan : Transfers.BatchOf (TH d) (SemLoc.dma (sig := sig) cc0_scratch6.sem) 3 (windows := true) := trivial
  sl_unfold [cc0_run]
  sl_exec_parts (disch := decide)
  sl_step
  isplitl [HS0 HS1 HO0_0 HO0_1 HO0_2 HO1_0]
  · skip
    isplitl [HS0]
    · iapply (Entails.of_eq (open2 m d).symm)
      iexact HS0
    isplitl [HS1]
    · iapply (Entails.of_eq (open7 m d).symm)
      iexact HS1
    isplitr
    · rw [show t5 (7 : Fin 32) = ∅ from rfl, bigSep_empty]; iempintro
    isplitr
    · rw [show t9 (7 : Fin 32) = ∅ from rfl, bigSep_empty]; iempintro
    · iapply (Entails.of_eq (close10 m d).symm)
      isplitl [HO0_0]
      · iapply (out_post_ent (TH d) (OUT0_0) _ (OUTc m d) _ ?hv0_0) $$ HO0_0
        case hv0_0 => unfold_carried; simp only [ReadAs.apply_same, View.read_write_univ]; exact val0_0 m d
      isplitl [HO0_1]
      · iapply (out_post_ent (TH d) (OUT0_1) _ (OUTc m d) _ ?hv0_1) $$ HO0_1
        case hv0_1 => unfold_carried; simp only [ReadAs.apply_same, View.read_write_univ]; exact val0_1 m d
      isplitl [HO0_2]
      · iapply (out_post_ent (TH d) (OUT0_2) _ (OUTc m d) _ ?hv0_2) $$ HO0_2
        case hv0_2 => unfold_carried; simp only [ReadAs.apply_same, View.read_write_univ]; exact val0_2 m d
      iapply (out_post_ent (TH d) (OUT1_0) _ (OUTc m d) _ ?hv1_0) $$ HO1_0
      case hv1_0 => unfold_carried; simp only [ReadAs.apply_same, View.read_write_univ]; exact val1_0 m d

  isplitl [Hb0' Hb1' Hb2' Hbufs]
  · isplitl [Hb0']
    · iexists _; iapply (Entails.of_eq (pts_b0 d (cV LL) (jV LL) _)); iexact Hb0'
    isplitl [Hb1']
    · iexists _; iapply (Entails.of_eq (pts_b1 d (cV LL) (jV LL) _)); iexact Hb1'
    isplitl [Hb2']
    · iexists _; iapply (Entails.of_eq (pts_b2 d (cV LL) (jV LL) _)); iexact Hb2'
    iexact Hbufs
  isplitl [Hs3 Hs4 Hs5 Hs6 Hs7 Hs8 Hsems]
  · isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    iexact Hsems
  iexists _; isplitr
  rotate_left
  · iexact HO
  · ipureintro; intro p hp
    simp only [Finset.mem_insert] at hp
    rcases hp with rfl | rfl | rfl | rfl | rfl | rfl | hp <;> first | exact .inr rfl | exact .inl hp

end Cert.Proof.KI.Tile7

end
-- ==== Proof.KITile8.lean ====
/-
  Tile 8 of the kernel (subcore 4 of core 0): one slice in (vis11), 3 out; one slice in (delta6.0), 1 out.
  Its whole body is run: every copy it does not own is skipped by the comparison of its number with the copy's owner;
  each incoming copy fills a staging buffer, each outgoing copy carries that buffer into one slice of the output array,
  and what each output slice then holds is the source slice the specification asks for there.
-/
import proofs.«210185_g18468359372994_cont_8to1_1390_15_alg».proof.Proof.KIRead

set_option maxHeartbeats 4000000
set_option quotPrecheck false

noncomputable section

namespace Cert.Proof.KI.Tile8

open Cert.KernelIdeal Cert.KernelIdeal.Gen
open Cert.Proof.KI
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
theorem cLt : 0 < grid0.bound 0 := by decide
theorem sLt : 4 < grid0.bound 1 := by decide
local notation "LL" => (coordsV (⟨0, cLt⟩ : Fin (grid0.bound 0)) (⟨4, sLt⟩ : Fin (grid0.bound 1)))
local notation "TH" d => V d (cV LL) (jV LL)
local notation "SRC0" => (((Memref.whole main_v7_scv).slice (Rect.unit (s := S17x128x128) ![11, 0, 0] S1x128x128.size inb_S17x128x128_S1x128x128_11_0_0) (fun _ => rfl)).squeeze S128x128 squeezes_S1x128x128_S128x128 : Memref sig .scVector .hbm S128x128 .f32)
local notation "OUT0_0" => (((Memref.whole main_v10_scv).slice (Rect.unit (s := S9x2x128x8x128) ![7, 0, 0, 4, 0] S1x1x128x1x128.size inb_S9x2x128x8x128_S1x1x128x1x128_7_0_0_4_0) (fun _ => rfl)).squeeze S128x128 squeezes_S1x1x128x1x128_S128x128 : Memref sig .scVector .hbm S128x128 .f32)
local notation "OUT0_1" => (((Memref.whole main_v10_scv).slice (Rect.unit (s := S9x2x128x8x128) ![7, 1, 0, 1, 0] S1x1x128x1x128.size inb_S9x2x128x8x128_S1x1x128x1x128_7_1_0_1_0) (fun _ => rfl)).squeeze S128x128 squeezes_S1x1x128x1x128_S128x128 : Memref sig .scVector .hbm S128x128 .f32)
local notation "OUT0_2" => (((Memref.whole main_v10_scv).slice (Rect.unit (s := S9x2x128x8x128) ![8, 1, 0, 2, 0] S1x1x128x1x128.size inb_S9x2x128x8x128_S1x1x128x1x128_8_1_0_2_0) (fun _ => rfl)).squeeze S128x128 squeezes_S1x1x128x1x128_S128x128 : Memref sig .scVector .hbm S128x128 .f32)
local notation "SRC1" => (((Memref.whole main_v5_scv).slice (Rect.unit (s := S14x128x2x128) ![6, 0, 0, 0] S1x128x1x128.size inb_S14x128x2x128_S1x128x1x128_6_0_0_0) (fun _ => rfl)).squeeze S128x128 squeezes_S1x128x1x128_S128x128 : Memref sig .scVector .hbm S128x128 .f32)
local notation "OUT1_0" => (((Memref.whole main_v10_scv).slice (Rect.unit (s := S9x2x128x8x128) ![0, 0, 0, 6, 0] S1x1x128x1x128.size inb_S9x2x128x8x128_S1x1x128x1x128_0_0_0_6_0) (fun _ => rfl)).squeeze S128x128 squeezes_S1x1x128x1x128_S128x128 : Memref sig .scVector .hbm S128x128 .f32)

/-! ## The tile's slices, as its memrefs name them -/

theorem open7 (m : (ℓ : Loc nD τ sig) → Buf (Elt F) ℓ) (d : Dev nD) :
    (bigSep (t7 (8 : Fin 32)) (A7 m d) : sProp 𝕄) = iprop(((SRC0).view.loc (TH d) ↦[(SRC0).view.set]{fullShare} V7c m d)) := by
  show bigSep ({(11 : Fin 17)} : Finset (Fin 17)) (A7 m d) = _
  rw [bigSep_singleton]
  exact (pts_v7 d (cV LL) (jV LL) (11 : Fin 17) _ (V7c m d)).symm
theorem open5 (m : (ℓ : Loc nD τ sig) → Buf (Elt F) ℓ) (d : Dev nD) :
    (bigSep (t5 (8 : Fin 32)) (A5 m d) : sProp 𝕄) = iprop(((SRC1).view.loc (TH d) ↦[(SRC1).view.set]{fullShare} V5c m d)) := by
  show bigSep ({((6 : Fin 14), (0 : Fin 2))} : Finset (Fin 14 × Fin 2)) (A5 m d) = _
  rw [bigSep_singleton]
  exact (pts_v5 d (cV LL) (jV LL) (6 : Fin 14) (0 : Fin 2) _ (V5c m d)).symm
theorem open10 (m : (ℓ : Loc nD τ sig) → Buf (Elt F) ℓ) (d : Dev nD) :
    (bigSep (t10 (8 : Fin 32)) (B0 m d) : sProp 𝕄) = iprop(((OUT0_0).view.loc (TH d) ↦[(OUT0_0).view.set]{fullShare} m (v10L d)) ∗ ((OUT0_1).view.loc (TH d) ↦[(OUT0_1).view.set]{fullShare} m (v10L d)) ∗ ((OUT0_2).view.loc (TH d) ↦[(OUT0_2).view.set]{fullShare} m (v10L d)) ∗ ((OUT1_0).view.loc (TH d) ↦[(OUT1_0).view.set]{fullShare} m (v10L d))) := by
  show bigSep ({((7 : Fin 9), (0 : Fin 2), (4 : Fin 8)), ((7 : Fin 9), (1 : Fin 2), (1 : Fin 8)), ((8 : Fin 9), (1 : Fin 2), (2 : Fin 8)), ((0 : Fin 9), (0 : Fin 2), (6 : Fin 8))} : Finset (Fin 9 × Fin 2 × Fin 8)) (B0 m d) = _
  rw [SparseCore.bigSep_insert' (by decide), SparseCore.bigSep_insert' (by decide), SparseCore.bigSep_insert' (by decide), bigSep_singleton]
  exact (congrArg₂ (fun a b : sProp 𝕄 => iprop(a ∗ b)) (pts_v10 d (cV LL) (jV LL) (7 : Fin 9) (0 : Fin 2) (4 : Fin 8) _ (m (v10L d))).symm (congrArg₂ (fun a b : sProp 𝕄 => iprop(a ∗ b)) (pts_v10 d (cV LL) (jV LL) (7 : Fin 9) (1 : Fin 2) (1 : Fin 8) _ (m (v10L d))).symm (congrArg₂ (fun a b : sProp 𝕄 => iprop(a ∗ b)) (pts_v10 d (cV LL) (jV LL) (8 : Fin 9) (1 : Fin 2) (2 : Fin 8) _ (m (v10L d))).symm (pts_v10 d (cV LL) (jV LL) (0 : Fin 9) (0 : Fin 2) (6 : Fin 8) _ (m (v10L d))).symm)))
theorem close10 (m : (ℓ : Loc nD τ sig) → Buf (Elt F) ℓ) (d : Dev nD) :
    (bigSep (t10 (8 : Fin 32)) (B1 m d) : sProp 𝕄) = iprop(((OUT0_0).view.loc (TH d) ↦[(OUT0_0).view.set]{fullShare} OUTc m d) ∗ ((OUT0_1).view.loc (TH d) ↦[(OUT0_1).view.set]{fullShare} OUTc m d) ∗ ((OUT0_2).view.loc (TH d) ↦[(OUT0_2).view.set]{fullShare} OUTc m d) ∗ ((OUT1_0).view.loc (TH d) ↦[(OUT1_0).view.set]{fullShare} OUTc m d)) := by
  show bigSep ({((7 : Fin 9), (0 : Fin 2), (4 : Fin 8)), ((7 : Fin 9), (1 : Fin 2), (1 : Fin 8)), ((8 : Fin 9), (1 : Fin 2), (2 : Fin 8)), ((0 : Fin 9), (0 : Fin 2), (6 : Fin 8))} : Finset (Fin 9 × Fin 2 × Fin 8)) (B1 m d) = _
  rw [SparseCore.bigSep_insert' (by decide), SparseCore.bigSep_insert' (by decide), SparseCore.bigSep_insert' (by decide), bigSep_singleton]
  exact (congrArg₂ (fun a b : sProp 𝕄 => iprop(a ∗ b)) (pts_v10 d (cV LL) (jV LL) (7 : Fin 9) (0 : Fin 2) (4 : Fin 8) _ (OUTc m d)).symm (congrArg₂ (fun a b : sProp 𝕄 => iprop(a ∗ b)) (pts_v10 d (cV LL) (jV LL) (7 : Fin 9) (1 : Fin 2) (1 : Fin 8) _ (OUTc m d)).symm (congrArg₂ (fun a b : sProp 𝕄 => iprop(a ∗ b)) (pts_v10 d (cV LL) (jV LL) (8 : Fin 9) (1 : Fin 2) (2 : Fin 8) _ (OUTc m d)).symm (pts_v10 d (cV LL) (jV LL) (0 : Fin 9) (0 : Fin 2) (6 : Fin 8) _ (OUTc m d)).symm)))

/-! ## What each output slice has to hold is what its source slice holds -/

theorem val0_0 (m : (ℓ : Loc nD τ sig) → Buf (Elt F) ℓ) (d : Dev nD) :
    (SRC0).view.read (Elt F) (V7c m d) = (OUT0_0).view.read (Elt F) (OUTc m d) := by
  funext y
  obtain ⟨t, q, rfl⟩ : ∃ (t q : Fin 128), y = ix2 t q := ⟨y 0, y 1, eq_ix2 y⟩
  refine (read_v7 (11 : Fin 17) _ _ t q).trans ((?_ : _ = _).trans (read_v10 (7 : Fin 9) (0 : Fin 2) (4 : Fin 8) _ _ t q).symm)
  unfold V7c OUTc
  rw [Cert.Layout.visV_apply]
  refine Eq.trans ?_ (outV_at _ _ _ _ _ _ _ t _ q (show 8 * 0 + 4 < 14 by decide)).symm
  rfl
theorem val0_1 (m : (ℓ : Loc nD τ sig) → Buf (Elt F) ℓ) (d : Dev nD) :
    (SRC0).view.read (Elt F) (V7c m d) = (OUT0_1).view.read (Elt F) (OUTc m d) := by
  funext y
  obtain ⟨t, q, rfl⟩ : ∃ (t q : Fin 128), y = ix2 t q := ⟨y 0, y 1, eq_ix2 y⟩
  refine (read_v7 (11 : Fin 17) _ _ t q).trans ((?_ : _ = _).trans (read_v10 (7 : Fin 9) (1 : Fin 2) (1 : Fin 8) _ _ t q).symm)
  unfold V7c OUTc
  rw [Cert.Layout.visV_apply]
  refine Eq.trans ?_ (outV_at _ _ _ _ _ _ _ t _ q (show 8 * 1 + 1 < 14 by decide)).symm
  rfl
theorem val0_2 (m : (ℓ : Loc nD τ sig) → Buf (Elt F) ℓ) (d : Dev nD) :
    (SRC0).view.read (Elt F) (V7c m d) = (OUT0_2).view.read (Elt F) (OUTc m d) := by
  funext y
  obtain ⟨t, q, rfl⟩ : ∃ (t q : Fin 128), y = ix2 t q := ⟨y 0, y 1, eq_ix2 y⟩
  refine (read_v7 (11 : Fin 17) _ _ t q).trans ((?_ : _ = _).trans (read_v10 (8 : Fin 9) (1 : Fin 2) (2 : Fin 8) _ _ t q).symm)
  unfold V7c OUTc
  rw [Cert.Layout.visV_apply]
  refine Eq.trans ?_ (outV_at _ _ _ _ _ _ _ t _ q (show 8 * 1 + 2 < 14 by decide)).symm
  rfl
theorem val1_0 (m : (ℓ : Loc nD τ sig) → Buf (Elt F) ℓ) (d : Dev nD) :
    (SRC1).view.read (Elt F) (V5c m d) = (OUT1_0).view.read (Elt F) (OUTc m d) := by
  funext y
  obtain ⟨t, q, rfl⟩ : ∃ (t q : Fin 128), y = ix2 t q := ⟨y 0, y 1, eq_ix2 y⟩
  refine (read_v5 (6 : Fin 14) (0 : Fin 2) _ _ t q).trans ((?_ : _ = _).trans (read_v10 (0 : Fin 9) (0 : Fin 2) (6 : Fin 8) _ _ t q).symm)
  unfold V5c OUTc
  rw [Cert.Layout.deltaV_apply]
  refine Eq.trans ?_ (outV_at _ _ _ _ _ _ _ t _ q (show 8 * 0 + 6 < 14 by decide)).symm
  rfl

/-! ## The run -/

open Lean Elab Tactic Meta in
/-- Unfold the names the symbolic run gave to the values its copies carry. -/
elab "unfold_carried" : tactic => do
  for _ in [0:6] do
    let g ← getMainGoal
    let t ← instantiateMVars (← g.getType)
    if (t.getUsedConstants.any fun n => n.components.any (· == `sl)) then
      let t' ← deltaExpand t (fun n => n.components.any (· == `sl))
      let g' ← g.change t' (checkDefEq := false)
      replaceMainGoal [g']

variable [FloatOps F] [∀ e, Nonempty (Elt F e)]

theorem run (m : (ℓ : Loc nD τ sig) → Buf (Elt F) ℓ) (d : Dev nD) (O : CellTallies nD τ sig (HIx 1)) (W : Waits sig (HIx 1)) (hO : ∀ g, O g none = 0) :
    (iprop(levAts (K (F := F)).L (K (F := F)).lev ∗ tileG m d (8 : Fin 32)
        ∗ scopedBufs (TH d) ∗ scopedSems0 (TH d) ∗ owes (TH d) O W) : sProp 𝕄)
      ⊢ wp frame (wpE (defs₀ (F := F)) 𝒱₀ (TH d) none) Set.univ
          (cc0_run LL (Memref.whole main_v2_scv) (Memref.isWhole_whole _) (Memref.whole main_v7_scv) (Memref.isWhole_whole _) (Memref.whole main_v5_scv) (Memref.isWhole_whole _) (Memref.whole main_v9_scv) (Memref.isWhole_whole _) (Memref.whole main_v10_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8)
          fun _ => iprop(tileT m d (8 : Fin 32) ∗ scopedBufs (TH d) ∗ scopedSems0 (TH d)
            ∗ ∃ W', ⌜∀ p ∈ W', p ∈ W ∨ p.2 = none⌝ ∗ owes (TH d) O W') := by
  rw [(K (F := F)).scopedBufs_V facts d (cV LL) (jV LL), SparseCore.Cfg.scopedSems0_V (Val := Elt F) d (cV LL) (jV LL), ownSems0_V, ownBufs_V]
  unfold tileG tileT
  iintro ⟨#Hlv, ⟨-, HF7, HF5, -, HF10⟩, ⟨⟨%fb0, Hb0⟩, ⟨%fb1, Hb1⟩, ⟨%fb2, Hb2⟩, Hbufs⟩, ⟨Hs3, Hs4, Hs5, Hs6, Hs7, Hs8, Hsems⟩, HO⟩
  ihave HF7' := (Entails.of_eq (open7 m d)) $$ HF7
  icases HF7' with HS0
  ihave HF5' := (Entails.of_eq (open5 m d)) $$ HF5
  icases HF5' with HS1
  ihave HF10' := (Entails.of_eq (open10 m d)) $$ HF10
  icases HF10' with ⟨HO0_0, HO0_1, HO0_2, HO1_0⟩
  ihave Hmw := ((K (F := F)).mayWaits_none (thr := TH d) hO) $$ Hlv
  ihave Hb0' := (Entails.of_eq (pts_b0 d (cV LL) (jV LL) _).symm) $$ Hb0
  ihave Hb1' := (Entails.of_eq (pts_b1 d (cV LL) (jV LL) _).symm) $$ Hb1
  ihave Hb2' := (Entails.of_eq (pts_b2 d (cV LL) (jV LL) _).symm) $$ Hb2
  have _plan : Transfers.BatchOf (TH d) (SemLoc.dma (sig := sig) cc0_scratch6.sem) 3 (windows := true) := trivial
  sl_unfold [cc0_run]
  sl_exec_parts (disch := decide)
  sl_step
  isplitl [HS0 HS1 HO0_0 HO0_1 HO0_2 HO1_0]
  · skip
    isplitr
    · rw [show t2 (8 : Fin 32) = ∅ from rfl, bigSep_empty]; iempintro
    isplitl [HS0]
    · iapply (Entails.of_eq (open7 m d).symm)
      iexact HS0
    isplitl [HS1]
    · iapply (Entails.of_eq (open5 m d).symm)
      iexact HS1
    isplitr
    · rw [show t9 (8 : Fin 32) = ∅ from rfl, bigSep_empty]; iempintro
    · iapply (Entails.of_eq (close10 m d).symm)
      isplitl [HO0_0]
      · iapply (out_post_ent (TH d) (OUT0_0) _ (OUTc m d) _ ?hv0_0) $$ HO0_0
        case hv0_0 => unfold_carried; simp only [ReadAs.apply_same, View.read_write_univ]; exact val0_0 m d
      isplitl [HO0_1]
      · iapply (out_post_ent (TH d) (OUT0_1) _ (OUTc m d) _ ?hv0_1) $$ HO0_1
        case hv0_1 => unfold_carried; simp only [ReadAs.apply_same, View.read_write_univ]; exact val0_1 m d
      isplitl [HO0_2]
      · iapply (out_post_ent (TH d) (OUT0_2) _ (OUTc m d) _ ?hv0_2) $$ HO0_2
        case hv0_2 => unfold_carried; simp only [ReadAs.apply_same, View.read_write_univ]; exact val0_2 m d
      iapply (out_post_ent (TH d) (OUT1_0) _ (OUTc m d) _ ?hv1_0) $$ HO1_0
      case hv1_0 => unfold_carried; simp only [ReadAs.apply_same, View.read_write_univ]; exact val1_0 m d

  isplitl [Hb0' Hb1' Hb2' Hbufs]
  · isplitl [Hb0']
    · iexists _; iapply (Entails.of_eq (pts_b0 d (cV LL) (jV LL) _)); iexact Hb0'
    isplitl [Hb1']
    · iexists _; iapply (Entails.of_eq (pts_b1 d (cV LL) (jV LL) _)); iexact Hb1'
    isplitl [Hb2']
    · iexists _; iapply (Entails.of_eq (pts_b2 d (cV LL) (jV LL) _)); iexact Hb2'
    iexact Hbufs
  isplitl [Hs3 Hs4 Hs5 Hs6 Hs7 Hs8 Hsems]
  · isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    iexact Hsems
  iexists _; isplitr
  rotate_left
  · iexact HO
  · ipureintro; intro p hp
    simp only [Finset.mem_insert] at hp
    rcases hp with rfl | rfl | rfl | rfl | rfl | rfl | hp <;> first | exact .inr rfl | exact .inl hp

end Cert.Proof.KI.Tile8

end
-- ==== Proof.KITile9.lean ====
/-
  Tile 9 of the kernel (subcore 4 of core 1): one slice in (pose12.0), 3 out; one slice in (delta6.1), 1 out.
  Its whole body is run: every copy it does not own is skipped by the comparison of its number with the copy's owner;
  each incoming copy fills a staging buffer, each outgoing copy carries that buffer into one slice of the output array,
  and what each output slice then holds is the source slice the specification asks for there.
-/
import proofs.«210185_g18468359372994_cont_8to1_1390_15_alg».proof.Proof.KIRead

set_option maxHeartbeats 4000000
set_option quotPrecheck false

noncomputable section

namespace Cert.Proof.KI.Tile9

open Cert.KernelIdeal Cert.KernelIdeal.Gen
open Cert.Proof.KI
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
theorem cLt : 1 < grid0.bound 0 := by decide
theorem sLt : 4 < grid0.bound 1 := by decide
local notation "LL" => (coordsV (⟨1, cLt⟩ : Fin (grid0.bound 0)) (⟨4, sLt⟩ : Fin (grid0.bound 1)))
local notation "TH" d => V d (cV LL) (jV LL)
local notation "SRC0" => (((Memref.whole main_v2_scv).slice (Rect.unit (s := S17x128x2x128) ![12, 0, 0, 0] S1x128x1x128.size inb_S17x128x2x128_S1x128x1x128_12_0_0_0) (fun _ => rfl)).squeeze S128x128 squeezes_S1x128x1x128_S128x128 : Memref sig .scVector .hbm S128x128 .f32)
local notation "OUT0_0" => (((Memref.whole main_v10_scv).slice (Rect.unit (s := S9x2x128x8x128) ![3, 0, 0, 6, 0] S1x1x128x1x128.size inb_S9x2x128x8x128_S1x1x128x1x128_3_0_0_6_0) (fun _ => rfl)).squeeze S128x128 squeezes_S1x1x128x1x128_S128x128 : Memref sig .scVector .hbm S128x128 .f32)
local notation "OUT0_1" => (((Memref.whole main_v10_scv).slice (Rect.unit (s := S9x2x128x8x128) ![5, 1, 0, 1, 0] S1x1x128x1x128.size inb_S9x2x128x8x128_S1x1x128x1x128_5_1_0_1_0) (fun _ => rfl)).squeeze S128x128 squeezes_S1x1x128x1x128_S128x128 : Memref sig .scVector .hbm S128x128 .f32)
local notation "OUT0_2" => (((Memref.whole main_v10_scv).slice (Rect.unit (s := S9x2x128x8x128) ![5, 1, 0, 3, 0] S1x1x128x1x128.size inb_S9x2x128x8x128_S1x1x128x1x128_5_1_0_3_0) (fun _ => rfl)).squeeze S128x128 squeezes_S1x1x128x1x128_S128x128 : Memref sig .scVector .hbm S128x128 .f32)
local notation "SRC1" => (((Memref.whole main_v5_scv).slice (Rect.unit (s := S14x128x2x128) ![6, 0, 1, 0] S1x128x1x128.size inb_S14x128x2x128_S1x128x1x128_6_0_1_0) (fun _ => rfl)).squeeze S128x128 squeezes_S1x128x1x128_S128x128 : Memref sig .scVector .hbm S128x128 .f32)
local notation "OUT1_0" => (((Memref.whole main_v10_scv).slice (Rect.unit (s := S9x2x128x8x128) ![1, 0, 0, 6, 0] S1x1x128x1x128.size inb_S9x2x128x8x128_S1x1x128x1x128_1_0_0_6_0) (fun _ => rfl)).squeeze S128x128 squeezes_S1x1x128x1x128_S128x128 : Memref sig .scVector .hbm S128x128 .f32)

/-! ## The tile's slices, as its memrefs name them -/

theorem open2 (m : (ℓ : Loc nD τ sig) → Buf (Elt F) ℓ) (d : Dev nD) :
    (bigSep (t2 (9 : Fin 32)) (A2 m d) : sProp 𝕄) = iprop(((SRC0).view.loc (TH d) ↦[(SRC0).view.set]{fullShare} V2c m d)) := by
  show bigSep ({((12 : Fin 17), (0 : Fin 2))} : Finset (Fin 17 × Fin 2)) (A2 m d) = _
  rw [bigSep_singleton]
  exact (pts_v2 d (cV LL) (jV LL) (12 : Fin 17) (0 : Fin 2) _ (V2c m d)).symm
theorem open5 (m : (ℓ : Loc nD τ sig) → Buf (Elt F) ℓ) (d : Dev nD) :
    (bigSep (t5 (9 : Fin 32)) (A5 m d) : sProp 𝕄) = iprop(((SRC1).view.loc (TH d) ↦[(SRC1).view.set]{fullShare} V5c m d)) := by
  show bigSep ({((6 : Fin 14), (1 : Fin 2))} : Finset (Fin 14 × Fin 2)) (A5 m d) = _
  rw [bigSep_singleton]
  exact (pts_v5 d (cV LL) (jV LL) (6 : Fin 14) (1 : Fin 2) _ (V5c m d)).symm
theorem open10 (m : (ℓ : Loc nD τ sig) → Buf (Elt F) ℓ) (d : Dev nD) :
    (bigSep (t10 (9 : Fin 32)) (B0 m d) : sProp 𝕄) = iprop(((OUT0_0).view.loc (TH d) ↦[(OUT0_0).view.set]{fullShare} m (v10L d)) ∗ ((OUT0_1).view.loc (TH d) ↦[(OUT0_1).view.set]{fullShare} m (v10L d)) ∗ ((OUT0_2).view.loc (TH d) ↦[(OUT0_2).view.set]{fullShare} m (v10L d)) ∗ ((OUT1_0).view.loc (TH d) ↦[(OUT1_0).view.set]{fullShare} m (v10L d))) := by
  show bigSep ({((3 : Fin 9), (0 : Fin 2), (6 : Fin 8)), ((5 : Fin 9), (1 : Fin 2), (1 : Fin 8)), ((5 : Fin 9), (1 : Fin 2), (3 : Fin 8)), ((1 : Fin 9), (0 : Fin 2), (6 : Fin 8))} : Finset (Fin 9 × Fin 2 × Fin 8)) (B0 m d) = _
  rw [SparseCore.bigSep_insert' (by decide), SparseCore.bigSep_insert' (by decide), SparseCore.bigSep_insert' (by decide), bigSep_singleton]
  exact (congrArg₂ (fun a b : sProp 𝕄 => iprop(a ∗ b)) (pts_v10 d (cV LL) (jV LL) (3 : Fin 9) (0 : Fin 2) (6 : Fin 8) _ (m (v10L d))).symm (congrArg₂ (fun a b : sProp 𝕄 => iprop(a ∗ b)) (pts_v10 d (cV LL) (jV LL) (5 : Fin 9) (1 : Fin 2) (1 : Fin 8) _ (m (v10L d))).symm (congrArg₂ (fun a b : sProp 𝕄 => iprop(a ∗ b)) (pts_v10 d (cV LL) (jV LL) (5 : Fin 9) (1 : Fin 2) (3 : Fin 8) _ (m (v10L d))).symm (pts_v10 d (cV LL) (jV LL) (1 : Fin 9) (0 : Fin 2) (6 : Fin 8) _ (m (v10L d))).symm)))
theorem close10 (m : (ℓ : Loc nD τ sig) → Buf (Elt F) ℓ) (d : Dev nD) :
    (bigSep (t10 (9 : Fin 32)) (B1 m d) : sProp 𝕄) = iprop(((OUT0_0).view.loc (TH d) ↦[(OUT0_0).view.set]{fullShare} OUTc m d) ∗ ((OUT0_1).view.loc (TH d) ↦[(OUT0_1).view.set]{fullShare} OUTc m d) ∗ ((OUT0_2).view.loc (TH d) ↦[(OUT0_2).view.set]{fullShare} OUTc m d) ∗ ((OUT1_0).view.loc (TH d) ↦[(OUT1_0).view.set]{fullShare} OUTc m d)) := by
  show bigSep ({((3 : Fin 9), (0 : Fin 2), (6 : Fin 8)), ((5 : Fin 9), (1 : Fin 2), (1 : Fin 8)), ((5 : Fin 9), (1 : Fin 2), (3 : Fin 8)), ((1 : Fin 9), (0 : Fin 2), (6 : Fin 8))} : Finset (Fin 9 × Fin 2 × Fin 8)) (B1 m d) = _
  rw [SparseCore.bigSep_insert' (by decide), SparseCore.bigSep_insert' (by decide), SparseCore.bigSep_insert' (by decide), bigSep_singleton]
  exact (congrArg₂ (fun a b : sProp 𝕄 => iprop(a ∗ b)) (pts_v10 d (cV LL) (jV LL) (3 : Fin 9) (0 : Fin 2) (6 : Fin 8) _ (OUTc m d)).symm (congrArg₂ (fun a b : sProp 𝕄 => iprop(a ∗ b)) (pts_v10 d (cV LL) (jV LL) (5 : Fin 9) (1 : Fin 2) (1 : Fin 8) _ (OUTc m d)).symm (congrArg₂ (fun a b : sProp 𝕄 => iprop(a ∗ b)) (pts_v10 d (cV LL) (jV LL) (5 : Fin 9) (1 : Fin 2) (3 : Fin 8) _ (OUTc m d)).symm (pts_v10 d (cV LL) (jV LL) (1 : Fin 9) (0 : Fin 2) (6 : Fin 8) _ (OUTc m d)).symm)))

/-! ## What each output slice has to hold is what its source slice holds -/

theorem val0_0 (m : (ℓ : Loc nD τ sig) → Buf (Elt F) ℓ) (d : Dev nD) :
    (SRC0).view.read (Elt F) (V2c m d) = (OUT0_0).view.read (Elt F) (OUTc m d) := by
  funext y
  obtain ⟨t, q, rfl⟩ : ∃ (t q : Fin 128), y = ix2 t q := ⟨y 0, y 1, eq_ix2 y⟩
  refine (read_v2 (12 : Fin 17) (0 : Fin 2) _ _ t q).trans ((?_ : _ = _).trans (read_v10 (3 : Fin 9) (0 : Fin 2) (6 : Fin 8) _ _ t q).symm)
  unfold V2c OUTc
  rw [Cert.Layout.poseV_apply]
  refine Eq.trans ?_ (outV_at _ _ _ _ _ _ _ t _ q (show 8 * 0 + 6 < 14 by decide)).symm
  rfl
theorem val0_1 (m : (ℓ : Loc nD τ sig) → Buf (Elt F) ℓ) (d : Dev nD) :
    (SRC0).view.read (Elt F) (V2c m d) = (OUT0_1).view.read (Elt F) (OUTc m d) := by
  funext y
  obtain ⟨t, q, rfl⟩ : ∃ (t q : Fin 128), y = ix2 t q := ⟨y 0, y 1, eq_ix2 y⟩
  refine (read_v2 (12 : Fin 17) (0 : Fin 2) _ _ t q).trans ((?_ : _ = _).trans (read_v10 (5 : Fin 9) (1 : Fin 2) (1 : Fin 8) _ _ t q).symm)
  unfold V2c OUTc
  rw [Cert.Layout.poseV_apply]
  refine Eq.trans ?_ (outV_at _ _ _ _ _ _ _ t _ q (show 8 * 1 + 1 < 14 by decide)).symm
  rfl
theorem val0_2 (m : (ℓ : Loc nD τ sig) → Buf (Elt F) ℓ) (d : Dev nD) :
    (SRC0).view.read (Elt F) (V2c m d) = (OUT0_2).view.read (Elt F) (OUTc m d) := by
  funext y
  obtain ⟨t, q, rfl⟩ : ∃ (t q : Fin 128), y = ix2 t q := ⟨y 0, y 1, eq_ix2 y⟩
  refine (read_v2 (12 : Fin 17) (0 : Fin 2) _ _ t q).trans ((?_ : _ = _).trans (read_v10 (5 : Fin 9) (1 : Fin 2) (3 : Fin 8) _ _ t q).symm)
  unfold V2c OUTc
  rw [Cert.Layout.poseV_apply]
  refine Eq.trans ?_ (outV_at _ _ _ _ _ _ _ t _ q (show 8 * 1 + 3 < 14 by decide)).symm
  rfl
theorem val1_0 (m : (ℓ : Loc nD τ sig) → Buf (Elt F) ℓ) (d : Dev nD) :
    (SRC1).view.read (Elt F) (V5c m d) = (OUT1_0).view.read (Elt F) (OUTc m d) := by
  funext y
  obtain ⟨t, q, rfl⟩ : ∃ (t q : Fin 128), y = ix2 t q := ⟨y 0, y 1, eq_ix2 y⟩
  refine (read_v5 (6 : Fin 14) (1 : Fin 2) _ _ t q).trans ((?_ : _ = _).trans (read_v10 (1 : Fin 9) (0 : Fin 2) (6 : Fin 8) _ _ t q).symm)
  unfold V5c OUTc
  rw [Cert.Layout.deltaV_apply]
  refine Eq.trans ?_ (outV_at _ _ _ _ _ _ _ t _ q (show 8 * 0 + 6 < 14 by decide)).symm
  rfl

/-! ## The run -/

open Lean Elab Tactic Meta in
/-- Unfold the names the symbolic run gave to the values its copies carry. -/
elab "unfold_carried" : tactic => do
  for _ in [0:6] do
    let g ← getMainGoal
    let t ← instantiateMVars (← g.getType)
    if (t.getUsedConstants.any fun n => n.components.any (· == `sl)) then
      let t' ← deltaExpand t (fun n => n.components.any (· == `sl))
      let g' ← g.change t' (checkDefEq := false)
      replaceMainGoal [g']

variable [FloatOps F] [∀ e, Nonempty (Elt F e)]

theorem run (m : (ℓ : Loc nD τ sig) → Buf (Elt F) ℓ) (d : Dev nD) (O : CellTallies nD τ sig (HIx 1)) (W : Waits sig (HIx 1)) (hO : ∀ g, O g none = 0) :
    (iprop(levAts (K (F := F)).L (K (F := F)).lev ∗ tileG m d (9 : Fin 32)
        ∗ scopedBufs (TH d) ∗ scopedSems0 (TH d) ∗ owes (TH d) O W) : sProp 𝕄)
      ⊢ wp frame (wpE (defs₀ (F := F)) 𝒱₀ (TH d) none) Set.univ
          (cc0_run LL (Memref.whole main_v2_scv) (Memref.isWhole_whole _) (Memref.whole main_v7_scv) (Memref.isWhole_whole _) (Memref.whole main_v5_scv) (Memref.isWhole_whole _) (Memref.whole main_v9_scv) (Memref.isWhole_whole _) (Memref.whole main_v10_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8)
          fun _ => iprop(tileT m d (9 : Fin 32) ∗ scopedBufs (TH d) ∗ scopedSems0 (TH d)
            ∗ ∃ W', ⌜∀ p ∈ W', p ∈ W ∨ p.2 = none⌝ ∗ owes (TH d) O W') := by
  rw [(K (F := F)).scopedBufs_V facts d (cV LL) (jV LL), SparseCore.Cfg.scopedSems0_V (Val := Elt F) d (cV LL) (jV LL), ownSems0_V, ownBufs_V]
  unfold tileG tileT
  iintro ⟨#Hlv, ⟨HF2, -, HF5, -, HF10⟩, ⟨⟨%fb0, Hb0⟩, ⟨%fb1, Hb1⟩, ⟨%fb2, Hb2⟩, Hbufs⟩, ⟨Hs3, Hs4, Hs5, Hs6, Hs7, Hs8, Hsems⟩, HO⟩
  ihave HF2' := (Entails.of_eq (open2 m d)) $$ HF2
  icases HF2' with HS0
  ihave HF5' := (Entails.of_eq (open5 m d)) $$ HF5
  icases HF5' with HS1
  ihave HF10' := (Entails.of_eq (open10 m d)) $$ HF10
  icases HF10' with ⟨HO0_0, HO0_1, HO0_2, HO1_0⟩
  ihave Hmw := ((K (F := F)).mayWaits_none (thr := TH d) hO) $$ Hlv
  ihave Hb0' := (Entails.of_eq (pts_b0 d (cV LL) (jV LL) _).symm) $$ Hb0
  ihave Hb1' := (Entails.of_eq (pts_b1 d (cV LL) (jV LL) _).symm) $$ Hb1
  ihave Hb2' := (Entails.of_eq (pts_b2 d (cV LL) (jV LL) _).symm) $$ Hb2
  have _plan : Transfers.BatchOf (TH d) (SemLoc.dma (sig := sig) cc0_scratch6.sem) 3 (windows := true) := trivial
  sl_unfold [cc0_run]
  sl_exec_parts (disch := decide)
  sl_step
  isplitl [HS0 HS1 HO0_0 HO0_1 HO0_2 HO1_0]
  · skip
    isplitl [HS0]
    · iapply (Entails.of_eq (open2 m d).symm)
      iexact HS0
    isplitr
    · rw [show t7 (9 : Fin 32) = ∅ from rfl, bigSep_empty]; iempintro
    isplitl [HS1]
    · iapply (Entails.of_eq (open5 m d).symm)
      iexact HS1
    isplitr
    · rw [show t9 (9 : Fin 32) = ∅ from rfl, bigSep_empty]; iempintro
    · iapply (Entails.of_eq (close10 m d).symm)
      isplitl [HO0_0]
      · iapply (out_post_ent (TH d) (OUT0_0) _ (OUTc m d) _ ?hv0_0) $$ HO0_0
        case hv0_0 => unfold_carried; simp only [ReadAs.apply_same, View.read_write_univ]; exact val0_0 m d
      isplitl [HO0_1]
      · iapply (out_post_ent (TH d) (OUT0_1) _ (OUTc m d) _ ?hv0_1) $$ HO0_1
        case hv0_1 => unfold_carried; simp only [ReadAs.apply_same, View.read_write_univ]; exact val0_1 m d
      isplitl [HO0_2]
      · iapply (out_post_ent (TH d) (OUT0_2) _ (OUTc m d) _ ?hv0_2) $$ HO0_2
        case hv0_2 => unfold_carried; simp only [ReadAs.apply_same, View.read_write_univ]; exact val0_2 m d
      iapply (out_post_ent (TH d) (OUT1_0) _ (OUTc m d) _ ?hv1_0) $$ HO1_0
      case hv1_0 => unfold_carried; simp only [ReadAs.apply_same, View.read_write_univ]; exact val1_0 m d

  isplitl [Hb0' Hb1' Hb2' Hbufs]
  · isplitl [Hb0']
    · iexists _; iapply (Entails.of_eq (pts_b0 d (cV LL) (jV LL) _)); iexact Hb0'
    isplitl [Hb1']
    · iexists _; iapply (Entails.of_eq (pts_b1 d (cV LL) (jV LL) _)); iexact Hb1'
    isplitl [Hb2']
    · iexists _; iapply (Entails.of_eq (pts_b2 d (cV LL) (jV LL) _)); iexact Hb2'
    iexact Hbufs
  isplitl [Hs3 Hs4 Hs5 Hs6 Hs7 Hs8 Hsems]
  · isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    iexact Hsems
  iexists _; isplitr
  rotate_left
  · iexact HO
  · ipureintro; intro p hp
    simp only [Finset.mem_insert] at hp
    rcases hp with rfl | rfl | rfl | rfl | rfl | rfl | hp <;> first | exact .inr rfl | exact .inl hp

end Cert.Proof.KI.Tile9

end
-- ==== Proof.KITile10.lean ====
/-
  Tile 10 of the kernel (subcore 5 of core 0): one slice in (pose12.1), 3 out; one slice in (len6), 1 out.
  Its whole body is run: every copy it does not own is skipped by the comparison of its number with the copy's owner;
  each incoming copy fills a staging buffer, each outgoing copy carries that buffer into one slice of the output array,
  and what each output slice then holds is the source slice the specification asks for there.
-/
import proofs.«210185_g18468359372994_cont_8to1_1390_15_alg».proof.Proof.KIRead

set_option maxHeartbeats 4000000
set_option quotPrecheck false

noncomputable section

namespace Cert.Proof.KI.Tile10

open Cert.KernelIdeal Cert.KernelIdeal.Gen
open Cert.Proof.KI
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
theorem cLt : 0 < grid0.bound 0 := by decide
theorem sLt : 5 < grid0.bound 1 := by decide
local notation "LL" => (coordsV (⟨0, cLt⟩ : Fin (grid0.bound 0)) (⟨5, sLt⟩ : Fin (grid0.bound 1)))
local notation "TH" d => V d (cV LL) (jV LL)
local notation "SRC0" => (((Memref.whole main_v2_scv).slice (Rect.unit (s := S17x128x2x128) ![12, 0, 1, 0] S1x128x1x128.size inb_S17x128x2x128_S1x128x1x128_12_0_1_0) (fun _ => rfl)).squeeze S128x128 squeezes_S1x128x1x128_S128x128 : Memref sig .scVector .hbm S128x128 .f32)
local notation "OUT0_0" => (((Memref.whole main_v10_scv).slice (Rect.unit (s := S9x2x128x8x128) ![4, 0, 0, 6, 0] S1x1x128x1x128.size inb_S9x2x128x8x128_S1x1x128x1x128_4_0_0_6_0) (fun _ => rfl)).squeeze S128x128 squeezes_S1x1x128x1x128_S128x128 : Memref sig .scVector .hbm S128x128 .f32)
local notation "OUT0_1" => (((Memref.whole main_v10_scv).slice (Rect.unit (s := S9x2x128x8x128) ![6, 1, 0, 1, 0] S1x1x128x1x128.size inb_S9x2x128x8x128_S1x1x128x1x128_6_1_0_1_0) (fun _ => rfl)).squeeze S128x128 squeezes_S1x1x128x1x128_S128x128 : Memref sig .scVector .hbm S128x128 .f32)
local notation "OUT0_2" => (((Memref.whole main_v10_scv).slice (Rect.unit (s := S9x2x128x8x128) ![6, 1, 0, 3, 0] S1x1x128x1x128.size inb_S9x2x128x8x128_S1x1x128x1x128_6_1_0_3_0) (fun _ => rfl)).squeeze S128x128 squeezes_S1x1x128x1x128_S128x128 : Memref sig .scVector .hbm S128x128 .f32)
local notation "SRC1" => (((Memref.whole main_v9_scv).slice (Rect.unit (s := S14x128x128) ![6, 0, 0] S1x128x128.size inb_S14x128x128_S1x128x128_6_0_0) (fun _ => rfl)).squeeze S128x128 squeezes_S1x128x128_S128x128 : Memref sig .scVector .hbm S128x128 .f32)
local notation "OUT1_0" => (((Memref.whole main_v10_scv).slice (Rect.unit (s := S9x2x128x8x128) ![2, 0, 0, 6, 0] S1x1x128x1x128.size inb_S9x2x128x8x128_S1x1x128x1x128_2_0_0_6_0) (fun _ => rfl)).squeeze S128x128 squeezes_S1x1x128x1x128_S128x128 : Memref sig .scVector .hbm S128x128 .f32)

/-! ## The tile's slices, as its memrefs name them -/

theorem open2 (m : (ℓ : Loc nD τ sig) → Buf (Elt F) ℓ) (d : Dev nD) :
    (bigSep (t2 (10 : Fin 32)) (A2 m d) : sProp 𝕄) = iprop(((SRC0).view.loc (TH d) ↦[(SRC0).view.set]{fullShare} V2c m d)) := by
  show bigSep ({((12 : Fin 17), (1 : Fin 2))} : Finset (Fin 17 × Fin 2)) (A2 m d) = _
  rw [bigSep_singleton]
  exact (pts_v2 d (cV LL) (jV LL) (12 : Fin 17) (1 : Fin 2) _ (V2c m d)).symm
theorem open9 (m : (ℓ : Loc nD τ sig) → Buf (Elt F) ℓ) (d : Dev nD) :
    (bigSep (t9 (10 : Fin 32)) (A9 m d) : sProp 𝕄) = iprop(((SRC1).view.loc (TH d) ↦[(SRC1).view.set]{fullShare} V9c m d)) := by
  show bigSep ({(6 : Fin 14)} : Finset (Fin 14)) (A9 m d) = _
  rw [bigSep_singleton]
  exact (pts_v9 d (cV LL) (jV LL) (6 : Fin 14) _ (V9c m d)).symm
theorem open10 (m : (ℓ : Loc nD τ sig) → Buf (Elt F) ℓ) (d : Dev nD) :
    (bigSep (t10 (10 : Fin 32)) (B0 m d) : sProp 𝕄) = iprop(((OUT0_0).view.loc (TH d) ↦[(OUT0_0).view.set]{fullShare} m (v10L d)) ∗ ((OUT0_1).view.loc (TH d) ↦[(OUT0_1).view.set]{fullShare} m (v10L d)) ∗ ((OUT0_2).view.loc (TH d) ↦[(OUT0_2).view.set]{fullShare} m (v10L d)) ∗ ((OUT1_0).view.loc (TH d) ↦[(OUT1_0).view.set]{fullShare} m (v10L d))) := by
  show bigSep ({((4 : Fin 9), (0 : Fin 2), (6 : Fin 8)), ((6 : Fin 9), (1 : Fin 2), (1 : Fin 8)), ((6 : Fin 9), (1 : Fin 2), (3 : Fin 8)), ((2 : Fin 9), (0 : Fin 2), (6 : Fin 8))} : Finset (Fin 9 × Fin 2 × Fin 8)) (B0 m d) = _
  rw [SparseCore.bigSep_insert' (by decide), SparseCore.bigSep_insert' (by decide), SparseCore.bigSep_insert' (by decide), bigSep_singleton]
  exact (congrArg₂ (fun a b : sProp 𝕄 => iprop(a ∗ b)) (pts_v10 d (cV LL) (jV LL) (4 : Fin 9) (0 : Fin 2) (6 : Fin 8) _ (m (v10L d))).symm (congrArg₂ (fun a b : sProp 𝕄 => iprop(a ∗ b)) (pts_v10 d (cV LL) (jV LL) (6 : Fin 9) (1 : Fin 2) (1 : Fin 8) _ (m (v10L d))).symm (congrArg₂ (fun a b : sProp 𝕄 => iprop(a ∗ b)) (pts_v10 d (cV LL) (jV LL) (6 : Fin 9) (1 : Fin 2) (3 : Fin 8) _ (m (v10L d))).symm (pts_v10 d (cV LL) (jV LL) (2 : Fin 9) (0 : Fin 2) (6 : Fin 8) _ (m (v10L d))).symm)))
theorem close10 (m : (ℓ : Loc nD τ sig) → Buf (Elt F) ℓ) (d : Dev nD) :
    (bigSep (t10 (10 : Fin 32)) (B1 m d) : sProp 𝕄) = iprop(((OUT0_0).view.loc (TH d) ↦[(OUT0_0).view.set]{fullShare} OUTc m d) ∗ ((OUT0_1).view.loc (TH d) ↦[(OUT0_1).view.set]{fullShare} OUTc m d) ∗ ((OUT0_2).view.loc (TH d) ↦[(OUT0_2).view.set]{fullShare} OUTc m d) ∗ ((OUT1_0).view.loc (TH d) ↦[(OUT1_0).view.set]{fullShare} OUTc m d)) := by
  show bigSep ({((4 : Fin 9), (0 : Fin 2), (6 : Fin 8)), ((6 : Fin 9), (1 : Fin 2), (1 : Fin 8)), ((6 : Fin 9), (1 : Fin 2), (3 : Fin 8)), ((2 : Fin 9), (0 : Fin 2), (6 : Fin 8))} : Finset (Fin 9 × Fin 2 × Fin 8)) (B1 m d) = _
  rw [SparseCore.bigSep_insert' (by decide), SparseCore.bigSep_insert' (by decide), SparseCore.bigSep_insert' (by decide), bigSep_singleton]
  exact (congrArg₂ (fun a b : sProp 𝕄 => iprop(a ∗ b)) (pts_v10 d (cV LL) (jV LL) (4 : Fin 9) (0 : Fin 2) (6 : Fin 8) _ (OUTc m d)).symm (congrArg₂ (fun a b : sProp 𝕄 => iprop(a ∗ b)) (pts_v10 d (cV LL) (jV LL) (6 : Fin 9) (1 : Fin 2) (1 : Fin 8) _ (OUTc m d)).symm (congrArg₂ (fun a b : sProp 𝕄 => iprop(a ∗ b)) (pts_v10 d (cV LL) (jV LL) (6 : Fin 9) (1 : Fin 2) (3 : Fin 8) _ (OUTc m d)).symm (pts_v10 d (cV LL) (jV LL) (2 : Fin 9) (0 : Fin 2) (6 : Fin 8) _ (OUTc m d)).symm)))

/-! ## What each output slice has to hold is what its source slice holds -/

theorem val0_0 (m : (ℓ : Loc nD τ sig) → Buf (Elt F) ℓ) (d : Dev nD) :
    (SRC0).view.read (Elt F) (V2c m d) = (OUT0_0).view.read (Elt F) (OUTc m d) := by
  funext y
  obtain ⟨t, q, rfl⟩ : ∃ (t q : Fin 128), y = ix2 t q := ⟨y 0, y 1, eq_ix2 y⟩
  refine (read_v2 (12 : Fin 17) (1 : Fin 2) _ _ t q).trans ((?_ : _ = _).trans (read_v10 (4 : Fin 9) (0 : Fin 2) (6 : Fin 8) _ _ t q).symm)
  unfold V2c OUTc
  rw [Cert.Layout.poseV_apply]
  refine Eq.trans ?_ (outV_at _ _ _ _ _ _ _ t _ q (show 8 * 0 + 6 < 14 by decide)).symm
  rfl
theorem val0_1 (m : (ℓ : Loc nD τ sig) → Buf (Elt F) ℓ) (d : Dev nD) :
    (SRC0).view.read (Elt F) (V2c m d) = (OUT0_1).view.read (Elt F) (OUTc m d) := by
  funext y
  obtain ⟨t, q, rfl⟩ : ∃ (t q : Fin 128), y = ix2 t q := ⟨y 0, y 1, eq_ix2 y⟩
  refine (read_v2 (12 : Fin 17) (1 : Fin 2) _ _ t q).trans ((?_ : _ = _).trans (read_v10 (6 : Fin 9) (1 : Fin 2) (1 : Fin 8) _ _ t q).symm)
  unfold V2c OUTc
  rw [Cert.Layout.poseV_apply]
  refine Eq.trans ?_ (outV_at _ _ _ _ _ _ _ t _ q (show 8 * 1 + 1 < 14 by decide)).symm
  rfl
theorem val0_2 (m : (ℓ : Loc nD τ sig) → Buf (Elt F) ℓ) (d : Dev nD) :
    (SRC0).view.read (Elt F) (V2c m d) = (OUT0_2).view.read (Elt F) (OUTc m d) := by
  funext y
  obtain ⟨t, q, rfl⟩ : ∃ (t q : Fin 128), y = ix2 t q := ⟨y 0, y 1, eq_ix2 y⟩
  refine (read_v2 (12 : Fin 17) (1 : Fin 2) _ _ t q).trans ((?_ : _ = _).trans (read_v10 (6 : Fin 9) (1 : Fin 2) (3 : Fin 8) _ _ t q).symm)
  unfold V2c OUTc
  rw [Cert.Layout.poseV_apply]
  refine Eq.trans ?_ (outV_at _ _ _ _ _ _ _ t _ q (show 8 * 1 + 3 < 14 by decide)).symm
  rfl
theorem val1_0 (m : (ℓ : Loc nD τ sig) → Buf (Elt F) ℓ) (d : Dev nD) :
    (SRC1).view.read (Elt F) (V9c m d) = (OUT1_0).view.read (Elt F) (OUTc m d) := by
  funext y
  obtain ⟨t, q, rfl⟩ : ∃ (t q : Fin 128), y = ix2 t q := ⟨y 0, y 1, eq_ix2 y⟩
  refine (read_v9 (6 : Fin 14) _ _ t q).trans ((?_ : _ = _).trans (read_v10 (2 : Fin 9) (0 : Fin 2) (6 : Fin 8) _ _ t q).symm)
  unfold V9c OUTc
  rw [Cert.Layout.lenV_apply]
  refine Eq.trans ?_ (outV_at _ _ _ _ _ _ _ t _ q (show 8 * 0 + 6 < 14 by decide)).symm
  rfl

/-! ## The run -/

open Lean Elab Tactic Meta in
/-- Unfold the names the symbolic run gave to the values its copies carry. -/
elab "unfold_carried" : tactic => do
  for _ in [0:6] do
    let g ← getMainGoal
    let t ← instantiateMVars (← g.getType)
    if (t.getUsedConstants.any fun n => n.components.any (· == `sl)) then
      let t' ← deltaExpand t (fun n => n.components.any (· == `sl))
      let g' ← g.change t' (checkDefEq := false)
      replaceMainGoal [g']

variable [FloatOps F] [∀ e, Nonempty (Elt F e)]

theorem run (m : (ℓ : Loc nD τ sig) → Buf (Elt F) ℓ) (d : Dev nD) (O : CellTallies nD τ sig (HIx 1)) (W : Waits sig (HIx 1)) (hO : ∀ g, O g none = 0) :
    (iprop(levAts (K (F := F)).L (K (F := F)).lev ∗ tileG m d (10 : Fin 32)
        ∗ scopedBufs (TH d) ∗ scopedSems0 (TH d) ∗ owes (TH d) O W) : sProp 𝕄)
      ⊢ wp frame (wpE (defs₀ (F := F)) 𝒱₀ (TH d) none) Set.univ
          (cc0_run LL (Memref.whole main_v2_scv) (Memref.isWhole_whole _) (Memref.whole main_v7_scv) (Memref.isWhole_whole _) (Memref.whole main_v5_scv) (Memref.isWhole_whole _) (Memref.whole main_v9_scv) (Memref.isWhole_whole _) (Memref.whole main_v10_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8)
          fun _ => iprop(tileT m d (10 : Fin 32) ∗ scopedBufs (TH d) ∗ scopedSems0 (TH d)
            ∗ ∃ W', ⌜∀ p ∈ W', p ∈ W ∨ p.2 = none⌝ ∗ owes (TH d) O W') := by
  rw [(K (F := F)).scopedBufs_V facts d (cV LL) (jV LL), SparseCore.Cfg.scopedSems0_V (Val := Elt F) d (cV LL) (jV LL), ownSems0_V, ownBufs_V]
  unfold tileG tileT
  iintro ⟨#Hlv, ⟨HF2, -, -, HF9, HF10⟩, ⟨⟨%fb0, Hb0⟩, ⟨%fb1, Hb1⟩, ⟨%fb2, Hb2⟩, Hbufs⟩, ⟨Hs3, Hs4, Hs5, Hs6, Hs7, Hs8, Hsems⟩, HO⟩
  ihave HF2' := (Entails.of_eq (open2 m d)) $$ HF2
  icases HF2' with HS0
  ihave HF9' := (Entails.of_eq (open9 m d)) $$ HF9
  icases HF9' with HS1
  ihave HF10' := (Entails.of_eq (open10 m d)) $$ HF10
  icases HF10' with ⟨HO0_0, HO0_1, HO0_2, HO1_0⟩
  ihave Hmw := ((K (F := F)).mayWaits_none (thr := TH d) hO) $$ Hlv
  ihave Hb0' := (Entails.of_eq (pts_b0 d (cV LL) (jV LL) _).symm) $$ Hb0
  ihave Hb1' := (Entails.of_eq (pts_b1 d (cV LL) (jV LL) _).symm) $$ Hb1
  ihave Hb2' := (Entails.of_eq (pts_b2 d (cV LL) (jV LL) _).symm) $$ Hb2
  have _plan : Transfers.BatchOf (TH d) (SemLoc.dma (sig := sig) cc0_scratch6.sem) 3 (windows := true) := trivial
  sl_unfold [cc0_run]
  sl_exec_parts (disch := decide)
  sl_step
  isplitl [HS0 HS1 HO0_0 HO0_1 HO0_2 HO1_0]
  · skip
    isplitl [HS0]
    · iapply (Entails.of_eq (open2 m d).symm)
      iexact HS0
    isplitr
    · rw [show t7 (10 : Fin 32) = ∅ from rfl, bigSep_empty]; iempintro
    isplitr
    · rw [show t5 (10 : Fin 32) = ∅ from rfl, bigSep_empty]; iempintro
    isplitl [HS1]
    · iapply (Entails.of_eq (open9 m d).symm)
      iexact HS1
    · iapply (Entails.of_eq (close10 m d).symm)
      isplitl [HO0_0]
      · iapply (out_post_ent (TH d) (OUT0_0) _ (OUTc m d) _ ?hv0_0) $$ HO0_0
        case hv0_0 => unfold_carried; simp only [ReadAs.apply_same, View.read_write_univ]; exact val0_0 m d
      isplitl [HO0_1]
      · iapply (out_post_ent (TH d) (OUT0_1) _ (OUTc m d) _ ?hv0_1) $$ HO0_1
        case hv0_1 => unfold_carried; simp only [ReadAs.apply_same, View.read_write_univ]; exact val0_1 m d
      isplitl [HO0_2]
      · iapply (out_post_ent (TH d) (OUT0_2) _ (OUTc m d) _ ?hv0_2) $$ HO0_2
        case hv0_2 => unfold_carried; simp only [ReadAs.apply_same, View.read_write_univ]; exact val0_2 m d
      iapply (out_post_ent (TH d) (OUT1_0) _ (OUTc m d) _ ?hv1_0) $$ HO1_0
      case hv1_0 => unfold_carried; simp only [ReadAs.apply_same, View.read_write_univ]; exact val1_0 m d

  isplitl [Hb0' Hb1' Hb2' Hbufs]
  · isplitl [Hb0']
    · iexists _; iapply (Entails.of_eq (pts_b0 d (cV LL) (jV LL) _)); iexact Hb0'
    isplitl [Hb1']
    · iexists _; iapply (Entails.of_eq (pts_b1 d (cV LL) (jV LL) _)); iexact Hb1'
    isplitl [Hb2']
    · iexists _; iapply (Entails.of_eq (pts_b2 d (cV LL) (jV LL) _)); iexact Hb2'
    iexact Hbufs
  isplitl [Hs3 Hs4 Hs5 Hs6 Hs7 Hs8 Hsems]
  · isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    iexact Hsems
  iexists _; isplitr
  rotate_left
  · iexact HO
  · ipureintro; intro p hp
    simp only [Finset.mem_insert] at hp
    rcases hp with rfl | rfl | rfl | rfl | rfl | rfl | hp <;> first | exact .inr rfl | exact .inl hp

end Cert.Proof.KI.Tile10

end
-- ==== Proof.KITile11.lean ====
/-
  Tile 11 of the kernel (subcore 5 of core 1): one slice in (vis12), 3 out; one slice in (delta7.0), 1 out.
  Its whole body is run: every copy it does not own is skipped by the comparison of its number with the copy's owner;
  each incoming copy fills a staging buffer, each outgoing copy carries that buffer into one slice of the output array,
  and what each output slice then holds is the source slice the specification asks for there.
-/
import proofs.«210185_g18468359372994_cont_8to1_1390_15_alg».proof.Proof.KIRead

set_option maxHeartbeats 4000000
set_option quotPrecheck false

noncomputable section

namespace Cert.Proof.KI.Tile11

open Cert.KernelIdeal Cert.KernelIdeal.Gen
open Cert.Proof.KI
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
theorem cLt : 1 < grid0.bound 0 := by decide
theorem sLt : 5 < grid0.bound 1 := by decide
local notation "LL" => (coordsV (⟨1, cLt⟩ : Fin (grid0.bound 0)) (⟨5, sLt⟩ : Fin (grid0.bound 1)))
local notation "TH" d => V d (cV LL) (jV LL)
local notation "SRC0" => (((Memref.whole main_v7_scv).slice (Rect.unit (s := S17x128x128) ![12, 0, 0] S1x128x128.size inb_S17x128x128_S1x128x128_12_0_0) (fun _ => rfl)).squeeze S128x128 squeezes_S1x128x128_S128x128 : Memref sig .scVector .hbm S128x128 .f32)
local notation "OUT0_0" => (((Memref.whole main_v10_scv).slice (Rect.unit (s := S9x2x128x8x128) ![7, 0, 0, 6, 0] S1x1x128x1x128.size inb_S9x2x128x8x128_S1x1x128x1x128_7_0_0_6_0) (fun _ => rfl)).squeeze S128x128 squeezes_S1x1x128x1x128_S128x128 : Memref sig .scVector .hbm S128x128 .f32)
local notation "OUT0_1" => (((Memref.whole main_v10_scv).slice (Rect.unit (s := S9x2x128x8x128) ![8, 1, 0, 1, 0] S1x1x128x1x128.size inb_S9x2x128x8x128_S1x1x128x1x128_8_1_0_1_0) (fun _ => rfl)).squeeze S128x128 squeezes_S1x1x128x1x128_S128x128 : Memref sig .scVector .hbm S128x128 .f32)
local notation "OUT0_2" => (((Memref.whole main_v10_scv).slice (Rect.unit (s := S9x2x128x8x128) ![8, 1, 0, 3, 0] S1x1x128x1x128.size inb_S9x2x128x8x128_S1x1x128x1x128_8_1_0_3_0) (fun _ => rfl)).squeeze S128x128 squeezes_S1x1x128x1x128_S128x128 : Memref sig .scVector .hbm S128x128 .f32)
local notation "SRC1" => (((Memref.whole main_v5_scv).slice (Rect.unit (s := S14x128x2x128) ![7, 0, 0, 0] S1x128x1x128.size inb_S14x128x2x128_S1x128x1x128_7_0_0_0) (fun _ => rfl)).squeeze S128x128 squeezes_S1x128x1x128_S128x128 : Memref sig .scVector .hbm S128x128 .f32)
local notation "OUT1_0" => (((Memref.whole main_v10_scv).slice (Rect.unit (s := S9x2x128x8x128) ![0, 0, 0, 7, 0] S1x1x128x1x128.size inb_S9x2x128x8x128_S1x1x128x1x128_0_0_0_7_0) (fun _ => rfl)).squeeze S128x128 squeezes_S1x1x128x1x128_S128x128 : Memref sig .scVector .hbm S128x128 .f32)

/-! ## The tile's slices, as its memrefs name them -/

theorem open7 (m : (ℓ : Loc nD τ sig) → Buf (Elt F) ℓ) (d : Dev nD) :
    (bigSep (t7 (11 : Fin 32)) (A7 m d) : sProp 𝕄) = iprop(((SRC0).view.loc (TH d) ↦[(SRC0).view.set]{fullShare} V7c m d)) := by
  show bigSep ({(12 : Fin 17)} : Finset (Fin 17)) (A7 m d) = _
  rw [bigSep_singleton]
  exact (pts_v7 d (cV LL) (jV LL) (12 : Fin 17) _ (V7c m d)).symm
theorem open5 (m : (ℓ : Loc nD τ sig) → Buf (Elt F) ℓ) (d : Dev nD) :
    (bigSep (t5 (11 : Fin 32)) (A5 m d) : sProp 𝕄) = iprop(((SRC1).view.loc (TH d) ↦[(SRC1).view.set]{fullShare} V5c m d)) := by
  show bigSep ({((7 : Fin 14), (0 : Fin 2))} : Finset (Fin 14 × Fin 2)) (A5 m d) = _
  rw [bigSep_singleton]
  exact (pts_v5 d (cV LL) (jV LL) (7 : Fin 14) (0 : Fin 2) _ (V5c m d)).symm
theorem open10 (m : (ℓ : Loc nD τ sig) → Buf (Elt F) ℓ) (d : Dev nD) :
    (bigSep (t10 (11 : Fin 32)) (B0 m d) : sProp 𝕄) = iprop(((OUT0_0).view.loc (TH d) ↦[(OUT0_0).view.set]{fullShare} m (v10L d)) ∗ ((OUT0_1).view.loc (TH d) ↦[(OUT0_1).view.set]{fullShare} m (v10L d)) ∗ ((OUT0_2).view.loc (TH d) ↦[(OUT0_2).view.set]{fullShare} m (v10L d)) ∗ ((OUT1_0).view.loc (TH d) ↦[(OUT1_0).view.set]{fullShare} m (v10L d))) := by
  show bigSep ({((7 : Fin 9), (0 : Fin 2), (6 : Fin 8)), ((8 : Fin 9), (1 : Fin 2), (1 : Fin 8)), ((8 : Fin 9), (1 : Fin 2), (3 : Fin 8)), ((0 : Fin 9), (0 : Fin 2), (7 : Fin 8))} : Finset (Fin 9 × Fin 2 × Fin 8)) (B0 m d) = _
  rw [SparseCore.bigSep_insert' (by decide), SparseCore.bigSep_insert' (by decide), SparseCore.bigSep_insert' (by decide), bigSep_singleton]
  exact (congrArg₂ (fun a b : sProp 𝕄 => iprop(a ∗ b)) (pts_v10 d (cV LL) (jV LL) (7 : Fin 9) (0 : Fin 2) (6 : Fin 8) _ (m (v10L d))).symm (congrArg₂ (fun a b : sProp 𝕄 => iprop(a ∗ b)) (pts_v10 d (cV LL) (jV LL) (8 : Fin 9) (1 : Fin 2) (1 : Fin 8) _ (m (v10L d))).symm (congrArg₂ (fun a b : sProp 𝕄 => iprop(a ∗ b)) (pts_v10 d (cV LL) (jV LL) (8 : Fin 9) (1 : Fin 2) (3 : Fin 8) _ (m (v10L d))).symm (pts_v10 d (cV LL) (jV LL) (0 : Fin 9) (0 : Fin 2) (7 : Fin 8) _ (m (v10L d))).symm)))
theorem close10 (m : (ℓ : Loc nD τ sig) → Buf (Elt F) ℓ) (d : Dev nD) :
    (bigSep (t10 (11 : Fin 32)) (B1 m d) : sProp 𝕄) = iprop(((OUT0_0).view.loc (TH d) ↦[(OUT0_0).view.set]{fullShare} OUTc m d) ∗ ((OUT0_1).view.loc (TH d) ↦[(OUT0_1).view.set]{fullShare} OUTc m d) ∗ ((OUT0_2).view.loc (TH d) ↦[(OUT0_2).view.set]{fullShare} OUTc m d) ∗ ((OUT1_0).view.loc (TH d) ↦[(OUT1_0).view.set]{fullShare} OUTc m d)) := by
  show bigSep ({((7 : Fin 9), (0 : Fin 2), (6 : Fin 8)), ((8 : Fin 9), (1 : Fin 2), (1 : Fin 8)), ((8 : Fin 9), (1 : Fin 2), (3 : Fin 8)), ((0 : Fin 9), (0 : Fin 2), (7 : Fin 8))} : Finset (Fin 9 × Fin 2 × Fin 8)) (B1 m d) = _
  rw [SparseCore.bigSep_insert' (by decide), SparseCore.bigSep_insert' (by decide), SparseCore.bigSep_insert' (by decide), bigSep_singleton]
  exact (congrArg₂ (fun a b : sProp 𝕄 => iprop(a ∗ b)) (pts_v10 d (cV LL) (jV LL) (7 : Fin 9) (0 : Fin 2) (6 : Fin 8) _ (OUTc m d)).symm (congrArg₂ (fun a b : sProp 𝕄 => iprop(a ∗ b)) (pts_v10 d (cV LL) (jV LL) (8 : Fin 9) (1 : Fin 2) (1 : Fin 8) _ (OUTc m d)).symm (congrArg₂ (fun a b : sProp 𝕄 => iprop(a ∗ b)) (pts_v10 d (cV LL) (jV LL) (8 : Fin 9) (1 : Fin 2) (3 : Fin 8) _ (OUTc m d)).symm (pts_v10 d (cV LL) (jV LL) (0 : Fin 9) (0 : Fin 2) (7 : Fin 8) _ (OUTc m d)).symm)))

/-! ## What each output slice has to hold is what its source slice holds -/

theorem val0_0 (m : (ℓ : Loc nD τ sig) → Buf (Elt F) ℓ) (d : Dev nD) :
    (SRC0).view.read (Elt F) (V7c m d) = (OUT0_0).view.read (Elt F) (OUTc m d) := by
  funext y
  obtain ⟨t, q, rfl⟩ : ∃ (t q : Fin 128), y = ix2 t q := ⟨y 0, y 1, eq_ix2 y⟩
  refine (read_v7 (12 : Fin 17) _ _ t q).trans ((?_ : _ = _).trans (read_v10 (7 : Fin 9) (0 : Fin 2) (6 : Fin 8) _ _ t q).symm)
  unfold V7c OUTc
  rw [Cert.Layout.visV_apply]
  refine Eq.trans ?_ (outV_at _ _ _ _ _ _ _ t _ q (show 8 * 0 + 6 < 14 by decide)).symm
  rfl
theorem val0_1 (m : (ℓ : Loc nD τ sig) → Buf (Elt F) ℓ) (d : Dev nD) :
    (SRC0).view.read (Elt F) (V7c m d) = (OUT0_1).view.read (Elt F) (OUTc m d) := by
  funext y
  obtain ⟨t, q, rfl⟩ : ∃ (t q : Fin 128), y = ix2 t q := ⟨y 0, y 1, eq_ix2 y⟩
  refine (read_v7 (12 : Fin 17) _ _ t q).trans ((?_ : _ = _).trans (read_v10 (8 : Fin 9) (1 : Fin 2) (1 : Fin 8) _ _ t q).symm)
  unfold V7c OUTc
  rw [Cert.Layout.visV_apply]
  refine Eq.trans ?_ (outV_at _ _ _ _ _ _ _ t _ q (show 8 * 1 + 1 < 14 by decide)).symm
  rfl
theorem val0_2 (m : (ℓ : Loc nD τ sig) → Buf (Elt F) ℓ) (d : Dev nD) :
    (SRC0).view.read (Elt F) (V7c m d) = (OUT0_2).view.read (Elt F) (OUTc m d) := by
  funext y
  obtain ⟨t, q, rfl⟩ : ∃ (t q : Fin 128), y = ix2 t q := ⟨y 0, y 1, eq_ix2 y⟩
  refine (read_v7 (12 : Fin 17) _ _ t q).trans ((?_ : _ = _).trans (read_v10 (8 : Fin 9) (1 : Fin 2) (3 : Fin 8) _ _ t q).symm)
  unfold V7c OUTc
  rw [Cert.Layout.visV_apply]
  refine Eq.trans ?_ (outV_at _ _ _ _ _ _ _ t _ q (show 8 * 1 + 3 < 14 by decide)).symm
  rfl
theorem val1_0 (m : (ℓ : Loc nD τ sig) → Buf (Elt F) ℓ) (d : Dev nD) :
    (SRC1).view.read (Elt F) (V5c m d) = (OUT1_0).view.read (Elt F) (OUTc m d) := by
  funext y
  obtain ⟨t, q, rfl⟩ : ∃ (t q : Fin 128), y = ix2 t q := ⟨y 0, y 1, eq_ix2 y⟩
  refine (read_v5 (7 : Fin 14) (0 : Fin 2) _ _ t q).trans ((?_ : _ = _).trans (read_v10 (0 : Fin 9) (0 : Fin 2) (7 : Fin 8) _ _ t q).symm)
  unfold V5c OUTc
  rw [Cert.Layout.deltaV_apply]
  refine Eq.trans ?_ (outV_at _ _ _ _ _ _ _ t _ q (show 8 * 0 + 7 < 14 by decide)).symm
  rfl

/-! ## The run -/

open Lean Elab Tactic Meta in
/-- Unfold the names the symbolic run gave to the values its copies carry. -/
elab "unfold_carried" : tactic => do
  for _ in [0:6] do
    let g ← getMainGoal
    let t ← instantiateMVars (← g.getType)
    if (t.getUsedConstants.any fun n => n.components.any (· == `sl)) then
      let t' ← deltaExpand t (fun n => n.components.any (· == `sl))
      let g' ← g.change t' (checkDefEq := false)
      replaceMainGoal [g']

variable [FloatOps F] [∀ e, Nonempty (Elt F e)]

theorem run (m : (ℓ : Loc nD τ sig) → Buf (Elt F) ℓ) (d : Dev nD) (O : CellTallies nD τ sig (HIx 1)) (W : Waits sig (HIx 1)) (hO : ∀ g, O g none = 0) :
    (iprop(levAts (K (F := F)).L (K (F := F)).lev ∗ tileG m d (11 : Fin 32)
        ∗ scopedBufs (TH d) ∗ scopedSems0 (TH d) ∗ owes (TH d) O W) : sProp 𝕄)
      ⊢ wp frame (wpE (defs₀ (F := F)) 𝒱₀ (TH d) none) Set.univ
          (cc0_run LL (Memref.whole main_v2_scv) (Memref.isWhole_whole _) (Memref.whole main_v7_scv) (Memref.isWhole_whole _) (Memref.whole main_v5_scv) (Memref.isWhole_whole _) (Memref.whole main_v9_scv) (Memref.isWhole_whole _) (Memref.whole main_v10_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8)
          fun _ => iprop(tileT m d (11 : Fin 32) ∗ scopedBufs (TH d) ∗ scopedSems0 (TH d)
            ∗ ∃ W', ⌜∀ p ∈ W', p ∈ W ∨ p.2 = none⌝ ∗ owes (TH d) O W') := by
  rw [(K (F := F)).scopedBufs_V facts d (cV LL) (jV LL), SparseCore.Cfg.scopedSems0_V (Val := Elt F) d (cV LL) (jV LL), ownSems0_V, ownBufs_V]
  unfold tileG tileT
  iintro ⟨#Hlv, ⟨-, HF7, HF5, -, HF10⟩, ⟨⟨%fb0, Hb0⟩, ⟨%fb1, Hb1⟩, ⟨%fb2, Hb2⟩, Hbufs⟩, ⟨Hs3, Hs4, Hs5, Hs6, Hs7, Hs8, Hsems⟩, HO⟩
  ihave HF7' := (Entails.of_eq (open7 m d)) $$ HF7
  icases HF7' with HS0
  ihave HF5' := (Entails.of_eq (open5 m d)) $$ HF5
  icases HF5' with HS1
  ihave HF10' := (Entails.of_eq (open10 m d)) $$ HF10
  icases HF10' with ⟨HO0_0, HO0_1, HO0_2, HO1_0⟩
  ihave Hmw := ((K (F := F)).mayWaits_none (thr := TH d) hO) $$ Hlv
  ihave Hb0' := (Entails.of_eq (pts_b0 d (cV LL) (jV LL) _).symm) $$ Hb0
  ihave Hb1' := (Entails.of_eq (pts_b1 d (cV LL) (jV LL) _).symm) $$ Hb1
  ihave Hb2' := (Entails.of_eq (pts_b2 d (cV LL) (jV LL) _).symm) $$ Hb2
  have _plan : Transfers.BatchOf (TH d) (SemLoc.dma (sig := sig) cc0_scratch6.sem) 3 (windows := true) := trivial
  sl_unfold [cc0_run]
  sl_exec_parts (disch := decide)
  sl_step
  isplitl [HS0 HS1 HO0_0 HO0_1 HO0_2 HO1_0]
  · skip
    isplitr
    · rw [show t2 (11 : Fin 32) = ∅ from rfl, bigSep_empty]; iempintro
    isplitl [HS0]
    · iapply (Entails.of_eq (open7 m d).symm)
      iexact HS0
    isplitl [HS1]
    · iapply (Entails.of_eq (open5 m d).symm)
      iexact HS1
    isplitr
    · rw [show t9 (11 : Fin 32) = ∅ from rfl, bigSep_empty]; iempintro
    · iapply (Entails.of_eq (close10 m d).symm)
      isplitl [HO0_0]
      · iapply (out_post_ent (TH d) (OUT0_0) _ (OUTc m d) _ ?hv0_0) $$ HO0_0
        case hv0_0 => unfold_carried; simp only [ReadAs.apply_same, View.read_write_univ]; exact val0_0 m d
      isplitl [HO0_1]
      · iapply (out_post_ent (TH d) (OUT0_1) _ (OUTc m d) _ ?hv0_1) $$ HO0_1
        case hv0_1 => unfold_carried; simp only [ReadAs.apply_same, View.read_write_univ]; exact val0_1 m d
      isplitl [HO0_2]
      · iapply (out_post_ent (TH d) (OUT0_2) _ (OUTc m d) _ ?hv0_2) $$ HO0_2
        case hv0_2 => unfold_carried; simp only [ReadAs.apply_same, View.read_write_univ]; exact val0_2 m d
      iapply (out_post_ent (TH d) (OUT1_0) _ (OUTc m d) _ ?hv1_0) $$ HO1_0
      case hv1_0 => unfold_carried; simp only [ReadAs.apply_same, View.read_write_univ]; exact val1_0 m d

  isplitl [Hb0' Hb1' Hb2' Hbufs]
  · isplitl [Hb0']
    · iexists _; iapply (Entails.of_eq (pts_b0 d (cV LL) (jV LL) _)); iexact Hb0'
    isplitl [Hb1']
    · iexists _; iapply (Entails.of_eq (pts_b1 d (cV LL) (jV LL) _)); iexact Hb1'
    isplitl [Hb2']
    · iexists _; iapply (Entails.of_eq (pts_b2 d (cV LL) (jV LL) _)); iexact Hb2'
    iexact Hbufs
  isplitl [Hs3 Hs4 Hs5 Hs6 Hs7 Hs8 Hsems]
  · isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    iexact Hsems
  iexists _; isplitr
  rotate_left
  · iexact HO
  · ipureintro; intro p hp
    simp only [Finset.mem_insert] at hp
    rcases hp with rfl | rfl | rfl | rfl | rfl | rfl | hp <;> first | exact .inr rfl | exact .inl hp

end Cert.Proof.KI.Tile11

end
-- ==== Proof.KITile12.lean ====
/-
  Tile 12 of the kernel (subcore 6 of core 0): one slice in (pose7.0), 2 out; one slice in (delta2.1), 1 out; one slice in (delta10.0), 1 out.
  Its whole body is run: every copy it does not own is skipped by the comparison of its number with the copy's owner;
  each incoming copy fills a staging buffer, each outgoing copy carries that buffer into one slice of the output array,
  and what each output slice then holds is the source slice the specification asks for there.
-/
import proofs.«210185_g18468359372994_cont_8to1_1390_15_alg».proof.Proof.KIRead

set_option maxHeartbeats 4000000
set_option quotPrecheck false

noncomputable section

namespace Cert.Proof.KI.Tile12

open Cert.KernelIdeal Cert.KernelIdeal.Gen
open Cert.Proof.KI
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
theorem cLt : 0 < grid0.bound 0 := by decide
theorem sLt : 6 < grid0.bound 1 := by decide
local notation "LL" => (coordsV (⟨0, cLt⟩ : Fin (grid0.bound 0)) (⟨6, sLt⟩ : Fin (grid0.bound 1)))
local notation "TH" d => V d (cV LL) (jV LL)
local notation "SRC0" => (((Memref.whole main_v2_scv).slice (Rect.unit (s := S17x128x2x128) ![7, 0, 0, 0] S1x128x1x128.size inb_S17x128x2x128_S1x128x1x128_7_0_0_0) (fun _ => rfl)).squeeze S128x128 squeezes_S1x128x1x128_S128x128 : Memref sig .scVector .hbm S128x128 .f32)
local notation "OUT0_0" => (((Memref.whole main_v10_scv).slice (Rect.unit (s := S9x2x128x8x128) ![5, 0, 0, 0, 0] S1x1x128x1x128.size inb_S9x2x128x8x128_S1x1x128x1x128_5_0_0_0_0) (fun _ => rfl)).squeeze S128x128 squeezes_S1x1x128x1x128_S128x128 : Memref sig .scVector .hbm S128x128 .f32)
local notation "OUT0_1" => (((Memref.whole main_v10_scv).slice (Rect.unit (s := S9x2x128x8x128) ![3, 0, 0, 1, 0] S1x1x128x1x128.size inb_S9x2x128x8x128_S1x1x128x1x128_3_0_0_1_0) (fun _ => rfl)).squeeze S128x128 squeezes_S1x1x128x1x128_S128x128 : Memref sig .scVector .hbm S128x128 .f32)
local notation "SRC1" => (((Memref.whole main_v5_scv).slice (Rect.unit (s := S14x128x2x128) ![2, 0, 1, 0] S1x128x1x128.size inb_S14x128x2x128_S1x128x1x128_2_0_1_0) (fun _ => rfl)).squeeze S128x128 squeezes_S1x128x1x128_S128x128 : Memref sig .scVector .hbm S128x128 .f32)
local notation "OUT1_0" => (((Memref.whole main_v10_scv).slice (Rect.unit (s := S9x2x128x8x128) ![1, 0, 0, 2, 0] S1x1x128x1x128.size inb_S9x2x128x8x128_S1x1x128x1x128_1_0_0_2_0) (fun _ => rfl)).squeeze S128x128 squeezes_S1x1x128x1x128_S128x128 : Memref sig .scVector .hbm S128x128 .f32)
local notation "SRC2" => (((Memref.whole main_v5_scv).slice (Rect.unit (s := S14x128x2x128) ![10, 0, 0, 0] S1x128x1x128.size inb_S14x128x2x128_S1x128x1x128_10_0_0_0) (fun _ => rfl)).squeeze S128x128 squeezes_S1x128x1x128_S128x128 : Memref sig .scVector .hbm S128x128 .f32)
local notation "OUT2_0" => (((Memref.whole main_v10_scv).slice (Rect.unit (s := S9x2x128x8x128) ![0, 1, 0, 2, 0] S1x1x128x1x128.size inb_S9x2x128x8x128_S1x1x128x1x128_0_1_0_2_0) (fun _ => rfl)).squeeze S128x128 squeezes_S1x1x128x1x128_S128x128 : Memref sig .scVector .hbm S128x128 .f32)

/-! ## The tile's slices, as its memrefs name them -/

theorem open2 (m : (ℓ : Loc nD τ sig) → Buf (Elt F) ℓ) (d : Dev nD) :
    (bigSep (t2 (12 : Fin 32)) (A2 m d) : sProp 𝕄) = iprop(((SRC0).view.loc (TH d) ↦[(SRC0).view.set]{fullShare} V2c m d)) := by
  show bigSep ({((7 : Fin 17), (0 : Fin 2))} : Finset (Fin 17 × Fin 2)) (A2 m d) = _
  rw [bigSep_singleton]
  exact (pts_v2 d (cV LL) (jV LL) (7 : Fin 17) (0 : Fin 2) _ (V2c m d)).symm
theorem open5 (m : (ℓ : Loc nD τ sig) → Buf (Elt F) ℓ) (d : Dev nD) :
    (bigSep (t5 (12 : Fin 32)) (A5 m d) : sProp 𝕄) = iprop(((SRC1).view.loc (TH d) ↦[(SRC1).view.set]{fullShare} V5c m d) ∗ ((SRC2).view.loc (TH d) ↦[(SRC2).view.set]{fullShare} V5c m d)) := by
  show bigSep ({((2 : Fin 14), (1 : Fin 2)), ((10 : Fin 14), (0 : Fin 2))} : Finset (Fin 14 × Fin 2)) (A5 m d) = _
  rw [SparseCore.bigSep_insert' (by decide), bigSep_singleton]
  exact (congrArg₂ (fun a b : sProp 𝕄 => iprop(a ∗ b)) (pts_v5 d (cV LL) (jV LL) (2 : Fin 14) (1 : Fin 2) _ (V5c m d)).symm (pts_v5 d (cV LL) (jV LL) (10 : Fin 14) (0 : Fin 2) _ (V5c m d)).symm)
theorem open10 (m : (ℓ : Loc nD τ sig) → Buf (Elt F) ℓ) (d : Dev nD) :
    (bigSep (t10 (12 : Fin 32)) (B0 m d) : sProp 𝕄) = iprop(((OUT0_0).view.loc (TH d) ↦[(OUT0_0).view.set]{fullShare} m (v10L d)) ∗ ((OUT0_1).view.loc (TH d) ↦[(OUT0_1).view.set]{fullShare} m (v10L d)) ∗ ((OUT1_0).view.loc (TH d) ↦[(OUT1_0).view.set]{fullShare} m (v10L d)) ∗ ((OUT2_0).view.loc (TH d) ↦[(OUT2_0).view.set]{fullShare} m (v10L d))) := by
  show bigSep ({((5 : Fin 9), (0 : Fin 2), (0 : Fin 8)), ((3 : Fin 9), (0 : Fin 2), (1 : Fin 8)), ((1 : Fin 9), (0 : Fin 2), (2 : Fin 8)), ((0 : Fin 9), (1 : Fin 2), (2 : Fin 8))} : Finset (Fin 9 × Fin 2 × Fin 8)) (B0 m d) = _
  rw [SparseCore.bigSep_insert' (by decide), SparseCore.bigSep_insert' (by decide), SparseCore.bigSep_insert' (by decide), bigSep_singleton]
  exact (congrArg₂ (fun a b : sProp 𝕄 => iprop(a ∗ b)) (pts_v10 d (cV LL) (jV LL) (5 : Fin 9) (0 : Fin 2) (0 : Fin 8) _ (m (v10L d))).symm (congrArg₂ (fun a b : sProp 𝕄 => iprop(a ∗ b)) (pts_v10 d (cV LL) (jV LL) (3 : Fin 9) (0 : Fin 2) (1 : Fin 8) _ (m (v10L d))).symm (congrArg₂ (fun a b : sProp 𝕄 => iprop(a ∗ b)) (pts_v10 d (cV LL) (jV LL) (1 : Fin 9) (0 : Fin 2) (2 : Fin 8) _ (m (v10L d))).symm (pts_v10 d (cV LL) (jV LL) (0 : Fin 9) (1 : Fin 2) (2 : Fin 8) _ (m (v10L d))).symm)))
theorem close10 (m : (ℓ : Loc nD τ sig) → Buf (Elt F) ℓ) (d : Dev nD) :
    (bigSep (t10 (12 : Fin 32)) (B1 m d) : sProp 𝕄) = iprop(((OUT0_0).view.loc (TH d) ↦[(OUT0_0).view.set]{fullShare} OUTc m d) ∗ ((OUT0_1).view.loc (TH d) ↦[(OUT0_1).view.set]{fullShare} OUTc m d) ∗ ((OUT1_0).view.loc (TH d) ↦[(OUT1_0).view.set]{fullShare} OUTc m d) ∗ ((OUT2_0).view.loc (TH d) ↦[(OUT2_0).view.set]{fullShare} OUTc m d)) := by
  show bigSep ({((5 : Fin 9), (0 : Fin 2), (0 : Fin 8)), ((3 : Fin 9), (0 : Fin 2), (1 : Fin 8)), ((1 : Fin 9), (0 : Fin 2), (2 : Fin 8)), ((0 : Fin 9), (1 : Fin 2), (2 : Fin 8))} : Finset (Fin 9 × Fin 2 × Fin 8)) (B1 m d) = _
  rw [SparseCore.bigSep_insert' (by decide), SparseCore.bigSep_insert' (by decide), SparseCore.bigSep_insert' (by decide), bigSep_singleton]
  exact (congrArg₂ (fun a b : sProp 𝕄 => iprop(a ∗ b)) (pts_v10 d (cV LL) (jV LL) (5 : Fin 9) (0 : Fin 2) (0 : Fin 8) _ (OUTc m d)).symm (congrArg₂ (fun a b : sProp 𝕄 => iprop(a ∗ b)) (pts_v10 d (cV LL) (jV LL) (3 : Fin 9) (0 : Fin 2) (1 : Fin 8) _ (OUTc m d)).symm (congrArg₂ (fun a b : sProp 𝕄 => iprop(a ∗ b)) (pts_v10 d (cV LL) (jV LL) (1 : Fin 9) (0 : Fin 2) (2 : Fin 8) _ (OUTc m d)).symm (pts_v10 d (cV LL) (jV LL) (0 : Fin 9) (1 : Fin 2) (2 : Fin 8) _ (OUTc m d)).symm)))

/-! ## What each output slice has to hold is what its source slice holds -/

theorem val0_0 (m : (ℓ : Loc nD τ sig) → Buf (Elt F) ℓ) (d : Dev nD) :
    (SRC0).view.read (Elt F) (V2c m d) = (OUT0_0).view.read (Elt F) (OUTc m d) := by
  funext y
  obtain ⟨t, q, rfl⟩ : ∃ (t q : Fin 128), y = ix2 t q := ⟨y 0, y 1, eq_ix2 y⟩
  refine (read_v2 (7 : Fin 17) (0 : Fin 2) _ _ t q).trans ((?_ : _ = _).trans (read_v10 (5 : Fin 9) (0 : Fin 2) (0 : Fin 8) _ _ t q).symm)
  unfold V2c OUTc
  rw [Cert.Layout.poseV_apply]
  refine Eq.trans ?_ (outV_at _ _ _ _ _ _ _ t _ q (show 8 * 0 + 0 < 14 by decide)).symm
  rfl
theorem val0_1 (m : (ℓ : Loc nD τ sig) → Buf (Elt F) ℓ) (d : Dev nD) :
    (SRC0).view.read (Elt F) (V2c m d) = (OUT0_1).view.read (Elt F) (OUTc m d) := by
  funext y
  obtain ⟨t, q, rfl⟩ : ∃ (t q : Fin 128), y = ix2 t q := ⟨y 0, y 1, eq_ix2 y⟩
  refine (read_v2 (7 : Fin 17) (0 : Fin 2) _ _ t q).trans ((?_ : _ = _).trans (read_v10 (3 : Fin 9) (0 : Fin 2) (1 : Fin 8) _ _ t q).symm)
  unfold V2c OUTc
  rw [Cert.Layout.poseV_apply]
  refine Eq.trans ?_ (outV_at _ _ _ _ _ _ _ t _ q (show 8 * 0 + 1 < 14 by decide)).symm
  rfl
theorem val1_0 (m : (ℓ : Loc nD τ sig) → Buf (Elt F) ℓ) (d : Dev nD) :
    (SRC1).view.read (Elt F) (V5c m d) = (OUT1_0).view.read (Elt F) (OUTc m d) := by
  funext y
  obtain ⟨t, q, rfl⟩ : ∃ (t q : Fin 128), y = ix2 t q := ⟨y 0, y 1, eq_ix2 y⟩
  refine (read_v5 (2 : Fin 14) (1 : Fin 2) _ _ t q).trans ((?_ : _ = _).trans (read_v10 (1 : Fin 9) (0 : Fin 2) (2 : Fin 8) _ _ t q).symm)
  unfold V5c OUTc
  rw [Cert.Layout.deltaV_apply]
  refine Eq.trans ?_ (outV_at _ _ _ _ _ _ _ t _ q (show 8 * 0 + 2 < 14 by decide)).symm
  rfl
theorem val2_0 (m : (ℓ : Loc nD τ sig) → Buf (Elt F) ℓ) (d : Dev nD) :
    (SRC2).view.read (Elt F) (V5c m d) = (OUT2_0).view.read (Elt F) (OUTc m d) := by
  funext y
  obtain ⟨t, q, rfl⟩ : ∃ (t q : Fin 128), y = ix2 t q := ⟨y 0, y 1, eq_ix2 y⟩
  refine (read_v5 (10 : Fin 14) (0 : Fin 2) _ _ t q).trans ((?_ : _ = _).trans (read_v10 (0 : Fin 9) (1 : Fin 2) (2 : Fin 8) _ _ t q).symm)
  unfold V5c OUTc
  rw [Cert.Layout.deltaV_apply]
  refine Eq.trans ?_ (outV_at _ _ _ _ _ _ _ t _ q (show 8 * 1 + 2 < 14 by decide)).symm
  rfl

/-! ## The run -/

open Lean Elab Tactic Meta in
/-- Unfold the names the symbolic run gave to the values its copies carry. -/
elab "unfold_carried" : tactic => do
  for _ in [0:6] do
    let g ← getMainGoal
    let t ← instantiateMVars (← g.getType)
    if (t.getUsedConstants.any fun n => n.components.any (· == `sl)) then
      let t' ← deltaExpand t (fun n => n.components.any (· == `sl))
      let g' ← g.change t' (checkDefEq := false)
      replaceMainGoal [g']

variable [FloatOps F] [∀ e, Nonempty (Elt F e)]

theorem run (m : (ℓ : Loc nD τ sig) → Buf (Elt F) ℓ) (d : Dev nD) (O : CellTallies nD τ sig (HIx 1)) (W : Waits sig (HIx 1)) (hO : ∀ g, O g none = 0) :
    (iprop(levAts (K (F := F)).L (K (F := F)).lev ∗ tileG m d (12 : Fin 32)
        ∗ scopedBufs (TH d) ∗ scopedSems0 (TH d) ∗ owes (TH d) O W) : sProp 𝕄)
      ⊢ wp frame (wpE (defs₀ (F := F)) 𝒱₀ (TH d) none) Set.univ
          (cc0_run LL (Memref.whole main_v2_scv) (Memref.isWhole_whole _) (Memref.whole main_v7_scv) (Memref.isWhole_whole _) (Memref.whole main_v5_scv) (Memref.isWhole_whole _) (Memref.whole main_v9_scv) (Memref.isWhole_whole _) (Memref.whole main_v10_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8)
          fun _ => iprop(tileT m d (12 : Fin 32) ∗ scopedBufs (TH d) ∗ scopedSems0 (TH d)
            ∗ ∃ W', ⌜∀ p ∈ W', p ∈ W ∨ p.2 = none⌝ ∗ owes (TH d) O W') := by
  rw [(K (F := F)).scopedBufs_V facts d (cV LL) (jV LL), SparseCore.Cfg.scopedSems0_V (Val := Elt F) d (cV LL) (jV LL), ownSems0_V, ownBufs_V]
  unfold tileG tileT
  iintro ⟨#Hlv, ⟨HF2, -, HF5, -, HF10⟩, ⟨⟨%fb0, Hb0⟩, ⟨%fb1, Hb1⟩, ⟨%fb2, Hb2⟩, Hbufs⟩, ⟨Hs3, Hs4, Hs5, Hs6, Hs7, Hs8, Hsems⟩, HO⟩
  ihave HF2' := (Entails.of_eq (open2 m d)) $$ HF2
  icases HF2' with HS0
  ihave HF5' := (Entails.of_eq (open5 m d)) $$ HF5
  icases HF5' with ⟨HS1, HS2⟩
  ihave HF10' := (Entails.of_eq (open10 m d)) $$ HF10
  icases HF10' with ⟨HO0_0, HO0_1, HO1_0, HO2_0⟩
  ihave Hmw := ((K (F := F)).mayWaits_none (thr := TH d) hO) $$ Hlv
  ihave Hb0' := (Entails.of_eq (pts_b0 d (cV LL) (jV LL) _).symm) $$ Hb0
  ihave Hb1' := (Entails.of_eq (pts_b1 d (cV LL) (jV LL) _).symm) $$ Hb1
  ihave Hb2' := (Entails.of_eq (pts_b2 d (cV LL) (jV LL) _).symm) $$ Hb2
  have _plan : Transfers.BatchOf (TH d) (SemLoc.dma (sig := sig) cc0_scratch6.sem) 2 (windows := true) := trivial
  sl_unfold [cc0_run]
  sl_exec_parts (disch := decide)
  sl_step
  isplitl [HS0 HS1 HS2 HO0_0 HO0_1 HO1_0 HO2_0]
  · skip
    isplitl [HS0]
    · iapply (Entails.of_eq (open2 m d).symm)
      iexact HS0
    isplitr
    · rw [show t7 (12 : Fin 32) = ∅ from rfl, bigSep_empty]; iempintro
    isplitl [HS1 HS2]
    · iapply (Entails.of_eq (open5 m d).symm)
      isplitl [HS1]; · iexact HS1
      iexact HS2
    isplitr
    · rw [show t9 (12 : Fin 32) = ∅ from rfl, bigSep_empty]; iempintro
    · iapply (Entails.of_eq (close10 m d).symm)
      isplitl [HO0_0]
      · iapply (out_post_ent (TH d) (OUT0_0) _ (OUTc m d) _ ?hv0_0) $$ HO0_0
        case hv0_0 => unfold_carried; simp only [ReadAs.apply_same, View.read_write_univ]; exact val0_0 m d
      isplitl [HO0_1]
      · iapply (out_post_ent (TH d) (OUT0_1) _ (OUTc m d) _ ?hv0_1) $$ HO0_1
        case hv0_1 => unfold_carried; simp only [ReadAs.apply_same, View.read_write_univ]; exact val0_1 m d
      isplitl [HO1_0]
      · iapply (out_post_ent (TH d) (OUT1_0) _ (OUTc m d) _ ?hv1_0) $$ HO1_0
        case hv1_0 => unfold_carried; simp only [ReadAs.apply_same, View.read_write_univ]; exact val1_0 m d
      iapply (out_post_ent (TH d) (OUT2_0) _ (OUTc m d) _ ?hv2_0) $$ HO2_0
      case hv2_0 => unfold_carried; simp only [ReadAs.apply_same, View.read_write_univ]; exact val2_0 m d

  isplitl [Hb0' Hb1' Hb2' Hbufs]
  · isplitl [Hb0']
    · iexists _; iapply (Entails.of_eq (pts_b0 d (cV LL) (jV LL) _)); iexact Hb0'
    isplitl [Hb1']
    · iexists _; iapply (Entails.of_eq (pts_b1 d (cV LL) (jV LL) _)); iexact Hb1'
    isplitl [Hb2']
    · iexists _; iapply (Entails.of_eq (pts_b2 d (cV LL) (jV LL) _)); iexact Hb2'
    iexact Hbufs
  isplitl [Hs3 Hs4 Hs5 Hs6 Hs7 Hs8 Hsems]
  · isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    iexact Hsems
  iexists _; isplitr
  rotate_left
  · iexact HO
  · ipureintro; intro p hp
    simp only [Finset.mem_insert] at hp
    rcases hp with rfl | rfl | rfl | rfl | rfl | rfl | rfl | hp <;> first | exact .inr rfl | exact .inl hp

end Cert.Proof.KI.Tile12

end
-- ==== Proof.KITile13.lean ====
/-
  Tile 13 of the kernel (subcore 6 of core 1): one slice in (pose7.1), 2 out; one slice in (len2), 1 out; one slice in (delta10.1), 1 out.
  Its whole body is run: every copy it does not own is skipped by the comparison of its number with the copy's owner;
  each incoming copy fills a staging buffer, each outgoing copy carries that buffer into one slice of the output array,
  and what each output slice then holds is the source slice the specification asks for there.
-/
import proofs.«210185_g18468359372994_cont_8to1_1390_15_alg».proof.Proof.KIRead

set_option maxHeartbeats 4000000
set_option quotPrecheck false

noncomputable section

namespace Cert.Proof.KI.Tile13

open Cert.KernelIdeal Cert.KernelIdeal.Gen
open Cert.Proof.KI
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
theorem cLt : 1 < grid0.bound 0 := by decide
theorem sLt : 6 < grid0.bound 1 := by decide
local notation "LL" => (coordsV (⟨1, cLt⟩ : Fin (grid0.bound 0)) (⟨6, sLt⟩ : Fin (grid0.bound 1)))
local notation "TH" d => V d (cV LL) (jV LL)
local notation "SRC0" => (((Memref.whole main_v2_scv).slice (Rect.unit (s := S17x128x2x128) ![7, 0, 1, 0] S1x128x1x128.size inb_S17x128x2x128_S1x128x1x128_7_0_1_0) (fun _ => rfl)).squeeze S128x128 squeezes_S1x128x1x128_S128x128 : Memref sig .scVector .hbm S128x128 .f32)
local notation "OUT0_0" => (((Memref.whole main_v10_scv).slice (Rect.unit (s := S9x2x128x8x128) ![6, 0, 0, 0, 0] S1x1x128x1x128.size inb_S9x2x128x8x128_S1x1x128x1x128_6_0_0_0_0) (fun _ => rfl)).squeeze S128x128 squeezes_S1x1x128x1x128_S128x128 : Memref sig .scVector .hbm S128x128 .f32)
local notation "OUT0_1" => (((Memref.whole main_v10_scv).slice (Rect.unit (s := S9x2x128x8x128) ![4, 0, 0, 1, 0] S1x1x128x1x128.size inb_S9x2x128x8x128_S1x1x128x1x128_4_0_0_1_0) (fun _ => rfl)).squeeze S128x128 squeezes_S1x1x128x1x128_S128x128 : Memref sig .scVector .hbm S128x128 .f32)
local notation "SRC1" => (((Memref.whole main_v9_scv).slice (Rect.unit (s := S14x128x128) ![2, 0, 0] S1x128x128.size inb_S14x128x128_S1x128x128_2_0_0) (fun _ => rfl)).squeeze S128x128 squeezes_S1x128x128_S128x128 : Memref sig .scVector .hbm S128x128 .f32)
local notation "OUT1_0" => (((Memref.whole main_v10_scv).slice (Rect.unit (s := S9x2x128x8x128) ![2, 0, 0, 2, 0] S1x1x128x1x128.size inb_S9x2x128x8x128_S1x1x128x1x128_2_0_0_2_0) (fun _ => rfl)).squeeze S128x128 squeezes_S1x1x128x1x128_S128x128 : Memref sig .scVector .hbm S128x128 .f32)
local notation "SRC2" => (((Memref.whole main_v5_scv).slice (Rect.unit (s := S14x128x2x128) ![10, 0, 1, 0] S1x128x1x128.size inb_S14x128x2x128_S1x128x1x128_10_0_1_0) (fun _ => rfl)).squeeze S128x128 squeezes_S1x128x1x128_S128x128 : Memref sig .scVector .hbm S128x128 .f32)
local notation "OUT2_0" => (((Memref.whole main_v10_scv).slice (Rect.unit (s := S9x2x128x8x128) ![1, 1, 0, 2, 0] S1x1x128x1x128.size inb_S9x2x128x8x128_S1x1x128x1x128_1_1_0_2_0) (fun _ => rfl)).squeeze S128x128 squeezes_S1x1x128x1x128_S128x128 : Memref sig .scVector .hbm S128x128 .f32)

/-! ## The tile's slices, as its memrefs name them -/

theorem open2 (m : (ℓ : Loc nD τ sig) → Buf (Elt F) ℓ) (d : Dev nD) :
    (bigSep (t2 (13 : Fin 32)) (A2 m d) : sProp 𝕄) = iprop(((SRC0).view.loc (TH d) ↦[(SRC0).view.set]{fullShare} V2c m d)) := by
  show bigSep ({((7 : Fin 17), (1 : Fin 2))} : Finset (Fin 17 × Fin 2)) (A2 m d) = _
  rw [bigSep_singleton]
  exact (pts_v2 d (cV LL) (jV LL) (7 : Fin 17) (1 : Fin 2) _ (V2c m d)).symm
theorem open5 (m : (ℓ : Loc nD τ sig) → Buf (Elt F) ℓ) (d : Dev nD) :
    (bigSep (t5 (13 : Fin 32)) (A5 m d) : sProp 𝕄) = iprop(((SRC2).view.loc (TH d) ↦[(SRC2).view.set]{fullShare} V5c m d)) := by
  show bigSep ({((10 : Fin 14), (1 : Fin 2))} : Finset (Fin 14 × Fin 2)) (A5 m d) = _
  rw [bigSep_singleton]
  exact (pts_v5 d (cV LL) (jV LL) (10 : Fin 14) (1 : Fin 2) _ (V5c m d)).symm
theorem open9 (m : (ℓ : Loc nD τ sig) → Buf (Elt F) ℓ) (d : Dev nD) :
    (bigSep (t9 (13 : Fin 32)) (A9 m d) : sProp 𝕄) = iprop(((SRC1).view.loc (TH d) ↦[(SRC1).view.set]{fullShare} V9c m d)) := by
  show bigSep ({(2 : Fin 14)} : Finset (Fin 14)) (A9 m d) = _
  rw [bigSep_singleton]
  exact (pts_v9 d (cV LL) (jV LL) (2 : Fin 14) _ (V9c m d)).symm
theorem open10 (m : (ℓ : Loc nD τ sig) → Buf (Elt F) ℓ) (d : Dev nD) :
    (bigSep (t10 (13 : Fin 32)) (B0 m d) : sProp 𝕄) = iprop(((OUT0_0).view.loc (TH d) ↦[(OUT0_0).view.set]{fullShare} m (v10L d)) ∗ ((OUT0_1).view.loc (TH d) ↦[(OUT0_1).view.set]{fullShare} m (v10L d)) ∗ ((OUT1_0).view.loc (TH d) ↦[(OUT1_0).view.set]{fullShare} m (v10L d)) ∗ ((OUT2_0).view.loc (TH d) ↦[(OUT2_0).view.set]{fullShare} m (v10L d))) := by
  show bigSep ({((6 : Fin 9), (0 : Fin 2), (0 : Fin 8)), ((4 : Fin 9), (0 : Fin 2), (1 : Fin 8)), ((2 : Fin 9), (0 : Fin 2), (2 : Fin 8)), ((1 : Fin 9), (1 : Fin 2), (2 : Fin 8))} : Finset (Fin 9 × Fin 2 × Fin 8)) (B0 m d) = _
  rw [SparseCore.bigSep_insert' (by decide), SparseCore.bigSep_insert' (by decide), SparseCore.bigSep_insert' (by decide), bigSep_singleton]
  exact (congrArg₂ (fun a b : sProp 𝕄 => iprop(a ∗ b)) (pts_v10 d (cV LL) (jV LL) (6 : Fin 9) (0 : Fin 2) (0 : Fin 8) _ (m (v10L d))).symm (congrArg₂ (fun a b : sProp 𝕄 => iprop(a ∗ b)) (pts_v10 d (cV LL) (jV LL) (4 : Fin 9) (0 : Fin 2) (1 : Fin 8) _ (m (v10L d))).symm (congrArg₂ (fun a b : sProp 𝕄 => iprop(a ∗ b)) (pts_v10 d (cV LL) (jV LL) (2 : Fin 9) (0 : Fin 2) (2 : Fin 8) _ (m (v10L d))).symm (pts_v10 d (cV LL) (jV LL) (1 : Fin 9) (1 : Fin 2) (2 : Fin 8) _ (m (v10L d))).symm)))
theorem close10 (m : (ℓ : Loc nD τ sig) → Buf (Elt F) ℓ) (d : Dev nD) :
    (bigSep (t10 (13 : Fin 32)) (B1 m d) : sProp 𝕄) = iprop(((OUT0_0).view.loc (TH d) ↦[(OUT0_0).view.set]{fullShare} OUTc m d) ∗ ((OUT0_1).view.loc (TH d) ↦[(OUT0_1).view.set]{fullShare} OUTc m d) ∗ ((OUT1_0).view.loc (TH d) ↦[(OUT1_0).view.set]{fullShare} OUTc m d) ∗ ((OUT2_0).view.loc (TH d) ↦[(OUT2_0).view.set]{fullShare} OUTc m d)) := by
  show bigSep ({((6 : Fin 9), (0 : Fin 2), (0 : Fin 8)), ((4 : Fin 9), (0 : Fin 2), (1 : Fin 8)), ((2 : Fin 9), (0 : Fin 2), (2 : Fin 8)), ((1 : Fin 9), (1 : Fin 2), (2 : Fin 8))} : Finset (Fin 9 × Fin 2 × Fin 8)) (B1 m d) = _
  rw [SparseCore.bigSep_insert' (by decide), SparseCore.bigSep_insert' (by decide), SparseCore.bigSep_insert' (by decide), bigSep_singleton]
  exact (congrArg₂ (fun a b : sProp 𝕄 => iprop(a ∗ b)) (pts_v10 d (cV LL) (jV LL) (6 : Fin 9) (0 : Fin 2) (0 : Fin 8) _ (OUTc m d)).symm (congrArg₂ (fun a b : sProp 𝕄 => iprop(a ∗ b)) (pts_v10 d (cV LL) (jV LL) (4 : Fin 9) (0 : Fin 2) (1 : Fin 8) _ (OUTc m d)).symm (congrArg₂ (fun a b : sProp 𝕄 => iprop(a ∗ b)) (pts_v10 d (cV LL) (jV LL) (2 : Fin 9) (0 : Fin 2) (2 : Fin 8) _ (OUTc m d)).symm (pts_v10 d (cV LL) (jV LL) (1 : Fin 9) (1 : Fin 2) (2 : Fin 8) _ (OUTc m d)).symm)))

/-! ## What each output slice has to hold is what its source slice holds -/

theorem val0_0 (m : (ℓ : Loc nD τ sig) → Buf (Elt F) ℓ) (d : Dev nD) :
    (SRC0).view.read (Elt F) (V2c m d) = (OUT0_0).view.read (Elt F) (OUTc m d) := by
  funext y
  obtain ⟨t, q, rfl⟩ : ∃ (t q : Fin 128), y = ix2 t q := ⟨y 0, y 1, eq_ix2 y⟩
  refine (read_v2 (7 : Fin 17) (1 : Fin 2) _ _ t q).trans ((?_ : _ = _).trans (read_v10 (6 : Fin 9) (0 : Fin 2) (0 : Fin 8) _ _ t q).symm)
  unfold V2c OUTc
  rw [Cert.Layout.poseV_apply]
  refine Eq.trans ?_ (outV_at _ _ _ _ _ _ _ t _ q (show 8 * 0 + 0 < 14 by decide)).symm
  rfl
theorem val0_1 (m : (ℓ : Loc nD τ sig) → Buf (Elt F) ℓ) (d : Dev nD) :
    (SRC0).view.read (Elt F) (V2c m d) = (OUT0_1).view.read (Elt F) (OUTc m d) := by
  funext y
  obtain ⟨t, q, rfl⟩ : ∃ (t q : Fin 128), y = ix2 t q := ⟨y 0, y 1, eq_ix2 y⟩
  refine (read_v2 (7 : Fin 17) (1 : Fin 2) _ _ t q).trans ((?_ : _ = _).trans (read_v10 (4 : Fin 9) (0 : Fin 2) (1 : Fin 8) _ _ t q).symm)
  unfold V2c OUTc
  rw [Cert.Layout.poseV_apply]
  refine Eq.trans ?_ (outV_at _ _ _ _ _ _ _ t _ q (show 8 * 0 + 1 < 14 by decide)).symm
  rfl
theorem val1_0 (m : (ℓ : Loc nD τ sig) → Buf (Elt F) ℓ) (d : Dev nD) :
    (SRC1).view.read (Elt F) (V9c m d) = (OUT1_0).view.read (Elt F) (OUTc m d) := by
  funext y
  obtain ⟨t, q, rfl⟩ : ∃ (t q : Fin 128), y = ix2 t q := ⟨y 0, y 1, eq_ix2 y⟩
  refine (read_v9 (2 : Fin 14) _ _ t q).trans ((?_ : _ = _).trans (read_v10 (2 : Fin 9) (0 : Fin 2) (2 : Fin 8) _ _ t q).symm)
  unfold V9c OUTc
  rw [Cert.Layout.lenV_apply]
  refine Eq.trans ?_ (outV_at _ _ _ _ _ _ _ t _ q (show 8 * 0 + 2 < 14 by decide)).symm
  rfl
theorem val2_0 (m : (ℓ : Loc nD τ sig) → Buf (Elt F) ℓ) (d : Dev nD) :
    (SRC2).view.read (Elt F) (V5c m d) = (OUT2_0).view.read (Elt F) (OUTc m d) := by
  funext y
  obtain ⟨t, q, rfl⟩ : ∃ (t q : Fin 128), y = ix2 t q := ⟨y 0, y 1, eq_ix2 y⟩
  refine (read_v5 (10 : Fin 14) (1 : Fin 2) _ _ t q).trans ((?_ : _ = _).trans (read_v10 (1 : Fin 9) (1 : Fin 2) (2 : Fin 8) _ _ t q).symm)
  unfold V5c OUTc
  rw [Cert.Layout.deltaV_apply]
  refine Eq.trans ?_ (outV_at _ _ _ _ _ _ _ t _ q (show 8 * 1 + 2 < 14 by decide)).symm
  rfl

/-! ## The run -/

open Lean Elab Tactic Meta in
/-- Unfold the names the symbolic run gave to the values its copies carry. -/
elab "unfold_carried" : tactic => do
  for _ in [0:6] do
    let g ← getMainGoal
    let t ← instantiateMVars (← g.getType)
    if (t.getUsedConstants.any fun n => n.components.any (· == `sl)) then
      let t' ← deltaExpand t (fun n => n.components.any (· == `sl))
      let g' ← g.change t' (checkDefEq := false)
      replaceMainGoal [g']

variable [FloatOps F] [∀ e, Nonempty (Elt F e)]

theorem run (m : (ℓ : Loc nD τ sig) → Buf (Elt F) ℓ) (d : Dev nD) (O : CellTallies nD τ sig (HIx 1)) (W : Waits sig (HIx 1)) (hO : ∀ g, O g none = 0) :
    (iprop(levAts (K (F := F)).L (K (F := F)).lev ∗ tileG m d (13 : Fin 32)
        ∗ scopedBufs (TH d) ∗ scopedSems0 (TH d) ∗ owes (TH d) O W) : sProp 𝕄)
      ⊢ wp frame (wpE (defs₀ (F := F)) 𝒱₀ (TH d) none) Set.univ
          (cc0_run LL (Memref.whole main_v2_scv) (Memref.isWhole_whole _) (Memref.whole main_v7_scv) (Memref.isWhole_whole _) (Memref.whole main_v5_scv) (Memref.isWhole_whole _) (Memref.whole main_v9_scv) (Memref.isWhole_whole _) (Memref.whole main_v10_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8)
          fun _ => iprop(tileT m d (13 : Fin 32) ∗ scopedBufs (TH d) ∗ scopedSems0 (TH d)
            ∗ ∃ W', ⌜∀ p ∈ W', p ∈ W ∨ p.2 = none⌝ ∗ owes (TH d) O W') := by
  rw [(K (F := F)).scopedBufs_V facts d (cV LL) (jV LL), SparseCore.Cfg.scopedSems0_V (Val := Elt F) d (cV LL) (jV LL), ownSems0_V, ownBufs_V]
  unfold tileG tileT
  iintro ⟨#Hlv, ⟨HF2, -, HF5, HF9, HF10⟩, ⟨⟨%fb0, Hb0⟩, ⟨%fb1, Hb1⟩, ⟨%fb2, Hb2⟩, Hbufs⟩, ⟨Hs3, Hs4, Hs5, Hs6, Hs7, Hs8, Hsems⟩, HO⟩
  ihave HF2' := (Entails.of_eq (open2 m d)) $$ HF2
  icases HF2' with HS0
  ihave HF5' := (Entails.of_eq (open5 m d)) $$ HF5
  icases HF5' with HS2
  ihave HF9' := (Entails.of_eq (open9 m d)) $$ HF9
  icases HF9' with HS1
  ihave HF10' := (Entails.of_eq (open10 m d)) $$ HF10
  icases HF10' with ⟨HO0_0, HO0_1, HO1_0, HO2_0⟩
  ihave Hmw := ((K (F := F)).mayWaits_none (thr := TH d) hO) $$ Hlv
  ihave Hb0' := (Entails.of_eq (pts_b0 d (cV LL) (jV LL) _).symm) $$ Hb0
  ihave Hb1' := (Entails.of_eq (pts_b1 d (cV LL) (jV LL) _).symm) $$ Hb1
  ihave Hb2' := (Entails.of_eq (pts_b2 d (cV LL) (jV LL) _).symm) $$ Hb2
  have _plan : Transfers.BatchOf (TH d) (SemLoc.dma (sig := sig) cc0_scratch6.sem) 2 (windows := true) := trivial
  sl_unfold [cc0_run]
  sl_exec_parts (disch := decide)
  sl_step
  isplitl [HS0 HS2 HS1 HO0_0 HO0_1 HO1_0 HO2_0]
  · skip
    isplitl [HS0]
    · iapply (Entails.of_eq (open2 m d).symm)
      iexact HS0
    isplitr
    · rw [show t7 (13 : Fin 32) = ∅ from rfl, bigSep_empty]; iempintro
    isplitl [HS2]
    · iapply (Entails.of_eq (open5 m d).symm)
      iexact HS2
    isplitl [HS1]
    · iapply (Entails.of_eq (open9 m d).symm)
      iexact HS1
    · iapply (Entails.of_eq (close10 m d).symm)
      isplitl [HO0_0]
      · iapply (out_post_ent (TH d) (OUT0_0) _ (OUTc m d) _ ?hv0_0) $$ HO0_0
        case hv0_0 => unfold_carried; simp only [ReadAs.apply_same, View.read_write_univ]; exact val0_0 m d
      isplitl [HO0_1]
      · iapply (out_post_ent (TH d) (OUT0_1) _ (OUTc m d) _ ?hv0_1) $$ HO0_1
        case hv0_1 => unfold_carried; simp only [ReadAs.apply_same, View.read_write_univ]; exact val0_1 m d
      isplitl [HO1_0]
      · iapply (out_post_ent (TH d) (OUT1_0) _ (OUTc m d) _ ?hv1_0) $$ HO1_0
        case hv1_0 => unfold_carried; simp only [ReadAs.apply_same, View.read_write_univ]; exact val1_0 m d
      iapply (out_post_ent (TH d) (OUT2_0) _ (OUTc m d) _ ?hv2_0) $$ HO2_0
      case hv2_0 => unfold_carried; simp only [ReadAs.apply_same, View.read_write_univ]; exact val2_0 m d

  isplitl [Hb0' Hb1' Hb2' Hbufs]
  · isplitl [Hb0']
    · iexists _; iapply (Entails.of_eq (pts_b0 d (cV LL) (jV LL) _)); iexact Hb0'
    isplitl [Hb1']
    · iexists _; iapply (Entails.of_eq (pts_b1 d (cV LL) (jV LL) _)); iexact Hb1'
    isplitl [Hb2']
    · iexists _; iapply (Entails.of_eq (pts_b2 d (cV LL) (jV LL) _)); iexact Hb2'
    iexact Hbufs
  isplitl [Hs3 Hs4 Hs5 Hs6 Hs7 Hs8 Hsems]
  · isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    iexact Hsems
  iexists _; isplitr
  rotate_left
  · iexact HO
  · ipureintro; intro p hp
    simp only [Finset.mem_insert] at hp
    rcases hp with rfl | rfl | rfl | rfl | rfl | rfl | rfl | hp <;> first | exact .inr rfl | exact .inl hp

end Cert.Proof.KI.Tile13

end
-- ==== Proof.KITile14.lean ====
/-
  Tile 14 of the kernel (subcore 7 of core 0): one slice in (vis7), 2 out; one slice in (delta3.0), 1 out; one slice in (len10), 1 out.
  Its whole body is run: every copy it does not own is skipped by the comparison of its number with the copy's owner;
  each incoming copy fills a staging buffer, each outgoing copy carries that buffer into one slice of the output array,
  and what each output slice then holds is the source slice the specification asks for there.
-/
import proofs.«210185_g18468359372994_cont_8to1_1390_15_alg».proof.Proof.KIRead

set_option maxHeartbeats 4000000
set_option quotPrecheck false

noncomputable section

namespace Cert.Proof.KI.Tile14

open Cert.KernelIdeal Cert.KernelIdeal.Gen
open Cert.Proof.KI
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
theorem cLt : 0 < grid0.bound 0 := by decide
theorem sLt : 7 < grid0.bound 1 := by decide
local notation "LL" => (coordsV (⟨0, cLt⟩ : Fin (grid0.bound 0)) (⟨7, sLt⟩ : Fin (grid0.bound 1)))
local notation "TH" d => V d (cV LL) (jV LL)
local notation "SRC0" => (((Memref.whole main_v7_scv).slice (Rect.unit (s := S17x128x128) ![7, 0, 0] S1x128x128.size inb_S17x128x128_S1x128x128_7_0_0) (fun _ => rfl)).squeeze S128x128 squeezes_S1x128x128_S128x128 : Memref sig .scVector .hbm S128x128 .f32)
local notation "OUT0_0" => (((Memref.whole main_v10_scv).slice (Rect.unit (s := S9x2x128x8x128) ![8, 0, 0, 0, 0] S1x1x128x1x128.size inb_S9x2x128x8x128_S1x1x128x1x128_8_0_0_0_0) (fun _ => rfl)).squeeze S128x128 squeezes_S1x1x128x1x128_S128x128 : Memref sig .scVector .hbm S128x128 .f32)
local notation "OUT0_1" => (((Memref.whole main_v10_scv).slice (Rect.unit (s := S9x2x128x8x128) ![7, 0, 0, 1, 0] S1x1x128x1x128.size inb_S9x2x128x8x128_S1x1x128x1x128_7_0_0_1_0) (fun _ => rfl)).squeeze S128x128 squeezes_S1x1x128x1x128_S128x128 : Memref sig .scVector .hbm S128x128 .f32)
local notation "SRC1" => (((Memref.whole main_v5_scv).slice (Rect.unit (s := S14x128x2x128) ![3, 0, 0, 0] S1x128x1x128.size inb_S14x128x2x128_S1x128x1x128_3_0_0_0) (fun _ => rfl)).squeeze S128x128 squeezes_S1x128x1x128_S128x128 : Memref sig .scVector .hbm S128x128 .f32)
local notation "OUT1_0" => (((Memref.whole main_v10_scv).slice (Rect.unit (s := S9x2x128x8x128) ![0, 0, 0, 3, 0] S1x1x128x1x128.size inb_S9x2x128x8x128_S1x1x128x1x128_0_0_0_3_0) (fun _ => rfl)).squeeze S128x128 squeezes_S1x1x128x1x128_S128x128 : Memref sig .scVector .hbm S128x128 .f32)
local notation "SRC2" => (((Memref.whole main_v9_scv).slice (Rect.unit (s := S14x128x128) ![10, 0, 0] S1x128x128.size inb_S14x128x128_S1x128x128_10_0_0) (fun _ => rfl)).squeeze S128x128 squeezes_S1x128x128_S128x128 : Memref sig .scVector .hbm S128x128 .f32)
local notation "OUT2_0" => (((Memref.whole main_v10_scv).slice (Rect.unit (s := S9x2x128x8x128) ![2, 1, 0, 2, 0] S1x1x128x1x128.size inb_S9x2x128x8x128_S1x1x128x1x128_2_1_0_2_0) (fun _ => rfl)).squeeze S128x128 squeezes_S1x1x128x1x128_S128x128 : Memref sig .scVector .hbm S128x128 .f32)

/-! ## The tile's slices, as its memrefs name them -/

theorem open7 (m : (ℓ : Loc nD τ sig) → Buf (Elt F) ℓ) (d : Dev nD) :
    (bigSep (t7 (14 : Fin 32)) (A7 m d) : sProp 𝕄) = iprop(((SRC0).view.loc (TH d) ↦[(SRC0).view.set]{fullShare} V7c m d)) := by
  show bigSep ({(7 : Fin 17)} : Finset (Fin 17)) (A7 m d) = _
  rw [bigSep_singleton]
  exact (pts_v7 d (cV LL) (jV LL) (7 : Fin 17) _ (V7c m d)).symm
theorem open5 (m : (ℓ : Loc nD τ sig) → Buf (Elt F) ℓ) (d : Dev nD) :
    (bigSep (t5 (14 : Fin 32)) (A5 m d) : sProp 𝕄) = iprop(((SRC1).view.loc (TH d) ↦[(SRC1).view.set]{fullShare} V5c m d)) := by
  show bigSep ({((3 : Fin 14), (0 : Fin 2))} : Finset (Fin 14 × Fin 2)) (A5 m d) = _
  rw [bigSep_singleton]
  exact (pts_v5 d (cV LL) (jV LL) (3 : Fin 14) (0 : Fin 2) _ (V5c m d)).symm
theorem open9 (m : (ℓ : Loc nD τ sig) → Buf (Elt F) ℓ) (d : Dev nD) :
    (bigSep (t9 (14 : Fin 32)) (A9 m d) : sProp 𝕄) = iprop(((SRC2).view.loc (TH d) ↦[(SRC2).view.set]{fullShare} V9c m d)) := by
  show bigSep ({(10 : Fin 14)} : Finset (Fin 14)) (A9 m d) = _
  rw [bigSep_singleton]
  exact (pts_v9 d (cV LL) (jV LL) (10 : Fin 14) _ (V9c m d)).symm
theorem open10 (m : (ℓ : Loc nD τ sig) → Buf (Elt F) ℓ) (d : Dev nD) :
    (bigSep (t10 (14 : Fin 32)) (B0 m d) : sProp 𝕄) = iprop(((OUT0_0).view.loc (TH d) ↦[(OUT0_0).view.set]{fullShare} m (v10L d)) ∗ ((OUT0_1).view.loc (TH d) ↦[(OUT0_1).view.set]{fullShare} m (v10L d)) ∗ ((OUT1_0).view.loc (TH d) ↦[(OUT1_0).view.set]{fullShare} m (v10L d)) ∗ ((OUT2_0).view.loc (TH d) ↦[(OUT2_0).view.set]{fullShare} m (v10L d))) := by
  show bigSep ({((8 : Fin 9), (0 : Fin 2), (0 : Fin 8)), ((7 : Fin 9), (0 : Fin 2), (1 : Fin 8)), ((0 : Fin 9), (0 : Fin 2), (3 : Fin 8)), ((2 : Fin 9), (1 : Fin 2), (2 : Fin 8))} : Finset (Fin 9 × Fin 2 × Fin 8)) (B0 m d) = _
  rw [SparseCore.bigSep_insert' (by decide), SparseCore.bigSep_insert' (by decide), SparseCore.bigSep_insert' (by decide), bigSep_singleton]
  exact (congrArg₂ (fun a b : sProp 𝕄 => iprop(a ∗ b)) (pts_v10 d (cV LL) (jV LL) (8 : Fin 9) (0 : Fin 2) (0 : Fin 8) _ (m (v10L d))).symm (congrArg₂ (fun a b : sProp 𝕄 => iprop(a ∗ b)) (pts_v10 d (cV LL) (jV LL) (7 : Fin 9) (0 : Fin 2) (1 : Fin 8) _ (m (v10L d))).symm (congrArg₂ (fun a b : sProp 𝕄 => iprop(a ∗ b)) (pts_v10 d (cV LL) (jV LL) (0 : Fin 9) (0 : Fin 2) (3 : Fin 8) _ (m (v10L d))).symm (pts_v10 d (cV LL) (jV LL) (2 : Fin 9) (1 : Fin 2) (2 : Fin 8) _ (m (v10L d))).symm)))
theorem close10 (m : (ℓ : Loc nD τ sig) → Buf (Elt F) ℓ) (d : Dev nD) :
    (bigSep (t10 (14 : Fin 32)) (B1 m d) : sProp 𝕄) = iprop(((OUT0_0).view.loc (TH d) ↦[(OUT0_0).view.set]{fullShare} OUTc m d) ∗ ((OUT0_1).view.loc (TH d) ↦[(OUT0_1).view.set]{fullShare} OUTc m d) ∗ ((OUT1_0).view.loc (TH d) ↦[(OUT1_0).view.set]{fullShare} OUTc m d) ∗ ((OUT2_0).view.loc (TH d) ↦[(OUT2_0).view.set]{fullShare} OUTc m d)) := by
  show bigSep ({((8 : Fin 9), (0 : Fin 2), (0 : Fin 8)), ((7 : Fin 9), (0 : Fin 2), (1 : Fin 8)), ((0 : Fin 9), (0 : Fin 2), (3 : Fin 8)), ((2 : Fin 9), (1 : Fin 2), (2 : Fin 8))} : Finset (Fin 9 × Fin 2 × Fin 8)) (B1 m d) = _
  rw [SparseCore.bigSep_insert' (by decide), SparseCore.bigSep_insert' (by decide), SparseCore.bigSep_insert' (by decide), bigSep_singleton]
  exact (congrArg₂ (fun a b : sProp 𝕄 => iprop(a ∗ b)) (pts_v10 d (cV LL) (jV LL) (8 : Fin 9) (0 : Fin 2) (0 : Fin 8) _ (OUTc m d)).symm (congrArg₂ (fun a b : sProp 𝕄 => iprop(a ∗ b)) (pts_v10 d (cV LL) (jV LL) (7 : Fin 9) (0 : Fin 2) (1 : Fin 8) _ (OUTc m d)).symm (congrArg₂ (fun a b : sProp 𝕄 => iprop(a ∗ b)) (pts_v10 d (cV LL) (jV LL) (0 : Fin 9) (0 : Fin 2) (3 : Fin 8) _ (OUTc m d)).symm (pts_v10 d (cV LL) (jV LL) (2 : Fin 9) (1 : Fin 2) (2 : Fin 8) _ (OUTc m d)).symm)))

/-! ## What each output slice has to hold is what its source slice holds -/

theorem val0_0 (m : (ℓ : Loc nD τ sig) → Buf (Elt F) ℓ) (d : Dev nD) :
    (SRC0).view.read (Elt F) (V7c m d) = (OUT0_0).view.read (Elt F) (OUTc m d) := by
  funext y
  obtain ⟨t, q, rfl⟩ : ∃ (t q : Fin 128), y = ix2 t q := ⟨y 0, y 1, eq_ix2 y⟩
  refine (read_v7 (7 : Fin 17) _ _ t q).trans ((?_ : _ = _).trans (read_v10 (8 : Fin 9) (0 : Fin 2) (0 : Fin 8) _ _ t q).symm)
  unfold V7c OUTc
  rw [Cert.Layout.visV_apply]
  refine Eq.trans ?_ (outV_at _ _ _ _ _ _ _ t _ q (show 8 * 0 + 0 < 14 by decide)).symm
  rfl
theorem val0_1 (m : (ℓ : Loc nD τ sig) → Buf (Elt F) ℓ) (d : Dev nD) :
    (SRC0).view.read (Elt F) (V7c m d) = (OUT0_1).view.read (Elt F) (OUTc m d) := by
  funext y
  obtain ⟨t, q, rfl⟩ : ∃ (t q : Fin 128), y = ix2 t q := ⟨y 0, y 1, eq_ix2 y⟩
  refine (read_v7 (7 : Fin 17) _ _ t q).trans ((?_ : _ = _).trans (read_v10 (7 : Fin 9) (0 : Fin 2) (1 : Fin 8) _ _ t q).symm)
  unfold V7c OUTc
  rw [Cert.Layout.visV_apply]
  refine Eq.trans ?_ (outV_at _ _ _ _ _ _ _ t _ q (show 8 * 0 + 1 < 14 by decide)).symm
  rfl
theorem val1_0 (m : (ℓ : Loc nD τ sig) → Buf (Elt F) ℓ) (d : Dev nD) :
    (SRC1).view.read (Elt F) (V5c m d) = (OUT1_0).view.read (Elt F) (OUTc m d) := by
  funext y
  obtain ⟨t, q, rfl⟩ : ∃ (t q : Fin 128), y = ix2 t q := ⟨y 0, y 1, eq_ix2 y⟩
  refine (read_v5 (3 : Fin 14) (0 : Fin 2) _ _ t q).trans ((?_ : _ = _).trans (read_v10 (0 : Fin 9) (0 : Fin 2) (3 : Fin 8) _ _ t q).symm)
  unfold V5c OUTc
  rw [Cert.Layout.deltaV_apply]
  refine Eq.trans ?_ (outV_at _ _ _ _ _ _ _ t _ q (show 8 * 0 + 3 < 14 by decide)).symm
  rfl
theorem val2_0 (m : (ℓ : Loc nD τ sig) → Buf (Elt F) ℓ) (d : Dev nD) :
    (SRC2).view.read (Elt F) (V9c m d) = (OUT2_0).view.read (Elt F) (OUTc m d) := by
  funext y
  obtain ⟨t, q, rfl⟩ : ∃ (t q : Fin 128), y = ix2 t q := ⟨y 0, y 1, eq_ix2 y⟩
  refine (read_v9 (10 : Fin 14) _ _ t q).trans ((?_ : _ = _).trans (read_v10 (2 : Fin 9) (1 : Fin 2) (2 : Fin 8) _ _ t q).symm)
  unfold V9c OUTc
  rw [Cert.Layout.lenV_apply]
  refine Eq.trans ?_ (outV_at _ _ _ _ _ _ _ t _ q (show 8 * 1 + 2 < 14 by decide)).symm
  rfl

/-! ## The run -/

open Lean Elab Tactic Meta in
/-- Unfold the names the symbolic run gave to the values its copies carry. -/
elab "unfold_carried" : tactic => do
  for _ in [0:6] do
    let g ← getMainGoal
    let t ← instantiateMVars (← g.getType)
    if (t.getUsedConstants.any fun n => n.components.any (· == `sl)) then
      let t' ← deltaExpand t (fun n => n.components.any (· == `sl))
      let g' ← g.change t' (checkDefEq := false)
      replaceMainGoal [g']

variable [FloatOps F] [∀ e, Nonempty (Elt F e)]

theorem run (m : (ℓ : Loc nD τ sig) → Buf (Elt F) ℓ) (d : Dev nD) (O : CellTallies nD τ sig (HIx 1)) (W : Waits sig (HIx 1)) (hO : ∀ g, O g none = 0) :
    (iprop(levAts (K (F := F)).L (K (F := F)).lev ∗ tileG m d (14 : Fin 32)
        ∗ scopedBufs (TH d) ∗ scopedSems0 (TH d) ∗ owes (TH d) O W) : sProp 𝕄)
      ⊢ wp frame (wpE (defs₀ (F := F)) 𝒱₀ (TH d) none) Set.univ
          (cc0_run LL (Memref.whole main_v2_scv) (Memref.isWhole_whole _) (Memref.whole main_v7_scv) (Memref.isWhole_whole _) (Memref.whole main_v5_scv) (Memref.isWhole_whole _) (Memref.whole main_v9_scv) (Memref.isWhole_whole _) (Memref.whole main_v10_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8)
          fun _ => iprop(tileT m d (14 : Fin 32) ∗ scopedBufs (TH d) ∗ scopedSems0 (TH d)
            ∗ ∃ W', ⌜∀ p ∈ W', p ∈ W ∨ p.2 = none⌝ ∗ owes (TH d) O W') := by
  rw [(K (F := F)).scopedBufs_V facts d (cV LL) (jV LL), SparseCore.Cfg.scopedSems0_V (Val := Elt F) d (cV LL) (jV LL), ownSems0_V, ownBufs_V]
  unfold tileG tileT
  iintro ⟨#Hlv, ⟨-, HF7, HF5, HF9, HF10⟩, ⟨⟨%fb0, Hb0⟩, ⟨%fb1, Hb1⟩, ⟨%fb2, Hb2⟩, Hbufs⟩, ⟨Hs3, Hs4, Hs5, Hs6, Hs7, Hs8, Hsems⟩, HO⟩
  ihave HF7' := (Entails.of_eq (open7 m d)) $$ HF7
  icases HF7' with HS0
  ihave HF5' := (Entails.of_eq (open5 m d)) $$ HF5
  icases HF5' with HS1
  ihave HF9' := (Entails.of_eq (open9 m d)) $$ HF9
  icases HF9' with HS2
  ihave HF10' := (Entails.of_eq (open10 m d)) $$ HF10
  icases HF10' with ⟨HO0_0, HO0_1, HO1_0, HO2_0⟩
  ihave Hmw := ((K (F := F)).mayWaits_none (thr := TH d) hO) $$ Hlv
  ihave Hb0' := (Entails.of_eq (pts_b0 d (cV LL) (jV LL) _).symm) $$ Hb0
  ihave Hb1' := (Entails.of_eq (pts_b1 d (cV LL) (jV LL) _).symm) $$ Hb1
  ihave Hb2' := (Entails.of_eq (pts_b2 d (cV LL) (jV LL) _).symm) $$ Hb2
  have _plan : Transfers.BatchOf (TH d) (SemLoc.dma (sig := sig) cc0_scratch6.sem) 2 (windows := true) := trivial
  sl_unfold [cc0_run]
  sl_exec_parts (disch := decide)
  sl_step
  isplitl [HS0 HS1 HS2 HO0_0 HO0_1 HO1_0 HO2_0]
  · skip
    isplitr
    · rw [show t2 (14 : Fin 32) = ∅ from rfl, bigSep_empty]; iempintro
    isplitl [HS0]
    · iapply (Entails.of_eq (open7 m d).symm)
      iexact HS0
    isplitl [HS1]
    · iapply (Entails.of_eq (open5 m d).symm)
      iexact HS1
    isplitl [HS2]
    · iapply (Entails.of_eq (open9 m d).symm)
      iexact HS2
    · iapply (Entails.of_eq (close10 m d).symm)
      isplitl [HO0_0]
      · iapply (out_post_ent (TH d) (OUT0_0) _ (OUTc m d) _ ?hv0_0) $$ HO0_0
        case hv0_0 => unfold_carried; simp only [ReadAs.apply_same, View.read_write_univ]; exact val0_0 m d
      isplitl [HO0_1]
      · iapply (out_post_ent (TH d) (OUT0_1) _ (OUTc m d) _ ?hv0_1) $$ HO0_1
        case hv0_1 => unfold_carried; simp only [ReadAs.apply_same, View.read_write_univ]; exact val0_1 m d
      isplitl [HO1_0]
      · iapply (out_post_ent (TH d) (OUT1_0) _ (OUTc m d) _ ?hv1_0) $$ HO1_0
        case hv1_0 => unfold_carried; simp only [ReadAs.apply_same, View.read_write_univ]; exact val1_0 m d
      iapply (out_post_ent (TH d) (OUT2_0) _ (OUTc m d) _ ?hv2_0) $$ HO2_0
      case hv2_0 => unfold_carried; simp only [ReadAs.apply_same, View.read_write_univ]; exact val2_0 m d

  isplitl [Hb0' Hb1' Hb2' Hbufs]
  · isplitl [Hb0']
    · iexists _; iapply (Entails.of_eq (pts_b0 d (cV LL) (jV LL) _)); iexact Hb0'
    isplitl [Hb1']
    · iexists _; iapply (Entails.of_eq (pts_b1 d (cV LL) (jV LL) _)); iexact Hb1'
    isplitl [Hb2']
    · iexists _; iapply (Entails.of_eq (pts_b2 d (cV LL) (jV LL) _)); iexact Hb2'
    iexact Hbufs
  isplitl [Hs3 Hs4 Hs5 Hs6 Hs7 Hs8 Hsems]
  · isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    iexact Hsems
  iexists _; isplitr
  rotate_left
  · iexact HO
  · ipureintro; intro p hp
    simp only [Finset.mem_insert] at hp
    rcases hp with rfl | rfl | rfl | rfl | rfl | rfl | rfl | hp <;> first | exact .inr rfl | exact .inl hp

end Cert.Proof.KI.Tile14

end
-- ==== Proof.KITile15.lean ====
/-
  Tile 15 of the kernel (subcore 7 of core 1): one slice in (pose8.0), 2 out; one slice in (delta3.1), 1 out; one slice in (delta11.0), 1 out.
  Its whole body is run: every copy it does not own is skipped by the comparison of its number with the copy's owner;
  each incoming copy fills a staging buffer, each outgoing copy carries that buffer into one slice of the output array,
  and what each output slice then holds is the source slice the specification asks for there.
-/
import proofs.«210185_g18468359372994_cont_8to1_1390_15_alg».proof.Proof.KIRead

set_option maxHeartbeats 4000000
set_option quotPrecheck false

noncomputable section

namespace Cert.Proof.KI.Tile15

open Cert.KernelIdeal Cert.KernelIdeal.Gen
open Cert.Proof.KI
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
theorem cLt : 1 < grid0.bound 0 := by decide
theorem sLt : 7 < grid0.bound 1 := by decide
local notation "LL" => (coordsV (⟨1, cLt⟩ : Fin (grid0.bound 0)) (⟨7, sLt⟩ : Fin (grid0.bound 1)))
local notation "TH" d => V d (cV LL) (jV LL)
local notation "SRC0" => (((Memref.whole main_v2_scv).slice (Rect.unit (s := S17x128x2x128) ![8, 0, 0, 0] S1x128x1x128.size inb_S17x128x2x128_S1x128x1x128_8_0_0_0) (fun _ => rfl)).squeeze S128x128 squeezes_S1x128x1x128_S128x128 : Memref sig .scVector .hbm S128x128 .f32)
local notation "OUT0_0" => (((Memref.whole main_v10_scv).slice (Rect.unit (s := S9x2x128x8x128) ![5, 0, 0, 2, 0] S1x1x128x1x128.size inb_S9x2x128x8x128_S1x1x128x1x128_5_0_0_2_0) (fun _ => rfl)).squeeze S128x128 squeezes_S1x1x128x1x128_S128x128 : Memref sig .scVector .hbm S128x128 .f32)
local notation "OUT0_1" => (((Memref.whole main_v10_scv).slice (Rect.unit (s := S9x2x128x8x128) ![3, 0, 0, 3, 0] S1x1x128x1x128.size inb_S9x2x128x8x128_S1x1x128x1x128_3_0_0_3_0) (fun _ => rfl)).squeeze S128x128 squeezes_S1x1x128x1x128_S128x128 : Memref sig .scVector .hbm S128x128 .f32)
local notation "SRC1" => (((Memref.whole main_v5_scv).slice (Rect.unit (s := S14x128x2x128) ![3, 0, 1, 0] S1x128x1x128.size inb_S14x128x2x128_S1x128x1x128_3_0_1_0) (fun _ => rfl)).squeeze S128x128 squeezes_S1x128x1x128_S128x128 : Memref sig .scVector .hbm S128x128 .f32)
local notation "OUT1_0" => (((Memref.whole main_v10_scv).slice (Rect.unit (s := S9x2x128x8x128) ![1, 0, 0, 3, 0] S1x1x128x1x128.size inb_S9x2x128x8x128_S1x1x128x1x128_1_0_0_3_0) (fun _ => rfl)).squeeze S128x128 squeezes_S1x1x128x1x128_S128x128 : Memref sig .scVector .hbm S128x128 .f32)
local notation "SRC2" => (((Memref.whole main_v5_scv).slice (Rect.unit (s := S14x128x2x128) ![11, 0, 0, 0] S1x128x1x128.size inb_S14x128x2x128_S1x128x1x128_11_0_0_0) (fun _ => rfl)).squeeze S128x128 squeezes_S1x128x1x128_S128x128 : Memref sig .scVector .hbm S128x128 .f32)
local notation "OUT2_0" => (((Memref.whole main_v10_scv).slice (Rect.unit (s := S9x2x128x8x128) ![0, 1, 0, 3, 0] S1x1x128x1x128.size inb_S9x2x128x8x128_S1x1x128x1x128_0_1_0_3_0) (fun _ => rfl)).squeeze S128x128 squeezes_S1x1x128x1x128_S128x128 : Memref sig .scVector .hbm S128x128 .f32)

/-! ## The tile's slices, as its memrefs name them -/

theorem open2 (m : (ℓ : Loc nD τ sig) → Buf (Elt F) ℓ) (d : Dev nD) :
    (bigSep (t2 (15 : Fin 32)) (A2 m d) : sProp 𝕄) = iprop(((SRC0).view.loc (TH d) ↦[(SRC0).view.set]{fullShare} V2c m d)) := by
  show bigSep ({((8 : Fin 17), (0 : Fin 2))} : Finset (Fin 17 × Fin 2)) (A2 m d) = _
  rw [bigSep_singleton]
  exact (pts_v2 d (cV LL) (jV LL) (8 : Fin 17) (0 : Fin 2) _ (V2c m d)).symm
theorem open5 (m : (ℓ : Loc nD τ sig) → Buf (Elt F) ℓ) (d : Dev nD) :
    (bigSep (t5 (15 : Fin 32)) (A5 m d) : sProp 𝕄) = iprop(((SRC1).view.loc (TH d) ↦[(SRC1).view.set]{fullShare} V5c m d) ∗ ((SRC2).view.loc (TH d) ↦[(SRC2).view.set]{fullShare} V5c m d)) := by
  show bigSep ({((3 : Fin 14), (1 : Fin 2)), ((11 : Fin 14), (0 : Fin 2))} : Finset (Fin 14 × Fin 2)) (A5 m d) = _
  rw [SparseCore.bigSep_insert' (by decide), bigSep_singleton]
  exact (congrArg₂ (fun a b : sProp 𝕄 => iprop(a ∗ b)) (pts_v5 d (cV LL) (jV LL) (3 : Fin 14) (1 : Fin 2) _ (V5c m d)).symm (pts_v5 d (cV LL) (jV LL) (11 : Fin 14) (0 : Fin 2) _ (V5c m d)).symm)
theorem open10 (m : (ℓ : Loc nD τ sig) → Buf (Elt F) ℓ) (d : Dev nD) :
    (bigSep (t10 (15 : Fin 32)) (B0 m d) : sProp 𝕄) = iprop(((OUT0_0).view.loc (TH d) ↦[(OUT0_0).view.set]{fullShare} m (v10L d)) ∗ ((OUT0_1).view.loc (TH d) ↦[(OUT0_1).view.set]{fullShare} m (v10L d)) ∗ ((OUT1_0).view.loc (TH d) ↦[(OUT1_0).view.set]{fullShare} m (v10L d)) ∗ ((OUT2_0).view.loc (TH d) ↦[(OUT2_0).view.set]{fullShare} m (v10L d))) := by
  show bigSep ({((5 : Fin 9), (0 : Fin 2), (2 : Fin 8)), ((3 : Fin 9), (0 : Fin 2), (3 : Fin 8)), ((1 : Fin 9), (0 : Fin 2), (3 : Fin 8)), ((0 : Fin 9), (1 : Fin 2), (3 : Fin 8))} : Finset (Fin 9 × Fin 2 × Fin 8)) (B0 m d) = _
  rw [SparseCore.bigSep_insert' (by decide), SparseCore.bigSep_insert' (by decide), SparseCore.bigSep_insert' (by decide), bigSep_singleton]
  exact (congrArg₂ (fun a b : sProp 𝕄 => iprop(a ∗ b)) (pts_v10 d (cV LL) (jV LL) (5 : Fin 9) (0 : Fin 2) (2 : Fin 8) _ (m (v10L d))).symm (congrArg₂ (fun a b : sProp 𝕄 => iprop(a ∗ b)) (pts_v10 d (cV LL) (jV LL) (3 : Fin 9) (0 : Fin 2) (3 : Fin 8) _ (m (v10L d))).symm (congrArg₂ (fun a b : sProp 𝕄 => iprop(a ∗ b)) (pts_v10 d (cV LL) (jV LL) (1 : Fin 9) (0 : Fin 2) (3 : Fin 8) _ (m (v10L d))).symm (pts_v10 d (cV LL) (jV LL) (0 : Fin 9) (1 : Fin 2) (3 : Fin 8) _ (m (v10L d))).symm)))
theorem close10 (m : (ℓ : Loc nD τ sig) → Buf (Elt F) ℓ) (d : Dev nD) :
    (bigSep (t10 (15 : Fin 32)) (B1 m d) : sProp 𝕄) = iprop(((OUT0_0).view.loc (TH d) ↦[(OUT0_0).view.set]{fullShare} OUTc m d) ∗ ((OUT0_1).view.loc (TH d) ↦[(OUT0_1).view.set]{fullShare} OUTc m d) ∗ ((OUT1_0).view.loc (TH d) ↦[(OUT1_0).view.set]{fullShare} OUTc m d) ∗ ((OUT2_0).view.loc (TH d) ↦[(OUT2_0).view.set]{fullShare} OUTc m d)) := by
  show bigSep ({((5 : Fin 9), (0 : Fin 2), (2 : Fin 8)), ((3 : Fin 9), (0 : Fin 2), (3 : Fin 8)), ((1 : Fin 9), (0 : Fin 2), (3 : Fin 8)), ((0 : Fin 9), (1 : Fin 2), (3 : Fin 8))} : Finset (Fin 9 × Fin 2 × Fin 8)) (B1 m d) = _
  rw [SparseCore.bigSep_insert' (by decide), SparseCore.bigSep_insert' (by decide), SparseCore.bigSep_insert' (by decide), bigSep_singleton]
  exact (congrArg₂ (fun a b : sProp 𝕄 => iprop(a ∗ b)) (pts_v10 d (cV LL) (jV LL) (5 : Fin 9) (0 : Fin 2) (2 : Fin 8) _ (OUTc m d)).symm (congrArg₂ (fun a b : sProp 𝕄 => iprop(a ∗ b)) (pts_v10 d (cV LL) (jV LL) (3 : Fin 9) (0 : Fin 2) (3 : Fin 8) _ (OUTc m d)).symm (congrArg₂ (fun a b : sProp 𝕄 => iprop(a ∗ b)) (pts_v10 d (cV LL) (jV LL) (1 : Fin 9) (0 : Fin 2) (3 : Fin 8) _ (OUTc m d)).symm (pts_v10 d (cV LL) (jV LL) (0 : Fin 9) (1 : Fin 2) (3 : Fin 8) _ (OUTc m d)).symm)))

/-! ## What each output slice has to hold is what its source slice holds -/

theorem val0_0 (m : (ℓ : Loc nD τ sig) → Buf (Elt F) ℓ) (d : Dev nD) :
    (SRC0).view.read (Elt F) (V2c m d) = (OUT0_0).view.read (Elt F) (OUTc m d) := by
  funext y
  obtain ⟨t, q, rfl⟩ : ∃ (t q : Fin 128), y = ix2 t q := ⟨y 0, y 1, eq_ix2 y⟩
  refine (read_v2 (8 : Fin 17) (0 : Fin 2) _ _ t q).trans ((?_ : _ = _).trans (read_v10 (5 : Fin 9) (0 : Fin 2) (2 : Fin 8) _ _ t q).symm)
  unfold V2c OUTc
  rw [Cert.Layout.poseV_apply]
  refine Eq.trans ?_ (outV_at _ _ _ _ _ _ _ t _ q (show 8 * 0 + 2 < 14 by decide)).symm
  rfl
theorem val0_1 (m : (ℓ : Loc nD τ sig) → Buf (Elt F) ℓ) (d : Dev nD) :
    (SRC0).view.read (Elt F) (V2c m d) = (OUT0_1).view.read (Elt F) (OUTc m d) := by
  funext y
  obtain ⟨t, q, rfl⟩ : ∃ (t q : Fin 128), y = ix2 t q := ⟨y 0, y 1, eq_ix2 y⟩
  refine (read_v2 (8 : Fin 17) (0 : Fin 2) _ _ t q).trans ((?_ : _ = _).trans (read_v10 (3 : Fin 9) (0 : Fin 2) (3 : Fin 8) _ _ t q).symm)
  unfold V2c OUTc
  rw [Cert.Layout.poseV_apply]
  refine Eq.trans ?_ (outV_at _ _ _ _ _ _ _ t _ q (show 8 * 0 + 3 < 14 by decide)).symm
  rfl
theorem val1_0 (m : (ℓ : Loc nD τ sig) → Buf (Elt F) ℓ) (d : Dev nD) :
    (SRC1).view.read (Elt F) (V5c m d) = (OUT1_0).view.read (Elt F) (OUTc m d) := by
  funext y
  obtain ⟨t, q, rfl⟩ : ∃ (t q : Fin 128), y = ix2 t q := ⟨y 0, y 1, eq_ix2 y⟩
  refine (read_v5 (3 : Fin 14) (1 : Fin 2) _ _ t q).trans ((?_ : _ = _).trans (read_v10 (1 : Fin 9) (0 : Fin 2) (3 : Fin 8) _ _ t q).symm)
  unfold V5c OUTc
  rw [Cert.Layout.deltaV_apply]
  refine Eq.trans ?_ (outV_at _ _ _ _ _ _ _ t _ q (show 8 * 0 + 3 < 14 by decide)).symm
  rfl
theorem val2_0 (m : (ℓ : Loc nD τ sig) → Buf (Elt F) ℓ) (d : Dev nD) :
    (SRC2).view.read (Elt F) (V5c m d) = (OUT2_0).view.read (Elt F) (OUTc m d) := by
  funext y
  obtain ⟨t, q, rfl⟩ : ∃ (t q : Fin 128), y = ix2 t q := ⟨y 0, y 1, eq_ix2 y⟩
  refine (read_v5 (11 : Fin 14) (0 : Fin 2) _ _ t q).trans ((?_ : _ = _).trans (read_v10 (0 : Fin 9) (1 : Fin 2) (3 : Fin 8) _ _ t q).symm)
  unfold V5c OUTc
  rw [Cert.Layout.deltaV_apply]
  refine Eq.trans ?_ (outV_at _ _ _ _ _ _ _ t _ q (show 8 * 1 + 3 < 14 by decide)).symm
  rfl

/-! ## The run -/

open Lean Elab Tactic Meta in
/-- Unfold the names the symbolic run gave to the values its copies carry. -/
elab "unfold_carried" : tactic => do
  for _ in [0:6] do
    let g ← getMainGoal
    let t ← instantiateMVars (← g.getType)
    if (t.getUsedConstants.any fun n => n.components.any (· == `sl)) then
      let t' ← deltaExpand t (fun n => n.components.any (· == `sl))
      let g' ← g.change t' (checkDefEq := false)
      replaceMainGoal [g']

variable [FloatOps F] [∀ e, Nonempty (Elt F e)]

theorem run (m : (ℓ : Loc nD τ sig) → Buf (Elt F) ℓ) (d : Dev nD) (O : CellTallies nD τ sig (HIx 1)) (W : Waits sig (HIx 1)) (hO : ∀ g, O g none = 0) :
    (iprop(levAts (K (F := F)).L (K (F := F)).lev ∗ tileG m d (15 : Fin 32)
        ∗ scopedBufs (TH d) ∗ scopedSems0 (TH d) ∗ owes (TH d) O W) : sProp 𝕄)
      ⊢ wp frame (wpE (defs₀ (F := F)) 𝒱₀ (TH d) none) Set.univ
          (cc0_run LL (Memref.whole main_v2_scv) (Memref.isWhole_whole _) (Memref.whole main_v7_scv) (Memref.isWhole_whole _) (Memref.whole main_v5_scv) (Memref.isWhole_whole _) (Memref.whole main_v9_scv) (Memref.isWhole_whole _) (Memref.whole main_v10_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8)
          fun _ => iprop(tileT m d (15 : Fin 32) ∗ scopedBufs (TH d) ∗ scopedSems0 (TH d)
            ∗ ∃ W', ⌜∀ p ∈ W', p ∈ W ∨ p.2 = none⌝ ∗ owes (TH d) O W') := by
  rw [(K (F := F)).scopedBufs_V facts d (cV LL) (jV LL), SparseCore.Cfg.scopedSems0_V (Val := Elt F) d (cV LL) (jV LL), ownSems0_V, ownBufs_V]
  unfold tileG tileT
  iintro ⟨#Hlv, ⟨HF2, -, HF5, -, HF10⟩, ⟨⟨%fb0, Hb0⟩, ⟨%fb1, Hb1⟩, ⟨%fb2, Hb2⟩, Hbufs⟩, ⟨Hs3, Hs4, Hs5, Hs6, Hs7, Hs8, Hsems⟩, HO⟩
  ihave HF2' := (Entails.of_eq (open2 m d)) $$ HF2
  icases HF2' with HS0
  ihave HF5' := (Entails.of_eq (open5 m d)) $$ HF5
  icases HF5' with ⟨HS1, HS2⟩
  ihave HF10' := (Entails.of_eq (open10 m d)) $$ HF10
  icases HF10' with ⟨HO0_0, HO0_1, HO1_0, HO2_0⟩
  ihave Hmw := ((K (F := F)).mayWaits_none (thr := TH d) hO) $$ Hlv
  ihave Hb0' := (Entails.of_eq (pts_b0 d (cV LL) (jV LL) _).symm) $$ Hb0
  ihave Hb1' := (Entails.of_eq (pts_b1 d (cV LL) (jV LL) _).symm) $$ Hb1
  ihave Hb2' := (Entails.of_eq (pts_b2 d (cV LL) (jV LL) _).symm) $$ Hb2
  have _plan : Transfers.BatchOf (TH d) (SemLoc.dma (sig := sig) cc0_scratch6.sem) 2 (windows := true) := trivial
  sl_unfold [cc0_run]
  sl_exec_parts (disch := decide)
  sl_step
  isplitl [HS0 HS1 HS2 HO0_0 HO0_1 HO1_0 HO2_0]
  · skip
    isplitl [HS0]
    · iapply (Entails.of_eq (open2 m d).symm)
      iexact HS0
    isplitr
    · rw [show t7 (15 : Fin 32) = ∅ from rfl, bigSep_empty]; iempintro
    isplitl [HS1 HS2]
    · iapply (Entails.of_eq (open5 m d).symm)
      isplitl [HS1]; · iexact HS1
      iexact HS2
    isplitr
    · rw [show t9 (15 : Fin 32) = ∅ from rfl, bigSep_empty]; iempintro
    · iapply (Entails.of_eq (close10 m d).symm)
      isplitl [HO0_0]
      · iapply (out_post_ent (TH d) (OUT0_0) _ (OUTc m d) _ ?hv0_0) $$ HO0_0
        case hv0_0 => unfold_carried; simp only [ReadAs.apply_same, View.read_write_univ]; exact val0_0 m d
      isplitl [HO0_1]
      · iapply (out_post_ent (TH d) (OUT0_1) _ (OUTc m d) _ ?hv0_1) $$ HO0_1
        case hv0_1 => unfold_carried; simp only [ReadAs.apply_same, View.read_write_univ]; exact val0_1 m d
      isplitl [HO1_0]
      · iapply (out_post_ent (TH d) (OUT1_0) _ (OUTc m d) _ ?hv1_0) $$ HO1_0
        case hv1_0 => unfold_carried; simp only [ReadAs.apply_same, View.read_write_univ]; exact val1_0 m d
      iapply (out_post_ent (TH d) (OUT2_0) _ (OUTc m d) _ ?hv2_0) $$ HO2_0
      case hv2_0 => unfold_carried; simp only [ReadAs.apply_same, View.read_write_univ]; exact val2_0 m d

  isplitl [Hb0' Hb1' Hb2' Hbufs]
  · isplitl [Hb0']
    · iexists _; iapply (Entails.of_eq (pts_b0 d (cV LL) (jV LL) _)); iexact Hb0'
    isplitl [Hb1']
    · iexists _; iapply (Entails.of_eq (pts_b1 d (cV LL) (jV LL) _)); iexact Hb1'
    isplitl [Hb2']
    · iexists _; iapply (Entails.of_eq (pts_b2 d (cV LL) (jV LL) _)); iexact Hb2'
    iexact Hbufs
  isplitl [Hs3 Hs4 Hs5 Hs6 Hs7 Hs8 Hsems]
  · isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    iexact Hsems
  iexists _; isplitr
  rotate_left
  · iexact HO
  · ipureintro; intro p hp
    simp only [Finset.mem_insert] at hp
    rcases hp with rfl | rfl | rfl | rfl | rfl | rfl | rfl | hp <;> first | exact .inr rfl | exact .inl hp

end Cert.Proof.KI.Tile15

end
-- ==== Proof.KITile16.lean ====
/-
  Tile 16 of the kernel (subcore 8 of core 0): one slice in (pose8.1), 2 out; one slice in (len3), 1 out; one slice in (delta11.1), 1 out.
  Its whole body is run: every copy it does not own is skipped by the comparison of its number with the copy's owner;
  each incoming copy fills a staging buffer, each outgoing copy carries that buffer into one slice of the output array,
  and what each output slice then holds is the source slice the specification asks for there.
-/
import proofs.«210185_g18468359372994_cont_8to1_1390_15_alg».proof.Proof.KIRead

set_option maxHeartbeats 4000000
set_option quotPrecheck false

noncomputable section

namespace Cert.Proof.KI.Tile16

open Cert.KernelIdeal Cert.KernelIdeal.Gen
open Cert.Proof.KI
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
theorem cLt : 0 < grid0.bound 0 := by decide
theorem sLt : 8 < grid0.bound 1 := by decide
local notation "LL" => (coordsV (⟨0, cLt⟩ : Fin (grid0.bound 0)) (⟨8, sLt⟩ : Fin (grid0.bound 1)))
local notation "TH" d => V d (cV LL) (jV LL)
local notation "SRC0" => (((Memref.whole main_v2_scv).slice (Rect.unit (s := S17x128x2x128) ![8, 0, 1, 0] S1x128x1x128.size inb_S17x128x2x128_S1x128x1x128_8_0_1_0) (fun _ => rfl)).squeeze S128x128 squeezes_S1x128x1x128_S128x128 : Memref sig .scVector .hbm S128x128 .f32)
local notation "OUT0_0" => (((Memref.whole main_v10_scv).slice (Rect.unit (s := S9x2x128x8x128) ![6, 0, 0, 2, 0] S1x1x128x1x128.size inb_S9x2x128x8x128_S1x1x128x1x128_6_0_0_2_0) (fun _ => rfl)).squeeze S128x128 squeezes_S1x1x128x1x128_S128x128 : Memref sig .scVector .hbm S128x128 .f32)
local notation "OUT0_1" => (((Memref.whole main_v10_scv).slice (Rect.unit (s := S9x2x128x8x128) ![4, 0, 0, 3, 0] S1x1x128x1x128.size inb_S9x2x128x8x128_S1x1x128x1x128_4_0_0_3_0) (fun _ => rfl)).squeeze S128x128 squeezes_S1x1x128x1x128_S128x128 : Memref sig .scVector .hbm S128x128 .f32)
local notation "SRC1" => (((Memref.whole main_v9_scv).slice (Rect.unit (s := S14x128x128) ![3, 0, 0] S1x128x128.size inb_S14x128x128_S1x128x128_3_0_0) (fun _ => rfl)).squeeze S128x128 squeezes_S1x128x128_S128x128 : Memref sig .scVector .hbm S128x128 .f32)
local notation "OUT1_0" => (((Memref.whole main_v10_scv).slice (Rect.unit (s := S9x2x128x8x128) ![2, 0, 0, 3, 0] S1x1x128x1x128.size inb_S9x2x128x8x128_S1x1x128x1x128_2_0_0_3_0) (fun _ => rfl)).squeeze S128x128 squeezes_S1x1x128x1x128_S128x128 : Memref sig .scVector .hbm S128x128 .f32)
local notation "SRC2" => (((Memref.whole main_v5_scv).slice (Rect.unit (s := S14x128x2x128) ![11, 0, 1, 0] S1x128x1x128.size inb_S14x128x2x128_S1x128x1x128_11_0_1_0) (fun _ => rfl)).squeeze S128x128 squeezes_S1x128x1x128_S128x128 : Memref sig .scVector .hbm S128x128 .f32)
local notation "OUT2_0" => (((Memref.whole main_v10_scv).slice (Rect.unit (s := S9x2x128x8x128) ![1, 1, 0, 3, 0] S1x1x128x1x128.size inb_S9x2x128x8x128_S1x1x128x1x128_1_1_0_3_0) (fun _ => rfl)).squeeze S128x128 squeezes_S1x1x128x1x128_S128x128 : Memref sig .scVector .hbm S128x128 .f32)

/-! ## The tile's slices, as its memrefs name them -/

theorem open2 (m : (ℓ : Loc nD τ sig) → Buf (Elt F) ℓ) (d : Dev nD) :
    (bigSep (t2 (16 : Fin 32)) (A2 m d) : sProp 𝕄) = iprop(((SRC0).view.loc (TH d) ↦[(SRC0).view.set]{fullShare} V2c m d)) := by
  show bigSep ({((8 : Fin 17), (1 : Fin 2))} : Finset (Fin 17 × Fin 2)) (A2 m d) = _
  rw [bigSep_singleton]
  exact (pts_v2 d (cV LL) (jV LL) (8 : Fin 17) (1 : Fin 2) _ (V2c m d)).symm
theorem open5 (m : (ℓ : Loc nD τ sig) → Buf (Elt F) ℓ) (d : Dev nD) :
    (bigSep (t5 (16 : Fin 32)) (A5 m d) : sProp 𝕄) = iprop(((SRC2).view.loc (TH d) ↦[(SRC2).view.set]{fullShare} V5c m d)) := by
  show bigSep ({((11 : Fin 14), (1 : Fin 2))} : Finset (Fin 14 × Fin 2)) (A5 m d) = _
  rw [bigSep_singleton]
  exact (pts_v5 d (cV LL) (jV LL) (11 : Fin 14) (1 : Fin 2) _ (V5c m d)).symm
theorem open9 (m : (ℓ : Loc nD τ sig) → Buf (Elt F) ℓ) (d : Dev nD) :
    (bigSep (t9 (16 : Fin 32)) (A9 m d) : sProp 𝕄) = iprop(((SRC1).view.loc (TH d) ↦[(SRC1).view.set]{fullShare} V9c m d)) := by
  show bigSep ({(3 : Fin 14)} : Finset (Fin 14)) (A9 m d) = _
  rw [bigSep_singleton]
  exact (pts_v9 d (cV LL) (jV LL) (3 : Fin 14) _ (V9c m d)).symm
theorem open10 (m : (ℓ : Loc nD τ sig) → Buf (Elt F) ℓ) (d : Dev nD) :
    (bigSep (t10 (16 : Fin 32)) (B0 m d) : sProp 𝕄) = iprop(((OUT0_0).view.loc (TH d) ↦[(OUT0_0).view.set]{fullShare} m (v10L d)) ∗ ((OUT0_1).view.loc (TH d) ↦[(OUT0_1).view.set]{fullShare} m (v10L d)) ∗ ((OUT1_0).view.loc (TH d) ↦[(OUT1_0).view.set]{fullShare} m (v10L d)) ∗ ((OUT2_0).view.loc (TH d) ↦[(OUT2_0).view.set]{fullShare} m (v10L d))) := by
  show bigSep ({((6 : Fin 9), (0 : Fin 2), (2 : Fin 8)), ((4 : Fin 9), (0 : Fin 2), (3 : Fin 8)), ((2 : Fin 9), (0 : Fin 2), (3 : Fin 8)), ((1 : Fin 9), (1 : Fin 2), (3 : Fin 8))} : Finset (Fin 9 × Fin 2 × Fin 8)) (B0 m d) = _
  rw [SparseCore.bigSep_insert' (by decide), SparseCore.bigSep_insert' (by decide), SparseCore.bigSep_insert' (by decide), bigSep_singleton]
  exact (congrArg₂ (fun a b : sProp 𝕄 => iprop(a ∗ b)) (pts_v10 d (cV LL) (jV LL) (6 : Fin 9) (0 : Fin 2) (2 : Fin 8) _ (m (v10L d))).symm (congrArg₂ (fun a b : sProp 𝕄 => iprop(a ∗ b)) (pts_v10 d (cV LL) (jV LL) (4 : Fin 9) (0 : Fin 2) (3 : Fin 8) _ (m (v10L d))).symm (congrArg₂ (fun a b : sProp 𝕄 => iprop(a ∗ b)) (pts_v10 d (cV LL) (jV LL) (2 : Fin 9) (0 : Fin 2) (3 : Fin 8) _ (m (v10L d))).symm (pts_v10 d (cV LL) (jV LL) (1 : Fin 9) (1 : Fin 2) (3 : Fin 8) _ (m (v10L d))).symm)))
theorem close10 (m : (ℓ : Loc nD τ sig) → Buf (Elt F) ℓ) (d : Dev nD) :
    (bigSep (t10 (16 : Fin 32)) (B1 m d) : sProp 𝕄) = iprop(((OUT0_0).view.loc (TH d) ↦[(OUT0_0).view.set]{fullShare} OUTc m d) ∗ ((OUT0_1).view.loc (TH d) ↦[(OUT0_1).view.set]{fullShare} OUTc m d) ∗ ((OUT1_0).view.loc (TH d) ↦[(OUT1_0).view.set]{fullShare} OUTc m d) ∗ ((OUT2_0).view.loc (TH d) ↦[(OUT2_0).view.set]{fullShare} OUTc m d)) := by
  show bigSep ({((6 : Fin 9), (0 : Fin 2), (2 : Fin 8)), ((4 : Fin 9), (0 : Fin 2), (3 : Fin 8)), ((2 : Fin 9), (0 : Fin 2), (3 : Fin 8)), ((1 : Fin 9), (1 : Fin 2), (3 : Fin 8))} : Finset (Fin 9 × Fin 2 × Fin 8)) (B1 m d) = _
  rw [SparseCore.bigSep_insert' (by decide), SparseCore.bigSep_insert' (by decide), SparseCore.bigSep_insert' (by decide), bigSep_singleton]
  exact (congrArg₂ (fun a b : sProp 𝕄 => iprop(a ∗ b)) (pts_v10 d (cV LL) (jV LL) (6 : Fin 9) (0 : Fin 2) (2 : Fin 8) _ (OUTc m d)).symm (congrArg₂ (fun a b : sProp 𝕄 => iprop(a ∗ b)) (pts_v10 d (cV LL) (jV LL) (4 : Fin 9) (0 : Fin 2) (3 : Fin 8) _ (OUTc m d)).symm (congrArg₂ (fun a b : sProp 𝕄 => iprop(a ∗ b)) (pts_v10 d (cV LL) (jV LL) (2 : Fin 9) (0 : Fin 2) (3 : Fin 8) _ (OUTc m d)).symm (pts_v10 d (cV LL) (jV LL) (1 : Fin 9) (1 : Fin 2) (3 : Fin 8) _ (OUTc m d)).symm)))

/-! ## What each output slice has to hold is what its source slice holds -/

theorem val0_0 (m : (ℓ : Loc nD τ sig) → Buf (Elt F) ℓ) (d : Dev nD) :
    (SRC0).view.read (Elt F) (V2c m d) = (OUT0_0).view.read (Elt F) (OUTc m d) := by
  funext y
  obtain ⟨t, q, rfl⟩ : ∃ (t q : Fin 128), y = ix2 t q := ⟨y 0, y 1, eq_ix2 y⟩
  refine (read_v2 (8 : Fin 17) (1 : Fin 2) _ _ t q).trans ((?_ : _ = _).trans (read_v10 (6 : Fin 9) (0 : Fin 2) (2 : Fin 8) _ _ t q).symm)
  unfold V2c OUTc
  rw [Cert.Layout.poseV_apply]
  refine Eq.trans ?_ (outV_at _ _ _ _ _ _ _ t _ q (show 8 * 0 + 2 < 14 by decide)).symm
  rfl
theorem val0_1 (m : (ℓ : Loc nD τ sig) → Buf (Elt F) ℓ) (d : Dev nD) :
    (SRC0).view.read (Elt F) (V2c m d) = (OUT0_1).view.read (Elt F) (OUTc m d) := by
  funext y
  obtain ⟨t, q, rfl⟩ : ∃ (t q : Fin 128), y = ix2 t q := ⟨y 0, y 1, eq_ix2 y⟩
  refine (read_v2 (8 : Fin 17) (1 : Fin 2) _ _ t q).trans ((?_ : _ = _).trans (read_v10 (4 : Fin 9) (0 : Fin 2) (3 : Fin 8) _ _ t q).symm)
  unfold V2c OUTc
  rw [Cert.Layout.poseV_apply]
  refine Eq.trans ?_ (outV_at _ _ _ _ _ _ _ t _ q (show 8 * 0 + 3 < 14 by decide)).symm
  rfl
theorem val1_0 (m : (ℓ : Loc nD τ sig) → Buf (Elt F) ℓ) (d : Dev nD) :
    (SRC1).view.read (Elt F) (V9c m d) = (OUT1_0).view.read (Elt F) (OUTc m d) := by
  funext y
  obtain ⟨t, q, rfl⟩ : ∃ (t q : Fin 128), y = ix2 t q := ⟨y 0, y 1, eq_ix2 y⟩
  refine (read_v9 (3 : Fin 14) _ _ t q).trans ((?_ : _ = _).trans (read_v10 (2 : Fin 9) (0 : Fin 2) (3 : Fin 8) _ _ t q).symm)
  unfold V9c OUTc
  rw [Cert.Layout.lenV_apply]
  refine Eq.trans ?_ (outV_at _ _ _ _ _ _ _ t _ q (show 8 * 0 + 3 < 14 by decide)).symm
  rfl
theorem val2_0 (m : (ℓ : Loc nD τ sig) → Buf (Elt F) ℓ) (d : Dev nD) :
    (SRC2).view.read (Elt F) (V5c m d) = (OUT2_0).view.read (Elt F) (OUTc m d) := by
  funext y
  obtain ⟨t, q, rfl⟩ : ∃ (t q : Fin 128), y = ix2 t q := ⟨y 0, y 1, eq_ix2 y⟩
  refine (read_v5 (11 : Fin 14) (1 : Fin 2) _ _ t q).trans ((?_ : _ = _).trans (read_v10 (1 : Fin 9) (1 : Fin 2) (3 : Fin 8) _ _ t q).symm)
  unfold V5c OUTc
  rw [Cert.Layout.deltaV_apply]
  refine Eq.trans ?_ (outV_at _ _ _ _ _ _ _ t _ q (show 8 * 1 + 3 < 14 by decide)).symm
  rfl

/-! ## The run -/

open Lean Elab Tactic Meta in
/-- Unfold the names the symbolic run gave to the values its copies carry. -/
elab "unfold_carried" : tactic => do
  for _ in [0:6] do
    let g ← getMainGoal
    let t ← instantiateMVars (← g.getType)
    if (t.getUsedConstants.any fun n => n.components.any (· == `sl)) then
      let t' ← deltaExpand t (fun n => n.components.any (· == `sl))
      let g' ← g.change t' (checkDefEq := false)
      replaceMainGoal [g']

variable [FloatOps F] [∀ e, Nonempty (Elt F e)]

theorem run (m : (ℓ : Loc nD τ sig) → Buf (Elt F) ℓ) (d : Dev nD) (O : CellTallies nD τ sig (HIx 1)) (W : Waits sig (HIx 1)) (hO : ∀ g, O g none = 0) :
    (iprop(levAts (K (F := F)).L (K (F := F)).lev ∗ tileG m d (16 : Fin 32)
        ∗ scopedBufs (TH d) ∗ scopedSems0 (TH d) ∗ owes (TH d) O W) : sProp 𝕄)
      ⊢ wp frame (wpE (defs₀ (F := F)) 𝒱₀ (TH d) none) Set.univ
          (cc0_run LL (Memref.whole main_v2_scv) (Memref.isWhole_whole _) (Memref.whole main_v7_scv) (Memref.isWhole_whole _) (Memref.whole main_v5_scv) (Memref.isWhole_whole _) (Memref.whole main_v9_scv) (Memref.isWhole_whole _) (Memref.whole main_v10_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8)
          fun _ => iprop(tileT m d (16 : Fin 32) ∗ scopedBufs (TH d) ∗ scopedSems0 (TH d)
            ∗ ∃ W', ⌜∀ p ∈ W', p ∈ W ∨ p.2 = none⌝ ∗ owes (TH d) O W') := by
  rw [(K (F := F)).scopedBufs_V facts d (cV LL) (jV LL), SparseCore.Cfg.scopedSems0_V (Val := Elt F) d (cV LL) (jV LL), ownSems0_V, ownBufs_V]
  unfold tileG tileT
  iintro ⟨#Hlv, ⟨HF2, -, HF5, HF9, HF10⟩, ⟨⟨%fb0, Hb0⟩, ⟨%fb1, Hb1⟩, ⟨%fb2, Hb2⟩, Hbufs⟩, ⟨Hs3, Hs4, Hs5, Hs6, Hs7, Hs8, Hsems⟩, HO⟩
  ihave HF2' := (Entails.of_eq (open2 m d)) $$ HF2
  icases HF2' with HS0
  ihave HF5' := (Entails.of_eq (open5 m d)) $$ HF5
  icases HF5' with HS2
  ihave HF9' := (Entails.of_eq (open9 m d)) $$ HF9
  icases HF9' with HS1
  ihave HF10' := (Entails.of_eq (open10 m d)) $$ HF10
  icases HF10' with ⟨HO0_0, HO0_1, HO1_0, HO2_0⟩
  ihave Hmw := ((K (F := F)).mayWaits_none (thr := TH d) hO) $$ Hlv
  ihave Hb0' := (Entails.of_eq (pts_b0 d (cV LL) (jV LL) _).symm) $$ Hb0
  ihave Hb1' := (Entails.of_eq (pts_b1 d (cV LL) (jV LL) _).symm) $$ Hb1
  ihave Hb2' := (Entails.of_eq (pts_b2 d (cV LL) (jV LL) _).symm) $$ Hb2
  have _plan : Transfers.BatchOf (TH d) (SemLoc.dma (sig := sig) cc0_scratch6.sem) 2 (windows := true) := trivial
  sl_unfold [cc0_run]
  sl_exec_parts (disch := decide)
  sl_step
  isplitl [HS0 HS2 HS1 HO0_0 HO0_1 HO1_0 HO2_0]
  · skip
    isplitl [HS0]
    · iapply (Entails.of_eq (open2 m d).symm)
      iexact HS0
    isplitr
    · rw [show t7 (16 : Fin 32) = ∅ from rfl, bigSep_empty]; iempintro
    isplitl [HS2]
    · iapply (Entails.of_eq (open5 m d).symm)
      iexact HS2
    isplitl [HS1]
    · iapply (Entails.of_eq (open9 m d).symm)
      iexact HS1
    · iapply (Entails.of_eq (close10 m d).symm)
      isplitl [HO0_0]
      · iapply (out_post_ent (TH d) (OUT0_0) _ (OUTc m d) _ ?hv0_0) $$ HO0_0
        case hv0_0 => unfold_carried; simp only [ReadAs.apply_same, View.read_write_univ]; exact val0_0 m d
      isplitl [HO0_1]
      · iapply (out_post_ent (TH d) (OUT0_1) _ (OUTc m d) _ ?hv0_1) $$ HO0_1
        case hv0_1 => unfold_carried; simp only [ReadAs.apply_same, View.read_write_univ]; exact val0_1 m d
      isplitl [HO1_0]
      · iapply (out_post_ent (TH d) (OUT1_0) _ (OUTc m d) _ ?hv1_0) $$ HO1_0
        case hv1_0 => unfold_carried; simp only [ReadAs.apply_same, View.read_write_univ]; exact val1_0 m d
      iapply (out_post_ent (TH d) (OUT2_0) _ (OUTc m d) _ ?hv2_0) $$ HO2_0
      case hv2_0 => unfold_carried; simp only [ReadAs.apply_same, View.read_write_univ]; exact val2_0 m d

  isplitl [Hb0' Hb1' Hb2' Hbufs]
  · isplitl [Hb0']
    · iexists _; iapply (Entails.of_eq (pts_b0 d (cV LL) (jV LL) _)); iexact Hb0'
    isplitl [Hb1']
    · iexists _; iapply (Entails.of_eq (pts_b1 d (cV LL) (jV LL) _)); iexact Hb1'
    isplitl [Hb2']
    · iexists _; iapply (Entails.of_eq (pts_b2 d (cV LL) (jV LL) _)); iexact Hb2'
    iexact Hbufs
  isplitl [Hs3 Hs4 Hs5 Hs6 Hs7 Hs8 Hsems]
  · isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    iexact Hsems
  iexists _; isplitr
  rotate_left
  · iexact HO
  · ipureintro; intro p hp
    simp only [Finset.mem_insert] at hp
    rcases hp with rfl | rfl | rfl | rfl | rfl | rfl | rfl | hp <;> first | exact .inr rfl | exact .inl hp

end Cert.Proof.KI.Tile16

end
-- ==== Proof.KITile17.lean ====
/-
  Tile 17 of the kernel (subcore 8 of core 1): one slice in (vis8), 2 out; one slice in (pose10.0), 1 out; one slice in (len11), 1 out.
  Its whole body is run: every copy it does not own is skipped by the comparison of its number with the copy's owner;
  each incoming copy fills a staging buffer, each outgoing copy carries that buffer into one slice of the output array,
  and what each output slice then holds is the source slice the specification asks for there.
-/
import proofs.«210185_g18468359372994_cont_8to1_1390_15_alg».proof.Proof.KIRead

set_option maxHeartbeats 4000000
set_option quotPrecheck false

noncomputable section

namespace Cert.Proof.KI.Tile17

open Cert.KernelIdeal Cert.KernelIdeal.Gen
open Cert.Proof.KI
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
theorem cLt : 1 < grid0.bound 0 := by decide
theorem sLt : 8 < grid0.bound 1 := by decide
local notation "LL" => (coordsV (⟨1, cLt⟩ : Fin (grid0.bound 0)) (⟨8, sLt⟩ : Fin (grid0.bound 1)))
local notation "TH" d => V d (cV LL) (jV LL)
local notation "SRC0" => (((Memref.whole main_v7_scv).slice (Rect.unit (s := S17x128x128) ![8, 0, 0] S1x128x128.size inb_S17x128x128_S1x128x128_8_0_0) (fun _ => rfl)).squeeze S128x128 squeezes_S1x128x128_S128x128 : Memref sig .scVector .hbm S128x128 .f32)
local notation "OUT0_0" => (((Memref.whole main_v10_scv).slice (Rect.unit (s := S9x2x128x8x128) ![8, 0, 0, 2, 0] S1x1x128x1x128.size inb_S9x2x128x8x128_S1x1x128x1x128_8_0_0_2_0) (fun _ => rfl)).squeeze S128x128 squeezes_S1x1x128x1x128_S128x128 : Memref sig .scVector .hbm S128x128 .f32)
local notation "OUT0_1" => (((Memref.whole main_v10_scv).slice (Rect.unit (s := S9x2x128x8x128) ![7, 0, 0, 3, 0] S1x1x128x1x128.size inb_S9x2x128x8x128_S1x1x128x1x128_7_0_0_3_0) (fun _ => rfl)).squeeze S128x128 squeezes_S1x1x128x1x128_S128x128 : Memref sig .scVector .hbm S128x128 .f32)
local notation "SRC1" => (((Memref.whole main_v2_scv).slice (Rect.unit (s := S17x128x2x128) ![10, 0, 0, 0] S1x128x1x128.size inb_S17x128x2x128_S1x128x1x128_10_0_0_0) (fun _ => rfl)).squeeze S128x128 squeezes_S1x128x1x128_S128x128 : Memref sig .scVector .hbm S128x128 .f32)
local notation "OUT1_0" => (((Memref.whole main_v10_scv).slice (Rect.unit (s := S9x2x128x8x128) ![5, 0, 0, 3, 0] S1x1x128x1x128.size inb_S9x2x128x8x128_S1x1x128x1x128_5_0_0_3_0) (fun _ => rfl)).squeeze S128x128 squeezes_S1x1x128x1x128_S128x128 : Memref sig .scVector .hbm S128x128 .f32)
local notation "SRC2" => (((Memref.whole main_v9_scv).slice (Rect.unit (s := S14x128x128) ![11, 0, 0] S1x128x128.size inb_S14x128x128_S1x128x128_11_0_0) (fun _ => rfl)).squeeze S128x128 squeezes_S1x128x128_S128x128 : Memref sig .scVector .hbm S128x128 .f32)
local notation "OUT2_0" => (((Memref.whole main_v10_scv).slice (Rect.unit (s := S9x2x128x8x128) ![2, 1, 0, 3, 0] S1x1x128x1x128.size inb_S9x2x128x8x128_S1x1x128x1x128_2_1_0_3_0) (fun _ => rfl)).squeeze S128x128 squeezes_S1x1x128x1x128_S128x128 : Memref sig .scVector .hbm S128x128 .f32)

/-! ## The tile's slices, as its memrefs name them -/

theorem open2 (m : (ℓ : Loc nD τ sig) → Buf (Elt F) ℓ) (d : Dev nD) :
    (bigSep (t2 (17 : Fin 32)) (A2 m d) : sProp 𝕄) = iprop(((SRC1).view.loc (TH d) ↦[(SRC1).view.set]{fullShare} V2c m d)) := by
  show bigSep ({((10 : Fin 17), (0 : Fin 2))} : Finset (Fin 17 × Fin 2)) (A2 m d) = _
  rw [bigSep_singleton]
  exact (pts_v2 d (cV LL) (jV LL) (10 : Fin 17) (0 : Fin 2) _ (V2c m d)).symm
theorem open7 (m : (ℓ : Loc nD τ sig) → Buf (Elt F) ℓ) (d : Dev nD) :
    (bigSep (t7 (17 : Fin 32)) (A7 m d) : sProp 𝕄) = iprop(((SRC0).view.loc (TH d) ↦[(SRC0).view.set]{fullShare} V7c m d)) := by
  show bigSep ({(8 : Fin 17)} : Finset (Fin 17)) (A7 m d) = _
  rw [bigSep_singleton]
  exact (pts_v7 d (cV LL) (jV LL) (8 : Fin 17) _ (V7c m d)).symm
theorem open9 (m : (ℓ : Loc nD τ sig) → Buf (Elt F) ℓ) (d : Dev nD) :
    (bigSep (t9 (17 : Fin 32)) (A9 m d) : sProp 𝕄) = iprop(((SRC2).view.loc (TH d) ↦[(SRC2).view.set]{fullShare} V9c m d)) := by
  show bigSep ({(11 : Fin 14)} : Finset (Fin 14)) (A9 m d) = _
  rw [bigSep_singleton]
  exact (pts_v9 d (cV LL) (jV LL) (11 : Fin 14) _ (V9c m d)).symm
theorem open10 (m : (ℓ : Loc nD τ sig) → Buf (Elt F) ℓ) (d : Dev nD) :
    (bigSep (t10 (17 : Fin 32)) (B0 m d) : sProp 𝕄) = iprop(((OUT0_0).view.loc (TH d) ↦[(OUT0_0).view.set]{fullShare} m (v10L d)) ∗ ((OUT0_1).view.loc (TH d) ↦[(OUT0_1).view.set]{fullShare} m (v10L d)) ∗ ((OUT1_0).view.loc (TH d) ↦[(OUT1_0).view.set]{fullShare} m (v10L d)) ∗ ((OUT2_0).view.loc (TH d) ↦[(OUT2_0).view.set]{fullShare} m (v10L d))) := by
  show bigSep ({((8 : Fin 9), (0 : Fin 2), (2 : Fin 8)), ((7 : Fin 9), (0 : Fin 2), (3 : Fin 8)), ((5 : Fin 9), (0 : Fin 2), (3 : Fin 8)), ((2 : Fin 9), (1 : Fin 2), (3 : Fin 8))} : Finset (Fin 9 × Fin 2 × Fin 8)) (B0 m d) = _
  rw [SparseCore.bigSep_insert' (by decide), SparseCore.bigSep_insert' (by decide), SparseCore.bigSep_insert' (by decide), bigSep_singleton]
  exact (congrArg₂ (fun a b : sProp 𝕄 => iprop(a ∗ b)) (pts_v10 d (cV LL) (jV LL) (8 : Fin 9) (0 : Fin 2) (2 : Fin 8) _ (m (v10L d))).symm (congrArg₂ (fun a b : sProp 𝕄 => iprop(a ∗ b)) (pts_v10 d (cV LL) (jV LL) (7 : Fin 9) (0 : Fin 2) (3 : Fin 8) _ (m (v10L d))).symm (congrArg₂ (fun a b : sProp 𝕄 => iprop(a ∗ b)) (pts_v10 d (cV LL) (jV LL) (5 : Fin 9) (0 : Fin 2) (3 : Fin 8) _ (m (v10L d))).symm (pts_v10 d (cV LL) (jV LL) (2 : Fin 9) (1 : Fin 2) (3 : Fin 8) _ (m (v10L d))).symm)))
theorem close10 (m : (ℓ : Loc nD τ sig) → Buf (Elt F) ℓ) (d : Dev nD) :
    (bigSep (t10 (17 : Fin 32)) (B1 m d) : sProp 𝕄) = iprop(((OUT0_0).view.loc (TH d) ↦[(OUT0_0).view.set]{fullShare} OUTc m d) ∗ ((OUT0_1).view.loc (TH d) ↦[(OUT0_1).view.set]{fullShare} OUTc m d) ∗ ((OUT1_0).view.loc (TH d) ↦[(OUT1_0).view.set]{fullShare} OUTc m d) ∗ ((OUT2_0).view.loc (TH d) ↦[(OUT2_0).view.set]{fullShare} OUTc m d)) := by
  show bigSep ({((8 : Fin 9), (0 : Fin 2), (2 : Fin 8)), ((7 : Fin 9), (0 : Fin 2), (3 : Fin 8)), ((5 : Fin 9), (0 : Fin 2), (3 : Fin 8)), ((2 : Fin 9), (1 : Fin 2), (3 : Fin 8))} : Finset (Fin 9 × Fin 2 × Fin 8)) (B1 m d) = _
  rw [SparseCore.bigSep_insert' (by decide), SparseCore.bigSep_insert' (by decide), SparseCore.bigSep_insert' (by decide), bigSep_singleton]
  exact (congrArg₂ (fun a b : sProp 𝕄 => iprop(a ∗ b)) (pts_v10 d (cV LL) (jV LL) (8 : Fin 9) (0 : Fin 2) (2 : Fin 8) _ (OUTc m d)).symm (congrArg₂ (fun a b : sProp 𝕄 => iprop(a ∗ b)) (pts_v10 d (cV LL) (jV LL) (7 : Fin 9) (0 : Fin 2) (3 : Fin 8) _ (OUTc m d)).symm (congrArg₂ (fun a b : sProp 𝕄 => iprop(a ∗ b)) (pts_v10 d (cV LL) (jV LL) (5 : Fin 9) (0 : Fin 2) (3 : Fin 8) _ (OUTc m d)).symm (pts_v10 d (cV LL) (jV LL) (2 : Fin 9) (1 : Fin 2) (3 : Fin 8) _ (OUTc m d)).symm)))

/-! ## What each output slice has to hold is what its source slice holds -/

theorem val0_0 (m : (ℓ : Loc nD τ sig) → Buf (Elt F) ℓ) (d : Dev nD) :
    (SRC0).view.read (Elt F) (V7c m d) = (OUT0_0).view.read (Elt F) (OUTc m d) := by
  funext y
  obtain ⟨t, q, rfl⟩ : ∃ (t q : Fin 128), y = ix2 t q := ⟨y 0, y 1, eq_ix2 y⟩
  refine (read_v7 (8 : Fin 17) _ _ t q).trans ((?_ : _ = _).trans (read_v10 (8 : Fin 9) (0 : Fin 2) (2 : Fin 8) _ _ t q).symm)
  unfold V7c OUTc
  rw [Cert.Layout.visV_apply]
  refine Eq.trans ?_ (outV_at _ _ _ _ _ _ _ t _ q (show 8 * 0 + 2 < 14 by decide)).symm
  rfl
theorem val0_1 (m : (ℓ : Loc nD τ sig) → Buf (Elt F) ℓ) (d : Dev nD) :
    (SRC0).view.read (Elt F) (V7c m d) = (OUT0_1).view.read (Elt F) (OUTc m d) := by
  funext y
  obtain ⟨t, q, rfl⟩ : ∃ (t q : Fin 128), y = ix2 t q := ⟨y 0, y 1, eq_ix2 y⟩
  refine (read_v7 (8 : Fin 17) _ _ t q).trans ((?_ : _ = _).trans (read_v10 (7 : Fin 9) (0 : Fin 2) (3 : Fin 8) _ _ t q).symm)
  unfold V7c OUTc
  rw [Cert.Layout.visV_apply]
  refine Eq.trans ?_ (outV_at _ _ _ _ _ _ _ t _ q (show 8 * 0 + 3 < 14 by decide)).symm
  rfl
theorem val1_0 (m : (ℓ : Loc nD τ sig) → Buf (Elt F) ℓ) (d : Dev nD) :
    (SRC1).view.read (Elt F) (V2c m d) = (OUT1_0).view.read (Elt F) (OUTc m d) := by
  funext y
  obtain ⟨t, q, rfl⟩ : ∃ (t q : Fin 128), y = ix2 t q := ⟨y 0, y 1, eq_ix2 y⟩
  refine (read_v2 (10 : Fin 17) (0 : Fin 2) _ _ t q).trans ((?_ : _ = _).trans (read_v10 (5 : Fin 9) (0 : Fin 2) (3 : Fin 8) _ _ t q).symm)
  unfold V2c OUTc
  rw [Cert.Layout.poseV_apply]
  refine Eq.trans ?_ (outV_at _ _ _ _ _ _ _ t _ q (show 8 * 0 + 3 < 14 by decide)).symm
  rfl
theorem val2_0 (m : (ℓ : Loc nD τ sig) → Buf (Elt F) ℓ) (d : Dev nD) :
    (SRC2).view.read (Elt F) (V9c m d) = (OUT2_0).view.read (Elt F) (OUTc m d) := by
  funext y
  obtain ⟨t, q, rfl⟩ : ∃ (t q : Fin 128), y = ix2 t q := ⟨y 0, y 1, eq_ix2 y⟩
  refine (read_v9 (11 : Fin 14) _ _ t q).trans ((?_ : _ = _).trans (read_v10 (2 : Fin 9) (1 : Fin 2) (3 : Fin 8) _ _ t q).symm)
  unfold V9c OUTc
  rw [Cert.Layout.lenV_apply]
  refine Eq.trans ?_ (outV_at _ _ _ _ _ _ _ t _ q (show 8 * 1 + 3 < 14 by decide)).symm
  rfl

/-! ## The run -/

open Lean Elab Tactic Meta in
/-- Unfold the names the symbolic run gave to the values its copies carry. -/
elab "unfold_carried" : tactic => do
  for _ in [0:6] do
    let g ← getMainGoal
    let t ← instantiateMVars (← g.getType)
    if (t.getUsedConstants.any fun n => n.components.any (· == `sl)) then
      let t' ← deltaExpand t (fun n => n.components.any (· == `sl))
      let g' ← g.change t' (checkDefEq := false)
      replaceMainGoal [g']

variable [FloatOps F] [∀ e, Nonempty (Elt F e)]

theorem run (m : (ℓ : Loc nD τ sig) → Buf (Elt F) ℓ) (d : Dev nD) (O : CellTallies nD τ sig (HIx 1)) (W : Waits sig (HIx 1)) (hO : ∀ g, O g none = 0) :
    (iprop(levAts (K (F := F)).L (K (F := F)).lev ∗ tileG m d (17 : Fin 32)
        ∗ scopedBufs (TH d) ∗ scopedSems0 (TH d) ∗ owes (TH d) O W) : sProp 𝕄)
      ⊢ wp frame (wpE (defs₀ (F := F)) 𝒱₀ (TH d) none) Set.univ
          (cc0_run LL (Memref.whole main_v2_scv) (Memref.isWhole_whole _) (Memref.whole main_v7_scv) (Memref.isWhole_whole _) (Memref.whole main_v5_scv) (Memref.isWhole_whole _) (Memref.whole main_v9_scv) (Memref.isWhole_whole _) (Memref.whole main_v10_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8)
          fun _ => iprop(tileT m d (17 : Fin 32) ∗ scopedBufs (TH d) ∗ scopedSems0 (TH d)
            ∗ ∃ W', ⌜∀ p ∈ W', p ∈ W ∨ p.2 = none⌝ ∗ owes (TH d) O W') := by
  rw [(K (F := F)).scopedBufs_V facts d (cV LL) (jV LL), SparseCore.Cfg.scopedSems0_V (Val := Elt F) d (cV LL) (jV LL), ownSems0_V, ownBufs_V]
  unfold tileG tileT
  iintro ⟨#Hlv, ⟨HF2, HF7, -, HF9, HF10⟩, ⟨⟨%fb0, Hb0⟩, ⟨%fb1, Hb1⟩, ⟨%fb2, Hb2⟩, Hbufs⟩, ⟨Hs3, Hs4, Hs5, Hs6, Hs7, Hs8, Hsems⟩, HO⟩
  ihave HF2' := (Entails.of_eq (open2 m d)) $$ HF2
  icases HF2' with HS1
  ihave HF7' := (Entails.of_eq (open7 m d)) $$ HF7
  icases HF7' with HS0
  ihave HF9' := (Entails.of_eq (open9 m d)) $$ HF9
  icases HF9' with HS2
  ihave HF10' := (Entails.of_eq (open10 m d)) $$ HF10
  icases HF10' with ⟨HO0_0, HO0_1, HO1_0, HO2_0⟩
  ihave Hmw := ((K (F := F)).mayWaits_none (thr := TH d) hO) $$ Hlv
  ihave Hb0' := (Entails.of_eq (pts_b0 d (cV LL) (jV LL) _).symm) $$ Hb0
  ihave Hb1' := (Entails.of_eq (pts_b1 d (cV LL) (jV LL) _).symm) $$ Hb1
  ihave Hb2' := (Entails.of_eq (pts_b2 d (cV LL) (jV LL) _).symm) $$ Hb2
  have _plan : Transfers.BatchOf (TH d) (SemLoc.dma (sig := sig) cc0_scratch6.sem) 2 (windows := true) := trivial
  sl_unfold [cc0_run]
  sl_exec_parts (disch := decide)
  sl_step
  isplitl [HS1 HS0 HS2 HO0_0 HO0_1 HO1_0 HO2_0]
  · skip
    isplitl [HS1]
    · iapply (Entails.of_eq (open2 m d).symm)
      iexact HS1
    isplitl [HS0]
    · iapply (Entails.of_eq (open7 m d).symm)
      iexact HS0
    isplitr
    · rw [show t5 (17 : Fin 32) = ∅ from rfl, bigSep_empty]; iempintro
    isplitl [HS2]
    · iapply (Entails.of_eq (open9 m d).symm)
      iexact HS2
    · iapply (Entails.of_eq (close10 m d).symm)
      isplitl [HO0_0]
      · iapply (out_post_ent (TH d) (OUT0_0) _ (OUTc m d) _ ?hv0_0) $$ HO0_0
        case hv0_0 => unfold_carried; simp only [ReadAs.apply_same, View.read_write_univ]; exact val0_0 m d
      isplitl [HO0_1]
      · iapply (out_post_ent (TH d) (OUT0_1) _ (OUTc m d) _ ?hv0_1) $$ HO0_1
        case hv0_1 => unfold_carried; simp only [ReadAs.apply_same, View.read_write_univ]; exact val0_1 m d
      isplitl [HO1_0]
      · iapply (out_post_ent (TH d) (OUT1_0) _ (OUTc m d) _ ?hv1_0) $$ HO1_0
        case hv1_0 => unfold_carried; simp only [ReadAs.apply_same, View.read_write_univ]; exact val1_0 m d
      iapply (out_post_ent (TH d) (OUT2_0) _ (OUTc m d) _ ?hv2_0) $$ HO2_0
      case hv2_0 => unfold_carried; simp only [ReadAs.apply_same, View.read_write_univ]; exact val2_0 m d

  isplitl [Hb0' Hb1' Hb2' Hbufs]
  · isplitl [Hb0']
    · iexists _; iapply (Entails.of_eq (pts_b0 d (cV LL) (jV LL) _)); iexact Hb0'
    isplitl [Hb1']
    · iexists _; iapply (Entails.of_eq (pts_b1 d (cV LL) (jV LL) _)); iexact Hb1'
    isplitl [Hb2']
    · iexists _; iapply (Entails.of_eq (pts_b2 d (cV LL) (jV LL) _)); iexact Hb2'
    iexact Hbufs
  isplitl [Hs3 Hs4 Hs5 Hs6 Hs7 Hs8 Hsems]
  · isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    iexact Hsems
  iexists _; isplitr
  rotate_left
  · iexact HO
  · ipureintro; intro p hp
    simp only [Finset.mem_insert] at hp
    rcases hp with rfl | rfl | rfl | rfl | rfl | rfl | rfl | hp <;> first | exact .inr rfl | exact .inl hp

end Cert.Proof.KI.Tile17

end
-- ==== Proof.KITile18.lean ====
/-
  Tile 18 of the kernel (subcore 9 of core 0): one slice in (pose13.0), 2 out; one slice in (pose10.1), 1 out; one slice in (delta12.0), 1 out.
  Its whole body is run: every copy it does not own is skipped by the comparison of its number with the copy's owner;
  each incoming copy fills a staging buffer, each outgoing copy carries that buffer into one slice of the output array,
  and what each output slice then holds is the source slice the specification asks for there.
-/
import proofs.«210185_g18468359372994_cont_8to1_1390_15_alg».proof.Proof.KIRead

set_option maxHeartbeats 4000000
set_option quotPrecheck false

noncomputable section

namespace Cert.Proof.KI.Tile18

open Cert.KernelIdeal Cert.KernelIdeal.Gen
open Cert.Proof.KI
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
theorem cLt : 0 < grid0.bound 0 := by decide
theorem sLt : 9 < grid0.bound 1 := by decide
local notation "LL" => (coordsV (⟨0, cLt⟩ : Fin (grid0.bound 0)) (⟨9, sLt⟩ : Fin (grid0.bound 1)))
local notation "TH" d => V d (cV LL) (jV LL)
local notation "SRC0" => (((Memref.whole main_v2_scv).slice (Rect.unit (s := S17x128x2x128) ![13, 0, 0, 0] S1x128x1x128.size inb_S17x128x2x128_S1x128x1x128_13_0_0_0) (fun _ => rfl)).squeeze S128x128 squeezes_S1x128x1x128_S128x128 : Memref sig .scVector .hbm S128x128 .f32)
local notation "OUT0_0" => (((Memref.whole main_v10_scv).slice (Rect.unit (s := S9x2x128x8x128) ![5, 0, 0, 4, 0] S1x1x128x1x128.size inb_S9x2x128x8x128_S1x1x128x1x128_5_0_0_4_0) (fun _ => rfl)).squeeze S128x128 squeezes_S1x1x128x1x128_S128x128 : Memref sig .scVector .hbm S128x128 .f32)
local notation "OUT0_1" => (((Memref.whole main_v10_scv).slice (Rect.unit (s := S9x2x128x8x128) ![3, 0, 0, 5, 0] S1x1x128x1x128.size inb_S9x2x128x8x128_S1x1x128x1x128_3_0_0_5_0) (fun _ => rfl)).squeeze S128x128 squeezes_S1x1x128x1x128_S128x128 : Memref sig .scVector .hbm S128x128 .f32)
local notation "SRC1" => (((Memref.whole main_v2_scv).slice (Rect.unit (s := S17x128x2x128) ![10, 0, 1, 0] S1x128x1x128.size inb_S17x128x2x128_S1x128x1x128_10_0_1_0) (fun _ => rfl)).squeeze S128x128 squeezes_S1x128x1x128_S128x128 : Memref sig .scVector .hbm S128x128 .f32)
local notation "OUT1_0" => (((Memref.whole main_v10_scv).slice (Rect.unit (s := S9x2x128x8x128) ![6, 0, 0, 3, 0] S1x1x128x1x128.size inb_S9x2x128x8x128_S1x1x128x1x128_6_0_0_3_0) (fun _ => rfl)).squeeze S128x128 squeezes_S1x1x128x1x128_S128x128 : Memref sig .scVector .hbm S128x128 .f32)
local notation "SRC2" => (((Memref.whole main_v5_scv).slice (Rect.unit (s := S14x128x2x128) ![12, 0, 0, 0] S1x128x1x128.size inb_S14x128x2x128_S1x128x1x128_12_0_0_0) (fun _ => rfl)).squeeze S128x128 squeezes_S1x128x1x128_S128x128 : Memref sig .scVector .hbm S128x128 .f32)
local notation "OUT2_0" => (((Memref.whole main_v10_scv).slice (Rect.unit (s := S9x2x128x8x128) ![0, 1, 0, 4, 0] S1x1x128x1x128.size inb_S9x2x128x8x128_S1x1x128x1x128_0_1_0_4_0) (fun _ => rfl)).squeeze S128x128 squeezes_S1x1x128x1x128_S128x128 : Memref sig .scVector .hbm S128x128 .f32)

/-! ## The tile's slices, as its memrefs name them -/

theorem open2 (m : (ℓ : Loc nD τ sig) → Buf (Elt F) ℓ) (d : Dev nD) :
    (bigSep (t2 (18 : Fin 32)) (A2 m d) : sProp 𝕄) = iprop(((SRC0).view.loc (TH d) ↦[(SRC0).view.set]{fullShare} V2c m d) ∗ ((SRC1).view.loc (TH d) ↦[(SRC1).view.set]{fullShare} V2c m d)) := by
  show bigSep ({((13 : Fin 17), (0 : Fin 2)), ((10 : Fin 17), (1 : Fin 2))} : Finset (Fin 17 × Fin 2)) (A2 m d) = _
  rw [SparseCore.bigSep_insert' (by decide), bigSep_singleton]
  exact (congrArg₂ (fun a b : sProp 𝕄 => iprop(a ∗ b)) (pts_v2 d (cV LL) (jV LL) (13 : Fin 17) (0 : Fin 2) _ (V2c m d)).symm (pts_v2 d (cV LL) (jV LL) (10 : Fin 17) (1 : Fin 2) _ (V2c m d)).symm)
theorem open5 (m : (ℓ : Loc nD τ sig) → Buf (Elt F) ℓ) (d : Dev nD) :
    (bigSep (t5 (18 : Fin 32)) (A5 m d) : sProp 𝕄) = iprop(((SRC2).view.loc (TH d) ↦[(SRC2).view.set]{fullShare} V5c m d)) := by
  show bigSep ({((12 : Fin 14), (0 : Fin 2))} : Finset (Fin 14 × Fin 2)) (A5 m d) = _
  rw [bigSep_singleton]
  exact (pts_v5 d (cV LL) (jV LL) (12 : Fin 14) (0 : Fin 2) _ (V5c m d)).symm
theorem open10 (m : (ℓ : Loc nD τ sig) → Buf (Elt F) ℓ) (d : Dev nD) :
    (bigSep (t10 (18 : Fin 32)) (B0 m d) : sProp 𝕄) = iprop(((OUT0_0).view.loc (TH d) ↦[(OUT0_0).view.set]{fullShare} m (v10L d)) ∗ ((OUT0_1).view.loc (TH d) ↦[(OUT0_1).view.set]{fullShare} m (v10L d)) ∗ ((OUT1_0).view.loc (TH d) ↦[(OUT1_0).view.set]{fullShare} m (v10L d)) ∗ ((OUT2_0).view.loc (TH d) ↦[(OUT2_0).view.set]{fullShare} m (v10L d))) := by
  show bigSep ({((5 : Fin 9), (0 : Fin 2), (4 : Fin 8)), ((3 : Fin 9), (0 : Fin 2), (5 : Fin 8)), ((6 : Fin 9), (0 : Fin 2), (3 : Fin 8)), ((0 : Fin 9), (1 : Fin 2), (4 : Fin 8))} : Finset (Fin 9 × Fin 2 × Fin 8)) (B0 m d) = _
  rw [SparseCore.bigSep_insert' (by decide), SparseCore.bigSep_insert' (by decide), SparseCore.bigSep_insert' (by decide), bigSep_singleton]
  exact (congrArg₂ (fun a b : sProp 𝕄 => iprop(a ∗ b)) (pts_v10 d (cV LL) (jV LL) (5 : Fin 9) (0 : Fin 2) (4 : Fin 8) _ (m (v10L d))).symm (congrArg₂ (fun a b : sProp 𝕄 => iprop(a ∗ b)) (pts_v10 d (cV LL) (jV LL) (3 : Fin 9) (0 : Fin 2) (5 : Fin 8) _ (m (v10L d))).symm (congrArg₂ (fun a b : sProp 𝕄 => iprop(a ∗ b)) (pts_v10 d (cV LL) (jV LL) (6 : Fin 9) (0 : Fin 2) (3 : Fin 8) _ (m (v10L d))).symm (pts_v10 d (cV LL) (jV LL) (0 : Fin 9) (1 : Fin 2) (4 : Fin 8) _ (m (v10L d))).symm)))
theorem close10 (m : (ℓ : Loc nD τ sig) → Buf (Elt F) ℓ) (d : Dev nD) :
    (bigSep (t10 (18 : Fin 32)) (B1 m d) : sProp 𝕄) = iprop(((OUT0_0).view.loc (TH d) ↦[(OUT0_0).view.set]{fullShare} OUTc m d) ∗ ((OUT0_1).view.loc (TH d) ↦[(OUT0_1).view.set]{fullShare} OUTc m d) ∗ ((OUT1_0).view.loc (TH d) ↦[(OUT1_0).view.set]{fullShare} OUTc m d) ∗ ((OUT2_0).view.loc (TH d) ↦[(OUT2_0).view.set]{fullShare} OUTc m d)) := by
  show bigSep ({((5 : Fin 9), (0 : Fin 2), (4 : Fin 8)), ((3 : Fin 9), (0 : Fin 2), (5 : Fin 8)), ((6 : Fin 9), (0 : Fin 2), (3 : Fin 8)), ((0 : Fin 9), (1 : Fin 2), (4 : Fin 8))} : Finset (Fin 9 × Fin 2 × Fin 8)) (B1 m d) = _
  rw [SparseCore.bigSep_insert' (by decide), SparseCore.bigSep_insert' (by decide), SparseCore.bigSep_insert' (by decide), bigSep_singleton]
  exact (congrArg₂ (fun a b : sProp 𝕄 => iprop(a ∗ b)) (pts_v10 d (cV LL) (jV LL) (5 : Fin 9) (0 : Fin 2) (4 : Fin 8) _ (OUTc m d)).symm (congrArg₂ (fun a b : sProp 𝕄 => iprop(a ∗ b)) (pts_v10 d (cV LL) (jV LL) (3 : Fin 9) (0 : Fin 2) (5 : Fin 8) _ (OUTc m d)).symm (congrArg₂ (fun a b : sProp 𝕄 => iprop(a ∗ b)) (pts_v10 d (cV LL) (jV LL) (6 : Fin 9) (0 : Fin 2) (3 : Fin 8) _ (OUTc m d)).symm (pts_v10 d (cV LL) (jV LL) (0 : Fin 9) (1 : Fin 2) (4 : Fin 8) _ (OUTc m d)).symm)))

/-! ## What each output slice has to hold is what its source slice holds -/

theorem val0_0 (m : (ℓ : Loc nD τ sig) → Buf (Elt F) ℓ) (d : Dev nD) :
    (SRC0).view.read (Elt F) (V2c m d) = (OUT0_0).view.read (Elt F) (OUTc m d) := by
  funext y
  obtain ⟨t, q, rfl⟩ : ∃ (t q : Fin 128), y = ix2 t q := ⟨y 0, y 1, eq_ix2 y⟩
  refine (read_v2 (13 : Fin 17) (0 : Fin 2) _ _ t q).trans ((?_ : _ = _).trans (read_v10 (5 : Fin 9) (0 : Fin 2) (4 : Fin 8) _ _ t q).symm)
  unfold V2c OUTc
  rw [Cert.Layout.poseV_apply]
  refine Eq.trans ?_ (outV_at _ _ _ _ _ _ _ t _ q (show 8 * 0 + 4 < 14 by decide)).symm
  rfl
theorem val0_1 (m : (ℓ : Loc nD τ sig) → Buf (Elt F) ℓ) (d : Dev nD) :
    (SRC0).view.read (Elt F) (V2c m d) = (OUT0_1).view.read (Elt F) (OUTc m d) := by
  funext y
  obtain ⟨t, q, rfl⟩ : ∃ (t q : Fin 128), y = ix2 t q := ⟨y 0, y 1, eq_ix2 y⟩
  refine (read_v2 (13 : Fin 17) (0 : Fin 2) _ _ t q).trans ((?_ : _ = _).trans (read_v10 (3 : Fin 9) (0 : Fin 2) (5 : Fin 8) _ _ t q).symm)
  unfold V2c OUTc
  rw [Cert.Layout.poseV_apply]
  refine Eq.trans ?_ (outV_at _ _ _ _ _ _ _ t _ q (show 8 * 0 + 5 < 14 by decide)).symm
  rfl
theorem val1_0 (m : (ℓ : Loc nD τ sig) → Buf (Elt F) ℓ) (d : Dev nD) :
    (SRC1).view.read (Elt F) (V2c m d) = (OUT1_0).view.read (Elt F) (OUTc m d) := by
  funext y
  obtain ⟨t, q, rfl⟩ : ∃ (t q : Fin 128), y = ix2 t q := ⟨y 0, y 1, eq_ix2 y⟩
  refine (read_v2 (10 : Fin 17) (1 : Fin 2) _ _ t q).trans ((?_ : _ = _).trans (read_v10 (6 : Fin 9) (0 : Fin 2) (3 : Fin 8) _ _ t q).symm)
  unfold V2c OUTc
  rw [Cert.Layout.poseV_apply]
  refine Eq.trans ?_ (outV_at _ _ _ _ _ _ _ t _ q (show 8 * 0 + 3 < 14 by decide)).symm
  rfl
theorem val2_0 (m : (ℓ : Loc nD τ sig) → Buf (Elt F) ℓ) (d : Dev nD) :
    (SRC2).view.read (Elt F) (V5c m d) = (OUT2_0).view.read (Elt F) (OUTc m d) := by
  funext y
  obtain ⟨t, q, rfl⟩ : ∃ (t q : Fin 128), y = ix2 t q := ⟨y 0, y 1, eq_ix2 y⟩
  refine (read_v5 (12 : Fin 14) (0 : Fin 2) _ _ t q).trans ((?_ : _ = _).trans (read_v10 (0 : Fin 9) (1 : Fin 2) (4 : Fin 8) _ _ t q).symm)
  unfold V5c OUTc
  rw [Cert.Layout.deltaV_apply]
  refine Eq.trans ?_ (outV_at _ _ _ _ _ _ _ t _ q (show 8 * 1 + 4 < 14 by decide)).symm
  rfl

/-! ## The run -/

open Lean Elab Tactic Meta in
/-- Unfold the names the symbolic run gave to the values its copies carry. -/
elab "unfold_carried" : tactic => do
  for _ in [0:6] do
    let g ← getMainGoal
    let t ← instantiateMVars (← g.getType)
    if (t.getUsedConstants.any fun n => n.components.any (· == `sl)) then
      let t' ← deltaExpand t (fun n => n.components.any (· == `sl))
      let g' ← g.change t' (checkDefEq := false)
      replaceMainGoal [g']

variable [FloatOps F] [∀ e, Nonempty (Elt F e)]

theorem run (m : (ℓ : Loc nD τ sig) → Buf (Elt F) ℓ) (d : Dev nD) (O : CellTallies nD τ sig (HIx 1)) (W : Waits sig (HIx 1)) (hO : ∀ g, O g none = 0) :
    (iprop(levAts (K (F := F)).L (K (F := F)).lev ∗ tileG m d (18 : Fin 32)
        ∗ scopedBufs (TH d) ∗ scopedSems0 (TH d) ∗ owes (TH d) O W) : sProp 𝕄)
      ⊢ wp frame (wpE (defs₀ (F := F)) 𝒱₀ (TH d) none) Set.univ
          (cc0_run LL (Memref.whole main_v2_scv) (Memref.isWhole_whole _) (Memref.whole main_v7_scv) (Memref.isWhole_whole _) (Memref.whole main_v5_scv) (Memref.isWhole_whole _) (Memref.whole main_v9_scv) (Memref.isWhole_whole _) (Memref.whole main_v10_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8)
          fun _ => iprop(tileT m d (18 : Fin 32) ∗ scopedBufs (TH d) ∗ scopedSems0 (TH d)
            ∗ ∃ W', ⌜∀ p ∈ W', p ∈ W ∨ p.2 = none⌝ ∗ owes (TH d) O W') := by
  rw [(K (F := F)).scopedBufs_V facts d (cV LL) (jV LL), SparseCore.Cfg.scopedSems0_V (Val := Elt F) d (cV LL) (jV LL), ownSems0_V, ownBufs_V]
  unfold tileG tileT
  iintro ⟨#Hlv, ⟨HF2, -, HF5, -, HF10⟩, ⟨⟨%fb0, Hb0⟩, ⟨%fb1, Hb1⟩, ⟨%fb2, Hb2⟩, Hbufs⟩, ⟨Hs3, Hs4, Hs5, Hs6, Hs7, Hs8, Hsems⟩, HO⟩
  ihave HF2' := (Entails.of_eq (open2 m d)) $$ HF2
  icases HF2' with ⟨HS0, HS1⟩
  ihave HF5' := (Entails.of_eq (open5 m d)) $$ HF5
  icases HF5' with HS2
  ihave HF10' := (Entails.of_eq (open10 m d)) $$ HF10
  icases HF10' with ⟨HO0_0, HO0_1, HO1_0, HO2_0⟩
  ihave Hmw := ((K (F := F)).mayWaits_none (thr := TH d) hO) $$ Hlv
  ihave Hb0' := (Entails.of_eq (pts_b0 d (cV LL) (jV LL) _).symm) $$ Hb0
  ihave Hb1' := (Entails.of_eq (pts_b1 d (cV LL) (jV LL) _).symm) $$ Hb1
  ihave Hb2' := (Entails.of_eq (pts_b2 d (cV LL) (jV LL) _).symm) $$ Hb2
  have _plan : Transfers.BatchOf (TH d) (SemLoc.dma (sig := sig) cc0_scratch6.sem) 2 (windows := true) := trivial
  sl_unfold [cc0_run]
  sl_exec_parts (disch := decide)
  sl_step
  isplitl [HS0 HS1 HS2 HO0_0 HO0_1 HO1_0 HO2_0]
  · skip
    isplitl [HS0 HS1]
    · iapply (Entails.of_eq (open2 m d).symm)
      isplitl [HS0]; · iexact HS0
      iexact HS1
    isplitr
    · rw [show t7 (18 : Fin 32) = ∅ from rfl, bigSep_empty]; iempintro
    isplitl [HS2]
    · iapply (Entails.of_eq (open5 m d).symm)
      iexact HS2
    isplitr
    · rw [show t9 (18 : Fin 32) = ∅ from rfl, bigSep_empty]; iempintro
    · iapply (Entails.of_eq (close10 m d).symm)
      isplitl [HO0_0]
      · iapply (out_post_ent (TH d) (OUT0_0) _ (OUTc m d) _ ?hv0_0) $$ HO0_0
        case hv0_0 => unfold_carried; simp only [ReadAs.apply_same, View.read_write_univ]; exact val0_0 m d
      isplitl [HO0_1]
      · iapply (out_post_ent (TH d) (OUT0_1) _ (OUTc m d) _ ?hv0_1) $$ HO0_1
        case hv0_1 => unfold_carried; simp only [ReadAs.apply_same, View.read_write_univ]; exact val0_1 m d
      isplitl [HO1_0]
      · iapply (out_post_ent (TH d) (OUT1_0) _ (OUTc m d) _ ?hv1_0) $$ HO1_0
        case hv1_0 => unfold_carried; simp only [ReadAs.apply_same, View.read_write_univ]; exact val1_0 m d
      iapply (out_post_ent (TH d) (OUT2_0) _ (OUTc m d) _ ?hv2_0) $$ HO2_0
      case hv2_0 => unfold_carried; simp only [ReadAs.apply_same, View.read_write_univ]; exact val2_0 m d

  isplitl [Hb0' Hb1' Hb2' Hbufs]
  · isplitl [Hb0']
    · iexists _; iapply (Entails.of_eq (pts_b0 d (cV LL) (jV LL) _)); iexact Hb0'
    isplitl [Hb1']
    · iexists _; iapply (Entails.of_eq (pts_b1 d (cV LL) (jV LL) _)); iexact Hb1'
    isplitl [Hb2']
    · iexists _; iapply (Entails.of_eq (pts_b2 d (cV LL) (jV LL) _)); iexact Hb2'
    iexact Hbufs
  isplitl [Hs3 Hs4 Hs5 Hs6 Hs7 Hs8 Hsems]
  · isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    iexact Hsems
  iexists _; isplitr
  rotate_left
  · iexact HO
  · ipureintro; intro p hp
    simp only [Finset.mem_insert] at hp
    rcases hp with rfl | rfl | rfl | rfl | rfl | rfl | rfl | hp <;> first | exact .inr rfl | exact .inl hp

end Cert.Proof.KI.Tile18

end
-- ==== Proof.KITile19.lean ====
/-
  Tile 19 of the kernel (subcore 9 of core 1): one slice in (pose13.1), 2 out; one slice in (vis10), 1 out; one slice in (delta12.1), 1 out.
  Its whole body is run: every copy it does not own is skipped by the comparison of its number with the copy's owner;
  each incoming copy fills a staging buffer, each outgoing copy carries that buffer into one slice of the output array,
  and what each output slice then holds is the source slice the specification asks for there.
-/
import proofs.«210185_g18468359372994_cont_8to1_1390_15_alg».proof.Proof.KIRead

set_option maxHeartbeats 4000000
set_option quotPrecheck false

noncomputable section

namespace Cert.Proof.KI.Tile19

open Cert.KernelIdeal Cert.KernelIdeal.Gen
open Cert.Proof.KI
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
theorem cLt : 1 < grid0.bound 0 := by decide
theorem sLt : 9 < grid0.bound 1 := by decide
local notation "LL" => (coordsV (⟨1, cLt⟩ : Fin (grid0.bound 0)) (⟨9, sLt⟩ : Fin (grid0.bound 1)))
local notation "TH" d => V d (cV LL) (jV LL)
local notation "SRC0" => (((Memref.whole main_v2_scv).slice (Rect.unit (s := S17x128x2x128) ![13, 0, 1, 0] S1x128x1x128.size inb_S17x128x2x128_S1x128x1x128_13_0_1_0) (fun _ => rfl)).squeeze S128x128 squeezes_S1x128x1x128_S128x128 : Memref sig .scVector .hbm S128x128 .f32)
local notation "OUT0_0" => (((Memref.whole main_v10_scv).slice (Rect.unit (s := S9x2x128x8x128) ![6, 0, 0, 4, 0] S1x1x128x1x128.size inb_S9x2x128x8x128_S1x1x128x1x128_6_0_0_4_0) (fun _ => rfl)).squeeze S128x128 squeezes_S1x1x128x1x128_S128x128 : Memref sig .scVector .hbm S128x128 .f32)
local notation "OUT0_1" => (((Memref.whole main_v10_scv).slice (Rect.unit (s := S9x2x128x8x128) ![4, 0, 0, 5, 0] S1x1x128x1x128.size inb_S9x2x128x8x128_S1x1x128x1x128_4_0_0_5_0) (fun _ => rfl)).squeeze S128x128 squeezes_S1x1x128x1x128_S128x128 : Memref sig .scVector .hbm S128x128 .f32)
local notation "SRC1" => (((Memref.whole main_v7_scv).slice (Rect.unit (s := S17x128x128) ![10, 0, 0] S1x128x128.size inb_S17x128x128_S1x128x128_10_0_0) (fun _ => rfl)).squeeze S128x128 squeezes_S1x128x128_S128x128 : Memref sig .scVector .hbm S128x128 .f32)
local notation "OUT1_0" => (((Memref.whole main_v10_scv).slice (Rect.unit (s := S9x2x128x8x128) ![8, 0, 0, 3, 0] S1x1x128x1x128.size inb_S9x2x128x8x128_S1x1x128x1x128_8_0_0_3_0) (fun _ => rfl)).squeeze S128x128 squeezes_S1x1x128x1x128_S128x128 : Memref sig .scVector .hbm S128x128 .f32)
local notation "SRC2" => (((Memref.whole main_v5_scv).slice (Rect.unit (s := S14x128x2x128) ![12, 0, 1, 0] S1x128x1x128.size inb_S14x128x2x128_S1x128x1x128_12_0_1_0) (fun _ => rfl)).squeeze S128x128 squeezes_S1x128x1x128_S128x128 : Memref sig .scVector .hbm S128x128 .f32)
local notation "OUT2_0" => (((Memref.whole main_v10_scv).slice (Rect.unit (s := S9x2x128x8x128) ![1, 1, 0, 4, 0] S1x1x128x1x128.size inb_S9x2x128x8x128_S1x1x128x1x128_1_1_0_4_0) (fun _ => rfl)).squeeze S128x128 squeezes_S1x1x128x1x128_S128x128 : Memref sig .scVector .hbm S128x128 .f32)

/-! ## The tile's slices, as its memrefs name them -/

theorem open2 (m : (ℓ : Loc nD τ sig) → Buf (Elt F) ℓ) (d : Dev nD) :
    (bigSep (t2 (19 : Fin 32)) (A2 m d) : sProp 𝕄) = iprop(((SRC0).view.loc (TH d) ↦[(SRC0).view.set]{fullShare} V2c m d)) := by
  show bigSep ({((13 : Fin 17), (1 : Fin 2))} : Finset (Fin 17 × Fin 2)) (A2 m d) = _
  rw [bigSep_singleton]
  exact (pts_v2 d (cV LL) (jV LL) (13 : Fin 17) (1 : Fin 2) _ (V2c m d)).symm
theorem open7 (m : (ℓ : Loc nD τ sig) → Buf (Elt F) ℓ) (d : Dev nD) :
    (bigSep (t7 (19 : Fin 32)) (A7 m d) : sProp 𝕄) = iprop(((SRC1).view.loc (TH d) ↦[(SRC1).view.set]{fullShare} V7c m d)) := by
  show bigSep ({(10 : Fin 17)} : Finset (Fin 17)) (A7 m d) = _
  rw [bigSep_singleton]
  exact (pts_v7 d (cV LL) (jV LL) (10 : Fin 17) _ (V7c m d)).symm
theorem open5 (m : (ℓ : Loc nD τ sig) → Buf (Elt F) ℓ) (d : Dev nD) :
    (bigSep (t5 (19 : Fin 32)) (A5 m d) : sProp 𝕄) = iprop(((SRC2).view.loc (TH d) ↦[(SRC2).view.set]{fullShare} V5c m d)) := by
  show bigSep ({((12 : Fin 14), (1 : Fin 2))} : Finset (Fin 14 × Fin 2)) (A5 m d) = _
  rw [bigSep_singleton]
  exact (pts_v5 d (cV LL) (jV LL) (12 : Fin 14) (1 : Fin 2) _ (V5c m d)).symm
theorem open10 (m : (ℓ : Loc nD τ sig) → Buf (Elt F) ℓ) (d : Dev nD) :
    (bigSep (t10 (19 : Fin 32)) (B0 m d) : sProp 𝕄) = iprop(((OUT0_0).view.loc (TH d) ↦[(OUT0_0).view.set]{fullShare} m (v10L d)) ∗ ((OUT0_1).view.loc (TH d) ↦[(OUT0_1).view.set]{fullShare} m (v10L d)) ∗ ((OUT1_0).view.loc (TH d) ↦[(OUT1_0).view.set]{fullShare} m (v10L d)) ∗ ((OUT2_0).view.loc (TH d) ↦[(OUT2_0).view.set]{fullShare} m (v10L d))) := by
  show bigSep ({((6 : Fin 9), (0 : Fin 2), (4 : Fin 8)), ((4 : Fin 9), (0 : Fin 2), (5 : Fin 8)), ((8 : Fin 9), (0 : Fin 2), (3 : Fin 8)), ((1 : Fin 9), (1 : Fin 2), (4 : Fin 8))} : Finset (Fin 9 × Fin 2 × Fin 8)) (B0 m d) = _
  rw [SparseCore.bigSep_insert' (by decide), SparseCore.bigSep_insert' (by decide), SparseCore.bigSep_insert' (by decide), bigSep_singleton]
  exact (congrArg₂ (fun a b : sProp 𝕄 => iprop(a ∗ b)) (pts_v10 d (cV LL) (jV LL) (6 : Fin 9) (0 : Fin 2) (4 : Fin 8) _ (m (v10L d))).symm (congrArg₂ (fun a b : sProp 𝕄 => iprop(a ∗ b)) (pts_v10 d (cV LL) (jV LL) (4 : Fin 9) (0 : Fin 2) (5 : Fin 8) _ (m (v10L d))).symm (congrArg₂ (fun a b : sProp 𝕄 => iprop(a ∗ b)) (pts_v10 d (cV LL) (jV LL) (8 : Fin 9) (0 : Fin 2) (3 : Fin 8) _ (m (v10L d))).symm (pts_v10 d (cV LL) (jV LL) (1 : Fin 9) (1 : Fin 2) (4 : Fin 8) _ (m (v10L d))).symm)))
theorem close10 (m : (ℓ : Loc nD τ sig) → Buf (Elt F) ℓ) (d : Dev nD) :
    (bigSep (t10 (19 : Fin 32)) (B1 m d) : sProp 𝕄) = iprop(((OUT0_0).view.loc (TH d) ↦[(OUT0_0).view.set]{fullShare} OUTc m d) ∗ ((OUT0_1).view.loc (TH d) ↦[(OUT0_1).view.set]{fullShare} OUTc m d) ∗ ((OUT1_0).view.loc (TH d) ↦[(OUT1_0).view.set]{fullShare} OUTc m d) ∗ ((OUT2_0).view.loc (TH d) ↦[(OUT2_0).view.set]{fullShare} OUTc m d)) := by
  show bigSep ({((6 : Fin 9), (0 : Fin 2), (4 : Fin 8)), ((4 : Fin 9), (0 : Fin 2), (5 : Fin 8)), ((8 : Fin 9), (0 : Fin 2), (3 : Fin 8)), ((1 : Fin 9), (1 : Fin 2), (4 : Fin 8))} : Finset (Fin 9 × Fin 2 × Fin 8)) (B1 m d) = _
  rw [SparseCore.bigSep_insert' (by decide), SparseCore.bigSep_insert' (by decide), SparseCore.bigSep_insert' (by decide), bigSep_singleton]
  exact (congrArg₂ (fun a b : sProp 𝕄 => iprop(a ∗ b)) (pts_v10 d (cV LL) (jV LL) (6 : Fin 9) (0 : Fin 2) (4 : Fin 8) _ (OUTc m d)).symm (congrArg₂ (fun a b : sProp 𝕄 => iprop(a ∗ b)) (pts_v10 d (cV LL) (jV LL) (4 : Fin 9) (0 : Fin 2) (5 : Fin 8) _ (OUTc m d)).symm (congrArg₂ (fun a b : sProp 𝕄 => iprop(a ∗ b)) (pts_v10 d (cV LL) (jV LL) (8 : Fin 9) (0 : Fin 2) (3 : Fin 8) _ (OUTc m d)).symm (pts_v10 d (cV LL) (jV LL) (1 : Fin 9) (1 : Fin 2) (4 : Fin 8) _ (OUTc m d)).symm)))

/-! ## What each output slice has to hold is what its source slice holds -/

theorem val0_0 (m : (ℓ : Loc nD τ sig) → Buf (Elt F) ℓ) (d : Dev nD) :
    (SRC0).view.read (Elt F) (V2c m d) = (OUT0_0).view.read (Elt F) (OUTc m d) := by
  funext y
  obtain ⟨t, q, rfl⟩ : ∃ (t q : Fin 128), y = ix2 t q := ⟨y 0, y 1, eq_ix2 y⟩
  refine (read_v2 (13 : Fin 17) (1 : Fin 2) _ _ t q).trans ((?_ : _ = _).trans (read_v10 (6 : Fin 9) (0 : Fin 2) (4 : Fin 8) _ _ t q).symm)
  unfold V2c OUTc
  rw [Cert.Layout.poseV_apply]
  refine Eq.trans ?_ (outV_at _ _ _ _ _ _ _ t _ q (show 8 * 0 + 4 < 14 by decide)).symm
  rfl
theorem val0_1 (m : (ℓ : Loc nD τ sig) → Buf (Elt F) ℓ) (d : Dev nD) :
    (SRC0).view.read (Elt F) (V2c m d) = (OUT0_1).view.read (Elt F) (OUTc m d) := by
  funext y
  obtain ⟨t, q, rfl⟩ : ∃ (t q : Fin 128), y = ix2 t q := ⟨y 0, y 1, eq_ix2 y⟩
  refine (read_v2 (13 : Fin 17) (1 : Fin 2) _ _ t q).trans ((?_ : _ = _).trans (read_v10 (4 : Fin 9) (0 : Fin 2) (5 : Fin 8) _ _ t q).symm)
  unfold V2c OUTc
  rw [Cert.Layout.poseV_apply]
  refine Eq.trans ?_ (outV_at _ _ _ _ _ _ _ t _ q (show 8 * 0 + 5 < 14 by decide)).symm
  rfl
theorem val1_0 (m : (ℓ : Loc nD τ sig) → Buf (Elt F) ℓ) (d : Dev nD) :
    (SRC1).view.read (Elt F) (V7c m d) = (OUT1_0).view.read (Elt F) (OUTc m d) := by
  funext y
  obtain ⟨t, q, rfl⟩ : ∃ (t q : Fin 128), y = ix2 t q := ⟨y 0, y 1, eq_ix2 y⟩
  refine (read_v7 (10 : Fin 17) _ _ t q).trans ((?_ : _ = _).trans (read_v10 (8 : Fin 9) (0 : Fin 2) (3 : Fin 8) _ _ t q).symm)
  unfold V7c OUTc
  rw [Cert.Layout.visV_apply]
  refine Eq.trans ?_ (outV_at _ _ _ _ _ _ _ t _ q (show 8 * 0 + 3 < 14 by decide)).symm
  rfl
theorem val2_0 (m : (ℓ : Loc nD τ sig) → Buf (Elt F) ℓ) (d : Dev nD) :
    (SRC2).view.read (Elt F) (V5c m d) = (OUT2_0).view.read (Elt F) (OUTc m d) := by
  funext y
  obtain ⟨t, q, rfl⟩ : ∃ (t q : Fin 128), y = ix2 t q := ⟨y 0, y 1, eq_ix2 y⟩
  refine (read_v5 (12 : Fin 14) (1 : Fin 2) _ _ t q).trans ((?_ : _ = _).trans (read_v10 (1 : Fin 9) (1 : Fin 2) (4 : Fin 8) _ _ t q).symm)
  unfold V5c OUTc
  rw [Cert.Layout.deltaV_apply]
  refine Eq.trans ?_ (outV_at _ _ _ _ _ _ _ t _ q (show 8 * 1 + 4 < 14 by decide)).symm
  rfl

/-! ## The run -/

open Lean Elab Tactic Meta in
/-- Unfold the names the symbolic run gave to the values its copies carry. -/
elab "unfold_carried" : tactic => do
  for _ in [0:6] do
    let g ← getMainGoal
    let t ← instantiateMVars (← g.getType)
    if (t.getUsedConstants.any fun n => n.components.any (· == `sl)) then
      let t' ← deltaExpand t (fun n => n.components.any (· == `sl))
      let g' ← g.change t' (checkDefEq := false)
      replaceMainGoal [g']

variable [FloatOps F] [∀ e, Nonempty (Elt F e)]

theorem run (m : (ℓ : Loc nD τ sig) → Buf (Elt F) ℓ) (d : Dev nD) (O : CellTallies nD τ sig (HIx 1)) (W : Waits sig (HIx 1)) (hO : ∀ g, O g none = 0) :
    (iprop(levAts (K (F := F)).L (K (F := F)).lev ∗ tileG m d (19 : Fin 32)
        ∗ scopedBufs (TH d) ∗ scopedSems0 (TH d) ∗ owes (TH d) O W) : sProp 𝕄)
      ⊢ wp frame (wpE (defs₀ (F := F)) 𝒱₀ (TH d) none) Set.univ
          (cc0_run LL (Memref.whole main_v2_scv) (Memref.isWhole_whole _) (Memref.whole main_v7_scv) (Memref.isWhole_whole _) (Memref.whole main_v5_scv) (Memref.isWhole_whole _) (Memref.whole main_v9_scv) (Memref.isWhole_whole _) (Memref.whole main_v10_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8)
          fun _ => iprop(tileT m d (19 : Fin 32) ∗ scopedBufs (TH d) ∗ scopedSems0 (TH d)
            ∗ ∃ W', ⌜∀ p ∈ W', p ∈ W ∨ p.2 = none⌝ ∗ owes (TH d) O W') := by
  rw [(K (F := F)).scopedBufs_V facts d (cV LL) (jV LL), SparseCore.Cfg.scopedSems0_V (Val := Elt F) d (cV LL) (jV LL), ownSems0_V, ownBufs_V]
  unfold tileG tileT
  iintro ⟨#Hlv, ⟨HF2, HF7, HF5, -, HF10⟩, ⟨⟨%fb0, Hb0⟩, ⟨%fb1, Hb1⟩, ⟨%fb2, Hb2⟩, Hbufs⟩, ⟨Hs3, Hs4, Hs5, Hs6, Hs7, Hs8, Hsems⟩, HO⟩
  ihave HF2' := (Entails.of_eq (open2 m d)) $$ HF2
  icases HF2' with HS0
  ihave HF7' := (Entails.of_eq (open7 m d)) $$ HF7
  icases HF7' with HS1
  ihave HF5' := (Entails.of_eq (open5 m d)) $$ HF5
  icases HF5' with HS2
  ihave HF10' := (Entails.of_eq (open10 m d)) $$ HF10
  icases HF10' with ⟨HO0_0, HO0_1, HO1_0, HO2_0⟩
  ihave Hmw := ((K (F := F)).mayWaits_none (thr := TH d) hO) $$ Hlv
  ihave Hb0' := (Entails.of_eq (pts_b0 d (cV LL) (jV LL) _).symm) $$ Hb0
  ihave Hb1' := (Entails.of_eq (pts_b1 d (cV LL) (jV LL) _).symm) $$ Hb1
  ihave Hb2' := (Entails.of_eq (pts_b2 d (cV LL) (jV LL) _).symm) $$ Hb2
  have _plan : Transfers.BatchOf (TH d) (SemLoc.dma (sig := sig) cc0_scratch6.sem) 2 (windows := true) := trivial
  sl_unfold [cc0_run]
  sl_exec_parts (disch := decide)
  sl_step
  isplitl [HS0 HS1 HS2 HO0_0 HO0_1 HO1_0 HO2_0]
  · skip
    isplitl [HS0]
    · iapply (Entails.of_eq (open2 m d).symm)
      iexact HS0
    isplitl [HS1]
    · iapply (Entails.of_eq (open7 m d).symm)
      iexact HS1
    isplitl [HS2]
    · iapply (Entails.of_eq (open5 m d).symm)
      iexact HS2
    isplitr
    · rw [show t9 (19 : Fin 32) = ∅ from rfl, bigSep_empty]; iempintro
    · iapply (Entails.of_eq (close10 m d).symm)
      isplitl [HO0_0]
      · iapply (out_post_ent (TH d) (OUT0_0) _ (OUTc m d) _ ?hv0_0) $$ HO0_0
        case hv0_0 => unfold_carried; simp only [ReadAs.apply_same, View.read_write_univ]; exact val0_0 m d
      isplitl [HO0_1]
      · iapply (out_post_ent (TH d) (OUT0_1) _ (OUTc m d) _ ?hv0_1) $$ HO0_1
        case hv0_1 => unfold_carried; simp only [ReadAs.apply_same, View.read_write_univ]; exact val0_1 m d
      isplitl [HO1_0]
      · iapply (out_post_ent (TH d) (OUT1_0) _ (OUTc m d) _ ?hv1_0) $$ HO1_0
        case hv1_0 => unfold_carried; simp only [ReadAs.apply_same, View.read_write_univ]; exact val1_0 m d
      iapply (out_post_ent (TH d) (OUT2_0) _ (OUTc m d) _ ?hv2_0) $$ HO2_0
      case hv2_0 => unfold_carried; simp only [ReadAs.apply_same, View.read_write_univ]; exact val2_0 m d

  isplitl [Hb0' Hb1' Hb2' Hbufs]
  · isplitl [Hb0']
    · iexists _; iapply (Entails.of_eq (pts_b0 d (cV LL) (jV LL) _)); iexact Hb0'
    isplitl [Hb1']
    · iexists _; iapply (Entails.of_eq (pts_b1 d (cV LL) (jV LL) _)); iexact Hb1'
    isplitl [Hb2']
    · iexists _; iapply (Entails.of_eq (pts_b2 d (cV LL) (jV LL) _)); iexact Hb2'
    iexact Hbufs
  isplitl [Hs3 Hs4 Hs5 Hs6 Hs7 Hs8 Hsems]
  · isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    iexact Hsems
  iexists _; isplitr
  rotate_left
  · iexact HO
  · ipureintro; intro p hp
    simp only [Finset.mem_insert] at hp
    rcases hp with rfl | rfl | rfl | rfl | rfl | rfl | rfl | hp <;> first | exact .inr rfl | exact .inl hp

end Cert.Proof.KI.Tile19

end
-- ==== Proof.KITile20.lean ====
/-
  Tile 20 of the kernel (subcore 10 of core 0): one slice in (vis13), 2 out; one slice in (delta4.0), 1 out; one slice in (len12), 1 out.
  Its whole body is run: every copy it does not own is skipped by the comparison of its number with the copy's owner;
  each incoming copy fills a staging buffer, each outgoing copy carries that buffer into one slice of the output array,
  and what each output slice then holds is the source slice the specification asks for there.
-/
import proofs.«210185_g18468359372994_cont_8to1_1390_15_alg».proof.Proof.KIRead

set_option maxHeartbeats 4000000
set_option quotPrecheck false

noncomputable section

namespace Cert.Proof.KI.Tile20

open Cert.KernelIdeal Cert.KernelIdeal.Gen
open Cert.Proof.KI
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
theorem cLt : 0 < grid0.bound 0 := by decide
theorem sLt : 10 < grid0.bound 1 := by decide
local notation "LL" => (coordsV (⟨0, cLt⟩ : Fin (grid0.bound 0)) (⟨10, sLt⟩ : Fin (grid0.bound 1)))
local notation "TH" d => V d (cV LL) (jV LL)
local notation "SRC0" => (((Memref.whole main_v7_scv).slice (Rect.unit (s := S17x128x128) ![13, 0, 0] S1x128x128.size inb_S17x128x128_S1x128x128_13_0_0) (fun _ => rfl)).squeeze S128x128 squeezes_S1x128x128_S128x128 : Memref sig .scVector .hbm S128x128 .f32)
local notation "OUT0_0" => (((Memref.whole main_v10_scv).slice (Rect.unit (s := S9x2x128x8x128) ![8, 0, 0, 4, 0] S1x1x128x1x128.size inb_S9x2x128x8x128_S1x1x128x1x128_8_0_0_4_0) (fun _ => rfl)).squeeze S128x128 squeezes_S1x1x128x1x128_S128x128 : Memref sig .scVector .hbm S128x128 .f32)
local notation "OUT0_1" => (((Memref.whole main_v10_scv).slice (Rect.unit (s := S9x2x128x8x128) ![7, 0, 0, 5, 0] S1x1x128x1x128.size inb_S9x2x128x8x128_S1x1x128x1x128_7_0_0_5_0) (fun _ => rfl)).squeeze S128x128 squeezes_S1x1x128x1x128_S128x128 : Memref sig .scVector .hbm S128x128 .f32)
local notation "SRC1" => (((Memref.whole main_v5_scv).slice (Rect.unit (s := S14x128x2x128) ![4, 0, 0, 0] S1x128x1x128.size inb_S14x128x2x128_S1x128x1x128_4_0_0_0) (fun _ => rfl)).squeeze S128x128 squeezes_S1x128x1x128_S128x128 : Memref sig .scVector .hbm S128x128 .f32)
local notation "OUT1_0" => (((Memref.whole main_v10_scv).slice (Rect.unit (s := S9x2x128x8x128) ![0, 0, 0, 4, 0] S1x1x128x1x128.size inb_S9x2x128x8x128_S1x1x128x1x128_0_0_0_4_0) (fun _ => rfl)).squeeze S128x128 squeezes_S1x1x128x1x128_S128x128 : Memref sig .scVector .hbm S128x128 .f32)
local notation "SRC2" => (((Memref.whole main_v9_scv).slice (Rect.unit (s := S14x128x128) ![12, 0, 0] S1x128x128.size inb_S14x128x128_S1x128x128_12_0_0) (fun _ => rfl)).squeeze S128x128 squeezes_S1x128x128_S128x128 : Memref sig .scVector .hbm S128x128 .f32)
local notation "OUT2_0" => (((Memref.whole main_v10_scv).slice (Rect.unit (s := S9x2x128x8x128) ![2, 1, 0, 4, 0] S1x1x128x1x128.size inb_S9x2x128x8x128_S1x1x128x1x128_2_1_0_4_0) (fun _ => rfl)).squeeze S128x128 squeezes_S1x1x128x1x128_S128x128 : Memref sig .scVector .hbm S128x128 .f32)

/-! ## The tile's slices, as its memrefs name them -/

theorem open7 (m : (ℓ : Loc nD τ sig) → Buf (Elt F) ℓ) (d : Dev nD) :
    (bigSep (t7 (20 : Fin 32)) (A7 m d) : sProp 𝕄) = iprop(((SRC0).view.loc (TH d) ↦[(SRC0).view.set]{fullShare} V7c m d)) := by
  show bigSep ({(13 : Fin 17)} : Finset (Fin 17)) (A7 m d) = _
  rw [bigSep_singleton]
  exact (pts_v7 d (cV LL) (jV LL) (13 : Fin 17) _ (V7c m d)).symm
theorem open5 (m : (ℓ : Loc nD τ sig) → Buf (Elt F) ℓ) (d : Dev nD) :
    (bigSep (t5 (20 : Fin 32)) (A5 m d) : sProp 𝕄) = iprop(((SRC1).view.loc (TH d) ↦[(SRC1).view.set]{fullShare} V5c m d)) := by
  show bigSep ({((4 : Fin 14), (0 : Fin 2))} : Finset (Fin 14 × Fin 2)) (A5 m d) = _
  rw [bigSep_singleton]
  exact (pts_v5 d (cV LL) (jV LL) (4 : Fin 14) (0 : Fin 2) _ (V5c m d)).symm
theorem open9 (m : (ℓ : Loc nD τ sig) → Buf (Elt F) ℓ) (d : Dev nD) :
    (bigSep (t9 (20 : Fin 32)) (A9 m d) : sProp 𝕄) = iprop(((SRC2).view.loc (TH d) ↦[(SRC2).view.set]{fullShare} V9c m d)) := by
  show bigSep ({(12 : Fin 14)} : Finset (Fin 14)) (A9 m d) = _
  rw [bigSep_singleton]
  exact (pts_v9 d (cV LL) (jV LL) (12 : Fin 14) _ (V9c m d)).symm
theorem open10 (m : (ℓ : Loc nD τ sig) → Buf (Elt F) ℓ) (d : Dev nD) :
    (bigSep (t10 (20 : Fin 32)) (B0 m d) : sProp 𝕄) = iprop(((OUT0_0).view.loc (TH d) ↦[(OUT0_0).view.set]{fullShare} m (v10L d)) ∗ ((OUT0_1).view.loc (TH d) ↦[(OUT0_1).view.set]{fullShare} m (v10L d)) ∗ ((OUT1_0).view.loc (TH d) ↦[(OUT1_0).view.set]{fullShare} m (v10L d)) ∗ ((OUT2_0).view.loc (TH d) ↦[(OUT2_0).view.set]{fullShare} m (v10L d))) := by
  show bigSep ({((8 : Fin 9), (0 : Fin 2), (4 : Fin 8)), ((7 : Fin 9), (0 : Fin 2), (5 : Fin 8)), ((0 : Fin 9), (0 : Fin 2), (4 : Fin 8)), ((2 : Fin 9), (1 : Fin 2), (4 : Fin 8))} : Finset (Fin 9 × Fin 2 × Fin 8)) (B0 m d) = _
  rw [SparseCore.bigSep_insert' (by decide), SparseCore.bigSep_insert' (by decide), SparseCore.bigSep_insert' (by decide), bigSep_singleton]
  exact (congrArg₂ (fun a b : sProp 𝕄 => iprop(a ∗ b)) (pts_v10 d (cV LL) (jV LL) (8 : Fin 9) (0 : Fin 2) (4 : Fin 8) _ (m (v10L d))).symm (congrArg₂ (fun a b : sProp 𝕄 => iprop(a ∗ b)) (pts_v10 d (cV LL) (jV LL) (7 : Fin 9) (0 : Fin 2) (5 : Fin 8) _ (m (v10L d))).symm (congrArg₂ (fun a b : sProp 𝕄 => iprop(a ∗ b)) (pts_v10 d (cV LL) (jV LL) (0 : Fin 9) (0 : Fin 2) (4 : Fin 8) _ (m (v10L d))).symm (pts_v10 d (cV LL) (jV LL) (2 : Fin 9) (1 : Fin 2) (4 : Fin 8) _ (m (v10L d))).symm)))
theorem close10 (m : (ℓ : Loc nD τ sig) → Buf (Elt F) ℓ) (d : Dev nD) :
    (bigSep (t10 (20 : Fin 32)) (B1 m d) : sProp 𝕄) = iprop(((OUT0_0).view.loc (TH d) ↦[(OUT0_0).view.set]{fullShare} OUTc m d) ∗ ((OUT0_1).view.loc (TH d) ↦[(OUT0_1).view.set]{fullShare} OUTc m d) ∗ ((OUT1_0).view.loc (TH d) ↦[(OUT1_0).view.set]{fullShare} OUTc m d) ∗ ((OUT2_0).view.loc (TH d) ↦[(OUT2_0).view.set]{fullShare} OUTc m d)) := by
  show bigSep ({((8 : Fin 9), (0 : Fin 2), (4 : Fin 8)), ((7 : Fin 9), (0 : Fin 2), (5 : Fin 8)), ((0 : Fin 9), (0 : Fin 2), (4 : Fin 8)), ((2 : Fin 9), (1 : Fin 2), (4 : Fin 8))} : Finset (Fin 9 × Fin 2 × Fin 8)) (B1 m d) = _
  rw [SparseCore.bigSep_insert' (by decide), SparseCore.bigSep_insert' (by decide), SparseCore.bigSep_insert' (by decide), bigSep_singleton]
  exact (congrArg₂ (fun a b : sProp 𝕄 => iprop(a ∗ b)) (pts_v10 d (cV LL) (jV LL) (8 : Fin 9) (0 : Fin 2) (4 : Fin 8) _ (OUTc m d)).symm (congrArg₂ (fun a b : sProp 𝕄 => iprop(a ∗ b)) (pts_v10 d (cV LL) (jV LL) (7 : Fin 9) (0 : Fin 2) (5 : Fin 8) _ (OUTc m d)).symm (congrArg₂ (fun a b : sProp 𝕄 => iprop(a ∗ b)) (pts_v10 d (cV LL) (jV LL) (0 : Fin 9) (0 : Fin 2) (4 : Fin 8) _ (OUTc m d)).symm (pts_v10 d (cV LL) (jV LL) (2 : Fin 9) (1 : Fin 2) (4 : Fin 8) _ (OUTc m d)).symm)))

/-! ## What each output slice has to hold is what its source slice holds -/

theorem val0_0 (m : (ℓ : Loc nD τ sig) → Buf (Elt F) ℓ) (d : Dev nD) :
    (SRC0).view.read (Elt F) (V7c m d) = (OUT0_0).view.read (Elt F) (OUTc m d) := by
  funext y
  obtain ⟨t, q, rfl⟩ : ∃ (t q : Fin 128), y = ix2 t q := ⟨y 0, y 1, eq_ix2 y⟩
  refine (read_v7 (13 : Fin 17) _ _ t q).trans ((?_ : _ = _).trans (read_v10 (8 : Fin 9) (0 : Fin 2) (4 : Fin 8) _ _ t q).symm)
  unfold V7c OUTc
  rw [Cert.Layout.visV_apply]
  refine Eq.trans ?_ (outV_at _ _ _ _ _ _ _ t _ q (show 8 * 0 + 4 < 14 by decide)).symm
  rfl
theorem val0_1 (m : (ℓ : Loc nD τ sig) → Buf (Elt F) ℓ) (d : Dev nD) :
    (SRC0).view.read (Elt F) (V7c m d) = (OUT0_1).view.read (Elt F) (OUTc m d) := by
  funext y
  obtain ⟨t, q, rfl⟩ : ∃ (t q : Fin 128), y = ix2 t q := ⟨y 0, y 1, eq_ix2 y⟩
  refine (read_v7 (13 : Fin 17) _ _ t q).trans ((?_ : _ = _).trans (read_v10 (7 : Fin 9) (0 : Fin 2) (5 : Fin 8) _ _ t q).symm)
  unfold V7c OUTc
  rw [Cert.Layout.visV_apply]
  refine Eq.trans ?_ (outV_at _ _ _ _ _ _ _ t _ q (show 8 * 0 + 5 < 14 by decide)).symm
  rfl
theorem val1_0 (m : (ℓ : Loc nD τ sig) → Buf (Elt F) ℓ) (d : Dev nD) :
    (SRC1).view.read (Elt F) (V5c m d) = (OUT1_0).view.read (Elt F) (OUTc m d) := by
  funext y
  obtain ⟨t, q, rfl⟩ : ∃ (t q : Fin 128), y = ix2 t q := ⟨y 0, y 1, eq_ix2 y⟩
  refine (read_v5 (4 : Fin 14) (0 : Fin 2) _ _ t q).trans ((?_ : _ = _).trans (read_v10 (0 : Fin 9) (0 : Fin 2) (4 : Fin 8) _ _ t q).symm)
  unfold V5c OUTc
  rw [Cert.Layout.deltaV_apply]
  refine Eq.trans ?_ (outV_at _ _ _ _ _ _ _ t _ q (show 8 * 0 + 4 < 14 by decide)).symm
  rfl
theorem val2_0 (m : (ℓ : Loc nD τ sig) → Buf (Elt F) ℓ) (d : Dev nD) :
    (SRC2).view.read (Elt F) (V9c m d) = (OUT2_0).view.read (Elt F) (OUTc m d) := by
  funext y
  obtain ⟨t, q, rfl⟩ : ∃ (t q : Fin 128), y = ix2 t q := ⟨y 0, y 1, eq_ix2 y⟩
  refine (read_v9 (12 : Fin 14) _ _ t q).trans ((?_ : _ = _).trans (read_v10 (2 : Fin 9) (1 : Fin 2) (4 : Fin 8) _ _ t q).symm)
  unfold V9c OUTc
  rw [Cert.Layout.lenV_apply]
  refine Eq.trans ?_ (outV_at _ _ _ _ _ _ _ t _ q (show 8 * 1 + 4 < 14 by decide)).symm
  rfl

/-! ## The run -/

open Lean Elab Tactic Meta in
/-- Unfold the names the symbolic run gave to the values its copies carry. -/
elab "unfold_carried" : tactic => do
  for _ in [0:6] do
    let g ← getMainGoal
    let t ← instantiateMVars (← g.getType)
    if (t.getUsedConstants.any fun n => n.components.any (· == `sl)) then
      let t' ← deltaExpand t (fun n => n.components.any (· == `sl))
      let g' ← g.change t' (checkDefEq := false)
      replaceMainGoal [g']

variable [FloatOps F] [∀ e, Nonempty (Elt F e)]

theorem run (m : (ℓ : Loc nD τ sig) → Buf (Elt F) ℓ) (d : Dev nD) (O : CellTallies nD τ sig (HIx 1)) (W : Waits sig (HIx 1)) (hO : ∀ g, O g none = 0) :
    (iprop(levAts (K (F := F)).L (K (F := F)).lev ∗ tileG m d (20 : Fin 32)
        ∗ scopedBufs (TH d) ∗ scopedSems0 (TH d) ∗ owes (TH d) O W) : sProp 𝕄)
      ⊢ wp frame (wpE (defs₀ (F := F)) 𝒱₀ (TH d) none) Set.univ
          (cc0_run LL (Memref.whole main_v2_scv) (Memref.isWhole_whole _) (Memref.whole main_v7_scv) (Memref.isWhole_whole _) (Memref.whole main_v5_scv) (Memref.isWhole_whole _) (Memref.whole main_v9_scv) (Memref.isWhole_whole _) (Memref.whole main_v10_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8)
          fun _ => iprop(tileT m d (20 : Fin 32) ∗ scopedBufs (TH d) ∗ scopedSems0 (TH d)
            ∗ ∃ W', ⌜∀ p ∈ W', p ∈ W ∨ p.2 = none⌝ ∗ owes (TH d) O W') := by
  rw [(K (F := F)).scopedBufs_V facts d (cV LL) (jV LL), SparseCore.Cfg.scopedSems0_V (Val := Elt F) d (cV LL) (jV LL), ownSems0_V, ownBufs_V]
  unfold tileG tileT
  iintro ⟨#Hlv, ⟨-, HF7, HF5, HF9, HF10⟩, ⟨⟨%fb0, Hb0⟩, ⟨%fb1, Hb1⟩, ⟨%fb2, Hb2⟩, Hbufs⟩, ⟨Hs3, Hs4, Hs5, Hs6, Hs7, Hs8, Hsems⟩, HO⟩
  ihave HF7' := (Entails.of_eq (open7 m d)) $$ HF7
  icases HF7' with HS0
  ihave HF5' := (Entails.of_eq (open5 m d)) $$ HF5
  icases HF5' with HS1
  ihave HF9' := (Entails.of_eq (open9 m d)) $$ HF9
  icases HF9' with HS2
  ihave HF10' := (Entails.of_eq (open10 m d)) $$ HF10
  icases HF10' with ⟨HO0_0, HO0_1, HO1_0, HO2_0⟩
  ihave Hmw := ((K (F := F)).mayWaits_none (thr := TH d) hO) $$ Hlv
  ihave Hb0' := (Entails.of_eq (pts_b0 d (cV LL) (jV LL) _).symm) $$ Hb0
  ihave Hb1' := (Entails.of_eq (pts_b1 d (cV LL) (jV LL) _).symm) $$ Hb1
  ihave Hb2' := (Entails.of_eq (pts_b2 d (cV LL) (jV LL) _).symm) $$ Hb2
  have _plan : Transfers.BatchOf (TH d) (SemLoc.dma (sig := sig) cc0_scratch6.sem) 2 (windows := true) := trivial
  sl_unfold [cc0_run]
  sl_exec_parts (disch := decide)
  sl_step
  isplitl [HS0 HS1 HS2 HO0_0 HO0_1 HO1_0 HO2_0]
  · skip
    isplitr
    · rw [show t2 (20 : Fin 32) = ∅ from rfl, bigSep_empty]; iempintro
    isplitl [HS0]
    · iapply (Entails.of_eq (open7 m d).symm)
      iexact HS0
    isplitl [HS1]
    · iapply (Entails.of_eq (open5 m d).symm)
      iexact HS1
    isplitl [HS2]
    · iapply (Entails.of_eq (open9 m d).symm)
      iexact HS2
    · iapply (Entails.of_eq (close10 m d).symm)
      isplitl [HO0_0]
      · iapply (out_post_ent (TH d) (OUT0_0) _ (OUTc m d) _ ?hv0_0) $$ HO0_0
        case hv0_0 => unfold_carried; simp only [ReadAs.apply_same, View.read_write_univ]; exact val0_0 m d
      isplitl [HO0_1]
      · iapply (out_post_ent (TH d) (OUT0_1) _ (OUTc m d) _ ?hv0_1) $$ HO0_1
        case hv0_1 => unfold_carried; simp only [ReadAs.apply_same, View.read_write_univ]; exact val0_1 m d
      isplitl [HO1_0]
      · iapply (out_post_ent (TH d) (OUT1_0) _ (OUTc m d) _ ?hv1_0) $$ HO1_0
        case hv1_0 => unfold_carried; simp only [ReadAs.apply_same, View.read_write_univ]; exact val1_0 m d
      iapply (out_post_ent (TH d) (OUT2_0) _ (OUTc m d) _ ?hv2_0) $$ HO2_0
      case hv2_0 => unfold_carried; simp only [ReadAs.apply_same, View.read_write_univ]; exact val2_0 m d

  isplitl [Hb0' Hb1' Hb2' Hbufs]
  · isplitl [Hb0']
    · iexists _; iapply (Entails.of_eq (pts_b0 d (cV LL) (jV LL) _)); iexact Hb0'
    isplitl [Hb1']
    · iexists _; iapply (Entails.of_eq (pts_b1 d (cV LL) (jV LL) _)); iexact Hb1'
    isplitl [Hb2']
    · iexists _; iapply (Entails.of_eq (pts_b2 d (cV LL) (jV LL) _)); iexact Hb2'
    iexact Hbufs
  isplitl [Hs3 Hs4 Hs5 Hs6 Hs7 Hs8 Hsems]
  · isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    iexact Hsems
  iexists _; isplitr
  rotate_left
  · iexact HO
  · ipureintro; intro p hp
    simp only [Finset.mem_insert] at hp
    rcases hp with rfl | rfl | rfl | rfl | rfl | rfl | rfl | hp <;> first | exact .inr rfl | exact .inl hp

end Cert.Proof.KI.Tile20

end
-- ==== Proof.KITile21.lean ====
/-
  Tile 21 of the kernel (subcore 10 of core 1): one slice in (pose14.0), 2 out; one slice in (delta4.1), 1 out; one slice in (delta13.0), 1 out.
  Its whole body is run: every copy it does not own is skipped by the comparison of its number with the copy's owner;
  each incoming copy fills a staging buffer, each outgoing copy carries that buffer into one slice of the output array,
  and what each output slice then holds is the source slice the specification asks for there.
-/
import proofs.«210185_g18468359372994_cont_8to1_1390_15_alg».proof.Proof.KIRead

set_option maxHeartbeats 4000000
set_option quotPrecheck false

noncomputable section

namespace Cert.Proof.KI.Tile21

open Cert.KernelIdeal Cert.KernelIdeal.Gen
open Cert.Proof.KI
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
theorem cLt : 1 < grid0.bound 0 := by decide
theorem sLt : 10 < grid0.bound 1 := by decide
local notation "LL" => (coordsV (⟨1, cLt⟩ : Fin (grid0.bound 0)) (⟨10, sLt⟩ : Fin (grid0.bound 1)))
local notation "TH" d => V d (cV LL) (jV LL)
local notation "SRC0" => (((Memref.whole main_v2_scv).slice (Rect.unit (s := S17x128x2x128) ![14, 0, 0, 0] S1x128x1x128.size inb_S17x128x2x128_S1x128x1x128_14_0_0_0) (fun _ => rfl)).squeeze S128x128 squeezes_S1x128x1x128_S128x128 : Memref sig .scVector .hbm S128x128 .f32)
local notation "OUT0_0" => (((Memref.whole main_v10_scv).slice (Rect.unit (s := S9x2x128x8x128) ![5, 0, 0, 6, 0] S1x1x128x1x128.size inb_S9x2x128x8x128_S1x1x128x1x128_5_0_0_6_0) (fun _ => rfl)).squeeze S128x128 squeezes_S1x1x128x1x128_S128x128 : Memref sig .scVector .hbm S128x128 .f32)
local notation "OUT0_1" => (((Memref.whole main_v10_scv).slice (Rect.unit (s := S9x2x128x8x128) ![3, 0, 0, 7, 0] S1x1x128x1x128.size inb_S9x2x128x8x128_S1x1x128x1x128_3_0_0_7_0) (fun _ => rfl)).squeeze S128x128 squeezes_S1x1x128x1x128_S128x128 : Memref sig .scVector .hbm S128x128 .f32)
local notation "SRC1" => (((Memref.whole main_v5_scv).slice (Rect.unit (s := S14x128x2x128) ![4, 0, 1, 0] S1x128x1x128.size inb_S14x128x2x128_S1x128x1x128_4_0_1_0) (fun _ => rfl)).squeeze S128x128 squeezes_S1x128x1x128_S128x128 : Memref sig .scVector .hbm S128x128 .f32)
local notation "OUT1_0" => (((Memref.whole main_v10_scv).slice (Rect.unit (s := S9x2x128x8x128) ![1, 0, 0, 4, 0] S1x1x128x1x128.size inb_S9x2x128x8x128_S1x1x128x1x128_1_0_0_4_0) (fun _ => rfl)).squeeze S128x128 squeezes_S1x1x128x1x128_S128x128 : Memref sig .scVector .hbm S128x128 .f32)
local notation "SRC2" => (((Memref.whole main_v5_scv).slice (Rect.unit (s := S14x128x2x128) ![13, 0, 0, 0] S1x128x1x128.size inb_S14x128x2x128_S1x128x1x128_13_0_0_0) (fun _ => rfl)).squeeze S128x128 squeezes_S1x128x1x128_S128x128 : Memref sig .scVector .hbm S128x128 .f32)
local notation "OUT2_0" => (((Memref.whole main_v10_scv).slice (Rect.unit (s := S9x2x128x8x128) ![0, 1, 0, 5, 0] S1x1x128x1x128.size inb_S9x2x128x8x128_S1x1x128x1x128_0_1_0_5_0) (fun _ => rfl)).squeeze S128x128 squeezes_S1x1x128x1x128_S128x128 : Memref sig .scVector .hbm S128x128 .f32)

/-! ## The tile's slices, as its memrefs name them -/

theorem open2 (m : (ℓ : Loc nD τ sig) → Buf (Elt F) ℓ) (d : Dev nD) :
    (bigSep (t2 (21 : Fin 32)) (A2 m d) : sProp 𝕄) = iprop(((SRC0).view.loc (TH d) ↦[(SRC0).view.set]{fullShare} V2c m d)) := by
  show bigSep ({((14 : Fin 17), (0 : Fin 2))} : Finset (Fin 17 × Fin 2)) (A2 m d) = _
  rw [bigSep_singleton]
  exact (pts_v2 d (cV LL) (jV LL) (14 : Fin 17) (0 : Fin 2) _ (V2c m d)).symm
theorem open5 (m : (ℓ : Loc nD τ sig) → Buf (Elt F) ℓ) (d : Dev nD) :
    (bigSep (t5 (21 : Fin 32)) (A5 m d) : sProp 𝕄) = iprop(((SRC1).view.loc (TH d) ↦[(SRC1).view.set]{fullShare} V5c m d) ∗ ((SRC2).view.loc (TH d) ↦[(SRC2).view.set]{fullShare} V5c m d)) := by
  show bigSep ({((4 : Fin 14), (1 : Fin 2)), ((13 : Fin 14), (0 : Fin 2))} : Finset (Fin 14 × Fin 2)) (A5 m d) = _
  rw [SparseCore.bigSep_insert' (by decide), bigSep_singleton]
  exact (congrArg₂ (fun a b : sProp 𝕄 => iprop(a ∗ b)) (pts_v5 d (cV LL) (jV LL) (4 : Fin 14) (1 : Fin 2) _ (V5c m d)).symm (pts_v5 d (cV LL) (jV LL) (13 : Fin 14) (0 : Fin 2) _ (V5c m d)).symm)
theorem open10 (m : (ℓ : Loc nD τ sig) → Buf (Elt F) ℓ) (d : Dev nD) :
    (bigSep (t10 (21 : Fin 32)) (B0 m d) : sProp 𝕄) = iprop(((OUT0_0).view.loc (TH d) ↦[(OUT0_0).view.set]{fullShare} m (v10L d)) ∗ ((OUT0_1).view.loc (TH d) ↦[(OUT0_1).view.set]{fullShare} m (v10L d)) ∗ ((OUT1_0).view.loc (TH d) ↦[(OUT1_0).view.set]{fullShare} m (v10L d)) ∗ ((OUT2_0).view.loc (TH d) ↦[(OUT2_0).view.set]{fullShare} m (v10L d))) := by
  show bigSep ({((5 : Fin 9), (0 : Fin 2), (6 : Fin 8)), ((3 : Fin 9), (0 : Fin 2), (7 : Fin 8)), ((1 : Fin 9), (0 : Fin 2), (4 : Fin 8)), ((0 : Fin 9), (1 : Fin 2), (5 : Fin 8))} : Finset (Fin 9 × Fin 2 × Fin 8)) (B0 m d) = _
  rw [SparseCore.bigSep_insert' (by decide), SparseCore.bigSep_insert' (by decide), SparseCore.bigSep_insert' (by decide), bigSep_singleton]
  exact (congrArg₂ (fun a b : sProp 𝕄 => iprop(a ∗ b)) (pts_v10 d (cV LL) (jV LL) (5 : Fin 9) (0 : Fin 2) (6 : Fin 8) _ (m (v10L d))).symm (congrArg₂ (fun a b : sProp 𝕄 => iprop(a ∗ b)) (pts_v10 d (cV LL) (jV LL) (3 : Fin 9) (0 : Fin 2) (7 : Fin 8) _ (m (v10L d))).symm (congrArg₂ (fun a b : sProp 𝕄 => iprop(a ∗ b)) (pts_v10 d (cV LL) (jV LL) (1 : Fin 9) (0 : Fin 2) (4 : Fin 8) _ (m (v10L d))).symm (pts_v10 d (cV LL) (jV LL) (0 : Fin 9) (1 : Fin 2) (5 : Fin 8) _ (m (v10L d))).symm)))
theorem close10 (m : (ℓ : Loc nD τ sig) → Buf (Elt F) ℓ) (d : Dev nD) :
    (bigSep (t10 (21 : Fin 32)) (B1 m d) : sProp 𝕄) = iprop(((OUT0_0).view.loc (TH d) ↦[(OUT0_0).view.set]{fullShare} OUTc m d) ∗ ((OUT0_1).view.loc (TH d) ↦[(OUT0_1).view.set]{fullShare} OUTc m d) ∗ ((OUT1_0).view.loc (TH d) ↦[(OUT1_0).view.set]{fullShare} OUTc m d) ∗ ((OUT2_0).view.loc (TH d) ↦[(OUT2_0).view.set]{fullShare} OUTc m d)) := by
  show bigSep ({((5 : Fin 9), (0 : Fin 2), (6 : Fin 8)), ((3 : Fin 9), (0 : Fin 2), (7 : Fin 8)), ((1 : Fin 9), (0 : Fin 2), (4 : Fin 8)), ((0 : Fin 9), (1 : Fin 2), (5 : Fin 8))} : Finset (Fin 9 × Fin 2 × Fin 8)) (B1 m d) = _
  rw [SparseCore.bigSep_insert' (by decide), SparseCore.bigSep_insert' (by decide), SparseCore.bigSep_insert' (by decide), bigSep_singleton]
  exact (congrArg₂ (fun a b : sProp 𝕄 => iprop(a ∗ b)) (pts_v10 d (cV LL) (jV LL) (5 : Fin 9) (0 : Fin 2) (6 : Fin 8) _ (OUTc m d)).symm (congrArg₂ (fun a b : sProp 𝕄 => iprop(a ∗ b)) (pts_v10 d (cV LL) (jV LL) (3 : Fin 9) (0 : Fin 2) (7 : Fin 8) _ (OUTc m d)).symm (congrArg₂ (fun a b : sProp 𝕄 => iprop(a ∗ b)) (pts_v10 d (cV LL) (jV LL) (1 : Fin 9) (0 : Fin 2) (4 : Fin 8) _ (OUTc m d)).symm (pts_v10 d (cV LL) (jV LL) (0 : Fin 9) (1 : Fin 2) (5 : Fin 8) _ (OUTc m d)).symm)))

/-! ## What each output slice has to hold is what its source slice holds -/

theorem val0_0 (m : (ℓ : Loc nD τ sig) → Buf (Elt F) ℓ) (d : Dev nD) :
    (SRC0).view.read (Elt F) (V2c m d) = (OUT0_0).view.read (Elt F) (OUTc m d) := by
  funext y
  obtain ⟨t, q, rfl⟩ : ∃ (t q : Fin 128), y = ix2 t q := ⟨y 0, y 1, eq_ix2 y⟩
  refine (read_v2 (14 : Fin 17) (0 : Fin 2) _ _ t q).trans ((?_ : _ = _).trans (read_v10 (5 : Fin 9) (0 : Fin 2) (6 : Fin 8) _ _ t q).symm)
  unfold V2c OUTc
  rw [Cert.Layout.poseV_apply]
  refine Eq.trans ?_ (outV_at _ _ _ _ _ _ _ t _ q (show 8 * 0 + 6 < 14 by decide)).symm
  rfl
theorem val0_1 (m : (ℓ : Loc nD τ sig) → Buf (Elt F) ℓ) (d : Dev nD) :
    (SRC0).view.read (Elt F) (V2c m d) = (OUT0_1).view.read (Elt F) (OUTc m d) := by
  funext y
  obtain ⟨t, q, rfl⟩ : ∃ (t q : Fin 128), y = ix2 t q := ⟨y 0, y 1, eq_ix2 y⟩
  refine (read_v2 (14 : Fin 17) (0 : Fin 2) _ _ t q).trans ((?_ : _ = _).trans (read_v10 (3 : Fin 9) (0 : Fin 2) (7 : Fin 8) _ _ t q).symm)
  unfold V2c OUTc
  rw [Cert.Layout.poseV_apply]
  refine Eq.trans ?_ (outV_at _ _ _ _ _ _ _ t _ q (show 8 * 0 + 7 < 14 by decide)).symm
  rfl
theorem val1_0 (m : (ℓ : Loc nD τ sig) → Buf (Elt F) ℓ) (d : Dev nD) :
    (SRC1).view.read (Elt F) (V5c m d) = (OUT1_0).view.read (Elt F) (OUTc m d) := by
  funext y
  obtain ⟨t, q, rfl⟩ : ∃ (t q : Fin 128), y = ix2 t q := ⟨y 0, y 1, eq_ix2 y⟩
  refine (read_v5 (4 : Fin 14) (1 : Fin 2) _ _ t q).trans ((?_ : _ = _).trans (read_v10 (1 : Fin 9) (0 : Fin 2) (4 : Fin 8) _ _ t q).symm)
  unfold V5c OUTc
  rw [Cert.Layout.deltaV_apply]
  refine Eq.trans ?_ (outV_at _ _ _ _ _ _ _ t _ q (show 8 * 0 + 4 < 14 by decide)).symm
  rfl
theorem val2_0 (m : (ℓ : Loc nD τ sig) → Buf (Elt F) ℓ) (d : Dev nD) :
    (SRC2).view.read (Elt F) (V5c m d) = (OUT2_0).view.read (Elt F) (OUTc m d) := by
  funext y
  obtain ⟨t, q, rfl⟩ : ∃ (t q : Fin 128), y = ix2 t q := ⟨y 0, y 1, eq_ix2 y⟩
  refine (read_v5 (13 : Fin 14) (0 : Fin 2) _ _ t q).trans ((?_ : _ = _).trans (read_v10 (0 : Fin 9) (1 : Fin 2) (5 : Fin 8) _ _ t q).symm)
  unfold V5c OUTc
  rw [Cert.Layout.deltaV_apply]
  refine Eq.trans ?_ (outV_at _ _ _ _ _ _ _ t _ q (show 8 * 1 + 5 < 14 by decide)).symm
  rfl

/-! ## The run -/

open Lean Elab Tactic Meta in
/-- Unfold the names the symbolic run gave to the values its copies carry. -/
elab "unfold_carried" : tactic => do
  for _ in [0:6] do
    let g ← getMainGoal
    let t ← instantiateMVars (← g.getType)
    if (t.getUsedConstants.any fun n => n.components.any (· == `sl)) then
      let t' ← deltaExpand t (fun n => n.components.any (· == `sl))
      let g' ← g.change t' (checkDefEq := false)
      replaceMainGoal [g']

variable [FloatOps F] [∀ e, Nonempty (Elt F e)]

theorem run (m : (ℓ : Loc nD τ sig) → Buf (Elt F) ℓ) (d : Dev nD) (O : CellTallies nD τ sig (HIx 1)) (W : Waits sig (HIx 1)) (hO : ∀ g, O g none = 0) :
    (iprop(levAts (K (F := F)).L (K (F := F)).lev ∗ tileG m d (21 : Fin 32)
        ∗ scopedBufs (TH d) ∗ scopedSems0 (TH d) ∗ owes (TH d) O W) : sProp 𝕄)
      ⊢ wp frame (wpE (defs₀ (F := F)) 𝒱₀ (TH d) none) Set.univ
          (cc0_run LL (Memref.whole main_v2_scv) (Memref.isWhole_whole _) (Memref.whole main_v7_scv) (Memref.isWhole_whole _) (Memref.whole main_v5_scv) (Memref.isWhole_whole _) (Memref.whole main_v9_scv) (Memref.isWhole_whole _) (Memref.whole main_v10_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8)
          fun _ => iprop(tileT m d (21 : Fin 32) ∗ scopedBufs (TH d) ∗ scopedSems0 (TH d)
            ∗ ∃ W', ⌜∀ p ∈ W', p ∈ W ∨ p.2 = none⌝ ∗ owes (TH d) O W') := by
  rw [(K (F := F)).scopedBufs_V facts d (cV LL) (jV LL), SparseCore.Cfg.scopedSems0_V (Val := Elt F) d (cV LL) (jV LL), ownSems0_V, ownBufs_V]
  unfold tileG tileT
  iintro ⟨#Hlv, ⟨HF2, -, HF5, -, HF10⟩, ⟨⟨%fb0, Hb0⟩, ⟨%fb1, Hb1⟩, ⟨%fb2, Hb2⟩, Hbufs⟩, ⟨Hs3, Hs4, Hs5, Hs6, Hs7, Hs8, Hsems⟩, HO⟩
  ihave HF2' := (Entails.of_eq (open2 m d)) $$ HF2
  icases HF2' with HS0
  ihave HF5' := (Entails.of_eq (open5 m d)) $$ HF5
  icases HF5' with ⟨HS1, HS2⟩
  ihave HF10' := (Entails.of_eq (open10 m d)) $$ HF10
  icases HF10' with ⟨HO0_0, HO0_1, HO1_0, HO2_0⟩
  ihave Hmw := ((K (F := F)).mayWaits_none (thr := TH d) hO) $$ Hlv
  ihave Hb0' := (Entails.of_eq (pts_b0 d (cV LL) (jV LL) _).symm) $$ Hb0
  ihave Hb1' := (Entails.of_eq (pts_b1 d (cV LL) (jV LL) _).symm) $$ Hb1
  ihave Hb2' := (Entails.of_eq (pts_b2 d (cV LL) (jV LL) _).symm) $$ Hb2
  have _plan : Transfers.BatchOf (TH d) (SemLoc.dma (sig := sig) cc0_scratch6.sem) 2 (windows := true) := trivial
  sl_unfold [cc0_run]
  sl_exec_parts (disch := decide)
  sl_step
  isplitl [HS0 HS1 HS2 HO0_0 HO0_1 HO1_0 HO2_0]
  · skip
    isplitl [HS0]
    · iapply (Entails.of_eq (open2 m d).symm)
      iexact HS0
    isplitr
    · rw [show t7 (21 : Fin 32) = ∅ from rfl, bigSep_empty]; iempintro
    isplitl [HS1 HS2]
    · iapply (Entails.of_eq (open5 m d).symm)
      isplitl [HS1]; · iexact HS1
      iexact HS2
    isplitr
    · rw [show t9 (21 : Fin 32) = ∅ from rfl, bigSep_empty]; iempintro
    · iapply (Entails.of_eq (close10 m d).symm)
      isplitl [HO0_0]
      · iapply (out_post_ent (TH d) (OUT0_0) _ (OUTc m d) _ ?hv0_0) $$ HO0_0
        case hv0_0 => unfold_carried; simp only [ReadAs.apply_same, View.read_write_univ]; exact val0_0 m d
      isplitl [HO0_1]
      · iapply (out_post_ent (TH d) (OUT0_1) _ (OUTc m d) _ ?hv0_1) $$ HO0_1
        case hv0_1 => unfold_carried; simp only [ReadAs.apply_same, View.read_write_univ]; exact val0_1 m d
      isplitl [HO1_0]
      · iapply (out_post_ent (TH d) (OUT1_0) _ (OUTc m d) _ ?hv1_0) $$ HO1_0
        case hv1_0 => unfold_carried; simp only [ReadAs.apply_same, View.read_write_univ]; exact val1_0 m d
      iapply (out_post_ent (TH d) (OUT2_0) _ (OUTc m d) _ ?hv2_0) $$ HO2_0
      case hv2_0 => unfold_carried; simp only [ReadAs.apply_same, View.read_write_univ]; exact val2_0 m d

  isplitl [Hb0' Hb1' Hb2' Hbufs]
  · isplitl [Hb0']
    · iexists _; iapply (Entails.of_eq (pts_b0 d (cV LL) (jV LL) _)); iexact Hb0'
    isplitl [Hb1']
    · iexists _; iapply (Entails.of_eq (pts_b1 d (cV LL) (jV LL) _)); iexact Hb1'
    isplitl [Hb2']
    · iexists _; iapply (Entails.of_eq (pts_b2 d (cV LL) (jV LL) _)); iexact Hb2'
    iexact Hbufs
  isplitl [Hs3 Hs4 Hs5 Hs6 Hs7 Hs8 Hsems]
  · isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    iexact Hsems
  iexists _; isplitr
  rotate_left
  · iexact HO
  · ipureintro; intro p hp
    simp only [Finset.mem_insert] at hp
    rcases hp with rfl | rfl | rfl | rfl | rfl | rfl | rfl | hp <;> first | exact .inr rfl | exact .inl hp

end Cert.Proof.KI.Tile21

end
-- ==== Proof.KITile22.lean ====
/-
  Tile 22 of the kernel (subcore 11 of core 0): one slice in (pose14.1), 2 out; one slice in (len4), 1 out; one slice in (delta13.1), 1 out.
  Its whole body is run: every copy it does not own is skipped by the comparison of its number with the copy's owner;
  each incoming copy fills a staging buffer, each outgoing copy carries that buffer into one slice of the output array,
  and what each output slice then holds is the source slice the specification asks for there.
-/
import proofs.«210185_g18468359372994_cont_8to1_1390_15_alg».proof.Proof.KIRead

set_option maxHeartbeats 4000000
set_option quotPrecheck false

noncomputable section

namespace Cert.Proof.KI.Tile22

open Cert.KernelIdeal Cert.KernelIdeal.Gen
open Cert.Proof.KI
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
theorem cLt : 0 < grid0.bound 0 := by decide
theorem sLt : 11 < grid0.bound 1 := by decide
local notation "LL" => (coordsV (⟨0, cLt⟩ : Fin (grid0.bound 0)) (⟨11, sLt⟩ : Fin (grid0.bound 1)))
local notation "TH" d => V d (cV LL) (jV LL)
local notation "SRC0" => (((Memref.whole main_v2_scv).slice (Rect.unit (s := S17x128x2x128) ![14, 0, 1, 0] S1x128x1x128.size inb_S17x128x2x128_S1x128x1x128_14_0_1_0) (fun _ => rfl)).squeeze S128x128 squeezes_S1x128x1x128_S128x128 : Memref sig .scVector .hbm S128x128 .f32)
local notation "OUT0_0" => (((Memref.whole main_v10_scv).slice (Rect.unit (s := S9x2x128x8x128) ![6, 0, 0, 6, 0] S1x1x128x1x128.size inb_S9x2x128x8x128_S1x1x128x1x128_6_0_0_6_0) (fun _ => rfl)).squeeze S128x128 squeezes_S1x1x128x1x128_S128x128 : Memref sig .scVector .hbm S128x128 .f32)
local notation "OUT0_1" => (((Memref.whole main_v10_scv).slice (Rect.unit (s := S9x2x128x8x128) ![4, 0, 0, 7, 0] S1x1x128x1x128.size inb_S9x2x128x8x128_S1x1x128x1x128_4_0_0_7_0) (fun _ => rfl)).squeeze S128x128 squeezes_S1x1x128x1x128_S128x128 : Memref sig .scVector .hbm S128x128 .f32)
local notation "SRC1" => (((Memref.whole main_v9_scv).slice (Rect.unit (s := S14x128x128) ![4, 0, 0] S1x128x128.size inb_S14x128x128_S1x128x128_4_0_0) (fun _ => rfl)).squeeze S128x128 squeezes_S1x128x128_S128x128 : Memref sig .scVector .hbm S128x128 .f32)
local notation "OUT1_0" => (((Memref.whole main_v10_scv).slice (Rect.unit (s := S9x2x128x8x128) ![2, 0, 0, 4, 0] S1x1x128x1x128.size inb_S9x2x128x8x128_S1x1x128x1x128_2_0_0_4_0) (fun _ => rfl)).squeeze S128x128 squeezes_S1x1x128x1x128_S128x128 : Memref sig .scVector .hbm S128x128 .f32)
local notation "SRC2" => (((Memref.whole main_v5_scv).slice (Rect.unit (s := S14x128x2x128) ![13, 0, 1, 0] S1x128x1x128.size inb_S14x128x2x128_S1x128x1x128_13_0_1_0) (fun _ => rfl)).squeeze S128x128 squeezes_S1x128x1x128_S128x128 : Memref sig .scVector .hbm S128x128 .f32)
local notation "OUT2_0" => (((Memref.whole main_v10_scv).slice (Rect.unit (s := S9x2x128x8x128) ![1, 1, 0, 5, 0] S1x1x128x1x128.size inb_S9x2x128x8x128_S1x1x128x1x128_1_1_0_5_0) (fun _ => rfl)).squeeze S128x128 squeezes_S1x1x128x1x128_S128x128 : Memref sig .scVector .hbm S128x128 .f32)

/-! ## The tile's slices, as its memrefs name them -/

theorem open2 (m : (ℓ : Loc nD τ sig) → Buf (Elt F) ℓ) (d : Dev nD) :
    (bigSep (t2 (22 : Fin 32)) (A2 m d) : sProp 𝕄) = iprop(((SRC0).view.loc (TH d) ↦[(SRC0).view.set]{fullShare} V2c m d)) := by
  show bigSep ({((14 : Fin 17), (1 : Fin 2))} : Finset (Fin 17 × Fin 2)) (A2 m d) = _
  rw [bigSep_singleton]
  exact (pts_v2 d (cV LL) (jV LL) (14 : Fin 17) (1 : Fin 2) _ (V2c m d)).symm
theorem open5 (m : (ℓ : Loc nD τ sig) → Buf (Elt F) ℓ) (d : Dev nD) :
    (bigSep (t5 (22 : Fin 32)) (A5 m d) : sProp 𝕄) = iprop(((SRC2).view.loc (TH d) ↦[(SRC2).view.set]{fullShare} V5c m d)) := by
  show bigSep ({((13 : Fin 14), (1 : Fin 2))} : Finset (Fin 14 × Fin 2)) (A5 m d) = _
  rw [bigSep_singleton]
  exact (pts_v5 d (cV LL) (jV LL) (13 : Fin 14) (1 : Fin 2) _ (V5c m d)).symm
theorem open9 (m : (ℓ : Loc nD τ sig) → Buf (Elt F) ℓ) (d : Dev nD) :
    (bigSep (t9 (22 : Fin 32)) (A9 m d) : sProp 𝕄) = iprop(((SRC1).view.loc (TH d) ↦[(SRC1).view.set]{fullShare} V9c m d)) := by
  show bigSep ({(4 : Fin 14)} : Finset (Fin 14)) (A9 m d) = _
  rw [bigSep_singleton]
  exact (pts_v9 d (cV LL) (jV LL) (4 : Fin 14) _ (V9c m d)).symm
theorem open10 (m : (ℓ : Loc nD τ sig) → Buf (Elt F) ℓ) (d : Dev nD) :
    (bigSep (t10 (22 : Fin 32)) (B0 m d) : sProp 𝕄) = iprop(((OUT0_0).view.loc (TH d) ↦[(OUT0_0).view.set]{fullShare} m (v10L d)) ∗ ((OUT0_1).view.loc (TH d) ↦[(OUT0_1).view.set]{fullShare} m (v10L d)) ∗ ((OUT1_0).view.loc (TH d) ↦[(OUT1_0).view.set]{fullShare} m (v10L d)) ∗ ((OUT2_0).view.loc (TH d) ↦[(OUT2_0).view.set]{fullShare} m (v10L d))) := by
  show bigSep ({((6 : Fin 9), (0 : Fin 2), (6 : Fin 8)), ((4 : Fin 9), (0 : Fin 2), (7 : Fin 8)), ((2 : Fin 9), (0 : Fin 2), (4 : Fin 8)), ((1 : Fin 9), (1 : Fin 2), (5 : Fin 8))} : Finset (Fin 9 × Fin 2 × Fin 8)) (B0 m d) = _
  rw [SparseCore.bigSep_insert' (by decide), SparseCore.bigSep_insert' (by decide), SparseCore.bigSep_insert' (by decide), bigSep_singleton]
  exact (congrArg₂ (fun a b : sProp 𝕄 => iprop(a ∗ b)) (pts_v10 d (cV LL) (jV LL) (6 : Fin 9) (0 : Fin 2) (6 : Fin 8) _ (m (v10L d))).symm (congrArg₂ (fun a b : sProp 𝕄 => iprop(a ∗ b)) (pts_v10 d (cV LL) (jV LL) (4 : Fin 9) (0 : Fin 2) (7 : Fin 8) _ (m (v10L d))).symm (congrArg₂ (fun a b : sProp 𝕄 => iprop(a ∗ b)) (pts_v10 d (cV LL) (jV LL) (2 : Fin 9) (0 : Fin 2) (4 : Fin 8) _ (m (v10L d))).symm (pts_v10 d (cV LL) (jV LL) (1 : Fin 9) (1 : Fin 2) (5 : Fin 8) _ (m (v10L d))).symm)))
theorem close10 (m : (ℓ : Loc nD τ sig) → Buf (Elt F) ℓ) (d : Dev nD) :
    (bigSep (t10 (22 : Fin 32)) (B1 m d) : sProp 𝕄) = iprop(((OUT0_0).view.loc (TH d) ↦[(OUT0_0).view.set]{fullShare} OUTc m d) ∗ ((OUT0_1).view.loc (TH d) ↦[(OUT0_1).view.set]{fullShare} OUTc m d) ∗ ((OUT1_0).view.loc (TH d) ↦[(OUT1_0).view.set]{fullShare} OUTc m d) ∗ ((OUT2_0).view.loc (TH d) ↦[(OUT2_0).view.set]{fullShare} OUTc m d)) := by
  show bigSep ({((6 : Fin 9), (0 : Fin 2), (6 : Fin 8)), ((4 : Fin 9), (0 : Fin 2), (7 : Fin 8)), ((2 : Fin 9), (0 : Fin 2), (4 : Fin 8)), ((1 : Fin 9), (1 : Fin 2), (5 : Fin 8))} : Finset (Fin 9 × Fin 2 × Fin 8)) (B1 m d) = _
  rw [SparseCore.bigSep_insert' (by decide), SparseCore.bigSep_insert' (by decide), SparseCore.bigSep_insert' (by decide), bigSep_singleton]
  exact (congrArg₂ (fun a b : sProp 𝕄 => iprop(a ∗ b)) (pts_v10 d (cV LL) (jV LL) (6 : Fin 9) (0 : Fin 2) (6 : Fin 8) _ (OUTc m d)).symm (congrArg₂ (fun a b : sProp 𝕄 => iprop(a ∗ b)) (pts_v10 d (cV LL) (jV LL) (4 : Fin 9) (0 : Fin 2) (7 : Fin 8) _ (OUTc m d)).symm (congrArg₂ (fun a b : sProp 𝕄 => iprop(a ∗ b)) (pts_v10 d (cV LL) (jV LL) (2 : Fin 9) (0 : Fin 2) (4 : Fin 8) _ (OUTc m d)).symm (pts_v10 d (cV LL) (jV LL) (1 : Fin 9) (1 : Fin 2) (5 : Fin 8) _ (OUTc m d)).symm)))

/-! ## What each output slice has to hold is what its source slice holds -/

theorem val0_0 (m : (ℓ : Loc nD τ sig) → Buf (Elt F) ℓ) (d : Dev nD) :
    (SRC0).view.read (Elt F) (V2c m d) = (OUT0_0).view.read (Elt F) (OUTc m d) := by
  funext y
  obtain ⟨t, q, rfl⟩ : ∃ (t q : Fin 128), y = ix2 t q := ⟨y 0, y 1, eq_ix2 y⟩
  refine (read_v2 (14 : Fin 17) (1 : Fin 2) _ _ t q).trans ((?_ : _ = _).trans (read_v10 (6 : Fin 9) (0 : Fin 2) (6 : Fin 8) _ _ t q).symm)
  unfold V2c OUTc
  rw [Cert.Layout.poseV_apply]
  refine Eq.trans ?_ (outV_at _ _ _ _ _ _ _ t _ q (show 8 * 0 + 6 < 14 by decide)).symm
  rfl
theorem val0_1 (m : (ℓ : Loc nD τ sig) → Buf (Elt F) ℓ) (d : Dev nD) :
    (SRC0).view.read (Elt F) (V2c m d) = (OUT0_1).view.read (Elt F) (OUTc m d) := by
  funext y
  obtain ⟨t, q, rfl⟩ : ∃ (t q : Fin 128), y = ix2 t q := ⟨y 0, y 1, eq_ix2 y⟩
  refine (read_v2 (14 : Fin 17) (1 : Fin 2) _ _ t q).trans ((?_ : _ = _).trans (read_v10 (4 : Fin 9) (0 : Fin 2) (7 : Fin 8) _ _ t q).symm)
  unfold V2c OUTc
  rw [Cert.Layout.poseV_apply]
  refine Eq.trans ?_ (outV_at _ _ _ _ _ _ _ t _ q (show 8 * 0 + 7 < 14 by decide)).symm
  rfl
theorem val1_0 (m : (ℓ : Loc nD τ sig) → Buf (Elt F) ℓ) (d : Dev nD) :
    (SRC1).view.read (Elt F) (V9c m d) = (OUT1_0).view.read (Elt F) (OUTc m d) := by
  funext y
  obtain ⟨t, q, rfl⟩ : ∃ (t q : Fin 128), y = ix2 t q := ⟨y 0, y 1, eq_ix2 y⟩
  refine (read_v9 (4 : Fin 14) _ _ t q).trans ((?_ : _ = _).trans (read_v10 (2 : Fin 9) (0 : Fin 2) (4 : Fin 8) _ _ t q).symm)
  unfold V9c OUTc
  rw [Cert.Layout.lenV_apply]
  refine Eq.trans ?_ (outV_at _ _ _ _ _ _ _ t _ q (show 8 * 0 + 4 < 14 by decide)).symm
  rfl
theorem val2_0 (m : (ℓ : Loc nD τ sig) → Buf (Elt F) ℓ) (d : Dev nD) :
    (SRC2).view.read (Elt F) (V5c m d) = (OUT2_0).view.read (Elt F) (OUTc m d) := by
  funext y
  obtain ⟨t, q, rfl⟩ : ∃ (t q : Fin 128), y = ix2 t q := ⟨y 0, y 1, eq_ix2 y⟩
  refine (read_v5 (13 : Fin 14) (1 : Fin 2) _ _ t q).trans ((?_ : _ = _).trans (read_v10 (1 : Fin 9) (1 : Fin 2) (5 : Fin 8) _ _ t q).symm)
  unfold V5c OUTc
  rw [Cert.Layout.deltaV_apply]
  refine Eq.trans ?_ (outV_at _ _ _ _ _ _ _ t _ q (show 8 * 1 + 5 < 14 by decide)).symm
  rfl

/-! ## The run -/

open Lean Elab Tactic Meta in
/-- Unfold the names the symbolic run gave to the values its copies carry. -/
elab "unfold_carried" : tactic => do
  for _ in [0:6] do
    let g ← getMainGoal
    let t ← instantiateMVars (← g.getType)
    if (t.getUsedConstants.any fun n => n.components.any (· == `sl)) then
      let t' ← deltaExpand t (fun n => n.components.any (· == `sl))
      let g' ← g.change t' (checkDefEq := false)
      replaceMainGoal [g']

variable [FloatOps F] [∀ e, Nonempty (Elt F e)]

theorem run (m : (ℓ : Loc nD τ sig) → Buf (Elt F) ℓ) (d : Dev nD) (O : CellTallies nD τ sig (HIx 1)) (W : Waits sig (HIx 1)) (hO : ∀ g, O g none = 0) :
    (iprop(levAts (K (F := F)).L (K (F := F)).lev ∗ tileG m d (22 : Fin 32)
        ∗ scopedBufs (TH d) ∗ scopedSems0 (TH d) ∗ owes (TH d) O W) : sProp 𝕄)
      ⊢ wp frame (wpE (defs₀ (F := F)) 𝒱₀ (TH d) none) Set.univ
          (cc0_run LL (Memref.whole main_v2_scv) (Memref.isWhole_whole _) (Memref.whole main_v7_scv) (Memref.isWhole_whole _) (Memref.whole main_v5_scv) (Memref.isWhole_whole _) (Memref.whole main_v9_scv) (Memref.isWhole_whole _) (Memref.whole main_v10_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8)
          fun _ => iprop(tileT m d (22 : Fin 32) ∗ scopedBufs (TH d) ∗ scopedSems0 (TH d)
            ∗ ∃ W', ⌜∀ p ∈ W', p ∈ W ∨ p.2 = none⌝ ∗ owes (TH d) O W') := by
  rw [(K (F := F)).scopedBufs_V facts d (cV LL) (jV LL), SparseCore.Cfg.scopedSems0_V (Val := Elt F) d (cV LL) (jV LL), ownSems0_V, ownBufs_V]
  unfold tileG tileT
  iintro ⟨#Hlv, ⟨HF2, -, HF5, HF9, HF10⟩, ⟨⟨%fb0, Hb0⟩, ⟨%fb1, Hb1⟩, ⟨%fb2, Hb2⟩, Hbufs⟩, ⟨Hs3, Hs4, Hs5, Hs6, Hs7, Hs8, Hsems⟩, HO⟩
  ihave HF2' := (Entails.of_eq (open2 m d)) $$ HF2
  icases HF2' with HS0
  ihave HF5' := (Entails.of_eq (open5 m d)) $$ HF5
  icases HF5' with HS2
  ihave HF9' := (Entails.of_eq (open9 m d)) $$ HF9
  icases HF9' with HS1
  ihave HF10' := (Entails.of_eq (open10 m d)) $$ HF10
  icases HF10' with ⟨HO0_0, HO0_1, HO1_0, HO2_0⟩
  ihave Hmw := ((K (F := F)).mayWaits_none (thr := TH d) hO) $$ Hlv
  ihave Hb0' := (Entails.of_eq (pts_b0 d (cV LL) (jV LL) _).symm) $$ Hb0
  ihave Hb1' := (Entails.of_eq (pts_b1 d (cV LL) (jV LL) _).symm) $$ Hb1
  ihave Hb2' := (Entails.of_eq (pts_b2 d (cV LL) (jV LL) _).symm) $$ Hb2
  have _plan : Transfers.BatchOf (TH d) (SemLoc.dma (sig := sig) cc0_scratch6.sem) 2 (windows := true) := trivial
  sl_unfold [cc0_run]
  sl_exec_parts (disch := decide)
  sl_step
  isplitl [HS0 HS2 HS1 HO0_0 HO0_1 HO1_0 HO2_0]
  · skip
    isplitl [HS0]
    · iapply (Entails.of_eq (open2 m d).symm)
      iexact HS0
    isplitr
    · rw [show t7 (22 : Fin 32) = ∅ from rfl, bigSep_empty]; iempintro
    isplitl [HS2]
    · iapply (Entails.of_eq (open5 m d).symm)
      iexact HS2
    isplitl [HS1]
    · iapply (Entails.of_eq (open9 m d).symm)
      iexact HS1
    · iapply (Entails.of_eq (close10 m d).symm)
      isplitl [HO0_0]
      · iapply (out_post_ent (TH d) (OUT0_0) _ (OUTc m d) _ ?hv0_0) $$ HO0_0
        case hv0_0 => unfold_carried; simp only [ReadAs.apply_same, View.read_write_univ]; exact val0_0 m d
      isplitl [HO0_1]
      · iapply (out_post_ent (TH d) (OUT0_1) _ (OUTc m d) _ ?hv0_1) $$ HO0_1
        case hv0_1 => unfold_carried; simp only [ReadAs.apply_same, View.read_write_univ]; exact val0_1 m d
      isplitl [HO1_0]
      · iapply (out_post_ent (TH d) (OUT1_0) _ (OUTc m d) _ ?hv1_0) $$ HO1_0
        case hv1_0 => unfold_carried; simp only [ReadAs.apply_same, View.read_write_univ]; exact val1_0 m d
      iapply (out_post_ent (TH d) (OUT2_0) _ (OUTc m d) _ ?hv2_0) $$ HO2_0
      case hv2_0 => unfold_carried; simp only [ReadAs.apply_same, View.read_write_univ]; exact val2_0 m d

  isplitl [Hb0' Hb1' Hb2' Hbufs]
  · isplitl [Hb0']
    · iexists _; iapply (Entails.of_eq (pts_b0 d (cV LL) (jV LL) _)); iexact Hb0'
    isplitl [Hb1']
    · iexists _; iapply (Entails.of_eq (pts_b1 d (cV LL) (jV LL) _)); iexact Hb1'
    isplitl [Hb2']
    · iexists _; iapply (Entails.of_eq (pts_b2 d (cV LL) (jV LL) _)); iexact Hb2'
    iexact Hbufs
  isplitl [Hs3 Hs4 Hs5 Hs6 Hs7 Hs8 Hsems]
  · isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    iexact Hsems
  iexists _; isplitr
  rotate_left
  · iexact HO
  · ipureintro; intro p hp
    simp only [Finset.mem_insert] at hp
    rcases hp with rfl | rfl | rfl | rfl | rfl | rfl | rfl | hp <;> first | exact .inr rfl | exact .inl hp

end Cert.Proof.KI.Tile22

end
-- ==== Proof.KITile23.lean ====
/-
  Tile 23 of the kernel (subcore 11 of core 1): one slice in (vis14), 2 out; one slice in (delta5.0), 1 out; one slice in (len13), 1 out.
  Its whole body is run: every copy it does not own is skipped by the comparison of its number with the copy's owner;
  each incoming copy fills a staging buffer, each outgoing copy carries that buffer into one slice of the output array,
  and what each output slice then holds is the source slice the specification asks for there.
-/
import proofs.«210185_g18468359372994_cont_8to1_1390_15_alg».proof.Proof.KIRead

set_option maxHeartbeats 4000000
set_option quotPrecheck false

noncomputable section

namespace Cert.Proof.KI.Tile23

open Cert.KernelIdeal Cert.KernelIdeal.Gen
open Cert.Proof.KI
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
theorem cLt : 1 < grid0.bound 0 := by decide
theorem sLt : 11 < grid0.bound 1 := by decide
local notation "LL" => (coordsV (⟨1, cLt⟩ : Fin (grid0.bound 0)) (⟨11, sLt⟩ : Fin (grid0.bound 1)))
local notation "TH" d => V d (cV LL) (jV LL)
local notation "SRC0" => (((Memref.whole main_v7_scv).slice (Rect.unit (s := S17x128x128) ![14, 0, 0] S1x128x128.size inb_S17x128x128_S1x128x128_14_0_0) (fun _ => rfl)).squeeze S128x128 squeezes_S1x128x128_S128x128 : Memref sig .scVector .hbm S128x128 .f32)
local notation "OUT0_0" => (((Memref.whole main_v10_scv).slice (Rect.unit (s := S9x2x128x8x128) ![8, 0, 0, 6, 0] S1x1x128x1x128.size inb_S9x2x128x8x128_S1x1x128x1x128_8_0_0_6_0) (fun _ => rfl)).squeeze S128x128 squeezes_S1x1x128x1x128_S128x128 : Memref sig .scVector .hbm S128x128 .f32)
local notation "OUT0_1" => (((Memref.whole main_v10_scv).slice (Rect.unit (s := S9x2x128x8x128) ![7, 0, 0, 7, 0] S1x1x128x1x128.size inb_S9x2x128x8x128_S1x1x128x1x128_7_0_0_7_0) (fun _ => rfl)).squeeze S128x128 squeezes_S1x1x128x1x128_S128x128 : Memref sig .scVector .hbm S128x128 .f32)
local notation "SRC1" => (((Memref.whole main_v5_scv).slice (Rect.unit (s := S14x128x2x128) ![5, 0, 0, 0] S1x128x1x128.size inb_S14x128x2x128_S1x128x1x128_5_0_0_0) (fun _ => rfl)).squeeze S128x128 squeezes_S1x128x1x128_S128x128 : Memref sig .scVector .hbm S128x128 .f32)
local notation "OUT1_0" => (((Memref.whole main_v10_scv).slice (Rect.unit (s := S9x2x128x8x128) ![0, 0, 0, 5, 0] S1x1x128x1x128.size inb_S9x2x128x8x128_S1x1x128x1x128_0_0_0_5_0) (fun _ => rfl)).squeeze S128x128 squeezes_S1x1x128x1x128_S128x128 : Memref sig .scVector .hbm S128x128 .f32)
local notation "SRC2" => (((Memref.whole main_v9_scv).slice (Rect.unit (s := S14x128x128) ![13, 0, 0] S1x128x128.size inb_S14x128x128_S1x128x128_13_0_0) (fun _ => rfl)).squeeze S128x128 squeezes_S1x128x128_S128x128 : Memref sig .scVector .hbm S128x128 .f32)
local notation "OUT2_0" => (((Memref.whole main_v10_scv).slice (Rect.unit (s := S9x2x128x8x128) ![2, 1, 0, 5, 0] S1x1x128x1x128.size inb_S9x2x128x8x128_S1x1x128x1x128_2_1_0_5_0) (fun _ => rfl)).squeeze S128x128 squeezes_S1x1x128x1x128_S128x128 : Memref sig .scVector .hbm S128x128 .f32)

/-! ## The tile's slices, as its memrefs name them -/

theorem open7 (m : (ℓ : Loc nD τ sig) → Buf (Elt F) ℓ) (d : Dev nD) :
    (bigSep (t7 (23 : Fin 32)) (A7 m d) : sProp 𝕄) = iprop(((SRC0).view.loc (TH d) ↦[(SRC0).view.set]{fullShare} V7c m d)) := by
  show bigSep ({(14 : Fin 17)} : Finset (Fin 17)) (A7 m d) = _
  rw [bigSep_singleton]
  exact (pts_v7 d (cV LL) (jV LL) (14 : Fin 17) _ (V7c m d)).symm
theorem open5 (m : (ℓ : Loc nD τ sig) → Buf (Elt F) ℓ) (d : Dev nD) :
    (bigSep (t5 (23 : Fin 32)) (A5 m d) : sProp 𝕄) = iprop(((SRC1).view.loc (TH d) ↦[(SRC1).view.set]{fullShare} V5c m d)) := by
  show bigSep ({((5 : Fin 14), (0 : Fin 2))} : Finset (Fin 14 × Fin 2)) (A5 m d) = _
  rw [bigSep_singleton]
  exact (pts_v5 d (cV LL) (jV LL) (5 : Fin 14) (0 : Fin 2) _ (V5c m d)).symm
theorem open9 (m : (ℓ : Loc nD τ sig) → Buf (Elt F) ℓ) (d : Dev nD) :
    (bigSep (t9 (23 : Fin 32)) (A9 m d) : sProp 𝕄) = iprop(((SRC2).view.loc (TH d) ↦[(SRC2).view.set]{fullShare} V9c m d)) := by
  show bigSep ({(13 : Fin 14)} : Finset (Fin 14)) (A9 m d) = _
  rw [bigSep_singleton]
  exact (pts_v9 d (cV LL) (jV LL) (13 : Fin 14) _ (V9c m d)).symm
theorem open10 (m : (ℓ : Loc nD τ sig) → Buf (Elt F) ℓ) (d : Dev nD) :
    (bigSep (t10 (23 : Fin 32)) (B0 m d) : sProp 𝕄) = iprop(((OUT0_0).view.loc (TH d) ↦[(OUT0_0).view.set]{fullShare} m (v10L d)) ∗ ((OUT0_1).view.loc (TH d) ↦[(OUT0_1).view.set]{fullShare} m (v10L d)) ∗ ((OUT1_0).view.loc (TH d) ↦[(OUT1_0).view.set]{fullShare} m (v10L d)) ∗ ((OUT2_0).view.loc (TH d) ↦[(OUT2_0).view.set]{fullShare} m (v10L d))) := by
  show bigSep ({((8 : Fin 9), (0 : Fin 2), (6 : Fin 8)), ((7 : Fin 9), (0 : Fin 2), (7 : Fin 8)), ((0 : Fin 9), (0 : Fin 2), (5 : Fin 8)), ((2 : Fin 9), (1 : Fin 2), (5 : Fin 8))} : Finset (Fin 9 × Fin 2 × Fin 8)) (B0 m d) = _
  rw [SparseCore.bigSep_insert' (by decide), SparseCore.bigSep_insert' (by decide), SparseCore.bigSep_insert' (by decide), bigSep_singleton]
  exact (congrArg₂ (fun a b : sProp 𝕄 => iprop(a ∗ b)) (pts_v10 d (cV LL) (jV LL) (8 : Fin 9) (0 : Fin 2) (6 : Fin 8) _ (m (v10L d))).symm (congrArg₂ (fun a b : sProp 𝕄 => iprop(a ∗ b)) (pts_v10 d (cV LL) (jV LL) (7 : Fin 9) (0 : Fin 2) (7 : Fin 8) _ (m (v10L d))).symm (congrArg₂ (fun a b : sProp 𝕄 => iprop(a ∗ b)) (pts_v10 d (cV LL) (jV LL) (0 : Fin 9) (0 : Fin 2) (5 : Fin 8) _ (m (v10L d))).symm (pts_v10 d (cV LL) (jV LL) (2 : Fin 9) (1 : Fin 2) (5 : Fin 8) _ (m (v10L d))).symm)))
theorem close10 (m : (ℓ : Loc nD τ sig) → Buf (Elt F) ℓ) (d : Dev nD) :
    (bigSep (t10 (23 : Fin 32)) (B1 m d) : sProp 𝕄) = iprop(((OUT0_0).view.loc (TH d) ↦[(OUT0_0).view.set]{fullShare} OUTc m d) ∗ ((OUT0_1).view.loc (TH d) ↦[(OUT0_1).view.set]{fullShare} OUTc m d) ∗ ((OUT1_0).view.loc (TH d) ↦[(OUT1_0).view.set]{fullShare} OUTc m d) ∗ ((OUT2_0).view.loc (TH d) ↦[(OUT2_0).view.set]{fullShare} OUTc m d)) := by
  show bigSep ({((8 : Fin 9), (0 : Fin 2), (6 : Fin 8)), ((7 : Fin 9), (0 : Fin 2), (7 : Fin 8)), ((0 : Fin 9), (0 : Fin 2), (5 : Fin 8)), ((2 : Fin 9), (1 : Fin 2), (5 : Fin 8))} : Finset (Fin 9 × Fin 2 × Fin 8)) (B1 m d) = _
  rw [SparseCore.bigSep_insert' (by decide), SparseCore.bigSep_insert' (by decide), SparseCore.bigSep_insert' (by decide), bigSep_singleton]
  exact (congrArg₂ (fun a b : sProp 𝕄 => iprop(a ∗ b)) (pts_v10 d (cV LL) (jV LL) (8 : Fin 9) (0 : Fin 2) (6 : Fin 8) _ (OUTc m d)).symm (congrArg₂ (fun a b : sProp 𝕄 => iprop(a ∗ b)) (pts_v10 d (cV LL) (jV LL) (7 : Fin 9) (0 : Fin 2) (7 : Fin 8) _ (OUTc m d)).symm (congrArg₂ (fun a b : sProp 𝕄 => iprop(a ∗ b)) (pts_v10 d (cV LL) (jV LL) (0 : Fin 9) (0 : Fin 2) (5 : Fin 8) _ (OUTc m d)).symm (pts_v10 d (cV LL) (jV LL) (2 : Fin 9) (1 : Fin 2) (5 : Fin 8) _ (OUTc m d)).symm)))

/-! ## What each output slice has to hold is what its source slice holds -/

theorem val0_0 (m : (ℓ : Loc nD τ sig) → Buf (Elt F) ℓ) (d : Dev nD) :
    (SRC0).view.read (Elt F) (V7c m d) = (OUT0_0).view.read (Elt F) (OUTc m d) := by
  funext y
  obtain ⟨t, q, rfl⟩ : ∃ (t q : Fin 128), y = ix2 t q := ⟨y 0, y 1, eq_ix2 y⟩
  refine (read_v7 (14 : Fin 17) _ _ t q).trans ((?_ : _ = _).trans (read_v10 (8 : Fin 9) (0 : Fin 2) (6 : Fin 8) _ _ t q).symm)
  unfold V7c OUTc
  rw [Cert.Layout.visV_apply]
  refine Eq.trans ?_ (outV_at _ _ _ _ _ _ _ t _ q (show 8 * 0 + 6 < 14 by decide)).symm
  rfl
theorem val0_1 (m : (ℓ : Loc nD τ sig) → Buf (Elt F) ℓ) (d : Dev nD) :
    (SRC0).view.read (Elt F) (V7c m d) = (OUT0_1).view.read (Elt F) (OUTc m d) := by
  funext y
  obtain ⟨t, q, rfl⟩ : ∃ (t q : Fin 128), y = ix2 t q := ⟨y 0, y 1, eq_ix2 y⟩
  refine (read_v7 (14 : Fin 17) _ _ t q).trans ((?_ : _ = _).trans (read_v10 (7 : Fin 9) (0 : Fin 2) (7 : Fin 8) _ _ t q).symm)
  unfold V7c OUTc
  rw [Cert.Layout.visV_apply]
  refine Eq.trans ?_ (outV_at _ _ _ _ _ _ _ t _ q (show 8 * 0 + 7 < 14 by decide)).symm
  rfl
theorem val1_0 (m : (ℓ : Loc nD τ sig) → Buf (Elt F) ℓ) (d : Dev nD) :
    (SRC1).view.read (Elt F) (V5c m d) = (OUT1_0).view.read (Elt F) (OUTc m d) := by
  funext y
  obtain ⟨t, q, rfl⟩ : ∃ (t q : Fin 128), y = ix2 t q := ⟨y 0, y 1, eq_ix2 y⟩
  refine (read_v5 (5 : Fin 14) (0 : Fin 2) _ _ t q).trans ((?_ : _ = _).trans (read_v10 (0 : Fin 9) (0 : Fin 2) (5 : Fin 8) _ _ t q).symm)
  unfold V5c OUTc
  rw [Cert.Layout.deltaV_apply]
  refine Eq.trans ?_ (outV_at _ _ _ _ _ _ _ t _ q (show 8 * 0 + 5 < 14 by decide)).symm
  rfl
theorem val2_0 (m : (ℓ : Loc nD τ sig) → Buf (Elt F) ℓ) (d : Dev nD) :
    (SRC2).view.read (Elt F) (V9c m d) = (OUT2_0).view.read (Elt F) (OUTc m d) := by
  funext y
  obtain ⟨t, q, rfl⟩ : ∃ (t q : Fin 128), y = ix2 t q := ⟨y 0, y 1, eq_ix2 y⟩
  refine (read_v9 (13 : Fin 14) _ _ t q).trans ((?_ : _ = _).trans (read_v10 (2 : Fin 9) (1 : Fin 2) (5 : Fin 8) _ _ t q).symm)
  unfold V9c OUTc
  rw [Cert.Layout.lenV_apply]
  refine Eq.trans ?_ (outV_at _ _ _ _ _ _ _ t _ q (show 8 * 1 + 5 < 14 by decide)).symm
  rfl

/-! ## The run -/

open Lean Elab Tactic Meta in
/-- Unfold the names the symbolic run gave to the values its copies carry. -/
elab "unfold_carried" : tactic => do
  for _ in [0:6] do
    let g ← getMainGoal
    let t ← instantiateMVars (← g.getType)
    if (t.getUsedConstants.any fun n => n.components.any (· == `sl)) then
      let t' ← deltaExpand t (fun n => n.components.any (· == `sl))
      let g' ← g.change t' (checkDefEq := false)
      replaceMainGoal [g']

variable [FloatOps F] [∀ e, Nonempty (Elt F e)]

theorem run (m : (ℓ : Loc nD τ sig) → Buf (Elt F) ℓ) (d : Dev nD) (O : CellTallies nD τ sig (HIx 1)) (W : Waits sig (HIx 1)) (hO : ∀ g, O g none = 0) :
    (iprop(levAts (K (F := F)).L (K (F := F)).lev ∗ tileG m d (23 : Fin 32)
        ∗ scopedBufs (TH d) ∗ scopedSems0 (TH d) ∗ owes (TH d) O W) : sProp 𝕄)
      ⊢ wp frame (wpE (defs₀ (F := F)) 𝒱₀ (TH d) none) Set.univ
          (cc0_run LL (Memref.whole main_v2_scv) (Memref.isWhole_whole _) (Memref.whole main_v7_scv) (Memref.isWhole_whole _) (Memref.whole main_v5_scv) (Memref.isWhole_whole _) (Memref.whole main_v9_scv) (Memref.isWhole_whole _) (Memref.whole main_v10_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8)
          fun _ => iprop(tileT m d (23 : Fin 32) ∗ scopedBufs (TH d) ∗ scopedSems0 (TH d)
            ∗ ∃ W', ⌜∀ p ∈ W', p ∈ W ∨ p.2 = none⌝ ∗ owes (TH d) O W') := by
  rw [(K (F := F)).scopedBufs_V facts d (cV LL) (jV LL), SparseCore.Cfg.scopedSems0_V (Val := Elt F) d (cV LL) (jV LL), ownSems0_V, ownBufs_V]
  unfold tileG tileT
  iintro ⟨#Hlv, ⟨-, HF7, HF5, HF9, HF10⟩, ⟨⟨%fb0, Hb0⟩, ⟨%fb1, Hb1⟩, ⟨%fb2, Hb2⟩, Hbufs⟩, ⟨Hs3, Hs4, Hs5, Hs6, Hs7, Hs8, Hsems⟩, HO⟩
  ihave HF7' := (Entails.of_eq (open7 m d)) $$ HF7
  icases HF7' with HS0
  ihave HF5' := (Entails.of_eq (open5 m d)) $$ HF5
  icases HF5' with HS1
  ihave HF9' := (Entails.of_eq (open9 m d)) $$ HF9
  icases HF9' with HS2
  ihave HF10' := (Entails.of_eq (open10 m d)) $$ HF10
  icases HF10' with ⟨HO0_0, HO0_1, HO1_0, HO2_0⟩
  ihave Hmw := ((K (F := F)).mayWaits_none (thr := TH d) hO) $$ Hlv
  ihave Hb0' := (Entails.of_eq (pts_b0 d (cV LL) (jV LL) _).symm) $$ Hb0
  ihave Hb1' := (Entails.of_eq (pts_b1 d (cV LL) (jV LL) _).symm) $$ Hb1
  ihave Hb2' := (Entails.of_eq (pts_b2 d (cV LL) (jV LL) _).symm) $$ Hb2
  have _plan : Transfers.BatchOf (TH d) (SemLoc.dma (sig := sig) cc0_scratch6.sem) 2 (windows := true) := trivial
  sl_unfold [cc0_run]
  sl_exec_parts (disch := decide)
  sl_step
  isplitl [HS0 HS1 HS2 HO0_0 HO0_1 HO1_0 HO2_0]
  · skip
    isplitr
    · rw [show t2 (23 : Fin 32) = ∅ from rfl, bigSep_empty]; iempintro
    isplitl [HS0]
    · iapply (Entails.of_eq (open7 m d).symm)
      iexact HS0
    isplitl [HS1]
    · iapply (Entails.of_eq (open5 m d).symm)
      iexact HS1
    isplitl [HS2]
    · iapply (Entails.of_eq (open9 m d).symm)
      iexact HS2
    · iapply (Entails.of_eq (close10 m d).symm)
      isplitl [HO0_0]
      · iapply (out_post_ent (TH d) (OUT0_0) _ (OUTc m d) _ ?hv0_0) $$ HO0_0
        case hv0_0 => unfold_carried; simp only [ReadAs.apply_same, View.read_write_univ]; exact val0_0 m d
      isplitl [HO0_1]
      · iapply (out_post_ent (TH d) (OUT0_1) _ (OUTc m d) _ ?hv0_1) $$ HO0_1
        case hv0_1 => unfold_carried; simp only [ReadAs.apply_same, View.read_write_univ]; exact val0_1 m d
      isplitl [HO1_0]
      · iapply (out_post_ent (TH d) (OUT1_0) _ (OUTc m d) _ ?hv1_0) $$ HO1_0
        case hv1_0 => unfold_carried; simp only [ReadAs.apply_same, View.read_write_univ]; exact val1_0 m d
      iapply (out_post_ent (TH d) (OUT2_0) _ (OUTc m d) _ ?hv2_0) $$ HO2_0
      case hv2_0 => unfold_carried; simp only [ReadAs.apply_same, View.read_write_univ]; exact val2_0 m d

  isplitl [Hb0' Hb1' Hb2' Hbufs]
  · isplitl [Hb0']
    · iexists _; iapply (Entails.of_eq (pts_b0 d (cV LL) (jV LL) _)); iexact Hb0'
    isplitl [Hb1']
    · iexists _; iapply (Entails.of_eq (pts_b1 d (cV LL) (jV LL) _)); iexact Hb1'
    isplitl [Hb2']
    · iexists _; iapply (Entails.of_eq (pts_b2 d (cV LL) (jV LL) _)); iexact Hb2'
    iexact Hbufs
  isplitl [Hs3 Hs4 Hs5 Hs6 Hs7 Hs8 Hsems]
  · isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    iexact Hsems
  iexists _; isplitr
  rotate_left
  · iexact HO
  · ipureintro; intro p hp
    simp only [Finset.mem_insert] at hp
    rcases hp with rfl | rfl | rfl | rfl | rfl | rfl | rfl | hp <;> first | exact .inr rfl | exact .inl hp

end Cert.Proof.KI.Tile23

end
-- ==== Proof.KITile24.lean ====
/-
  Tile 24 of the kernel (subcore 12 of core 0): one slice in (pose0.0), 2 out; one slice in (delta5.1), 1 out.
  Its whole body is run: every copy it does not own is skipped by the comparison of its number with the copy's owner;
  each incoming copy fills a staging buffer, each outgoing copy carries that buffer into one slice of the output array,
  and what each output slice then holds is the source slice the specification asks for there.
-/
import proofs.«210185_g18468359372994_cont_8to1_1390_15_alg».proof.Proof.KIRead

set_option maxHeartbeats 4000000
set_option quotPrecheck false

noncomputable section

namespace Cert.Proof.KI.Tile24

open Cert.KernelIdeal Cert.KernelIdeal.Gen
open Cert.Proof.KI
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
theorem cLt : 0 < grid0.bound 0 := by decide
theorem sLt : 12 < grid0.bound 1 := by decide
local notation "LL" => (coordsV (⟨0, cLt⟩ : Fin (grid0.bound 0)) (⟨12, sLt⟩ : Fin (grid0.bound 1)))
local notation "TH" d => V d (cV LL) (jV LL)
local notation "SRC0" => (((Memref.whole main_v2_scv).slice (Rect.unit (s := S17x128x2x128) ![0, 0, 0, 0] S1x128x1x128.size inb_S17x128x2x128_S1x128x1x128_0_0_0_0) (fun _ => rfl)).squeeze S128x128 squeezes_S1x128x1x128_S128x128 : Memref sig .scVector .hbm S128x128 .f32)
local notation "OUT0_0" => (((Memref.whole main_v10_scv).slice (Rect.unit (s := S9x2x128x8x128) ![3, 1, 0, 4, 0] S1x1x128x1x128.size inb_S9x2x128x8x128_S1x1x128x1x128_3_1_0_4_0) (fun _ => rfl)).squeeze S128x128 squeezes_S1x1x128x1x128_S128x128 : Memref sig .scVector .hbm S128x128 .f32)
local notation "OUT0_1" => (((Memref.whole main_v10_scv).slice (Rect.unit (s := S9x2x128x8x128) ![3, 1, 0, 5, 0] S1x1x128x1x128.size inb_S9x2x128x8x128_S1x1x128x1x128_3_1_0_5_0) (fun _ => rfl)).squeeze S128x128 squeezes_S1x1x128x1x128_S128x128 : Memref sig .scVector .hbm S128x128 .f32)
local notation "SRC1" => (((Memref.whole main_v5_scv).slice (Rect.unit (s := S14x128x2x128) ![5, 0, 1, 0] S1x128x1x128.size inb_S14x128x2x128_S1x128x1x128_5_0_1_0) (fun _ => rfl)).squeeze S128x128 squeezes_S1x128x1x128_S128x128 : Memref sig .scVector .hbm S128x128 .f32)
local notation "OUT1_0" => (((Memref.whole main_v10_scv).slice (Rect.unit (s := S9x2x128x8x128) ![1, 0, 0, 5, 0] S1x1x128x1x128.size inb_S9x2x128x8x128_S1x1x128x1x128_1_0_0_5_0) (fun _ => rfl)).squeeze S128x128 squeezes_S1x1x128x1x128_S128x128 : Memref sig .scVector .hbm S128x128 .f32)

/-! ## The tile's slices, as its memrefs name them -/

theorem open2 (m : (ℓ : Loc nD τ sig) → Buf (Elt F) ℓ) (d : Dev nD) :
    (bigSep (t2 (24 : Fin 32)) (A2 m d) : sProp 𝕄) = iprop(((SRC0).view.loc (TH d) ↦[(SRC0).view.set]{fullShare} V2c m d)) := by
  show bigSep ({((0 : Fin 17), (0 : Fin 2))} : Finset (Fin 17 × Fin 2)) (A2 m d) = _
  rw [bigSep_singleton]
  exact (pts_v2 d (cV LL) (jV LL) (0 : Fin 17) (0 : Fin 2) _ (V2c m d)).symm
theorem open5 (m : (ℓ : Loc nD τ sig) → Buf (Elt F) ℓ) (d : Dev nD) :
    (bigSep (t5 (24 : Fin 32)) (A5 m d) : sProp 𝕄) = iprop(((SRC1).view.loc (TH d) ↦[(SRC1).view.set]{fullShare} V5c m d)) := by
  show bigSep ({((5 : Fin 14), (1 : Fin 2))} : Finset (Fin 14 × Fin 2)) (A5 m d) = _
  rw [bigSep_singleton]
  exact (pts_v5 d (cV LL) (jV LL) (5 : Fin 14) (1 : Fin 2) _ (V5c m d)).symm
theorem open10 (m : (ℓ : Loc nD τ sig) → Buf (Elt F) ℓ) (d : Dev nD) :
    (bigSep (t10 (24 : Fin 32)) (B0 m d) : sProp 𝕄) = iprop(((OUT0_0).view.loc (TH d) ↦[(OUT0_0).view.set]{fullShare} m (v10L d)) ∗ ((OUT0_1).view.loc (TH d) ↦[(OUT0_1).view.set]{fullShare} m (v10L d)) ∗ ((OUT1_0).view.loc (TH d) ↦[(OUT1_0).view.set]{fullShare} m (v10L d))) := by
  show bigSep ({((3 : Fin 9), (1 : Fin 2), (4 : Fin 8)), ((3 : Fin 9), (1 : Fin 2), (5 : Fin 8)), ((1 : Fin 9), (0 : Fin 2), (5 : Fin 8))} : Finset (Fin 9 × Fin 2 × Fin 8)) (B0 m d) = _
  rw [SparseCore.bigSep_insert' (by decide), SparseCore.bigSep_insert' (by decide), bigSep_singleton]
  exact (congrArg₂ (fun a b : sProp 𝕄 => iprop(a ∗ b)) (pts_v10 d (cV LL) (jV LL) (3 : Fin 9) (1 : Fin 2) (4 : Fin 8) _ (m (v10L d))).symm (congrArg₂ (fun a b : sProp 𝕄 => iprop(a ∗ b)) (pts_v10 d (cV LL) (jV LL) (3 : Fin 9) (1 : Fin 2) (5 : Fin 8) _ (m (v10L d))).symm (pts_v10 d (cV LL) (jV LL) (1 : Fin 9) (0 : Fin 2) (5 : Fin 8) _ (m (v10L d))).symm))
theorem close10 (m : (ℓ : Loc nD τ sig) → Buf (Elt F) ℓ) (d : Dev nD) :
    (bigSep (t10 (24 : Fin 32)) (B1 m d) : sProp 𝕄) = iprop(((OUT0_0).view.loc (TH d) ↦[(OUT0_0).view.set]{fullShare} OUTc m d) ∗ ((OUT0_1).view.loc (TH d) ↦[(OUT0_1).view.set]{fullShare} OUTc m d) ∗ ((OUT1_0).view.loc (TH d) ↦[(OUT1_0).view.set]{fullShare} OUTc m d)) := by
  show bigSep ({((3 : Fin 9), (1 : Fin 2), (4 : Fin 8)), ((3 : Fin 9), (1 : Fin 2), (5 : Fin 8)), ((1 : Fin 9), (0 : Fin 2), (5 : Fin 8))} : Finset (Fin 9 × Fin 2 × Fin 8)) (B1 m d) = _
  rw [SparseCore.bigSep_insert' (by decide), SparseCore.bigSep_insert' (by decide), bigSep_singleton]
  exact (congrArg₂ (fun a b : sProp 𝕄 => iprop(a ∗ b)) (pts_v10 d (cV LL) (jV LL) (3 : Fin 9) (1 : Fin 2) (4 : Fin 8) _ (OUTc m d)).symm (congrArg₂ (fun a b : sProp 𝕄 => iprop(a ∗ b)) (pts_v10 d (cV LL) (jV LL) (3 : Fin 9) (1 : Fin 2) (5 : Fin 8) _ (OUTc m d)).symm (pts_v10 d (cV LL) (jV LL) (1 : Fin 9) (0 : Fin 2) (5 : Fin 8) _ (OUTc m d)).symm))

/-! ## What each output slice has to hold is what its source slice holds -/

theorem val0_0 (m : (ℓ : Loc nD τ sig) → Buf (Elt F) ℓ) (d : Dev nD) :
    (SRC0).view.read (Elt F) (V2c m d) = (OUT0_0).view.read (Elt F) (OUTc m d) := by
  funext y
  obtain ⟨t, q, rfl⟩ : ∃ (t q : Fin 128), y = ix2 t q := ⟨y 0, y 1, eq_ix2 y⟩
  refine (read_v2 (0 : Fin 17) (0 : Fin 2) _ _ t q).trans ((?_ : _ = _).trans (read_v10 (3 : Fin 9) (1 : Fin 2) (4 : Fin 8) _ _ t q).symm)
  unfold V2c OUTc
  rw [Cert.Layout.poseV_apply]
  refine Eq.trans ?_ (outV_at _ _ _ _ _ _ _ t _ q (show 8 * 1 + 4 < 14 by decide)).symm
  rfl
theorem val0_1 (m : (ℓ : Loc nD τ sig) → Buf (Elt F) ℓ) (d : Dev nD) :
    (SRC0).view.read (Elt F) (V2c m d) = (OUT0_1).view.read (Elt F) (OUTc m d) := by
  funext y
  obtain ⟨t, q, rfl⟩ : ∃ (t q : Fin 128), y = ix2 t q := ⟨y 0, y 1, eq_ix2 y⟩
  refine (read_v2 (0 : Fin 17) (0 : Fin 2) _ _ t q).trans ((?_ : _ = _).trans (read_v10 (3 : Fin 9) (1 : Fin 2) (5 : Fin 8) _ _ t q).symm)
  unfold V2c OUTc
  rw [Cert.Layout.poseV_apply]
  refine Eq.trans ?_ (outV_at _ _ _ _ _ _ _ t _ q (show 8 * 1 + 5 < 14 by decide)).symm
  rfl
theorem val1_0 (m : (ℓ : Loc nD τ sig) → Buf (Elt F) ℓ) (d : Dev nD) :
    (SRC1).view.read (Elt F) (V5c m d) = (OUT1_0).view.read (Elt F) (OUTc m d) := by
  funext y
  obtain ⟨t, q, rfl⟩ : ∃ (t q : Fin 128), y = ix2 t q := ⟨y 0, y 1, eq_ix2 y⟩
  refine (read_v5 (5 : Fin 14) (1 : Fin 2) _ _ t q).trans ((?_ : _ = _).trans (read_v10 (1 : Fin 9) (0 : Fin 2) (5 : Fin 8) _ _ t q).symm)
  unfold V5c OUTc
  rw [Cert.Layout.deltaV_apply]
  refine Eq.trans ?_ (outV_at _ _ _ _ _ _ _ t _ q (show 8 * 0 + 5 < 14 by decide)).symm
  rfl

/-! ## The run -/

open Lean Elab Tactic Meta in
/-- Unfold the names the symbolic run gave to the values its copies carry. -/
elab "unfold_carried" : tactic => do
  for _ in [0:6] do
    let g ← getMainGoal
    let t ← instantiateMVars (← g.getType)
    if (t.getUsedConstants.any fun n => n.components.any (· == `sl)) then
      let t' ← deltaExpand t (fun n => n.components.any (· == `sl))
      let g' ← g.change t' (checkDefEq := false)
      replaceMainGoal [g']

variable [FloatOps F] [∀ e, Nonempty (Elt F e)]

theorem run (m : (ℓ : Loc nD τ sig) → Buf (Elt F) ℓ) (d : Dev nD) (O : CellTallies nD τ sig (HIx 1)) (W : Waits sig (HIx 1)) (hO : ∀ g, O g none = 0) :
    (iprop(levAts (K (F := F)).L (K (F := F)).lev ∗ tileG m d (24 : Fin 32)
        ∗ scopedBufs (TH d) ∗ scopedSems0 (TH d) ∗ owes (TH d) O W) : sProp 𝕄)
      ⊢ wp frame (wpE (defs₀ (F := F)) 𝒱₀ (TH d) none) Set.univ
          (cc0_run LL (Memref.whole main_v2_scv) (Memref.isWhole_whole _) (Memref.whole main_v7_scv) (Memref.isWhole_whole _) (Memref.whole main_v5_scv) (Memref.isWhole_whole _) (Memref.whole main_v9_scv) (Memref.isWhole_whole _) (Memref.whole main_v10_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8)
          fun _ => iprop(tileT m d (24 : Fin 32) ∗ scopedBufs (TH d) ∗ scopedSems0 (TH d)
            ∗ ∃ W', ⌜∀ p ∈ W', p ∈ W ∨ p.2 = none⌝ ∗ owes (TH d) O W') := by
  rw [(K (F := F)).scopedBufs_V facts d (cV LL) (jV LL), SparseCore.Cfg.scopedSems0_V (Val := Elt F) d (cV LL) (jV LL), ownSems0_V, ownBufs_V]
  unfold tileG tileT
  iintro ⟨#Hlv, ⟨HF2, -, HF5, -, HF10⟩, ⟨⟨%fb0, Hb0⟩, ⟨%fb1, Hb1⟩, ⟨%fb2, Hb2⟩, Hbufs⟩, ⟨Hs3, Hs4, Hs5, Hs6, Hs7, Hs8, Hsems⟩, HO⟩
  ihave HF2' := (Entails.of_eq (open2 m d)) $$ HF2
  icases HF2' with HS0
  ihave HF5' := (Entails.of_eq (open5 m d)) $$ HF5
  icases HF5' with HS1
  ihave HF10' := (Entails.of_eq (open10 m d)) $$ HF10
  icases HF10' with ⟨HO0_0, HO0_1, HO1_0⟩
  ihave Hmw := ((K (F := F)).mayWaits_none (thr := TH d) hO) $$ Hlv
  ihave Hb0' := (Entails.of_eq (pts_b0 d (cV LL) (jV LL) _).symm) $$ Hb0
  ihave Hb1' := (Entails.of_eq (pts_b1 d (cV LL) (jV LL) _).symm) $$ Hb1
  ihave Hb2' := (Entails.of_eq (pts_b2 d (cV LL) (jV LL) _).symm) $$ Hb2
  have _plan : Transfers.BatchOf (TH d) (SemLoc.dma (sig := sig) cc0_scratch6.sem) 2 (windows := true) := trivial
  sl_unfold [cc0_run]
  sl_exec_parts (disch := decide)
  sl_step
  isplitl [HS0 HS1 HO0_0 HO0_1 HO1_0]
  · skip
    isplitl [HS0]
    · iapply (Entails.of_eq (open2 m d).symm)
      iexact HS0
    isplitr
    · rw [show t7 (24 : Fin 32) = ∅ from rfl, bigSep_empty]; iempintro
    isplitl [HS1]
    · iapply (Entails.of_eq (open5 m d).symm)
      iexact HS1
    isplitr
    · rw [show t9 (24 : Fin 32) = ∅ from rfl, bigSep_empty]; iempintro
    · iapply (Entails.of_eq (close10 m d).symm)
      isplitl [HO0_0]
      · iapply (out_post_ent (TH d) (OUT0_0) _ (OUTc m d) _ ?hv0_0) $$ HO0_0
        case hv0_0 => unfold_carried; simp only [ReadAs.apply_same, View.read_write_univ]; exact val0_0 m d
      isplitl [HO0_1]
      · iapply (out_post_ent (TH d) (OUT0_1) _ (OUTc m d) _ ?hv0_1) $$ HO0_1
        case hv0_1 => unfold_carried; simp only [ReadAs.apply_same, View.read_write_univ]; exact val0_1 m d
      iapply (out_post_ent (TH d) (OUT1_0) _ (OUTc m d) _ ?hv1_0) $$ HO1_0
      case hv1_0 => unfold_carried; simp only [ReadAs.apply_same, View.read_write_univ]; exact val1_0 m d

  isplitl [Hb0' Hb1' Hb2' Hbufs]
  · isplitl [Hb0']
    · iexists _; iapply (Entails.of_eq (pts_b0 d (cV LL) (jV LL) _)); iexact Hb0'
    isplitl [Hb1']
    · iexists _; iapply (Entails.of_eq (pts_b1 d (cV LL) (jV LL) _)); iexact Hb1'
    isplitl [Hb2']
    · iexists _; iapply (Entails.of_eq (pts_b2 d (cV LL) (jV LL) _)); iexact Hb2'
    iexact Hbufs
  isplitl [Hs3 Hs4 Hs5 Hs6 Hs7 Hs8 Hsems]
  · isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    iexact Hsems
  iexists _; isplitr
  rotate_left
  · iexact HO
  · ipureintro; intro p hp
    simp only [Finset.mem_insert] at hp
    rcases hp with rfl | rfl | rfl | rfl | rfl | hp <;> first | exact .inr rfl | exact .inl hp

end Cert.Proof.KI.Tile24

end
-- ==== Proof.KITile25.lean ====
/-
  Tile 25 of the kernel (subcore 12 of core 1): one slice in (pose0.1), 2 out; one slice in (len5), 1 out.
  Its whole body is run: every copy it does not own is skipped by the comparison of its number with the copy's owner;
  each incoming copy fills a staging buffer, each outgoing copy carries that buffer into one slice of the output array,
  and what each output slice then holds is the source slice the specification asks for there.
-/
import proofs.«210185_g18468359372994_cont_8to1_1390_15_alg».proof.Proof.KIRead

set_option maxHeartbeats 4000000
set_option quotPrecheck false

noncomputable section

namespace Cert.Proof.KI.Tile25

open Cert.KernelIdeal Cert.KernelIdeal.Gen
open Cert.Proof.KI
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
theorem cLt : 1 < grid0.bound 0 := by decide
theorem sLt : 12 < grid0.bound 1 := by decide
local notation "LL" => (coordsV (⟨1, cLt⟩ : Fin (grid0.bound 0)) (⟨12, sLt⟩ : Fin (grid0.bound 1)))
local notation "TH" d => V d (cV LL) (jV LL)
local notation "SRC0" => (((Memref.whole main_v2_scv).slice (Rect.unit (s := S17x128x2x128) ![0, 0, 1, 0] S1x128x1x128.size inb_S17x128x2x128_S1x128x1x128_0_0_1_0) (fun _ => rfl)).squeeze S128x128 squeezes_S1x128x1x128_S128x128 : Memref sig .scVector .hbm S128x128 .f32)
local notation "OUT0_0" => (((Memref.whole main_v10_scv).slice (Rect.unit (s := S9x2x128x8x128) ![4, 1, 0, 4, 0] S1x1x128x1x128.size inb_S9x2x128x8x128_S1x1x128x1x128_4_1_0_4_0) (fun _ => rfl)).squeeze S128x128 squeezes_S1x1x128x1x128_S128x128 : Memref sig .scVector .hbm S128x128 .f32)
local notation "OUT0_1" => (((Memref.whole main_v10_scv).slice (Rect.unit (s := S9x2x128x8x128) ![4, 1, 0, 5, 0] S1x1x128x1x128.size inb_S9x2x128x8x128_S1x1x128x1x128_4_1_0_5_0) (fun _ => rfl)).squeeze S128x128 squeezes_S1x1x128x1x128_S128x128 : Memref sig .scVector .hbm S128x128 .f32)
local notation "SRC1" => (((Memref.whole main_v9_scv).slice (Rect.unit (s := S14x128x128) ![5, 0, 0] S1x128x128.size inb_S14x128x128_S1x128x128_5_0_0) (fun _ => rfl)).squeeze S128x128 squeezes_S1x128x128_S128x128 : Memref sig .scVector .hbm S128x128 .f32)
local notation "OUT1_0" => (((Memref.whole main_v10_scv).slice (Rect.unit (s := S9x2x128x8x128) ![2, 0, 0, 5, 0] S1x1x128x1x128.size inb_S9x2x128x8x128_S1x1x128x1x128_2_0_0_5_0) (fun _ => rfl)).squeeze S128x128 squeezes_S1x1x128x1x128_S128x128 : Memref sig .scVector .hbm S128x128 .f32)

/-! ## The tile's slices, as its memrefs name them -/

theorem open2 (m : (ℓ : Loc nD τ sig) → Buf (Elt F) ℓ) (d : Dev nD) :
    (bigSep (t2 (25 : Fin 32)) (A2 m d) : sProp 𝕄) = iprop(((SRC0).view.loc (TH d) ↦[(SRC0).view.set]{fullShare} V2c m d)) := by
  show bigSep ({((0 : Fin 17), (1 : Fin 2))} : Finset (Fin 17 × Fin 2)) (A2 m d) = _
  rw [bigSep_singleton]
  exact (pts_v2 d (cV LL) (jV LL) (0 : Fin 17) (1 : Fin 2) _ (V2c m d)).symm
theorem open9 (m : (ℓ : Loc nD τ sig) → Buf (Elt F) ℓ) (d : Dev nD) :
    (bigSep (t9 (25 : Fin 32)) (A9 m d) : sProp 𝕄) = iprop(((SRC1).view.loc (TH d) ↦[(SRC1).view.set]{fullShare} V9c m d)) := by
  show bigSep ({(5 : Fin 14)} : Finset (Fin 14)) (A9 m d) = _
  rw [bigSep_singleton]
  exact (pts_v9 d (cV LL) (jV LL) (5 : Fin 14) _ (V9c m d)).symm
theorem open10 (m : (ℓ : Loc nD τ sig) → Buf (Elt F) ℓ) (d : Dev nD) :
    (bigSep (t10 (25 : Fin 32)) (B0 m d) : sProp 𝕄) = iprop(((OUT0_0).view.loc (TH d) ↦[(OUT0_0).view.set]{fullShare} m (v10L d)) ∗ ((OUT0_1).view.loc (TH d) ↦[(OUT0_1).view.set]{fullShare} m (v10L d)) ∗ ((OUT1_0).view.loc (TH d) ↦[(OUT1_0).view.set]{fullShare} m (v10L d))) := by
  show bigSep ({((4 : Fin 9), (1 : Fin 2), (4 : Fin 8)), ((4 : Fin 9), (1 : Fin 2), (5 : Fin 8)), ((2 : Fin 9), (0 : Fin 2), (5 : Fin 8))} : Finset (Fin 9 × Fin 2 × Fin 8)) (B0 m d) = _
  rw [SparseCore.bigSep_insert' (by decide), SparseCore.bigSep_insert' (by decide), bigSep_singleton]
  exact (congrArg₂ (fun a b : sProp 𝕄 => iprop(a ∗ b)) (pts_v10 d (cV LL) (jV LL) (4 : Fin 9) (1 : Fin 2) (4 : Fin 8) _ (m (v10L d))).symm (congrArg₂ (fun a b : sProp 𝕄 => iprop(a ∗ b)) (pts_v10 d (cV LL) (jV LL) (4 : Fin 9) (1 : Fin 2) (5 : Fin 8) _ (m (v10L d))).symm (pts_v10 d (cV LL) (jV LL) (2 : Fin 9) (0 : Fin 2) (5 : Fin 8) _ (m (v10L d))).symm))
theorem close10 (m : (ℓ : Loc nD τ sig) → Buf (Elt F) ℓ) (d : Dev nD) :
    (bigSep (t10 (25 : Fin 32)) (B1 m d) : sProp 𝕄) = iprop(((OUT0_0).view.loc (TH d) ↦[(OUT0_0).view.set]{fullShare} OUTc m d) ∗ ((OUT0_1).view.loc (TH d) ↦[(OUT0_1).view.set]{fullShare} OUTc m d) ∗ ((OUT1_0).view.loc (TH d) ↦[(OUT1_0).view.set]{fullShare} OUTc m d)) := by
  show bigSep ({((4 : Fin 9), (1 : Fin 2), (4 : Fin 8)), ((4 : Fin 9), (1 : Fin 2), (5 : Fin 8)), ((2 : Fin 9), (0 : Fin 2), (5 : Fin 8))} : Finset (Fin 9 × Fin 2 × Fin 8)) (B1 m d) = _
  rw [SparseCore.bigSep_insert' (by decide), SparseCore.bigSep_insert' (by decide), bigSep_singleton]
  exact (congrArg₂ (fun a b : sProp 𝕄 => iprop(a ∗ b)) (pts_v10 d (cV LL) (jV LL) (4 : Fin 9) (1 : Fin 2) (4 : Fin 8) _ (OUTc m d)).symm (congrArg₂ (fun a b : sProp 𝕄 => iprop(a ∗ b)) (pts_v10 d (cV LL) (jV LL) (4 : Fin 9) (1 : Fin 2) (5 : Fin 8) _ (OUTc m d)).symm (pts_v10 d (cV LL) (jV LL) (2 : Fin 9) (0 : Fin 2) (5 : Fin 8) _ (OUTc m d)).symm))

/-! ## What each output slice has to hold is what its source slice holds -/

theorem val0_0 (m : (ℓ : Loc nD τ sig) → Buf (Elt F) ℓ) (d : Dev nD) :
    (SRC0).view.read (Elt F) (V2c m d) = (OUT0_0).view.read (Elt F) (OUTc m d) := by
  funext y
  obtain ⟨t, q, rfl⟩ : ∃ (t q : Fin 128), y = ix2 t q := ⟨y 0, y 1, eq_ix2 y⟩
  refine (read_v2 (0 : Fin 17) (1 : Fin 2) _ _ t q).trans ((?_ : _ = _).trans (read_v10 (4 : Fin 9) (1 : Fin 2) (4 : Fin 8) _ _ t q).symm)
  unfold V2c OUTc
  rw [Cert.Layout.poseV_apply]
  refine Eq.trans ?_ (outV_at _ _ _ _ _ _ _ t _ q (show 8 * 1 + 4 < 14 by decide)).symm
  rfl
theorem val0_1 (m : (ℓ : Loc nD τ sig) → Buf (Elt F) ℓ) (d : Dev nD) :
    (SRC0).view.read (Elt F) (V2c m d) = (OUT0_1).view.read (Elt F) (OUTc m d) := by
  funext y
  obtain ⟨t, q, rfl⟩ : ∃ (t q : Fin 128), y = ix2 t q := ⟨y 0, y 1, eq_ix2 y⟩
  refine (read_v2 (0 : Fin 17) (1 : Fin 2) _ _ t q).trans ((?_ : _ = _).trans (read_v10 (4 : Fin 9) (1 : Fin 2) (5 : Fin 8) _ _ t q).symm)
  unfold V2c OUTc
  rw [Cert.Layout.poseV_apply]
  refine Eq.trans ?_ (outV_at _ _ _ _ _ _ _ t _ q (show 8 * 1 + 5 < 14 by decide)).symm
  rfl
theorem val1_0 (m : (ℓ : Loc nD τ sig) → Buf (Elt F) ℓ) (d : Dev nD) :
    (SRC1).view.read (Elt F) (V9c m d) = (OUT1_0).view.read (Elt F) (OUTc m d) := by
  funext y
  obtain ⟨t, q, rfl⟩ : ∃ (t q : Fin 128), y = ix2 t q := ⟨y 0, y 1, eq_ix2 y⟩
  refine (read_v9 (5 : Fin 14) _ _ t q).trans ((?_ : _ = _).trans (read_v10 (2 : Fin 9) (0 : Fin 2) (5 : Fin 8) _ _ t q).symm)
  unfold V9c OUTc
  rw [Cert.Layout.lenV_apply]
  refine Eq.trans ?_ (outV_at _ _ _ _ _ _ _ t _ q (show 8 * 0 + 5 < 14 by decide)).symm
  rfl

/-! ## The run -/

open Lean Elab Tactic Meta in
/-- Unfold the names the symbolic run gave to the values its copies carry. -/
elab "unfold_carried" : tactic => do
  for _ in [0:6] do
    let g ← getMainGoal
    let t ← instantiateMVars (← g.getType)
    if (t.getUsedConstants.any fun n => n.components.any (· == `sl)) then
      let t' ← deltaExpand t (fun n => n.components.any (· == `sl))
      let g' ← g.change t' (checkDefEq := false)
      replaceMainGoal [g']

variable [FloatOps F] [∀ e, Nonempty (Elt F e)]

theorem run (m : (ℓ : Loc nD τ sig) → Buf (Elt F) ℓ) (d : Dev nD) (O : CellTallies nD τ sig (HIx 1)) (W : Waits sig (HIx 1)) (hO : ∀ g, O g none = 0) :
    (iprop(levAts (K (F := F)).L (K (F := F)).lev ∗ tileG m d (25 : Fin 32)
        ∗ scopedBufs (TH d) ∗ scopedSems0 (TH d) ∗ owes (TH d) O W) : sProp 𝕄)
      ⊢ wp frame (wpE (defs₀ (F := F)) 𝒱₀ (TH d) none) Set.univ
          (cc0_run LL (Memref.whole main_v2_scv) (Memref.isWhole_whole _) (Memref.whole main_v7_scv) (Memref.isWhole_whole _) (Memref.whole main_v5_scv) (Memref.isWhole_whole _) (Memref.whole main_v9_scv) (Memref.isWhole_whole _) (Memref.whole main_v10_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8)
          fun _ => iprop(tileT m d (25 : Fin 32) ∗ scopedBufs (TH d) ∗ scopedSems0 (TH d)
            ∗ ∃ W', ⌜∀ p ∈ W', p ∈ W ∨ p.2 = none⌝ ∗ owes (TH d) O W') := by
  rw [(K (F := F)).scopedBufs_V facts d (cV LL) (jV LL), SparseCore.Cfg.scopedSems0_V (Val := Elt F) d (cV LL) (jV LL), ownSems0_V, ownBufs_V]
  unfold tileG tileT
  iintro ⟨#Hlv, ⟨HF2, -, -, HF9, HF10⟩, ⟨⟨%fb0, Hb0⟩, ⟨%fb1, Hb1⟩, ⟨%fb2, Hb2⟩, Hbufs⟩, ⟨Hs3, Hs4, Hs5, Hs6, Hs7, Hs8, Hsems⟩, HO⟩
  ihave HF2' := (Entails.of_eq (open2 m d)) $$ HF2
  icases HF2' with HS0
  ihave HF9' := (Entails.of_eq (open9 m d)) $$ HF9
  icases HF9' with HS1
  ihave HF10' := (Entails.of_eq (open10 m d)) $$ HF10
  icases HF10' with ⟨HO0_0, HO0_1, HO1_0⟩
  ihave Hmw := ((K (F := F)).mayWaits_none (thr := TH d) hO) $$ Hlv
  ihave Hb0' := (Entails.of_eq (pts_b0 d (cV LL) (jV LL) _).symm) $$ Hb0
  ihave Hb1' := (Entails.of_eq (pts_b1 d (cV LL) (jV LL) _).symm) $$ Hb1
  ihave Hb2' := (Entails.of_eq (pts_b2 d (cV LL) (jV LL) _).symm) $$ Hb2
  have _plan : Transfers.BatchOf (TH d) (SemLoc.dma (sig := sig) cc0_scratch6.sem) 2 (windows := true) := trivial
  sl_unfold [cc0_run]
  sl_exec_parts (disch := decide)
  sl_step
  isplitl [HS0 HS1 HO0_0 HO0_1 HO1_0]
  · skip
    isplitl [HS0]
    · iapply (Entails.of_eq (open2 m d).symm)
      iexact HS0
    isplitr
    · rw [show t7 (25 : Fin 32) = ∅ from rfl, bigSep_empty]; iempintro
    isplitr
    · rw [show t5 (25 : Fin 32) = ∅ from rfl, bigSep_empty]; iempintro
    isplitl [HS1]
    · iapply (Entails.of_eq (open9 m d).symm)
      iexact HS1
    · iapply (Entails.of_eq (close10 m d).symm)
      isplitl [HO0_0]
      · iapply (out_post_ent (TH d) (OUT0_0) _ (OUTc m d) _ ?hv0_0) $$ HO0_0
        case hv0_0 => unfold_carried; simp only [ReadAs.apply_same, View.read_write_univ]; exact val0_0 m d
      isplitl [HO0_1]
      · iapply (out_post_ent (TH d) (OUT0_1) _ (OUTc m d) _ ?hv0_1) $$ HO0_1
        case hv0_1 => unfold_carried; simp only [ReadAs.apply_same, View.read_write_univ]; exact val0_1 m d
      iapply (out_post_ent (TH d) (OUT1_0) _ (OUTc m d) _ ?hv1_0) $$ HO1_0
      case hv1_0 => unfold_carried; simp only [ReadAs.apply_same, View.read_write_univ]; exact val1_0 m d

  isplitl [Hb0' Hb1' Hb2' Hbufs]
  · isplitl [Hb0']
    · iexists _; iapply (Entails.of_eq (pts_b0 d (cV LL) (jV LL) _)); iexact Hb0'
    isplitl [Hb1']
    · iexists _; iapply (Entails.of_eq (pts_b1 d (cV LL) (jV LL) _)); iexact Hb1'
    isplitl [Hb2']
    · iexists _; iapply (Entails.of_eq (pts_b2 d (cV LL) (jV LL) _)); iexact Hb2'
    iexact Hbufs
  isplitl [Hs3 Hs4 Hs5 Hs6 Hs7 Hs8 Hsems]
  · isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    iexact Hsems
  iexists _; isplitr
  rotate_left
  · iexact HO
  · ipureintro; intro p hp
    simp only [Finset.mem_insert] at hp
    rcases hp with rfl | rfl | rfl | rfl | rfl | hp <;> first | exact .inr rfl | exact .inl hp

end Cert.Proof.KI.Tile25

end
-- ==== Proof.KITile26.lean ====
/-
  Tile 26 of the kernel (subcore 13 of core 0): one slice in (vis0), 2 out; one slice in (pose15.0), 1 out.
  Its whole body is run: every copy it does not own is skipped by the comparison of its number with the copy's owner;
  each incoming copy fills a staging buffer, each outgoing copy carries that buffer into one slice of the output array,
  and what each output slice then holds is the source slice the specification asks for there.
-/
import proofs.«210185_g18468359372994_cont_8to1_1390_15_alg».proof.Proof.KIRead

set_option maxHeartbeats 4000000
set_option quotPrecheck false

noncomputable section

namespace Cert.Proof.KI.Tile26

open Cert.KernelIdeal Cert.KernelIdeal.Gen
open Cert.Proof.KI
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
theorem cLt : 0 < grid0.bound 0 := by decide
theorem sLt : 13 < grid0.bound 1 := by decide
local notation "LL" => (coordsV (⟨0, cLt⟩ : Fin (grid0.bound 0)) (⟨13, sLt⟩ : Fin (grid0.bound 1)))
local notation "TH" d => V d (cV LL) (jV LL)
local notation "SRC0" => (((Memref.whole main_v7_scv).slice (Rect.unit (s := S17x128x128) ![0, 0, 0] S1x128x128.size inb_S17x128x128_S1x128x128_0_0_0) (fun _ => rfl)).squeeze S128x128 squeezes_S1x128x128_S128x128 : Memref sig .scVector .hbm S128x128 .f32)
local notation "OUT0_0" => (((Memref.whole main_v10_scv).slice (Rect.unit (s := S9x2x128x8x128) ![7, 1, 0, 4, 0] S1x1x128x1x128.size inb_S9x2x128x8x128_S1x1x128x1x128_7_1_0_4_0) (fun _ => rfl)).squeeze S128x128 squeezes_S1x1x128x1x128_S128x128 : Memref sig .scVector .hbm S128x128 .f32)
local notation "OUT0_1" => (((Memref.whole main_v10_scv).slice (Rect.unit (s := S9x2x128x8x128) ![7, 1, 0, 5, 0] S1x1x128x1x128.size inb_S9x2x128x8x128_S1x1x128x1x128_7_1_0_5_0) (fun _ => rfl)).squeeze S128x128 squeezes_S1x1x128x1x128_S128x128 : Memref sig .scVector .hbm S128x128 .f32)
local notation "SRC1" => (((Memref.whole main_v2_scv).slice (Rect.unit (s := S17x128x2x128) ![15, 0, 0, 0] S1x128x1x128.size inb_S17x128x2x128_S1x128x1x128_15_0_0_0) (fun _ => rfl)).squeeze S128x128 squeezes_S1x128x1x128_S128x128 : Memref sig .scVector .hbm S128x128 .f32)
local notation "OUT1_0" => (((Memref.whole main_v10_scv).slice (Rect.unit (s := S9x2x128x8x128) ![5, 0, 0, 5, 0] S1x1x128x1x128.size inb_S9x2x128x8x128_S1x1x128x1x128_5_0_0_5_0) (fun _ => rfl)).squeeze S128x128 squeezes_S1x1x128x1x128_S128x128 : Memref sig .scVector .hbm S128x128 .f32)

/-! ## The tile's slices, as its memrefs name them -/

theorem open2 (m : (ℓ : Loc nD τ sig) → Buf (Elt F) ℓ) (d : Dev nD) :
    (bigSep (t2 (26 : Fin 32)) (A2 m d) : sProp 𝕄) = iprop(((SRC1).view.loc (TH d) ↦[(SRC1).view.set]{fullShare} V2c m d)) := by
  show bigSep ({((15 : Fin 17), (0 : Fin 2))} : Finset (Fin 17 × Fin 2)) (A2 m d) = _
  rw [bigSep_singleton]
  exact (pts_v2 d (cV LL) (jV LL) (15 : Fin 17) (0 : Fin 2) _ (V2c m d)).symm
theorem open7 (m : (ℓ : Loc nD τ sig) → Buf (Elt F) ℓ) (d : Dev nD) :
    (bigSep (t7 (26 : Fin 32)) (A7 m d) : sProp 𝕄) = iprop(((SRC0).view.loc (TH d) ↦[(SRC0).view.set]{fullShare} V7c m d)) := by
  show bigSep ({(0 : Fin 17)} : Finset (Fin 17)) (A7 m d) = _
  rw [bigSep_singleton]
  exact (pts_v7 d (cV LL) (jV LL) (0 : Fin 17) _ (V7c m d)).symm
theorem open10 (m : (ℓ : Loc nD τ sig) → Buf (Elt F) ℓ) (d : Dev nD) :
    (bigSep (t10 (26 : Fin 32)) (B0 m d) : sProp 𝕄) = iprop(((OUT0_0).view.loc (TH d) ↦[(OUT0_0).view.set]{fullShare} m (v10L d)) ∗ ((OUT0_1).view.loc (TH d) ↦[(OUT0_1).view.set]{fullShare} m (v10L d)) ∗ ((OUT1_0).view.loc (TH d) ↦[(OUT1_0).view.set]{fullShare} m (v10L d))) := by
  show bigSep ({((7 : Fin 9), (1 : Fin 2), (4 : Fin 8)), ((7 : Fin 9), (1 : Fin 2), (5 : Fin 8)), ((5 : Fin 9), (0 : Fin 2), (5 : Fin 8))} : Finset (Fin 9 × Fin 2 × Fin 8)) (B0 m d) = _
  rw [SparseCore.bigSep_insert' (by decide), SparseCore.bigSep_insert' (by decide), bigSep_singleton]
  exact (congrArg₂ (fun a b : sProp 𝕄 => iprop(a ∗ b)) (pts_v10 d (cV LL) (jV LL) (7 : Fin 9) (1 : Fin 2) (4 : Fin 8) _ (m (v10L d))).symm (congrArg₂ (fun a b : sProp 𝕄 => iprop(a ∗ b)) (pts_v10 d (cV LL) (jV LL) (7 : Fin 9) (1 : Fin 2) (5 : Fin 8) _ (m (v10L d))).symm (pts_v10 d (cV LL) (jV LL) (5 : Fin 9) (0 : Fin 2) (5 : Fin 8) _ (m (v10L d))).symm))
theorem close10 (m : (ℓ : Loc nD τ sig) → Buf (Elt F) ℓ) (d : Dev nD) :
    (bigSep (t10 (26 : Fin 32)) (B1 m d) : sProp 𝕄) = iprop(((OUT0_0).view.loc (TH d) ↦[(OUT0_0).view.set]{fullShare} OUTc m d) ∗ ((OUT0_1).view.loc (TH d) ↦[(OUT0_1).view.set]{fullShare} OUTc m d) ∗ ((OUT1_0).view.loc (TH d) ↦[(OUT1_0).view.set]{fullShare} OUTc m d)) := by
  show bigSep ({((7 : Fin 9), (1 : Fin 2), (4 : Fin 8)), ((7 : Fin 9), (1 : Fin 2), (5 : Fin 8)), ((5 : Fin 9), (0 : Fin 2), (5 : Fin 8))} : Finset (Fin 9 × Fin 2 × Fin 8)) (B1 m d) = _
  rw [SparseCore.bigSep_insert' (by decide), SparseCore.bigSep_insert' (by decide), bigSep_singleton]
  exact (congrArg₂ (fun a b : sProp 𝕄 => iprop(a ∗ b)) (pts_v10 d (cV LL) (jV LL) (7 : Fin 9) (1 : Fin 2) (4 : Fin 8) _ (OUTc m d)).symm (congrArg₂ (fun a b : sProp 𝕄 => iprop(a ∗ b)) (pts_v10 d (cV LL) (jV LL) (7 : Fin 9) (1 : Fin 2) (5 : Fin 8) _ (OUTc m d)).symm (pts_v10 d (cV LL) (jV LL) (5 : Fin 9) (0 : Fin 2) (5 : Fin 8) _ (OUTc m d)).symm))

/-! ## What each output slice has to hold is what its source slice holds -/

theorem val0_0 (m : (ℓ : Loc nD τ sig) → Buf (Elt F) ℓ) (d : Dev nD) :
    (SRC0).view.read (Elt F) (V7c m d) = (OUT0_0).view.read (Elt F) (OUTc m d) := by
  funext y
  obtain ⟨t, q, rfl⟩ : ∃ (t q : Fin 128), y = ix2 t q := ⟨y 0, y 1, eq_ix2 y⟩
  refine (read_v7 (0 : Fin 17) _ _ t q).trans ((?_ : _ = _).trans (read_v10 (7 : Fin 9) (1 : Fin 2) (4 : Fin 8) _ _ t q).symm)
  unfold V7c OUTc
  rw [Cert.Layout.visV_apply]
  refine Eq.trans ?_ (outV_at _ _ _ _ _ _ _ t _ q (show 8 * 1 + 4 < 14 by decide)).symm
  rfl
theorem val0_1 (m : (ℓ : Loc nD τ sig) → Buf (Elt F) ℓ) (d : Dev nD) :
    (SRC0).view.read (Elt F) (V7c m d) = (OUT0_1).view.read (Elt F) (OUTc m d) := by
  funext y
  obtain ⟨t, q, rfl⟩ : ∃ (t q : Fin 128), y = ix2 t q := ⟨y 0, y 1, eq_ix2 y⟩
  refine (read_v7 (0 : Fin 17) _ _ t q).trans ((?_ : _ = _).trans (read_v10 (7 : Fin 9) (1 : Fin 2) (5 : Fin 8) _ _ t q).symm)
  unfold V7c OUTc
  rw [Cert.Layout.visV_apply]
  refine Eq.trans ?_ (outV_at _ _ _ _ _ _ _ t _ q (show 8 * 1 + 5 < 14 by decide)).symm
  rfl
theorem val1_0 (m : (ℓ : Loc nD τ sig) → Buf (Elt F) ℓ) (d : Dev nD) :
    (SRC1).view.read (Elt F) (V2c m d) = (OUT1_0).view.read (Elt F) (OUTc m d) := by
  funext y
  obtain ⟨t, q, rfl⟩ : ∃ (t q : Fin 128), y = ix2 t q := ⟨y 0, y 1, eq_ix2 y⟩
  refine (read_v2 (15 : Fin 17) (0 : Fin 2) _ _ t q).trans ((?_ : _ = _).trans (read_v10 (5 : Fin 9) (0 : Fin 2) (5 : Fin 8) _ _ t q).symm)
  unfold V2c OUTc
  rw [Cert.Layout.poseV_apply]
  refine Eq.trans ?_ (outV_at _ _ _ _ _ _ _ t _ q (show 8 * 0 + 5 < 14 by decide)).symm
  rfl

/-! ## The run -/

open Lean Elab Tactic Meta in
/-- Unfold the names the symbolic run gave to the values its copies carry. -/
elab "unfold_carried" : tactic => do
  for _ in [0:6] do
    let g ← getMainGoal
    let t ← instantiateMVars (← g.getType)
    if (t.getUsedConstants.any fun n => n.components.any (· == `sl)) then
      let t' ← deltaExpand t (fun n => n.components.any (· == `sl))
      let g' ← g.change t' (checkDefEq := false)
      replaceMainGoal [g']

variable [FloatOps F] [∀ e, Nonempty (Elt F e)]

theorem run (m : (ℓ : Loc nD τ sig) → Buf (Elt F) ℓ) (d : Dev nD) (O : CellTallies nD τ sig (HIx 1)) (W : Waits sig (HIx 1)) (hO : ∀ g, O g none = 0) :
    (iprop(levAts (K (F := F)).L (K (F := F)).lev ∗ tileG m d (26 : Fin 32)
        ∗ scopedBufs (TH d) ∗ scopedSems0 (TH d) ∗ owes (TH d) O W) : sProp 𝕄)
      ⊢ wp frame (wpE (defs₀ (F := F)) 𝒱₀ (TH d) none) Set.univ
          (cc0_run LL (Memref.whole main_v2_scv) (Memref.isWhole_whole _) (Memref.whole main_v7_scv) (Memref.isWhole_whole _) (Memref.whole main_v5_scv) (Memref.isWhole_whole _) (Memref.whole main_v9_scv) (Memref.isWhole_whole _) (Memref.whole main_v10_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8)
          fun _ => iprop(tileT m d (26 : Fin 32) ∗ scopedBufs (TH d) ∗ scopedSems0 (TH d)
            ∗ ∃ W', ⌜∀ p ∈ W', p ∈ W ∨ p.2 = none⌝ ∗ owes (TH d) O W') := by
  rw [(K (F := F)).scopedBufs_V facts d (cV LL) (jV LL), SparseCore.Cfg.scopedSems0_V (Val := Elt F) d (cV LL) (jV LL), ownSems0_V, ownBufs_V]
  unfold tileG tileT
  iintro ⟨#Hlv, ⟨HF2, HF7, -, -, HF10⟩, ⟨⟨%fb0, Hb0⟩, ⟨%fb1, Hb1⟩, ⟨%fb2, Hb2⟩, Hbufs⟩, ⟨Hs3, Hs4, Hs5, Hs6, Hs7, Hs8, Hsems⟩, HO⟩
  ihave HF2' := (Entails.of_eq (open2 m d)) $$ HF2
  icases HF2' with HS1
  ihave HF7' := (Entails.of_eq (open7 m d)) $$ HF7
  icases HF7' with HS0
  ihave HF10' := (Entails.of_eq (open10 m d)) $$ HF10
  icases HF10' with ⟨HO0_0, HO0_1, HO1_0⟩
  ihave Hmw := ((K (F := F)).mayWaits_none (thr := TH d) hO) $$ Hlv
  ihave Hb0' := (Entails.of_eq (pts_b0 d (cV LL) (jV LL) _).symm) $$ Hb0
  ihave Hb1' := (Entails.of_eq (pts_b1 d (cV LL) (jV LL) _).symm) $$ Hb1
  ihave Hb2' := (Entails.of_eq (pts_b2 d (cV LL) (jV LL) _).symm) $$ Hb2
  have _plan : Transfers.BatchOf (TH d) (SemLoc.dma (sig := sig) cc0_scratch6.sem) 2 (windows := true) := trivial
  sl_unfold [cc0_run]
  sl_exec_parts (disch := decide)
  sl_step
  isplitl [HS1 HS0 HO0_0 HO0_1 HO1_0]
  · skip
    isplitl [HS1]
    · iapply (Entails.of_eq (open2 m d).symm)
      iexact HS1
    isplitl [HS0]
    · iapply (Entails.of_eq (open7 m d).symm)
      iexact HS0
    isplitr
    · rw [show t5 (26 : Fin 32) = ∅ from rfl, bigSep_empty]; iempintro
    isplitr
    · rw [show t9 (26 : Fin 32) = ∅ from rfl, bigSep_empty]; iempintro
    · iapply (Entails.of_eq (close10 m d).symm)
      isplitl [HO0_0]
      · iapply (out_post_ent (TH d) (OUT0_0) _ (OUTc m d) _ ?hv0_0) $$ HO0_0
        case hv0_0 => unfold_carried; simp only [ReadAs.apply_same, View.read_write_univ]; exact val0_0 m d
      isplitl [HO0_1]
      · iapply (out_post_ent (TH d) (OUT0_1) _ (OUTc m d) _ ?hv0_1) $$ HO0_1
        case hv0_1 => unfold_carried; simp only [ReadAs.apply_same, View.read_write_univ]; exact val0_1 m d
      iapply (out_post_ent (TH d) (OUT1_0) _ (OUTc m d) _ ?hv1_0) $$ HO1_0
      case hv1_0 => unfold_carried; simp only [ReadAs.apply_same, View.read_write_univ]; exact val1_0 m d

  isplitl [Hb0' Hb1' Hb2' Hbufs]
  · isplitl [Hb0']
    · iexists _; iapply (Entails.of_eq (pts_b0 d (cV LL) (jV LL) _)); iexact Hb0'
    isplitl [Hb1']
    · iexists _; iapply (Entails.of_eq (pts_b1 d (cV LL) (jV LL) _)); iexact Hb1'
    isplitl [Hb2']
    · iexists _; iapply (Entails.of_eq (pts_b2 d (cV LL) (jV LL) _)); iexact Hb2'
    iexact Hbufs
  isplitl [Hs3 Hs4 Hs5 Hs6 Hs7 Hs8 Hsems]
  · isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    iexact Hsems
  iexists _; isplitr
  rotate_left
  · iexact HO
  · ipureintro; intro p hp
    simp only [Finset.mem_insert] at hp
    rcases hp with rfl | rfl | rfl | rfl | rfl | hp <;> first | exact .inr rfl | exact .inl hp

end Cert.Proof.KI.Tile26

end
-- ==== Proof.KITile27.lean ====
/-
  Tile 27 of the kernel (subcore 13 of core 1): one slice in (delta0.0), 1 out; one slice in (len1), 1 out; one slice in (delta7.1), 1 out.
  Its whole body is run: every copy it does not own is skipped by the comparison of its number with the copy's owner;
  each incoming copy fills a staging buffer, each outgoing copy carries that buffer into one slice of the output array,
  and what each output slice then holds is the source slice the specification asks for there.
-/
import proofs.«210185_g18468359372994_cont_8to1_1390_15_alg».proof.Proof.KIRead

set_option maxHeartbeats 4000000
set_option quotPrecheck false

noncomputable section

namespace Cert.Proof.KI.Tile27

open Cert.KernelIdeal Cert.KernelIdeal.Gen
open Cert.Proof.KI
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
theorem cLt : 1 < grid0.bound 0 := by decide
theorem sLt : 13 < grid0.bound 1 := by decide
local notation "LL" => (coordsV (⟨1, cLt⟩ : Fin (grid0.bound 0)) (⟨13, sLt⟩ : Fin (grid0.bound 1)))
local notation "TH" d => V d (cV LL) (jV LL)
local notation "SRC0" => (((Memref.whole main_v5_scv).slice (Rect.unit (s := S14x128x2x128) ![0, 0, 0, 0] S1x128x1x128.size inb_S14x128x2x128_S1x128x1x128_0_0_0_0) (fun _ => rfl)).squeeze S128x128 squeezes_S1x128x1x128_S128x128 : Memref sig .scVector .hbm S128x128 .f32)
local notation "OUT0_0" => (((Memref.whole main_v10_scv).slice (Rect.unit (s := S9x2x128x8x128) ![0, 0, 0, 0, 0] S1x1x128x1x128.size inb_S9x2x128x8x128_S1x1x128x1x128_0_0_0_0_0) (fun _ => rfl)).squeeze S128x128 squeezes_S1x1x128x1x128_S128x128 : Memref sig .scVector .hbm S128x128 .f32)
local notation "SRC1" => (((Memref.whole main_v9_scv).slice (Rect.unit (s := S14x128x128) ![1, 0, 0] S1x128x128.size inb_S14x128x128_S1x128x128_1_0_0) (fun _ => rfl)).squeeze S128x128 squeezes_S1x128x128_S128x128 : Memref sig .scVector .hbm S128x128 .f32)
local notation "OUT1_0" => (((Memref.whole main_v10_scv).slice (Rect.unit (s := S9x2x128x8x128) ![2, 0, 0, 1, 0] S1x1x128x1x128.size inb_S9x2x128x8x128_S1x1x128x1x128_2_0_0_1_0) (fun _ => rfl)).squeeze S128x128 squeezes_S1x1x128x1x128_S128x128 : Memref sig .scVector .hbm S128x128 .f32)
local notation "SRC2" => (((Memref.whole main_v5_scv).slice (Rect.unit (s := S14x128x2x128) ![7, 0, 1, 0] S1x128x1x128.size inb_S14x128x2x128_S1x128x1x128_7_0_1_0) (fun _ => rfl)).squeeze S128x128 squeezes_S1x128x1x128_S128x128 : Memref sig .scVector .hbm S128x128 .f32)
local notation "OUT2_0" => (((Memref.whole main_v10_scv).slice (Rect.unit (s := S9x2x128x8x128) ![1, 0, 0, 7, 0] S1x1x128x1x128.size inb_S9x2x128x8x128_S1x1x128x1x128_1_0_0_7_0) (fun _ => rfl)).squeeze S128x128 squeezes_S1x1x128x1x128_S128x128 : Memref sig .scVector .hbm S128x128 .f32)

/-! ## The tile's slices, as its memrefs name them -/

theorem open5 (m : (ℓ : Loc nD τ sig) → Buf (Elt F) ℓ) (d : Dev nD) :
    (bigSep (t5 (27 : Fin 32)) (A5 m d) : sProp 𝕄) = iprop(((SRC0).view.loc (TH d) ↦[(SRC0).view.set]{fullShare} V5c m d) ∗ ((SRC2).view.loc (TH d) ↦[(SRC2).view.set]{fullShare} V5c m d)) := by
  show bigSep ({((0 : Fin 14), (0 : Fin 2)), ((7 : Fin 14), (1 : Fin 2))} : Finset (Fin 14 × Fin 2)) (A5 m d) = _
  rw [SparseCore.bigSep_insert' (by decide), bigSep_singleton]
  exact (congrArg₂ (fun a b : sProp 𝕄 => iprop(a ∗ b)) (pts_v5 d (cV LL) (jV LL) (0 : Fin 14) (0 : Fin 2) _ (V5c m d)).symm (pts_v5 d (cV LL) (jV LL) (7 : Fin 14) (1 : Fin 2) _ (V5c m d)).symm)
theorem open9 (m : (ℓ : Loc nD τ sig) → Buf (Elt F) ℓ) (d : Dev nD) :
    (bigSep (t9 (27 : Fin 32)) (A9 m d) : sProp 𝕄) = iprop(((SRC1).view.loc (TH d) ↦[(SRC1).view.set]{fullShare} V9c m d)) := by
  show bigSep ({(1 : Fin 14)} : Finset (Fin 14)) (A9 m d) = _
  rw [bigSep_singleton]
  exact (pts_v9 d (cV LL) (jV LL) (1 : Fin 14) _ (V9c m d)).symm
theorem open10 (m : (ℓ : Loc nD τ sig) → Buf (Elt F) ℓ) (d : Dev nD) :
    (bigSep (t10 (27 : Fin 32)) (B0 m d) : sProp 𝕄) = iprop(((OUT0_0).view.loc (TH d) ↦[(OUT0_0).view.set]{fullShare} m (v10L d)) ∗ ((OUT1_0).view.loc (TH d) ↦[(OUT1_0).view.set]{fullShare} m (v10L d)) ∗ ((OUT2_0).view.loc (TH d) ↦[(OUT2_0).view.set]{fullShare} m (v10L d))) := by
  show bigSep ({((0 : Fin 9), (0 : Fin 2), (0 : Fin 8)), ((2 : Fin 9), (0 : Fin 2), (1 : Fin 8)), ((1 : Fin 9), (0 : Fin 2), (7 : Fin 8))} : Finset (Fin 9 × Fin 2 × Fin 8)) (B0 m d) = _
  rw [SparseCore.bigSep_insert' (by decide), SparseCore.bigSep_insert' (by decide), bigSep_singleton]
  exact (congrArg₂ (fun a b : sProp 𝕄 => iprop(a ∗ b)) (pts_v10 d (cV LL) (jV LL) (0 : Fin 9) (0 : Fin 2) (0 : Fin 8) _ (m (v10L d))).symm (congrArg₂ (fun a b : sProp 𝕄 => iprop(a ∗ b)) (pts_v10 d (cV LL) (jV LL) (2 : Fin 9) (0 : Fin 2) (1 : Fin 8) _ (m (v10L d))).symm (pts_v10 d (cV LL) (jV LL) (1 : Fin 9) (0 : Fin 2) (7 : Fin 8) _ (m (v10L d))).symm))
theorem close10 (m : (ℓ : Loc nD τ sig) → Buf (Elt F) ℓ) (d : Dev nD) :
    (bigSep (t10 (27 : Fin 32)) (B1 m d) : sProp 𝕄) = iprop(((OUT0_0).view.loc (TH d) ↦[(OUT0_0).view.set]{fullShare} OUTc m d) ∗ ((OUT1_0).view.loc (TH d) ↦[(OUT1_0).view.set]{fullShare} OUTc m d) ∗ ((OUT2_0).view.loc (TH d) ↦[(OUT2_0).view.set]{fullShare} OUTc m d)) := by
  show bigSep ({((0 : Fin 9), (0 : Fin 2), (0 : Fin 8)), ((2 : Fin 9), (0 : Fin 2), (1 : Fin 8)), ((1 : Fin 9), (0 : Fin 2), (7 : Fin 8))} : Finset (Fin 9 × Fin 2 × Fin 8)) (B1 m d) = _
  rw [SparseCore.bigSep_insert' (by decide), SparseCore.bigSep_insert' (by decide), bigSep_singleton]
  exact (congrArg₂ (fun a b : sProp 𝕄 => iprop(a ∗ b)) (pts_v10 d (cV LL) (jV LL) (0 : Fin 9) (0 : Fin 2) (0 : Fin 8) _ (OUTc m d)).symm (congrArg₂ (fun a b : sProp 𝕄 => iprop(a ∗ b)) (pts_v10 d (cV LL) (jV LL) (2 : Fin 9) (0 : Fin 2) (1 : Fin 8) _ (OUTc m d)).symm (pts_v10 d (cV LL) (jV LL) (1 : Fin 9) (0 : Fin 2) (7 : Fin 8) _ (OUTc m d)).symm))

/-! ## What each output slice has to hold is what its source slice holds -/

theorem val0_0 (m : (ℓ : Loc nD τ sig) → Buf (Elt F) ℓ) (d : Dev nD) :
    (SRC0).view.read (Elt F) (V5c m d) = (OUT0_0).view.read (Elt F) (OUTc m d) := by
  funext y
  obtain ⟨t, q, rfl⟩ : ∃ (t q : Fin 128), y = ix2 t q := ⟨y 0, y 1, eq_ix2 y⟩
  refine (read_v5 (0 : Fin 14) (0 : Fin 2) _ _ t q).trans ((?_ : _ = _).trans (read_v10 (0 : Fin 9) (0 : Fin 2) (0 : Fin 8) _ _ t q).symm)
  unfold V5c OUTc
  rw [Cert.Layout.deltaV_apply]
  refine Eq.trans ?_ (outV_at _ _ _ _ _ _ _ t _ q (show 8 * 0 + 0 < 14 by decide)).symm
  rfl
theorem val1_0 (m : (ℓ : Loc nD τ sig) → Buf (Elt F) ℓ) (d : Dev nD) :
    (SRC1).view.read (Elt F) (V9c m d) = (OUT1_0).view.read (Elt F) (OUTc m d) := by
  funext y
  obtain ⟨t, q, rfl⟩ : ∃ (t q : Fin 128), y = ix2 t q := ⟨y 0, y 1, eq_ix2 y⟩
  refine (read_v9 (1 : Fin 14) _ _ t q).trans ((?_ : _ = _).trans (read_v10 (2 : Fin 9) (0 : Fin 2) (1 : Fin 8) _ _ t q).symm)
  unfold V9c OUTc
  rw [Cert.Layout.lenV_apply]
  refine Eq.trans ?_ (outV_at _ _ _ _ _ _ _ t _ q (show 8 * 0 + 1 < 14 by decide)).symm
  rfl
theorem val2_0 (m : (ℓ : Loc nD τ sig) → Buf (Elt F) ℓ) (d : Dev nD) :
    (SRC2).view.read (Elt F) (V5c m d) = (OUT2_0).view.read (Elt F) (OUTc m d) := by
  funext y
  obtain ⟨t, q, rfl⟩ : ∃ (t q : Fin 128), y = ix2 t q := ⟨y 0, y 1, eq_ix2 y⟩
  refine (read_v5 (7 : Fin 14) (1 : Fin 2) _ _ t q).trans ((?_ : _ = _).trans (read_v10 (1 : Fin 9) (0 : Fin 2) (7 : Fin 8) _ _ t q).symm)
  unfold V5c OUTc
  rw [Cert.Layout.deltaV_apply]
  refine Eq.trans ?_ (outV_at _ _ _ _ _ _ _ t _ q (show 8 * 0 + 7 < 14 by decide)).symm
  rfl

/-! ## The run -/

open Lean Elab Tactic Meta in
/-- Unfold the names the symbolic run gave to the values its copies carry. -/
elab "unfold_carried" : tactic => do
  for _ in [0:6] do
    let g ← getMainGoal
    let t ← instantiateMVars (← g.getType)
    if (t.getUsedConstants.any fun n => n.components.any (· == `sl)) then
      let t' ← deltaExpand t (fun n => n.components.any (· == `sl))
      let g' ← g.change t' (checkDefEq := false)
      replaceMainGoal [g']

variable [FloatOps F] [∀ e, Nonempty (Elt F e)]

theorem run (m : (ℓ : Loc nD τ sig) → Buf (Elt F) ℓ) (d : Dev nD) (O : CellTallies nD τ sig (HIx 1)) (W : Waits sig (HIx 1)) (hO : ∀ g, O g none = 0) :
    (iprop(levAts (K (F := F)).L (K (F := F)).lev ∗ tileG m d (27 : Fin 32)
        ∗ scopedBufs (TH d) ∗ scopedSems0 (TH d) ∗ owes (TH d) O W) : sProp 𝕄)
      ⊢ wp frame (wpE (defs₀ (F := F)) 𝒱₀ (TH d) none) Set.univ
          (cc0_run LL (Memref.whole main_v2_scv) (Memref.isWhole_whole _) (Memref.whole main_v7_scv) (Memref.isWhole_whole _) (Memref.whole main_v5_scv) (Memref.isWhole_whole _) (Memref.whole main_v9_scv) (Memref.isWhole_whole _) (Memref.whole main_v10_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8)
          fun _ => iprop(tileT m d (27 : Fin 32) ∗ scopedBufs (TH d) ∗ scopedSems0 (TH d)
            ∗ ∃ W', ⌜∀ p ∈ W', p ∈ W ∨ p.2 = none⌝ ∗ owes (TH d) O W') := by
  rw [(K (F := F)).scopedBufs_V facts d (cV LL) (jV LL), SparseCore.Cfg.scopedSems0_V (Val := Elt F) d (cV LL) (jV LL), ownSems0_V, ownBufs_V]
  unfold tileG tileT
  iintro ⟨#Hlv, ⟨-, -, HF5, HF9, HF10⟩, ⟨⟨%fb0, Hb0⟩, ⟨%fb1, Hb1⟩, ⟨%fb2, Hb2⟩, Hbufs⟩, ⟨Hs3, Hs4, Hs5, Hs6, Hs7, Hs8, Hsems⟩, HO⟩
  ihave HF5' := (Entails.of_eq (open5 m d)) $$ HF5
  icases HF5' with ⟨HS0, HS2⟩
  ihave HF9' := (Entails.of_eq (open9 m d)) $$ HF9
  icases HF9' with HS1
  ihave HF10' := (Entails.of_eq (open10 m d)) $$ HF10
  icases HF10' with ⟨HO0_0, HO1_0, HO2_0⟩
  ihave Hmw := ((K (F := F)).mayWaits_none (thr := TH d) hO) $$ Hlv
  ihave Hb0' := (Entails.of_eq (pts_b0 d (cV LL) (jV LL) _).symm) $$ Hb0
  ihave Hb1' := (Entails.of_eq (pts_b1 d (cV LL) (jV LL) _).symm) $$ Hb1
  ihave Hb2' := (Entails.of_eq (pts_b2 d (cV LL) (jV LL) _).symm) $$ Hb2
  sl_unfold [cc0_run]
  sl_exec_parts (disch := decide)
  sl_step
  isplitl [HS0 HS2 HS1 HO0_0 HO1_0 HO2_0]
  · skip
    isplitr
    · rw [show t2 (27 : Fin 32) = ∅ from rfl, bigSep_empty]; iempintro
    isplitr
    · rw [show t7 (27 : Fin 32) = ∅ from rfl, bigSep_empty]; iempintro
    isplitl [HS0 HS2]
    · iapply (Entails.of_eq (open5 m d).symm)
      isplitl [HS0]; · iexact HS0
      iexact HS2
    isplitl [HS1]
    · iapply (Entails.of_eq (open9 m d).symm)
      iexact HS1
    · iapply (Entails.of_eq (close10 m d).symm)
      isplitl [HO0_0]
      · iapply (out_post_ent (TH d) (OUT0_0) _ (OUTc m d) _ ?hv0_0) $$ HO0_0
        case hv0_0 => unfold_carried; simp only [ReadAs.apply_same, View.read_write_univ]; exact val0_0 m d
      isplitl [HO1_0]
      · iapply (out_post_ent (TH d) (OUT1_0) _ (OUTc m d) _ ?hv1_0) $$ HO1_0
        case hv1_0 => unfold_carried; simp only [ReadAs.apply_same, View.read_write_univ]; exact val1_0 m d
      iapply (out_post_ent (TH d) (OUT2_0) _ (OUTc m d) _ ?hv2_0) $$ HO2_0
      case hv2_0 => unfold_carried; simp only [ReadAs.apply_same, View.read_write_univ]; exact val2_0 m d

  isplitl [Hb0' Hb1' Hb2' Hbufs]
  · isplitl [Hb0']
    · iexists _; iapply (Entails.of_eq (pts_b0 d (cV LL) (jV LL) _)); iexact Hb0'
    isplitl [Hb1']
    · iexists _; iapply (Entails.of_eq (pts_b1 d (cV LL) (jV LL) _)); iexact Hb1'
    isplitl [Hb2']
    · iexists _; iapply (Entails.of_eq (pts_b2 d (cV LL) (jV LL) _)); iexact Hb2'
    iexact Hbufs
  isplitl [Hs3 Hs4 Hs5 Hs6 Hs7 Hs8 Hsems]
  · isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    iexact Hsems
  iexists _; isplitr
  rotate_left
  · iexact HO
  · ipureintro; intro p hp
    simp only [Finset.mem_insert] at hp
    rcases hp with rfl | rfl | rfl | rfl | rfl | rfl | hp <;> first | exact .inr rfl | exact .inl hp

end Cert.Proof.KI.Tile27

end
-- ==== Proof.KITile28.lean ====
/-
  Tile 28 of the kernel (subcore 14 of core 0): one slice in (delta0.1), 1 out; one slice in (pose9.0), 1 out; one slice in (len7), 1 out.
  Its whole body is run: every copy it does not own is skipped by the comparison of its number with the copy's owner;
  each incoming copy fills a staging buffer, each outgoing copy carries that buffer into one slice of the output array,
  and what each output slice then holds is the source slice the specification asks for there.
-/
import proofs.«210185_g18468359372994_cont_8to1_1390_15_alg».proof.Proof.KIRead

set_option maxHeartbeats 4000000
set_option quotPrecheck false

noncomputable section

namespace Cert.Proof.KI.Tile28

open Cert.KernelIdeal Cert.KernelIdeal.Gen
open Cert.Proof.KI
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
theorem cLt : 0 < grid0.bound 0 := by decide
theorem sLt : 14 < grid0.bound 1 := by decide
local notation "LL" => (coordsV (⟨0, cLt⟩ : Fin (grid0.bound 0)) (⟨14, sLt⟩ : Fin (grid0.bound 1)))
local notation "TH" d => V d (cV LL) (jV LL)
local notation "SRC0" => (((Memref.whole main_v5_scv).slice (Rect.unit (s := S14x128x2x128) ![0, 0, 1, 0] S1x128x1x128.size inb_S14x128x2x128_S1x128x1x128_0_0_1_0) (fun _ => rfl)).squeeze S128x128 squeezes_S1x128x1x128_S128x128 : Memref sig .scVector .hbm S128x128 .f32)
local notation "OUT0_0" => (((Memref.whole main_v10_scv).slice (Rect.unit (s := S9x2x128x8x128) ![1, 0, 0, 0, 0] S1x1x128x1x128.size inb_S9x2x128x8x128_S1x1x128x1x128_1_0_0_0_0) (fun _ => rfl)).squeeze S128x128 squeezes_S1x1x128x1x128_S128x128 : Memref sig .scVector .hbm S128x128 .f32)
local notation "SRC1" => (((Memref.whole main_v2_scv).slice (Rect.unit (s := S17x128x2x128) ![9, 0, 0, 0] S1x128x1x128.size inb_S17x128x2x128_S1x128x1x128_9_0_0_0) (fun _ => rfl)).squeeze S128x128 squeezes_S1x128x1x128_S128x128 : Memref sig .scVector .hbm S128x128 .f32)
local notation "OUT1_0" => (((Memref.whole main_v10_scv).slice (Rect.unit (s := S9x2x128x8x128) ![5, 0, 0, 1, 0] S1x1x128x1x128.size inb_S9x2x128x8x128_S1x1x128x1x128_5_0_0_1_0) (fun _ => rfl)).squeeze S128x128 squeezes_S1x1x128x1x128_S128x128 : Memref sig .scVector .hbm S128x128 .f32)
local notation "SRC2" => (((Memref.whole main_v9_scv).slice (Rect.unit (s := S14x128x128) ![7, 0, 0] S1x128x128.size inb_S14x128x128_S1x128x128_7_0_0) (fun _ => rfl)).squeeze S128x128 squeezes_S1x128x128_S128x128 : Memref sig .scVector .hbm S128x128 .f32)
local notation "OUT2_0" => (((Memref.whole main_v10_scv).slice (Rect.unit (s := S9x2x128x8x128) ![2, 0, 0, 7, 0] S1x1x128x1x128.size inb_S9x2x128x8x128_S1x1x128x1x128_2_0_0_7_0) (fun _ => rfl)).squeeze S128x128 squeezes_S1x1x128x1x128_S128x128 : Memref sig .scVector .hbm S128x128 .f32)

/-! ## The tile's slices, as its memrefs name them -/

theorem open2 (m : (ℓ : Loc nD τ sig) → Buf (Elt F) ℓ) (d : Dev nD) :
    (bigSep (t2 (28 : Fin 32)) (A2 m d) : sProp 𝕄) = iprop(((SRC1).view.loc (TH d) ↦[(SRC1).view.set]{fullShare} V2c m d)) := by
  show bigSep ({((9 : Fin 17), (0 : Fin 2))} : Finset (Fin 17 × Fin 2)) (A2 m d) = _
  rw [bigSep_singleton]
  exact (pts_v2 d (cV LL) (jV LL) (9 : Fin 17) (0 : Fin 2) _ (V2c m d)).symm
theorem open5 (m : (ℓ : Loc nD τ sig) → Buf (Elt F) ℓ) (d : Dev nD) :
    (bigSep (t5 (28 : Fin 32)) (A5 m d) : sProp 𝕄) = iprop(((SRC0).view.loc (TH d) ↦[(SRC0).view.set]{fullShare} V5c m d)) := by
  show bigSep ({((0 : Fin 14), (1 : Fin 2))} : Finset (Fin 14 × Fin 2)) (A5 m d) = _
  rw [bigSep_singleton]
  exact (pts_v5 d (cV LL) (jV LL) (0 : Fin 14) (1 : Fin 2) _ (V5c m d)).symm
theorem open9 (m : (ℓ : Loc nD τ sig) → Buf (Elt F) ℓ) (d : Dev nD) :
    (bigSep (t9 (28 : Fin 32)) (A9 m d) : sProp 𝕄) = iprop(((SRC2).view.loc (TH d) ↦[(SRC2).view.set]{fullShare} V9c m d)) := by
  show bigSep ({(7 : Fin 14)} : Finset (Fin 14)) (A9 m d) = _
  rw [bigSep_singleton]
  exact (pts_v9 d (cV LL) (jV LL) (7 : Fin 14) _ (V9c m d)).symm
theorem open10 (m : (ℓ : Loc nD τ sig) → Buf (Elt F) ℓ) (d : Dev nD) :
    (bigSep (t10 (28 : Fin 32)) (B0 m d) : sProp 𝕄) = iprop(((OUT0_0).view.loc (TH d) ↦[(OUT0_0).view.set]{fullShare} m (v10L d)) ∗ ((OUT1_0).view.loc (TH d) ↦[(OUT1_0).view.set]{fullShare} m (v10L d)) ∗ ((OUT2_0).view.loc (TH d) ↦[(OUT2_0).view.set]{fullShare} m (v10L d))) := by
  show bigSep ({((1 : Fin 9), (0 : Fin 2), (0 : Fin 8)), ((5 : Fin 9), (0 : Fin 2), (1 : Fin 8)), ((2 : Fin 9), (0 : Fin 2), (7 : Fin 8))} : Finset (Fin 9 × Fin 2 × Fin 8)) (B0 m d) = _
  rw [SparseCore.bigSep_insert' (by decide), SparseCore.bigSep_insert' (by decide), bigSep_singleton]
  exact (congrArg₂ (fun a b : sProp 𝕄 => iprop(a ∗ b)) (pts_v10 d (cV LL) (jV LL) (1 : Fin 9) (0 : Fin 2) (0 : Fin 8) _ (m (v10L d))).symm (congrArg₂ (fun a b : sProp 𝕄 => iprop(a ∗ b)) (pts_v10 d (cV LL) (jV LL) (5 : Fin 9) (0 : Fin 2) (1 : Fin 8) _ (m (v10L d))).symm (pts_v10 d (cV LL) (jV LL) (2 : Fin 9) (0 : Fin 2) (7 : Fin 8) _ (m (v10L d))).symm))
theorem close10 (m : (ℓ : Loc nD τ sig) → Buf (Elt F) ℓ) (d : Dev nD) :
    (bigSep (t10 (28 : Fin 32)) (B1 m d) : sProp 𝕄) = iprop(((OUT0_0).view.loc (TH d) ↦[(OUT0_0).view.set]{fullShare} OUTc m d) ∗ ((OUT1_0).view.loc (TH d) ↦[(OUT1_0).view.set]{fullShare} OUTc m d) ∗ ((OUT2_0).view.loc (TH d) ↦[(OUT2_0).view.set]{fullShare} OUTc m d)) := by
  show bigSep ({((1 : Fin 9), (0 : Fin 2), (0 : Fin 8)), ((5 : Fin 9), (0 : Fin 2), (1 : Fin 8)), ((2 : Fin 9), (0 : Fin 2), (7 : Fin 8))} : Finset (Fin 9 × Fin 2 × Fin 8)) (B1 m d) = _
  rw [SparseCore.bigSep_insert' (by decide), SparseCore.bigSep_insert' (by decide), bigSep_singleton]
  exact (congrArg₂ (fun a b : sProp 𝕄 => iprop(a ∗ b)) (pts_v10 d (cV LL) (jV LL) (1 : Fin 9) (0 : Fin 2) (0 : Fin 8) _ (OUTc m d)).symm (congrArg₂ (fun a b : sProp 𝕄 => iprop(a ∗ b)) (pts_v10 d (cV LL) (jV LL) (5 : Fin 9) (0 : Fin 2) (1 : Fin 8) _ (OUTc m d)).symm (pts_v10 d (cV LL) (jV LL) (2 : Fin 9) (0 : Fin 2) (7 : Fin 8) _ (OUTc m d)).symm))

/-! ## What each output slice has to hold is what its source slice holds -/

theorem val0_0 (m : (ℓ : Loc nD τ sig) → Buf (Elt F) ℓ) (d : Dev nD) :
    (SRC0).view.read (Elt F) (V5c m d) = (OUT0_0).view.read (Elt F) (OUTc m d) := by
  funext y
  obtain ⟨t, q, rfl⟩ : ∃ (t q : Fin 128), y = ix2 t q := ⟨y 0, y 1, eq_ix2 y⟩
  refine (read_v5 (0 : Fin 14) (1 : Fin 2) _ _ t q).trans ((?_ : _ = _).trans (read_v10 (1 : Fin 9) (0 : Fin 2) (0 : Fin 8) _ _ t q).symm)
  unfold V5c OUTc
  rw [Cert.Layout.deltaV_apply]
  refine Eq.trans ?_ (outV_at _ _ _ _ _ _ _ t _ q (show 8 * 0 + 0 < 14 by decide)).symm
  rfl
theorem val1_0 (m : (ℓ : Loc nD τ sig) → Buf (Elt F) ℓ) (d : Dev nD) :
    (SRC1).view.read (Elt F) (V2c m d) = (OUT1_0).view.read (Elt F) (OUTc m d) := by
  funext y
  obtain ⟨t, q, rfl⟩ : ∃ (t q : Fin 128), y = ix2 t q := ⟨y 0, y 1, eq_ix2 y⟩
  refine (read_v2 (9 : Fin 17) (0 : Fin 2) _ _ t q).trans ((?_ : _ = _).trans (read_v10 (5 : Fin 9) (0 : Fin 2) (1 : Fin 8) _ _ t q).symm)
  unfold V2c OUTc
  rw [Cert.Layout.poseV_apply]
  refine Eq.trans ?_ (outV_at _ _ _ _ _ _ _ t _ q (show 8 * 0 + 1 < 14 by decide)).symm
  rfl
theorem val2_0 (m : (ℓ : Loc nD τ sig) → Buf (Elt F) ℓ) (d : Dev nD) :
    (SRC2).view.read (Elt F) (V9c m d) = (OUT2_0).view.read (Elt F) (OUTc m d) := by
  funext y
  obtain ⟨t, q, rfl⟩ : ∃ (t q : Fin 128), y = ix2 t q := ⟨y 0, y 1, eq_ix2 y⟩
  refine (read_v9 (7 : Fin 14) _ _ t q).trans ((?_ : _ = _).trans (read_v10 (2 : Fin 9) (0 : Fin 2) (7 : Fin 8) _ _ t q).symm)
  unfold V9c OUTc
  rw [Cert.Layout.lenV_apply]
  refine Eq.trans ?_ (outV_at _ _ _ _ _ _ _ t _ q (show 8 * 0 + 7 < 14 by decide)).symm
  rfl

/-! ## The run -/

open Lean Elab Tactic Meta in
/-- Unfold the names the symbolic run gave to the values its copies carry. -/
elab "unfold_carried" : tactic => do
  for _ in [0:6] do
    let g ← getMainGoal
    let t ← instantiateMVars (← g.getType)
    if (t.getUsedConstants.any fun n => n.components.any (· == `sl)) then
      let t' ← deltaExpand t (fun n => n.components.any (· == `sl))
      let g' ← g.change t' (checkDefEq := false)
      replaceMainGoal [g']

variable [FloatOps F] [∀ e, Nonempty (Elt F e)]

theorem run (m : (ℓ : Loc nD τ sig) → Buf (Elt F) ℓ) (d : Dev nD) (O : CellTallies nD τ sig (HIx 1)) (W : Waits sig (HIx 1)) (hO : ∀ g, O g none = 0) :
    (iprop(levAts (K (F := F)).L (K (F := F)).lev ∗ tileG m d (28 : Fin 32)
        ∗ scopedBufs (TH d) ∗ scopedSems0 (TH d) ∗ owes (TH d) O W) : sProp 𝕄)
      ⊢ wp frame (wpE (defs₀ (F := F)) 𝒱₀ (TH d) none) Set.univ
          (cc0_run LL (Memref.whole main_v2_scv) (Memref.isWhole_whole _) (Memref.whole main_v7_scv) (Memref.isWhole_whole _) (Memref.whole main_v5_scv) (Memref.isWhole_whole _) (Memref.whole main_v9_scv) (Memref.isWhole_whole _) (Memref.whole main_v10_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8)
          fun _ => iprop(tileT m d (28 : Fin 32) ∗ scopedBufs (TH d) ∗ scopedSems0 (TH d)
            ∗ ∃ W', ⌜∀ p ∈ W', p ∈ W ∨ p.2 = none⌝ ∗ owes (TH d) O W') := by
  rw [(K (F := F)).scopedBufs_V facts d (cV LL) (jV LL), SparseCore.Cfg.scopedSems0_V (Val := Elt F) d (cV LL) (jV LL), ownSems0_V, ownBufs_V]
  unfold tileG tileT
  iintro ⟨#Hlv, ⟨HF2, -, HF5, HF9, HF10⟩, ⟨⟨%fb0, Hb0⟩, ⟨%fb1, Hb1⟩, ⟨%fb2, Hb2⟩, Hbufs⟩, ⟨Hs3, Hs4, Hs5, Hs6, Hs7, Hs8, Hsems⟩, HO⟩
  ihave HF2' := (Entails.of_eq (open2 m d)) $$ HF2
  icases HF2' with HS1
  ihave HF5' := (Entails.of_eq (open5 m d)) $$ HF5
  icases HF5' with HS0
  ihave HF9' := (Entails.of_eq (open9 m d)) $$ HF9
  icases HF9' with HS2
  ihave HF10' := (Entails.of_eq (open10 m d)) $$ HF10
  icases HF10' with ⟨HO0_0, HO1_0, HO2_0⟩
  ihave Hmw := ((K (F := F)).mayWaits_none (thr := TH d) hO) $$ Hlv
  ihave Hb0' := (Entails.of_eq (pts_b0 d (cV LL) (jV LL) _).symm) $$ Hb0
  ihave Hb1' := (Entails.of_eq (pts_b1 d (cV LL) (jV LL) _).symm) $$ Hb1
  ihave Hb2' := (Entails.of_eq (pts_b2 d (cV LL) (jV LL) _).symm) $$ Hb2
  sl_unfold [cc0_run]
  sl_exec_parts (disch := decide)
  sl_step
  isplitl [HS1 HS0 HS2 HO0_0 HO1_0 HO2_0]
  · skip
    isplitl [HS1]
    · iapply (Entails.of_eq (open2 m d).symm)
      iexact HS1
    isplitr
    · rw [show t7 (28 : Fin 32) = ∅ from rfl, bigSep_empty]; iempintro
    isplitl [HS0]
    · iapply (Entails.of_eq (open5 m d).symm)
      iexact HS0
    isplitl [HS2]
    · iapply (Entails.of_eq (open9 m d).symm)
      iexact HS2
    · iapply (Entails.of_eq (close10 m d).symm)
      isplitl [HO0_0]
      · iapply (out_post_ent (TH d) (OUT0_0) _ (OUTc m d) _ ?hv0_0) $$ HO0_0
        case hv0_0 => unfold_carried; simp only [ReadAs.apply_same, View.read_write_univ]; exact val0_0 m d
      isplitl [HO1_0]
      · iapply (out_post_ent (TH d) (OUT1_0) _ (OUTc m d) _ ?hv1_0) $$ HO1_0
        case hv1_0 => unfold_carried; simp only [ReadAs.apply_same, View.read_write_univ]; exact val1_0 m d
      iapply (out_post_ent (TH d) (OUT2_0) _ (OUTc m d) _ ?hv2_0) $$ HO2_0
      case hv2_0 => unfold_carried; simp only [ReadAs.apply_same, View.read_write_univ]; exact val2_0 m d

  isplitl [Hb0' Hb1' Hb2' Hbufs]
  · isplitl [Hb0']
    · iexists _; iapply (Entails.of_eq (pts_b0 d (cV LL) (jV LL) _)); iexact Hb0'
    isplitl [Hb1']
    · iexists _; iapply (Entails.of_eq (pts_b1 d (cV LL) (jV LL) _)); iexact Hb1'
    isplitl [Hb2']
    · iexists _; iapply (Entails.of_eq (pts_b2 d (cV LL) (jV LL) _)); iexact Hb2'
    iexact Hbufs
  isplitl [Hs3 Hs4 Hs5 Hs6 Hs7 Hs8 Hsems]
  · isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    iexact Hsems
  iexists _; isplitr
  rotate_left
  · iexact HO
  · ipureintro; intro p hp
    simp only [Finset.mem_insert] at hp
    rcases hp with rfl | rfl | rfl | rfl | rfl | rfl | hp <;> first | exact .inr rfl | exact .inl hp

end Cert.Proof.KI.Tile28

end
-- ==== Proof.KITile29.lean ====
/-
  Tile 29 of the kernel (subcore 14 of core 1): one slice in (len0), 1 out; one slice in (pose9.1), 1 out; one slice in (pose16.0), 1 out.
  Its whole body is run: every copy it does not own is skipped by the comparison of its number with the copy's owner;
  each incoming copy fills a staging buffer, each outgoing copy carries that buffer into one slice of the output array,
  and what each output slice then holds is the source slice the specification asks for there.
-/
import proofs.«210185_g18468359372994_cont_8to1_1390_15_alg».proof.Proof.KIRead

set_option maxHeartbeats 4000000
set_option quotPrecheck false

noncomputable section

namespace Cert.Proof.KI.Tile29

open Cert.KernelIdeal Cert.KernelIdeal.Gen
open Cert.Proof.KI
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
theorem cLt : 1 < grid0.bound 0 := by decide
theorem sLt : 14 < grid0.bound 1 := by decide
local notation "LL" => (coordsV (⟨1, cLt⟩ : Fin (grid0.bound 0)) (⟨14, sLt⟩ : Fin (grid0.bound 1)))
local notation "TH" d => V d (cV LL) (jV LL)
local notation "SRC0" => (((Memref.whole main_v9_scv).slice (Rect.unit (s := S14x128x128) ![0, 0, 0] S1x128x128.size inb_S14x128x128_S1x128x128_0_0_0) (fun _ => rfl)).squeeze S128x128 squeezes_S1x128x128_S128x128 : Memref sig .scVector .hbm S128x128 .f32)
local notation "OUT0_0" => (((Memref.whole main_v10_scv).slice (Rect.unit (s := S9x2x128x8x128) ![2, 0, 0, 0, 0] S1x1x128x1x128.size inb_S9x2x128x8x128_S1x1x128x1x128_2_0_0_0_0) (fun _ => rfl)).squeeze S128x128 squeezes_S1x1x128x1x128_S128x128 : Memref sig .scVector .hbm S128x128 .f32)
local notation "SRC1" => (((Memref.whole main_v2_scv).slice (Rect.unit (s := S17x128x2x128) ![9, 0, 1, 0] S1x128x1x128.size inb_S17x128x2x128_S1x128x1x128_9_0_1_0) (fun _ => rfl)).squeeze S128x128 squeezes_S1x128x1x128_S128x128 : Memref sig .scVector .hbm S128x128 .f32)
local notation "OUT1_0" => (((Memref.whole main_v10_scv).slice (Rect.unit (s := S9x2x128x8x128) ![6, 0, 0, 1, 0] S1x1x128x1x128.size inb_S9x2x128x8x128_S1x1x128x1x128_6_0_0_1_0) (fun _ => rfl)).squeeze S128x128 squeezes_S1x1x128x1x128_S128x128 : Memref sig .scVector .hbm S128x128 .f32)
local notation "SRC2" => (((Memref.whole main_v2_scv).slice (Rect.unit (s := S17x128x2x128) ![16, 0, 0, 0] S1x128x1x128.size inb_S17x128x2x128_S1x128x1x128_16_0_0_0) (fun _ => rfl)).squeeze S128x128 squeezes_S1x128x1x128_S128x128 : Memref sig .scVector .hbm S128x128 .f32)
local notation "OUT2_0" => (((Memref.whole main_v10_scv).slice (Rect.unit (s := S9x2x128x8x128) ![5, 0, 0, 7, 0] S1x1x128x1x128.size inb_S9x2x128x8x128_S1x1x128x1x128_5_0_0_7_0) (fun _ => rfl)).squeeze S128x128 squeezes_S1x1x128x1x128_S128x128 : Memref sig .scVector .hbm S128x128 .f32)

/-! ## The tile's slices, as its memrefs name them -/

theorem open2 (m : (ℓ : Loc nD τ sig) → Buf (Elt F) ℓ) (d : Dev nD) :
    (bigSep (t2 (29 : Fin 32)) (A2 m d) : sProp 𝕄) = iprop(((SRC1).view.loc (TH d) ↦[(SRC1).view.set]{fullShare} V2c m d) ∗ ((SRC2).view.loc (TH d) ↦[(SRC2).view.set]{fullShare} V2c m d)) := by
  show bigSep ({((9 : Fin 17), (1 : Fin 2)), ((16 : Fin 17), (0 : Fin 2))} : Finset (Fin 17 × Fin 2)) (A2 m d) = _
  rw [SparseCore.bigSep_insert' (by decide), bigSep_singleton]
  exact (congrArg₂ (fun a b : sProp 𝕄 => iprop(a ∗ b)) (pts_v2 d (cV LL) (jV LL) (9 : Fin 17) (1 : Fin 2) _ (V2c m d)).symm (pts_v2 d (cV LL) (jV LL) (16 : Fin 17) (0 : Fin 2) _ (V2c m d)).symm)
theorem open9 (m : (ℓ : Loc nD τ sig) → Buf (Elt F) ℓ) (d : Dev nD) :
    (bigSep (t9 (29 : Fin 32)) (A9 m d) : sProp 𝕄) = iprop(((SRC0).view.loc (TH d) ↦[(SRC0).view.set]{fullShare} V9c m d)) := by
  show bigSep ({(0 : Fin 14)} : Finset (Fin 14)) (A9 m d) = _
  rw [bigSep_singleton]
  exact (pts_v9 d (cV LL) (jV LL) (0 : Fin 14) _ (V9c m d)).symm
theorem open10 (m : (ℓ : Loc nD τ sig) → Buf (Elt F) ℓ) (d : Dev nD) :
    (bigSep (t10 (29 : Fin 32)) (B0 m d) : sProp 𝕄) = iprop(((OUT0_0).view.loc (TH d) ↦[(OUT0_0).view.set]{fullShare} m (v10L d)) ∗ ((OUT1_0).view.loc (TH d) ↦[(OUT1_0).view.set]{fullShare} m (v10L d)) ∗ ((OUT2_0).view.loc (TH d) ↦[(OUT2_0).view.set]{fullShare} m (v10L d))) := by
  show bigSep ({((2 : Fin 9), (0 : Fin 2), (0 : Fin 8)), ((6 : Fin 9), (0 : Fin 2), (1 : Fin 8)), ((5 : Fin 9), (0 : Fin 2), (7 : Fin 8))} : Finset (Fin 9 × Fin 2 × Fin 8)) (B0 m d) = _
  rw [SparseCore.bigSep_insert' (by decide), SparseCore.bigSep_insert' (by decide), bigSep_singleton]
  exact (congrArg₂ (fun a b : sProp 𝕄 => iprop(a ∗ b)) (pts_v10 d (cV LL) (jV LL) (2 : Fin 9) (0 : Fin 2) (0 : Fin 8) _ (m (v10L d))).symm (congrArg₂ (fun a b : sProp 𝕄 => iprop(a ∗ b)) (pts_v10 d (cV LL) (jV LL) (6 : Fin 9) (0 : Fin 2) (1 : Fin 8) _ (m (v10L d))).symm (pts_v10 d (cV LL) (jV LL) (5 : Fin 9) (0 : Fin 2) (7 : Fin 8) _ (m (v10L d))).symm))
theorem close10 (m : (ℓ : Loc nD τ sig) → Buf (Elt F) ℓ) (d : Dev nD) :
    (bigSep (t10 (29 : Fin 32)) (B1 m d) : sProp 𝕄) = iprop(((OUT0_0).view.loc (TH d) ↦[(OUT0_0).view.set]{fullShare} OUTc m d) ∗ ((OUT1_0).view.loc (TH d) ↦[(OUT1_0).view.set]{fullShare} OUTc m d) ∗ ((OUT2_0).view.loc (TH d) ↦[(OUT2_0).view.set]{fullShare} OUTc m d)) := by
  show bigSep ({((2 : Fin 9), (0 : Fin 2), (0 : Fin 8)), ((6 : Fin 9), (0 : Fin 2), (1 : Fin 8)), ((5 : Fin 9), (0 : Fin 2), (7 : Fin 8))} : Finset (Fin 9 × Fin 2 × Fin 8)) (B1 m d) = _
  rw [SparseCore.bigSep_insert' (by decide), SparseCore.bigSep_insert' (by decide), bigSep_singleton]
  exact (congrArg₂ (fun a b : sProp 𝕄 => iprop(a ∗ b)) (pts_v10 d (cV LL) (jV LL) (2 : Fin 9) (0 : Fin 2) (0 : Fin 8) _ (OUTc m d)).symm (congrArg₂ (fun a b : sProp 𝕄 => iprop(a ∗ b)) (pts_v10 d (cV LL) (jV LL) (6 : Fin 9) (0 : Fin 2) (1 : Fin 8) _ (OUTc m d)).symm (pts_v10 d (cV LL) (jV LL) (5 : Fin 9) (0 : Fin 2) (7 : Fin 8) _ (OUTc m d)).symm))

/-! ## What each output slice has to hold is what its source slice holds -/

theorem val0_0 (m : (ℓ : Loc nD τ sig) → Buf (Elt F) ℓ) (d : Dev nD) :
    (SRC0).view.read (Elt F) (V9c m d) = (OUT0_0).view.read (Elt F) (OUTc m d) := by
  funext y
  obtain ⟨t, q, rfl⟩ : ∃ (t q : Fin 128), y = ix2 t q := ⟨y 0, y 1, eq_ix2 y⟩
  refine (read_v9 (0 : Fin 14) _ _ t q).trans ((?_ : _ = _).trans (read_v10 (2 : Fin 9) (0 : Fin 2) (0 : Fin 8) _ _ t q).symm)
  unfold V9c OUTc
  rw [Cert.Layout.lenV_apply]
  refine Eq.trans ?_ (outV_at _ _ _ _ _ _ _ t _ q (show 8 * 0 + 0 < 14 by decide)).symm
  rfl
theorem val1_0 (m : (ℓ : Loc nD τ sig) → Buf (Elt F) ℓ) (d : Dev nD) :
    (SRC1).view.read (Elt F) (V2c m d) = (OUT1_0).view.read (Elt F) (OUTc m d) := by
  funext y
  obtain ⟨t, q, rfl⟩ : ∃ (t q : Fin 128), y = ix2 t q := ⟨y 0, y 1, eq_ix2 y⟩
  refine (read_v2 (9 : Fin 17) (1 : Fin 2) _ _ t q).trans ((?_ : _ = _).trans (read_v10 (6 : Fin 9) (0 : Fin 2) (1 : Fin 8) _ _ t q).symm)
  unfold V2c OUTc
  rw [Cert.Layout.poseV_apply]
  refine Eq.trans ?_ (outV_at _ _ _ _ _ _ _ t _ q (show 8 * 0 + 1 < 14 by decide)).symm
  rfl
theorem val2_0 (m : (ℓ : Loc nD τ sig) → Buf (Elt F) ℓ) (d : Dev nD) :
    (SRC2).view.read (Elt F) (V2c m d) = (OUT2_0).view.read (Elt F) (OUTc m d) := by
  funext y
  obtain ⟨t, q, rfl⟩ : ∃ (t q : Fin 128), y = ix2 t q := ⟨y 0, y 1, eq_ix2 y⟩
  refine (read_v2 (16 : Fin 17) (0 : Fin 2) _ _ t q).trans ((?_ : _ = _).trans (read_v10 (5 : Fin 9) (0 : Fin 2) (7 : Fin 8) _ _ t q).symm)
  unfold V2c OUTc
  rw [Cert.Layout.poseV_apply]
  refine Eq.trans ?_ (outV_at _ _ _ _ _ _ _ t _ q (show 8 * 0 + 7 < 14 by decide)).symm
  rfl

/-! ## The run -/

open Lean Elab Tactic Meta in
/-- Unfold the names the symbolic run gave to the values its copies carry. -/
elab "unfold_carried" : tactic => do
  for _ in [0:6] do
    let g ← getMainGoal
    let t ← instantiateMVars (← g.getType)
    if (t.getUsedConstants.any fun n => n.components.any (· == `sl)) then
      let t' ← deltaExpand t (fun n => n.components.any (· == `sl))
      let g' ← g.change t' (checkDefEq := false)
      replaceMainGoal [g']

variable [FloatOps F] [∀ e, Nonempty (Elt F e)]

theorem run (m : (ℓ : Loc nD τ sig) → Buf (Elt F) ℓ) (d : Dev nD) (O : CellTallies nD τ sig (HIx 1)) (W : Waits sig (HIx 1)) (hO : ∀ g, O g none = 0) :
    (iprop(levAts (K (F := F)).L (K (F := F)).lev ∗ tileG m d (29 : Fin 32)
        ∗ scopedBufs (TH d) ∗ scopedSems0 (TH d) ∗ owes (TH d) O W) : sProp 𝕄)
      ⊢ wp frame (wpE (defs₀ (F := F)) 𝒱₀ (TH d) none) Set.univ
          (cc0_run LL (Memref.whole main_v2_scv) (Memref.isWhole_whole _) (Memref.whole main_v7_scv) (Memref.isWhole_whole _) (Memref.whole main_v5_scv) (Memref.isWhole_whole _) (Memref.whole main_v9_scv) (Memref.isWhole_whole _) (Memref.whole main_v10_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8)
          fun _ => iprop(tileT m d (29 : Fin 32) ∗ scopedBufs (TH d) ∗ scopedSems0 (TH d)
            ∗ ∃ W', ⌜∀ p ∈ W', p ∈ W ∨ p.2 = none⌝ ∗ owes (TH d) O W') := by
  rw [(K (F := F)).scopedBufs_V facts d (cV LL) (jV LL), SparseCore.Cfg.scopedSems0_V (Val := Elt F) d (cV LL) (jV LL), ownSems0_V, ownBufs_V]
  unfold tileG tileT
  iintro ⟨#Hlv, ⟨HF2, -, -, HF9, HF10⟩, ⟨⟨%fb0, Hb0⟩, ⟨%fb1, Hb1⟩, ⟨%fb2, Hb2⟩, Hbufs⟩, ⟨Hs3, Hs4, Hs5, Hs6, Hs7, Hs8, Hsems⟩, HO⟩
  ihave HF2' := (Entails.of_eq (open2 m d)) $$ HF2
  icases HF2' with ⟨HS1, HS2⟩
  ihave HF9' := (Entails.of_eq (open9 m d)) $$ HF9
  icases HF9' with HS0
  ihave HF10' := (Entails.of_eq (open10 m d)) $$ HF10
  icases HF10' with ⟨HO0_0, HO1_0, HO2_0⟩
  ihave Hmw := ((K (F := F)).mayWaits_none (thr := TH d) hO) $$ Hlv
  ihave Hb0' := (Entails.of_eq (pts_b0 d (cV LL) (jV LL) _).symm) $$ Hb0
  ihave Hb1' := (Entails.of_eq (pts_b1 d (cV LL) (jV LL) _).symm) $$ Hb1
  ihave Hb2' := (Entails.of_eq (pts_b2 d (cV LL) (jV LL) _).symm) $$ Hb2
  sl_unfold [cc0_run]
  sl_exec_parts (disch := decide)
  sl_step
  isplitl [HS1 HS2 HS0 HO0_0 HO1_0 HO2_0]
  · skip
    isplitl [HS1 HS2]
    · iapply (Entails.of_eq (open2 m d).symm)
      isplitl [HS1]; · iexact HS1
      iexact HS2
    isplitr
    · rw [show t7 (29 : Fin 32) = ∅ from rfl, bigSep_empty]; iempintro
    isplitr
    · rw [show t5 (29 : Fin 32) = ∅ from rfl, bigSep_empty]; iempintro
    isplitl [HS0]
    · iapply (Entails.of_eq (open9 m d).symm)
      iexact HS0
    · iapply (Entails.of_eq (close10 m d).symm)
      isplitl [HO0_0]
      · iapply (out_post_ent (TH d) (OUT0_0) _ (OUTc m d) _ ?hv0_0) $$ HO0_0
        case hv0_0 => unfold_carried; simp only [ReadAs.apply_same, View.read_write_univ]; exact val0_0 m d
      isplitl [HO1_0]
      · iapply (out_post_ent (TH d) (OUT1_0) _ (OUTc m d) _ ?hv1_0) $$ HO1_0
        case hv1_0 => unfold_carried; simp only [ReadAs.apply_same, View.read_write_univ]; exact val1_0 m d
      iapply (out_post_ent (TH d) (OUT2_0) _ (OUTc m d) _ ?hv2_0) $$ HO2_0
      case hv2_0 => unfold_carried; simp only [ReadAs.apply_same, View.read_write_univ]; exact val2_0 m d

  isplitl [Hb0' Hb1' Hb2' Hbufs]
  · isplitl [Hb0']
    · iexists _; iapply (Entails.of_eq (pts_b0 d (cV LL) (jV LL) _)); iexact Hb0'
    isplitl [Hb1']
    · iexists _; iapply (Entails.of_eq (pts_b1 d (cV LL) (jV LL) _)); iexact Hb1'
    isplitl [Hb2']
    · iexists _; iapply (Entails.of_eq (pts_b2 d (cV LL) (jV LL) _)); iexact Hb2'
    iexact Hbufs
  isplitl [Hs3 Hs4 Hs5 Hs6 Hs7 Hs8 Hsems]
  · isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    iexact Hsems
  iexists _; isplitr
  rotate_left
  · iexact HO
  · ipureintro; intro p hp
    simp only [Finset.mem_insert] at hp
    rcases hp with rfl | rfl | rfl | rfl | rfl | rfl | hp <;> first | exact .inr rfl | exact .inl hp

end Cert.Proof.KI.Tile29

end
-- ==== Proof.KITile30.lean ====
/-
  Tile 30 of the kernel (subcore 15 of core 0): one slice in (delta1.0), 1 out; one slice in (vis9), 1 out; one slice in (pose16.1), 1 out.
  Its whole body is run: every copy it does not own is skipped by the comparison of its number with the copy's owner;
  each incoming copy fills a staging buffer, each outgoing copy carries that buffer into one slice of the output array,
  and what each output slice then holds is the source slice the specification asks for there.
-/
import proofs.«210185_g18468359372994_cont_8to1_1390_15_alg».proof.Proof.KIRead

set_option maxHeartbeats 4000000
set_option quotPrecheck false

noncomputable section

namespace Cert.Proof.KI.Tile30

open Cert.KernelIdeal Cert.KernelIdeal.Gen
open Cert.Proof.KI
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
theorem cLt : 0 < grid0.bound 0 := by decide
theorem sLt : 15 < grid0.bound 1 := by decide
local notation "LL" => (coordsV (⟨0, cLt⟩ : Fin (grid0.bound 0)) (⟨15, sLt⟩ : Fin (grid0.bound 1)))
local notation "TH" d => V d (cV LL) (jV LL)
local notation "SRC0" => (((Memref.whole main_v5_scv).slice (Rect.unit (s := S14x128x2x128) ![1, 0, 0, 0] S1x128x1x128.size inb_S14x128x2x128_S1x128x1x128_1_0_0_0) (fun _ => rfl)).squeeze S128x128 squeezes_S1x128x1x128_S128x128 : Memref sig .scVector .hbm S128x128 .f32)
local notation "OUT0_0" => (((Memref.whole main_v10_scv).slice (Rect.unit (s := S9x2x128x8x128) ![0, 0, 0, 1, 0] S1x1x128x1x128.size inb_S9x2x128x8x128_S1x1x128x1x128_0_0_0_1_0) (fun _ => rfl)).squeeze S128x128 squeezes_S1x1x128x1x128_S128x128 : Memref sig .scVector .hbm S128x128 .f32)
local notation "SRC1" => (((Memref.whole main_v7_scv).slice (Rect.unit (s := S17x128x128) ![9, 0, 0] S1x128x128.size inb_S17x128x128_S1x128x128_9_0_0) (fun _ => rfl)).squeeze S128x128 squeezes_S1x128x128_S128x128 : Memref sig .scVector .hbm S128x128 .f32)
local notation "OUT1_0" => (((Memref.whole main_v10_scv).slice (Rect.unit (s := S9x2x128x8x128) ![8, 0, 0, 1, 0] S1x1x128x1x128.size inb_S9x2x128x8x128_S1x1x128x1x128_8_0_0_1_0) (fun _ => rfl)).squeeze S128x128 squeezes_S1x1x128x1x128_S128x128 : Memref sig .scVector .hbm S128x128 .f32)
local notation "SRC2" => (((Memref.whole main_v2_scv).slice (Rect.unit (s := S17x128x2x128) ![16, 0, 1, 0] S1x128x1x128.size inb_S17x128x2x128_S1x128x1x128_16_0_1_0) (fun _ => rfl)).squeeze S128x128 squeezes_S1x128x1x128_S128x128 : Memref sig .scVector .hbm S128x128 .f32)
local notation "OUT2_0" => (((Memref.whole main_v10_scv).slice (Rect.unit (s := S9x2x128x8x128) ![6, 0, 0, 7, 0] S1x1x128x1x128.size inb_S9x2x128x8x128_S1x1x128x1x128_6_0_0_7_0) (fun _ => rfl)).squeeze S128x128 squeezes_S1x1x128x1x128_S128x128 : Memref sig .scVector .hbm S128x128 .f32)

/-! ## The tile's slices, as its memrefs name them -/

theorem open2 (m : (ℓ : Loc nD τ sig) → Buf (Elt F) ℓ) (d : Dev nD) :
    (bigSep (t2 (30 : Fin 32)) (A2 m d) : sProp 𝕄) = iprop(((SRC2).view.loc (TH d) ↦[(SRC2).view.set]{fullShare} V2c m d)) := by
  show bigSep ({((16 : Fin 17), (1 : Fin 2))} : Finset (Fin 17 × Fin 2)) (A2 m d) = _
  rw [bigSep_singleton]
  exact (pts_v2 d (cV LL) (jV LL) (16 : Fin 17) (1 : Fin 2) _ (V2c m d)).symm
theorem open7 (m : (ℓ : Loc nD τ sig) → Buf (Elt F) ℓ) (d : Dev nD) :
    (bigSep (t7 (30 : Fin 32)) (A7 m d) : sProp 𝕄) = iprop(((SRC1).view.loc (TH d) ↦[(SRC1).view.set]{fullShare} V7c m d)) := by
  show bigSep ({(9 : Fin 17)} : Finset (Fin 17)) (A7 m d) = _
  rw [bigSep_singleton]
  exact (pts_v7 d (cV LL) (jV LL) (9 : Fin 17) _ (V7c m d)).symm
theorem open5 (m : (ℓ : Loc nD τ sig) → Buf (Elt F) ℓ) (d : Dev nD) :
    (bigSep (t5 (30 : Fin 32)) (A5 m d) : sProp 𝕄) = iprop(((SRC0).view.loc (TH d) ↦[(SRC0).view.set]{fullShare} V5c m d)) := by
  show bigSep ({((1 : Fin 14), (0 : Fin 2))} : Finset (Fin 14 × Fin 2)) (A5 m d) = _
  rw [bigSep_singleton]
  exact (pts_v5 d (cV LL) (jV LL) (1 : Fin 14) (0 : Fin 2) _ (V5c m d)).symm
theorem open10 (m : (ℓ : Loc nD τ sig) → Buf (Elt F) ℓ) (d : Dev nD) :
    (bigSep (t10 (30 : Fin 32)) (B0 m d) : sProp 𝕄) = iprop(((OUT0_0).view.loc (TH d) ↦[(OUT0_0).view.set]{fullShare} m (v10L d)) ∗ ((OUT1_0).view.loc (TH d) ↦[(OUT1_0).view.set]{fullShare} m (v10L d)) ∗ ((OUT2_0).view.loc (TH d) ↦[(OUT2_0).view.set]{fullShare} m (v10L d))) := by
  show bigSep ({((0 : Fin 9), (0 : Fin 2), (1 : Fin 8)), ((8 : Fin 9), (0 : Fin 2), (1 : Fin 8)), ((6 : Fin 9), (0 : Fin 2), (7 : Fin 8))} : Finset (Fin 9 × Fin 2 × Fin 8)) (B0 m d) = _
  rw [SparseCore.bigSep_insert' (by decide), SparseCore.bigSep_insert' (by decide), bigSep_singleton]
  exact (congrArg₂ (fun a b : sProp 𝕄 => iprop(a ∗ b)) (pts_v10 d (cV LL) (jV LL) (0 : Fin 9) (0 : Fin 2) (1 : Fin 8) _ (m (v10L d))).symm (congrArg₂ (fun a b : sProp 𝕄 => iprop(a ∗ b)) (pts_v10 d (cV LL) (jV LL) (8 : Fin 9) (0 : Fin 2) (1 : Fin 8) _ (m (v10L d))).symm (pts_v10 d (cV LL) (jV LL) (6 : Fin 9) (0 : Fin 2) (7 : Fin 8) _ (m (v10L d))).symm))
theorem close10 (m : (ℓ : Loc nD τ sig) → Buf (Elt F) ℓ) (d : Dev nD) :
    (bigSep (t10 (30 : Fin 32)) (B1 m d) : sProp 𝕄) = iprop(((OUT0_0).view.loc (TH d) ↦[(OUT0_0).view.set]{fullShare} OUTc m d) ∗ ((OUT1_0).view.loc (TH d) ↦[(OUT1_0).view.set]{fullShare} OUTc m d) ∗ ((OUT2_0).view.loc (TH d) ↦[(OUT2_0).view.set]{fullShare} OUTc m d)) := by
  show bigSep ({((0 : Fin 9), (0 : Fin 2), (1 : Fin 8)), ((8 : Fin 9), (0 : Fin 2), (1 : Fin 8)), ((6 : Fin 9), (0 : Fin 2), (7 : Fin 8))} : Finset (Fin 9 × Fin 2 × Fin 8)) (B1 m d) = _
  rw [SparseCore.bigSep_insert' (by decide), SparseCore.bigSep_insert' (by decide), bigSep_singleton]
  exact (congrArg₂ (fun a b : sProp 𝕄 => iprop(a ∗ b)) (pts_v10 d (cV LL) (jV LL) (0 : Fin 9) (0 : Fin 2) (1 : Fin 8) _ (OUTc m d)).symm (congrArg₂ (fun a b : sProp 𝕄 => iprop(a ∗ b)) (pts_v10 d (cV LL) (jV LL) (8 : Fin 9) (0 : Fin 2) (1 : Fin 8) _ (OUTc m d)).symm (pts_v10 d (cV LL) (jV LL) (6 : Fin 9) (0 : Fin 2) (7 : Fin 8) _ (OUTc m d)).symm))

/-! ## What each output slice has to hold is what its source slice holds -/

theorem val0_0 (m : (ℓ : Loc nD τ sig) → Buf (Elt F) ℓ) (d : Dev nD) :
    (SRC0).view.read (Elt F) (V5c m d) = (OUT0_0).view.read (Elt F) (OUTc m d) := by
  funext y
  obtain ⟨t, q, rfl⟩ : ∃ (t q : Fin 128), y = ix2 t q := ⟨y 0, y 1, eq_ix2 y⟩
  refine (read_v5 (1 : Fin 14) (0 : Fin 2) _ _ t q).trans ((?_ : _ = _).trans (read_v10 (0 : Fin 9) (0 : Fin 2) (1 : Fin 8) _ _ t q).symm)
  unfold V5c OUTc
  rw [Cert.Layout.deltaV_apply]
  refine Eq.trans ?_ (outV_at _ _ _ _ _ _ _ t _ q (show 8 * 0 + 1 < 14 by decide)).symm
  rfl
theorem val1_0 (m : (ℓ : Loc nD τ sig) → Buf (Elt F) ℓ) (d : Dev nD) :
    (SRC1).view.read (Elt F) (V7c m d) = (OUT1_0).view.read (Elt F) (OUTc m d) := by
  funext y
  obtain ⟨t, q, rfl⟩ : ∃ (t q : Fin 128), y = ix2 t q := ⟨y 0, y 1, eq_ix2 y⟩
  refine (read_v7 (9 : Fin 17) _ _ t q).trans ((?_ : _ = _).trans (read_v10 (8 : Fin 9) (0 : Fin 2) (1 : Fin 8) _ _ t q).symm)
  unfold V7c OUTc
  rw [Cert.Layout.visV_apply]
  refine Eq.trans ?_ (outV_at _ _ _ _ _ _ _ t _ q (show 8 * 0 + 1 < 14 by decide)).symm
  rfl
theorem val2_0 (m : (ℓ : Loc nD τ sig) → Buf (Elt F) ℓ) (d : Dev nD) :
    (SRC2).view.read (Elt F) (V2c m d) = (OUT2_0).view.read (Elt F) (OUTc m d) := by
  funext y
  obtain ⟨t, q, rfl⟩ : ∃ (t q : Fin 128), y = ix2 t q := ⟨y 0, y 1, eq_ix2 y⟩
  refine (read_v2 (16 : Fin 17) (1 : Fin 2) _ _ t q).trans ((?_ : _ = _).trans (read_v10 (6 : Fin 9) (0 : Fin 2) (7 : Fin 8) _ _ t q).symm)
  unfold V2c OUTc
  rw [Cert.Layout.poseV_apply]
  refine Eq.trans ?_ (outV_at _ _ _ _ _ _ _ t _ q (show 8 * 0 + 7 < 14 by decide)).symm
  rfl

/-! ## The run -/

open Lean Elab Tactic Meta in
/-- Unfold the names the symbolic run gave to the values its copies carry. -/
elab "unfold_carried" : tactic => do
  for _ in [0:6] do
    let g ← getMainGoal
    let t ← instantiateMVars (← g.getType)
    if (t.getUsedConstants.any fun n => n.components.any (· == `sl)) then
      let t' ← deltaExpand t (fun n => n.components.any (· == `sl))
      let g' ← g.change t' (checkDefEq := false)
      replaceMainGoal [g']

variable [FloatOps F] [∀ e, Nonempty (Elt F e)]

theorem run (m : (ℓ : Loc nD τ sig) → Buf (Elt F) ℓ) (d : Dev nD) (O : CellTallies nD τ sig (HIx 1)) (W : Waits sig (HIx 1)) (hO : ∀ g, O g none = 0) :
    (iprop(levAts (K (F := F)).L (K (F := F)).lev ∗ tileG m d (30 : Fin 32)
        ∗ scopedBufs (TH d) ∗ scopedSems0 (TH d) ∗ owes (TH d) O W) : sProp 𝕄)
      ⊢ wp frame (wpE (defs₀ (F := F)) 𝒱₀ (TH d) none) Set.univ
          (cc0_run LL (Memref.whole main_v2_scv) (Memref.isWhole_whole _) (Memref.whole main_v7_scv) (Memref.isWhole_whole _) (Memref.whole main_v5_scv) (Memref.isWhole_whole _) (Memref.whole main_v9_scv) (Memref.isWhole_whole _) (Memref.whole main_v10_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8)
          fun _ => iprop(tileT m d (30 : Fin 32) ∗ scopedBufs (TH d) ∗ scopedSems0 (TH d)
            ∗ ∃ W', ⌜∀ p ∈ W', p ∈ W ∨ p.2 = none⌝ ∗ owes (TH d) O W') := by
  rw [(K (F := F)).scopedBufs_V facts d (cV LL) (jV LL), SparseCore.Cfg.scopedSems0_V (Val := Elt F) d (cV LL) (jV LL), ownSems0_V, ownBufs_V]
  unfold tileG tileT
  iintro ⟨#Hlv, ⟨HF2, HF7, HF5, -, HF10⟩, ⟨⟨%fb0, Hb0⟩, ⟨%fb1, Hb1⟩, ⟨%fb2, Hb2⟩, Hbufs⟩, ⟨Hs3, Hs4, Hs5, Hs6, Hs7, Hs8, Hsems⟩, HO⟩
  ihave HF2' := (Entails.of_eq (open2 m d)) $$ HF2
  icases HF2' with HS2
  ihave HF7' := (Entails.of_eq (open7 m d)) $$ HF7
  icases HF7' with HS1
  ihave HF5' := (Entails.of_eq (open5 m d)) $$ HF5
  icases HF5' with HS0
  ihave HF10' := (Entails.of_eq (open10 m d)) $$ HF10
  icases HF10' with ⟨HO0_0, HO1_0, HO2_0⟩
  ihave Hmw := ((K (F := F)).mayWaits_none (thr := TH d) hO) $$ Hlv
  ihave Hb0' := (Entails.of_eq (pts_b0 d (cV LL) (jV LL) _).symm) $$ Hb0
  ihave Hb1' := (Entails.of_eq (pts_b1 d (cV LL) (jV LL) _).symm) $$ Hb1
  ihave Hb2' := (Entails.of_eq (pts_b2 d (cV LL) (jV LL) _).symm) $$ Hb2
  sl_unfold [cc0_run]
  sl_exec_parts (disch := decide)
  sl_step
  isplitl [HS2 HS1 HS0 HO0_0 HO1_0 HO2_0]
  · skip
    isplitl [HS2]
    · iapply (Entails.of_eq (open2 m d).symm)
      iexact HS2
    isplitl [HS1]
    · iapply (Entails.of_eq (open7 m d).symm)
      iexact HS1
    isplitl [HS0]
    · iapply (Entails.of_eq (open5 m d).symm)
      iexact HS0
    isplitr
    · rw [show t9 (30 : Fin 32) = ∅ from rfl, bigSep_empty]; iempintro
    · iapply (Entails.of_eq (close10 m d).symm)
      isplitl [HO0_0]
      · iapply (out_post_ent (TH d) (OUT0_0) _ (OUTc m d) _ ?hv0_0) $$ HO0_0
        case hv0_0 => unfold_carried; simp only [ReadAs.apply_same, View.read_write_univ]; exact val0_0 m d
      isplitl [HO1_0]
      · iapply (out_post_ent (TH d) (OUT1_0) _ (OUTc m d) _ ?hv1_0) $$ HO1_0
        case hv1_0 => unfold_carried; simp only [ReadAs.apply_same, View.read_write_univ]; exact val1_0 m d
      iapply (out_post_ent (TH d) (OUT2_0) _ (OUTc m d) _ ?hv2_0) $$ HO2_0
      case hv2_0 => unfold_carried; simp only [ReadAs.apply_same, View.read_write_univ]; exact val2_0 m d

  isplitl [Hb0' Hb1' Hb2' Hbufs]
  · isplitl [Hb0']
    · iexists _; iapply (Entails.of_eq (pts_b0 d (cV LL) (jV LL) _)); iexact Hb0'
    isplitl [Hb1']
    · iexists _; iapply (Entails.of_eq (pts_b1 d (cV LL) (jV LL) _)); iexact Hb1'
    isplitl [Hb2']
    · iexists _; iapply (Entails.of_eq (pts_b2 d (cV LL) (jV LL) _)); iexact Hb2'
    iexact Hbufs
  isplitl [Hs3 Hs4 Hs5 Hs6 Hs7 Hs8 Hsems]
  · isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    iexact Hsems
  iexists _; isplitr
  rotate_left
  · iexact HO
  · ipureintro; intro p hp
    simp only [Finset.mem_insert] at hp
    rcases hp with rfl | rfl | rfl | rfl | rfl | rfl | hp <;> first | exact .inr rfl | exact .inl hp

end Cert.Proof.KI.Tile30

end
-- ==== Proof.KITile31.lean ====
/-
  Tile 31 of the kernel (subcore 15 of core 1): one slice in (delta1.1), 1 out; one slice in (delta2.0), 1 out; one slice in (vis16), 1 out.
  Its whole body is run: every copy it does not own is skipped by the comparison of its number with the copy's owner;
  each incoming copy fills a staging buffer, each outgoing copy carries that buffer into one slice of the output array,
  and what each output slice then holds is the source slice the specification asks for there.
-/
import proofs.«210185_g18468359372994_cont_8to1_1390_15_alg».proof.Proof.KIRead

set_option maxHeartbeats 4000000
set_option quotPrecheck false

noncomputable section

namespace Cert.Proof.KI.Tile31

open Cert.KernelIdeal Cert.KernelIdeal.Gen
open Cert.Proof.KI
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
theorem cLt : 1 < grid0.bound 0 := by decide
theorem sLt : 15 < grid0.bound 1 := by decide
local notation "LL" => (coordsV (⟨1, cLt⟩ : Fin (grid0.bound 0)) (⟨15, sLt⟩ : Fin (grid0.bound 1)))
local notation "TH" d => V d (cV LL) (jV LL)
local notation "SRC0" => (((Memref.whole main_v5_scv).slice (Rect.unit (s := S14x128x2x128) ![1, 0, 1, 0] S1x128x1x128.size inb_S14x128x2x128_S1x128x1x128_1_0_1_0) (fun _ => rfl)).squeeze S128x128 squeezes_S1x128x1x128_S128x128 : Memref sig .scVector .hbm S128x128 .f32)
local notation "OUT0_0" => (((Memref.whole main_v10_scv).slice (Rect.unit (s := S9x2x128x8x128) ![1, 0, 0, 1, 0] S1x1x128x1x128.size inb_S9x2x128x8x128_S1x1x128x1x128_1_0_0_1_0) (fun _ => rfl)).squeeze S128x128 squeezes_S1x1x128x1x128_S128x128 : Memref sig .scVector .hbm S128x128 .f32)
local notation "SRC1" => (((Memref.whole main_v5_scv).slice (Rect.unit (s := S14x128x2x128) ![2, 0, 0, 0] S1x128x1x128.size inb_S14x128x2x128_S1x128x1x128_2_0_0_0) (fun _ => rfl)).squeeze S128x128 squeezes_S1x128x1x128_S128x128 : Memref sig .scVector .hbm S128x128 .f32)
local notation "OUT1_0" => (((Memref.whole main_v10_scv).slice (Rect.unit (s := S9x2x128x8x128) ![0, 0, 0, 2, 0] S1x1x128x1x128.size inb_S9x2x128x8x128_S1x1x128x1x128_0_0_0_2_0) (fun _ => rfl)).squeeze S128x128 squeezes_S1x1x128x1x128_S128x128 : Memref sig .scVector .hbm S128x128 .f32)
local notation "SRC2" => (((Memref.whole main_v7_scv).slice (Rect.unit (s := S17x128x128) ![16, 0, 0] S1x128x128.size inb_S17x128x128_S1x128x128_16_0_0) (fun _ => rfl)).squeeze S128x128 squeezes_S1x128x128_S128x128 : Memref sig .scVector .hbm S128x128 .f32)
local notation "OUT2_0" => (((Memref.whole main_v10_scv).slice (Rect.unit (s := S9x2x128x8x128) ![8, 0, 0, 7, 0] S1x1x128x1x128.size inb_S9x2x128x8x128_S1x1x128x1x128_8_0_0_7_0) (fun _ => rfl)).squeeze S128x128 squeezes_S1x1x128x1x128_S128x128 : Memref sig .scVector .hbm S128x128 .f32)

/-! ## The tile's slices, as its memrefs name them -/

theorem open7 (m : (ℓ : Loc nD τ sig) → Buf (Elt F) ℓ) (d : Dev nD) :
    (bigSep (t7 (31 : Fin 32)) (A7 m d) : sProp 𝕄) = iprop(((SRC2).view.loc (TH d) ↦[(SRC2).view.set]{fullShare} V7c m d)) := by
  show bigSep ({(16 : Fin 17)} : Finset (Fin 17)) (A7 m d) = _
  rw [bigSep_singleton]
  exact (pts_v7 d (cV LL) (jV LL) (16 : Fin 17) _ (V7c m d)).symm
theorem open5 (m : (ℓ : Loc nD τ sig) → Buf (Elt F) ℓ) (d : Dev nD) :
    (bigSep (t5 (31 : Fin 32)) (A5 m d) : sProp 𝕄) = iprop(((SRC0).view.loc (TH d) ↦[(SRC0).view.set]{fullShare} V5c m d) ∗ ((SRC1).view.loc (TH d) ↦[(SRC1).view.set]{fullShare} V5c m d)) := by
  show bigSep ({((1 : Fin 14), (1 : Fin 2)), ((2 : Fin 14), (0 : Fin 2))} : Finset (Fin 14 × Fin 2)) (A5 m d) = _
  rw [SparseCore.bigSep_insert' (by decide), bigSep_singleton]
  exact (congrArg₂ (fun a b : sProp 𝕄 => iprop(a ∗ b)) (pts_v5 d (cV LL) (jV LL) (1 : Fin 14) (1 : Fin 2) _ (V5c m d)).symm (pts_v5 d (cV LL) (jV LL) (2 : Fin 14) (0 : Fin 2) _ (V5c m d)).symm)
theorem open10 (m : (ℓ : Loc nD τ sig) → Buf (Elt F) ℓ) (d : Dev nD) :
    (bigSep (t10 (31 : Fin 32)) (B0 m d) : sProp 𝕄) = iprop(((OUT0_0).view.loc (TH d) ↦[(OUT0_0).view.set]{fullShare} m (v10L d)) ∗ ((OUT1_0).view.loc (TH d) ↦[(OUT1_0).view.set]{fullShare} m (v10L d)) ∗ ((OUT2_0).view.loc (TH d) ↦[(OUT2_0).view.set]{fullShare} m (v10L d))) := by
  show bigSep ({((1 : Fin 9), (0 : Fin 2), (1 : Fin 8)), ((0 : Fin 9), (0 : Fin 2), (2 : Fin 8)), ((8 : Fin 9), (0 : Fin 2), (7 : Fin 8))} : Finset (Fin 9 × Fin 2 × Fin 8)) (B0 m d) = _
  rw [SparseCore.bigSep_insert' (by decide), SparseCore.bigSep_insert' (by decide), bigSep_singleton]
  exact (congrArg₂ (fun a b : sProp 𝕄 => iprop(a ∗ b)) (pts_v10 d (cV LL) (jV LL) (1 : Fin 9) (0 : Fin 2) (1 : Fin 8) _ (m (v10L d))).symm (congrArg₂ (fun a b : sProp 𝕄 => iprop(a ∗ b)) (pts_v10 d (cV LL) (jV LL) (0 : Fin 9) (0 : Fin 2) (2 : Fin 8) _ (m (v10L d))).symm (pts_v10 d (cV LL) (jV LL) (8 : Fin 9) (0 : Fin 2) (7 : Fin 8) _ (m (v10L d))).symm))
theorem close10 (m : (ℓ : Loc nD τ sig) → Buf (Elt F) ℓ) (d : Dev nD) :
    (bigSep (t10 (31 : Fin 32)) (B1 m d) : sProp 𝕄) = iprop(((OUT0_0).view.loc (TH d) ↦[(OUT0_0).view.set]{fullShare} OUTc m d) ∗ ((OUT1_0).view.loc (TH d) ↦[(OUT1_0).view.set]{fullShare} OUTc m d) ∗ ((OUT2_0).view.loc (TH d) ↦[(OUT2_0).view.set]{fullShare} OUTc m d)) := by
  show bigSep ({((1 : Fin 9), (0 : Fin 2), (1 : Fin 8)), ((0 : Fin 9), (0 : Fin 2), (2 : Fin 8)), ((8 : Fin 9), (0 : Fin 2), (7 : Fin 8))} : Finset (Fin 9 × Fin 2 × Fin 8)) (B1 m d) = _
  rw [SparseCore.bigSep_insert' (by decide), SparseCore.bigSep_insert' (by decide), bigSep_singleton]
  exact (congrArg₂ (fun a b : sProp 𝕄 => iprop(a ∗ b)) (pts_v10 d (cV LL) (jV LL) (1 : Fin 9) (0 : Fin 2) (1 : Fin 8) _ (OUTc m d)).symm (congrArg₂ (fun a b : sProp 𝕄 => iprop(a ∗ b)) (pts_v10 d (cV LL) (jV LL) (0 : Fin 9) (0 : Fin 2) (2 : Fin 8) _ (OUTc m d)).symm (pts_v10 d (cV LL) (jV LL) (8 : Fin 9) (0 : Fin 2) (7 : Fin 8) _ (OUTc m d)).symm))

/-! ## What each output slice has to hold is what its source slice holds -/

theorem val0_0 (m : (ℓ : Loc nD τ sig) → Buf (Elt F) ℓ) (d : Dev nD) :
    (SRC0).view.read (Elt F) (V5c m d) = (OUT0_0).view.read (Elt F) (OUTc m d) := by
  funext y
  obtain ⟨t, q, rfl⟩ : ∃ (t q : Fin 128), y = ix2 t q := ⟨y 0, y 1, eq_ix2 y⟩
  refine (read_v5 (1 : Fin 14) (1 : Fin 2) _ _ t q).trans ((?_ : _ = _).trans (read_v10 (1 : Fin 9) (0 : Fin 2) (1 : Fin 8) _ _ t q).symm)
  unfold V5c OUTc
  rw [Cert.Layout.deltaV_apply]
  refine Eq.trans ?_ (outV_at _ _ _ _ _ _ _ t _ q (show 8 * 0 + 1 < 14 by decide)).symm
  rfl
theorem val1_0 (m : (ℓ : Loc nD τ sig) → Buf (Elt F) ℓ) (d : Dev nD) :
    (SRC1).view.read (Elt F) (V5c m d) = (OUT1_0).view.read (Elt F) (OUTc m d) := by
  funext y
  obtain ⟨t, q, rfl⟩ : ∃ (t q : Fin 128), y = ix2 t q := ⟨y 0, y 1, eq_ix2 y⟩
  refine (read_v5 (2 : Fin 14) (0 : Fin 2) _ _ t q).trans ((?_ : _ = _).trans (read_v10 (0 : Fin 9) (0 : Fin 2) (2 : Fin 8) _ _ t q).symm)
  unfold V5c OUTc
  rw [Cert.Layout.deltaV_apply]
  refine Eq.trans ?_ (outV_at _ _ _ _ _ _ _ t _ q (show 8 * 0 + 2 < 14 by decide)).symm
  rfl
theorem val2_0 (m : (ℓ : Loc nD τ sig) → Buf (Elt F) ℓ) (d : Dev nD) :
    (SRC2).view.read (Elt F) (V7c m d) = (OUT2_0).view.read (Elt F) (OUTc m d) := by
  funext y
  obtain ⟨t, q, rfl⟩ : ∃ (t q : Fin 128), y = ix2 t q := ⟨y 0, y 1, eq_ix2 y⟩
  refine (read_v7 (16 : Fin 17) _ _ t q).trans ((?_ : _ = _).trans (read_v10 (8 : Fin 9) (0 : Fin 2) (7 : Fin 8) _ _ t q).symm)
  unfold V7c OUTc
  rw [Cert.Layout.visV_apply]
  refine Eq.trans ?_ (outV_at _ _ _ _ _ _ _ t _ q (show 8 * 0 + 7 < 14 by decide)).symm
  rfl

/-! ## The run -/

open Lean Elab Tactic Meta in
/-- Unfold the names the symbolic run gave to the values its copies carry. -/
elab "unfold_carried" : tactic => do
  for _ in [0:6] do
    let g ← getMainGoal
    let t ← instantiateMVars (← g.getType)
    if (t.getUsedConstants.any fun n => n.components.any (· == `sl)) then
      let t' ← deltaExpand t (fun n => n.components.any (· == `sl))
      let g' ← g.change t' (checkDefEq := false)
      replaceMainGoal [g']

variable [FloatOps F] [∀ e, Nonempty (Elt F e)]

theorem run (m : (ℓ : Loc nD τ sig) → Buf (Elt F) ℓ) (d : Dev nD) (O : CellTallies nD τ sig (HIx 1)) (W : Waits sig (HIx 1)) (hO : ∀ g, O g none = 0) :
    (iprop(levAts (K (F := F)).L (K (F := F)).lev ∗ tileG m d (31 : Fin 32)
        ∗ scopedBufs (TH d) ∗ scopedSems0 (TH d) ∗ owes (TH d) O W) : sProp 𝕄)
      ⊢ wp frame (wpE (defs₀ (F := F)) 𝒱₀ (TH d) none) Set.univ
          (cc0_run LL (Memref.whole main_v2_scv) (Memref.isWhole_whole _) (Memref.whole main_v7_scv) (Memref.isWhole_whole _) (Memref.whole main_v5_scv) (Memref.isWhole_whole _) (Memref.whole main_v9_scv) (Memref.isWhole_whole _) (Memref.whole main_v10_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8)
          fun _ => iprop(tileT m d (31 : Fin 32) ∗ scopedBufs (TH d) ∗ scopedSems0 (TH d)
            ∗ ∃ W', ⌜∀ p ∈ W', p ∈ W ∨ p.2 = none⌝ ∗ owes (TH d) O W') := by
  rw [(K (F := F)).scopedBufs_V facts d (cV LL) (jV LL), SparseCore.Cfg.scopedSems0_V (Val := Elt F) d (cV LL) (jV LL), ownSems0_V, ownBufs_V]
  unfold tileG tileT
  iintro ⟨#Hlv, ⟨-, HF7, HF5, -, HF10⟩, ⟨⟨%fb0, Hb0⟩, ⟨%fb1, Hb1⟩, ⟨%fb2, Hb2⟩, Hbufs⟩, ⟨Hs3, Hs4, Hs5, Hs6, Hs7, Hs8, Hsems⟩, HO⟩
  ihave HF7' := (Entails.of_eq (open7 m d)) $$ HF7
  icases HF7' with HS2
  ihave HF5' := (Entails.of_eq (open5 m d)) $$ HF5
  icases HF5' with ⟨HS0, HS1⟩
  ihave HF10' := (Entails.of_eq (open10 m d)) $$ HF10
  icases HF10' with ⟨HO0_0, HO1_0, HO2_0⟩
  ihave Hmw := ((K (F := F)).mayWaits_none (thr := TH d) hO) $$ Hlv
  ihave Hb0' := (Entails.of_eq (pts_b0 d (cV LL) (jV LL) _).symm) $$ Hb0
  ihave Hb1' := (Entails.of_eq (pts_b1 d (cV LL) (jV LL) _).symm) $$ Hb1
  ihave Hb2' := (Entails.of_eq (pts_b2 d (cV LL) (jV LL) _).symm) $$ Hb2
  sl_unfold [cc0_run]
  sl_exec_parts (disch := decide)
  sl_step
  isplitl [HS2 HS0 HS1 HO0_0 HO1_0 HO2_0]
  · skip
    isplitr
    · rw [show t2 (31 : Fin 32) = ∅ from rfl, bigSep_empty]; iempintro
    isplitl [HS2]
    · iapply (Entails.of_eq (open7 m d).symm)
      iexact HS2
    isplitl [HS0 HS1]
    · iapply (Entails.of_eq (open5 m d).symm)
      isplitl [HS0]; · iexact HS0
      iexact HS1
    isplitr
    · rw [show t9 (31 : Fin 32) = ∅ from rfl, bigSep_empty]; iempintro
    · iapply (Entails.of_eq (close10 m d).symm)
      isplitl [HO0_0]
      · iapply (out_post_ent (TH d) (OUT0_0) _ (OUTc m d) _ ?hv0_0) $$ HO0_0
        case hv0_0 => unfold_carried; simp only [ReadAs.apply_same, View.read_write_univ]; exact val0_0 m d
      isplitl [HO1_0]
      · iapply (out_post_ent (TH d) (OUT1_0) _ (OUTc m d) _ ?hv1_0) $$ HO1_0
        case hv1_0 => unfold_carried; simp only [ReadAs.apply_same, View.read_write_univ]; exact val1_0 m d
      iapply (out_post_ent (TH d) (OUT2_0) _ (OUTc m d) _ ?hv2_0) $$ HO2_0
      case hv2_0 => unfold_carried; simp only [ReadAs.apply_same, View.read_write_univ]; exact val2_0 m d

  isplitl [Hb0' Hb1' Hb2' Hbufs]
  · isplitl [Hb0']
    · iexists _; iapply (Entails.of_eq (pts_b0 d (cV LL) (jV LL) _)); iexact Hb0'
    isplitl [Hb1']
    · iexists _; iapply (Entails.of_eq (pts_b1 d (cV LL) (jV LL) _)); iexact Hb1'
    isplitl [Hb2']
    · iexists _; iapply (Entails.of_eq (pts_b2 d (cV LL) (jV LL) _)); iexact Hb2'
    iexact Hbufs
  isplitl [Hs3 Hs4 Hs5 Hs6 Hs7 Hs8 Hsems]
  · isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    iexact Hsems
  iexists _; isplitr
  rotate_left
  · iexact HO
  · ipureintro; intro p hp
    simp only [Finset.mem_insert] at hp
    rcases hp with rfl | rfl | rfl | rfl | rfl | rfl | hp <;> first | exact .inr rfl | exact .inl hp

end Cert.Proof.KI.Tile31

end
-- ==== Proof.LibBigSepBiUnion.lean ====
/-
  An iterated separating conjunction over a union of pairwise disjoint index sets is the iterated conjunction, over the
  sets, of the conjunctions over each set. Hence a conjunction over a whole finite type splits, along any table of
  pairwise disjoint sets, into the table's part and the part over the indices no entry of the table names.
-/
import Idealize.SL.ProofMode.BigOp

noncomputable section

namespace Cert.LibBigSepBiUnion

open Idealize.SL Idealize.SL.RA Idealize.SL.BI
open scoped Idealize.SL.BI
open Idealize.SL.BI.BIBase Idealize.SL.BI.Laws Idealize.SL.ProofMode

variable {M : Type} [URA M] {I T : Type} [DecidableEq I] [DecidableEq T]

/-- Over a union of pairwise disjoint sets `K t`, `t ∈ S`, the conjunction is the conjunction over `t ∈ S` of the
    conjunctions over `K t`. -/
theorem bigSep_biUnion_eq (S : Finset T) (K : T → Finset I)
    (h : ∀ t ∈ S, ∀ t' ∈ S, t ≠ t' → Disjoint (K t) (K t')) (Φ : I → sProp M) :
    bigSep (S.biUnion K) Φ = bigSep S fun t => bigSep (K t) Φ := by
  induction S using Finset.induction_on with
  | empty => rw [Finset.biUnion_empty, bigSep_empty, bigSep_empty]
  | insert t S ht ih =>
    have hd : Disjoint (K t) (S.biUnion K) :=
      (Finset.disjoint_biUnion_right _ _ _).mpr fun t' ht' =>
        h t (Finset.mem_insert_self _ _) t' (Finset.mem_insert_of_mem ht') (fun e => ht (e ▸ ht'))
    rw [Finset.biUnion_insert, bigSep_insert ht, bigSep_union hd,
      ih fun t₁ h₁ t₂ h₂ => h t₁ (Finset.mem_insert_of_mem h₁) t₂ (Finset.mem_insert_of_mem h₂)]

/-- A conjunction over a whole finite type, split along a table of pairwise disjoint sets: the entries' conjunctions,
    and the conjunction over the indices in no entry. -/
theorem bigSep_univ_table [Fintype I] (S : Finset T) (K : T → Finset I)
    (h : ∀ t ∈ S, ∀ t' ∈ S, t ≠ t' → Disjoint (K t) (K t')) (Φ : I → sProp M) :
    bigSep Finset.univ Φ = iprop(bigSep S (fun t => bigSep (K t) Φ) ∗ bigSep (Finset.univ \ S.biUnion K) Φ) := by
  rw [← bigSep_biUnion_eq S K h Φ]
  exact bigSep_sdiff_split (Finset.subset_univ _)

/-- Two pairs exchanged: `(P ∗ Q) ∗ (R ∗ S)` is `(P ∗ R) ∗ (Q ∗ S)`. -/
theorem sep_exchange (P Q R S : sProp M) : (iprop((P ∗ Q) ∗ (R ∗ S)) : sProp M) = iprop((P ∗ R) ∗ (Q ∗ S)) :=
  have h : (iprop((P ∗ Q) ∗ (R ∗ S)) : sProp M) ⊣⊢ iprop((P ∗ R) ∗ (Q ∗ S)) := sep_sep_sep_comm
  equiv_iff.mp ⟨h.1, h.2⟩

/-- Five pairs, regrouped as the pair of the five first and the five second components. -/
theorem sep_unzip5 (a₁ r₁ a₂ r₂ a₃ r₃ a₄ r₄ a₅ r₅ : sProp M) :
    (iprop((a₁ ∗ r₁) ∗ (a₂ ∗ r₂) ∗ (a₃ ∗ r₃) ∗ (a₄ ∗ r₄) ∗ (a₅ ∗ r₅)) : sProp M)
      = iprop((a₁ ∗ a₂ ∗ a₃ ∗ a₄ ∗ a₅) ∗ (r₁ ∗ r₂ ∗ r₃ ∗ r₄ ∗ r₅)) := by
  rw [sep_exchange a₄ r₄ a₅ r₅, sep_exchange a₃ r₃, sep_exchange a₂ r₂, sep_exchange a₁ r₁]

end Cert.LibBigSepBiUnion

end
-- ==== Proof.KIRegroup.lean ====
/-
  The five arrays the kernel works on, split among its thirty-two tiles and joined back. Each whole array is the
  separating conjunction of its `[128, 128]` slices (two slices with different indices share no element, and every
  element lies in the slice its unit-axis coordinates name); the tables give every slice to at most one tile, so the
  conjunction over all slices is the conjunction over the tiles of each tile's slices and the conjunction over the slices
  nobody is given. On the output's slices nobody is given — limb rows 14 and 15 — the array the kernel must leave behind
  is the array as it stood, so what comes back joins to that array whole.
-/
import proofs.«210185_g18468359372994_cont_8to1_1390_15_alg».proof.Proof.KIRes
import proofs.«210185_g18468359372994_cont_8to1_1390_15_alg».proof.Proof.LayoutLemmas
import proofs.«210185_g18468359372994_cont_8to1_1390_15_alg».proof.Proof.LibBigSepBiUnion

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

/-! ## The tables name no slice twice -/

theorem t2_disjoint : ∀ t t' : Fin 32, t ≠ t' → Disjoint (t2 t) (t2 t') := by decide
theorem t7_disjoint : ∀ t t' : Fin 32, t ≠ t' → Disjoint (t7 t) (t7 t') := by decide
theorem t5_disjoint : ∀ t t' : Fin 32, t ≠ t' → Disjoint (t5 t) (t5 t') := by decide
theorem t9_disjoint : ∀ t t' : Fin 32, t ≠ t' → Disjoint (t9 t) (t9 t') := by decide
theorem t10_disjoint : ∀ t t' : Fin 32, t ≠ t' → Disjoint (t10 t) (t10 t') := by decide

/-! ## Two slices with different indices share no element, and the slices cover their array -/

theorem set2_disjoint {p p' : Fin 17 × Fin 2} (h : p ≠ p') : Disjoint (set2 p) (set2 p') := by
  by_cases h1 : p.1.val = p'.1.val
  · have h2 : p.2.val ≠ p'.2.val := fun e => h (Prod.ext (Fin.ext h1) (Fin.ext e))
    refine Rect.unit_disjoint 2 ?_
    show p.2.val + 1 ≤ p'.2.val ∨ p'.2.val + 1 ≤ p.2.val
    omega
  · refine Rect.unit_disjoint 0 ?_
    show p.1.val + 1 ≤ p'.1.val ∨ p'.1.val + 1 ≤ p.1.val
    omega

theorem set2_cover : Finset.univ.biUnion set2 = (Finset.univ : Finset S17x128x2x128.Idx) := by
  refine Finset.eq_univ_iff_forall.mpr fun i => Finset.mem_biUnion.mpr ⟨(⟨(i 0).val, (i 0).isLt⟩, ⟨(i 2).val, (i 2).isLt⟩), Finset.mem_univ _, ?_⟩
  have h1 : (i 1).val < 128 := (i 1).isLt
  have h3 : (i 3).val < 128 := (i 3).isLt
  refine Rect.mem_set_unit.mpr fun a => ?_
  match a with
  | ⟨0, _⟩ => show (i 0).val ≤ (i 0).val ∧ (i 0).val < (i 0).val + 1; omega
  | ⟨1, _⟩ => show 0 ≤ (i 1).val ∧ (i 1).val < 0 + 128; omega
  | ⟨2, _⟩ => show (i 2).val ≤ (i 2).val ∧ (i 2).val < (i 2).val + 1; omega
  | ⟨3, _⟩ => show 0 ≤ (i 3).val ∧ (i 3).val < 0 + 128; omega

theorem set7_disjoint {j j' : Fin 17} (h : j ≠ j') : Disjoint (set7 j) (set7 j') := by
  have h1 : j.val ≠ j'.val := fun e => h (Fin.ext e)
  refine Rect.unit_disjoint 0 ?_
  show j.val + 1 ≤ j'.val ∨ j'.val + 1 ≤ j.val
  omega

theorem set7_cover : Finset.univ.biUnion set7 = (Finset.univ : Finset S17x128x128.Idx) := by
  refine Finset.eq_univ_iff_forall.mpr fun i => Finset.mem_biUnion.mpr ⟨⟨(i 0).val, (i 0).isLt⟩, Finset.mem_univ _, ?_⟩
  have h1 : (i 1).val < 128 := (i 1).isLt
  have h2 : (i 2).val < 128 := (i 2).isLt
  refine Rect.mem_set_unit.mpr fun a => ?_
  match a with
  | ⟨0, _⟩ => show (i 0).val ≤ (i 0).val ∧ (i 0).val < (i 0).val + 1; omega
  | ⟨1, _⟩ => show 0 ≤ (i 1).val ∧ (i 1).val < 0 + 128; omega
  | ⟨2, _⟩ => show 0 ≤ (i 2).val ∧ (i 2).val < 0 + 128; omega

theorem set5_disjoint {p p' : Fin 14 × Fin 2} (h : p ≠ p') : Disjoint (set5 p) (set5 p') := by
  by_cases h1 : p.1.val = p'.1.val
  · have h2 : p.2.val ≠ p'.2.val := fun e => h (Prod.ext (Fin.ext h1) (Fin.ext e))
    refine Rect.unit_disjoint 2 ?_
    show p.2.val + 1 ≤ p'.2.val ∨ p'.2.val + 1 ≤ p.2.val
    omega
  · refine Rect.unit_disjoint 0 ?_
    show p.1.val + 1 ≤ p'.1.val ∨ p'.1.val + 1 ≤ p.1.val
    omega

theorem set5_cover : Finset.univ.biUnion set5 = (Finset.univ : Finset S14x128x2x128.Idx) := by
  refine Finset.eq_univ_iff_forall.mpr fun i => Finset.mem_biUnion.mpr ⟨(⟨(i 0).val, (i 0).isLt⟩, ⟨(i 2).val, (i 2).isLt⟩), Finset.mem_univ _, ?_⟩
  have h1 : (i 1).val < 128 := (i 1).isLt
  have h3 : (i 3).val < 128 := (i 3).isLt
  refine Rect.mem_set_unit.mpr fun a => ?_
  match a with
  | ⟨0, _⟩ => show (i 0).val ≤ (i 0).val ∧ (i 0).val < (i 0).val + 1; omega
  | ⟨1, _⟩ => show 0 ≤ (i 1).val ∧ (i 1).val < 0 + 128; omega
  | ⟨2, _⟩ => show (i 2).val ≤ (i 2).val ∧ (i 2).val < (i 2).val + 1; omega
  | ⟨3, _⟩ => show 0 ≤ (i 3).val ∧ (i 3).val < 0 + 128; omega

theorem set9_disjoint {l l' : Fin 14} (h : l ≠ l') : Disjoint (set9 l) (set9 l') := by
  have h1 : l.val ≠ l'.val := fun e => h (Fin.ext e)
  refine Rect.unit_disjoint 0 ?_
  show l.val + 1 ≤ l'.val ∨ l'.val + 1 ≤ l.val
  omega

theorem set9_cover : Finset.univ.biUnion set9 = (Finset.univ : Finset S14x128x128.Idx) := by
  refine Finset.eq_univ_iff_forall.mpr fun i => Finset.mem_biUnion.mpr ⟨⟨(i 0).val, (i 0).isLt⟩, Finset.mem_univ _, ?_⟩
  have h1 : (i 1).val < 128 := (i 1).isLt
  have h2 : (i 2).val < 128 := (i 2).isLt
  refine Rect.mem_set_unit.mpr fun a => ?_
  match a with
  | ⟨0, _⟩ => show (i 0).val ≤ (i 0).val ∧ (i 0).val < (i 0).val + 1; omega
  | ⟨1, _⟩ => show 0 ≤ (i 1).val ∧ (i 1).val < 0 + 128; omega
  | ⟨2, _⟩ => show 0 ≤ (i 2).val ∧ (i 2).val < 0 + 128; omega

theorem set10_disjoint {p p' : Fin 9 × Fin 2 × Fin 8} (h : p ≠ p') : Disjoint (set10 p) (set10 p') := by
  by_cases h0 : p.1.val = p'.1.val
  · by_cases h1 : p.2.1.val = p'.2.1.val
    · have h3 : p.2.2.val ≠ p'.2.2.val := fun e => h (Prod.ext (Fin.ext h0) (Prod.ext (Fin.ext h1) (Fin.ext e)))
      refine Rect.unit_disjoint 3 ?_
      show p.2.2.val + 1 ≤ p'.2.2.val ∨ p'.2.2.val + 1 ≤ p.2.2.val
      omega
    · refine Rect.unit_disjoint 1 ?_
      show p.2.1.val + 1 ≤ p'.2.1.val ∨ p'.2.1.val + 1 ≤ p.2.1.val
      omega
  · refine Rect.unit_disjoint 0 ?_
    show p.1.val + 1 ≤ p'.1.val ∨ p'.1.val + 1 ≤ p.1.val
    omega

theorem set10_cover : Finset.univ.biUnion set10 = (Finset.univ : Finset S9x2x128x8x128.Idx) := by
  refine Finset.eq_univ_iff_forall.mpr fun i => Finset.mem_biUnion.mpr
    ⟨(⟨(i 0).val, (i 0).isLt⟩, ⟨(i 1).val, (i 1).isLt⟩, ⟨(i 3).val, (i 3).isLt⟩), Finset.mem_univ _, ?_⟩
  have h2 : (i 2).val < 128 := (i 2).isLt
  have h4 : (i 4).val < 128 := (i 4).isLt
  refine Rect.mem_set_unit.mpr fun a => ?_
  match a with
  | ⟨0, _⟩ => show (i 0).val ≤ (i 0).val ∧ (i 0).val < (i 0).val + 1; omega
  | ⟨1, _⟩ => show (i 1).val ≤ (i 1).val ∧ (i 1).val < (i 1).val + 1; omega
  | ⟨2, _⟩ => show 0 ≤ (i 2).val ∧ (i 2).val < 0 + 128; omega
  | ⟨3, _⟩ => show (i 3).val ≤ (i 3).val ∧ (i 3).val < (i 3).val + 1; omega
  | ⟨4, _⟩ => show 0 ≤ (i 4).val ∧ (i 4).val < 0 + 128; omega

/-! ## A whole array is its slices -/

theorem whole2 (d : Dev nD) (f : Buf (Elt F) (v2L d)) :
    (v2L d ↦{fullShare} f : sProp 𝕄) = bigSep Finset.univ fun p => v2L d ↦[set2 p]{fullShare} f := by
  rw [← pointsTo_biUnion Finset.univ (ℓ := v2L d) set2 (fun p _ p' _ h => set2_disjoint h), set2_cover]; try rfl
theorem whole7 (d : Dev nD) (f : Buf (Elt F) (v7L d)) :
    (v7L d ↦{fullShare} f : sProp 𝕄) = bigSep Finset.univ fun j => v7L d ↦[set7 j]{fullShare} f := by
  rw [← pointsTo_biUnion Finset.univ (ℓ := v7L d) set7 (fun p _ p' _ h => set7_disjoint h), set7_cover]; try rfl
theorem whole5 (d : Dev nD) (f : Buf (Elt F) (v5L d)) :
    (v5L d ↦{fullShare} f : sProp 𝕄) = bigSep Finset.univ fun p => v5L d ↦[set5 p]{fullShare} f := by
  rw [← pointsTo_biUnion Finset.univ (ℓ := v5L d) set5 (fun p _ p' _ h => set5_disjoint h), set5_cover]; try rfl
theorem whole9 (d : Dev nD) (f : Buf (Elt F) (v9L d)) :
    (v9L d ↦{fullShare} f : sProp 𝕄) = bigSep Finset.univ fun l => v9L d ↦[set9 l]{fullShare} f := by
  rw [← pointsTo_biUnion Finset.univ (ℓ := v9L d) set9 (fun p _ p' _ h => set9_disjoint h), set9_cover]; try rfl
theorem whole10 (d : Dev nD) (f : Buf (Elt F) (v10L d)) :
    (v10L d ↦{fullShare} f : sProp 𝕄) = bigSep Finset.univ fun p => v10L d ↦[set10 p]{fullShare} f := by
  rw [← pointsTo_biUnion Finset.univ (ℓ := v10L d) set10 (fun p _ p' _ h => set10_disjoint h), set10_cover]; try rfl

/-! ## Thirty-two tiles, numbered by core and subcore -/

/-- A conjunction over the thirty-two tiles is the conjunction over the two cores of the conjunctions over their sixteen
    subcores: `tileIx` numbers every tile once. -/
theorem bigSep_tiles (Ψ : Fin 32 → sProp 𝕄) :
    bigSep Finset.univ Ψ = bigSep Finset.univ fun c : Fin 2 => bigSep Finset.univ fun i : Fin 16 => Ψ (tileIx c i) := by
  have himg : (Finset.univ : Finset (Fin 2 × Fin 16)).image (fun p => tileIx p.1 p.2) = Finset.univ :=
    Finset.eq_univ_iff_forall.mpr fun t => Finset.mem_image.mpr
      ⟨(⟨t.val % 2, by omega⟩, ⟨t.val / 2, by have := t.isLt; omega⟩), Finset.mem_univ _,
        Fin.ext (by show 2 * (t.val / 2) + t.val % 2 = t.val; omega)⟩
  have hinj : Set.InjOn (fun p : Fin 2 × Fin 16 => tileIx p.1 p.2) (Finset.univ : Finset (Fin 2 × Fin 16)) := by
    intro p _ p' _ e
    have e' : 2 * p.2.val + p.1.val = 2 * p'.2.val + p'.1.val := congrArg Fin.val e
    have := p.1.isLt
    have := p'.1.isLt
    exact Prod.ext (Fin.ext (by omega)) (Fin.ext (by omega))
  rw [← himg, SparseCore.bigSep_image_of_injOn hinj, bigSep_univ_prod]

/-! ## Five families over the slices, regrouped by tile -/

/-- Five conjunctions, one over all the slices of each array, are the conjunction over the tiles of what the tables give
    each tile, and the conjunctions over the slices the tables give nobody. -/
theorem regroup (Φ2 : Fin 17 × Fin 2 → sProp 𝕄) (Φ7 : Fin 17 → sProp 𝕄) (Φ5 : Fin 14 × Fin 2 → sProp 𝕄) (Φ9 : Fin 14 → sProp 𝕄)
    (Φ10 : Fin 9 × Fin 2 × Fin 8 → sProp 𝕄) :
    (iprop(bigSep Finset.univ Φ2 ∗ bigSep Finset.univ Φ7 ∗ bigSep Finset.univ Φ5 ∗ bigSep Finset.univ Φ9 ∗ bigSep Finset.univ Φ10) : sProp 𝕄)
      = iprop((bigSep Finset.univ fun c : Fin 2 => bigSep Finset.univ fun i : Fin 16 =>
            iprop(bigSep (t2 (tileIx c i)) Φ2 ∗ bigSep (t7 (tileIx c i)) Φ7 ∗ bigSep (t5 (tileIx c i)) Φ5 ∗ bigSep (t9 (tileIx c i)) Φ9
              ∗ bigSep (t10 (tileIx c i)) Φ10))
          ∗ (bigSep (Finset.univ \ Finset.univ.biUnion t2) Φ2 ∗ bigSep (Finset.univ \ Finset.univ.biUnion t7) Φ7
            ∗ bigSep (Finset.univ \ Finset.univ.biUnion t5) Φ5 ∗ bigSep (Finset.univ \ Finset.univ.biUnion t9) Φ9
            ∗ bigSep (Finset.univ \ Finset.univ.biUnion t10) Φ10)) := by
  rw [← bigSep_tiles (fun t => iprop(bigSep (t2 t) Φ2 ∗ bigSep (t7 t) Φ7 ∗ bigSep (t5 t) Φ5 ∗ bigSep (t9 t) Φ9 ∗ bigSep (t10 t) Φ10)),
    bigSep_sep', bigSep_sep', bigSep_sep', bigSep_sep',
    Cert.LibBigSepBiUnion.bigSep_univ_table Finset.univ t2 (fun t _ t' _ h => t2_disjoint t t' h) Φ2,
    Cert.LibBigSepBiUnion.bigSep_univ_table Finset.univ t7 (fun t _ t' _ h => t7_disjoint t t' h) Φ7,
    Cert.LibBigSepBiUnion.bigSep_univ_table Finset.univ t5 (fun t _ t' _ h => t5_disjoint t t' h) Φ5,
    Cert.LibBigSepBiUnion.bigSep_univ_table Finset.univ t9 (fun t _ t' _ h => t9_disjoint t t' h) Φ9,
    Cert.LibBigSepBiUnion.bigSep_univ_table Finset.univ t10 (fun t _ t' _ h => t10_disjoint t t' h) Φ10]
  exact Cert.LibBigSepBiUnion.sep_unzip5 _ _ _ _ _ _ _ _ _ _

/-! ## The slices no tile fills: the output's limb rows 14 and 15 keep what they held -/

theorem unused10 : ∀ p : Fin 9 × Fin 2 × Fin 8, (∀ t : Fin 32, p ∉ t10 t) → 14 ≤ 8 * p.2.1.val + p.2.2.val := by decide

variable (m : (ℓ : Loc nD τ sig) → Buf (Elt F) ℓ)

/-- On a slice no tile fills the array the kernel must leave behind is the array as it stood. -/
theorem B0_eq_B1 (d : Dev nD) (p : Fin 9 × Fin 2 × Fin 8) (hp : p ∈ Finset.univ \ Finset.univ.biUnion t10) : B0 m d p = B1 m d p := by
  have h14 : 14 ≤ 8 * p.2.1.val + p.2.2.val :=
    unused10 p fun t ht => (Finset.mem_sdiff.mp hp).2 (Finset.mem_biUnion.mpr ⟨t, Finset.mem_univ _, ht⟩)
  unfold B0 B1
  refine pointsTo_congr fun (i : S9x2x128x8x128.Idx) hi => ?_
  have hi' := Rect.mem_set_unit.mp hi
  have h1 : p.2.1.val ≤ (i 1).val ∧ (i 1).val < p.2.1.val + 1 := hi' 1
  have h3 : p.2.2.val ≤ (i 3).val ∧ (i 3).val < p.2.2.val + 1 := hi' 3
  show m (v10L d) i = Cert.Layout.outV (m (arg0L d)) (m (arg1L d)) (m (arg2L d)) (m (arg3L d)) (m (v10L d)) i
  unfold Cert.Layout.outV
  split
  · rename_i hlt
    exact absurd hlt (by omega)
  · rfl

/-! ## Splitting the five arrays among the tiles, and joining them back -/

theorem split_all (d : Dev nD) :
    (iprop((v2L d ↦{fullShare} V2c m d) ∗ (v7L d ↦{fullShare} V7c m d) ∗ (v5L d ↦{fullShare} V5c m d) ∗ (v9L d ↦{fullShare} V9c m d)
        ∗ (v10L d ↦{fullShare} m (v10L d))) : sProp 𝕄)
      ⊢ iprop((bigSep Finset.univ fun c : Fin 2 => bigSep Finset.univ fun i : Fin 16 => tileG m d (tileIx c i)) ∗ restG m d) := by
  rw [whole2 d (V2c m d), whole7 d (V7c m d), whole5 d (V5c m d), whole9 d (V9c m d), whole10 d (m (v10L d))]
  exact Entails.of_eq (regroup (A2 m d) (A7 m d) (A5 m d) (A9 m d) (B0 m d))

theorem join_all (d : Dev nD) :
    (iprop((bigSep Finset.univ fun c : Fin 2 => bigSep Finset.univ fun i : Fin 16 => tileT m d (tileIx c i)) ∗ restG m d) : sProp 𝕄)
      ⊢ iprop((v2L d ↦{fullShare} V2c m d) ∗ (v7L d ↦{fullShare} V7c m d) ∗ (v5L d ↦{fullShare} V5c m d) ∗ (v9L d ↦{fullShare} V9c m d)
        ∗ (v10L d ↦{fullShare} OUTc m d)) := by
  rw [whole2 d (V2c m d), whole7 d (V7c m d), whole5 d (V5c m d), whole9 d (V9c m d), whole10 d (OUTc m d)]
  have hrest : restG m d
      = iprop(bigSep (Finset.univ \ Finset.univ.biUnion t2) (A2 m d) ∗ bigSep (Finset.univ \ Finset.univ.biUnion t7) (A7 m d)
          ∗ bigSep (Finset.univ \ Finset.univ.biUnion t5) (A5 m d) ∗ bigSep (Finset.univ \ Finset.univ.biUnion t9) (A9 m d)
          ∗ bigSep (Finset.univ \ Finset.univ.biUnion t10) (B1 m d)) := by
    unfold restG
    rw [bigSep_congr (s := Finset.univ \ Finset.univ.biUnion t10) (Φ := B0 m d) (Ψ := B1 m d) (B0_eq_B1 m d)]
  rw [hrest]
  exact Entails.of_eq (regroup (A2 m d) (A7 m d) (A5 m d) (A9 m d) (B1 m d)).symm

end Cert.Proof.KI

end
-- ==== Proof.KIPay.lean ====
/-
  What the launch of `KernelIdeal`'s kernel hands over: each core its sixteen tiles' slices, each tile its own, back filled;
  and the launch element of the ghost state, which holds nothing of the kernel's own.
-/
import proofs.«210185_g18468359372994_cont_8to1_1390_15_alg».proof.Proof.KIRegroup
import proofs.«210185_g18468359372994_cont_8to1_1390_15_alg».proof.Proof.LayoutLemmas

set_option maxHeartbeats 1600000

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

/-! ## What the handshakes carry -/

/-- The tile a subcore of a core is, by numbers. -/
def tileN (c i : ℕ) : Fin 32 := if h : 2 * i + c < 32 then ⟨2 * i + c, h⟩ else 0

theorem tileN_eq (c : Fin 2) (i : Fin 16) : tileN c.val i.val = tileIx c i := by
  unfold tileN tileIx; rw [dif_pos (by omega)]

/-- The call hands each core its sixteen tiles' slices, each tile its own, and takes them back filled. -/
def P : (K (F := F)).Pay (nD := nD) (Val := Elt F) (Name := ℕ) (U := UU) where
  st := fun _ d c => bigSep (Finset.univ : Finset (Fin 16)) fun i => tileG m d (tileN c.val i.val)
  dn := fun _ d c => bigSep (Finset.univ : Finset (Fin 16)) fun i => tileT m d (tileN c.val i.val)
  go := fun _ d c i => tileG m d (tileN c.val i.val)
  td := fun _ d c i => tileT m d (tileN c.val i.val)
  x := fun _ _ => iprop(emp)

instance tileG_storable (d : Dev nD) (t : Fin 32) : BI.Storable (upEmb : UEmb _ 𝕄) (tileG m d t) := by
  unfold tileG A2 A7 A5 A9 B0; infer_instance
instance tileT_storable (d : Dev nD) (t : Fin 32) : BI.Storable (upEmb : UEmb _ 𝕄) (tileT m d t) := by
  unfold tileT A2 A7 A5 A9 B1; infer_instance

instance P_storable : (P (F := F) m).IsStorable where
  st _ d c := by unfold P; infer_instance
  dn _ d c := by unfold P; infer_instance
  go _ _ _ _ := by unfold P; infer_instance
  td _ _ _ _ := by unfold P; infer_instance

theorem vecSplit : (K (F := F)).VecSplit' (P m) 0 := by
  intro d c
  show (bigSep (Finset.univ : Finset (Fin 16)) fun i => tileG m d (tileN c.val i.val)) ⊢ |={Set.univ}=> iprop(
      (bigSep Finset.univ fun i : Fin ((K (F := F)).nSub 0) => tileG m d (tileN c.val i.val))
      ∗ ((bigSep Finset.univ fun i : Fin ((K (F := F)).nSub 0) => tileT m d (tileN c.val i.val))
          -∗ bigSep (Finset.univ : Finset (Fin 16)) fun i => tileT m d (tileN c.val i.val)))
  iintro H; imodintro
  isplitl [H]; · iexact H
  iintro H; iexact H

/-! ## The launch element: the handshakes' rounds; nothing of the kernel's own -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

end Cert.Proof.KI

end
-- ==== Proof.KIObl.lean ====
/-
  The obligation of `KernelIdeal`'s kernel as one tile's task: whichever of the thirty-two tiles it is, from its slices as
  they stand to its slices filled.
-/
import proofs.«210185_g18468359372994_cont_8to1_1390_15_alg».proof.Proof.KITile0
import proofs.«210185_g18468359372994_cont_8to1_1390_15_alg».proof.Proof.KITile1
import proofs.«210185_g18468359372994_cont_8to1_1390_15_alg».proof.Proof.KITile2
import proofs.«210185_g18468359372994_cont_8to1_1390_15_alg».proof.Proof.KITile3
import proofs.«210185_g18468359372994_cont_8to1_1390_15_alg».proof.Proof.KITile4
import proofs.«210185_g18468359372994_cont_8to1_1390_15_alg».proof.Proof.KITile5
import proofs.«210185_g18468359372994_cont_8to1_1390_15_alg».proof.Proof.KITile6
import proofs.«210185_g18468359372994_cont_8to1_1390_15_alg».proof.Proof.KITile7
import proofs.«210185_g18468359372994_cont_8to1_1390_15_alg».proof.Proof.KITile8
import proofs.«210185_g18468359372994_cont_8to1_1390_15_alg».proof.Proof.KITile9
import proofs.«210185_g18468359372994_cont_8to1_1390_15_alg».proof.Proof.KITile10
import proofs.«210185_g18468359372994_cont_8to1_1390_15_alg».proof.Proof.KITile11
import proofs.«210185_g18468359372994_cont_8to1_1390_15_alg».proof.Proof.KITile12
import proofs.«210185_g18468359372994_cont_8to1_1390_15_alg».proof.Proof.KITile13
import proofs.«210185_g18468359372994_cont_8to1_1390_15_alg».proof.Proof.KITile14
import proofs.«210185_g18468359372994_cont_8to1_1390_15_alg».proof.Proof.KITile15
import proofs.«210185_g18468359372994_cont_8to1_1390_15_alg».proof.Proof.KITile16
import proofs.«210185_g18468359372994_cont_8to1_1390_15_alg».proof.Proof.KITile17
import proofs.«210185_g18468359372994_cont_8to1_1390_15_alg».proof.Proof.KITile18
import proofs.«210185_g18468359372994_cont_8to1_1390_15_alg».proof.Proof.KITile19
import proofs.«210185_g18468359372994_cont_8to1_1390_15_alg».proof.Proof.KITile20
import proofs.«210185_g18468359372994_cont_8to1_1390_15_alg».proof.Proof.KITile21
import proofs.«210185_g18468359372994_cont_8to1_1390_15_alg».proof.Proof.KITile22
import proofs.«210185_g18468359372994_cont_8to1_1390_15_alg».proof.Proof.KITile23
import proofs.«210185_g18468359372994_cont_8to1_1390_15_alg».proof.Proof.KITile24
import proofs.«210185_g18468359372994_cont_8to1_1390_15_alg».proof.Proof.KITile25
import proofs.«210185_g18468359372994_cont_8to1_1390_15_alg».proof.Proof.KITile26
import proofs.«210185_g18468359372994_cont_8to1_1390_15_alg».proof.Proof.KITile27
import proofs.«210185_g18468359372994_cont_8to1_1390_15_alg».proof.Proof.KITile28
import proofs.«210185_g18468359372994_cont_8to1_1390_15_alg».proof.Proof.KITile29
import proofs.«210185_g18468359372994_cont_8to1_1390_15_alg».proof.Proof.KITile30
import proofs.«210185_g18468359372994_cont_8to1_1390_15_alg».proof.Proof.KITile31
import proofs.«210185_g18468359372994_cont_8to1_1390_15_alg».proof.Proof.KIPay

set_option maxHeartbeats 4000000

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ)

theorem defs₀_vector [FloatOps F] (c : Fin τ.nSC) (s : Fin τ.nSub) :
    defs₀ (F := F) (.scVector c s) 0 ()
      = SparseCore.onTile hcore0 hsub0 (fun c s => cc0_run (coordsV c s) (Memref.whole main_v2_scv) (Memref.isWhole_whole _) (Memref.whole main_v7_scv) (Memref.isWhole_whole _) (Memref.whole main_v5_scv) (Memref.isWhole_whole _) (Memref.whole main_v9_scv) (Memref.isWhole_whole _) (Memref.whole main_v10_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem drop_x {A B : sProp 𝕄} : iprop(A ∗ emp ∗ B) ⊢ iprop(A ∗ B) := by
  iintro ⟨HA, -, HB⟩
  isplitl [HA]; · iexact HA
  iexact HB

/-- The obligation at one tile of one core. -/
def OblAt [FloatOps F] (d : Dev nD) (c : Fin ((K (F := F)).nCore 0)) (i : Fin ((K (F := F)).nSub 0))
    (O : CellTallies nD τ sig (HIx 1)) (W : Waits sig (HIx 1)) : Prop :=
  iprop(levAts (K (F := F)).L (K (F := F)).lev ∗ (P m).x 0 (V d ((K (F := F)).core 0 c) ((K (F := F)).sub 0 i)) ∗ (P m).go 0 d c i
        ∗ scopedBufs (V d ((K (F := F)).core 0 c) ((K (F := F)).sub 0 i)) ∗ scopedSems0 (V d ((K (F := F)).core 0 c) ((K (F := F)).sub 0 i))
        ∗ owes (V d ((K (F := F)).core 0 c) ((K (F := F)).sub 0 i)) (O + (P m).ox 0 (V d ((K (F := F)).core 0 c) ((K (F := F)).sub 0 i))) W)
      ⊢ wp frame (wpE (D (F := F)) 𝒱 (V d ((K (F := F)).core 0 c) ((K (F := F)).sub 0 i)) (some v₀)) Set.univ
          (D (F := F) (.scVector ((K (F := F)).core 0 c) ((K (F := F)).sub 0 i)) ((K (F := F)).body 0) ((K (F := F)).args 0)) fun _ =>
          iprop((P m).td 0 d c i ∗ scopedBufs (V d ((K (F := F)).core 0 c) ((K (F := F)).sub 0 i)) ∗ scopedSems0 (V d ((K (F := F)).core 0 c) ((K (F := F)).sub 0 i))
            ∗ ∃ W', ⌜∀ p ∈ W', p ∈ W ∨ p.2 = none ∨ p.2 = some (0 : Fin 1)⌝ ∗ owes (V d ((K (F := F)).core 0 c) ((K (F := F)).sub 0 i)) O W')

/-- From the tile's own run, stated at its own coordinates, to the obligation. -/
theorem obl_of [FloatOps F] (d : Dev nD) (c : Fin ((K (F := F)).nCore 0)) (i : Fin ((K (F := F)).nSub 0))
    (O : CellTallies nD τ sig (HIx 1)) (W : Waits sig (HIx 1))
    (hrun : (iprop(levAts (K (F := F)).L (K (F := F)).lev ∗ tileG m d (tileN c.val i.val)
        ∗ scopedBufs (V d (cV (coordsV ⟨c.val, c.isLt⟩ ⟨i.val, i.isLt⟩)) (jV (coordsV ⟨c.val, c.isLt⟩ ⟨i.val, i.isLt⟩)))
        ∗ scopedSems0 (V d (cV (coordsV ⟨c.val, c.isLt⟩ ⟨i.val, i.isLt⟩)) (jV (coordsV ⟨c.val, c.isLt⟩ ⟨i.val, i.isLt⟩)))
        ∗ owes (V d (cV (coordsV ⟨c.val, c.isLt⟩ ⟨i.val, i.isLt⟩)) (jV (coordsV ⟨c.val, c.isLt⟩ ⟨i.val, i.isLt⟩))) O W) : sProp 𝕄)
      ⊢ wp frame (wpE (defs₀ (F := F)) 𝒱₀ (V d (cV (coordsV ⟨c.val, c.isLt⟩ ⟨i.val, i.isLt⟩)) (jV (coordsV ⟨c.val, c.isLt⟩ ⟨i.val, i.isLt⟩))) none) Set.univ
          (cc0_run (coordsV ⟨c.val, c.isLt⟩ ⟨i.val, i.isLt⟩) (Memref.whole main_v2_scv) (Memref.isWhole_whole _) (Memref.whole main_v7_scv) (Memref.isWhole_whole _) (Memref.whole main_v5_scv) (Memref.isWhole_whole _) (Memref.whole main_v9_scv) (Memref.isWhole_whole _) (Memref.whole main_v10_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8)
          fun _ => iprop(tileT m d (tileN c.val i.val)
            ∗ scopedBufs (V d (cV (coordsV ⟨c.val, c.isLt⟩ ⟨i.val, i.isLt⟩)) (jV (coordsV ⟨c.val, c.isLt⟩ ⟨i.val, i.isLt⟩)))
            ∗ scopedSems0 (V d (cV (coordsV ⟨c.val, c.isLt⟩ ⟨i.val, i.isLt⟩)) (jV (coordsV ⟨c.val, c.isLt⟩ ⟨i.val, i.isLt⟩)))
            ∗ ∃ W', ⌜∀ p ∈ W', p ∈ W ∨ p.2 = none⌝ ∗ owes (V d (cV (coordsV ⟨c.val, c.isLt⟩ ⟨i.val, i.isLt⟩)) (jV (coordsV ⟨c.val, c.isLt⟩ ⟨i.val, i.isLt⟩))) O W')) :
    OblAt m d c i O W := by
  unfold OblAt
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (drop_x.trans hrun).trans (wp_mono frame _ _ fun _ => obl_post)

theorem arm_0_0 [FloatOps F] [∀ e, Nonempty (Elt F e)] (d : Dev nD) (O : CellTallies nD τ sig (HIx 1)) (W : Waits sig (HIx 1)) (hO : ∀ g, O g none = 0)
    (h0 : 0 < (K (F := F)).nCore 0) (h1 : 0 < (K (F := F)).nSub 0) : OblAt m d ⟨0, h0⟩ ⟨0, h1⟩ O W :=
  obl_of m d ⟨0, h0⟩ ⟨0, h1⟩ O W (Tile0.run m d O W hO)
theorem arm_0_1 [FloatOps F] [∀ e, Nonempty (Elt F e)] (d : Dev nD) (O : CellTallies nD τ sig (HIx 1)) (W : Waits sig (HIx 1)) (hO : ∀ g, O g none = 0)
    (h0 : 0 < (K (F := F)).nCore 0) (h1 : 1 < (K (F := F)).nSub 0) : OblAt m d ⟨0, h0⟩ ⟨1, h1⟩ O W :=
  obl_of m d ⟨0, h0⟩ ⟨1, h1⟩ O W (Tile2.run m d O W hO)
theorem arm_0_2 [FloatOps F] [∀ e, Nonempty (Elt F e)] (d : Dev nD) (O : CellTallies nD τ sig (HIx 1)) (W : Waits sig (HIx 1)) (hO : ∀ g, O g none = 0)
    (h0 : 0 < (K (F := F)).nCore 0) (h1 : 2 < (K (F := F)).nSub 0) : OblAt m d ⟨0, h0⟩ ⟨2, h1⟩ O W :=
  obl_of m d ⟨0, h0⟩ ⟨2, h1⟩ O W (Tile4.run m d O W hO)
theorem arm_0_3 [FloatOps F] [∀ e, Nonempty (Elt F e)] (d : Dev nD) (O : CellTallies nD τ sig (HIx 1)) (W : Waits sig (HIx 1)) (hO : ∀ g, O g none = 0)
    (h0 : 0 < (K (F := F)).nCore 0) (h1 : 3 < (K (F := F)).nSub 0) : OblAt m d ⟨0, h0⟩ ⟨3, h1⟩ O W :=
  obl_of m d ⟨0, h0⟩ ⟨3, h1⟩ O W (Tile6.run m d O W hO)
theorem arm_0_4 [FloatOps F] [∀ e, Nonempty (Elt F e)] (d : Dev nD) (O : CellTallies nD τ sig (HIx 1)) (W : Waits sig (HIx 1)) (hO : ∀ g, O g none = 0)
    (h0 : 0 < (K (F := F)).nCore 0) (h1 : 4 < (K (F := F)).nSub 0) : OblAt m d ⟨0, h0⟩ ⟨4, h1⟩ O W :=
  obl_of m d ⟨0, h0⟩ ⟨4, h1⟩ O W (Tile8.run m d O W hO)
theorem arm_0_5 [FloatOps F] [∀ e, Nonempty (Elt F e)] (d : Dev nD) (O : CellTallies nD τ sig (HIx 1)) (W : Waits sig (HIx 1)) (hO : ∀ g, O g none = 0)
    (h0 : 0 < (K (F := F)).nCore 0) (h1 : 5 < (K (F := F)).nSub 0) : OblAt m d ⟨0, h0⟩ ⟨5, h1⟩ O W :=
  obl_of m d ⟨0, h0⟩ ⟨5, h1⟩ O W (Tile10.run m d O W hO)
theorem arm_0_6 [FloatOps F] [∀ e, Nonempty (Elt F e)] (d : Dev nD) (O : CellTallies nD τ sig (HIx 1)) (W : Waits sig (HIx 1)) (hO : ∀ g, O g none = 0)
    (h0 : 0 < (K (F := F)).nCore 0) (h1 : 6 < (K (F := F)).nSub 0) : OblAt m d ⟨0, h0⟩ ⟨6, h1⟩ O W :=
  obl_of m d ⟨0, h0⟩ ⟨6, h1⟩ O W (Tile12.run m d O W hO)
theorem arm_0_7 [FloatOps F] [∀ e, Nonempty (Elt F e)] (d : Dev nD) (O : CellTallies nD τ sig (HIx 1)) (W : Waits sig (HIx 1)) (hO : ∀ g, O g none = 0)
    (h0 : 0 < (K (F := F)).nCore 0) (h1 : 7 < (K (F := F)).nSub 0) : OblAt m d ⟨0, h0⟩ ⟨7, h1⟩ O W :=
  obl_of m d ⟨0, h0⟩ ⟨7, h1⟩ O W (Tile14.run m d O W hO)
theorem arm_0_8 [FloatOps F] [∀ e, Nonempty (Elt F e)] (d : Dev nD) (O : CellTallies nD τ sig (HIx 1)) (W : Waits sig (HIx 1)) (hO : ∀ g, O g none = 0)
    (h0 : 0 < (K (F := F)).nCore 0) (h1 : 8 < (K (F := F)).nSub 0) : OblAt m d ⟨0, h0⟩ ⟨8, h1⟩ O W :=
  obl_of m d ⟨0, h0⟩ ⟨8, h1⟩ O W (Tile16.run m d O W hO)
theorem arm_0_9 [FloatOps F] [∀ e, Nonempty (Elt F e)] (d : Dev nD) (O : CellTallies nD τ sig (HIx 1)) (W : Waits sig (HIx 1)) (hO : ∀ g, O g none = 0)
    (h0 : 0 < (K (F := F)).nCore 0) (h1 : 9 < (K (F := F)).nSub 0) : OblAt m d ⟨0, h0⟩ ⟨9, h1⟩ O W :=
  obl_of m d ⟨0, h0⟩ ⟨9, h1⟩ O W (Tile18.run m d O W hO)
theorem arm_0_10 [FloatOps F] [∀ e, Nonempty (Elt F e)] (d : Dev nD) (O : CellTallies nD τ sig (HIx 1)) (W : Waits sig (HIx 1)) (hO : ∀ g, O g none = 0)
    (h0 : 0 < (K (F := F)).nCore 0) (h1 : 10 < (K (F := F)).nSub 0) : OblAt m d ⟨0, h0⟩ ⟨10, h1⟩ O W :=
  obl_of m d ⟨0, h0⟩ ⟨10, h1⟩ O W (Tile20.run m d O W hO)
theorem arm_0_11 [FloatOps F] [∀ e, Nonempty (Elt F e)] (d : Dev nD) (O : CellTallies nD τ sig (HIx 1)) (W : Waits sig (HIx 1)) (hO : ∀ g, O g none = 0)
    (h0 : 0 < (K (F := F)).nCore 0) (h1 : 11 < (K (F := F)).nSub 0) : OblAt m d ⟨0, h0⟩ ⟨11, h1⟩ O W :=
  obl_of m d ⟨0, h0⟩ ⟨11, h1⟩ O W (Tile22.run m d O W hO)
theorem arm_0_12 [FloatOps F] [∀ e, Nonempty (Elt F e)] (d : Dev nD) (O : CellTallies nD τ sig (HIx 1)) (W : Waits sig (HIx 1)) (hO : ∀ g, O g none = 0)
    (h0 : 0 < (K (F := F)).nCore 0) (h1 : 12 < (K (F := F)).nSub 0) : OblAt m d ⟨0, h0⟩ ⟨12, h1⟩ O W :=
  obl_of m d ⟨0, h0⟩ ⟨12, h1⟩ O W (Tile24.run m d O W hO)
theorem arm_0_13 [FloatOps F] [∀ e, Nonempty (Elt F e)] (d : Dev nD) (O : CellTallies nD τ sig (HIx 1)) (W : Waits sig (HIx 1)) (hO : ∀ g, O g none = 0)
    (h0 : 0 < (K (F := F)).nCore 0) (h1 : 13 < (K (F := F)).nSub 0) : OblAt m d ⟨0, h0⟩ ⟨13, h1⟩ O W :=
  obl_of m d ⟨0, h0⟩ ⟨13, h1⟩ O W (Tile26.run m d O W hO)
theorem arm_0_14 [FloatOps F] [∀ e, Nonempty (Elt F e)] (d : Dev nD) (O : CellTallies nD τ sig (HIx 1)) (W : Waits sig (HIx 1)) (hO : ∀ g, O g none = 0)
    (h0 : 0 < (K (F := F)).nCore 0) (h1 : 14 < (K (F := F)).nSub 0) : OblAt m d ⟨0, h0⟩ ⟨14, h1⟩ O W :=
  obl_of m d ⟨0, h0⟩ ⟨14, h1⟩ O W (Tile28.run m d O W hO)
theorem arm_0_15 [FloatOps F] [∀ e, Nonempty (Elt F e)] (d : Dev nD) (O : CellTallies nD τ sig (HIx 1)) (W : Waits sig (HIx 1)) (hO : ∀ g, O g none = 0)
    (h0 : 0 < (K (F := F)).nCore 0) (h1 : 15 < (K (F := F)).nSub 0) : OblAt m d ⟨0, h0⟩ ⟨15, h1⟩ O W :=
  obl_of m d ⟨0, h0⟩ ⟨15, h1⟩ O W (Tile30.run m d O W hO)
theorem arm_1_0 [FloatOps F] [∀ e, Nonempty (Elt F e)] (d : Dev nD) (O : CellTallies nD τ sig (HIx 1)) (W : Waits sig (HIx 1)) (hO : ∀ g, O g none = 0)
    (h0 : 1 < (K (F := F)).nCore 0) (h1 : 0 < (K (F := F)).nSub 0) : OblAt m d ⟨1, h0⟩ ⟨0, h1⟩ O W :=
  obl_of m d ⟨1, h0⟩ ⟨0, h1⟩ O W (Tile1.run m d O W hO)
theorem arm_1_1 [FloatOps F] [∀ e, Nonempty (Elt F e)] (d : Dev nD) (O : CellTallies nD τ sig (HIx 1)) (W : Waits sig (HIx 1)) (hO : ∀ g, O g none = 0)
    (h0 : 1 < (K (F := F)).nCore 0) (h1 : 1 < (K (F := F)).nSub 0) : OblAt m d ⟨1, h0⟩ ⟨1, h1⟩ O W :=
  obl_of m d ⟨1, h0⟩ ⟨1, h1⟩ O W (Tile3.run m d O W hO)
theorem arm_1_2 [FloatOps F] [∀ e, Nonempty (Elt F e)] (d : Dev nD) (O : CellTallies nD τ sig (HIx 1)) (W : Waits sig (HIx 1)) (hO : ∀ g, O g none = 0)
    (h0 : 1 < (K (F := F)).nCore 0) (h1 : 2 < (K (F := F)).nSub 0) : OblAt m d ⟨1, h0⟩ ⟨2, h1⟩ O W :=
  obl_of m d ⟨1, h0⟩ ⟨2, h1⟩ O W (Tile5.run m d O W hO)
theorem arm_1_3 [FloatOps F] [∀ e, Nonempty (Elt F e)] (d : Dev nD) (O : CellTallies nD τ sig (HIx 1)) (W : Waits sig (HIx 1)) (hO : ∀ g, O g none = 0)
    (h0 : 1 < (K (F := F)).nCore 0) (h1 : 3 < (K (F := F)).nSub 0) : OblAt m d ⟨1, h0⟩ ⟨3, h1⟩ O W :=
  obl_of m d ⟨1, h0⟩ ⟨3, h1⟩ O W (Tile7.run m d O W hO)
theorem arm_1_4 [FloatOps F] [∀ e, Nonempty (Elt F e)] (d : Dev nD) (O : CellTallies nD τ sig (HIx 1)) (W : Waits sig (HIx 1)) (hO : ∀ g, O g none = 0)
    (h0 : 1 < (K (F := F)).nCore 0) (h1 : 4 < (K (F := F)).nSub 0) : OblAt m d ⟨1, h0⟩ ⟨4, h1⟩ O W :=
  obl_of m d ⟨1, h0⟩ ⟨4, h1⟩ O W (Tile9.run m d O W hO)
theorem arm_1_5 [FloatOps F] [∀ e, Nonempty (Elt F e)] (d : Dev nD) (O : CellTallies nD τ sig (HIx 1)) (W : Waits sig (HIx 1)) (hO : ∀ g, O g none = 0)
    (h0 : 1 < (K (F := F)).nCore 0) (h1 : 5 < (K (F := F)).nSub 0) : OblAt m d ⟨1, h0⟩ ⟨5, h1⟩ O W :=
  obl_of m d ⟨1, h0⟩ ⟨5, h1⟩ O W (Tile11.run m d O W hO)
theorem arm_1_6 [FloatOps F] [∀ e, Nonempty (Elt F e)] (d : Dev nD) (O : CellTallies nD τ sig (HIx 1)) (W : Waits sig (HIx 1)) (hO : ∀ g, O g none = 0)
    (h0 : 1 < (K (F := F)).nCore 0) (h1 : 6 < (K (F := F)).nSub 0) : OblAt m d ⟨1, h0⟩ ⟨6, h1⟩ O W :=
  obl_of m d ⟨1, h0⟩ ⟨6, h1⟩ O W (Tile13.run m d O W hO)
theorem arm_1_7 [FloatOps F] [∀ e, Nonempty (Elt F e)] (d : Dev nD) (O : CellTallies nD τ sig (HIx 1)) (W : Waits sig (HIx 1)) (hO : ∀ g, O g none = 0)
    (h0 : 1 < (K (F := F)).nCore 0) (h1 : 7 < (K (F := F)).nSub 0) : OblAt m d ⟨1, h0⟩ ⟨7, h1⟩ O W :=
  obl_of m d ⟨1, h0⟩ ⟨7, h1⟩ O W (Tile15.run m d O W hO)
theorem arm_1_8 [FloatOps F] [∀ e, Nonempty (Elt F e)] (d : Dev nD) (O : CellTallies nD τ sig (HIx 1)) (W : Waits sig (HIx 1)) (hO : ∀ g, O g none = 0)
    (h0 : 1 < (K (F := F)).nCore 0) (h1 : 8 < (K (F := F)).nSub 0) : OblAt m d ⟨1, h0⟩ ⟨8, h1⟩ O W :=
  obl_of m d ⟨1, h0⟩ ⟨8, h1⟩ O W (Tile17.run m d O W hO)
theorem arm_1_9 [FloatOps F] [∀ e, Nonempty (Elt F e)] (d : Dev nD) (O : CellTallies nD τ sig (HIx 1)) (W : Waits sig (HIx 1)) (hO : ∀ g, O g none = 0)
    (h0 : 1 < (K (F := F)).nCore 0) (h1 : 9 < (K (F := F)).nSub 0) : OblAt m d ⟨1, h0⟩ ⟨9, h1⟩ O W :=
  obl_of m d ⟨1, h0⟩ ⟨9, h1⟩ O W (Tile19.run m d O W hO)
theorem arm_1_10 [FloatOps F] [∀ e, Nonempty (Elt F e)] (d : Dev nD) (O : CellTallies nD τ sig (HIx 1)) (W : Waits sig (HIx 1)) (hO : ∀ g, O g none = 0)
    (h0 : 1 < (K (F := F)).nCore 0) (h1 : 10 < (K (F := F)).nSub 0) : OblAt m d ⟨1, h0⟩ ⟨10, h1⟩ O W :=
  obl_of m d ⟨1, h0⟩ ⟨10, h1⟩ O W (Tile21.run m d O W hO)
theorem arm_1_11 [FloatOps F] [∀ e, Nonempty (Elt F e)] (d : Dev nD) (O : CellTallies nD τ sig (HIx 1)) (W : Waits sig (HIx 1)) (hO : ∀ g, O g none = 0)
    (h0 : 1 < (K (F := F)).nCore 0) (h1 : 11 < (K (F := F)).nSub 0) : OblAt m d ⟨1, h0⟩ ⟨11, h1⟩ O W :=
  obl_of m d ⟨1, h0⟩ ⟨11, h1⟩ O W (Tile23.run m d O W hO)
theorem arm_1_12 [FloatOps F] [∀ e, Nonempty (Elt F e)] (d : Dev nD) (O : CellTallies nD τ sig (HIx 1)) (W : Waits sig (HIx 1)) (hO : ∀ g, O g none = 0)
    (h0 : 1 < (K (F := F)).nCore 0) (h1 : 12 < (K (F := F)).nSub 0) : OblAt m d ⟨1, h0⟩ ⟨12, h1⟩ O W :=
  obl_of m d ⟨1, h0⟩ ⟨12, h1⟩ O W (Tile25.run m d O W hO)
theorem arm_1_13 [FloatOps F] [∀ e, Nonempty (Elt F e)] (d : Dev nD) (O : CellTallies nD τ sig (HIx 1)) (W : Waits sig (HIx 1)) (hO : ∀ g, O g none = 0)
    (h0 : 1 < (K (F := F)).nCore 0) (h1 : 13 < (K (F := F)).nSub 0) : OblAt m d ⟨1, h0⟩ ⟨13, h1⟩ O W :=
  obl_of m d ⟨1, h0⟩ ⟨13, h1⟩ O W (Tile27.run m d O W hO)
theorem arm_1_14 [FloatOps F] [∀ e, Nonempty (Elt F e)] (d : Dev nD) (O : CellTallies nD τ sig (HIx 1)) (W : Waits sig (HIx 1)) (hO : ∀ g, O g none = 0)
    (h0 : 1 < (K (F := F)).nCore 0) (h1 : 14 < (K (F := F)).nSub 0) : OblAt m d ⟨1, h0⟩ ⟨14, h1⟩ O W :=
  obl_of m d ⟨1, h0⟩ ⟨14, h1⟩ O W (Tile29.run m d O W hO)
theorem arm_1_15 [FloatOps F] [∀ e, Nonempty (Elt F e)] (d : Dev nD) (O : CellTallies nD τ sig (HIx 1)) (W : Waits sig (HIx 1)) (hO : ∀ g, O g none = 0)
    (h0 : 1 < (K (F := F)).nCore 0) (h1 : 15 < (K (F := F)).nSub 0) : OblAt m d ⟨1, h0⟩ ⟨15, h1⟩ O W :=
  obl_of m d ⟨1, h0⟩ ⟨15, h1⟩ O W (Tile31.run m d O W hO)

theorem tileObl [FloatOps F] [∀ e, Nonempty (Elt F e)] : (K (F := F)).TileObl (D (F := F)) 𝒱 (P m) v₀ 0 := by
  intro d c i O W hO _ _
  exact (match c, i with
  | ⟨0, h0⟩, ⟨0, h1⟩ => arm_0_0 m d O W hO h0 h1
  | ⟨0, h0⟩, ⟨1, h1⟩ => arm_0_1 m d O W hO h0 h1
  | ⟨0, h0⟩, ⟨2, h1⟩ => arm_0_2 m d O W hO h0 h1
  | ⟨0, h0⟩, ⟨3, h1⟩ => arm_0_3 m d O W hO h0 h1
  | ⟨0, h0⟩, ⟨4, h1⟩ => arm_0_4 m d O W hO h0 h1
  | ⟨0, h0⟩, ⟨5, h1⟩ => arm_0_5 m d O W hO h0 h1
  | ⟨0, h0⟩, ⟨6, h1⟩ => arm_0_6 m d O W hO h0 h1
  | ⟨0, h0⟩, ⟨7, h1⟩ => arm_0_7 m d O W hO h0 h1
  | ⟨0, h0⟩, ⟨8, h1⟩ => arm_0_8 m d O W hO h0 h1
  | ⟨0, h0⟩, ⟨9, h1⟩ => arm_0_9 m d O W hO h0 h1
  | ⟨0, h0⟩, ⟨10, h1⟩ => arm_0_10 m d O W hO h0 h1
  | ⟨0, h0⟩, ⟨11, h1⟩ => arm_0_11 m d O W hO h0 h1
  | ⟨0, h0⟩, ⟨12, h1⟩ => arm_0_12 m d O W hO h0 h1
  | ⟨0, h0⟩, ⟨13, h1⟩ => arm_0_13 m d O W hO h0 h1
  | ⟨0, h0⟩, ⟨14, h1⟩ => arm_0_14 m d O W hO h0 h1
  | ⟨0, h0⟩, ⟨15, h1⟩ => arm_0_15 m d O W hO h0 h1
  | ⟨1, h0⟩, ⟨0, h1⟩ => arm_1_0 m d O W hO h0 h1
  | ⟨1, h0⟩, ⟨1, h1⟩ => arm_1_1 m d O W hO h0 h1
  | ⟨1, h0⟩, ⟨2, h1⟩ => arm_1_2 m d O W hO h0 h1
  | ⟨1, h0⟩, ⟨3, h1⟩ => arm_1_3 m d O W hO h0 h1
  | ⟨1, h0⟩, ⟨4, h1⟩ => arm_1_4 m d O W hO h0 h1
  | ⟨1, h0⟩, ⟨5, h1⟩ => arm_1_5 m d O W hO h0 h1
  | ⟨1, h0⟩, ⟨6, h1⟩ => arm_1_6 m d O W hO h0 h1
  | ⟨1, h0⟩, ⟨7, h1⟩ => arm_1_7 m d O W hO h0 h1
  | ⟨1, h0⟩, ⟨8, h1⟩ => arm_1_8 m d O W hO h0 h1
  | ⟨1, h0⟩, ⟨9, h1⟩ => arm_1_9 m d O W hO h0 h1
  | ⟨1, h0⟩, ⟨10, h1⟩ => arm_1_10 m d O W hO h0 h1
  | ⟨1, h0⟩, ⟨11, h1⟩ => arm_1_11 m d O W hO h0 h1
  | ⟨1, h0⟩, ⟨12, h1⟩ => arm_1_12 m d O W hO h0 h1
  | ⟨1, h0⟩, ⟨13, h1⟩ => arm_1_13 m d O W hO h0 h1
  | ⟨1, h0⟩, ⟨14, h1⟩ => arm_1_14 m d O W hO h0 h1
  | ⟨1, h0⟩, ⟨15, h1⟩ => arm_1_15 m d O W hO h0 h1
  | ⟨0, _⟩, ⟨n + 16, h⟩ => absurd h (by show ¬ (n + 16 < 16); omega)
  | ⟨1, _⟩, ⟨n + 16, h⟩ => absurd h (by show ¬ (n + 16 < 16); omega) : OblAt m d c i O W)

end Cert.Proof.KI

end
-- ==== Proof.KIMain.lean ====
/-
  @main of `KernelIdeal` on the TensorCore: the re-layouts of the four arguments, the call that hands the thirty-two tiles
  their slices and takes them back filled, and the re-layout of the kernel's array into the result; and how the final
  memory reads: the arguments unchanged, the result the specification's function of them.
-/
import proofs.«210185_g18468359372994_cont_8to1_1390_15_alg».proof.Proof.KIPay
import Idealize.ShloMosaic.Lib.Pipeline.Frame

set_option maxHeartbeats 1600000

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split held_congr after wp_seq)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

/-! ## The two stretches of host operations -/

/-- The re-layouts of the arguments, before the call. -/
abbrev ops0 [FloatOps F] : List (HloOp τ sig (Elt F)) :=
  [StableHlo.unary main_arg0 main_v0 ((transpose S17x16384x2 [1, 0, 2] · transposes_S16384x17x2_S17x16384x2_1_0_2) : (⟨S16384x17x2, .f32⟩ : BufTy).Contents (Elt F) → (⟨S17x16384x2, .f32⟩ : BufTy).Contents (Elt F)),
   StableHlo.reshape main_v0 main_v1 rfl shapeCasts_S17x16384x2_S17x128x128x2,
   StableHlo.unary main_v1 main_v2 ((transpose S17x128x2x128 [0, 1, 3, 2] · transposes_S17x128x128x2_S17x128x2x128_0_1_3_2) : (⟨S17x128x128x2, .f32⟩ : BufTy).Contents (Elt F) → (⟨S17x128x2x128, .f32⟩ : BufTy).Contents (Elt F)),
   StableHlo.unary main_arg2 main_v3 ((transpose S14x16384x2 [1, 0, 2] · transposes_S16384x14x2_S14x16384x2_1_0_2) : (⟨S16384x14x2, .f32⟩ : BufTy).Contents (Elt F) → (⟨S14x16384x2, .f32⟩ : BufTy).Contents (Elt F)),
   StableHlo.reshape main_v3 main_v4 rfl shapeCasts_S14x16384x2_S14x128x128x2,
   StableHlo.unary main_v4 main_v5 ((transpose S14x128x2x128 [0, 1, 3, 2] · transposes_S14x128x128x2_S14x128x2x128_0_1_3_2) : (⟨S14x128x128x2, .f32⟩ : BufTy).Contents (Elt F) → (⟨S14x128x2x128, .f32⟩ : BufTy).Contents (Elt F)),
   StableHlo.unary main_arg1 main_v6 ((transpose S17x16384 [1, 0] · transposes_S16384x17_S17x16384_1_0) : (⟨S16384x17, .f32⟩ : BufTy).Contents (Elt F) → (⟨S17x16384, .f32⟩ : BufTy).Contents (Elt F)),
   StableHlo.reshape main_v6 main_v7 rfl shapeCasts_S17x16384_S17x128x128,
   StableHlo.unary main_arg3 main_v8 ((transpose S14x16384 [1, 0] · transposes_S16384x14_S14x16384_1_0) : (⟨S16384x14, .f32⟩ : BufTy).Contents (Elt F) → (⟨S14x16384, .f32⟩ : BufTy).Contents (Elt F)),
   StableHlo.reshape main_v8 main_v9 rfl shapeCasts_S14x16384_S14x128x128]
/-- The re-layout of the kernel's array into the result, after it. -/
abbrev ops1 [FloatOps F] : List (HloOp τ sig (Elt F)) :=
  [StableHlo.unary main_v10 main_v11 ((transpose S128x128x2x8x9 [2, 4, 1, 3, 0] · transposes_S9x2x128x8x128_S128x128x2x8x9_2_4_1_3_0) : (⟨S9x2x128x8x128, .f32⟩ : BufTy).Contents (Elt F) → (⟨S128x128x2x8x9, .f32⟩ : BufTy).Contents (Elt F)),
   StableHlo.reshape main_v11 main_v12 rfl shapeCasts_S128x128x2x8x9_S16384x16x9,
   StableHlo.unary main_v12 main_v13 ((extractStridedSlice S16384x14x9 ![0, 0, 0] · slices_S16384x16x9_S16384x14x9_0_0_0) : (⟨S16384x16x9, .f32⟩ : BufTy).Contents (Elt F) → (⟨S16384x14x9, .f32⟩ : BufTy).Contents (Elt F))]

theorem main_eq [FloatOps F] (d : Dev nD) :
    main (F := F) d = (StableHlo.seq (ops0 (F := F)) >>= fun _ => (K (F := F)).run d 0 >>= fun _ => (StableHlo.seq (ops1 (F := F)) >>= fun _ => pure ⟨⟩)) := rfl

theorem ops0_sub [FloatOps F] : (ops0 (F := F)).Forall fun op => op.bufs ⊆ StableHlo.tcRefs τ sig :=
  ⟨StableHlo.unary_bufs_sub .., StableHlo.reshape_bufs_sub .., StableHlo.unary_bufs_sub .., StableHlo.unary_bufs_sub .., StableHlo.reshape_bufs_sub .., StableHlo.unary_bufs_sub .., StableHlo.unary_bufs_sub .., StableHlo.reshape_bufs_sub .., StableHlo.unary_bufs_sub .., StableHlo.reshape_bufs_sub ..⟩
theorem ops1_sub [FloatOps F] : (ops1 (F := F)).Forall fun op => op.bufs ⊆ StableHlo.tcRefs τ sig :=
  ⟨StableHlo.unary_bufs_sub .., StableHlo.reshape_bufs_sub .., StableHlo.unary_bufs_sub ..⟩
theorem ops0_fresh [FloatOps F] : ∀ op ∈ (ops0 (F := F)), op.fresh = ∅ := by
  intro _ h; (repeat (cases h with | head => rfl | tail _ h => ?_)); exact nomatch h
theorem ops1_fresh [FloatOps F] : ∀ op ∈ (ops1 (F := F)), op.fresh = ∅ := by
  intro _ h; (repeat (cases h with | head => rfl | tail _ h => ?_)); exact nomatch h

/-! ## The TensorCore's arrays along @main -/

abbrev R (b : Ref sig .tc) : DevRef τ sig := Proc.devRef .tc b
/-- Every array of @main. -/
abbrev SU : Finset (DevRef τ sig) := Pipeline.ucRefs τ sig
/-- The five arrays the call takes. -/
abbrev S5 : Finset (DevRef τ sig) := {R main_v2, R main_v7, R main_v5, R main_v9, R main_v10}
/-- The arguments and the result. -/
abbrev S6 : Finset (DevRef τ sig) := {R main_arg0, R main_arg1, R main_arg2, R main_arg3, R main_v13}

theorem mem_SU (b : Ref sig .tc) (h : ¬ (R b).isScoped = true) : R b ∈ SU :=
  Finset.mem_filter.mpr ⟨StableHlo.devRef_mem_tcRefs b, h⟩
theorem S5_sub : S5 ⊆ SU := by
  intro b hb
  simp only [S5, Finset.mem_insert, Finset.mem_singleton] at hb
  rcases hb with rfl | rfl | rfl | rfl | rfl <;> exact mem_SU _ (by decide)
theorem S6_sub : S6 ⊆ SU := by
  intro b hb
  simp only [S6, Finset.mem_insert, Finset.mem_singleton] at hb
  rcases hb with rfl | rfl | rfl | rfl | rfl <;> exact mem_SU _ (by decide)

/-- The launch contents; after the first stretch; after the call; after the second stretch. -/
def W0 (d : Dev nD) : Valuation τ sig (Elt F) := fun b => m (d, b)
abbrev W1 [FloatOps F] (d : Dev nD) : Valuation τ sig (Elt F) := after (ops0 (F := F)) (W0 m d)
def W2 [FloatOps F] (d : Dev nD) : Valuation τ sig (Elt F) := Function.update (W1 m d) (R main_v10) (OUTc m d)
abbrev W3 [FloatOps F] (d : Dev nD) : Valuation τ sig (Elt F) := after (ops1 (F := F)) (W2 m d)

theorem W1_v2 [FloatOps F] (d : Dev nD) : after (ops0 (F := F)) (W0 m d) (R main_v2) = V2c m d := by
  unfold V2c Cert.Layout.poseV; dsimp only [ops0]; after_results; rfl
theorem W1_v7 [FloatOps F] (d : Dev nD) : after (ops0 (F := F)) (W0 m d) (R main_v7) = V7c m d := by
  unfold V7c Cert.Layout.visV; dsimp only [ops0]; after_results; rfl
theorem W1_v5 [FloatOps F] (d : Dev nD) : after (ops0 (F := F)) (W0 m d) (R main_v5) = V5c m d := by
  unfold V5c Cert.Layout.deltaV; dsimp only [ops0]; after_results; rfl
theorem W1_v9 [FloatOps F] (d : Dev nD) : after (ops0 (F := F)) (W0 m d) (R main_v9) = V9c m d := by
  unfold V9c Cert.Layout.lenV; dsimp only [ops0]; after_results; rfl
theorem W1_v10 [FloatOps F] (d : Dev nD) : after (ops0 (F := F)) (W0 m d) (R main_v10) = m (v10L d) := by
  dsimp only [ops0]; after_results; rfl
theorem W2_v10 [FloatOps F] (d : Dev nD) : W2 m d (R main_v10) = OUTc m d := Function.update_self _ _ _
theorem W2_ne [FloatOps F] (d : Dev nD) (b : DevRef τ sig) (h : b ≠ R main_v10) : W2 m d b = after (ops0 (F := F)) (W0 m d) b := Function.update_of_ne h _ _

theorem W3_arg0 [FloatOps F] (d : Dev nD) : after (ops1 (F := F)) (W2 m d) (R main_arg0) = m (arg0L d) := by
  dsimp only [ops1]; after_results; rw [W2_ne m d _ (by decide)]; dsimp only [ops0]; after_results; rfl
theorem W3_arg1 [FloatOps F] (d : Dev nD) : after (ops1 (F := F)) (W2 m d) (R main_arg1) = m (arg1L d) := by
  dsimp only [ops1]; after_results; rw [W2_ne m d _ (by decide)]; dsimp only [ops0]; after_results; rfl
theorem W3_arg2 [FloatOps F] (d : Dev nD) : after (ops1 (F := F)) (W2 m d) (R main_arg2) = m (arg2L d) := by
  dsimp only [ops1]; after_results; rw [W2_ne m d _ (by decide)]; dsimp only [ops0]; after_results; rfl
theorem W3_arg3 [FloatOps F] (d : Dev nD) : after (ops1 (F := F)) (W2 m d) (R main_arg3) = m (arg3L d) := by
  dsimp only [ops1]; after_results; rw [W2_ne m d _ (by decide)]; dsimp only [ops0]; after_results; rfl
theorem W3_v13 [FloatOps F] (d : Dev nD) : after (ops1 (F := F)) (W2 m d) (R main_v13) = Cert.Layout.resV (OUTc m d) := by
  unfold Cert.Layout.resV; dsimp only [ops1]; after_results; rw [W2_v10]; rfl

theorem held_S5 (d : Dev nD) (W : Valuation τ sig (Elt F)) :
    (held (d.tc : Thread nD τ) S5 W : sProp 𝕄) = iprop((v2L d ↦{fullShare} W (R main_v2)) ∗ (v7L d ↦{fullShare} W (R main_v7)) ∗ (v5L d ↦{fullShare} W (R main_v5))
      ∗ (v9L d ↦{fullShare} W (R main_v9)) ∗ (v10L d ↦{fullShare} W (R main_v10))) := by
  unfold held S5
  rw [SparseCore.bigSep_insert' (by decide), SparseCore.bigSep_insert' (by decide), SparseCore.bigSep_insert' (by decide), SparseCore.bigSep_insert' (by decide), bigSep_singleton]
theorem held_S6 (d : Dev nD) (W : Valuation τ sig (Elt F)) :
    (held (d.tc : Thread nD τ) S6 W : sProp 𝕄) = iprop((arg0L d ↦{fullShare} W (R main_arg0)) ∗ (arg1L d ↦{fullShare} W (R main_arg1)) ∗ (arg2L d ↦{fullShare} W (R main_arg2))
      ∗ (arg3L d ↦{fullShare} W (R main_arg3)) ∗ (v13L d ↦{fullShare} W (R main_v13))) := by
  unfold held S6
  rw [SparseCore.bigSep_insert' (by decide), SparseCore.bigSep_insert' (by decide), SparseCore.bigSep_insert' (by decide), SparseCore.bigSep_insert' (by decide), bigSep_singleton]

/-! ## The call's operands -/

theorem st0_eq (d : Dev nD) :
    (bigSep Finset.univ fun c : Fin ((K (F := F)).nCore 0) => (P m).st 0 d c)
      = bigSep Finset.univ fun c : Fin 2 => bigSep Finset.univ fun i : Fin 16 => tileG m d (tileIx c i) := by
  show (bigSep (Finset.univ : Finset (Fin 2)) fun c => bigSep (Finset.univ : Finset (Fin 16)) fun i => tileG m d (tileN c.val i.val)) = _
  exact bigSep_congr fun c _ => bigSep_congr fun i _ => by rw [tileN_eq]
theorem dn0_eq (d : Dev nD) :
    (bigSep Finset.univ fun c : Fin ((K (F := F)).nCore 0) => (P m).dn 0 d c)
      = bigSep Finset.univ fun c : Fin 2 => bigSep Finset.univ fun i : Fin 16 => tileT m d (tileIx c i) := by
  show (bigSep (Finset.univ : Finset (Fin 2)) fun c => bigSep (Finset.univ : Finset (Fin 16)) fun i => tileT m d (tileN c.val i.val)) = _
  exact bigSep_congr fun c _ => bigSep_congr fun i _ => by rw [tileN_eq]

/-- What @main leaves the claim: the arguments at their launch contents, the result at the re-laid output. -/
abbrev FIN (d : Dev nD) : sProp 𝕄 :=
  iprop((arg0L d ↦{fullShare} m (arg0L d)) ∗ (arg1L d ↦{fullShare} m (arg1L d)) ∗ (arg2L d ↦{fullShare} m (arg2L d))
    ∗ (arg3L d ↦{fullShare} m (arg3L d)) ∗ (v13L d ↦{fullShare} Cert.Layout.resV (OUTc m d)))

/-- @main on device `d`'s TensorCore. -/
theorem hmain [FloatOps F] (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [show (unscopedBufs d (fun b => m ((SparseCore.T d).loc b)) : sProp 𝕄) = held (d.tc : Thread nD τ) SU (W0 m d) from
    Pipeline.unscopedBufs_held (Ix := HIx 1) (Name := ℕ) (U := UU) (Lvl := ℕ) d (fun b => m (d, b))]
  rw [main_eq]
  iintro ⟨#Hctx, Hst, ⟨Hb, Hheld, -, -⟩, -⟩
  -- the re-layouts of the arguments
  iapply (wp_seq 𝒱 none Set.univ d SU _ (ops0 (F := F)) (fun op hop => Pipeline.sub_ucRefs op ((List.forall_iff_forall_mem.mp ops0_sub) op hop)) ops0_fresh (W0 m d)) $$ [Hb Hheld]
  · isplitl [Hb] <;> iassumption
  iintro ⟨Hb, Hheld⟩
  -- the five arrays of the call, out of all of them
  ihave Hh := (Entails.of_eq (held_sub_split (d.tc : Thread nD τ) S5_sub (after (ops0 (F := F)) (W0 m d)))) $$ Hheld
  icases Hh with ⟨H5, Hrest⟩
  ihave H5' := (Entails.of_eq (held_S5 d (after (ops0 (F := F)) (W0 m d)))) $$ H5
  rw [W1_v2, W1_v7, W1_v5, W1_v9, W1_v10]
  ihave Hsp := (split_all m d) $$ H5'
  icases Hsp with ⟨Htiles, Hunused⟩
  rw [wp_bind]
  iapply ((K (F := F)).wp_run (D (F := F)) 𝒱 (EH := EH) (P := P m) κ d 0) $$ [Hst Htiles Hb Hrest Hunused]
  isplitr; · iexact Hctx
  isplitl [Hst]; · iexact Hst
  isplitl [Htiles]
  · rw [st0_eq]; iexact Htiles
  iintro ⟨Hst, Hdn⟩
  ihave Hdn' := (Entails.of_eq (dn0_eq m d)) $$ Hdn
  ihave Hj := (join_all m d) $$ [Hdn' Hunused]
  · isplitl [Hdn'] <;> iassumption
  -- all the arrays again, the kernel's at what it left
  ihave H5 := (Entails.of_eq ((held_S5 d (W2 m d)).trans (by rw [W2_v10, W2_ne m d _ (by decide), W2_ne m d _ (by decide), W2_ne m d _ (by decide), W2_ne m d _ (by decide), W1_v2, W1_v7, W1_v5, W1_v9])).symm) $$ Hj
  ihave Hrest' := (Entails.of_eq (held_congr (d.tc : Thread nD τ) (S := SU \ S5) (V := after (ops0 (F := F)) (W0 m d)) (V' := W2 m d) (fun b hb => (W2_ne m d b (fun e => (Finset.mem_sdiff.mp hb).2 (e ▸ by decide))).symm))) $$ Hrest
  ihave Hheld := (Entails.of_eq (held_sub_split (d.tc : Thread nD τ) S5_sub (W2 m d)).symm) $$ [H5 Hrest']
  · isplitl [H5] <;> iassumption
  -- the re-layout of the kernel's array
  iapply (wp_seq 𝒱 none Set.univ d SU _ (ops1 (F := F)) (fun op hop => Pipeline.sub_ucRefs op ((List.forall_iff_forall_mem.mp ops1_sub) op hop)) ops1_fresh (W2 m d)) $$ [Hb Hheld]
  · isplitl [Hb] <;> iassumption
  iintro ⟨Hb, Hheld⟩
  ihave Hh := (Entails.of_eq (held_sub_split (d.tc : Thread nD τ) S6_sub (after (ops1 (F := F)) (W2 m d)))) $$ Hheld
  icases Hh with ⟨H6, -⟩
  ihave H6' := (Entails.of_eq ((held_S6 d (after (ops1 (F := F)) (W2 m d))).trans (by rw [W3_arg0, W3_arg1, W3_arg2, W3_arg3, W3_v13]))) $$ H6
  rw [wp_pure]; imodintro
  isplitl [Hst]; · iexact Hst
  iexact H6'

def fq (d : Dev nD) (s' : Phys nD τ sig (Elt F)) : Prop :=
  s'.mem.mem (arg0L d) = m (arg0L d) ∧ s'.mem.mem (arg1L d) = m (arg1L d) ∧ s'.mem.mem (arg2L d) = m (arg2L d)
    ∧ s'.mem.mem (arg3L d) = m (arg3L d) ∧ s'.mem.mem (v13L d) = Cert.Layout.resV (OUTc m d)

theorem agree (ℓ : Loc nD τ sig) (f : Buf (Elt F) ℓ) (s' : Phys nD τ sig (Elt F)) :
    iprop((ℓ ↦{fullShare} f) ∗ SI s') ⊢ iprop(⌜s'.mem.mem ℓ = f⌝ ∗ SI s' : sProp 𝕄) := by
  iintro ⟨Hx, HSI⟩
  ihave H := (persistent_entails_right (SI_pointsTo_agree (st := s') (ℓ := ℓ) (I := Finset.univ) (q := fullShare) (f := f))) $$ [HSI Hx]
  · isplitl [HSI] <;> iassumption
  icases H with ⟨%h1, HSI, -⟩
  isplitr
  · ipureintro; exact funext fun i => h1 i (Finset.mem_univ i)
  · iexact HSI

theorem hfin (d : Dev nD) (s' : Phys nD τ sig (Elt F)) : iprop(FIN m d ∗ SI s') ⊢ (⌜fq m d s'⌝ : sProp 𝕄) := by
  iintro ⟨⟨H0, H1, H2, H3, H13⟩, HSI⟩
  ihave A := (agree (arg0L d) _ s') $$ [H0 HSI]
  · isplitl [H0] <;> iassumption
  icases A with ⟨%h0, HSI⟩
  ihave A := (agree (arg1L d) _ s') $$ [H1 HSI]
  · isplitl [H1] <;> iassumption
  icases A with ⟨%h1, HSI⟩
  ihave A := (agree (arg2L d) _ s') $$ [H2 HSI]
  · isplitl [H2] <;> iassumption
  icases A with ⟨%h2, HSI⟩
  ihave A := (agree (arg3L d) _ s') $$ [H3 HSI]
  · isplitl [H3] <;> iassumption
  icases A with ⟨%h3, HSI⟩
  ihave A := (agree (v13L d) _ s') $$ [H13 HSI]
  · isplitl [H13] <;> iassumption
  icases A with ⟨%h13, -⟩
  ipureintro; exact ⟨h0, h1, h2, h3, h13⟩

end Cert.Proof.KI

end
-- ==== Proof.KIRun.lean ====
/-
  The run of `KernelIdeal` as a whole: every weakly fair execution of the TensorCore's @main and the SparseCores' thirty-four
  threads ends, nothing faults, the four arguments are unchanged and the result is the specification's function of them.
-/
import proofs.«210185_g18468359372994_cont_8to1_1390_15_alg».proof.Proof.KIObl
import proofs.«210185_g18468359372994_cont_8to1_1390_15_alg».proof.Proof.KIMain

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}

variable (m : (ℓ : Loc nD τ sig) → Buf (Elt F) ℓ) (ρ : Dev nD → PrngReg)

/-- What the run ends in: the result the specification's function of the arguments, the arguments unchanged. -/
def QC : PUnit × MemSt nD τ sig (Elt F) → Prop := fun r => ∀ c : Dev nD,
  r.2.mem (v13L c) = Cert.Spec.G (m (arg0L c)) (m (arg1L c)) (m (arg2L c)) (m (arg3L c))
    ∧ r.2.mem (arg0L c) = m (arg0L c) ∧ r.2.mem (arg1L c) = m (arg1L c) ∧ r.2.mem (arg2L c) = m (arg2L c) ∧ r.2.mem (arg3L c) = m (arg3L c)

theorem run_main [FloatOps F] [∀ e, Nonempty (Elt F e)] :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m)
    (fun s' h c => by
      obtain ⟨h0, h1, h2, h3, h13⟩ := h c
      refine ⟨h13.trans ?_, h0, h1, h2, h3⟩
      unfold OUTc
      exact Cert.Layout.resV_outV _ _ _ _ _)

end Cert.Proof.KI

end
-- ==== Proof.KBCommon.lean ====
/-
  The vector-subcore program of `Kernel` as its launch theorem sees it, and the vocabulary the per-tile proofs share:
  the thirty-two tiles' threads, the three staging buffers and six DMA semaphores each tile owns, and a slice of an HBM
  array held by exactly its own elements.
-/
import proofs.«210185_g18468359372994_cont_8to1_1390_15_alg».proof.Defs
import Idealize.ShloMosaic.Lib.SparseCore.Launch
import Idealize.ShloMosaic.Lib.StableHlo.Run
import Idealize.ShloMosaic.Lib.Pipeline.Kit
import Idealize.ShloMosaic.Lib.Batch
import Idealize.ShloMosaic.Lib.Tactic
import proofs.«210185_g18468359372994_cont_8to1_1390_15_alg».proof.Proof.Gen.Kernel
import proofs.«210185_g18468359372994_cont_8to1_1390_15_alg».proof.Proof.Gen.Kernel.Skeleton

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

abbrev EH : Emb UH (MT nD τ sig (HIx 1) (Elt F) ℕ UU ℕ) := embL

/-! ## A tile, its coordinates, its own storage -/

def coordsV (c : Fin (grid0.bound 0)) (s : Fin (grid0.bound 1)) : grid0.Coords :=
  fun | 0 => c | 1 => s | ⟨_ + 2, h⟩ => absurd h (Nat.not_lt.2 (Nat.le_add_left _ _))

abbrev cV (L : grid0.Coords) : Fin τ.nSC := (L 0).castLE hcore0
abbrev jV (L : grid0.Coords) : Fin τ.nSub := (L 1).castLE hsub0

/-- A slice of an HBM array (or a whole staging buffer), held by exactly the elements its view names. -/
abbrev heldOwn (thr : Thread nD τ) {sp : Space} {s : Shape} (M : Memref sig thr.2.kind sp s .f32)
    (f : Buf (Elt F) (M.view.loc thr)) : sProp (MT nD τ sig (HIx 1) (Elt F) ℕ UU ℕ) :=
  M.view.loc thr ↦[M.view.set]{fullShare} f

section Own

variable (d : Dev nD) (c : Fin τ.nSC) (i : Fin τ.nSub)

local notation "𝕄" => MT nD τ sig (HIx 1) (Elt F) ℕ UU ℕ

abbrev cell3 : GSem nD τ sig := (V d c i, .dma cc0_scratch3.sem)
abbrev cell4 : GSem nD τ sig := (V d c i, .dma cc0_scratch4.sem)
abbrev cell5 : GSem nD τ sig := (V d c i, .dma cc0_scratch5.sem)
abbrev cell6 : GSem nD τ sig := (V d c i, .dma cc0_scratch6.sem)
abbrev cell7 : GSem nD τ sig := (V d c i, .dma cc0_scratch7.sem)
abbrev cell8 : GSem nD τ sig := (V d c i, .dma cc0_scratch8.sem)

theorem cell_mem (sm : DmaSem sig) (h : (SemLoc.dma sm : SemLoc sig).isScoped .scVector = true) :
    ((V d c i, .dma sm) : GSem nD τ sig) ∈ ownCells (V d c i) :=
  (mem_ownCells (g := ((V d c i, .dma sm) : GSem nD τ sig))).mpr ⟨rfl, h⟩

theorem cell_ne {a b : DmaSem sig} (h : a ≠ b) : ((V d c i, .dma a) : GSem nD τ sig) ≠ (V d c i, .dma b) :=
  fun e => h (SemLoc.dma.inj (Prod.mk.inj e).2)

/-- The six DMA semaphores of the kernel are among the tile's own: they, at zero, and the rest. -/
theorem ownSems0_V :
    (ownSems0 (V d c i) : sProp 𝕄)
      = iprop(semVal (cell3 d c i) 0 ∗ semVal (cell4 d c i) 0 ∗ semVal (cell5 d c i) 0 ∗ semVal (cell6 d c i) 0 ∗ semVal (cell7 d c i) 0 ∗ semVal (cell8 d c i) 0
          ∗ bigSep ((((((((ownCells (V d c i)).erase (cell3 d c i)).erase (cell4 d c i)).erase (cell5 d c i)).erase (cell6 d c i)).erase (cell7 d c i)).erase (cell8 d c i)))
              fun g => semVal g 0) := by
  unfold SparseCore.Cfg.ownSems0
  have m3 := cell_mem d c i cc0_scratch3.sem (by decide)
  have m4 := cell_mem d c i cc0_scratch4.sem (by decide)
  have m5 := cell_mem d c i cc0_scratch5.sem (by decide)
  have m6 := cell_mem d c i cc0_scratch6.sem (by decide)
  have m7 := cell_mem d c i cc0_scratch7.sem (by decide)
  have m8 := cell_mem d c i cc0_scratch8.sem (by decide)
  rw [SparseCore.bigSep_erase' m3,
    SparseCore.bigSep_erase' (Finset.mem_erase.mpr ⟨cell_ne d c i (by decide), m4⟩),
    SparseCore.bigSep_erase' (Finset.mem_erase.mpr ⟨cell_ne d c i (by decide), Finset.mem_erase.mpr ⟨cell_ne d c i (by decide), m5⟩⟩),
    SparseCore.bigSep_erase' (Finset.mem_erase.mpr ⟨cell_ne d c i (by decide), Finset.mem_erase.mpr ⟨cell_ne d c i (by decide), Finset.mem_erase.mpr ⟨cell_ne d c i (by decide), m6⟩⟩⟩),
    SparseCore.bigSep_erase' (Finset.mem_erase.mpr ⟨cell_ne d c i (by decide), Finset.mem_erase.mpr ⟨cell_ne d c i (by decide), Finset.mem_erase.mpr ⟨cell_ne d c i (by decide),
      Finset.mem_erase.mpr ⟨cell_ne d c i (by decide), m7⟩⟩⟩⟩),
    SparseCore.bigSep_erase' (Finset.mem_erase.mpr ⟨cell_ne d c i (by decide), Finset.mem_erase.mpr ⟨cell_ne d c i (by decide), Finset.mem_erase.mpr ⟨cell_ne d c i (by decide),
      Finset.mem_erase.mpr ⟨cell_ne d c i (by decide), Finset.mem_erase.mpr ⟨cell_ne d c i (by decide), m8⟩⟩⟩⟩⟩)]

abbrev ref0 : DevRef τ sig := (Proc.scVector c i).devRef cc0_scratch0
abbrev ref1 : DevRef τ sig := (Proc.scVector c i).devRef cc0_scratch1
abbrev ref2 : DevRef τ sig := (Proc.scVector c i).devRef cc0_scratch2

/-- The three staging buffers are among the tile's own: they, at some contents, and the rest. -/
theorem ownBufs_V :
    (ownBufs (V d c i) : sProp 𝕄)
      = iprop((∃ f, (V d c i).loc cc0_scratch0 ↦{fullShare} f) ∗ (∃ f, (V d c i).loc cc0_scratch1 ↦{fullShare} f)
          ∗ (∃ f, (V d c i).loc cc0_scratch2 ↦{fullShare} f)
          ∗ bigSep ((((ownRefs (τ := τ) (.scVector c i)).erase (ref0 c i)).erase (ref1 c i)).erase (ref2 c i))
              fun b => iprop(∃ f, ((d, b) : Loc nD τ sig) ↦{fullShare} f)) := by
  unfold SparseCore.Cfg.ownBufs
  refine (SparseCore.bigSep_erase' (SparseCore.Cfg.mem_ownRefs_of_owner (p := Proc.scVector c i) (b := ref0 c i) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector c i) (b := ref1 c i) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector c i) (b := ref2 c i) rfl⟩⟩)]

end Own

end Cert.Proof.KB

end
-- ==== Proof.KBRes.lean ====
/-
  What the kernel's thirty-two tiles are handed and hand back, as one table. Every tile copies a few whole
  `[128, 128]` slices — one joint coordinate, one visibility, one offset coordinate or one length, for all batch rows —
  from the re-laid arguments into its staging buffers and from there into the slices of the output array that need that
  slice: feature `f` of limb `8 h + r` is the output's slice `(f, h, ·, r, ·)`. The tables below say which source slices and
  which output slices tile `t` (subcore `t / 2` of core `t % 2`) moves; no slice belongs to two tiles.
-/
import proofs.«210185_g18468359372994_cont_8to1_1390_15_alg».proof.Proof.KBCommon
import proofs.«210185_g18468359372994_cont_8to1_1390_15_alg».proof.Proof.Layout

noncomputable section

namespace Cert.Proof.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

/-! ## The arrays, as the TensorCore names them, and what they hold at the call -/

abbrev arg0L (d : Dev nD) : Loc nD τ sig := (SparseCore.T d).loc main_arg0
abbrev arg1L (d : Dev nD) : Loc nD τ sig := (SparseCore.T d).loc main_arg1
abbrev arg2L (d : Dev nD) : Loc nD τ sig := (SparseCore.T d).loc main_arg2
abbrev arg3L (d : Dev nD) : Loc nD τ sig := (SparseCore.T d).loc main_arg3
abbrev v2L (d : Dev nD) : Loc nD τ sig := (SparseCore.T d).loc main_v2
abbrev v7L (d : Dev nD) : Loc nD τ sig := (SparseCore.T d).loc main_v7
abbrev v5L (d : Dev nD) : Loc nD τ sig := (SparseCore.T d).loc main_v5
abbrev v9L (d : Dev nD) : Loc nD τ sig := (SparseCore.T d).loc main_v9
abbrev v10L (d : Dev nD) : Loc nD τ sig := (SparseCore.T d).loc main_v10
abbrev v13L (d : Dev nD) : Loc nD τ sig := (SparseCore.T d).loc main_v13

variable (m : (ℓ : Loc nD τ sig) → Buf (Elt F) ℓ)

/-- The joints' coordinates re-laid, as the kernel finds them. -/
def V2c (d : Dev nD) : Buf (Elt F) (v2L d) := Cert.Layout.poseV (m (arg0L d))
/-- The visibilities re-laid. -/
def V7c (d : Dev nD) : Buf (Elt F) (v7L d) := Cert.Layout.visV (m (arg1L d))
/-- The limbs' offsets re-laid. -/
def V5c (d : Dev nD) : Buf (Elt F) (v5L d) := Cert.Layout.deltaV (m (arg2L d))
/-- The limbs' lengths re-laid. -/
def V9c (d : Dev nD) : Buf (Elt F) (v9L d) := Cert.Layout.lenV (m (arg3L d))
/-- The output array as the kernel has to leave it. -/
def OUTc (d : Dev nD) : Buf (Elt F) (v10L d) :=
  Cert.Layout.outV (m (arg0L d)) (m (arg1L d)) (m (arg2L d)) (m (arg3L d)) (m (v10L d))

/-! ## The slices -/

theorem inb2 (j : Fin 17) (x : Fin 2) : ∀ a, (![j.val, 0, x.val, 0] : Fin 4 → Nat) a + S1x128x1x128.size a ≤ S17x128x2x128.size a := by
  have := j.isLt; have := x.isLt; intro a; fin_cases a <;> simp <;> omega
theorem inb7 (j : Fin 17) : ∀ a, (![j.val, 0, 0] : Fin 3 → Nat) a + S1x128x128.size a ≤ S17x128x128.size a := by
  have := j.isLt; intro a; fin_cases a <;> simp <;> omega
theorem inb5 (l : Fin 14) (x : Fin 2) : ∀ a, (![l.val, 0, x.val, 0] : Fin 4 → Nat) a + S1x128x1x128.size a ≤ S14x128x2x128.size a := by
  have := l.isLt; have := x.isLt; intro a; fin_cases a <;> simp <;> omega
theorem inb9 (l : Fin 14) : ∀ a, (![l.val, 0, 0] : Fin 3 → Nat) a + S1x128x128.size a ≤ S14x128x128.size a := by
  have := l.isLt; intro a; fin_cases a <;> simp <;> omega
theorem inb10 (f : Fin 9) (h : Fin 2) (r : Fin 8) : ∀ a, (![f.val, h.val, 0, r.val, 0] : Fin 5 → Nat) a + S1x1x128x1x128.size a ≤ S9x2x128x8x128.size a := by
  have := f.isLt; have := h.isLt; have := r.isLt; intro a; fin_cases a <;> simp <;> omega

/-- Slice `(j, ·, x, ·)` of the re-laid joints: coordinate `x` of joint `j`, all batch rows. -/
abbrev set2 (p : Fin 17 × Fin 2) : Finset S17x128x2x128.Idx :=
  (Rect.unit (s := S17x128x2x128) ![p.1.val, 0, p.2.val, 0] S1x128x1x128.size (inb2 p.1 p.2)).set
/-- Slice `(j, ·, ·)` of the re-laid visibilities. -/
abbrev set7 (j : Fin 17) : Finset S17x128x128.Idx :=
  (Rect.unit (s := S17x128x128) ![j.val, 0, 0] S1x128x128.size (inb7 j)).set
/-- Slice `(l, ·, x, ·)` of the re-laid offsets. -/
abbrev set5 (p : Fin 14 × Fin 2) : Finset S14x128x2x128.Idx :=
  (Rect.unit (s := S14x128x2x128) ![p.1.val, 0, p.2.val, 0] S1x128x1x128.size (inb5 p.1 p.2)).set
/-- Slice `(l, ·, ·)` of the re-laid lengths. -/
abbrev set9 (l : Fin 14) : Finset S14x128x128.Idx :=
  (Rect.unit (s := S14x128x128) ![l.val, 0, 0] S1x128x128.size (inb9 l)).set
/-- Slice `(f, h, ·, r, ·)` of the output array: feature `f` of limb `8 h + r`, all batch rows. -/
abbrev set10 (p : Fin 9 × Fin 2 × Fin 8) : Finset S9x2x128x8x128.Idx :=
  (Rect.unit (s := S9x2x128x8x128) ![p.1.val, p.2.1.val, 0, p.2.2.val, 0] S1x1x128x1x128.size (inb10 p.1 p.2.1 p.2.2)).set

/-- A source slice held at what the array holds at the call; an output slice before (`B0`) and after (`B1`). -/
def A2 (d : Dev nD) (p : Fin 17 × Fin 2) : sProp 𝕄 := v2L d ↦[set2 p]{fullShare} V2c m d
def A7 (d : Dev nD) (j : Fin 17) : sProp 𝕄 := v7L d ↦[set7 j]{fullShare} V7c m d
def A5 (d : Dev nD) (p : Fin 14 × Fin 2) : sProp 𝕄 := v5L d ↦[set5 p]{fullShare} V5c m d
def A9 (d : Dev nD) (l : Fin 14) : sProp 𝕄 := v9L d ↦[set9 l]{fullShare} V9c m d
def B0 (d : Dev nD) (p : Fin 9 × Fin 2 × Fin 8) : sProp 𝕄 := v10L d ↦[set10 p]{fullShare} m (v10L d)
def B1 (d : Dev nD) (p : Fin 9 × Fin 2 × Fin 8) : sProp 𝕄 := v10L d ↦[set10 p]{fullShare} OUTc m d

/-! ## Which tile moves which slices -/

def t2 : Fin 32 → Finset (Fin 17 × Fin 2)
  | ⟨0, _⟩ => {(5, 0)}
  | ⟨1, _⟩ => {(5, 1)}
  | ⟨2, _⟩ => ∅
  | ⟨3, _⟩ => {(6, 0)}
  | ⟨4, _⟩ => {(6, 1)}
  | ⟨5, _⟩ => ∅
  | ⟨6, _⟩ => {(11, 0), (15, 1)}
  | ⟨7, _⟩ => {(11, 1)}
  | ⟨8, _⟩ => ∅
  | ⟨9, _⟩ => {(12, 0)}
  | ⟨10, _⟩ => {(12, 1)}
  | ⟨11, _⟩ => ∅
  | ⟨12, _⟩ => {(7, 0)}
  | ⟨13, _⟩ => {(7, 1)}
  | ⟨14, _⟩ => ∅
  | ⟨15, _⟩ => {(8, 0)}
  | ⟨16, _⟩ => {(8, 1)}
  | ⟨17, _⟩ => {(10, 0)}
  | ⟨18, _⟩ => {(13, 0), (10, 1)}
  | ⟨19, _⟩ => {(13, 1)}
  | ⟨20, _⟩ => ∅
  | ⟨21, _⟩ => {(14, 0)}
  | ⟨22, _⟩ => {(14, 1)}
  | ⟨23, _⟩ => ∅
  | ⟨24, _⟩ => {(0, 0)}
  | ⟨25, _⟩ => {(0, 1)}
  | ⟨26, _⟩ => {(15, 0)}
  | ⟨27, _⟩ => ∅
  | ⟨28, _⟩ => {(9, 0)}
  | ⟨29, _⟩ => {(9, 1), (16, 0)}
  | ⟨30, _⟩ => {(16, 1)}
  | ⟨31, _⟩ => ∅
  | ⟨n + 32, h⟩ => absurd h (by omega)

def t7 : Fin 32 → Finset (Fin 17)
  | ⟨0, _⟩ => ∅
  | ⟨1, _⟩ => ∅
  | ⟨2, _⟩ => {5}
  | ⟨3, _⟩ => ∅
  | ⟨4, _⟩ => ∅
  | ⟨5, _⟩ => {6}
  | ⟨6, _⟩ => ∅
  | ⟨7, _⟩ => {15}
  | ⟨8, _⟩ => {11}
  | ⟨9, _⟩ => ∅
  | ⟨10, _⟩ => ∅
  | ⟨11, _⟩ => {12}
  | ⟨12, _⟩ => ∅
  | ⟨13, _⟩ => ∅
  | ⟨14, _⟩ => {7}
  | ⟨15, _⟩ => ∅
  | ⟨16, _⟩ => ∅
  | ⟨17, _⟩ => {8}
  | ⟨18, _⟩ => ∅
  | ⟨19, _⟩ => {10}
  | ⟨20, _⟩ => {13}
  | ⟨21, _⟩ => ∅
  | ⟨22, _⟩ => ∅
  | ⟨23, _⟩ => {14}
  | ⟨24, _⟩ => ∅
  | ⟨25, _⟩ => ∅
  | ⟨26, _⟩ => {0}
  | ⟨27, _⟩ => ∅
  | ⟨28, _⟩ => ∅
  | ⟨29, _⟩ => ∅
  | ⟨30, _⟩ => {9}
  | ⟨31, _⟩ => {16}
  | ⟨n + 32, h⟩ => absurd h (by omega)

def t5 : Fin 32 → Finset (Fin 14 × Fin 2)
  | ⟨0, _⟩ => {(8, 0)}
  | ⟨1, _⟩ => {(8, 1)}
  | ⟨2, _⟩ => ∅
  | ⟨3, _⟩ => {(9, 0)}
  | ⟨4, _⟩ => {(9, 1)}
  | ⟨5, _⟩ => ∅
  | ⟨6, _⟩ => ∅
  | ⟨7, _⟩ => ∅
  | ⟨8, _⟩ => {(6, 0)}
  | ⟨9, _⟩ => {(6, 1)}
  | ⟨10, _⟩ => ∅
  | ⟨11, _⟩ => {(7, 0)}
  | ⟨12, _⟩ => {(2, 1), (10, 0)}
  | ⟨13, _⟩ => {(10, 1)}
  | ⟨14, _⟩ => {(3, 0)}
  | ⟨15, _⟩ => {(3, 1), (11, 0)}
  | ⟨16, _⟩ => {(11, 1)}
  | ⟨17, _⟩ => ∅
  | ⟨18, _⟩ => {(12, 0)}
  | ⟨19, _⟩ => {(12, 1)}
  | ⟨20, _⟩ => {(4, 0)}
  | ⟨21, _⟩ => {(4, 1), (13, 0)}
  | ⟨22, _⟩ => {(13, 1)}
  | ⟨23, _⟩ => {(5, 0)}
  | ⟨24, _⟩ => {(5, 1)}
  | ⟨25, _⟩ => ∅
  | ⟨26, _⟩ => ∅
  | ⟨27, _⟩ => {(0, 0), (7, 1)}
  | ⟨28, _⟩ => {(0, 1)}
  | ⟨29, _⟩ => ∅
  | ⟨30, _⟩ => {(1, 0)}
  | ⟨31, _⟩ => {(1, 1), (2, 0)}
  | ⟨n + 32, h⟩ => absurd h (by omega)

def t9 : Fin 32 → Finset (Fin 14)
  | ⟨0, _⟩ => ∅
  | ⟨1, _⟩ => ∅
  | ⟨2, _⟩ => {8}
  | ⟨3, _⟩ => ∅
  | ⟨4, _⟩ => ∅
  | ⟨5, _⟩ => {9}
  | ⟨6, _⟩ => ∅
  | ⟨7, _⟩ => ∅
  | ⟨8, _⟩ => ∅
  | ⟨9, _⟩ => ∅
  | ⟨10, _⟩ => {6}
  | ⟨11, _⟩ => ∅
  | ⟨12, _⟩ => ∅
  | ⟨13, _⟩ => {2}
  | ⟨14, _⟩ => {10}
  | ⟨15, _⟩ => ∅
  | ⟨16, _⟩ => {3}
  | ⟨17, _⟩ => {11}
  | ⟨18, _⟩ => ∅
  | ⟨19, _⟩ => ∅
  | ⟨20, _⟩ => {12}
  | ⟨21, _⟩ => ∅
  | ⟨22, _⟩ => {4}
  | ⟨23, _⟩ => {13}
  | ⟨24, _⟩ => ∅
  | ⟨25, _⟩ => {5}
  | ⟨26, _⟩ => ∅
  | ⟨27, _⟩ => {1}
  | ⟨28, _⟩ => {7}
  | ⟨29, _⟩ => {0}
  | ⟨30, _⟩ => ∅
  | ⟨31, _⟩ => ∅
  | ⟨n + 32, h⟩ => absurd h (by omega)

def t10 : Fin 32 → Finset (Fin 9 × Fin 2 × Fin 8)
  | ⟨0, _⟩ => {(3, 0, 0), (3, 1, 0), (3, 1, 2), (5, 1, 4), (0, 1, 0)}
  | ⟨1, _⟩ => {(4, 0, 0), (4, 1, 0), (4, 1, 2), (6, 1, 4), (1, 1, 0)}
  | ⟨2, _⟩ => {(7, 0, 0), (7, 1, 0), (7, 1, 2), (8, 1, 4), (2, 1, 0)}
  | ⟨3, _⟩ => {(3, 0, 2), (5, 1, 0), (3, 1, 3), (5, 1, 5), (0, 1, 1)}
  | ⟨4, _⟩ => {(4, 0, 2), (6, 1, 0), (4, 1, 3), (6, 1, 5), (1, 1, 1)}
  | ⟨5, _⟩ => {(7, 0, 2), (8, 1, 0), (7, 1, 3), (8, 1, 5), (2, 1, 1)}
  | ⟨6, _⟩ => {(3, 0, 4), (3, 1, 1), (5, 1, 2), (6, 0, 5)}
  | ⟨7, _⟩ => {(4, 0, 4), (4, 1, 1), (6, 1, 2), (8, 0, 5)}
  | ⟨8, _⟩ => {(7, 0, 4), (7, 1, 1), (8, 1, 2), (0, 0, 6)}
  | ⟨9, _⟩ => {(3, 0, 6), (5, 1, 1), (5, 1, 3), (1, 0, 6)}
  | ⟨10, _⟩ => {(4, 0, 6), (6, 1, 1), (6, 1, 3), (2, 0, 6)}
  | ⟨11, _⟩ => {(7, 0, 6), (8, 1, 1), (8, 1, 3), (0, 0, 7)}
  | ⟨12, _⟩ => {(5, 0, 0), (3, 0, 1), (1, 0, 2), (0, 1, 2)}
  | ⟨13, _⟩ => {(6, 0, 0), (4, 0, 1), (2, 0, 2), (1, 1, 2)}
  | ⟨14, _⟩ => {(8, 0, 0), (7, 0, 1), (0, 0, 3), (2, 1, 2)}
  | ⟨15, _⟩ => {(5, 0, 2), (3, 0, 3), (1, 0, 3), (0, 1, 3)}
  | ⟨16, _⟩ => {(6, 0, 2), (4, 0, 3), (2, 0, 3), (1, 1, 3)}
  | ⟨17, _⟩ => {(8, 0, 2), (7, 0, 3), (5, 0, 3), (2, 1, 3)}
  | ⟨18, _⟩ => {(5, 0, 4), (3, 0, 5), (6, 0, 3), (0, 1, 4)}
  | ⟨19, _⟩ => {(6, 0, 4), (4, 0, 5), (8, 0, 3), (1, 1, 4)}
  | ⟨20, _⟩ => {(8, 0, 4), (7, 0, 5), (0, 0, 4), (2, 1, 4)}
  | ⟨21, _⟩ => {(5, 0, 6), (3, 0, 7), (1, 0, 4), (0, 1, 5)}
  | ⟨22, _⟩ => {(6, 0, 6), (4, 0, 7), (2, 0, 4), (1, 1, 5)}
  | ⟨23, _⟩ => {(8, 0, 6), (7, 0, 7), (0, 0, 5), (2, 1, 5)}
  | ⟨24, _⟩ => {(3, 1, 4), (3, 1, 5), (1, 0, 5)}
  | ⟨25, _⟩ => {(4, 1, 4), (4, 1, 5), (2, 0, 5)}
  | ⟨26, _⟩ => {(7, 1, 4), (7, 1, 5), (5, 0, 5)}
  | ⟨27, _⟩ => {(0, 0, 0), (2, 0, 1), (1, 0, 7)}
  | ⟨28, _⟩ => {(1, 0, 0), (5, 0, 1), (2, 0, 7)}
  | ⟨29, _⟩ => {(2, 0, 0), (6, 0, 1), (5, 0, 7)}
  | ⟨30, _⟩ => {(0, 0, 1), (8, 0, 1), (6, 0, 7)}
  | ⟨31, _⟩ => {(1, 0, 1), (0, 0, 2), (8, 0, 7)}
  | ⟨n + 32, h⟩ => absurd h (by omega)

/-- Tile number of subcore `i` of core `c`. -/
def tileIx (c : Fin 2) (i : Fin 16) : Fin 32 := ⟨2 * i.val + c.val, by omega⟩

/-- What tile `t` is handed: its source slices and its output slices as they stand. -/
def tileG (d : Dev nD) (t : Fin 32) : sProp 𝕄 :=
  iprop(bigSep (t2 t) (A2 m d) ∗ bigSep (t7 t) (A7 m d) ∗ bigSep (t5 t) (A5 m d) ∗ bigSep (t9 t) (A9 m d) ∗ bigSep (t10 t) (B0 m d))
/-- What tile `t` hands back: its source slices, and its output slices filled. -/
def tileT (d : Dev nD) (t : Fin 32) : sProp 𝕄 :=
  iprop(bigSep (t2 t) (A2 m d) ∗ bigSep (t7 t) (A7 m d) ∗ bigSep (t5 t) (A5 m d) ∗ bigSep (t9 t) (A9 m d) ∗ bigSep (t10 t) (B1 m d))
/-- The slices no tile moves: four joints nobody reads, and the output's limb rows 14 and 15. -/
def restG (d : Dev nD) : sProp 𝕄 :=
  iprop(bigSep (Finset.univ \ Finset.univ.biUnion t2) (A2 m d) ∗ bigSep (Finset.univ \ Finset.univ.biUnion t7) (A7 m d)
    ∗ bigSep (Finset.univ \ Finset.univ.biUnion t5) (A5 m d) ∗ bigSep (Finset.univ \ Finset.univ.biUnion t9) (A9 m d)
    ∗ bigSep (Finset.univ \ Finset.univ.biUnion t10) (B0 m d))

end Cert.Proof.KB

end
-- ==== Proof.KBRead.lean ====
/-
  Reading a `[128, 128]` slice of a re-laid array: the squeezed slice `(j, ·, x, ·)` read at `(t, q)` is the array at
  `(j, t, x, q)`, and likewise for the three- and five-axis arrays; a slice named by a tile's memref is the slice the
  table of tiles names; and a slice that a copy has filled holds what the copy carried.
-/
import proofs.«210185_g18468359372994_cont_8to1_1390_15_alg».proof.Proof.KBRes
import proofs.«210185_g18468359372994_cont_8to1_1390_15_alg».proof.Proof.LayoutLemmas
import Idealize.ShloMosaic.Lib.Exec

noncomputable section

namespace Cert.Proof.KB

open Cert.Kernel Cert.Kernel.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

/-! ## A squeezed slice read at an index -/

/-- Slice `(j, ·, x, ·)` of `main_v2_scv`'s array read at `(t, q)`. -/
theorem read_v2 (j : Fin 17) (x : Fin 2) (inb : ∀ a, (![j.val, 0, x.val, 0] : Fin 4 → Nat) a + S1x128x1x128.size a ≤ S17x128x2x128.size a)
    (g : S17x128x2x128.Idx → Elt F .f32) (t q : Fin 128) :
    (((Memref.whole main_v2_scv).slice (Rect.unit (s := S17x128x2x128) ![j.val, 0, x.val, 0] S1x128x1x128.size inb) (fun _ => rfl)).squeeze S128x128 squeezes_S1x128x1x128_S128x128).view.read (Elt F) g (ix2 t q)
      = g (ix4 j t x q) := by
  show shapeCast (s := S1x128x1x128) S128x128 ((Memref.whole main_v2_scv).view.readAt (Elt F) (Rect.unit (s := S17x128x2x128) ![j.val, 0, x.val, 0] S1x128x1x128.size inb).toLoadRect g) (show S1x128x1x128.ShapeCasts S128x128 from by decide) (ix2 t q) = _
  refine (shapeCast_apply (s := S1x128x1x128) (t := S128x128) _ _ (ix2 t q) (ix4 (0 : Fin 1) t (0 : Fin 1) q) ?_).trans ?_
  · rw [Shape.rowMajor_val_four, Shape.rowMajor_val_two]; simp
  · show (Memref.whole main_v2_scv).view.read (Elt F) g ((Rect.unit (s := S17x128x2x128) ![j.val, 0, x.val, 0] S1x128x1x128.size inb).toLoadRect.idx (ix4 (0 : Fin 1) t (0 : Fin 1) q)) = _
    simp only [Memref.view_whole, View.read_whole]
    congr 1
    funext a
    apply Fin.ext
    rw [LoadRect.idx_apply]
    match a with
    | ⟨0, _⟩ => simp
    | ⟨1, _⟩ => simp
    | ⟨2, _⟩ => simp
    | ⟨3, _⟩ => simp

/-- Slice `(j, ·, x, ·)` of `main_v5_scv`'s array read at `(t, q)`. -/
theorem read_v5 (j : Fin 14) (x : Fin 2) (inb : ∀ a, (![j.val, 0, x.val, 0] : Fin 4 → Nat) a + S1x128x1x128.size a ≤ S14x128x2x128.size a)
    (g : S14x128x2x128.Idx → Elt F .f32) (t q : Fin 128) :
    (((Memref.whole main_v5_scv).slice (Rect.unit (s := S14x128x2x128) ![j.val, 0, x.val, 0] S1x128x1x128.size inb) (fun _ => rfl)).squeeze S128x128 squeezes_S1x128x1x128_S128x128).view.read (Elt F) g (ix2 t q)
      = g (ix4 j t x q) := by
  show shapeCast (s := S1x128x1x128) S128x128 ((Memref.whole main_v5_scv).view.readAt (Elt F) (Rect.unit (s := S14x128x2x128) ![j.val, 0, x.val, 0] S1x128x1x128.size inb).toLoadRect g) (show S1x128x1x128.ShapeCasts S128x128 from by decide) (ix2 t q) = _
  refine (shapeCast_apply (s := S1x128x1x128) (t := S128x128) _ _ (ix2 t q) (ix4 (0 : Fin 1) t (0 : Fin 1) q) ?_).trans ?_
  · rw [Shape.rowMajor_val_four, Shape.rowMajor_val_two]; simp
  · show (Memref.whole main_v5_scv).view.read (Elt F) g ((Rect.unit (s := S14x128x2x128) ![j.val, 0, x.val, 0] S1x128x1x128.size inb).toLoadRect.idx (ix4 (0 : Fin 1) t (0 : Fin 1) q)) = _
    simp only [Memref.view_whole, View.read_whole]
    congr 1
    funext a
    apply Fin.ext
    rw [LoadRect.idx_apply]
    match a with
    | ⟨0, _⟩ => simp
    | ⟨1, _⟩ => simp
    | ⟨2, _⟩ => simp
    | ⟨3, _⟩ => simp

/-- Slice `(j, ·, ·)` of `main_v7_scv`'s array read at `(t, q)`. -/
theorem read_v7 (j : Fin 17) (inb : ∀ a, (![j.val, 0, 0] : Fin 3 → Nat) a + S1x128x128.size a ≤ S17x128x128.size a)
    (g : S17x128x128.Idx → Elt F .f32) (t q : Fin 128) :
    (((Memref.whole main_v7_scv).slice (Rect.unit (s := S17x128x128) ![j.val, 0, 0] S1x128x128.size inb) (fun _ => rfl)).squeeze S128x128 squeezes_S1x128x128_S128x128).view.read (Elt F) g (ix2 t q)
      = g (ix3 j t q) := by
  show shapeCast (s := S1x128x128) S128x128 ((Memref.whole main_v7_scv).view.readAt (Elt F) (Rect.unit (s := S17x128x128) ![j.val, 0, 0] S1x128x128.size inb).toLoadRect g) (show S1x128x128.ShapeCasts S128x128 from by decide) (ix2 t q) = _
  refine (shapeCast_apply (s := S1x128x128) (t := S128x128) _ _ (ix2 t q) (ix3 (0 : Fin 1) t q) ?_).trans ?_
  · rw [Shape.rowMajor_val_three, Shape.rowMajor_val_two]; simp
  · show (Memref.whole main_v7_scv).view.read (Elt F) g ((Rect.unit (s := S17x128x128) ![j.val, 0, 0] S1x128x128.size inb).toLoadRect.idx (ix3 (0 : Fin 1) t q)) = _
    simp only [Memref.view_whole, View.read_whole]
    congr 1
    funext a
    apply Fin.ext
    rw [LoadRect.idx_apply]
    match a with
    | ⟨0, _⟩ => simp
    | ⟨1, _⟩ => simp
    | ⟨2, _⟩ => simp

/-- Slice `(j, ·, ·)` of `main_v9_scv`'s array read at `(t, q)`. -/
theorem read_v9 (j : Fin 14) (inb : ∀ a, (![j.val, 0, 0] : Fin 3 → Nat) a + S1x128x128.size a ≤ S14x128x128.size a)
    (g : S14x128x128.Idx → Elt F .f32) (t q : Fin 128) :
    (((Memref.whole main_v9_scv).slice (Rect.unit (s := S14x128x128) ![j.val, 0, 0] S1x128x128.size inb) (fun _ => rfl)).squeeze S128x128 squeezes_S1x128x128_S128x128).view.read (Elt F) g (ix2 t q)
      = g (ix3 j t q) := by
  show shapeCast (s := S1x128x128) S128x128 ((Memref.whole main_v9_scv).view.readAt (Elt F) (Rect.unit (s := S14x128x128) ![j.val, 0, 0] S1x128x128.size inb).toLoadRect g) (show S1x128x128.ShapeCasts S128x128 from by decide) (ix2 t q) = _
  refine (shapeCast_apply (s := S1x128x128) (t := S128x128) _ _ (ix2 t q) (ix3 (0 : Fin 1) t q) ?_).trans ?_
  · rw [Shape.rowMajor_val_three, Shape.rowMajor_val_two]; simp
  · show (Memref.whole main_v9_scv).view.read (Elt F) g ((Rect.unit (s := S14x128x128) ![j.val, 0, 0] S1x128x128.size inb).toLoadRect.idx (ix3 (0 : Fin 1) t q)) = _
    simp only [Memref.view_whole, View.read_whole]
    congr 1
    funext a
    apply Fin.ext
    rw [LoadRect.idx_apply]
    match a with
    | ⟨0, _⟩ => simp
    | ⟨1, _⟩ => simp
    | ⟨2, _⟩ => simp

/-- Slice `(f, h, ·, r, ·)` of the output array read at `(t, q)`. -/
theorem read_v10 (f : Fin 9) (h : Fin 2) (r : Fin 8) (inb : ∀ a, (![f.val, h.val, 0, r.val, 0] : Fin 5 → Nat) a + S1x1x128x1x128.size a ≤ S9x2x128x8x128.size a)
    (g : S9x2x128x8x128.Idx → Elt F .f32) (t q : Fin 128) :
    (((Memref.whole main_v10_scv).slice (Rect.unit (s := S9x2x128x8x128) ![f.val, h.val, 0, r.val, 0] S1x1x128x1x128.size inb) (fun _ => rfl)).squeeze S128x128 squeezes_S1x1x128x1x128_S128x128).view.read (Elt F) g (ix2 t q)
      = g (ix5 f h t r q) := by
  show shapeCast (s := S1x1x128x1x128) S128x128 ((Memref.whole main_v10_scv).view.readAt (Elt F) (Rect.unit (s := S9x2x128x8x128) ![f.val, h.val, 0, r.val, 0] S1x1x128x1x128.size inb).toLoadRect g) (show S1x1x128x1x128.ShapeCasts S128x128 from by decide) (ix2 t q) = _
  refine (shapeCast_apply (s := S1x1x128x1x128) (t := S128x128) _ _ (ix2 t q) (ix5 (0 : Fin 1) (0 : Fin 1) t (0 : Fin 1) q) ?_).trans ?_
  · rw [Shape.rowMajor_val_five, Shape.rowMajor_val_two]; simp
  · show (Memref.whole main_v10_scv).view.read (Elt F) g ((Rect.unit (s := S9x2x128x8x128) ![f.val, h.val, 0, r.val, 0] S1x1x128x1x128.size inb).toLoadRect.idx (ix5 (0 : Fin 1) (0 : Fin 1) t (0 : Fin 1) q)) = _
    simp only [Memref.view_whole, View.read_whole]
    congr 1
    funext a
    apply Fin.ext
    rw [LoadRect.idx_apply]
    match a with
    | ⟨0, _⟩ => simp
    | ⟨1, _⟩ => simp
    | ⟨2, _⟩ => simp
    | ⟨3, _⟩ => simp
    | ⟨4, _⟩ => simp

/-- The array the kernel has to leave, at a used slice: feature `f` of limb `8 h + r` of batch row `128 t + q`. -/
theorem outV_at {α : Type} (pose : Cert.Layout.S16384x17x2.Idx → α) (vis : Cert.Layout.S16384x17.Idx → α) (delta : Cert.Layout.S16384x14x2.Idx → α)
    (len : Cert.Layout.S16384x14.Idx → α) (init : Cert.Layout.S9x2x128x8x128.Idx → α) (f : Fin 9) (h : Fin 2) (t : Fin 128) (r : Fin 8) (q : Fin 128)
    (hl : 8 * h.val + r.val < 14) :
    Cert.Layout.outV pose vis delta len init (ix5 f h t r q) = Cert.Spec.feat pose vis delta len (Cert.Layout.row t q) ⟨8 * h.val + r.val, hl⟩ f := by
  unfold Cert.Layout.outV
  exact dif_pos hl

/-! ## A tile's memref and the table's slice -/

theorem set_v2 (j : Fin 17) (x : Fin 2) (inb : ∀ a, ((![j.val, 0, x.val, 0] : Fin 4 → Nat)) a + S1x128x1x128.size a ≤ S17x128x2x128.size a) :
    (((Memref.whole main_v2_scv).slice (Rect.unit (s := S17x128x2x128) ![j.val, 0, x.val, 0] S1x128x1x128.size inb) (fun _ => rfl)).squeeze S128x128 squeezes_S1x128x1x128_S128x128).view.set
      = (Rect.unit (s := S17x128x2x128) ![j.val, 0, x.val, 0] S1x128x1x128.size inb).set := by
  show (((Memref.whole main_v2_scv).view.slice (Rect.unit (s := S17x128x2x128) ![j.val, 0, x.val, 0] S1x128x1x128.size inb)).reshape S128x128 (squeezes_S1x128x1x128_S128x128).numel_eq).set = _
  rw [View.set_reshape]
  exact View.set_slice_whole _ _
/-- The slice as a tile's memref names it is the slice as the table names it. -/
theorem pts_v2 (d : Dev nD) (c : Fin τ.nSC) (i : Fin τ.nSub) (j : Fin 17) (x : Fin 2) (inb : ∀ a, ((![j.val, 0, x.val, 0] : Fin 4 → Nat)) a + S1x128x1x128.size a ≤ S17x128x2x128.size a) (g : Buf (Elt F) (v2L d)) :
    ((((Memref.whole main_v2_scv).slice (Rect.unit (s := S17x128x2x128) ![j.val, 0, x.val, 0] S1x128x1x128.size inb) (fun _ => rfl)).squeeze S128x128 squeezes_S1x128x1x128_S128x128).view.loc (V d c i)
        ↦[(((Memref.whole main_v2_scv).slice (Rect.unit (s := S17x128x2x128) ![j.val, 0, x.val, 0] S1x128x1x128.size inb) (fun _ => rfl)).squeeze S128x128 squeezes_S1x128x1x128_S128x128).view.set]{fullShare} g : sProp 𝕄)
      = (v2L d ↦[set2 (j, x)]{fullShare} g) := by
  rw [set_v2]

theorem set_v5 (j : Fin 14) (x : Fin 2) (inb : ∀ a, ((![j.val, 0, x.val, 0] : Fin 4 → Nat)) a + S1x128x1x128.size a ≤ S14x128x2x128.size a) :
    (((Memref.whole main_v5_scv).slice (Rect.unit (s := S14x128x2x128) ![j.val, 0, x.val, 0] S1x128x1x128.size inb) (fun _ => rfl)).squeeze S128x128 squeezes_S1x128x1x128_S128x128).view.set
      = (Rect.unit (s := S14x128x2x128) ![j.val, 0, x.val, 0] S1x128x1x128.size inb).set := by
  show (((Memref.whole main_v5_scv).view.slice (Rect.unit (s := S14x128x2x128) ![j.val, 0, x.val, 0] S1x128x1x128.size inb)).reshape S128x128 (squeezes_S1x128x1x128_S128x128).numel_eq).set = _
  rw [View.set_reshape]
  exact View.set_slice_whole _ _
/-- The slice as a tile's memref names it is the slice as the table names it. -/
theorem pts_v5 (d : Dev nD) (c : Fin τ.nSC) (i : Fin τ.nSub) (j : Fin 14) (x : Fin 2) (inb : ∀ a, ((![j.val, 0, x.val, 0] : Fin 4 → Nat)) a + S1x128x1x128.size a ≤ S14x128x2x128.size a) (g : Buf (Elt F) (v5L d)) :
    ((((Memref.whole main_v5_scv).slice (Rect.unit (s := S14x128x2x128) ![j.val, 0, x.val, 0] S1x128x1x128.size inb) (fun _ => rfl)).squeeze S128x128 squeezes_S1x128x1x128_S128x128).view.loc (V d c i)
        ↦[(((Memref.whole main_v5_scv).slice (Rect.unit (s := S14x128x2x128) ![j.val, 0, x.val, 0] S1x128x1x128.size inb) (fun _ => rfl)).squeeze S128x128 squeezes_S1x128x1x128_S128x128).view.set]{fullShare} g : sProp 𝕄)
      = (v5L d ↦[set5 (j, x)]{fullShare} g) := by
  rw [set_v5]

theorem set_v7 (j : Fin 17) (inb : ∀ a, ((![j.val, 0, 0] : Fin 3 → Nat)) a + S1x128x128.size a ≤ S17x128x128.size a) :
    (((Memref.whole main_v7_scv).slice (Rect.unit (s := S17x128x128) ![j.val, 0, 0] S1x128x128.size inb) (fun _ => rfl)).squeeze S128x128 squeezes_S1x128x128_S128x128).view.set
      = (Rect.unit (s := S17x128x128) ![j.val, 0, 0] S1x128x128.size inb).set := by
  show (((Memref.whole main_v7_scv).view.slice (Rect.unit (s := S17x128x128) ![j.val, 0, 0] S1x128x128.size inb)).reshape S128x128 (squeezes_S1x128x128_S128x128).numel_eq).set = _
  rw [View.set_reshape]
  exact View.set_slice_whole _ _
/-- The slice as a tile's memref names it is the slice as the table names it. -/
theorem pts_v7 (d : Dev nD) (c : Fin τ.nSC) (i : Fin τ.nSub) (j : Fin 17) (inb : ∀ a, ((![j.val, 0, 0] : Fin 3 → Nat)) a + S1x128x128.size a ≤ S17x128x128.size a) (g : Buf (Elt F) (v7L d)) :
    ((((Memref.whole main_v7_scv).slice (Rect.unit (s := S17x128x128) ![j.val, 0, 0] S1x128x128.size inb) (fun _ => rfl)).squeeze S128x128 squeezes_S1x128x128_S128x128).view.loc (V d c i)
        ↦[(((Memref.whole main_v7_scv).slice (Rect.unit (s := S17x128x128) ![j.val, 0, 0] S1x128x128.size inb) (fun _ => rfl)).squeeze S128x128 squeezes_S1x128x128_S128x128).view.set]{fullShare} g : sProp 𝕄)
      = (v7L d ↦[set7 j]{fullShare} g) := by
  rw [set_v7]

theorem set_v9 (j : Fin 14) (inb : ∀ a, ((![j.val, 0, 0] : Fin 3 → Nat)) a + S1x128x128.size a ≤ S14x128x128.size a) :
    (((Memref.whole main_v9_scv).slice (Rect.unit (s := S14x128x128) ![j.val, 0, 0] S1x128x128.size inb) (fun _ => rfl)).squeeze S128x128 squeezes_S1x128x128_S128x128).view.set
      = (Rect.unit (s := S14x128x128) ![j.val, 0, 0] S1x128x128.size inb).set := by
  show (((Memref.whole main_v9_scv).view.slice (Rect.unit (s := S14x128x128) ![j.val, 0, 0] S1x128x128.size inb)).reshape S128x128 (squeezes_S1x128x128_S128x128).numel_eq).set = _
  rw [View.set_reshape]
  exact View.set_slice_whole _ _
/-- The slice as a tile's memref names it is the slice as the table names it. -/
theorem pts_v9 (d : Dev nD) (c : Fin τ.nSC) (i : Fin τ.nSub) (j : Fin 14) (inb : ∀ a, ((![j.val, 0, 0] : Fin 3 → Nat)) a + S1x128x128.size a ≤ S14x128x128.size a) (g : Buf (Elt F) (v9L d)) :
    ((((Memref.whole main_v9_scv).slice (Rect.unit (s := S14x128x128) ![j.val, 0, 0] S1x128x128.size inb) (fun _ => rfl)).squeeze S128x128 squeezes_S1x128x128_S128x128).view.loc (V d c i)
        ↦[(((Memref.whole main_v9_scv).slice (Rect.unit (s := S14x128x128) ![j.val, 0, 0] S1x128x128.size inb) (fun _ => rfl)).squeeze S128x128 squeezes_S1x128x128_S128x128).view.set]{fullShare} g : sProp 𝕄)
      = (v9L d ↦[set9 j]{fullShare} g) := by
  rw [set_v9]

theorem set_v10 (f : Fin 9) (h : Fin 2) (r : Fin 8) (inb : ∀ a, ((![f.val, h.val, 0, r.val, 0] : Fin 5 → Nat)) a + S1x1x128x1x128.size a ≤ S9x2x128x8x128.size a) :
    (((Memref.whole main_v10_scv).slice (Rect.unit (s := S9x2x128x8x128) ![f.val, h.val, 0, r.val, 0] S1x1x128x1x128.size inb) (fun _ => rfl)).squeeze S128x128 squeezes_S1x1x128x1x128_S128x128).view.set
      = (Rect.unit (s := S9x2x128x8x128) ![f.val, h.val, 0, r.val, 0] S1x1x128x1x128.size inb).set := by
  show (((Memref.whole main_v10_scv).view.slice (Rect.unit (s := S9x2x128x8x128) ![f.val, h.val, 0, r.val, 0] S1x1x128x1x128.size inb)).reshape S128x128 (squeezes_S1x1x128x1x128_S128x128).numel_eq).set = _
  rw [View.set_reshape]
  exact View.set_slice_whole _ _
/-- The slice as a tile's memref names it is the slice as the table names it. -/
theorem pts_v10 (d : Dev nD) (c : Fin τ.nSC) (i : Fin τ.nSub) (f : Fin 9) (h : Fin 2) (r : Fin 8) (inb : ∀ a, ((![f.val, h.val, 0, r.val, 0] : Fin 5 → Nat)) a + S1x1x128x1x128.size a ≤ S9x2x128x8x128.size a) (g : Buf (Elt F) (v10L d)) :
    ((((Memref.whole main_v10_scv).slice (Rect.unit (s := S9x2x128x8x128) ![f.val, h.val, 0, r.val, 0] S1x1x128x1x128.size inb) (fun _ => rfl)).squeeze S128x128 squeezes_S1x1x128x1x128_S128x128).view.loc (V d c i)
        ↦[(((Memref.whole main_v10_scv).slice (Rect.unit (s := S9x2x128x8x128) ![f.val, h.val, 0, r.val, 0] S1x1x128x1x128.size inb) (fun _ => rfl)).squeeze S128x128 squeezes_S1x1x128x1x128_S128x128).view.set]{fullShare} g : sProp 𝕄)
      = (v10L d ↦[set10 (f, h, r)]{fullShare} g) := by
  rw [set_v10]

/-- A staging buffer as the tile's memref names it is the tile's own buffer. -/
theorem pts_b0 (d : Dev nD) (c : Fin τ.nSC) (i : Fin τ.nSub) (g : Buf (Elt F) ((V d c i).loc cc0_scratch0)) :
    (((Memref.whole cc0_scratch0 : Memref sig .scVector .vmem S128x128 .f32).view.loc (V d c i) ↦{fullShare} g : sProp 𝕄)) = ((V d c i).loc cc0_scratch0 ↦{fullShare} g) := rfl
theorem pts_b1 (d : Dev nD) (c : Fin τ.nSC) (i : Fin τ.nSub) (g : Buf (Elt F) ((V d c i).loc cc0_scratch1)) :
    (((Memref.whole cc0_scratch1 : Memref sig .scVector .vmem S128x128 .f32).view.loc (V d c i) ↦{fullShare} g : sProp 𝕄)) = ((V d c i).loc cc0_scratch1 ↦{fullShare} g) := rfl
theorem pts_b2 (d : Dev nD) (c : Fin τ.nSC) (i : Fin τ.nSub) (g : Buf (Elt F) ((V d c i).loc cc0_scratch2)) :
    (((Memref.whole cc0_scratch2 : Memref sig .scVector .vmem S128x128 .f32).view.loc (V d c i) ↦{fullShare} g : sProp 𝕄)) = ((V d c i).loc cc0_scratch2 ↦{fullShare} g) := rfl

/-! ## A slice a copy has filled -/

/-- A slice overwritten whole by what a copy carried holds, on its own elements, any contents that read back as the
    carried values. -/
theorem out_post_ent [∀ e, Nonempty (Elt F e)] (thr : Thread nD τ) (OUT : Memref sig thr.2.kind .hbm S128x128 .f32)
    (fo g : Buf (Elt F) (OUT.view.loc thr)) (pay : S128x128.Idx → Elt F .f32) (h : pay = OUT.view.read (Elt F) g) :
    (OUT.view.loc thr ↦[OUT.view.set]{fullShare} OUT.view.writes (Elt F) fo [⟨Rect.whole S128x128, pay⟩] : sProp 𝕄)
      ⊢ OUT.view.loc thr ↦[OUT.view.set]{fullShare} g := by
  refine Entails.of_eq ?_
  rw [Idealize.ShloMosaic.pointsTo_rep (Ix := HIx 1) (Name := ℕ) (U := UU) (Lvl := ℕ) thr OUT (OUT.view.writes (Elt F) fo _),
    Idealize.ShloMosaic.pointsTo_rep (Ix := HIx 1) (Name := ℕ) (U := UU) (Lvl := ℕ) thr OUT g, View.read_writes_whole, h]

end Cert.Proof.KB

end
-- ==== Proof.KBTile0.lean ====
/-
  Tile 0 of the kernel (subcore 0 of core 0): one slice in (pose5.0), 4 out; one slice in (delta8.0), 1 out.
  Its whole body is run: every copy it does not own is skipped by the comparison of its number with the copy's owner;
  each incoming copy fills a staging buffer, each outgoing copy carries that buffer into one slice of the output array,
  and what each output slice then holds is the source slice the specification asks for there.
-/
import proofs.«210185_g18468359372994_cont_8to1_1390_15_alg».proof.Proof.KBRead

set_option maxHeartbeats 4000000
set_option quotPrecheck false

noncomputable section

namespace Cert.Proof.KB.Tile0

open Cert.Kernel Cert.Kernel.Gen
open Cert.Proof.KB
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
theorem cLt : 0 < grid0.bound 0 := by decide
theorem sLt : 0 < grid0.bound 1 := by decide
local notation "LL" => (coordsV (⟨0, cLt⟩ : Fin (grid0.bound 0)) (⟨0, sLt⟩ : Fin (grid0.bound 1)))
local notation "TH" d => V d (cV LL) (jV LL)
local notation "SRC0" => (((Memref.whole main_v2_scv).slice (Rect.unit (s := S17x128x2x128) ![5, 0, 0, 0] S1x128x1x128.size inb_S17x128x2x128_S1x128x1x128_5_0_0_0) (fun _ => rfl)).squeeze S128x128 squeezes_S1x128x1x128_S128x128 : Memref sig .scVector .hbm S128x128 .f32)
local notation "OUT0_0" => (((Memref.whole main_v10_scv).slice (Rect.unit (s := S9x2x128x8x128) ![3, 0, 0, 0, 0] S1x1x128x1x128.size inb_S9x2x128x8x128_S1x1x128x1x128_3_0_0_0_0) (fun _ => rfl)).squeeze S128x128 squeezes_S1x1x128x1x128_S128x128 : Memref sig .scVector .hbm S128x128 .f32)
local notation "OUT0_1" => (((Memref.whole main_v10_scv).slice (Rect.unit (s := S9x2x128x8x128) ![3, 1, 0, 0, 0] S1x1x128x1x128.size inb_S9x2x128x8x128_S1x1x128x1x128_3_1_0_0_0) (fun _ => rfl)).squeeze S128x128 squeezes_S1x1x128x1x128_S128x128 : Memref sig .scVector .hbm S128x128 .f32)
local notation "OUT0_2" => (((Memref.whole main_v10_scv).slice (Rect.unit (s := S9x2x128x8x128) ![3, 1, 0, 2, 0] S1x1x128x1x128.size inb_S9x2x128x8x128_S1x1x128x1x128_3_1_0_2_0) (fun _ => rfl)).squeeze S128x128 squeezes_S1x1x128x1x128_S128x128 : Memref sig .scVector .hbm S128x128 .f32)
local notation "OUT0_3" => (((Memref.whole main_v10_scv).slice (Rect.unit (s := S9x2x128x8x128) ![5, 1, 0, 4, 0] S1x1x128x1x128.size inb_S9x2x128x8x128_S1x1x128x1x128_5_1_0_4_0) (fun _ => rfl)).squeeze S128x128 squeezes_S1x1x128x1x128_S128x128 : Memref sig .scVector .hbm S128x128 .f32)
local notation "SRC1" => (((Memref.whole main_v5_scv).slice (Rect.unit (s := S14x128x2x128) ![8, 0, 0, 0] S1x128x1x128.size inb_S14x128x2x128_S1x128x1x128_8_0_0_0) (fun _ => rfl)).squeeze S128x128 squeezes_S1x128x1x128_S128x128 : Memref sig .scVector .hbm S128x128 .f32)
local notation "OUT1_0" => (((Memref.whole main_v10_scv).slice (Rect.unit (s := S9x2x128x8x128) ![0, 1, 0, 0, 0] S1x1x128x1x128.size inb_S9x2x128x8x128_S1x1x128x1x128_0_1_0_0_0) (fun _ => rfl)).squeeze S128x128 squeezes_S1x1x128x1x128_S128x128 : Memref sig .scVector .hbm S128x128 .f32)

/-! ## The tile's slices, as its memrefs name them -/

theorem open2 (m : (ℓ : Loc nD τ sig) → Buf (Elt F) ℓ) (d : Dev nD) :
    (bigSep (t2 (0 : Fin 32)) (A2 m d) : sProp 𝕄) = iprop(((SRC0).view.loc (TH d) ↦[(SRC0).view.set]{fullShare} V2c m d)) := by
  show bigSep ({((5 : Fin 17), (0 : Fin 2))} : Finset (Fin 17 × Fin 2)) (A2 m d) = _
  rw [bigSep_singleton]
  exact (pts_v2 d (cV LL) (jV LL) (5 : Fin 17) (0 : Fin 2) _ (V2c m d)).symm
theorem open5 (m : (ℓ : Loc nD τ sig) → Buf (Elt F) ℓ) (d : Dev nD) :
    (bigSep (t5 (0 : Fin 32)) (A5 m d) : sProp 𝕄) = iprop(((SRC1).view.loc (TH d) ↦[(SRC1).view.set]{fullShare} V5c m d)) := by
  show bigSep ({((8 : Fin 14), (0 : Fin 2))} : Finset (Fin 14 × Fin 2)) (A5 m d) = _
  rw [bigSep_singleton]
  exact (pts_v5 d (cV LL) (jV LL) (8 : Fin 14) (0 : Fin 2) _ (V5c m d)).symm
theorem open10 (m : (ℓ : Loc nD τ sig) → Buf (Elt F) ℓ) (d : Dev nD) :
    (bigSep (t10 (0 : Fin 32)) (B0 m d) : sProp 𝕄) = iprop(((OUT0_0).view.loc (TH d) ↦[(OUT0_0).view.set]{fullShare} m (v10L d)) ∗ ((OUT0_1).view.loc (TH d) ↦[(OUT0_1).view.set]{fullShare} m (v10L d)) ∗ ((OUT0_2).view.loc (TH d) ↦[(OUT0_2).view.set]{fullShare} m (v10L d)) ∗ ((OUT0_3).view.loc (TH d) ↦[(OUT0_3).view.set]{fullShare} m (v10L d)) ∗ ((OUT1_0).view.loc (TH d) ↦[(OUT1_0).view.set]{fullShare} m (v10L d))) := by
  show bigSep ({((3 : Fin 9), (0 : Fin 2), (0 : Fin 8)), ((3 : Fin 9), (1 : Fin 2), (0 : Fin 8)), ((3 : Fin 9), (1 : Fin 2), (2 : Fin 8)), ((5 : Fin 9), (1 : Fin 2), (4 : Fin 8)), ((0 : Fin 9), (1 : Fin 2), (0 : Fin 8))} : Finset (Fin 9 × Fin 2 × Fin 8)) (B0 m d) = _
  rw [SparseCore.bigSep_insert' (by decide), SparseCore.bigSep_insert' (by decide), SparseCore.bigSep_insert' (by decide), SparseCore.bigSep_insert' (by decide), bigSep_singleton]
  exact (congrArg₂ (fun a b : sProp 𝕄 => iprop(a ∗ b)) (pts_v10 d (cV LL) (jV LL) (3 : Fin 9) (0 : Fin 2) (0 : Fin 8) _ (m (v10L d))).symm (congrArg₂ (fun a b : sProp 𝕄 => iprop(a ∗ b)) (pts_v10 d (cV LL) (jV LL) (3 : Fin 9) (1 : Fin 2) (0 : Fin 8) _ (m (v10L d))).symm (congrArg₂ (fun a b : sProp 𝕄 => iprop(a ∗ b)) (pts_v10 d (cV LL) (jV LL) (3 : Fin 9) (1 : Fin 2) (2 : Fin 8) _ (m (v10L d))).symm (congrArg₂ (fun a b : sProp 𝕄 => iprop(a ∗ b)) (pts_v10 d (cV LL) (jV LL) (5 : Fin 9) (1 : Fin 2) (4 : Fin 8) _ (m (v10L d))).symm (pts_v10 d (cV LL) (jV LL) (0 : Fin 9) (1 : Fin 2) (0 : Fin 8) _ (m (v10L d))).symm))))
theorem close10 (m : (ℓ : Loc nD τ sig) → Buf (Elt F) ℓ) (d : Dev nD) :
    (bigSep (t10 (0 : Fin 32)) (B1 m d) : sProp 𝕄) = iprop(((OUT0_0).view.loc (TH d) ↦[(OUT0_0).view.set]{fullShare} OUTc m d) ∗ ((OUT0_1).view.loc (TH d) ↦[(OUT0_1).view.set]{fullShare} OUTc m d) ∗ ((OUT0_2).view.loc (TH d) ↦[(OUT0_2).view.set]{fullShare} OUTc m d) ∗ ((OUT0_3).view.loc (TH d) ↦[(OUT0_3).view.set]{fullShare} OUTc m d) ∗ ((OUT1_0).view.loc (TH d) ↦[(OUT1_0).view.set]{fullShare} OUTc m d)) := by
  show bigSep ({((3 : Fin 9), (0 : Fin 2), (0 : Fin 8)), ((3 : Fin 9), (1 : Fin 2), (0 : Fin 8)), ((3 : Fin 9), (1 : Fin 2), (2 : Fin 8)), ((5 : Fin 9), (1 : Fin 2), (4 : Fin 8)), ((0 : Fin 9), (1 : Fin 2), (0 : Fin 8))} : Finset (Fin 9 × Fin 2 × Fin 8)) (B1 m d) = _
  rw [SparseCore.bigSep_insert' (by decide), SparseCore.bigSep_insert' (by decide), SparseCore.bigSep_insert' (by decide), SparseCore.bigSep_insert' (by decide), bigSep_singleton]
  exact (congrArg₂ (fun a b : sProp 𝕄 => iprop(a ∗ b)) (pts_v10 d (cV LL) (jV LL) (3 : Fin 9) (0 : Fin 2) (0 : Fin 8) _ (OUTc m d)).symm (congrArg₂ (fun a b : sProp 𝕄 => iprop(a ∗ b)) (pts_v10 d (cV LL) (jV LL) (3 : Fin 9) (1 : Fin 2) (0 : Fin 8) _ (OUTc m d)).symm (congrArg₂ (fun a b : sProp 𝕄 => iprop(a ∗ b)) (pts_v10 d (cV LL) (jV LL) (3 : Fin 9) (1 : Fin 2) (2 : Fin 8) _ (OUTc m d)).symm (congrArg₂ (fun a b : sProp 𝕄 => iprop(a ∗ b)) (pts_v10 d (cV LL) (jV LL) (5 : Fin 9) (1 : Fin 2) (4 : Fin 8) _ (OUTc m d)).symm (pts_v10 d (cV LL) (jV LL) (0 : Fin 9) (1 : Fin 2) (0 : Fin 8) _ (OUTc m d)).symm))))

/-! ## What each output slice has to hold is what its source slice holds -/

theorem val0_0 (m : (ℓ : Loc nD τ sig) → Buf (Elt F) ℓ) (d : Dev nD) :
    (SRC0).view.read (Elt F) (V2c m d) = (OUT0_0).view.read (Elt F) (OUTc m d) := by
  funext y
  obtain ⟨t, q, rfl⟩ : ∃ (t q : Fin 128), y = ix2 t q := ⟨y 0, y 1, eq_ix2 y⟩
  refine (read_v2 (5 : Fin 17) (0 : Fin 2) _ _ t q).trans ((?_ : _ = _).trans (read_v10 (3 : Fin 9) (0 : Fin 2) (0 : Fin 8) _ _ t q).symm)
  unfold V2c OUTc
  rw [Cert.Layout.poseV_apply]
  refine Eq.trans ?_ (outV_at _ _ _ _ _ _ _ t _ q (show 8 * 0 + 0 < 14 by decide)).symm
  rfl
theorem val0_1 (m : (ℓ : Loc nD τ sig) → Buf (Elt F) ℓ) (d : Dev nD) :
    (SRC0).view.read (Elt F) (V2c m d) = (OUT0_1).view.read (Elt F) (OUTc m d) := by
  funext y
  obtain ⟨t, q, rfl⟩ : ∃ (t q : Fin 128), y = ix2 t q := ⟨y 0, y 1, eq_ix2 y⟩
  refine (read_v2 (5 : Fin 17) (0 : Fin 2) _ _ t q).trans ((?_ : _ = _).trans (read_v10 (3 : Fin 9) (1 : Fin 2) (0 : Fin 8) _ _ t q).symm)
  unfold V2c OUTc
  rw [Cert.Layout.poseV_apply]
  refine Eq.trans ?_ (outV_at _ _ _ _ _ _ _ t _ q (show 8 * 1 + 0 < 14 by decide)).symm
  rfl
theorem val0_2 (m : (ℓ : Loc nD τ sig) → Buf (Elt F) ℓ) (d : Dev nD) :
    (SRC0).view.read (Elt F) (V2c m d) = (OUT0_2).view.read (Elt F) (OUTc m d) := by
  funext y
  obtain ⟨t, q, rfl⟩ : ∃ (t q : Fin 128), y = ix2 t q := ⟨y 0, y 1, eq_ix2 y⟩
  refine (read_v2 (5 : Fin 17) (0 : Fin 2) _ _ t q).trans ((?_ : _ = _).trans (read_v10 (3 : Fin 9) (1 : Fin 2) (2 : Fin 8) _ _ t q).symm)
  unfold V2c OUTc
  rw [Cert.Layout.poseV_apply]
  refine Eq.trans ?_ (outV_at _ _ _ _ _ _ _ t _ q (show 8 * 1 + 2 < 14 by decide)).symm
  rfl
theorem val0_3 (m : (ℓ : Loc nD τ sig) → Buf (Elt F) ℓ) (d : Dev nD) :
    (SRC0).view.read (Elt F) (V2c m d) = (OUT0_3).view.read (Elt F) (OUTc m d) := by
  funext y
  obtain ⟨t, q, rfl⟩ : ∃ (t q : Fin 128), y = ix2 t q := ⟨y 0, y 1, eq_ix2 y⟩
  refine (read_v2 (5 : Fin 17) (0 : Fin 2) _ _ t q).trans ((?_ : _ = _).trans (read_v10 (5 : Fin 9) (1 : Fin 2) (4 : Fin 8) _ _ t q).symm)
  unfold V2c OUTc
  rw [Cert.Layout.poseV_apply]
  refine Eq.trans ?_ (outV_at _ _ _ _ _ _ _ t _ q (show 8 * 1 + 4 < 14 by decide)).symm
  rfl
theorem val1_0 (m : (ℓ : Loc nD τ sig) → Buf (Elt F) ℓ) (d : Dev nD) :
    (SRC1).view.read (Elt F) (V5c m d) = (OUT1_0).view.read (Elt F) (OUTc m d) := by
  funext y
  obtain ⟨t, q, rfl⟩ : ∃ (t q : Fin 128), y = ix2 t q := ⟨y 0, y 1, eq_ix2 y⟩
  refine (read_v5 (8 : Fin 14) (0 : Fin 2) _ _ t q).trans ((?_ : _ = _).trans (read_v10 (0 : Fin 9) (1 : Fin 2) (0 : Fin 8) _ _ t q).symm)
  unfold V5c OUTc
  rw [Cert.Layout.deltaV_apply]
  refine Eq.trans ?_ (outV_at _ _ _ _ _ _ _ t _ q (show 8 * 1 + 0 < 14 by decide)).symm
  rfl

/-! ## The run -/

open Lean Elab Tactic Meta in
/-- Unfold the names the symbolic run gave to the values its copies carry. -/
elab "unfold_carried" : tactic => do
  for _ in [0:6] do
    let g ← getMainGoal
    let t ← instantiateMVars (← g.getType)
    if (t.getUsedConstants.any fun n => n.components.any (· == `sl)) then
      let t' ← deltaExpand t (fun n => n.components.any (· == `sl))
      let g' ← g.change t' (checkDefEq := false)
      replaceMainGoal [g']

variable [FloatOps F] [∀ e, Nonempty (Elt F e)]

theorem run (m : (ℓ : Loc nD τ sig) → Buf (Elt F) ℓ) (d : Dev nD) (O : CellTallies nD τ sig (HIx 1)) (W : Waits sig (HIx 1)) (hO : ∀ g, O g none = 0) :
    (iprop(levAts (K (F := F)).L (K (F := F)).lev ∗ tileG m d (0 : Fin 32)
        ∗ scopedBufs (TH d) ∗ scopedSems0 (TH d) ∗ owes (TH d) O W) : sProp 𝕄)
      ⊢ wp frame (wpE (defs₀ (F := F)) 𝒱₀ (TH d) none) Set.univ
          (cc0_run LL (Memref.whole main_v2_scv) (Memref.isWhole_whole _) (Memref.whole main_v7_scv) (Memref.isWhole_whole _) (Memref.whole main_v5_scv) (Memref.isWhole_whole _) (Memref.whole main_v9_scv) (Memref.isWhole_whole _) (Memref.whole main_v10_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8)
          fun _ => iprop(tileT m d (0 : Fin 32) ∗ scopedBufs (TH d) ∗ scopedSems0 (TH d)
            ∗ ∃ W', ⌜∀ p ∈ W', p ∈ W ∨ p.2 = none⌝ ∗ owes (TH d) O W') := by
  rw [(K (F := F)).scopedBufs_V facts d (cV LL) (jV LL), SparseCore.Cfg.scopedSems0_V (Val := Elt F) d (cV LL) (jV LL), ownSems0_V, ownBufs_V]
  unfold tileG tileT
  iintro ⟨#Hlv, ⟨HF2, -, HF5, -, HF10⟩, ⟨⟨%fb0, Hb0⟩, ⟨%fb1, Hb1⟩, ⟨%fb2, Hb2⟩, Hbufs⟩, ⟨Hs3, Hs4, Hs5, Hs6, Hs7, Hs8, Hsems⟩, HO⟩
  ihave HF2' := (Entails.of_eq (open2 m d)) $$ HF2
  icases HF2' with HS0
  ihave HF5' := (Entails.of_eq (open5 m d)) $$ HF5
  icases HF5' with HS1
  ihave HF10' := (Entails.of_eq (open10 m d)) $$ HF10
  icases HF10' with ⟨HO0_0, HO0_1, HO0_2, HO0_3, HO1_0⟩
  ihave Hmw := ((K (F := F)).mayWaits_none (thr := TH d) hO) $$ Hlv
  ihave Hb0' := (Entails.of_eq (pts_b0 d (cV LL) (jV LL) _).symm) $$ Hb0
  ihave Hb1' := (Entails.of_eq (pts_b1 d (cV LL) (jV LL) _).symm) $$ Hb1
  ihave Hb2' := (Entails.of_eq (pts_b2 d (cV LL) (jV LL) _).symm) $$ Hb2
  have _plan : Transfers.BatchOf (TH d) (SemLoc.dma (sig := sig) cc0_scratch6.sem) 4 (windows := true) := trivial
  sl_unfold [cc0_run]
  sl_exec_parts (disch := decide)
  sl_step
  isplitl [HS0 HS1 HO0_0 HO0_1 HO0_2 HO0_3 HO1_0]
  · skip
    isplitl [HS0]
    · iapply (Entails.of_eq (open2 m d).symm)
      iexact HS0
    isplitr
    · rw [show t7 (0 : Fin 32) = ∅ from rfl, bigSep_empty]; iempintro
    isplitl [HS1]
    · iapply (Entails.of_eq (open5 m d).symm)
      iexact HS1
    isplitr
    · rw [show t9 (0 : Fin 32) = ∅ from rfl, bigSep_empty]; iempintro
    · iapply (Entails.of_eq (close10 m d).symm)
      isplitl [HO0_0]
      · iapply (out_post_ent (TH d) (OUT0_0) _ (OUTc m d) _ ?hv0_0) $$ HO0_0
        case hv0_0 => unfold_carried; simp only [ReadAs.apply_same, View.read_write_univ]; exact val0_0 m d
      isplitl [HO0_1]
      · iapply (out_post_ent (TH d) (OUT0_1) _ (OUTc m d) _ ?hv0_1) $$ HO0_1
        case hv0_1 => unfold_carried; simp only [ReadAs.apply_same, View.read_write_univ]; exact val0_1 m d
      isplitl [HO0_2]
      · iapply (out_post_ent (TH d) (OUT0_2) _ (OUTc m d) _ ?hv0_2) $$ HO0_2
        case hv0_2 => unfold_carried; simp only [ReadAs.apply_same, View.read_write_univ]; exact val0_2 m d
      isplitl [HO0_3]
      · iapply (out_post_ent (TH d) (OUT0_3) _ (OUTc m d) _ ?hv0_3) $$ HO0_3
        case hv0_3 => unfold_carried; simp only [ReadAs.apply_same, View.read_write_univ]; exact val0_3 m d
      iapply (out_post_ent (TH d) (OUT1_0) _ (OUTc m d) _ ?hv1_0) $$ HO1_0
      case hv1_0 => unfold_carried; simp only [ReadAs.apply_same, View.read_write_univ]; exact val1_0 m d

  isplitl [Hb0' Hb1' Hb2' Hbufs]
  · isplitl [Hb0']
    · iexists _; iapply (Entails.of_eq (pts_b0 d (cV LL) (jV LL) _)); iexact Hb0'
    isplitl [Hb1']
    · iexists _; iapply (Entails.of_eq (pts_b1 d (cV LL) (jV LL) _)); iexact Hb1'
    isplitl [Hb2']
    · iexists _; iapply (Entails.of_eq (pts_b2 d (cV LL) (jV LL) _)); iexact Hb2'
    iexact Hbufs
  isplitl [Hs3 Hs4 Hs5 Hs6 Hs7 Hs8 Hsems]
  · isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    iexact Hsems
  iexists _; isplitr
  rotate_left
  · iexact HO
  · ipureintro; intro p hp
    simp only [Finset.mem_insert] at hp
    rcases hp with rfl | rfl | rfl | rfl | rfl | rfl | rfl | hp <;> first | exact .inr rfl | exact .inl hp

end Cert.Proof.KB.Tile0

end
-- ==== Proof.KBTile1.lean ====
/-
  Tile 1 of the kernel (subcore 0 of core 1): one slice in (pose5.1), 4 out; one slice in (delta8.1), 1 out.
  Its whole body is run: every copy it does not own is skipped by the comparison of its number with the copy's owner;
  each incoming copy fills a staging buffer, each outgoing copy carries that buffer into one slice of the output array,
  and what each output slice then holds is the source slice the specification asks for there.
-/
import proofs.«210185_g18468359372994_cont_8to1_1390_15_alg».proof.Proof.KBRead

set_option maxHeartbeats 4000000
set_option quotPrecheck false

noncomputable section

namespace Cert.Proof.KB.Tile1

open Cert.Kernel Cert.Kernel.Gen
open Cert.Proof.KB
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
theorem cLt : 1 < grid0.bound 0 := by decide
theorem sLt : 0 < grid0.bound 1 := by decide
local notation "LL" => (coordsV (⟨1, cLt⟩ : Fin (grid0.bound 0)) (⟨0, sLt⟩ : Fin (grid0.bound 1)))
local notation "TH" d => V d (cV LL) (jV LL)
local notation "SRC0" => (((Memref.whole main_v2_scv).slice (Rect.unit (s := S17x128x2x128) ![5, 0, 1, 0] S1x128x1x128.size inb_S17x128x2x128_S1x128x1x128_5_0_1_0) (fun _ => rfl)).squeeze S128x128 squeezes_S1x128x1x128_S128x128 : Memref sig .scVector .hbm S128x128 .f32)
local notation "OUT0_0" => (((Memref.whole main_v10_scv).slice (Rect.unit (s := S9x2x128x8x128) ![4, 0, 0, 0, 0] S1x1x128x1x128.size inb_S9x2x128x8x128_S1x1x128x1x128_4_0_0_0_0) (fun _ => rfl)).squeeze S128x128 squeezes_S1x1x128x1x128_S128x128 : Memref sig .scVector .hbm S128x128 .f32)
local notation "OUT0_1" => (((Memref.whole main_v10_scv).slice (Rect.unit (s := S9x2x128x8x128) ![4, 1, 0, 0, 0] S1x1x128x1x128.size inb_S9x2x128x8x128_S1x1x128x1x128_4_1_0_0_0) (fun _ => rfl)).squeeze S128x128 squeezes_S1x1x128x1x128_S128x128 : Memref sig .scVector .hbm S128x128 .f32)
local notation "OUT0_2" => (((Memref.whole main_v10_scv).slice (Rect.unit (s := S9x2x128x8x128) ![4, 1, 0, 2, 0] S1x1x128x1x128.size inb_S9x2x128x8x128_S1x1x128x1x128_4_1_0_2_0) (fun _ => rfl)).squeeze S128x128 squeezes_S1x1x128x1x128_S128x128 : Memref sig .scVector .hbm S128x128 .f32)
local notation "OUT0_3" => (((Memref.whole main_v10_scv).slice (Rect.unit (s := S9x2x128x8x128) ![6, 1, 0, 4, 0] S1x1x128x1x128.size inb_S9x2x128x8x128_S1x1x128x1x128_6_1_0_4_0) (fun _ => rfl)).squeeze S128x128 squeezes_S1x1x128x1x128_S128x128 : Memref sig .scVector .hbm S128x128 .f32)
local notation "SRC1" => (((Memref.whole main_v5_scv).slice (Rect.unit (s := S14x128x2x128) ![8, 0, 1, 0] S1x128x1x128.size inb_S14x128x2x128_S1x128x1x128_8_0_1_0) (fun _ => rfl)).squeeze S128x128 squeezes_S1x128x1x128_S128x128 : Memref sig .scVector .hbm S128x128 .f32)
local notation "OUT1_0" => (((Memref.whole main_v10_scv).slice (Rect.unit (s := S9x2x128x8x128) ![1, 1, 0, 0, 0] S1x1x128x1x128.size inb_S9x2x128x8x128_S1x1x128x1x128_1_1_0_0_0) (fun _ => rfl)).squeeze S128x128 squeezes_S1x1x128x1x128_S128x128 : Memref sig .scVector .hbm S128x128 .f32)

/-! ## The tile's slices, as its memrefs name them -/

theorem open2 (m : (ℓ : Loc nD τ sig) → Buf (Elt F) ℓ) (d : Dev nD) :
    (bigSep (t2 (1 : Fin 32)) (A2 m d) : sProp 𝕄) = iprop(((SRC0).view.loc (TH d) ↦[(SRC0).view.set]{fullShare} V2c m d)) := by
  show bigSep ({((5 : Fin 17), (1 : Fin 2))} : Finset (Fin 17 × Fin 2)) (A2 m d) = _
  rw [bigSep_singleton]
  exact (pts_v2 d (cV LL) (jV LL) (5 : Fin 17) (1 : Fin 2) _ (V2c m d)).symm
theorem open5 (m : (ℓ : Loc nD τ sig) → Buf (Elt F) ℓ) (d : Dev nD) :
    (bigSep (t5 (1 : Fin 32)) (A5 m d) : sProp 𝕄) = iprop(((SRC1).view.loc (TH d) ↦[(SRC1).view.set]{fullShare} V5c m d)) := by
  show bigSep ({((8 : Fin 14), (1 : Fin 2))} : Finset (Fin 14 × Fin 2)) (A5 m d) = _
  rw [bigSep_singleton]
  exact (pts_v5 d (cV LL) (jV LL) (8 : Fin 14) (1 : Fin 2) _ (V5c m d)).symm
theorem open10 (m : (ℓ : Loc nD τ sig) → Buf (Elt F) ℓ) (d : Dev nD) :
    (bigSep (t10 (1 : Fin 32)) (B0 m d) : sProp 𝕄) = iprop(((OUT0_0).view.loc (TH d) ↦[(OUT0_0).view.set]{fullShare} m (v10L d)) ∗ ((OUT0_1).view.loc (TH d) ↦[(OUT0_1).view.set]{fullShare} m (v10L d)) ∗ ((OUT0_2).view.loc (TH d) ↦[(OUT0_2).view.set]{fullShare} m (v10L d)) ∗ ((OUT0_3).view.loc (TH d) ↦[(OUT0_3).view.set]{fullShare} m (v10L d)) ∗ ((OUT1_0).view.loc (TH d) ↦[(OUT1_0).view.set]{fullShare} m (v10L d))) := by
  show bigSep ({((4 : Fin 9), (0 : Fin 2), (0 : Fin 8)), ((4 : Fin 9), (1 : Fin 2), (0 : Fin 8)), ((4 : Fin 9), (1 : Fin 2), (2 : Fin 8)), ((6 : Fin 9), (1 : Fin 2), (4 : Fin 8)), ((1 : Fin 9), (1 : Fin 2), (0 : Fin 8))} : Finset (Fin 9 × Fin 2 × Fin 8)) (B0 m d) = _
  rw [SparseCore.bigSep_insert' (by decide), SparseCore.bigSep_insert' (by decide), SparseCore.bigSep_insert' (by decide), SparseCore.bigSep_insert' (by decide), bigSep_singleton]
  exact (congrArg₂ (fun a b : sProp 𝕄 => iprop(a ∗ b)) (pts_v10 d (cV LL) (jV LL) (4 : Fin 9) (0 : Fin 2) (0 : Fin 8) _ (m (v10L d))).symm (congrArg₂ (fun a b : sProp 𝕄 => iprop(a ∗ b)) (pts_v10 d (cV LL) (jV LL) (4 : Fin 9) (1 : Fin 2) (0 : Fin 8) _ (m (v10L d))).symm (congrArg₂ (fun a b : sProp 𝕄 => iprop(a ∗ b)) (pts_v10 d (cV LL) (jV LL) (4 : Fin 9) (1 : Fin 2) (2 : Fin 8) _ (m (v10L d))).symm (congrArg₂ (fun a b : sProp 𝕄 => iprop(a ∗ b)) (pts_v10 d (cV LL) (jV LL) (6 : Fin 9) (1 : Fin 2) (4 : Fin 8) _ (m (v10L d))).symm (pts_v10 d (cV LL) (jV LL) (1 : Fin 9) (1 : Fin 2) (0 : Fin 8) _ (m (v10L d))).symm))))
theorem close10 (m : (ℓ : Loc nD τ sig) → Buf (Elt F) ℓ) (d : Dev nD) :
    (bigSep (t10 (1 : Fin 32)) (B1 m d) : sProp 𝕄) = iprop(((OUT0_0).view.loc (TH d) ↦[(OUT0_0).view.set]{fullShare} OUTc m d) ∗ ((OUT0_1).view.loc (TH d) ↦[(OUT0_1).view.set]{fullShare} OUTc m d) ∗ ((OUT0_2).view.loc (TH d) ↦[(OUT0_2).view.set]{fullShare} OUTc m d) ∗ ((OUT0_3).view.loc (TH d) ↦[(OUT0_3).view.set]{fullShare} OUTc m d) ∗ ((OUT1_0).view.loc (TH d) ↦[(OUT1_0).view.set]{fullShare} OUTc m d)) := by
  show bigSep ({((4 : Fin 9), (0 : Fin 2), (0 : Fin 8)), ((4 : Fin 9), (1 : Fin 2), (0 : Fin 8)), ((4 : Fin 9), (1 : Fin 2), (2 : Fin 8)), ((6 : Fin 9), (1 : Fin 2), (4 : Fin 8)), ((1 : Fin 9), (1 : Fin 2), (0 : Fin 8))} : Finset (Fin 9 × Fin 2 × Fin 8)) (B1 m d) = _
  rw [SparseCore.bigSep_insert' (by decide), SparseCore.bigSep_insert' (by decide), SparseCore.bigSep_insert' (by decide), SparseCore.bigSep_insert' (by decide), bigSep_singleton]
  exact (congrArg₂ (fun a b : sProp 𝕄 => iprop(a ∗ b)) (pts_v10 d (cV LL) (jV LL) (4 : Fin 9) (0 : Fin 2) (0 : Fin 8) _ (OUTc m d)).symm (congrArg₂ (fun a b : sProp 𝕄 => iprop(a ∗ b)) (pts_v10 d (cV LL) (jV LL) (4 : Fin 9) (1 : Fin 2) (0 : Fin 8) _ (OUTc m d)).symm (congrArg₂ (fun a b : sProp 𝕄 => iprop(a ∗ b)) (pts_v10 d (cV LL) (jV LL) (4 : Fin 9) (1 : Fin 2) (2 : Fin 8) _ (OUTc m d)).symm (congrArg₂ (fun a b : sProp 𝕄 => iprop(a ∗ b)) (pts_v10 d (cV LL) (jV LL) (6 : Fin 9) (1 : Fin 2) (4 : Fin 8) _ (OUTc m d)).symm (pts_v10 d (cV LL) (jV LL) (1 : Fin 9) (1 : Fin 2) (0 : Fin 8) _ (OUTc m d)).symm))))

/-! ## What each output slice has to hold is what its source slice holds -/

theorem val0_0 (m : (ℓ : Loc nD τ sig) → Buf (Elt F) ℓ) (d : Dev nD) :
    (SRC0).view.read (Elt F) (V2c m d) = (OUT0_0).view.read (Elt F) (OUTc m d) := by
  funext y
  obtain ⟨t, q, rfl⟩ : ∃ (t q : Fin 128), y = ix2 t q := ⟨y 0, y 1, eq_ix2 y⟩
  refine (read_v2 (5 : Fin 17) (1 : Fin 2) _ _ t q).trans ((?_ : _ = _).trans (read_v10 (4 : Fin 9) (0 : Fin 2) (0 : Fin 8) _ _ t q).symm)
  unfold V2c OUTc
  rw [Cert.Layout.poseV_apply]
  refine Eq.trans ?_ (outV_at _ _ _ _ _ _ _ t _ q (show 8 * 0 + 0 < 14 by decide)).symm
  rfl
theorem val0_1 (m : (ℓ : Loc nD τ sig) → Buf (Elt F) ℓ) (d : Dev nD) :
    (SRC0).view.read (Elt F) (V2c m d) = (OUT0_1).view.read (Elt F) (OUTc m d) := by
  funext y
  obtain ⟨t, q, rfl⟩ : ∃ (t q : Fin 128), y = ix2 t q := ⟨y 0, y 1, eq_ix2 y⟩
  refine (read_v2 (5 : Fin 17) (1 : Fin 2) _ _ t q).trans ((?_ : _ = _).trans (read_v10 (4 : Fin 9) (1 : Fin 2) (0 : Fin 8) _ _ t q).symm)
  unfold V2c OUTc
  rw [Cert.Layout.poseV_apply]
  refine Eq.trans ?_ (outV_at _ _ _ _ _ _ _ t _ q (show 8 * 1 + 0 < 14 by decide)).symm
  rfl
theorem val0_2 (m : (ℓ : Loc nD τ sig) → Buf (Elt F) ℓ) (d : Dev nD) :
    (SRC0).view.read (Elt F) (V2c m d) = (OUT0_2).view.read (Elt F) (OUTc m d) := by
  funext y
  obtain ⟨t, q, rfl⟩ : ∃ (t q : Fin 128), y = ix2 t q := ⟨y 0, y 1, eq_ix2 y⟩
  refine (read_v2 (5 : Fin 17) (1 : Fin 2) _ _ t q).trans ((?_ : _ = _).trans (read_v10 (4 : Fin 9) (1 : Fin 2) (2 : Fin 8) _ _ t q).symm)
  unfold V2c OUTc
  rw [Cert.Layout.poseV_apply]
  refine Eq.trans ?_ (outV_at _ _ _ _ _ _ _ t _ q (show 8 * 1 + 2 < 14 by decide)).symm
  rfl
theorem val0_3 (m : (ℓ : Loc nD τ sig) → Buf (Elt F) ℓ) (d : Dev nD) :
    (SRC0).view.read (Elt F) (V2c m d) = (OUT0_3).view.read (Elt F) (OUTc m d) := by
  funext y
  obtain ⟨t, q, rfl⟩ : ∃ (t q : Fin 128), y = ix2 t q := ⟨y 0, y 1, eq_ix2 y⟩
  refine (read_v2 (5 : Fin 17) (1 : Fin 2) _ _ t q).trans ((?_ : _ = _).trans (read_v10 (6 : Fin 9) (1 : Fin 2) (4 : Fin 8) _ _ t q).symm)
  unfold V2c OUTc
  rw [Cert.Layout.poseV_apply]
  refine Eq.trans ?_ (outV_at _ _ _ _ _ _ _ t _ q (show 8 * 1 + 4 < 14 by decide)).symm
  rfl
theorem val1_0 (m : (ℓ : Loc nD τ sig) → Buf (Elt F) ℓ) (d : Dev nD) :
    (SRC1).view.read (Elt F) (V5c m d) = (OUT1_0).view.read (Elt F) (OUTc m d) := by
  funext y
  obtain ⟨t, q, rfl⟩ : ∃ (t q : Fin 128), y = ix2 t q := ⟨y 0, y 1, eq_ix2 y⟩
  refine (read_v5 (8 : Fin 14) (1 : Fin 2) _ _ t q).trans ((?_ : _ = _).trans (read_v10 (1 : Fin 9) (1 : Fin 2) (0 : Fin 8) _ _ t q).symm)
  unfold V5c OUTc
  rw [Cert.Layout.deltaV_apply]
  refine Eq.trans ?_ (outV_at _ _ _ _ _ _ _ t _ q (show 8 * 1 + 0 < 14 by decide)).symm
  rfl

/-! ## The run -/

open Lean Elab Tactic Meta in
/-- Unfold the names the symbolic run gave to the values its copies carry. -/
elab "unfold_carried" : tactic => do
  for _ in [0:6] do
    let g ← getMainGoal
    let t ← instantiateMVars (← g.getType)
    if (t.getUsedConstants.any fun n => n.components.any (· == `sl)) then
      let t' ← deltaExpand t (fun n => n.components.any (· == `sl))
      let g' ← g.change t' (checkDefEq := false)
      replaceMainGoal [g']

variable [FloatOps F] [∀ e, Nonempty (Elt F e)]

theorem run (m : (ℓ : Loc nD τ sig) → Buf (Elt F) ℓ) (d : Dev nD) (O : CellTallies nD τ sig (HIx 1)) (W : Waits sig (HIx 1)) (hO : ∀ g, O g none = 0) :
    (iprop(levAts (K (F := F)).L (K (F := F)).lev ∗ tileG m d (1 : Fin 32)
        ∗ scopedBufs (TH d) ∗ scopedSems0 (TH d) ∗ owes (TH d) O W) : sProp 𝕄)
      ⊢ wp frame (wpE (defs₀ (F := F)) 𝒱₀ (TH d) none) Set.univ
          (cc0_run LL (Memref.whole main_v2_scv) (Memref.isWhole_whole _) (Memref.whole main_v7_scv) (Memref.isWhole_whole _) (Memref.whole main_v5_scv) (Memref.isWhole_whole _) (Memref.whole main_v9_scv) (Memref.isWhole_whole _) (Memref.whole main_v10_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8)
          fun _ => iprop(tileT m d (1 : Fin 32) ∗ scopedBufs (TH d) ∗ scopedSems0 (TH d)
            ∗ ∃ W', ⌜∀ p ∈ W', p ∈ W ∨ p.2 = none⌝ ∗ owes (TH d) O W') := by
  rw [(K (F := F)).scopedBufs_V facts d (cV LL) (jV LL), SparseCore.Cfg.scopedSems0_V (Val := Elt F) d (cV LL) (jV LL), ownSems0_V, ownBufs_V]
  unfold tileG tileT
  iintro ⟨#Hlv, ⟨HF2, -, HF5, -, HF10⟩, ⟨⟨%fb0, Hb0⟩, ⟨%fb1, Hb1⟩, ⟨%fb2, Hb2⟩, Hbufs⟩, ⟨Hs3, Hs4, Hs5, Hs6, Hs7, Hs8, Hsems⟩, HO⟩
  ihave HF2' := (Entails.of_eq (open2 m d)) $$ HF2
  icases HF2' with HS0
  ihave HF5' := (Entails.of_eq (open5 m d)) $$ HF5
  icases HF5' with HS1
  ihave HF10' := (Entails.of_eq (open10 m d)) $$ HF10
  icases HF10' with ⟨HO0_0, HO0_1, HO0_2, HO0_3, HO1_0⟩
  ihave Hmw := ((K (F := F)).mayWaits_none (thr := TH d) hO) $$ Hlv
  ihave Hb0' := (Entails.of_eq (pts_b0 d (cV LL) (jV LL) _).symm) $$ Hb0
  ihave Hb1' := (Entails.of_eq (pts_b1 d (cV LL) (jV LL) _).symm) $$ Hb1
  ihave Hb2' := (Entails.of_eq (pts_b2 d (cV LL) (jV LL) _).symm) $$ Hb2
  have _plan : Transfers.BatchOf (TH d) (SemLoc.dma (sig := sig) cc0_scratch6.sem) 4 (windows := true) := trivial
  sl_unfold [cc0_run]
  sl_exec_parts (disch := decide)
  sl_step
  isplitl [HS0 HS1 HO0_0 HO0_1 HO0_2 HO0_3 HO1_0]
  · skip
    isplitl [HS0]
    · iapply (Entails.of_eq (open2 m d).symm)
      iexact HS0
    isplitr
    · rw [show t7 (1 : Fin 32) = ∅ from rfl, bigSep_empty]; iempintro
    isplitl [HS1]
    · iapply (Entails.of_eq (open5 m d).symm)
      iexact HS1
    isplitr
    · rw [show t9 (1 : Fin 32) = ∅ from rfl, bigSep_empty]; iempintro
    · iapply (Entails.of_eq (close10 m d).symm)
      isplitl [HO0_0]
      · iapply (out_post_ent (TH d) (OUT0_0) _ (OUTc m d) _ ?hv0_0) $$ HO0_0
        case hv0_0 => unfold_carried; simp only [ReadAs.apply_same, View.read_write_univ]; exact val0_0 m d
      isplitl [HO0_1]
      · iapply (out_post_ent (TH d) (OUT0_1) _ (OUTc m d) _ ?hv0_1) $$ HO0_1
        case hv0_1 => unfold_carried; simp only [ReadAs.apply_same, View.read_write_univ]; exact val0_1 m d
      isplitl [HO0_2]
      · iapply (out_post_ent (TH d) (OUT0_2) _ (OUTc m d) _ ?hv0_2) $$ HO0_2
        case hv0_2 => unfold_carried; simp only [ReadAs.apply_same, View.read_write_univ]; exact val0_2 m d
      isplitl [HO0_3]
      · iapply (out_post_ent (TH d) (OUT0_3) _ (OUTc m d) _ ?hv0_3) $$ HO0_3
        case hv0_3 => unfold_carried; simp only [ReadAs.apply_same, View.read_write_univ]; exact val0_3 m d
      iapply (out_post_ent (TH d) (OUT1_0) _ (OUTc m d) _ ?hv1_0) $$ HO1_0
      case hv1_0 => unfold_carried; simp only [ReadAs.apply_same, View.read_write_univ]; exact val1_0 m d

  isplitl [Hb0' Hb1' Hb2' Hbufs]
  · isplitl [Hb0']
    · iexists _; iapply (Entails.of_eq (pts_b0 d (cV LL) (jV LL) _)); iexact Hb0'
    isplitl [Hb1']
    · iexists _; iapply (Entails.of_eq (pts_b1 d (cV LL) (jV LL) _)); iexact Hb1'
    isplitl [Hb2']
    · iexists _; iapply (Entails.of_eq (pts_b2 d (cV LL) (jV LL) _)); iexact Hb2'
    iexact Hbufs
  isplitl [Hs3 Hs4 Hs5 Hs6 Hs7 Hs8 Hsems]
  · isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    iexact Hsems
  iexists _; isplitr
  rotate_left
  · iexact HO
  · ipureintro; intro p hp
    simp only [Finset.mem_insert] at hp
    rcases hp with rfl | rfl | rfl | rfl | rfl | rfl | rfl | hp <;> first | exact .inr rfl | exact .inl hp

end Cert.Proof.KB.Tile1

end
-- ==== Proof.KBTile2.lean ====
/-
  Tile 2 of the kernel (subcore 1 of core 0): one slice in (vis5), 4 out; one slice in (len8), 1 out.
  Its whole body is run: every copy it does not own is skipped by the comparison of its number with the copy's owner;
  each incoming copy fills a staging buffer, each outgoing copy carries that buffer into one slice of the output array,
  and what each output slice then holds is the source slice the specification asks for there.
-/
import proofs.«210185_g18468359372994_cont_8to1_1390_15_alg».proof.Proof.KBRead

set_option maxHeartbeats 4000000
set_option quotPrecheck false

noncomputable section

namespace Cert.Proof.KB.Tile2

open Cert.Kernel Cert.Kernel.Gen
open Cert.Proof.KB
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
theorem cLt : 0 < grid0.bound 0 := by decide
theorem sLt : 1 < grid0.bound 1 := by decide
local notation "LL" => (coordsV (⟨0, cLt⟩ : Fin (grid0.bound 0)) (⟨1, sLt⟩ : Fin (grid0.bound 1)))
local notation "TH" d => V d (cV LL) (jV LL)
local notation "SRC0" => (((Memref.whole main_v7_scv).slice (Rect.unit (s := S17x128x128) ![5, 0, 0] S1x128x128.size inb_S17x128x128_S1x128x128_5_0_0) (fun _ => rfl)).squeeze S128x128 squeezes_S1x128x128_S128x128 : Memref sig .scVector .hbm S128x128 .f32)
local notation "OUT0_0" => (((Memref.whole main_v10_scv).slice (Rect.unit (s := S9x2x128x8x128) ![7, 0, 0, 0, 0] S1x1x128x1x128.size inb_S9x2x128x8x128_S1x1x128x1x128_7_0_0_0_0) (fun _ => rfl)).squeeze S128x128 squeezes_S1x1x128x1x128_S128x128 : Memref sig .scVector .hbm S128x128 .f32)
local notation "OUT0_1" => (((Memref.whole main_v10_scv).slice (Rect.unit (s := S9x2x128x8x128) ![7, 1, 0, 0, 0] S1x1x128x1x128.size inb_S9x2x128x8x128_S1x1x128x1x128_7_1_0_0_0) (fun _ => rfl)).squeeze S128x128 squeezes_S1x1x128x1x128_S128x128 : Memref sig .scVector .hbm S128x128 .f32)
local notation "OUT0_2" => (((Memref.whole main_v10_scv).slice (Rect.unit (s := S9x2x128x8x128) ![7, 1, 0, 2, 0] S1x1x128x1x128.size inb_S9x2x128x8x128_S1x1x128x1x128_7_1_0_2_0) (fun _ => rfl)).squeeze S128x128 squeezes_S1x1x128x1x128_S128x128 : Memref sig .scVector .hbm S128x128 .f32)
local notation "OUT0_3" => (((Memref.whole main_v10_scv).slice (Rect.unit (s := S9x2x128x8x128) ![8, 1, 0, 4, 0] S1x1x128x1x128.size inb_S9x2x128x8x128_S1x1x128x1x128_8_1_0_4_0) (fun _ => rfl)).squeeze S128x128 squeezes_S1x1x128x1x128_S128x128 : Memref sig .scVector .hbm S128x128 .f32)
local notation "SRC1" => (((Memref.whole main_v9_scv).slice (Rect.unit (s := S14x128x128) ![8, 0, 0] S1x128x128.size inb_S14x128x128_S1x128x128_8_0_0) (fun _ => rfl)).squeeze S128x128 squeezes_S1x128x128_S128x128 : Memref sig .scVector .hbm S128x128 .f32)
local notation "OUT1_0" => (((Memref.whole main_v10_scv).slice (Rect.unit (s := S9x2x128x8x128) ![2, 1, 0, 0, 0] S1x1x128x1x128.size inb_S9x2x128x8x128_S1x1x128x1x128_2_1_0_0_0) (fun _ => rfl)).squeeze S128x128 squeezes_S1x1x128x1x128_S128x128 : Memref sig .scVector .hbm S128x128 .f32)

/-! ## The tile's slices, as its memrefs name them -/

theorem open7 (m : (ℓ : Loc nD τ sig) → Buf (Elt F) ℓ) (d : Dev nD) :
    (bigSep (t7 (2 : Fin 32)) (A7 m d) : sProp 𝕄) = iprop(((SRC0).view.loc (TH d) ↦[(SRC0).view.set]{fullShare} V7c m d)) := by
  show bigSep ({(5 : Fin 17)} : Finset (Fin 17)) (A7 m d) = _
  rw [bigSep_singleton]
  exact (pts_v7 d (cV LL) (jV LL) (5 : Fin 17) _ (V7c m d)).symm
theorem open9 (m : (ℓ : Loc nD τ sig) → Buf (Elt F) ℓ) (d : Dev nD) :
    (bigSep (t9 (2 : Fin 32)) (A9 m d) : sProp 𝕄) = iprop(((SRC1).view.loc (TH d) ↦[(SRC1).view.set]{fullShare} V9c m d)) := by
  show bigSep ({(8 : Fin 14)} : Finset (Fin 14)) (A9 m d) = _
  rw [bigSep_singleton]
  exact (pts_v9 d (cV LL) (jV LL) (8 : Fin 14) _ (V9c m d)).symm
theorem open10 (m : (ℓ : Loc nD τ sig) → Buf (Elt F) ℓ) (d : Dev nD) :
    (bigSep (t10 (2 : Fin 32)) (B0 m d) : sProp 𝕄) = iprop(((OUT0_0).view.loc (TH d) ↦[(OUT0_0).view.set]{fullShare} m (v10L d)) ∗ ((OUT0_1).view.loc (TH d) ↦[(OUT0_1).view.set]{fullShare} m (v10L d)) ∗ ((OUT0_2).view.loc (TH d) ↦[(OUT0_2).view.set]{fullShare} m (v10L d)) ∗ ((OUT0_3).view.loc (TH d) ↦[(OUT0_3).view.set]{fullShare} m (v10L d)) ∗ ((OUT1_0).view.loc (TH d) ↦[(OUT1_0).view.set]{fullShare} m (v10L d))) := by
  show bigSep ({((7 : Fin 9), (0 : Fin 2), (0 : Fin 8)), ((7 : Fin 9), (1 : Fin 2), (0 : Fin 8)), ((7 : Fin 9), (1 : Fin 2), (2 : Fin 8)), ((8 : Fin 9), (1 : Fin 2), (4 : Fin 8)), ((2 : Fin 9), (1 : Fin 2), (0 : Fin 8))} : Finset (Fin 9 × Fin 2 × Fin 8)) (B0 m d) = _
  rw [SparseCore.bigSep_insert' (by decide), SparseCore.bigSep_insert' (by decide), SparseCore.bigSep_insert' (by decide), SparseCore.bigSep_insert' (by decide), bigSep_singleton]
  exact (congrArg₂ (fun a b : sProp 𝕄 => iprop(a ∗ b)) (pts_v10 d (cV LL) (jV LL) (7 : Fin 9) (0 : Fin 2) (0 : Fin 8) _ (m (v10L d))).symm (congrArg₂ (fun a b : sProp 𝕄 => iprop(a ∗ b)) (pts_v10 d (cV LL) (jV LL) (7 : Fin 9) (1 : Fin 2) (0 : Fin 8) _ (m (v10L d))).symm (congrArg₂ (fun a b : sProp 𝕄 => iprop(a ∗ b)) (pts_v10 d (cV LL) (jV LL) (7 : Fin 9) (1 : Fin 2) (2 : Fin 8) _ (m (v10L d))).symm (congrArg₂ (fun a b : sProp 𝕄 => iprop(a ∗ b)) (pts_v10 d (cV LL) (jV LL) (8 : Fin 9) (1 : Fin 2) (4 : Fin 8) _ (m (v10L d))).symm (pts_v10 d (cV LL) (jV LL) (2 : Fin 9) (1 : Fin 2) (0 : Fin 8) _ (m (v10L d))).symm))))
theorem close10 (m : (ℓ : Loc nD τ sig) → Buf (Elt F) ℓ) (d : Dev nD) :
    (bigSep (t10 (2 : Fin 32)) (B1 m d) : sProp 𝕄) = iprop(((OUT0_0).view.loc (TH d) ↦[(OUT0_0).view.set]{fullShare} OUTc m d) ∗ ((OUT0_1).view.loc (TH d) ↦[(OUT0_1).view.set]{fullShare} OUTc m d) ∗ ((OUT0_2).view.loc (TH d) ↦[(OUT0_2).view.set]{fullShare} OUTc m d) ∗ ((OUT0_3).view.loc (TH d) ↦[(OUT0_3).view.set]{fullShare} OUTc m d) ∗ ((OUT1_0).view.loc (TH d) ↦[(OUT1_0).view.set]{fullShare} OUTc m d)) := by
  show bigSep ({((7 : Fin 9), (0 : Fin 2), (0 : Fin 8)), ((7 : Fin 9), (1 : Fin 2), (0 : Fin 8)), ((7 : Fin 9), (1 : Fin 2), (2 : Fin 8)), ((8 : Fin 9), (1 : Fin 2), (4 : Fin 8)), ((2 : Fin 9), (1 : Fin 2), (0 : Fin 8))} : Finset (Fin 9 × Fin 2 × Fin 8)) (B1 m d) = _
  rw [SparseCore.bigSep_insert' (by decide), SparseCore.bigSep_insert' (by decide), SparseCore.bigSep_insert' (by decide), SparseCore.bigSep_insert' (by decide), bigSep_singleton]
  exact (congrArg₂ (fun a b : sProp 𝕄 => iprop(a ∗ b)) (pts_v10 d (cV LL) (jV LL) (7 : Fin 9) (0 : Fin 2) (0 : Fin 8) _ (OUTc m d)).symm (congrArg₂ (fun a b : sProp 𝕄 => iprop(a ∗ b)) (pts_v10 d (cV LL) (jV LL) (7 : Fin 9) (1 : Fin 2) (0 : Fin 8) _ (OUTc m d)).symm (congrArg₂ (fun a b : sProp 𝕄 => iprop(a ∗ b)) (pts_v10 d (cV LL) (jV LL) (7 : Fin 9) (1 : Fin 2) (2 : Fin 8) _ (OUTc m d)).symm (congrArg₂ (fun a b : sProp 𝕄 => iprop(a ∗ b)) (pts_v10 d (cV LL) (jV LL) (8 : Fin 9) (1 : Fin 2) (4 : Fin 8) _ (OUTc m d)).symm (pts_v10 d (cV LL) (jV LL) (2 : Fin 9) (1 : Fin 2) (0 : Fin 8) _ (OUTc m d)).symm))))

/-! ## What each output slice has to hold is what its source slice holds -/

theorem val0_0 (m : (ℓ : Loc nD τ sig) → Buf (Elt F) ℓ) (d : Dev nD) :
    (SRC0).view.read (Elt F) (V7c m d) = (OUT0_0).view.read (Elt F) (OUTc m d) := by
  funext y
  obtain ⟨t, q, rfl⟩ : ∃ (t q : Fin 128), y = ix2 t q := ⟨y 0, y 1, eq_ix2 y⟩
  refine (read_v7 (5 : Fin 17) _ _ t q).trans ((?_ : _ = _).trans (read_v10 (7 : Fin 9) (0 : Fin 2) (0 : Fin 8) _ _ t q).symm)
  unfold V7c OUTc
  rw [Cert.Layout.visV_apply]
  refine Eq.trans ?_ (outV_at _ _ _ _ _ _ _ t _ q (show 8 * 0 + 0 < 14 by decide)).symm
  rfl
theorem val0_1 (m : (ℓ : Loc nD τ sig) → Buf (Elt F) ℓ) (d : Dev nD) :
    (SRC0).view.read (Elt F) (V7c m d) = (OUT0_1).view.read (Elt F) (OUTc m d) := by
  funext y
  obtain ⟨t, q, rfl⟩ : ∃ (t q : Fin 128), y = ix2 t q := ⟨y 0, y 1, eq_ix2 y⟩
  refine (read_v7 (5 : Fin 17) _ _ t q).trans ((?_ : _ = _).trans (read_v10 (7 : Fin 9) (1 : Fin 2) (0 : Fin 8) _ _ t q).symm)
  unfold V7c OUTc
  rw [Cert.Layout.visV_apply]
  refine Eq.trans ?_ (outV_at _ _ _ _ _ _ _ t _ q (show 8 * 1 + 0 < 14 by decide)).symm
  rfl
theorem val0_2 (m : (ℓ : Loc nD τ sig) → Buf (Elt F) ℓ) (d : Dev nD) :
    (SRC0).view.read (Elt F) (V7c m d) = (OUT0_2).view.read (Elt F) (OUTc m d) := by
  funext y
  obtain ⟨t, q, rfl⟩ : ∃ (t q : Fin 128), y = ix2 t q := ⟨y 0, y 1, eq_ix2 y⟩
  refine (read_v7 (5 : Fin 17) _ _ t q).trans ((?_ : _ = _).trans (read_v10 (7 : Fin 9) (1 : Fin 2) (2 : Fin 8) _ _ t q).symm)
  unfold V7c OUTc
  rw [Cert.Layout.visV_apply]
  refine Eq.trans ?_ (outV_at _ _ _ _ _ _ _ t _ q (show 8 * 1 + 2 < 14 by decide)).symm
  rfl
theorem val0_3 (m : (ℓ : Loc nD τ sig) → Buf (Elt F) ℓ) (d : Dev nD) :
    (SRC0).view.read (Elt F) (V7c m d) = (OUT0_3).view.read (Elt F) (OUTc m d) := by
  funext y
  obtain ⟨t, q, rfl⟩ : ∃ (t q : Fin 128), y = ix2 t q := ⟨y 0, y 1, eq_ix2 y⟩
  refine (read_v7 (5 : Fin 17) _ _ t q).trans ((?_ : _ = _).trans (read_v10 (8 : Fin 9) (1 : Fin 2) (4 : Fin 8) _ _ t q).symm)
  unfold V7c OUTc
  rw [Cert.Layout.visV_apply]
  refine Eq.trans ?_ (outV_at _ _ _ _ _ _ _ t _ q (show 8 * 1 + 4 < 14 by decide)).symm
  rfl
theorem val1_0 (m : (ℓ : Loc nD τ sig) → Buf (Elt F) ℓ) (d : Dev nD) :
    (SRC1).view.read (Elt F) (V9c m d) = (OUT1_0).view.read (Elt F) (OUTc m d) := by
  funext y
  obtain ⟨t, q, rfl⟩ : ∃ (t q : Fin 128), y = ix2 t q := ⟨y 0, y 1, eq_ix2 y⟩
  refine (read_v9 (8 : Fin 14) _ _ t q).trans ((?_ : _ = _).trans (read_v10 (2 : Fin 9) (1 : Fin 2) (0 : Fin 8) _ _ t q).symm)
  unfold V9c OUTc
  rw [Cert.Layout.lenV_apply]
  refine Eq.trans ?_ (outV_at _ _ _ _ _ _ _ t _ q (show 8 * 1 + 0 < 14 by decide)).symm
  rfl

/-! ## The run -/

open Lean Elab Tactic Meta in
/-- Unfold the names the symbolic run gave to the values its copies carry. -/
elab "unfold_carried" : tactic => do
  for _ in [0:6] do
    let g ← getMainGoal
    let t ← instantiateMVars (← g.getType)
    if (t.getUsedConstants.any fun n => n.components.any (· == `sl)) then
      let t' ← deltaExpand t (fun n => n.components.any (· == `sl))
      let g' ← g.change t' (checkDefEq := false)
      replaceMainGoal [g']

variable [FloatOps F] [∀ e, Nonempty (Elt F e)]

theorem run (m : (ℓ : Loc nD τ sig) → Buf (Elt F) ℓ) (d : Dev nD) (O : CellTallies nD τ sig (HIx 1)) (W : Waits sig (HIx 1)) (hO : ∀ g, O g none = 0) :
    (iprop(levAts (K (F := F)).L (K (F := F)).lev ∗ tileG m d (2 : Fin 32)
        ∗ scopedBufs (TH d) ∗ scopedSems0 (TH d) ∗ owes (TH d) O W) : sProp 𝕄)
      ⊢ wp frame (wpE (defs₀ (F := F)) 𝒱₀ (TH d) none) Set.univ
          (cc0_run LL (Memref.whole main_v2_scv) (Memref.isWhole_whole _) (Memref.whole main_v7_scv) (Memref.isWhole_whole _) (Memref.whole main_v5_scv) (Memref.isWhole_whole _) (Memref.whole main_v9_scv) (Memref.isWhole_whole _) (Memref.whole main_v10_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8)
          fun _ => iprop(tileT m d (2 : Fin 32) ∗ scopedBufs (TH d) ∗ scopedSems0 (TH d)
            ∗ ∃ W', ⌜∀ p ∈ W', p ∈ W ∨ p.2 = none⌝ ∗ owes (TH d) O W') := by
  rw [(K (F := F)).scopedBufs_V facts d (cV LL) (jV LL), SparseCore.Cfg.scopedSems0_V (Val := Elt F) d (cV LL) (jV LL), ownSems0_V, ownBufs_V]
  unfold tileG tileT
  iintro ⟨#Hlv, ⟨-, HF7, -, HF9, HF10⟩, ⟨⟨%fb0, Hb0⟩, ⟨%fb1, Hb1⟩, ⟨%fb2, Hb2⟩, Hbufs⟩, ⟨Hs3, Hs4, Hs5, Hs6, Hs7, Hs8, Hsems⟩, HO⟩
  ihave HF7' := (Entails.of_eq (open7 m d)) $$ HF7
  icases HF7' with HS0
  ihave HF9' := (Entails.of_eq (open9 m d)) $$ HF9
  icases HF9' with HS1
  ihave HF10' := (Entails.of_eq (open10 m d)) $$ HF10
  icases HF10' with ⟨HO0_0, HO0_1, HO0_2, HO0_3, HO1_0⟩
  ihave Hmw := ((K (F := F)).mayWaits_none (thr := TH d) hO) $$ Hlv
  ihave Hb0' := (Entails.of_eq (pts_b0 d (cV LL) (jV LL) _).symm) $$ Hb0
  ihave Hb1' := (Entails.of_eq (pts_b1 d (cV LL) (jV LL) _).symm) $$ Hb1
  ihave Hb2' := (Entails.of_eq (pts_b2 d (cV LL) (jV LL) _).symm) $$ Hb2
  have _plan : Transfers.BatchOf (TH d) (SemLoc.dma (sig := sig) cc0_scratch6.sem) 4 (windows := true) := trivial
  sl_unfold [cc0_run]
  sl_exec_parts (disch := decide)
  sl_step
  isplitl [HS0 HS1 HO0_0 HO0_1 HO0_2 HO0_3 HO1_0]
  · skip
    isplitr
    · rw [show t2 (2 : Fin 32) = ∅ from rfl, bigSep_empty]; iempintro
    isplitl [HS0]
    · iapply (Entails.of_eq (open7 m d).symm)
      iexact HS0
    isplitr
    · rw [show t5 (2 : Fin 32) = ∅ from rfl, bigSep_empty]; iempintro
    isplitl [HS1]
    · iapply (Entails.of_eq (open9 m d).symm)
      iexact HS1
    · iapply (Entails.of_eq (close10 m d).symm)
      isplitl [HO0_0]
      · iapply (out_post_ent (TH d) (OUT0_0) _ (OUTc m d) _ ?hv0_0) $$ HO0_0
        case hv0_0 => unfold_carried; simp only [ReadAs.apply_same, View.read_write_univ]; exact val0_0 m d
      isplitl [HO0_1]
      · iapply (out_post_ent (TH d) (OUT0_1) _ (OUTc m d) _ ?hv0_1) $$ HO0_1
        case hv0_1 => unfold_carried; simp only [ReadAs.apply_same, View.read_write_univ]; exact val0_1 m d
      isplitl [HO0_2]
      · iapply (out_post_ent (TH d) (OUT0_2) _ (OUTc m d) _ ?hv0_2) $$ HO0_2
        case hv0_2 => unfold_carried; simp only [ReadAs.apply_same, View.read_write_univ]; exact val0_2 m d
      isplitl [HO0_3]
      · iapply (out_post_ent (TH d) (OUT0_3) _ (OUTc m d) _ ?hv0_3) $$ HO0_3
        case hv0_3 => unfold_carried; simp only [ReadAs.apply_same, View.read_write_univ]; exact val0_3 m d
      iapply (out_post_ent (TH d) (OUT1_0) _ (OUTc m d) _ ?hv1_0) $$ HO1_0
      case hv1_0 => unfold_carried; simp only [ReadAs.apply_same, View.read_write_univ]; exact val1_0 m d

  isplitl [Hb0' Hb1' Hb2' Hbufs]
  · isplitl [Hb0']
    · iexists _; iapply (Entails.of_eq (pts_b0 d (cV LL) (jV LL) _)); iexact Hb0'
    isplitl [Hb1']
    · iexists _; iapply (Entails.of_eq (pts_b1 d (cV LL) (jV LL) _)); iexact Hb1'
    isplitl [Hb2']
    · iexists _; iapply (Entails.of_eq (pts_b2 d (cV LL) (jV LL) _)); iexact Hb2'
    iexact Hbufs
  isplitl [Hs3 Hs4 Hs5 Hs6 Hs7 Hs8 Hsems]
  · isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    iexact Hsems
  iexists _; isplitr
  rotate_left
  · iexact HO
  · ipureintro; intro p hp
    simp only [Finset.mem_insert] at hp
    rcases hp with rfl | rfl | rfl | rfl | rfl | rfl | rfl | hp <;> first | exact .inr rfl | exact .inl hp

end Cert.Proof.KB.Tile2

end
-- ==== Proof.KBTile3.lean ====
/-
  Tile 3 of the kernel (subcore 1 of core 1): one slice in (pose6.0), 4 out; one slice in (delta9.0), 1 out.
  Its whole body is run: every copy it does not own is skipped by the comparison of its number with the copy's owner;
  each incoming copy fills a staging buffer, each outgoing copy carries that buffer into one slice of the output array,
  and what each output slice then holds is the source slice the specification asks for there.
-/
import proofs.«210185_g18468359372994_cont_8to1_1390_15_alg».proof.Proof.KBRead

set_option maxHeartbeats 4000000
set_option quotPrecheck false

noncomputable section

namespace Cert.Proof.KB.Tile3

open Cert.Kernel Cert.Kernel.Gen
open Cert.Proof.KB
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
theorem cLt : 1 < grid0.bound 0 := by decide
theorem sLt : 1 < grid0.bound 1 := by decide
local notation "LL" => (coordsV (⟨1, cLt⟩ : Fin (grid0.bound 0)) (⟨1, sLt⟩ : Fin (grid0.bound 1)))
local notation "TH" d => V d (cV LL) (jV LL)
local notation "SRC0" => (((Memref.whole main_v2_scv).slice (Rect.unit (s := S17x128x2x128) ![6, 0, 0, 0] S1x128x1x128.size inb_S17x128x2x128_S1x128x1x128_6_0_0_0) (fun _ => rfl)).squeeze S128x128 squeezes_S1x128x1x128_S128x128 : Memref sig .scVector .hbm S128x128 .f32)
local notation "OUT0_0" => (((Memref.whole main_v10_scv).slice (Rect.unit (s := S9x2x128x8x128) ![3, 0, 0, 2, 0] S1x1x128x1x128.size inb_S9x2x128x8x128_S1x1x128x1x128_3_0_0_2_0) (fun _ => rfl)).squeeze S128x128 squeezes_S1x1x128x1x128_S128x128 : Memref sig .scVector .hbm S128x128 .f32)
local notation "OUT0_1" => (((Memref.whole main_v10_scv).slice (Rect.unit (s := S9x2x128x8x128) ![5, 1, 0, 0, 0] S1x1x128x1x128.size inb_S9x2x128x8x128_S1x1x128x1x128_5_1_0_0_0) (fun _ => rfl)).squeeze S128x128 squeezes_S1x1x128x1x128_S128x128 : Memref sig .scVector .hbm S128x128 .f32)
local notation "OUT0_2" => (((Memref.whole main_v10_scv).slice (Rect.unit (s := S9x2x128x8x128) ![3, 1, 0, 3, 0] S1x1x128x1x128.size inb_S9x2x128x8x128_S1x1x128x1x128_3_1_0_3_0) (fun _ => rfl)).squeeze S128x128 squeezes_S1x1x128x1x128_S128x128 : Memref sig .scVector .hbm S128x128 .f32)
local notation "OUT0_3" => (((Memref.whole main_v10_scv).slice (Rect.unit (s := S9x2x128x8x128) ![5, 1, 0, 5, 0] S1x1x128x1x128.size inb_S9x2x128x8x128_S1x1x128x1x128_5_1_0_5_0) (fun _ => rfl)).squeeze S128x128 squeezes_S1x1x128x1x128_S128x128 : Memref sig .scVector .hbm S128x128 .f32)
local notation "SRC1" => (((Memref.whole main_v5_scv).slice (Rect.unit (s := S14x128x2x128) ![9, 0, 0, 0] S1x128x1x128.size inb_S14x128x2x128_S1x128x1x128_9_0_0_0) (fun _ => rfl)).squeeze S128x128 squeezes_S1x128x1x128_S128x128 : Memref sig .scVector .hbm S128x128 .f32)
local notation "OUT1_0" => (((Memref.whole main_v10_scv).slice (Rect.unit (s := S9x2x128x8x128) ![0, 1, 0, 1, 0] S1x1x128x1x128.size inb_S9x2x128x8x128_S1x1x128x1x128_0_1_0_1_0) (fun _ => rfl)).squeeze S128x128 squeezes_S1x1x128x1x128_S128x128 : Memref sig .scVector .hbm S128x128 .f32)

/-! ## The tile's slices, as its memrefs name them -/

theorem open2 (m : (ℓ : Loc nD τ sig) → Buf (Elt F) ℓ) (d : Dev nD) :
    (bigSep (t2 (3 : Fin 32)) (A2 m d) : sProp 𝕄) = iprop(((SRC0).view.loc (TH d) ↦[(SRC0).view.set]{fullShare} V2c m d)) := by
  show bigSep ({((6 : Fin 17), (0 : Fin 2))} : Finset (Fin 17 × Fin 2)) (A2 m d) = _
  rw [bigSep_singleton]
  exact (pts_v2 d (cV LL) (jV LL) (6 : Fin 17) (0 : Fin 2) _ (V2c m d)).symm
theorem open5 (m : (ℓ : Loc nD τ sig) → Buf (Elt F) ℓ) (d : Dev nD) :
    (bigSep (t5 (3 : Fin 32)) (A5 m d) : sProp 𝕄) = iprop(((SRC1).view.loc (TH d) ↦[(SRC1).view.set]{fullShare} V5c m d)) := by
  show bigSep ({((9 : Fin 14), (0 : Fin 2))} : Finset (Fin 14 × Fin 2)) (A5 m d) = _
  rw [bigSep_singleton]
  exact (pts_v5 d (cV LL) (jV LL) (9 : Fin 14) (0 : Fin 2) _ (V5c m d)).symm
theorem open10 (m : (ℓ : Loc nD τ sig) → Buf (Elt F) ℓ) (d : Dev nD) :
    (bigSep (t10 (3 : Fin 32)) (B0 m d) : sProp 𝕄) = iprop(((OUT0_0).view.loc (TH d) ↦[(OUT0_0).view.set]{fullShare} m (v10L d)) ∗ ((OUT0_1).view.loc (TH d) ↦[(OUT0_1).view.set]{fullShare} m (v10L d)) ∗ ((OUT0_2).view.loc (TH d) ↦[(OUT0_2).view.set]{fullShare} m (v10L d)) ∗ ((OUT0_3).view.loc (TH d) ↦[(OUT0_3).view.set]{fullShare} m (v10L d)) ∗ ((OUT1_0).view.loc (TH d) ↦[(OUT1_0).view.set]{fullShare} m (v10L d))) := by
  show bigSep ({((3 : Fin 9), (0 : Fin 2), (2 : Fin 8)), ((5 : Fin 9), (1 : Fin 2), (0 : Fin 8)), ((3 : Fin 9), (1 : Fin 2), (3 : Fin 8)), ((5 : Fin 9), (1 : Fin 2), (5 : Fin 8)), ((0 : Fin 9), (1 : Fin 2), (1 : Fin 8))} : Finset (Fin 9 × Fin 2 × Fin 8)) (B0 m d) = _
  rw [SparseCore.bigSep_insert' (by decide), SparseCore.bigSep_insert' (by decide), SparseCore.bigSep_insert' (by decide), SparseCore.bigSep_insert' (by decide), bigSep_singleton]
  exact (congrArg₂ (fun a b : sProp 𝕄 => iprop(a ∗ b)) (pts_v10 d (cV LL) (jV LL) (3 : Fin 9) (0 : Fin 2) (2 : Fin 8) _ (m (v10L d))).symm (congrArg₂ (fun a b : sProp 𝕄 => iprop(a ∗ b)) (pts_v10 d (cV LL) (jV LL) (5 : Fin 9) (1 : Fin 2) (0 : Fin 8) _ (m (v10L d))).symm (congrArg₂ (fun a b : sProp 𝕄 => iprop(a ∗ b)) (pts_v10 d (cV LL) (jV LL) (3 : Fin 9) (1 : Fin 2) (3 : Fin 8) _ (m (v10L d))).symm (congrArg₂ (fun a b : sProp 𝕄 => iprop(a ∗ b)) (pts_v10 d (cV LL) (jV LL) (5 : Fin 9) (1 : Fin 2) (5 : Fin 8) _ (m (v10L d))).symm (pts_v10 d (cV LL) (jV LL) (0 : Fin 9) (1 : Fin 2) (1 : Fin 8) _ (m (v10L d))).symm))))
theorem close10 (m : (ℓ : Loc nD τ sig) → Buf (Elt F) ℓ) (d : Dev nD) :
    (bigSep (t10 (3 : Fin 32)) (B1 m d) : sProp 𝕄) = iprop(((OUT0_0).view.loc (TH d) ↦[(OUT0_0).view.set]{fullShare} OUTc m d) ∗ ((OUT0_1).view.loc (TH d) ↦[(OUT0_1).view.set]{fullShare} OUTc m d) ∗ ((OUT0_2).view.loc (TH d) ↦[(OUT0_2).view.set]{fullShare} OUTc m d) ∗ ((OUT0_3).view.loc (TH d) ↦[(OUT0_3).view.set]{fullShare} OUTc m d) ∗ ((OUT1_0).view.loc (TH d) ↦[(OUT1_0).view.set]{fullShare} OUTc m d)) := by
  show bigSep ({((3 : Fin 9), (0 : Fin 2), (2 : Fin 8)), ((5 : Fin 9), (1 : Fin 2), (0 : Fin 8)), ((3 : Fin 9), (1 : Fin 2), (3 : Fin 8)), ((5 : Fin 9), (1 : Fin 2), (5 : Fin 8)), ((0 : Fin 9), (1 : Fin 2), (1 : Fin 8))} : Finset (Fin 9 × Fin 2 × Fin 8)) (B1 m d) = _
  rw [SparseCore.bigSep_insert' (by decide), SparseCore.bigSep_insert' (by decide), SparseCore.bigSep_insert' (by decide), SparseCore.bigSep_insert' (by decide), bigSep_singleton]
  exact (congrArg₂ (fun a b : sProp 𝕄 => iprop(a ∗ b)) (pts_v10 d (cV LL) (jV LL) (3 : Fin 9) (0 : Fin 2) (2 : Fin 8) _ (OUTc m d)).symm (congrArg₂ (fun a b : sProp 𝕄 => iprop(a ∗ b)) (pts_v10 d (cV LL) (jV LL) (5 : Fin 9) (1 : Fin 2) (0 : Fin 8) _ (OUTc m d)).symm (congrArg₂ (fun a b : sProp 𝕄 => iprop(a ∗ b)) (pts_v10 d (cV LL) (jV LL) (3 : Fin 9) (1 : Fin 2) (3 : Fin 8) _ (OUTc m d)).symm (congrArg₂ (fun a b : sProp 𝕄 => iprop(a ∗ b)) (pts_v10 d (cV LL) (jV LL) (5 : Fin 9) (1 : Fin 2) (5 : Fin 8) _ (OUTc m d)).symm (pts_v10 d (cV LL) (jV LL) (0 : Fin 9) (1 : Fin 2) (1 : Fin 8) _ (OUTc m d)).symm))))

/-! ## What each output slice has to hold is what its source slice holds -/

theorem val0_0 (m : (ℓ : Loc nD τ sig) → Buf (Elt F) ℓ) (d : Dev nD) :
    (SRC0).view.read (Elt F) (V2c m d) = (OUT0_0).view.read (Elt F) (OUTc m d) := by
  funext y
  obtain ⟨t, q, rfl⟩ : ∃ (t q : Fin 128), y = ix2 t q := ⟨y 0, y 1, eq_ix2 y⟩
  refine (read_v2 (6 : Fin 17) (0 : Fin 2) _ _ t q).trans ((?_ : _ = _).trans (read_v10 (3 : Fin 9) (0 : Fin 2) (2 : Fin 8) _ _ t q).symm)
  unfold V2c OUTc
  rw [Cert.Layout.poseV_apply]
  refine Eq.trans ?_ (outV_at _ _ _ _ _ _ _ t _ q (show 8 * 0 + 2 < 14 by decide)).symm
  rfl
theorem val0_1 (m : (ℓ : Loc nD τ sig) → Buf (Elt F) ℓ) (d : Dev nD) :
    (SRC0).view.read (Elt F) (V2c m d) = (OUT0_1).view.read (Elt F) (OUTc m d) := by
  funext y
  obtain ⟨t, q, rfl⟩ : ∃ (t q : Fin 128), y = ix2 t q := ⟨y 0, y 1, eq_ix2 y⟩
  refine (read_v2 (6 : Fin 17) (0 : Fin 2) _ _ t q).trans ((?_ : _ = _).trans (read_v10 (5 : Fin 9) (1 : Fin 2) (0 : Fin 8) _ _ t q).symm)
  unfold V2c OUTc
  rw [Cert.Layout.poseV_apply]
  refine Eq.trans ?_ (outV_at _ _ _ _ _ _ _ t _ q (show 8 * 1 + 0 < 14 by decide)).symm
  rfl
theorem val0_2 (m : (ℓ : Loc nD τ sig) → Buf (Elt F) ℓ) (d : Dev nD) :
    (SRC0).view.read (Elt F) (V2c m d) = (OUT0_2).view.read (Elt F) (OUTc m d) := by
  funext y
  obtain ⟨t, q, rfl⟩ : ∃ (t q : Fin 128), y = ix2 t q := ⟨y 0, y 1, eq_ix2 y⟩
  refine (read_v2 (6 : Fin 17) (0 : Fin 2) _ _ t q).trans ((?_ : _ = _).trans (read_v10 (3 : Fin 9) (1 : Fin 2) (3 : Fin 8) _ _ t q).symm)
  unfold V2c OUTc
  rw [Cert.Layout.poseV_apply]
  refine Eq.trans ?_ (outV_at _ _ _ _ _ _ _ t _ q (show 8 * 1 + 3 < 14 by decide)).symm
  rfl
theorem val0_3 (m : (ℓ : Loc nD τ sig) → Buf (Elt F) ℓ) (d : Dev nD) :
    (SRC0).view.read (Elt F) (V2c m d) = (OUT0_3).view.read (Elt F) (OUTc m d) := by
  funext y
  obtain ⟨t, q, rfl⟩ : ∃ (t q : Fin 128), y = ix2 t q := ⟨y 0, y 1, eq_ix2 y⟩
  refine (read_v2 (6 : Fin 17) (0 : Fin 2) _ _ t q).trans ((?_ : _ = _).trans (read_v10 (5 : Fin 9) (1 : Fin 2) (5 : Fin 8) _ _ t q).symm)
  unfold V2c OUTc
  rw [Cert.Layout.poseV_apply]
  refine Eq.trans ?_ (outV_at _ _ _ _ _ _ _ t _ q (show 8 * 1 + 5 < 14 by decide)).symm
  rfl
theorem val1_0 (m : (ℓ : Loc nD τ sig) → Buf (Elt F) ℓ) (d : Dev nD) :
    (SRC1).view.read (Elt F) (V5c m d) = (OUT1_0).view.read (Elt F) (OUTc m d) := by
  funext y
  obtain ⟨t, q, rfl⟩ : ∃ (t q : Fin 128), y = ix2 t q := ⟨y 0, y 1, eq_ix2 y⟩
  refine (read_v5 (9 : Fin 14) (0 : Fin 2) _ _ t q).trans ((?_ : _ = _).trans (read_v10 (0 : Fin 9) (1 : Fin 2) (1 : Fin 8) _ _ t q).symm)
  unfold V5c OUTc
  rw [Cert.Layout.deltaV_apply]
  refine Eq.trans ?_ (outV_at _ _ _ _ _ _ _ t _ q (show 8 * 1 + 1 < 14 by decide)).symm
  rfl

/-! ## The run -/

open Lean Elab Tactic Meta in
/-- Unfold the names the symbolic run gave to the values its copies carry. -/
elab "unfold_carried" : tactic => do
  for _ in [0:6] do
    let g ← getMainGoal
    let t ← instantiateMVars (← g.getType)
    if (t.getUsedConstants.any fun n => n.components.any (· == `sl)) then
      let t' ← deltaExpand t (fun n => n.components.any (· == `sl))
      let g' ← g.change t' (checkDefEq := false)
      replaceMainGoal [g']

variable [FloatOps F] [∀ e, Nonempty (Elt F e)]

theorem run (m : (ℓ : Loc nD τ sig) → Buf (Elt F) ℓ) (d : Dev nD) (O : CellTallies nD τ sig (HIx 1)) (W : Waits sig (HIx 1)) (hO : ∀ g, O g none = 0) :
    (iprop(levAts (K (F := F)).L (K (F := F)).lev ∗ tileG m d (3 : Fin 32)
        ∗ scopedBufs (TH d) ∗ scopedSems0 (TH d) ∗ owes (TH d) O W) : sProp 𝕄)
      ⊢ wp frame (wpE (defs₀ (F := F)) 𝒱₀ (TH d) none) Set.univ
          (cc0_run LL (Memref.whole main_v2_scv) (Memref.isWhole_whole _) (Memref.whole main_v7_scv) (Memref.isWhole_whole _) (Memref.whole main_v5_scv) (Memref.isWhole_whole _) (Memref.whole main_v9_scv) (Memref.isWhole_whole _) (Memref.whole main_v10_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8)
          fun _ => iprop(tileT m d (3 : Fin 32) ∗ scopedBufs (TH d) ∗ scopedSems0 (TH d)
            ∗ ∃ W', ⌜∀ p ∈ W', p ∈ W ∨ p.2 = none⌝ ∗ owes (TH d) O W') := by
  rw [(K (F := F)).scopedBufs_V facts d (cV LL) (jV LL), SparseCore.Cfg.scopedSems0_V (Val := Elt F) d (cV LL) (jV LL), ownSems0_V, ownBufs_V]
  unfold tileG tileT
  iintro ⟨#Hlv, ⟨HF2, -, HF5, -, HF10⟩, ⟨⟨%fb0, Hb0⟩, ⟨%fb1, Hb1⟩, ⟨%fb2, Hb2⟩, Hbufs⟩, ⟨Hs3, Hs4, Hs5, Hs6, Hs7, Hs8, Hsems⟩, HO⟩
  ihave HF2' := (Entails.of_eq (open2 m d)) $$ HF2
  icases HF2' with HS0
  ihave HF5' := (Entails.of_eq (open5 m d)) $$ HF5
  icases HF5' with HS1
  ihave HF10' := (Entails.of_eq (open10 m d)) $$ HF10
  icases HF10' with ⟨HO0_0, HO0_1, HO0_2, HO0_3, HO1_0⟩
  ihave Hmw := ((K (F := F)).mayWaits_none (thr := TH d) hO) $$ Hlv
  ihave Hb0' := (Entails.of_eq (pts_b0 d (cV LL) (jV LL) _).symm) $$ Hb0
  ihave Hb1' := (Entails.of_eq (pts_b1 d (cV LL) (jV LL) _).symm) $$ Hb1
  ihave Hb2' := (Entails.of_eq (pts_b2 d (cV LL) (jV LL) _).symm) $$ Hb2
  have _plan : Transfers.BatchOf (TH d) (SemLoc.dma (sig := sig) cc0_scratch6.sem) 4 (windows := true) := trivial
  sl_unfold [cc0_run]
  sl_exec_parts (disch := decide)
  sl_step
  isplitl [HS0 HS1 HO0_0 HO0_1 HO0_2 HO0_3 HO1_0]
  · skip
    isplitl [HS0]
    · iapply (Entails.of_eq (open2 m d).symm)
      iexact HS0
    isplitr
    · rw [show t7 (3 : Fin 32) = ∅ from rfl, bigSep_empty]; iempintro
    isplitl [HS1]
    · iapply (Entails.of_eq (open5 m d).symm)
      iexact HS1
    isplitr
    · rw [show t9 (3 : Fin 32) = ∅ from rfl, bigSep_empty]; iempintro
    · iapply (Entails.of_eq (close10 m d).symm)
      isplitl [HO0_0]
      · iapply (out_post_ent (TH d) (OUT0_0) _ (OUTc m d) _ ?hv0_0) $$ HO0_0
        case hv0_0 => unfold_carried; simp only [ReadAs.apply_same, View.read_write_univ]; exact val0_0 m d
      isplitl [HO0_1]
      · iapply (out_post_ent (TH d) (OUT0_1) _ (OUTc m d) _ ?hv0_1) $$ HO0_1
        case hv0_1 => unfold_carried; simp only [ReadAs.apply_same, View.read_write_univ]; exact val0_1 m d
      isplitl [HO0_2]
      · iapply (out_post_ent (TH d) (OUT0_2) _ (OUTc m d) _ ?hv0_2) $$ HO0_2
        case hv0_2 => unfold_carried; simp only [ReadAs.apply_same, View.read_write_univ]; exact val0_2 m d
      isplitl [HO0_3]
      · iapply (out_post_ent (TH d) (OUT0_3) _ (OUTc m d) _ ?hv0_3) $$ HO0_3
        case hv0_3 => unfold_carried; simp only [ReadAs.apply_same, View.read_write_univ]; exact val0_3 m d
      iapply (out_post_ent (TH d) (OUT1_0) _ (OUTc m d) _ ?hv1_0) $$ HO1_0
      case hv1_0 => unfold_carried; simp only [ReadAs.apply_same, View.read_write_univ]; exact val1_0 m d

  isplitl [Hb0' Hb1' Hb2' Hbufs]
  · isplitl [Hb0']
    · iexists _; iapply (Entails.of_eq (pts_b0 d (cV LL) (jV LL) _)); iexact Hb0'
    isplitl [Hb1']
    · iexists _; iapply (Entails.of_eq (pts_b1 d (cV LL) (jV LL) _)); iexact Hb1'
    isplitl [Hb2']
    · iexists _; iapply (Entails.of_eq (pts_b2 d (cV LL) (jV LL) _)); iexact Hb2'
    iexact Hbufs
  isplitl [Hs3 Hs4 Hs5 Hs6 Hs7 Hs8 Hsems]
  · isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    iexact Hsems
  iexists _; isplitr
  rotate_left
  · iexact HO
  · ipureintro; intro p hp
    simp only [Finset.mem_insert] at hp
    rcases hp with rfl | rfl | rfl | rfl | rfl | rfl | rfl | hp <;> first | exact .inr rfl | exact .inl hp

end Cert.Proof.KB.Tile3

end
-- ==== Proof.KBTile4.lean ====
/-
  Tile 4 of the kernel (subcore 2 of core 0): one slice in (pose6.1), 4 out; one slice in (delta9.1), 1 out.
  Its whole body is run: every copy it does not own is skipped by the comparison of its number with the copy's owner;
  each incoming copy fills a staging buffer, each outgoing copy carries that buffer into one slice of the output array,
  and what each output slice then holds is the source slice the specification asks for there.
-/
import proofs.«210185_g18468359372994_cont_8to1_1390_15_alg».proof.Proof.KBRead

set_option maxHeartbeats 4000000
set_option quotPrecheck false

noncomputable section

namespace Cert.Proof.KB.Tile4

open Cert.Kernel Cert.Kernel.Gen
open Cert.Proof.KB
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
theorem cLt : 0 < grid0.bound 0 := by decide
theorem sLt : 2 < grid0.bound 1 := by decide
local notation "LL" => (coordsV (⟨0, cLt⟩ : Fin (grid0.bound 0)) (⟨2, sLt⟩ : Fin (grid0.bound 1)))
local notation "TH" d => V d (cV LL) (jV LL)
local notation "SRC0" => (((Memref.whole main_v2_scv).slice (Rect.unit (s := S17x128x2x128) ![6, 0, 1, 0] S1x128x1x128.size inb_S17x128x2x128_S1x128x1x128_6_0_1_0) (fun _ => rfl)).squeeze S128x128 squeezes_S1x128x1x128_S128x128 : Memref sig .scVector .hbm S128x128 .f32)
local notation "OUT0_0" => (((Memref.whole main_v10_scv).slice (Rect.unit (s := S9x2x128x8x128) ![4, 0, 0, 2, 0] S1x1x128x1x128.size inb_S9x2x128x8x128_S1x1x128x1x128_4_0_0_2_0) (fun _ => rfl)).squeeze S128x128 squeezes_S1x1x128x1x128_S128x128 : Memref sig .scVector .hbm S128x128 .f32)
local notation "OUT0_1" => (((Memref.whole main_v10_scv).slice (Rect.unit (s := S9x2x128x8x128) ![6, 1, 0, 0, 0] S1x1x128x1x128.size inb_S9x2x128x8x128_S1x1x128x1x128_6_1_0_0_0) (fun _ => rfl)).squeeze S128x128 squeezes_S1x1x128x1x128_S128x128 : Memref sig .scVector .hbm S128x128 .f32)
local notation "OUT0_2" => (((Memref.whole main_v10_scv).slice (Rect.unit (s := S9x2x128x8x128) ![4, 1, 0, 3, 0] S1x1x128x1x128.size inb_S9x2x128x8x128_S1x1x128x1x128_4_1_0_3_0) (fun _ => rfl)).squeeze S128x128 squeezes_S1x1x128x1x128_S128x128 : Memref sig .scVector .hbm S128x128 .f32)
local notation "OUT0_3" => (((Memref.whole main_v10_scv).slice (Rect.unit (s := S9x2x128x8x128) ![6, 1, 0, 5, 0] S1x1x128x1x128.size inb_S9x2x128x8x128_S1x1x128x1x128_6_1_0_5_0) (fun _ => rfl)).squeeze S128x128 squeezes_S1x1x128x1x128_S128x128 : Memref sig .scVector .hbm S128x128 .f32)
local notation "SRC1" => (((Memref.whole main_v5_scv).slice (Rect.unit (s := S14x128x2x128) ![9, 0, 1, 0] S1x128x1x128.size inb_S14x128x2x128_S1x128x1x128_9_0_1_0) (fun _ => rfl)).squeeze S128x128 squeezes_S1x128x1x128_S128x128 : Memref sig .scVector .hbm S128x128 .f32)
local notation "OUT1_0" => (((Memref.whole main_v10_scv).slice (Rect.unit (s := S9x2x128x8x128) ![1, 1, 0, 1, 0] S1x1x128x1x128.size inb_S9x2x128x8x128_S1x1x128x1x128_1_1_0_1_0) (fun _ => rfl)).squeeze S128x128 squeezes_S1x1x128x1x128_S128x128 : Memref sig .scVector .hbm S128x128 .f32)

/-! ## The tile's slices, as its memrefs name them -/

theorem open2 (m : (ℓ : Loc nD τ sig) → Buf (Elt F) ℓ) (d : Dev nD) :
    (bigSep (t2 (4 : Fin 32)) (A2 m d) : sProp 𝕄) = iprop(((SRC0).view.loc (TH d) ↦[(SRC0).view.set]{fullShare} V2c m d)) := by
  show bigSep ({((6 : Fin 17), (1 : Fin 2))} : Finset (Fin 17 × Fin 2)) (A2 m d) = _
  rw [bigSep_singleton]
  exact (pts_v2 d (cV LL) (jV LL) (6 : Fin 17) (1 : Fin 2) _ (V2c m d)).symm
theorem open5 (m : (ℓ : Loc nD τ sig) → Buf (Elt F) ℓ) (d : Dev nD) :
    (bigSep (t5 (4 : Fin 32)) (A5 m d) : sProp 𝕄) = iprop(((SRC1).view.loc (TH d) ↦[(SRC1).view.set]{fullShare} V5c m d)) := by
  show bigSep ({((9 : Fin 14), (1 : Fin 2))} : Finset (Fin 14 × Fin 2)) (A5 m d) = _
  rw [bigSep_singleton]
  exact (pts_v5 d (cV LL) (jV LL) (9 : Fin 14) (1 : Fin 2) _ (V5c m d)).symm
theorem open10 (m : (ℓ : Loc nD τ sig) → Buf (Elt F) ℓ) (d : Dev nD) :
    (bigSep (t10 (4 : Fin 32)) (B0 m d) : sProp 𝕄) = iprop(((OUT0_0).view.loc (TH d) ↦[(OUT0_0).view.set]{fullShare} m (v10L d)) ∗ ((OUT0_1).view.loc (TH d) ↦[(OUT0_1).view.set]{fullShare} m (v10L d)) ∗ ((OUT0_2).view.loc (TH d) ↦[(OUT0_2).view.set]{fullShare} m (v10L d)) ∗ ((OUT0_3).view.loc (TH d) ↦[(OUT0_3).view.set]{fullShare} m (v10L d)) ∗ ((OUT1_0).view.loc (TH d) ↦[(OUT1_0).view.set]{fullShare} m (v10L d))) := by
  show bigSep ({((4 : Fin 9), (0 : Fin 2), (2 : Fin 8)), ((6 : Fin 9), (1 : Fin 2), (0 : Fin 8)), ((4 : Fin 9), (1 : Fin 2), (3 : Fin 8)), ((6 : Fin 9), (1 : Fin 2), (5 : Fin 8)), ((1 : Fin 9), (1 : Fin 2), (1 : Fin 8))} : Finset (Fin 9 × Fin 2 × Fin 8)) (B0 m d) = _
  rw [SparseCore.bigSep_insert' (by decide), SparseCore.bigSep_insert' (by decide), SparseCore.bigSep_insert' (by decide), SparseCore.bigSep_insert' (by decide), bigSep_singleton]
  exact (congrArg₂ (fun a b : sProp 𝕄 => iprop(a ∗ b)) (pts_v10 d (cV LL) (jV LL) (4 : Fin 9) (0 : Fin 2) (2 : Fin 8) _ (m (v10L d))).symm (congrArg₂ (fun a b : sProp 𝕄 => iprop(a ∗ b)) (pts_v10 d (cV LL) (jV LL) (6 : Fin 9) (1 : Fin 2) (0 : Fin 8) _ (m (v10L d))).symm (congrArg₂ (fun a b : sProp 𝕄 => iprop(a ∗ b)) (pts_v10 d (cV LL) (jV LL) (4 : Fin 9) (1 : Fin 2) (3 : Fin 8) _ (m (v10L d))).symm (congrArg₂ (fun a b : sProp 𝕄 => iprop(a ∗ b)) (pts_v10 d (cV LL) (jV LL) (6 : Fin 9) (1 : Fin 2) (5 : Fin 8) _ (m (v10L d))).symm (pts_v10 d (cV LL) (jV LL) (1 : Fin 9) (1 : Fin 2) (1 : Fin 8) _ (m (v10L d))).symm))))
theorem close10 (m : (ℓ : Loc nD τ sig) → Buf (Elt F) ℓ) (d : Dev nD) :
    (bigSep (t10 (4 : Fin 32)) (B1 m d) : sProp 𝕄) = iprop(((OUT0_0).view.loc (TH d) ↦[(OUT0_0).view.set]{fullShare} OUTc m d) ∗ ((OUT0_1).view.loc (TH d) ↦[(OUT0_1).view.set]{fullShare} OUTc m d) ∗ ((OUT0_2).view.loc (TH d) ↦[(OUT0_2).view.set]{fullShare} OUTc m d) ∗ ((OUT0_3).view.loc (TH d) ↦[(OUT0_3).view.set]{fullShare} OUTc m d) ∗ ((OUT1_0).view.loc (TH d) ↦[(OUT1_0).view.set]{fullShare} OUTc m d)) := by
  show bigSep ({((4 : Fin 9), (0 : Fin 2), (2 : Fin 8)), ((6 : Fin 9), (1 : Fin 2), (0 : Fin 8)), ((4 : Fin 9), (1 : Fin 2), (3 : Fin 8)), ((6 : Fin 9), (1 : Fin 2), (5 : Fin 8)), ((1 : Fin 9), (1 : Fin 2), (1 : Fin 8))} : Finset (Fin 9 × Fin 2 × Fin 8)) (B1 m d) = _
  rw [SparseCore.bigSep_insert' (by decide), SparseCore.bigSep_insert' (by decide), SparseCore.bigSep_insert' (by decide), SparseCore.bigSep_insert' (by decide), bigSep_singleton]
  exact (congrArg₂ (fun a b : sProp 𝕄 => iprop(a ∗ b)) (pts_v10 d (cV LL) (jV LL) (4 : Fin 9) (0 : Fin 2) (2 : Fin 8) _ (OUTc m d)).symm (congrArg₂ (fun a b : sProp 𝕄 => iprop(a ∗ b)) (pts_v10 d (cV LL) (jV LL) (6 : Fin 9) (1 : Fin 2) (0 : Fin 8) _ (OUTc m d)).symm (congrArg₂ (fun a b : sProp 𝕄 => iprop(a ∗ b)) (pts_v10 d (cV LL) (jV LL) (4 : Fin 9) (1 : Fin 2) (3 : Fin 8) _ (OUTc m d)).symm (congrArg₂ (fun a b : sProp 𝕄 => iprop(a ∗ b)) (pts_v10 d (cV LL) (jV LL) (6 : Fin 9) (1 : Fin 2) (5 : Fin 8) _ (OUTc m d)).symm (pts_v10 d (cV LL) (jV LL) (1 : Fin 9) (1 : Fin 2) (1 : Fin 8) _ (OUTc m d)).symm))))

/-! ## What each output slice has to hold is what its source slice holds -/

theorem val0_0 (m : (ℓ : Loc nD τ sig) → Buf (Elt F) ℓ) (d : Dev nD) :
    (SRC0).view.read (Elt F) (V2c m d) = (OUT0_0).view.read (Elt F) (OUTc m d) := by
  funext y
  obtain ⟨t, q, rfl⟩ : ∃ (t q : Fin 128), y = ix2 t q := ⟨y 0, y 1, eq_ix2 y⟩
  refine (read_v2 (6 : Fin 17) (1 : Fin 2) _ _ t q).trans ((?_ : _ = _).trans (read_v10 (4 : Fin 9) (0 : Fin 2) (2 : Fin 8) _ _ t q).symm)
  unfold V2c OUTc
  rw [Cert.Layout.poseV_apply]
  refine Eq.trans ?_ (outV_at _ _ _ _ _ _ _ t _ q (show 8 * 0 + 2 < 14 by decide)).symm
  rfl
theorem val0_1 (m : (ℓ : Loc nD τ sig) → Buf (Elt F) ℓ) (d : Dev nD) :
    (SRC0).view.read (Elt F) (V2c m d) = (OUT0_1).view.read (Elt F) (OUTc m d) := by
  funext y
  obtain ⟨t, q, rfl⟩ : ∃ (t q : Fin 128), y = ix2 t q := ⟨y 0, y 1, eq_ix2 y⟩
  refine (read_v2 (6 : Fin 17) (1 : Fin 2) _ _ t q).trans ((?_ : _ = _).trans (read_v10 (6 : Fin 9) (1 : Fin 2) (0 : Fin 8) _ _ t q).symm)
  unfold V2c OUTc
  rw [Cert.Layout.poseV_apply]
  refine Eq.trans ?_ (outV_at _ _ _ _ _ _ _ t _ q (show 8 * 1 + 0 < 14 by decide)).symm
  rfl
theorem val0_2 (m : (ℓ : Loc nD τ sig) → Buf (Elt F) ℓ) (d : Dev nD) :
    (SRC0).view.read (Elt F) (V2c m d) = (OUT0_2).view.read (Elt F) (OUTc m d) := by
  funext y
  obtain ⟨t, q, rfl⟩ : ∃ (t q : Fin 128), y = ix2 t q := ⟨y 0, y 1, eq_ix2 y⟩
  refine (read_v2 (6 : Fin 17) (1 : Fin 2) _ _ t q).trans ((?_ : _ = _).trans (read_v10 (4 : Fin 9) (1 : Fin 2) (3 : Fin 8) _ _ t q).symm)
  unfold V2c OUTc
  rw [Cert.Layout.poseV_apply]
  refine Eq.trans ?_ (outV_at _ _ _ _ _ _ _ t _ q (show 8 * 1 + 3 < 14 by decide)).symm
  rfl
theorem val0_3 (m : (ℓ : Loc nD τ sig) → Buf (Elt F) ℓ) (d : Dev nD) :
    (SRC0).view.read (Elt F) (V2c m d) = (OUT0_3).view.read (Elt F) (OUTc m d) := by
  funext y
  obtain ⟨t, q, rfl⟩ : ∃ (t q : Fin 128), y = ix2 t q := ⟨y 0, y 1, eq_ix2 y⟩
  refine (read_v2 (6 : Fin 17) (1 : Fin 2) _ _ t q).trans ((?_ : _ = _).trans (read_v10 (6 : Fin 9) (1 : Fin 2) (5 : Fin 8) _ _ t q).symm)
  unfold V2c OUTc
  rw [Cert.Layout.poseV_apply]
  refine Eq.trans ?_ (outV_at _ _ _ _ _ _ _ t _ q (show 8 * 1 + 5 < 14 by decide)).symm
  rfl
theorem val1_0 (m : (ℓ : Loc nD τ sig) → Buf (Elt F) ℓ) (d : Dev nD) :
    (SRC1).view.read (Elt F) (V5c m d) = (OUT1_0).view.read (Elt F) (OUTc m d) := by
  funext y
  obtain ⟨t, q, rfl⟩ : ∃ (t q : Fin 128), y = ix2 t q := ⟨y 0, y 1, eq_ix2 y⟩
  refine (read_v5 (9 : Fin 14) (1 : Fin 2) _ _ t q).trans ((?_ : _ = _).trans (read_v10 (1 : Fin 9) (1 : Fin 2) (1 : Fin 8) _ _ t q).symm)
  unfold V5c OUTc
  rw [Cert.Layout.deltaV_apply]
  refine Eq.trans ?_ (outV_at _ _ _ _ _ _ _ t _ q (show 8 * 1 + 1 < 14 by decide)).symm
  rfl

/-! ## The run -/

open Lean Elab Tactic Meta in
/-- Unfold the names the symbolic run gave to the values its copies carry. -/
elab "unfold_carried" : tactic => do
  for _ in [0:6] do
    let g ← getMainGoal
    let t ← instantiateMVars (← g.getType)
    if (t.getUsedConstants.any fun n => n.components.any (· == `sl)) then
      let t' ← deltaExpand t (fun n => n.components.any (· == `sl))
      let g' ← g.change t' (checkDefEq := false)
      replaceMainGoal [g']

variable [FloatOps F] [∀ e, Nonempty (Elt F e)]

theorem run (m : (ℓ : Loc nD τ sig) → Buf (Elt F) ℓ) (d : Dev nD) (O : CellTallies nD τ sig (HIx 1)) (W : Waits sig (HIx 1)) (hO : ∀ g, O g none = 0) :
    (iprop(levAts (K (F := F)).L (K (F := F)).lev ∗ tileG m d (4 : Fin 32)
        ∗ scopedBufs (TH d) ∗ scopedSems0 (TH d) ∗ owes (TH d) O W) : sProp 𝕄)
      ⊢ wp frame (wpE (defs₀ (F := F)) 𝒱₀ (TH d) none) Set.univ
          (cc0_run LL (Memref.whole main_v2_scv) (Memref.isWhole_whole _) (Memref.whole main_v7_scv) (Memref.isWhole_whole _) (Memref.whole main_v5_scv) (Memref.isWhole_whole _) (Memref.whole main_v9_scv) (Memref.isWhole_whole _) (Memref.whole main_v10_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8)
          fun _ => iprop(tileT m d (4 : Fin 32) ∗ scopedBufs (TH d) ∗ scopedSems0 (TH d)
            ∗ ∃ W', ⌜∀ p ∈ W', p ∈ W ∨ p.2 = none⌝ ∗ owes (TH d) O W') := by
  rw [(K (F := F)).scopedBufs_V facts d (cV LL) (jV LL), SparseCore.Cfg.scopedSems0_V (Val := Elt F) d (cV LL) (jV LL), ownSems0_V, ownBufs_V]
  unfold tileG tileT
  iintro ⟨#Hlv, ⟨HF2, -, HF5, -, HF10⟩, ⟨⟨%fb0, Hb0⟩, ⟨%fb1, Hb1⟩, ⟨%fb2, Hb2⟩, Hbufs⟩, ⟨Hs3, Hs4, Hs5, Hs6, Hs7, Hs8, Hsems⟩, HO⟩
  ihave HF2' := (Entails.of_eq (open2 m d)) $$ HF2
  icases HF2' with HS0
  ihave HF5' := (Entails.of_eq (open5 m d)) $$ HF5
  icases HF5' with HS1
  ihave HF10' := (Entails.of_eq (open10 m d)) $$ HF10
  icases HF10' with ⟨HO0_0, HO0_1, HO0_2, HO0_3, HO1_0⟩
  ihave Hmw := ((K (F := F)).mayWaits_none (thr := TH d) hO) $$ Hlv
  ihave Hb0' := (Entails.of_eq (pts_b0 d (cV LL) (jV LL) _).symm) $$ Hb0
  ihave Hb1' := (Entails.of_eq (pts_b1 d (cV LL) (jV LL) _).symm) $$ Hb1
  ihave Hb2' := (Entails.of_eq (pts_b2 d (cV LL) (jV LL) _).symm) $$ Hb2
  have _plan : Transfers.BatchOf (TH d) (SemLoc.dma (sig := sig) cc0_scratch6.sem) 4 (windows := true) := trivial
  sl_unfold [cc0_run]
  sl_exec_parts (disch := decide)
  sl_step
  isplitl [HS0 HS1 HO0_0 HO0_1 HO0_2 HO0_3 HO1_0]
  · skip
    isplitl [HS0]
    · iapply (Entails.of_eq (open2 m d).symm)
      iexact HS0
    isplitr
    · rw [show t7 (4 : Fin 32) = ∅ from rfl, bigSep_empty]; iempintro
    isplitl [HS1]
    · iapply (Entails.of_eq (open5 m d).symm)
      iexact HS1
    isplitr
    · rw [show t9 (4 : Fin 32) = ∅ from rfl, bigSep_empty]; iempintro
    · iapply (Entails.of_eq (close10 m d).symm)
      isplitl [HO0_0]
      · iapply (out_post_ent (TH d) (OUT0_0) _ (OUTc m d) _ ?hv0_0) $$ HO0_0
        case hv0_0 => unfold_carried; simp only [ReadAs.apply_same, View.read_write_univ]; exact val0_0 m d
      isplitl [HO0_1]
      · iapply (out_post_ent (TH d) (OUT0_1) _ (OUTc m d) _ ?hv0_1) $$ HO0_1
        case hv0_1 => unfold_carried; simp only [ReadAs.apply_same, View.read_write_univ]; exact val0_1 m d
      isplitl [HO0_2]
      · iapply (out_post_ent (TH d) (OUT0_2) _ (OUTc m d) _ ?hv0_2) $$ HO0_2
        case hv0_2 => unfold_carried; simp only [ReadAs.apply_same, View.read_write_univ]; exact val0_2 m d
      isplitl [HO0_3]
      · iapply (out_post_ent (TH d) (OUT0_3) _ (OUTc m d) _ ?hv0_3) $$ HO0_3
        case hv0_3 => unfold_carried; simp only [ReadAs.apply_same, View.read_write_univ]; exact val0_3 m d
      iapply (out_post_ent (TH d) (OUT1_0) _ (OUTc m d) _ ?hv1_0) $$ HO1_0
      case hv1_0 => unfold_carried; simp only [ReadAs.apply_same, View.read_write_univ]; exact val1_0 m d

  isplitl [Hb0' Hb1' Hb2' Hbufs]
  · isplitl [Hb0']
    · iexists _; iapply (Entails.of_eq (pts_b0 d (cV LL) (jV LL) _)); iexact Hb0'
    isplitl [Hb1']
    · iexists _; iapply (Entails.of_eq (pts_b1 d (cV LL) (jV LL) _)); iexact Hb1'
    isplitl [Hb2']
    · iexists _; iapply (Entails.of_eq (pts_b2 d (cV LL) (jV LL) _)); iexact Hb2'
    iexact Hbufs
  isplitl [Hs3 Hs4 Hs5 Hs6 Hs7 Hs8 Hsems]
  · isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    iexact Hsems
  iexists _; isplitr
  rotate_left
  · iexact HO
  · ipureintro; intro p hp
    simp only [Finset.mem_insert] at hp
    rcases hp with rfl | rfl | rfl | rfl | rfl | rfl | rfl | hp <;> first | exact .inr rfl | exact .inl hp

end Cert.Proof.KB.Tile4

end
-- ==== Proof.KBTile5.lean ====
/-
  Tile 5 of the kernel (subcore 2 of core 1): one slice in (vis6), 4 out; one slice in (len9), 1 out.
  Its whole body is run: every copy it does not own is skipped by the comparison of its number with the copy's owner;
  each incoming copy fills a staging buffer, each outgoing copy carries that buffer into one slice of the output array,
  and what each output slice then holds is the source slice the specification asks for there.
-/
import proofs.«210185_g18468359372994_cont_8to1_1390_15_alg».proof.Proof.KBRead

set_option maxHeartbeats 4000000
set_option quotPrecheck false

noncomputable section

namespace Cert.Proof.KB.Tile5

open Cert.Kernel Cert.Kernel.Gen
open Cert.Proof.KB
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
theorem cLt : 1 < grid0.bound 0 := by decide
theorem sLt : 2 < grid0.bound 1 := by decide
local notation "LL" => (coordsV (⟨1, cLt⟩ : Fin (grid0.bound 0)) (⟨2, sLt⟩ : Fin (grid0.bound 1)))
local notation "TH" d => V d (cV LL) (jV LL)
local notation "SRC0" => (((Memref.whole main_v7_scv).slice (Rect.unit (s := S17x128x128) ![6, 0, 0] S1x128x128.size inb_S17x128x128_S1x128x128_6_0_0) (fun _ => rfl)).squeeze S128x128 squeezes_S1x128x128_S128x128 : Memref sig .scVector .hbm S128x128 .f32)
local notation "OUT0_0" => (((Memref.whole main_v10_scv).slice (Rect.unit (s := S9x2x128x8x128) ![7, 0, 0, 2, 0] S1x1x128x1x128.size inb_S9x2x128x8x128_S1x1x128x1x128_7_0_0_2_0) (fun _ => rfl)).squeeze S128x128 squeezes_S1x1x128x1x128_S128x128 : Memref sig .scVector .hbm S128x128 .f32)
local notation "OUT0_1" => (((Memref.whole main_v10_scv).slice (Rect.unit (s := S9x2x128x8x128) ![8, 1, 0, 0, 0] S1x1x128x1x128.size inb_S9x2x128x8x128_S1x1x128x1x128_8_1_0_0_0) (fun _ => rfl)).squeeze S128x128 squeezes_S1x1x128x1x128_S128x128 : Memref sig .scVector .hbm S128x128 .f32)
local notation "OUT0_2" => (((Memref.whole main_v10_scv).slice (Rect.unit (s := S9x2x128x8x128) ![7, 1, 0, 3, 0] S1x1x128x1x128.size inb_S9x2x128x8x128_S1x1x128x1x128_7_1_0_3_0) (fun _ => rfl)).squeeze S128x128 squeezes_S1x1x128x1x128_S128x128 : Memref sig .scVector .hbm S128x128 .f32)
local notation "OUT0_3" => (((Memref.whole main_v10_scv).slice (Rect.unit (s := S9x2x128x8x128) ![8, 1, 0, 5, 0] S1x1x128x1x128.size inb_S9x2x128x8x128_S1x1x128x1x128_8_1_0_5_0) (fun _ => rfl)).squeeze S128x128 squeezes_S1x1x128x1x128_S128x128 : Memref sig .scVector .hbm S128x128 .f32)
local notation "SRC1" => (((Memref.whole main_v9_scv).slice (Rect.unit (s := S14x128x128) ![9, 0, 0] S1x128x128.size inb_S14x128x128_S1x128x128_9_0_0) (fun _ => rfl)).squeeze S128x128 squeezes_S1x128x128_S128x128 : Memref sig .scVector .hbm S128x128 .f32)
local notation "OUT1_0" => (((Memref.whole main_v10_scv).slice (Rect.unit (s := S9x2x128x8x128) ![2, 1, 0, 1, 0] S1x1x128x1x128.size inb_S9x2x128x8x128_S1x1x128x1x128_2_1_0_1_0) (fun _ => rfl)).squeeze S128x128 squeezes_S1x1x128x1x128_S128x128 : Memref sig .scVector .hbm S128x128 .f32)

/-! ## The tile's slices, as its memrefs name them -/

theorem open7 (m : (ℓ : Loc nD τ sig) → Buf (Elt F) ℓ) (d : Dev nD) :
    (bigSep (t7 (5 : Fin 32)) (A7 m d) : sProp 𝕄) = iprop(((SRC0).view.loc (TH d) ↦[(SRC0).view.set]{fullShare} V7c m d)) := by
  show bigSep ({(6 : Fin 17)} : Finset (Fin 17)) (A7 m d) = _
  rw [bigSep_singleton]
  exact (pts_v7 d (cV LL) (jV LL) (6 : Fin 17) _ (V7c m d)).symm
theorem open9 (m : (ℓ : Loc nD τ sig) → Buf (Elt F) ℓ) (d : Dev nD) :
    (bigSep (t9 (5 : Fin 32)) (A9 m d) : sProp 𝕄) = iprop(((SRC1).view.loc (TH d) ↦[(SRC1).view.set]{fullShare} V9c m d)) := by
  show bigSep ({(9 : Fin 14)} : Finset (Fin 14)) (A9 m d) = _
  rw [bigSep_singleton]
  exact (pts_v9 d (cV LL) (jV LL) (9 : Fin 14) _ (V9c m d)).symm
theorem open10 (m : (ℓ : Loc nD τ sig) → Buf (Elt F) ℓ) (d : Dev nD) :
    (bigSep (t10 (5 : Fin 32)) (B0 m d) : sProp 𝕄) = iprop(((OUT0_0).view.loc (TH d) ↦[(OUT0_0).view.set]{fullShare} m (v10L d)) ∗ ((OUT0_1).view.loc (TH d) ↦[(OUT0_1).view.set]{fullShare} m (v10L d)) ∗ ((OUT0_2).view.loc (TH d) ↦[(OUT0_2).view.set]{fullShare} m (v10L d)) ∗ ((OUT0_3).view.loc (TH d) ↦[(OUT0_3).view.set]{fullShare} m (v10L d)) ∗ ((OUT1_0).view.loc (TH d) ↦[(OUT1_0).view.set]{fullShare} m (v10L d))) := by
  show bigSep ({((7 : Fin 9), (0 : Fin 2), (2 : Fin 8)), ((8 : Fin 9), (1 : Fin 2), (0 : Fin 8)), ((7 : Fin 9), (1 : Fin 2), (3 : Fin 8)), ((8 : Fin 9), (1 : Fin 2), (5 : Fin 8)), ((2 : Fin 9), (1 : Fin 2), (1 : Fin 8))} : Finset (Fin 9 × Fin 2 × Fin 8)) (B0 m d) = _
  rw [SparseCore.bigSep_insert' (by decide), SparseCore.bigSep_insert' (by decide), SparseCore.bigSep_insert' (by decide), SparseCore.bigSep_insert' (by decide), bigSep_singleton]
  exact (congrArg₂ (fun a b : sProp 𝕄 => iprop(a ∗ b)) (pts_v10 d (cV LL) (jV LL) (7 : Fin 9) (0 : Fin 2) (2 : Fin 8) _ (m (v10L d))).symm (congrArg₂ (fun a b : sProp 𝕄 => iprop(a ∗ b)) (pts_v10 d (cV LL) (jV LL) (8 : Fin 9) (1 : Fin 2) (0 : Fin 8) _ (m (v10L d))).symm (congrArg₂ (fun a b : sProp 𝕄 => iprop(a ∗ b)) (pts_v10 d (cV LL) (jV LL) (7 : Fin 9) (1 : Fin 2) (3 : Fin 8) _ (m (v10L d))).symm (congrArg₂ (fun a b : sProp 𝕄 => iprop(a ∗ b)) (pts_v10 d (cV LL) (jV LL) (8 : Fin 9) (1 : Fin 2) (5 : Fin 8) _ (m (v10L d))).symm (pts_v10 d (cV LL) (jV LL) (2 : Fin 9) (1 : Fin 2) (1 : Fin 8) _ (m (v10L d))).symm))))
theorem close10 (m : (ℓ : Loc nD τ sig) → Buf (Elt F) ℓ) (d : Dev nD) :
    (bigSep (t10 (5 : Fin 32)) (B1 m d) : sProp 𝕄) = iprop(((OUT0_0).view.loc (TH d) ↦[(OUT0_0).view.set]{fullShare} OUTc m d) ∗ ((OUT0_1).view.loc (TH d) ↦[(OUT0_1).view.set]{fullShare} OUTc m d) ∗ ((OUT0_2).view.loc (TH d) ↦[(OUT0_2).view.set]{fullShare} OUTc m d) ∗ ((OUT0_3).view.loc (TH d) ↦[(OUT0_3).view.set]{fullShare} OUTc m d) ∗ ((OUT1_0).view.loc (TH d) ↦[(OUT1_0).view.set]{fullShare} OUTc m d)) := by
  show bigSep ({((7 : Fin 9), (0 : Fin 2), (2 : Fin 8)), ((8 : Fin 9), (1 : Fin 2), (0 : Fin 8)), ((7 : Fin 9), (1 : Fin 2), (3 : Fin 8)), ((8 : Fin 9), (1 : Fin 2), (5 : Fin 8)), ((2 : Fin 9), (1 : Fin 2), (1 : Fin 8))} : Finset (Fin 9 × Fin 2 × Fin 8)) (B1 m d) = _
  rw [SparseCore.bigSep_insert' (by decide), SparseCore.bigSep_insert' (by decide), SparseCore.bigSep_insert' (by decide), SparseCore.bigSep_insert' (by decide), bigSep_singleton]
  exact (congrArg₂ (fun a b : sProp 𝕄 => iprop(a ∗ b)) (pts_v10 d (cV LL) (jV LL) (7 : Fin 9) (0 : Fin 2) (2 : Fin 8) _ (OUTc m d)).symm (congrArg₂ (fun a b : sProp 𝕄 => iprop(a ∗ b)) (pts_v10 d (cV LL) (jV LL) (8 : Fin 9) (1 : Fin 2) (0 : Fin 8) _ (OUTc m d)).symm (congrArg₂ (fun a b : sProp 𝕄 => iprop(a ∗ b)) (pts_v10 d (cV LL) (jV LL) (7 : Fin 9) (1 : Fin 2) (3 : Fin 8) _ (OUTc m d)).symm (congrArg₂ (fun a b : sProp 𝕄 => iprop(a ∗ b)) (pts_v10 d (cV LL) (jV LL) (8 : Fin 9) (1 : Fin 2) (5 : Fin 8) _ (OUTc m d)).symm (pts_v10 d (cV LL) (jV LL) (2 : Fin 9) (1 : Fin 2) (1 : Fin 8) _ (OUTc m d)).symm))))

/-! ## What each output slice has to hold is what its source slice holds -/

theorem val0_0 (m : (ℓ : Loc nD τ sig) → Buf (Elt F) ℓ) (d : Dev nD) :
    (SRC0).view.read (Elt F) (V7c m d) = (OUT0_0).view.read (Elt F) (OUTc m d) := by
  funext y
  obtain ⟨t, q, rfl⟩ : ∃ (t q : Fin 128), y = ix2 t q := ⟨y 0, y 1, eq_ix2 y⟩
  refine (read_v7 (6 : Fin 17) _ _ t q).trans ((?_ : _ = _).trans (read_v10 (7 : Fin 9) (0 : Fin 2) (2 : Fin 8) _ _ t q).symm)
  unfold V7c OUTc
  rw [Cert.Layout.visV_apply]
  refine Eq.trans ?_ (outV_at _ _ _ _ _ _ _ t _ q (show 8 * 0 + 2 < 14 by decide)).symm
  rfl
theorem val0_1 (m : (ℓ : Loc nD τ sig) → Buf (Elt F) ℓ) (d : Dev nD) :
    (SRC0).view.read (Elt F) (V7c m d) = (OUT0_1).view.read (Elt F) (OUTc m d) := by
  funext y
  obtain ⟨t, q, rfl⟩ : ∃ (t q : Fin 128), y = ix2 t q := ⟨y 0, y 1, eq_ix2 y⟩
  refine (read_v7 (6 : Fin 17) _ _ t q).trans ((?_ : _ = _).trans (read_v10 (8 : Fin 9) (1 : Fin 2) (0 : Fin 8) _ _ t q).symm)
  unfold V7c OUTc
  rw [Cert.Layout.visV_apply]
  refine Eq.trans ?_ (outV_at _ _ _ _ _ _ _ t _ q (show 8 * 1 + 0 < 14 by decide)).symm
  rfl
theorem val0_2 (m : (ℓ : Loc nD τ sig) → Buf (Elt F) ℓ) (d : Dev nD) :
    (SRC0).view.read (Elt F) (V7c m d) = (OUT0_2).view.read (Elt F) (OUTc m d) := by
  funext y
  obtain ⟨t, q, rfl⟩ : ∃ (t q : Fin 128), y = ix2 t q := ⟨y 0, y 1, eq_ix2 y⟩
  refine (read_v7 (6 : Fin 17) _ _ t q).trans ((?_ : _ = _).trans (read_v10 (7 : Fin 9) (1 : Fin 2) (3 : Fin 8) _ _ t q).symm)
  unfold V7c OUTc
  rw [Cert.Layout.visV_apply]
  refine Eq.trans ?_ (outV_at _ _ _ _ _ _ _ t _ q (show 8 * 1 + 3 < 14 by decide)).symm
  rfl
theorem val0_3 (m : (ℓ : Loc nD τ sig) → Buf (Elt F) ℓ) (d : Dev nD) :
    (SRC0).view.read (Elt F) (V7c m d) = (OUT0_3).view.read (Elt F) (OUTc m d) := by
  funext y
  obtain ⟨t, q, rfl⟩ : ∃ (t q : Fin 128), y = ix2 t q := ⟨y 0, y 1, eq_ix2 y⟩
  refine (read_v7 (6 : Fin 17) _ _ t q).trans ((?_ : _ = _).trans (read_v10 (8 : Fin 9) (1 : Fin 2) (5 : Fin 8) _ _ t q).symm)
  unfold V7c OUTc
  rw [Cert.Layout.visV_apply]
  refine Eq.trans ?_ (outV_at _ _ _ _ _ _ _ t _ q (show 8 * 1 + 5 < 14 by decide)).symm
  rfl
theorem val1_0 (m : (ℓ : Loc nD τ sig) → Buf (Elt F) ℓ) (d : Dev nD) :
    (SRC1).view.read (Elt F) (V9c m d) = (OUT1_0).view.read (Elt F) (OUTc m d) := by
  funext y
  obtain ⟨t, q, rfl⟩ : ∃ (t q : Fin 128), y = ix2 t q := ⟨y 0, y 1, eq_ix2 y⟩
  refine (read_v9 (9 : Fin 14) _ _ t q).trans ((?_ : _ = _).trans (read_v10 (2 : Fin 9) (1 : Fin 2) (1 : Fin 8) _ _ t q).symm)
  unfold V9c OUTc
  rw [Cert.Layout.lenV_apply]
  refine Eq.trans ?_ (outV_at _ _ _ _ _ _ _ t _ q (show 8 * 1 + 1 < 14 by decide)).symm
  rfl

/-! ## The run -/

open Lean Elab Tactic Meta in
/-- Unfold the names the symbolic run gave to the values its copies carry. -/
elab "unfold_carried" : tactic => do
  for _ in [0:6] do
    let g ← getMainGoal
    let t ← instantiateMVars (← g.getType)
    if (t.getUsedConstants.any fun n => n.components.any (· == `sl)) then
      let t' ← deltaExpand t (fun n => n.components.any (· == `sl))
      let g' ← g.change t' (checkDefEq := false)
      replaceMainGoal [g']

variable [FloatOps F] [∀ e, Nonempty (Elt F e)]

theorem run (m : (ℓ : Loc nD τ sig) → Buf (Elt F) ℓ) (d : Dev nD) (O : CellTallies nD τ sig (HIx 1)) (W : Waits sig (HIx 1)) (hO : ∀ g, O g none = 0) :
    (iprop(levAts (K (F := F)).L (K (F := F)).lev ∗ tileG m d (5 : Fin 32)
        ∗ scopedBufs (TH d) ∗ scopedSems0 (TH d) ∗ owes (TH d) O W) : sProp 𝕄)
      ⊢ wp frame (wpE (defs₀ (F := F)) 𝒱₀ (TH d) none) Set.univ
          (cc0_run LL (Memref.whole main_v2_scv) (Memref.isWhole_whole _) (Memref.whole main_v7_scv) (Memref.isWhole_whole _) (Memref.whole main_v5_scv) (Memref.isWhole_whole _) (Memref.whole main_v9_scv) (Memref.isWhole_whole _) (Memref.whole main_v10_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8)
          fun _ => iprop(tileT m d (5 : Fin 32) ∗ scopedBufs (TH d) ∗ scopedSems0 (TH d)
            ∗ ∃ W', ⌜∀ p ∈ W', p ∈ W ∨ p.2 = none⌝ ∗ owes (TH d) O W') := by
  rw [(K (F := F)).scopedBufs_V facts d (cV LL) (jV LL), SparseCore.Cfg.scopedSems0_V (Val := Elt F) d (cV LL) (jV LL), ownSems0_V, ownBufs_V]
  unfold tileG tileT
  iintro ⟨#Hlv, ⟨-, HF7, -, HF9, HF10⟩, ⟨⟨%fb0, Hb0⟩, ⟨%fb1, Hb1⟩, ⟨%fb2, Hb2⟩, Hbufs⟩, ⟨Hs3, Hs4, Hs5, Hs6, Hs7, Hs8, Hsems⟩, HO⟩
  ihave HF7' := (Entails.of_eq (open7 m d)) $$ HF7
  icases HF7' with HS0
  ihave HF9' := (Entails.of_eq (open9 m d)) $$ HF9
  icases HF9' with HS1
  ihave HF10' := (Entails.of_eq (open10 m d)) $$ HF10
  icases HF10' with ⟨HO0_0, HO0_1, HO0_2, HO0_3, HO1_0⟩
  ihave Hmw := ((K (F := F)).mayWaits_none (thr := TH d) hO) $$ Hlv
  ihave Hb0' := (Entails.of_eq (pts_b0 d (cV LL) (jV LL) _).symm) $$ Hb0
  ihave Hb1' := (Entails.of_eq (pts_b1 d (cV LL) (jV LL) _).symm) $$ Hb1
  ihave Hb2' := (Entails.of_eq (pts_b2 d (cV LL) (jV LL) _).symm) $$ Hb2
  have _plan : Transfers.BatchOf (TH d) (SemLoc.dma (sig := sig) cc0_scratch6.sem) 4 (windows := true) := trivial
  sl_unfold [cc0_run]
  sl_exec_parts (disch := decide)
  sl_step
  isplitl [HS0 HS1 HO0_0 HO0_1 HO0_2 HO0_3 HO1_0]
  · skip
    isplitr
    · rw [show t2 (5 : Fin 32) = ∅ from rfl, bigSep_empty]; iempintro
    isplitl [HS0]
    · iapply (Entails.of_eq (open7 m d).symm)
      iexact HS0
    isplitr
    · rw [show t5 (5 : Fin 32) = ∅ from rfl, bigSep_empty]; iempintro
    isplitl [HS1]
    · iapply (Entails.of_eq (open9 m d).symm)
      iexact HS1
    · iapply (Entails.of_eq (close10 m d).symm)
      isplitl [HO0_0]
      · iapply (out_post_ent (TH d) (OUT0_0) _ (OUTc m d) _ ?hv0_0) $$ HO0_0
        case hv0_0 => unfold_carried; simp only [ReadAs.apply_same, View.read_write_univ]; exact val0_0 m d
      isplitl [HO0_1]
      · iapply (out_post_ent (TH d) (OUT0_1) _ (OUTc m d) _ ?hv0_1) $$ HO0_1
        case hv0_1 => unfold_carried; simp only [ReadAs.apply_same, View.read_write_univ]; exact val0_1 m d
      isplitl [HO0_2]
      · iapply (out_post_ent (TH d) (OUT0_2) _ (OUTc m d) _ ?hv0_2) $$ HO0_2
        case hv0_2 => unfold_carried; simp only [ReadAs.apply_same, View.read_write_univ]; exact val0_2 m d
      isplitl [HO0_3]
      · iapply (out_post_ent (TH d) (OUT0_3) _ (OUTc m d) _ ?hv0_3) $$ HO0_3
        case hv0_3 => unfold_carried; simp only [ReadAs.apply_same, View.read_write_univ]; exact val0_3 m d
      iapply (out_post_ent (TH d) (OUT1_0) _ (OUTc m d) _ ?hv1_0) $$ HO1_0
      case hv1_0 => unfold_carried; simp only [ReadAs.apply_same, View.read_write_univ]; exact val1_0 m d

  isplitl [Hb0' Hb1' Hb2' Hbufs]
  · isplitl [Hb0']
    · iexists _; iapply (Entails.of_eq (pts_b0 d (cV LL) (jV LL) _)); iexact Hb0'
    isplitl [Hb1']
    · iexists _; iapply (Entails.of_eq (pts_b1 d (cV LL) (jV LL) _)); iexact Hb1'
    isplitl [Hb2']
    · iexists _; iapply (Entails.of_eq (pts_b2 d (cV LL) (jV LL) _)); iexact Hb2'
    iexact Hbufs
  isplitl [Hs3 Hs4 Hs5 Hs6 Hs7 Hs8 Hsems]
  · isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    iexact Hsems
  iexists _; isplitr
  rotate_left
  · iexact HO
  · ipureintro; intro p hp
    simp only [Finset.mem_insert] at hp
    rcases hp with rfl | rfl | rfl | rfl | rfl | rfl | rfl | hp <;> first | exact .inr rfl | exact .inl hp

end Cert.Proof.KB.Tile5

end
-- ==== Proof.KBTile6.lean ====
/-
  Tile 6 of the kernel (subcore 3 of core 0): one slice in (pose11.0), 3 out; one slice in (pose15.1), 1 out.
  Its whole body is run: every copy it does not own is skipped by the comparison of its number with the copy's owner;
  each incoming copy fills a staging buffer, each outgoing copy carries that buffer into one slice of the output array,
  and what each output slice then holds is the source slice the specification asks for there.
-/
import proofs.«210185_g18468359372994_cont_8to1_1390_15_alg».proof.Proof.KBRead

set_option maxHeartbeats 4000000
set_option quotPrecheck false

noncomputable section

namespace Cert.Proof.KB.Tile6

open Cert.Kernel Cert.Kernel.Gen
open Cert.Proof.KB
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
theorem cLt : 0 < grid0.bound 0 := by decide
theorem sLt : 3 < grid0.bound 1 := by decide
local notation "LL" => (coordsV (⟨0, cLt⟩ : Fin (grid0.bound 0)) (⟨3, sLt⟩ : Fin (grid0.bound 1)))
local notation "TH" d => V d (cV LL) (jV LL)
local notation "SRC0" => (((Memref.whole main_v2_scv).slice (Rect.unit (s := S17x128x2x128) ![11, 0, 0, 0] S1x128x1x128.size inb_S17x128x2x128_S1x128x1x128_11_0_0_0) (fun _ => rfl)).squeeze S128x128 squeezes_S1x128x1x128_S128x128 : Memref sig .scVector .hbm S128x128 .f32)
local notation "OUT0_0" => (((Memref.whole main_v10_scv).slice (Rect.unit (s := S9x2x128x8x128) ![3, 0, 0, 4, 0] S1x1x128x1x128.size inb_S9x2x128x8x128_S1x1x128x1x128_3_0_0_4_0) (fun _ => rfl)).squeeze S128x128 squeezes_S1x1x128x1x128_S128x128 : Memref sig .scVector .hbm S128x128 .f32)
local notation "OUT0_1" => (((Memref.whole main_v10_scv).slice (Rect.unit (s := S9x2x128x8x128) ![3, 1, 0, 1, 0] S1x1x128x1x128.size inb_S9x2x128x8x128_S1x1x128x1x128_3_1_0_1_0) (fun _ => rfl)).squeeze S128x128 squeezes_S1x1x128x1x128_S128x128 : Memref sig .scVector .hbm S128x128 .f32)
local notation "OUT0_2" => (((Memref.whole main_v10_scv).slice (Rect.unit (s := S9x2x128x8x128) ![5, 1, 0, 2, 0] S1x1x128x1x128.size inb_S9x2x128x8x128_S1x1x128x1x128_5_1_0_2_0) (fun _ => rfl)).squeeze S128x128 squeezes_S1x1x128x1x128_S128x128 : Memref sig .scVector .hbm S128x128 .f32)
local notation "SRC1" => (((Memref.whole main_v2_scv).slice (Rect.unit (s := S17x128x2x128) ![15, 0, 1, 0] S1x128x1x128.size inb_S17x128x2x128_S1x128x1x128_15_0_1_0) (fun _ => rfl)).squeeze S128x128 squeezes_S1x128x1x128_S128x128 : Memref sig .scVector .hbm S128x128 .f32)
local notation "OUT1_0" => (((Memref.whole main_v10_scv).slice (Rect.unit (s := S9x2x128x8x128) ![6, 0, 0, 5, 0] S1x1x128x1x128.size inb_S9x2x128x8x128_S1x1x128x1x128_6_0_0_5_0) (fun _ => rfl)).squeeze S128x128 squeezes_S1x1x128x1x128_S128x128 : Memref sig .scVector .hbm S128x128 .f32)

/-! ## The tile's slices, as its memrefs name them -/

theorem open2 (m : (ℓ : Loc nD τ sig) → Buf (Elt F) ℓ) (d : Dev nD) :
    (bigSep (t2 (6 : Fin 32)) (A2 m d) : sProp 𝕄) = iprop(((SRC0).view.loc (TH d) ↦[(SRC0).view.set]{fullShare} V2c m d) ∗ ((SRC1).view.loc (TH d) ↦[(SRC1).view.set]{fullShare} V2c m d)) := by
  show bigSep ({((11 : Fin 17), (0 : Fin 2)), ((15 : Fin 17), (1 : Fin 2))} : Finset (Fin 17 × Fin 2)) (A2 m d) = _
  rw [SparseCore.bigSep_insert' (by decide), bigSep_singleton]
  exact (congrArg₂ (fun a b : sProp 𝕄 => iprop(a ∗ b)) (pts_v2 d (cV LL) (jV LL) (11 : Fin 17) (0 : Fin 2) _ (V2c m d)).symm (pts_v2 d (cV LL) (jV LL) (15 : Fin 17) (1 : Fin 2) _ (V2c m d)).symm)
theorem open10 (m : (ℓ : Loc nD τ sig) → Buf (Elt F) ℓ) (d : Dev nD) :
    (bigSep (t10 (6 : Fin 32)) (B0 m d) : sProp 𝕄) = iprop(((OUT0_0).view.loc (TH d) ↦[(OUT0_0).view.set]{fullShare} m (v10L d)) ∗ ((OUT0_1).view.loc (TH d) ↦[(OUT0_1).view.set]{fullShare} m (v10L d)) ∗ ((OUT0_2).view.loc (TH d) ↦[(OUT0_2).view.set]{fullShare} m (v10L d)) ∗ ((OUT1_0).view.loc (TH d) ↦[(OUT1_0).view.set]{fullShare} m (v10L d))) := by
  show bigSep ({((3 : Fin 9), (0 : Fin 2), (4 : Fin 8)), ((3 : Fin 9), (1 : Fin 2), (1 : Fin 8)), ((5 : Fin 9), (1 : Fin 2), (2 : Fin 8)), ((6 : Fin 9), (0 : Fin 2), (5 : Fin 8))} : Finset (Fin 9 × Fin 2 × Fin 8)) (B0 m d) = _
  rw [SparseCore.bigSep_insert' (by decide), SparseCore.bigSep_insert' (by decide), SparseCore.bigSep_insert' (by decide), bigSep_singleton]
  exact (congrArg₂ (fun a b : sProp 𝕄 => iprop(a ∗ b)) (pts_v10 d (cV LL) (jV LL) (3 : Fin 9) (0 : Fin 2) (4 : Fin 8) _ (m (v10L d))).symm (congrArg₂ (fun a b : sProp 𝕄 => iprop(a ∗ b)) (pts_v10 d (cV LL) (jV LL) (3 : Fin 9) (1 : Fin 2) (1 : Fin 8) _ (m (v10L d))).symm (congrArg₂ (fun a b : sProp 𝕄 => iprop(a ∗ b)) (pts_v10 d (cV LL) (jV LL) (5 : Fin 9) (1 : Fin 2) (2 : Fin 8) _ (m (v10L d))).symm (pts_v10 d (cV LL) (jV LL) (6 : Fin 9) (0 : Fin 2) (5 : Fin 8) _ (m (v10L d))).symm)))
theorem close10 (m : (ℓ : Loc nD τ sig) → Buf (Elt F) ℓ) (d : Dev nD) :
    (bigSep (t10 (6 : Fin 32)) (B1 m d) : sProp 𝕄) = iprop(((OUT0_0).view.loc (TH d) ↦[(OUT0_0).view.set]{fullShare} OUTc m d) ∗ ((OUT0_1).view.loc (TH d) ↦[(OUT0_1).view.set]{fullShare} OUTc m d) ∗ ((OUT0_2).view.loc (TH d) ↦[(OUT0_2).view.set]{fullShare} OUTc m d) ∗ ((OUT1_0).view.loc (TH d) ↦[(OUT1_0).view.set]{fullShare} OUTc m d)) := by
  show bigSep ({((3 : Fin 9), (0 : Fin 2), (4 : Fin 8)), ((3 : Fin 9), (1 : Fin 2), (1 : Fin 8)), ((5 : Fin 9), (1 : Fin 2), (2 : Fin 8)), ((6 : Fin 9), (0 : Fin 2), (5 : Fin 8))} : Finset (Fin 9 × Fin 2 × Fin 8)) (B1 m d) = _
  rw [SparseCore.bigSep_insert' (by decide), SparseCore.bigSep_insert' (by decide), SparseCore.bigSep_insert' (by decide), bigSep_singleton]
  exact (congrArg₂ (fun a b : sProp 𝕄 => iprop(a ∗ b)) (pts_v10 d (cV LL) (jV LL) (3 : Fin 9) (0 : Fin 2) (4 : Fin 8) _ (OUTc m d)).symm (congrArg₂ (fun a b : sProp 𝕄 => iprop(a ∗ b)) (pts_v10 d (cV LL) (jV LL) (3 : Fin 9) (1 : Fin 2) (1 : Fin 8) _ (OUTc m d)).symm (congrArg₂ (fun a b : sProp 𝕄 => iprop(a ∗ b)) (pts_v10 d (cV LL) (jV LL) (5 : Fin 9) (1 : Fin 2) (2 : Fin 8) _ (OUTc m d)).symm (pts_v10 d (cV LL) (jV LL) (6 : Fin 9) (0 : Fin 2) (5 : Fin 8) _ (OUTc m d)).symm)))

/-! ## What each output slice has to hold is what its source slice holds -/

theorem val0_0 (m : (ℓ : Loc nD τ sig) → Buf (Elt F) ℓ) (d : Dev nD) :
    (SRC0).view.read (Elt F) (V2c m d) = (OUT0_0).view.read (Elt F) (OUTc m d) := by
  funext y
  obtain ⟨t, q, rfl⟩ : ∃ (t q : Fin 128), y = ix2 t q := ⟨y 0, y 1, eq_ix2 y⟩
  refine (read_v2 (11 : Fin 17) (0 : Fin 2) _ _ t q).trans ((?_ : _ = _).trans (read_v10 (3 : Fin 9) (0 : Fin 2) (4 : Fin 8) _ _ t q).symm)
  unfold V2c OUTc
  rw [Cert.Layout.poseV_apply]
  refine Eq.trans ?_ (outV_at _ _ _ _ _ _ _ t _ q (show 8 * 0 + 4 < 14 by decide)).symm
  rfl
theorem val0_1 (m : (ℓ : Loc nD τ sig) → Buf (Elt F) ℓ) (d : Dev nD) :
    (SRC0).view.read (Elt F) (V2c m d) = (OUT0_1).view.read (Elt F) (OUTc m d) := by
  funext y
  obtain ⟨t, q, rfl⟩ : ∃ (t q : Fin 128), y = ix2 t q := ⟨y 0, y 1, eq_ix2 y⟩
  refine (read_v2 (11 : Fin 17) (0 : Fin 2) _ _ t q).trans ((?_ : _ = _).trans (read_v10 (3 : Fin 9) (1 : Fin 2) (1 : Fin 8) _ _ t q).symm)
  unfold V2c OUTc
  rw [Cert.Layout.poseV_apply]
  refine Eq.trans ?_ (outV_at _ _ _ _ _ _ _ t _ q (show 8 * 1 + 1 < 14 by decide)).symm
  rfl
theorem val0_2 (m : (ℓ : Loc nD τ sig) → Buf (Elt F) ℓ) (d : Dev nD) :
    (SRC0).view.read (Elt F) (V2c m d) = (OUT0_2).view.read (Elt F) (OUTc m d) := by
  funext y
  obtain ⟨t, q, rfl⟩ : ∃ (t q : Fin 128), y = ix2 t q := ⟨y 0, y 1, eq_ix2 y⟩
  refine (read_v2 (11 : Fin 17) (0 : Fin 2) _ _ t q).trans ((?_ : _ = _).trans (read_v10 (5 : Fin 9) (1 : Fin 2) (2 : Fin 8) _ _ t q).symm)
  unfold V2c OUTc
  rw [Cert.Layout.poseV_apply]
  refine Eq.trans ?_ (outV_at _ _ _ _ _ _ _ t _ q (show 8 * 1 + 2 < 14 by decide)).symm
  rfl
theorem val1_0 (m : (ℓ : Loc nD τ sig) → Buf (Elt F) ℓ) (d : Dev nD) :
    (SRC1).view.read (Elt F) (V2c m d) = (OUT1_0).view.read (Elt F) (OUTc m d) := by
  funext y
  obtain ⟨t, q, rfl⟩ : ∃ (t q : Fin 128), y = ix2 t q := ⟨y 0, y 1, eq_ix2 y⟩
  refine (read_v2 (15 : Fin 17) (1 : Fin 2) _ _ t q).trans ((?_ : _ = _).trans (read_v10 (6 : Fin 9) (0 : Fin 2) (5 : Fin 8) _ _ t q).symm)
  unfold V2c OUTc
  rw [Cert.Layout.poseV_apply]
  refine Eq.trans ?_ (outV_at _ _ _ _ _ _ _ t _ q (show 8 * 0 + 5 < 14 by decide)).symm
  rfl

/-! ## The run -/

open Lean Elab Tactic Meta in
/-- Unfold the names the symbolic run gave to the values its copies carry. -/
elab "unfold_carried" : tactic => do
  for _ in [0:6] do
    let g ← getMainGoal
    let t ← instantiateMVars (← g.getType)
    if (t.getUsedConstants.any fun n => n.components.any (· == `sl)) then
      let t' ← deltaExpand t (fun n => n.components.any (· == `sl))
      let g' ← g.change t' (checkDefEq := false)
      replaceMainGoal [g']

variable [FloatOps F] [∀ e, Nonempty (Elt F e)]

theorem run (m : (ℓ : Loc nD τ sig) → Buf (Elt F) ℓ) (d : Dev nD) (O : CellTallies nD τ sig (HIx 1)) (W : Waits sig (HIx 1)) (hO : ∀ g, O g none = 0) :
    (iprop(levAts (K (F := F)).L (K (F := F)).lev ∗ tileG m d (6 : Fin 32)
        ∗ scopedBufs (TH d) ∗ scopedSems0 (TH d) ∗ owes (TH d) O W) : sProp 𝕄)
      ⊢ wp frame (wpE (defs₀ (F := F)) 𝒱₀ (TH d) none) Set.univ
          (cc0_run LL (Memref.whole main_v2_scv) (Memref.isWhole_whole _) (Memref.whole main_v7_scv) (Memref.isWhole_whole _) (Memref.whole main_v5_scv) (Memref.isWhole_whole _) (Memref.whole main_v9_scv) (Memref.isWhole_whole _) (Memref.whole main_v10_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8)
          fun _ => iprop(tileT m d (6 : Fin 32) ∗ scopedBufs (TH d) ∗ scopedSems0 (TH d)
            ∗ ∃ W', ⌜∀ p ∈ W', p ∈ W ∨ p.2 = none⌝ ∗ owes (TH d) O W') := by
  rw [(K (F := F)).scopedBufs_V facts d (cV LL) (jV LL), SparseCore.Cfg.scopedSems0_V (Val := Elt F) d (cV LL) (jV LL), ownSems0_V, ownBufs_V]
  unfold tileG tileT
  iintro ⟨#Hlv, ⟨HF2, -, -, -, HF10⟩, ⟨⟨%fb0, Hb0⟩, ⟨%fb1, Hb1⟩, ⟨%fb2, Hb2⟩, Hbufs⟩, ⟨Hs3, Hs4, Hs5, Hs6, Hs7, Hs8, Hsems⟩, HO⟩
  ihave HF2' := (Entails.of_eq (open2 m d)) $$ HF2
  icases HF2' with ⟨HS0, HS1⟩
  ihave HF10' := (Entails.of_eq (open10 m d)) $$ HF10
  icases HF10' with ⟨HO0_0, HO0_1, HO0_2, HO1_0⟩
  ihave Hmw := ((K (F := F)).mayWaits_none (thr := TH d) hO) $$ Hlv
  ihave Hb0' := (Entails.of_eq (pts_b0 d (cV LL) (jV LL) _).symm) $$ Hb0
  ihave Hb1' := (Entails.of_eq (pts_b1 d (cV LL) (jV LL) _).symm) $$ Hb1
  ihave Hb2' := (Entails.of_eq (pts_b2 d (cV LL) (jV LL) _).symm) $$ Hb2
  have _plan : Transfers.BatchOf (TH d) (SemLoc.dma (sig := sig) cc0_scratch6.sem) 3 (windows := true) := trivial
  sl_unfold [cc0_run]
  sl_exec_parts (disch := decide)
  sl_step
  isplitl [HS0 HS1 HO0_0 HO0_1 HO0_2 HO1_0]
  · skip
    isplitl [HS0 HS1]
    · iapply (Entails.of_eq (open2 m d).symm)
      isplitl [HS0]; · iexact HS0
      iexact HS1
    isplitr
    · rw [show t7 (6 : Fin 32) = ∅ from rfl, bigSep_empty]; iempintro
    isplitr
    · rw [show t5 (6 : Fin 32) = ∅ from rfl, bigSep_empty]; iempintro
    isplitr
    · rw [show t9 (6 : Fin 32) = ∅ from rfl, bigSep_empty]; iempintro
    · iapply (Entails.of_eq (close10 m d).symm)
      isplitl [HO0_0]
      · iapply (out_post_ent (TH d) (OUT0_0) _ (OUTc m d) _ ?hv0_0) $$ HO0_0
        case hv0_0 => unfold_carried; simp only [ReadAs.apply_same, View.read_write_univ]; exact val0_0 m d
      isplitl [HO0_1]
      · iapply (out_post_ent (TH d) (OUT0_1) _ (OUTc m d) _ ?hv0_1) $$ HO0_1
        case hv0_1 => unfold_carried; simp only [ReadAs.apply_same, View.read_write_univ]; exact val0_1 m d
      isplitl [HO0_2]
      · iapply (out_post_ent (TH d) (OUT0_2) _ (OUTc m d) _ ?hv0_2) $$ HO0_2
        case hv0_2 => unfold_carried; simp only [ReadAs.apply_same, View.read_write_univ]; exact val0_2 m d
      iapply (out_post_ent (TH d) (OUT1_0) _ (OUTc m d) _ ?hv1_0) $$ HO1_0
      case hv1_0 => unfold_carried; simp only [ReadAs.apply_same, View.read_write_univ]; exact val1_0 m d

  isplitl [Hb0' Hb1' Hb2' Hbufs]
  · isplitl [Hb0']
    · iexists _; iapply (Entails.of_eq (pts_b0 d (cV LL) (jV LL) _)); iexact Hb0'
    isplitl [Hb1']
    · iexists _; iapply (Entails.of_eq (pts_b1 d (cV LL) (jV LL) _)); iexact Hb1'
    isplitl [Hb2']
    · iexists _; iapply (Entails.of_eq (pts_b2 d (cV LL) (jV LL) _)); iexact Hb2'
    iexact Hbufs
  isplitl [Hs3 Hs4 Hs5 Hs6 Hs7 Hs8 Hsems]
  · isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    iexact Hsems
  iexists _; isplitr
  rotate_left
  · iexact HO
  · ipureintro; intro p hp
    simp only [Finset.mem_insert] at hp
    rcases hp with rfl | rfl | rfl | rfl | rfl | rfl | hp <;> first | exact .inr rfl | exact .inl hp

end Cert.Proof.KB.Tile6

end
-- ==== Proof.KBTile7.lean ====
/-
  Tile 7 of the kernel (subcore 3 of core 1): one slice in (pose11.1), 3 out; one slice in (vis15), 1 out.
  Its whole body is run: every copy it does not own is skipped by the comparison of its number with the copy's owner;
  each incoming copy fills a staging buffer, each outgoing copy carries that buffer into one slice of the output array,
  and what each output slice then holds is the source slice the specification asks for there.
-/
import proofs.«210185_g18468359372994_cont_8to1_1390_15_alg».proof.Proof.KBRead

set_option maxHeartbeats 4000000
set_option quotPrecheck false

noncomputable section

namespace Cert.Proof.KB.Tile7

open Cert.Kernel Cert.Kernel.Gen
open Cert.Proof.KB
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
theorem cLt : 1 < grid0.bound 0 := by decide
theorem sLt : 3 < grid0.bound 1 := by decide
local notation "LL" => (coordsV (⟨1, cLt⟩ : Fin (grid0.bound 0)) (⟨3, sLt⟩ : Fin (grid0.bound 1)))
local notation "TH" d => V d (cV LL) (jV LL)
local notation "SRC0" => (((Memref.whole main_v2_scv).slice (Rect.unit (s := S17x128x2x128) ![11, 0, 1, 0] S1x128x1x128.size inb_S17x128x2x128_S1x128x1x128_11_0_1_0) (fun _ => rfl)).squeeze S128x128 squeezes_S1x128x1x128_S128x128 : Memref sig .scVector .hbm S128x128 .f32)
local notation "OUT0_0" => (((Memref.whole main_v10_scv).slice (Rect.unit (s := S9x2x128x8x128) ![4, 0, 0, 4, 0] S1x1x128x1x128.size inb_S9x2x128x8x128_S1x1x128x1x128_4_0_0_4_0) (fun _ => rfl)).squeeze S128x128 squeezes_S1x1x128x1x128_S128x128 : Memref sig .scVector .hbm S128x128 .f32)
local notation "OUT0_1" => (((Memref.whole main_v10_scv).slice (Rect.unit (s := S9x2x128x8x128) ![4, 1, 0, 1, 0] S1x1x128x1x128.size inb_S9x2x128x8x128_S1x1x128x1x128_4_1_0_1_0) (fun _ => rfl)).squeeze S128x128 squeezes_S1x1x128x1x128_S128x128 : Memref sig .scVector .hbm S128x128 .f32)
local notation "OUT0_2" => (((Memref.whole main_v10_scv).slice (Rect.unit (s := S9x2x128x8x128) ![6, 1, 0, 2, 0] S1x1x128x1x128.size inb_S9x2x128x8x128_S1x1x128x1x128_6_1_0_2_0) (fun _ => rfl)).squeeze S128x128 squeezes_S1x1x128x1x128_S128x128 : Memref sig .scVector .hbm S128x128 .f32)
local notation "SRC1" => (((Memref.whole main_v7_scv).slice (Rect.unit (s := S17x128x128) ![15, 0, 0] S1x128x128.size inb_S17x128x128_S1x128x128_15_0_0) (fun _ => rfl)).squeeze S128x128 squeezes_S1x128x128_S128x128 : Memref sig .scVector .hbm S128x128 .f32)
local notation "OUT1_0" => (((Memref.whole main_v10_scv).slice (Rect.unit (s := S9x2x128x8x128) ![8, 0, 0, 5, 0] S1x1x128x1x128.size inb_S9x2x128x8x128_S1x1x128x1x128_8_0_0_5_0) (fun _ => rfl)).squeeze S128x128 squeezes_S1x1x128x1x128_S128x128 : Memref sig .scVector .hbm S128x128 .f32)

/-! ## The tile's slices, as its memrefs name them -/

theorem open2 (m : (ℓ : Loc nD τ sig) → Buf (Elt F) ℓ) (d : Dev nD) :
    (bigSep (t2 (7 : Fin 32)) (A2 m d) : sProp 𝕄) = iprop(((SRC0).view.loc (TH d) ↦[(SRC0).view.set]{fullShare} V2c m d)) := by
  show bigSep ({((11 : Fin 17), (1 : Fin 2))} : Finset (Fin 17 × Fin 2)) (A2 m d) = _
  rw [bigSep_singleton]
  exact (pts_v2 d (cV LL) (jV LL) (11 : Fin 17) (1 : Fin 2) _ (V2c m d)).symm
theorem open7 (m : (ℓ : Loc nD τ sig) → Buf (Elt F) ℓ) (d : Dev nD) :
    (bigSep (t7 (7 : Fin 32)) (A7 m d) : sProp 𝕄) = iprop(((SRC1).view.loc (TH d) ↦[(SRC1).view.set]{fullShare} V7c m d)) := by
  show bigSep ({(15 : Fin 17)} : Finset (Fin 17)) (A7 m d) = _
  rw [bigSep_singleton]
  exact (pts_v7 d (cV LL) (jV LL) (15 : Fin 17) _ (V7c m d)).symm
theorem open10 (m : (ℓ : Loc nD τ sig) → Buf (Elt F) ℓ) (d : Dev nD) :
    (bigSep (t10 (7 : Fin 32)) (B0 m d) : sProp 𝕄) = iprop(((OUT0_0).view.loc (TH d) ↦[(OUT0_0).view.set]{fullShare} m (v10L d)) ∗ ((OUT0_1).view.loc (TH d) ↦[(OUT0_1).view.set]{fullShare} m (v10L d)) ∗ ((OUT0_2).view.loc (TH d) ↦[(OUT0_2).view.set]{fullShare} m (v10L d)) ∗ ((OUT1_0).view.loc (TH d) ↦[(OUT1_0).view.set]{fullShare} m (v10L d))) := by
  show bigSep ({((4 : Fin 9), (0 : Fin 2), (4 : Fin 8)), ((4 : Fin 9), (1 : Fin 2), (1 : Fin 8)), ((6 : Fin 9), (1 : Fin 2), (2 : Fin 8)), ((8 : Fin 9), (0 : Fin 2), (5 : Fin 8))} : Finset (Fin 9 × Fin 2 × Fin 8)) (B0 m d) = _
  rw [SparseCore.bigSep_insert' (by decide), SparseCore.bigSep_insert' (by decide), SparseCore.bigSep_insert' (by decide), bigSep_singleton]
  exact (congrArg₂ (fun a b : sProp 𝕄 => iprop(a ∗ b)) (pts_v10 d (cV LL) (jV LL) (4 : Fin 9) (0 : Fin 2) (4 : Fin 8) _ (m (v10L d))).symm (congrArg₂ (fun a b : sProp 𝕄 => iprop(a ∗ b)) (pts_v10 d (cV LL) (jV LL) (4 : Fin 9) (1 : Fin 2) (1 : Fin 8) _ (m (v10L d))).symm (congrArg₂ (fun a b : sProp 𝕄 => iprop(a ∗ b)) (pts_v10 d (cV LL) (jV LL) (6 : Fin 9) (1 : Fin 2) (2 : Fin 8) _ (m (v10L d))).symm (pts_v10 d (cV LL) (jV LL) (8 : Fin 9) (0 : Fin 2) (5 : Fin 8) _ (m (v10L d))).symm)))
theorem close10 (m : (ℓ : Loc nD τ sig) → Buf (Elt F) ℓ) (d : Dev nD) :
    (bigSep (t10 (7 : Fin 32)) (B1 m d) : sProp 𝕄) = iprop(((OUT0_0).view.loc (TH d) ↦[(OUT0_0).view.set]{fullShare} OUTc m d) ∗ ((OUT0_1).view.loc (TH d) ↦[(OUT0_1).view.set]{fullShare} OUTc m d) ∗ ((OUT0_2).view.loc (TH d) ↦[(OUT0_2).view.set]{fullShare} OUTc m d) ∗ ((OUT1_0).view.loc (TH d) ↦[(OUT1_0).view.set]{fullShare} OUTc m d)) := by
  show bigSep ({((4 : Fin 9), (0 : Fin 2), (4 : Fin 8)), ((4 : Fin 9), (1 : Fin 2), (1 : Fin 8)), ((6 : Fin 9), (1 : Fin 2), (2 : Fin 8)), ((8 : Fin 9), (0 : Fin 2), (5 : Fin 8))} : Finset (Fin 9 × Fin 2 × Fin 8)) (B1 m d) = _
  rw [SparseCore.bigSep_insert' (by decide), SparseCore.bigSep_insert' (by decide), SparseCore.bigSep_insert' (by decide), bigSep_singleton]
  exact (congrArg₂ (fun a b : sProp 𝕄 => iprop(a ∗ b)) (pts_v10 d (cV LL) (jV LL) (4 : Fin 9) (0 : Fin 2) (4 : Fin 8) _ (OUTc m d)).symm (congrArg₂ (fun a b : sProp 𝕄 => iprop(a ∗ b)) (pts_v10 d (cV LL) (jV LL) (4 : Fin 9) (1 : Fin 2) (1 : Fin 8) _ (OUTc m d)).symm (congrArg₂ (fun a b : sProp 𝕄 => iprop(a ∗ b)) (pts_v10 d (cV LL) (jV LL) (6 : Fin 9) (1 : Fin 2) (2 : Fin 8) _ (OUTc m d)).symm (pts_v10 d (cV LL) (jV LL) (8 : Fin 9) (0 : Fin 2) (5 : Fin 8) _ (OUTc m d)).symm)))

/-! ## What each output slice has to hold is what its source slice holds -/

theorem val0_0 (m : (ℓ : Loc nD τ sig) → Buf (Elt F) ℓ) (d : Dev nD) :
    (SRC0).view.read (Elt F) (V2c m d) = (OUT0_0).view.read (Elt F) (OUTc m d) := by
  funext y
  obtain ⟨t, q, rfl⟩ : ∃ (t q : Fin 128), y = ix2 t q := ⟨y 0, y 1, eq_ix2 y⟩
  refine (read_v2 (11 : Fin 17) (1 : Fin 2) _ _ t q).trans ((?_ : _ = _).trans (read_v10 (4 : Fin 9) (0 : Fin 2) (4 : Fin 8) _ _ t q).symm)
  unfold V2c OUTc
  rw [Cert.Layout.poseV_apply]
  refine Eq.trans ?_ (outV_at _ _ _ _ _ _ _ t _ q (show 8 * 0 + 4 < 14 by decide)).symm
  rfl
theorem val0_1 (m : (ℓ : Loc nD τ sig) → Buf (Elt F) ℓ) (d : Dev nD) :
    (SRC0).view.read (Elt F) (V2c m d) = (OUT0_1).view.read (Elt F) (OUTc m d) := by
  funext y
  obtain ⟨t, q, rfl⟩ : ∃ (t q : Fin 128), y = ix2 t q := ⟨y 0, y 1, eq_ix2 y⟩
  refine (read_v2 (11 : Fin 17) (1 : Fin 2) _ _ t q).trans ((?_ : _ = _).trans (read_v10 (4 : Fin 9) (1 : Fin 2) (1 : Fin 8) _ _ t q).symm)
  unfold V2c OUTc
  rw [Cert.Layout.poseV_apply]
  refine Eq.trans ?_ (outV_at _ _ _ _ _ _ _ t _ q (show 8 * 1 + 1 < 14 by decide)).symm
  rfl
theorem val0_2 (m : (ℓ : Loc nD τ sig) → Buf (Elt F) ℓ) (d : Dev nD) :
    (SRC0).view.read (Elt F) (V2c m d) = (OUT0_2).view.read (Elt F) (OUTc m d) := by
  funext y
  obtain ⟨t, q, rfl⟩ : ∃ (t q : Fin 128), y = ix2 t q := ⟨y 0, y 1, eq_ix2 y⟩
  refine (read_v2 (11 : Fin 17) (1 : Fin 2) _ _ t q).trans ((?_ : _ = _).trans (read_v10 (6 : Fin 9) (1 : Fin 2) (2 : Fin 8) _ _ t q).symm)
  unfold V2c OUTc
  rw [Cert.Layout.poseV_apply]
  refine Eq.trans ?_ (outV_at _ _ _ _ _ _ _ t _ q (show 8 * 1 + 2 < 14 by decide)).symm
  rfl
theorem val1_0 (m : (ℓ : Loc nD τ sig) → Buf (Elt F) ℓ) (d : Dev nD) :
    (SRC1).view.read (Elt F) (V7c m d) = (OUT1_0).view.read (Elt F) (OUTc m d) := by
  funext y
  obtain ⟨t, q, rfl⟩ : ∃ (t q : Fin 128), y = ix2 t q := ⟨y 0, y 1, eq_ix2 y⟩
  refine (read_v7 (15 : Fin 17) _ _ t q).trans ((?_ : _ = _).trans (read_v10 (8 : Fin 9) (0 : Fin 2) (5 : Fin 8) _ _ t q).symm)
  unfold V7c OUTc
  rw [Cert.Layout.visV_apply]
  refine Eq.trans ?_ (outV_at _ _ _ _ _ _ _ t _ q (show 8 * 0 + 5 < 14 by decide)).symm
  rfl

/-! ## The run -/

open Lean Elab Tactic Meta in
/-- Unfold the names the symbolic run gave to the values its copies carry. -/
elab "unfold_carried" : tactic => do
  for _ in [0:6] do
    let g ← getMainGoal
    let t ← instantiateMVars (← g.getType)
    if (t.getUsedConstants.any fun n => n.components.any (· == `sl)) then
      let t' ← deltaExpand t (fun n => n.components.any (· == `sl))
      let g' ← g.change t' (checkDefEq := false)
      replaceMainGoal [g']

variable [FloatOps F] [∀ e, Nonempty (Elt F e)]

theorem run (m : (ℓ : Loc nD τ sig) → Buf (Elt F) ℓ) (d : Dev nD) (O : CellTallies nD τ sig (HIx 1)) (W : Waits sig (HIx 1)) (hO : ∀ g, O g none = 0) :
    (iprop(levAts (K (F := F)).L (K (F := F)).lev ∗ tileG m d (7 : Fin 32)
        ∗ scopedBufs (TH d) ∗ scopedSems0 (TH d) ∗ owes (TH d) O W) : sProp 𝕄)
      ⊢ wp frame (wpE (defs₀ (F := F)) 𝒱₀ (TH d) none) Set.univ
          (cc0_run LL (Memref.whole main_v2_scv) (Memref.isWhole_whole _) (Memref.whole main_v7_scv) (Memref.isWhole_whole _) (Memref.whole main_v5_scv) (Memref.isWhole_whole _) (Memref.whole main_v9_scv) (Memref.isWhole_whole _) (Memref.whole main_v10_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8)
          fun _ => iprop(tileT m d (7 : Fin 32) ∗ scopedBufs (TH d) ∗ scopedSems0 (TH d)
            ∗ ∃ W', ⌜∀ p ∈ W', p ∈ W ∨ p.2 = none⌝ ∗ owes (TH d) O W') := by
  rw [(K (F := F)).scopedBufs_V facts d (cV LL) (jV LL), SparseCore.Cfg.scopedSems0_V (Val := Elt F) d (cV LL) (jV LL), ownSems0_V, ownBufs_V]
  unfold tileG tileT
  iintro ⟨#Hlv, ⟨HF2, HF7, -, -, HF10⟩, ⟨⟨%fb0, Hb0⟩, ⟨%fb1, Hb1⟩, ⟨%fb2, Hb2⟩, Hbufs⟩, ⟨Hs3, Hs4, Hs5, Hs6, Hs7, Hs8, Hsems⟩, HO⟩
  ihave HF2' := (Entails.of_eq (open2 m d)) $$ HF2
  icases HF2' with HS0
  ihave HF7' := (Entails.of_eq (open7 m d)) $$ HF7
  icases HF7' with HS1
  ihave HF10' := (Entails.of_eq (open10 m d)) $$ HF10
  icases HF10' with ⟨HO0_0, HO0_1, HO0_2, HO1_0⟩
  ihave Hmw := ((K (F := F)).mayWaits_none (thr := TH d) hO) $$ Hlv
  ihave Hb0' := (Entails.of_eq (pts_b0 d (cV LL) (jV LL) _).symm) $$ Hb0
  ihave Hb1' := (Entails.of_eq (pts_b1 d (cV LL) (jV LL) _).symm) $$ Hb1
  ihave Hb2' := (Entails.of_eq (pts_b2 d (cV LL) (jV LL) _).symm) $$ Hb2
  have _plan : Transfers.BatchOf (TH d) (SemLoc.dma (sig := sig) cc0_scratch6.sem) 3 (windows := true) := trivial
  sl_unfold [cc0_run]
  sl_exec_parts (disch := decide)
  sl_step
  isplitl [HS0 HS1 HO0_0 HO0_1 HO0_2 HO1_0]
  · skip
    isplitl [HS0]
    · iapply (Entails.of_eq (open2 m d).symm)
      iexact HS0
    isplitl [HS1]
    · iapply (Entails.of_eq (open7 m d).symm)
      iexact HS1
    isplitr
    · rw [show t5 (7 : Fin 32) = ∅ from rfl, bigSep_empty]; iempintro
    isplitr
    · rw [show t9 (7 : Fin 32) = ∅ from rfl, bigSep_empty]; iempintro
    · iapply (Entails.of_eq (close10 m d).symm)
      isplitl [HO0_0]
      · iapply (out_post_ent (TH d) (OUT0_0) _ (OUTc m d) _ ?hv0_0) $$ HO0_0
        case hv0_0 => unfold_carried; simp only [ReadAs.apply_same, View.read_write_univ]; exact val0_0 m d
      isplitl [HO0_1]
      · iapply (out_post_ent (TH d) (OUT0_1) _ (OUTc m d) _ ?hv0_1) $$ HO0_1
        case hv0_1 => unfold_carried; simp only [ReadAs.apply_same, View.read_write_univ]; exact val0_1 m d
      isplitl [HO0_2]
      · iapply (out_post_ent (TH d) (OUT0_2) _ (OUTc m d) _ ?hv0_2) $$ HO0_2
        case hv0_2 => unfold_carried; simp only [ReadAs.apply_same, View.read_write_univ]; exact val0_2 m d
      iapply (out_post_ent (TH d) (OUT1_0) _ (OUTc m d) _ ?hv1_0) $$ HO1_0
      case hv1_0 => unfold_carried; simp only [ReadAs.apply_same, View.read_write_univ]; exact val1_0 m d

  isplitl [Hb0' Hb1' Hb2' Hbufs]
  · isplitl [Hb0']
    · iexists _; iapply (Entails.of_eq (pts_b0 d (cV LL) (jV LL) _)); iexact Hb0'
    isplitl [Hb1']
    · iexists _; iapply (Entails.of_eq (pts_b1 d (cV LL) (jV LL) _)); iexact Hb1'
    isplitl [Hb2']
    · iexists _; iapply (Entails.of_eq (pts_b2 d (cV LL) (jV LL) _)); iexact Hb2'
    iexact Hbufs
  isplitl [Hs3 Hs4 Hs5 Hs6 Hs7 Hs8 Hsems]
  · isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    iexact Hsems
  iexists _; isplitr
  rotate_left
  · iexact HO
  · ipureintro; intro p hp
    simp only [Finset.mem_insert] at hp
    rcases hp with rfl | rfl | rfl | rfl | rfl | rfl | hp <;> first | exact .inr rfl | exact .inl hp

end Cert.Proof.KB.Tile7

end
-- ==== Proof.KBTile8.lean ====
/-
  Tile 8 of the kernel (subcore 4 of core 0): one slice in (vis11), 3 out; one slice in (delta6.0), 1 out.
  Its whole body is run: every copy it does not own is skipped by the comparison of its number with the copy's owner;
  each incoming copy fills a staging buffer, each outgoing copy carries that buffer into one slice of the output array,
  and what each output slice then holds is the source slice the specification asks for there.
-/
import proofs.«210185_g18468359372994_cont_8to1_1390_15_alg».proof.Proof.KBRead

set_option maxHeartbeats 4000000
set_option quotPrecheck false

noncomputable section

namespace Cert.Proof.KB.Tile8

open Cert.Kernel Cert.Kernel.Gen
open Cert.Proof.KB
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
theorem cLt : 0 < grid0.bound 0 := by decide
theorem sLt : 4 < grid0.bound 1 := by decide
local notation "LL" => (coordsV (⟨0, cLt⟩ : Fin (grid0.bound 0)) (⟨4, sLt⟩ : Fin (grid0.bound 1)))
local notation "TH" d => V d (cV LL) (jV LL)
local notation "SRC0" => (((Memref.whole main_v7_scv).slice (Rect.unit (s := S17x128x128) ![11, 0, 0] S1x128x128.size inb_S17x128x128_S1x128x128_11_0_0) (fun _ => rfl)).squeeze S128x128 squeezes_S1x128x128_S128x128 : Memref sig .scVector .hbm S128x128 .f32)
local notation "OUT0_0" => (((Memref.whole main_v10_scv).slice (Rect.unit (s := S9x2x128x8x128) ![7, 0, 0, 4, 0] S1x1x128x1x128.size inb_S9x2x128x8x128_S1x1x128x1x128_7_0_0_4_0) (fun _ => rfl)).squeeze S128x128 squeezes_S1x1x128x1x128_S128x128 : Memref sig .scVector .hbm S128x128 .f32)
local notation "OUT0_1" => (((Memref.whole main_v10_scv).slice (Rect.unit (s := S9x2x128x8x128) ![7, 1, 0, 1, 0] S1x1x128x1x128.size inb_S9x2x128x8x128_S1x1x128x1x128_7_1_0_1_0) (fun _ => rfl)).squeeze S128x128 squeezes_S1x1x128x1x128_S128x128 : Memref sig .scVector .hbm S128x128 .f32)
local notation "OUT0_2" => (((Memref.whole main_v10_scv).slice (Rect.unit (s := S9x2x128x8x128) ![8, 1, 0, 2, 0] S1x1x128x1x128.size inb_S9x2x128x8x128_S1x1x128x1x128_8_1_0_2_0) (fun _ => rfl)).squeeze S128x128 squeezes_S1x1x128x1x128_S128x128 : Memref sig .scVector .hbm S128x128 .f32)
local notation "SRC1" => (((Memref.whole main_v5_scv).slice (Rect.unit (s := S14x128x2x128) ![6, 0, 0, 0] S1x128x1x128.size inb_S14x128x2x128_S1x128x1x128_6_0_0_0) (fun _ => rfl)).squeeze S128x128 squeezes_S1x128x1x128_S128x128 : Memref sig .scVector .hbm S128x128 .f32)
local notation "OUT1_0" => (((Memref.whole main_v10_scv).slice (Rect.unit (s := S9x2x128x8x128) ![0, 0, 0, 6, 0] S1x1x128x1x128.size inb_S9x2x128x8x128_S1x1x128x1x128_0_0_0_6_0) (fun _ => rfl)).squeeze S128x128 squeezes_S1x1x128x1x128_S128x128 : Memref sig .scVector .hbm S128x128 .f32)

/-! ## The tile's slices, as its memrefs name them -/

theorem open7 (m : (ℓ : Loc nD τ sig) → Buf (Elt F) ℓ) (d : Dev nD) :
    (bigSep (t7 (8 : Fin 32)) (A7 m d) : sProp 𝕄) = iprop(((SRC0).view.loc (TH d) ↦[(SRC0).view.set]{fullShare} V7c m d)) := by
  show bigSep ({(11 : Fin 17)} : Finset (Fin 17)) (A7 m d) = _
  rw [bigSep_singleton]
  exact (pts_v7 d (cV LL) (jV LL) (11 : Fin 17) _ (V7c m d)).symm
theorem open5 (m : (ℓ : Loc nD τ sig) → Buf (Elt F) ℓ) (d : Dev nD) :
    (bigSep (t5 (8 : Fin 32)) (A5 m d) : sProp 𝕄) = iprop(((SRC1).view.loc (TH d) ↦[(SRC1).view.set]{fullShare} V5c m d)) := by
  show bigSep ({((6 : Fin 14), (0 : Fin 2))} : Finset (Fin 14 × Fin 2)) (A5 m d) = _
  rw [bigSep_singleton]
  exact (pts_v5 d (cV LL) (jV LL) (6 : Fin 14) (0 : Fin 2) _ (V5c m d)).symm
theorem open10 (m : (ℓ : Loc nD τ sig) → Buf (Elt F) ℓ) (d : Dev nD) :
    (bigSep (t10 (8 : Fin 32)) (B0 m d) : sProp 𝕄) = iprop(((OUT0_0).view.loc (TH d) ↦[(OUT0_0).view.set]{fullShare} m (v10L d)) ∗ ((OUT0_1).view.loc (TH d) ↦[(OUT0_1).view.set]{fullShare} m (v10L d)) ∗ ((OUT0_2).view.loc (TH d) ↦[(OUT0_2).view.set]{fullShare} m (v10L d)) ∗ ((OUT1_0).view.loc (TH d) ↦[(OUT1_0).view.set]{fullShare} m (v10L d))) := by
  show bigSep ({((7 : Fin 9), (0 : Fin 2), (4 : Fin 8)), ((7 : Fin 9), (1 : Fin 2), (1 : Fin 8)), ((8 : Fin 9), (1 : Fin 2), (2 : Fin 8)), ((0 : Fin 9), (0 : Fin 2), (6 : Fin 8))} : Finset (Fin 9 × Fin 2 × Fin 8)) (B0 m d) = _
  rw [SparseCore.bigSep_insert' (by decide), SparseCore.bigSep_insert' (by decide), SparseCore.bigSep_insert' (by decide), bigSep_singleton]
  exact (congrArg₂ (fun a b : sProp 𝕄 => iprop(a ∗ b)) (pts_v10 d (cV LL) (jV LL) (7 : Fin 9) (0 : Fin 2) (4 : Fin 8) _ (m (v10L d))).symm (congrArg₂ (fun a b : sProp 𝕄 => iprop(a ∗ b)) (pts_v10 d (cV LL) (jV LL) (7 : Fin 9) (1 : Fin 2) (1 : Fin 8) _ (m (v10L d))).symm (congrArg₂ (fun a b : sProp 𝕄 => iprop(a ∗ b)) (pts_v10 d (cV LL) (jV LL) (8 : Fin 9) (1 : Fin 2) (2 : Fin 8) _ (m (v10L d))).symm (pts_v10 d (cV LL) (jV LL) (0 : Fin 9) (0 : Fin 2) (6 : Fin 8) _ (m (v10L d))).symm)))
theorem close10 (m : (ℓ : Loc nD τ sig) → Buf (Elt F) ℓ) (d : Dev nD) :
    (bigSep (t10 (8 : Fin 32)) (B1 m d) : sProp 𝕄) = iprop(((OUT0_0).view.loc (TH d) ↦[(OUT0_0).view.set]{fullShare} OUTc m d) ∗ ((OUT0_1).view.loc (TH d) ↦[(OUT0_1).view.set]{fullShare} OUTc m d) ∗ ((OUT0_2).view.loc (TH d) ↦[(OUT0_2).view.set]{fullShare} OUTc m d) ∗ ((OUT1_0).view.loc (TH d) ↦[(OUT1_0).view.set]{fullShare} OUTc m d)) := by
  show bigSep ({((7 : Fin 9), (0 : Fin 2), (4 : Fin 8)), ((7 : Fin 9), (1 : Fin 2), (1 : Fin 8)), ((8 : Fin 9), (1 : Fin 2), (2 : Fin 8)), ((0 : Fin 9), (0 : Fin 2), (6 : Fin 8))} : Finset (Fin 9 × Fin 2 × Fin 8)) (B1 m d) = _
  rw [SparseCore.bigSep_insert' (by decide), SparseCore.bigSep_insert' (by decide), SparseCore.bigSep_insert' (by decide), bigSep_singleton]
  exact (congrArg₂ (fun a b : sProp 𝕄 => iprop(a ∗ b)) (pts_v10 d (cV LL) (jV LL) (7 : Fin 9) (0 : Fin 2) (4 : Fin 8) _ (OUTc m d)).symm (congrArg₂ (fun a b : sProp 𝕄 => iprop(a ∗ b)) (pts_v10 d (cV LL) (jV LL) (7 : Fin 9) (1 : Fin 2) (1 : Fin 8) _ (OUTc m d)).symm (congrArg₂ (fun a b : sProp 𝕄 => iprop(a ∗ b)) (pts_v10 d (cV LL) (jV LL) (8 : Fin 9) (1 : Fin 2) (2 : Fin 8) _ (OUTc m d)).symm (pts_v10 d (cV LL) (jV LL) (0 : Fin 9) (0 : Fin 2) (6 : Fin 8) _ (OUTc m d)).symm)))

/-! ## What each output slice has to hold is what its source slice holds -/

theorem val0_0 (m : (ℓ : Loc nD τ sig) → Buf (Elt F) ℓ) (d : Dev nD) :
    (SRC0).view.read (Elt F) (V7c m d) = (OUT0_0).view.read (Elt F) (OUTc m d) := by
  funext y
  obtain ⟨t, q, rfl⟩ : ∃ (t q : Fin 128), y = ix2 t q := ⟨y 0, y 1, eq_ix2 y⟩
  refine (read_v7 (11 : Fin 17) _ _ t q).trans ((?_ : _ = _).trans (read_v10 (7 : Fin 9) (0 : Fin 2) (4 : Fin 8) _ _ t q).symm)
  unfold V7c OUTc
  rw [Cert.Layout.visV_apply]
  refine Eq.trans ?_ (outV_at _ _ _ _ _ _ _ t _ q (show 8 * 0 + 4 < 14 by decide)).symm
  rfl
theorem val0_1 (m : (ℓ : Loc nD τ sig) → Buf (Elt F) ℓ) (d : Dev nD) :
    (SRC0).view.read (Elt F) (V7c m d) = (OUT0_1).view.read (Elt F) (OUTc m d) := by
  funext y
  obtain ⟨t, q, rfl⟩ : ∃ (t q : Fin 128), y = ix2 t q := ⟨y 0, y 1, eq_ix2 y⟩
  refine (read_v7 (11 : Fin 17) _ _ t q).trans ((?_ : _ = _).trans (read_v10 (7 : Fin 9) (1 : Fin 2) (1 : Fin 8) _ _ t q).symm)
  unfold V7c OUTc
  rw [Cert.Layout.visV_apply]
  refine Eq.trans ?_ (outV_at _ _ _ _ _ _ _ t _ q (show 8 * 1 + 1 < 14 by decide)).symm
  rfl
theorem val0_2 (m : (ℓ : Loc nD τ sig) → Buf (Elt F) ℓ) (d : Dev nD) :
    (SRC0).view.read (Elt F) (V7c m d) = (OUT0_2).view.read (Elt F) (OUTc m d) := by
  funext y
  obtain ⟨t, q, rfl⟩ : ∃ (t q : Fin 128), y = ix2 t q := ⟨y 0, y 1, eq_ix2 y⟩
  refine (read_v7 (11 : Fin 17) _ _ t q).trans ((?_ : _ = _).trans (read_v10 (8 : Fin 9) (1 : Fin 2) (2 : Fin 8) _ _ t q).symm)
  unfold V7c OUTc
  rw [Cert.Layout.visV_apply]
  refine Eq.trans ?_ (outV_at _ _ _ _ _ _ _ t _ q (show 8 * 1 + 2 < 14 by decide)).symm
  rfl
theorem val1_0 (m : (ℓ : Loc nD τ sig) → Buf (Elt F) ℓ) (d : Dev nD) :
    (SRC1).view.read (Elt F) (V5c m d) = (OUT1_0).view.read (Elt F) (OUTc m d) := by
  funext y
  obtain ⟨t, q, rfl⟩ : ∃ (t q : Fin 128), y = ix2 t q := ⟨y 0, y 1, eq_ix2 y⟩
  refine (read_v5 (6 : Fin 14) (0 : Fin 2) _ _ t q).trans ((?_ : _ = _).trans (read_v10 (0 : Fin 9) (0 : Fin 2) (6 : Fin 8) _ _ t q).symm)
  unfold V5c OUTc
  rw [Cert.Layout.deltaV_apply]
  refine Eq.trans ?_ (outV_at _ _ _ _ _ _ _ t _ q (show 8 * 0 + 6 < 14 by decide)).symm
  rfl

/-! ## The run -/

open Lean Elab Tactic Meta in
/-- Unfold the names the symbolic run gave to the values its copies carry. -/
elab "unfold_carried" : tactic => do
  for _ in [0:6] do
    let g ← getMainGoal
    let t ← instantiateMVars (← g.getType)
    if (t.getUsedConstants.any fun n => n.components.any (· == `sl)) then
      let t' ← deltaExpand t (fun n => n.components.any (· == `sl))
      let g' ← g.change t' (checkDefEq := false)
      replaceMainGoal [g']

variable [FloatOps F] [∀ e, Nonempty (Elt F e)]

theorem run (m : (ℓ : Loc nD τ sig) → Buf (Elt F) ℓ) (d : Dev nD) (O : CellTallies nD τ sig (HIx 1)) (W : Waits sig (HIx 1)) (hO : ∀ g, O g none = 0) :
    (iprop(levAts (K (F := F)).L (K (F := F)).lev ∗ tileG m d (8 : Fin 32)
        ∗ scopedBufs (TH d) ∗ scopedSems0 (TH d) ∗ owes (TH d) O W) : sProp 𝕄)
      ⊢ wp frame (wpE (defs₀ (F := F)) 𝒱₀ (TH d) none) Set.univ
          (cc0_run LL (Memref.whole main_v2_scv) (Memref.isWhole_whole _) (Memref.whole main_v7_scv) (Memref.isWhole_whole _) (Memref.whole main_v5_scv) (Memref.isWhole_whole _) (Memref.whole main_v9_scv) (Memref.isWhole_whole _) (Memref.whole main_v10_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8)
          fun _ => iprop(tileT m d (8 : Fin 32) ∗ scopedBufs (TH d) ∗ scopedSems0 (TH d)
            ∗ ∃ W', ⌜∀ p ∈ W', p ∈ W ∨ p.2 = none⌝ ∗ owes (TH d) O W') := by
  rw [(K (F := F)).scopedBufs_V facts d (cV LL) (jV LL), SparseCore.Cfg.scopedSems0_V (Val := Elt F) d (cV LL) (jV LL), ownSems0_V, ownBufs_V]
  unfold tileG tileT
  iintro ⟨#Hlv, ⟨-, HF7, HF5, -, HF10⟩, ⟨⟨%fb0, Hb0⟩, ⟨%fb1, Hb1⟩, ⟨%fb2, Hb2⟩, Hbufs⟩, ⟨Hs3, Hs4, Hs5, Hs6, Hs7, Hs8, Hsems⟩, HO⟩
  ihave HF7' := (Entails.of_eq (open7 m d)) $$ HF7
  icases HF7' with HS0
  ihave HF5' := (Entails.of_eq (open5 m d)) $$ HF5
  icases HF5' with HS1
  ihave HF10' := (Entails.of_eq (open10 m d)) $$ HF10
  icases HF10' with ⟨HO0_0, HO0_1, HO0_2, HO1_0⟩
  ihave Hmw := ((K (F := F)).mayWaits_none (thr := TH d) hO) $$ Hlv
  ihave Hb0' := (Entails.of_eq (pts_b0 d (cV LL) (jV LL) _).symm) $$ Hb0
  ihave Hb1' := (Entails.of_eq (pts_b1 d (cV LL) (jV LL) _).symm) $$ Hb1
  ihave Hb2' := (Entails.of_eq (pts_b2 d (cV LL) (jV LL) _).symm) $$ Hb2
  have _plan : Transfers.BatchOf (TH d) (SemLoc.dma (sig := sig) cc0_scratch6.sem) 3 (windows := true) := trivial
  sl_unfold [cc0_run]
  sl_exec_parts (disch := decide)
  sl_step
  isplitl [HS0 HS1 HO0_0 HO0_1 HO0_2 HO1_0]
  · skip
    isplitr
    · rw [show t2 (8 : Fin 32) = ∅ from rfl, bigSep_empty]; iempintro
    isplitl [HS0]
    · iapply (Entails.of_eq (open7 m d).symm)
      iexact HS0
    isplitl [HS1]
    · iapply (Entails.of_eq (open5 m d).symm)
      iexact HS1
    isplitr
    · rw [show t9 (8 : Fin 32) = ∅ from rfl, bigSep_empty]; iempintro
    · iapply (Entails.of_eq (close10 m d).symm)
      isplitl [HO0_0]
      · iapply (out_post_ent (TH d) (OUT0_0) _ (OUTc m d) _ ?hv0_0) $$ HO0_0
        case hv0_0 => unfold_carried; simp only [ReadAs.apply_same, View.read_write_univ]; exact val0_0 m d
      isplitl [HO0_1]
      · iapply (out_post_ent (TH d) (OUT0_1) _ (OUTc m d) _ ?hv0_1) $$ HO0_1
        case hv0_1 => unfold_carried; simp only [ReadAs.apply_same, View.read_write_univ]; exact val0_1 m d
      isplitl [HO0_2]
      · iapply (out_post_ent (TH d) (OUT0_2) _ (OUTc m d) _ ?hv0_2) $$ HO0_2
        case hv0_2 => unfold_carried; simp only [ReadAs.apply_same, View.read_write_univ]; exact val0_2 m d
      iapply (out_post_ent (TH d) (OUT1_0) _ (OUTc m d) _ ?hv1_0) $$ HO1_0
      case hv1_0 => unfold_carried; simp only [ReadAs.apply_same, View.read_write_univ]; exact val1_0 m d

  isplitl [Hb0' Hb1' Hb2' Hbufs]
  · isplitl [Hb0']
    · iexists _; iapply (Entails.of_eq (pts_b0 d (cV LL) (jV LL) _)); iexact Hb0'
    isplitl [Hb1']
    · iexists _; iapply (Entails.of_eq (pts_b1 d (cV LL) (jV LL) _)); iexact Hb1'
    isplitl [Hb2']
    · iexists _; iapply (Entails.of_eq (pts_b2 d (cV LL) (jV LL) _)); iexact Hb2'
    iexact Hbufs
  isplitl [Hs3 Hs4 Hs5 Hs6 Hs7 Hs8 Hsems]
  · isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    iexact Hsems
  iexists _; isplitr
  rotate_left
  · iexact HO
  · ipureintro; intro p hp
    simp only [Finset.mem_insert] at hp
    rcases hp with rfl | rfl | rfl | rfl | rfl | rfl | hp <;> first | exact .inr rfl | exact .inl hp

end Cert.Proof.KB.Tile8

end
-- ==== Proof.KBTile9.lean ====
/-
  Tile 9 of the kernel (subcore 4 of core 1): one slice in (pose12.0), 3 out; one slice in (delta6.1), 1 out.
  Its whole body is run: every copy it does not own is skipped by the comparison of its number with the copy's owner;
  each incoming copy fills a staging buffer, each outgoing copy carries that buffer into one slice of the output array,
  and what each output slice then holds is the source slice the specification asks for there.
-/
import proofs.«210185_g18468359372994_cont_8to1_1390_15_alg».proof.Proof.KBRead

set_option maxHeartbeats 4000000
set_option quotPrecheck false

noncomputable section

namespace Cert.Proof.KB.Tile9

open Cert.Kernel Cert.Kernel.Gen
open Cert.Proof.KB
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
theorem cLt : 1 < grid0.bound 0 := by decide
theorem sLt : 4 < grid0.bound 1 := by decide
local notation "LL" => (coordsV (⟨1, cLt⟩ : Fin (grid0.bound 0)) (⟨4, sLt⟩ : Fin (grid0.bound 1)))
local notation "TH" d => V d (cV LL) (jV LL)
local notation "SRC0" => (((Memref.whole main_v2_scv).slice (Rect.unit (s := S17x128x2x128) ![12, 0, 0, 0] S1x128x1x128.size inb_S17x128x2x128_S1x128x1x128_12_0_0_0) (fun _ => rfl)).squeeze S128x128 squeezes_S1x128x1x128_S128x128 : Memref sig .scVector .hbm S128x128 .f32)
local notation "OUT0_0" => (((Memref.whole main_v10_scv).slice (Rect.unit (s := S9x2x128x8x128) ![3, 0, 0, 6, 0] S1x1x128x1x128.size inb_S9x2x128x8x128_S1x1x128x1x128_3_0_0_6_0) (fun _ => rfl)).squeeze S128x128 squeezes_S1x1x128x1x128_S128x128 : Memref sig .scVector .hbm S128x128 .f32)
local notation "OUT0_1" => (((Memref.whole main_v10_scv).slice (Rect.unit (s := S9x2x128x8x128) ![5, 1, 0, 1, 0] S1x1x128x1x128.size inb_S9x2x128x8x128_S1x1x128x1x128_5_1_0_1_0) (fun _ => rfl)).squeeze S128x128 squeezes_S1x1x128x1x128_S128x128 : Memref sig .scVector .hbm S128x128 .f32)
local notation "OUT0_2" => (((Memref.whole main_v10_scv).slice (Rect.unit (s := S9x2x128x8x128) ![5, 1, 0, 3, 0] S1x1x128x1x128.size inb_S9x2x128x8x128_S1x1x128x1x128_5_1_0_3_0) (fun _ => rfl)).squeeze S128x128 squeezes_S1x1x128x1x128_S128x128 : Memref sig .scVector .hbm S128x128 .f32)
local notation "SRC1" => (((Memref.whole main_v5_scv).slice (Rect.unit (s := S14x128x2x128) ![6, 0, 1, 0] S1x128x1x128.size inb_S14x128x2x128_S1x128x1x128_6_0_1_0) (fun _ => rfl)).squeeze S128x128 squeezes_S1x128x1x128_S128x128 : Memref sig .scVector .hbm S128x128 .f32)
local notation "OUT1_0" => (((Memref.whole main_v10_scv).slice (Rect.unit (s := S9x2x128x8x128) ![1, 0, 0, 6, 0] S1x1x128x1x128.size inb_S9x2x128x8x128_S1x1x128x1x128_1_0_0_6_0) (fun _ => rfl)).squeeze S128x128 squeezes_S1x1x128x1x128_S128x128 : Memref sig .scVector .hbm S128x128 .f32)

/-! ## The tile's slices, as its memrefs name them -/

theorem open2 (m : (ℓ : Loc nD τ sig) → Buf (Elt F) ℓ) (d : Dev nD) :
    (bigSep (t2 (9 : Fin 32)) (A2 m d) : sProp 𝕄) = iprop(((SRC0).view.loc (TH d) ↦[(SRC0).view.set]{fullShare} V2c m d)) := by
  show bigSep ({((12 : Fin 17), (0 : Fin 2))} : Finset (Fin 17 × Fin 2)) (A2 m d) = _
  rw [bigSep_singleton]
  exact (pts_v2 d (cV LL) (jV LL) (12 : Fin 17) (0 : Fin 2) _ (V2c m d)).symm
theorem open5 (m : (ℓ : Loc nD τ sig) → Buf (Elt F) ℓ) (d : Dev nD) :
    (bigSep (t5 (9 : Fin 32)) (A5 m d) : sProp 𝕄) = iprop(((SRC1).view.loc (TH d) ↦[(SRC1).view.set]{fullShare} V5c m d)) := by
  show bigSep ({((6 : Fin 14), (1 : Fin 2))} : Finset (Fin 14 × Fin 2)) (A5 m d) = _
  rw [bigSep_singleton]
  exact (pts_v5 d (cV LL) (jV LL) (6 : Fin 14) (1 : Fin 2) _ (V5c m d)).symm
theorem open10 (m : (ℓ : Loc nD τ sig) → Buf (Elt F) ℓ) (d : Dev nD) :
    (bigSep (t10 (9 : Fin 32)) (B0 m d) : sProp 𝕄) = iprop(((OUT0_0).view.loc (TH d) ↦[(OUT0_0).view.set]{fullShare} m (v10L d)) ∗ ((OUT0_1).view.loc (TH d) ↦[(OUT0_1).view.set]{fullShare} m (v10L d)) ∗ ((OUT0_2).view.loc (TH d) ↦[(OUT0_2).view.set]{fullShare} m (v10L d)) ∗ ((OUT1_0).view.loc (TH d) ↦[(OUT1_0).view.set]{fullShare} m (v10L d))) := by
  show bigSep ({((3 : Fin 9), (0 : Fin 2), (6 : Fin 8)), ((5 : Fin 9), (1 : Fin 2), (1 : Fin 8)), ((5 : Fin 9), (1 : Fin 2), (3 : Fin 8)), ((1 : Fin 9), (0 : Fin 2), (6 : Fin 8))} : Finset (Fin 9 × Fin 2 × Fin 8)) (B0 m d) = _
  rw [SparseCore.bigSep_insert' (by decide), SparseCore.bigSep_insert' (by decide), SparseCore.bigSep_insert' (by decide), bigSep_singleton]
  exact (congrArg₂ (fun a b : sProp 𝕄 => iprop(a ∗ b)) (pts_v10 d (cV LL) (jV LL) (3 : Fin 9) (0 : Fin 2) (6 : Fin 8) _ (m (v10L d))).symm (congrArg₂ (fun a b : sProp 𝕄 => iprop(a ∗ b)) (pts_v10 d (cV LL) (jV LL) (5 : Fin 9) (1 : Fin 2) (1 : Fin 8) _ (m (v10L d))).symm (congrArg₂ (fun a b : sProp 𝕄 => iprop(a ∗ b)) (pts_v10 d (cV LL) (jV LL) (5 : Fin 9) (1 : Fin 2) (3 : Fin 8) _ (m (v10L d))).symm (pts_v10 d (cV LL) (jV LL) (1 : Fin 9) (0 : Fin 2) (6 : Fin 8) _ (m (v10L d))).symm)))
theorem close10 (m : (ℓ : Loc nD τ sig) → Buf (Elt F) ℓ) (d : Dev nD) :
    (bigSep (t10 (9 : Fin 32)) (B1 m d) : sProp 𝕄) = iprop(((OUT0_0).view.loc (TH d) ↦[(OUT0_0).view.set]{fullShare} OUTc m d) ∗ ((OUT0_1).view.loc (TH d) ↦[(OUT0_1).view.set]{fullShare} OUTc m d) ∗ ((OUT0_2).view.loc (TH d) ↦[(OUT0_2).view.set]{fullShare} OUTc m d) ∗ ((OUT1_0).view.loc (TH d) ↦[(OUT1_0).view.set]{fullShare} OUTc m d)) := by
  show bigSep ({((3 : Fin 9), (0 : Fin 2), (6 : Fin 8)), ((5 : Fin 9), (1 : Fin 2), (1 : Fin 8)), ((5 : Fin 9), (1 : Fin 2), (3 : Fin 8)), ((1 : Fin 9), (0 : Fin 2), (6 : Fin 8))} : Finset (Fin 9 × Fin 2 × Fin 8)) (B1 m d) = _
  rw [SparseCore.bigSep_insert' (by decide), SparseCore.bigSep_insert' (by decide), SparseCore.bigSep_insert' (by decide), bigSep_singleton]
  exact (congrArg₂ (fun a b : sProp 𝕄 => iprop(a ∗ b)) (pts_v10 d (cV LL) (jV LL) (3 : Fin 9) (0 : Fin 2) (6 : Fin 8) _ (OUTc m d)).symm (congrArg₂ (fun a b : sProp 𝕄 => iprop(a ∗ b)) (pts_v10 d (cV LL) (jV LL) (5 : Fin 9) (1 : Fin 2) (1 : Fin 8) _ (OUTc m d)).symm (congrArg₂ (fun a b : sProp 𝕄 => iprop(a ∗ b)) (pts_v10 d (cV LL) (jV LL) (5 : Fin 9) (1 : Fin 2) (3 : Fin 8) _ (OUTc m d)).symm (pts_v10 d (cV LL) (jV LL) (1 : Fin 9) (0 : Fin 2) (6 : Fin 8) _ (OUTc m d)).symm)))

/-! ## What each output slice has to hold is what its source slice holds -/

theorem val0_0 (m : (ℓ : Loc nD τ sig) → Buf (Elt F) ℓ) (d : Dev nD) :
    (SRC0).view.read (Elt F) (V2c m d) = (OUT0_0).view.read (Elt F) (OUTc m d) := by
  funext y
  obtain ⟨t, q, rfl⟩ : ∃ (t q : Fin 128), y = ix2 t q := ⟨y 0, y 1, eq_ix2 y⟩
  refine (read_v2 (12 : Fin 17) (0 : Fin 2) _ _ t q).trans ((?_ : _ = _).trans (read_v10 (3 : Fin 9) (0 : Fin 2) (6 : Fin 8) _ _ t q).symm)
  unfold V2c OUTc
  rw [Cert.Layout.poseV_apply]
  refine Eq.trans ?_ (outV_at _ _ _ _ _ _ _ t _ q (show 8 * 0 + 6 < 14 by decide)).symm
  rfl
theorem val0_1 (m : (ℓ : Loc nD τ sig) → Buf (Elt F) ℓ) (d : Dev nD) :
    (SRC0).view.read (Elt F) (V2c m d) = (OUT0_1).view.read (Elt F) (OUTc m d) := by
  funext y
  obtain ⟨t, q, rfl⟩ : ∃ (t q : Fin 128), y = ix2 t q := ⟨y 0, y 1, eq_ix2 y⟩
  refine (read_v2 (12 : Fin 17) (0 : Fin 2) _ _ t q).trans ((?_ : _ = _).trans (read_v10 (5 : Fin 9) (1 : Fin 2) (1 : Fin 8) _ _ t q).symm)
  unfold V2c OUTc
  rw [Cert.Layout.poseV_apply]
  refine Eq.trans ?_ (outV_at _ _ _ _ _ _ _ t _ q (show 8 * 1 + 1 < 14 by decide)).symm
  rfl
theorem val0_2 (m : (ℓ : Loc nD τ sig) → Buf (Elt F) ℓ) (d : Dev nD) :
    (SRC0).view.read (Elt F) (V2c m d) = (OUT0_2).view.read (Elt F) (OUTc m d) := by
  funext y
  obtain ⟨t, q, rfl⟩ : ∃ (t q : Fin 128), y = ix2 t q := ⟨y 0, y 1, eq_ix2 y⟩
  refine (read_v2 (12 : Fin 17) (0 : Fin 2) _ _ t q).trans ((?_ : _ = _).trans (read_v10 (5 : Fin 9) (1 : Fin 2) (3 : Fin 8) _ _ t q).symm)
  unfold V2c OUTc
  rw [Cert.Layout.poseV_apply]
  refine Eq.trans ?_ (outV_at _ _ _ _ _ _ _ t _ q (show 8 * 1 + 3 < 14 by decide)).symm
  rfl
theorem val1_0 (m : (ℓ : Loc nD τ sig) → Buf (Elt F) ℓ) (d : Dev nD) :
    (SRC1).view.read (Elt F) (V5c m d) = (OUT1_0).view.read (Elt F) (OUTc m d) := by
  funext y
  obtain ⟨t, q, rfl⟩ : ∃ (t q : Fin 128), y = ix2 t q := ⟨y 0, y 1, eq_ix2 y⟩
  refine (read_v5 (6 : Fin 14) (1 : Fin 2) _ _ t q).trans ((?_ : _ = _).trans (read_v10 (1 : Fin 9) (0 : Fin 2) (6 : Fin 8) _ _ t q).symm)
  unfold V5c OUTc
  rw [Cert.Layout.deltaV_apply]
  refine Eq.trans ?_ (outV_at _ _ _ _ _ _ _ t _ q (show 8 * 0 + 6 < 14 by decide)).symm
  rfl

/-! ## The run -/

open Lean Elab Tactic Meta in
/-- Unfold the names the symbolic run gave to the values its copies carry. -/
elab "unfold_carried" : tactic => do
  for _ in [0:6] do
    let g ← getMainGoal
    let t ← instantiateMVars (← g.getType)
    if (t.getUsedConstants.any fun n => n.components.any (· == `sl)) then
      let t' ← deltaExpand t (fun n => n.components.any (· == `sl))
      let g' ← g.change t' (checkDefEq := false)
      replaceMainGoal [g']

variable [FloatOps F] [∀ e, Nonempty (Elt F e)]

theorem run (m : (ℓ : Loc nD τ sig) → Buf (Elt F) ℓ) (d : Dev nD) (O : CellTallies nD τ sig (HIx 1)) (W : Waits sig (HIx 1)) (hO : ∀ g, O g none = 0) :
    (iprop(levAts (K (F := F)).L (K (F := F)).lev ∗ tileG m d (9 : Fin 32)
        ∗ scopedBufs (TH d) ∗ scopedSems0 (TH d) ∗ owes (TH d) O W) : sProp 𝕄)
      ⊢ wp frame (wpE (defs₀ (F := F)) 𝒱₀ (TH d) none) Set.univ
          (cc0_run LL (Memref.whole main_v2_scv) (Memref.isWhole_whole _) (Memref.whole main_v7_scv) (Memref.isWhole_whole _) (Memref.whole main_v5_scv) (Memref.isWhole_whole _) (Memref.whole main_v9_scv) (Memref.isWhole_whole _) (Memref.whole main_v10_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8)
          fun _ => iprop(tileT m d (9 : Fin 32) ∗ scopedBufs (TH d) ∗ scopedSems0 (TH d)
            ∗ ∃ W', ⌜∀ p ∈ W', p ∈ W ∨ p.2 = none⌝ ∗ owes (TH d) O W') := by
  rw [(K (F := F)).scopedBufs_V facts d (cV LL) (jV LL), SparseCore.Cfg.scopedSems0_V (Val := Elt F) d (cV LL) (jV LL), ownSems0_V, ownBufs_V]
  unfold tileG tileT
  iintro ⟨#Hlv, ⟨HF2, -, HF5, -, HF10⟩, ⟨⟨%fb0, Hb0⟩, ⟨%fb1, Hb1⟩, ⟨%fb2, Hb2⟩, Hbufs⟩, ⟨Hs3, Hs4, Hs5, Hs6, Hs7, Hs8, Hsems⟩, HO⟩
  ihave HF2' := (Entails.of_eq (open2 m d)) $$ HF2
  icases HF2' with HS0
  ihave HF5' := (Entails.of_eq (open5 m d)) $$ HF5
  icases HF5' with HS1
  ihave HF10' := (Entails.of_eq (open10 m d)) $$ HF10
  icases HF10' with ⟨HO0_0, HO0_1, HO0_2, HO1_0⟩
  ihave Hmw := ((K (F := F)).mayWaits_none (thr := TH d) hO) $$ Hlv
  ihave Hb0' := (Entails.of_eq (pts_b0 d (cV LL) (jV LL) _).symm) $$ Hb0
  ihave Hb1' := (Entails.of_eq (pts_b1 d (cV LL) (jV LL) _).symm) $$ Hb1
  ihave Hb2' := (Entails.of_eq (pts_b2 d (cV LL) (jV LL) _).symm) $$ Hb2
  have _plan : Transfers.BatchOf (TH d) (SemLoc.dma (sig := sig) cc0_scratch6.sem) 3 (windows := true) := trivial
  sl_unfold [cc0_run]
  sl_exec_parts (disch := decide)
  sl_step
  isplitl [HS0 HS1 HO0_0 HO0_1 HO0_2 HO1_0]
  · skip
    isplitl [HS0]
    · iapply (Entails.of_eq (open2 m d).symm)
      iexact HS0
    isplitr
    · rw [show t7 (9 : Fin 32) = ∅ from rfl, bigSep_empty]; iempintro
    isplitl [HS1]
    · iapply (Entails.of_eq (open5 m d).symm)
      iexact HS1
    isplitr
    · rw [show t9 (9 : Fin 32) = ∅ from rfl, bigSep_empty]; iempintro
    · iapply (Entails.of_eq (close10 m d).symm)
      isplitl [HO0_0]
      · iapply (out_post_ent (TH d) (OUT0_0) _ (OUTc m d) _ ?hv0_0) $$ HO0_0
        case hv0_0 => unfold_carried; simp only [ReadAs.apply_same, View.read_write_univ]; exact val0_0 m d
      isplitl [HO0_1]
      · iapply (out_post_ent (TH d) (OUT0_1) _ (OUTc m d) _ ?hv0_1) $$ HO0_1
        case hv0_1 => unfold_carried; simp only [ReadAs.apply_same, View.read_write_univ]; exact val0_1 m d
      isplitl [HO0_2]
      · iapply (out_post_ent (TH d) (OUT0_2) _ (OUTc m d) _ ?hv0_2) $$ HO0_2
        case hv0_2 => unfold_carried; simp only [ReadAs.apply_same, View.read_write_univ]; exact val0_2 m d
      iapply (out_post_ent (TH d) (OUT1_0) _ (OUTc m d) _ ?hv1_0) $$ HO1_0
      case hv1_0 => unfold_carried; simp only [ReadAs.apply_same, View.read_write_univ]; exact val1_0 m d

  isplitl [Hb0' Hb1' Hb2' Hbufs]
  · isplitl [Hb0']
    · iexists _; iapply (Entails.of_eq (pts_b0 d (cV LL) (jV LL) _)); iexact Hb0'
    isplitl [Hb1']
    · iexists _; iapply (Entails.of_eq (pts_b1 d (cV LL) (jV LL) _)); iexact Hb1'
    isplitl [Hb2']
    · iexists _; iapply (Entails.of_eq (pts_b2 d (cV LL) (jV LL) _)); iexact Hb2'
    iexact Hbufs
  isplitl [Hs3 Hs4 Hs5 Hs6 Hs7 Hs8 Hsems]
  · isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    iexact Hsems
  iexists _; isplitr
  rotate_left
  · iexact HO
  · ipureintro; intro p hp
    simp only [Finset.mem_insert] at hp
    rcases hp with rfl | rfl | rfl | rfl | rfl | rfl | hp <;> first | exact .inr rfl | exact .inl hp

end Cert.Proof.KB.Tile9

end
-- ==== Proof.KBTile10.lean ====
/-
  Tile 10 of the kernel (subcore 5 of core 0): one slice in (pose12.1), 3 out; one slice in (len6), 1 out.
  Its whole body is run: every copy it does not own is skipped by the comparison of its number with the copy's owner;
  each incoming copy fills a staging buffer, each outgoing copy carries that buffer into one slice of the output array,
  and what each output slice then holds is the source slice the specification asks for there.
-/
import proofs.«210185_g18468359372994_cont_8to1_1390_15_alg».proof.Proof.KBRead

set_option maxHeartbeats 4000000
set_option quotPrecheck false

noncomputable section

namespace Cert.Proof.KB.Tile10

open Cert.Kernel Cert.Kernel.Gen
open Cert.Proof.KB
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
theorem cLt : 0 < grid0.bound 0 := by decide
theorem sLt : 5 < grid0.bound 1 := by decide
local notation "LL" => (coordsV (⟨0, cLt⟩ : Fin (grid0.bound 0)) (⟨5, sLt⟩ : Fin (grid0.bound 1)))
local notation "TH" d => V d (cV LL) (jV LL)
local notation "SRC0" => (((Memref.whole main_v2_scv).slice (Rect.unit (s := S17x128x2x128) ![12, 0, 1, 0] S1x128x1x128.size inb_S17x128x2x128_S1x128x1x128_12_0_1_0) (fun _ => rfl)).squeeze S128x128 squeezes_S1x128x1x128_S128x128 : Memref sig .scVector .hbm S128x128 .f32)
local notation "OUT0_0" => (((Memref.whole main_v10_scv).slice (Rect.unit (s := S9x2x128x8x128) ![4, 0, 0, 6, 0] S1x1x128x1x128.size inb_S9x2x128x8x128_S1x1x128x1x128_4_0_0_6_0) (fun _ => rfl)).squeeze S128x128 squeezes_S1x1x128x1x128_S128x128 : Memref sig .scVector .hbm S128x128 .f32)
local notation "OUT0_1" => (((Memref.whole main_v10_scv).slice (Rect.unit (s := S9x2x128x8x128) ![6, 1, 0, 1, 0] S1x1x128x1x128.size inb_S9x2x128x8x128_S1x1x128x1x128_6_1_0_1_0) (fun _ => rfl)).squeeze S128x128 squeezes_S1x1x128x1x128_S128x128 : Memref sig .scVector .hbm S128x128 .f32)
local notation "OUT0_2" => (((Memref.whole main_v10_scv).slice (Rect.unit (s := S9x2x128x8x128) ![6, 1, 0, 3, 0] S1x1x128x1x128.size inb_S9x2x128x8x128_S1x1x128x1x128_6_1_0_3_0) (fun _ => rfl)).squeeze S128x128 squeezes_S1x1x128x1x128_S128x128 : Memref sig .scVector .hbm S128x128 .f32)
local notation "SRC1" => (((Memref.whole main_v9_scv).slice (Rect.unit (s := S14x128x128) ![6, 0, 0] S1x128x128.size inb_S14x128x128_S1x128x128_6_0_0) (fun _ => rfl)).squeeze S128x128 squeezes_S1x128x128_S128x128 : Memref sig .scVector .hbm S128x128 .f32)
local notation "OUT1_0" => (((Memref.whole main_v10_scv).slice (Rect.unit (s := S9x2x128x8x128) ![2, 0, 0, 6, 0] S1x1x128x1x128.size inb_S9x2x128x8x128_S1x1x128x1x128_2_0_0_6_0) (fun _ => rfl)).squeeze S128x128 squeezes_S1x1x128x1x128_S128x128 : Memref sig .scVector .hbm S128x128 .f32)

/-! ## The tile's slices, as its memrefs name them -/

theorem open2 (m : (ℓ : Loc nD τ sig) → Buf (Elt F) ℓ) (d : Dev nD) :
    (bigSep (t2 (10 : Fin 32)) (A2 m d) : sProp 𝕄) = iprop(((SRC0).view.loc (TH d) ↦[(SRC0).view.set]{fullShare} V2c m d)) := by
  show bigSep ({((12 : Fin 17), (1 : Fin 2))} : Finset (Fin 17 × Fin 2)) (A2 m d) = _
  rw [bigSep_singleton]
  exact (pts_v2 d (cV LL) (jV LL) (12 : Fin 17) (1 : Fin 2) _ (V2c m d)).symm
theorem open9 (m : (ℓ : Loc nD τ sig) → Buf (Elt F) ℓ) (d : Dev nD) :
    (bigSep (t9 (10 : Fin 32)) (A9 m d) : sProp 𝕄) = iprop(((SRC1).view.loc (TH d) ↦[(SRC1).view.set]{fullShare} V9c m d)) := by
  show bigSep ({(6 : Fin 14)} : Finset (Fin 14)) (A9 m d) = _
  rw [bigSep_singleton]
  exact (pts_v9 d (cV LL) (jV LL) (6 : Fin 14) _ (V9c m d)).symm
theorem open10 (m : (ℓ : Loc nD τ sig) → Buf (Elt F) ℓ) (d : Dev nD) :
    (bigSep (t10 (10 : Fin 32)) (B0 m d) : sProp 𝕄) = iprop(((OUT0_0).view.loc (TH d) ↦[(OUT0_0).view.set]{fullShare} m (v10L d)) ∗ ((OUT0_1).view.loc (TH d) ↦[(OUT0_1).view.set]{fullShare} m (v10L d)) ∗ ((OUT0_2).view.loc (TH d) ↦[(OUT0_2).view.set]{fullShare} m (v10L d)) ∗ ((OUT1_0).view.loc (TH d) ↦[(OUT1_0).view.set]{fullShare} m (v10L d))) := by
  show bigSep ({((4 : Fin 9), (0 : Fin 2), (6 : Fin 8)), ((6 : Fin 9), (1 : Fin 2), (1 : Fin 8)), ((6 : Fin 9), (1 : Fin 2), (3 : Fin 8)), ((2 : Fin 9), (0 : Fin 2), (6 : Fin 8))} : Finset (Fin 9 × Fin 2 × Fin 8)) (B0 m d) = _
  rw [SparseCore.bigSep_insert' (by decide), SparseCore.bigSep_insert' (by decide), SparseCore.bigSep_insert' (by decide), bigSep_singleton]
  exact (congrArg₂ (fun a b : sProp 𝕄 => iprop(a ∗ b)) (pts_v10 d (cV LL) (jV LL) (4 : Fin 9) (0 : Fin 2) (6 : Fin 8) _ (m (v10L d))).symm (congrArg₂ (fun a b : sProp 𝕄 => iprop(a ∗ b)) (pts_v10 d (cV LL) (jV LL) (6 : Fin 9) (1 : Fin 2) (1 : Fin 8) _ (m (v10L d))).symm (congrArg₂ (fun a b : sProp 𝕄 => iprop(a ∗ b)) (pts_v10 d (cV LL) (jV LL) (6 : Fin 9) (1 : Fin 2) (3 : Fin 8) _ (m (v10L d))).symm (pts_v10 d (cV LL) (jV LL) (2 : Fin 9) (0 : Fin 2) (6 : Fin 8) _ (m (v10L d))).symm)))
theorem close10 (m : (ℓ : Loc nD τ sig) → Buf (Elt F) ℓ) (d : Dev nD) :
    (bigSep (t10 (10 : Fin 32)) (B1 m d) : sProp 𝕄) = iprop(((OUT0_0).view.loc (TH d) ↦[(OUT0_0).view.set]{fullShare} OUTc m d) ∗ ((OUT0_1).view.loc (TH d) ↦[(OUT0_1).view.set]{fullShare} OUTc m d) ∗ ((OUT0_2).view.loc (TH d) ↦[(OUT0_2).view.set]{fullShare} OUTc m d) ∗ ((OUT1_0).view.loc (TH d) ↦[(OUT1_0).view.set]{fullShare} OUTc m d)) := by
  show bigSep ({((4 : Fin 9), (0 : Fin 2), (6 : Fin 8)), ((6 : Fin 9), (1 : Fin 2), (1 : Fin 8)), ((6 : Fin 9), (1 : Fin 2), (3 : Fin 8)), ((2 : Fin 9), (0 : Fin 2), (6 : Fin 8))} : Finset (Fin 9 × Fin 2 × Fin 8)) (B1 m d) = _
  rw [SparseCore.bigSep_insert' (by decide), SparseCore.bigSep_insert' (by decide), SparseCore.bigSep_insert' (by decide), bigSep_singleton]
  exact (congrArg₂ (fun a b : sProp 𝕄 => iprop(a ∗ b)) (pts_v10 d (cV LL) (jV LL) (4 : Fin 9) (0 : Fin 2) (6 : Fin 8) _ (OUTc m d)).symm (congrArg₂ (fun a b : sProp 𝕄 => iprop(a ∗ b)) (pts_v10 d (cV LL) (jV LL) (6 : Fin 9) (1 : Fin 2) (1 : Fin 8) _ (OUTc m d)).symm (congrArg₂ (fun a b : sProp 𝕄 => iprop(a ∗ b)) (pts_v10 d (cV LL) (jV LL) (6 : Fin 9) (1 : Fin 2) (3 : Fin 8) _ (OUTc m d)).symm (pts_v10 d (cV LL) (jV LL) (2 : Fin 9) (0 : Fin 2) (6 : Fin 8) _ (OUTc m d)).symm)))

/-! ## What each output slice has to hold is what its source slice holds -/

theorem val0_0 (m : (ℓ : Loc nD τ sig) → Buf (Elt F) ℓ) (d : Dev nD) :
    (SRC0).view.read (Elt F) (V2c m d) = (OUT0_0).view.read (Elt F) (OUTc m d) := by
  funext y
  obtain ⟨t, q, rfl⟩ : ∃ (t q : Fin 128), y = ix2 t q := ⟨y 0, y 1, eq_ix2 y⟩
  refine (read_v2 (12 : Fin 17) (1 : Fin 2) _ _ t q).trans ((?_ : _ = _).trans (read_v10 (4 : Fin 9) (0 : Fin 2) (6 : Fin 8) _ _ t q).symm)
  unfold V2c OUTc
  rw [Cert.Layout.poseV_apply]
  refine Eq.trans ?_ (outV_at _ _ _ _ _ _ _ t _ q (show 8 * 0 + 6 < 14 by decide)).symm
  rfl
theorem val0_1 (m : (ℓ : Loc nD τ sig) → Buf (Elt F) ℓ) (d : Dev nD) :
    (SRC0).view.read (Elt F) (V2c m d) = (OUT0_1).view.read (Elt F) (OUTc m d) := by
  funext y
  obtain ⟨t, q, rfl⟩ : ∃ (t q : Fin 128), y = ix2 t q := ⟨y 0, y 1, eq_ix2 y⟩
  refine (read_v2 (12 : Fin 17) (1 : Fin 2) _ _ t q).trans ((?_ : _ = _).trans (read_v10 (6 : Fin 9) (1 : Fin 2) (1 : Fin 8) _ _ t q).symm)
  unfold V2c OUTc
  rw [Cert.Layout.poseV_apply]
  refine Eq.trans ?_ (outV_at _ _ _ _ _ _ _ t _ q (show 8 * 1 + 1 < 14 by decide)).symm
  rfl
theorem val0_2 (m : (ℓ : Loc nD τ sig) → Buf (Elt F) ℓ) (d : Dev nD) :
    (SRC0).view.read (Elt F) (V2c m d) = (OUT0_2).view.read (Elt F) (OUTc m d) := by
  funext y
  obtain ⟨t, q, rfl⟩ : ∃ (t q : Fin 128), y = ix2 t q := ⟨y 0, y 1, eq_ix2 y⟩
  refine (read_v2 (12 : Fin 17) (1 : Fin 2) _ _ t q).trans ((?_ : _ = _).trans (read_v10 (6 : Fin 9) (1 : Fin 2) (3 : Fin 8) _ _ t q).symm)
  unfold V2c OUTc
  rw [Cert.Layout.poseV_apply]
  refine Eq.trans ?_ (outV_at _ _ _ _ _ _ _ t _ q (show 8 * 1 + 3 < 14 by decide)).symm
  rfl
theorem val1_0 (m : (ℓ : Loc nD τ sig) → Buf (Elt F) ℓ) (d : Dev nD) :
    (SRC1).view.read (Elt F) (V9c m d) = (OUT1_0).view.read (Elt F) (OUTc m d) := by
  funext y
  obtain ⟨t, q, rfl⟩ : ∃ (t q : Fin 128), y = ix2 t q := ⟨y 0, y 1, eq_ix2 y⟩
  refine (read_v9 (6 : Fin 14) _ _ t q).trans ((?_ : _ = _).trans (read_v10 (2 : Fin 9) (0 : Fin 2) (6 : Fin 8) _ _ t q).symm)
  unfold V9c OUTc
  rw [Cert.Layout.lenV_apply]
  refine Eq.trans ?_ (outV_at _ _ _ _ _ _ _ t _ q (show 8 * 0 + 6 < 14 by decide)).symm
  rfl

/-! ## The run -/

open Lean Elab Tactic Meta in
/-- Unfold the names the symbolic run gave to the values its copies carry. -/
elab "unfold_carried" : tactic => do
  for _ in [0:6] do
    let g ← getMainGoal
    let t ← instantiateMVars (← g.getType)
    if (t.getUsedConstants.any fun n => n.components.any (· == `sl)) then
      let t' ← deltaExpand t (fun n => n.components.any (· == `sl))
      let g' ← g.change t' (checkDefEq := false)
      replaceMainGoal [g']

variable [FloatOps F] [∀ e, Nonempty (Elt F e)]

theorem run (m : (ℓ : Loc nD τ sig) → Buf (Elt F) ℓ) (d : Dev nD) (O : CellTallies nD τ sig (HIx 1)) (W : Waits sig (HIx 1)) (hO : ∀ g, O g none = 0) :
    (iprop(levAts (K (F := F)).L (K (F := F)).lev ∗ tileG m d (10 : Fin 32)
        ∗ scopedBufs (TH d) ∗ scopedSems0 (TH d) ∗ owes (TH d) O W) : sProp 𝕄)
      ⊢ wp frame (wpE (defs₀ (F := F)) 𝒱₀ (TH d) none) Set.univ
          (cc0_run LL (Memref.whole main_v2_scv) (Memref.isWhole_whole _) (Memref.whole main_v7_scv) (Memref.isWhole_whole _) (Memref.whole main_v5_scv) (Memref.isWhole_whole _) (Memref.whole main_v9_scv) (Memref.isWhole_whole _) (Memref.whole main_v10_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8)
          fun _ => iprop(tileT m d (10 : Fin 32) ∗ scopedBufs (TH d) ∗ scopedSems0 (TH d)
            ∗ ∃ W', ⌜∀ p ∈ W', p ∈ W ∨ p.2 = none⌝ ∗ owes (TH d) O W') := by
  rw [(K (F := F)).scopedBufs_V facts d (cV LL) (jV LL), SparseCore.Cfg.scopedSems0_V (Val := Elt F) d (cV LL) (jV LL), ownSems0_V, ownBufs_V]
  unfold tileG tileT
  iintro ⟨#Hlv, ⟨HF2, -, -, HF9, HF10⟩, ⟨⟨%fb0, Hb0⟩, ⟨%fb1, Hb1⟩, ⟨%fb2, Hb2⟩, Hbufs⟩, ⟨Hs3, Hs4, Hs5, Hs6, Hs7, Hs8, Hsems⟩, HO⟩
  ihave HF2' := (Entails.of_eq (open2 m d)) $$ HF2
  icases HF2' with HS0
  ihave HF9' := (Entails.of_eq (open9 m d)) $$ HF9
  icases HF9' with HS1
  ihave HF10' := (Entails.of_eq (open10 m d)) $$ HF10
  icases HF10' with ⟨HO0_0, HO0_1, HO0_2, HO1_0⟩
  ihave Hmw := ((K (F := F)).mayWaits_none (thr := TH d) hO) $$ Hlv
  ihave Hb0' := (Entails.of_eq (pts_b0 d (cV LL) (jV LL) _).symm) $$ Hb0
  ihave Hb1' := (Entails.of_eq (pts_b1 d (cV LL) (jV LL) _).symm) $$ Hb1
  ihave Hb2' := (Entails.of_eq (pts_b2 d (cV LL) (jV LL) _).symm) $$ Hb2
  have _plan : Transfers.BatchOf (TH d) (SemLoc.dma (sig := sig) cc0_scratch6.sem) 3 (windows := true) := trivial
  sl_unfold [cc0_run]
  sl_exec_parts (disch := decide)
  sl_step
  isplitl [HS0 HS1 HO0_0 HO0_1 HO0_2 HO1_0]
  · skip
    isplitl [HS0]
    · iapply (Entails.of_eq (open2 m d).symm)
      iexact HS0
    isplitr
    · rw [show t7 (10 : Fin 32) = ∅ from rfl, bigSep_empty]; iempintro
    isplitr
    · rw [show t5 (10 : Fin 32) = ∅ from rfl, bigSep_empty]; iempintro
    isplitl [HS1]
    · iapply (Entails.of_eq (open9 m d).symm)
      iexact HS1
    · iapply (Entails.of_eq (close10 m d).symm)
      isplitl [HO0_0]
      · iapply (out_post_ent (TH d) (OUT0_0) _ (OUTc m d) _ ?hv0_0) $$ HO0_0
        case hv0_0 => unfold_carried; simp only [ReadAs.apply_same, View.read_write_univ]; exact val0_0 m d
      isplitl [HO0_1]
      · iapply (out_post_ent (TH d) (OUT0_1) _ (OUTc m d) _ ?hv0_1) $$ HO0_1
        case hv0_1 => unfold_carried; simp only [ReadAs.apply_same, View.read_write_univ]; exact val0_1 m d
      isplitl [HO0_2]
      · iapply (out_post_ent (TH d) (OUT0_2) _ (OUTc m d) _ ?hv0_2) $$ HO0_2
        case hv0_2 => unfold_carried; simp only [ReadAs.apply_same, View.read_write_univ]; exact val0_2 m d
      iapply (out_post_ent (TH d) (OUT1_0) _ (OUTc m d) _ ?hv1_0) $$ HO1_0
      case hv1_0 => unfold_carried; simp only [ReadAs.apply_same, View.read_write_univ]; exact val1_0 m d

  isplitl [Hb0' Hb1' Hb2' Hbufs]
  · isplitl [Hb0']
    · iexists _; iapply (Entails.of_eq (pts_b0 d (cV LL) (jV LL) _)); iexact Hb0'
    isplitl [Hb1']
    · iexists _; iapply (Entails.of_eq (pts_b1 d (cV LL) (jV LL) _)); iexact Hb1'
    isplitl [Hb2']
    · iexists _; iapply (Entails.of_eq (pts_b2 d (cV LL) (jV LL) _)); iexact Hb2'
    iexact Hbufs
  isplitl [Hs3 Hs4 Hs5 Hs6 Hs7 Hs8 Hsems]
  · isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    iexact Hsems
  iexists _; isplitr
  rotate_left
  · iexact HO
  · ipureintro; intro p hp
    simp only [Finset.mem_insert] at hp
    rcases hp with rfl | rfl | rfl | rfl | rfl | rfl | hp <;> first | exact .inr rfl | exact .inl hp

end Cert.Proof.KB.Tile10

end
-- ==== Proof.KBTile11.lean ====
/-
  Tile 11 of the kernel (subcore 5 of core 1): one slice in (vis12), 3 out; one slice in (delta7.0), 1 out.
  Its whole body is run: every copy it does not own is skipped by the comparison of its number with the copy's owner;
  each incoming copy fills a staging buffer, each outgoing copy carries that buffer into one slice of the output array,
  and what each output slice then holds is the source slice the specification asks for there.
-/
import proofs.«210185_g18468359372994_cont_8to1_1390_15_alg».proof.Proof.KBRead

set_option maxHeartbeats 4000000
set_option quotPrecheck false

noncomputable section

namespace Cert.Proof.KB.Tile11

open Cert.Kernel Cert.Kernel.Gen
open Cert.Proof.KB
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
theorem cLt : 1 < grid0.bound 0 := by decide
theorem sLt : 5 < grid0.bound 1 := by decide
local notation "LL" => (coordsV (⟨1, cLt⟩ : Fin (grid0.bound 0)) (⟨5, sLt⟩ : Fin (grid0.bound 1)))
local notation "TH" d => V d (cV LL) (jV LL)
local notation "SRC0" => (((Memref.whole main_v7_scv).slice (Rect.unit (s := S17x128x128) ![12, 0, 0] S1x128x128.size inb_S17x128x128_S1x128x128_12_0_0) (fun _ => rfl)).squeeze S128x128 squeezes_S1x128x128_S128x128 : Memref sig .scVector .hbm S128x128 .f32)
local notation "OUT0_0" => (((Memref.whole main_v10_scv).slice (Rect.unit (s := S9x2x128x8x128) ![7, 0, 0, 6, 0] S1x1x128x1x128.size inb_S9x2x128x8x128_S1x1x128x1x128_7_0_0_6_0) (fun _ => rfl)).squeeze S128x128 squeezes_S1x1x128x1x128_S128x128 : Memref sig .scVector .hbm S128x128 .f32)
local notation "OUT0_1" => (((Memref.whole main_v10_scv).slice (Rect.unit (s := S9x2x128x8x128) ![8, 1, 0, 1, 0] S1x1x128x1x128.size inb_S9x2x128x8x128_S1x1x128x1x128_8_1_0_1_0) (fun _ => rfl)).squeeze S128x128 squeezes_S1x1x128x1x128_S128x128 : Memref sig .scVector .hbm S128x128 .f32)
local notation "OUT0_2" => (((Memref.whole main_v10_scv).slice (Rect.unit (s := S9x2x128x8x128) ![8, 1, 0, 3, 0] S1x1x128x1x128.size inb_S9x2x128x8x128_S1x1x128x1x128_8_1_0_3_0) (fun _ => rfl)).squeeze S128x128 squeezes_S1x1x128x1x128_S128x128 : Memref sig .scVector .hbm S128x128 .f32)
local notation "SRC1" => (((Memref.whole main_v5_scv).slice (Rect.unit (s := S14x128x2x128) ![7, 0, 0, 0] S1x128x1x128.size inb_S14x128x2x128_S1x128x1x128_7_0_0_0) (fun _ => rfl)).squeeze S128x128 squeezes_S1x128x1x128_S128x128 : Memref sig .scVector .hbm S128x128 .f32)
local notation "OUT1_0" => (((Memref.whole main_v10_scv).slice (Rect.unit (s := S9x2x128x8x128) ![0, 0, 0, 7, 0] S1x1x128x1x128.size inb_S9x2x128x8x128_S1x1x128x1x128_0_0_0_7_0) (fun _ => rfl)).squeeze S128x128 squeezes_S1x1x128x1x128_S128x128 : Memref sig .scVector .hbm S128x128 .f32)

/-! ## The tile's slices, as its memrefs name them -/

theorem open7 (m : (ℓ : Loc nD τ sig) → Buf (Elt F) ℓ) (d : Dev nD) :
    (bigSep (t7 (11 : Fin 32)) (A7 m d) : sProp 𝕄) = iprop(((SRC0).view.loc (TH d) ↦[(SRC0).view.set]{fullShare} V7c m d)) := by
  show bigSep ({(12 : Fin 17)} : Finset (Fin 17)) (A7 m d) = _
  rw [bigSep_singleton]
  exact (pts_v7 d (cV LL) (jV LL) (12 : Fin 17) _ (V7c m d)).symm
theorem open5 (m : (ℓ : Loc nD τ sig) → Buf (Elt F) ℓ) (d : Dev nD) :
    (bigSep (t5 (11 : Fin 32)) (A5 m d) : sProp 𝕄) = iprop(((SRC1).view.loc (TH d) ↦[(SRC1).view.set]{fullShare} V5c m d)) := by
  show bigSep ({((7 : Fin 14), (0 : Fin 2))} : Finset (Fin 14 × Fin 2)) (A5 m d) = _
  rw [bigSep_singleton]
  exact (pts_v5 d (cV LL) (jV LL) (7 : Fin 14) (0 : Fin 2) _ (V5c m d)).symm
theorem open10 (m : (ℓ : Loc nD τ sig) → Buf (Elt F) ℓ) (d : Dev nD) :
    (bigSep (t10 (11 : Fin 32)) (B0 m d) : sProp 𝕄) = iprop(((OUT0_0).view.loc (TH d) ↦[(OUT0_0).view.set]{fullShare} m (v10L d)) ∗ ((OUT0_1).view.loc (TH d) ↦[(OUT0_1).view.set]{fullShare} m (v10L d)) ∗ ((OUT0_2).view.loc (TH d) ↦[(OUT0_2).view.set]{fullShare} m (v10L d)) ∗ ((OUT1_0).view.loc (TH d) ↦[(OUT1_0).view.set]{fullShare} m (v10L d))) := by
  show bigSep ({((7 : Fin 9), (0 : Fin 2), (6 : Fin 8)), ((8 : Fin 9), (1 : Fin 2), (1 : Fin 8)), ((8 : Fin 9), (1 : Fin 2), (3 : Fin 8)), ((0 : Fin 9), (0 : Fin 2), (7 : Fin 8))} : Finset (Fin 9 × Fin 2 × Fin 8)) (B0 m d) = _
  rw [SparseCore.bigSep_insert' (by decide), SparseCore.bigSep_insert' (by decide), SparseCore.bigSep_insert' (by decide), bigSep_singleton]
  exact (congrArg₂ (fun a b : sProp 𝕄 => iprop(a ∗ b)) (pts_v10 d (cV LL) (jV LL) (7 : Fin 9) (0 : Fin 2) (6 : Fin 8) _ (m (v10L d))).symm (congrArg₂ (fun a b : sProp 𝕄 => iprop(a ∗ b)) (pts_v10 d (cV LL) (jV LL) (8 : Fin 9) (1 : Fin 2) (1 : Fin 8) _ (m (v10L d))).symm (congrArg₂ (fun a b : sProp 𝕄 => iprop(a ∗ b)) (pts_v10 d (cV LL) (jV LL) (8 : Fin 9) (1 : Fin 2) (3 : Fin 8) _ (m (v10L d))).symm (pts_v10 d (cV LL) (jV LL) (0 : Fin 9) (0 : Fin 2) (7 : Fin 8) _ (m (v10L d))).symm)))
theorem close10 (m : (ℓ : Loc nD τ sig) → Buf (Elt F) ℓ) (d : Dev nD) :
    (bigSep (t10 (11 : Fin 32)) (B1 m d) : sProp 𝕄) = iprop(((OUT0_0).view.loc (TH d) ↦[(OUT0_0).view.set]{fullShare} OUTc m d) ∗ ((OUT0_1).view.loc (TH d) ↦[(OUT0_1).view.set]{fullShare} OUTc m d) ∗ ((OUT0_2).view.loc (TH d) ↦[(OUT0_2).view.set]{fullShare} OUTc m d) ∗ ((OUT1_0).view.loc (TH d) ↦[(OUT1_0).view.set]{fullShare} OUTc m d)) := by
  show bigSep ({((7 : Fin 9), (0 : Fin 2), (6 : Fin 8)), ((8 : Fin 9), (1 : Fin 2), (1 : Fin 8)), ((8 : Fin 9), (1 : Fin 2), (3 : Fin 8)), ((0 : Fin 9), (0 : Fin 2), (7 : Fin 8))} : Finset (Fin 9 × Fin 2 × Fin 8)) (B1 m d) = _
  rw [SparseCore.bigSep_insert' (by decide), SparseCore.bigSep_insert' (by decide), SparseCore.bigSep_insert' (by decide), bigSep_singleton]
  exact (congrArg₂ (fun a b : sProp 𝕄 => iprop(a ∗ b)) (pts_v10 d (cV LL) (jV LL) (7 : Fin 9) (0 : Fin 2) (6 : Fin 8) _ (OUTc m d)).symm (congrArg₂ (fun a b : sProp 𝕄 => iprop(a ∗ b)) (pts_v10 d (cV LL) (jV LL) (8 : Fin 9) (1 : Fin 2) (1 : Fin 8) _ (OUTc m d)).symm (congrArg₂ (fun a b : sProp 𝕄 => iprop(a ∗ b)) (pts_v10 d (cV LL) (jV LL) (8 : Fin 9) (1 : Fin 2) (3 : Fin 8) _ (OUTc m d)).symm (pts_v10 d (cV LL) (jV LL) (0 : Fin 9) (0 : Fin 2) (7 : Fin 8) _ (OUTc m d)).symm)))

/-! ## What each output slice has to hold is what its source slice holds -/

theorem val0_0 (m : (ℓ : Loc nD τ sig) → Buf (Elt F) ℓ) (d : Dev nD) :
    (SRC0).view.read (Elt F) (V7c m d) = (OUT0_0).view.read (Elt F) (OUTc m d) := by
  funext y
  obtain ⟨t, q, rfl⟩ : ∃ (t q : Fin 128), y = ix2 t q := ⟨y 0, y 1, eq_ix2 y⟩
  refine (read_v7 (12 : Fin 17) _ _ t q).trans ((?_ : _ = _).trans (read_v10 (7 : Fin 9) (0 : Fin 2) (6 : Fin 8) _ _ t q).symm)
  unfold V7c OUTc
  rw [Cert.Layout.visV_apply]
  refine Eq.trans ?_ (outV_at _ _ _ _ _ _ _ t _ q (show 8 * 0 + 6 < 14 by decide)).symm
  rfl
theorem val0_1 (m : (ℓ : Loc nD τ sig) → Buf (Elt F) ℓ) (d : Dev nD) :
    (SRC0).view.read (Elt F) (V7c m d) = (OUT0_1).view.read (Elt F) (OUTc m d) := by
  funext y
  obtain ⟨t, q, rfl⟩ : ∃ (t q : Fin 128), y = ix2 t q := ⟨y 0, y 1, eq_ix2 y⟩
  refine (read_v7 (12 : Fin 17) _ _ t q).trans ((?_ : _ = _).trans (read_v10 (8 : Fin 9) (1 : Fin 2) (1 : Fin 8) _ _ t q).symm)
  unfold V7c OUTc
  rw [Cert.Layout.visV_apply]
  refine Eq.trans ?_ (outV_at _ _ _ _ _ _ _ t _ q (show 8 * 1 + 1 < 14 by decide)).symm
  rfl
theorem val0_2 (m : (ℓ : Loc nD τ sig) → Buf (Elt F) ℓ) (d : Dev nD) :
    (SRC0).view.read (Elt F) (V7c m d) = (OUT0_2).view.read (Elt F) (OUTc m d) := by
  funext y
  obtain ⟨t, q, rfl⟩ : ∃ (t q : Fin 128), y = ix2 t q := ⟨y 0, y 1, eq_ix2 y⟩
  refine (read_v7 (12 : Fin 17) _ _ t q).trans ((?_ : _ = _).trans (read_v10 (8 : Fin 9) (1 : Fin 2) (3 : Fin 8) _ _ t q).symm)
  unfold V7c OUTc
  rw [Cert.Layout.visV_apply]
  refine Eq.trans ?_ (outV_at _ _ _ _ _ _ _ t _ q (show 8 * 1 + 3 < 14 by decide)).symm
  rfl
theorem val1_0 (m : (ℓ : Loc nD τ sig) → Buf (Elt F) ℓ) (d : Dev nD) :
    (SRC1).view.read (Elt F) (V5c m d) = (OUT1_0).view.read (Elt F) (OUTc m d) := by
  funext y
  obtain ⟨t, q, rfl⟩ : ∃ (t q : Fin 128), y = ix2 t q := ⟨y 0, y 1, eq_ix2 y⟩
  refine (read_v5 (7 : Fin 14) (0 : Fin 2) _ _ t q).trans ((?_ : _ = _).trans (read_v10 (0 : Fin 9) (0 : Fin 2) (7 : Fin 8) _ _ t q).symm)
  unfold V5c OUTc
  rw [Cert.Layout.deltaV_apply]
  refine Eq.trans ?_ (outV_at _ _ _ _ _ _ _ t _ q (show 8 * 0 + 7 < 14 by decide)).symm
  rfl

/-! ## The run -/

open Lean Elab Tactic Meta in
/-- Unfold the names the symbolic run gave to the values its copies carry. -/
elab "unfold_carried" : tactic => do
  for _ in [0:6] do
    let g ← getMainGoal
    let t ← instantiateMVars (← g.getType)
    if (t.getUsedConstants.any fun n => n.components.any (· == `sl)) then
      let t' ← deltaExpand t (fun n => n.components.any (· == `sl))
      let g' ← g.change t' (checkDefEq := false)
      replaceMainGoal [g']

variable [FloatOps F] [∀ e, Nonempty (Elt F e)]

theorem run (m : (ℓ : Loc nD τ sig) → Buf (Elt F) ℓ) (d : Dev nD) (O : CellTallies nD τ sig (HIx 1)) (W : Waits sig (HIx 1)) (hO : ∀ g, O g none = 0) :
    (iprop(levAts (K (F := F)).L (K (F := F)).lev ∗ tileG m d (11 : Fin 32)
        ∗ scopedBufs (TH d) ∗ scopedSems0 (TH d) ∗ owes (TH d) O W) : sProp 𝕄)
      ⊢ wp frame (wpE (defs₀ (F := F)) 𝒱₀ (TH d) none) Set.univ
          (cc0_run LL (Memref.whole main_v2_scv) (Memref.isWhole_whole _) (Memref.whole main_v7_scv) (Memref.isWhole_whole _) (Memref.whole main_v5_scv) (Memref.isWhole_whole _) (Memref.whole main_v9_scv) (Memref.isWhole_whole _) (Memref.whole main_v10_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8)
          fun _ => iprop(tileT m d (11 : Fin 32) ∗ scopedBufs (TH d) ∗ scopedSems0 (TH d)
            ∗ ∃ W', ⌜∀ p ∈ W', p ∈ W ∨ p.2 = none⌝ ∗ owes (TH d) O W') := by
  rw [(K (F := F)).scopedBufs_V facts d (cV LL) (jV LL), SparseCore.Cfg.scopedSems0_V (Val := Elt F) d (cV LL) (jV LL), ownSems0_V, ownBufs_V]
  unfold tileG tileT
  iintro ⟨#Hlv, ⟨-, HF7, HF5, -, HF10⟩, ⟨⟨%fb0, Hb0⟩, ⟨%fb1, Hb1⟩, ⟨%fb2, Hb2⟩, Hbufs⟩, ⟨Hs3, Hs4, Hs5, Hs6, Hs7, Hs8, Hsems⟩, HO⟩
  ihave HF7' := (Entails.of_eq (open7 m d)) $$ HF7
  icases HF7' with HS0
  ihave HF5' := (Entails.of_eq (open5 m d)) $$ HF5
  icases HF5' with HS1
  ihave HF10' := (Entails.of_eq (open10 m d)) $$ HF10
  icases HF10' with ⟨HO0_0, HO0_1, HO0_2, HO1_0⟩
  ihave Hmw := ((K (F := F)).mayWaits_none (thr := TH d) hO) $$ Hlv
  ihave Hb0' := (Entails.of_eq (pts_b0 d (cV LL) (jV LL) _).symm) $$ Hb0
  ihave Hb1' := (Entails.of_eq (pts_b1 d (cV LL) (jV LL) _).symm) $$ Hb1
  ihave Hb2' := (Entails.of_eq (pts_b2 d (cV LL) (jV LL) _).symm) $$ Hb2
  have _plan : Transfers.BatchOf (TH d) (SemLoc.dma (sig := sig) cc0_scratch6.sem) 3 (windows := true) := trivial
  sl_unfold [cc0_run]
  sl_exec_parts (disch := decide)
  sl_step
  isplitl [HS0 HS1 HO0_0 HO0_1 HO0_2 HO1_0]
  · skip
    isplitr
    · rw [show t2 (11 : Fin 32) = ∅ from rfl, bigSep_empty]; iempintro
    isplitl [HS0]
    · iapply (Entails.of_eq (open7 m d).symm)
      iexact HS0
    isplitl [HS1]
    · iapply (Entails.of_eq (open5 m d).symm)
      iexact HS1
    isplitr
    · rw [show t9 (11 : Fin 32) = ∅ from rfl, bigSep_empty]; iempintro
    · iapply (Entails.of_eq (close10 m d).symm)
      isplitl [HO0_0]
      · iapply (out_post_ent (TH d) (OUT0_0) _ (OUTc m d) _ ?hv0_0) $$ HO0_0
        case hv0_0 => unfold_carried; simp only [ReadAs.apply_same, View.read_write_univ]; exact val0_0 m d
      isplitl [HO0_1]
      · iapply (out_post_ent (TH d) (OUT0_1) _ (OUTc m d) _ ?hv0_1) $$ HO0_1
        case hv0_1 => unfold_carried; simp only [ReadAs.apply_same, View.read_write_univ]; exact val0_1 m d
      isplitl [HO0_2]
      · iapply (out_post_ent (TH d) (OUT0_2) _ (OUTc m d) _ ?hv0_2) $$ HO0_2
        case hv0_2 => unfold_carried; simp only [ReadAs.apply_same, View.read_write_univ]; exact val0_2 m d
      iapply (out_post_ent (TH d) (OUT1_0) _ (OUTc m d) _ ?hv1_0) $$ HO1_0
      case hv1_0 => unfold_carried; simp only [ReadAs.apply_same, View.read_write_univ]; exact val1_0 m d

  isplitl [Hb0' Hb1' Hb2' Hbufs]
  · isplitl [Hb0']
    · iexists _; iapply (Entails.of_eq (pts_b0 d (cV LL) (jV LL) _)); iexact Hb0'
    isplitl [Hb1']
    · iexists _; iapply (Entails.of_eq (pts_b1 d (cV LL) (jV LL) _)); iexact Hb1'
    isplitl [Hb2']
    · iexists _; iapply (Entails.of_eq (pts_b2 d (cV LL) (jV LL) _)); iexact Hb2'
    iexact Hbufs
  isplitl [Hs3 Hs4 Hs5 Hs6 Hs7 Hs8 Hsems]
  · isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    iexact Hsems
  iexists _; isplitr
  rotate_left
  · iexact HO
  · ipureintro; intro p hp
    simp only [Finset.mem_insert] at hp
    rcases hp with rfl | rfl | rfl | rfl | rfl | rfl | hp <;> first | exact .inr rfl | exact .inl hp

end Cert.Proof.KB.Tile11

end
-- ==== Proof.KBTile12.lean ====
/-
  Tile 12 of the kernel (subcore 6 of core 0): one slice in (pose7.0), 2 out; one slice in (delta2.1), 1 out; one slice in (delta10.0), 1 out.
  Its whole body is run: every copy it does not own is skipped by the comparison of its number with the copy's owner;
  each incoming copy fills a staging buffer, each outgoing copy carries that buffer into one slice of the output array,
  and what each output slice then holds is the source slice the specification asks for there.
-/
import proofs.«210185_g18468359372994_cont_8to1_1390_15_alg».proof.Proof.KBRead

set_option maxHeartbeats 4000000
set_option quotPrecheck false

noncomputable section

namespace Cert.Proof.KB.Tile12

open Cert.Kernel Cert.Kernel.Gen
open Cert.Proof.KB
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
theorem cLt : 0 < grid0.bound 0 := by decide
theorem sLt : 6 < grid0.bound 1 := by decide
local notation "LL" => (coordsV (⟨0, cLt⟩ : Fin (grid0.bound 0)) (⟨6, sLt⟩ : Fin (grid0.bound 1)))
local notation "TH" d => V d (cV LL) (jV LL)
local notation "SRC0" => (((Memref.whole main_v2_scv).slice (Rect.unit (s := S17x128x2x128) ![7, 0, 0, 0] S1x128x1x128.size inb_S17x128x2x128_S1x128x1x128_7_0_0_0) (fun _ => rfl)).squeeze S128x128 squeezes_S1x128x1x128_S128x128 : Memref sig .scVector .hbm S128x128 .f32)
local notation "OUT0_0" => (((Memref.whole main_v10_scv).slice (Rect.unit (s := S9x2x128x8x128) ![5, 0, 0, 0, 0] S1x1x128x1x128.size inb_S9x2x128x8x128_S1x1x128x1x128_5_0_0_0_0) (fun _ => rfl)).squeeze S128x128 squeezes_S1x1x128x1x128_S128x128 : Memref sig .scVector .hbm S128x128 .f32)
local notation "OUT0_1" => (((Memref.whole main_v10_scv).slice (Rect.unit (s := S9x2x128x8x128) ![3, 0, 0, 1, 0] S1x1x128x1x128.size inb_S9x2x128x8x128_S1x1x128x1x128_3_0_0_1_0) (fun _ => rfl)).squeeze S128x128 squeezes_S1x1x128x1x128_S128x128 : Memref sig .scVector .hbm S128x128 .f32)
local notation "SRC1" => (((Memref.whole main_v5_scv).slice (Rect.unit (s := S14x128x2x128) ![2, 0, 1, 0] S1x128x1x128.size inb_S14x128x2x128_S1x128x1x128_2_0_1_0) (fun _ => rfl)).squeeze S128x128 squeezes_S1x128x1x128_S128x128 : Memref sig .scVector .hbm S128x128 .f32)
local notation "OUT1_0" => (((Memref.whole main_v10_scv).slice (Rect.unit (s := S9x2x128x8x128) ![1, 0, 0, 2, 0] S1x1x128x1x128.size inb_S9x2x128x8x128_S1x1x128x1x128_1_0_0_2_0) (fun _ => rfl)).squeeze S128x128 squeezes_S1x1x128x1x128_S128x128 : Memref sig .scVector .hbm S128x128 .f32)
local notation "SRC2" => (((Memref.whole main_v5_scv).slice (Rect.unit (s := S14x128x2x128) ![10, 0, 0, 0] S1x128x1x128.size inb_S14x128x2x128_S1x128x1x128_10_0_0_0) (fun _ => rfl)).squeeze S128x128 squeezes_S1x128x1x128_S128x128 : Memref sig .scVector .hbm S128x128 .f32)
local notation "OUT2_0" => (((Memref.whole main_v10_scv).slice (Rect.unit (s := S9x2x128x8x128) ![0, 1, 0, 2, 0] S1x1x128x1x128.size inb_S9x2x128x8x128_S1x1x128x1x128_0_1_0_2_0) (fun _ => rfl)).squeeze S128x128 squeezes_S1x1x128x1x128_S128x128 : Memref sig .scVector .hbm S128x128 .f32)

/-! ## The tile's slices, as its memrefs name them -/

theorem open2 (m : (ℓ : Loc nD τ sig) → Buf (Elt F) ℓ) (d : Dev nD) :
    (bigSep (t2 (12 : Fin 32)) (A2 m d) : sProp 𝕄) = iprop(((SRC0).view.loc (TH d) ↦[(SRC0).view.set]{fullShare} V2c m d)) := by
  show bigSep ({((7 : Fin 17), (0 : Fin 2))} : Finset (Fin 17 × Fin 2)) (A2 m d) = _
  rw [bigSep_singleton]
  exact (pts_v2 d (cV LL) (jV LL) (7 : Fin 17) (0 : Fin 2) _ (V2c m d)).symm
theorem open5 (m : (ℓ : Loc nD τ sig) → Buf (Elt F) ℓ) (d : Dev nD) :
    (bigSep (t5 (12 : Fin 32)) (A5 m d) : sProp 𝕄) = iprop(((SRC1).view.loc (TH d) ↦[(SRC1).view.set]{fullShare} V5c m d) ∗ ((SRC2).view.loc (TH d) ↦[(SRC2).view.set]{fullShare} V5c m d)) := by
  show bigSep ({((2 : Fin 14), (1 : Fin 2)), ((10 : Fin 14), (0 : Fin 2))} : Finset (Fin 14 × Fin 2)) (A5 m d) = _
  rw [SparseCore.bigSep_insert' (by decide), bigSep_singleton]
  exact (congrArg₂ (fun a b : sProp 𝕄 => iprop(a ∗ b)) (pts_v5 d (cV LL) (jV LL) (2 : Fin 14) (1 : Fin 2) _ (V5c m d)).symm (pts_v5 d (cV LL) (jV LL) (10 : Fin 14) (0 : Fin 2) _ (V5c m d)).symm)
theorem open10 (m : (ℓ : Loc nD τ sig) → Buf (Elt F) ℓ) (d : Dev nD) :
    (bigSep (t10 (12 : Fin 32)) (B0 m d) : sProp 𝕄) = iprop(((OUT0_0).view.loc (TH d) ↦[(OUT0_0).view.set]{fullShare} m (v10L d)) ∗ ((OUT0_1).view.loc (TH d) ↦[(OUT0_1).view.set]{fullShare} m (v10L d)) ∗ ((OUT1_0).view.loc (TH d) ↦[(OUT1_0).view.set]{fullShare} m (v10L d)) ∗ ((OUT2_0).view.loc (TH d) ↦[(OUT2_0).view.set]{fullShare} m (v10L d))) := by
  show bigSep ({((5 : Fin 9), (0 : Fin 2), (0 : Fin 8)), ((3 : Fin 9), (0 : Fin 2), (1 : Fin 8)), ((1 : Fin 9), (0 : Fin 2), (2 : Fin 8)), ((0 : Fin 9), (1 : Fin 2), (2 : Fin 8))} : Finset (Fin 9 × Fin 2 × Fin 8)) (B0 m d) = _
  rw [SparseCore.bigSep_insert' (by decide), SparseCore.bigSep_insert' (by decide), SparseCore.bigSep_insert' (by decide), bigSep_singleton]
  exact (congrArg₂ (fun a b : sProp 𝕄 => iprop(a ∗ b)) (pts_v10 d (cV LL) (jV LL) (5 : Fin 9) (0 : Fin 2) (0 : Fin 8) _ (m (v10L d))).symm (congrArg₂ (fun a b : sProp 𝕄 => iprop(a ∗ b)) (pts_v10 d (cV LL) (jV LL) (3 : Fin 9) (0 : Fin 2) (1 : Fin 8) _ (m (v10L d))).symm (congrArg₂ (fun a b : sProp 𝕄 => iprop(a ∗ b)) (pts_v10 d (cV LL) (jV LL) (1 : Fin 9) (0 : Fin 2) (2 : Fin 8) _ (m (v10L d))).symm (pts_v10 d (cV LL) (jV LL) (0 : Fin 9) (1 : Fin 2) (2 : Fin 8) _ (m (v10L d))).symm)))
theorem close10 (m : (ℓ : Loc nD τ sig) → Buf (Elt F) ℓ) (d : Dev nD) :
    (bigSep (t10 (12 : Fin 32)) (B1 m d) : sProp 𝕄) = iprop(((OUT0_0).view.loc (TH d) ↦[(OUT0_0).view.set]{fullShare} OUTc m d) ∗ ((OUT0_1).view.loc (TH d) ↦[(OUT0_1).view.set]{fullShare} OUTc m d) ∗ ((OUT1_0).view.loc (TH d) ↦[(OUT1_0).view.set]{fullShare} OUTc m d) ∗ ((OUT2_0).view.loc (TH d) ↦[(OUT2_0).view.set]{fullShare} OUTc m d)) := by
  show bigSep ({((5 : Fin 9), (0 : Fin 2), (0 : Fin 8)), ((3 : Fin 9), (0 : Fin 2), (1 : Fin 8)), ((1 : Fin 9), (0 : Fin 2), (2 : Fin 8)), ((0 : Fin 9), (1 : Fin 2), (2 : Fin 8))} : Finset (Fin 9 × Fin 2 × Fin 8)) (B1 m d) = _
  rw [SparseCore.bigSep_insert' (by decide), SparseCore.bigSep_insert' (by decide), SparseCore.bigSep_insert' (by decide), bigSep_singleton]
  exact (congrArg₂ (fun a b : sProp 𝕄 => iprop(a ∗ b)) (pts_v10 d (cV LL) (jV LL) (5 : Fin 9) (0 : Fin 2) (0 : Fin 8) _ (OUTc m d)).symm (congrArg₂ (fun a b : sProp 𝕄 => iprop(a ∗ b)) (pts_v10 d (cV LL) (jV LL) (3 : Fin 9) (0 : Fin 2) (1 : Fin 8) _ (OUTc m d)).symm (congrArg₂ (fun a b : sProp 𝕄 => iprop(a ∗ b)) (pts_v10 d (cV LL) (jV LL) (1 : Fin 9) (0 : Fin 2) (2 : Fin 8) _ (OUTc m d)).symm (pts_v10 d (cV LL) (jV LL) (0 : Fin 9) (1 : Fin 2) (2 : Fin 8) _ (OUTc m d)).symm)))

/-! ## What each output slice has to hold is what its source slice holds -/

theorem val0_0 (m : (ℓ : Loc nD τ sig) → Buf (Elt F) ℓ) (d : Dev nD) :
    (SRC0).view.read (Elt F) (V2c m d) = (OUT0_0).view.read (Elt F) (OUTc m d) := by
  funext y
  obtain ⟨t, q, rfl⟩ : ∃ (t q : Fin 128), y = ix2 t q := ⟨y 0, y 1, eq_ix2 y⟩
  refine (read_v2 (7 : Fin 17) (0 : Fin 2) _ _ t q).trans ((?_ : _ = _).trans (read_v10 (5 : Fin 9) (0 : Fin 2) (0 : Fin 8) _ _ t q).symm)
  unfold V2c OUTc
  rw [Cert.Layout.poseV_apply]
  refine Eq.trans ?_ (outV_at _ _ _ _ _ _ _ t _ q (show 8 * 0 + 0 < 14 by decide)).symm
  rfl
theorem val0_1 (m : (ℓ : Loc nD τ sig) → Buf (Elt F) ℓ) (d : Dev nD) :
    (SRC0).view.read (Elt F) (V2c m d) = (OUT0_1).view.read (Elt F) (OUTc m d) := by
  funext y
  obtain ⟨t, q, rfl⟩ : ∃ (t q : Fin 128), y = ix2 t q := ⟨y 0, y 1, eq_ix2 y⟩
  refine (read_v2 (7 : Fin 17) (0 : Fin 2) _ _ t q).trans ((?_ : _ = _).trans (read_v10 (3 : Fin 9) (0 : Fin 2) (1 : Fin 8) _ _ t q).symm)
  unfold V2c OUTc
  rw [Cert.Layout.poseV_apply]
  refine Eq.trans ?_ (outV_at _ _ _ _ _ _ _ t _ q (show 8 * 0 + 1 < 14 by decide)).symm
  rfl
theorem val1_0 (m : (ℓ : Loc nD τ sig) → Buf (Elt F) ℓ) (d : Dev nD) :
    (SRC1).view.read (Elt F) (V5c m d) = (OUT1_0).view.read (Elt F) (OUTc m d) := by
  funext y
  obtain ⟨t, q, rfl⟩ : ∃ (t q : Fin 128), y = ix2 t q := ⟨y 0, y 1, eq_ix2 y⟩
  refine (read_v5 (2 : Fin 14) (1 : Fin 2) _ _ t q).trans ((?_ : _ = _).trans (read_v10 (1 : Fin 9) (0 : Fin 2) (2 : Fin 8) _ _ t q).symm)
  unfold V5c OUTc
  rw [Cert.Layout.deltaV_apply]
  refine Eq.trans ?_ (outV_at _ _ _ _ _ _ _ t _ q (show 8 * 0 + 2 < 14 by decide)).symm
  rfl
theorem val2_0 (m : (ℓ : Loc nD τ sig) → Buf (Elt F) ℓ) (d : Dev nD) :
    (SRC2).view.read (Elt F) (V5c m d) = (OUT2_0).view.read (Elt F) (OUTc m d) := by
  funext y
  obtain ⟨t, q, rfl⟩ : ∃ (t q : Fin 128), y = ix2 t q := ⟨y 0, y 1, eq_ix2 y⟩
  refine (read_v5 (10 : Fin 14) (0 : Fin 2) _ _ t q).trans ((?_ : _ = _).trans (read_v10 (0 : Fin 9) (1 : Fin 2) (2 : Fin 8) _ _ t q).symm)
  unfold V5c OUTc
  rw [Cert.Layout.deltaV_apply]
  refine Eq.trans ?_ (outV_at _ _ _ _ _ _ _ t _ q (show 8 * 1 + 2 < 14 by decide)).symm
  rfl

/-! ## The run -/

open Lean Elab Tactic Meta in
/-- Unfold the names the symbolic run gave to the values its copies carry. -/
elab "unfold_carried" : tactic => do
  for _ in [0:6] do
    let g ← getMainGoal
    let t ← instantiateMVars (← g.getType)
    if (t.getUsedConstants.any fun n => n.components.any (· == `sl)) then
      let t' ← deltaExpand t (fun n => n.components.any (· == `sl))
      let g' ← g.change t' (checkDefEq := false)
      replaceMainGoal [g']

variable [FloatOps F] [∀ e, Nonempty (Elt F e)]

theorem run (m : (ℓ : Loc nD τ sig) → Buf (Elt F) ℓ) (d : Dev nD) (O : CellTallies nD τ sig (HIx 1)) (W : Waits sig (HIx 1)) (hO : ∀ g, O g none = 0) :
    (iprop(levAts (K (F := F)).L (K (F := F)).lev ∗ tileG m d (12 : Fin 32)
        ∗ scopedBufs (TH d) ∗ scopedSems0 (TH d) ∗ owes (TH d) O W) : sProp 𝕄)
      ⊢ wp frame (wpE (defs₀ (F := F)) 𝒱₀ (TH d) none) Set.univ
          (cc0_run LL (Memref.whole main_v2_scv) (Memref.isWhole_whole _) (Memref.whole main_v7_scv) (Memref.isWhole_whole _) (Memref.whole main_v5_scv) (Memref.isWhole_whole _) (Memref.whole main_v9_scv) (Memref.isWhole_whole _) (Memref.whole main_v10_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8)
          fun _ => iprop(tileT m d (12 : Fin 32) ∗ scopedBufs (TH d) ∗ scopedSems0 (TH d)
            ∗ ∃ W', ⌜∀ p ∈ W', p ∈ W ∨ p.2 = none⌝ ∗ owes (TH d) O W') := by
  rw [(K (F := F)).scopedBufs_V facts d (cV LL) (jV LL), SparseCore.Cfg.scopedSems0_V (Val := Elt F) d (cV LL) (jV LL), ownSems0_V, ownBufs_V]
  unfold tileG tileT
  iintro ⟨#Hlv, ⟨HF2, -, HF5, -, HF10⟩, ⟨⟨%fb0, Hb0⟩, ⟨%fb1, Hb1⟩, ⟨%fb2, Hb2⟩, Hbufs⟩, ⟨Hs3, Hs4, Hs5, Hs6, Hs7, Hs8, Hsems⟩, HO⟩
  ihave HF2' := (Entails.of_eq (open2 m d)) $$ HF2
  icases HF2' with HS0
  ihave HF5' := (Entails.of_eq (open5 m d)) $$ HF5
  icases HF5' with ⟨HS1, HS2⟩
  ihave HF10' := (Entails.of_eq (open10 m d)) $$ HF10
  icases HF10' with ⟨HO0_0, HO0_1, HO1_0, HO2_0⟩
  ihave Hmw := ((K (F := F)).mayWaits_none (thr := TH d) hO) $$ Hlv
  ihave Hb0' := (Entails.of_eq (pts_b0 d (cV LL) (jV LL) _).symm) $$ Hb0
  ihave Hb1' := (Entails.of_eq (pts_b1 d (cV LL) (jV LL) _).symm) $$ Hb1
  ihave Hb2' := (Entails.of_eq (pts_b2 d (cV LL) (jV LL) _).symm) $$ Hb2
  have _plan : Transfers.BatchOf (TH d) (SemLoc.dma (sig := sig) cc0_scratch6.sem) 2 (windows := true) := trivial
  sl_unfold [cc0_run]
  sl_exec_parts (disch := decide)
  sl_step
  isplitl [HS0 HS1 HS2 HO0_0 HO0_1 HO1_0 HO2_0]
  · skip
    isplitl [HS0]
    · iapply (Entails.of_eq (open2 m d).symm)
      iexact HS0
    isplitr
    · rw [show t7 (12 : Fin 32) = ∅ from rfl, bigSep_empty]; iempintro
    isplitl [HS1 HS2]
    · iapply (Entails.of_eq (open5 m d).symm)
      isplitl [HS1]; · iexact HS1
      iexact HS2
    isplitr
    · rw [show t9 (12 : Fin 32) = ∅ from rfl, bigSep_empty]; iempintro
    · iapply (Entails.of_eq (close10 m d).symm)
      isplitl [HO0_0]
      · iapply (out_post_ent (TH d) (OUT0_0) _ (OUTc m d) _ ?hv0_0) $$ HO0_0
        case hv0_0 => unfold_carried; simp only [ReadAs.apply_same, View.read_write_univ]; exact val0_0 m d
      isplitl [HO0_1]
      · iapply (out_post_ent (TH d) (OUT0_1) _ (OUTc m d) _ ?hv0_1) $$ HO0_1
        case hv0_1 => unfold_carried; simp only [ReadAs.apply_same, View.read_write_univ]; exact val0_1 m d
      isplitl [HO1_0]
      · iapply (out_post_ent (TH d) (OUT1_0) _ (OUTc m d) _ ?hv1_0) $$ HO1_0
        case hv1_0 => unfold_carried; simp only [ReadAs.apply_same, View.read_write_univ]; exact val1_0 m d
      iapply (out_post_ent (TH d) (OUT2_0) _ (OUTc m d) _ ?hv2_0) $$ HO2_0
      case hv2_0 => unfold_carried; simp only [ReadAs.apply_same, View.read_write_univ]; exact val2_0 m d

  isplitl [Hb0' Hb1' Hb2' Hbufs]
  · isplitl [Hb0']
    · iexists _; iapply (Entails.of_eq (pts_b0 d (cV LL) (jV LL) _)); iexact Hb0'
    isplitl [Hb1']
    · iexists _; iapply (Entails.of_eq (pts_b1 d (cV LL) (jV LL) _)); iexact Hb1'
    isplitl [Hb2']
    · iexists _; iapply (Entails.of_eq (pts_b2 d (cV LL) (jV LL) _)); iexact Hb2'
    iexact Hbufs
  isplitl [Hs3 Hs4 Hs5 Hs6 Hs7 Hs8 Hsems]
  · isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    iexact Hsems
  iexists _; isplitr
  rotate_left
  · iexact HO
  · ipureintro; intro p hp
    simp only [Finset.mem_insert] at hp
    rcases hp with rfl | rfl | rfl | rfl | rfl | rfl | rfl | hp <;> first | exact .inr rfl | exact .inl hp

end Cert.Proof.KB.Tile12

end
-- ==== Proof.KBTile13.lean ====
/-
  Tile 13 of the kernel (subcore 6 of core 1): one slice in (pose7.1), 2 out; one slice in (len2), 1 out; one slice in (delta10.1), 1 out.
  Its whole body is run: every copy it does not own is skipped by the comparison of its number with the copy's owner;
  each incoming copy fills a staging buffer, each outgoing copy carries that buffer into one slice of the output array,
  and what each output slice then holds is the source slice the specification asks for there.
-/
import proofs.«210185_g18468359372994_cont_8to1_1390_15_alg».proof.Proof.KBRead

set_option maxHeartbeats 4000000
set_option quotPrecheck false

noncomputable section

namespace Cert.Proof.KB.Tile13

open Cert.Kernel Cert.Kernel.Gen
open Cert.Proof.KB
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
theorem cLt : 1 < grid0.bound 0 := by decide
theorem sLt : 6 < grid0.bound 1 := by decide
local notation "LL" => (coordsV (⟨1, cLt⟩ : Fin (grid0.bound 0)) (⟨6, sLt⟩ : Fin (grid0.bound 1)))
local notation "TH" d => V d (cV LL) (jV LL)
local notation "SRC0" => (((Memref.whole main_v2_scv).slice (Rect.unit (s := S17x128x2x128) ![7, 0, 1, 0] S1x128x1x128.size inb_S17x128x2x128_S1x128x1x128_7_0_1_0) (fun _ => rfl)).squeeze S128x128 squeezes_S1x128x1x128_S128x128 : Memref sig .scVector .hbm S128x128 .f32)
local notation "OUT0_0" => (((Memref.whole main_v10_scv).slice (Rect.unit (s := S9x2x128x8x128) ![6, 0, 0, 0, 0] S1x1x128x1x128.size inb_S9x2x128x8x128_S1x1x128x1x128_6_0_0_0_0) (fun _ => rfl)).squeeze S128x128 squeezes_S1x1x128x1x128_S128x128 : Memref sig .scVector .hbm S128x128 .f32)
local notation "OUT0_1" => (((Memref.whole main_v10_scv).slice (Rect.unit (s := S9x2x128x8x128) ![4, 0, 0, 1, 0] S1x1x128x1x128.size inb_S9x2x128x8x128_S1x1x128x1x128_4_0_0_1_0) (fun _ => rfl)).squeeze S128x128 squeezes_S1x1x128x1x128_S128x128 : Memref sig .scVector .hbm S128x128 .f32)
local notation "SRC1" => (((Memref.whole main_v9_scv).slice (Rect.unit (s := S14x128x128) ![2, 0, 0] S1x128x128.size inb_S14x128x128_S1x128x128_2_0_0) (fun _ => rfl)).squeeze S128x128 squeezes_S1x128x128_S128x128 : Memref sig .scVector .hbm S128x128 .f32)
local notation "OUT1_0" => (((Memref.whole main_v10_scv).slice (Rect.unit (s := S9x2x128x8x128) ![2, 0, 0, 2, 0] S1x1x128x1x128.size inb_S9x2x128x8x128_S1x1x128x1x128_2_0_0_2_0) (fun _ => rfl)).squeeze S128x128 squeezes_S1x1x128x1x128_S128x128 : Memref sig .scVector .hbm S128x128 .f32)
local notation "SRC2" => (((Memref.whole main_v5_scv).slice (Rect.unit (s := S14x128x2x128) ![10, 0, 1, 0] S1x128x1x128.size inb_S14x128x2x128_S1x128x1x128_10_0_1_0) (fun _ => rfl)).squeeze S128x128 squeezes_S1x128x1x128_S128x128 : Memref sig .scVector .hbm S128x128 .f32)
local notation "OUT2_0" => (((Memref.whole main_v10_scv).slice (Rect.unit (s := S9x2x128x8x128) ![1, 1, 0, 2, 0] S1x1x128x1x128.size inb_S9x2x128x8x128_S1x1x128x1x128_1_1_0_2_0) (fun _ => rfl)).squeeze S128x128 squeezes_S1x1x128x1x128_S128x128 : Memref sig .scVector .hbm S128x128 .f32)

/-! ## The tile's slices, as its memrefs name them -/

theorem open2 (m : (ℓ : Loc nD τ sig) → Buf (Elt F) ℓ) (d : Dev nD) :
    (bigSep (t2 (13 : Fin 32)) (A2 m d) : sProp 𝕄) = iprop(((SRC0).view.loc (TH d) ↦[(SRC0).view.set]{fullShare} V2c m d)) := by
  show bigSep ({((7 : Fin 17), (1 : Fin 2))} : Finset (Fin 17 × Fin 2)) (A2 m d) = _
  rw [bigSep_singleton]
  exact (pts_v2 d (cV LL) (jV LL) (7 : Fin 17) (1 : Fin 2) _ (V2c m d)).symm
theorem open5 (m : (ℓ : Loc nD τ sig) → Buf (Elt F) ℓ) (d : Dev nD) :
    (bigSep (t5 (13 : Fin 32)) (A5 m d) : sProp 𝕄) = iprop(((SRC2).view.loc (TH d) ↦[(SRC2).view.set]{fullShare} V5c m d)) := by
  show bigSep ({((10 : Fin 14), (1 : Fin 2))} : Finset (Fin 14 × Fin 2)) (A5 m d) = _
  rw [bigSep_singleton]
  exact (pts_v5 d (cV LL) (jV LL) (10 : Fin 14) (1 : Fin 2) _ (V5c m d)).symm
theorem open9 (m : (ℓ : Loc nD τ sig) → Buf (Elt F) ℓ) (d : Dev nD) :
    (bigSep (t9 (13 : Fin 32)) (A9 m d) : sProp 𝕄) = iprop(((SRC1).view.loc (TH d) ↦[(SRC1).view.set]{fullShare} V9c m d)) := by
  show bigSep ({(2 : Fin 14)} : Finset (Fin 14)) (A9 m d) = _
  rw [bigSep_singleton]
  exact (pts_v9 d (cV LL) (jV LL) (2 : Fin 14) _ (V9c m d)).symm
theorem open10 (m : (ℓ : Loc nD τ sig) → Buf (Elt F) ℓ) (d : Dev nD) :
    (bigSep (t10 (13 : Fin 32)) (B0 m d) : sProp 𝕄) = iprop(((OUT0_0).view.loc (TH d) ↦[(OUT0_0).view.set]{fullShare} m (v10L d)) ∗ ((OUT0_1).view.loc (TH d) ↦[(OUT0_1).view.set]{fullShare} m (v10L d)) ∗ ((OUT1_0).view.loc (TH d) ↦[(OUT1_0).view.set]{fullShare} m (v10L d)) ∗ ((OUT2_0).view.loc (TH d) ↦[(OUT2_0).view.set]{fullShare} m (v10L d))) := by
  show bigSep ({((6 : Fin 9), (0 : Fin 2), (0 : Fin 8)), ((4 : Fin 9), (0 : Fin 2), (1 : Fin 8)), ((2 : Fin 9), (0 : Fin 2), (2 : Fin 8)), ((1 : Fin 9), (1 : Fin 2), (2 : Fin 8))} : Finset (Fin 9 × Fin 2 × Fin 8)) (B0 m d) = _
  rw [SparseCore.bigSep_insert' (by decide), SparseCore.bigSep_insert' (by decide), SparseCore.bigSep_insert' (by decide), bigSep_singleton]
  exact (congrArg₂ (fun a b : sProp 𝕄 => iprop(a ∗ b)) (pts_v10 d (cV LL) (jV LL) (6 : Fin 9) (0 : Fin 2) (0 : Fin 8) _ (m (v10L d))).symm (congrArg₂ (fun a b : sProp 𝕄 => iprop(a ∗ b)) (pts_v10 d (cV LL) (jV LL) (4 : Fin 9) (0 : Fin 2) (1 : Fin 8) _ (m (v10L d))).symm (congrArg₂ (fun a b : sProp 𝕄 => iprop(a ∗ b)) (pts_v10 d (cV LL) (jV LL) (2 : Fin 9) (0 : Fin 2) (2 : Fin 8) _ (m (v10L d))).symm (pts_v10 d (cV LL) (jV LL) (1 : Fin 9) (1 : Fin 2) (2 : Fin 8) _ (m (v10L d))).symm)))
theorem close10 (m : (ℓ : Loc nD τ sig) → Buf (Elt F) ℓ) (d : Dev nD) :
    (bigSep (t10 (13 : Fin 32)) (B1 m d) : sProp 𝕄) = iprop(((OUT0_0).view.loc (TH d) ↦[(OUT0_0).view.set]{fullShare} OUTc m d) ∗ ((OUT0_1).view.loc (TH d) ↦[(OUT0_1).view.set]{fullShare} OUTc m d) ∗ ((OUT1_0).view.loc (TH d) ↦[(OUT1_0).view.set]{fullShare} OUTc m d) ∗ ((OUT2_0).view.loc (TH d) ↦[(OUT2_0).view.set]{fullShare} OUTc m d)) := by
  show bigSep ({((6 : Fin 9), (0 : Fin 2), (0 : Fin 8)), ((4 : Fin 9), (0 : Fin 2), (1 : Fin 8)), ((2 : Fin 9), (0 : Fin 2), (2 : Fin 8)), ((1 : Fin 9), (1 : Fin 2), (2 : Fin 8))} : Finset (Fin 9 × Fin 2 × Fin 8)) (B1 m d) = _
  rw [SparseCore.bigSep_insert' (by decide), SparseCore.bigSep_insert' (by decide), SparseCore.bigSep_insert' (by decide), bigSep_singleton]
  exact (congrArg₂ (fun a b : sProp 𝕄 => iprop(a ∗ b)) (pts_v10 d (cV LL) (jV LL) (6 : Fin 9) (0 : Fin 2) (0 : Fin 8) _ (OUTc m d)).symm (congrArg₂ (fun a b : sProp 𝕄 => iprop(a ∗ b)) (pts_v10 d (cV LL) (jV LL) (4 : Fin 9) (0 : Fin 2) (1 : Fin 8) _ (OUTc m d)).symm (congrArg₂ (fun a b : sProp 𝕄 => iprop(a ∗ b)) (pts_v10 d (cV LL) (jV LL) (2 : Fin 9) (0 : Fin 2) (2 : Fin 8) _ (OUTc m d)).symm (pts_v10 d (cV LL) (jV LL) (1 : Fin 9) (1 : Fin 2) (2 : Fin 8) _ (OUTc m d)).symm)))

/-! ## What each output slice has to hold is what its source slice holds -/

theorem val0_0 (m : (ℓ : Loc nD τ sig) → Buf (Elt F) ℓ) (d : Dev nD) :
    (SRC0).view.read (Elt F) (V2c m d) = (OUT0_0).view.read (Elt F) (OUTc m d) := by
  funext y
  obtain ⟨t, q, rfl⟩ : ∃ (t q : Fin 128), y = ix2 t q := ⟨y 0, y 1, eq_ix2 y⟩
  refine (read_v2 (7 : Fin 17) (1 : Fin 2) _ _ t q).trans ((?_ : _ = _).trans (read_v10 (6 : Fin 9) (0 : Fin 2) (0 : Fin 8) _ _ t q).symm)
  unfold V2c OUTc
  rw [Cert.Layout.poseV_apply]
  refine Eq.trans ?_ (outV_at _ _ _ _ _ _ _ t _ q (show 8 * 0 + 0 < 14 by decide)).symm
  rfl
theorem val0_1 (m : (ℓ : Loc nD τ sig) → Buf (Elt F) ℓ) (d : Dev nD) :
    (SRC0).view.read (Elt F) (V2c m d) = (OUT0_1).view.read (Elt F) (OUTc m d) := by
  funext y
  obtain ⟨t, q, rfl⟩ : ∃ (t q : Fin 128), y = ix2 t q := ⟨y 0, y 1, eq_ix2 y⟩
  refine (read_v2 (7 : Fin 17) (1 : Fin 2) _ _ t q).trans ((?_ : _ = _).trans (read_v10 (4 : Fin 9) (0 : Fin 2) (1 : Fin 8) _ _ t q).symm)
  unfold V2c OUTc
  rw [Cert.Layout.poseV_apply]
  refine Eq.trans ?_ (outV_at _ _ _ _ _ _ _ t _ q (show 8 * 0 + 1 < 14 by decide)).symm
  rfl
theorem val1_0 (m : (ℓ : Loc nD τ sig) → Buf (Elt F) ℓ) (d : Dev nD) :
    (SRC1).view.read (Elt F) (V9c m d) = (OUT1_0).view.read (Elt F) (OUTc m d) := by
  funext y
  obtain ⟨t, q, rfl⟩ : ∃ (t q : Fin 128), y = ix2 t q := ⟨y 0, y 1, eq_ix2 y⟩
  refine (read_v9 (2 : Fin 14) _ _ t q).trans ((?_ : _ = _).trans (read_v10 (2 : Fin 9) (0 : Fin 2) (2 : Fin 8) _ _ t q).symm)
  unfold V9c OUTc
  rw [Cert.Layout.lenV_apply]
  refine Eq.trans ?_ (outV_at _ _ _ _ _ _ _ t _ q (show 8 * 0 + 2 < 14 by decide)).symm
  rfl
theorem val2_0 (m : (ℓ : Loc nD τ sig) → Buf (Elt F) ℓ) (d : Dev nD) :
    (SRC2).view.read (Elt F) (V5c m d) = (OUT2_0).view.read (Elt F) (OUTc m d) := by
  funext y
  obtain ⟨t, q, rfl⟩ : ∃ (t q : Fin 128), y = ix2 t q := ⟨y 0, y 1, eq_ix2 y⟩
  refine (read_v5 (10 : Fin 14) (1 : Fin 2) _ _ t q).trans ((?_ : _ = _).trans (read_v10 (1 : Fin 9) (1 : Fin 2) (2 : Fin 8) _ _ t q).symm)
  unfold V5c OUTc
  rw [Cert.Layout.deltaV_apply]
  refine Eq.trans ?_ (outV_at _ _ _ _ _ _ _ t _ q (show 8 * 1 + 2 < 14 by decide)).symm
  rfl

/-! ## The run -/

open Lean Elab Tactic Meta in
/-- Unfold the names the symbolic run gave to the values its copies carry. -/
elab "unfold_carried" : tactic => do
  for _ in [0:6] do
    let g ← getMainGoal
    let t ← instantiateMVars (← g.getType)
    if (t.getUsedConstants.any fun n => n.components.any (· == `sl)) then
      let t' ← deltaExpand t (fun n => n.components.any (· == `sl))
      let g' ← g.change t' (checkDefEq := false)
      replaceMainGoal [g']

variable [FloatOps F] [∀ e, Nonempty (Elt F e)]

theorem run (m : (ℓ : Loc nD τ sig) → Buf (Elt F) ℓ) (d : Dev nD) (O : CellTallies nD τ sig (HIx 1)) (W : Waits sig (HIx 1)) (hO : ∀ g, O g none = 0) :
    (iprop(levAts (K (F := F)).L (K (F := F)).lev ∗ tileG m d (13 : Fin 32)
        ∗ scopedBufs (TH d) ∗ scopedSems0 (TH d) ∗ owes (TH d) O W) : sProp 𝕄)
      ⊢ wp frame (wpE (defs₀ (F := F)) 𝒱₀ (TH d) none) Set.univ
          (cc0_run LL (Memref.whole main_v2_scv) (Memref.isWhole_whole _) (Memref.whole main_v7_scv) (Memref.isWhole_whole _) (Memref.whole main_v5_scv) (Memref.isWhole_whole _) (Memref.whole main_v9_scv) (Memref.isWhole_whole _) (Memref.whole main_v10_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8)
          fun _ => iprop(tileT m d (13 : Fin 32) ∗ scopedBufs (TH d) ∗ scopedSems0 (TH d)
            ∗ ∃ W', ⌜∀ p ∈ W', p ∈ W ∨ p.2 = none⌝ ∗ owes (TH d) O W') := by
  rw [(K (F := F)).scopedBufs_V facts d (cV LL) (jV LL), SparseCore.Cfg.scopedSems0_V (Val := Elt F) d (cV LL) (jV LL), ownSems0_V, ownBufs_V]
  unfold tileG tileT
  iintro ⟨#Hlv, ⟨HF2, -, HF5, HF9, HF10⟩, ⟨⟨%fb0, Hb0⟩, ⟨%fb1, Hb1⟩, ⟨%fb2, Hb2⟩, Hbufs⟩, ⟨Hs3, Hs4, Hs5, Hs6, Hs7, Hs8, Hsems⟩, HO⟩
  ihave HF2' := (Entails.of_eq (open2 m d)) $$ HF2
  icases HF2' with HS0
  ihave HF5' := (Entails.of_eq (open5 m d)) $$ HF5
  icases HF5' with HS2
  ihave HF9' := (Entails.of_eq (open9 m d)) $$ HF9
  icases HF9' with HS1
  ihave HF10' := (Entails.of_eq (open10 m d)) $$ HF10
  icases HF10' with ⟨HO0_0, HO0_1, HO1_0, HO2_0⟩
  ihave Hmw := ((K (F := F)).mayWaits_none (thr := TH d) hO) $$ Hlv
  ihave Hb0' := (Entails.of_eq (pts_b0 d (cV LL) (jV LL) _).symm) $$ Hb0
  ihave Hb1' := (Entails.of_eq (pts_b1 d (cV LL) (jV LL) _).symm) $$ Hb1
  ihave Hb2' := (Entails.of_eq (pts_b2 d (cV LL) (jV LL) _).symm) $$ Hb2
  have _plan : Transfers.BatchOf (TH d) (SemLoc.dma (sig := sig) cc0_scratch6.sem) 2 (windows := true) := trivial
  sl_unfold [cc0_run]
  sl_exec_parts (disch := decide)
  sl_step
  isplitl [HS0 HS2 HS1 HO0_0 HO0_1 HO1_0 HO2_0]
  · skip
    isplitl [HS0]
    · iapply (Entails.of_eq (open2 m d).symm)
      iexact HS0
    isplitr
    · rw [show t7 (13 : Fin 32) = ∅ from rfl, bigSep_empty]; iempintro
    isplitl [HS2]
    · iapply (Entails.of_eq (open5 m d).symm)
      iexact HS2
    isplitl [HS1]
    · iapply (Entails.of_eq (open9 m d).symm)
      iexact HS1
    · iapply (Entails.of_eq (close10 m d).symm)
      isplitl [HO0_0]
      · iapply (out_post_ent (TH d) (OUT0_0) _ (OUTc m d) _ ?hv0_0) $$ HO0_0
        case hv0_0 => unfold_carried; simp only [ReadAs.apply_same, View.read_write_univ]; exact val0_0 m d
      isplitl [HO0_1]
      · iapply (out_post_ent (TH d) (OUT0_1) _ (OUTc m d) _ ?hv0_1) $$ HO0_1
        case hv0_1 => unfold_carried; simp only [ReadAs.apply_same, View.read_write_univ]; exact val0_1 m d
      isplitl [HO1_0]
      · iapply (out_post_ent (TH d) (OUT1_0) _ (OUTc m d) _ ?hv1_0) $$ HO1_0
        case hv1_0 => unfold_carried; simp only [ReadAs.apply_same, View.read_write_univ]; exact val1_0 m d
      iapply (out_post_ent (TH d) (OUT2_0) _ (OUTc m d) _ ?hv2_0) $$ HO2_0
      case hv2_0 => unfold_carried; simp only [ReadAs.apply_same, View.read_write_univ]; exact val2_0 m d

  isplitl [Hb0' Hb1' Hb2' Hbufs]
  · isplitl [Hb0']
    · iexists _; iapply (Entails.of_eq (pts_b0 d (cV LL) (jV LL) _)); iexact Hb0'
    isplitl [Hb1']
    · iexists _; iapply (Entails.of_eq (pts_b1 d (cV LL) (jV LL) _)); iexact Hb1'
    isplitl [Hb2']
    · iexists _; iapply (Entails.of_eq (pts_b2 d (cV LL) (jV LL) _)); iexact Hb2'
    iexact Hbufs
  isplitl [Hs3 Hs4 Hs5 Hs6 Hs7 Hs8 Hsems]
  · isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    iexact Hsems
  iexists _; isplitr
  rotate_left
  · iexact HO
  · ipureintro; intro p hp
    simp only [Finset.mem_insert] at hp
    rcases hp with rfl | rfl | rfl | rfl | rfl | rfl | rfl | hp <;> first | exact .inr rfl | exact .inl hp

end Cert.Proof.KB.Tile13

end
-- ==== Proof.KBTile14.lean ====
/-
  Tile 14 of the kernel (subcore 7 of core 0): one slice in (vis7), 2 out; one slice in (delta3.0), 1 out; one slice in (len10), 1 out.
  Its whole body is run: every copy it does not own is skipped by the comparison of its number with the copy's owner;
  each incoming copy fills a staging buffer, each outgoing copy carries that buffer into one slice of the output array,
  and what each output slice then holds is the source slice the specification asks for there.
-/
import proofs.«210185_g18468359372994_cont_8to1_1390_15_alg».proof.Proof.KBRead

set_option maxHeartbeats 4000000
set_option quotPrecheck false

noncomputable section

namespace Cert.Proof.KB.Tile14

open Cert.Kernel Cert.Kernel.Gen
open Cert.Proof.KB
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
theorem cLt : 0 < grid0.bound 0 := by decide
theorem sLt : 7 < grid0.bound 1 := by decide
local notation "LL" => (coordsV (⟨0, cLt⟩ : Fin (grid0.bound 0)) (⟨7, sLt⟩ : Fin (grid0.bound 1)))
local notation "TH" d => V d (cV LL) (jV LL)
local notation "SRC0" => (((Memref.whole main_v7_scv).slice (Rect.unit (s := S17x128x128) ![7, 0, 0] S1x128x128.size inb_S17x128x128_S1x128x128_7_0_0) (fun _ => rfl)).squeeze S128x128 squeezes_S1x128x128_S128x128 : Memref sig .scVector .hbm S128x128 .f32)
local notation "OUT0_0" => (((Memref.whole main_v10_scv).slice (Rect.unit (s := S9x2x128x8x128) ![8, 0, 0, 0, 0] S1x1x128x1x128.size inb_S9x2x128x8x128_S1x1x128x1x128_8_0_0_0_0) (fun _ => rfl)).squeeze S128x128 squeezes_S1x1x128x1x128_S128x128 : Memref sig .scVector .hbm S128x128 .f32)
local notation "OUT0_1" => (((Memref.whole main_v10_scv).slice (Rect.unit (s := S9x2x128x8x128) ![7, 0, 0, 1, 0] S1x1x128x1x128.size inb_S9x2x128x8x128_S1x1x128x1x128_7_0_0_1_0) (fun _ => rfl)).squeeze S128x128 squeezes_S1x1x128x1x128_S128x128 : Memref sig .scVector .hbm S128x128 .f32)
local notation "SRC1" => (((Memref.whole main_v5_scv).slice (Rect.unit (s := S14x128x2x128) ![3, 0, 0, 0] S1x128x1x128.size inb_S14x128x2x128_S1x128x1x128_3_0_0_0) (fun _ => rfl)).squeeze S128x128 squeezes_S1x128x1x128_S128x128 : Memref sig .scVector .hbm S128x128 .f32)
local notation "OUT1_0" => (((Memref.whole main_v10_scv).slice (Rect.unit (s := S9x2x128x8x128) ![0, 0, 0, 3, 0] S1x1x128x1x128.size inb_S9x2x128x8x128_S1x1x128x1x128_0_0_0_3_0) (fun _ => rfl)).squeeze S128x128 squeezes_S1x1x128x1x128_S128x128 : Memref sig .scVector .hbm S128x128 .f32)
local notation "SRC2" => (((Memref.whole main_v9_scv).slice (Rect.unit (s := S14x128x128) ![10, 0, 0] S1x128x128.size inb_S14x128x128_S1x128x128_10_0_0) (fun _ => rfl)).squeeze S128x128 squeezes_S1x128x128_S128x128 : Memref sig .scVector .hbm S128x128 .f32)
local notation "OUT2_0" => (((Memref.whole main_v10_scv).slice (Rect.unit (s := S9x2x128x8x128) ![2, 1, 0, 2, 0] S1x1x128x1x128.size inb_S9x2x128x8x128_S1x1x128x1x128_2_1_0_2_0) (fun _ => rfl)).squeeze S128x128 squeezes_S1x1x128x1x128_S128x128 : Memref sig .scVector .hbm S128x128 .f32)

/-! ## The tile's slices, as its memrefs name them -/

theorem open7 (m : (ℓ : Loc nD τ sig) → Buf (Elt F) ℓ) (d : Dev nD) :
    (bigSep (t7 (14 : Fin 32)) (A7 m d) : sProp 𝕄) = iprop(((SRC0).view.loc (TH d) ↦[(SRC0).view.set]{fullShare} V7c m d)) := by
  show bigSep ({(7 : Fin 17)} : Finset (Fin 17)) (A7 m d) = _
  rw [bigSep_singleton]
  exact (pts_v7 d (cV LL) (jV LL) (7 : Fin 17) _ (V7c m d)).symm
theorem open5 (m : (ℓ : Loc nD τ sig) → Buf (Elt F) ℓ) (d : Dev nD) :
    (bigSep (t5 (14 : Fin 32)) (A5 m d) : sProp 𝕄) = iprop(((SRC1).view.loc (TH d) ↦[(SRC1).view.set]{fullShare} V5c m d)) := by
  show bigSep ({((3 : Fin 14), (0 : Fin 2))} : Finset (Fin 14 × Fin 2)) (A5 m d) = _
  rw [bigSep_singleton]
  exact (pts_v5 d (cV LL) (jV LL) (3 : Fin 14) (0 : Fin 2) _ (V5c m d)).symm
theorem open9 (m : (ℓ : Loc nD τ sig) → Buf (Elt F) ℓ) (d : Dev nD) :
    (bigSep (t9 (14 : Fin 32)) (A9 m d) : sProp 𝕄) = iprop(((SRC2).view.loc (TH d) ↦[(SRC2).view.set]{fullShare} V9c m d)) := by
  show bigSep ({(10 : Fin 14)} : Finset (Fin 14)) (A9 m d) = _
  rw [bigSep_singleton]
  exact (pts_v9 d (cV LL) (jV LL) (10 : Fin 14) _ (V9c m d)).symm
theorem open10 (m : (ℓ : Loc nD τ sig) → Buf (Elt F) ℓ) (d : Dev nD) :
    (bigSep (t10 (14 : Fin 32)) (B0 m d) : sProp 𝕄) = iprop(((OUT0_0).view.loc (TH d) ↦[(OUT0_0).view.set]{fullShare} m (v10L d)) ∗ ((OUT0_1).view.loc (TH d) ↦[(OUT0_1).view.set]{fullShare} m (v10L d)) ∗ ((OUT1_0).view.loc (TH d) ↦[(OUT1_0).view.set]{fullShare} m (v10L d)) ∗ ((OUT2_0).view.loc (TH d) ↦[(OUT2_0).view.set]{fullShare} m (v10L d))) := by
  show bigSep ({((8 : Fin 9), (0 : Fin 2), (0 : Fin 8)), ((7 : Fin 9), (0 : Fin 2), (1 : Fin 8)), ((0 : Fin 9), (0 : Fin 2), (3 : Fin 8)), ((2 : Fin 9), (1 : Fin 2), (2 : Fin 8))} : Finset (Fin 9 × Fin 2 × Fin 8)) (B0 m d) = _
  rw [SparseCore.bigSep_insert' (by decide), SparseCore.bigSep_insert' (by decide), SparseCore.bigSep_insert' (by decide), bigSep_singleton]
  exact (congrArg₂ (fun a b : sProp 𝕄 => iprop(a ∗ b)) (pts_v10 d (cV LL) (jV LL) (8 : Fin 9) (0 : Fin 2) (0 : Fin 8) _ (m (v10L d))).symm (congrArg₂ (fun a b : sProp 𝕄 => iprop(a ∗ b)) (pts_v10 d (cV LL) (jV LL) (7 : Fin 9) (0 : Fin 2) (1 : Fin 8) _ (m (v10L d))).symm (congrArg₂ (fun a b : sProp 𝕄 => iprop(a ∗ b)) (pts_v10 d (cV LL) (jV LL) (0 : Fin 9) (0 : Fin 2) (3 : Fin 8) _ (m (v10L d))).symm (pts_v10 d (cV LL) (jV LL) (2 : Fin 9) (1 : Fin 2) (2 : Fin 8) _ (m (v10L d))).symm)))
theorem close10 (m : (ℓ : Loc nD τ sig) → Buf (Elt F) ℓ) (d : Dev nD) :
    (bigSep (t10 (14 : Fin 32)) (B1 m d) : sProp 𝕄) = iprop(((OUT0_0).view.loc (TH d) ↦[(OUT0_0).view.set]{fullShare} OUTc m d) ∗ ((OUT0_1).view.loc (TH d) ↦[(OUT0_1).view.set]{fullShare} OUTc m d) ∗ ((OUT1_0).view.loc (TH d) ↦[(OUT1_0).view.set]{fullShare} OUTc m d) ∗ ((OUT2_0).view.loc (TH d) ↦[(OUT2_0).view.set]{fullShare} OUTc m d)) := by
  show bigSep ({((8 : Fin 9), (0 : Fin 2), (0 : Fin 8)), ((7 : Fin 9), (0 : Fin 2), (1 : Fin 8)), ((0 : Fin 9), (0 : Fin 2), (3 : Fin 8)), ((2 : Fin 9), (1 : Fin 2), (2 : Fin 8))} : Finset (Fin 9 × Fin 2 × Fin 8)) (B1 m d) = _
  rw [SparseCore.bigSep_insert' (by decide), SparseCore.bigSep_insert' (by decide), SparseCore.bigSep_insert' (by decide), bigSep_singleton]
  exact (congrArg₂ (fun a b : sProp 𝕄 => iprop(a ∗ b)) (pts_v10 d (cV LL) (jV LL) (8 : Fin 9) (0 : Fin 2) (0 : Fin 8) _ (OUTc m d)).symm (congrArg₂ (fun a b : sProp 𝕄 => iprop(a ∗ b)) (pts_v10 d (cV LL) (jV LL) (7 : Fin 9) (0 : Fin 2) (1 : Fin 8) _ (OUTc m d)).symm (congrArg₂ (fun a b : sProp 𝕄 => iprop(a ∗ b)) (pts_v10 d (cV LL) (jV LL) (0 : Fin 9) (0 : Fin 2) (3 : Fin 8) _ (OUTc m d)).symm (pts_v10 d (cV LL) (jV LL) (2 : Fin 9) (1 : Fin 2) (2 : Fin 8) _ (OUTc m d)).symm)))

/-! ## What each output slice has to hold is what its source slice holds -/

theorem val0_0 (m : (ℓ : Loc nD τ sig) → Buf (Elt F) ℓ) (d : Dev nD) :
    (SRC0).view.read (Elt F) (V7c m d) = (OUT0_0).view.read (Elt F) (OUTc m d) := by
  funext y
  obtain ⟨t, q, rfl⟩ : ∃ (t q : Fin 128), y = ix2 t q := ⟨y 0, y 1, eq_ix2 y⟩
  refine (read_v7 (7 : Fin 17) _ _ t q).trans ((?_ : _ = _).trans (read_v10 (8 : Fin 9) (0 : Fin 2) (0 : Fin 8) _ _ t q).symm)
  unfold V7c OUTc
  rw [Cert.Layout.visV_apply]
  refine Eq.trans ?_ (outV_at _ _ _ _ _ _ _ t _ q (show 8 * 0 + 0 < 14 by decide)).symm
  rfl
theorem val0_1 (m : (ℓ : Loc nD τ sig) → Buf (Elt F) ℓ) (d : Dev nD) :
    (SRC0).view.read (Elt F) (V7c m d) = (OUT0_1).view.read (Elt F) (OUTc m d) := by
  funext y
  obtain ⟨t, q, rfl⟩ : ∃ (t q : Fin 128), y = ix2 t q := ⟨y 0, y 1, eq_ix2 y⟩
  refine (read_v7 (7 : Fin 17) _ _ t q).trans ((?_ : _ = _).trans (read_v10 (7 : Fin 9) (0 : Fin 2) (1 : Fin 8) _ _ t q).symm)
  unfold V7c OUTc
  rw [Cert.Layout.visV_apply]
  refine Eq.trans ?_ (outV_at _ _ _ _ _ _ _ t _ q (show 8 * 0 + 1 < 14 by decide)).symm
  rfl
theorem val1_0 (m : (ℓ : Loc nD τ sig) → Buf (Elt F) ℓ) (d : Dev nD) :
    (SRC1).view.read (Elt F) (V5c m d) = (OUT1_0).view.read (Elt F) (OUTc m d) := by
  funext y
  obtain ⟨t, q, rfl⟩ : ∃ (t q : Fin 128), y = ix2 t q := ⟨y 0, y 1, eq_ix2 y⟩
  refine (read_v5 (3 : Fin 14) (0 : Fin 2) _ _ t q).trans ((?_ : _ = _).trans (read_v10 (0 : Fin 9) (0 : Fin 2) (3 : Fin 8) _ _ t q).symm)
  unfold V5c OUTc
  rw [Cert.Layout.deltaV_apply]
  refine Eq.trans ?_ (outV_at _ _ _ _ _ _ _ t _ q (show 8 * 0 + 3 < 14 by decide)).symm
  rfl
theorem val2_0 (m : (ℓ : Loc nD τ sig) → Buf (Elt F) ℓ) (d : Dev nD) :
    (SRC2).view.read (Elt F) (V9c m d) = (OUT2_0).view.read (Elt F) (OUTc m d) := by
  funext y
  obtain ⟨t, q, rfl⟩ : ∃ (t q : Fin 128), y = ix2 t q := ⟨y 0, y 1, eq_ix2 y⟩
  refine (read_v9 (10 : Fin 14) _ _ t q).trans ((?_ : _ = _).trans (read_v10 (2 : Fin 9) (1 : Fin 2) (2 : Fin 8) _ _ t q).symm)
  unfold V9c OUTc
  rw [Cert.Layout.lenV_apply]
  refine Eq.trans ?_ (outV_at _ _ _ _ _ _ _ t _ q (show 8 * 1 + 2 < 14 by decide)).symm
  rfl

/-! ## The run -/

open Lean Elab Tactic Meta in
/-- Unfold the names the symbolic run gave to the values its copies carry. -/
elab "unfold_carried" : tactic => do
  for _ in [0:6] do
    let g ← getMainGoal
    let t ← instantiateMVars (← g.getType)
    if (t.getUsedConstants.any fun n => n.components.any (· == `sl)) then
      let t' ← deltaExpand t (fun n => n.components.any (· == `sl))
      let g' ← g.change t' (checkDefEq := false)
      replaceMainGoal [g']

variable [FloatOps F] [∀ e, Nonempty (Elt F e)]

theorem run (m : (ℓ : Loc nD τ sig) → Buf (Elt F) ℓ) (d : Dev nD) (O : CellTallies nD τ sig (HIx 1)) (W : Waits sig (HIx 1)) (hO : ∀ g, O g none = 0) :
    (iprop(levAts (K (F := F)).L (K (F := F)).lev ∗ tileG m d (14 : Fin 32)
        ∗ scopedBufs (TH d) ∗ scopedSems0 (TH d) ∗ owes (TH d) O W) : sProp 𝕄)
      ⊢ wp frame (wpE (defs₀ (F := F)) 𝒱₀ (TH d) none) Set.univ
          (cc0_run LL (Memref.whole main_v2_scv) (Memref.isWhole_whole _) (Memref.whole main_v7_scv) (Memref.isWhole_whole _) (Memref.whole main_v5_scv) (Memref.isWhole_whole _) (Memref.whole main_v9_scv) (Memref.isWhole_whole _) (Memref.whole main_v10_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8)
          fun _ => iprop(tileT m d (14 : Fin 32) ∗ scopedBufs (TH d) ∗ scopedSems0 (TH d)
            ∗ ∃ W', ⌜∀ p ∈ W', p ∈ W ∨ p.2 = none⌝ ∗ owes (TH d) O W') := by
  rw [(K (F := F)).scopedBufs_V facts d (cV LL) (jV LL), SparseCore.Cfg.scopedSems0_V (Val := Elt F) d (cV LL) (jV LL), ownSems0_V, ownBufs_V]
  unfold tileG tileT
  iintro ⟨#Hlv, ⟨-, HF7, HF5, HF9, HF10⟩, ⟨⟨%fb0, Hb0⟩, ⟨%fb1, Hb1⟩, ⟨%fb2, Hb2⟩, Hbufs⟩, ⟨Hs3, Hs4, Hs5, Hs6, Hs7, Hs8, Hsems⟩, HO⟩
  ihave HF7' := (Entails.of_eq (open7 m d)) $$ HF7
  icases HF7' with HS0
  ihave HF5' := (Entails.of_eq (open5 m d)) $$ HF5
  icases HF5' with HS1
  ihave HF9' := (Entails.of_eq (open9 m d)) $$ HF9
  icases HF9' with HS2
  ihave HF10' := (Entails.of_eq (open10 m d)) $$ HF10
  icases HF10' with ⟨HO0_0, HO0_1, HO1_0, HO2_0⟩
  ihave Hmw := ((K (F := F)).mayWaits_none (thr := TH d) hO) $$ Hlv
  ihave Hb0' := (Entails.of_eq (pts_b0 d (cV LL) (jV LL) _).symm) $$ Hb0
  ihave Hb1' := (Entails.of_eq (pts_b1 d (cV LL) (jV LL) _).symm) $$ Hb1
  ihave Hb2' := (Entails.of_eq (pts_b2 d (cV LL) (jV LL) _).symm) $$ Hb2
  have _plan : Transfers.BatchOf (TH d) (SemLoc.dma (sig := sig) cc0_scratch6.sem) 2 (windows := true) := trivial
  sl_unfold [cc0_run]
  sl_exec_parts (disch := decide)
  sl_step
  isplitl [HS0 HS1 HS2 HO0_0 HO0_1 HO1_0 HO2_0]
  · skip
    isplitr
    · rw [show t2 (14 : Fin 32) = ∅ from rfl, bigSep_empty]; iempintro
    isplitl [HS0]
    · iapply (Entails.of_eq (open7 m d).symm)
      iexact HS0
    isplitl [HS1]
    · iapply (Entails.of_eq (open5 m d).symm)
      iexact HS1
    isplitl [HS2]
    · iapply (Entails.of_eq (open9 m d).symm)
      iexact HS2
    · iapply (Entails.of_eq (close10 m d).symm)
      isplitl [HO0_0]
      · iapply (out_post_ent (TH d) (OUT0_0) _ (OUTc m d) _ ?hv0_0) $$ HO0_0
        case hv0_0 => unfold_carried; simp only [ReadAs.apply_same, View.read_write_univ]; exact val0_0 m d
      isplitl [HO0_1]
      · iapply (out_post_ent (TH d) (OUT0_1) _ (OUTc m d) _ ?hv0_1) $$ HO0_1
        case hv0_1 => unfold_carried; simp only [ReadAs.apply_same, View.read_write_univ]; exact val0_1 m d
      isplitl [HO1_0]
      · iapply (out_post_ent (TH d) (OUT1_0) _ (OUTc m d) _ ?hv1_0) $$ HO1_0
        case hv1_0 => unfold_carried; simp only [ReadAs.apply_same, View.read_write_univ]; exact val1_0 m d
      iapply (out_post_ent (TH d) (OUT2_0) _ (OUTc m d) _ ?hv2_0) $$ HO2_0
      case hv2_0 => unfold_carried; simp only [ReadAs.apply_same, View.read_write_univ]; exact val2_0 m d

  isplitl [Hb0' Hb1' Hb2' Hbufs]
  · isplitl [Hb0']
    · iexists _; iapply (Entails.of_eq (pts_b0 d (cV LL) (jV LL) _)); iexact Hb0'
    isplitl [Hb1']
    · iexists _; iapply (Entails.of_eq (pts_b1 d (cV LL) (jV LL) _)); iexact Hb1'
    isplitl [Hb2']
    · iexists _; iapply (Entails.of_eq (pts_b2 d (cV LL) (jV LL) _)); iexact Hb2'
    iexact Hbufs
  isplitl [Hs3 Hs4 Hs5 Hs6 Hs7 Hs8 Hsems]
  · isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    iexact Hsems
  iexists _; isplitr
  rotate_left
  · iexact HO
  · ipureintro; intro p hp
    simp only [Finset.mem_insert] at hp
    rcases hp with rfl | rfl | rfl | rfl | rfl | rfl | rfl | hp <;> first | exact .inr rfl | exact .inl hp

end Cert.Proof.KB.Tile14

end
-- ==== Proof.KBTile15.lean ====
/-
  Tile 15 of the kernel (subcore 7 of core 1): one slice in (pose8.0), 2 out; one slice in (delta3.1), 1 out; one slice in (delta11.0), 1 out.
  Its whole body is run: every copy it does not own is skipped by the comparison of its number with the copy's owner;
  each incoming copy fills a staging buffer, each outgoing copy carries that buffer into one slice of the output array,
  and what each output slice then holds is the source slice the specification asks for there.
-/
import proofs.«210185_g18468359372994_cont_8to1_1390_15_alg».proof.Proof.KBRead

set_option maxHeartbeats 4000000
set_option quotPrecheck false

noncomputable section

namespace Cert.Proof.KB.Tile15

open Cert.Kernel Cert.Kernel.Gen
open Cert.Proof.KB
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
theorem cLt : 1 < grid0.bound 0 := by decide
theorem sLt : 7 < grid0.bound 1 := by decide
local notation "LL" => (coordsV (⟨1, cLt⟩ : Fin (grid0.bound 0)) (⟨7, sLt⟩ : Fin (grid0.bound 1)))
local notation "TH" d => V d (cV LL) (jV LL)
local notation "SRC0" => (((Memref.whole main_v2_scv).slice (Rect.unit (s := S17x128x2x128) ![8, 0, 0, 0] S1x128x1x128.size inb_S17x128x2x128_S1x128x1x128_8_0_0_0) (fun _ => rfl)).squeeze S128x128 squeezes_S1x128x1x128_S128x128 : Memref sig .scVector .hbm S128x128 .f32)
local notation "OUT0_0" => (((Memref.whole main_v10_scv).slice (Rect.unit (s := S9x2x128x8x128) ![5, 0, 0, 2, 0] S1x1x128x1x128.size inb_S9x2x128x8x128_S1x1x128x1x128_5_0_0_2_0) (fun _ => rfl)).squeeze S128x128 squeezes_S1x1x128x1x128_S128x128 : Memref sig .scVector .hbm S128x128 .f32)
local notation "OUT0_1" => (((Memref.whole main_v10_scv).slice (Rect.unit (s := S9x2x128x8x128) ![3, 0, 0, 3, 0] S1x1x128x1x128.size inb_S9x2x128x8x128_S1x1x128x1x128_3_0_0_3_0) (fun _ => rfl)).squeeze S128x128 squeezes_S1x1x128x1x128_S128x128 : Memref sig .scVector .hbm S128x128 .f32)
local notation "SRC1" => (((Memref.whole main_v5_scv).slice (Rect.unit (s := S14x128x2x128) ![3, 0, 1, 0] S1x128x1x128.size inb_S14x128x2x128_S1x128x1x128_3_0_1_0) (fun _ => rfl)).squeeze S128x128 squeezes_S1x128x1x128_S128x128 : Memref sig .scVector .hbm S128x128 .f32)
local notation "OUT1_0" => (((Memref.whole main_v10_scv).slice (Rect.unit (s := S9x2x128x8x128) ![1, 0, 0, 3, 0] S1x1x128x1x128.size inb_S9x2x128x8x128_S1x1x128x1x128_1_0_0_3_0) (fun _ => rfl)).squeeze S128x128 squeezes_S1x1x128x1x128_S128x128 : Memref sig .scVector .hbm S128x128 .f32)
local notation "SRC2" => (((Memref.whole main_v5_scv).slice (Rect.unit (s := S14x128x2x128) ![11, 0, 0, 0] S1x128x1x128.size inb_S14x128x2x128_S1x128x1x128_11_0_0_0) (fun _ => rfl)).squeeze S128x128 squeezes_S1x128x1x128_S128x128 : Memref sig .scVector .hbm S128x128 .f32)
local notation "OUT2_0" => (((Memref.whole main_v10_scv).slice (Rect.unit (s := S9x2x128x8x128) ![0, 1, 0, 3, 0] S1x1x128x1x128.size inb_S9x2x128x8x128_S1x1x128x1x128_0_1_0_3_0) (fun _ => rfl)).squeeze S128x128 squeezes_S1x1x128x1x128_S128x128 : Memref sig .scVector .hbm S128x128 .f32)

/-! ## The tile's slices, as its memrefs name them -/

theorem open2 (m : (ℓ : Loc nD τ sig) → Buf (Elt F) ℓ) (d : Dev nD) :
    (bigSep (t2 (15 : Fin 32)) (A2 m d) : sProp 𝕄) = iprop(((SRC0).view.loc (TH d) ↦[(SRC0).view.set]{fullShare} V2c m d)) := by
  show bigSep ({((8 : Fin 17), (0 : Fin 2))} : Finset (Fin 17 × Fin 2)) (A2 m d) = _
  rw [bigSep_singleton]
  exact (pts_v2 d (cV LL) (jV LL) (8 : Fin 17) (0 : Fin 2) _ (V2c m d)).symm
theorem open5 (m : (ℓ : Loc nD τ sig) → Buf (Elt F) ℓ) (d : Dev nD) :
    (bigSep (t5 (15 : Fin 32)) (A5 m d) : sProp 𝕄) = iprop(((SRC1).view.loc (TH d) ↦[(SRC1).view.set]{fullShare} V5c m d) ∗ ((SRC2).view.loc (TH d) ↦[(SRC2).view.set]{fullShare} V5c m d)) := by
  show bigSep ({((3 : Fin 14), (1 : Fin 2)), ((11 : Fin 14), (0 : Fin 2))} : Finset (Fin 14 × Fin 2)) (A5 m d) = _
  rw [SparseCore.bigSep_insert' (by decide), bigSep_singleton]
  exact (congrArg₂ (fun a b : sProp 𝕄 => iprop(a ∗ b)) (pts_v5 d (cV LL) (jV LL) (3 : Fin 14) (1 : Fin 2) _ (V5c m d)).symm (pts_v5 d (cV LL) (jV LL) (11 : Fin 14) (0 : Fin 2) _ (V5c m d)).symm)
theorem open10 (m : (ℓ : Loc nD τ sig) → Buf (Elt F) ℓ) (d : Dev nD) :
    (bigSep (t10 (15 : Fin 32)) (B0 m d) : sProp 𝕄) = iprop(((OUT0_0).view.loc (TH d) ↦[(OUT0_0).view.set]{fullShare} m (v10L d)) ∗ ((OUT0_1).view.loc (TH d) ↦[(OUT0_1).view.set]{fullShare} m (v10L d)) ∗ ((OUT1_0).view.loc (TH d) ↦[(OUT1_0).view.set]{fullShare} m (v10L d)) ∗ ((OUT2_0).view.loc (TH d) ↦[(OUT2_0).view.set]{fullShare} m (v10L d))) := by
  show bigSep ({((5 : Fin 9), (0 : Fin 2), (2 : Fin 8)), ((3 : Fin 9), (0 : Fin 2), (3 : Fin 8)), ((1 : Fin 9), (0 : Fin 2), (3 : Fin 8)), ((0 : Fin 9), (1 : Fin 2), (3 : Fin 8))} : Finset (Fin 9 × Fin 2 × Fin 8)) (B0 m d) = _
  rw [SparseCore.bigSep_insert' (by decide), SparseCore.bigSep_insert' (by decide), SparseCore.bigSep_insert' (by decide), bigSep_singleton]
  exact (congrArg₂ (fun a b : sProp 𝕄 => iprop(a ∗ b)) (pts_v10 d (cV LL) (jV LL) (5 : Fin 9) (0 : Fin 2) (2 : Fin 8) _ (m (v10L d))).symm (congrArg₂ (fun a b : sProp 𝕄 => iprop(a ∗ b)) (pts_v10 d (cV LL) (jV LL) (3 : Fin 9) (0 : Fin 2) (3 : Fin 8) _ (m (v10L d))).symm (congrArg₂ (fun a b : sProp 𝕄 => iprop(a ∗ b)) (pts_v10 d (cV LL) (jV LL) (1 : Fin 9) (0 : Fin 2) (3 : Fin 8) _ (m (v10L d))).symm (pts_v10 d (cV LL) (jV LL) (0 : Fin 9) (1 : Fin 2) (3 : Fin 8) _ (m (v10L d))).symm)))
theorem close10 (m : (ℓ : Loc nD τ sig) → Buf (Elt F) ℓ) (d : Dev nD) :
    (bigSep (t10 (15 : Fin 32)) (B1 m d) : sProp 𝕄) = iprop(((OUT0_0).view.loc (TH d) ↦[(OUT0_0).view.set]{fullShare} OUTc m d) ∗ ((OUT0_1).view.loc (TH d) ↦[(OUT0_1).view.set]{fullShare} OUTc m d) ∗ ((OUT1_0).view.loc (TH d) ↦[(OUT1_0).view.set]{fullShare} OUTc m d) ∗ ((OUT2_0).view.loc (TH d) ↦[(OUT2_0).view.set]{fullShare} OUTc m d)) := by
  show bigSep ({((5 : Fin 9), (0 : Fin 2), (2 : Fin 8)), ((3 : Fin 9), (0 : Fin 2), (3 : Fin 8)), ((1 : Fin 9), (0 : Fin 2), (3 : Fin 8)), ((0 : Fin 9), (1 : Fin 2), (3 : Fin 8))} : Finset (Fin 9 × Fin 2 × Fin 8)) (B1 m d) = _
  rw [SparseCore.bigSep_insert' (by decide), SparseCore.bigSep_insert' (by decide), SparseCore.bigSep_insert' (by decide), bigSep_singleton]
  exact (congrArg₂ (fun a b : sProp 𝕄 => iprop(a ∗ b)) (pts_v10 d (cV LL) (jV LL) (5 : Fin 9) (0 : Fin 2) (2 : Fin 8) _ (OUTc m d)).symm (congrArg₂ (fun a b : sProp 𝕄 => iprop(a ∗ b)) (pts_v10 d (cV LL) (jV LL) (3 : Fin 9) (0 : Fin 2) (3 : Fin 8) _ (OUTc m d)).symm (congrArg₂ (fun a b : sProp 𝕄 => iprop(a ∗ b)) (pts_v10 d (cV LL) (jV LL) (1 : Fin 9) (0 : Fin 2) (3 : Fin 8) _ (OUTc m d)).symm (pts_v10 d (cV LL) (jV LL) (0 : Fin 9) (1 : Fin 2) (3 : Fin 8) _ (OUTc m d)).symm)))

/-! ## What each output slice has to hold is what its source slice holds -/

theorem val0_0 (m : (ℓ : Loc nD τ sig) → Buf (Elt F) ℓ) (d : Dev nD) :
    (SRC0).view.read (Elt F) (V2c m d) = (OUT0_0).view.read (Elt F) (OUTc m d) := by
  funext y
  obtain ⟨t, q, rfl⟩ : ∃ (t q : Fin 128), y = ix2 t q := ⟨y 0, y 1, eq_ix2 y⟩
  refine (read_v2 (8 : Fin 17) (0 : Fin 2) _ _ t q).trans ((?_ : _ = _).trans (read_v10 (5 : Fin 9) (0 : Fin 2) (2 : Fin 8) _ _ t q).symm)
  unfold V2c OUTc
  rw [Cert.Layout.poseV_apply]
  refine Eq.trans ?_ (outV_at _ _ _ _ _ _ _ t _ q (show 8 * 0 + 2 < 14 by decide)).symm
  rfl
theorem val0_1 (m : (ℓ : Loc nD τ sig) → Buf (Elt F) ℓ) (d : Dev nD) :
    (SRC0).view.read (Elt F) (V2c m d) = (OUT0_1).view.read (Elt F) (OUTc m d) := by
  funext y
  obtain ⟨t, q, rfl⟩ : ∃ (t q : Fin 128), y = ix2 t q := ⟨y 0, y 1, eq_ix2 y⟩
  refine (read_v2 (8 : Fin 17) (0 : Fin 2) _ _ t q).trans ((?_ : _ = _).trans (read_v10 (3 : Fin 9) (0 : Fin 2) (3 : Fin 8) _ _ t q).symm)
  unfold V2c OUTc
  rw [Cert.Layout.poseV_apply]
  refine Eq.trans ?_ (outV_at _ _ _ _ _ _ _ t _ q (show 8 * 0 + 3 < 14 by decide)).symm
  rfl
theorem val1_0 (m : (ℓ : Loc nD τ sig) → Buf (Elt F) ℓ) (d : Dev nD) :
    (SRC1).view.read (Elt F) (V5c m d) = (OUT1_0).view.read (Elt F) (OUTc m d) := by
  funext y
  obtain ⟨t, q, rfl⟩ : ∃ (t q : Fin 128), y = ix2 t q := ⟨y 0, y 1, eq_ix2 y⟩
  refine (read_v5 (3 : Fin 14) (1 : Fin 2) _ _ t q).trans ((?_ : _ = _).trans (read_v10 (1 : Fin 9) (0 : Fin 2) (3 : Fin 8) _ _ t q).symm)
  unfold V5c OUTc
  rw [Cert.Layout.deltaV_apply]
  refine Eq.trans ?_ (outV_at _ _ _ _ _ _ _ t _ q (show 8 * 0 + 3 < 14 by decide)).symm
  rfl
theorem val2_0 (m : (ℓ : Loc nD τ sig) → Buf (Elt F) ℓ) (d : Dev nD) :
    (SRC2).view.read (Elt F) (V5c m d) = (OUT2_0).view.read (Elt F) (OUTc m d) := by
  funext y
  obtain ⟨t, q, rfl⟩ : ∃ (t q : Fin 128), y = ix2 t q := ⟨y 0, y 1, eq_ix2 y⟩
  refine (read_v5 (11 : Fin 14) (0 : Fin 2) _ _ t q).trans ((?_ : _ = _).trans (read_v10 (0 : Fin 9) (1 : Fin 2) (3 : Fin 8) _ _ t q).symm)
  unfold V5c OUTc
  rw [Cert.Layout.deltaV_apply]
  refine Eq.trans ?_ (outV_at _ _ _ _ _ _ _ t _ q (show 8 * 1 + 3 < 14 by decide)).symm
  rfl

/-! ## The run -/

open Lean Elab Tactic Meta in
/-- Unfold the names the symbolic run gave to the values its copies carry. -/
elab "unfold_carried" : tactic => do
  for _ in [0:6] do
    let g ← getMainGoal
    let t ← instantiateMVars (← g.getType)
    if (t.getUsedConstants.any fun n => n.components.any (· == `sl)) then
      let t' ← deltaExpand t (fun n => n.components.any (· == `sl))
      let g' ← g.change t' (checkDefEq := false)
      replaceMainGoal [g']

variable [FloatOps F] [∀ e, Nonempty (Elt F e)]

theorem run (m : (ℓ : Loc nD τ sig) → Buf (Elt F) ℓ) (d : Dev nD) (O : CellTallies nD τ sig (HIx 1)) (W : Waits sig (HIx 1)) (hO : ∀ g, O g none = 0) :
    (iprop(levAts (K (F := F)).L (K (F := F)).lev ∗ tileG m d (15 : Fin 32)
        ∗ scopedBufs (TH d) ∗ scopedSems0 (TH d) ∗ owes (TH d) O W) : sProp 𝕄)
      ⊢ wp frame (wpE (defs₀ (F := F)) 𝒱₀ (TH d) none) Set.univ
          (cc0_run LL (Memref.whole main_v2_scv) (Memref.isWhole_whole _) (Memref.whole main_v7_scv) (Memref.isWhole_whole _) (Memref.whole main_v5_scv) (Memref.isWhole_whole _) (Memref.whole main_v9_scv) (Memref.isWhole_whole _) (Memref.whole main_v10_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8)
          fun _ => iprop(tileT m d (15 : Fin 32) ∗ scopedBufs (TH d) ∗ scopedSems0 (TH d)
            ∗ ∃ W', ⌜∀ p ∈ W', p ∈ W ∨ p.2 = none⌝ ∗ owes (TH d) O W') := by
  rw [(K (F := F)).scopedBufs_V facts d (cV LL) (jV LL), SparseCore.Cfg.scopedSems0_V (Val := Elt F) d (cV LL) (jV LL), ownSems0_V, ownBufs_V]
  unfold tileG tileT
  iintro ⟨#Hlv, ⟨HF2, -, HF5, -, HF10⟩, ⟨⟨%fb0, Hb0⟩, ⟨%fb1, Hb1⟩, ⟨%fb2, Hb2⟩, Hbufs⟩, ⟨Hs3, Hs4, Hs5, Hs6, Hs7, Hs8, Hsems⟩, HO⟩
  ihave HF2' := (Entails.of_eq (open2 m d)) $$ HF2
  icases HF2' with HS0
  ihave HF5' := (Entails.of_eq (open5 m d)) $$ HF5
  icases HF5' with ⟨HS1, HS2⟩
  ihave HF10' := (Entails.of_eq (open10 m d)) $$ HF10
  icases HF10' with ⟨HO0_0, HO0_1, HO1_0, HO2_0⟩
  ihave Hmw := ((K (F := F)).mayWaits_none (thr := TH d) hO) $$ Hlv
  ihave Hb0' := (Entails.of_eq (pts_b0 d (cV LL) (jV LL) _).symm) $$ Hb0
  ihave Hb1' := (Entails.of_eq (pts_b1 d (cV LL) (jV LL) _).symm) $$ Hb1
  ihave Hb2' := (Entails.of_eq (pts_b2 d (cV LL) (jV LL) _).symm) $$ Hb2
  have _plan : Transfers.BatchOf (TH d) (SemLoc.dma (sig := sig) cc0_scratch6.sem) 2 (windows := true) := trivial
  sl_unfold [cc0_run]
  sl_exec_parts (disch := decide)
  sl_step
  isplitl [HS0 HS1 HS2 HO0_0 HO0_1 HO1_0 HO2_0]
  · skip
    isplitl [HS0]
    · iapply (Entails.of_eq (open2 m d).symm)
      iexact HS0
    isplitr
    · rw [show t7 (15 : Fin 32) = ∅ from rfl, bigSep_empty]; iempintro
    isplitl [HS1 HS2]
    · iapply (Entails.of_eq (open5 m d).symm)
      isplitl [HS1]; · iexact HS1
      iexact HS2
    isplitr
    · rw [show t9 (15 : Fin 32) = ∅ from rfl, bigSep_empty]; iempintro
    · iapply (Entails.of_eq (close10 m d).symm)
      isplitl [HO0_0]
      · iapply (out_post_ent (TH d) (OUT0_0) _ (OUTc m d) _ ?hv0_0) $$ HO0_0
        case hv0_0 => unfold_carried; simp only [ReadAs.apply_same, View.read_write_univ]; exact val0_0 m d
      isplitl [HO0_1]
      · iapply (out_post_ent (TH d) (OUT0_1) _ (OUTc m d) _ ?hv0_1) $$ HO0_1
        case hv0_1 => unfold_carried; simp only [ReadAs.apply_same, View.read_write_univ]; exact val0_1 m d
      isplitl [HO1_0]
      · iapply (out_post_ent (TH d) (OUT1_0) _ (OUTc m d) _ ?hv1_0) $$ HO1_0
        case hv1_0 => unfold_carried; simp only [ReadAs.apply_same, View.read_write_univ]; exact val1_0 m d
      iapply (out_post_ent (TH d) (OUT2_0) _ (OUTc m d) _ ?hv2_0) $$ HO2_0
      case hv2_0 => unfold_carried; simp only [ReadAs.apply_same, View.read_write_univ]; exact val2_0 m d

  isplitl [Hb0' Hb1' Hb2' Hbufs]
  · isplitl [Hb0']
    · iexists _; iapply (Entails.of_eq (pts_b0 d (cV LL) (jV LL) _)); iexact Hb0'
    isplitl [Hb1']
    · iexists _; iapply (Entails.of_eq (pts_b1 d (cV LL) (jV LL) _)); iexact Hb1'
    isplitl [Hb2']
    · iexists _; iapply (Entails.of_eq (pts_b2 d (cV LL) (jV LL) _)); iexact Hb2'
    iexact Hbufs
  isplitl [Hs3 Hs4 Hs5 Hs6 Hs7 Hs8 Hsems]
  · isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    iexact Hsems
  iexists _; isplitr
  rotate_left
  · iexact HO
  · ipureintro; intro p hp
    simp only [Finset.mem_insert] at hp
    rcases hp with rfl | rfl | rfl | rfl | rfl | rfl | rfl | hp <;> first | exact .inr rfl | exact .inl hp

end Cert.Proof.KB.Tile15

end
-- ==== Proof.KBTile16.lean ====
/-
  Tile 16 of the kernel (subcore 8 of core 0): one slice in (pose8.1), 2 out; one slice in (len3), 1 out; one slice in (delta11.1), 1 out.
  Its whole body is run: every copy it does not own is skipped by the comparison of its number with the copy's owner;
  each incoming copy fills a staging buffer, each outgoing copy carries that buffer into one slice of the output array,
  and what each output slice then holds is the source slice the specification asks for there.
-/
import proofs.«210185_g18468359372994_cont_8to1_1390_15_alg».proof.Proof.KBRead

set_option maxHeartbeats 4000000
set_option quotPrecheck false

noncomputable section

namespace Cert.Proof.KB.Tile16

open Cert.Kernel Cert.Kernel.Gen
open Cert.Proof.KB
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
theorem cLt : 0 < grid0.bound 0 := by decide
theorem sLt : 8 < grid0.bound 1 := by decide
local notation "LL" => (coordsV (⟨0, cLt⟩ : Fin (grid0.bound 0)) (⟨8, sLt⟩ : Fin (grid0.bound 1)))
local notation "TH" d => V d (cV LL) (jV LL)
local notation "SRC0" => (((Memref.whole main_v2_scv).slice (Rect.unit (s := S17x128x2x128) ![8, 0, 1, 0] S1x128x1x128.size inb_S17x128x2x128_S1x128x1x128_8_0_1_0) (fun _ => rfl)).squeeze S128x128 squeezes_S1x128x1x128_S128x128 : Memref sig .scVector .hbm S128x128 .f32)
local notation "OUT0_0" => (((Memref.whole main_v10_scv).slice (Rect.unit (s := S9x2x128x8x128) ![6, 0, 0, 2, 0] S1x1x128x1x128.size inb_S9x2x128x8x128_S1x1x128x1x128_6_0_0_2_0) (fun _ => rfl)).squeeze S128x128 squeezes_S1x1x128x1x128_S128x128 : Memref sig .scVector .hbm S128x128 .f32)
local notation "OUT0_1" => (((Memref.whole main_v10_scv).slice (Rect.unit (s := S9x2x128x8x128) ![4, 0, 0, 3, 0] S1x1x128x1x128.size inb_S9x2x128x8x128_S1x1x128x1x128_4_0_0_3_0) (fun _ => rfl)).squeeze S128x128 squeezes_S1x1x128x1x128_S128x128 : Memref sig .scVector .hbm S128x128 .f32)
local notation "SRC1" => (((Memref.whole main_v9_scv).slice (Rect.unit (s := S14x128x128) ![3, 0, 0] S1x128x128.size inb_S14x128x128_S1x128x128_3_0_0) (fun _ => rfl)).squeeze S128x128 squeezes_S1x128x128_S128x128 : Memref sig .scVector .hbm S128x128 .f32)
local notation "OUT1_0" => (((Memref.whole main_v10_scv).slice (Rect.unit (s := S9x2x128x8x128) ![2, 0, 0, 3, 0] S1x1x128x1x128.size inb_S9x2x128x8x128_S1x1x128x1x128_2_0_0_3_0) (fun _ => rfl)).squeeze S128x128 squeezes_S1x1x128x1x128_S128x128 : Memref sig .scVector .hbm S128x128 .f32)
local notation "SRC2" => (((Memref.whole main_v5_scv).slice (Rect.unit (s := S14x128x2x128) ![11, 0, 1, 0] S1x128x1x128.size inb_S14x128x2x128_S1x128x1x128_11_0_1_0) (fun _ => rfl)).squeeze S128x128 squeezes_S1x128x1x128_S128x128 : Memref sig .scVector .hbm S128x128 .f32)
local notation "OUT2_0" => (((Memref.whole main_v10_scv).slice (Rect.unit (s := S9x2x128x8x128) ![1, 1, 0, 3, 0] S1x1x128x1x128.size inb_S9x2x128x8x128_S1x1x128x1x128_1_1_0_3_0) (fun _ => rfl)).squeeze S128x128 squeezes_S1x1x128x1x128_S128x128 : Memref sig .scVector .hbm S128x128 .f32)

/-! ## The tile's slices, as its memrefs name them -/

theorem open2 (m : (ℓ : Loc nD τ sig) → Buf (Elt F) ℓ) (d : Dev nD) :
    (bigSep (t2 (16 : Fin 32)) (A2 m d) : sProp 𝕄) = iprop(((SRC0).view.loc (TH d) ↦[(SRC0).view.set]{fullShare} V2c m d)) := by
  show bigSep ({((8 : Fin 17), (1 : Fin 2))} : Finset (Fin 17 × Fin 2)) (A2 m d) = _
  rw [bigSep_singleton]
  exact (pts_v2 d (cV LL) (jV LL) (8 : Fin 17) (1 : Fin 2) _ (V2c m d)).symm
theorem open5 (m : (ℓ : Loc nD τ sig) → Buf (Elt F) ℓ) (d : Dev nD) :
    (bigSep (t5 (16 : Fin 32)) (A5 m d) : sProp 𝕄) = iprop(((SRC2).view.loc (TH d) ↦[(SRC2).view.set]{fullShare} V5c m d)) := by
  show bigSep ({((11 : Fin 14), (1 : Fin 2))} : Finset (Fin 14 × Fin 2)) (A5 m d) = _
  rw [bigSep_singleton]
  exact (pts_v5 d (cV LL) (jV LL) (11 : Fin 14) (1 : Fin 2) _ (V5c m d)).symm
theorem open9 (m : (ℓ : Loc nD τ sig) → Buf (Elt F) ℓ) (d : Dev nD) :
    (bigSep (t9 (16 : Fin 32)) (A9 m d) : sProp 𝕄) = iprop(((SRC1).view.loc (TH d) ↦[(SRC1).view.set]{fullShare} V9c m d)) := by
  show bigSep ({(3 : Fin 14)} : Finset (Fin 14)) (A9 m d) = _
  rw [bigSep_singleton]
  exact (pts_v9 d (cV LL) (jV LL) (3 : Fin 14) _ (V9c m d)).symm
theorem open10 (m : (ℓ : Loc nD τ sig) → Buf (Elt F) ℓ) (d : Dev nD) :
    (bigSep (t10 (16 : Fin 32)) (B0 m d) : sProp 𝕄) = iprop(((OUT0_0).view.loc (TH d) ↦[(OUT0_0).view.set]{fullShare} m (v10L d)) ∗ ((OUT0_1).view.loc (TH d) ↦[(OUT0_1).view.set]{fullShare} m (v10L d)) ∗ ((OUT1_0).view.loc (TH d) ↦[(OUT1_0).view.set]{fullShare} m (v10L d)) ∗ ((OUT2_0).view.loc (TH d) ↦[(OUT2_0).view.set]{fullShare} m (v10L d))) := by
  show bigSep ({((6 : Fin 9), (0 : Fin 2), (2 : Fin 8)), ((4 : Fin 9), (0 : Fin 2), (3 : Fin 8)), ((2 : Fin 9), (0 : Fin 2), (3 : Fin 8)), ((1 : Fin 9), (1 : Fin 2), (3 : Fin 8))} : Finset (Fin 9 × Fin 2 × Fin 8)) (B0 m d) = _
  rw [SparseCore.bigSep_insert' (by decide), SparseCore.bigSep_insert' (by decide), SparseCore.bigSep_insert' (by decide), bigSep_singleton]
  exact (congrArg₂ (fun a b : sProp 𝕄 => iprop(a ∗ b)) (pts_v10 d (cV LL) (jV LL) (6 : Fin 9) (0 : Fin 2) (2 : Fin 8) _ (m (v10L d))).symm (congrArg₂ (fun a b : sProp 𝕄 => iprop(a ∗ b)) (pts_v10 d (cV LL) (jV LL) (4 : Fin 9) (0 : Fin 2) (3 : Fin 8) _ (m (v10L d))).symm (congrArg₂ (fun a b : sProp 𝕄 => iprop(a ∗ b)) (pts_v10 d (cV LL) (jV LL) (2 : Fin 9) (0 : Fin 2) (3 : Fin 8) _ (m (v10L d))).symm (pts_v10 d (cV LL) (jV LL) (1 : Fin 9) (1 : Fin 2) (3 : Fin 8) _ (m (v10L d))).symm)))
theorem close10 (m : (ℓ : Loc nD τ sig) → Buf (Elt F) ℓ) (d : Dev nD) :
    (bigSep (t10 (16 : Fin 32)) (B1 m d) : sProp 𝕄) = iprop(((OUT0_0).view.loc (TH d) ↦[(OUT0_0).view.set]{fullShare} OUTc m d) ∗ ((OUT0_1).view.loc (TH d) ↦[(OUT0_1).view.set]{fullShare} OUTc m d) ∗ ((OUT1_0).view.loc (TH d) ↦[(OUT1_0).view.set]{fullShare} OUTc m d) ∗ ((OUT2_0).view.loc (TH d) ↦[(OUT2_0).view.set]{fullShare} OUTc m d)) := by
  show bigSep ({((6 : Fin 9), (0 : Fin 2), (2 : Fin 8)), ((4 : Fin 9), (0 : Fin 2), (3 : Fin 8)), ((2 : Fin 9), (0 : Fin 2), (3 : Fin 8)), ((1 : Fin 9), (1 : Fin 2), (3 : Fin 8))} : Finset (Fin 9 × Fin 2 × Fin 8)) (B1 m d) = _
  rw [SparseCore.bigSep_insert' (by decide), SparseCore.bigSep_insert' (by decide), SparseCore.bigSep_insert' (by decide), bigSep_singleton]
  exact (congrArg₂ (fun a b : sProp 𝕄 => iprop(a ∗ b)) (pts_v10 d (cV LL) (jV LL) (6 : Fin 9) (0 : Fin 2) (2 : Fin 8) _ (OUTc m d)).symm (congrArg₂ (fun a b : sProp 𝕄 => iprop(a ∗ b)) (pts_v10 d (cV LL) (jV LL) (4 : Fin 9) (0 : Fin 2) (3 : Fin 8) _ (OUTc m d)).symm (congrArg₂ (fun a b : sProp 𝕄 => iprop(a ∗ b)) (pts_v10 d (cV LL) (jV LL) (2 : Fin 9) (0 : Fin 2) (3 : Fin 8) _ (OUTc m d)).symm (pts_v10 d (cV LL) (jV LL) (1 : Fin 9) (1 : Fin 2) (3 : Fin 8) _ (OUTc m d)).symm)))

/-! ## What each output slice has to hold is what its source slice holds -/

theorem val0_0 (m : (ℓ : Loc nD τ sig) → Buf (Elt F) ℓ) (d : Dev nD) :
    (SRC0).view.read (Elt F) (V2c m d) = (OUT0_0).view.read (Elt F) (OUTc m d) := by
  funext y
  obtain ⟨t, q, rfl⟩ : ∃ (t q : Fin 128), y = ix2 t q := ⟨y 0, y 1, eq_ix2 y⟩
  refine (read_v2 (8 : Fin 17) (1 : Fin 2) _ _ t q).trans ((?_ : _ = _).trans (read_v10 (6 : Fin 9) (0 : Fin 2) (2 : Fin 8) _ _ t q).symm)
  unfold V2c OUTc
  rw [Cert.Layout.poseV_apply]
  refine Eq.trans ?_ (outV_at _ _ _ _ _ _ _ t _ q (show 8 * 0 + 2 < 14 by decide)).symm
  rfl
theorem val0_1 (m : (ℓ : Loc nD τ sig) → Buf (Elt F) ℓ) (d : Dev nD) :
    (SRC0).view.read (Elt F) (V2c m d) = (OUT0_1).view.read (Elt F) (OUTc m d) := by
  funext y
  obtain ⟨t, q, rfl⟩ : ∃ (t q : Fin 128), y = ix2 t q := ⟨y 0, y 1, eq_ix2 y⟩
  refine (read_v2 (8 : Fin 17) (1 : Fin 2) _ _ t q).trans ((?_ : _ = _).trans (read_v10 (4 : Fin 9) (0 : Fin 2) (3 : Fin 8) _ _ t q).symm)
  unfold V2c OUTc
  rw [Cert.Layout.poseV_apply]
  refine Eq.trans ?_ (outV_at _ _ _ _ _ _ _ t _ q (show 8 * 0 + 3 < 14 by decide)).symm
  rfl
theorem val1_0 (m : (ℓ : Loc nD τ sig) → Buf (Elt F) ℓ) (d : Dev nD) :
    (SRC1).view.read (Elt F) (V9c m d) = (OUT1_0).view.read (Elt F) (OUTc m d) := by
  funext y
  obtain ⟨t, q, rfl⟩ : ∃ (t q : Fin 128), y = ix2 t q := ⟨y 0, y 1, eq_ix2 y⟩
  refine (read_v9 (3 : Fin 14) _ _ t q).trans ((?_ : _ = _).trans (read_v10 (2 : Fin 9) (0 : Fin 2) (3 : Fin 8) _ _ t q).symm)
  unfold V9c OUTc
  rw [Cert.Layout.lenV_apply]
  refine Eq.trans ?_ (outV_at _ _ _ _ _ _ _ t _ q (show 8 * 0 + 3 < 14 by decide)).symm
  rfl
theorem val2_0 (m : (ℓ : Loc nD τ sig) → Buf (Elt F) ℓ) (d : Dev nD) :
    (SRC2).view.read (Elt F) (V5c m d) = (OUT2_0).view.read (Elt F) (OUTc m d) := by
  funext y
  obtain ⟨t, q, rfl⟩ : ∃ (t q : Fin 128), y = ix2 t q := ⟨y 0, y 1, eq_ix2 y⟩
  refine (read_v5 (11 : Fin 14) (1 : Fin 2) _ _ t q).trans ((?_ : _ = _).trans (read_v10 (1 : Fin 9) (1 : Fin 2) (3 : Fin 8) _ _ t q).symm)
  unfold V5c OUTc
  rw [Cert.Layout.deltaV_apply]
  refine Eq.trans ?_ (outV_at _ _ _ _ _ _ _ t _ q (show 8 * 1 + 3 < 14 by decide)).symm
  rfl

/-! ## The run -/

open Lean Elab Tactic Meta in
/-- Unfold the names the symbolic run gave to the values its copies carry. -/
elab "unfold_carried" : tactic => do
  for _ in [0:6] do
    let g ← getMainGoal
    let t ← instantiateMVars (← g.getType)
    if (t.getUsedConstants.any fun n => n.components.any (· == `sl)) then
      let t' ← deltaExpand t (fun n => n.components.any (· == `sl))
      let g' ← g.change t' (checkDefEq := false)
      replaceMainGoal [g']

variable [FloatOps F] [∀ e, Nonempty (Elt F e)]

theorem run (m : (ℓ : Loc nD τ sig) → Buf (Elt F) ℓ) (d : Dev nD) (O : CellTallies nD τ sig (HIx 1)) (W : Waits sig (HIx 1)) (hO : ∀ g, O g none = 0) :
    (iprop(levAts (K (F := F)).L (K (F := F)).lev ∗ tileG m d (16 : Fin 32)
        ∗ scopedBufs (TH d) ∗ scopedSems0 (TH d) ∗ owes (TH d) O W) : sProp 𝕄)
      ⊢ wp frame (wpE (defs₀ (F := F)) 𝒱₀ (TH d) none) Set.univ
          (cc0_run LL (Memref.whole main_v2_scv) (Memref.isWhole_whole _) (Memref.whole main_v7_scv) (Memref.isWhole_whole _) (Memref.whole main_v5_scv) (Memref.isWhole_whole _) (Memref.whole main_v9_scv) (Memref.isWhole_whole _) (Memref.whole main_v10_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8)
          fun _ => iprop(tileT m d (16 : Fin 32) ∗ scopedBufs (TH d) ∗ scopedSems0 (TH d)
            ∗ ∃ W', ⌜∀ p ∈ W', p ∈ W ∨ p.2 = none⌝ ∗ owes (TH d) O W') := by
  rw [(K (F := F)).scopedBufs_V facts d (cV LL) (jV LL), SparseCore.Cfg.scopedSems0_V (Val := Elt F) d (cV LL) (jV LL), ownSems0_V, ownBufs_V]
  unfold tileG tileT
  iintro ⟨#Hlv, ⟨HF2, -, HF5, HF9, HF10⟩, ⟨⟨%fb0, Hb0⟩, ⟨%fb1, Hb1⟩, ⟨%fb2, Hb2⟩, Hbufs⟩, ⟨Hs3, Hs4, Hs5, Hs6, Hs7, Hs8, Hsems⟩, HO⟩
  ihave HF2' := (Entails.of_eq (open2 m d)) $$ HF2
  icases HF2' with HS0
  ihave HF5' := (Entails.of_eq (open5 m d)) $$ HF5
  icases HF5' with HS2
  ihave HF9' := (Entails.of_eq (open9 m d)) $$ HF9
  icases HF9' with HS1
  ihave HF10' := (Entails.of_eq (open10 m d)) $$ HF10
  icases HF10' with ⟨HO0_0, HO0_1, HO1_0, HO2_0⟩
  ihave Hmw := ((K (F := F)).mayWaits_none (thr := TH d) hO) $$ Hlv
  ihave Hb0' := (Entails.of_eq (pts_b0 d (cV LL) (jV LL) _).symm) $$ Hb0
  ihave Hb1' := (Entails.of_eq (pts_b1 d (cV LL) (jV LL) _).symm) $$ Hb1
  ihave Hb2' := (Entails.of_eq (pts_b2 d (cV LL) (jV LL) _).symm) $$ Hb2
  have _plan : Transfers.BatchOf (TH d) (SemLoc.dma (sig := sig) cc0_scratch6.sem) 2 (windows := true) := trivial
  sl_unfold [cc0_run]
  sl_exec_parts (disch := decide)
  sl_step
  isplitl [HS0 HS2 HS1 HO0_0 HO0_1 HO1_0 HO2_0]
  · skip
    isplitl [HS0]
    · iapply (Entails.of_eq (open2 m d).symm)
      iexact HS0
    isplitr
    · rw [show t7 (16 : Fin 32) = ∅ from rfl, bigSep_empty]; iempintro
    isplitl [HS2]
    · iapply (Entails.of_eq (open5 m d).symm)
      iexact HS2
    isplitl [HS1]
    · iapply (Entails.of_eq (open9 m d).symm)
      iexact HS1
    · iapply (Entails.of_eq (close10 m d).symm)
      isplitl [HO0_0]
      · iapply (out_post_ent (TH d) (OUT0_0) _ (OUTc m d) _ ?hv0_0) $$ HO0_0
        case hv0_0 => unfold_carried; simp only [ReadAs.apply_same, View.read_write_univ]; exact val0_0 m d
      isplitl [HO0_1]
      · iapply (out_post_ent (TH d) (OUT0_1) _ (OUTc m d) _ ?hv0_1) $$ HO0_1
        case hv0_1 => unfold_carried; simp only [ReadAs.apply_same, View.read_write_univ]; exact val0_1 m d
      isplitl [HO1_0]
      · iapply (out_post_ent (TH d) (OUT1_0) _ (OUTc m d) _ ?hv1_0) $$ HO1_0
        case hv1_0 => unfold_carried; simp only [ReadAs.apply_same, View.read_write_univ]; exact val1_0 m d
      iapply (out_post_ent (TH d) (OUT2_0) _ (OUTc m d) _ ?hv2_0) $$ HO2_0
      case hv2_0 => unfold_carried; simp only [ReadAs.apply_same, View.read_write_univ]; exact val2_0 m d

  isplitl [Hb0' Hb1' Hb2' Hbufs]
  · isplitl [Hb0']
    · iexists _; iapply (Entails.of_eq (pts_b0 d (cV LL) (jV LL) _)); iexact Hb0'
    isplitl [Hb1']
    · iexists _; iapply (Entails.of_eq (pts_b1 d (cV LL) (jV LL) _)); iexact Hb1'
    isplitl [Hb2']
    · iexists _; iapply (Entails.of_eq (pts_b2 d (cV LL) (jV LL) _)); iexact Hb2'
    iexact Hbufs
  isplitl [Hs3 Hs4 Hs5 Hs6 Hs7 Hs8 Hsems]
  · isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    iexact Hsems
  iexists _; isplitr
  rotate_left
  · iexact HO
  · ipureintro; intro p hp
    simp only [Finset.mem_insert] at hp
    rcases hp with rfl | rfl | rfl | rfl | rfl | rfl | rfl | hp <;> first | exact .inr rfl | exact .inl hp

end Cert.Proof.KB.Tile16

end
-- ==== Proof.KBTile17.lean ====
/-
  Tile 17 of the kernel (subcore 8 of core 1): one slice in (vis8), 2 out; one slice in (pose10.0), 1 out; one slice in (len11), 1 out.
  Its whole body is run: every copy it does not own is skipped by the comparison of its number with the copy's owner;
  each incoming copy fills a staging buffer, each outgoing copy carries that buffer into one slice of the output array,
  and what each output slice then holds is the source slice the specification asks for there.
-/
import proofs.«210185_g18468359372994_cont_8to1_1390_15_alg».proof.Proof.KBRead

set_option maxHeartbeats 4000000
set_option quotPrecheck false

noncomputable section

namespace Cert.Proof.KB.Tile17

open Cert.Kernel Cert.Kernel.Gen
open Cert.Proof.KB
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
theorem cLt : 1 < grid0.bound 0 := by decide
theorem sLt : 8 < grid0.bound 1 := by decide
local notation "LL" => (coordsV (⟨1, cLt⟩ : Fin (grid0.bound 0)) (⟨8, sLt⟩ : Fin (grid0.bound 1)))
local notation "TH" d => V d (cV LL) (jV LL)
local notation "SRC0" => (((Memref.whole main_v7_scv).slice (Rect.unit (s := S17x128x128) ![8, 0, 0] S1x128x128.size inb_S17x128x128_S1x128x128_8_0_0) (fun _ => rfl)).squeeze S128x128 squeezes_S1x128x128_S128x128 : Memref sig .scVector .hbm S128x128 .f32)
local notation "OUT0_0" => (((Memref.whole main_v10_scv).slice (Rect.unit (s := S9x2x128x8x128) ![8, 0, 0, 2, 0] S1x1x128x1x128.size inb_S9x2x128x8x128_S1x1x128x1x128_8_0_0_2_0) (fun _ => rfl)).squeeze S128x128 squeezes_S1x1x128x1x128_S128x128 : Memref sig .scVector .hbm S128x128 .f32)
local notation "OUT0_1" => (((Memref.whole main_v10_scv).slice (Rect.unit (s := S9x2x128x8x128) ![7, 0, 0, 3, 0] S1x1x128x1x128.size inb_S9x2x128x8x128_S1x1x128x1x128_7_0_0_3_0) (fun _ => rfl)).squeeze S128x128 squeezes_S1x1x128x1x128_S128x128 : Memref sig .scVector .hbm S128x128 .f32)
local notation "SRC1" => (((Memref.whole main_v2_scv).slice (Rect.unit (s := S17x128x2x128) ![10, 0, 0, 0] S1x128x1x128.size inb_S17x128x2x128_S1x128x1x128_10_0_0_0) (fun _ => rfl)).squeeze S128x128 squeezes_S1x128x1x128_S128x128 : Memref sig .scVector .hbm S128x128 .f32)
local notation "OUT1_0" => (((Memref.whole main_v10_scv).slice (Rect.unit (s := S9x2x128x8x128) ![5, 0, 0, 3, 0] S1x1x128x1x128.size inb_S9x2x128x8x128_S1x1x128x1x128_5_0_0_3_0) (fun _ => rfl)).squeeze S128x128 squeezes_S1x1x128x1x128_S128x128 : Memref sig .scVector .hbm S128x128 .f32)
local notation "SRC2" => (((Memref.whole main_v9_scv).slice (Rect.unit (s := S14x128x128) ![11, 0, 0] S1x128x128.size inb_S14x128x128_S1x128x128_11_0_0) (fun _ => rfl)).squeeze S128x128 squeezes_S1x128x128_S128x128 : Memref sig .scVector .hbm S128x128 .f32)
local notation "OUT2_0" => (((Memref.whole main_v10_scv).slice (Rect.unit (s := S9x2x128x8x128) ![2, 1, 0, 3, 0] S1x1x128x1x128.size inb_S9x2x128x8x128_S1x1x128x1x128_2_1_0_3_0) (fun _ => rfl)).squeeze S128x128 squeezes_S1x1x128x1x128_S128x128 : Memref sig .scVector .hbm S128x128 .f32)

/-! ## The tile's slices, as its memrefs name them -/

theorem open2 (m : (ℓ : Loc nD τ sig) → Buf (Elt F) ℓ) (d : Dev nD) :
    (bigSep (t2 (17 : Fin 32)) (A2 m d) : sProp 𝕄) = iprop(((SRC1).view.loc (TH d) ↦[(SRC1).view.set]{fullShare} V2c m d)) := by
  show bigSep ({((10 : Fin 17), (0 : Fin 2))} : Finset (Fin 17 × Fin 2)) (A2 m d) = _
  rw [bigSep_singleton]
  exact (pts_v2 d (cV LL) (jV LL) (10 : Fin 17) (0 : Fin 2) _ (V2c m d)).symm
theorem open7 (m : (ℓ : Loc nD τ sig) → Buf (Elt F) ℓ) (d : Dev nD) :
    (bigSep (t7 (17 : Fin 32)) (A7 m d) : sProp 𝕄) = iprop(((SRC0).view.loc (TH d) ↦[(SRC0).view.set]{fullShare} V7c m d)) := by
  show bigSep ({(8 : Fin 17)} : Finset (Fin 17)) (A7 m d) = _
  rw [bigSep_singleton]
  exact (pts_v7 d (cV LL) (jV LL) (8 : Fin 17) _ (V7c m d)).symm
theorem open9 (m : (ℓ : Loc nD τ sig) → Buf (Elt F) ℓ) (d : Dev nD) :
    (bigSep (t9 (17 : Fin 32)) (A9 m d) : sProp 𝕄) = iprop(((SRC2).view.loc (TH d) ↦[(SRC2).view.set]{fullShare} V9c m d)) := by
  show bigSep ({(11 : Fin 14)} : Finset (Fin 14)) (A9 m d) = _
  rw [bigSep_singleton]
  exact (pts_v9 d (cV LL) (jV LL) (11 : Fin 14) _ (V9c m d)).symm
theorem open10 (m : (ℓ : Loc nD τ sig) → Buf (Elt F) ℓ) (d : Dev nD) :
    (bigSep (t10 (17 : Fin 32)) (B0 m d) : sProp 𝕄) = iprop(((OUT0_0).view.loc (TH d) ↦[(OUT0_0).view.set]{fullShare} m (v10L d)) ∗ ((OUT0_1).view.loc (TH d) ↦[(OUT0_1).view.set]{fullShare} m (v10L d)) ∗ ((OUT1_0).view.loc (TH d) ↦[(OUT1_0).view.set]{fullShare} m (v10L d)) ∗ ((OUT2_0).view.loc (TH d) ↦[(OUT2_0).view.set]{fullShare} m (v10L d))) := by
  show bigSep ({((8 : Fin 9), (0 : Fin 2), (2 : Fin 8)), ((7 : Fin 9), (0 : Fin 2), (3 : Fin 8)), ((5 : Fin 9), (0 : Fin 2), (3 : Fin 8)), ((2 : Fin 9), (1 : Fin 2), (3 : Fin 8))} : Finset (Fin 9 × Fin 2 × Fin 8)) (B0 m d) = _
  rw [SparseCore.bigSep_insert' (by decide), SparseCore.bigSep_insert' (by decide), SparseCore.bigSep_insert' (by decide), bigSep_singleton]
  exact (congrArg₂ (fun a b : sProp 𝕄 => iprop(a ∗ b)) (pts_v10 d (cV LL) (jV LL) (8 : Fin 9) (0 : Fin 2) (2 : Fin 8) _ (m (v10L d))).symm (congrArg₂ (fun a b : sProp 𝕄 => iprop(a ∗ b)) (pts_v10 d (cV LL) (jV LL) (7 : Fin 9) (0 : Fin 2) (3 : Fin 8) _ (m (v10L d))).symm (congrArg₂ (fun a b : sProp 𝕄 => iprop(a ∗ b)) (pts_v10 d (cV LL) (jV LL) (5 : Fin 9) (0 : Fin 2) (3 : Fin 8) _ (m (v10L d))).symm (pts_v10 d (cV LL) (jV LL) (2 : Fin 9) (1 : Fin 2) (3 : Fin 8) _ (m (v10L d))).symm)))
theorem close10 (m : (ℓ : Loc nD τ sig) → Buf (Elt F) ℓ) (d : Dev nD) :
    (bigSep (t10 (17 : Fin 32)) (B1 m d) : sProp 𝕄) = iprop(((OUT0_0).view.loc (TH d) ↦[(OUT0_0).view.set]{fullShare} OUTc m d) ∗ ((OUT0_1).view.loc (TH d) ↦[(OUT0_1).view.set]{fullShare} OUTc m d) ∗ ((OUT1_0).view.loc (TH d) ↦[(OUT1_0).view.set]{fullShare} OUTc m d) ∗ ((OUT2_0).view.loc (TH d) ↦[(OUT2_0).view.set]{fullShare} OUTc m d)) := by
  show bigSep ({((8 : Fin 9), (0 : Fin 2), (2 : Fin 8)), ((7 : Fin 9), (0 : Fin 2), (3 : Fin 8)), ((5 : Fin 9), (0 : Fin 2), (3 : Fin 8)), ((2 : Fin 9), (1 : Fin 2), (3 : Fin 8))} : Finset (Fin 9 × Fin 2 × Fin 8)) (B1 m d) = _
  rw [SparseCore.bigSep_insert' (by decide), SparseCore.bigSep_insert' (by decide), SparseCore.bigSep_insert' (by decide), bigSep_singleton]
  exact (congrArg₂ (fun a b : sProp 𝕄 => iprop(a ∗ b)) (pts_v10 d (cV LL) (jV LL) (8 : Fin 9) (0 : Fin 2) (2 : Fin 8) _ (OUTc m d)).symm (congrArg₂ (fun a b : sProp 𝕄 => iprop(a ∗ b)) (pts_v10 d (cV LL) (jV LL) (7 : Fin 9) (0 : Fin 2) (3 : Fin 8) _ (OUTc m d)).symm (congrArg₂ (fun a b : sProp 𝕄 => iprop(a ∗ b)) (pts_v10 d (cV LL) (jV LL) (5 : Fin 9) (0 : Fin 2) (3 : Fin 8) _ (OUTc m d)).symm (pts_v10 d (cV LL) (jV LL) (2 : Fin 9) (1 : Fin 2) (3 : Fin 8) _ (OUTc m d)).symm)))

/-! ## What each output slice has to hold is what its source slice holds -/

theorem val0_0 (m : (ℓ : Loc nD τ sig) → Buf (Elt F) ℓ) (d : Dev nD) :
    (SRC0).view.read (Elt F) (V7c m d) = (OUT0_0).view.read (Elt F) (OUTc m d) := by
  funext y
  obtain ⟨t, q, rfl⟩ : ∃ (t q : Fin 128), y = ix2 t q := ⟨y 0, y 1, eq_ix2 y⟩
  refine (read_v7 (8 : Fin 17) _ _ t q).trans ((?_ : _ = _).trans (read_v10 (8 : Fin 9) (0 : Fin 2) (2 : Fin 8) _ _ t q).symm)
  unfold V7c OUTc
  rw [Cert.Layout.visV_apply]
  refine Eq.trans ?_ (outV_at _ _ _ _ _ _ _ t _ q (show 8 * 0 + 2 < 14 by decide)).symm
  rfl
theorem val0_1 (m : (ℓ : Loc nD τ sig) → Buf (Elt F) ℓ) (d : Dev nD) :
    (SRC0).view.read (Elt F) (V7c m d) = (OUT0_1).view.read (Elt F) (OUTc m d) := by
  funext y
  obtain ⟨t, q, rfl⟩ : ∃ (t q : Fin 128), y = ix2 t q := ⟨y 0, y 1, eq_ix2 y⟩
  refine (read_v7 (8 : Fin 17) _ _ t q).trans ((?_ : _ = _).trans (read_v10 (7 : Fin 9) (0 : Fin 2) (3 : Fin 8) _ _ t q).symm)
  unfold V7c OUTc
  rw [Cert.Layout.visV_apply]
  refine Eq.trans ?_ (outV_at _ _ _ _ _ _ _ t _ q (show 8 * 0 + 3 < 14 by decide)).symm
  rfl
theorem val1_0 (m : (ℓ : Loc nD τ sig) → Buf (Elt F) ℓ) (d : Dev nD) :
    (SRC1).view.read (Elt F) (V2c m d) = (OUT1_0).view.read (Elt F) (OUTc m d) := by
  funext y
  obtain ⟨t, q, rfl⟩ : ∃ (t q : Fin 128), y = ix2 t q := ⟨y 0, y 1, eq_ix2 y⟩
  refine (read_v2 (10 : Fin 17) (0 : Fin 2) _ _ t q).trans ((?_ : _ = _).trans (read_v10 (5 : Fin 9) (0 : Fin 2) (3 : Fin 8) _ _ t q).symm)
  unfold V2c OUTc
  rw [Cert.Layout.poseV_apply]
  refine Eq.trans ?_ (outV_at _ _ _ _ _ _ _ t _ q (show 8 * 0 + 3 < 14 by decide)).symm
  rfl
theorem val2_0 (m : (ℓ : Loc nD τ sig) → Buf (Elt F) ℓ) (d : Dev nD) :
    (SRC2).view.read (Elt F) (V9c m d) = (OUT2_0).view.read (Elt F) (OUTc m d) := by
  funext y
  obtain ⟨t, q, rfl⟩ : ∃ (t q : Fin 128), y = ix2 t q := ⟨y 0, y 1, eq_ix2 y⟩
  refine (read_v9 (11 : Fin 14) _ _ t q).trans ((?_ : _ = _).trans (read_v10 (2 : Fin 9) (1 : Fin 2) (3 : Fin 8) _ _ t q).symm)
  unfold V9c OUTc
  rw [Cert.Layout.lenV_apply]
  refine Eq.trans ?_ (outV_at _ _ _ _ _ _ _ t _ q (show 8 * 1 + 3 < 14 by decide)).symm
  rfl

/-! ## The run -/

open Lean Elab Tactic Meta in
/-- Unfold the names the symbolic run gave to the values its copies carry. -/
elab "unfold_carried" : tactic => do
  for _ in [0:6] do
    let g ← getMainGoal
    let t ← instantiateMVars (← g.getType)
    if (t.getUsedConstants.any fun n => n.components.any (· == `sl)) then
      let t' ← deltaExpand t (fun n => n.components.any (· == `sl))
      let g' ← g.change t' (checkDefEq := false)
      replaceMainGoal [g']

variable [FloatOps F] [∀ e, Nonempty (Elt F e)]

theorem run (m : (ℓ : Loc nD τ sig) → Buf (Elt F) ℓ) (d : Dev nD) (O : CellTallies nD τ sig (HIx 1)) (W : Waits sig (HIx 1)) (hO : ∀ g, O g none = 0) :
    (iprop(levAts (K (F := F)).L (K (F := F)).lev ∗ tileG m d (17 : Fin 32)
        ∗ scopedBufs (TH d) ∗ scopedSems0 (TH d) ∗ owes (TH d) O W) : sProp 𝕄)
      ⊢ wp frame (wpE (defs₀ (F := F)) 𝒱₀ (TH d) none) Set.univ
          (cc0_run LL (Memref.whole main_v2_scv) (Memref.isWhole_whole _) (Memref.whole main_v7_scv) (Memref.isWhole_whole _) (Memref.whole main_v5_scv) (Memref.isWhole_whole _) (Memref.whole main_v9_scv) (Memref.isWhole_whole _) (Memref.whole main_v10_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8)
          fun _ => iprop(tileT m d (17 : Fin 32) ∗ scopedBufs (TH d) ∗ scopedSems0 (TH d)
            ∗ ∃ W', ⌜∀ p ∈ W', p ∈ W ∨ p.2 = none⌝ ∗ owes (TH d) O W') := by
  rw [(K (F := F)).scopedBufs_V facts d (cV LL) (jV LL), SparseCore.Cfg.scopedSems0_V (Val := Elt F) d (cV LL) (jV LL), ownSems0_V, ownBufs_V]
  unfold tileG tileT
  iintro ⟨#Hlv, ⟨HF2, HF7, -, HF9, HF10⟩, ⟨⟨%fb0, Hb0⟩, ⟨%fb1, Hb1⟩, ⟨%fb2, Hb2⟩, Hbufs⟩, ⟨Hs3, Hs4, Hs5, Hs6, Hs7, Hs8, Hsems⟩, HO⟩
  ihave HF2' := (Entails.of_eq (open2 m d)) $$ HF2
  icases HF2' with HS1
  ihave HF7' := (Entails.of_eq (open7 m d)) $$ HF7
  icases HF7' with HS0
  ihave HF9' := (Entails.of_eq (open9 m d)) $$ HF9
  icases HF9' with HS2
  ihave HF10' := (Entails.of_eq (open10 m d)) $$ HF10
  icases HF10' with ⟨HO0_0, HO0_1, HO1_0, HO2_0⟩
  ihave Hmw := ((K (F := F)).mayWaits_none (thr := TH d) hO) $$ Hlv
  ihave Hb0' := (Entails.of_eq (pts_b0 d (cV LL) (jV LL) _).symm) $$ Hb0
  ihave Hb1' := (Entails.of_eq (pts_b1 d (cV LL) (jV LL) _).symm) $$ Hb1
  ihave Hb2' := (Entails.of_eq (pts_b2 d (cV LL) (jV LL) _).symm) $$ Hb2
  have _plan : Transfers.BatchOf (TH d) (SemLoc.dma (sig := sig) cc0_scratch6.sem) 2 (windows := true) := trivial
  sl_unfold [cc0_run]
  sl_exec_parts (disch := decide)
  sl_step
  isplitl [HS1 HS0 HS2 HO0_0 HO0_1 HO1_0 HO2_0]
  · skip
    isplitl [HS1]
    · iapply (Entails.of_eq (open2 m d).symm)
      iexact HS1
    isplitl [HS0]
    · iapply (Entails.of_eq (open7 m d).symm)
      iexact HS0
    isplitr
    · rw [show t5 (17 : Fin 32) = ∅ from rfl, bigSep_empty]; iempintro
    isplitl [HS2]
    · iapply (Entails.of_eq (open9 m d).symm)
      iexact HS2
    · iapply (Entails.of_eq (close10 m d).symm)
      isplitl [HO0_0]
      · iapply (out_post_ent (TH d) (OUT0_0) _ (OUTc m d) _ ?hv0_0) $$ HO0_0
        case hv0_0 => unfold_carried; simp only [ReadAs.apply_same, View.read_write_univ]; exact val0_0 m d
      isplitl [HO0_1]
      · iapply (out_post_ent (TH d) (OUT0_1) _ (OUTc m d) _ ?hv0_1) $$ HO0_1
        case hv0_1 => unfold_carried; simp only [ReadAs.apply_same, View.read_write_univ]; exact val0_1 m d
      isplitl [HO1_0]
      · iapply (out_post_ent (TH d) (OUT1_0) _ (OUTc m d) _ ?hv1_0) $$ HO1_0
        case hv1_0 => unfold_carried; simp only [ReadAs.apply_same, View.read_write_univ]; exact val1_0 m d
      iapply (out_post_ent (TH d) (OUT2_0) _ (OUTc m d) _ ?hv2_0) $$ HO2_0
      case hv2_0 => unfold_carried; simp only [ReadAs.apply_same, View.read_write_univ]; exact val2_0 m d

  isplitl [Hb0' Hb1' Hb2' Hbufs]
  · isplitl [Hb0']
    · iexists _; iapply (Entails.of_eq (pts_b0 d (cV LL) (jV LL) _)); iexact Hb0'
    isplitl [Hb1']
    · iexists _; iapply (Entails.of_eq (pts_b1 d (cV LL) (jV LL) _)); iexact Hb1'
    isplitl [Hb2']
    · iexists _; iapply (Entails.of_eq (pts_b2 d (cV LL) (jV LL) _)); iexact Hb2'
    iexact Hbufs
  isplitl [Hs3 Hs4 Hs5 Hs6 Hs7 Hs8 Hsems]
  · isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    iexact Hsems
  iexists _; isplitr
  rotate_left
  · iexact HO
  · ipureintro; intro p hp
    simp only [Finset.mem_insert] at hp
    rcases hp with rfl | rfl | rfl | rfl | rfl | rfl | rfl | hp <;> first | exact .inr rfl | exact .inl hp

end Cert.Proof.KB.Tile17

end
-- ==== Proof.KBTile18.lean ====
/-
  Tile 18 of the kernel (subcore 9 of core 0): one slice in (pose13.0), 2 out; one slice in (pose10.1), 1 out; one slice in (delta12.0), 1 out.
  Its whole body is run: every copy it does not own is skipped by the comparison of its number with the copy's owner;
  each incoming copy fills a staging buffer, each outgoing copy carries that buffer into one slice of the output array,
  and what each output slice then holds is the source slice the specification asks for there.
-/
import proofs.«210185_g18468359372994_cont_8to1_1390_15_alg».proof.Proof.KBRead

set_option maxHeartbeats 4000000
set_option quotPrecheck false

noncomputable section

namespace Cert.Proof.KB.Tile18

open Cert.Kernel Cert.Kernel.Gen
open Cert.Proof.KB
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
theorem cLt : 0 < grid0.bound 0 := by decide
theorem sLt : 9 < grid0.bound 1 := by decide
local notation "LL" => (coordsV (⟨0, cLt⟩ : Fin (grid0.bound 0)) (⟨9, sLt⟩ : Fin (grid0.bound 1)))
local notation "TH" d => V d (cV LL) (jV LL)
local notation "SRC0" => (((Memref.whole main_v2_scv).slice (Rect.unit (s := S17x128x2x128) ![13, 0, 0, 0] S1x128x1x128.size inb_S17x128x2x128_S1x128x1x128_13_0_0_0) (fun _ => rfl)).squeeze S128x128 squeezes_S1x128x1x128_S128x128 : Memref sig .scVector .hbm S128x128 .f32)
local notation "OUT0_0" => (((Memref.whole main_v10_scv).slice (Rect.unit (s := S9x2x128x8x128) ![5, 0, 0, 4, 0] S1x1x128x1x128.size inb_S9x2x128x8x128_S1x1x128x1x128_5_0_0_4_0) (fun _ => rfl)).squeeze S128x128 squeezes_S1x1x128x1x128_S128x128 : Memref sig .scVector .hbm S128x128 .f32)
local notation "OUT0_1" => (((Memref.whole main_v10_scv).slice (Rect.unit (s := S9x2x128x8x128) ![3, 0, 0, 5, 0] S1x1x128x1x128.size inb_S9x2x128x8x128_S1x1x128x1x128_3_0_0_5_0) (fun _ => rfl)).squeeze S128x128 squeezes_S1x1x128x1x128_S128x128 : Memref sig .scVector .hbm S128x128 .f32)
local notation "SRC1" => (((Memref.whole main_v2_scv).slice (Rect.unit (s := S17x128x2x128) ![10, 0, 1, 0] S1x128x1x128.size inb_S17x128x2x128_S1x128x1x128_10_0_1_0) (fun _ => rfl)).squeeze S128x128 squeezes_S1x128x1x128_S128x128 : Memref sig .scVector .hbm S128x128 .f32)
local notation "OUT1_0" => (((Memref.whole main_v10_scv).slice (Rect.unit (s := S9x2x128x8x128) ![6, 0, 0, 3, 0] S1x1x128x1x128.size inb_S9x2x128x8x128_S1x1x128x1x128_6_0_0_3_0) (fun _ => rfl)).squeeze S128x128 squeezes_S1x1x128x1x128_S128x128 : Memref sig .scVector .hbm S128x128 .f32)
local notation "SRC2" => (((Memref.whole main_v5_scv).slice (Rect.unit (s := S14x128x2x128) ![12, 0, 0, 0] S1x128x1x128.size inb_S14x128x2x128_S1x128x1x128_12_0_0_0) (fun _ => rfl)).squeeze S128x128 squeezes_S1x128x1x128_S128x128 : Memref sig .scVector .hbm S128x128 .f32)
local notation "OUT2_0" => (((Memref.whole main_v10_scv).slice (Rect.unit (s := S9x2x128x8x128) ![0, 1, 0, 4, 0] S1x1x128x1x128.size inb_S9x2x128x8x128_S1x1x128x1x128_0_1_0_4_0) (fun _ => rfl)).squeeze S128x128 squeezes_S1x1x128x1x128_S128x128 : Memref sig .scVector .hbm S128x128 .f32)

/-! ## The tile's slices, as its memrefs name them -/

theorem open2 (m : (ℓ : Loc nD τ sig) → Buf (Elt F) ℓ) (d : Dev nD) :
    (bigSep (t2 (18 : Fin 32)) (A2 m d) : sProp 𝕄) = iprop(((SRC0).view.loc (TH d) ↦[(SRC0).view.set]{fullShare} V2c m d) ∗ ((SRC1).view.loc (TH d) ↦[(SRC1).view.set]{fullShare} V2c m d)) := by
  show bigSep ({((13 : Fin 17), (0 : Fin 2)), ((10 : Fin 17), (1 : Fin 2))} : Finset (Fin 17 × Fin 2)) (A2 m d) = _
  rw [SparseCore.bigSep_insert' (by decide), bigSep_singleton]
  exact (congrArg₂ (fun a b : sProp 𝕄 => iprop(a ∗ b)) (pts_v2 d (cV LL) (jV LL) (13 : Fin 17) (0 : Fin 2) _ (V2c m d)).symm (pts_v2 d (cV LL) (jV LL) (10 : Fin 17) (1 : Fin 2) _ (V2c m d)).symm)
theorem open5 (m : (ℓ : Loc nD τ sig) → Buf (Elt F) ℓ) (d : Dev nD) :
    (bigSep (t5 (18 : Fin 32)) (A5 m d) : sProp 𝕄) = iprop(((SRC2).view.loc (TH d) ↦[(SRC2).view.set]{fullShare} V5c m d)) := by
  show bigSep ({((12 : Fin 14), (0 : Fin 2))} : Finset (Fin 14 × Fin 2)) (A5 m d) = _
  rw [bigSep_singleton]
  exact (pts_v5 d (cV LL) (jV LL) (12 : Fin 14) (0 : Fin 2) _ (V5c m d)).symm
theorem open10 (m : (ℓ : Loc nD τ sig) → Buf (Elt F) ℓ) (d : Dev nD) :
    (bigSep (t10 (18 : Fin 32)) (B0 m d) : sProp 𝕄) = iprop(((OUT0_0).view.loc (TH d) ↦[(OUT0_0).view.set]{fullShare} m (v10L d)) ∗ ((OUT0_1).view.loc (TH d) ↦[(OUT0_1).view.set]{fullShare} m (v10L d)) ∗ ((OUT1_0).view.loc (TH d) ↦[(OUT1_0).view.set]{fullShare} m (v10L d)) ∗ ((OUT2_0).view.loc (TH d) ↦[(OUT2_0).view.set]{fullShare} m (v10L d))) := by
  show bigSep ({((5 : Fin 9), (0 : Fin 2), (4 : Fin 8)), ((3 : Fin 9), (0 : Fin 2), (5 : Fin 8)), ((6 : Fin 9), (0 : Fin 2), (3 : Fin 8)), ((0 : Fin 9), (1 : Fin 2), (4 : Fin 8))} : Finset (Fin 9 × Fin 2 × Fin 8)) (B0 m d) = _
  rw [SparseCore.bigSep_insert' (by decide), SparseCore.bigSep_insert' (by decide), SparseCore.bigSep_insert' (by decide), bigSep_singleton]
  exact (congrArg₂ (fun a b : sProp 𝕄 => iprop(a ∗ b)) (pts_v10 d (cV LL) (jV LL) (5 : Fin 9) (0 : Fin 2) (4 : Fin 8) _ (m (v10L d))).symm (congrArg₂ (fun a b : sProp 𝕄 => iprop(a ∗ b)) (pts_v10 d (cV LL) (jV LL) (3 : Fin 9) (0 : Fin 2) (5 : Fin 8) _ (m (v10L d))).symm (congrArg₂ (fun a b : sProp 𝕄 => iprop(a ∗ b)) (pts_v10 d (cV LL) (jV LL) (6 : Fin 9) (0 : Fin 2) (3 : Fin 8) _ (m (v10L d))).symm (pts_v10 d (cV LL) (jV LL) (0 : Fin 9) (1 : Fin 2) (4 : Fin 8) _ (m (v10L d))).symm)))
theorem close10 (m : (ℓ : Loc nD τ sig) → Buf (Elt F) ℓ) (d : Dev nD) :
    (bigSep (t10 (18 : Fin 32)) (B1 m d) : sProp 𝕄) = iprop(((OUT0_0).view.loc (TH d) ↦[(OUT0_0).view.set]{fullShare} OUTc m d) ∗ ((OUT0_1).view.loc (TH d) ↦[(OUT0_1).view.set]{fullShare} OUTc m d) ∗ ((OUT1_0).view.loc (TH d) ↦[(OUT1_0).view.set]{fullShare} OUTc m d) ∗ ((OUT2_0).view.loc (TH d) ↦[(OUT2_0).view.set]{fullShare} OUTc m d)) := by
  show bigSep ({((5 : Fin 9), (0 : Fin 2), (4 : Fin 8)), ((3 : Fin 9), (0 : Fin 2), (5 : Fin 8)), ((6 : Fin 9), (0 : Fin 2), (3 : Fin 8)), ((0 : Fin 9), (1 : Fin 2), (4 : Fin 8))} : Finset (Fin 9 × Fin 2 × Fin 8)) (B1 m d) = _
  rw [SparseCore.bigSep_insert' (by decide), SparseCore.bigSep_insert' (by decide), SparseCore.bigSep_insert' (by decide), bigSep_singleton]
  exact (congrArg₂ (fun a b : sProp 𝕄 => iprop(a ∗ b)) (pts_v10 d (cV LL) (jV LL) (5 : Fin 9) (0 : Fin 2) (4 : Fin 8) _ (OUTc m d)).symm (congrArg₂ (fun a b : sProp 𝕄 => iprop(a ∗ b)) (pts_v10 d (cV LL) (jV LL) (3 : Fin 9) (0 : Fin 2) (5 : Fin 8) _ (OUTc m d)).symm (congrArg₂ (fun a b : sProp 𝕄 => iprop(a ∗ b)) (pts_v10 d (cV LL) (jV LL) (6 : Fin 9) (0 : Fin 2) (3 : Fin 8) _ (OUTc m d)).symm (pts_v10 d (cV LL) (jV LL) (0 : Fin 9) (1 : Fin 2) (4 : Fin 8) _ (OUTc m d)).symm)))

/-! ## What each output slice has to hold is what its source slice holds -/

theorem val0_0 (m : (ℓ : Loc nD τ sig) → Buf (Elt F) ℓ) (d : Dev nD) :
    (SRC0).view.read (Elt F) (V2c m d) = (OUT0_0).view.read (Elt F) (OUTc m d) := by
  funext y
  obtain ⟨t, q, rfl⟩ : ∃ (t q : Fin 128), y = ix2 t q := ⟨y 0, y 1, eq_ix2 y⟩
  refine (read_v2 (13 : Fin 17) (0 : Fin 2) _ _ t q).trans ((?_ : _ = _).trans (read_v10 (5 : Fin 9) (0 : Fin 2) (4 : Fin 8) _ _ t q).symm)
  unfold V2c OUTc
  rw [Cert.Layout.poseV_apply]
  refine Eq.trans ?_ (outV_at _ _ _ _ _ _ _ t _ q (show 8 * 0 + 4 < 14 by decide)).symm
  rfl
theorem val0_1 (m : (ℓ : Loc nD τ sig) → Buf (Elt F) ℓ) (d : Dev nD) :
    (SRC0).view.read (Elt F) (V2c m d) = (OUT0_1).view.read (Elt F) (OUTc m d) := by
  funext y
  obtain ⟨t, q, rfl⟩ : ∃ (t q : Fin 128), y = ix2 t q := ⟨y 0, y 1, eq_ix2 y⟩
  refine (read_v2 (13 : Fin 17) (0 : Fin 2) _ _ t q).trans ((?_ : _ = _).trans (read_v10 (3 : Fin 9) (0 : Fin 2) (5 : Fin 8) _ _ t q).symm)
  unfold V2c OUTc
  rw [Cert.Layout.poseV_apply]
  refine Eq.trans ?_ (outV_at _ _ _ _ _ _ _ t _ q (show 8 * 0 + 5 < 14 by decide)).symm
  rfl
theorem val1_0 (m : (ℓ : Loc nD τ sig) → Buf (Elt F) ℓ) (d : Dev nD) :
    (SRC1).view.read (Elt F) (V2c m d) = (OUT1_0).view.read (Elt F) (OUTc m d) := by
  funext y
  obtain ⟨t, q, rfl⟩ : ∃ (t q : Fin 128), y = ix2 t q := ⟨y 0, y 1, eq_ix2 y⟩
  refine (read_v2 (10 : Fin 17) (1 : Fin 2) _ _ t q).trans ((?_ : _ = _).trans (read_v10 (6 : Fin 9) (0 : Fin 2) (3 : Fin 8) _ _ t q).symm)
  unfold V2c OUTc
  rw [Cert.Layout.poseV_apply]
  refine Eq.trans ?_ (outV_at _ _ _ _ _ _ _ t _ q (show 8 * 0 + 3 < 14 by decide)).symm
  rfl
theorem val2_0 (m : (ℓ : Loc nD τ sig) → Buf (Elt F) ℓ) (d : Dev nD) :
    (SRC2).view.read (Elt F) (V5c m d) = (OUT2_0).view.read (Elt F) (OUTc m d) := by
  funext y
  obtain ⟨t, q, rfl⟩ : ∃ (t q : Fin 128), y = ix2 t q := ⟨y 0, y 1, eq_ix2 y⟩
  refine (read_v5 (12 : Fin 14) (0 : Fin 2) _ _ t q).trans ((?_ : _ = _).trans (read_v10 (0 : Fin 9) (1 : Fin 2) (4 : Fin 8) _ _ t q).symm)
  unfold V5c OUTc
  rw [Cert.Layout.deltaV_apply]
  refine Eq.trans ?_ (outV_at _ _ _ _ _ _ _ t _ q (show 8 * 1 + 4 < 14 by decide)).symm
  rfl

/-! ## The run -/

open Lean Elab Tactic Meta in
/-- Unfold the names the symbolic run gave to the values its copies carry. -/
elab "unfold_carried" : tactic => do
  for _ in [0:6] do
    let g ← getMainGoal
    let t ← instantiateMVars (← g.getType)
    if (t.getUsedConstants.any fun n => n.components.any (· == `sl)) then
      let t' ← deltaExpand t (fun n => n.components.any (· == `sl))
      let g' ← g.change t' (checkDefEq := false)
      replaceMainGoal [g']

variable [FloatOps F] [∀ e, Nonempty (Elt F e)]

theorem run (m : (ℓ : Loc nD τ sig) → Buf (Elt F) ℓ) (d : Dev nD) (O : CellTallies nD τ sig (HIx 1)) (W : Waits sig (HIx 1)) (hO : ∀ g, O g none = 0) :
    (iprop(levAts (K (F := F)).L (K (F := F)).lev ∗ tileG m d (18 : Fin 32)
        ∗ scopedBufs (TH d) ∗ scopedSems0 (TH d) ∗ owes (TH d) O W) : sProp 𝕄)
      ⊢ wp frame (wpE (defs₀ (F := F)) 𝒱₀ (TH d) none) Set.univ
          (cc0_run LL (Memref.whole main_v2_scv) (Memref.isWhole_whole _) (Memref.whole main_v7_scv) (Memref.isWhole_whole _) (Memref.whole main_v5_scv) (Memref.isWhole_whole _) (Memref.whole main_v9_scv) (Memref.isWhole_whole _) (Memref.whole main_v10_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8)
          fun _ => iprop(tileT m d (18 : Fin 32) ∗ scopedBufs (TH d) ∗ scopedSems0 (TH d)
            ∗ ∃ W', ⌜∀ p ∈ W', p ∈ W ∨ p.2 = none⌝ ∗ owes (TH d) O W') := by
  rw [(K (F := F)).scopedBufs_V facts d (cV LL) (jV LL), SparseCore.Cfg.scopedSems0_V (Val := Elt F) d (cV LL) (jV LL), ownSems0_V, ownBufs_V]
  unfold tileG tileT
  iintro ⟨#Hlv, ⟨HF2, -, HF5, -, HF10⟩, ⟨⟨%fb0, Hb0⟩, ⟨%fb1, Hb1⟩, ⟨%fb2, Hb2⟩, Hbufs⟩, ⟨Hs3, Hs4, Hs5, Hs6, Hs7, Hs8, Hsems⟩, HO⟩
  ihave HF2' := (Entails.of_eq (open2 m d)) $$ HF2
  icases HF2' with ⟨HS0, HS1⟩
  ihave HF5' := (Entails.of_eq (open5 m d)) $$ HF5
  icases HF5' with HS2
  ihave HF10' := (Entails.of_eq (open10 m d)) $$ HF10
  icases HF10' with ⟨HO0_0, HO0_1, HO1_0, HO2_0⟩
  ihave Hmw := ((K (F := F)).mayWaits_none (thr := TH d) hO) $$ Hlv
  ihave Hb0' := (Entails.of_eq (pts_b0 d (cV LL) (jV LL) _).symm) $$ Hb0
  ihave Hb1' := (Entails.of_eq (pts_b1 d (cV LL) (jV LL) _).symm) $$ Hb1
  ihave Hb2' := (Entails.of_eq (pts_b2 d (cV LL) (jV LL) _).symm) $$ Hb2
  have _plan : Transfers.BatchOf (TH d) (SemLoc.dma (sig := sig) cc0_scratch6.sem) 2 (windows := true) := trivial
  sl_unfold [cc0_run]
  sl_exec_parts (disch := decide)
  sl_step
  isplitl [HS0 HS1 HS2 HO0_0 HO0_1 HO1_0 HO2_0]
  · skip
    isplitl [HS0 HS1]
    · iapply (Entails.of_eq (open2 m d).symm)
      isplitl [HS0]; · iexact HS0
      iexact HS1
    isplitr
    · rw [show t7 (18 : Fin 32) = ∅ from rfl, bigSep_empty]; iempintro
    isplitl [HS2]
    · iapply (Entails.of_eq (open5 m d).symm)
      iexact HS2
    isplitr
    · rw [show t9 (18 : Fin 32) = ∅ from rfl, bigSep_empty]; iempintro
    · iapply (Entails.of_eq (close10 m d).symm)
      isplitl [HO0_0]
      · iapply (out_post_ent (TH d) (OUT0_0) _ (OUTc m d) _ ?hv0_0) $$ HO0_0
        case hv0_0 => unfold_carried; simp only [ReadAs.apply_same, View.read_write_univ]; exact val0_0 m d
      isplitl [HO0_1]
      · iapply (out_post_ent (TH d) (OUT0_1) _ (OUTc m d) _ ?hv0_1) $$ HO0_1
        case hv0_1 => unfold_carried; simp only [ReadAs.apply_same, View.read_write_univ]; exact val0_1 m d
      isplitl [HO1_0]
      · iapply (out_post_ent (TH d) (OUT1_0) _ (OUTc m d) _ ?hv1_0) $$ HO1_0
        case hv1_0 => unfold_carried; simp only [ReadAs.apply_same, View.read_write_univ]; exact val1_0 m d
      iapply (out_post_ent (TH d) (OUT2_0) _ (OUTc m d) _ ?hv2_0) $$ HO2_0
      case hv2_0 => unfold_carried; simp only [ReadAs.apply_same, View.read_write_univ]; exact val2_0 m d

  isplitl [Hb0' Hb1' Hb2' Hbufs]
  · isplitl [Hb0']
    · iexists _; iapply (Entails.of_eq (pts_b0 d (cV LL) (jV LL) _)); iexact Hb0'
    isplitl [Hb1']
    · iexists _; iapply (Entails.of_eq (pts_b1 d (cV LL) (jV LL) _)); iexact Hb1'
    isplitl [Hb2']
    · iexists _; iapply (Entails.of_eq (pts_b2 d (cV LL) (jV LL) _)); iexact Hb2'
    iexact Hbufs
  isplitl [Hs3 Hs4 Hs5 Hs6 Hs7 Hs8 Hsems]
  · isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    iexact Hsems
  iexists _; isplitr
  rotate_left
  · iexact HO
  · ipureintro; intro p hp
    simp only [Finset.mem_insert] at hp
    rcases hp with rfl | rfl | rfl | rfl | rfl | rfl | rfl | hp <;> first | exact .inr rfl | exact .inl hp

end Cert.Proof.KB.Tile18

end
-- ==== Proof.KBTile19.lean ====
/-
  Tile 19 of the kernel (subcore 9 of core 1): one slice in (pose13.1), 2 out; one slice in (vis10), 1 out; one slice in (delta12.1), 1 out.
  Its whole body is run: every copy it does not own is skipped by the comparison of its number with the copy's owner;
  each incoming copy fills a staging buffer, each outgoing copy carries that buffer into one slice of the output array,
  and what each output slice then holds is the source slice the specification asks for there.
-/
import proofs.«210185_g18468359372994_cont_8to1_1390_15_alg».proof.Proof.KBRead

set_option maxHeartbeats 4000000
set_option quotPrecheck false

noncomputable section

namespace Cert.Proof.KB.Tile19

open Cert.Kernel Cert.Kernel.Gen
open Cert.Proof.KB
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
theorem cLt : 1 < grid0.bound 0 := by decide
theorem sLt : 9 < grid0.bound 1 := by decide
local notation "LL" => (coordsV (⟨1, cLt⟩ : Fin (grid0.bound 0)) (⟨9, sLt⟩ : Fin (grid0.bound 1)))
local notation "TH" d => V d (cV LL) (jV LL)
local notation "SRC0" => (((Memref.whole main_v2_scv).slice (Rect.unit (s := S17x128x2x128) ![13, 0, 1, 0] S1x128x1x128.size inb_S17x128x2x128_S1x128x1x128_13_0_1_0) (fun _ => rfl)).squeeze S128x128 squeezes_S1x128x1x128_S128x128 : Memref sig .scVector .hbm S128x128 .f32)
local notation "OUT0_0" => (((Memref.whole main_v10_scv).slice (Rect.unit (s := S9x2x128x8x128) ![6, 0, 0, 4, 0] S1x1x128x1x128.size inb_S9x2x128x8x128_S1x1x128x1x128_6_0_0_4_0) (fun _ => rfl)).squeeze S128x128 squeezes_S1x1x128x1x128_S128x128 : Memref sig .scVector .hbm S128x128 .f32)
local notation "OUT0_1" => (((Memref.whole main_v10_scv).slice (Rect.unit (s := S9x2x128x8x128) ![4, 0, 0, 5, 0] S1x1x128x1x128.size inb_S9x2x128x8x128_S1x1x128x1x128_4_0_0_5_0) (fun _ => rfl)).squeeze S128x128 squeezes_S1x1x128x1x128_S128x128 : Memref sig .scVector .hbm S128x128 .f32)
local notation "SRC1" => (((Memref.whole main_v7_scv).slice (Rect.unit (s := S17x128x128) ![10, 0, 0] S1x128x128.size inb_S17x128x128_S1x128x128_10_0_0) (fun _ => rfl)).squeeze S128x128 squeezes_S1x128x128_S128x128 : Memref sig .scVector .hbm S128x128 .f32)
local notation "OUT1_0" => (((Memref.whole main_v10_scv).slice (Rect.unit (s := S9x2x128x8x128) ![8, 0, 0, 3, 0] S1x1x128x1x128.size inb_S9x2x128x8x128_S1x1x128x1x128_8_0_0_3_0) (fun _ => rfl)).squeeze S128x128 squeezes_S1x1x128x1x128_S128x128 : Memref sig .scVector .hbm S128x128 .f32)
local notation "SRC2" => (((Memref.whole main_v5_scv).slice (Rect.unit (s := S14x128x2x128) ![12, 0, 1, 0] S1x128x1x128.size inb_S14x128x2x128_S1x128x1x128_12_0_1_0) (fun _ => rfl)).squeeze S128x128 squeezes_S1x128x1x128_S128x128 : Memref sig .scVector .hbm S128x128 .f32)
local notation "OUT2_0" => (((Memref.whole main_v10_scv).slice (Rect.unit (s := S9x2x128x8x128) ![1, 1, 0, 4, 0] S1x1x128x1x128.size inb_S9x2x128x8x128_S1x1x128x1x128_1_1_0_4_0) (fun _ => rfl)).squeeze S128x128 squeezes_S1x1x128x1x128_S128x128 : Memref sig .scVector .hbm S128x128 .f32)

/-! ## The tile's slices, as its memrefs name them -/

theorem open2 (m : (ℓ : Loc nD τ sig) → Buf (Elt F) ℓ) (d : Dev nD) :
    (bigSep (t2 (19 : Fin 32)) (A2 m d) : sProp 𝕄) = iprop(((SRC0).view.loc (TH d) ↦[(SRC0).view.set]{fullShare} V2c m d)) := by
  show bigSep ({((13 : Fin 17), (1 : Fin 2))} : Finset (Fin 17 × Fin 2)) (A2 m d) = _
  rw [bigSep_singleton]
  exact (pts_v2 d (cV LL) (jV LL) (13 : Fin 17) (1 : Fin 2) _ (V2c m d)).symm
theorem open7 (m : (ℓ : Loc nD τ sig) → Buf (Elt F) ℓ) (d : Dev nD) :
    (bigSep (t7 (19 : Fin 32)) (A7 m d) : sProp 𝕄) = iprop(((SRC1).view.loc (TH d) ↦[(SRC1).view.set]{fullShare} V7c m d)) := by
  show bigSep ({(10 : Fin 17)} : Finset (Fin 17)) (A7 m d) = _
  rw [bigSep_singleton]
  exact (pts_v7 d (cV LL) (jV LL) (10 : Fin 17) _ (V7c m d)).symm
theorem open5 (m : (ℓ : Loc nD τ sig) → Buf (Elt F) ℓ) (d : Dev nD) :
    (bigSep (t5 (19 : Fin 32)) (A5 m d) : sProp 𝕄) = iprop(((SRC2).view.loc (TH d) ↦[(SRC2).view.set]{fullShare} V5c m d)) := by
  show bigSep ({((12 : Fin 14), (1 : Fin 2))} : Finset (Fin 14 × Fin 2)) (A5 m d) = _
  rw [bigSep_singleton]
  exact (pts_v5 d (cV LL) (jV LL) (12 : Fin 14) (1 : Fin 2) _ (V5c m d)).symm
theorem open10 (m : (ℓ : Loc nD τ sig) → Buf (Elt F) ℓ) (d : Dev nD) :
    (bigSep (t10 (19 : Fin 32)) (B0 m d) : sProp 𝕄) = iprop(((OUT0_0).view.loc (TH d) ↦[(OUT0_0).view.set]{fullShare} m (v10L d)) ∗ ((OUT0_1).view.loc (TH d) ↦[(OUT0_1).view.set]{fullShare} m (v10L d)) ∗ ((OUT1_0).view.loc (TH d) ↦[(OUT1_0).view.set]{fullShare} m (v10L d)) ∗ ((OUT2_0).view.loc (TH d) ↦[(OUT2_0).view.set]{fullShare} m (v10L d))) := by
  show bigSep ({((6 : Fin 9), (0 : Fin 2), (4 : Fin 8)), ((4 : Fin 9), (0 : Fin 2), (5 : Fin 8)), ((8 : Fin 9), (0 : Fin 2), (3 : Fin 8)), ((1 : Fin 9), (1 : Fin 2), (4 : Fin 8))} : Finset (Fin 9 × Fin 2 × Fin 8)) (B0 m d) = _
  rw [SparseCore.bigSep_insert' (by decide), SparseCore.bigSep_insert' (by decide), SparseCore.bigSep_insert' (by decide), bigSep_singleton]
  exact (congrArg₂ (fun a b : sProp 𝕄 => iprop(a ∗ b)) (pts_v10 d (cV LL) (jV LL) (6 : Fin 9) (0 : Fin 2) (4 : Fin 8) _ (m (v10L d))).symm (congrArg₂ (fun a b : sProp 𝕄 => iprop(a ∗ b)) (pts_v10 d (cV LL) (jV LL) (4 : Fin 9) (0 : Fin 2) (5 : Fin 8) _ (m (v10L d))).symm (congrArg₂ (fun a b : sProp 𝕄 => iprop(a ∗ b)) (pts_v10 d (cV LL) (jV LL) (8 : Fin 9) (0 : Fin 2) (3 : Fin 8) _ (m (v10L d))).symm (pts_v10 d (cV LL) (jV LL) (1 : Fin 9) (1 : Fin 2) (4 : Fin 8) _ (m (v10L d))).symm)))
theorem close10 (m : (ℓ : Loc nD τ sig) → Buf (Elt F) ℓ) (d : Dev nD) :
    (bigSep (t10 (19 : Fin 32)) (B1 m d) : sProp 𝕄) = iprop(((OUT0_0).view.loc (TH d) ↦[(OUT0_0).view.set]{fullShare} OUTc m d) ∗ ((OUT0_1).view.loc (TH d) ↦[(OUT0_1).view.set]{fullShare} OUTc m d) ∗ ((OUT1_0).view.loc (TH d) ↦[(OUT1_0).view.set]{fullShare} OUTc m d) ∗ ((OUT2_0).view.loc (TH d) ↦[(OUT2_0).view.set]{fullShare} OUTc m d)) := by
  show bigSep ({((6 : Fin 9), (0 : Fin 2), (4 : Fin 8)), ((4 : Fin 9), (0 : Fin 2), (5 : Fin 8)), ((8 : Fin 9), (0 : Fin 2), (3 : Fin 8)), ((1 : Fin 9), (1 : Fin 2), (4 : Fin 8))} : Finset (Fin 9 × Fin 2 × Fin 8)) (B1 m d) = _
  rw [SparseCore.bigSep_insert' (by decide), SparseCore.bigSep_insert' (by decide), SparseCore.bigSep_insert' (by decide), bigSep_singleton]
  exact (congrArg₂ (fun a b : sProp 𝕄 => iprop(a ∗ b)) (pts_v10 d (cV LL) (jV LL) (6 : Fin 9) (0 : Fin 2) (4 : Fin 8) _ (OUTc m d)).symm (congrArg₂ (fun a b : sProp 𝕄 => iprop(a ∗ b)) (pts_v10 d (cV LL) (jV LL) (4 : Fin 9) (0 : Fin 2) (5 : Fin 8) _ (OUTc m d)).symm (congrArg₂ (fun a b : sProp 𝕄 => iprop(a ∗ b)) (pts_v10 d (cV LL) (jV LL) (8 : Fin 9) (0 : Fin 2) (3 : Fin 8) _ (OUTc m d)).symm (pts_v10 d (cV LL) (jV LL) (1 : Fin 9) (1 : Fin 2) (4 : Fin 8) _ (OUTc m d)).symm)))

/-! ## What each output slice has to hold is what its source slice holds -/

theorem val0_0 (m : (ℓ : Loc nD τ sig) → Buf (Elt F) ℓ) (d : Dev nD) :
    (SRC0).view.read (Elt F) (V2c m d) = (OUT0_0).view.read (Elt F) (OUTc m d) := by
  funext y
  obtain ⟨t, q, rfl⟩ : ∃ (t q : Fin 128), y = ix2 t q := ⟨y 0, y 1, eq_ix2 y⟩
  refine (read_v2 (13 : Fin 17) (1 : Fin 2) _ _ t q).trans ((?_ : _ = _).trans (read_v10 (6 : Fin 9) (0 : Fin 2) (4 : Fin 8) _ _ t q).symm)
  unfold V2c OUTc
  rw [Cert.Layout.poseV_apply]
  refine Eq.trans ?_ (outV_at _ _ _ _ _ _ _ t _ q (show 8 * 0 + 4 < 14 by decide)).symm
  rfl
theorem val0_1 (m : (ℓ : Loc nD τ sig) → Buf (Elt F) ℓ) (d : Dev nD) :
    (SRC0).view.read (Elt F) (V2c m d) = (OUT0_1).view.read (Elt F) (OUTc m d) := by
  funext y
  obtain ⟨t, q, rfl⟩ : ∃ (t q : Fin 128), y = ix2 t q := ⟨y 0, y 1, eq_ix2 y⟩
  refine (read_v2 (13 : Fin 17) (1 : Fin 2) _ _ t q).trans ((?_ : _ = _).trans (read_v10 (4 : Fin 9) (0 : Fin 2) (5 : Fin 8) _ _ t q).symm)
  unfold V2c OUTc
  rw [Cert.Layout.poseV_apply]
  refine Eq.trans ?_ (outV_at _ _ _ _ _ _ _ t _ q (show 8 * 0 + 5 < 14 by decide)).symm
  rfl
theorem val1_0 (m : (ℓ : Loc nD τ sig) → Buf (Elt F) ℓ) (d : Dev nD) :
    (SRC1).view.read (Elt F) (V7c m d) = (OUT1_0).view.read (Elt F) (OUTc m d) := by
  funext y
  obtain ⟨t, q, rfl⟩ : ∃ (t q : Fin 128), y = ix2 t q := ⟨y 0, y 1, eq_ix2 y⟩
  refine (read_v7 (10 : Fin 17) _ _ t q).trans ((?_ : _ = _).trans (read_v10 (8 : Fin 9) (0 : Fin 2) (3 : Fin 8) _ _ t q).symm)
  unfold V7c OUTc
  rw [Cert.Layout.visV_apply]
  refine Eq.trans ?_ (outV_at _ _ _ _ _ _ _ t _ q (show 8 * 0 + 3 < 14 by decide)).symm
  rfl
theorem val2_0 (m : (ℓ : Loc nD τ sig) → Buf (Elt F) ℓ) (d : Dev nD) :
    (SRC2).view.read (Elt F) (V5c m d) = (OUT2_0).view.read (Elt F) (OUTc m d) := by
  funext y
  obtain ⟨t, q, rfl⟩ : ∃ (t q : Fin 128), y = ix2 t q := ⟨y 0, y 1, eq_ix2 y⟩
  refine (read_v5 (12 : Fin 14) (1 : Fin 2) _ _ t q).trans ((?_ : _ = _).trans (read_v10 (1 : Fin 9) (1 : Fin 2) (4 : Fin 8) _ _ t q).symm)
  unfold V5c OUTc
  rw [Cert.Layout.deltaV_apply]
  refine Eq.trans ?_ (outV_at _ _ _ _ _ _ _ t _ q (show 8 * 1 + 4 < 14 by decide)).symm
  rfl

/-! ## The run -/

open Lean Elab Tactic Meta in
/-- Unfold the names the symbolic run gave to the values its copies carry. -/
elab "unfold_carried" : tactic => do
  for _ in [0:6] do
    let g ← getMainGoal
    let t ← instantiateMVars (← g.getType)
    if (t.getUsedConstants.any fun n => n.components.any (· == `sl)) then
      let t' ← deltaExpand t (fun n => n.components.any (· == `sl))
      let g' ← g.change t' (checkDefEq := false)
      replaceMainGoal [g']

variable [FloatOps F] [∀ e, Nonempty (Elt F e)]

theorem run (m : (ℓ : Loc nD τ sig) → Buf (Elt F) ℓ) (d : Dev nD) (O : CellTallies nD τ sig (HIx 1)) (W : Waits sig (HIx 1)) (hO : ∀ g, O g none = 0) :
    (iprop(levAts (K (F := F)).L (K (F := F)).lev ∗ tileG m d (19 : Fin 32)
        ∗ scopedBufs (TH d) ∗ scopedSems0 (TH d) ∗ owes (TH d) O W) : sProp 𝕄)
      ⊢ wp frame (wpE (defs₀ (F := F)) 𝒱₀ (TH d) none) Set.univ
          (cc0_run LL (Memref.whole main_v2_scv) (Memref.isWhole_whole _) (Memref.whole main_v7_scv) (Memref.isWhole_whole _) (Memref.whole main_v5_scv) (Memref.isWhole_whole _) (Memref.whole main_v9_scv) (Memref.isWhole_whole _) (Memref.whole main_v10_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8)
          fun _ => iprop(tileT m d (19 : Fin 32) ∗ scopedBufs (TH d) ∗ scopedSems0 (TH d)
            ∗ ∃ W', ⌜∀ p ∈ W', p ∈ W ∨ p.2 = none⌝ ∗ owes (TH d) O W') := by
  rw [(K (F := F)).scopedBufs_V facts d (cV LL) (jV LL), SparseCore.Cfg.scopedSems0_V (Val := Elt F) d (cV LL) (jV LL), ownSems0_V, ownBufs_V]
  unfold tileG tileT
  iintro ⟨#Hlv, ⟨HF2, HF7, HF5, -, HF10⟩, ⟨⟨%fb0, Hb0⟩, ⟨%fb1, Hb1⟩, ⟨%fb2, Hb2⟩, Hbufs⟩, ⟨Hs3, Hs4, Hs5, Hs6, Hs7, Hs8, Hsems⟩, HO⟩
  ihave HF2' := (Entails.of_eq (open2 m d)) $$ HF2
  icases HF2' with HS0
  ihave HF7' := (Entails.of_eq (open7 m d)) $$ HF7
  icases HF7' with HS1
  ihave HF5' := (Entails.of_eq (open5 m d)) $$ HF5
  icases HF5' with HS2
  ihave HF10' := (Entails.of_eq (open10 m d)) $$ HF10
  icases HF10' with ⟨HO0_0, HO0_1, HO1_0, HO2_0⟩
  ihave Hmw := ((K (F := F)).mayWaits_none (thr := TH d) hO) $$ Hlv
  ihave Hb0' := (Entails.of_eq (pts_b0 d (cV LL) (jV LL) _).symm) $$ Hb0
  ihave Hb1' := (Entails.of_eq (pts_b1 d (cV LL) (jV LL) _).symm) $$ Hb1
  ihave Hb2' := (Entails.of_eq (pts_b2 d (cV LL) (jV LL) _).symm) $$ Hb2
  have _plan : Transfers.BatchOf (TH d) (SemLoc.dma (sig := sig) cc0_scratch6.sem) 2 (windows := true) := trivial
  sl_unfold [cc0_run]
  sl_exec_parts (disch := decide)
  sl_step
  isplitl [HS0 HS1 HS2 HO0_0 HO0_1 HO1_0 HO2_0]
  · skip
    isplitl [HS0]
    · iapply (Entails.of_eq (open2 m d).symm)
      iexact HS0
    isplitl [HS1]
    · iapply (Entails.of_eq (open7 m d).symm)
      iexact HS1
    isplitl [HS2]
    · iapply (Entails.of_eq (open5 m d).symm)
      iexact HS2
    isplitr
    · rw [show t9 (19 : Fin 32) = ∅ from rfl, bigSep_empty]; iempintro
    · iapply (Entails.of_eq (close10 m d).symm)
      isplitl [HO0_0]
      · iapply (out_post_ent (TH d) (OUT0_0) _ (OUTc m d) _ ?hv0_0) $$ HO0_0
        case hv0_0 => unfold_carried; simp only [ReadAs.apply_same, View.read_write_univ]; exact val0_0 m d
      isplitl [HO0_1]
      · iapply (out_post_ent (TH d) (OUT0_1) _ (OUTc m d) _ ?hv0_1) $$ HO0_1
        case hv0_1 => unfold_carried; simp only [ReadAs.apply_same, View.read_write_univ]; exact val0_1 m d
      isplitl [HO1_0]
      · iapply (out_post_ent (TH d) (OUT1_0) _ (OUTc m d) _ ?hv1_0) $$ HO1_0
        case hv1_0 => unfold_carried; simp only [ReadAs.apply_same, View.read_write_univ]; exact val1_0 m d
      iapply (out_post_ent (TH d) (OUT2_0) _ (OUTc m d) _ ?hv2_0) $$ HO2_0
      case hv2_0 => unfold_carried; simp only [ReadAs.apply_same, View.read_write_univ]; exact val2_0 m d

  isplitl [Hb0' Hb1' Hb2' Hbufs]
  · isplitl [Hb0']
    · iexists _; iapply (Entails.of_eq (pts_b0 d (cV LL) (jV LL) _)); iexact Hb0'
    isplitl [Hb1']
    · iexists _; iapply (Entails.of_eq (pts_b1 d (cV LL) (jV LL) _)); iexact Hb1'
    isplitl [Hb2']
    · iexists _; iapply (Entails.of_eq (pts_b2 d (cV LL) (jV LL) _)); iexact Hb2'
    iexact Hbufs
  isplitl [Hs3 Hs4 Hs5 Hs6 Hs7 Hs8 Hsems]
  · isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    iexact Hsems
  iexists _; isplitr
  rotate_left
  · iexact HO
  · ipureintro; intro p hp
    simp only [Finset.mem_insert] at hp
    rcases hp with rfl | rfl | rfl | rfl | rfl | rfl | rfl | hp <;> first | exact .inr rfl | exact .inl hp

end Cert.Proof.KB.Tile19

end
-- ==== Proof.KBTile20.lean ====
/-
  Tile 20 of the kernel (subcore 10 of core 0): one slice in (vis13), 2 out; one slice in (delta4.0), 1 out; one slice in (len12), 1 out.
  Its whole body is run: every copy it does not own is skipped by the comparison of its number with the copy's owner;
  each incoming copy fills a staging buffer, each outgoing copy carries that buffer into one slice of the output array,
  and what each output slice then holds is the source slice the specification asks for there.
-/
import proofs.«210185_g18468359372994_cont_8to1_1390_15_alg».proof.Proof.KBRead

set_option maxHeartbeats 4000000
set_option quotPrecheck false

noncomputable section

namespace Cert.Proof.KB.Tile20

open Cert.Kernel Cert.Kernel.Gen
open Cert.Proof.KB
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
theorem cLt : 0 < grid0.bound 0 := by decide
theorem sLt : 10 < grid0.bound 1 := by decide
local notation "LL" => (coordsV (⟨0, cLt⟩ : Fin (grid0.bound 0)) (⟨10, sLt⟩ : Fin (grid0.bound 1)))
local notation "TH" d => V d (cV LL) (jV LL)
local notation "SRC0" => (((Memref.whole main_v7_scv).slice (Rect.unit (s := S17x128x128) ![13, 0, 0] S1x128x128.size inb_S17x128x128_S1x128x128_13_0_0) (fun _ => rfl)).squeeze S128x128 squeezes_S1x128x128_S128x128 : Memref sig .scVector .hbm S128x128 .f32)
local notation "OUT0_0" => (((Memref.whole main_v10_scv).slice (Rect.unit (s := S9x2x128x8x128) ![8, 0, 0, 4, 0] S1x1x128x1x128.size inb_S9x2x128x8x128_S1x1x128x1x128_8_0_0_4_0) (fun _ => rfl)).squeeze S128x128 squeezes_S1x1x128x1x128_S128x128 : Memref sig .scVector .hbm S128x128 .f32)
local notation "OUT0_1" => (((Memref.whole main_v10_scv).slice (Rect.unit (s := S9x2x128x8x128) ![7, 0, 0, 5, 0] S1x1x128x1x128.size inb_S9x2x128x8x128_S1x1x128x1x128_7_0_0_5_0) (fun _ => rfl)).squeeze S128x128 squeezes_S1x1x128x1x128_S128x128 : Memref sig .scVector .hbm S128x128 .f32)
local notation "SRC1" => (((Memref.whole main_v5_scv).slice (Rect.unit (s := S14x128x2x128) ![4, 0, 0, 0] S1x128x1x128.size inb_S14x128x2x128_S1x128x1x128_4_0_0_0) (fun _ => rfl)).squeeze S128x128 squeezes_S1x128x1x128_S128x128 : Memref sig .scVector .hbm S128x128 .f32)
local notation "OUT1_0" => (((Memref.whole main_v10_scv).slice (Rect.unit (s := S9x2x128x8x128) ![0, 0, 0, 4, 0] S1x1x128x1x128.size inb_S9x2x128x8x128_S1x1x128x1x128_0_0_0_4_0) (fun _ => rfl)).squeeze S128x128 squeezes_S1x1x128x1x128_S128x128 : Memref sig .scVector .hbm S128x128 .f32)
local notation "SRC2" => (((Memref.whole main_v9_scv).slice (Rect.unit (s := S14x128x128) ![12, 0, 0] S1x128x128.size inb_S14x128x128_S1x128x128_12_0_0) (fun _ => rfl)).squeeze S128x128 squeezes_S1x128x128_S128x128 : Memref sig .scVector .hbm S128x128 .f32)
local notation "OUT2_0" => (((Memref.whole main_v10_scv).slice (Rect.unit (s := S9x2x128x8x128) ![2, 1, 0, 4, 0] S1x1x128x1x128.size inb_S9x2x128x8x128_S1x1x128x1x128_2_1_0_4_0) (fun _ => rfl)).squeeze S128x128 squeezes_S1x1x128x1x128_S128x128 : Memref sig .scVector .hbm S128x128 .f32)

/-! ## The tile's slices, as its memrefs name them -/

theorem open7 (m : (ℓ : Loc nD τ sig) → Buf (Elt F) ℓ) (d : Dev nD) :
    (bigSep (t7 (20 : Fin 32)) (A7 m d) : sProp 𝕄) = iprop(((SRC0).view.loc (TH d) ↦[(SRC0).view.set]{fullShare} V7c m d)) := by
  show bigSep ({(13 : Fin 17)} : Finset (Fin 17)) (A7 m d) = _
  rw [bigSep_singleton]
  exact (pts_v7 d (cV LL) (jV LL) (13 : Fin 17) _ (V7c m d)).symm
theorem open5 (m : (ℓ : Loc nD τ sig) → Buf (Elt F) ℓ) (d : Dev nD) :
    (bigSep (t5 (20 : Fin 32)) (A5 m d) : sProp 𝕄) = iprop(((SRC1).view.loc (TH d) ↦[(SRC1).view.set]{fullShare} V5c m d)) := by
  show bigSep ({((4 : Fin 14), (0 : Fin 2))} : Finset (Fin 14 × Fin 2)) (A5 m d) = _
  rw [bigSep_singleton]
  exact (pts_v5 d (cV LL) (jV LL) (4 : Fin 14) (0 : Fin 2) _ (V5c m d)).symm
theorem open9 (m : (ℓ : Loc nD τ sig) → Buf (Elt F) ℓ) (d : Dev nD) :
    (bigSep (t9 (20 : Fin 32)) (A9 m d) : sProp 𝕄) = iprop(((SRC2).view.loc (TH d) ↦[(SRC2).view.set]{fullShare} V9c m d)) := by
  show bigSep ({(12 : Fin 14)} : Finset (Fin 14)) (A9 m d) = _
  rw [bigSep_singleton]
  exact (pts_v9 d (cV LL) (jV LL) (12 : Fin 14) _ (V9c m d)).symm
theorem open10 (m : (ℓ : Loc nD τ sig) → Buf (Elt F) ℓ) (d : Dev nD) :
    (bigSep (t10 (20 : Fin 32)) (B0 m d) : sProp 𝕄) = iprop(((OUT0_0).view.loc (TH d) ↦[(OUT0_0).view.set]{fullShare} m (v10L d)) ∗ ((OUT0_1).view.loc (TH d) ↦[(OUT0_1).view.set]{fullShare} m (v10L d)) ∗ ((OUT1_0).view.loc (TH d) ↦[(OUT1_0).view.set]{fullShare} m (v10L d)) ∗ ((OUT2_0).view.loc (TH d) ↦[(OUT2_0).view.set]{fullShare} m (v10L d))) := by
  show bigSep ({((8 : Fin 9), (0 : Fin 2), (4 : Fin 8)), ((7 : Fin 9), (0 : Fin 2), (5 : Fin 8)), ((0 : Fin 9), (0 : Fin 2), (4 : Fin 8)), ((2 : Fin 9), (1 : Fin 2), (4 : Fin 8))} : Finset (Fin 9 × Fin 2 × Fin 8)) (B0 m d) = _
  rw [SparseCore.bigSep_insert' (by decide), SparseCore.bigSep_insert' (by decide), SparseCore.bigSep_insert' (by decide), bigSep_singleton]
  exact (congrArg₂ (fun a b : sProp 𝕄 => iprop(a ∗ b)) (pts_v10 d (cV LL) (jV LL) (8 : Fin 9) (0 : Fin 2) (4 : Fin 8) _ (m (v10L d))).symm (congrArg₂ (fun a b : sProp 𝕄 => iprop(a ∗ b)) (pts_v10 d (cV LL) (jV LL) (7 : Fin 9) (0 : Fin 2) (5 : Fin 8) _ (m (v10L d))).symm (congrArg₂ (fun a b : sProp 𝕄 => iprop(a ∗ b)) (pts_v10 d (cV LL) (jV LL) (0 : Fin 9) (0 : Fin 2) (4 : Fin 8) _ (m (v10L d))).symm (pts_v10 d (cV LL) (jV LL) (2 : Fin 9) (1 : Fin 2) (4 : Fin 8) _ (m (v10L d))).symm)))
theorem close10 (m : (ℓ : Loc nD τ sig) → Buf (Elt F) ℓ) (d : Dev nD) :
    (bigSep (t10 (20 : Fin 32)) (B1 m d) : sProp 𝕄) = iprop(((OUT0_0).view.loc (TH d) ↦[(OUT0_0).view.set]{fullShare} OUTc m d) ∗ ((OUT0_1).view.loc (TH d) ↦[(OUT0_1).view.set]{fullShare} OUTc m d) ∗ ((OUT1_0).view.loc (TH d) ↦[(OUT1_0).view.set]{fullShare} OUTc m d) ∗ ((OUT2_0).view.loc (TH d) ↦[(OUT2_0).view.set]{fullShare} OUTc m d)) := by
  show bigSep ({((8 : Fin 9), (0 : Fin 2), (4 : Fin 8)), ((7 : Fin 9), (0 : Fin 2), (5 : Fin 8)), ((0 : Fin 9), (0 : Fin 2), (4 : Fin 8)), ((2 : Fin 9), (1 : Fin 2), (4 : Fin 8))} : Finset (Fin 9 × Fin 2 × Fin 8)) (B1 m d) = _
  rw [SparseCore.bigSep_insert' (by decide), SparseCore.bigSep_insert' (by decide), SparseCore.bigSep_insert' (by decide), bigSep_singleton]
  exact (congrArg₂ (fun a b : sProp 𝕄 => iprop(a ∗ b)) (pts_v10 d (cV LL) (jV LL) (8 : Fin 9) (0 : Fin 2) (4 : Fin 8) _ (OUTc m d)).symm (congrArg₂ (fun a b : sProp 𝕄 => iprop(a ∗ b)) (pts_v10 d (cV LL) (jV LL) (7 : Fin 9) (0 : Fin 2) (5 : Fin 8) _ (OUTc m d)).symm (congrArg₂ (fun a b : sProp 𝕄 => iprop(a ∗ b)) (pts_v10 d (cV LL) (jV LL) (0 : Fin 9) (0 : Fin 2) (4 : Fin 8) _ (OUTc m d)).symm (pts_v10 d (cV LL) (jV LL) (2 : Fin 9) (1 : Fin 2) (4 : Fin 8) _ (OUTc m d)).symm)))

/-! ## What each output slice has to hold is what its source slice holds -/

theorem val0_0 (m : (ℓ : Loc nD τ sig) → Buf (Elt F) ℓ) (d : Dev nD) :
    (SRC0).view.read (Elt F) (V7c m d) = (OUT0_0).view.read (Elt F) (OUTc m d) := by
  funext y
  obtain ⟨t, q, rfl⟩ : ∃ (t q : Fin 128), y = ix2 t q := ⟨y 0, y 1, eq_ix2 y⟩
  refine (read_v7 (13 : Fin 17) _ _ t q).trans ((?_ : _ = _).trans (read_v10 (8 : Fin 9) (0 : Fin 2) (4 : Fin 8) _ _ t q).symm)
  unfold V7c OUTc
  rw [Cert.Layout.visV_apply]
  refine Eq.trans ?_ (outV_at _ _ _ _ _ _ _ t _ q (show 8 * 0 + 4 < 14 by decide)).symm
  rfl
theorem val0_1 (m : (ℓ : Loc nD τ sig) → Buf (Elt F) ℓ) (d : Dev nD) :
    (SRC0).view.read (Elt F) (V7c m d) = (OUT0_1).view.read (Elt F) (OUTc m d) := by
  funext y
  obtain ⟨t, q, rfl⟩ : ∃ (t q : Fin 128), y = ix2 t q := ⟨y 0, y 1, eq_ix2 y⟩
  refine (read_v7 (13 : Fin 17) _ _ t q).trans ((?_ : _ = _).trans (read_v10 (7 : Fin 9) (0 : Fin 2) (5 : Fin 8) _ _ t q).symm)
  unfold V7c OUTc
  rw [Cert.Layout.visV_apply]
  refine Eq.trans ?_ (outV_at _ _ _ _ _ _ _ t _ q (show 8 * 0 + 5 < 14 by decide)).symm
  rfl
theorem val1_0 (m : (ℓ : Loc nD τ sig) → Buf (Elt F) ℓ) (d : Dev nD) :
    (SRC1).view.read (Elt F) (V5c m d) = (OUT1_0).view.read (Elt F) (OUTc m d) := by
  funext y
  obtain ⟨t, q, rfl⟩ : ∃ (t q : Fin 128), y = ix2 t q := ⟨y 0, y 1, eq_ix2 y⟩
  refine (read_v5 (4 : Fin 14) (0 : Fin 2) _ _ t q).trans ((?_ : _ = _).trans (read_v10 (0 : Fin 9) (0 : Fin 2) (4 : Fin 8) _ _ t q).symm)
  unfold V5c OUTc
  rw [Cert.Layout.deltaV_apply]
  refine Eq.trans ?_ (outV_at _ _ _ _ _ _ _ t _ q (show 8 * 0 + 4 < 14 by decide)).symm
  rfl
theorem val2_0 (m : (ℓ : Loc nD τ sig) → Buf (Elt F) ℓ) (d : Dev nD) :
    (SRC2).view.read (Elt F) (V9c m d) = (OUT2_0).view.read (Elt F) (OUTc m d) := by
  funext y
  obtain ⟨t, q, rfl⟩ : ∃ (t q : Fin 128), y = ix2 t q := ⟨y 0, y 1, eq_ix2 y⟩
  refine (read_v9 (12 : Fin 14) _ _ t q).trans ((?_ : _ = _).trans (read_v10 (2 : Fin 9) (1 : Fin 2) (4 : Fin 8) _ _ t q).symm)
  unfold V9c OUTc
  rw [Cert.Layout.lenV_apply]
  refine Eq.trans ?_ (outV_at _ _ _ _ _ _ _ t _ q (show 8 * 1 + 4 < 14 by decide)).symm
  rfl

/-! ## The run -/

open Lean Elab Tactic Meta in
/-- Unfold the names the symbolic run gave to the values its copies carry. -/
elab "unfold_carried" : tactic => do
  for _ in [0:6] do
    let g ← getMainGoal
    let t ← instantiateMVars (← g.getType)
    if (t.getUsedConstants.any fun n => n.components.any (· == `sl)) then
      let t' ← deltaExpand t (fun n => n.components.any (· == `sl))
      let g' ← g.change t' (checkDefEq := false)
      replaceMainGoal [g']

variable [FloatOps F] [∀ e, Nonempty (Elt F e)]

theorem run (m : (ℓ : Loc nD τ sig) → Buf (Elt F) ℓ) (d : Dev nD) (O : CellTallies nD τ sig (HIx 1)) (W : Waits sig (HIx 1)) (hO : ∀ g, O g none = 0) :
    (iprop(levAts (K (F := F)).L (K (F := F)).lev ∗ tileG m d (20 : Fin 32)
        ∗ scopedBufs (TH d) ∗ scopedSems0 (TH d) ∗ owes (TH d) O W) : sProp 𝕄)
      ⊢ wp frame (wpE (defs₀ (F := F)) 𝒱₀ (TH d) none) Set.univ
          (cc0_run LL (Memref.whole main_v2_scv) (Memref.isWhole_whole _) (Memref.whole main_v7_scv) (Memref.isWhole_whole _) (Memref.whole main_v5_scv) (Memref.isWhole_whole _) (Memref.whole main_v9_scv) (Memref.isWhole_whole _) (Memref.whole main_v10_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8)
          fun _ => iprop(tileT m d (20 : Fin 32) ∗ scopedBufs (TH d) ∗ scopedSems0 (TH d)
            ∗ ∃ W', ⌜∀ p ∈ W', p ∈ W ∨ p.2 = none⌝ ∗ owes (TH d) O W') := by
  rw [(K (F := F)).scopedBufs_V facts d (cV LL) (jV LL), SparseCore.Cfg.scopedSems0_V (Val := Elt F) d (cV LL) (jV LL), ownSems0_V, ownBufs_V]
  unfold tileG tileT
  iintro ⟨#Hlv, ⟨-, HF7, HF5, HF9, HF10⟩, ⟨⟨%fb0, Hb0⟩, ⟨%fb1, Hb1⟩, ⟨%fb2, Hb2⟩, Hbufs⟩, ⟨Hs3, Hs4, Hs5, Hs6, Hs7, Hs8, Hsems⟩, HO⟩
  ihave HF7' := (Entails.of_eq (open7 m d)) $$ HF7
  icases HF7' with HS0
  ihave HF5' := (Entails.of_eq (open5 m d)) $$ HF5
  icases HF5' with HS1
  ihave HF9' := (Entails.of_eq (open9 m d)) $$ HF9
  icases HF9' with HS2
  ihave HF10' := (Entails.of_eq (open10 m d)) $$ HF10
  icases HF10' with ⟨HO0_0, HO0_1, HO1_0, HO2_0⟩
  ihave Hmw := ((K (F := F)).mayWaits_none (thr := TH d) hO) $$ Hlv
  ihave Hb0' := (Entails.of_eq (pts_b0 d (cV LL) (jV LL) _).symm) $$ Hb0
  ihave Hb1' := (Entails.of_eq (pts_b1 d (cV LL) (jV LL) _).symm) $$ Hb1
  ihave Hb2' := (Entails.of_eq (pts_b2 d (cV LL) (jV LL) _).symm) $$ Hb2
  have _plan : Transfers.BatchOf (TH d) (SemLoc.dma (sig := sig) cc0_scratch6.sem) 2 (windows := true) := trivial
  sl_unfold [cc0_run]
  sl_exec_parts (disch := decide)
  sl_step
  isplitl [HS0 HS1 HS2 HO0_0 HO0_1 HO1_0 HO2_0]
  · skip
    isplitr
    · rw [show t2 (20 : Fin 32) = ∅ from rfl, bigSep_empty]; iempintro
    isplitl [HS0]
    · iapply (Entails.of_eq (open7 m d).symm)
      iexact HS0
    isplitl [HS1]
    · iapply (Entails.of_eq (open5 m d).symm)
      iexact HS1
    isplitl [HS2]
    · iapply (Entails.of_eq (open9 m d).symm)
      iexact HS2
    · iapply (Entails.of_eq (close10 m d).symm)
      isplitl [HO0_0]
      · iapply (out_post_ent (TH d) (OUT0_0) _ (OUTc m d) _ ?hv0_0) $$ HO0_0
        case hv0_0 => unfold_carried; simp only [ReadAs.apply_same, View.read_write_univ]; exact val0_0 m d
      isplitl [HO0_1]
      · iapply (out_post_ent (TH d) (OUT0_1) _ (OUTc m d) _ ?hv0_1) $$ HO0_1
        case hv0_1 => unfold_carried; simp only [ReadAs.apply_same, View.read_write_univ]; exact val0_1 m d
      isplitl [HO1_0]
      · iapply (out_post_ent (TH d) (OUT1_0) _ (OUTc m d) _ ?hv1_0) $$ HO1_0
        case hv1_0 => unfold_carried; simp only [ReadAs.apply_same, View.read_write_univ]; exact val1_0 m d
      iapply (out_post_ent (TH d) (OUT2_0) _ (OUTc m d) _ ?hv2_0) $$ HO2_0
      case hv2_0 => unfold_carried; simp only [ReadAs.apply_same, View.read_write_univ]; exact val2_0 m d

  isplitl [Hb0' Hb1' Hb2' Hbufs]
  · isplitl [Hb0']
    · iexists _; iapply (Entails.of_eq (pts_b0 d (cV LL) (jV LL) _)); iexact Hb0'
    isplitl [Hb1']
    · iexists _; iapply (Entails.of_eq (pts_b1 d (cV LL) (jV LL) _)); iexact Hb1'
    isplitl [Hb2']
    · iexists _; iapply (Entails.of_eq (pts_b2 d (cV LL) (jV LL) _)); iexact Hb2'
    iexact Hbufs
  isplitl [Hs3 Hs4 Hs5 Hs6 Hs7 Hs8 Hsems]
  · isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    iexact Hsems
  iexists _; isplitr
  rotate_left
  · iexact HO
  · ipureintro; intro p hp
    simp only [Finset.mem_insert] at hp
    rcases hp with rfl | rfl | rfl | rfl | rfl | rfl | rfl | hp <;> first | exact .inr rfl | exact .inl hp

end Cert.Proof.KB.Tile20

end
-- ==== Proof.KBTile21.lean ====
/-
  Tile 21 of the kernel (subcore 10 of core 1): one slice in (pose14.0), 2 out; one slice in (delta4.1), 1 out; one slice in (delta13.0), 1 out.
  Its whole body is run: every copy it does not own is skipped by the comparison of its number with the copy's owner;
  each incoming copy fills a staging buffer, each outgoing copy carries that buffer into one slice of the output array,
  and what each output slice then holds is the source slice the specification asks for there.
-/
import proofs.«210185_g18468359372994_cont_8to1_1390_15_alg».proof.Proof.KBRead

set_option maxHeartbeats 4000000
set_option quotPrecheck false

noncomputable section

namespace Cert.Proof.KB.Tile21

open Cert.Kernel Cert.Kernel.Gen
open Cert.Proof.KB
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
theorem cLt : 1 < grid0.bound 0 := by decide
theorem sLt : 10 < grid0.bound 1 := by decide
local notation "LL" => (coordsV (⟨1, cLt⟩ : Fin (grid0.bound 0)) (⟨10, sLt⟩ : Fin (grid0.bound 1)))
local notation "TH" d => V d (cV LL) (jV LL)
local notation "SRC0" => (((Memref.whole main_v2_scv).slice (Rect.unit (s := S17x128x2x128) ![14, 0, 0, 0] S1x128x1x128.size inb_S17x128x2x128_S1x128x1x128_14_0_0_0) (fun _ => rfl)).squeeze S128x128 squeezes_S1x128x1x128_S128x128 : Memref sig .scVector .hbm S128x128 .f32)
local notation "OUT0_0" => (((Memref.whole main_v10_scv).slice (Rect.unit (s := S9x2x128x8x128) ![5, 0, 0, 6, 0] S1x1x128x1x128.size inb_S9x2x128x8x128_S1x1x128x1x128_5_0_0_6_0) (fun _ => rfl)).squeeze S128x128 squeezes_S1x1x128x1x128_S128x128 : Memref sig .scVector .hbm S128x128 .f32)
local notation "OUT0_1" => (((Memref.whole main_v10_scv).slice (Rect.unit (s := S9x2x128x8x128) ![3, 0, 0, 7, 0] S1x1x128x1x128.size inb_S9x2x128x8x128_S1x1x128x1x128_3_0_0_7_0) (fun _ => rfl)).squeeze S128x128 squeezes_S1x1x128x1x128_S128x128 : Memref sig .scVector .hbm S128x128 .f32)
local notation "SRC1" => (((Memref.whole main_v5_scv).slice (Rect.unit (s := S14x128x2x128) ![4, 0, 1, 0] S1x128x1x128.size inb_S14x128x2x128_S1x128x1x128_4_0_1_0) (fun _ => rfl)).squeeze S128x128 squeezes_S1x128x1x128_S128x128 : Memref sig .scVector .hbm S128x128 .f32)
local notation "OUT1_0" => (((Memref.whole main_v10_scv).slice (Rect.unit (s := S9x2x128x8x128) ![1, 0, 0, 4, 0] S1x1x128x1x128.size inb_S9x2x128x8x128_S1x1x128x1x128_1_0_0_4_0) (fun _ => rfl)).squeeze S128x128 squeezes_S1x1x128x1x128_S128x128 : Memref sig .scVector .hbm S128x128 .f32)
local notation "SRC2" => (((Memref.whole main_v5_scv).slice (Rect.unit (s := S14x128x2x128) ![13, 0, 0, 0] S1x128x1x128.size inb_S14x128x2x128_S1x128x1x128_13_0_0_0) (fun _ => rfl)).squeeze S128x128 squeezes_S1x128x1x128_S128x128 : Memref sig .scVector .hbm S128x128 .f32)
local notation "OUT2_0" => (((Memref.whole main_v10_scv).slice (Rect.unit (s := S9x2x128x8x128) ![0, 1, 0, 5, 0] S1x1x128x1x128.size inb_S9x2x128x8x128_S1x1x128x1x128_0_1_0_5_0) (fun _ => rfl)).squeeze S128x128 squeezes_S1x1x128x1x128_S128x128 : Memref sig .scVector .hbm S128x128 .f32)

/-! ## The tile's slices, as its memrefs name them -/

theorem open2 (m : (ℓ : Loc nD τ sig) → Buf (Elt F) ℓ) (d : Dev nD) :
    (bigSep (t2 (21 : Fin 32)) (A2 m d) : sProp 𝕄) = iprop(((SRC0).view.loc (TH d) ↦[(SRC0).view.set]{fullShare} V2c m d)) := by
  show bigSep ({((14 : Fin 17), (0 : Fin 2))} : Finset (Fin 17 × Fin 2)) (A2 m d) = _
  rw [bigSep_singleton]
  exact (pts_v2 d (cV LL) (jV LL) (14 : Fin 17) (0 : Fin 2) _ (V2c m d)).symm
theorem open5 (m : (ℓ : Loc nD τ sig) → Buf (Elt F) ℓ) (d : Dev nD) :
    (bigSep (t5 (21 : Fin 32)) (A5 m d) : sProp 𝕄) = iprop(((SRC1).view.loc (TH d) ↦[(SRC1).view.set]{fullShare} V5c m d) ∗ ((SRC2).view.loc (TH d) ↦[(SRC2).view.set]{fullShare} V5c m d)) := by
  show bigSep ({((4 : Fin 14), (1 : Fin 2)), ((13 : Fin 14), (0 : Fin 2))} : Finset (Fin 14 × Fin 2)) (A5 m d) = _
  rw [SparseCore.bigSep_insert' (by decide), bigSep_singleton]
  exact (congrArg₂ (fun a b : sProp 𝕄 => iprop(a ∗ b)) (pts_v5 d (cV LL) (jV LL) (4 : Fin 14) (1 : Fin 2) _ (V5c m d)).symm (pts_v5 d (cV LL) (jV LL) (13 : Fin 14) (0 : Fin 2) _ (V5c m d)).symm)
theorem open10 (m : (ℓ : Loc nD τ sig) → Buf (Elt F) ℓ) (d : Dev nD) :
    (bigSep (t10 (21 : Fin 32)) (B0 m d) : sProp 𝕄) = iprop(((OUT0_0).view.loc (TH d) ↦[(OUT0_0).view.set]{fullShare} m (v10L d)) ∗ ((OUT0_1).view.loc (TH d) ↦[(OUT0_1).view.set]{fullShare} m (v10L d)) ∗ ((OUT1_0).view.loc (TH d) ↦[(OUT1_0).view.set]{fullShare} m (v10L d)) ∗ ((OUT2_0).view.loc (TH d) ↦[(OUT2_0).view.set]{fullShare} m (v10L d))) := by
  show bigSep ({((5 : Fin 9), (0 : Fin 2), (6 : Fin 8)), ((3 : Fin 9), (0 : Fin 2), (7 : Fin 8)), ((1 : Fin 9), (0 : Fin 2), (4 : Fin 8)), ((0 : Fin 9), (1 : Fin 2), (5 : Fin 8))} : Finset (Fin 9 × Fin 2 × Fin 8)) (B0 m d) = _
  rw [SparseCore.bigSep_insert' (by decide), SparseCore.bigSep_insert' (by decide), SparseCore.bigSep_insert' (by decide), bigSep_singleton]
  exact (congrArg₂ (fun a b : sProp 𝕄 => iprop(a ∗ b)) (pts_v10 d (cV LL) (jV LL) (5 : Fin 9) (0 : Fin 2) (6 : Fin 8) _ (m (v10L d))).symm (congrArg₂ (fun a b : sProp 𝕄 => iprop(a ∗ b)) (pts_v10 d (cV LL) (jV LL) (3 : Fin 9) (0 : Fin 2) (7 : Fin 8) _ (m (v10L d))).symm (congrArg₂ (fun a b : sProp 𝕄 => iprop(a ∗ b)) (pts_v10 d (cV LL) (jV LL) (1 : Fin 9) (0 : Fin 2) (4 : Fin 8) _ (m (v10L d))).symm (pts_v10 d (cV LL) (jV LL) (0 : Fin 9) (1 : Fin 2) (5 : Fin 8) _ (m (v10L d))).symm)))
theorem close10 (m : (ℓ : Loc nD τ sig) → Buf (Elt F) ℓ) (d : Dev nD) :
    (bigSep (t10 (21 : Fin 32)) (B1 m d) : sProp 𝕄) = iprop(((OUT0_0).view.loc (TH d) ↦[(OUT0_0).view.set]{fullShare} OUTc m d) ∗ ((OUT0_1).view.loc (TH d) ↦[(OUT0_1).view.set]{fullShare} OUTc m d) ∗ ((OUT1_0).view.loc (TH d) ↦[(OUT1_0).view.set]{fullShare} OUTc m d) ∗ ((OUT2_0).view.loc (TH d) ↦[(OUT2_0).view.set]{fullShare} OUTc m d)) := by
  show bigSep ({((5 : Fin 9), (0 : Fin 2), (6 : Fin 8)), ((3 : Fin 9), (0 : Fin 2), (7 : Fin 8)), ((1 : Fin 9), (0 : Fin 2), (4 : Fin 8)), ((0 : Fin 9), (1 : Fin 2), (5 : Fin 8))} : Finset (Fin 9 × Fin 2 × Fin 8)) (B1 m d) = _
  rw [SparseCore.bigSep_insert' (by decide), SparseCore.bigSep_insert' (by decide), SparseCore.bigSep_insert' (by decide), bigSep_singleton]
  exact (congrArg₂ (fun a b : sProp 𝕄 => iprop(a ∗ b)) (pts_v10 d (cV LL) (jV LL) (5 : Fin 9) (0 : Fin 2) (6 : Fin 8) _ (OUTc m d)).symm (congrArg₂ (fun a b : sProp 𝕄 => iprop(a ∗ b)) (pts_v10 d (cV LL) (jV LL) (3 : Fin 9) (0 : Fin 2) (7 : Fin 8) _ (OUTc m d)).symm (congrArg₂ (fun a b : sProp 𝕄 => iprop(a ∗ b)) (pts_v10 d (cV LL) (jV LL) (1 : Fin 9) (0 : Fin 2) (4 : Fin 8) _ (OUTc m d)).symm (pts_v10 d (cV LL) (jV LL) (0 : Fin 9) (1 : Fin 2) (5 : Fin 8) _ (OUTc m d)).symm)))

/-! ## What each output slice has to hold is what its source slice holds -/

theorem val0_0 (m : (ℓ : Loc nD τ sig) → Buf (Elt F) ℓ) (d : Dev nD) :
    (SRC0).view.read (Elt F) (V2c m d) = (OUT0_0).view.read (Elt F) (OUTc m d) := by
  funext y
  obtain ⟨t, q, rfl⟩ : ∃ (t q : Fin 128), y = ix2 t q := ⟨y 0, y 1, eq_ix2 y⟩
  refine (read_v2 (14 : Fin 17) (0 : Fin 2) _ _ t q).trans ((?_ : _ = _).trans (read_v10 (5 : Fin 9) (0 : Fin 2) (6 : Fin 8) _ _ t q).symm)
  unfold V2c OUTc
  rw [Cert.Layout.poseV_apply]
  refine Eq.trans ?_ (outV_at _ _ _ _ _ _ _ t _ q (show 8 * 0 + 6 < 14 by decide)).symm
  rfl
theorem val0_1 (m : (ℓ : Loc nD τ sig) → Buf (Elt F) ℓ) (d : Dev nD) :
    (SRC0).view.read (Elt F) (V2c m d) = (OUT0_1).view.read (Elt F) (OUTc m d) := by
  funext y
  obtain ⟨t, q, rfl⟩ : ∃ (t q : Fin 128), y = ix2 t q := ⟨y 0, y 1, eq_ix2 y⟩
  refine (read_v2 (14 : Fin 17) (0 : Fin 2) _ _ t q).trans ((?_ : _ = _).trans (read_v10 (3 : Fin 9) (0 : Fin 2) (7 : Fin 8) _ _ t q).symm)
  unfold V2c OUTc
  rw [Cert.Layout.poseV_apply]
  refine Eq.trans ?_ (outV_at _ _ _ _ _ _ _ t _ q (show 8 * 0 + 7 < 14 by decide)).symm
  rfl
theorem val1_0 (m : (ℓ : Loc nD τ sig) → Buf (Elt F) ℓ) (d : Dev nD) :
    (SRC1).view.read (Elt F) (V5c m d) = (OUT1_0).view.read (Elt F) (OUTc m d) := by
  funext y
  obtain ⟨t, q, rfl⟩ : ∃ (t q : Fin 128), y = ix2 t q := ⟨y 0, y 1, eq_ix2 y⟩
  refine (read_v5 (4 : Fin 14) (1 : Fin 2) _ _ t q).trans ((?_ : _ = _).trans (read_v10 (1 : Fin 9) (0 : Fin 2) (4 : Fin 8) _ _ t q).symm)
  unfold V5c OUTc
  rw [Cert.Layout.deltaV_apply]
  refine Eq.trans ?_ (outV_at _ _ _ _ _ _ _ t _ q (show 8 * 0 + 4 < 14 by decide)).symm
  rfl
theorem val2_0 (m : (ℓ : Loc nD τ sig) → Buf (Elt F) ℓ) (d : Dev nD) :
    (SRC2).view.read (Elt F) (V5c m d) = (OUT2_0).view.read (Elt F) (OUTc m d) := by
  funext y
  obtain ⟨t, q, rfl⟩ : ∃ (t q : Fin 128), y = ix2 t q := ⟨y 0, y 1, eq_ix2 y⟩
  refine (read_v5 (13 : Fin 14) (0 : Fin 2) _ _ t q).trans ((?_ : _ = _).trans (read_v10 (0 : Fin 9) (1 : Fin 2) (5 : Fin 8) _ _ t q).symm)
  unfold V5c OUTc
  rw [Cert.Layout.deltaV_apply]
  refine Eq.trans ?_ (outV_at _ _ _ _ _ _ _ t _ q (show 8 * 1 + 5 < 14 by decide)).symm
  rfl

/-! ## The run -/

open Lean Elab Tactic Meta in
/-- Unfold the names the symbolic run gave to the values its copies carry. -/
elab "unfold_carried" : tactic => do
  for _ in [0:6] do
    let g ← getMainGoal
    let t ← instantiateMVars (← g.getType)
    if (t.getUsedConstants.any fun n => n.components.any (· == `sl)) then
      let t' ← deltaExpand t (fun n => n.components.any (· == `sl))
      let g' ← g.change t' (checkDefEq := false)
      replaceMainGoal [g']

variable [FloatOps F] [∀ e, Nonempty (Elt F e)]

theorem run (m : (ℓ : Loc nD τ sig) → Buf (Elt F) ℓ) (d : Dev nD) (O : CellTallies nD τ sig (HIx 1)) (W : Waits sig (HIx 1)) (hO : ∀ g, O g none = 0) :
    (iprop(levAts (K (F := F)).L (K (F := F)).lev ∗ tileG m d (21 : Fin 32)
        ∗ scopedBufs (TH d) ∗ scopedSems0 (TH d) ∗ owes (TH d) O W) : sProp 𝕄)
      ⊢ wp frame (wpE (defs₀ (F := F)) 𝒱₀ (TH d) none) Set.univ
          (cc0_run LL (Memref.whole main_v2_scv) (Memref.isWhole_whole _) (Memref.whole main_v7_scv) (Memref.isWhole_whole _) (Memref.whole main_v5_scv) (Memref.isWhole_whole _) (Memref.whole main_v9_scv) (Memref.isWhole_whole _) (Memref.whole main_v10_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8)
          fun _ => iprop(tileT m d (21 : Fin 32) ∗ scopedBufs (TH d) ∗ scopedSems0 (TH d)
            ∗ ∃ W', ⌜∀ p ∈ W', p ∈ W ∨ p.2 = none⌝ ∗ owes (TH d) O W') := by
  rw [(K (F := F)).scopedBufs_V facts d (cV LL) (jV LL), SparseCore.Cfg.scopedSems0_V (Val := Elt F) d (cV LL) (jV LL), ownSems0_V, ownBufs_V]
  unfold tileG tileT
  iintro ⟨#Hlv, ⟨HF2, -, HF5, -, HF10⟩, ⟨⟨%fb0, Hb0⟩, ⟨%fb1, Hb1⟩, ⟨%fb2, Hb2⟩, Hbufs⟩, ⟨Hs3, Hs4, Hs5, Hs6, Hs7, Hs8, Hsems⟩, HO⟩
  ihave HF2' := (Entails.of_eq (open2 m d)) $$ HF2
  icases HF2' with HS0
  ihave HF5' := (Entails.of_eq (open5 m d)) $$ HF5
  icases HF5' with ⟨HS1, HS2⟩
  ihave HF10' := (Entails.of_eq (open10 m d)) $$ HF10
  icases HF10' with ⟨HO0_0, HO0_1, HO1_0, HO2_0⟩
  ihave Hmw := ((K (F := F)).mayWaits_none (thr := TH d) hO) $$ Hlv
  ihave Hb0' := (Entails.of_eq (pts_b0 d (cV LL) (jV LL) _).symm) $$ Hb0
  ihave Hb1' := (Entails.of_eq (pts_b1 d (cV LL) (jV LL) _).symm) $$ Hb1
  ihave Hb2' := (Entails.of_eq (pts_b2 d (cV LL) (jV LL) _).symm) $$ Hb2
  have _plan : Transfers.BatchOf (TH d) (SemLoc.dma (sig := sig) cc0_scratch6.sem) 2 (windows := true) := trivial
  sl_unfold [cc0_run]
  sl_exec_parts (disch := decide)
  sl_step
  isplitl [HS0 HS1 HS2 HO0_0 HO0_1 HO1_0 HO2_0]
  · skip
    isplitl [HS0]
    · iapply (Entails.of_eq (open2 m d).symm)
      iexact HS0
    isplitr
    · rw [show t7 (21 : Fin 32) = ∅ from rfl, bigSep_empty]; iempintro
    isplitl [HS1 HS2]
    · iapply (Entails.of_eq (open5 m d).symm)
      isplitl [HS1]; · iexact HS1
      iexact HS2
    isplitr
    · rw [show t9 (21 : Fin 32) = ∅ from rfl, bigSep_empty]; iempintro
    · iapply (Entails.of_eq (close10 m d).symm)
      isplitl [HO0_0]
      · iapply (out_post_ent (TH d) (OUT0_0) _ (OUTc m d) _ ?hv0_0) $$ HO0_0
        case hv0_0 => unfold_carried; simp only [ReadAs.apply_same, View.read_write_univ]; exact val0_0 m d
      isplitl [HO0_1]
      · iapply (out_post_ent (TH d) (OUT0_1) _ (OUTc m d) _ ?hv0_1) $$ HO0_1
        case hv0_1 => unfold_carried; simp only [ReadAs.apply_same, View.read_write_univ]; exact val0_1 m d
      isplitl [HO1_0]
      · iapply (out_post_ent (TH d) (OUT1_0) _ (OUTc m d) _ ?hv1_0) $$ HO1_0
        case hv1_0 => unfold_carried; simp only [ReadAs.apply_same, View.read_write_univ]; exact val1_0 m d
      iapply (out_post_ent (TH d) (OUT2_0) _ (OUTc m d) _ ?hv2_0) $$ HO2_0
      case hv2_0 => unfold_carried; simp only [ReadAs.apply_same, View.read_write_univ]; exact val2_0 m d

  isplitl [Hb0' Hb1' Hb2' Hbufs]
  · isplitl [Hb0']
    · iexists _; iapply (Entails.of_eq (pts_b0 d (cV LL) (jV LL) _)); iexact Hb0'
    isplitl [Hb1']
    · iexists _; iapply (Entails.of_eq (pts_b1 d (cV LL) (jV LL) _)); iexact Hb1'
    isplitl [Hb2']
    · iexists _; iapply (Entails.of_eq (pts_b2 d (cV LL) (jV LL) _)); iexact Hb2'
    iexact Hbufs
  isplitl [Hs3 Hs4 Hs5 Hs6 Hs7 Hs8 Hsems]
  · isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    iexact Hsems
  iexists _; isplitr
  rotate_left
  · iexact HO
  · ipureintro; intro p hp
    simp only [Finset.mem_insert] at hp
    rcases hp with rfl | rfl | rfl | rfl | rfl | rfl | rfl | hp <;> first | exact .inr rfl | exact .inl hp

end Cert.Proof.KB.Tile21

end
-- ==== Proof.KBTile22.lean ====
/-
  Tile 22 of the kernel (subcore 11 of core 0): one slice in (pose14.1), 2 out; one slice in (len4), 1 out; one slice in (delta13.1), 1 out.
  Its whole body is run: every copy it does not own is skipped by the comparison of its number with the copy's owner;
  each incoming copy fills a staging buffer, each outgoing copy carries that buffer into one slice of the output array,
  and what each output slice then holds is the source slice the specification asks for there.
-/
import proofs.«210185_g18468359372994_cont_8to1_1390_15_alg».proof.Proof.KBRead

set_option maxHeartbeats 4000000
set_option quotPrecheck false

noncomputable section

namespace Cert.Proof.KB.Tile22

open Cert.Kernel Cert.Kernel.Gen
open Cert.Proof.KB
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
theorem cLt : 0 < grid0.bound 0 := by decide
theorem sLt : 11 < grid0.bound 1 := by decide
local notation "LL" => (coordsV (⟨0, cLt⟩ : Fin (grid0.bound 0)) (⟨11, sLt⟩ : Fin (grid0.bound 1)))
local notation "TH" d => V d (cV LL) (jV LL)
local notation "SRC0" => (((Memref.whole main_v2_scv).slice (Rect.unit (s := S17x128x2x128) ![14, 0, 1, 0] S1x128x1x128.size inb_S17x128x2x128_S1x128x1x128_14_0_1_0) (fun _ => rfl)).squeeze S128x128 squeezes_S1x128x1x128_S128x128 : Memref sig .scVector .hbm S128x128 .f32)
local notation "OUT0_0" => (((Memref.whole main_v10_scv).slice (Rect.unit (s := S9x2x128x8x128) ![6, 0, 0, 6, 0] S1x1x128x1x128.size inb_S9x2x128x8x128_S1x1x128x1x128_6_0_0_6_0) (fun _ => rfl)).squeeze S128x128 squeezes_S1x1x128x1x128_S128x128 : Memref sig .scVector .hbm S128x128 .f32)
local notation "OUT0_1" => (((Memref.whole main_v10_scv).slice (Rect.unit (s := S9x2x128x8x128) ![4, 0, 0, 7, 0] S1x1x128x1x128.size inb_S9x2x128x8x128_S1x1x128x1x128_4_0_0_7_0) (fun _ => rfl)).squeeze S128x128 squeezes_S1x1x128x1x128_S128x128 : Memref sig .scVector .hbm S128x128 .f32)
local notation "SRC1" => (((Memref.whole main_v9_scv).slice (Rect.unit (s := S14x128x128) ![4, 0, 0] S1x128x128.size inb_S14x128x128_S1x128x128_4_0_0) (fun _ => rfl)).squeeze S128x128 squeezes_S1x128x128_S128x128 : Memref sig .scVector .hbm S128x128 .f32)
local notation "OUT1_0" => (((Memref.whole main_v10_scv).slice (Rect.unit (s := S9x2x128x8x128) ![2, 0, 0, 4, 0] S1x1x128x1x128.size inb_S9x2x128x8x128_S1x1x128x1x128_2_0_0_4_0) (fun _ => rfl)).squeeze S128x128 squeezes_S1x1x128x1x128_S128x128 : Memref sig .scVector .hbm S128x128 .f32)
local notation "SRC2" => (((Memref.whole main_v5_scv).slice (Rect.unit (s := S14x128x2x128) ![13, 0, 1, 0] S1x128x1x128.size inb_S14x128x2x128_S1x128x1x128_13_0_1_0) (fun _ => rfl)).squeeze S128x128 squeezes_S1x128x1x128_S128x128 : Memref sig .scVector .hbm S128x128 .f32)
local notation "OUT2_0" => (((Memref.whole main_v10_scv).slice (Rect.unit (s := S9x2x128x8x128) ![1, 1, 0, 5, 0] S1x1x128x1x128.size inb_S9x2x128x8x128_S1x1x128x1x128_1_1_0_5_0) (fun _ => rfl)).squeeze S128x128 squeezes_S1x1x128x1x128_S128x128 : Memref sig .scVector .hbm S128x128 .f32)

/-! ## The tile's slices, as its memrefs name them -/

theorem open2 (m : (ℓ : Loc nD τ sig) → Buf (Elt F) ℓ) (d : Dev nD) :
    (bigSep (t2 (22 : Fin 32)) (A2 m d) : sProp 𝕄) = iprop(((SRC0).view.loc (TH d) ↦[(SRC0).view.set]{fullShare} V2c m d)) := by
  show bigSep ({((14 : Fin 17), (1 : Fin 2))} : Finset (Fin 17 × Fin 2)) (A2 m d) = _
  rw [bigSep_singleton]
  exact (pts_v2 d (cV LL) (jV LL) (14 : Fin 17) (1 : Fin 2) _ (V2c m d)).symm
theorem open5 (m : (ℓ : Loc nD τ sig) → Buf (Elt F) ℓ) (d : Dev nD) :
    (bigSep (t5 (22 : Fin 32)) (A5 m d) : sProp 𝕄) = iprop(((SRC2).view.loc (TH d) ↦[(SRC2).view.set]{fullShare} V5c m d)) := by
  show bigSep ({((13 : Fin 14), (1 : Fin 2))} : Finset (Fin 14 × Fin 2)) (A5 m d) = _
  rw [bigSep_singleton]
  exact (pts_v5 d (cV LL) (jV LL) (13 : Fin 14) (1 : Fin 2) _ (V5c m d)).symm
theorem open9 (m : (ℓ : Loc nD τ sig) → Buf (Elt F) ℓ) (d : Dev nD) :
    (bigSep (t9 (22 : Fin 32)) (A9 m d) : sProp 𝕄) = iprop(((SRC1).view.loc (TH d) ↦[(SRC1).view.set]{fullShare} V9c m d)) := by
  show bigSep ({(4 : Fin 14)} : Finset (Fin 14)) (A9 m d) = _
  rw [bigSep_singleton]
  exact (pts_v9 d (cV LL) (jV LL) (4 : Fin 14) _ (V9c m d)).symm
theorem open10 (m : (ℓ : Loc nD τ sig) → Buf (Elt F) ℓ) (d : Dev nD) :
    (bigSep (t10 (22 : Fin 32)) (B0 m d) : sProp 𝕄) = iprop(((OUT0_0).view.loc (TH d) ↦[(OUT0_0).view.set]{fullShare} m (v10L d)) ∗ ((OUT0_1).view.loc (TH d) ↦[(OUT0_1).view.set]{fullShare} m (v10L d)) ∗ ((OUT1_0).view.loc (TH d) ↦[(OUT1_0).view.set]{fullShare} m (v10L d)) ∗ ((OUT2_0).view.loc (TH d) ↦[(OUT2_0).view.set]{fullShare} m (v10L d))) := by
  show bigSep ({((6 : Fin 9), (0 : Fin 2), (6 : Fin 8)), ((4 : Fin 9), (0 : Fin 2), (7 : Fin 8)), ((2 : Fin 9), (0 : Fin 2), (4 : Fin 8)), ((1 : Fin 9), (1 : Fin 2), (5 : Fin 8))} : Finset (Fin 9 × Fin 2 × Fin 8)) (B0 m d) = _
  rw [SparseCore.bigSep_insert' (by decide), SparseCore.bigSep_insert' (by decide), SparseCore.bigSep_insert' (by decide), bigSep_singleton]
  exact (congrArg₂ (fun a b : sProp 𝕄 => iprop(a ∗ b)) (pts_v10 d (cV LL) (jV LL) (6 : Fin 9) (0 : Fin 2) (6 : Fin 8) _ (m (v10L d))).symm (congrArg₂ (fun a b : sProp 𝕄 => iprop(a ∗ b)) (pts_v10 d (cV LL) (jV LL) (4 : Fin 9) (0 : Fin 2) (7 : Fin 8) _ (m (v10L d))).symm (congrArg₂ (fun a b : sProp 𝕄 => iprop(a ∗ b)) (pts_v10 d (cV LL) (jV LL) (2 : Fin 9) (0 : Fin 2) (4 : Fin 8) _ (m (v10L d))).symm (pts_v10 d (cV LL) (jV LL) (1 : Fin 9) (1 : Fin 2) (5 : Fin 8) _ (m (v10L d))).symm)))
theorem close10 (m : (ℓ : Loc nD τ sig) → Buf (Elt F) ℓ) (d : Dev nD) :
    (bigSep (t10 (22 : Fin 32)) (B1 m d) : sProp 𝕄) = iprop(((OUT0_0).view.loc (TH d) ↦[(OUT0_0).view.set]{fullShare} OUTc m d) ∗ ((OUT0_1).view.loc (TH d) ↦[(OUT0_1).view.set]{fullShare} OUTc m d) ∗ ((OUT1_0).view.loc (TH d) ↦[(OUT1_0).view.set]{fullShare} OUTc m d) ∗ ((OUT2_0).view.loc (TH d) ↦[(OUT2_0).view.set]{fullShare} OUTc m d)) := by
  show bigSep ({((6 : Fin 9), (0 : Fin 2), (6 : Fin 8)), ((4 : Fin 9), (0 : Fin 2), (7 : Fin 8)), ((2 : Fin 9), (0 : Fin 2), (4 : Fin 8)), ((1 : Fin 9), (1 : Fin 2), (5 : Fin 8))} : Finset (Fin 9 × Fin 2 × Fin 8)) (B1 m d) = _
  rw [SparseCore.bigSep_insert' (by decide), SparseCore.bigSep_insert' (by decide), SparseCore.bigSep_insert' (by decide), bigSep_singleton]
  exact (congrArg₂ (fun a b : sProp 𝕄 => iprop(a ∗ b)) (pts_v10 d (cV LL) (jV LL) (6 : Fin 9) (0 : Fin 2) (6 : Fin 8) _ (OUTc m d)).symm (congrArg₂ (fun a b : sProp 𝕄 => iprop(a ∗ b)) (pts_v10 d (cV LL) (jV LL) (4 : Fin 9) (0 : Fin 2) (7 : Fin 8) _ (OUTc m d)).symm (congrArg₂ (fun a b : sProp 𝕄 => iprop(a ∗ b)) (pts_v10 d (cV LL) (jV LL) (2 : Fin 9) (0 : Fin 2) (4 : Fin 8) _ (OUTc m d)).symm (pts_v10 d (cV LL) (jV LL) (1 : Fin 9) (1 : Fin 2) (5 : Fin 8) _ (OUTc m d)).symm)))

/-! ## What each output slice has to hold is what its source slice holds -/

theorem val0_0 (m : (ℓ : Loc nD τ sig) → Buf (Elt F) ℓ) (d : Dev nD) :
    (SRC0).view.read (Elt F) (V2c m d) = (OUT0_0).view.read (Elt F) (OUTc m d) := by
  funext y
  obtain ⟨t, q, rfl⟩ : ∃ (t q : Fin 128), y = ix2 t q := ⟨y 0, y 1, eq_ix2 y⟩
  refine (read_v2 (14 : Fin 17) (1 : Fin 2) _ _ t q).trans ((?_ : _ = _).trans (read_v10 (6 : Fin 9) (0 : Fin 2) (6 : Fin 8) _ _ t q).symm)
  unfold V2c OUTc
  rw [Cert.Layout.poseV_apply]
  refine Eq.trans ?_ (outV_at _ _ _ _ _ _ _ t _ q (show 8 * 0 + 6 < 14 by decide)).symm
  rfl
theorem val0_1 (m : (ℓ : Loc nD τ sig) → Buf (Elt F) ℓ) (d : Dev nD) :
    (SRC0).view.read (Elt F) (V2c m d) = (OUT0_1).view.read (Elt F) (OUTc m d) := by
  funext y
  obtain ⟨t, q, rfl⟩ : ∃ (t q : Fin 128), y = ix2 t q := ⟨y 0, y 1, eq_ix2 y⟩
  refine (read_v2 (14 : Fin 17) (1 : Fin 2) _ _ t q).trans ((?_ : _ = _).trans (read_v10 (4 : Fin 9) (0 : Fin 2) (7 : Fin 8) _ _ t q).symm)
  unfold V2c OUTc
  rw [Cert.Layout.poseV_apply]
  refine Eq.trans ?_ (outV_at _ _ _ _ _ _ _ t _ q (show 8 * 0 + 7 < 14 by decide)).symm
  rfl
theorem val1_0 (m : (ℓ : Loc nD τ sig) → Buf (Elt F) ℓ) (d : Dev nD) :
    (SRC1).view.read (Elt F) (V9c m d) = (OUT1_0).view.read (Elt F) (OUTc m d) := by
  funext y
  obtain ⟨t, q, rfl⟩ : ∃ (t q : Fin 128), y = ix2 t q := ⟨y 0, y 1, eq_ix2 y⟩
  refine (read_v9 (4 : Fin 14) _ _ t q).trans ((?_ : _ = _).trans (read_v10 (2 : Fin 9) (0 : Fin 2) (4 : Fin 8) _ _ t q).symm)
  unfold V9c OUTc
  rw [Cert.Layout.lenV_apply]
  refine Eq.trans ?_ (outV_at _ _ _ _ _ _ _ t _ q (show 8 * 0 + 4 < 14 by decide)).symm
  rfl
theorem val2_0 (m : (ℓ : Loc nD τ sig) → Buf (Elt F) ℓ) (d : Dev nD) :
    (SRC2).view.read (Elt F) (V5c m d) = (OUT2_0).view.read (Elt F) (OUTc m d) := by
  funext y
  obtain ⟨t, q, rfl⟩ : ∃ (t q : Fin 128), y = ix2 t q := ⟨y 0, y 1, eq_ix2 y⟩
  refine (read_v5 (13 : Fin 14) (1 : Fin 2) _ _ t q).trans ((?_ : _ = _).trans (read_v10 (1 : Fin 9) (1 : Fin 2) (5 : Fin 8) _ _ t q).symm)
  unfold V5c OUTc
  rw [Cert.Layout.deltaV_apply]
  refine Eq.trans ?_ (outV_at _ _ _ _ _ _ _ t _ q (show 8 * 1 + 5 < 14 by decide)).symm
  rfl

/-! ## The run -/

open Lean Elab Tactic Meta in
/-- Unfold the names the symbolic run gave to the values its copies carry. -/
elab "unfold_carried" : tactic => do
  for _ in [0:6] do
    let g ← getMainGoal
    let t ← instantiateMVars (← g.getType)
    if (t.getUsedConstants.any fun n => n.components.any (· == `sl)) then
      let t' ← deltaExpand t (fun n => n.components.any (· == `sl))
      let g' ← g.change t' (checkDefEq := false)
      replaceMainGoal [g']

variable [FloatOps F] [∀ e, Nonempty (Elt F e)]

theorem run (m : (ℓ : Loc nD τ sig) → Buf (Elt F) ℓ) (d : Dev nD) (O : CellTallies nD τ sig (HIx 1)) (W : Waits sig (HIx 1)) (hO : ∀ g, O g none = 0) :
    (iprop(levAts (K (F := F)).L (K (F := F)).lev ∗ tileG m d (22 : Fin 32)
        ∗ scopedBufs (TH d) ∗ scopedSems0 (TH d) ∗ owes (TH d) O W) : sProp 𝕄)
      ⊢ wp frame (wpE (defs₀ (F := F)) 𝒱₀ (TH d) none) Set.univ
          (cc0_run LL (Memref.whole main_v2_scv) (Memref.isWhole_whole _) (Memref.whole main_v7_scv) (Memref.isWhole_whole _) (Memref.whole main_v5_scv) (Memref.isWhole_whole _) (Memref.whole main_v9_scv) (Memref.isWhole_whole _) (Memref.whole main_v10_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8)
          fun _ => iprop(tileT m d (22 : Fin 32) ∗ scopedBufs (TH d) ∗ scopedSems0 (TH d)
            ∗ ∃ W', ⌜∀ p ∈ W', p ∈ W ∨ p.2 = none⌝ ∗ owes (TH d) O W') := by
  rw [(K (F := F)).scopedBufs_V facts d (cV LL) (jV LL), SparseCore.Cfg.scopedSems0_V (Val := Elt F) d (cV LL) (jV LL), ownSems0_V, ownBufs_V]
  unfold tileG tileT
  iintro ⟨#Hlv, ⟨HF2, -, HF5, HF9, HF10⟩, ⟨⟨%fb0, Hb0⟩, ⟨%fb1, Hb1⟩, ⟨%fb2, Hb2⟩, Hbufs⟩, ⟨Hs3, Hs4, Hs5, Hs6, Hs7, Hs8, Hsems⟩, HO⟩
  ihave HF2' := (Entails.of_eq (open2 m d)) $$ HF2
  icases HF2' with HS0
  ihave HF5' := (Entails.of_eq (open5 m d)) $$ HF5
  icases HF5' with HS2
  ihave HF9' := (Entails.of_eq (open9 m d)) $$ HF9
  icases HF9' with HS1
  ihave HF10' := (Entails.of_eq (open10 m d)) $$ HF10
  icases HF10' with ⟨HO0_0, HO0_1, HO1_0, HO2_0⟩
  ihave Hmw := ((K (F := F)).mayWaits_none (thr := TH d) hO) $$ Hlv
  ihave Hb0' := (Entails.of_eq (pts_b0 d (cV LL) (jV LL) _).symm) $$ Hb0
  ihave Hb1' := (Entails.of_eq (pts_b1 d (cV LL) (jV LL) _).symm) $$ Hb1
  ihave Hb2' := (Entails.of_eq (pts_b2 d (cV LL) (jV LL) _).symm) $$ Hb2
  have _plan : Transfers.BatchOf (TH d) (SemLoc.dma (sig := sig) cc0_scratch6.sem) 2 (windows := true) := trivial
  sl_unfold [cc0_run]
  sl_exec_parts (disch := decide)
  sl_step
  isplitl [HS0 HS2 HS1 HO0_0 HO0_1 HO1_0 HO2_0]
  · skip
    isplitl [HS0]
    · iapply (Entails.of_eq (open2 m d).symm)
      iexact HS0
    isplitr
    · rw [show t7 (22 : Fin 32) = ∅ from rfl, bigSep_empty]; iempintro
    isplitl [HS2]
    · iapply (Entails.of_eq (open5 m d).symm)
      iexact HS2
    isplitl [HS1]
    · iapply (Entails.of_eq (open9 m d).symm)
      iexact HS1
    · iapply (Entails.of_eq (close10 m d).symm)
      isplitl [HO0_0]
      · iapply (out_post_ent (TH d) (OUT0_0) _ (OUTc m d) _ ?hv0_0) $$ HO0_0
        case hv0_0 => unfold_carried; simp only [ReadAs.apply_same, View.read_write_univ]; exact val0_0 m d
      isplitl [HO0_1]
      · iapply (out_post_ent (TH d) (OUT0_1) _ (OUTc m d) _ ?hv0_1) $$ HO0_1
        case hv0_1 => unfold_carried; simp only [ReadAs.apply_same, View.read_write_univ]; exact val0_1 m d
      isplitl [HO1_0]
      · iapply (out_post_ent (TH d) (OUT1_0) _ (OUTc m d) _ ?hv1_0) $$ HO1_0
        case hv1_0 => unfold_carried; simp only [ReadAs.apply_same, View.read_write_univ]; exact val1_0 m d
      iapply (out_post_ent (TH d) (OUT2_0) _ (OUTc m d) _ ?hv2_0) $$ HO2_0
      case hv2_0 => unfold_carried; simp only [ReadAs.apply_same, View.read_write_univ]; exact val2_0 m d

  isplitl [Hb0' Hb1' Hb2' Hbufs]
  · isplitl [Hb0']
    · iexists _; iapply (Entails.of_eq (pts_b0 d (cV LL) (jV LL) _)); iexact Hb0'
    isplitl [Hb1']
    · iexists _; iapply (Entails.of_eq (pts_b1 d (cV LL) (jV LL) _)); iexact Hb1'
    isplitl [Hb2']
    · iexists _; iapply (Entails.of_eq (pts_b2 d (cV LL) (jV LL) _)); iexact Hb2'
    iexact Hbufs
  isplitl [Hs3 Hs4 Hs5 Hs6 Hs7 Hs8 Hsems]
  · isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    iexact Hsems
  iexists _; isplitr
  rotate_left
  · iexact HO
  · ipureintro; intro p hp
    simp only [Finset.mem_insert] at hp
    rcases hp with rfl | rfl | rfl | rfl | rfl | rfl | rfl | hp <;> first | exact .inr rfl | exact .inl hp

end Cert.Proof.KB.Tile22

end
-- ==== Proof.KBTile23.lean ====
/-
  Tile 23 of the kernel (subcore 11 of core 1): one slice in (vis14), 2 out; one slice in (delta5.0), 1 out; one slice in (len13), 1 out.
  Its whole body is run: every copy it does not own is skipped by the comparison of its number with the copy's owner;
  each incoming copy fills a staging buffer, each outgoing copy carries that buffer into one slice of the output array,
  and what each output slice then holds is the source slice the specification asks for there.
-/
import proofs.«210185_g18468359372994_cont_8to1_1390_15_alg».proof.Proof.KBRead

set_option maxHeartbeats 4000000
set_option quotPrecheck false

noncomputable section

namespace Cert.Proof.KB.Tile23

open Cert.Kernel Cert.Kernel.Gen
open Cert.Proof.KB
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
theorem cLt : 1 < grid0.bound 0 := by decide
theorem sLt : 11 < grid0.bound 1 := by decide
local notation "LL" => (coordsV (⟨1, cLt⟩ : Fin (grid0.bound 0)) (⟨11, sLt⟩ : Fin (grid0.bound 1)))
local notation "TH" d => V d (cV LL) (jV LL)
local notation "SRC0" => (((Memref.whole main_v7_scv).slice (Rect.unit (s := S17x128x128) ![14, 0, 0] S1x128x128.size inb_S17x128x128_S1x128x128_14_0_0) (fun _ => rfl)).squeeze S128x128 squeezes_S1x128x128_S128x128 : Memref sig .scVector .hbm S128x128 .f32)
local notation "OUT0_0" => (((Memref.whole main_v10_scv).slice (Rect.unit (s := S9x2x128x8x128) ![8, 0, 0, 6, 0] S1x1x128x1x128.size inb_S9x2x128x8x128_S1x1x128x1x128_8_0_0_6_0) (fun _ => rfl)).squeeze S128x128 squeezes_S1x1x128x1x128_S128x128 : Memref sig .scVector .hbm S128x128 .f32)
local notation "OUT0_1" => (((Memref.whole main_v10_scv).slice (Rect.unit (s := S9x2x128x8x128) ![7, 0, 0, 7, 0] S1x1x128x1x128.size inb_S9x2x128x8x128_S1x1x128x1x128_7_0_0_7_0) (fun _ => rfl)).squeeze S128x128 squeezes_S1x1x128x1x128_S128x128 : Memref sig .scVector .hbm S128x128 .f32)
local notation "SRC1" => (((Memref.whole main_v5_scv).slice (Rect.unit (s := S14x128x2x128) ![5, 0, 0, 0] S1x128x1x128.size inb_S14x128x2x128_S1x128x1x128_5_0_0_0) (fun _ => rfl)).squeeze S128x128 squeezes_S1x128x1x128_S128x128 : Memref sig .scVector .hbm S128x128 .f32)
local notation "OUT1_0" => (((Memref.whole main_v10_scv).slice (Rect.unit (s := S9x2x128x8x128) ![0, 0, 0, 5, 0] S1x1x128x1x128.size inb_S9x2x128x8x128_S1x1x128x1x128_0_0_0_5_0) (fun _ => rfl)).squeeze S128x128 squeezes_S1x1x128x1x128_S128x128 : Memref sig .scVector .hbm S128x128 .f32)
local notation "SRC2" => (((Memref.whole main_v9_scv).slice (Rect.unit (s := S14x128x128) ![13, 0, 0] S1x128x128.size inb_S14x128x128_S1x128x128_13_0_0) (fun _ => rfl)).squeeze S128x128 squeezes_S1x128x128_S128x128 : Memref sig .scVector .hbm S128x128 .f32)
local notation "OUT2_0" => (((Memref.whole main_v10_scv).slice (Rect.unit (s := S9x2x128x8x128) ![2, 1, 0, 5, 0] S1x1x128x1x128.size inb_S9x2x128x8x128_S1x1x128x1x128_2_1_0_5_0) (fun _ => rfl)).squeeze S128x128 squeezes_S1x1x128x1x128_S128x128 : Memref sig .scVector .hbm S128x128 .f32)

/-! ## The tile's slices, as its memrefs name them -/

theorem open7 (m : (ℓ : Loc nD τ sig) → Buf (Elt F) ℓ) (d : Dev nD) :
    (bigSep (t7 (23 : Fin 32)) (A7 m d) : sProp 𝕄) = iprop(((SRC0).view.loc (TH d) ↦[(SRC0).view.set]{fullShare} V7c m d)) := by
  show bigSep ({(14 : Fin 17)} : Finset (Fin 17)) (A7 m d) = _
  rw [bigSep_singleton]
  exact (pts_v7 d (cV LL) (jV LL) (14 : Fin 17) _ (V7c m d)).symm
theorem open5 (m : (ℓ : Loc nD τ sig) → Buf (Elt F) ℓ) (d : Dev nD) :
    (bigSep (t5 (23 : Fin 32)) (A5 m d) : sProp 𝕄) = iprop(((SRC1).view.loc (TH d) ↦[(SRC1).view.set]{fullShare} V5c m d)) := by
  show bigSep ({((5 : Fin 14), (0 : Fin 2))} : Finset (Fin 14 × Fin 2)) (A5 m d) = _
  rw [bigSep_singleton]
  exact (pts_v5 d (cV LL) (jV LL) (5 : Fin 14) (0 : Fin 2) _ (V5c m d)).symm
theorem open9 (m : (ℓ : Loc nD τ sig) → Buf (Elt F) ℓ) (d : Dev nD) :
    (bigSep (t9 (23 : Fin 32)) (A9 m d) : sProp 𝕄) = iprop(((SRC2).view.loc (TH d) ↦[(SRC2).view.set]{fullShare} V9c m d)) := by
  show bigSep ({(13 : Fin 14)} : Finset (Fin 14)) (A9 m d) = _
  rw [bigSep_singleton]
  exact (pts_v9 d (cV LL) (jV LL) (13 : Fin 14) _ (V9c m d)).symm
theorem open10 (m : (ℓ : Loc nD τ sig) → Buf (Elt F) ℓ) (d : Dev nD) :
    (bigSep (t10 (23 : Fin 32)) (B0 m d) : sProp 𝕄) = iprop(((OUT0_0).view.loc (TH d) ↦[(OUT0_0).view.set]{fullShare} m (v10L d)) ∗ ((OUT0_1).view.loc (TH d) ↦[(OUT0_1).view.set]{fullShare} m (v10L d)) ∗ ((OUT1_0).view.loc (TH d) ↦[(OUT1_0).view.set]{fullShare} m (v10L d)) ∗ ((OUT2_0).view.loc (TH d) ↦[(OUT2_0).view.set]{fullShare} m (v10L d))) := by
  show bigSep ({((8 : Fin 9), (0 : Fin 2), (6 : Fin 8)), ((7 : Fin 9), (0 : Fin 2), (7 : Fin 8)), ((0 : Fin 9), (0 : Fin 2), (5 : Fin 8)), ((2 : Fin 9), (1 : Fin 2), (5 : Fin 8))} : Finset (Fin 9 × Fin 2 × Fin 8)) (B0 m d) = _
  rw [SparseCore.bigSep_insert' (by decide), SparseCore.bigSep_insert' (by decide), SparseCore.bigSep_insert' (by decide), bigSep_singleton]
  exact (congrArg₂ (fun a b : sProp 𝕄 => iprop(a ∗ b)) (pts_v10 d (cV LL) (jV LL) (8 : Fin 9) (0 : Fin 2) (6 : Fin 8) _ (m (v10L d))).symm (congrArg₂ (fun a b : sProp 𝕄 => iprop(a ∗ b)) (pts_v10 d (cV LL) (jV LL) (7 : Fin 9) (0 : Fin 2) (7 : Fin 8) _ (m (v10L d))).symm (congrArg₂ (fun a b : sProp 𝕄 => iprop(a ∗ b)) (pts_v10 d (cV LL) (jV LL) (0 : Fin 9) (0 : Fin 2) (5 : Fin 8) _ (m (v10L d))).symm (pts_v10 d (cV LL) (jV LL) (2 : Fin 9) (1 : Fin 2) (5 : Fin 8) _ (m (v10L d))).symm)))
theorem close10 (m : (ℓ : Loc nD τ sig) → Buf (Elt F) ℓ) (d : Dev nD) :
    (bigSep (t10 (23 : Fin 32)) (B1 m d) : sProp 𝕄) = iprop(((OUT0_0).view.loc (TH d) ↦[(OUT0_0).view.set]{fullShare} OUTc m d) ∗ ((OUT0_1).view.loc (TH d) ↦[(OUT0_1).view.set]{fullShare} OUTc m d) ∗ ((OUT1_0).view.loc (TH d) ↦[(OUT1_0).view.set]{fullShare} OUTc m d) ∗ ((OUT2_0).view.loc (TH d) ↦[(OUT2_0).view.set]{fullShare} OUTc m d)) := by
  show bigSep ({((8 : Fin 9), (0 : Fin 2), (6 : Fin 8)), ((7 : Fin 9), (0 : Fin 2), (7 : Fin 8)), ((0 : Fin 9), (0 : Fin 2), (5 : Fin 8)), ((2 : Fin 9), (1 : Fin 2), (5 : Fin 8))} : Finset (Fin 9 × Fin 2 × Fin 8)) (B1 m d) = _
  rw [SparseCore.bigSep_insert' (by decide), SparseCore.bigSep_insert' (by decide), SparseCore.bigSep_insert' (by decide), bigSep_singleton]
  exact (congrArg₂ (fun a b : sProp 𝕄 => iprop(a ∗ b)) (pts_v10 d (cV LL) (jV LL) (8 : Fin 9) (0 : Fin 2) (6 : Fin 8) _ (OUTc m d)).symm (congrArg₂ (fun a b : sProp 𝕄 => iprop(a ∗ b)) (pts_v10 d (cV LL) (jV LL) (7 : Fin 9) (0 : Fin 2) (7 : Fin 8) _ (OUTc m d)).symm (congrArg₂ (fun a b : sProp 𝕄 => iprop(a ∗ b)) (pts_v10 d (cV LL) (jV LL) (0 : Fin 9) (0 : Fin 2) (5 : Fin 8) _ (OUTc m d)).symm (pts_v10 d (cV LL) (jV LL) (2 : Fin 9) (1 : Fin 2) (5 : Fin 8) _ (OUTc m d)).symm)))

/-! ## What each output slice has to hold is what its source slice holds -/

theorem val0_0 (m : (ℓ : Loc nD τ sig) → Buf (Elt F) ℓ) (d : Dev nD) :
    (SRC0).view.read (Elt F) (V7c m d) = (OUT0_0).view.read (Elt F) (OUTc m d) := by
  funext y
  obtain ⟨t, q, rfl⟩ : ∃ (t q : Fin 128), y = ix2 t q := ⟨y 0, y 1, eq_ix2 y⟩
  refine (read_v7 (14 : Fin 17) _ _ t q).trans ((?_ : _ = _).trans (read_v10 (8 : Fin 9) (0 : Fin 2) (6 : Fin 8) _ _ t q).symm)
  unfold V7c OUTc
  rw [Cert.Layout.visV_apply]
  refine Eq.trans ?_ (outV_at _ _ _ _ _ _ _ t _ q (show 8 * 0 + 6 < 14 by decide)).symm
  rfl
theorem val0_1 (m : (ℓ : Loc nD τ sig) → Buf (Elt F) ℓ) (d : Dev nD) :
    (SRC0).view.read (Elt F) (V7c m d) = (OUT0_1).view.read (Elt F) (OUTc m d) := by
  funext y
  obtain ⟨t, q, rfl⟩ : ∃ (t q : Fin 128), y = ix2 t q := ⟨y 0, y 1, eq_ix2 y⟩
  refine (read_v7 (14 : Fin 17) _ _ t q).trans ((?_ : _ = _).trans (read_v10 (7 : Fin 9) (0 : Fin 2) (7 : Fin 8) _ _ t q).symm)
  unfold V7c OUTc
  rw [Cert.Layout.visV_apply]
  refine Eq.trans ?_ (outV_at _ _ _ _ _ _ _ t _ q (show 8 * 0 + 7 < 14 by decide)).symm
  rfl
theorem val1_0 (m : (ℓ : Loc nD τ sig) → Buf (Elt F) ℓ) (d : Dev nD) :
    (SRC1).view.read (Elt F) (V5c m d) = (OUT1_0).view.read (Elt F) (OUTc m d) := by
  funext y
  obtain ⟨t, q, rfl⟩ : ∃ (t q : Fin 128), y = ix2 t q := ⟨y 0, y 1, eq_ix2 y⟩
  refine (read_v5 (5 : Fin 14) (0 : Fin 2) _ _ t q).trans ((?_ : _ = _).trans (read_v10 (0 : Fin 9) (0 : Fin 2) (5 : Fin 8) _ _ t q).symm)
  unfold V5c OUTc
  rw [Cert.Layout.deltaV_apply]
  refine Eq.trans ?_ (outV_at _ _ _ _ _ _ _ t _ q (show 8 * 0 + 5 < 14 by decide)).symm
  rfl
theorem val2_0 (m : (ℓ : Loc nD τ sig) → Buf (Elt F) ℓ) (d : Dev nD) :
    (SRC2).view.read (Elt F) (V9c m d) = (OUT2_0).view.read (Elt F) (OUTc m d) := by
  funext y
  obtain ⟨t, q, rfl⟩ : ∃ (t q : Fin 128), y = ix2 t q := ⟨y 0, y 1, eq_ix2 y⟩
  refine (read_v9 (13 : Fin 14) _ _ t q).trans ((?_ : _ = _).trans (read_v10 (2 : Fin 9) (1 : Fin 2) (5 : Fin 8) _ _ t q).symm)
  unfold V9c OUTc
  rw [Cert.Layout.lenV_apply]
  refine Eq.trans ?_ (outV_at _ _ _ _ _ _ _ t _ q (show 8 * 1 + 5 < 14 by decide)).symm
  rfl

/-! ## The run -/

open Lean Elab Tactic Meta in
/-- Unfold the names the symbolic run gave to the values its copies carry. -/
elab "unfold_carried" : tactic => do
  for _ in [0:6] do
    let g ← getMainGoal
    let t ← instantiateMVars (← g.getType)
    if (t.getUsedConstants.any fun n => n.components.any (· == `sl)) then
      let t' ← deltaExpand t (fun n => n.components.any (· == `sl))
      let g' ← g.change t' (checkDefEq := false)
      replaceMainGoal [g']

variable [FloatOps F] [∀ e, Nonempty (Elt F e)]

theorem run (m : (ℓ : Loc nD τ sig) → Buf (Elt F) ℓ) (d : Dev nD) (O : CellTallies nD τ sig (HIx 1)) (W : Waits sig (HIx 1)) (hO : ∀ g, O g none = 0) :
    (iprop(levAts (K (F := F)).L (K (F := F)).lev ∗ tileG m d (23 : Fin 32)
        ∗ scopedBufs (TH d) ∗ scopedSems0 (TH d) ∗ owes (TH d) O W) : sProp 𝕄)
      ⊢ wp frame (wpE (defs₀ (F := F)) 𝒱₀ (TH d) none) Set.univ
          (cc0_run LL (Memref.whole main_v2_scv) (Memref.isWhole_whole _) (Memref.whole main_v7_scv) (Memref.isWhole_whole _) (Memref.whole main_v5_scv) (Memref.isWhole_whole _) (Memref.whole main_v9_scv) (Memref.isWhole_whole _) (Memref.whole main_v10_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8)
          fun _ => iprop(tileT m d (23 : Fin 32) ∗ scopedBufs (TH d) ∗ scopedSems0 (TH d)
            ∗ ∃ W', ⌜∀ p ∈ W', p ∈ W ∨ p.2 = none⌝ ∗ owes (TH d) O W') := by
  rw [(K (F := F)).scopedBufs_V facts d (cV LL) (jV LL), SparseCore.Cfg.scopedSems0_V (Val := Elt F) d (cV LL) (jV LL), ownSems0_V, ownBufs_V]
  unfold tileG tileT
  iintro ⟨#Hlv, ⟨-, HF7, HF5, HF9, HF10⟩, ⟨⟨%fb0, Hb0⟩, ⟨%fb1, Hb1⟩, ⟨%fb2, Hb2⟩, Hbufs⟩, ⟨Hs3, Hs4, Hs5, Hs6, Hs7, Hs8, Hsems⟩, HO⟩
  ihave HF7' := (Entails.of_eq (open7 m d)) $$ HF7
  icases HF7' with HS0
  ihave HF5' := (Entails.of_eq (open5 m d)) $$ HF5
  icases HF5' with HS1
  ihave HF9' := (Entails.of_eq (open9 m d)) $$ HF9
  icases HF9' with HS2
  ihave HF10' := (Entails.of_eq (open10 m d)) $$ HF10
  icases HF10' with ⟨HO0_0, HO0_1, HO1_0, HO2_0⟩
  ihave Hmw := ((K (F := F)).mayWaits_none (thr := TH d) hO) $$ Hlv
  ihave Hb0' := (Entails.of_eq (pts_b0 d (cV LL) (jV LL) _).symm) $$ Hb0
  ihave Hb1' := (Entails.of_eq (pts_b1 d (cV LL) (jV LL) _).symm) $$ Hb1
  ihave Hb2' := (Entails.of_eq (pts_b2 d (cV LL) (jV LL) _).symm) $$ Hb2
  have _plan : Transfers.BatchOf (TH d) (SemLoc.dma (sig := sig) cc0_scratch6.sem) 2 (windows := true) := trivial
  sl_unfold [cc0_run]
  sl_exec_parts (disch := decide)
  sl_step
  isplitl [HS0 HS1 HS2 HO0_0 HO0_1 HO1_0 HO2_0]
  · skip
    isplitr
    · rw [show t2 (23 : Fin 32) = ∅ from rfl, bigSep_empty]; iempintro
    isplitl [HS0]
    · iapply (Entails.of_eq (open7 m d).symm)
      iexact HS0
    isplitl [HS1]
    · iapply (Entails.of_eq (open5 m d).symm)
      iexact HS1
    isplitl [HS2]
    · iapply (Entails.of_eq (open9 m d).symm)
      iexact HS2
    · iapply (Entails.of_eq (close10 m d).symm)
      isplitl [HO0_0]
      · iapply (out_post_ent (TH d) (OUT0_0) _ (OUTc m d) _ ?hv0_0) $$ HO0_0
        case hv0_0 => unfold_carried; simp only [ReadAs.apply_same, View.read_write_univ]; exact val0_0 m d
      isplitl [HO0_1]
      · iapply (out_post_ent (TH d) (OUT0_1) _ (OUTc m d) _ ?hv0_1) $$ HO0_1
        case hv0_1 => unfold_carried; simp only [ReadAs.apply_same, View.read_write_univ]; exact val0_1 m d
      isplitl [HO1_0]
      · iapply (out_post_ent (TH d) (OUT1_0) _ (OUTc m d) _ ?hv1_0) $$ HO1_0
        case hv1_0 => unfold_carried; simp only [ReadAs.apply_same, View.read_write_univ]; exact val1_0 m d
      iapply (out_post_ent (TH d) (OUT2_0) _ (OUTc m d) _ ?hv2_0) $$ HO2_0
      case hv2_0 => unfold_carried; simp only [ReadAs.apply_same, View.read_write_univ]; exact val2_0 m d

  isplitl [Hb0' Hb1' Hb2' Hbufs]
  · isplitl [Hb0']
    · iexists _; iapply (Entails.of_eq (pts_b0 d (cV LL) (jV LL) _)); iexact Hb0'
    isplitl [Hb1']
    · iexists _; iapply (Entails.of_eq (pts_b1 d (cV LL) (jV LL) _)); iexact Hb1'
    isplitl [Hb2']
    · iexists _; iapply (Entails.of_eq (pts_b2 d (cV LL) (jV LL) _)); iexact Hb2'
    iexact Hbufs
  isplitl [Hs3 Hs4 Hs5 Hs6 Hs7 Hs8 Hsems]
  · isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    iexact Hsems
  iexists _; isplitr
  rotate_left
  · iexact HO
  · ipureintro; intro p hp
    simp only [Finset.mem_insert] at hp
    rcases hp with rfl | rfl | rfl | rfl | rfl | rfl | rfl | hp <;> first | exact .inr rfl | exact .inl hp

end Cert.Proof.KB.Tile23

end
-- ==== Proof.KBTile24.lean ====
/-
  Tile 24 of the kernel (subcore 12 of core 0): one slice in (pose0.0), 2 out; one slice in (delta5.1), 1 out.
  Its whole body is run: every copy it does not own is skipped by the comparison of its number with the copy's owner;
  each incoming copy fills a staging buffer, each outgoing copy carries that buffer into one slice of the output array,
  and what each output slice then holds is the source slice the specification asks for there.
-/
import proofs.«210185_g18468359372994_cont_8to1_1390_15_alg».proof.Proof.KBRead

set_option maxHeartbeats 4000000
set_option quotPrecheck false

noncomputable section

namespace Cert.Proof.KB.Tile24

open Cert.Kernel Cert.Kernel.Gen
open Cert.Proof.KB
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
theorem cLt : 0 < grid0.bound 0 := by decide
theorem sLt : 12 < grid0.bound 1 := by decide
local notation "LL" => (coordsV (⟨0, cLt⟩ : Fin (grid0.bound 0)) (⟨12, sLt⟩ : Fin (grid0.bound 1)))
local notation "TH" d => V d (cV LL) (jV LL)
local notation "SRC0" => (((Memref.whole main_v2_scv).slice (Rect.unit (s := S17x128x2x128) ![0, 0, 0, 0] S1x128x1x128.size inb_S17x128x2x128_S1x128x1x128_0_0_0_0) (fun _ => rfl)).squeeze S128x128 squeezes_S1x128x1x128_S128x128 : Memref sig .scVector .hbm S128x128 .f32)
local notation "OUT0_0" => (((Memref.whole main_v10_scv).slice (Rect.unit (s := S9x2x128x8x128) ![3, 1, 0, 4, 0] S1x1x128x1x128.size inb_S9x2x128x8x128_S1x1x128x1x128_3_1_0_4_0) (fun _ => rfl)).squeeze S128x128 squeezes_S1x1x128x1x128_S128x128 : Memref sig .scVector .hbm S128x128 .f32)
local notation "OUT0_1" => (((Memref.whole main_v10_scv).slice (Rect.unit (s := S9x2x128x8x128) ![3, 1, 0, 5, 0] S1x1x128x1x128.size inb_S9x2x128x8x128_S1x1x128x1x128_3_1_0_5_0) (fun _ => rfl)).squeeze S128x128 squeezes_S1x1x128x1x128_S128x128 : Memref sig .scVector .hbm S128x128 .f32)
local notation "SRC1" => (((Memref.whole main_v5_scv).slice (Rect.unit (s := S14x128x2x128) ![5, 0, 1, 0] S1x128x1x128.size inb_S14x128x2x128_S1x128x1x128_5_0_1_0) (fun _ => rfl)).squeeze S128x128 squeezes_S1x128x1x128_S128x128 : Memref sig .scVector .hbm S128x128 .f32)
local notation "OUT1_0" => (((Memref.whole main_v10_scv).slice (Rect.unit (s := S9x2x128x8x128) ![1, 0, 0, 5, 0] S1x1x128x1x128.size inb_S9x2x128x8x128_S1x1x128x1x128_1_0_0_5_0) (fun _ => rfl)).squeeze S128x128 squeezes_S1x1x128x1x128_S128x128 : Memref sig .scVector .hbm S128x128 .f32)

/-! ## The tile's slices, as its memrefs name them -/

theorem open2 (m : (ℓ : Loc nD τ sig) → Buf (Elt F) ℓ) (d : Dev nD) :
    (bigSep (t2 (24 : Fin 32)) (A2 m d) : sProp 𝕄) = iprop(((SRC0).view.loc (TH d) ↦[(SRC0).view.set]{fullShare} V2c m d)) := by
  show bigSep ({((0 : Fin 17), (0 : Fin 2))} : Finset (Fin 17 × Fin 2)) (A2 m d) = _
  rw [bigSep_singleton]
  exact (pts_v2 d (cV LL) (jV LL) (0 : Fin 17) (0 : Fin 2) _ (V2c m d)).symm
theorem open5 (m : (ℓ : Loc nD τ sig) → Buf (Elt F) ℓ) (d : Dev nD) :
    (bigSep (t5 (24 : Fin 32)) (A5 m d) : sProp 𝕄) = iprop(((SRC1).view.loc (TH d) ↦[(SRC1).view.set]{fullShare} V5c m d)) := by
  show bigSep ({((5 : Fin 14), (1 : Fin 2))} : Finset (Fin 14 × Fin 2)) (A5 m d) = _
  rw [bigSep_singleton]
  exact (pts_v5 d (cV LL) (jV LL) (5 : Fin 14) (1 : Fin 2) _ (V5c m d)).symm
theorem open10 (m : (ℓ : Loc nD τ sig) → Buf (Elt F) ℓ) (d : Dev nD) :
    (bigSep (t10 (24 : Fin 32)) (B0 m d) : sProp 𝕄) = iprop(((OUT0_0).view.loc (TH d) ↦[(OUT0_0).view.set]{fullShare} m (v10L d)) ∗ ((OUT0_1).view.loc (TH d) ↦[(OUT0_1).view.set]{fullShare} m (v10L d)) ∗ ((OUT1_0).view.loc (TH d) ↦[(OUT1_0).view.set]{fullShare} m (v10L d))) := by
  show bigSep ({((3 : Fin 9), (1 : Fin 2), (4 : Fin 8)), ((3 : Fin 9), (1 : Fin 2), (5 : Fin 8)), ((1 : Fin 9), (0 : Fin 2), (5 : Fin 8))} : Finset (Fin 9 × Fin 2 × Fin 8)) (B0 m d) = _
  rw [SparseCore.bigSep_insert' (by decide), SparseCore.bigSep_insert' (by decide), bigSep_singleton]
  exact (congrArg₂ (fun a b : sProp 𝕄 => iprop(a ∗ b)) (pts_v10 d (cV LL) (jV LL) (3 : Fin 9) (1 : Fin 2) (4 : Fin 8) _ (m (v10L d))).symm (congrArg₂ (fun a b : sProp 𝕄 => iprop(a ∗ b)) (pts_v10 d (cV LL) (jV LL) (3 : Fin 9) (1 : Fin 2) (5 : Fin 8) _ (m (v10L d))).symm (pts_v10 d (cV LL) (jV LL) (1 : Fin 9) (0 : Fin 2) (5 : Fin 8) _ (m (v10L d))).symm))
theorem close10 (m : (ℓ : Loc nD τ sig) → Buf (Elt F) ℓ) (d : Dev nD) :
    (bigSep (t10 (24 : Fin 32)) (B1 m d) : sProp 𝕄) = iprop(((OUT0_0).view.loc (TH d) ↦[(OUT0_0).view.set]{fullShare} OUTc m d) ∗ ((OUT0_1).view.loc (TH d) ↦[(OUT0_1).view.set]{fullShare} OUTc m d) ∗ ((OUT1_0).view.loc (TH d) ↦[(OUT1_0).view.set]{fullShare} OUTc m d)) := by
  show bigSep ({((3 : Fin 9), (1 : Fin 2), (4 : Fin 8)), ((3 : Fin 9), (1 : Fin 2), (5 : Fin 8)), ((1 : Fin 9), (0 : Fin 2), (5 : Fin 8))} : Finset (Fin 9 × Fin 2 × Fin 8)) (B1 m d) = _
  rw [SparseCore.bigSep_insert' (by decide), SparseCore.bigSep_insert' (by decide), bigSep_singleton]
  exact (congrArg₂ (fun a b : sProp 𝕄 => iprop(a ∗ b)) (pts_v10 d (cV LL) (jV LL) (3 : Fin 9) (1 : Fin 2) (4 : Fin 8) _ (OUTc m d)).symm (congrArg₂ (fun a b : sProp 𝕄 => iprop(a ∗ b)) (pts_v10 d (cV LL) (jV LL) (3 : Fin 9) (1 : Fin 2) (5 : Fin 8) _ (OUTc m d)).symm (pts_v10 d (cV LL) (jV LL) (1 : Fin 9) (0 : Fin 2) (5 : Fin 8) _ (OUTc m d)).symm))

/-! ## What each output slice has to hold is what its source slice holds -/

theorem val0_0 (m : (ℓ : Loc nD τ sig) → Buf (Elt F) ℓ) (d : Dev nD) :
    (SRC0).view.read (Elt F) (V2c m d) = (OUT0_0).view.read (Elt F) (OUTc m d) := by
  funext y
  obtain ⟨t, q, rfl⟩ : ∃ (t q : Fin 128), y = ix2 t q := ⟨y 0, y 1, eq_ix2 y⟩
  refine (read_v2 (0 : Fin 17) (0 : Fin 2) _ _ t q).trans ((?_ : _ = _).trans (read_v10 (3 : Fin 9) (1 : Fin 2) (4 : Fin 8) _ _ t q).symm)
  unfold V2c OUTc
  rw [Cert.Layout.poseV_apply]
  refine Eq.trans ?_ (outV_at _ _ _ _ _ _ _ t _ q (show 8 * 1 + 4 < 14 by decide)).symm
  rfl
theorem val0_1 (m : (ℓ : Loc nD τ sig) → Buf (Elt F) ℓ) (d : Dev nD) :
    (SRC0).view.read (Elt F) (V2c m d) = (OUT0_1).view.read (Elt F) (OUTc m d) := by
  funext y
  obtain ⟨t, q, rfl⟩ : ∃ (t q : Fin 128), y = ix2 t q := ⟨y 0, y 1, eq_ix2 y⟩
  refine (read_v2 (0 : Fin 17) (0 : Fin 2) _ _ t q).trans ((?_ : _ = _).trans (read_v10 (3 : Fin 9) (1 : Fin 2) (5 : Fin 8) _ _ t q).symm)
  unfold V2c OUTc
  rw [Cert.Layout.poseV_apply]
  refine Eq.trans ?_ (outV_at _ _ _ _ _ _ _ t _ q (show 8 * 1 + 5 < 14 by decide)).symm
  rfl
theorem val1_0 (m : (ℓ : Loc nD τ sig) → Buf (Elt F) ℓ) (d : Dev nD) :
    (SRC1).view.read (Elt F) (V5c m d) = (OUT1_0).view.read (Elt F) (OUTc m d) := by
  funext y
  obtain ⟨t, q, rfl⟩ : ∃ (t q : Fin 128), y = ix2 t q := ⟨y 0, y 1, eq_ix2 y⟩
  refine (read_v5 (5 : Fin 14) (1 : Fin 2) _ _ t q).trans ((?_ : _ = _).trans (read_v10 (1 : Fin 9) (0 : Fin 2) (5 : Fin 8) _ _ t q).symm)
  unfold V5c OUTc
  rw [Cert.Layout.deltaV_apply]
  refine Eq.trans ?_ (outV_at _ _ _ _ _ _ _ t _ q (show 8 * 0 + 5 < 14 by decide)).symm
  rfl

/-! ## The run -/

open Lean Elab Tactic Meta in
/-- Unfold the names the symbolic run gave to the values its copies carry. -/
elab "unfold_carried" : tactic => do
  for _ in [0:6] do
    let g ← getMainGoal
    let t ← instantiateMVars (← g.getType)
    if (t.getUsedConstants.any fun n => n.components.any (· == `sl)) then
      let t' ← deltaExpand t (fun n => n.components.any (· == `sl))
      let g' ← g.change t' (checkDefEq := false)
      replaceMainGoal [g']

variable [FloatOps F] [∀ e, Nonempty (Elt F e)]

theorem run (m : (ℓ : Loc nD τ sig) → Buf (Elt F) ℓ) (d : Dev nD) (O : CellTallies nD τ sig (HIx 1)) (W : Waits sig (HIx 1)) (hO : ∀ g, O g none = 0) :
    (iprop(levAts (K (F := F)).L (K (F := F)).lev ∗ tileG m d (24 : Fin 32)
        ∗ scopedBufs (TH d) ∗ scopedSems0 (TH d) ∗ owes (TH d) O W) : sProp 𝕄)
      ⊢ wp frame (wpE (defs₀ (F := F)) 𝒱₀ (TH d) none) Set.univ
          (cc0_run LL (Memref.whole main_v2_scv) (Memref.isWhole_whole _) (Memref.whole main_v7_scv) (Memref.isWhole_whole _) (Memref.whole main_v5_scv) (Memref.isWhole_whole _) (Memref.whole main_v9_scv) (Memref.isWhole_whole _) (Memref.whole main_v10_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8)
          fun _ => iprop(tileT m d (24 : Fin 32) ∗ scopedBufs (TH d) ∗ scopedSems0 (TH d)
            ∗ ∃ W', ⌜∀ p ∈ W', p ∈ W ∨ p.2 = none⌝ ∗ owes (TH d) O W') := by
  rw [(K (F := F)).scopedBufs_V facts d (cV LL) (jV LL), SparseCore.Cfg.scopedSems0_V (Val := Elt F) d (cV LL) (jV LL), ownSems0_V, ownBufs_V]
  unfold tileG tileT
  iintro ⟨#Hlv, ⟨HF2, -, HF5, -, HF10⟩, ⟨⟨%fb0, Hb0⟩, ⟨%fb1, Hb1⟩, ⟨%fb2, Hb2⟩, Hbufs⟩, ⟨Hs3, Hs4, Hs5, Hs6, Hs7, Hs8, Hsems⟩, HO⟩
  ihave HF2' := (Entails.of_eq (open2 m d)) $$ HF2
  icases HF2' with HS0
  ihave HF5' := (Entails.of_eq (open5 m d)) $$ HF5
  icases HF5' with HS1
  ihave HF10' := (Entails.of_eq (open10 m d)) $$ HF10
  icases HF10' with ⟨HO0_0, HO0_1, HO1_0⟩
  ihave Hmw := ((K (F := F)).mayWaits_none (thr := TH d) hO) $$ Hlv
  ihave Hb0' := (Entails.of_eq (pts_b0 d (cV LL) (jV LL) _).symm) $$ Hb0
  ihave Hb1' := (Entails.of_eq (pts_b1 d (cV LL) (jV LL) _).symm) $$ Hb1
  ihave Hb2' := (Entails.of_eq (pts_b2 d (cV LL) (jV LL) _).symm) $$ Hb2
  have _plan : Transfers.BatchOf (TH d) (SemLoc.dma (sig := sig) cc0_scratch6.sem) 2 (windows := true) := trivial
  sl_unfold [cc0_run]
  sl_exec_parts (disch := decide)
  sl_step
  isplitl [HS0 HS1 HO0_0 HO0_1 HO1_0]
  · skip
    isplitl [HS0]
    · iapply (Entails.of_eq (open2 m d).symm)
      iexact HS0
    isplitr
    · rw [show t7 (24 : Fin 32) = ∅ from rfl, bigSep_empty]; iempintro
    isplitl [HS1]
    · iapply (Entails.of_eq (open5 m d).symm)
      iexact HS1
    isplitr
    · rw [show t9 (24 : Fin 32) = ∅ from rfl, bigSep_empty]; iempintro
    · iapply (Entails.of_eq (close10 m d).symm)
      isplitl [HO0_0]
      · iapply (out_post_ent (TH d) (OUT0_0) _ (OUTc m d) _ ?hv0_0) $$ HO0_0
        case hv0_0 => unfold_carried; simp only [ReadAs.apply_same, View.read_write_univ]; exact val0_0 m d
      isplitl [HO0_1]
      · iapply (out_post_ent (TH d) (OUT0_1) _ (OUTc m d) _ ?hv0_1) $$ HO0_1
        case hv0_1 => unfold_carried; simp only [ReadAs.apply_same, View.read_write_univ]; exact val0_1 m d
      iapply (out_post_ent (TH d) (OUT1_0) _ (OUTc m d) _ ?hv1_0) $$ HO1_0
      case hv1_0 => unfold_carried; simp only [ReadAs.apply_same, View.read_write_univ]; exact val1_0 m d

  isplitl [Hb0' Hb1' Hb2' Hbufs]
  · isplitl [Hb0']
    · iexists _; iapply (Entails.of_eq (pts_b0 d (cV LL) (jV LL) _)); iexact Hb0'
    isplitl [Hb1']
    · iexists _; iapply (Entails.of_eq (pts_b1 d (cV LL) (jV LL) _)); iexact Hb1'
    isplitl [Hb2']
    · iexists _; iapply (Entails.of_eq (pts_b2 d (cV LL) (jV LL) _)); iexact Hb2'
    iexact Hbufs
  isplitl [Hs3 Hs4 Hs5 Hs6 Hs7 Hs8 Hsems]
  · isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    iexact Hsems
  iexists _; isplitr
  rotate_left
  · iexact HO
  · ipureintro; intro p hp
    simp only [Finset.mem_insert] at hp
    rcases hp with rfl | rfl | rfl | rfl | rfl | hp <;> first | exact .inr rfl | exact .inl hp

end Cert.Proof.KB.Tile24

end
-- ==== Proof.KBTile25.lean ====
/-
  Tile 25 of the kernel (subcore 12 of core 1): one slice in (pose0.1), 2 out; one slice in (len5), 1 out.
  Its whole body is run: every copy it does not own is skipped by the comparison of its number with the copy's owner;
  each incoming copy fills a staging buffer, each outgoing copy carries that buffer into one slice of the output array,
  and what each output slice then holds is the source slice the specification asks for there.
-/
import proofs.«210185_g18468359372994_cont_8to1_1390_15_alg».proof.Proof.KBRead

set_option maxHeartbeats 4000000
set_option quotPrecheck false

noncomputable section

namespace Cert.Proof.KB.Tile25

open Cert.Kernel Cert.Kernel.Gen
open Cert.Proof.KB
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
theorem cLt : 1 < grid0.bound 0 := by decide
theorem sLt : 12 < grid0.bound 1 := by decide
local notation "LL" => (coordsV (⟨1, cLt⟩ : Fin (grid0.bound 0)) (⟨12, sLt⟩ : Fin (grid0.bound 1)))
local notation "TH" d => V d (cV LL) (jV LL)
local notation "SRC0" => (((Memref.whole main_v2_scv).slice (Rect.unit (s := S17x128x2x128) ![0, 0, 1, 0] S1x128x1x128.size inb_S17x128x2x128_S1x128x1x128_0_0_1_0) (fun _ => rfl)).squeeze S128x128 squeezes_S1x128x1x128_S128x128 : Memref sig .scVector .hbm S128x128 .f32)
local notation "OUT0_0" => (((Memref.whole main_v10_scv).slice (Rect.unit (s := S9x2x128x8x128) ![4, 1, 0, 4, 0] S1x1x128x1x128.size inb_S9x2x128x8x128_S1x1x128x1x128_4_1_0_4_0) (fun _ => rfl)).squeeze S128x128 squeezes_S1x1x128x1x128_S128x128 : Memref sig .scVector .hbm S128x128 .f32)
local notation "OUT0_1" => (((Memref.whole main_v10_scv).slice (Rect.unit (s := S9x2x128x8x128) ![4, 1, 0, 5, 0] S1x1x128x1x128.size inb_S9x2x128x8x128_S1x1x128x1x128_4_1_0_5_0) (fun _ => rfl)).squeeze S128x128 squeezes_S1x1x128x1x128_S128x128 : Memref sig .scVector .hbm S128x128 .f32)
local notation "SRC1" => (((Memref.whole main_v9_scv).slice (Rect.unit (s := S14x128x128) ![5, 0, 0] S1x128x128.size inb_S14x128x128_S1x128x128_5_0_0) (fun _ => rfl)).squeeze S128x128 squeezes_S1x128x128_S128x128 : Memref sig .scVector .hbm S128x128 .f32)
local notation "OUT1_0" => (((Memref.whole main_v10_scv).slice (Rect.unit (s := S9x2x128x8x128) ![2, 0, 0, 5, 0] S1x1x128x1x128.size inb_S9x2x128x8x128_S1x1x128x1x128_2_0_0_5_0) (fun _ => rfl)).squeeze S128x128 squeezes_S1x1x128x1x128_S128x128 : Memref sig .scVector .hbm S128x128 .f32)

/-! ## The tile's slices, as its memrefs name them -/

theorem open2 (m : (ℓ : Loc nD τ sig) → Buf (Elt F) ℓ) (d : Dev nD) :
    (bigSep (t2 (25 : Fin 32)) (A2 m d) : sProp 𝕄) = iprop(((SRC0).view.loc (TH d) ↦[(SRC0).view.set]{fullShare} V2c m d)) := by
  show bigSep ({((0 : Fin 17), (1 : Fin 2))} : Finset (Fin 17 × Fin 2)) (A2 m d) = _
  rw [bigSep_singleton]
  exact (pts_v2 d (cV LL) (jV LL) (0 : Fin 17) (1 : Fin 2) _ (V2c m d)).symm
theorem open9 (m : (ℓ : Loc nD τ sig) → Buf (Elt F) ℓ) (d : Dev nD) :
    (bigSep (t9 (25 : Fin 32)) (A9 m d) : sProp 𝕄) = iprop(((SRC1).view.loc (TH d) ↦[(SRC1).view.set]{fullShare} V9c m d)) := by
  show bigSep ({(5 : Fin 14)} : Finset (Fin 14)) (A9 m d) = _
  rw [bigSep_singleton]
  exact (pts_v9 d (cV LL) (jV LL) (5 : Fin 14) _ (V9c m d)).symm
theorem open10 (m : (ℓ : Loc nD τ sig) → Buf (Elt F) ℓ) (d : Dev nD) :
    (bigSep (t10 (25 : Fin 32)) (B0 m d) : sProp 𝕄) = iprop(((OUT0_0).view.loc (TH d) ↦[(OUT0_0).view.set]{fullShare} m (v10L d)) ∗ ((OUT0_1).view.loc (TH d) ↦[(OUT0_1).view.set]{fullShare} m (v10L d)) ∗ ((OUT1_0).view.loc (TH d) ↦[(OUT1_0).view.set]{fullShare} m (v10L d))) := by
  show bigSep ({((4 : Fin 9), (1 : Fin 2), (4 : Fin 8)), ((4 : Fin 9), (1 : Fin 2), (5 : Fin 8)), ((2 : Fin 9), (0 : Fin 2), (5 : Fin 8))} : Finset (Fin 9 × Fin 2 × Fin 8)) (B0 m d) = _
  rw [SparseCore.bigSep_insert' (by decide), SparseCore.bigSep_insert' (by decide), bigSep_singleton]
  exact (congrArg₂ (fun a b : sProp 𝕄 => iprop(a ∗ b)) (pts_v10 d (cV LL) (jV LL) (4 : Fin 9) (1 : Fin 2) (4 : Fin 8) _ (m (v10L d))).symm (congrArg₂ (fun a b : sProp 𝕄 => iprop(a ∗ b)) (pts_v10 d (cV LL) (jV LL) (4 : Fin 9) (1 : Fin 2) (5 : Fin 8) _ (m (v10L d))).symm (pts_v10 d (cV LL) (jV LL) (2 : Fin 9) (0 : Fin 2) (5 : Fin 8) _ (m (v10L d))).symm))
theorem close10 (m : (ℓ : Loc nD τ sig) → Buf (Elt F) ℓ) (d : Dev nD) :
    (bigSep (t10 (25 : Fin 32)) (B1 m d) : sProp 𝕄) = iprop(((OUT0_0).view.loc (TH d) ↦[(OUT0_0).view.set]{fullShare} OUTc m d) ∗ ((OUT0_1).view.loc (TH d) ↦[(OUT0_1).view.set]{fullShare} OUTc m d) ∗ ((OUT1_0).view.loc (TH d) ↦[(OUT1_0).view.set]{fullShare} OUTc m d)) := by
  show bigSep ({((4 : Fin 9), (1 : Fin 2), (4 : Fin 8)), ((4 : Fin 9), (1 : Fin 2), (5 : Fin 8)), ((2 : Fin 9), (0 : Fin 2), (5 : Fin 8))} : Finset (Fin 9 × Fin 2 × Fin 8)) (B1 m d) = _
  rw [SparseCore.bigSep_insert' (by decide), SparseCore.bigSep_insert' (by decide), bigSep_singleton]
  exact (congrArg₂ (fun a b : sProp 𝕄 => iprop(a ∗ b)) (pts_v10 d (cV LL) (jV LL) (4 : Fin 9) (1 : Fin 2) (4 : Fin 8) _ (OUTc m d)).symm (congrArg₂ (fun a b : sProp 𝕄 => iprop(a ∗ b)) (pts_v10 d (cV LL) (jV LL) (4 : Fin 9) (1 : Fin 2) (5 : Fin 8) _ (OUTc m d)).symm (pts_v10 d (cV LL) (jV LL) (2 : Fin 9) (0 : Fin 2) (5 : Fin 8) _ (OUTc m d)).symm))

/-! ## What each output slice has to hold is what its source slice holds -/

theorem val0_0 (m : (ℓ : Loc nD τ sig) → Buf (Elt F) ℓ) (d : Dev nD) :
    (SRC0).view.read (Elt F) (V2c m d) = (OUT0_0).view.read (Elt F) (OUTc m d) := by
  funext y
  obtain ⟨t, q, rfl⟩ : ∃ (t q : Fin 128), y = ix2 t q := ⟨y 0, y 1, eq_ix2 y⟩
  refine (read_v2 (0 : Fin 17) (1 : Fin 2) _ _ t q).trans ((?_ : _ = _).trans (read_v10 (4 : Fin 9) (1 : Fin 2) (4 : Fin 8) _ _ t q).symm)
  unfold V2c OUTc
  rw [Cert.Layout.poseV_apply]
  refine Eq.trans ?_ (outV_at _ _ _ _ _ _ _ t _ q (show 8 * 1 + 4 < 14 by decide)).symm
  rfl
theorem val0_1 (m : (ℓ : Loc nD τ sig) → Buf (Elt F) ℓ) (d : Dev nD) :
    (SRC0).view.read (Elt F) (V2c m d) = (OUT0_1).view.read (Elt F) (OUTc m d) := by
  funext y
  obtain ⟨t, q, rfl⟩ : ∃ (t q : Fin 128), y = ix2 t q := ⟨y 0, y 1, eq_ix2 y⟩
  refine (read_v2 (0 : Fin 17) (1 : Fin 2) _ _ t q).trans ((?_ : _ = _).trans (read_v10 (4 : Fin 9) (1 : Fin 2) (5 : Fin 8) _ _ t q).symm)
  unfold V2c OUTc
  rw [Cert.Layout.poseV_apply]
  refine Eq.trans ?_ (outV_at _ _ _ _ _ _ _ t _ q (show 8 * 1 + 5 < 14 by decide)).symm
  rfl
theorem val1_0 (m : (ℓ : Loc nD τ sig) → Buf (Elt F) ℓ) (d : Dev nD) :
    (SRC1).view.read (Elt F) (V9c m d) = (OUT1_0).view.read (Elt F) (OUTc m d) := by
  funext y
  obtain ⟨t, q, rfl⟩ : ∃ (t q : Fin 128), y = ix2 t q := ⟨y 0, y 1, eq_ix2 y⟩
  refine (read_v9 (5 : Fin 14) _ _ t q).trans ((?_ : _ = _).trans (read_v10 (2 : Fin 9) (0 : Fin 2) (5 : Fin 8) _ _ t q).symm)
  unfold V9c OUTc
  rw [Cert.Layout.lenV_apply]
  refine Eq.trans ?_ (outV_at _ _ _ _ _ _ _ t _ q (show 8 * 0 + 5 < 14 by decide)).symm
  rfl

/-! ## The run -/

open Lean Elab Tactic Meta in
/-- Unfold the names the symbolic run gave to the values its copies carry. -/
elab "unfold_carried" : tactic => do
  for _ in [0:6] do
    let g ← getMainGoal
    let t ← instantiateMVars (← g.getType)
    if (t.getUsedConstants.any fun n => n.components.any (· == `sl)) then
      let t' ← deltaExpand t (fun n => n.components.any (· == `sl))
      let g' ← g.change t' (checkDefEq := false)
      replaceMainGoal [g']

variable [FloatOps F] [∀ e, Nonempty (Elt F e)]

theorem run (m : (ℓ : Loc nD τ sig) → Buf (Elt F) ℓ) (d : Dev nD) (O : CellTallies nD τ sig (HIx 1)) (W : Waits sig (HIx 1)) (hO : ∀ g, O g none = 0) :
    (iprop(levAts (K (F := F)).L (K (F := F)).lev ∗ tileG m d (25 : Fin 32)
        ∗ scopedBufs (TH d) ∗ scopedSems0 (TH d) ∗ owes (TH d) O W) : sProp 𝕄)
      ⊢ wp frame (wpE (defs₀ (F := F)) 𝒱₀ (TH d) none) Set.univ
          (cc0_run LL (Memref.whole main_v2_scv) (Memref.isWhole_whole _) (Memref.whole main_v7_scv) (Memref.isWhole_whole _) (Memref.whole main_v5_scv) (Memref.isWhole_whole _) (Memref.whole main_v9_scv) (Memref.isWhole_whole _) (Memref.whole main_v10_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8)
          fun _ => iprop(tileT m d (25 : Fin 32) ∗ scopedBufs (TH d) ∗ scopedSems0 (TH d)
            ∗ ∃ W', ⌜∀ p ∈ W', p ∈ W ∨ p.2 = none⌝ ∗ owes (TH d) O W') := by
  rw [(K (F := F)).scopedBufs_V facts d (cV LL) (jV LL), SparseCore.Cfg.scopedSems0_V (Val := Elt F) d (cV LL) (jV LL), ownSems0_V, ownBufs_V]
  unfold tileG tileT
  iintro ⟨#Hlv, ⟨HF2, -, -, HF9, HF10⟩, ⟨⟨%fb0, Hb0⟩, ⟨%fb1, Hb1⟩, ⟨%fb2, Hb2⟩, Hbufs⟩, ⟨Hs3, Hs4, Hs5, Hs6, Hs7, Hs8, Hsems⟩, HO⟩
  ihave HF2' := (Entails.of_eq (open2 m d)) $$ HF2
  icases HF2' with HS0
  ihave HF9' := (Entails.of_eq (open9 m d)) $$ HF9
  icases HF9' with HS1
  ihave HF10' := (Entails.of_eq (open10 m d)) $$ HF10
  icases HF10' with ⟨HO0_0, HO0_1, HO1_0⟩
  ihave Hmw := ((K (F := F)).mayWaits_none (thr := TH d) hO) $$ Hlv
  ihave Hb0' := (Entails.of_eq (pts_b0 d (cV LL) (jV LL) _).symm) $$ Hb0
  ihave Hb1' := (Entails.of_eq (pts_b1 d (cV LL) (jV LL) _).symm) $$ Hb1
  ihave Hb2' := (Entails.of_eq (pts_b2 d (cV LL) (jV LL) _).symm) $$ Hb2
  have _plan : Transfers.BatchOf (TH d) (SemLoc.dma (sig := sig) cc0_scratch6.sem) 2 (windows := true) := trivial
  sl_unfold [cc0_run]
  sl_exec_parts (disch := decide)
  sl_step
  isplitl [HS0 HS1 HO0_0 HO0_1 HO1_0]
  · skip
    isplitl [HS0]
    · iapply (Entails.of_eq (open2 m d).symm)
      iexact HS0
    isplitr
    · rw [show t7 (25 : Fin 32) = ∅ from rfl, bigSep_empty]; iempintro
    isplitr
    · rw [show t5 (25 : Fin 32) = ∅ from rfl, bigSep_empty]; iempintro
    isplitl [HS1]
    · iapply (Entails.of_eq (open9 m d).symm)
      iexact HS1
    · iapply (Entails.of_eq (close10 m d).symm)
      isplitl [HO0_0]
      · iapply (out_post_ent (TH d) (OUT0_0) _ (OUTc m d) _ ?hv0_0) $$ HO0_0
        case hv0_0 => unfold_carried; simp only [ReadAs.apply_same, View.read_write_univ]; exact val0_0 m d
      isplitl [HO0_1]
      · iapply (out_post_ent (TH d) (OUT0_1) _ (OUTc m d) _ ?hv0_1) $$ HO0_1
        case hv0_1 => unfold_carried; simp only [ReadAs.apply_same, View.read_write_univ]; exact val0_1 m d
      iapply (out_post_ent (TH d) (OUT1_0) _ (OUTc m d) _ ?hv1_0) $$ HO1_0
      case hv1_0 => unfold_carried; simp only [ReadAs.apply_same, View.read_write_univ]; exact val1_0 m d

  isplitl [Hb0' Hb1' Hb2' Hbufs]
  · isplitl [Hb0']
    · iexists _; iapply (Entails.of_eq (pts_b0 d (cV LL) (jV LL) _)); iexact Hb0'
    isplitl [Hb1']
    · iexists _; iapply (Entails.of_eq (pts_b1 d (cV LL) (jV LL) _)); iexact Hb1'
    isplitl [Hb2']
    · iexists _; iapply (Entails.of_eq (pts_b2 d (cV LL) (jV LL) _)); iexact Hb2'
    iexact Hbufs
  isplitl [Hs3 Hs4 Hs5 Hs6 Hs7 Hs8 Hsems]
  · isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    iexact Hsems
  iexists _; isplitr
  rotate_left
  · iexact HO
  · ipureintro; intro p hp
    simp only [Finset.mem_insert] at hp
    rcases hp with rfl | rfl | rfl | rfl | rfl | hp <;> first | exact .inr rfl | exact .inl hp

end Cert.Proof.KB.Tile25

end
-- ==== Proof.KBTile26.lean ====
/-
  Tile 26 of the kernel (subcore 13 of core 0): one slice in (vis0), 2 out; one slice in (pose15.0), 1 out.
  Its whole body is run: every copy it does not own is skipped by the comparison of its number with the copy's owner;
  each incoming copy fills a staging buffer, each outgoing copy carries that buffer into one slice of the output array,
  and what each output slice then holds is the source slice the specification asks for there.
-/
import proofs.«210185_g18468359372994_cont_8to1_1390_15_alg».proof.Proof.KBRead

set_option maxHeartbeats 4000000
set_option quotPrecheck false

noncomputable section

namespace Cert.Proof.KB.Tile26

open Cert.Kernel Cert.Kernel.Gen
open Cert.Proof.KB
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
theorem cLt : 0 < grid0.bound 0 := by decide
theorem sLt : 13 < grid0.bound 1 := by decide
local notation "LL" => (coordsV (⟨0, cLt⟩ : Fin (grid0.bound 0)) (⟨13, sLt⟩ : Fin (grid0.bound 1)))
local notation "TH" d => V d (cV LL) (jV LL)
local notation "SRC0" => (((Memref.whole main_v7_scv).slice (Rect.unit (s := S17x128x128) ![0, 0, 0] S1x128x128.size inb_S17x128x128_S1x128x128_0_0_0) (fun _ => rfl)).squeeze S128x128 squeezes_S1x128x128_S128x128 : Memref sig .scVector .hbm S128x128 .f32)
local notation "OUT0_0" => (((Memref.whole main_v10_scv).slice (Rect.unit (s := S9x2x128x8x128) ![7, 1, 0, 4, 0] S1x1x128x1x128.size inb_S9x2x128x8x128_S1x1x128x1x128_7_1_0_4_0) (fun _ => rfl)).squeeze S128x128 squeezes_S1x1x128x1x128_S128x128 : Memref sig .scVector .hbm S128x128 .f32)
local notation "OUT0_1" => (((Memref.whole main_v10_scv).slice (Rect.unit (s := S9x2x128x8x128) ![7, 1, 0, 5, 0] S1x1x128x1x128.size inb_S9x2x128x8x128_S1x1x128x1x128_7_1_0_5_0) (fun _ => rfl)).squeeze S128x128 squeezes_S1x1x128x1x128_S128x128 : Memref sig .scVector .hbm S128x128 .f32)
local notation "SRC1" => (((Memref.whole main_v2_scv).slice (Rect.unit (s := S17x128x2x128) ![15, 0, 0, 0] S1x128x1x128.size inb_S17x128x2x128_S1x128x1x128_15_0_0_0) (fun _ => rfl)).squeeze S128x128 squeezes_S1x128x1x128_S128x128 : Memref sig .scVector .hbm S128x128 .f32)
local notation "OUT1_0" => (((Memref.whole main_v10_scv).slice (Rect.unit (s := S9x2x128x8x128) ![5, 0, 0, 5, 0] S1x1x128x1x128.size inb_S9x2x128x8x128_S1x1x128x1x128_5_0_0_5_0) (fun _ => rfl)).squeeze S128x128 squeezes_S1x1x128x1x128_S128x128 : Memref sig .scVector .hbm S128x128 .f32)

/-! ## The tile's slices, as its memrefs name them -/

theorem open2 (m : (ℓ : Loc nD τ sig) → Buf (Elt F) ℓ) (d : Dev nD) :
    (bigSep (t2 (26 : Fin 32)) (A2 m d) : sProp 𝕄) = iprop(((SRC1).view.loc (TH d) ↦[(SRC1).view.set]{fullShare} V2c m d)) := by
  show bigSep ({((15 : Fin 17), (0 : Fin 2))} : Finset (Fin 17 × Fin 2)) (A2 m d) = _
  rw [bigSep_singleton]
  exact (pts_v2 d (cV LL) (jV LL) (15 : Fin 17) (0 : Fin 2) _ (V2c m d)).symm
theorem open7 (m : (ℓ : Loc nD τ sig) → Buf (Elt F) ℓ) (d : Dev nD) :
    (bigSep (t7 (26 : Fin 32)) (A7 m d) : sProp 𝕄) = iprop(((SRC0).view.loc (TH d) ↦[(SRC0).view.set]{fullShare} V7c m d)) := by
  show bigSep ({(0 : Fin 17)} : Finset (Fin 17)) (A7 m d) = _
  rw [bigSep_singleton]
  exact (pts_v7 d (cV LL) (jV LL) (0 : Fin 17) _ (V7c m d)).symm
theorem open10 (m : (ℓ : Loc nD τ sig) → Buf (Elt F) ℓ) (d : Dev nD) :
    (bigSep (t10 (26 : Fin 32)) (B0 m d) : sProp 𝕄) = iprop(((OUT0_0).view.loc (TH d) ↦[(OUT0_0).view.set]{fullShare} m (v10L d)) ∗ ((OUT0_1).view.loc (TH d) ↦[(OUT0_1).view.set]{fullShare} m (v10L d)) ∗ ((OUT1_0).view.loc (TH d) ↦[(OUT1_0).view.set]{fullShare} m (v10L d))) := by
  show bigSep ({((7 : Fin 9), (1 : Fin 2), (4 : Fin 8)), ((7 : Fin 9), (1 : Fin 2), (5 : Fin 8)), ((5 : Fin 9), (0 : Fin 2), (5 : Fin 8))} : Finset (Fin 9 × Fin 2 × Fin 8)) (B0 m d) = _
  rw [SparseCore.bigSep_insert' (by decide), SparseCore.bigSep_insert' (by decide), bigSep_singleton]
  exact (congrArg₂ (fun a b : sProp 𝕄 => iprop(a ∗ b)) (pts_v10 d (cV LL) (jV LL) (7 : Fin 9) (1 : Fin 2) (4 : Fin 8) _ (m (v10L d))).symm (congrArg₂ (fun a b : sProp 𝕄 => iprop(a ∗ b)) (pts_v10 d (cV LL) (jV LL) (7 : Fin 9) (1 : Fin 2) (5 : Fin 8) _ (m (v10L d))).symm (pts_v10 d (cV LL) (jV LL) (5 : Fin 9) (0 : Fin 2) (5 : Fin 8) _ (m (v10L d))).symm))
theorem close10 (m : (ℓ : Loc nD τ sig) → Buf (Elt F) ℓ) (d : Dev nD) :
    (bigSep (t10 (26 : Fin 32)) (B1 m d) : sProp 𝕄) = iprop(((OUT0_0).view.loc (TH d) ↦[(OUT0_0).view.set]{fullShare} OUTc m d) ∗ ((OUT0_1).view.loc (TH d) ↦[(OUT0_1).view.set]{fullShare} OUTc m d) ∗ ((OUT1_0).view.loc (TH d) ↦[(OUT1_0).view.set]{fullShare} OUTc m d)) := by
  show bigSep ({((7 : Fin 9), (1 : Fin 2), (4 : Fin 8)), ((7 : Fin 9), (1 : Fin 2), (5 : Fin 8)), ((5 : Fin 9), (0 : Fin 2), (5 : Fin 8))} : Finset (Fin 9 × Fin 2 × Fin 8)) (B1 m d) = _
  rw [SparseCore.bigSep_insert' (by decide), SparseCore.bigSep_insert' (by decide), bigSep_singleton]
  exact (congrArg₂ (fun a b : sProp 𝕄 => iprop(a ∗ b)) (pts_v10 d (cV LL) (jV LL) (7 : Fin 9) (1 : Fin 2) (4 : Fin 8) _ (OUTc m d)).symm (congrArg₂ (fun a b : sProp 𝕄 => iprop(a ∗ b)) (pts_v10 d (cV LL) (jV LL) (7 : Fin 9) (1 : Fin 2) (5 : Fin 8) _ (OUTc m d)).symm (pts_v10 d (cV LL) (jV LL) (5 : Fin 9) (0 : Fin 2) (5 : Fin 8) _ (OUTc m d)).symm))

/-! ## What each output slice has to hold is what its source slice holds -/

theorem val0_0 (m : (ℓ : Loc nD τ sig) → Buf (Elt F) ℓ) (d : Dev nD) :
    (SRC0).view.read (Elt F) (V7c m d) = (OUT0_0).view.read (Elt F) (OUTc m d) := by
  funext y
  obtain ⟨t, q, rfl⟩ : ∃ (t q : Fin 128), y = ix2 t q := ⟨y 0, y 1, eq_ix2 y⟩
  refine (read_v7 (0 : Fin 17) _ _ t q).trans ((?_ : _ = _).trans (read_v10 (7 : Fin 9) (1 : Fin 2) (4 : Fin 8) _ _ t q).symm)
  unfold V7c OUTc
  rw [Cert.Layout.visV_apply]
  refine Eq.trans ?_ (outV_at _ _ _ _ _ _ _ t _ q (show 8 * 1 + 4 < 14 by decide)).symm
  rfl
theorem val0_1 (m : (ℓ : Loc nD τ sig) → Buf (Elt F) ℓ) (d : Dev nD) :
    (SRC0).view.read (Elt F) (V7c m d) = (OUT0_1).view.read (Elt F) (OUTc m d) := by
  funext y
  obtain ⟨t, q, rfl⟩ : ∃ (t q : Fin 128), y = ix2 t q := ⟨y 0, y 1, eq_ix2 y⟩
  refine (read_v7 (0 : Fin 17) _ _ t q).trans ((?_ : _ = _).trans (read_v10 (7 : Fin 9) (1 : Fin 2) (5 : Fin 8) _ _ t q).symm)
  unfold V7c OUTc
  rw [Cert.Layout.visV_apply]
  refine Eq.trans ?_ (outV_at _ _ _ _ _ _ _ t _ q (show 8 * 1 + 5 < 14 by decide)).symm
  rfl
theorem val1_0 (m : (ℓ : Loc nD τ sig) → Buf (Elt F) ℓ) (d : Dev nD) :
    (SRC1).view.read (Elt F) (V2c m d) = (OUT1_0).view.read (Elt F) (OUTc m d) := by
  funext y
  obtain ⟨t, q, rfl⟩ : ∃ (t q : Fin 128), y = ix2 t q := ⟨y 0, y 1, eq_ix2 y⟩
  refine (read_v2 (15 : Fin 17) (0 : Fin 2) _ _ t q).trans ((?_ : _ = _).trans (read_v10 (5 : Fin 9) (0 : Fin 2) (5 : Fin 8) _ _ t q).symm)
  unfold V2c OUTc
  rw [Cert.Layout.poseV_apply]
  refine Eq.trans ?_ (outV_at _ _ _ _ _ _ _ t _ q (show 8 * 0 + 5 < 14 by decide)).symm
  rfl

/-! ## The run -/

open Lean Elab Tactic Meta in
/-- Unfold the names the symbolic run gave to the values its copies carry. -/
elab "unfold_carried" : tactic => do
  for _ in [0:6] do
    let g ← getMainGoal
    let t ← instantiateMVars (← g.getType)
    if (t.getUsedConstants.any fun n => n.components.any (· == `sl)) then
      let t' ← deltaExpand t (fun n => n.components.any (· == `sl))
      let g' ← g.change t' (checkDefEq := false)
      replaceMainGoal [g']

variable [FloatOps F] [∀ e, Nonempty (Elt F e)]

theorem run (m : (ℓ : Loc nD τ sig) → Buf (Elt F) ℓ) (d : Dev nD) (O : CellTallies nD τ sig (HIx 1)) (W : Waits sig (HIx 1)) (hO : ∀ g, O g none = 0) :
    (iprop(levAts (K (F := F)).L (K (F := F)).lev ∗ tileG m d (26 : Fin 32)
        ∗ scopedBufs (TH d) ∗ scopedSems0 (TH d) ∗ owes (TH d) O W) : sProp 𝕄)
      ⊢ wp frame (wpE (defs₀ (F := F)) 𝒱₀ (TH d) none) Set.univ
          (cc0_run LL (Memref.whole main_v2_scv) (Memref.isWhole_whole _) (Memref.whole main_v7_scv) (Memref.isWhole_whole _) (Memref.whole main_v5_scv) (Memref.isWhole_whole _) (Memref.whole main_v9_scv) (Memref.isWhole_whole _) (Memref.whole main_v10_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8)
          fun _ => iprop(tileT m d (26 : Fin 32) ∗ scopedBufs (TH d) ∗ scopedSems0 (TH d)
            ∗ ∃ W', ⌜∀ p ∈ W', p ∈ W ∨ p.2 = none⌝ ∗ owes (TH d) O W') := by
  rw [(K (F := F)).scopedBufs_V facts d (cV LL) (jV LL), SparseCore.Cfg.scopedSems0_V (Val := Elt F) d (cV LL) (jV LL), ownSems0_V, ownBufs_V]
  unfold tileG tileT
  iintro ⟨#Hlv, ⟨HF2, HF7, -, -, HF10⟩, ⟨⟨%fb0, Hb0⟩, ⟨%fb1, Hb1⟩, ⟨%fb2, Hb2⟩, Hbufs⟩, ⟨Hs3, Hs4, Hs5, Hs6, Hs7, Hs8, Hsems⟩, HO⟩
  ihave HF2' := (Entails.of_eq (open2 m d)) $$ HF2
  icases HF2' with HS1
  ihave HF7' := (Entails.of_eq (open7 m d)) $$ HF7
  icases HF7' with HS0
  ihave HF10' := (Entails.of_eq (open10 m d)) $$ HF10
  icases HF10' with ⟨HO0_0, HO0_1, HO1_0⟩
  ihave Hmw := ((K (F := F)).mayWaits_none (thr := TH d) hO) $$ Hlv
  ihave Hb0' := (Entails.of_eq (pts_b0 d (cV LL) (jV LL) _).symm) $$ Hb0
  ihave Hb1' := (Entails.of_eq (pts_b1 d (cV LL) (jV LL) _).symm) $$ Hb1
  ihave Hb2' := (Entails.of_eq (pts_b2 d (cV LL) (jV LL) _).symm) $$ Hb2
  have _plan : Transfers.BatchOf (TH d) (SemLoc.dma (sig := sig) cc0_scratch6.sem) 2 (windows := true) := trivial
  sl_unfold [cc0_run]
  sl_exec_parts (disch := decide)
  sl_step
  isplitl [HS1 HS0 HO0_0 HO0_1 HO1_0]
  · skip
    isplitl [HS1]
    · iapply (Entails.of_eq (open2 m d).symm)
      iexact HS1
    isplitl [HS0]
    · iapply (Entails.of_eq (open7 m d).symm)
      iexact HS0
    isplitr
    · rw [show t5 (26 : Fin 32) = ∅ from rfl, bigSep_empty]; iempintro
    isplitr
    · rw [show t9 (26 : Fin 32) = ∅ from rfl, bigSep_empty]; iempintro
    · iapply (Entails.of_eq (close10 m d).symm)
      isplitl [HO0_0]
      · iapply (out_post_ent (TH d) (OUT0_0) _ (OUTc m d) _ ?hv0_0) $$ HO0_0
        case hv0_0 => unfold_carried; simp only [ReadAs.apply_same, View.read_write_univ]; exact val0_0 m d
      isplitl [HO0_1]
      · iapply (out_post_ent (TH d) (OUT0_1) _ (OUTc m d) _ ?hv0_1) $$ HO0_1
        case hv0_1 => unfold_carried; simp only [ReadAs.apply_same, View.read_write_univ]; exact val0_1 m d
      iapply (out_post_ent (TH d) (OUT1_0) _ (OUTc m d) _ ?hv1_0) $$ HO1_0
      case hv1_0 => unfold_carried; simp only [ReadAs.apply_same, View.read_write_univ]; exact val1_0 m d

  isplitl [Hb0' Hb1' Hb2' Hbufs]
  · isplitl [Hb0']
    · iexists _; iapply (Entails.of_eq (pts_b0 d (cV LL) (jV LL) _)); iexact Hb0'
    isplitl [Hb1']
    · iexists _; iapply (Entails.of_eq (pts_b1 d (cV LL) (jV LL) _)); iexact Hb1'
    isplitl [Hb2']
    · iexists _; iapply (Entails.of_eq (pts_b2 d (cV LL) (jV LL) _)); iexact Hb2'
    iexact Hbufs
  isplitl [Hs3 Hs4 Hs5 Hs6 Hs7 Hs8 Hsems]
  · isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    iexact Hsems
  iexists _; isplitr
  rotate_left
  · iexact HO
  · ipureintro; intro p hp
    simp only [Finset.mem_insert] at hp
    rcases hp with rfl | rfl | rfl | rfl | rfl | hp <;> first | exact .inr rfl | exact .inl hp

end Cert.Proof.KB.Tile26

end
-- ==== Proof.KBTile27.lean ====
/-
  Tile 27 of the kernel (subcore 13 of core 1): one slice in (delta0.0), 1 out; one slice in (len1), 1 out; one slice in (delta7.1), 1 out.
  Its whole body is run: every copy it does not own is skipped by the comparison of its number with the copy's owner;
  each incoming copy fills a staging buffer, each outgoing copy carries that buffer into one slice of the output array,
  and what each output slice then holds is the source slice the specification asks for there.
-/
import proofs.«210185_g18468359372994_cont_8to1_1390_15_alg».proof.Proof.KBRead

set_option maxHeartbeats 4000000
set_option quotPrecheck false

noncomputable section

namespace Cert.Proof.KB.Tile27

open Cert.Kernel Cert.Kernel.Gen
open Cert.Proof.KB
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
theorem cLt : 1 < grid0.bound 0 := by decide
theorem sLt : 13 < grid0.bound 1 := by decide
local notation "LL" => (coordsV (⟨1, cLt⟩ : Fin (grid0.bound 0)) (⟨13, sLt⟩ : Fin (grid0.bound 1)))
local notation "TH" d => V d (cV LL) (jV LL)
local notation "SRC0" => (((Memref.whole main_v5_scv).slice (Rect.unit (s := S14x128x2x128) ![0, 0, 0, 0] S1x128x1x128.size inb_S14x128x2x128_S1x128x1x128_0_0_0_0) (fun _ => rfl)).squeeze S128x128 squeezes_S1x128x1x128_S128x128 : Memref sig .scVector .hbm S128x128 .f32)
local notation "OUT0_0" => (((Memref.whole main_v10_scv).slice (Rect.unit (s := S9x2x128x8x128) ![0, 0, 0, 0, 0] S1x1x128x1x128.size inb_S9x2x128x8x128_S1x1x128x1x128_0_0_0_0_0) (fun _ => rfl)).squeeze S128x128 squeezes_S1x1x128x1x128_S128x128 : Memref sig .scVector .hbm S128x128 .f32)
local notation "SRC1" => (((Memref.whole main_v9_scv).slice (Rect.unit (s := S14x128x128) ![1, 0, 0] S1x128x128.size inb_S14x128x128_S1x128x128_1_0_0) (fun _ => rfl)).squeeze S128x128 squeezes_S1x128x128_S128x128 : Memref sig .scVector .hbm S128x128 .f32)
local notation "OUT1_0" => (((Memref.whole main_v10_scv).slice (Rect.unit (s := S9x2x128x8x128) ![2, 0, 0, 1, 0] S1x1x128x1x128.size inb_S9x2x128x8x128_S1x1x128x1x128_2_0_0_1_0) (fun _ => rfl)).squeeze S128x128 squeezes_S1x1x128x1x128_S128x128 : Memref sig .scVector .hbm S128x128 .f32)
local notation "SRC2" => (((Memref.whole main_v5_scv).slice (Rect.unit (s := S14x128x2x128) ![7, 0, 1, 0] S1x128x1x128.size inb_S14x128x2x128_S1x128x1x128_7_0_1_0) (fun _ => rfl)).squeeze S128x128 squeezes_S1x128x1x128_S128x128 : Memref sig .scVector .hbm S128x128 .f32)
local notation "OUT2_0" => (((Memref.whole main_v10_scv).slice (Rect.unit (s := S9x2x128x8x128) ![1, 0, 0, 7, 0] S1x1x128x1x128.size inb_S9x2x128x8x128_S1x1x128x1x128_1_0_0_7_0) (fun _ => rfl)).squeeze S128x128 squeezes_S1x1x128x1x128_S128x128 : Memref sig .scVector .hbm S128x128 .f32)

/-! ## The tile's slices, as its memrefs name them -/

theorem open5 (m : (ℓ : Loc nD τ sig) → Buf (Elt F) ℓ) (d : Dev nD) :
    (bigSep (t5 (27 : Fin 32)) (A5 m d) : sProp 𝕄) = iprop(((SRC0).view.loc (TH d) ↦[(SRC0).view.set]{fullShare} V5c m d) ∗ ((SRC2).view.loc (TH d) ↦[(SRC2).view.set]{fullShare} V5c m d)) := by
  show bigSep ({((0 : Fin 14), (0 : Fin 2)), ((7 : Fin 14), (1 : Fin 2))} : Finset (Fin 14 × Fin 2)) (A5 m d) = _
  rw [SparseCore.bigSep_insert' (by decide), bigSep_singleton]
  exact (congrArg₂ (fun a b : sProp 𝕄 => iprop(a ∗ b)) (pts_v5 d (cV LL) (jV LL) (0 : Fin 14) (0 : Fin 2) _ (V5c m d)).symm (pts_v5 d (cV LL) (jV LL) (7 : Fin 14) (1 : Fin 2) _ (V5c m d)).symm)
theorem open9 (m : (ℓ : Loc nD τ sig) → Buf (Elt F) ℓ) (d : Dev nD) :
    (bigSep (t9 (27 : Fin 32)) (A9 m d) : sProp 𝕄) = iprop(((SRC1).view.loc (TH d) ↦[(SRC1).view.set]{fullShare} V9c m d)) := by
  show bigSep ({(1 : Fin 14)} : Finset (Fin 14)) (A9 m d) = _
  rw [bigSep_singleton]
  exact (pts_v9 d (cV LL) (jV LL) (1 : Fin 14) _ (V9c m d)).symm
theorem open10 (m : (ℓ : Loc nD τ sig) → Buf (Elt F) ℓ) (d : Dev nD) :
    (bigSep (t10 (27 : Fin 32)) (B0 m d) : sProp 𝕄) = iprop(((OUT0_0).view.loc (TH d) ↦[(OUT0_0).view.set]{fullShare} m (v10L d)) ∗ ((OUT1_0).view.loc (TH d) ↦[(OUT1_0).view.set]{fullShare} m (v10L d)) ∗ ((OUT2_0).view.loc (TH d) ↦[(OUT2_0).view.set]{fullShare} m (v10L d))) := by
  show bigSep ({((0 : Fin 9), (0 : Fin 2), (0 : Fin 8)), ((2 : Fin 9), (0 : Fin 2), (1 : Fin 8)), ((1 : Fin 9), (0 : Fin 2), (7 : Fin 8))} : Finset (Fin 9 × Fin 2 × Fin 8)) (B0 m d) = _
  rw [SparseCore.bigSep_insert' (by decide), SparseCore.bigSep_insert' (by decide), bigSep_singleton]
  exact (congrArg₂ (fun a b : sProp 𝕄 => iprop(a ∗ b)) (pts_v10 d (cV LL) (jV LL) (0 : Fin 9) (0 : Fin 2) (0 : Fin 8) _ (m (v10L d))).symm (congrArg₂ (fun a b : sProp 𝕄 => iprop(a ∗ b)) (pts_v10 d (cV LL) (jV LL) (2 : Fin 9) (0 : Fin 2) (1 : Fin 8) _ (m (v10L d))).symm (pts_v10 d (cV LL) (jV LL) (1 : Fin 9) (0 : Fin 2) (7 : Fin 8) _ (m (v10L d))).symm))
theorem close10 (m : (ℓ : Loc nD τ sig) → Buf (Elt F) ℓ) (d : Dev nD) :
    (bigSep (t10 (27 : Fin 32)) (B1 m d) : sProp 𝕄) = iprop(((OUT0_0).view.loc (TH d) ↦[(OUT0_0).view.set]{fullShare} OUTc m d) ∗ ((OUT1_0).view.loc (TH d) ↦[(OUT1_0).view.set]{fullShare} OUTc m d) ∗ ((OUT2_0).view.loc (TH d) ↦[(OUT2_0).view.set]{fullShare} OUTc m d)) := by
  show bigSep ({((0 : Fin 9), (0 : Fin 2), (0 : Fin 8)), ((2 : Fin 9), (0 : Fin 2), (1 : Fin 8)), ((1 : Fin 9), (0 : Fin 2), (7 : Fin 8))} : Finset (Fin 9 × Fin 2 × Fin 8)) (B1 m d) = _
  rw [SparseCore.bigSep_insert' (by decide), SparseCore.bigSep_insert' (by decide), bigSep_singleton]
  exact (congrArg₂ (fun a b : sProp 𝕄 => iprop(a ∗ b)) (pts_v10 d (cV LL) (jV LL) (0 : Fin 9) (0 : Fin 2) (0 : Fin 8) _ (OUTc m d)).symm (congrArg₂ (fun a b : sProp 𝕄 => iprop(a ∗ b)) (pts_v10 d (cV LL) (jV LL) (2 : Fin 9) (0 : Fin 2) (1 : Fin 8) _ (OUTc m d)).symm (pts_v10 d (cV LL) (jV LL) (1 : Fin 9) (0 : Fin 2) (7 : Fin 8) _ (OUTc m d)).symm))

/-! ## What each output slice has to hold is what its source slice holds -/

theorem val0_0 (m : (ℓ : Loc nD τ sig) → Buf (Elt F) ℓ) (d : Dev nD) :
    (SRC0).view.read (Elt F) (V5c m d) = (OUT0_0).view.read (Elt F) (OUTc m d) := by
  funext y
  obtain ⟨t, q, rfl⟩ : ∃ (t q : Fin 128), y = ix2 t q := ⟨y 0, y 1, eq_ix2 y⟩
  refine (read_v5 (0 : Fin 14) (0 : Fin 2) _ _ t q).trans ((?_ : _ = _).trans (read_v10 (0 : Fin 9) (0 : Fin 2) (0 : Fin 8) _ _ t q).symm)
  unfold V5c OUTc
  rw [Cert.Layout.deltaV_apply]
  refine Eq.trans ?_ (outV_at _ _ _ _ _ _ _ t _ q (show 8 * 0 + 0 < 14 by decide)).symm
  rfl
theorem val1_0 (m : (ℓ : Loc nD τ sig) → Buf (Elt F) ℓ) (d : Dev nD) :
    (SRC1).view.read (Elt F) (V9c m d) = (OUT1_0).view.read (Elt F) (OUTc m d) := by
  funext y
  obtain ⟨t, q, rfl⟩ : ∃ (t q : Fin 128), y = ix2 t q := ⟨y 0, y 1, eq_ix2 y⟩
  refine (read_v9 (1 : Fin 14) _ _ t q).trans ((?_ : _ = _).trans (read_v10 (2 : Fin 9) (0 : Fin 2) (1 : Fin 8) _ _ t q).symm)
  unfold V9c OUTc
  rw [Cert.Layout.lenV_apply]
  refine Eq.trans ?_ (outV_at _ _ _ _ _ _ _ t _ q (show 8 * 0 + 1 < 14 by decide)).symm
  rfl
theorem val2_0 (m : (ℓ : Loc nD τ sig) → Buf (Elt F) ℓ) (d : Dev nD) :
    (SRC2).view.read (Elt F) (V5c m d) = (OUT2_0).view.read (Elt F) (OUTc m d) := by
  funext y
  obtain ⟨t, q, rfl⟩ : ∃ (t q : Fin 128), y = ix2 t q := ⟨y 0, y 1, eq_ix2 y⟩
  refine (read_v5 (7 : Fin 14) (1 : Fin 2) _ _ t q).trans ((?_ : _ = _).trans (read_v10 (1 : Fin 9) (0 : Fin 2) (7 : Fin 8) _ _ t q).symm)
  unfold V5c OUTc
  rw [Cert.Layout.deltaV_apply]
  refine Eq.trans ?_ (outV_at _ _ _ _ _ _ _ t _ q (show 8 * 0 + 7 < 14 by decide)).symm
  rfl

/-! ## The run -/

open Lean Elab Tactic Meta in
/-- Unfold the names the symbolic run gave to the values its copies carry. -/
elab "unfold_carried" : tactic => do
  for _ in [0:6] do
    let g ← getMainGoal
    let t ← instantiateMVars (← g.getType)
    if (t.getUsedConstants.any fun n => n.components.any (· == `sl)) then
      let t' ← deltaExpand t (fun n => n.components.any (· == `sl))
      let g' ← g.change t' (checkDefEq := false)
      replaceMainGoal [g']

variable [FloatOps F] [∀ e, Nonempty (Elt F e)]

theorem run (m : (ℓ : Loc nD τ sig) → Buf (Elt F) ℓ) (d : Dev nD) (O : CellTallies nD τ sig (HIx 1)) (W : Waits sig (HIx 1)) (hO : ∀ g, O g none = 0) :
    (iprop(levAts (K (F := F)).L (K (F := F)).lev ∗ tileG m d (27 : Fin 32)
        ∗ scopedBufs (TH d) ∗ scopedSems0 (TH d) ∗ owes (TH d) O W) : sProp 𝕄)
      ⊢ wp frame (wpE (defs₀ (F := F)) 𝒱₀ (TH d) none) Set.univ
          (cc0_run LL (Memref.whole main_v2_scv) (Memref.isWhole_whole _) (Memref.whole main_v7_scv) (Memref.isWhole_whole _) (Memref.whole main_v5_scv) (Memref.isWhole_whole _) (Memref.whole main_v9_scv) (Memref.isWhole_whole _) (Memref.whole main_v10_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8)
          fun _ => iprop(tileT m d (27 : Fin 32) ∗ scopedBufs (TH d) ∗ scopedSems0 (TH d)
            ∗ ∃ W', ⌜∀ p ∈ W', p ∈ W ∨ p.2 = none⌝ ∗ owes (TH d) O W') := by
  rw [(K (F := F)).scopedBufs_V facts d (cV LL) (jV LL), SparseCore.Cfg.scopedSems0_V (Val := Elt F) d (cV LL) (jV LL), ownSems0_V, ownBufs_V]
  unfold tileG tileT
  iintro ⟨#Hlv, ⟨-, -, HF5, HF9, HF10⟩, ⟨⟨%fb0, Hb0⟩, ⟨%fb1, Hb1⟩, ⟨%fb2, Hb2⟩, Hbufs⟩, ⟨Hs3, Hs4, Hs5, Hs6, Hs7, Hs8, Hsems⟩, HO⟩
  ihave HF5' := (Entails.of_eq (open5 m d)) $$ HF5
  icases HF5' with ⟨HS0, HS2⟩
  ihave HF9' := (Entails.of_eq (open9 m d)) $$ HF9
  icases HF9' with HS1
  ihave HF10' := (Entails.of_eq (open10 m d)) $$ HF10
  icases HF10' with ⟨HO0_0, HO1_0, HO2_0⟩
  ihave Hmw := ((K (F := F)).mayWaits_none (thr := TH d) hO) $$ Hlv
  ihave Hb0' := (Entails.of_eq (pts_b0 d (cV LL) (jV LL) _).symm) $$ Hb0
  ihave Hb1' := (Entails.of_eq (pts_b1 d (cV LL) (jV LL) _).symm) $$ Hb1
  ihave Hb2' := (Entails.of_eq (pts_b2 d (cV LL) (jV LL) _).symm) $$ Hb2
  sl_unfold [cc0_run]
  sl_exec_parts (disch := decide)
  sl_step
  isplitl [HS0 HS2 HS1 HO0_0 HO1_0 HO2_0]
  · skip
    isplitr
    · rw [show t2 (27 : Fin 32) = ∅ from rfl, bigSep_empty]; iempintro
    isplitr
    · rw [show t7 (27 : Fin 32) = ∅ from rfl, bigSep_empty]; iempintro
    isplitl [HS0 HS2]
    · iapply (Entails.of_eq (open5 m d).symm)
      isplitl [HS0]; · iexact HS0
      iexact HS2
    isplitl [HS1]
    · iapply (Entails.of_eq (open9 m d).symm)
      iexact HS1
    · iapply (Entails.of_eq (close10 m d).symm)
      isplitl [HO0_0]
      · iapply (out_post_ent (TH d) (OUT0_0) _ (OUTc m d) _ ?hv0_0) $$ HO0_0
        case hv0_0 => unfold_carried; simp only [ReadAs.apply_same, View.read_write_univ]; exact val0_0 m d
      isplitl [HO1_0]
      · iapply (out_post_ent (TH d) (OUT1_0) _ (OUTc m d) _ ?hv1_0) $$ HO1_0
        case hv1_0 => unfold_carried; simp only [ReadAs.apply_same, View.read_write_univ]; exact val1_0 m d
      iapply (out_post_ent (TH d) (OUT2_0) _ (OUTc m d) _ ?hv2_0) $$ HO2_0
      case hv2_0 => unfold_carried; simp only [ReadAs.apply_same, View.read_write_univ]; exact val2_0 m d

  isplitl [Hb0' Hb1' Hb2' Hbufs]
  · isplitl [Hb0']
    · iexists _; iapply (Entails.of_eq (pts_b0 d (cV LL) (jV LL) _)); iexact Hb0'
    isplitl [Hb1']
    · iexists _; iapply (Entails.of_eq (pts_b1 d (cV LL) (jV LL) _)); iexact Hb1'
    isplitl [Hb2']
    · iexists _; iapply (Entails.of_eq (pts_b2 d (cV LL) (jV LL) _)); iexact Hb2'
    iexact Hbufs
  isplitl [Hs3 Hs4 Hs5 Hs6 Hs7 Hs8 Hsems]
  · isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    iexact Hsems
  iexists _; isplitr
  rotate_left
  · iexact HO
  · ipureintro; intro p hp
    simp only [Finset.mem_insert] at hp
    rcases hp with rfl | rfl | rfl | rfl | rfl | rfl | hp <;> first | exact .inr rfl | exact .inl hp

end Cert.Proof.KB.Tile27

end
-- ==== Proof.KBTile28.lean ====
/-
  Tile 28 of the kernel (subcore 14 of core 0): one slice in (delta0.1), 1 out; one slice in (pose9.0), 1 out; one slice in (len7), 1 out.
  Its whole body is run: every copy it does not own is skipped by the comparison of its number with the copy's owner;
  each incoming copy fills a staging buffer, each outgoing copy carries that buffer into one slice of the output array,
  and what each output slice then holds is the source slice the specification asks for there.
-/
import proofs.«210185_g18468359372994_cont_8to1_1390_15_alg».proof.Proof.KBRead

set_option maxHeartbeats 4000000
set_option quotPrecheck false

noncomputable section

namespace Cert.Proof.KB.Tile28

open Cert.Kernel Cert.Kernel.Gen
open Cert.Proof.KB
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
theorem cLt : 0 < grid0.bound 0 := by decide
theorem sLt : 14 < grid0.bound 1 := by decide
local notation "LL" => (coordsV (⟨0, cLt⟩ : Fin (grid0.bound 0)) (⟨14, sLt⟩ : Fin (grid0.bound 1)))
local notation "TH" d => V d (cV LL) (jV LL)
local notation "SRC0" => (((Memref.whole main_v5_scv).slice (Rect.unit (s := S14x128x2x128) ![0, 0, 1, 0] S1x128x1x128.size inb_S14x128x2x128_S1x128x1x128_0_0_1_0) (fun _ => rfl)).squeeze S128x128 squeezes_S1x128x1x128_S128x128 : Memref sig .scVector .hbm S128x128 .f32)
local notation "OUT0_0" => (((Memref.whole main_v10_scv).slice (Rect.unit (s := S9x2x128x8x128) ![1, 0, 0, 0, 0] S1x1x128x1x128.size inb_S9x2x128x8x128_S1x1x128x1x128_1_0_0_0_0) (fun _ => rfl)).squeeze S128x128 squeezes_S1x1x128x1x128_S128x128 : Memref sig .scVector .hbm S128x128 .f32)
local notation "SRC1" => (((Memref.whole main_v2_scv).slice (Rect.unit (s := S17x128x2x128) ![9, 0, 0, 0] S1x128x1x128.size inb_S17x128x2x128_S1x128x1x128_9_0_0_0) (fun _ => rfl)).squeeze S128x128 squeezes_S1x128x1x128_S128x128 : Memref sig .scVector .hbm S128x128 .f32)
local notation "OUT1_0" => (((Memref.whole main_v10_scv).slice (Rect.unit (s := S9x2x128x8x128) ![5, 0, 0, 1, 0] S1x1x128x1x128.size inb_S9x2x128x8x128_S1x1x128x1x128_5_0_0_1_0) (fun _ => rfl)).squeeze S128x128 squeezes_S1x1x128x1x128_S128x128 : Memref sig .scVector .hbm S128x128 .f32)
local notation "SRC2" => (((Memref.whole main_v9_scv).slice (Rect.unit (s := S14x128x128) ![7, 0, 0] S1x128x128.size inb_S14x128x128_S1x128x128_7_0_0) (fun _ => rfl)).squeeze S128x128 squeezes_S1x128x128_S128x128 : Memref sig .scVector .hbm S128x128 .f32)
local notation "OUT2_0" => (((Memref.whole main_v10_scv).slice (Rect.unit (s := S9x2x128x8x128) ![2, 0, 0, 7, 0] S1x1x128x1x128.size inb_S9x2x128x8x128_S1x1x128x1x128_2_0_0_7_0) (fun _ => rfl)).squeeze S128x128 squeezes_S1x1x128x1x128_S128x128 : Memref sig .scVector .hbm S128x128 .f32)

/-! ## The tile's slices, as its memrefs name them -/

theorem open2 (m : (ℓ : Loc nD τ sig) → Buf (Elt F) ℓ) (d : Dev nD) :
    (bigSep (t2 (28 : Fin 32)) (A2 m d) : sProp 𝕄) = iprop(((SRC1).view.loc (TH d) ↦[(SRC1).view.set]{fullShare} V2c m d)) := by
  show bigSep ({((9 : Fin 17), (0 : Fin 2))} : Finset (Fin 17 × Fin 2)) (A2 m d) = _
  rw [bigSep_singleton]
  exact (pts_v2 d (cV LL) (jV LL) (9 : Fin 17) (0 : Fin 2) _ (V2c m d)).symm
theorem open5 (m : (ℓ : Loc nD τ sig) → Buf (Elt F) ℓ) (d : Dev nD) :
    (bigSep (t5 (28 : Fin 32)) (A5 m d) : sProp 𝕄) = iprop(((SRC0).view.loc (TH d) ↦[(SRC0).view.set]{fullShare} V5c m d)) := by
  show bigSep ({((0 : Fin 14), (1 : Fin 2))} : Finset (Fin 14 × Fin 2)) (A5 m d) = _
  rw [bigSep_singleton]
  exact (pts_v5 d (cV LL) (jV LL) (0 : Fin 14) (1 : Fin 2) _ (V5c m d)).symm
theorem open9 (m : (ℓ : Loc nD τ sig) → Buf (Elt F) ℓ) (d : Dev nD) :
    (bigSep (t9 (28 : Fin 32)) (A9 m d) : sProp 𝕄) = iprop(((SRC2).view.loc (TH d) ↦[(SRC2).view.set]{fullShare} V9c m d)) := by
  show bigSep ({(7 : Fin 14)} : Finset (Fin 14)) (A9 m d) = _
  rw [bigSep_singleton]
  exact (pts_v9 d (cV LL) (jV LL) (7 : Fin 14) _ (V9c m d)).symm
theorem open10 (m : (ℓ : Loc nD τ sig) → Buf (Elt F) ℓ) (d : Dev nD) :
    (bigSep (t10 (28 : Fin 32)) (B0 m d) : sProp 𝕄) = iprop(((OUT0_0).view.loc (TH d) ↦[(OUT0_0).view.set]{fullShare} m (v10L d)) ∗ ((OUT1_0).view.loc (TH d) ↦[(OUT1_0).view.set]{fullShare} m (v10L d)) ∗ ((OUT2_0).view.loc (TH d) ↦[(OUT2_0).view.set]{fullShare} m (v10L d))) := by
  show bigSep ({((1 : Fin 9), (0 : Fin 2), (0 : Fin 8)), ((5 : Fin 9), (0 : Fin 2), (1 : Fin 8)), ((2 : Fin 9), (0 : Fin 2), (7 : Fin 8))} : Finset (Fin 9 × Fin 2 × Fin 8)) (B0 m d) = _
  rw [SparseCore.bigSep_insert' (by decide), SparseCore.bigSep_insert' (by decide), bigSep_singleton]
  exact (congrArg₂ (fun a b : sProp 𝕄 => iprop(a ∗ b)) (pts_v10 d (cV LL) (jV LL) (1 : Fin 9) (0 : Fin 2) (0 : Fin 8) _ (m (v10L d))).symm (congrArg₂ (fun a b : sProp 𝕄 => iprop(a ∗ b)) (pts_v10 d (cV LL) (jV LL) (5 : Fin 9) (0 : Fin 2) (1 : Fin 8) _ (m (v10L d))).symm (pts_v10 d (cV LL) (jV LL) (2 : Fin 9) (0 : Fin 2) (7 : Fin 8) _ (m (v10L d))).symm))
theorem close10 (m : (ℓ : Loc nD τ sig) → Buf (Elt F) ℓ) (d : Dev nD) :
    (bigSep (t10 (28 : Fin 32)) (B1 m d) : sProp 𝕄) = iprop(((OUT0_0).view.loc (TH d) ↦[(OUT0_0).view.set]{fullShare} OUTc m d) ∗ ((OUT1_0).view.loc (TH d) ↦[(OUT1_0).view.set]{fullShare} OUTc m d) ∗ ((OUT2_0).view.loc (TH d) ↦[(OUT2_0).view.set]{fullShare} OUTc m d)) := by
  show bigSep ({((1 : Fin 9), (0 : Fin 2), (0 : Fin 8)), ((5 : Fin 9), (0 : Fin 2), (1 : Fin 8)), ((2 : Fin 9), (0 : Fin 2), (7 : Fin 8))} : Finset (Fin 9 × Fin 2 × Fin 8)) (B1 m d) = _
  rw [SparseCore.bigSep_insert' (by decide), SparseCore.bigSep_insert' (by decide), bigSep_singleton]
  exact (congrArg₂ (fun a b : sProp 𝕄 => iprop(a ∗ b)) (pts_v10 d (cV LL) (jV LL) (1 : Fin 9) (0 : Fin 2) (0 : Fin 8) _ (OUTc m d)).symm (congrArg₂ (fun a b : sProp 𝕄 => iprop(a ∗ b)) (pts_v10 d (cV LL) (jV LL) (5 : Fin 9) (0 : Fin 2) (1 : Fin 8) _ (OUTc m d)).symm (pts_v10 d (cV LL) (jV LL) (2 : Fin 9) (0 : Fin 2) (7 : Fin 8) _ (OUTc m d)).symm))

/-! ## What each output slice has to hold is what its source slice holds -/

theorem val0_0 (m : (ℓ : Loc nD τ sig) → Buf (Elt F) ℓ) (d : Dev nD) :
    (SRC0).view.read (Elt F) (V5c m d) = (OUT0_0).view.read (Elt F) (OUTc m d) := by
  funext y
  obtain ⟨t, q, rfl⟩ : ∃ (t q : Fin 128), y = ix2 t q := ⟨y 0, y 1, eq_ix2 y⟩
  refine (read_v5 (0 : Fin 14) (1 : Fin 2) _ _ t q).trans ((?_ : _ = _).trans (read_v10 (1 : Fin 9) (0 : Fin 2) (0 : Fin 8) _ _ t q).symm)
  unfold V5c OUTc
  rw [Cert.Layout.deltaV_apply]
  refine Eq.trans ?_ (outV_at _ _ _ _ _ _ _ t _ q (show 8 * 0 + 0 < 14 by decide)).symm
  rfl
theorem val1_0 (m : (ℓ : Loc nD τ sig) → Buf (Elt F) ℓ) (d : Dev nD) :
    (SRC1).view.read (Elt F) (V2c m d) = (OUT1_0).view.read (Elt F) (OUTc m d) := by
  funext y
  obtain ⟨t, q, rfl⟩ : ∃ (t q : Fin 128), y = ix2 t q := ⟨y 0, y 1, eq_ix2 y⟩
  refine (read_v2 (9 : Fin 17) (0 : Fin 2) _ _ t q).trans ((?_ : _ = _).trans (read_v10 (5 : Fin 9) (0 : Fin 2) (1 : Fin 8) _ _ t q).symm)
  unfold V2c OUTc
  rw [Cert.Layout.poseV_apply]
  refine Eq.trans ?_ (outV_at _ _ _ _ _ _ _ t _ q (show 8 * 0 + 1 < 14 by decide)).symm
  rfl
theorem val2_0 (m : (ℓ : Loc nD τ sig) → Buf (Elt F) ℓ) (d : Dev nD) :
    (SRC2).view.read (Elt F) (V9c m d) = (OUT2_0).view.read (Elt F) (OUTc m d) := by
  funext y
  obtain ⟨t, q, rfl⟩ : ∃ (t q : Fin 128), y = ix2 t q := ⟨y 0, y 1, eq_ix2 y⟩
  refine (read_v9 (7 : Fin 14) _ _ t q).trans ((?_ : _ = _).trans (read_v10 (2 : Fin 9) (0 : Fin 2) (7 : Fin 8) _ _ t q).symm)
  unfold V9c OUTc
  rw [Cert.Layout.lenV_apply]
  refine Eq.trans ?_ (outV_at _ _ _ _ _ _ _ t _ q (show 8 * 0 + 7 < 14 by decide)).symm
  rfl

/-! ## The run -/

open Lean Elab Tactic Meta in
/-- Unfold the names the symbolic run gave to the values its copies carry. -/
elab "unfold_carried" : tactic => do
  for _ in [0:6] do
    let g ← getMainGoal
    let t ← instantiateMVars (← g.getType)
    if (t.getUsedConstants.any fun n => n.components.any (· == `sl)) then
      let t' ← deltaExpand t (fun n => n.components.any (· == `sl))
      let g' ← g.change t' (checkDefEq := false)
      replaceMainGoal [g']

variable [FloatOps F] [∀ e, Nonempty (Elt F e)]

theorem run (m : (ℓ : Loc nD τ sig) → Buf (Elt F) ℓ) (d : Dev nD) (O : CellTallies nD τ sig (HIx 1)) (W : Waits sig (HIx 1)) (hO : ∀ g, O g none = 0) :
    (iprop(levAts (K (F := F)).L (K (F := F)).lev ∗ tileG m d (28 : Fin 32)
        ∗ scopedBufs (TH d) ∗ scopedSems0 (TH d) ∗ owes (TH d) O W) : sProp 𝕄)
      ⊢ wp frame (wpE (defs₀ (F := F)) 𝒱₀ (TH d) none) Set.univ
          (cc0_run LL (Memref.whole main_v2_scv) (Memref.isWhole_whole _) (Memref.whole main_v7_scv) (Memref.isWhole_whole _) (Memref.whole main_v5_scv) (Memref.isWhole_whole _) (Memref.whole main_v9_scv) (Memref.isWhole_whole _) (Memref.whole main_v10_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8)
          fun _ => iprop(tileT m d (28 : Fin 32) ∗ scopedBufs (TH d) ∗ scopedSems0 (TH d)
            ∗ ∃ W', ⌜∀ p ∈ W', p ∈ W ∨ p.2 = none⌝ ∗ owes (TH d) O W') := by
  rw [(K (F := F)).scopedBufs_V facts d (cV LL) (jV LL), SparseCore.Cfg.scopedSems0_V (Val := Elt F) d (cV LL) (jV LL), ownSems0_V, ownBufs_V]
  unfold tileG tileT
  iintro ⟨#Hlv, ⟨HF2, -, HF5, HF9, HF10⟩, ⟨⟨%fb0, Hb0⟩, ⟨%fb1, Hb1⟩, ⟨%fb2, Hb2⟩, Hbufs⟩, ⟨Hs3, Hs4, Hs5, Hs6, Hs7, Hs8, Hsems⟩, HO⟩
  ihave HF2' := (Entails.of_eq (open2 m d)) $$ HF2
  icases HF2' with HS1
  ihave HF5' := (Entails.of_eq (open5 m d)) $$ HF5
  icases HF5' with HS0
  ihave HF9' := (Entails.of_eq (open9 m d)) $$ HF9
  icases HF9' with HS2
  ihave HF10' := (Entails.of_eq (open10 m d)) $$ HF10
  icases HF10' with ⟨HO0_0, HO1_0, HO2_0⟩
  ihave Hmw := ((K (F := F)).mayWaits_none (thr := TH d) hO) $$ Hlv
  ihave Hb0' := (Entails.of_eq (pts_b0 d (cV LL) (jV LL) _).symm) $$ Hb0
  ihave Hb1' := (Entails.of_eq (pts_b1 d (cV LL) (jV LL) _).symm) $$ Hb1
  ihave Hb2' := (Entails.of_eq (pts_b2 d (cV LL) (jV LL) _).symm) $$ Hb2
  sl_unfold [cc0_run]
  sl_exec_parts (disch := decide)
  sl_step
  isplitl [HS1 HS0 HS2 HO0_0 HO1_0 HO2_0]
  · skip
    isplitl [HS1]
    · iapply (Entails.of_eq (open2 m d).symm)
      iexact HS1
    isplitr
    · rw [show t7 (28 : Fin 32) = ∅ from rfl, bigSep_empty]; iempintro
    isplitl [HS0]
    · iapply (Entails.of_eq (open5 m d).symm)
      iexact HS0
    isplitl [HS2]
    · iapply (Entails.of_eq (open9 m d).symm)
      iexact HS2
    · iapply (Entails.of_eq (close10 m d).symm)
      isplitl [HO0_0]
      · iapply (out_post_ent (TH d) (OUT0_0) _ (OUTc m d) _ ?hv0_0) $$ HO0_0
        case hv0_0 => unfold_carried; simp only [ReadAs.apply_same, View.read_write_univ]; exact val0_0 m d
      isplitl [HO1_0]
      · iapply (out_post_ent (TH d) (OUT1_0) _ (OUTc m d) _ ?hv1_0) $$ HO1_0
        case hv1_0 => unfold_carried; simp only [ReadAs.apply_same, View.read_write_univ]; exact val1_0 m d
      iapply (out_post_ent (TH d) (OUT2_0) _ (OUTc m d) _ ?hv2_0) $$ HO2_0
      case hv2_0 => unfold_carried; simp only [ReadAs.apply_same, View.read_write_univ]; exact val2_0 m d

  isplitl [Hb0' Hb1' Hb2' Hbufs]
  · isplitl [Hb0']
    · iexists _; iapply (Entails.of_eq (pts_b0 d (cV LL) (jV LL) _)); iexact Hb0'
    isplitl [Hb1']
    · iexists _; iapply (Entails.of_eq (pts_b1 d (cV LL) (jV LL) _)); iexact Hb1'
    isplitl [Hb2']
    · iexists _; iapply (Entails.of_eq (pts_b2 d (cV LL) (jV LL) _)); iexact Hb2'
    iexact Hbufs
  isplitl [Hs3 Hs4 Hs5 Hs6 Hs7 Hs8 Hsems]
  · isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    iexact Hsems
  iexists _; isplitr
  rotate_left
  · iexact HO
  · ipureintro; intro p hp
    simp only [Finset.mem_insert] at hp
    rcases hp with rfl | rfl | rfl | rfl | rfl | rfl | hp <;> first | exact .inr rfl | exact .inl hp

end Cert.Proof.KB.Tile28

end
-- ==== Proof.KBTile29.lean ====
/-
  Tile 29 of the kernel (subcore 14 of core 1): one slice in (len0), 1 out; one slice in (pose9.1), 1 out; one slice in (pose16.0), 1 out.
  Its whole body is run: every copy it does not own is skipped by the comparison of its number with the copy's owner;
  each incoming copy fills a staging buffer, each outgoing copy carries that buffer into one slice of the output array,
  and what each output slice then holds is the source slice the specification asks for there.
-/
import proofs.«210185_g18468359372994_cont_8to1_1390_15_alg».proof.Proof.KBRead

set_option maxHeartbeats 4000000
set_option quotPrecheck false

noncomputable section

namespace Cert.Proof.KB.Tile29

open Cert.Kernel Cert.Kernel.Gen
open Cert.Proof.KB
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
theorem cLt : 1 < grid0.bound 0 := by decide
theorem sLt : 14 < grid0.bound 1 := by decide
local notation "LL" => (coordsV (⟨1, cLt⟩ : Fin (grid0.bound 0)) (⟨14, sLt⟩ : Fin (grid0.bound 1)))
local notation "TH" d => V d (cV LL) (jV LL)
local notation "SRC0" => (((Memref.whole main_v9_scv).slice (Rect.unit (s := S14x128x128) ![0, 0, 0] S1x128x128.size inb_S14x128x128_S1x128x128_0_0_0) (fun _ => rfl)).squeeze S128x128 squeezes_S1x128x128_S128x128 : Memref sig .scVector .hbm S128x128 .f32)
local notation "OUT0_0" => (((Memref.whole main_v10_scv).slice (Rect.unit (s := S9x2x128x8x128) ![2, 0, 0, 0, 0] S1x1x128x1x128.size inb_S9x2x128x8x128_S1x1x128x1x128_2_0_0_0_0) (fun _ => rfl)).squeeze S128x128 squeezes_S1x1x128x1x128_S128x128 : Memref sig .scVector .hbm S128x128 .f32)
local notation "SRC1" => (((Memref.whole main_v2_scv).slice (Rect.unit (s := S17x128x2x128) ![9, 0, 1, 0] S1x128x1x128.size inb_S17x128x2x128_S1x128x1x128_9_0_1_0) (fun _ => rfl)).squeeze S128x128 squeezes_S1x128x1x128_S128x128 : Memref sig .scVector .hbm S128x128 .f32)
local notation "OUT1_0" => (((Memref.whole main_v10_scv).slice (Rect.unit (s := S9x2x128x8x128) ![6, 0, 0, 1, 0] S1x1x128x1x128.size inb_S9x2x128x8x128_S1x1x128x1x128_6_0_0_1_0) (fun _ => rfl)).squeeze S128x128 squeezes_S1x1x128x1x128_S128x128 : Memref sig .scVector .hbm S128x128 .f32)
local notation "SRC2" => (((Memref.whole main_v2_scv).slice (Rect.unit (s := S17x128x2x128) ![16, 0, 0, 0] S1x128x1x128.size inb_S17x128x2x128_S1x128x1x128_16_0_0_0) (fun _ => rfl)).squeeze S128x128 squeezes_S1x128x1x128_S128x128 : Memref sig .scVector .hbm S128x128 .f32)
local notation "OUT2_0" => (((Memref.whole main_v10_scv).slice (Rect.unit (s := S9x2x128x8x128) ![5, 0, 0, 7, 0] S1x1x128x1x128.size inb_S9x2x128x8x128_S1x1x128x1x128_5_0_0_7_0) (fun _ => rfl)).squeeze S128x128 squeezes_S1x1x128x1x128_S128x128 : Memref sig .scVector .hbm S128x128 .f32)

/-! ## The tile's slices, as its memrefs name them -/

theorem open2 (m : (ℓ : Loc nD τ sig) → Buf (Elt F) ℓ) (d : Dev nD) :
    (bigSep (t2 (29 : Fin 32)) (A2 m d) : sProp 𝕄) = iprop(((SRC1).view.loc (TH d) ↦[(SRC1).view.set]{fullShare} V2c m d) ∗ ((SRC2).view.loc (TH d) ↦[(SRC2).view.set]{fullShare} V2c m d)) := by
  show bigSep ({((9 : Fin 17), (1 : Fin 2)), ((16 : Fin 17), (0 : Fin 2))} : Finset (Fin 17 × Fin 2)) (A2 m d) = _
  rw [SparseCore.bigSep_insert' (by decide), bigSep_singleton]
  exact (congrArg₂ (fun a b : sProp 𝕄 => iprop(a ∗ b)) (pts_v2 d (cV LL) (jV LL) (9 : Fin 17) (1 : Fin 2) _ (V2c m d)).symm (pts_v2 d (cV LL) (jV LL) (16 : Fin 17) (0 : Fin 2) _ (V2c m d)).symm)
theorem open9 (m : (ℓ : Loc nD τ sig) → Buf (Elt F) ℓ) (d : Dev nD) :
    (bigSep (t9 (29 : Fin 32)) (A9 m d) : sProp 𝕄) = iprop(((SRC0).view.loc (TH d) ↦[(SRC0).view.set]{fullShare} V9c m d)) := by
  show bigSep ({(0 : Fin 14)} : Finset (Fin 14)) (A9 m d) = _
  rw [bigSep_singleton]
  exact (pts_v9 d (cV LL) (jV LL) (0 : Fin 14) _ (V9c m d)).symm
theorem open10 (m : (ℓ : Loc nD τ sig) → Buf (Elt F) ℓ) (d : Dev nD) :
    (bigSep (t10 (29 : Fin 32)) (B0 m d) : sProp 𝕄) = iprop(((OUT0_0).view.loc (TH d) ↦[(OUT0_0).view.set]{fullShare} m (v10L d)) ∗ ((OUT1_0).view.loc (TH d) ↦[(OUT1_0).view.set]{fullShare} m (v10L d)) ∗ ((OUT2_0).view.loc (TH d) ↦[(OUT2_0).view.set]{fullShare} m (v10L d))) := by
  show bigSep ({((2 : Fin 9), (0 : Fin 2), (0 : Fin 8)), ((6 : Fin 9), (0 : Fin 2), (1 : Fin 8)), ((5 : Fin 9), (0 : Fin 2), (7 : Fin 8))} : Finset (Fin 9 × Fin 2 × Fin 8)) (B0 m d) = _
  rw [SparseCore.bigSep_insert' (by decide), SparseCore.bigSep_insert' (by decide), bigSep_singleton]
  exact (congrArg₂ (fun a b : sProp 𝕄 => iprop(a ∗ b)) (pts_v10 d (cV LL) (jV LL) (2 : Fin 9) (0 : Fin 2) (0 : Fin 8) _ (m (v10L d))).symm (congrArg₂ (fun a b : sProp 𝕄 => iprop(a ∗ b)) (pts_v10 d (cV LL) (jV LL) (6 : Fin 9) (0 : Fin 2) (1 : Fin 8) _ (m (v10L d))).symm (pts_v10 d (cV LL) (jV LL) (5 : Fin 9) (0 : Fin 2) (7 : Fin 8) _ (m (v10L d))).symm))
theorem close10 (m : (ℓ : Loc nD τ sig) → Buf (Elt F) ℓ) (d : Dev nD) :
    (bigSep (t10 (29 : Fin 32)) (B1 m d) : sProp 𝕄) = iprop(((OUT0_0).view.loc (TH d) ↦[(OUT0_0).view.set]{fullShare} OUTc m d) ∗ ((OUT1_0).view.loc (TH d) ↦[(OUT1_0).view.set]{fullShare} OUTc m d) ∗ ((OUT2_0).view.loc (TH d) ↦[(OUT2_0).view.set]{fullShare} OUTc m d)) := by
  show bigSep ({((2 : Fin 9), (0 : Fin 2), (0 : Fin 8)), ((6 : Fin 9), (0 : Fin 2), (1 : Fin 8)), ((5 : Fin 9), (0 : Fin 2), (7 : Fin 8))} : Finset (Fin 9 × Fin 2 × Fin 8)) (B1 m d) = _
  rw [SparseCore.bigSep_insert' (by decide), SparseCore.bigSep_insert' (by decide), bigSep_singleton]
  exact (congrArg₂ (fun a b : sProp 𝕄 => iprop(a ∗ b)) (pts_v10 d (cV LL) (jV LL) (2 : Fin 9) (0 : Fin 2) (0 : Fin 8) _ (OUTc m d)).symm (congrArg₂ (fun a b : sProp 𝕄 => iprop(a ∗ b)) (pts_v10 d (cV LL) (jV LL) (6 : Fin 9) (0 : Fin 2) (1 : Fin 8) _ (OUTc m d)).symm (pts_v10 d (cV LL) (jV LL) (5 : Fin 9) (0 : Fin 2) (7 : Fin 8) _ (OUTc m d)).symm))

/-! ## What each output slice has to hold is what its source slice holds -/

theorem val0_0 (m : (ℓ : Loc nD τ sig) → Buf (Elt F) ℓ) (d : Dev nD) :
    (SRC0).view.read (Elt F) (V9c m d) = (OUT0_0).view.read (Elt F) (OUTc m d) := by
  funext y
  obtain ⟨t, q, rfl⟩ : ∃ (t q : Fin 128), y = ix2 t q := ⟨y 0, y 1, eq_ix2 y⟩
  refine (read_v9 (0 : Fin 14) _ _ t q).trans ((?_ : _ = _).trans (read_v10 (2 : Fin 9) (0 : Fin 2) (0 : Fin 8) _ _ t q).symm)
  unfold V9c OUTc
  rw [Cert.Layout.lenV_apply]
  refine Eq.trans ?_ (outV_at _ _ _ _ _ _ _ t _ q (show 8 * 0 + 0 < 14 by decide)).symm
  rfl
theorem val1_0 (m : (ℓ : Loc nD τ sig) → Buf (Elt F) ℓ) (d : Dev nD) :
    (SRC1).view.read (Elt F) (V2c m d) = (OUT1_0).view.read (Elt F) (OUTc m d) := by
  funext y
  obtain ⟨t, q, rfl⟩ : ∃ (t q : Fin 128), y = ix2 t q := ⟨y 0, y 1, eq_ix2 y⟩
  refine (read_v2 (9 : Fin 17) (1 : Fin 2) _ _ t q).trans ((?_ : _ = _).trans (read_v10 (6 : Fin 9) (0 : Fin 2) (1 : Fin 8) _ _ t q).symm)
  unfold V2c OUTc
  rw [Cert.Layout.poseV_apply]
  refine Eq.trans ?_ (outV_at _ _ _ _ _ _ _ t _ q (show 8 * 0 + 1 < 14 by decide)).symm
  rfl
theorem val2_0 (m : (ℓ : Loc nD τ sig) → Buf (Elt F) ℓ) (d : Dev nD) :
    (SRC2).view.read (Elt F) (V2c m d) = (OUT2_0).view.read (Elt F) (OUTc m d) := by
  funext y
  obtain ⟨t, q, rfl⟩ : ∃ (t q : Fin 128), y = ix2 t q := ⟨y 0, y 1, eq_ix2 y⟩
  refine (read_v2 (16 : Fin 17) (0 : Fin 2) _ _ t q).trans ((?_ : _ = _).trans (read_v10 (5 : Fin 9) (0 : Fin 2) (7 : Fin 8) _ _ t q).symm)
  unfold V2c OUTc
  rw [Cert.Layout.poseV_apply]
  refine Eq.trans ?_ (outV_at _ _ _ _ _ _ _ t _ q (show 8 * 0 + 7 < 14 by decide)).symm
  rfl

/-! ## The run -/

open Lean Elab Tactic Meta in
/-- Unfold the names the symbolic run gave to the values its copies carry. -/
elab "unfold_carried" : tactic => do
  for _ in [0:6] do
    let g ← getMainGoal
    let t ← instantiateMVars (← g.getType)
    if (t.getUsedConstants.any fun n => n.components.any (· == `sl)) then
      let t' ← deltaExpand t (fun n => n.components.any (· == `sl))
      let g' ← g.change t' (checkDefEq := false)
      replaceMainGoal [g']

variable [FloatOps F] [∀ e, Nonempty (Elt F e)]

theorem run (m : (ℓ : Loc nD τ sig) → Buf (Elt F) ℓ) (d : Dev nD) (O : CellTallies nD τ sig (HIx 1)) (W : Waits sig (HIx 1)) (hO : ∀ g, O g none = 0) :
    (iprop(levAts (K (F := F)).L (K (F := F)).lev ∗ tileG m d (29 : Fin 32)
        ∗ scopedBufs (TH d) ∗ scopedSems0 (TH d) ∗ owes (TH d) O W) : sProp 𝕄)
      ⊢ wp frame (wpE (defs₀ (F := F)) 𝒱₀ (TH d) none) Set.univ
          (cc0_run LL (Memref.whole main_v2_scv) (Memref.isWhole_whole _) (Memref.whole main_v7_scv) (Memref.isWhole_whole _) (Memref.whole main_v5_scv) (Memref.isWhole_whole _) (Memref.whole main_v9_scv) (Memref.isWhole_whole _) (Memref.whole main_v10_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8)
          fun _ => iprop(tileT m d (29 : Fin 32) ∗ scopedBufs (TH d) ∗ scopedSems0 (TH d)
            ∗ ∃ W', ⌜∀ p ∈ W', p ∈ W ∨ p.2 = none⌝ ∗ owes (TH d) O W') := by
  rw [(K (F := F)).scopedBufs_V facts d (cV LL) (jV LL), SparseCore.Cfg.scopedSems0_V (Val := Elt F) d (cV LL) (jV LL), ownSems0_V, ownBufs_V]
  unfold tileG tileT
  iintro ⟨#Hlv, ⟨HF2, -, -, HF9, HF10⟩, ⟨⟨%fb0, Hb0⟩, ⟨%fb1, Hb1⟩, ⟨%fb2, Hb2⟩, Hbufs⟩, ⟨Hs3, Hs4, Hs5, Hs6, Hs7, Hs8, Hsems⟩, HO⟩
  ihave HF2' := (Entails.of_eq (open2 m d)) $$ HF2
  icases HF2' with ⟨HS1, HS2⟩
  ihave HF9' := (Entails.of_eq (open9 m d)) $$ HF9
  icases HF9' with HS0
  ihave HF10' := (Entails.of_eq (open10 m d)) $$ HF10
  icases HF10' with ⟨HO0_0, HO1_0, HO2_0⟩
  ihave Hmw := ((K (F := F)).mayWaits_none (thr := TH d) hO) $$ Hlv
  ihave Hb0' := (Entails.of_eq (pts_b0 d (cV LL) (jV LL) _).symm) $$ Hb0
  ihave Hb1' := (Entails.of_eq (pts_b1 d (cV LL) (jV LL) _).symm) $$ Hb1
  ihave Hb2' := (Entails.of_eq (pts_b2 d (cV LL) (jV LL) _).symm) $$ Hb2
  sl_unfold [cc0_run]
  sl_exec_parts (disch := decide)
  sl_step
  isplitl [HS1 HS2 HS0 HO0_0 HO1_0 HO2_0]
  · skip
    isplitl [HS1 HS2]
    · iapply (Entails.of_eq (open2 m d).symm)
      isplitl [HS1]; · iexact HS1
      iexact HS2
    isplitr
    · rw [show t7 (29 : Fin 32) = ∅ from rfl, bigSep_empty]; iempintro
    isplitr
    · rw [show t5 (29 : Fin 32) = ∅ from rfl, bigSep_empty]; iempintro
    isplitl [HS0]
    · iapply (Entails.of_eq (open9 m d).symm)
      iexact HS0
    · iapply (Entails.of_eq (close10 m d).symm)
      isplitl [HO0_0]
      · iapply (out_post_ent (TH d) (OUT0_0) _ (OUTc m d) _ ?hv0_0) $$ HO0_0
        case hv0_0 => unfold_carried; simp only [ReadAs.apply_same, View.read_write_univ]; exact val0_0 m d
      isplitl [HO1_0]
      · iapply (out_post_ent (TH d) (OUT1_0) _ (OUTc m d) _ ?hv1_0) $$ HO1_0
        case hv1_0 => unfold_carried; simp only [ReadAs.apply_same, View.read_write_univ]; exact val1_0 m d
      iapply (out_post_ent (TH d) (OUT2_0) _ (OUTc m d) _ ?hv2_0) $$ HO2_0
      case hv2_0 => unfold_carried; simp only [ReadAs.apply_same, View.read_write_univ]; exact val2_0 m d

  isplitl [Hb0' Hb1' Hb2' Hbufs]
  · isplitl [Hb0']
    · iexists _; iapply (Entails.of_eq (pts_b0 d (cV LL) (jV LL) _)); iexact Hb0'
    isplitl [Hb1']
    · iexists _; iapply (Entails.of_eq (pts_b1 d (cV LL) (jV LL) _)); iexact Hb1'
    isplitl [Hb2']
    · iexists _; iapply (Entails.of_eq (pts_b2 d (cV LL) (jV LL) _)); iexact Hb2'
    iexact Hbufs
  isplitl [Hs3 Hs4 Hs5 Hs6 Hs7 Hs8 Hsems]
  · isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    iexact Hsems
  iexists _; isplitr
  rotate_left
  · iexact HO
  · ipureintro; intro p hp
    simp only [Finset.mem_insert] at hp
    rcases hp with rfl | rfl | rfl | rfl | rfl | rfl | hp <;> first | exact .inr rfl | exact .inl hp

end Cert.Proof.KB.Tile29

end
-- ==== Proof.KBTile30.lean ====
/-
  Tile 30 of the kernel (subcore 15 of core 0): one slice in (delta1.0), 1 out; one slice in (vis9), 1 out; one slice in (pose16.1), 1 out.
  Its whole body is run: every copy it does not own is skipped by the comparison of its number with the copy's owner;
  each incoming copy fills a staging buffer, each outgoing copy carries that buffer into one slice of the output array,
  and what each output slice then holds is the source slice the specification asks for there.
-/
import proofs.«210185_g18468359372994_cont_8to1_1390_15_alg».proof.Proof.KBRead

set_option maxHeartbeats 4000000
set_option quotPrecheck false

noncomputable section

namespace Cert.Proof.KB.Tile30

open Cert.Kernel Cert.Kernel.Gen
open Cert.Proof.KB
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
theorem cLt : 0 < grid0.bound 0 := by decide
theorem sLt : 15 < grid0.bound 1 := by decide
local notation "LL" => (coordsV (⟨0, cLt⟩ : Fin (grid0.bound 0)) (⟨15, sLt⟩ : Fin (grid0.bound 1)))
local notation "TH" d => V d (cV LL) (jV LL)
local notation "SRC0" => (((Memref.whole main_v5_scv).slice (Rect.unit (s := S14x128x2x128) ![1, 0, 0, 0] S1x128x1x128.size inb_S14x128x2x128_S1x128x1x128_1_0_0_0) (fun _ => rfl)).squeeze S128x128 squeezes_S1x128x1x128_S128x128 : Memref sig .scVector .hbm S128x128 .f32)
local notation "OUT0_0" => (((Memref.whole main_v10_scv).slice (Rect.unit (s := S9x2x128x8x128) ![0, 0, 0, 1, 0] S1x1x128x1x128.size inb_S9x2x128x8x128_S1x1x128x1x128_0_0_0_1_0) (fun _ => rfl)).squeeze S128x128 squeezes_S1x1x128x1x128_S128x128 : Memref sig .scVector .hbm S128x128 .f32)
local notation "SRC1" => (((Memref.whole main_v7_scv).slice (Rect.unit (s := S17x128x128) ![9, 0, 0] S1x128x128.size inb_S17x128x128_S1x128x128_9_0_0) (fun _ => rfl)).squeeze S128x128 squeezes_S1x128x128_S128x128 : Memref sig .scVector .hbm S128x128 .f32)
local notation "OUT1_0" => (((Memref.whole main_v10_scv).slice (Rect.unit (s := S9x2x128x8x128) ![8, 0, 0, 1, 0] S1x1x128x1x128.size inb_S9x2x128x8x128_S1x1x128x1x128_8_0_0_1_0) (fun _ => rfl)).squeeze S128x128 squeezes_S1x1x128x1x128_S128x128 : Memref sig .scVector .hbm S128x128 .f32)
local notation "SRC2" => (((Memref.whole main_v2_scv).slice (Rect.unit (s := S17x128x2x128) ![16, 0, 1, 0] S1x128x1x128.size inb_S17x128x2x128_S1x128x1x128_16_0_1_0) (fun _ => rfl)).squeeze S128x128 squeezes_S1x128x1x128_S128x128 : Memref sig .scVector .hbm S128x128 .f32)
local notation "OUT2_0" => (((Memref.whole main_v10_scv).slice (Rect.unit (s := S9x2x128x8x128) ![6, 0, 0, 7, 0] S1x1x128x1x128.size inb_S9x2x128x8x128_S1x1x128x1x128_6_0_0_7_0) (fun _ => rfl)).squeeze S128x128 squeezes_S1x1x128x1x128_S128x128 : Memref sig .scVector .hbm S128x128 .f32)

/-! ## The tile's slices, as its memrefs name them -/

theorem open2 (m : (ℓ : Loc nD τ sig) → Buf (Elt F) ℓ) (d : Dev nD) :
    (bigSep (t2 (30 : Fin 32)) (A2 m d) : sProp 𝕄) = iprop(((SRC2).view.loc (TH d) ↦[(SRC2).view.set]{fullShare} V2c m d)) := by
  show bigSep ({((16 : Fin 17), (1 : Fin 2))} : Finset (Fin 17 × Fin 2)) (A2 m d) = _
  rw [bigSep_singleton]
  exact (pts_v2 d (cV LL) (jV LL) (16 : Fin 17) (1 : Fin 2) _ (V2c m d)).symm
theorem open7 (m : (ℓ : Loc nD τ sig) → Buf (Elt F) ℓ) (d : Dev nD) :
    (bigSep (t7 (30 : Fin 32)) (A7 m d) : sProp 𝕄) = iprop(((SRC1).view.loc (TH d) ↦[(SRC1).view.set]{fullShare} V7c m d)) := by
  show bigSep ({(9 : Fin 17)} : Finset (Fin 17)) (A7 m d) = _
  rw [bigSep_singleton]
  exact (pts_v7 d (cV LL) (jV LL) (9 : Fin 17) _ (V7c m d)).symm
theorem open5 (m : (ℓ : Loc nD τ sig) → Buf (Elt F) ℓ) (d : Dev nD) :
    (bigSep (t5 (30 : Fin 32)) (A5 m d) : sProp 𝕄) = iprop(((SRC0).view.loc (TH d) ↦[(SRC0).view.set]{fullShare} V5c m d)) := by
  show bigSep ({((1 : Fin 14), (0 : Fin 2))} : Finset (Fin 14 × Fin 2)) (A5 m d) = _
  rw [bigSep_singleton]
  exact (pts_v5 d (cV LL) (jV LL) (1 : Fin 14) (0 : Fin 2) _ (V5c m d)).symm
theorem open10 (m : (ℓ : Loc nD τ sig) → Buf (Elt F) ℓ) (d : Dev nD) :
    (bigSep (t10 (30 : Fin 32)) (B0 m d) : sProp 𝕄) = iprop(((OUT0_0).view.loc (TH d) ↦[(OUT0_0).view.set]{fullShare} m (v10L d)) ∗ ((OUT1_0).view.loc (TH d) ↦[(OUT1_0).view.set]{fullShare} m (v10L d)) ∗ ((OUT2_0).view.loc (TH d) ↦[(OUT2_0).view.set]{fullShare} m (v10L d))) := by
  show bigSep ({((0 : Fin 9), (0 : Fin 2), (1 : Fin 8)), ((8 : Fin 9), (0 : Fin 2), (1 : Fin 8)), ((6 : Fin 9), (0 : Fin 2), (7 : Fin 8))} : Finset (Fin 9 × Fin 2 × Fin 8)) (B0 m d) = _
  rw [SparseCore.bigSep_insert' (by decide), SparseCore.bigSep_insert' (by decide), bigSep_singleton]
  exact (congrArg₂ (fun a b : sProp 𝕄 => iprop(a ∗ b)) (pts_v10 d (cV LL) (jV LL) (0 : Fin 9) (0 : Fin 2) (1 : Fin 8) _ (m (v10L d))).symm (congrArg₂ (fun a b : sProp 𝕄 => iprop(a ∗ b)) (pts_v10 d (cV LL) (jV LL) (8 : Fin 9) (0 : Fin 2) (1 : Fin 8) _ (m (v10L d))).symm (pts_v10 d (cV LL) (jV LL) (6 : Fin 9) (0 : Fin 2) (7 : Fin 8) _ (m (v10L d))).symm))
theorem close10 (m : (ℓ : Loc nD τ sig) → Buf (Elt F) ℓ) (d : Dev nD) :
    (bigSep (t10 (30 : Fin 32)) (B1 m d) : sProp 𝕄) = iprop(((OUT0_0).view.loc (TH d) ↦[(OUT0_0).view.set]{fullShare} OUTc m d) ∗ ((OUT1_0).view.loc (TH d) ↦[(OUT1_0).view.set]{fullShare} OUTc m d) ∗ ((OUT2_0).view.loc (TH d) ↦[(OUT2_0).view.set]{fullShare} OUTc m d)) := by
  show bigSep ({((0 : Fin 9), (0 : Fin 2), (1 : Fin 8)), ((8 : Fin 9), (0 : Fin 2), (1 : Fin 8)), ((6 : Fin 9), (0 : Fin 2), (7 : Fin 8))} : Finset (Fin 9 × Fin 2 × Fin 8)) (B1 m d) = _
  rw [SparseCore.bigSep_insert' (by decide), SparseCore.bigSep_insert' (by decide), bigSep_singleton]
  exact (congrArg₂ (fun a b : sProp 𝕄 => iprop(a ∗ b)) (pts_v10 d (cV LL) (jV LL) (0 : Fin 9) (0 : Fin 2) (1 : Fin 8) _ (OUTc m d)).symm (congrArg₂ (fun a b : sProp 𝕄 => iprop(a ∗ b)) (pts_v10 d (cV LL) (jV LL) (8 : Fin 9) (0 : Fin 2) (1 : Fin 8) _ (OUTc m d)).symm (pts_v10 d (cV LL) (jV LL) (6 : Fin 9) (0 : Fin 2) (7 : Fin 8) _ (OUTc m d)).symm))

/-! ## What each output slice has to hold is what its source slice holds -/

theorem val0_0 (m : (ℓ : Loc nD τ sig) → Buf (Elt F) ℓ) (d : Dev nD) :
    (SRC0).view.read (Elt F) (V5c m d) = (OUT0_0).view.read (Elt F) (OUTc m d) := by
  funext y
  obtain ⟨t, q, rfl⟩ : ∃ (t q : Fin 128), y = ix2 t q := ⟨y 0, y 1, eq_ix2 y⟩
  refine (read_v5 (1 : Fin 14) (0 : Fin 2) _ _ t q).trans ((?_ : _ = _).trans (read_v10 (0 : Fin 9) (0 : Fin 2) (1 : Fin 8) _ _ t q).symm)
  unfold V5c OUTc
  rw [Cert.Layout.deltaV_apply]
  refine Eq.trans ?_ (outV_at _ _ _ _ _ _ _ t _ q (show 8 * 0 + 1 < 14 by decide)).symm
  rfl
theorem val1_0 (m : (ℓ : Loc nD τ sig) → Buf (Elt F) ℓ) (d : Dev nD) :
    (SRC1).view.read (Elt F) (V7c m d) = (OUT1_0).view.read (Elt F) (OUTc m d) := by
  funext y
  obtain ⟨t, q, rfl⟩ : ∃ (t q : Fin 128), y = ix2 t q := ⟨y 0, y 1, eq_ix2 y⟩
  refine (read_v7 (9 : Fin 17) _ _ t q).trans ((?_ : _ = _).trans (read_v10 (8 : Fin 9) (0 : Fin 2) (1 : Fin 8) _ _ t q).symm)
  unfold V7c OUTc
  rw [Cert.Layout.visV_apply]
  refine Eq.trans ?_ (outV_at _ _ _ _ _ _ _ t _ q (show 8 * 0 + 1 < 14 by decide)).symm
  rfl
theorem val2_0 (m : (ℓ : Loc nD τ sig) → Buf (Elt F) ℓ) (d : Dev nD) :
    (SRC2).view.read (Elt F) (V2c m d) = (OUT2_0).view.read (Elt F) (OUTc m d) := by
  funext y
  obtain ⟨t, q, rfl⟩ : ∃ (t q : Fin 128), y = ix2 t q := ⟨y 0, y 1, eq_ix2 y⟩
  refine (read_v2 (16 : Fin 17) (1 : Fin 2) _ _ t q).trans ((?_ : _ = _).trans (read_v10 (6 : Fin 9) (0 : Fin 2) (7 : Fin 8) _ _ t q).symm)
  unfold V2c OUTc
  rw [Cert.Layout.poseV_apply]
  refine Eq.trans ?_ (outV_at _ _ _ _ _ _ _ t _ q (show 8 * 0 + 7 < 14 by decide)).symm
  rfl

/-! ## The run -/

open Lean Elab Tactic Meta in
/-- Unfold the names the symbolic run gave to the values its copies carry. -/
elab "unfold_carried" : tactic => do
  for _ in [0:6] do
    let g ← getMainGoal
    let t ← instantiateMVars (← g.getType)
    if (t.getUsedConstants.any fun n => n.components.any (· == `sl)) then
      let t' ← deltaExpand t (fun n => n.components.any (· == `sl))
      let g' ← g.change t' (checkDefEq := false)
      replaceMainGoal [g']

variable [FloatOps F] [∀ e, Nonempty (Elt F e)]

theorem run (m : (ℓ : Loc nD τ sig) → Buf (Elt F) ℓ) (d : Dev nD) (O : CellTallies nD τ sig (HIx 1)) (W : Waits sig (HIx 1)) (hO : ∀ g, O g none = 0) :
    (iprop(levAts (K (F := F)).L (K (F := F)).lev ∗ tileG m d (30 : Fin 32)
        ∗ scopedBufs (TH d) ∗ scopedSems0 (TH d) ∗ owes (TH d) O W) : sProp 𝕄)
      ⊢ wp frame (wpE (defs₀ (F := F)) 𝒱₀ (TH d) none) Set.univ
          (cc0_run LL (Memref.whole main_v2_scv) (Memref.isWhole_whole _) (Memref.whole main_v7_scv) (Memref.isWhole_whole _) (Memref.whole main_v5_scv) (Memref.isWhole_whole _) (Memref.whole main_v9_scv) (Memref.isWhole_whole _) (Memref.whole main_v10_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8)
          fun _ => iprop(tileT m d (30 : Fin 32) ∗ scopedBufs (TH d) ∗ scopedSems0 (TH d)
            ∗ ∃ W', ⌜∀ p ∈ W', p ∈ W ∨ p.2 = none⌝ ∗ owes (TH d) O W') := by
  rw [(K (F := F)).scopedBufs_V facts d (cV LL) (jV LL), SparseCore.Cfg.scopedSems0_V (Val := Elt F) d (cV LL) (jV LL), ownSems0_V, ownBufs_V]
  unfold tileG tileT
  iintro ⟨#Hlv, ⟨HF2, HF7, HF5, -, HF10⟩, ⟨⟨%fb0, Hb0⟩, ⟨%fb1, Hb1⟩, ⟨%fb2, Hb2⟩, Hbufs⟩, ⟨Hs3, Hs4, Hs5, Hs6, Hs7, Hs8, Hsems⟩, HO⟩
  ihave HF2' := (Entails.of_eq (open2 m d)) $$ HF2
  icases HF2' with HS2
  ihave HF7' := (Entails.of_eq (open7 m d)) $$ HF7
  icases HF7' with HS1
  ihave HF5' := (Entails.of_eq (open5 m d)) $$ HF5
  icases HF5' with HS0
  ihave HF10' := (Entails.of_eq (open10 m d)) $$ HF10
  icases HF10' with ⟨HO0_0, HO1_0, HO2_0⟩
  ihave Hmw := ((K (F := F)).mayWaits_none (thr := TH d) hO) $$ Hlv
  ihave Hb0' := (Entails.of_eq (pts_b0 d (cV LL) (jV LL) _).symm) $$ Hb0
  ihave Hb1' := (Entails.of_eq (pts_b1 d (cV LL) (jV LL) _).symm) $$ Hb1
  ihave Hb2' := (Entails.of_eq (pts_b2 d (cV LL) (jV LL) _).symm) $$ Hb2
  sl_unfold [cc0_run]
  sl_exec_parts (disch := decide)
  sl_step
  isplitl [HS2 HS1 HS0 HO0_0 HO1_0 HO2_0]
  · skip
    isplitl [HS2]
    · iapply (Entails.of_eq (open2 m d).symm)
      iexact HS2
    isplitl [HS1]
    · iapply (Entails.of_eq (open7 m d).symm)
      iexact HS1
    isplitl [HS0]
    · iapply (Entails.of_eq (open5 m d).symm)
      iexact HS0
    isplitr
    · rw [show t9 (30 : Fin 32) = ∅ from rfl, bigSep_empty]; iempintro
    · iapply (Entails.of_eq (close10 m d).symm)
      isplitl [HO0_0]
      · iapply (out_post_ent (TH d) (OUT0_0) _ (OUTc m d) _ ?hv0_0) $$ HO0_0
        case hv0_0 => unfold_carried; simp only [ReadAs.apply_same, View.read_write_univ]; exact val0_0 m d
      isplitl [HO1_0]
      · iapply (out_post_ent (TH d) (OUT1_0) _ (OUTc m d) _ ?hv1_0) $$ HO1_0
        case hv1_0 => unfold_carried; simp only [ReadAs.apply_same, View.read_write_univ]; exact val1_0 m d
      iapply (out_post_ent (TH d) (OUT2_0) _ (OUTc m d) _ ?hv2_0) $$ HO2_0
      case hv2_0 => unfold_carried; simp only [ReadAs.apply_same, View.read_write_univ]; exact val2_0 m d

  isplitl [Hb0' Hb1' Hb2' Hbufs]
  · isplitl [Hb0']
    · iexists _; iapply (Entails.of_eq (pts_b0 d (cV LL) (jV LL) _)); iexact Hb0'
    isplitl [Hb1']
    · iexists _; iapply (Entails.of_eq (pts_b1 d (cV LL) (jV LL) _)); iexact Hb1'
    isplitl [Hb2']
    · iexists _; iapply (Entails.of_eq (pts_b2 d (cV LL) (jV LL) _)); iexact Hb2'
    iexact Hbufs
  isplitl [Hs3 Hs4 Hs5 Hs6 Hs7 Hs8 Hsems]
  · isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    iexact Hsems
  iexists _; isplitr
  rotate_left
  · iexact HO
  · ipureintro; intro p hp
    simp only [Finset.mem_insert] at hp
    rcases hp with rfl | rfl | rfl | rfl | rfl | rfl | hp <;> first | exact .inr rfl | exact .inl hp

end Cert.Proof.KB.Tile30

end
-- ==== Proof.KBTile31.lean ====
/-
  Tile 31 of the kernel (subcore 15 of core 1): one slice in (delta1.1), 1 out; one slice in (delta2.0), 1 out; one slice in (vis16), 1 out.
  Its whole body is run: every copy it does not own is skipped by the comparison of its number with the copy's owner;
  each incoming copy fills a staging buffer, each outgoing copy carries that buffer into one slice of the output array,
  and what each output slice then holds is the source slice the specification asks for there.
-/
import proofs.«210185_g18468359372994_cont_8to1_1390_15_alg».proof.Proof.KBRead

set_option maxHeartbeats 4000000
set_option quotPrecheck false

noncomputable section

namespace Cert.Proof.KB.Tile31

open Cert.Kernel Cert.Kernel.Gen
open Cert.Proof.KB
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
theorem cLt : 1 < grid0.bound 0 := by decide
theorem sLt : 15 < grid0.bound 1 := by decide
local notation "LL" => (coordsV (⟨1, cLt⟩ : Fin (grid0.bound 0)) (⟨15, sLt⟩ : Fin (grid0.bound 1)))
local notation "TH" d => V d (cV LL) (jV LL)
local notation "SRC0" => (((Memref.whole main_v5_scv).slice (Rect.unit (s := S14x128x2x128) ![1, 0, 1, 0] S1x128x1x128.size inb_S14x128x2x128_S1x128x1x128_1_0_1_0) (fun _ => rfl)).squeeze S128x128 squeezes_S1x128x1x128_S128x128 : Memref sig .scVector .hbm S128x128 .f32)
local notation "OUT0_0" => (((Memref.whole main_v10_scv).slice (Rect.unit (s := S9x2x128x8x128) ![1, 0, 0, 1, 0] S1x1x128x1x128.size inb_S9x2x128x8x128_S1x1x128x1x128_1_0_0_1_0) (fun _ => rfl)).squeeze S128x128 squeezes_S1x1x128x1x128_S128x128 : Memref sig .scVector .hbm S128x128 .f32)
local notation "SRC1" => (((Memref.whole main_v5_scv).slice (Rect.unit (s := S14x128x2x128) ![2, 0, 0, 0] S1x128x1x128.size inb_S14x128x2x128_S1x128x1x128_2_0_0_0) (fun _ => rfl)).squeeze S128x128 squeezes_S1x128x1x128_S128x128 : Memref sig .scVector .hbm S128x128 .f32)
local notation "OUT1_0" => (((Memref.whole main_v10_scv).slice (Rect.unit (s := S9x2x128x8x128) ![0, 0, 0, 2, 0] S1x1x128x1x128.size inb_S9x2x128x8x128_S1x1x128x1x128_0_0_0_2_0) (fun _ => rfl)).squeeze S128x128 squeezes_S1x1x128x1x128_S128x128 : Memref sig .scVector .hbm S128x128 .f32)
local notation "SRC2" => (((Memref.whole main_v7_scv).slice (Rect.unit (s := S17x128x128) ![16, 0, 0] S1x128x128.size inb_S17x128x128_S1x128x128_16_0_0) (fun _ => rfl)).squeeze S128x128 squeezes_S1x128x128_S128x128 : Memref sig .scVector .hbm S128x128 .f32)
local notation "OUT2_0" => (((Memref.whole main_v10_scv).slice (Rect.unit (s := S9x2x128x8x128) ![8, 0, 0, 7, 0] S1x1x128x1x128.size inb_S9x2x128x8x128_S1x1x128x1x128_8_0_0_7_0) (fun _ => rfl)).squeeze S128x128 squeezes_S1x1x128x1x128_S128x128 : Memref sig .scVector .hbm S128x128 .f32)

/-! ## The tile's slices, as its memrefs name them -/

theorem open7 (m : (ℓ : Loc nD τ sig) → Buf (Elt F) ℓ) (d : Dev nD) :
    (bigSep (t7 (31 : Fin 32)) (A7 m d) : sProp 𝕄) = iprop(((SRC2).view.loc (TH d) ↦[(SRC2).view.set]{fullShare} V7c m d)) := by
  show bigSep ({(16 : Fin 17)} : Finset (Fin 17)) (A7 m d) = _
  rw [bigSep_singleton]
  exact (pts_v7 d (cV LL) (jV LL) (16 : Fin 17) _ (V7c m d)).symm
theorem open5 (m : (ℓ : Loc nD τ sig) → Buf (Elt F) ℓ) (d : Dev nD) :
    (bigSep (t5 (31 : Fin 32)) (A5 m d) : sProp 𝕄) = iprop(((SRC0).view.loc (TH d) ↦[(SRC0).view.set]{fullShare} V5c m d) ∗ ((SRC1).view.loc (TH d) ↦[(SRC1).view.set]{fullShare} V5c m d)) := by
  show bigSep ({((1 : Fin 14), (1 : Fin 2)), ((2 : Fin 14), (0 : Fin 2))} : Finset (Fin 14 × Fin 2)) (A5 m d) = _
  rw [SparseCore.bigSep_insert' (by decide), bigSep_singleton]
  exact (congrArg₂ (fun a b : sProp 𝕄 => iprop(a ∗ b)) (pts_v5 d (cV LL) (jV LL) (1 : Fin 14) (1 : Fin 2) _ (V5c m d)).symm (pts_v5 d (cV LL) (jV LL) (2 : Fin 14) (0 : Fin 2) _ (V5c m d)).symm)
theorem open10 (m : (ℓ : Loc nD τ sig) → Buf (Elt F) ℓ) (d : Dev nD) :
    (bigSep (t10 (31 : Fin 32)) (B0 m d) : sProp 𝕄) = iprop(((OUT0_0).view.loc (TH d) ↦[(OUT0_0).view.set]{fullShare} m (v10L d)) ∗ ((OUT1_0).view.loc (TH d) ↦[(OUT1_0).view.set]{fullShare} m (v10L d)) ∗ ((OUT2_0).view.loc (TH d) ↦[(OUT2_0).view.set]{fullShare} m (v10L d))) := by
  show bigSep ({((1 : Fin 9), (0 : Fin 2), (1 : Fin 8)), ((0 : Fin 9), (0 : Fin 2), (2 : Fin 8)), ((8 : Fin 9), (0 : Fin 2), (7 : Fin 8))} : Finset (Fin 9 × Fin 2 × Fin 8)) (B0 m d) = _
  rw [SparseCore.bigSep_insert' (by decide), SparseCore.bigSep_insert' (by decide), bigSep_singleton]
  exact (congrArg₂ (fun a b : sProp 𝕄 => iprop(a ∗ b)) (pts_v10 d (cV LL) (jV LL) (1 : Fin 9) (0 : Fin 2) (1 : Fin 8) _ (m (v10L d))).symm (congrArg₂ (fun a b : sProp 𝕄 => iprop(a ∗ b)) (pts_v10 d (cV LL) (jV LL) (0 : Fin 9) (0 : Fin 2) (2 : Fin 8) _ (m (v10L d))).symm (pts_v10 d (cV LL) (jV LL) (8 : Fin 9) (0 : Fin 2) (7 : Fin 8) _ (m (v10L d))).symm))
theorem close10 (m : (ℓ : Loc nD τ sig) → Buf (Elt F) ℓ) (d : Dev nD) :
    (bigSep (t10 (31 : Fin 32)) (B1 m d) : sProp 𝕄) = iprop(((OUT0_0).view.loc (TH d) ↦[(OUT0_0).view.set]{fullShare} OUTc m d) ∗ ((OUT1_0).view.loc (TH d) ↦[(OUT1_0).view.set]{fullShare} OUTc m d) ∗ ((OUT2_0).view.loc (TH d) ↦[(OUT2_0).view.set]{fullShare} OUTc m d)) := by
  show bigSep ({((1 : Fin 9), (0 : Fin 2), (1 : Fin 8)), ((0 : Fin 9), (0 : Fin 2), (2 : Fin 8)), ((8 : Fin 9), (0 : Fin 2), (7 : Fin 8))} : Finset (Fin 9 × Fin 2 × Fin 8)) (B1 m d) = _
  rw [SparseCore.bigSep_insert' (by decide), SparseCore.bigSep_insert' (by decide), bigSep_singleton]
  exact (congrArg₂ (fun a b : sProp 𝕄 => iprop(a ∗ b)) (pts_v10 d (cV LL) (jV LL) (1 : Fin 9) (0 : Fin 2) (1 : Fin 8) _ (OUTc m d)).symm (congrArg₂ (fun a b : sProp 𝕄 => iprop(a ∗ b)) (pts_v10 d (cV LL) (jV LL) (0 : Fin 9) (0 : Fin 2) (2 : Fin 8) _ (OUTc m d)).symm (pts_v10 d (cV LL) (jV LL) (8 : Fin 9) (0 : Fin 2) (7 : Fin 8) _ (OUTc m d)).symm))

/-! ## What each output slice has to hold is what its source slice holds -/

theorem val0_0 (m : (ℓ : Loc nD τ sig) → Buf (Elt F) ℓ) (d : Dev nD) :
    (SRC0).view.read (Elt F) (V5c m d) = (OUT0_0).view.read (Elt F) (OUTc m d) := by
  funext y
  obtain ⟨t, q, rfl⟩ : ∃ (t q : Fin 128), y = ix2 t q := ⟨y 0, y 1, eq_ix2 y⟩
  refine (read_v5 (1 : Fin 14) (1 : Fin 2) _ _ t q).trans ((?_ : _ = _).trans (read_v10 (1 : Fin 9) (0 : Fin 2) (1 : Fin 8) _ _ t q).symm)
  unfold V5c OUTc
  rw [Cert.Layout.deltaV_apply]
  refine Eq.trans ?_ (outV_at _ _ _ _ _ _ _ t _ q (show 8 * 0 + 1 < 14 by decide)).symm
  rfl
theorem val1_0 (m : (ℓ : Loc nD τ sig) → Buf (Elt F) ℓ) (d : Dev nD) :
    (SRC1).view.read (Elt F) (V5c m d) = (OUT1_0).view.read (Elt F) (OUTc m d) := by
  funext y
  obtain ⟨t, q, rfl⟩ : ∃ (t q : Fin 128), y = ix2 t q := ⟨y 0, y 1, eq_ix2 y⟩
  refine (read_v5 (2 : Fin 14) (0 : Fin 2) _ _ t q).trans ((?_ : _ = _).trans (read_v10 (0 : Fin 9) (0 : Fin 2) (2 : Fin 8) _ _ t q).symm)
  unfold V5c OUTc
  rw [Cert.Layout.deltaV_apply]
  refine Eq.trans ?_ (outV_at _ _ _ _ _ _ _ t _ q (show 8 * 0 + 2 < 14 by decide)).symm
  rfl
theorem val2_0 (m : (ℓ : Loc nD τ sig) → Buf (Elt F) ℓ) (d : Dev nD) :
    (SRC2).view.read (Elt F) (V7c m d) = (OUT2_0).view.read (Elt F) (OUTc m d) := by
  funext y
  obtain ⟨t, q, rfl⟩ : ∃ (t q : Fin 128), y = ix2 t q := ⟨y 0, y 1, eq_ix2 y⟩
  refine (read_v7 (16 : Fin 17) _ _ t q).trans ((?_ : _ = _).trans (read_v10 (8 : Fin 9) (0 : Fin 2) (7 : Fin 8) _ _ t q).symm)
  unfold V7c OUTc
  rw [Cert.Layout.visV_apply]
  refine Eq.trans ?_ (outV_at _ _ _ _ _ _ _ t _ q (show 8 * 0 + 7 < 14 by decide)).symm
  rfl

/-! ## The run -/

open Lean Elab Tactic Meta in
/-- Unfold the names the symbolic run gave to the values its copies carry. -/
elab "unfold_carried" : tactic => do
  for _ in [0:6] do
    let g ← getMainGoal
    let t ← instantiateMVars (← g.getType)
    if (t.getUsedConstants.any fun n => n.components.any (· == `sl)) then
      let t' ← deltaExpand t (fun n => n.components.any (· == `sl))
      let g' ← g.change t' (checkDefEq := false)
      replaceMainGoal [g']

variable [FloatOps F] [∀ e, Nonempty (Elt F e)]

theorem run (m : (ℓ : Loc nD τ sig) → Buf (Elt F) ℓ) (d : Dev nD) (O : CellTallies nD τ sig (HIx 1)) (W : Waits sig (HIx 1)) (hO : ∀ g, O g none = 0) :
    (iprop(levAts (K (F := F)).L (K (F := F)).lev ∗ tileG m d (31 : Fin 32)
        ∗ scopedBufs (TH d) ∗ scopedSems0 (TH d) ∗ owes (TH d) O W) : sProp 𝕄)
      ⊢ wp frame (wpE (defs₀ (F := F)) 𝒱₀ (TH d) none) Set.univ
          (cc0_run LL (Memref.whole main_v2_scv) (Memref.isWhole_whole _) (Memref.whole main_v7_scv) (Memref.isWhole_whole _) (Memref.whole main_v5_scv) (Memref.isWhole_whole _) (Memref.whole main_v9_scv) (Memref.isWhole_whole _) (Memref.whole main_v10_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8)
          fun _ => iprop(tileT m d (31 : Fin 32) ∗ scopedBufs (TH d) ∗ scopedSems0 (TH d)
            ∗ ∃ W', ⌜∀ p ∈ W', p ∈ W ∨ p.2 = none⌝ ∗ owes (TH d) O W') := by
  rw [(K (F := F)).scopedBufs_V facts d (cV LL) (jV LL), SparseCore.Cfg.scopedSems0_V (Val := Elt F) d (cV LL) (jV LL), ownSems0_V, ownBufs_V]
  unfold tileG tileT
  iintro ⟨#Hlv, ⟨-, HF7, HF5, -, HF10⟩, ⟨⟨%fb0, Hb0⟩, ⟨%fb1, Hb1⟩, ⟨%fb2, Hb2⟩, Hbufs⟩, ⟨Hs3, Hs4, Hs5, Hs6, Hs7, Hs8, Hsems⟩, HO⟩
  ihave HF7' := (Entails.of_eq (open7 m d)) $$ HF7
  icases HF7' with HS2
  ihave HF5' := (Entails.of_eq (open5 m d)) $$ HF5
  icases HF5' with ⟨HS0, HS1⟩
  ihave HF10' := (Entails.of_eq (open10 m d)) $$ HF10
  icases HF10' with ⟨HO0_0, HO1_0, HO2_0⟩
  ihave Hmw := ((K (F := F)).mayWaits_none (thr := TH d) hO) $$ Hlv
  ihave Hb0' := (Entails.of_eq (pts_b0 d (cV LL) (jV LL) _).symm) $$ Hb0
  ihave Hb1' := (Entails.of_eq (pts_b1 d (cV LL) (jV LL) _).symm) $$ Hb1
  ihave Hb2' := (Entails.of_eq (pts_b2 d (cV LL) (jV LL) _).symm) $$ Hb2
  sl_unfold [cc0_run]
  sl_exec_parts (disch := decide)
  sl_step
  isplitl [HS2 HS0 HS1 HO0_0 HO1_0 HO2_0]
  · skip
    isplitr
    · rw [show t2 (31 : Fin 32) = ∅ from rfl, bigSep_empty]; iempintro
    isplitl [HS2]
    · iapply (Entails.of_eq (open7 m d).symm)
      iexact HS2
    isplitl [HS0 HS1]
    · iapply (Entails.of_eq (open5 m d).symm)
      isplitl [HS0]; · iexact HS0
      iexact HS1
    isplitr
    · rw [show t9 (31 : Fin 32) = ∅ from rfl, bigSep_empty]; iempintro
    · iapply (Entails.of_eq (close10 m d).symm)
      isplitl [HO0_0]
      · iapply (out_post_ent (TH d) (OUT0_0) _ (OUTc m d) _ ?hv0_0) $$ HO0_0
        case hv0_0 => unfold_carried; simp only [ReadAs.apply_same, View.read_write_univ]; exact val0_0 m d
      isplitl [HO1_0]
      · iapply (out_post_ent (TH d) (OUT1_0) _ (OUTc m d) _ ?hv1_0) $$ HO1_0
        case hv1_0 => unfold_carried; simp only [ReadAs.apply_same, View.read_write_univ]; exact val1_0 m d
      iapply (out_post_ent (TH d) (OUT2_0) _ (OUTc m d) _ ?hv2_0) $$ HO2_0
      case hv2_0 => unfold_carried; simp only [ReadAs.apply_same, View.read_write_univ]; exact val2_0 m d

  isplitl [Hb0' Hb1' Hb2' Hbufs]
  · isplitl [Hb0']
    · iexists _; iapply (Entails.of_eq (pts_b0 d (cV LL) (jV LL) _)); iexact Hb0'
    isplitl [Hb1']
    · iexists _; iapply (Entails.of_eq (pts_b1 d (cV LL) (jV LL) _)); iexact Hb1'
    isplitl [Hb2']
    · iexists _; iapply (Entails.of_eq (pts_b2 d (cV LL) (jV LL) _)); iexact Hb2'
    iexact Hbufs
  isplitl [Hs3 Hs4 Hs5 Hs6 Hs7 Hs8 Hsems]
  · isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    iexact Hsems
  iexists _; isplitr
  rotate_left
  · iexact HO
  · ipureintro; intro p hp
    simp only [Finset.mem_insert] at hp
    rcases hp with rfl | rfl | rfl | rfl | rfl | rfl | hp <;> first | exact .inr rfl | exact .inl hp

end Cert.Proof.KB.Tile31

end
-- ==== Proof.KBRegroup.lean ====
/-
  The five arrays the kernel works on, split among its thirty-two tiles and joined back. Each whole array is the
  separating conjunction of its `[128, 128]` slices (two slices with different indices share no element, and every
  element lies in the slice its unit-axis coordinates name); the tables give every slice to at most one tile, so the
  conjunction over all slices is the conjunction over the tiles of each tile's slices and the conjunction over the slices
  nobody is given. On the output's slices nobody is given — limb rows 14 and 15 — the array the kernel must leave behind
  is the array as it stood, so what comes back joins to that array whole.
-/
import proofs.«210185_g18468359372994_cont_8to1_1390_15_alg».proof.Proof.KBRes
import proofs.«210185_g18468359372994_cont_8to1_1390_15_alg».proof.Proof.LayoutLemmas
import proofs.«210185_g18468359372994_cont_8to1_1390_15_alg».proof.Proof.LibBigSepBiUnion

noncomputable section

namespace Cert.Proof.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

/-! ## The tables name no slice twice -/

theorem t2_disjoint : ∀ t t' : Fin 32, t ≠ t' → Disjoint (t2 t) (t2 t') := by decide
theorem t7_disjoint : ∀ t t' : Fin 32, t ≠ t' → Disjoint (t7 t) (t7 t') := by decide
theorem t5_disjoint : ∀ t t' : Fin 32, t ≠ t' → Disjoint (t5 t) (t5 t') := by decide
theorem t9_disjoint : ∀ t t' : Fin 32, t ≠ t' → Disjoint (t9 t) (t9 t') := by decide
theorem t10_disjoint : ∀ t t' : Fin 32, t ≠ t' → Disjoint (t10 t) (t10 t') := by decide

/-! ## Two slices with different indices share no element, and the slices cover their array -/

theorem set2_disjoint {p p' : Fin 17 × Fin 2} (h : p ≠ p') : Disjoint (set2 p) (set2 p') := by
  by_cases h1 : p.1.val = p'.1.val
  · have h2 : p.2.val ≠ p'.2.val := fun e => h (Prod.ext (Fin.ext h1) (Fin.ext e))
    refine Rect.unit_disjoint 2 ?_
    show p.2.val + 1 ≤ p'.2.val ∨ p'.2.val + 1 ≤ p.2.val
    omega
  · refine Rect.unit_disjoint 0 ?_
    show p.1.val + 1 ≤ p'.1.val ∨ p'.1.val + 1 ≤ p.1.val
    omega

theorem set2_cover : Finset.univ.biUnion set2 = (Finset.univ : Finset S17x128x2x128.Idx) := by
  refine Finset.eq_univ_iff_forall.mpr fun i => Finset.mem_biUnion.mpr ⟨(⟨(i 0).val, (i 0).isLt⟩, ⟨(i 2).val, (i 2).isLt⟩), Finset.mem_univ _, ?_⟩
  have h1 : (i 1).val < 128 := (i 1).isLt
  have h3 : (i 3).val < 128 := (i 3).isLt
  refine Rect.mem_set_unit.mpr fun a => ?_
  match a with
  | ⟨0, _⟩ => show (i 0).val ≤ (i 0).val ∧ (i 0).val < (i 0).val + 1; omega
  | ⟨1, _⟩ => show 0 ≤ (i 1).val ∧ (i 1).val < 0 + 128; omega
  | ⟨2, _⟩ => show (i 2).val ≤ (i 2).val ∧ (i 2).val < (i 2).val + 1; omega
  | ⟨3, _⟩ => show 0 ≤ (i 3).val ∧ (i 3).val < 0 + 128; omega

theorem set7_disjoint {j j' : Fin 17} (h : j ≠ j') : Disjoint (set7 j) (set7 j') := by
  have h1 : j.val ≠ j'.val := fun e => h (Fin.ext e)
  refine Rect.unit_disjoint 0 ?_
  show j.val + 1 ≤ j'.val ∨ j'.val + 1 ≤ j.val
  omega

theorem set7_cover : Finset.univ.biUnion set7 = (Finset.univ : Finset S17x128x128.Idx) := by
  refine Finset.eq_univ_iff_forall.mpr fun i => Finset.mem_biUnion.mpr ⟨⟨(i 0).val, (i 0).isLt⟩, Finset.mem_univ _, ?_⟩
  have h1 : (i 1).val < 128 := (i 1).isLt
  have h2 : (i 2).val < 128 := (i 2).isLt
  refine Rect.mem_set_unit.mpr fun a => ?_
  match a with
  | ⟨0, _⟩ => show (i 0).val ≤ (i 0).val ∧ (i 0).val < (i 0).val + 1; omega
  | ⟨1, _⟩ => show 0 ≤ (i 1).val ∧ (i 1).val < 0 + 128; omega
  | ⟨2, _⟩ => show 0 ≤ (i 2).val ∧ (i 2).val < 0 + 128; omega

theorem set5_disjoint {p p' : Fin 14 × Fin 2} (h : p ≠ p') : Disjoint (set5 p) (set5 p') := by
  by_cases h1 : p.1.val = p'.1.val
  · have h2 : p.2.val ≠ p'.2.val := fun e => h (Prod.ext (Fin.ext h1) (Fin.ext e))
    refine Rect.unit_disjoint 2 ?_
    show p.2.val + 1 ≤ p'.2.val ∨ p'.2.val + 1 ≤ p.2.val
    omega
  · refine Rect.unit_disjoint 0 ?_
    show p.1.val + 1 ≤ p'.1.val ∨ p'.1.val + 1 ≤ p.1.val
    omega

theorem set5_cover : Finset.univ.biUnion set5 = (Finset.univ : Finset S14x128x2x128.Idx) := by
  refine Finset.eq_univ_iff_forall.mpr fun i => Finset.mem_biUnion.mpr ⟨(⟨(i 0).val, (i 0).isLt⟩, ⟨(i 2).val, (i 2).isLt⟩), Finset.mem_univ _, ?_⟩
  have h1 : (i 1).val < 128 := (i 1).isLt
  have h3 : (i 3).val < 128 := (i 3).isLt
  refine Rect.mem_set_unit.mpr fun a => ?_
  match a with
  | ⟨0, _⟩ => show (i 0).val ≤ (i 0).val ∧ (i 0).val < (i 0).val + 1; omega
  | ⟨1, _⟩ => show 0 ≤ (i 1).val ∧ (i 1).val < 0 + 128; omega
  | ⟨2, _⟩ => show (i 2).val ≤ (i 2).val ∧ (i 2).val < (i 2).val + 1; omega
  | ⟨3, _⟩ => show 0 ≤ (i 3).val ∧ (i 3).val < 0 + 128; omega

theorem set9_disjoint {l l' : Fin 14} (h : l ≠ l') : Disjoint (set9 l) (set9 l') := by
  have h1 : l.val ≠ l'.val := fun e => h (Fin.ext e)
  refine Rect.unit_disjoint 0 ?_
  show l.val + 1 ≤ l'.val ∨ l'.val + 1 ≤ l.val
  omega

theorem set9_cover : Finset.univ.biUnion set9 = (Finset.univ : Finset S14x128x128.Idx) := by
  refine Finset.eq_univ_iff_forall.mpr fun i => Finset.mem_biUnion.mpr ⟨⟨(i 0).val, (i 0).isLt⟩, Finset.mem_univ _, ?_⟩
  have h1 : (i 1).val < 128 := (i 1).isLt
  have h2 : (i 2).val < 128 := (i 2).isLt
  refine Rect.mem_set_unit.mpr fun a => ?_
  match a with
  | ⟨0, _⟩ => show (i 0).val ≤ (i 0).val ∧ (i 0).val < (i 0).val + 1; omega
  | ⟨1, _⟩ => show 0 ≤ (i 1).val ∧ (i 1).val < 0 + 128; omega
  | ⟨2, _⟩ => show 0 ≤ (i 2).val ∧ (i 2).val < 0 + 128; omega

theorem set10_disjoint {p p' : Fin 9 × Fin 2 × Fin 8} (h : p ≠ p') : Disjoint (set10 p) (set10 p') := by
  by_cases h0 : p.1.val = p'.1.val
  · by_cases h1 : p.2.1.val = p'.2.1.val
    · have h3 : p.2.2.val ≠ p'.2.2.val := fun e => h (Prod.ext (Fin.ext h0) (Prod.ext (Fin.ext h1) (Fin.ext e)))
      refine Rect.unit_disjoint 3 ?_
      show p.2.2.val + 1 ≤ p'.2.2.val ∨ p'.2.2.val + 1 ≤ p.2.2.val
      omega
    · refine Rect.unit_disjoint 1 ?_
      show p.2.1.val + 1 ≤ p'.2.1.val ∨ p'.2.1.val + 1 ≤ p.2.1.val
      omega
  · refine Rect.unit_disjoint 0 ?_
    show p.1.val + 1 ≤ p'.1.val ∨ p'.1.val + 1 ≤ p.1.val
    omega

theorem set10_cover : Finset.univ.biUnion set10 = (Finset.univ : Finset S9x2x128x8x128.Idx) := by
  refine Finset.eq_univ_iff_forall.mpr fun i => Finset.mem_biUnion.mpr
    ⟨(⟨(i 0).val, (i 0).isLt⟩, ⟨(i 1).val, (i 1).isLt⟩, ⟨(i 3).val, (i 3).isLt⟩), Finset.mem_univ _, ?_⟩
  have h2 : (i 2).val < 128 := (i 2).isLt
  have h4 : (i 4).val < 128 := (i 4).isLt
  refine Rect.mem_set_unit.mpr fun a => ?_
  match a with
  | ⟨0, _⟩ => show (i 0).val ≤ (i 0).val ∧ (i 0).val < (i 0).val + 1; omega
  | ⟨1, _⟩ => show (i 1).val ≤ (i 1).val ∧ (i 1).val < (i 1).val + 1; omega
  | ⟨2, _⟩ => show 0 ≤ (i 2).val ∧ (i 2).val < 0 + 128; omega
  | ⟨3, _⟩ => show (i 3).val ≤ (i 3).val ∧ (i 3).val < (i 3).val + 1; omega
  | ⟨4, _⟩ => show 0 ≤ (i 4).val ∧ (i 4).val < 0 + 128; omega

/-! ## A whole array is its slices -/

theorem whole2 (d : Dev nD) (f : Buf (Elt F) (v2L d)) :
    (v2L d ↦{fullShare} f : sProp 𝕄) = bigSep Finset.univ fun p => v2L d ↦[set2 p]{fullShare} f := by
  rw [← pointsTo_biUnion Finset.univ (ℓ := v2L d) set2 (fun p _ p' _ h => set2_disjoint h), set2_cover]; try rfl
theorem whole7 (d : Dev nD) (f : Buf (Elt F) (v7L d)) :
    (v7L d ↦{fullShare} f : sProp 𝕄) = bigSep Finset.univ fun j => v7L d ↦[set7 j]{fullShare} f := by
  rw [← pointsTo_biUnion Finset.univ (ℓ := v7L d) set7 (fun p _ p' _ h => set7_disjoint h), set7_cover]; try rfl
theorem whole5 (d : Dev nD) (f : Buf (Elt F) (v5L d)) :
    (v5L d ↦{fullShare} f : sProp 𝕄) = bigSep Finset.univ fun p => v5L d ↦[set5 p]{fullShare} f := by
  rw [← pointsTo_biUnion Finset.univ (ℓ := v5L d) set5 (fun p _ p' _ h => set5_disjoint h), set5_cover]; try rfl
theorem whole9 (d : Dev nD) (f : Buf (Elt F) (v9L d)) :
    (v9L d ↦{fullShare} f : sProp 𝕄) = bigSep Finset.univ fun l => v9L d ↦[set9 l]{fullShare} f := by
  rw [← pointsTo_biUnion Finset.univ (ℓ := v9L d) set9 (fun p _ p' _ h => set9_disjoint h), set9_cover]; try rfl
theorem whole10 (d : Dev nD) (f : Buf (Elt F) (v10L d)) :
    (v10L d ↦{fullShare} f : sProp 𝕄) = bigSep Finset.univ fun p => v10L d ↦[set10 p]{fullShare} f := by
  rw [← pointsTo_biUnion Finset.univ (ℓ := v10L d) set10 (fun p _ p' _ h => set10_disjoint h), set10_cover]; try rfl

/-! ## Thirty-two tiles, numbered by core and subcore -/

/-- A conjunction over the thirty-two tiles is the conjunction over the two cores of the conjunctions over their sixteen
    subcores: `tileIx` numbers every tile once. -/
theorem bigSep_tiles (Ψ : Fin 32 → sProp 𝕄) :
    bigSep Finset.univ Ψ = bigSep Finset.univ fun c : Fin 2 => bigSep Finset.univ fun i : Fin 16 => Ψ (tileIx c i) := by
  have himg : (Finset.univ : Finset (Fin 2 × Fin 16)).image (fun p => tileIx p.1 p.2) = Finset.univ :=
    Finset.eq_univ_iff_forall.mpr fun t => Finset.mem_image.mpr
      ⟨(⟨t.val % 2, by omega⟩, ⟨t.val / 2, by have := t.isLt; omega⟩), Finset.mem_univ _,
        Fin.ext (by show 2 * (t.val / 2) + t.val % 2 = t.val; omega)⟩
  have hinj : Set.InjOn (fun p : Fin 2 × Fin 16 => tileIx p.1 p.2) (Finset.univ : Finset (Fin 2 × Fin 16)) := by
    intro p _ p' _ e
    have e' : 2 * p.2.val + p.1.val = 2 * p'.2.val + p'.1.val := congrArg Fin.val e
    have := p.1.isLt
    have := p'.1.isLt
    exact Prod.ext (Fin.ext (by omega)) (Fin.ext (by omega))
  rw [← himg, SparseCore.bigSep_image_of_injOn hinj, bigSep_univ_prod]

/-! ## Five families over the slices, regrouped by tile -/

/-- Five conjunctions, one over all the slices of each array, are the conjunction over the tiles of what the tables give
    each tile, and the conjunctions over the slices the tables give nobody. -/
theorem regroup (Φ2 : Fin 17 × Fin 2 → sProp 𝕄) (Φ7 : Fin 17 → sProp 𝕄) (Φ5 : Fin 14 × Fin 2 → sProp 𝕄) (Φ9 : Fin 14 → sProp 𝕄)
    (Φ10 : Fin 9 × Fin 2 × Fin 8 → sProp 𝕄) :
    (iprop(bigSep Finset.univ Φ2 ∗ bigSep Finset.univ Φ7 ∗ bigSep Finset.univ Φ5 ∗ bigSep Finset.univ Φ9 ∗ bigSep Finset.univ Φ10) : sProp 𝕄)
      = iprop((bigSep Finset.univ fun c : Fin 2 => bigSep Finset.univ fun i : Fin 16 =>
            iprop(bigSep (t2 (tileIx c i)) Φ2 ∗ bigSep (t7 (tileIx c i)) Φ7 ∗ bigSep (t5 (tileIx c i)) Φ5 ∗ bigSep (t9 (tileIx c i)) Φ9
              ∗ bigSep (t10 (tileIx c i)) Φ10))
          ∗ (bigSep (Finset.univ \ Finset.univ.biUnion t2) Φ2 ∗ bigSep (Finset.univ \ Finset.univ.biUnion t7) Φ7
            ∗ bigSep (Finset.univ \ Finset.univ.biUnion t5) Φ5 ∗ bigSep (Finset.univ \ Finset.univ.biUnion t9) Φ9
            ∗ bigSep (Finset.univ \ Finset.univ.biUnion t10) Φ10)) := by
  rw [← bigSep_tiles (fun t => iprop(bigSep (t2 t) Φ2 ∗ bigSep (t7 t) Φ7 ∗ bigSep (t5 t) Φ5 ∗ bigSep (t9 t) Φ9 ∗ bigSep (t10 t) Φ10)),
    bigSep_sep', bigSep_sep', bigSep_sep', bigSep_sep',
    Cert.LibBigSepBiUnion.bigSep_univ_table Finset.univ t2 (fun t _ t' _ h => t2_disjoint t t' h) Φ2,
    Cert.LibBigSepBiUnion.bigSep_univ_table Finset.univ t7 (fun t _ t' _ h => t7_disjoint t t' h) Φ7,
    Cert.LibBigSepBiUnion.bigSep_univ_table Finset.univ t5 (fun t _ t' _ h => t5_disjoint t t' h) Φ5,
    Cert.LibBigSepBiUnion.bigSep_univ_table Finset.univ t9 (fun t _ t' _ h => t9_disjoint t t' h) Φ9,
    Cert.LibBigSepBiUnion.bigSep_univ_table Finset.univ t10 (fun t _ t' _ h => t10_disjoint t t' h) Φ10]
  exact Cert.LibBigSepBiUnion.sep_unzip5 _ _ _ _ _ _ _ _ _ _

/-! ## The slices no tile fills: the output's limb rows 14 and 15 keep what they held -/

theorem unused10 : ∀ p : Fin 9 × Fin 2 × Fin 8, (∀ t : Fin 32, p ∉ t10 t) → 14 ≤ 8 * p.2.1.val + p.2.2.val := by decide

variable (m : (ℓ : Loc nD τ sig) → Buf (Elt F) ℓ)

/-- On a slice no tile fills the array the kernel must leave behind is the array as it stood. -/
theorem B0_eq_B1 (d : Dev nD) (p : Fin 9 × Fin 2 × Fin 8) (hp : p ∈ Finset.univ \ Finset.univ.biUnion t10) : B0 m d p = B1 m d p := by
  have h14 : 14 ≤ 8 * p.2.1.val + p.2.2.val :=
    unused10 p fun t ht => (Finset.mem_sdiff.mp hp).2 (Finset.mem_biUnion.mpr ⟨t, Finset.mem_univ _, ht⟩)
  unfold B0 B1
  refine pointsTo_congr fun (i : S9x2x128x8x128.Idx) hi => ?_
  have hi' := Rect.mem_set_unit.mp hi
  have h1 : p.2.1.val ≤ (i 1).val ∧ (i 1).val < p.2.1.val + 1 := hi' 1
  have h3 : p.2.2.val ≤ (i 3).val ∧ (i 3).val < p.2.2.val + 1 := hi' 3
  show m (v10L d) i = Cert.Layout.outV (m (arg0L d)) (m (arg1L d)) (m (arg2L d)) (m (arg3L d)) (m (v10L d)) i
  unfold Cert.Layout.outV
  split
  · rename_i hlt
    exact absurd hlt (by omega)
  · rfl

/-! ## Splitting the five arrays among the tiles, and joining them back -/

theorem split_all (d : Dev nD) :
    (iprop((v2L d ↦{fullShare} V2c m d) ∗ (v7L d ↦{fullShare} V7c m d) ∗ (v5L d ↦{fullShare} V5c m d) ∗ (v9L d ↦{fullShare} V9c m d)
        ∗ (v10L d ↦{fullShare} m (v10L d))) : sProp 𝕄)
      ⊢ iprop((bigSep Finset.univ fun c : Fin 2 => bigSep Finset.univ fun i : Fin 16 => tileG m d (tileIx c i)) ∗ restG m d) := by
  rw [whole2 d (V2c m d), whole7 d (V7c m d), whole5 d (V5c m d), whole9 d (V9c m d), whole10 d (m (v10L d))]
  exact Entails.of_eq (regroup (A2 m d) (A7 m d) (A5 m d) (A9 m d) (B0 m d))

theorem join_all (d : Dev nD) :
    (iprop((bigSep Finset.univ fun c : Fin 2 => bigSep Finset.univ fun i : Fin 16 => tileT m d (tileIx c i)) ∗ restG m d) : sProp 𝕄)
      ⊢ iprop((v2L d ↦{fullShare} V2c m d) ∗ (v7L d ↦{fullShare} V7c m d) ∗ (v5L d ↦{fullShare} V5c m d) ∗ (v9L d ↦{fullShare} V9c m d)
        ∗ (v10L d ↦{fullShare} OUTc m d)) := by
  rw [whole2 d (V2c m d), whole7 d (V7c m d), whole5 d (V5c m d), whole9 d (V9c m d), whole10 d (OUTc m d)]
  have hrest : restG m d
      = iprop(bigSep (Finset.univ \ Finset.univ.biUnion t2) (A2 m d) ∗ bigSep (Finset.univ \ Finset.univ.biUnion t7) (A7 m d)
          ∗ bigSep (Finset.univ \ Finset.univ.biUnion t5) (A5 m d) ∗ bigSep (Finset.univ \ Finset.univ.biUnion t9) (A9 m d)
          ∗ bigSep (Finset.univ \ Finset.univ.biUnion t10) (B1 m d)) := by
    unfold restG
    rw [bigSep_congr (s := Finset.univ \ Finset.univ.biUnion t10) (Φ := B0 m d) (Ψ := B1 m d) (B0_eq_B1 m d)]
  rw [hrest]
  exact Entails.of_eq (regroup (A2 m d) (A7 m d) (A5 m d) (A9 m d) (B1 m d)).symm

end Cert.Proof.KB

end
-- ==== Proof.KBPay.lean ====
/-
  What the launch of `Kernel`'s kernel hands over: each core its sixteen tiles' slices, each tile its own, back filled;
  and the launch element of the ghost state, which holds nothing of the kernel's own.
-/
import proofs.«210185_g18468359372994_cont_8to1_1390_15_alg».proof.Proof.KBRegroup
import proofs.«210185_g18468359372994_cont_8to1_1390_15_alg».proof.Proof.LayoutLemmas

set_option maxHeartbeats 1600000

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

/-! ## What the handshakes carry -/

/-- The tile a subcore of a core is, by numbers. -/
def tileN (c i : ℕ) : Fin 32 := if h : 2 * i + c < 32 then ⟨2 * i + c, h⟩ else 0

theorem tileN_eq (c : Fin 2) (i : Fin 16) : tileN c.val i.val = tileIx c i := by
  unfold tileN tileIx; rw [dif_pos (by omega)]

/-- The call hands each core its sixteen tiles' slices, each tile its own, and takes them back filled. -/
def P : (K (F := F)).Pay (nD := nD) (Val := Elt F) (Name := ℕ) (U := UU) where
  st := fun _ d c => bigSep (Finset.univ : Finset (Fin 16)) fun i => tileG m d (tileN c.val i.val)
  dn := fun _ d c => bigSep (Finset.univ : Finset (Fin 16)) fun i => tileT m d (tileN c.val i.val)
  go := fun _ d c i => tileG m d (tileN c.val i.val)
  td := fun _ d c i => tileT m d (tileN c.val i.val)
  x := fun _ _ => iprop(emp)

instance tileG_storable (d : Dev nD) (t : Fin 32) : BI.Storable (upEmb : UEmb _ 𝕄) (tileG m d t) := by
  unfold tileG A2 A7 A5 A9 B0; infer_instance
instance tileT_storable (d : Dev nD) (t : Fin 32) : BI.Storable (upEmb : UEmb _ 𝕄) (tileT m d t) := by
  unfold tileT A2 A7 A5 A9 B1; infer_instance

instance P_storable : (P (F := F) m).IsStorable where
  st _ d c := by unfold P; infer_instance
  dn _ d c := by unfold P; infer_instance
  go _ _ _ _ := by unfold P; infer_instance
  td _ _ _ _ := by unfold P; infer_instance

theorem vecSplit : (K (F := F)).VecSplit' (P m) 0 := by
  intro d c
  show (bigSep (Finset.univ : Finset (Fin 16)) fun i => tileG m d (tileN c.val i.val)) ⊢ |={Set.univ}=> iprop(
      (bigSep Finset.univ fun i : Fin ((K (F := F)).nSub 0) => tileG m d (tileN c.val i.val))
      ∗ ((bigSep Finset.univ fun i : Fin ((K (F := F)).nSub 0) => tileT m d (tileN c.val i.val))
          -∗ bigSep (Finset.univ : Finset (Fin 16)) fun i => tileT m d (tileN c.val i.val)))
  iintro H; imodintro
  isplitl [H]; · iexact H
  iintro H; iexact H

/-! ## The launch element: the handshakes' rounds; nothing of the kernel's own -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

end Cert.Proof.KB

end
-- ==== Proof.KBObl.lean ====
/-
  The obligation of `Kernel`'s kernel as one tile's task: whichever of the thirty-two tiles it is, from its slices as
  they stand to its slices filled.
-/
import proofs.«210185_g18468359372994_cont_8to1_1390_15_alg».proof.Proof.KBTile0
import proofs.«210185_g18468359372994_cont_8to1_1390_15_alg».proof.Proof.KBTile1
import proofs.«210185_g18468359372994_cont_8to1_1390_15_alg».proof.Proof.KBTile2
import proofs.«210185_g18468359372994_cont_8to1_1390_15_alg».proof.Proof.KBTile3
import proofs.«210185_g18468359372994_cont_8to1_1390_15_alg».proof.Proof.KBTile4
import proofs.«210185_g18468359372994_cont_8to1_1390_15_alg».proof.Proof.KBTile5
import proofs.«210185_g18468359372994_cont_8to1_1390_15_alg».proof.Proof.KBTile6
import proofs.«210185_g18468359372994_cont_8to1_1390_15_alg».proof.Proof.KBTile7
import proofs.«210185_g18468359372994_cont_8to1_1390_15_alg».proof.Proof.KBTile8
import proofs.«210185_g18468359372994_cont_8to1_1390_15_alg».proof.Proof.KBTile9
import proofs.«210185_g18468359372994_cont_8to1_1390_15_alg».proof.Proof.KBTile10
import proofs.«210185_g18468359372994_cont_8to1_1390_15_alg».proof.Proof.KBTile11
import proofs.«210185_g18468359372994_cont_8to1_1390_15_alg».proof.Proof.KBTile12
import proofs.«210185_g18468359372994_cont_8to1_1390_15_alg».proof.Proof.KBTile13
import proofs.«210185_g18468359372994_cont_8to1_1390_15_alg».proof.Proof.KBTile14
import proofs.«210185_g18468359372994_cont_8to1_1390_15_alg».proof.Proof.KBTile15
import proofs.«210185_g18468359372994_cont_8to1_1390_15_alg».proof.Proof.KBTile16
import proofs.«210185_g18468359372994_cont_8to1_1390_15_alg».proof.Proof.KBTile17
import proofs.«210185_g18468359372994_cont_8to1_1390_15_alg».proof.Proof.KBTile18
import proofs.«210185_g18468359372994_cont_8to1_1390_15_alg».proof.Proof.KBTile19
import proofs.«210185_g18468359372994_cont_8to1_1390_15_alg».proof.Proof.KBTile20
import proofs.«210185_g18468359372994_cont_8to1_1390_15_alg».proof.Proof.KBTile21
import proofs.«210185_g18468359372994_cont_8to1_1390_15_alg».proof.Proof.KBTile22
import proofs.«210185_g18468359372994_cont_8to1_1390_15_alg».proof.Proof.KBTile23
import proofs.«210185_g18468359372994_cont_8to1_1390_15_alg».proof.Proof.KBTile24
import proofs.«210185_g18468359372994_cont_8to1_1390_15_alg».proof.Proof.KBTile25
import proofs.«210185_g18468359372994_cont_8to1_1390_15_alg».proof.Proof.KBTile26
import proofs.«210185_g18468359372994_cont_8to1_1390_15_alg».proof.Proof.KBTile27
import proofs.«210185_g18468359372994_cont_8to1_1390_15_alg».proof.Proof.KBTile28
import proofs.«210185_g18468359372994_cont_8to1_1390_15_alg».proof.Proof.KBTile29
import proofs.«210185_g18468359372994_cont_8to1_1390_15_alg».proof.Proof.KBTile30
import proofs.«210185_g18468359372994_cont_8to1_1390_15_alg».proof.Proof.KBTile31
import proofs.«210185_g18468359372994_cont_8to1_1390_15_alg».proof.Proof.KBPay

set_option maxHeartbeats 4000000

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ)

theorem defs₀_vector [FloatOps F] (c : Fin τ.nSC) (s : Fin τ.nSub) :
    defs₀ (F := F) (.scVector c s) 0 ()
      = SparseCore.onTile hcore0 hsub0 (fun c s => cc0_run (coordsV c s) (Memref.whole main_v2_scv) (Memref.isWhole_whole _) (Memref.whole main_v7_scv) (Memref.isWhole_whole _) (Memref.whole main_v5_scv) (Memref.isWhole_whole _) (Memref.whole main_v9_scv) (Memref.isWhole_whole _) (Memref.whole main_v10_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem drop_x {A B : sProp 𝕄} : iprop(A ∗ emp ∗ B) ⊢ iprop(A ∗ B) := by
  iintro ⟨HA, -, HB⟩
  isplitl [HA]; · iexact HA
  iexact HB

/-- The obligation at one tile of one core. -/
def OblAt [FloatOps F] (d : Dev nD) (c : Fin ((K (F := F)).nCore 0)) (i : Fin ((K (F := F)).nSub 0))
    (O : CellTallies nD τ sig (HIx 1)) (W : Waits sig (HIx 1)) : Prop :=
  iprop(levAts (K (F := F)).L (K (F := F)).lev ∗ (P m).x 0 (V d ((K (F := F)).core 0 c) ((K (F := F)).sub 0 i)) ∗ (P m).go 0 d c i
        ∗ scopedBufs (V d ((K (F := F)).core 0 c) ((K (F := F)).sub 0 i)) ∗ scopedSems0 (V d ((K (F := F)).core 0 c) ((K (F := F)).sub 0 i))
        ∗ owes (V d ((K (F := F)).core 0 c) ((K (F := F)).sub 0 i)) (O + (P m).ox 0 (V d ((K (F := F)).core 0 c) ((K (F := F)).sub 0 i))) W)
      ⊢ wp frame (wpE (D (F := F)) 𝒱 (V d ((K (F := F)).core 0 c) ((K (F := F)).sub 0 i)) (some v₀)) Set.univ
          (D (F := F) (.scVector ((K (F := F)).core 0 c) ((K (F := F)).sub 0 i)) ((K (F := F)).body 0) ((K (F := F)).args 0)) fun _ =>
          iprop((P m).td 0 d c i ∗ scopedBufs (V d ((K (F := F)).core 0 c) ((K (F := F)).sub 0 i)) ∗ scopedSems0 (V d ((K (F := F)).core 0 c) ((K (F := F)).sub 0 i))
            ∗ ∃ W', ⌜∀ p ∈ W', p ∈ W ∨ p.2 = none ∨ p.2 = some (0 : Fin 1)⌝ ∗ owes (V d ((K (F := F)).core 0 c) ((K (F := F)).sub 0 i)) O W')

/-- From the tile's own run, stated at its own coordinates, to the obligation. -/
theorem obl_of [FloatOps F] (d : Dev nD) (c : Fin ((K (F := F)).nCore 0)) (i : Fin ((K (F := F)).nSub 0))
    (O : CellTallies nD τ sig (HIx 1)) (W : Waits sig (HIx 1))
    (hrun : (iprop(levAts (K (F := F)).L (K (F := F)).lev ∗ tileG m d (tileN c.val i.val)
        ∗ scopedBufs (V d (cV (coordsV ⟨c.val, c.isLt⟩ ⟨i.val, i.isLt⟩)) (jV (coordsV ⟨c.val, c.isLt⟩ ⟨i.val, i.isLt⟩)))
        ∗ scopedSems0 (V d (cV (coordsV ⟨c.val, c.isLt⟩ ⟨i.val, i.isLt⟩)) (jV (coordsV ⟨c.val, c.isLt⟩ ⟨i.val, i.isLt⟩)))
        ∗ owes (V d (cV (coordsV ⟨c.val, c.isLt⟩ ⟨i.val, i.isLt⟩)) (jV (coordsV ⟨c.val, c.isLt⟩ ⟨i.val, i.isLt⟩))) O W) : sProp 𝕄)
      ⊢ wp frame (wpE (defs₀ (F := F)) 𝒱₀ (V d (cV (coordsV ⟨c.val, c.isLt⟩ ⟨i.val, i.isLt⟩)) (jV (coordsV ⟨c.val, c.isLt⟩ ⟨i.val, i.isLt⟩))) none) Set.univ
          (cc0_run (coordsV ⟨c.val, c.isLt⟩ ⟨i.val, i.isLt⟩) (Memref.whole main_v2_scv) (Memref.isWhole_whole _) (Memref.whole main_v7_scv) (Memref.isWhole_whole _) (Memref.whole main_v5_scv) (Memref.isWhole_whole _) (Memref.whole main_v9_scv) (Memref.isWhole_whole _) (Memref.whole main_v10_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8)
          fun _ => iprop(tileT m d (tileN c.val i.val)
            ∗ scopedBufs (V d (cV (coordsV ⟨c.val, c.isLt⟩ ⟨i.val, i.isLt⟩)) (jV (coordsV ⟨c.val, c.isLt⟩ ⟨i.val, i.isLt⟩)))
            ∗ scopedSems0 (V d (cV (coordsV ⟨c.val, c.isLt⟩ ⟨i.val, i.isLt⟩)) (jV (coordsV ⟨c.val, c.isLt⟩ ⟨i.val, i.isLt⟩)))
            ∗ ∃ W', ⌜∀ p ∈ W', p ∈ W ∨ p.2 = none⌝ ∗ owes (V d (cV (coordsV ⟨c.val, c.isLt⟩ ⟨i.val, i.isLt⟩)) (jV (coordsV ⟨c.val, c.isLt⟩ ⟨i.val, i.isLt⟩))) O W')) :
    OblAt m d c i O W := by
  unfold OblAt
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (drop_x.trans hrun).trans (wp_mono frame _ _ fun _ => obl_post)

theorem arm_0_0 [FloatOps F] [∀ e, Nonempty (Elt F e)] (d : Dev nD) (O : CellTallies nD τ sig (HIx 1)) (W : Waits sig (HIx 1)) (hO : ∀ g, O g none = 0)
    (h0 : 0 < (K (F := F)).nCore 0) (h1 : 0 < (K (F := F)).nSub 0) : OblAt m d ⟨0, h0⟩ ⟨0, h1⟩ O W :=
  obl_of m d ⟨0, h0⟩ ⟨0, h1⟩ O W (Tile0.run m d O W hO)
theorem arm_0_1 [FloatOps F] [∀ e, Nonempty (Elt F e)] (d : Dev nD) (O : CellTallies nD τ sig (HIx 1)) (W : Waits sig (HIx 1)) (hO : ∀ g, O g none = 0)
    (h0 : 0 < (K (F := F)).nCore 0) (h1 : 1 < (K (F := F)).nSub 0) : OblAt m d ⟨0, h0⟩ ⟨1, h1⟩ O W :=
  obl_of m d ⟨0, h0⟩ ⟨1, h1⟩ O W (Tile2.run m d O W hO)
theorem arm_0_2 [FloatOps F] [∀ e, Nonempty (Elt F e)] (d : Dev nD) (O : CellTallies nD τ sig (HIx 1)) (W : Waits sig (HIx 1)) (hO : ∀ g, O g none = 0)
    (h0 : 0 < (K (F := F)).nCore 0) (h1 : 2 < (K (F := F)).nSub 0) : OblAt m d ⟨0, h0⟩ ⟨2, h1⟩ O W :=
  obl_of m d ⟨0, h0⟩ ⟨2, h1⟩ O W (Tile4.run m d O W hO)
theorem arm_0_3 [FloatOps F] [∀ e, Nonempty (Elt F e)] (d : Dev nD) (O : CellTallies nD τ sig (HIx 1)) (W : Waits sig (HIx 1)) (hO : ∀ g, O g none = 0)
    (h0 : 0 < (K (F := F)).nCore 0) (h1 : 3 < (K (F := F)).nSub 0) : OblAt m d ⟨0, h0⟩ ⟨3, h1⟩ O W :=
  obl_of m d ⟨0, h0⟩ ⟨3, h1⟩ O W (Tile6.run m d O W hO)
theorem arm_0_4 [FloatOps F] [∀ e, Nonempty (Elt F e)] (d : Dev nD) (O : CellTallies nD τ sig (HIx 1)) (W : Waits sig (HIx 1)) (hO : ∀ g, O g none = 0)
    (h0 : 0 < (K (F := F)).nCore 0) (h1 : 4 < (K (F := F)).nSub 0) : OblAt m d ⟨0, h0⟩ ⟨4, h1⟩ O W :=
  obl_of m d ⟨0, h0⟩ ⟨4, h1⟩ O W (Tile8.run m d O W hO)
theorem arm_0_5 [FloatOps F] [∀ e, Nonempty (Elt F e)] (d : Dev nD) (O : CellTallies nD τ sig (HIx 1)) (W : Waits sig (HIx 1)) (hO : ∀ g, O g none = 0)
    (h0 : 0 < (K (F := F)).nCore 0) (h1 : 5 < (K (F := F)).nSub 0) : OblAt m d ⟨0, h0⟩ ⟨5, h1⟩ O W :=
  obl_of m d ⟨0, h0⟩ ⟨5, h1⟩ O W (Tile10.run m d O W hO)
theorem arm_0_6 [FloatOps F] [∀ e, Nonempty (Elt F e)] (d : Dev nD) (O : CellTallies nD τ sig (HIx 1)) (W : Waits sig (HIx 1)) (hO : ∀ g, O g none = 0)
    (h0 : 0 < (K (F := F)).nCore 0) (h1 : 6 < (K (F := F)).nSub 0) : OblAt m d ⟨0, h0⟩ ⟨6, h1⟩ O W :=
  obl_of m d ⟨0, h0⟩ ⟨6, h1⟩ O W (Tile12.run m d O W hO)
theorem arm_0_7 [FloatOps F] [∀ e, Nonempty (Elt F e)] (d : Dev nD) (O : CellTallies nD τ sig (HIx 1)) (W : Waits sig (HIx 1)) (hO : ∀ g, O g none = 0)
    (h0 : 0 < (K (F := F)).nCore 0) (h1 : 7 < (K (F := F)).nSub 0) : OblAt m d ⟨0, h0⟩ ⟨7, h1⟩ O W :=
  obl_of m d ⟨0, h0⟩ ⟨7, h1⟩ O W (Tile14.run m d O W hO)
theorem arm_0_8 [FloatOps F] [∀ e, Nonempty (Elt F e)] (d : Dev nD) (O : CellTallies nD τ sig (HIx 1)) (W : Waits sig (HIx 1)) (hO : ∀ g, O g none = 0)
    (h0 : 0 < (K (F := F)).nCore 0) (h1 : 8 < (K (F := F)).nSub 0) : OblAt m d ⟨0, h0⟩ ⟨8, h1⟩ O W :=
  obl_of m d ⟨0, h0⟩ ⟨8, h1⟩ O W (Tile16.run m d O W hO)
theorem arm_0_9 [FloatOps F] [∀ e, Nonempty (Elt F e)] (d : Dev nD) (O : CellTallies nD τ sig (HIx 1)) (W : Waits sig (HIx 1)) (hO : ∀ g, O g none = 0)
    (h0 : 0 < (K (F := F)).nCore 0) (h1 : 9 < (K (F := F)).nSub 0) : OblAt m d ⟨0, h0⟩ ⟨9, h1⟩ O W :=
  obl_of m d ⟨0, h0⟩ ⟨9, h1⟩ O W (Tile18.run m d O W hO)
theorem arm_0_10 [FloatOps F] [∀ e, Nonempty (Elt F e)] (d : Dev nD) (O : CellTallies nD τ sig (HIx 1)) (W : Waits sig (HIx 1)) (hO : ∀ g, O g none = 0)
    (h0 : 0 < (K (F := F)).nCore 0) (h1 : 10 < (K (F := F)).nSub 0) : OblAt m d ⟨0, h0⟩ ⟨10, h1⟩ O W :=
  obl_of m d ⟨0, h0⟩ ⟨10, h1⟩ O W (Tile20.run m d O W hO)
theorem arm_0_11 [FloatOps F] [∀ e, Nonempty (Elt F e)] (d : Dev nD) (O : CellTallies nD τ sig (HIx 1)) (W : Waits sig (HIx 1)) (hO : ∀ g, O g none = 0)
    (h0 : 0 < (K (F := F)).nCore 0) (h1 : 11 < (K (F := F)).nSub 0) : OblAt m d ⟨0, h0⟩ ⟨11, h1⟩ O W :=
  obl_of m d ⟨0, h0⟩ ⟨11, h1⟩ O W (Tile22.run m d O W hO)
theorem arm_0_12 [FloatOps F] [∀ e, Nonempty (Elt F e)] (d : Dev nD) (O : CellTallies nD τ sig (HIx 1)) (W : Waits sig (HIx 1)) (hO : ∀ g, O g none = 0)
    (h0 : 0 < (K (F := F)).nCore 0) (h1 : 12 < (K (F := F)).nSub 0) : OblAt m d ⟨0, h0⟩ ⟨12, h1⟩ O W :=
  obl_of m d ⟨0, h0⟩ ⟨12, h1⟩ O W (Tile24.run m d O W hO)
theorem arm_0_13 [FloatOps F] [∀ e, Nonempty (Elt F e)] (d : Dev nD) (O : CellTallies nD τ sig (HIx 1)) (W : Waits sig (HIx 1)) (hO : ∀ g, O g none = 0)
    (h0 : 0 < (K (F := F)).nCore 0) (h1 : 13 < (K (F := F)).nSub 0) : OblAt m d ⟨0, h0⟩ ⟨13, h1⟩ O W :=
  obl_of m d ⟨0, h0⟩ ⟨13, h1⟩ O W (Tile26.run m d O W hO)
theorem arm_0_14 [FloatOps F] [∀ e, Nonempty (Elt F e)] (d : Dev nD) (O : CellTallies nD τ sig (HIx 1)) (W : Waits sig (HIx 1)) (hO : ∀ g, O g none = 0)
    (h0 : 0 < (K (F := F)).nCore 0) (h1 : 14 < (K (F := F)).nSub 0) : OblAt m d ⟨0, h0⟩ ⟨14, h1⟩ O W :=
  obl_of m d ⟨0, h0⟩ ⟨14, h1⟩ O W (Tile28.run m d O W hO)
theorem arm_0_15 [FloatOps F] [∀ e, Nonempty (Elt F e)] (d : Dev nD) (O : CellTallies nD τ sig (HIx 1)) (W : Waits sig (HIx 1)) (hO : ∀ g, O g none = 0)
    (h0 : 0 < (K (F := F)).nCore 0) (h1 : 15 < (K (F := F)).nSub 0) : OblAt m d ⟨0, h0⟩ ⟨15, h1⟩ O W :=
  obl_of m d ⟨0, h0⟩ ⟨15, h1⟩ O W (Tile30.run m d O W hO)
theorem arm_1_0 [FloatOps F] [∀ e, Nonempty (Elt F e)] (d : Dev nD) (O : CellTallies nD τ sig (HIx 1)) (W : Waits sig (HIx 1)) (hO : ∀ g, O g none = 0)
    (h0 : 1 < (K (F := F)).nCore 0) (h1 : 0 < (K (F := F)).nSub 0) : OblAt m d ⟨1, h0⟩ ⟨0, h1⟩ O W :=
  obl_of m d ⟨1, h0⟩ ⟨0, h1⟩ O W (Tile1.run m d O W hO)
theorem arm_1_1 [FloatOps F] [∀ e, Nonempty (Elt F e)] (d : Dev nD) (O : CellTallies nD τ sig (HIx 1)) (W : Waits sig (HIx 1)) (hO : ∀ g, O g none = 0)
    (h0 : 1 < (K (F := F)).nCore 0) (h1 : 1 < (K (F := F)).nSub 0) : OblAt m d ⟨1, h0⟩ ⟨1, h1⟩ O W :=
  obl_of m d ⟨1, h0⟩ ⟨1, h1⟩ O W (Tile3.run m d O W hO)
theorem arm_1_2 [FloatOps F] [∀ e, Nonempty (Elt F e)] (d : Dev nD) (O : CellTallies nD τ sig (HIx 1)) (W : Waits sig (HIx 1)) (hO : ∀ g, O g none = 0)
    (h0 : 1 < (K (F := F)).nCore 0) (h1 : 2 < (K (F := F)).nSub 0) : OblAt m d ⟨1, h0⟩ ⟨2, h1⟩ O W :=
  obl_of m d ⟨1, h0⟩ ⟨2, h1⟩ O W (Tile5.run m d O W hO)
theorem arm_1_3 [FloatOps F] [∀ e, Nonempty (Elt F e)] (d : Dev nD) (O : CellTallies nD τ sig (HIx 1)) (W : Waits sig (HIx 1)) (hO : ∀ g, O g none = 0)
    (h0 : 1 < (K (F := F)).nCore 0) (h1 : 3 < (K (F := F)).nSub 0) : OblAt m d ⟨1, h0⟩ ⟨3, h1⟩ O W :=
  obl_of m d ⟨1, h0⟩ ⟨3, h1⟩ O W (Tile7.run m d O W hO)
theorem arm_1_4 [FloatOps F] [∀ e, Nonempty (Elt F e)] (d : Dev nD) (O : CellTallies nD τ sig (HIx 1)) (W : Waits sig (HIx 1)) (hO : ∀ g, O g none = 0)
    (h0 : 1 < (K (F := F)).nCore 0) (h1 : 4 < (K (F := F)).nSub 0) : OblAt m d ⟨1, h0⟩ ⟨4, h1⟩ O W :=
  obl_of m d ⟨1, h0⟩ ⟨4, h1⟩ O W (Tile9.run m d O W hO)
theorem arm_1_5 [FloatOps F] [∀ e, Nonempty (Elt F e)] (d : Dev nD) (O : CellTallies nD τ sig (HIx 1)) (W : Waits sig (HIx 1)) (hO : ∀ g, O g none = 0)
    (h0 : 1 < (K (F := F)).nCore 0) (h1 : 5 < (K (F := F)).nSub 0) : OblAt m d ⟨1, h0⟩ ⟨5, h1⟩ O W :=
  obl_of m d ⟨1, h0⟩ ⟨5, h1⟩ O W (Tile11.run m d O W hO)
theorem arm_1_6 [FloatOps F] [∀ e, Nonempty (Elt F e)] (d : Dev nD) (O : CellTallies nD τ sig (HIx 1)) (W : Waits sig (HIx 1)) (hO : ∀ g, O g none = 0)
    (h0 : 1 < (K (F := F)).nCore 0) (h1 : 6 < (K (F := F)).nSub 0) : OblAt m d ⟨1, h0⟩ ⟨6, h1⟩ O W :=
  obl_of m d ⟨1, h0⟩ ⟨6, h1⟩ O W (Tile13.run m d O W hO)
theorem arm_1_7 [FloatOps F] [∀ e, Nonempty (Elt F e)] (d : Dev nD) (O : CellTallies nD τ sig (HIx 1)) (W : Waits sig (HIx 1)) (hO : ∀ g, O g none = 0)
    (h0 : 1 < (K (F := F)).nCore 0) (h1 : 7 < (K (F := F)).nSub 0) : OblAt m d ⟨1, h0⟩ ⟨7, h1⟩ O W :=
  obl_of m d ⟨1, h0⟩ ⟨7, h1⟩ O W (Tile15.run m d O W hO)
theorem arm_1_8 [FloatOps F] [∀ e, Nonempty (Elt F e)] (d : Dev nD) (O : CellTallies nD τ sig (HIx 1)) (W : Waits sig (HIx 1)) (hO : ∀ g, O g none = 0)
    (h0 : 1 < (K (F := F)).nCore 0) (h1 : 8 < (K (F := F)).nSub 0) : OblAt m d ⟨1, h0⟩ ⟨8, h1⟩ O W :=
  obl_of m d ⟨1, h0⟩ ⟨8, h1⟩ O W (Tile17.run m d O W hO)
theorem arm_1_9 [FloatOps F] [∀ e, Nonempty (Elt F e)] (d : Dev nD) (O : CellTallies nD τ sig (HIx 1)) (W : Waits sig (HIx 1)) (hO : ∀ g, O g none = 0)
    (h0 : 1 < (K (F := F)).nCore 0) (h1 : 9 < (K (F := F)).nSub 0) : OblAt m d ⟨1, h0⟩ ⟨9, h1⟩ O W :=
  obl_of m d ⟨1, h0⟩ ⟨9, h1⟩ O W (Tile19.run m d O W hO)
theorem arm_1_10 [FloatOps F] [∀ e, Nonempty (Elt F e)] (d : Dev nD) (O : CellTallies nD τ sig (HIx 1)) (W : Waits sig (HIx 1)) (hO : ∀ g, O g none = 0)
    (h0 : 1 < (K (F := F)).nCore 0) (h1 : 10 < (K (F := F)).nSub 0) : OblAt m d ⟨1, h0⟩ ⟨10, h1⟩ O W :=
  obl_of m d ⟨1, h0⟩ ⟨10, h1⟩ O W (Tile21.run m d O W hO)
theorem arm_1_11 [FloatOps F] [∀ e, Nonempty (Elt F e)] (d : Dev nD) (O : CellTallies nD τ sig (HIx 1)) (W : Waits sig (HIx 1)) (hO : ∀ g, O g none = 0)
    (h0 : 1 < (K (F := F)).nCore 0) (h1 : 11 < (K (F := F)).nSub 0) : OblAt m d ⟨1, h0⟩ ⟨11, h1⟩ O W :=
  obl_of m d ⟨1, h0⟩ ⟨11, h1⟩ O W (Tile23.run m d O W hO)
theorem arm_1_12 [FloatOps F] [∀ e, Nonempty (Elt F e)] (d : Dev nD) (O : CellTallies nD τ sig (HIx 1)) (W : Waits sig (HIx 1)) (hO : ∀ g, O g none = 0)
    (h0 : 1 < (K (F := F)).nCore 0) (h1 : 12 < (K (F := F)).nSub 0) : OblAt m d ⟨1, h0⟩ ⟨12, h1⟩ O W :=
  obl_of m d ⟨1, h0⟩ ⟨12, h1⟩ O W (Tile25.run m d O W hO)
theorem arm_1_13 [FloatOps F] [∀ e, Nonempty (Elt F e)] (d : Dev nD) (O : CellTallies nD τ sig (HIx 1)) (W : Waits sig (HIx 1)) (hO : ∀ g, O g none = 0)
    (h0 : 1 < (K (F := F)).nCore 0) (h1 : 13 < (K (F := F)).nSub 0) : OblAt m d ⟨1, h0⟩ ⟨13, h1⟩ O W :=
  obl_of m d ⟨1, h0⟩ ⟨13, h1⟩ O W (Tile27.run m d O W hO)
theorem arm_1_14 [FloatOps F] [∀ e, Nonempty (Elt F e)] (d : Dev nD) (O : CellTallies nD τ sig (HIx 1)) (W : Waits sig (HIx 1)) (hO : ∀ g, O g none = 0)
    (h0 : 1 < (K (F := F)).nCore 0) (h1 : 14 < (K (F := F)).nSub 0) : OblAt m d ⟨1, h0⟩ ⟨14, h1⟩ O W :=
  obl_of m d ⟨1, h0⟩ ⟨14, h1⟩ O W (Tile29.run m d O W hO)
theorem arm_1_15 [FloatOps F] [∀ e, Nonempty (Elt F e)] (d : Dev nD) (O : CellTallies nD τ sig (HIx 1)) (W : Waits sig (HIx 1)) (hO : ∀ g, O g none = 0)
    (h0 : 1 < (K (F := F)).nCore 0) (h1 : 15 < (K (F := F)).nSub 0) : OblAt m d ⟨1, h0⟩ ⟨15, h1⟩ O W :=
  obl_of m d ⟨1, h0⟩ ⟨15, h1⟩ O W (Tile31.run m d O W hO)

theorem tileObl [FloatOps F] [∀ e, Nonempty (Elt F e)] : (K (F := F)).TileObl (D (F := F)) 𝒱 (P m) v₀ 0 := by
  intro d c i O W hO _ _
  exact (match c, i with
  | ⟨0, h0⟩, ⟨0, h1⟩ => arm_0_0 m d O W hO h0 h1
  | ⟨0, h0⟩, ⟨1, h1⟩ => arm_0_1 m d O W hO h0 h1
  | ⟨0, h0⟩, ⟨2, h1⟩ => arm_0_2 m d O W hO h0 h1
  | ⟨0, h0⟩, ⟨3, h1⟩ => arm_0_3 m d O W hO h0 h1
  | ⟨0, h0⟩, ⟨4, h1⟩ => arm_0_4 m d O W hO h0 h1
  | ⟨0, h0⟩, ⟨5, h1⟩ => arm_0_5 m d O W hO h0 h1
  | ⟨0, h0⟩, ⟨6, h1⟩ => arm_0_6 m d O W hO h0 h1
  | ⟨0, h0⟩, ⟨7, h1⟩ => arm_0_7 m d O W hO h0 h1
  | ⟨0, h0⟩, ⟨8, h1⟩ => arm_0_8 m d O W hO h0 h1
  | ⟨0, h0⟩, ⟨9, h1⟩ => arm_0_9 m d O W hO h0 h1
  | ⟨0, h0⟩, ⟨10, h1⟩ => arm_0_10 m d O W hO h0 h1
  | ⟨0, h0⟩, ⟨11, h1⟩ => arm_0_11 m d O W hO h0 h1
  | ⟨0, h0⟩, ⟨12, h1⟩ => arm_0_12 m d O W hO h0 h1
  | ⟨0, h0⟩, ⟨13, h1⟩ => arm_0_13 m d O W hO h0 h1
  | ⟨0, h0⟩, ⟨14, h1⟩ => arm_0_14 m d O W hO h0 h1
  | ⟨0, h0⟩, ⟨15, h1⟩ => arm_0_15 m d O W hO h0 h1
  | ⟨1, h0⟩, ⟨0, h1⟩ => arm_1_0 m d O W hO h0 h1
  | ⟨1, h0⟩, ⟨1, h1⟩ => arm_1_1 m d O W hO h0 h1
  | ⟨1, h0⟩, ⟨2, h1⟩ => arm_1_2 m d O W hO h0 h1
  | ⟨1, h0⟩, ⟨3, h1⟩ => arm_1_3 m d O W hO h0 h1
  | ⟨1, h0⟩, ⟨4, h1⟩ => arm_1_4 m d O W hO h0 h1
  | ⟨1, h0⟩, ⟨5, h1⟩ => arm_1_5 m d O W hO h0 h1
  | ⟨1, h0⟩, ⟨6, h1⟩ => arm_1_6 m d O W hO h0 h1
  | ⟨1, h0⟩, ⟨7, h1⟩ => arm_1_7 m d O W hO h0 h1
  | ⟨1, h0⟩, ⟨8, h1⟩ => arm_1_8 m d O W hO h0 h1
  | ⟨1, h0⟩, ⟨9, h1⟩ => arm_1_9 m d O W hO h0 h1
  | ⟨1, h0⟩, ⟨10, h1⟩ => arm_1_10 m d O W hO h0 h1
  | ⟨1, h0⟩, ⟨11, h1⟩ => arm_1_11 m d O W hO h0 h1
  | ⟨1, h0⟩, ⟨12, h1⟩ => arm_1_12 m d O W hO h0 h1
  | ⟨1, h0⟩, ⟨13, h1⟩ => arm_1_13 m d O W hO h0 h1
  | ⟨1, h0⟩, ⟨14, h1⟩ => arm_1_14 m d O W hO h0 h1
  | ⟨1, h0⟩, ⟨15, h1⟩ => arm_1_15 m d O W hO h0 h1
  | ⟨0, _⟩, ⟨n + 16, h⟩ => absurd h (by show ¬ (n + 16 < 16); omega)
  | ⟨1, _⟩, ⟨n + 16, h⟩ => absurd h (by show ¬ (n + 16 < 16); omega) : OblAt m d c i O W)

end Cert.Proof.KB

end
-- ==== Proof.KBMain.lean ====
/-
  @main of `Kernel` on the TensorCore: the re-layouts of the four arguments, the call that hands the thirty-two tiles
  their slices and takes them back filled, and the re-layout of the kernel's array into the result; and how the final
  memory reads: the arguments unchanged, the result the specification's function of them.
-/
import proofs.«210185_g18468359372994_cont_8to1_1390_15_alg».proof.Proof.KBPay
import Idealize.ShloMosaic.Lib.Pipeline.Frame

set_option maxHeartbeats 1600000

noncomputable section

namespace Cert.Proof.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split held_congr after wp_seq)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

/-! ## The two stretches of host operations -/

/-- The re-layouts of the arguments, before the call. -/
abbrev ops0 [FloatOps F] : List (HloOp τ sig (Elt F)) :=
  [StableHlo.unary main_arg0 main_v0 ((transpose S17x16384x2 [1, 0, 2] · transposes_S16384x17x2_S17x16384x2_1_0_2) : (⟨S16384x17x2, .f32⟩ : BufTy).Contents (Elt F) → (⟨S17x16384x2, .f32⟩ : BufTy).Contents (Elt F)),
   StableHlo.reshape main_v0 main_v1 rfl shapeCasts_S17x16384x2_S17x128x128x2,
   StableHlo.unary main_v1 main_v2 ((transpose S17x128x2x128 [0, 1, 3, 2] · transposes_S17x128x128x2_S17x128x2x128_0_1_3_2) : (⟨S17x128x128x2, .f32⟩ : BufTy).Contents (Elt F) → (⟨S17x128x2x128, .f32⟩ : BufTy).Contents (Elt F)),
   StableHlo.unary main_arg2 main_v3 ((transpose S14x16384x2 [1, 0, 2] · transposes_S16384x14x2_S14x16384x2_1_0_2) : (⟨S16384x14x2, .f32⟩ : BufTy).Contents (Elt F) → (⟨S14x16384x2, .f32⟩ : BufTy).Contents (Elt F)),
   StableHlo.reshape main_v3 main_v4 rfl shapeCasts_S14x16384x2_S14x128x128x2,
   StableHlo.unary main_v4 main_v5 ((transpose S14x128x2x128 [0, 1, 3, 2] · transposes_S14x128x128x2_S14x128x2x128_0_1_3_2) : (⟨S14x128x128x2, .f32⟩ : BufTy).Contents (Elt F) → (⟨S14x128x2x128, .f32⟩ : BufTy).Contents (Elt F)),
   StableHlo.unary main_arg1 main_v6 ((transpose S17x16384 [1, 0] · transposes_S16384x17_S17x16384_1_0) : (⟨S16384x17, .f32⟩ : BufTy).Contents (Elt F) → (⟨S17x16384, .f32⟩ : BufTy).Contents (Elt F)),
   StableHlo.reshape main_v6 main_v7 rfl shapeCasts_S17x16384_S17x128x128,
   StableHlo.unary main_arg3 main_v8 ((transpose S14x16384 [1, 0] · transposes_S16384x14_S14x16384_1_0) : (⟨S16384x14, .f32⟩ : BufTy).Contents (Elt F) → (⟨S14x16384, .f32⟩ : BufTy).Contents (Elt F)),
   StableHlo.reshape main_v8 main_v9 rfl shapeCasts_S14x16384_S14x128x128]
/-- The re-layout of the kernel's array into the result, after it. -/
abbrev ops1 [FloatOps F] : List (HloOp τ sig (Elt F)) :=
  [StableHlo.unary main_v10 main_v11 ((transpose S128x128x2x8x9 [2, 4, 1, 3, 0] · transposes_S9x2x128x8x128_S128x128x2x8x9_2_4_1_3_0) : (⟨S9x2x128x8x128, .f32⟩ : BufTy).Contents (Elt F) → (⟨S128x128x2x8x9, .f32⟩ : BufTy).Contents (Elt F)),
   StableHlo.reshape main_v11 main_v12 rfl shapeCasts_S128x128x2x8x9_S16384x16x9,
   StableHlo.unary main_v12 main_v13 ((extractStridedSlice S16384x14x9 ![0, 0, 0] · slices_S16384x16x9_S16384x14x9_0_0_0) : (⟨S16384x16x9, .f32⟩ : BufTy).Contents (Elt F) → (⟨S16384x14x9, .f32⟩ : BufTy).Contents (Elt F))]

theorem main_eq [FloatOps F] (d : Dev nD) :
    main (F := F) d = (StableHlo.seq (ops0 (F := F)) >>= fun _ => (K (F := F)).run d 0 >>= fun _ => (StableHlo.seq (ops1 (F := F)) >>= fun _ => pure ⟨⟩)) := rfl

theorem ops0_sub [FloatOps F] : (ops0 (F := F)).Forall fun op => op.bufs ⊆ StableHlo.tcRefs τ sig :=
  ⟨StableHlo.unary_bufs_sub .., StableHlo.reshape_bufs_sub .., StableHlo.unary_bufs_sub .., StableHlo.unary_bufs_sub .., StableHlo.reshape_bufs_sub .., StableHlo.unary_bufs_sub .., StableHlo.unary_bufs_sub .., StableHlo.reshape_bufs_sub .., StableHlo.unary_bufs_sub .., StableHlo.reshape_bufs_sub ..⟩
theorem ops1_sub [FloatOps F] : (ops1 (F := F)).Forall fun op => op.bufs ⊆ StableHlo.tcRefs τ sig :=
  ⟨StableHlo.unary_bufs_sub .., StableHlo.reshape_bufs_sub .., StableHlo.unary_bufs_sub ..⟩
theorem ops0_fresh [FloatOps F] : ∀ op ∈ (ops0 (F := F)), op.fresh = ∅ := by
  intro _ h; (repeat (cases h with | head => rfl | tail _ h => ?_)); exact nomatch h
theorem ops1_fresh [FloatOps F] : ∀ op ∈ (ops1 (F := F)), op.fresh = ∅ := by
  intro _ h; (repeat (cases h with | head => rfl | tail _ h => ?_)); exact nomatch h

/-! ## The TensorCore's arrays along @main -/

abbrev R (b : Ref sig .tc) : DevRef τ sig := Proc.devRef .tc b
/-- Every array of @main. -/
abbrev SU : Finset (DevRef τ sig) := Pipeline.ucRefs τ sig
/-- The five arrays the call takes. -/
abbrev S5 : Finset (DevRef τ sig) := {R main_v2, R main_v7, R main_v5, R main_v9, R main_v10}
/-- The arguments and the result. -/
abbrev S6 : Finset (DevRef τ sig) := {R main_arg0, R main_arg1, R main_arg2, R main_arg3, R main_v13}

theorem mem_SU (b : Ref sig .tc) (h : ¬ (R b).isScoped = true) : R b ∈ SU :=
  Finset.mem_filter.mpr ⟨StableHlo.devRef_mem_tcRefs b, h⟩
theorem S5_sub : S5 ⊆ SU := by
  intro b hb
  simp only [S5, Finset.mem_insert, Finset.mem_singleton] at hb
  rcases hb with rfl | rfl | rfl | rfl | rfl <;> exact mem_SU _ (by decide)
theorem S6_sub : S6 ⊆ SU := by
  intro b hb
  simp only [S6, Finset.mem_insert, Finset.mem_singleton] at hb
  rcases hb with rfl | rfl | rfl | rfl | rfl <;> exact mem_SU _ (by decide)

/-- The launch contents; after the first stretch; after the call; after the second stretch. -/
def W0 (d : Dev nD) : Valuation τ sig (Elt F) := fun b => m (d, b)
abbrev W1 [FloatOps F] (d : Dev nD) : Valuation τ sig (Elt F) := after (ops0 (F := F)) (W0 m d)
def W2 [FloatOps F] (d : Dev nD) : Valuation τ sig (Elt F) := Function.update (W1 m d) (R main_v10) (OUTc m d)
abbrev W3 [FloatOps F] (d : Dev nD) : Valuation τ sig (Elt F) := after (ops1 (F := F)) (W2 m d)

theorem W1_v2 [FloatOps F] (d : Dev nD) : after (ops0 (F := F)) (W0 m d) (R main_v2) = V2c m d := by
  unfold V2c Cert.Layout.poseV; dsimp only [ops0]; after_results; rfl
theorem W1_v7 [FloatOps F] (d : Dev nD) : after (ops0 (F := F)) (W0 m d) (R main_v7) = V7c m d := by
  unfold V7c Cert.Layout.visV; dsimp only [ops0]; after_results; rfl
theorem W1_v5 [FloatOps F] (d : Dev nD) : after (ops0 (F := F)) (W0 m d) (R main_v5) = V5c m d := by
  unfold V5c Cert.Layout.deltaV; dsimp only [ops0]; after_results; rfl
theorem W1_v9 [FloatOps F] (d : Dev nD) : after (ops0 (F := F)) (W0 m d) (R main_v9) = V9c m d := by
  unfold V9c Cert.Layout.lenV; dsimp only [ops0]; after_results; rfl
theorem W1_v10 [FloatOps F] (d : Dev nD) : after (ops0 (F := F)) (W0 m d) (R main_v10) = m (v10L d) := by
  dsimp only [ops0]; after_results; rfl
theorem W2_v10 [FloatOps F] (d : Dev nD) : W2 m d (R main_v10) = OUTc m d := Function.update_self _ _ _
theorem W2_ne [FloatOps F] (d : Dev nD) (b : DevRef τ sig) (h : b ≠ R main_v10) : W2 m d b = after (ops0 (F := F)) (W0 m d) b := Function.update_of_ne h _ _

theorem W3_arg0 [FloatOps F] (d : Dev nD) : after (ops1 (F := F)) (W2 m d) (R main_arg0) = m (arg0L d) := by
  dsimp only [ops1]; after_results; rw [W2_ne m d _ (by decide)]; dsimp only [ops0]; after_results; rfl
theorem W3_arg1 [FloatOps F] (d : Dev nD) : after (ops1 (F := F)) (W2 m d) (R main_arg1) = m (arg1L d) := by
  dsimp only [ops1]; after_results; rw [W2_ne m d _ (by decide)]; dsimp only [ops0]; after_results; rfl
theorem W3_arg2 [FloatOps F] (d : Dev nD) : after (ops1 (F := F)) (W2 m d) (R main_arg2) = m (arg2L d) := by
  dsimp only [ops1]; after_results; rw [W2_ne m d _ (by decide)]; dsimp only [ops0]; after_results; rfl
theorem W3_arg3 [FloatOps F] (d : Dev nD) : after (ops1 (F := F)) (W2 m d) (R main_arg3) = m (arg3L d) := by
  dsimp only [ops1]; after_results; rw [W2_ne m d _ (by decide)]; dsimp only [ops0]; after_results; rfl
theorem W3_v13 [FloatOps F] (d : Dev nD) : after (ops1 (F := F)) (W2 m d) (R main_v13) = Cert.Layout.resV (OUTc m d) := by
  unfold Cert.Layout.resV; dsimp only [ops1]; after_results; rw [W2_v10]; rfl

theorem held_S5 (d : Dev nD) (W : Valuation τ sig (Elt F)) :
    (held (d.tc : Thread nD τ) S5 W : sProp 𝕄) = iprop((v2L d ↦{fullShare} W (R main_v2)) ∗ (v7L d ↦{fullShare} W (R main_v7)) ∗ (v5L d ↦{fullShare} W (R main_v5))
      ∗ (v9L d ↦{fullShare} W (R main_v9)) ∗ (v10L d ↦{fullShare} W (R main_v10))) := by
  unfold held S5
  rw [SparseCore.bigSep_insert' (by decide), SparseCore.bigSep_insert' (by decide), SparseCore.bigSep_insert' (by decide), SparseCore.bigSep_insert' (by decide), bigSep_singleton]
theorem held_S6 (d : Dev nD) (W : Valuation τ sig (Elt F)) :
    (held (d.tc : Thread nD τ) S6 W : sProp 𝕄) = iprop((arg0L d ↦{fullShare} W (R main_arg0)) ∗ (arg1L d ↦{fullShare} W (R main_arg1)) ∗ (arg2L d ↦{fullShare} W (R main_arg2))
      ∗ (arg3L d ↦{fullShare} W (R main_arg3)) ∗ (v13L d ↦{fullShare} W (R main_v13))) := by
  unfold held S6
  rw [SparseCore.bigSep_insert' (by decide), SparseCore.bigSep_insert' (by decide), SparseCore.bigSep_insert' (by decide), SparseCore.bigSep_insert' (by decide), bigSep_singleton]

/-! ## The call's operands -/

theorem st0_eq (d : Dev nD) :
    (bigSep Finset.univ fun c : Fin ((K (F := F)).nCore 0) => (P m).st 0 d c)
      = bigSep Finset.univ fun c : Fin 2 => bigSep Finset.univ fun i : Fin 16 => tileG m d (tileIx c i) := by
  show (bigSep (Finset.univ : Finset (Fin 2)) fun c => bigSep (Finset.univ : Finset (Fin 16)) fun i => tileG m d (tileN c.val i.val)) = _
  exact bigSep_congr fun c _ => bigSep_congr fun i _ => by rw [tileN_eq]
theorem dn0_eq (d : Dev nD) :
    (bigSep Finset.univ fun c : Fin ((K (F := F)).nCore 0) => (P m).dn 0 d c)
      = bigSep Finset.univ fun c : Fin 2 => bigSep Finset.univ fun i : Fin 16 => tileT m d (tileIx c i) := by
  show (bigSep (Finset.univ : Finset (Fin 2)) fun c => bigSep (Finset.univ : Finset (Fin 16)) fun i => tileT m d (tileN c.val i.val)) = _
  exact bigSep_congr fun c _ => bigSep_congr fun i _ => by rw [tileN_eq]

/-- What @main leaves the claim: the arguments at their launch contents, the result at the re-laid output. -/
abbrev FIN (d : Dev nD) : sProp 𝕄 :=
  iprop((arg0L d ↦{fullShare} m (arg0L d)) ∗ (arg1L d ↦{fullShare} m (arg1L d)) ∗ (arg2L d ↦{fullShare} m (arg2L d))
    ∗ (arg3L d ↦{fullShare} m (arg3L d)) ∗ (v13L d ↦{fullShare} Cert.Layout.resV (OUTc m d)))

/-- @main on device `d`'s TensorCore. -/
theorem hmain [FloatOps F] (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [show (unscopedBufs d (fun b => m ((SparseCore.T d).loc b)) : sProp 𝕄) = held (d.tc : Thread nD τ) SU (W0 m d) from
    Pipeline.unscopedBufs_held (Ix := HIx 1) (Name := ℕ) (U := UU) (Lvl := ℕ) d (fun b => m (d, b))]
  rw [main_eq]
  iintro ⟨#Hctx, Hst, ⟨Hb, Hheld, -, -⟩, -⟩
  -- the re-layouts of the arguments
  iapply (wp_seq 𝒱 none Set.univ d SU _ (ops0 (F := F)) (fun op hop => Pipeline.sub_ucRefs op ((List.forall_iff_forall_mem.mp ops0_sub) op hop)) ops0_fresh (W0 m d)) $$ [Hb Hheld]
  · isplitl [Hb] <;> iassumption
  iintro ⟨Hb, Hheld⟩
  -- the five arrays of the call, out of all of them
  ihave Hh := (Entails.of_eq (held_sub_split (d.tc : Thread nD τ) S5_sub (after (ops0 (F := F)) (W0 m d)))) $$ Hheld
  icases Hh with ⟨H5, Hrest⟩
  ihave H5' := (Entails.of_eq (held_S5 d (after (ops0 (F := F)) (W0 m d)))) $$ H5
  rw [W1_v2, W1_v7, W1_v5, W1_v9, W1_v10]
  ihave Hsp := (split_all m d) $$ H5'
  icases Hsp with ⟨Htiles, Hunused⟩
  rw [wp_bind]
  iapply ((K (F := F)).wp_run (D (F := F)) 𝒱 (EH := EH) (P := P m) κ d 0) $$ [Hst Htiles Hb Hrest Hunused]
  isplitr; · iexact Hctx
  isplitl [Hst]; · iexact Hst
  isplitl [Htiles]
  · rw [st0_eq]; iexact Htiles
  iintro ⟨Hst, Hdn⟩
  ihave Hdn' := (Entails.of_eq (dn0_eq m d)) $$ Hdn
  ihave Hj := (join_all m d) $$ [Hdn' Hunused]
  · isplitl [Hdn'] <;> iassumption
  -- all the arrays again, the kernel's at what it left
  ihave H5 := (Entails.of_eq ((held_S5 d (W2 m d)).trans (by rw [W2_v10, W2_ne m d _ (by decide), W2_ne m d _ (by decide), W2_ne m d _ (by decide), W2_ne m d _ (by decide), W1_v2, W1_v7, W1_v5, W1_v9])).symm) $$ Hj
  ihave Hrest' := (Entails.of_eq (held_congr (d.tc : Thread nD τ) (S := SU \ S5) (V := after (ops0 (F := F)) (W0 m d)) (V' := W2 m d) (fun b hb => (W2_ne m d b (fun e => (Finset.mem_sdiff.mp hb).2 (e ▸ by decide))).symm))) $$ Hrest
  ihave Hheld := (Entails.of_eq (held_sub_split (d.tc : Thread nD τ) S5_sub (W2 m d)).symm) $$ [H5 Hrest']
  · isplitl [H5] <;> iassumption
  -- the re-layout of the kernel's array
  iapply (wp_seq 𝒱 none Set.univ d SU _ (ops1 (F := F)) (fun op hop => Pipeline.sub_ucRefs op ((List.forall_iff_forall_mem.mp ops1_sub) op hop)) ops1_fresh (W2 m d)) $$ [Hb Hheld]
  · isplitl [Hb] <;> iassumption
  iintro ⟨Hb, Hheld⟩
  ihave Hh := (Entails.of_eq (held_sub_split (d.tc : Thread nD τ) S6_sub (after (ops1 (F := F)) (W2 m d)))) $$ Hheld
  icases Hh with ⟨H6, -⟩
  ihave H6' := (Entails.of_eq ((held_S6 d (after (ops1 (F := F)) (W2 m d))).trans (by rw [W3_arg0, W3_arg1, W3_arg2, W3_arg3, W3_v13]))) $$ H6
  rw [wp_pure]; imodintro
  isplitl [Hst]; · iexact Hst
  iexact H6'

def fq (d : Dev nD) (s' : Phys nD τ sig (Elt F)) : Prop :=
  s'.mem.mem (arg0L d) = m (arg0L d) ∧ s'.mem.mem (arg1L d) = m (arg1L d) ∧ s'.mem.mem (arg2L d) = m (arg2L d)
    ∧ s'.mem.mem (arg3L d) = m (arg3L d) ∧ s'.mem.mem (v13L d) = Cert.Layout.resV (OUTc m d)

theorem agree (ℓ : Loc nD τ sig) (f : Buf (Elt F) ℓ) (s' : Phys nD τ sig (Elt F)) :
    iprop((ℓ ↦{fullShare} f) ∗ SI s') ⊢ iprop(⌜s'.mem.mem ℓ = f⌝ ∗ SI s' : sProp 𝕄) := by
  iintro ⟨Hx, HSI⟩
  ihave H := (persistent_entails_right (SI_pointsTo_agree (st := s') (ℓ := ℓ) (I := Finset.univ) (q := fullShare) (f := f))) $$ [HSI Hx]
  · isplitl [HSI] <;> iassumption
  icases H with ⟨%h1, HSI, -⟩
  isplitr
  · ipureintro; exact funext fun i => h1 i (Finset.mem_univ i)
  · iexact HSI

theorem hfin (d : Dev nD) (s' : Phys nD τ sig (Elt F)) : iprop(FIN m d ∗ SI s') ⊢ (⌜fq m d s'⌝ : sProp 𝕄) := by
  iintro ⟨⟨H0, H1, H2, H3, H13⟩, HSI⟩
  ihave A := (agree (arg0L d) _ s') $$ [H0 HSI]
  · isplitl [H0] <;> iassumption
  icases A with ⟨%h0, HSI⟩
  ihave A := (agree (arg1L d) _ s') $$ [H1 HSI]
  · isplitl [H1] <;> iassumption
  icases A with ⟨%h1, HSI⟩
  ihave A := (agree (arg2L d) _ s') $$ [H2 HSI]
  · isplitl [H2] <;> iassumption
  icases A with ⟨%h2, HSI⟩
  ihave A := (agree (arg3L d) _ s') $$ [H3 HSI]
  · isplitl [H3] <;> iassumption
  icases A with ⟨%h3, HSI⟩
  ihave A := (agree (v13L d) _ s') $$ [H13 HSI]
  · isplitl [H13] <;> iassumption
  icases A with ⟨%h13, -⟩
  ipureintro; exact ⟨h0, h1, h2, h3, h13⟩

end Cert.Proof.KB

end
-- ==== Proof.KBRun.lean ====
/-
  The run of `Kernel` as a whole: every weakly fair execution of the TensorCore's @main and the SparseCores' thirty-four
  threads ends, nothing faults, the four arguments are unchanged and the result is the specification's function of them.
-/
import proofs.«210185_g18468359372994_cont_8to1_1390_15_alg».proof.Proof.KBObl
import proofs.«210185_g18468359372994_cont_8to1_1390_15_alg».proof.Proof.KBMain

noncomputable section

namespace Cert.Proof.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}

variable (m : (ℓ : Loc nD τ sig) → Buf (Elt F) ℓ) (ρ : Dev nD → PrngReg)

/-- What the run ends in: the result the specification's function of the arguments, the arguments unchanged. -/
def QC : PUnit × MemSt nD τ sig (Elt F) → Prop := fun r => ∀ c : Dev nD,
  r.2.mem (v13L c) = Cert.Spec.G (m (arg0L c)) (m (arg1L c)) (m (arg2L c)) (m (arg3L c))
    ∧ r.2.mem (arg0L c) = m (arg0L c) ∧ r.2.mem (arg1L c) = m (arg1L c) ∧ r.2.mem (arg2L c) = m (arg2L c) ∧ r.2.mem (arg3L c) = m (arg3L c)

theorem run_main [FloatOps F] [∀ e, Nonempty (Elt F e)] :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m)
    (fun s' h c => by
      obtain ⟨h0, h1, h2, h3, h13⟩ := h c
      refine ⟨h13.trans ?_, h0, h1, h2, h3⟩
      unfold OUTc
      exact Cert.Layout.resV_outV _ _ _ _ _)

end Cert.Proof.KB

end
-- ==== Proof.RefOps.lean ====
/-
  The reference program's @main as the list of its host operations — each call of the outlined "take" function
  written as the callee's operations over that call's buffers — and its run: every weakly fair execution ends,
  and each buffer then holds the fold of the operations over the launch contents.
-/
import proofs.«210185_g18468359372994_cont_8to1_1390_15_alg».proof.Proof.Gen.ReferenceIdeal
import Idealize.ShloMosaic.Lib.StableHlo.Run

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

/-- @main's 98 operations in order: the two index tables; for each of the four "take" calls the
    callee's twenty-three operations (the index normalisation, the in-range mask, the gather, the fill and the
    select between them) over that call's buffers; the three trailing-axis broadcasts; the concatenation. -/
abbrev ops : List (HloOp τ sig (Elt F)) :=
  [ nullary main_c (fun i => lit0 (S14.rowMajor i)),
    nullary main_c_0 (fun i => lit1 (S14.rowMajor i)),
    TRef.nullary main_call0.c (constantI S_ 32 0#32),
    TRef.unary main_call0.c main_call0.v0 (broadcastInDim S14 ![] bcast_S_S14),
    TRef.binary (.of main_c) main_call0.v0 main_call0.v1 (cmpi .slt),
    TRef.nullary main_call0.c_0 (constantI S_ 32 17#32),
    TRef.unary main_call0.c_0 main_call0.v2 (broadcastInDim S14 ![] bcast_S_S14),
    TRef.binary (.of main_c) main_call0.v2 main_call0.v3 addi,
    TRef.ternary main_call0.v1 main_call0.v3 (.of main_c) main_call0.call0.v0 select,
    TRef.unary main_call0.call0.v0 main_call0.v5 (broadcastInDim S14x1 ![0] bcast_S14_S14x1_0),
    TRef.nullary main_call0.c_1 (constantI S1 32 16#32),
    TRef.nullary main_call0.c_2 (constantI S_ 32 0#32),
    TRef.unary main_call0.c_2 main_call0.v6 (broadcastInDim S14x1 ![] bcast_S_S14x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S14x1 ![0, 1] bcast_S1x1_S14x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S14x1_S14_d1 h_S_),
    TRef.binary (.of main_arg0) main_call0.v5 main_call0.v13 (fun x i => Host.gather gather_S16384x17x2_S14x1_S16384x14x2_02_1_n_n_1_1_1638412 x i),
    TRef.unary main_call0.v12 main_call0.v14 (broadcastInDim S16384x14x2 ![1] bcast_S14_S16384x14x2_1),
    TRef.nullary main_call0.cst (constant S_ .f32 0x7FC00000#32),
    TRef.unary main_call0.cst main_call0.v15 (broadcastInDim S16384x14x2 ![] bcast_S_S16384x14x2),
    TRef.ternary main_call0.v14 main_call0.v13 main_call0.v15 main_call0.v16 select,
    TRef.nullary main_call1.c (constantI S_ 32 0#32),
    TRef.unary main_call1.c main_call1.v0 (broadcastInDim S14 ![] bcast_S_S14),
    TRef.binary (.of main_c_0) main_call1.v0 main_call1.v1 (cmpi .slt),
    TRef.nullary main_call1.c_0 (constantI S_ 32 17#32),
    TRef.unary main_call1.c_0 main_call1.v2 (broadcastInDim S14 ![] bcast_S_S14),
    TRef.binary (.of main_c_0) main_call1.v2 main_call1.v3 addi,
    TRef.ternary main_call1.v1 main_call1.v3 (.of main_c_0) main_call1.call0.v0 select,
    TRef.unary main_call1.call0.v0 main_call1.v5 (broadcastInDim S14x1 ![0] bcast_S14_S14x1_0),
    TRef.nullary main_call1.c_1 (constantI S1 32 16#32),
    TRef.nullary main_call1.c_2 (constantI S_ 32 0#32),
    TRef.unary main_call1.c_2 main_call1.v6 (broadcastInDim S14x1 ![] bcast_S_S14x1),
    TRef.binary main_call1.v5 main_call1.v6 main_call1.v7 (cmpi .sge),
    TRef.unary main_call1.c_1 main_call1.v8 (broadcastInDim S1x1 ![1] bcast_S1_S1x1_1),
    TRef.unary main_call1.v8 main_call1.v9 (broadcastInDim S14x1 ![0, 1] bcast_S1x1_S14x1_0_1),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S14x1_S14_d1 h_S_),
    TRef.binary (.of main_arg0) main_call1.v5 main_call1.v13 (fun x i => Host.gather gather_S16384x17x2_S14x1_S16384x14x2_02_1_n_n_1_1_1638412 x i),
    TRef.unary main_call1.v12 main_call1.v14 (broadcastInDim S16384x14x2 ![1] bcast_S14_S16384x14x2_1),
    TRef.nullary main_call1.cst (constant S_ .f32 0x7FC00000#32),
    TRef.unary main_call1.cst main_call1.v15 (broadcastInDim S16384x14x2 ![] bcast_S_S16384x14x2),
    TRef.ternary main_call1.v14 main_call1.v13 main_call1.v15 main_call1.v16 select,
    TRef.nullary main_call2.c (constantI S_ 32 0#32),
    TRef.unary main_call2.c main_call2.v0 (broadcastInDim S14 ![] bcast_S_S14),
    TRef.binary (.of main_c) main_call2.v0 main_call2.v1 (cmpi .slt),
    TRef.nullary main_call2.c_0 (constantI S_ 32 17#32),
    TRef.unary main_call2.c_0 main_call2.v2 (broadcastInDim S14 ![] bcast_S_S14),
    TRef.binary (.of main_c) main_call2.v2 main_call2.v3 addi,
    TRef.ternary main_call2.v1 main_call2.v3 (.of main_c) main_call2.call0.v0 select,
    TRef.unary main_call2.call0.v0 main_call2.v5 (broadcastInDim S14x1 ![0] bcast_S14_S14x1_0),
    TRef.nullary main_call2.c_1 (constantI S1 32 16#32),
    TRef.nullary main_call2.c_2 (constantI S_ 32 0#32),
    TRef.unary main_call2.c_2 main_call2.v6 (broadcastInDim S14x1 ![] bcast_S_S14x1),
    TRef.binary main_call2.v5 main_call2.v6 main_call2.v7 (cmpi .sge),
    TRef.unary main_call2.c_1 main_call2.v8 (broadcastInDim S1x1 ![1] bcast_S1_S1x1_1),
    TRef.unary main_call2.v8 main_call2.v9 (broadcastInDim S14x1 ![0, 1] bcast_S1x1_S14x1_0_1),
    TRef.binary main_call2.v5 main_call2.v9 main_call2.v10 (cmpi .sle),
    TRef.binary main_call2.v7 main_call2.v10 main_call2.v11 andi,
    TRef.nullary main_call2.c_3 (constantI S_ 1 1#1),
    TRef.binary main_call2.v11 main_call2.c_3 main_call2.v12 (fun x v => Host.reduce IntOp.andi x v reducesTo_S14x1_S14_d1 h_S_),
    TRef.binary (.of main_arg1) main_call2.v5 main_call2.v13 (fun x i => Host.gather gather_S16384x17_S14x1_S16384x14_0_1_n_n_1_1_163841 x i),
    TRef.unary main_call2.v12 main_call2.v14 (broadcastInDim S16384x14 ![1] bcast_S14_S16384x14_1),
    TRef.nullary main_call2.cst (constant S_ .f32 0x7FC00000#32),
    TRef.unary main_call2.cst main_call2.v15 (broadcastInDim S16384x14 ![] bcast_S_S16384x14),
    TRef.ternary main_call2.v14 main_call2.v13 main_call2.v15 main_call2.v16 select,
    TRef.nullary main_call3.c (constantI S_ 32 0#32),
    TRef.unary main_call3.c main_call3.v0 (broadcastInDim S14 ![] bcast_S_S14),
    TRef.binary (.of main_c_0) main_call3.v0 main_call3.v1 (cmpi .slt),
    TRef.nullary main_call3.c_0 (constantI S_ 32 17#32),
    TRef.unary main_call3.c_0 main_call3.v2 (broadcastInDim S14 ![] bcast_S_S14),
    TRef.binary (.of main_c_0) main_call3.v2 main_call3.v3 addi,
    TRef.ternary main_call3.v1 main_call3.v3 (.of main_c_0) main_call3.call0.v0 select,
    TRef.unary main_call3.call0.v0 main_call3.v5 (broadcastInDim S14x1 ![0] bcast_S14_S14x1_0),
    TRef.nullary main_call3.c_1 (constantI S1 32 16#32),
    TRef.nullary main_call3.c_2 (constantI S_ 32 0#32),
    TRef.unary main_call3.c_2 main_call3.v6 (broadcastInDim S14x1 ![] bcast_S_S14x1),
    TRef.binary main_call3.v5 main_call3.v6 main_call3.v7 (cmpi .sge),
    TRef.unary main_call3.c_1 main_call3.v8 (broadcastInDim S1x1 ![1] bcast_S1_S1x1_1),
    TRef.unary main_call3.v8 main_call3.v9 (broadcastInDim S14x1 ![0, 1] bcast_S1x1_S14x1_0_1),
    TRef.binary main_call3.v5 main_call3.v9 main_call3.v10 (cmpi .sle),
    TRef.binary main_call3.v7 main_call3.v10 main_call3.v11 andi,
    TRef.nullary main_call3.c_3 (constantI S_ 1 1#1),
    TRef.binary main_call3.v11 main_call3.c_3 main_call3.v12 (fun x v => Host.reduce IntOp.andi x v reducesTo_S14x1_S14_d1 h_S_),
    TRef.binary (.of main_arg1) main_call3.v5 main_call3.v13 (fun x i => Host.gather gather_S16384x17_S14x1_S16384x14_0_1_n_n_1_1_163841 x i),
    TRef.unary main_call3.v12 main_call3.v14 (broadcastInDim S16384x14 ![1] bcast_S14_S16384x14_1),
    TRef.nullary main_call3.cst (constant S_ .f32 0x7FC00000#32),
    TRef.unary main_call3.cst main_call3.v15 (broadcastInDim S16384x14 ![] bcast_S_S16384x14),
    TRef.ternary main_call3.v14 main_call3.v13 main_call3.v15 main_call3.v16 select,
    unary main_arg3 main_v4 (broadcastInDim S16384x14x1 ![0, 1] bcast_S16384x14_S16384x14x1_0_1 : (⟨S16384x14, .f32⟩ : BufTy).Contents (Elt F) → (⟨S16384x14x1, .f32⟩ : BufTy).Contents (Elt F)),
    unary main_v2 main_v5 (broadcastInDim S16384x14x1 ![0, 1] bcast_S16384x14_S16384x14x1_0_1 : (⟨S16384x14, .f32⟩ : BufTy).Contents (Elt F) → (⟨S16384x14x1, .f32⟩ : BufTy).Contents (Elt F)),
    unary main_v3 main_v6 (broadcastInDim S16384x14x1 ![0, 1] bcast_S16384x14_S16384x14x1_0_1 : (⟨S16384x14, .f32⟩ : BufTy).Contents (Elt F) → (⟨S16384x14x1, .f32⟩ : BufTy).Contents (Elt F)),
    nary ![main_arg2, main_v4, main_v0, main_v1, main_v5, main_v6] main_v7 (fun u => concatenate S16384x14x9 2 [⟨S16384x14x2, u 0⟩, ⟨S16384x14x1, u 1⟩, ⟨S16384x14x2, u 2⟩, ⟨S16384x14x2, u 3⟩, ⟨S16384x14x1, u 4⟩, ⟨S16384x14x1, u 5⟩] concatenates_S16384x14x2_S16384x14x1_S16384x14x2_S16384x14x2_S16384x14x1_S16384x14x1_S16384x14x9_d2) ]

set_option maxRecDepth 4096 in
set_option maxHeartbeats 4000000 in
/-- @main is that straight line: the callees' definitions unfolded at their calls, sequencing reassociated. -/
theorem main_eq (c : Dev nD) : main (F := F) c = seq ops := by
  simp only [main, fn_take.body, fn_take_0.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., nullary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., unary_bufs_sub .., unary_bufs_sub .., unary_bufs_sub .., nary_bufs_sub ..⟩

/-- From any memory with zero counters every weakly fair execution of @main terminates, and each buffer ends at the
    fold of the operations over the launch contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.RefSide

end
-- ==== Proof.RefTerm.lean ====
/-
  The reference's result as one term of its four arguments. One call of "take along axis 1" is three stages — the
  index normalisation (a negative index counts from the end), the in-range mask, and the select between the gathered
  rows and the fill value —; the result is the concatenation of the two offset coordinates, the length, the parent
  and child positions and the parent and child visibilities along the last axis.
-/
import proofs.«210185_g18468359372994_cont_8to1_1390_15_alg».proof.Proof.RefOps

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

/-- The table of parent joints, as the program's constant holds it. -/
def tab0 : IVec S14 32 := fun i => lit0 (S14.rowMajor i)
/-- The table of child joints, as the program's constant holds it. -/
def tab1 : IVec S14 32 := fun i => lit1 (S14.rowMajor i)

/-- The index normalisation of one "take": an index below zero has the axis length 17 added; the result as a
    column of start indices. -/
def normIdx (c : IVec S14 32) : IVec S14x1 32 :=
  broadcastInDim S14x1 ![0] bcast_S14_S14x1_0
    (select (cmpi .slt c (broadcastInDim S14 ![] bcast_S_S14 (constantI S_ 32 0#32)))
      (addi c (broadcastInDim S14 ![] bcast_S_S14 (constantI S_ 32 17#32))) c)

/-- The in-range mask of one "take": per start index, whether it lies in `[0, 16]`. -/
def inRange (i5 : IVec S14x1 32) : IVec S14 1 :=
  Host.reduce IntOp.andi
    (andi (cmpi .sge i5 (broadcastInDim S14x1 ![] bcast_S_S14x1 (constantI S_ 32 0#32)))
      (cmpi .sle i5 (broadcastInDim S14x1 ![0, 1] bcast_S1x1_S14x1_0_1
        (broadcastInDim S1x1 ![1] bcast_S1_S1x1_1 (constantI S1 32 16#32)))))
    (constantI S_ 1 1#1) reducesTo_S14x1_S14_d1 h_S_

/-- One "take" of the positions `[16384, 17, 2]` along the joint axis. -/
def take3 (x : FVec F S16384x17x2 .f32) (c : IVec S14 32) : FVec F S16384x14x2 .f32 :=
  select (broadcastInDim S16384x14x2 ![1] bcast_S14_S16384x14x2_1 (inRange (normIdx c)))
    (Host.gather gather_S16384x17x2_S14x1_S16384x14x2_02_1_n_n_1_1_1638412 x (normIdx c))
    (broadcastInDim S16384x14x2 ![] bcast_S_S16384x14x2 (constant S_ .f32 0x7FC00000#32))

/-- One "take" of the visibilities `[16384, 17]` along the joint axis. -/
def take2 (x : FVec F S16384x17 .f32) (c : IVec S14 32) : FVec F S16384x14 .f32 :=
  select (broadcastInDim S16384x14 ![1] bcast_S14_S16384x14_1 (inRange (normIdx c)))
    (Host.gather gather_S16384x17_S14x1_S16384x14_0_1_n_n_1_1_163841 x (normIdx c))
    (broadcastInDim S16384x14 ![] bcast_S_S16384x14 (constant S_ .f32 0x7FC00000#32))

/-- A `[16384, 14]` array with a trailing unit axis added. -/
def unit3 (x : FVec F S16384x14 .f32) : FVec F S16384x14x1 .f32 :=
  broadcastInDim S16384x14x1 ![0, 1] bcast_S16384x14_S16384x14x1_0_1 x

/-- The whole result: the six pieces laid end to end along the feature axis. -/
def out (p : FVec F S16384x17x2 .f32) (v : FVec F S16384x17 .f32) (d : FVec F S16384x14x2 .f32) (l : FVec F S16384x14 .f32) :
    FVec F S16384x14x9 .f32 :=
  concatenate S16384x14x9 2 [⟨S16384x14x2, d⟩, ⟨S16384x14x1, unit3 l⟩, ⟨S16384x14x2, take3 p tab0⟩, ⟨S16384x14x2, take3 p tab1⟩,
    ⟨S16384x14x1, unit3 (take2 v tab0)⟩, ⟨S16384x14x1, unit3 (take2 v tab1)⟩]
    concatenates_S16384x14x2_S16384x14x1_S16384x14x2_S16384x14x2_S16384x14x1_S16384x14x1_S16384x14x9_d2

section Nary6
variable {nD : Nat} {τ : Topo} {sig : RefSig} {Val : EltTy → Type} {x0 x1 x2 x3 x4 x5 y : Ref sig .tc}

/-- A six-operand operation's result, each operand's contents at its own reference. -/
theorem nary6_result'
    (f : ((k : Fin 6) → ((![x0, x1, x2, x3, x4, x5] : Fin 6 → Ref sig .tc) k).ty.Contents Val) → y.ty.Contents Val) (hxs hy)
    (V : Valuation τ sig Val) :
    (nary (τ := τ) ![x0, x1, x2, x3, x4, x5] y f hxs hy).result V (no_index (Proc.devRef .tc y))
      = f (Fin.cons (V (Proc.devRef .tc x0)) (Fin.cons (V (Proc.devRef .tc x1)) (Fin.cons (V (Proc.devRef .tc x2))
          (Fin.cons (V (Proc.devRef .tc x3)) (Fin.cons (V (Proc.devRef .tc x4)) (Fin.cons (V (Proc.devRef .tc x5)) (fun i => i.elim0))))))) := by
  rw [nary_result]; congr 1; funext k; fin_cases k <;> rfl

end Nary6

/-! ## @main's operations in six consecutive pieces -/

/-- The two index tables. -/
abbrev opsPre : List (HloOp τ sig (Elt F)) :=
  [ nullary main_c (fun i => lit0 (S14.rowMajor i)),
    nullary main_c_0 (fun i => lit1 (S14.rowMajor i)) ]
/-- The first call: the parents' positions. -/
abbrev opsC0 : List (HloOp τ sig (Elt F)) :=
  [ TRef.nullary main_call0.c (constantI S_ 32 0#32),
    TRef.unary main_call0.c main_call0.v0 (broadcastInDim S14 ![] bcast_S_S14),
    TRef.binary (.of main_c) main_call0.v0 main_call0.v1 (cmpi .slt),
    TRef.nullary main_call0.c_0 (constantI S_ 32 17#32),
    TRef.unary main_call0.c_0 main_call0.v2 (broadcastInDim S14 ![] bcast_S_S14),
    TRef.binary (.of main_c) main_call0.v2 main_call0.v3 addi,
    TRef.ternary main_call0.v1 main_call0.v3 (.of main_c) main_call0.call0.v0 select,
    TRef.unary main_call0.call0.v0 main_call0.v5 (broadcastInDim S14x1 ![0] bcast_S14_S14x1_0),
    TRef.nullary main_call0.c_1 (constantI S1 32 16#32),
    TRef.nullary main_call0.c_2 (constantI S_ 32 0#32),
    TRef.unary main_call0.c_2 main_call0.v6 (broadcastInDim S14x1 ![] bcast_S_S14x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S14x1 ![0, 1] bcast_S1x1_S14x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S14x1_S14_d1 h_S_),
    TRef.binary (.of main_arg0) main_call0.v5 main_call0.v13 (fun x i => Host.gather gather_S16384x17x2_S14x1_S16384x14x2_02_1_n_n_1_1_1638412 x i),
    TRef.unary main_call0.v12 main_call0.v14 (broadcastInDim S16384x14x2 ![1] bcast_S14_S16384x14x2_1),
    TRef.nullary main_call0.cst (constant S_ .f32 0x7FC00000#32),
    TRef.unary main_call0.cst main_call0.v15 (broadcastInDim S16384x14x2 ![] bcast_S_S16384x14x2),
    TRef.ternary main_call0.v14 main_call0.v13 main_call0.v15 main_call0.v16 select ]
/-- The second call: the children's positions. -/
abbrev opsC1 : List (HloOp τ sig (Elt F)) :=
  [ TRef.nullary main_call1.c (constantI S_ 32 0#32),
    TRef.unary main_call1.c main_call1.v0 (broadcastInDim S14 ![] bcast_S_S14),
    TRef.binary (.of main_c_0) main_call1.v0 main_call1.v1 (cmpi .slt),
    TRef.nullary main_call1.c_0 (constantI S_ 32 17#32),
    TRef.unary main_call1.c_0 main_call1.v2 (broadcastInDim S14 ![] bcast_S_S14),
    TRef.binary (.of main_c_0) main_call1.v2 main_call1.v3 addi,
    TRef.ternary main_call1.v1 main_call1.v3 (.of main_c_0) main_call1.call0.v0 select,
    TRef.unary main_call1.call0.v0 main_call1.v5 (broadcastInDim S14x1 ![0] bcast_S14_S14x1_0),
    TRef.nullary main_call1.c_1 (constantI S1 32 16#32),
    TRef.nullary main_call1.c_2 (constantI S_ 32 0#32),
    TRef.unary main_call1.c_2 main_call1.v6 (broadcastInDim S14x1 ![] bcast_S_S14x1),
    TRef.binary main_call1.v5 main_call1.v6 main_call1.v7 (cmpi .sge),
    TRef.unary main_call1.c_1 main_call1.v8 (broadcastInDim S1x1 ![1] bcast_S1_S1x1_1),
    TRef.unary main_call1.v8 main_call1.v9 (broadcastInDim S14x1 ![0, 1] bcast_S1x1_S14x1_0_1),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S14x1_S14_d1 h_S_),
    TRef.binary (.of main_arg0) main_call1.v5 main_call1.v13 (fun x i => Host.gather gather_S16384x17x2_S14x1_S16384x14x2_02_1_n_n_1_1_1638412 x i),
    TRef.unary main_call1.v12 main_call1.v14 (broadcastInDim S16384x14x2 ![1] bcast_S14_S16384x14x2_1),
    TRef.nullary main_call1.cst (constant S_ .f32 0x7FC00000#32),
    TRef.unary main_call1.cst main_call1.v15 (broadcastInDim S16384x14x2 ![] bcast_S_S16384x14x2),
    TRef.ternary main_call1.v14 main_call1.v13 main_call1.v15 main_call1.v16 select ]
/-- The third call: the parents' visibilities. -/
abbrev opsC2 : List (HloOp τ sig (Elt F)) :=
  [ TRef.nullary main_call2.c (constantI S_ 32 0#32),
    TRef.unary main_call2.c main_call2.v0 (broadcastInDim S14 ![] bcast_S_S14),
    TRef.binary (.of main_c) main_call2.v0 main_call2.v1 (cmpi .slt),
    TRef.nullary main_call2.c_0 (constantI S_ 32 17#32),
    TRef.unary main_call2.c_0 main_call2.v2 (broadcastInDim S14 ![] bcast_S_S14),
    TRef.binary (.of main_c) main_call2.v2 main_call2.v3 addi,
    TRef.ternary main_call2.v1 main_call2.v3 (.of main_c) main_call2.call0.v0 select,
    TRef.unary main_call2.call0.v0 main_call2.v5 (broadcastInDim S14x1 ![0] bcast_S14_S14x1_0),
    TRef.nullary main_call2.c_1 (constantI S1 32 16#32),
    TRef.nullary main_call2.c_2 (constantI S_ 32 0#32),
    TRef.unary main_call2.c_2 main_call2.v6 (broadcastInDim S14x1 ![] bcast_S_S14x1),
    TRef.binary main_call2.v5 main_call2.v6 main_call2.v7 (cmpi .sge),
    TRef.unary main_call2.c_1 main_call2.v8 (broadcastInDim S1x1 ![1] bcast_S1_S1x1_1),
    TRef.unary main_call2.v8 main_call2.v9 (broadcastInDim S14x1 ![0, 1] bcast_S1x1_S14x1_0_1),
    TRef.binary main_call2.v5 main_call2.v9 main_call2.v10 (cmpi .sle),
    TRef.binary main_call2.v7 main_call2.v10 main_call2.v11 andi,
    TRef.nullary main_call2.c_3 (constantI S_ 1 1#1),
    TRef.binary main_call2.v11 main_call2.c_3 main_call2.v12 (fun x v => Host.reduce IntOp.andi x v reducesTo_S14x1_S14_d1 h_S_),
    TRef.binary (.of main_arg1) main_call2.v5 main_call2.v13 (fun x i => Host.gather gather_S16384x17_S14x1_S16384x14_0_1_n_n_1_1_163841 x i),
    TRef.unary main_call2.v12 main_call2.v14 (broadcastInDim S16384x14 ![1] bcast_S14_S16384x14_1),
    TRef.nullary main_call2.cst (constant S_ .f32 0x7FC00000#32),
    TRef.unary main_call2.cst main_call2.v15 (broadcastInDim S16384x14 ![] bcast_S_S16384x14),
    TRef.ternary main_call2.v14 main_call2.v13 main_call2.v15 main_call2.v16 select ]
/-- The fourth call: the children's visibilities. -/
abbrev opsC3 : List (HloOp τ sig (Elt F)) :=
  [ TRef.nullary main_call3.c (constantI S_ 32 0#32),
    TRef.unary main_call3.c main_call3.v0 (broadcastInDim S14 ![] bcast_S_S14),
    TRef.binary (.of main_c_0) main_call3.v0 main_call3.v1 (cmpi .slt),
    TRef.nullary main_call3.c_0 (constantI S_ 32 17#32),
    TRef.unary main_call3.c_0 main_call3.v2 (broadcastInDim S14 ![] bcast_S_S14),
    TRef.binary (.of main_c_0) main_call3.v2 main_call3.v3 addi,
    TRef.ternary main_call3.v1 main_call3.v3 (.of main_c_0) main_call3.call0.v0 select,
    TRef.unary main_call3.call0.v0 main_call3.v5 (broadcastInDim S14x1 ![0] bcast_S14_S14x1_0),
    TRef.nullary main_call3.c_1 (constantI S1 32 16#32),
    TRef.nullary main_call3.c_2 (constantI S_ 32 0#32),
    TRef.unary main_call3.c_2 main_call3.v6 (broadcastInDim S14x1 ![] bcast_S_S14x1),
    TRef.binary main_call3.v5 main_call3.v6 main_call3.v7 (cmpi .sge),
    TRef.unary main_call3.c_1 main_call3.v8 (broadcastInDim S1x1 ![1] bcast_S1_S1x1_1),
    TRef.unary main_call3.v8 main_call3.v9 (broadcastInDim S14x1 ![0, 1] bcast_S1x1_S14x1_0_1),
    TRef.binary main_call3.v5 main_call3.v9 main_call3.v10 (cmpi .sle),
    TRef.binary main_call3.v7 main_call3.v10 main_call3.v11 andi,
    TRef.nullary main_call3.c_3 (constantI S_ 1 1#1),
    TRef.binary main_call3.v11 main_call3.c_3 main_call3.v12 (fun x v => Host.reduce IntOp.andi x v reducesTo_S14x1_S14_d1 h_S_),
    TRef.binary (.of main_arg1) main_call3.v5 main_call3.v13 (fun x i => Host.gather gather_S16384x17_S14x1_S16384x14_0_1_n_n_1_1_163841 x i),
    TRef.unary main_call3.v12 main_call3.v14 (broadcastInDim S16384x14 ![1] bcast_S14_S16384x14_1),
    TRef.nullary main_call3.cst (constant S_ .f32 0x7FC00000#32),
    TRef.unary main_call3.cst main_call3.v15 (broadcastInDim S16384x14 ![] bcast_S_S16384x14),
    TRef.ternary main_call3.v14 main_call3.v13 main_call3.v15 main_call3.v16 select ]
/-- The three trailing-axis broadcasts and the concatenation. -/
abbrev opsTail : List (HloOp τ sig (Elt F)) :=
  [ unary main_arg3 main_v4 (broadcastInDim S16384x14x1 ![0, 1] bcast_S16384x14_S16384x14x1_0_1 : (⟨S16384x14, .f32⟩ : BufTy).Contents (Elt F) → (⟨S16384x14x1, .f32⟩ : BufTy).Contents (Elt F)),
    unary main_v2 main_v5 (broadcastInDim S16384x14x1 ![0, 1] bcast_S16384x14_S16384x14x1_0_1 : (⟨S16384x14, .f32⟩ : BufTy).Contents (Elt F) → (⟨S16384x14x1, .f32⟩ : BufTy).Contents (Elt F)),
    unary main_v3 main_v6 (broadcastInDim S16384x14x1 ![0, 1] bcast_S16384x14_S16384x14x1_0_1 : (⟨S16384x14, .f32⟩ : BufTy).Contents (Elt F) → (⟨S16384x14x1, .f32⟩ : BufTy).Contents (Elt F)),
    nary ![main_arg2, main_v4, main_v0, main_v1, main_v5, main_v6] main_v7 (fun u => concatenate S16384x14x9 2 [⟨S16384x14x2, u 0⟩, ⟨S16384x14x1, u 1⟩, ⟨S16384x14x2, u 2⟩, ⟨S16384x14x2, u 3⟩, ⟨S16384x14x1, u 4⟩, ⟨S16384x14x1, u 5⟩] concatenates_S16384x14x2_S16384x14x1_S16384x14x2_S16384x14x2_S16384x14x1_S16384x14x1_S16384x14x9_d2) ]

/-- The operations are those pieces in order. -/
theorem ops_split : (ops : List (HloOp τ sig (Elt F))) = opsPre ++ (opsC0 ++ (opsC1 ++ (opsC2 ++ (opsC3 ++ opsTail)))) := rfl

/-- A fold over two lines run one after the other is the second's fold over the first's. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- An operation that writes one reference of a list writes inside the list. -/
theorem writes_sub_of_mem {τ : Topo} {sig : RefSig} {W : List (Ref sig .tc)} {y : Ref sig .tc} (hy : y ∈ W) :
    ({Proc.devRef (τ := τ) .tc y} : Finset (DevRef τ sig)) ⊆ (W.map (Proc.devRef (τ := τ) .tc)).toFinset :=
  Finset.singleton_subset_iff.mpr (List.mem_toFinset.mpr (List.mem_map.mpr ⟨y, hy, rfl⟩))

/-- The references the four calls write, call by call. -/
abbrev W0 : List (Ref sig .tc) := [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v0]
abbrev W1 : List (Ref sig .tc) := [main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v1]
abbrev W2 : List (Ref sig .tc) := [main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_v14, main_call2_cst, main_call2_v15, main_v2]
abbrev W3 : List (Ref sig .tc) := [main_call3_c, main_call3_v0, main_call3_v1, main_call3_c_0, main_call3_v2, main_call3_v3, main_call3_v4, main_call3_v5, main_call3_c_1, main_call3_c_2, main_call3_v6, main_call3_v7, main_call3_v8, main_call3_v9, main_call3_v10, main_call3_v11, main_call3_c_3, main_call3_v12, main_call3_v13, main_call3_v14, main_call3_cst, main_call3_v15, main_v3]

/-- The congruence lemmas that rewriting under the calls' operations asks for, stated once here for the modules that
    import this one. -/
theorem congr_simp_realized : True := by
  have := @TRef.of.congr_simp; have := @Host.reduce.congr_simp; have := @nary.congr_simp
  have := @gather_S16384x17x2_S14x1_S16384x14x2_02_1_n_n_1_1_1638412.congr_simp
  have := @gather_S16384x17_S14x1_S16384x14_0_1_n_n_1_1_163841.congr_simp
  trivial

end Cert.RefSide

end
-- ==== Proof.RefCall0.lean ====
/-
  One call of "take along axis 1" (the parents' positions): what its twenty-three operations leave. The result buffer holds the
  three-stage term of the operand and the index table; every reference outside the call's own buffers keeps its contents.
-/
import proofs.«210185_g18468359372994_cont_8to1_1390_15_alg».proof.Proof.RefTerm

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

/-- Every operation of the call writes one of the call's own buffers. -/
theorem c0_writes : (opsC0 : List (HloOp τ sig (Elt F))).Forall fun op => op.writes ⊆ (W0.map (Proc.devRef (τ := τ) .tc)).toFinset :=
  ⟨writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide)⟩

/-- A reference the call does not write keeps its contents. -/
theorem c0_frame (V : Valuation τ sig (Elt F)) {r : Ref sig .tc} (hr : r ∉ W0) :
    after opsC0 V (Proc.devRef .tc r) = V (Proc.devRef .tc r) :=
  after_of_writes_sub opsC0 V c0_writes hr

attribute [local irreducible] Host.reduce Host.gather in
set_option maxRecDepth 4096 in
/-- The call's result: the select between the gathered rows and the fill, under the in-range mask of the normalised indices. -/
theorem c0_val (V : Valuation τ sig (Elt F)) :
    after opsC0 V (main_v0 : DevRef τ sig) = take3 (V (main_arg0 : DevRef τ sig)) (V (main_c : DevRef τ sig)) := by
  simp (disch := decide) only [after_cons, after_nil, nullary_result', unary_result', binary_result', ternary_result',
    nullary_result_ne', unary_result_ne', binary_result_ne', ternary_result_ne']
  rfl

end Cert.RefSide

end
-- ==== Proof.RefCall1.lean ====
/-
  One call of "take along axis 1" (the children's positions): what its twenty-three operations leave. The result buffer holds the
  three-stage term of the operand and the index table; every reference outside the call's own buffers keeps its contents.
-/
import proofs.«210185_g18468359372994_cont_8to1_1390_15_alg».proof.Proof.RefTerm

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

/-- Every operation of the call writes one of the call's own buffers. -/
theorem c1_writes : (opsC1 : List (HloOp τ sig (Elt F))).Forall fun op => op.writes ⊆ (W1.map (Proc.devRef (τ := τ) .tc)).toFinset :=
  ⟨writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide)⟩

/-- A reference the call does not write keeps its contents. -/
theorem c1_frame (V : Valuation τ sig (Elt F)) {r : Ref sig .tc} (hr : r ∉ W1) :
    after opsC1 V (Proc.devRef .tc r) = V (Proc.devRef .tc r) :=
  after_of_writes_sub opsC1 V c1_writes hr

attribute [local irreducible] Host.reduce Host.gather in
set_option maxRecDepth 4096 in
/-- The call's result: the select between the gathered rows and the fill, under the in-range mask of the normalised indices. -/
theorem c1_val (V : Valuation τ sig (Elt F)) :
    after opsC1 V (main_v1 : DevRef τ sig) = take3 (V (main_arg0 : DevRef τ sig)) (V (main_c_0 : DevRef τ sig)) := by
  simp (disch := decide) only [after_cons, after_nil, nullary_result', unary_result', binary_result', ternary_result',
    nullary_result_ne', unary_result_ne', binary_result_ne', ternary_result_ne']
  rfl

end Cert.RefSide

end
-- ==== Proof.RefCall2.lean ====
/-
  One call of "take along axis 1" (the parents' visibilities): what its twenty-three operations leave. The result buffer holds the
  three-stage term of the operand and the index table; every reference outside the call's own buffers keeps its contents.
-/
import proofs.«210185_g18468359372994_cont_8to1_1390_15_alg».proof.Proof.RefTerm

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

/-- Every operation of the call writes one of the call's own buffers. -/
theorem c2_writes : (opsC2 : List (HloOp τ sig (Elt F))).Forall fun op => op.writes ⊆ (W2.map (Proc.devRef (τ := τ) .tc)).toFinset :=
  ⟨writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide)⟩

/-- A reference the call does not write keeps its contents. -/
theorem c2_frame (V : Valuation τ sig (Elt F)) {r : Ref sig .tc} (hr : r ∉ W2) :
    after opsC2 V (Proc.devRef .tc r) = V (Proc.devRef .tc r) :=
  after_of_writes_sub opsC2 V c2_writes hr

attribute [local irreducible] Host.reduce Host.gather in
set_option maxRecDepth 4096 in
/-- The call's result: the select between the gathered rows and the fill, under the in-range mask of the normalised indices. -/
theorem c2_val (V : Valuation τ sig (Elt F)) :
    after opsC2 V (main_v2 : DevRef τ sig) = take2 (V (main_arg1 : DevRef τ sig)) (V (main_c : DevRef τ sig)) := by
  simp (disch := decide) only [after_cons, after_nil, nullary_result', unary_result', binary_result', ternary_result',
    nullary_result_ne', unary_result_ne', binary_result_ne', ternary_result_ne']
  rfl

end Cert.RefSide

end
-- ==== Proof.RefCall3.lean ====
/-
  One call of "take along axis 1" (the children's visibilities): what its twenty-three operations leave. The result buffer holds the
  three-stage term of the operand and the index table; every reference outside the call's own buffers keeps its contents.
-/
import proofs.«210185_g18468359372994_cont_8to1_1390_15_alg».proof.Proof.RefTerm

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

/-- Every operation of the call writes one of the call's own buffers. -/
theorem c3_writes : (opsC3 : List (HloOp τ sig (Elt F))).Forall fun op => op.writes ⊆ (W3.map (Proc.devRef (τ := τ) .tc)).toFinset :=
  ⟨writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide)⟩

/-- A reference the call does not write keeps its contents. -/
theorem c3_frame (V : Valuation τ sig (Elt F)) {r : Ref sig .tc} (hr : r ∉ W3) :
    after opsC3 V (Proc.devRef .tc r) = V (Proc.devRef .tc r) :=
  after_of_writes_sub opsC3 V c3_writes hr

attribute [local irreducible] Host.reduce Host.gather in
set_option maxRecDepth 4096 in
/-- The call's result: the select between the gathered rows and the fill, under the in-range mask of the normalised indices. -/
theorem c3_val (V : Valuation τ sig (Elt F)) :
    after opsC3 V (main_v3 : DevRef τ sig) = take2 (V (main_arg1 : DevRef τ sig)) (V (main_c_0 : DevRef τ sig)) := by
  simp (disch := decide) only [after_cons, after_nil, nullary_result', unary_result', binary_result', ternary_result',
    nullary_result_ne', unary_result_ne', binary_result_ne', ternary_result_ne']
  rfl

end Cert.RefSide

end
-- ==== Proof.RefOut.lean ====
/-
  The six pieces put together: the fold of all of @main's operations at the result buffer is `out` of the arguments'
  launch contents, and the four argument buffers keep their contents.
-/
import proofs.«210185_g18468359372994_cont_8to1_1390_15_alg».proof.Proof.RefCall0
import proofs.«210185_g18468359372994_cont_8to1_1390_15_alg».proof.Proof.RefCall1
import proofs.«210185_g18468359372994_cont_8to1_1390_15_alg».proof.Proof.RefCall2
import proofs.«210185_g18468359372994_cont_8to1_1390_15_alg».proof.Proof.RefCall3

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

/-- The references the two table constants write, and those the tail writes. -/
abbrev Wp : List (Ref sig .tc) := [main_c, main_c_0]
abbrev Wt : List (Ref sig .tc) := [main_v4, main_v5, main_v6, main_v7]

theorem pre_writes : (opsPre : List (HloOp τ sig (Elt F))).Forall fun op => op.writes ⊆ (Wp.map (Proc.devRef (τ := τ) .tc)).toFinset :=
  ⟨writes_sub_of_mem (by decide), writes_sub_of_mem (by decide)⟩
theorem tail_writes : (opsTail : List (HloOp τ sig (Elt F))).Forall fun op => op.writes ⊆ (Wt.map (Proc.devRef (τ := τ) .tc)).toFinset :=
  ⟨writes_sub_of_mem (by decide), writes_sub_of_mem (by decide), writes_sub_of_mem (by decide), writes_sub_of_mem (by decide)⟩

/-- A reference other than the two tables keeps its contents through the table constants. -/
theorem pre_frame (V : Valuation τ sig (Elt F)) {r : Ref sig .tc} (hr : r ∉ Wp) :
    after opsPre V (Proc.devRef .tc r) = V (Proc.devRef .tc r) := after_of_writes_sub opsPre V pre_writes hr
/-- A reference the tail does not write keeps its contents through it. -/
theorem tail_frame (V : Valuation τ sig (Elt F)) {r : Ref sig .tc} (hr : r ∉ Wt) :
    after opsTail V (Proc.devRef .tc r) = V (Proc.devRef .tc r) := after_of_writes_sub opsTail V tail_writes hr

/-- After the two constants the parents' table buffer holds the parents' table … -/
theorem pre_c (V : Valuation τ sig (Elt F)) : after opsPre V (main_c : DevRef τ sig) = tab0 := by
  simp (disch := decide) only [after_cons, after_nil, nullary_result', nullary_result_ne']
  rfl
/-- … and the children's table buffer the children's table. -/
theorem pre_c_0 (V : Valuation τ sig (Elt F)) : after opsPre V (main_c_0 : DevRef τ sig) = tab1 := by
  simp (disch := decide) only [after_cons, after_nil, nullary_result', nullary_result_ne']
  rfl

/-- What the tail leaves at the result buffer: the six pieces' concatenation, over the contents before it. -/
theorem tail_val (W : Valuation τ sig (Elt F)) :
    after opsTail W (main_v7 : DevRef τ sig)
      = concatenate S16384x14x9 2 [⟨S16384x14x2, W (main_arg2 : DevRef τ sig)⟩, ⟨S16384x14x1, unit3 (W (main_arg3 : DevRef τ sig))⟩,
          ⟨S16384x14x2, W (main_v0 : DevRef τ sig)⟩, ⟨S16384x14x2, W (main_v1 : DevRef τ sig)⟩,
          ⟨S16384x14x1, unit3 (W (main_v2 : DevRef τ sig))⟩, ⟨S16384x14x1, unit3 (W (main_v3 : DevRef τ sig))⟩]
          concatenates_S16384x14x2_S16384x14x1_S16384x14x2_S16384x14x2_S16384x14x1_S16384x14x1_S16384x14x9_d2 := by
  simp (disch := decide) only [after_cons, after_nil, unary_result', nary6_result', unary_result_ne', nary_result_ne']
  rfl

/-- The fold of @main's operations at the result buffer is `out` of the arguments' contents. -/
theorem out_eq (V : Valuation τ sig (Elt F)) :
    after ops V (main_v7 : DevRef τ sig)
      = out (V (main_arg0 : DevRef τ sig)) (V (main_arg1 : DevRef τ sig)) (V (main_arg2 : DevRef τ sig)) (V (main_arg3 : DevRef τ sig)) := by
  rw [ops_split]
  simp only [after_append]
  rw [tail_val]
  have e2 : after opsC3 (after opsC2 (after opsC1 (after opsC0 (after opsPre V)))) (main_arg2 : DevRef τ sig) = V (main_arg2 : DevRef τ sig) := by
    rw [c3_frame (r := main_arg2) _ (by decide), c2_frame (r := main_arg2) _ (by decide), c1_frame (r := main_arg2) _ (by decide), c0_frame (r := main_arg2) _ (by decide), pre_frame (r := main_arg2) _ (by decide)]
  have e3 : after opsC3 (after opsC2 (after opsC1 (after opsC0 (after opsPre V)))) (main_arg3 : DevRef τ sig) = V (main_arg3 : DevRef τ sig) := by
    rw [c3_frame (r := main_arg3) _ (by decide), c2_frame (r := main_arg3) _ (by decide), c1_frame (r := main_arg3) _ (by decide), c0_frame (r := main_arg3) _ (by decide), pre_frame (r := main_arg3) _ (by decide)]
  have ev0 : after opsC3 (after opsC2 (after opsC1 (after opsC0 (after opsPre V)))) (main_v0 : DevRef τ sig) = take3 (V (main_arg0 : DevRef τ sig)) tab0 := by
    rw [c3_frame (r := main_v0) _ (by decide), c2_frame (r := main_v0) _ (by decide), c1_frame (r := main_v0) _ (by decide), c0_val,
      pre_frame (r := main_arg0) _ (by decide), pre_c]
  have ev1 : after opsC3 (after opsC2 (after opsC1 (after opsC0 (after opsPre V)))) (main_v1 : DevRef τ sig) = take3 (V (main_arg0 : DevRef τ sig)) tab1 := by
    rw [c3_frame (r := main_v1) _ (by decide), c2_frame (r := main_v1) _ (by decide), c1_val,
      c0_frame (r := main_arg0) _ (by decide), c0_frame (r := main_c_0) _ (by decide), pre_frame (r := main_arg0) _ (by decide), pre_c_0]
  have ev2 : after opsC3 (after opsC2 (after opsC1 (after opsC0 (after opsPre V)))) (main_v2 : DevRef τ sig) = take2 (V (main_arg1 : DevRef τ sig)) tab0 := by
    rw [c3_frame (r := main_v2) _ (by decide), c2_val,
      c1_frame (r := main_arg1) _ (by decide), c1_frame (r := main_c) _ (by decide),
      c0_frame (r := main_arg1) _ (by decide), c0_frame (r := main_c) _ (by decide), pre_frame (r := main_arg1) _ (by decide), pre_c]
  have ev3 : after opsC3 (after opsC2 (after opsC1 (after opsC0 (after opsPre V)))) (main_v3 : DevRef τ sig) = take2 (V (main_arg1 : DevRef τ sig)) tab1 := by
    rw [c3_val,
      c2_frame (r := main_arg1) _ (by decide), c2_frame (r := main_c_0) _ (by decide),
      c1_frame (r := main_arg1) _ (by decide), c1_frame (r := main_c_0) _ (by decide),
      c0_frame (r := main_arg1) _ (by decide), c0_frame (r := main_c_0) _ (by decide), pre_frame (r := main_arg1) _ (by decide), pre_c_0]
  rw [e2, e3, ev0, ev1, ev2, ev3]
  rfl

/-- Argument 0 keeps its contents through all of @main. -/
theorem arg0_eq (V : Valuation τ sig (Elt F)) : after ops V (main_arg0 : DevRef τ sig) = V (main_arg0 : DevRef τ sig) := by
  rw [ops_split]
  simp only [after_append]
  rw [tail_frame (r := main_arg0) _ (by decide)]
  rw [c3_frame (r := main_arg0) _ (by decide), c2_frame (r := main_arg0) _ (by decide), c1_frame (r := main_arg0) _ (by decide), c0_frame (r := main_arg0) _ (by decide), pre_frame (r := main_arg0) _ (by decide)]

/-- Argument 1 keeps its contents through all of @main. -/
theorem arg1_eq (V : Valuation τ sig (Elt F)) : after ops V (main_arg1 : DevRef τ sig) = V (main_arg1 : DevRef τ sig) := by
  rw [ops_split]
  simp only [after_append]
  rw [tail_frame (r := main_arg1) _ (by decide)]
  rw [c3_frame (r := main_arg1) _ (by decide), c2_frame (r := main_arg1) _ (by decide), c1_frame (r := main_arg1) _ (by decide), c0_frame (r := main_arg1) _ (by decide), pre_frame (r := main_arg1) _ (by decide)]

/-- Argument 2 keeps its contents through all of @main. -/
theorem arg2_eq (V : Valuation τ sig (Elt F)) : after ops V (main_arg2 : DevRef τ sig) = V (main_arg2 : DevRef τ sig) := by
  rw [ops_split]
  simp only [after_append]
  rw [tail_frame (r := main_arg2) _ (by decide)]
  rw [c3_frame (r := main_arg2) _ (by decide), c2_frame (r := main_arg2) _ (by decide), c1_frame (r := main_arg2) _ (by decide), c0_frame (r := main_arg2) _ (by decide), pre_frame (r := main_arg2) _ (by decide)]

/-- Argument 3 keeps its contents through all of @main. -/
theorem arg3_eq (V : Valuation τ sig (Elt F)) : after ops V (main_arg3 : DevRef τ sig) = V (main_arg3 : DevRef τ sig) := by
  rw [ops_split]
  simp only [after_append]
  rw [tail_frame (r := main_arg3) _ (by decide)]
  rw [c3_frame (r := main_arg3) _ (by decide), c2_frame (r := main_arg3) _ (by decide), c1_frame (r := main_arg3) _ (by decide), c0_frame (r := main_arg3) _ (by decide), pre_frame (r := main_arg3) _ (by decide)]

end Cert.RefSide

end
-- ==== Proof.LibGatherAxis1.lean ====
/-
  A gather that takes whole slices along axis 1, read at an index. For an operand `[B, N, C]` (or `[B, N]`) and a
  column `[K, 1]` of start indices, the gather with offset axes `[0, 2]` (or `[0]`), collapsed axis `[1]`, start
  index map `[1]` and slice sizes `[B, 1, C]` (or `[B, 1]`) is what taking `K` entries along axis 1 of an array lowers
  to. Result element `(b, k, c)` is the operand at `(b, n, c)` with `n` the start index `idx[k, 0]` read as a signed
  integer and clamped into `[0, N − 1]`: on axes 0 and 2 the operand index is the result's own coordinate (offset
  axes, start 0), on axis 1 it is the clamped start (a collapsed axis, offset 0). General in every extent and in the
  index width; the rank-1 model is the library's `gather_take_apply`.
-/
import Idealize.ShloMosaic.Lib.ValueIdx

noncomputable section

namespace Cert.LibGatherAxis1

open Idealize.ShloMosaic Idealize.ShloMosaic.ValueIdx

variable {α : Type}

/-- The dimension numbers of a take along axis 1 of an operand `[B, N, C]` at a column `[K, 1]` of start indices, the
    result `[B, K, C]`; their conditions `wf` are decided on a program's literal shapes. -/
abbrev takeAxis1Dims3 (B N K C : Nat)
    (wf : GatherDims.WF ⟨3, ![B, N, C]⟩ ⟨2, ![K, 1]⟩ ⟨3, ![B, K, C]⟩ [0, 2] [1] [] [1] [] 1 ![B, 1, C]) :
    GatherDims ⟨3, ![B, N, C]⟩ ⟨2, ![K, 1]⟩ ⟨3, ![B, K, C]⟩ where
  offsetDims := [0, 2]
  collapsedSliceDims := [1]
  operandBatchingDims := []
  startIndicesBatchingDims := []
  startIndexMap := [1]
  indexVectorDim := 1
  sliceSizes := ![B, 1, C]
  wf := wf

/-- The rank-3 take along axis 1 read at `(b, k, c)`: the operand at `(b, n, c)`, `n` the start index `idx[k, 0]` read
    signed and clamped into `[0, N − 1]`. -/
theorem gather_takeAxis1_3 {B N K C w : Nat} (hN : 0 < N)
    (wf : GatherDims.WF ⟨3, ![B, N, C]⟩ ⟨2, ![K, 1]⟩ ⟨3, ![B, K, C]⟩ [0, 2] [1] [] [1] [] 1 ![B, 1, C])
    (x : (⟨3, ![B, N, C]⟩ : Shape).Idx → α) (idx : IVec ⟨2, ![K, 1]⟩ w) (y : (⟨3, ![B, K, C]⟩ : Shape).Idx) :
    Host.gather (takeAxis1Dims3 B N K C wf) x idx y
      = x (ix3 (y 0 : Fin B) (⟨min (idx (ix2 (y 1 : Fin K) (0 : Fin 1))).toInt.toNat (N - 1), by omega⟩ : Fin N) (y 2 : Fin C)) := by
  unfold Host.gather
  congr 1
  funext a
  refine Fin.ext ?_
  show (takeAxis1Dims3 B N K C wf).start y idx a + (takeAxis1Dims3 B N K C wf).batchCoord y a
    + (takeAxis1Dims3 B N K C wf).offCoord y a = _
  rw [GatherDims.batchCoord_eq_zero _ _ _ List.not_mem_nil, Nat.add_zero]
  match a with
  | ⟨0, h0⟩ =>
    have hn : (⟨0, h0⟩ : Fin 3) ∉ (takeAxis1Dims3 B N K C wf).startIndexMap :=
      fun hm => absurd (congrArg Fin.val (List.mem_singleton.mp hm)) (by show (0 : Nat) ≠ 1; omega)
    have hk : (⟨0, h0⟩ : Fin 3) ∈ (takeAxis1Dims3 B N K C wf).sKept :=
      (GatherDims.mem_sKept _ _).2 ⟨fun hm => absurd (congrArg Fin.val (List.mem_singleton.mp hm)) (by show (0 : Nat) ≠ 1; omega),
        List.not_mem_nil⟩
    have hs : (takeAxis1Dims3 B N K C wf).start y idx ⟨0, h0⟩ = 0 := by
      unfold GatherDims.start; rw [dif_neg hn]
    rw [hs, Nat.zero_add]
    unfold GatherDims.offCoord
    rw [dif_pos hk]
    rfl
  | ⟨1, h1⟩ =>
    have hm : (⟨1, h1⟩ : Fin 3) ∈ (takeAxis1Dims3 B N K C wf).startIndexMap := List.mem_singleton.mpr (Fin.ext rfl)
    have hk : (⟨1, h1⟩ : Fin 3) ∉ (takeAxis1Dims3 B N K C wf).sKept :=
      fun hk => ((GatherDims.mem_sKept _ _).1 hk).1 (List.mem_singleton.mpr (Fin.ext rfl))
    rw [GatherDims.offCoord_eq_zero _ _ _ hk, Nat.add_zero]
    unfold GatherDims.start
    rw [dif_pos hm]
    have hsi : (takeAxis1Dims3 B N K C wf).siIdx y ⟨List.idxOf (⟨1, h1⟩ : Fin 3) (takeAxis1Dims3 B N K C wf).startIndexMap,
        List.idxOf_lt_length_iff.2 hm⟩ = ix2 (y 1 : Fin K) (0 : Fin 1) := by
      funext b; refine Fin.ext ?_
      match b with
      | ⟨0, _⟩ => rfl
      | ⟨1, _⟩ => rfl
    rw [hsi]
    rfl
  | ⟨2, h2⟩ =>
    have hn : (⟨2, h2⟩ : Fin 3) ∉ (takeAxis1Dims3 B N K C wf).startIndexMap :=
      fun hm => absurd (congrArg Fin.val (List.mem_singleton.mp hm)) (by show (2 : Nat) ≠ 1; omega)
    have hk : (⟨2, h2⟩ : Fin 3) ∈ (takeAxis1Dims3 B N K C wf).sKept :=
      (GatherDims.mem_sKept _ _).2 ⟨fun hm => absurd (congrArg Fin.val (List.mem_singleton.mp hm)) (by show (2 : Nat) ≠ 1; omega),
        List.not_mem_nil⟩
    have hs : (takeAxis1Dims3 B N K C wf).start y idx ⟨2, h2⟩ = 0 := by
      unfold GatherDims.start; rw [dif_neg hn]
    rw [hs, Nat.zero_add]
    unfold GatherDims.offCoord
    rw [dif_pos hk]
    rfl

/-- The dimension numbers of a take along axis 1 of an operand `[B, N]` at a column `[K, 1]` of start indices, the
    result `[B, K]`. -/
abbrev takeAxis1Dims2 (B N K : Nat)
    (wf : GatherDims.WF ⟨2, ![B, N]⟩ ⟨2, ![K, 1]⟩ ⟨2, ![B, K]⟩ [0] [1] [] [1] [] 1 ![B, 1]) :
    GatherDims ⟨2, ![B, N]⟩ ⟨2, ![K, 1]⟩ ⟨2, ![B, K]⟩ where
  offsetDims := [0]
  collapsedSliceDims := [1]
  operandBatchingDims := []
  startIndicesBatchingDims := []
  startIndexMap := [1]
  indexVectorDim := 1
  sliceSizes := ![B, 1]
  wf := wf

/-- The rank-2 take along axis 1 read at `(b, k)`: the operand at `(b, n)`, `n` the start index `idx[k, 0]` read signed
    and clamped into `[0, N − 1]`. -/
theorem gather_takeAxis1_2 {B N K w : Nat} (hN : 0 < N)
    (wf : GatherDims.WF ⟨2, ![B, N]⟩ ⟨2, ![K, 1]⟩ ⟨2, ![B, K]⟩ [0] [1] [] [1] [] 1 ![B, 1])
    (x : (⟨2, ![B, N]⟩ : Shape).Idx → α) (idx : IVec ⟨2, ![K, 1]⟩ w) (y : (⟨2, ![B, K]⟩ : Shape).Idx) :
    Host.gather (takeAxis1Dims2 B N K wf) x idx y
      = x (ix2 (y 0 : Fin B) (⟨min (idx (ix2 (y 1 : Fin K) (0 : Fin 1))).toInt.toNat (N - 1), by omega⟩ : Fin N)) := by
  unfold Host.gather
  congr 1
  funext a
  refine Fin.ext ?_
  show (takeAxis1Dims2 B N K wf).start y idx a + (takeAxis1Dims2 B N K wf).batchCoord y a
    + (takeAxis1Dims2 B N K wf).offCoord y a = _
  rw [GatherDims.batchCoord_eq_zero _ _ _ List.not_mem_nil, Nat.add_zero]
  match a with
  | ⟨0, h0⟩ =>
    have hn : (⟨0, h0⟩ : Fin 2) ∉ (takeAxis1Dims2 B N K wf).startIndexMap :=
      fun hm => absurd (congrArg Fin.val (List.mem_singleton.mp hm)) (by show (0 : Nat) ≠ 1; omega)
    have hk : (⟨0, h0⟩ : Fin 2) ∈ (takeAxis1Dims2 B N K wf).sKept :=
      (GatherDims.mem_sKept _ _).2 ⟨fun hm => absurd (congrArg Fin.val (List.mem_singleton.mp hm)) (by show (0 : Nat) ≠ 1; omega),
        List.not_mem_nil⟩
    have hs : (takeAxis1Dims2 B N K wf).start y idx ⟨0, h0⟩ = 0 := by
      unfold GatherDims.start; rw [dif_neg hn]
    rw [hs, Nat.zero_add]
    unfold GatherDims.offCoord
    rw [dif_pos hk]
    rfl
  | ⟨1, h1⟩ =>
    have hm : (⟨1, h1⟩ : Fin 2) ∈ (takeAxis1Dims2 B N K wf).startIndexMap := List.mem_singleton.mpr (Fin.ext rfl)
    have hk : (⟨1, h1⟩ : Fin 2) ∉ (takeAxis1Dims2 B N K wf).sKept :=
      fun hk => ((GatherDims.mem_sKept _ _).1 hk).1 (List.mem_singleton.mpr (Fin.ext rfl))
    rw [GatherDims.offCoord_eq_zero _ _ _ hk, Nat.add_zero]
    unfold GatherDims.start
    rw [dif_pos hm]
    have hsi : (takeAxis1Dims2 B N K wf).siIdx y ⟨List.idxOf (⟨1, h1⟩ : Fin 2) (takeAxis1Dims2 B N K wf).startIndexMap,
        List.idxOf_lt_length_iff.2 hm⟩ = ix2 (y 1 : Fin K) (0 : Fin 1) := by
      funext b; refine Fin.ext ?_
      match b with
      | ⟨0, _⟩ => rfl
      | ⟨1, _⟩ => rfl
    rw [hsi]
    rfl

end Cert.LibGatherAxis1

end
-- ==== Proof.RefValue.lean ====
/-
  The reference's result term is the specification. Each index table is evaluated on its fourteen constant words: the
  normalised, clamped start index of a limb is the limb's joint, and every in-range mask bit is 1, so the fill value is
  never selected. A take along the joint axis read at an index is then the operand at the limb's joint, and the
  concatenation read at a feature coordinate is the piece whose span holds it.
-/
import proofs.«210185_g18468359372994_cont_8to1_1390_15_alg».proof.Proof.RefTerm
import proofs.«210185_g18468359372994_cont_8to1_1390_15_alg».proof.Proof.LibGatherAxis1
import proofs.«210185_g18468359372994_cont_8to1_1390_15_alg».proof.Proof.Spec
import Idealize.ShloMosaic.Lib.Pipeline.Value

noncomputable section

namespace Cert.RefSide

open Cert.ReferenceIdeal Cert.ReferenceIdeal.Gen Idealize.ShloMosaic Idealize.ShloMosaic.ValueIdx Cert.LibGatherAxis1

variable {F : FTy → Type} [FloatOps F]

/-- The normalised start index of limb `l` in the parents' table, clamped into the joint axis, is the limb's parent joint:
    computed on the fourteen constant words. -/
theorem clamp_tab0 (l : Fin 14) :
    min (normIdx tab0 (ix2 l (0 : Fin 1))).toInt.toNat (17 - 1) = (Cert.Spec.parent l).val := by
  fin_cases l <;> rfl

/-- Every start index of the parents' table is in range: the mask bit of each limb is 1, computed on the fourteen
    constant words. -/
theorem inRange_tab0 (l : Fin 14) : inRange (normIdx tab0) (ix1 l) = 1#1 := by
  fin_cases l <;> decide

/-- The take of the positions at the parents' table, read at an index: the position of the limb's parent joint. -/
theorem take3_tab0_apply (x : FVec F S16384x17x2 .f32) (b : Fin 16384) (k : Fin 14) (f : Fin 2) :
    take3 x tab0 (ix3 b k f) = x (ix3 b (Cert.Spec.parent k) f) := by
  unfold take3
  have hm : broadcastInDim S16384x14x2 ![1] bcast_S14_S16384x14x2_1 (inRange (normIdx tab0)) (ix3 b k f) = 1#1 :=
    (broadcastInDim_apply _ _ _ (ix3 b k f) (ix1 k) (fun a => match a with | ⟨0, _⟩ => rfl)).trans (inRange_tab0 k)
  rw [select_apply, hm, select_one]
  have hg : gather_S16384x17x2_S14x1_S16384x14x2_02_1_n_n_1_1_1638412 = takeAxis1Dims3 16384 17 14 2 gather_S16384x17x2_S14x1_S16384x14x2_02_1_n_n_1_1_1638412_wf := rfl
  rw [hg, gather_takeAxis1_3 (by omega)]
  refine congrArg x (funext fun a => ?_)
  match a with
  | ⟨0, _⟩ => rfl
  | ⟨1, _⟩ => exact Fin.ext (clamp_tab0 k)
  | ⟨2, _⟩ => rfl

/-- The take of the visibilities at the parents' table, read at an index: the visibility of the limb's parent joint. -/
theorem take2_tab0_apply (x : FVec F S16384x17 .f32) (b : Fin 16384) (k : Fin 14) :
    take2 x tab0 (ix2 b k) = x (ix2 b (Cert.Spec.parent k)) := by
  unfold take2
  have hm : broadcastInDim S16384x14 ![1] bcast_S14_S16384x14_1 (inRange (normIdx tab0)) (ix2 b k) = 1#1 :=
    (broadcastInDim_apply _ _ _ (ix2 b k) (ix1 k) (fun a => match a with | ⟨0, _⟩ => rfl)).trans (inRange_tab0 k)
  rw [select_apply, hm, select_one]
  have hg : gather_S16384x17_S14x1_S16384x14_0_1_n_n_1_1_163841 = takeAxis1Dims2 16384 17 14 gather_S16384x17_S14x1_S16384x14_0_1_n_n_1_1_163841_wf := rfl
  rw [hg, gather_takeAxis1_2 (by omega)]
  refine congrArg x (funext fun a => ?_)
  match a with
  | ⟨0, _⟩ => rfl
  | ⟨1, _⟩ => exact Fin.ext (clamp_tab0 k)

/-- The normalised start index of limb `l` in the children's table, clamped into the joint axis, is the limb's child joint:
    computed on the fourteen constant words. -/
theorem clamp_tab1 (l : Fin 14) :
    min (normIdx tab1 (ix2 l (0 : Fin 1))).toInt.toNat (17 - 1) = (Cert.Spec.child l).val := by
  fin_cases l <;> rfl

/-- Every start index of the children's table is in range: the mask bit of each limb is 1, computed on the fourteen
    constant words. -/
theorem inRange_tab1 (l : Fin 14) : inRange (normIdx tab1) (ix1 l) = 1#1 := by
  fin_cases l <;> decide

/-- The take of the positions at the children's table, read at an index: the position of the limb's child joint. -/
theorem take3_tab1_apply (x : FVec F S16384x17x2 .f32) (b : Fin 16384) (k : Fin 14) (f : Fin 2) :
    take3 x tab1 (ix3 b k f) = x (ix3 b (Cert.Spec.child k) f) := by
  unfold take3
  have hm : broadcastInDim S16384x14x2 ![1] bcast_S14_S16384x14x2_1 (inRange (normIdx tab1)) (ix3 b k f) = 1#1 :=
    (broadcastInDim_apply _ _ _ (ix3 b k f) (ix1 k) (fun a => match a with | ⟨0, _⟩ => rfl)).trans (inRange_tab1 k)
  rw [select_apply, hm, select_one]
  have hg : gather_S16384x17x2_S14x1_S16384x14x2_02_1_n_n_1_1_1638412 = takeAxis1Dims3 16384 17 14 2 gather_S16384x17x2_S14x1_S16384x14x2_02_1_n_n_1_1_1638412_wf := rfl
  rw [hg, gather_takeAxis1_3 (by omega)]
  refine congrArg x (funext fun a => ?_)
  match a with
  | ⟨0, _⟩ => rfl
  | ⟨1, _⟩ => exact Fin.ext (clamp_tab1 k)
  | ⟨2, _⟩ => rfl

/-- The take of the visibilities at the children's table, read at an index: the visibility of the limb's child joint. -/
theorem take2_tab1_apply (x : FVec F S16384x17 .f32) (b : Fin 16384) (k : Fin 14) :
    take2 x tab1 (ix2 b k) = x (ix2 b (Cert.Spec.child k)) := by
  unfold take2
  have hm : broadcastInDim S16384x14 ![1] bcast_S14_S16384x14_1 (inRange (normIdx tab1)) (ix2 b k) = 1#1 :=
    (broadcastInDim_apply _ _ _ (ix2 b k) (ix1 k) (fun a => match a with | ⟨0, _⟩ => rfl)).trans (inRange_tab1 k)
  rw [select_apply, hm, select_one]
  have hg : gather_S16384x17_S14x1_S16384x14_0_1_n_n_1_1_163841 = takeAxis1Dims2 16384 17 14 gather_S16384x17_S14x1_S16384x14_0_1_n_n_1_1_163841_wf := rfl
  rw [hg, gather_takeAxis1_2 (by omega)]
  refine congrArg x (funext fun a => ?_)
  match a with
  | ⟨0, _⟩ => rfl
  | ⟨1, _⟩ => exact Fin.ext (clamp_tab1 k)

/-- A trailing unit axis read at an index: the array at the two leading coordinates. -/
theorem unit3_apply (x : FVec F S16384x14 .f32) (b : Fin 16384) (k : Fin 14) :
    unit3 x (ix3 b k (0 : Fin 1)) = x (ix2 b k) :=
  broadcastInDim_apply _ _ _ (ix3 b k (0 : Fin 1)) (ix2 b k) (fun a => match a with | ⟨0, _⟩ => rfl | ⟨1, _⟩ => rfl)

/-- The reference's result term is the specification, entry by entry. -/
theorem out_eq_G (p : FVec F S16384x17x2 .f32) (v : FVec F S16384x17 .f32) (d : FVec F S16384x14x2 .f32) (l : FVec F S16384x14 .f32) :
    out p v d l = Cert.Spec.G p v d l := by
  funext i
  obtain ⟨b, k, f, rfl⟩ : ∃ (b : Fin 16384) (k : Fin 14) (f : Fin 9), i = ix3 b k f := ⟨i 0, i 1, i 2, eq_ix3 i⟩
  show out p v d l (ix3 b k f) = Cert.Spec.feat p v d l b k f
  unfold out
  match f with
  | ⟨0, hf⟩ =>
    refine (concatenate_apply_piece (t := S16384x14x9) 2
      [⟨S16384x14x2, d⟩, ⟨S16384x14x1, unit3 l⟩, ⟨S16384x14x2, take3 p tab0⟩, ⟨S16384x14x2, take3 p tab1⟩, ⟨S16384x14x1, unit3 (take2 v tab0)⟩, ⟨S16384x14x1, unit3 (take2 v tab1)⟩]
      concatenates_S16384x14x2_S16384x14x1_S16384x14x2_S16384x14x2_S16384x14x1_S16384x14x1_S16384x14x9_d2 (ix3 b k (⟨0, hf⟩ : Fin 9)) 0 (by simp) S16384x14x2 (d) rfl rfl 0 rfl
      (ix3 b k (0 : Fin 2)) (fun a ha => match a, ha with
        | ⟨0, _⟩, _ => rfl
        | ⟨1, _⟩, _ => rfl
        | ⟨2, _⟩, ha => absurd (Fin.ext rfl) ha) rfl).trans ?_
    rfl
  | ⟨1, hf⟩ =>
    refine (concatenate_apply_piece (t := S16384x14x9) 2
      [⟨S16384x14x2, d⟩, ⟨S16384x14x1, unit3 l⟩, ⟨S16384x14x2, take3 p tab0⟩, ⟨S16384x14x2, take3 p tab1⟩, ⟨S16384x14x1, unit3 (take2 v tab0)⟩, ⟨S16384x14x1, unit3 (take2 v tab1)⟩]
      concatenates_S16384x14x2_S16384x14x1_S16384x14x2_S16384x14x2_S16384x14x1_S16384x14x1_S16384x14x9_d2 (ix3 b k (⟨1, hf⟩ : Fin 9)) 0 (by simp) S16384x14x2 (d) rfl rfl 0 rfl
      (ix3 b k (1 : Fin 2)) (fun a ha => match a, ha with
        | ⟨0, _⟩, _ => rfl
        | ⟨1, _⟩, _ => rfl
        | ⟨2, _⟩, ha => absurd (Fin.ext rfl) ha) rfl).trans ?_
    rfl
  | ⟨2, hf⟩ =>
    refine (concatenate_apply_piece (t := S16384x14x9) 2
      [⟨S16384x14x2, d⟩, ⟨S16384x14x1, unit3 l⟩, ⟨S16384x14x2, take3 p tab0⟩, ⟨S16384x14x2, take3 p tab1⟩, ⟨S16384x14x1, unit3 (take2 v tab0)⟩, ⟨S16384x14x1, unit3 (take2 v tab1)⟩]
      concatenates_S16384x14x2_S16384x14x1_S16384x14x2_S16384x14x2_S16384x14x1_S16384x14x1_S16384x14x9_d2 (ix3 b k (⟨2, hf⟩ : Fin 9)) 1 (by simp) S16384x14x1 (unit3 l) rfl rfl 2 rfl
      (ix3 b k (0 : Fin 1)) (fun a ha => match a, ha with
        | ⟨0, _⟩, _ => rfl
        | ⟨1, _⟩, _ => rfl
        | ⟨2, _⟩, ha => absurd (Fin.ext rfl) ha) rfl).trans ?_
    exact unit3_apply l b k
  | ⟨3, hf⟩ =>
    refine (concatenate_apply_piece (t := S16384x14x9) 2
      [⟨S16384x14x2, d⟩, ⟨S16384x14x1, unit3 l⟩, ⟨S16384x14x2, take3 p tab0⟩, ⟨S16384x14x2, take3 p tab1⟩, ⟨S16384x14x1, unit3 (take2 v tab0)⟩, ⟨S16384x14x1, unit3 (take2 v tab1)⟩]
      concatenates_S16384x14x2_S16384x14x1_S16384x14x2_S16384x14x2_S16384x14x1_S16384x14x1_S16384x14x9_d2 (ix3 b k (⟨3, hf⟩ : Fin 9)) 2 (by simp) S16384x14x2 (take3 p tab0) rfl rfl 3 rfl
      (ix3 b k (0 : Fin 2)) (fun a ha => match a, ha with
        | ⟨0, _⟩, _ => rfl
        | ⟨1, _⟩, _ => rfl
        | ⟨2, _⟩, ha => absurd (Fin.ext rfl) ha) rfl).trans ?_
    exact take3_tab0_apply p b k (0 : Fin 2)
  | ⟨4, hf⟩ =>
    refine (concatenate_apply_piece (t := S16384x14x9) 2
      [⟨S16384x14x2, d⟩, ⟨S16384x14x1, unit3 l⟩, ⟨S16384x14x2, take3 p tab0⟩, ⟨S16384x14x2, take3 p tab1⟩, ⟨S16384x14x1, unit3 (take2 v tab0)⟩, ⟨S16384x14x1, unit3 (take2 v tab1)⟩]
      concatenates_S16384x14x2_S16384x14x1_S16384x14x2_S16384x14x2_S16384x14x1_S16384x14x1_S16384x14x9_d2 (ix3 b k (⟨4, hf⟩ : Fin 9)) 2 (by simp) S16384x14x2 (take3 p tab0) rfl rfl 3 rfl
      (ix3 b k (1 : Fin 2)) (fun a ha => match a, ha with
        | ⟨0, _⟩, _ => rfl
        | ⟨1, _⟩, _ => rfl
        | ⟨2, _⟩, ha => absurd (Fin.ext rfl) ha) rfl).trans ?_
    exact take3_tab0_apply p b k (1 : Fin 2)
  | ⟨5, hf⟩ =>
    refine (concatenate_apply_piece (t := S16384x14x9) 2
      [⟨S16384x14x2, d⟩, ⟨S16384x14x1, unit3 l⟩, ⟨S16384x14x2, take3 p tab0⟩, ⟨S16384x14x2, take3 p tab1⟩, ⟨S16384x14x1, unit3 (take2 v tab0)⟩, ⟨S16384x14x1, unit3 (take2 v tab1)⟩]
      concatenates_S16384x14x2_S16384x14x1_S16384x14x2_S16384x14x2_S16384x14x1_S16384x14x1_S16384x14x9_d2 (ix3 b k (⟨5, hf⟩ : Fin 9)) 3 (by simp) S16384x14x2 (take3 p tab1) rfl rfl 5 rfl
      (ix3 b k (0 : Fin 2)) (fun a ha => match a, ha with
        | ⟨0, _⟩, _ => rfl
        | ⟨1, _⟩, _ => rfl
        | ⟨2, _⟩, ha => absurd (Fin.ext rfl) ha) rfl).trans ?_
    exact take3_tab1_apply p b k (0 : Fin 2)
  | ⟨6, hf⟩ =>
    refine (concatenate_apply_piece (t := S16384x14x9) 2
      [⟨S16384x14x2, d⟩, ⟨S16384x14x1, unit3 l⟩, ⟨S16384x14x2, take3 p tab0⟩, ⟨S16384x14x2, take3 p tab1⟩, ⟨S16384x14x1, unit3 (take2 v tab0)⟩, ⟨S16384x14x1, unit3 (take2 v tab1)⟩]
      concatenates_S16384x14x2_S16384x14x1_S16384x14x2_S16384x14x2_S16384x14x1_S16384x14x1_S16384x14x9_d2 (ix3 b k (⟨6, hf⟩ : Fin 9)) 3 (by simp) S16384x14x2 (take3 p tab1) rfl rfl 5 rfl
      (ix3 b k (1 : Fin 2)) (fun a ha => match a, ha with
        | ⟨0, _⟩, _ => rfl
        | ⟨1, _⟩, _ => rfl
        | ⟨2, _⟩, ha => absurd (Fin.ext rfl) ha) rfl).trans ?_
    exact take3_tab1_apply p b k (1 : Fin 2)
  | ⟨7, hf⟩ =>
    refine (concatenate_apply_piece (t := S16384x14x9) 2
      [⟨S16384x14x2, d⟩, ⟨S16384x14x1, unit3 l⟩, ⟨S16384x14x2, take3 p tab0⟩, ⟨S16384x14x2, take3 p tab1⟩, ⟨S16384x14x1, unit3 (take2 v tab0)⟩, ⟨S16384x14x1, unit3 (take2 v tab1)⟩]
      concatenates_S16384x14x2_S16384x14x1_S16384x14x2_S16384x14x2_S16384x14x1_S16384x14x1_S16384x14x9_d2 (ix3 b k (⟨7, hf⟩ : Fin 9)) 4 (by simp) S16384x14x1 (unit3 (take2 v tab0)) rfl rfl 7 rfl
      (ix3 b k (0 : Fin 1)) (fun a ha => match a, ha with
        | ⟨0, _⟩, _ => rfl
        | ⟨1, _⟩, _ => rfl
        | ⟨2, _⟩, ha => absurd (Fin.ext rfl) ha) rfl).trans ?_
    exact (unit3_apply _ b k).trans (take2_tab0_apply v b k)
  | ⟨8, hf⟩ =>
    refine (concatenate_apply_piece (t := S16384x14x9) 2
      [⟨S16384x14x2, d⟩, ⟨S16384x14x1, unit3 l⟩, ⟨S16384x14x2, take3 p tab0⟩, ⟨S16384x14x2, take3 p tab1⟩, ⟨S16384x14x1, unit3 (take2 v tab0)⟩, ⟨S16384x14x1, unit3 (take2 v tab1)⟩]
      concatenates_S16384x14x2_S16384x14x1_S16384x14x2_S16384x14x2_S16384x14x1_S16384x14x1_S16384x14x9_d2 (ix3 b k (⟨8, hf⟩ : Fin 9)) 5 (by simp) S16384x14x1 (unit3 (take2 v tab1)) rfl rfl 8 rfl
      (ix3 b k (0 : Fin 1)) (fun a ha => match a, ha with
        | ⟨0, _⟩, _ => rfl
        | ⟨1, _⟩, _ => rfl
        | ⟨2, _⟩, ha => absurd (Fin.ext rfl) ha) rfl).trans ?_
    exact (unit3_apply _ b k).trans (take2_tab1_apply v b k)
  | ⟨n + 9, hf⟩ => exact absurd hf (by omega)

end Cert.RefSide

end
-- ==== Proof.RefSide.lean ====
/-
  The reference's run, in closed form: from any memory with zero counters every weakly fair execution of the reference
  program terminates; the result buffer then holds the specification `Cert.Spec.G` of the four argument arrays' launch
  contents, and the argument buffers are unchanged. The result is a pure re-indexing of the arguments, so nothing is
  assumed of them.
-/
import proofs.«210185_g18468359372994_cont_8to1_1390_15_alg».proof.Proof.RefOut
import proofs.«210185_g18468359372994_cont_8to1_1390_15_alg».proof.Proof.RefValue

noncomputable section

namespace Cert.RefSide

open Idealize.ShloMosaic Idealize.ShloMosaic.TcCoe Idealize.SL.Sem Idealize.ShloMosaic.StableHlo

theorem run
    (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => ∀ c : Dev Cert.ReferenceIdeal.nD,
        r.2.mem ((c.tc : Thread Cert.ReferenceIdeal.nD Cert.ReferenceIdeal.τ).loc Cert.ReferenceIdeal.main_v7)
            = Cert.Spec.G (m ((c.tc : Thread Cert.ReferenceIdeal.nD Cert.ReferenceIdeal.τ).loc Cert.ReferenceIdeal.main_arg0))
                          (m ((c.tc : Thread Cert.ReferenceIdeal.nD Cert.ReferenceIdeal.τ).loc Cert.ReferenceIdeal.main_arg1))
                          (m ((c.tc : Thread Cert.ReferenceIdeal.nD Cert.ReferenceIdeal.τ).loc Cert.ReferenceIdeal.main_arg2))
                          (m ((c.tc : Thread Cert.ReferenceIdeal.nD Cert.ReferenceIdeal.τ).loc Cert.ReferenceIdeal.main_arg3))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)) :=
  (θ_run (Cert.ReferenceIdeal.defs (F := Ideal)) _ _).mono
    (fun _ h c => ⟨(h c Cert.ReferenceIdeal.main_v7).trans ((out_eq _).trans (out_eq_G _ _ _ _)),
      (h c Cert.ReferenceIdeal.main_arg0).trans (arg0_eq _),
      (h c Cert.ReferenceIdeal.main_arg1).trans (arg1_eq _),
      (h c Cert.ReferenceIdeal.main_arg2).trans (arg2_eq _),
      (h c Cert.ReferenceIdeal.main_arg3).trans (arg3_eq _)⟩)
    (run_fold m ρ)

end Cert.RefSide

end
-- ==== Proof.lean ====
/-
  The five claims. Both printed kernels are one program of data movement: thirty-two tiles each copy a few whole
  slices of the re-laid arguments into the slices of the output array that need them, and @main re-lays that array
  into the result. The word-level kernel and its idealization run, fault nowhere and leave the arguments unchanged
  (their runs, with the values forgotten); the reference runs likewise; the idealization rewrote nothing; and at the
  ideal instance the kernel's result and the reference's are the same function of the arguments: every entry of the
  result is one entry of one argument, the same entry on both sides.
-/
import proofs.«210185_g18468359372994_cont_8to1_1390_15_alg».proof.Defs
import proofs.«210185_g18468359372994_cont_8to1_1390_15_alg».proof.Proof.Gen.Kernel
import proofs.«210185_g18468359372994_cont_8to1_1390_15_alg».proof.Proof.Gen.KernelIdeal
import proofs.«210185_g18468359372994_cont_8to1_1390_15_alg».proof.Proof.Gen.ReferenceIdeal
import proofs.«210185_g18468359372994_cont_8to1_1390_15_alg».proof.Proof.Gen.Pre_finite_inputs
import proofs.«210185_g18468359372994_cont_8to1_1390_15_alg».proof.Proof.KIRun
import proofs.«210185_g18468359372994_cont_8to1_1390_15_alg».proof.Proof.KBRun
import proofs.«210185_g18468359372994_cont_8to1_1390_15_alg».proof.Proof.RefSide
import Idealize.ShloMosaic.Adequacy
import Idealize.ShloMosaic.Init

noncomputable section

namespace Cert.Proof

open Idealize.ShloMosaic Idealize.SL.Sem

/-- The word-level kernel runs and leaves its arguments unchanged. -/
theorem frame_k : Cert.frame_Kernel := fun m ρ _ =>
  (θ_run Cert.Kernel.defs _ _).mono (fun _ h c => (h c).2) (Cert.Proof.KB.run_main (F := Bits) m ρ)

/-- So does its idealization. -/
theorem frame_ki : Cert.frame_KernelIdeal := fun m ρ _ =>
  (θ_run Cert.KernelIdeal.defs _ _).mono (fun _ h c => (h c).2) (Cert.Proof.KI.run_main (F := Ideal) m ρ)

/-- So does the reference. -/
theorem frame_ri : Cert.frame_ReferenceIdeal := fun m ρ _ =>
  (θ_run Cert.ReferenceIdeal.defs _ _).mono (fun _ h c => (h c).2) (Cert.RefSide.run m ρ)

/-- At the ideal instance both results are the specification's function of the arguments, which agree. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.Proof.KI.run_main (F := Ideal) m ρ, ?_⟩
  refine (θ_run Cert.ReferenceIdeal.defs _ _).mono (fun _ h c => ⟨(h c).1.trans ?_, (h c).2⟩) (Cert.RefSide.run m' ρ')
  rw [(hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
